-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096 : Shape := ⟨1, ![4096]⟩
abbrev S4096x50 : Shape := ⟨2, ![4096, 50]⟩
abbrev S100000x64 : Shape := ⟨2, ![100000, 64]⟩
abbrev S5x64 : Shape := ⟨2, ![5, 64]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S5x64 : S_.BroadcastsInDim S5x64 (![] : Fin 0 → Fin S5x64.rank)
  reducesTo_S5x64_S_d0_1 : S5x64.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  bcast_S_S4096 : S_.BroadcastsInDim S4096 (![] : Fin 0 → Fin S4096.rank)
  reducesTo_S4096_S_d0 : S4096.ReducesTo [0] S_
  bcast_S_S4096x50 : S_.BroadcastsInDim S4096x50 (![] : Fin 0 → Fin S4096x50.rank)
  reducesTo_S4096x50_S_d0_1 : S4096x50.ReducesTo [0, 1] S_

variable [Facts]

def fn_part4 {F : FTy → Type} [FloatOps F] (main_arg1 : IVec S4096x50 32) (main_arg2 : IVec S4096x50 32) (main_v63 : IVec S_ 1) (main_v65 : IVec S4096 1) (main_v67 : IVec S4096 1) : IVec S_ 1 :=
  let main_v68 : IVec S4096 1 := andi main_v65 main_v67
  let main_c_26 : IVec S_ 1 := constantI S_ 1 1#1
  let main_v69 : IVec S_ 1 := (fun x v => Host.reduce IntOp.andi x v reducesTo_S4096_S_d0 h_S_) main_v68 main_c_26
  let main_v70 : IVec S_ 1 := andi main_v63 main_v69
  let main_c_27 : IVec S_ 32 := constantI S_ 32 0#32
  let main_v71 : IVec S4096x50 32 := broadcastInDim S4096x50 ![] bcast_S_S4096x50 main_c_27
  let main_v72 : IVec S4096x50 1 := cmpi .sge main_arg1 main_v71
  let main_c_28 : IVec S_ 32 := constantI S_ 32 99999#32
  let main_v73 : IVec S4096x50 32 := broadcastInDim S4096x50 ![] bcast_S_S4096x50 main_c_28
  let main_v74 : IVec S4096x50 1 := cmpi .sle main_arg1 main_v73
  let main_v75 : IVec S4096x50 1 := andi main_v72 main_v74
  let main_c_29 : IVec S_ 1 := constantI S_ 1 1#1
  let main_v76 : IVec S_ 1 := (fun x v => Host.reduce IntOp.andi x v reducesTo_S4096x50_S_d0_1 h_S_) main_v75 main_c_29
  let main_v77 : IVec S_ 1 := andi main_v70 main_v76
  let main_c_30 : IVec S_ 32 := constantI S_ 32 0#32
  let main_v78 : IVec S4096x50 32 := broadcastInDim S4096x50 ![] bcast_S_S4096x50 main_c_30
  let main_v79 : IVec S4096x50 1 := cmpi .sge main_arg2 main_v78
  let main_c_31 : IVec S_ 32 := constantI S_ 32 4#32
  let main_v80 : IVec S4096x50 32 := broadcastInDim S4096x50 ![] bcast_S_S4096x50 main_c_31
  let main_v81 : IVec S4096x50 1 := cmpi .sle main_arg2 main_v80
  let main_v82 : IVec S4096x50 1 := andi main_v79 main_v81
  let main_c_32 : IVec S_ 1 := constantI S_ 1 1#1
  let main_v83 : IVec S_ 1 := (fun x v => Host.reduce IntOp.andi x v reducesTo_S4096x50_S_d0_1 h_S_) main_v82 main_c_32
  let main_v84 : IVec S_ 1 := andi main_v77 main_v83
  main_v84

def fn_part3 {F : FTy → Type} [FloatOps F] (main_arg0 : IVec S4096 32) (main_arg1 : IVec S4096x50 32) (main_arg2 : IVec S4096x50 32) (main_arg14 : FVec F S1x64 .f32) (main_arg15 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S1x64 .f32 := Host.absf main_arg14
  let main_cst_20 : FVec F S_ .f32 := constant S_ .f32 0x7F800000#32
  let main_v55 : FVec F S1x64 .f32 := broadcastInDim S1x64 ![] bcast_S_S1x64 main_cst_20
  let main_v56 : IVec S1x64 1 := cmpf .olt main_v54 main_v55
  let main_c_21 : IVec S_ 1 := constantI S_ 1 1#1
  let main_v57 : IVec S_ 1 := (fun x v => Host.reduce IntOp.andi x v reducesTo_S1x64_S_d0_1 h_S_) main_v56 main_c_21
  let main_v58 : IVec S_ 1 := andi main_v53 main_v57
  let main_v59 : FVec F S1 .f32 := Host.absf main_arg15
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_c_24 : IVec S_ 32 := constantI S_ 32 0#32
  let main_v64 : IVec S4096 32 := broadcastInDim S4096 ![] bcast_S_S4096 main_c_24
  let main_v65 : IVec S4096 1 := cmpi .sge main_arg0 main_v64
  let main_c_25 : IVec S_ 32 := constantI S_ 32 99999#32
  let main_v66 : IVec S4096 32 := broadcastInDim S4096 ![] bcast_S_S4096 main_c_25
  let main_v67 : IVec S4096 1 := cmpi .sle main_arg0 main_v66
  fn_part4 (F := F) main_arg1 main_arg2 main_v63 main_v65 main_v67

def fn_part2 {F : FTy → Type} [FloatOps F] (main_arg0 : IVec S4096 32) (main_arg1 : IVec S4096x50 32) (main_arg2 : IVec S4096x50 32) (main_arg10 : FVec F S64x128 .f32) (main_arg11 : FVec F S64 .f32) (main_arg12 : FVec F S64x64 .f32) (main_arg13 : FVec F S64 .f32) (main_arg14 : FVec F S1x64 .f32) (main_arg15 : FVec F S1 .f32) (main_v33 : IVec S_ 1) : IVec S_ 1 :=
  let main_v34 : FVec F S64x128 .f32 := Host.absf main_arg10
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64 .f32 := Host.absf main_arg11
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg12
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg13
  let main_cst_18 : FVec F S_ .f32 := constant S_ .f32 0x7F800000#32
  let main_v50 : FVec F S64 .f32 := broadcastInDim S64 ![] bcast_S_S64 main_cst_18
  fn_part3 (F := F) main_arg0 main_arg1 main_arg2 main_arg14 main_arg15 main_v48 main_v49 main_v50

def fn_part1 {F : FTy → Type} [FloatOps F] (main_arg0 : IVec S4096 32) (main_arg1 : IVec S4096x50 32) (main_arg2 : IVec S4096x50 32) (main_arg7 : FVec F S64 .f32) (main_arg8 : FVec F S64x64 .f32) (main_arg9 : FVec F S64 .f32) (main_arg10 : FVec F S64x128 .f32) (main_arg11 : FVec F S64 .f32) (main_arg12 : FVec F S64x64 .f32) (main_arg13 : FVec F S64 .f32) (main_arg14 : FVec F S1x64 .f32) (main_arg15 : FVec F S1 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg8
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg0 main_arg1 main_arg2 main_arg10 main_arg11 main_arg12 main_arg13 main_arg14 main_arg15 main_v33

def fn {F : FTy → Type} [FloatOps F] (main_arg0 : IVec S4096 32) (main_arg1 : IVec S4096x50 32) (main_arg2 : IVec S4096x50 32) (main_arg3 : FVec F S100000x64 .f32) (main_arg4 : FVec F S100000x64 .f32) (main_arg5 : FVec F S5x64 .f32) (main_arg6 : FVec F S64x128 .f32) (main_arg7 : FVec F S64 .f32) (main_arg8 : FVec F S64x64 .f32) (main_arg9 : FVec F S64 .f32) (main_arg10 : FVec F S64x128 .f32) (main_arg11 : FVec F S64 .f32) (main_arg12 : FVec F S64x64 .f32) (main_arg13 : FVec F S64 .f32) (main_arg14 : FVec F S1x64 .f32) (main_arg15 : FVec F S1 .f32) : IVec S_ 1 :=
  let main_v0 : FVec F S100000x64 .f32 := Host.absf main_arg3
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg4
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S5x64 .f32 := Host.absf main_arg5
  let main_cst_2 : FVec F S_ .f32 := constant S_ .f32 0x7F800000#32
  let main_v10 : FVec F S5x64 .f32 := broadcastInDim S5x64 ![] bcast_S_S5x64 main_cst_2
  let main_v11 : IVec S5x64 1 := cmpf .olt main_v9 main_v10
  let main_c_3 : IVec S_ 1 := constantI S_ 1 1#1
  let main_v12 : IVec S_ 1 := (fun x v => Host.reduce IntOp.andi x v reducesTo_S5x64_S_d0_1 h_S_) main_v11 main_c_3
  let main_v13 : IVec S_ 1 := andi main_v8 main_v12
  let main_v14 : FVec F S64x128 .f32 := Host.absf main_arg6
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg0 main_arg1 main_arg2 main_arg7 main_arg8 main_arg9 main_arg10 main_arg11 main_arg12 main_arg13 main_arg14 main_arg15 main_v13 main_v16
-- ==== Kernel.lean ====
abbrev S4096 : Shape := ⟨1, ![4096]⟩
abbrev S4096x50 : Shape := ⟨2, ![4096, 50]⟩
abbrev S100000x64 : Shape := ⟨2, ![100000, 64]⟩
abbrev S5x64 : Shape := ⟨2, ![5, 64]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S64x100000 : Shape := ⟨2, ![64, 100000]⟩
abbrev S100000x128 : Shape := ⟨2, ![100000, 128]⟩
abbrev S64x8192 : Shape := ⟨2, ![64, 8192]⟩
abbrev S8192x128 : Shape := ⟨2, ![8192, 128]⟩
abbrev S8192x64 : Shape := ⟨2, ![8192, 64]⟩
abbrev S_ : Shape := ⟨0, ![]⟩
abbrev S8x64 : Shape := ⟨2, ![8, 64]⟩
abbrev S2048x50 : Shape := ⟨2, ![2048, 50]⟩
abbrev S50x2048 : Shape := ⟨2, ![50, 2048]⟩
abbrev S102400 : Shape := ⟨1, ![102400]⟩
abbrev S2048 : Shape := ⟨1, ![2048]⟩
abbrev S50x2048x1 : Shape := ⟨3, ![50, 2048, 1]⟩
abbrev S1x1x8 : Shape := ⟨3, ![1, 1, 8]⟩
abbrev S50x2048x8 : Shape := ⟨3, ![50, 2048, 8]⟩
abbrev S102400x128 : Shape := ⟨2, ![102400, 128]⟩
abbrev S2048x128 : Shape := ⟨2, ![2048, 128]⟩
abbrev S3200 : Shape := ⟨1, ![3200]⟩
abbrev S128x128 : Shape := ⟨2, ![128, 128]⟩
abbrev S128 : Shape := ⟨1, ![128]⟩
abbrev S50x2048x128 : Shape := ⟨3, ![50, 2048, 128]⟩
abbrev S1x1 : Shape := ⟨2, ![1, 1]⟩
abbrev S2048x64 : Shape := ⟨2, ![2048, 64]⟩
abbrev S50x128x128 : Shape := ⟨3, ![50, 128, 128]⟩
abbrev S50x128x8 : Shape := ⟨3, ![50, 128, 8]⟩
abbrev S128x64 : Shape := ⟨2, ![128, 64]⟩
abbrev S50x128x64 : Shape := ⟨3, ![50, 128, 64]⟩
abbrev S6400x64 : Shape := ⟨2, ![6400, 64]⟩
abbrev S6400x8 : Shape := ⟨2, ![6400, 8]⟩
abbrev S1x128x64 : Shape := ⟨3, ![1, 128, 64]⟩
abbrev S6400 : Shape := ⟨1, ![6400]⟩
abbrev S6400x1 : Shape := ⟨2, ![6400, 1]⟩
abbrev S50x128x1 : Shape := ⟨3, ![50, 128, 1]⟩
abbrev S128x1 : Shape := ⟨2, ![128, 1]⟩
abbrev S1x128x1 : Shape := ⟨3, ![1, 128, 1]⟩
abbrev S4096x64 : Shape := ⟨2, ![4096, 64]⟩

abbrev nBuf : Table → Nat
  | .hbm => 94
  | .local .tc .vmem => 45
  | .local .scVector .vmem => 10
  | _ => 0

abbrev bufTy : (tb : Table) → Fin (nBuf tb) → BufTy
  | .hbm, ⟨0, _⟩ => ⟨S4096, .i32⟩
  | .hbm, ⟨1, _⟩ => ⟨S4096x50, .i32⟩
  | .hbm, ⟨2, _⟩ => ⟨S4096x50, .i32⟩
  | .hbm, ⟨3, _⟩ => ⟨S100000x64, .f32⟩
  | .hbm, ⟨4, _⟩ => ⟨S100000x64, .f32⟩
  | .hbm, ⟨5, _⟩ => ⟨S5x64, .f32⟩
  | .hbm, ⟨6, _⟩ => ⟨S64x128, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x128, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S1x64, .f32⟩
  | .hbm, ⟨15, _⟩ => ⟨S1, .f32⟩
  | .hbm, ⟨16, _⟩ => ⟨S64x100000, .f32⟩
  | .hbm, ⟨17, _⟩ => ⟨S64x100000, .f32⟩
  | .hbm, ⟨18, _⟩ => ⟨S64x64, .f32⟩
  | .hbm, ⟨19, _⟩ => ⟨S64x64, .f32⟩
  | .hbm, ⟨20, _⟩ => ⟨S64x64, .bf16⟩
  | .hbm, ⟨21, _⟩ => ⟨S64x64, .f32⟩
  | .hbm, ⟨22, _⟩ => ⟨S64x64, .f32⟩
  | .hbm, ⟨23, _⟩ => ⟨S64x64, .bf16⟩
  | .hbm, ⟨24, _⟩ => ⟨S1x64, .f32⟩
  | .hbm, ⟨25, _⟩ => ⟨S100000x128, .f32⟩
  | .hbm, ⟨26, _⟩ => ⟨S_, .i32⟩
  | .hbm, ⟨27, _⟩ => ⟨S_, .f32⟩
  | .hbm, ⟨28, _⟩ => ⟨S8x64, .f32⟩
  | .hbm, ⟨29, _⟩ => ⟨S2048x50, .i32⟩
  | .hbm, ⟨30, _⟩ => ⟨S50x2048, .i32⟩
  | .hbm, ⟨31, _⟩ => ⟨S102400, .i32⟩
  | .hbm, ⟨32, _⟩ => ⟨S2048, .i32⟩
  | .hbm, ⟨33, _⟩ => ⟨S2048x50, .i32⟩
  | .hbm, ⟨34, _⟩ => ⟨S50x2048, .i32⟩
  | .hbm, ⟨35, _⟩ => ⟨S50x2048x1, .i32⟩
  | .hbm, ⟨36, _⟩ => ⟨S1x1x8, .i32⟩
  | .hbm, ⟨37, _⟩ => ⟨S50x2048x8, .i32⟩
  | .hbm, ⟨38, _⟩ => ⟨S50x2048x8, .i32⟩
  | .hbm, ⟨39, _⟩ => ⟨S50x2048x8, .i1⟩
  | .hbm, ⟨40, _⟩ => ⟨S50x2048x8, .i8⟩
  | .hbm, ⟨41, _⟩ => ⟨S102400x128, .f32⟩
  | .hbm, ⟨42, _⟩ => ⟨S2048x128, .f32⟩
  | .hbm, ⟨43, _⟩ => ⟨S50x2048x128, .f32⟩
  | .hbm, ⟨44, _⟩ => ⟨S64x64, .f32⟩
  | .hbm, ⟨45, _⟩ => ⟨S64x64, .f32⟩
  | .hbm, ⟨46, _⟩ => ⟨S1x64, .f32⟩
  | .hbm, ⟨47, _⟩ => ⟨S64x64, .f32⟩
  | .hbm, ⟨48, _⟩ => ⟨S64x64, .bf16⟩
  | .hbm, ⟨49, _⟩ => ⟨S1x64, .f32⟩
  | .hbm, ⟨50, _⟩ => ⟨S1x64, .bf16⟩
  | .hbm, ⟨51, _⟩ => ⟨S64x64, .f32⟩
  | .hbm, ⟨52, _⟩ => ⟨S64x64, .f32⟩
  | .hbm, ⟨53, _⟩ => ⟨S64x64, .bf16⟩
  | .hbm, ⟨54, _⟩ => ⟨S64x64, .f32⟩
  | .hbm, ⟨55, _⟩ => ⟨S64x64, .bf16⟩
  | .hbm, ⟨56, _⟩ => ⟨S1x64, .f32⟩
  | .hbm, ⟨57, _⟩ => ⟨S1x64, .bf16⟩
  | .hbm, ⟨58, _⟩ => ⟨S1x64, .bf16⟩
  | .hbm, ⟨59, _⟩ => ⟨S1x1, .f32⟩
  | .hbm, ⟨60, _⟩ => ⟨S2048x64, .f32⟩
  | .hbm, ⟨61, _⟩ => ⟨S2048x50, .i32⟩
  | .hbm, ⟨62, _⟩ => ⟨S50x2048, .i32⟩
  | .hbm, ⟨63, _⟩ => ⟨S102400, .i32⟩
  | .hbm, ⟨64, _⟩ => ⟨S2048, .i32⟩
  | .hbm, ⟨65, _⟩ => ⟨S2048x50, .i32⟩
  | .hbm, ⟨66, _⟩ => ⟨S50x2048, .i32⟩
  | .hbm, ⟨67, _⟩ => ⟨S50x2048x1, .i32⟩
  | .hbm, ⟨68, _⟩ => ⟨S1x1x8, .i32⟩
  | .hbm, ⟨69, _⟩ => ⟨S50x2048x8, .i32⟩
  | .hbm, ⟨70, _⟩ => ⟨S50x2048x8, .i32⟩
  | .hbm, ⟨71, _⟩ => ⟨S50x2048x8, .i1⟩
  | .hbm, ⟨72, _⟩ => ⟨S50x2048x8, .i8⟩
  | .hbm, ⟨73, _⟩ => ⟨S102400x128, .f32⟩
  | .hbm, ⟨74, _⟩ => ⟨S2048x128, .f32⟩
  | .hbm, ⟨75, _⟩ => ⟨S50x2048x128, .f32⟩
  | .hbm, ⟨76, _⟩ => ⟨S64x64, .f32⟩
  | .hbm, ⟨77, _⟩ => ⟨S64x64, .f32⟩
  | .hbm, ⟨78, _⟩ => ⟨S1x64, .f32⟩
  | .hbm, ⟨79, _⟩ => ⟨S64x64, .f32⟩
  | .hbm, ⟨80, _⟩ => ⟨S64x64, .bf16⟩
  | .hbm, ⟨81, _⟩ => ⟨S1x64, .f32⟩
  | .hbm, ⟨82, _⟩ => ⟨S1x64, .bf16⟩
  | .hbm, ⟨83, _⟩ => ⟨S64x64, .f32⟩
  | .hbm, ⟨84, _⟩ => ⟨S64x64, .f32⟩
  | .hbm, ⟨85, _⟩ => ⟨S64x64, .bf16⟩
  | .hbm, ⟨86, _⟩ => ⟨S64x64, .f32⟩
  | .hbm, ⟨87, _⟩ => ⟨S64x64, .bf16⟩
  | .hbm, ⟨88, _⟩ => ⟨S1x64, .f32⟩
  | .hbm, ⟨89, _⟩ => ⟨S1x64, .bf16⟩
  | .hbm, ⟨90, _⟩ => ⟨S1x64, .bf16⟩
  | .hbm, ⟨91, _⟩ => ⟨S1x1, .f32⟩
  | .hbm, ⟨92, _⟩ => ⟨S2048x64, .f32⟩
  | .hbm, ⟨93, _⟩ => ⟨S4096x64, .f32⟩
  | .local .tc .vmem, ⟨0, _⟩ => ⟨S64x8192, .f32⟩
  | .local .tc .vmem, ⟨1, _⟩ => ⟨S64x8192, .f32⟩
  | .local .tc .vmem, ⟨2, _⟩ => ⟨S64x8192, .f32⟩
  | .local .tc .vmem, ⟨3, _⟩ => ⟨S64x8192, .f32⟩
  | .local .tc .vmem, ⟨4, _⟩ => ⟨S64x64, .bf16⟩
  | .local .tc .vmem, ⟨5, _⟩ => ⟨S64x64, .bf16⟩
  | .local .tc .vmem, ⟨6, _⟩ => ⟨S1x64, .f32⟩
  | .local .tc .vmem, ⟨7, _⟩ => ⟨S8192x128, .f32⟩
  | .local .tc .vmem, ⟨8, _⟩ => ⟨S8192x128, .f32⟩
  | .local .tc .vmem, ⟨9, _⟩ => ⟨S50x128x128, .f32⟩
  | .local .tc .vmem, ⟨10, _⟩ => ⟨S50x128x128, .f32⟩
  | .local .tc .vmem, ⟨11, _⟩ => ⟨S128x128, .f32⟩
  | .local .tc .vmem, ⟨12, _⟩ => ⟨S128x128, .f32⟩
  | .local .tc .vmem, ⟨13, _⟩ => ⟨S50x128x8, .i8⟩
  | .local .tc .vmem, ⟨14, _⟩ => ⟨S50x128x8, .i8⟩
  | .local .tc .vmem, ⟨15, _⟩ => ⟨S8x64, .f32⟩
  | .local .tc .vmem, ⟨16, _⟩ => ⟨S64x64, .f32⟩
  | .local .tc .vmem, ⟨17, _⟩ => ⟨S1x64, .f32⟩
  | .local .tc .vmem, ⟨18, _⟩ => ⟨S64x64, .bf16⟩
  | .local .tc .vmem, ⟨19, _⟩ => ⟨S1x64, .bf16⟩
  | .local .tc .vmem, ⟨20, _⟩ => ⟨S64x64, .bf16⟩
  | .local .tc .vmem, ⟨21, _⟩ => ⟨S64x64, .bf16⟩
  | .local .tc .vmem, ⟨22, _⟩ => ⟨S1x64, .bf16⟩
  | .local .tc .vmem, ⟨23, _⟩ => ⟨S1x64, .bf16⟩
  | .local .tc .vmem, ⟨24, _⟩ => ⟨S1x1, .f32⟩
  | .local .tc .vmem, ⟨25, _⟩ => ⟨S128x64, .f32⟩
  | .local .tc .vmem, ⟨26, _⟩ => ⟨S128x64, .f32⟩
  | .local .tc .vmem, ⟨27, _⟩ => ⟨S50x128x128, .f32⟩
  | .local .tc .vmem, ⟨28, _⟩ => ⟨S50x128x128, .f32⟩
  | .local .tc .vmem, ⟨29, _⟩ => ⟨S128x128, .f32⟩
  | .local .tc .vmem, ⟨30, _⟩ => ⟨S128x128, .f32⟩
  | .local .tc .vmem, ⟨31, _⟩ => ⟨S50x128x8, .i8⟩
  | .local .tc .vmem, ⟨32, _⟩ => ⟨S50x128x8, .i8⟩
  | .local .tc .vmem, ⟨33, _⟩ => ⟨S8x64, .f32⟩
  | .local .tc .vmem, ⟨34, _⟩ => ⟨S64x64, .f32⟩
  | .local .tc .vmem, ⟨35, _⟩ => ⟨S1x64, .f32⟩
  | .local .tc .vmem, ⟨36, _⟩ => ⟨S64x64, .bf16⟩
  | .local .tc .vmem, ⟨37, _⟩ => ⟨S1x64, .bf16⟩
  | .local .tc .vmem, ⟨38, _⟩ => ⟨S64x64, .bf16⟩
  | .local .tc .vmem, ⟨39, _⟩ => ⟨S64x64, .bf16⟩
  | .local .tc .vmem, ⟨40, _⟩ => ⟨S1x64, .bf16⟩
  | .local .tc .vmem, ⟨41, _⟩ => ⟨S1x64, .bf16⟩
  | .local .tc .vmem, ⟨42, _⟩ => ⟨S1x1, .f32⟩
  | .local .tc .vmem, ⟨43, _⟩ => ⟨S128x64, .f32⟩
  | .local .tc .vmem, ⟨44, _⟩ => ⟨S128x64, .f32⟩
  | .local .scVector .vmem, ⟨0, _⟩ => ⟨S3200, .i32⟩
  | .local .scVector .vmem, ⟨1, _⟩ => ⟨S64, .i32⟩
  | .local .scVector .vmem, ⟨2, _⟩ => ⟨S128x128, .f32⟩
  | .local .scVector .vmem, ⟨3, _⟩ => ⟨S128x128, .f32⟩
  | .local .scVector .vmem, ⟨4, _⟩ => ⟨S64x128, .f32⟩
  | .local .scVector .vmem, ⟨5, _⟩ => ⟨S3200, .i32⟩
  | .local .scVector .vmem, ⟨6, _⟩ => ⟨S64, .i32⟩
  | .local .scVector .vmem, ⟨7, _⟩ => ⟨S128x128, .f32⟩
  | .local .scVector .vmem, ⟨8, _⟩ => ⟨S128x128, .f32⟩
  | .local .scVector .vmem, ⟨9, _⟩ => ⟨S64x128, .f32⟩
  | _, _ => ⟨S4096, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  ofTables nBuf rfl bufTy 4 61 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c : Ref sig .tc := ⟨.hbm, 26, rfl⟩
abbrev main_call0_v0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v17 : Ref sig .tc := ⟨.hbm, 40, rfl⟩
abbrev main_v18_0 : Ref sig .tc := ⟨.hbm, 41, rfl⟩
abbrev main_v18_1 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_v43 : Ref sig .tc := ⟨.hbm, 72, rfl⟩
abbrev main_v44_0 : Ref sig .tc := ⟨.hbm, 73, rfl⟩
abbrev main_v44_1 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v9_scv : Ref sig .scVector := ⟨.hbm, 25, rfl⟩
abbrev main_v13_scv : Ref sig .scVector := ⟨.hbm, 31, rfl⟩
abbrev main_v14_scv : Ref sig .scVector := ⟨.hbm, 32, rfl⟩
abbrev main_v18_0_scv : Ref sig .scVector := ⟨.hbm, 41, rfl⟩
abbrev main_v18_1_scv : Ref sig .scVector := ⟨.hbm, 42, rfl⟩
abbrev main_v39_scv : Ref sig .scVector := ⟨.hbm, 63, rfl⟩
abbrev main_v40_scv : Ref sig .scVector := ⟨.hbm, 64, rfl⟩
abbrev main_v44_0_scv : Ref sig .scVector := ⟨.hbm, 73, rfl⟩
abbrev main_v44_1_scv : Ref sig .scVector := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg8_0 : Ref sig .tc := ⟨.vmem, 20, rfl⟩
abbrev cc2_stg9_0 : Ref sig .tc := ⟨.vmem, 21, rfl⟩
abbrev cc2_stg10_0 : Ref sig .tc := ⟨.vmem, 22, rfl⟩
abbrev cc2_stg11_0 : Ref sig .tc := ⟨.vmem, 23, rfl⟩
abbrev cc2_stg12_0 : Ref sig .tc := ⟨.vmem, 24, rfl⟩
abbrev cc2_stg13_0 : Ref sig .tc := ⟨.vmem, 25, rfl⟩
abbrev cc2_stg13_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg5_0 : Ref sig .tc := ⟨.vmem, 35, rfl⟩
abbrev cc4_stg6_0 : Ref sig .tc := ⟨.vmem, 36, rfl⟩
abbrev cc4_stg7_0 : Ref sig .tc := ⟨.vmem, 37, rfl⟩
abbrev cc4_stg8_0 : Ref sig .tc := ⟨.vmem, 38, rfl⟩
abbrev cc4_stg9_0 : Ref sig .tc := ⟨.vmem, 39, rfl⟩
abbrev cc4_stg10_0 : Ref sig .tc := ⟨.vmem, 40, rfl⟩
abbrev cc4_stg11_0 : Ref sig .tc := ⟨.vmem, 41, rfl⟩
abbrev cc4_stg12_0 : Ref sig .tc := ⟨.vmem, 42, rfl⟩
abbrev cc4_stg13_0 : Ref sig .tc := ⟨.vmem, 43, rfl⟩
abbrev cc4_stg13_1 : Ref sig .tc := ⟨.vmem, 44, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc3_scratch0 : Ref sig .scVector := ⟨.vmem, 5, rfl⟩
abbrev cc3_scratch1 : Ref sig .scVector := ⟨.vmem, 6, rfl⟩
abbrev cc3_scratch2 : Ref sig .scVector := ⟨.vmem, 7, rfl⟩
abbrev cc3_scratch3 : Ref sig .scVector := ⟨.vmem, 8, rfl⟩
abbrev cc3_scratch4 : Ref sig .scVector := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem8_0 : DmaSem sig := 28
abbrev cc2_sem9_0 : DmaSem sig := 29
abbrev cc2_sem10_0 : DmaSem sig := 30
abbrev cc2_sem11_0 : DmaSem sig := 31
abbrev cc2_sem12_0 : DmaSem sig := 32
abbrev cc2_sem13_0 : DmaSem sig := 33
abbrev cc2_sem13_1 : DmaSem sig := 34
abbrev cc4_sem0_0 : DmaSem sig := 43
abbrev cc4_sem0_1 : DmaSem sig := 44
abbrev cc4_sem1_0 : DmaSem sig := 45
abbrev cc4_sem1_1 : DmaSem sig := 46
abbrev cc4_sem2_0 : DmaSem sig := 47
abbrev cc4_sem2_1 : DmaSem sig := 48
abbrev cc4_sem3_0 : DmaSem sig := 49
abbrev cc4_sem4_0 : DmaSem sig := 50
abbrev cc4_sem5_0 : DmaSem sig := 51
abbrev cc4_sem6_0 : DmaSem sig := 52
abbrev cc4_sem7_0 : DmaSem sig := 53
abbrev cc4_sem8_0 : DmaSem sig := 54
abbrev cc4_sem9_0 : DmaSem sig := 55
abbrev cc4_sem10_0 : DmaSem sig := 56
abbrev cc4_sem11_0 : DmaSem sig := 57
abbrev cc4_sem12_0 : DmaSem sig := 58
abbrev cc4_sem13_0 : DmaSem sig := 59
abbrev cc4_sem13_1 : DmaSem sig := 60
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  ![v2.toNat]
def k1_off2 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v3 : BitVec 32 := Scalar.muli v1 c64_i32
  ![v3.toNat]
@[reducible] def k1_t1_loop : Scf.Loop 32 :=
  let c0_i32_5 : BitVec 32 := 0#32
  let c12_i32 : BitVec 32 := 12#32
  let v7 : BitVec 32 := Scalar.addi c0_i32_5 c12_i32
  let c1_i32 : BitVec 32 := 1#32
  ⟨c0_i32_5, v7, c1_i32⟩
def k1_off3 (k1_t1 : Fin k1_t1_loop.trips) : Fin 1 → Nat :=
  let c2_i32_24 : BitVec 32 := 2#32
  let c0_i32_5 : BitVec 32 := 0#32
  let c1_i32 : BitVec 32 := 1#32
  let arg17 : BitVec 32 := Scf.iv c0_i32_5 c1_i32 k1_t1
  let v25 : BitVec 32 := Scalar.muli c2_i32_24 arg17
  let c128_i32 : BitVec 32 := 128#32
  let v27 : BitVec 32 := Scalar.muli v25 c128_i32
  ![v27.toNat]
def k1_cond1 (k1_t1 : Fin k1_t1_loop.trips) : BitVec 1 :=
  let c0_i32_5 : BitVec 32 := 0#32
  let c1_i32 : BitVec 32 := 1#32
  let arg17 : BitVec 32 := Scf.iv c0_i32_5 c1_i32 k1_t1
  let c0_i32_28 : BitVec 32 := 0#32
  let v30 : BitVec 1 := Scalar.cmpi .sgt arg17 c0_i32_28
  let v31 : BitVec 32 := Scalar.extui v30
  let c0_i32_29 : BitVec 32 := 0#32
  let v32 : BitVec 1 := Scalar.cmpi .ne v31 c0_i32_29
  v32

def k1_off4 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2_i32_24 : BitVec 32 := 2#32
  let c0_i32_5 : BitVec 32 := 0#32
  let c1_i32 : BitVec 32 := 1#32
  let arg17 : BitVec 32 := Scf.iv c0_i32_5 c1_i32 k1_t1
  let v25 : BitVec 32 := Scalar.muli c2_i32_24 arg17
  let c1_i32_25 : BitVec 32 := 1#32
  let v26 : BitVec 32 := Scalar.addi v25 c1_i32_25
  let c2_i32_43 : BitVec 32 := 2#32
  let v50 : BitVec 32 := Scalar.subi v26 c2_i32_43
  let c128_i32_44 : BitVec 32 := 128#32
  let v51 : BitVec 32 := Scalar.muli v50 c128_i32_44
  let v52 : BitVec 32 := Scalar.addi v2 v51
  let c0_i32_45 : BitVec 32 := 0#32
  ![v52.toNat, 0]
def k1_off5 (k1_t1 : Fin k1_t1_loop.trips) : Fin 1 → Nat :=
  let c2_i32_24 : BitVec 32 := 2#32
  let c0_i32_5 : BitVec 32 := 0#32
  let c1_i32 : BitVec 32 := 1#32
  let arg17 : BitVec 32 := Scf.iv c0_i32_5 c1_i32 k1_t1
  let v25 : BitVec 32 := Scalar.muli c2_i32_24 arg17
  let c1_i32_25 : BitVec 32 := 1#32
  let v26 : BitVec 32 := Scalar.addi v25 c1_i32_25
  let c128_i32_30 : BitVec 32 := 128#32
  let v33 : BitVec 32 := Scalar.muli v26 c128_i32_30
  ![v33.toNat]
def k1_off6 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2_i32_24 : BitVec 32 := 2#32
  let c0_i32_5 : BitVec 32 := 0#32
  let c1_i32 : BitVec 32 := 1#32
  let arg17 : BitVec 32 := Scf.iv c0_i32_5 c1_i32 k1_t1
  let v25 : BitVec 32 := Scalar.muli c2_i32_24 arg17
  let c128_i32_33 : BitVec 32 := 128#32
  let v36 : BitVec 32 := Scalar.muli v25 c128_i32_33
  let v37 : BitVec 32 := Scalar.addi v2 v36
  let c0_i32_34 : BitVec 32 := 0#32
  ![v37.toNat, 0]
def k1_cond2 (k1_t1 : Fin k1_t1_loop.trips) : BitVec 1 :=
  let c0_i32_5 : BitVec 32 := 0#32
  let c1_i32 : BitVec 32 := 1#32
  let arg17 : BitVec 32 := Scf.iv c0_i32_5 c1_i32 k1_t1
  let c11_i32 : BitVec 32 := 11#32
  let v40 : BitVec 1 := Scalar.cmpi .slt arg17 c11_i32
  let v41 : BitVec 32 := Scalar.extui v40
  let c0_i32_36 : BitVec 32 := 0#32
  let v42 : BitVec 1 := Scalar.cmpi .ne v41 c0_i32_36
  v42

def k1_off7 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2_i32_24 : BitVec 32 := 2#32
  let c0_i32_5 : BitVec 32 := 0#32
  let c1_i32 : BitVec 32 := 1#32
  let arg17 : BitVec 32 := Scf.iv c0_i32_5 c1_i32 k1_t1
  let v25 : BitVec 32 := Scalar.muli c2_i32_24 arg17
  let c128_i32_43 : BitVec 32 := 128#32
  let v50 : BitVec 32 := Scalar.muli v25 c128_i32_43
  let v51 : BitVec 32 := Scalar.addi v2 v50
  let c0_i32_44 : BitVec 32 := 0#32
  ![v51.toNat, 0]
def k1_off8 (k1_t1 : Fin k1_t1_loop.trips) : Fin 1 → Nat :=
  let c2_i32_24 : BitVec 32 := 2#32
  let c0_i32_5 : BitVec 32 := 0#32
  let c1_i32 : BitVec 32 := 1#32
  let arg17 : BitVec 32 := Scf.iv c0_i32_5 c1_i32 k1_t1
  let v25 : BitVec 32 := Scalar.muli c2_i32_24 arg17
  let c2_i32_46 : BitVec 32 := 2#32
  let v54 : BitVec 32 := Scalar.addi v25 c2_i32_46
  let c128_i32_47 : BitVec 32 := 128#32
  let v55 : BitVec 32 := Scalar.muli v54 c128_i32_47
  ![v55.toNat]
def k1_off9 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2_i32_24 : BitVec 32 := 2#32
  let c0_i32_5 : BitVec 32 := 0#32
  let c1_i32 : BitVec 32 := 1#32
  let arg17 : BitVec 32 := Scf.iv c0_i32_5 c1_i32 k1_t1
  let v25 : BitVec 32 := Scalar.muli c2_i32_24 arg17
  let c1_i32_25 : BitVec 32 := 1#32
  let v26 : BitVec 32 := Scalar.addi v25 c1_i32_25
  let c128_i32_40 : BitVec 32 := 128#32
  let v46 : BitVec 32 := Scalar.muli v26 c128_i32_40
  let v47 : BitVec 32 := Scalar.addi v2 v46
  let c0_i32_41 : BitVec 32 := 0#32
  ![v47.toNat, 0]
def k1_off10 (i : grid1.Coords) (c2816_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let v8 : BitVec 32 := Scalar.addi v2 c2816_i32
  let c0_i32_7 : BitVec 32 := 0#32
  ![v8.toNat, 0]
def k1_off11 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v3 : BitVec 32 := Scalar.muli v1 c64_i32
  let c0_i32_24_r2 : BitVec 32 := 0#32
  ![v3.toNat, 0]
abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S50x128x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S50x128x8 .i8 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S8x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x64 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64x64 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64x64 .bf16 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x64 .bf16 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x64 .bf16 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x1 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 2 → Memref sig .tc .vmem S128x64 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev grid3 : Pipeline.Grid := ⟨2, ![2, 16], ![false, false]⟩

def k3_off1 (i : grid3.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  ![v2.toNat]
def k3_off2 (i : grid3.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v3 : BitVec 32 := Scalar.muli v1 c64_i32
  ![v3.toNat]
@[reducible] def k3_t1_loop : Scf.Loop 32 :=
  let c0_i32_5 : BitVec 32 := 0#32
  let c12_i32 : BitVec 32 := 12#32
  let v7 : BitVec 32 := Scalar.addi c0_i32_5 c12_i32
  let c1_i32 : BitVec 32 := 1#32
  ⟨c0_i32_5, v7, c1_i32⟩
def k3_off3 (k3_t1 : Fin k3_t1_loop.trips) : Fin 1 → Nat :=
  let c2_i32_24 : BitVec 32 := 2#32
  let c0_i32_5 : BitVec 32 := 0#32
  let c1_i32 : BitVec 32 := 1#32
  let arg17 : BitVec 32 := Scf.iv c0_i32_5 c1_i32 k3_t1
  let v25 : BitVec 32 := Scalar.muli c2_i32_24 arg17
  let c128_i32 : BitVec 32 := 128#32
  let v27 : BitVec 32 := Scalar.muli v25 c128_i32
  ![v27.toNat]
def k3_cond1 (k3_t1 : Fin k3_t1_loop.trips) : BitVec 1 :=
  let c0_i32_5 : BitVec 32 := 0#32
  let c1_i32 : BitVec 32 := 1#32
  let arg17 : BitVec 32 := Scf.iv c0_i32_5 c1_i32 k3_t1
  let c0_i32_28 : BitVec 32 := 0#32
  let v30 : BitVec 1 := Scalar.cmpi .sgt arg17 c0_i32_28
  let v31 : BitVec 32 := Scalar.extui v30
  let c0_i32_29 : BitVec 32 := 0#32
  let v32 : BitVec 1 := Scalar.cmpi .ne v31 c0_i32_29
  v32

def k3_off4 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2_i32_24 : BitVec 32 := 2#32
  let c0_i32_5 : BitVec 32 := 0#32
  let c1_i32 : BitVec 32 := 1#32
  let arg17 : BitVec 32 := Scf.iv c0_i32_5 c1_i32 k3_t1
  let v25 : BitVec 32 := Scalar.muli c2_i32_24 arg17
  let c1_i32_25 : BitVec 32 := 1#32
  let v26 : BitVec 32 := Scalar.addi v25 c1_i32_25
  let c2_i32_43 : BitVec 32 := 2#32
  let v50 : BitVec 32 := Scalar.subi v26 c2_i32_43
  let c128_i32_44 : BitVec 32 := 128#32
  let v51 : BitVec 32 := Scalar.muli v50 c128_i32_44
  let v52 : BitVec 32 := Scalar.addi v2 v51
  let c0_i32_45 : BitVec 32 := 0#32
  ![v52.toNat, 0]
def k3_off5 (k3_t1 : Fin k3_t1_loop.trips) : Fin 1 → Nat :=
  let c2_i32_24 : BitVec 32 := 2#32
  let c0_i32_5 : BitVec 32 := 0#32
  let c1_i32 : BitVec 32 := 1#32
  let arg17 : BitVec 32 := Scf.iv c0_i32_5 c1_i32 k3_t1
  let v25 : BitVec 32 := Scalar.muli c2_i32_24 arg17
  let c1_i32_25 : BitVec 32 := 1#32
  let v26 : BitVec 32 := Scalar.addi v25 c1_i32_25
  let c128_i32_30 : BitVec 32 := 128#32
  let v33 : BitVec 32 := Scalar.muli v26 c128_i32_30
  ![v33.toNat]
def k3_off6 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2_i32_24 : BitVec 32 := 2#32
  let c0_i32_5 : BitVec 32 := 0#32
  let c1_i32 : BitVec 32 := 1#32
  let arg17 : BitVec 32 := Scf.iv c0_i32_5 c1_i32 k3_t1
  let v25 : BitVec 32 := Scalar.muli c2_i32_24 arg17
  let c128_i32_33 : BitVec 32 := 128#32
  let v36 : BitVec 32 := Scalar.muli v25 c128_i32_33
  let v37 : BitVec 32 := Scalar.addi v2 v36
  let c0_i32_34 : BitVec 32 := 0#32
  ![v37.toNat, 0]
def k3_cond2 (k3_t1 : Fin k3_t1_loop.trips) : BitVec 1 :=
  let c0_i32_5 : BitVec 32 := 0#32
  let c1_i32 : BitVec 32 := 1#32
  let arg17 : BitVec 32 := Scf.iv c0_i32_5 c1_i32 k3_t1
  let c11_i32 : BitVec 32 := 11#32
  let v40 : BitVec 1 := Scalar.cmpi .slt arg17 c11_i32
  let v41 : BitVec 32 := Scalar.extui v40
  let c0_i32_36 : BitVec 32 := 0#32
  let v42 : BitVec 1 := Scalar.cmpi .ne v41 c0_i32_36
  v42

def k3_off7 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2_i32_24 : BitVec 32 := 2#32
  let c0_i32_5 : BitVec 32 := 0#32
  let c1_i32 : BitVec 32 := 1#32
  let arg17 : BitVec 32 := Scf.iv c0_i32_5 c1_i32 k3_t1
  let v25 : BitVec 32 := Scalar.muli c2_i32_24 arg17
  let c128_i32_43 : BitVec 32 := 128#32
  let v50 : BitVec 32 := Scalar.muli v25 c128_i32_43
  let v51 : BitVec 32 := Scalar.addi v2 v50
  let c0_i32_44 : BitVec 32 := 0#32
  ![v51.toNat, 0]
def k3_off8 (k3_t1 : Fin k3_t1_loop.trips) : Fin 1 → Nat :=
  let c2_i32_24 : BitVec 32 := 2#32
  let c0_i32_5 : BitVec 32 := 0#32
  let c1_i32 : BitVec 32 := 1#32
  let arg17 : BitVec 32 := Scf.iv c0_i32_5 c1_i32 k3_t1
  let v25 : BitVec 32 := Scalar.muli c2_i32_24 arg17
  let c2_i32_46 : BitVec 32 := 2#32
  let v54 : BitVec 32 := Scalar.addi v25 c2_i32_46
  let c128_i32_47 : BitVec 32 := 128#32
  let v55 : BitVec 32 := Scalar.muli v54 c128_i32_47
  ![v55.toNat]
def k3_off9 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2_i32_24 : BitVec 32 := 2#32
  let c0_i32_5 : BitVec 32 := 0#32
  let c1_i32 : BitVec 32 := 1#32
  let arg17 : BitVec 32 := Scf.iv c0_i32_5 c1_i32 k3_t1
  let v25 : BitVec 32 := Scalar.muli c2_i32_24 arg17
  let c1_i32_25 : BitVec 32 := 1#32
  let v26 : BitVec 32 := Scalar.addi v25 c1_i32_25
  let c128_i32_40 : BitVec 32 := 128#32
  let v46 : BitVec 32 := Scalar.muli v26 c128_i32_40
  let v47 : BitVec 32 := Scalar.addi v2 v46
  let c0_i32_41 : BitVec 32 := 0#32
  ![v47.toNat, 0]
def k3_off10 (i : grid3.Coords) (c2816_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let v8 : BitVec 32 := Scalar.addi v2 c2816_i32
  let c0_i32_7 : BitVec 32 := 0#32
  ![v8.toNat, 0]
def k3_off11 (i : grid3.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v3 : BitVec 32 := Scalar.muli v1 c64_i32
  let c0_i32_24_r2 : BitVec 32 := 0#32
  ![v3.toNat, 0]
abbrev grid4 : Pipeline.Grid := ⟨1, ![16], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S50x128x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S128x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S50x128x8 .i8 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S8x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S64x64 .bf16 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x64 .bf16 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S64x64 .bf16 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S64x64 .bf16 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x64 .bf16 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S1x64 .bf16 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S1x1 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 2 → Memref sig .tc .vmem S128x64 .f32 := fun | 0 => Memref.whole cc4_stg13_0 | 1 => Memref.whole cc4_stg13_1 | ⟨_ + 2, h⟩ => absurd h (Nat.not_lt.2 (Nat.le_add_left _ _))
abbrev sem4_13 : Fin 2 → DmaSem sig := fun | 0 => cc4_sem13_0 | 1 => cc4_sem13_1 | ⟨_ + 2, h⟩ => absurd h (Nat.not_lt.2 (Nat.le_add_left _ _))
abbrev reads4_13 : Fin grid4.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))

class Facts₀ : Prop where
  transposes_S100000x64_S64x100000_1_0 : S100000x64.Transposes [1, 0] S64x100000
  slices_S64x128_S64x64_0_0 : S64x128.Slices ![0, 0] S64x64
  transposes_S64x64_S64x64_1_0 : S64x64.Transposes [1, 0] S64x64
  bitsLt_bf16_f32 : FTy.bits .bf16 < FTy.bits .f32
  slices_S64x128_S64x64_0_64 : S64x128.Slices ![0, 64] S64x64
  shapeCasts_S64_S1x64 : S64.ShapeCasts S1x64
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  concatenates_S8192x64_S8192x64_S8192x128_d1 : Shape.Concatenates [S8192x64, S8192x64] S8192x128 1
  inb_S8192x128_S8192x128_0_0 : ∀ a, (![0, 0] : Fin 2 → Nat) a + S8192x128.size a ≤ S8192x128.size a
  h_S8192x128 : 0 < S8192x128.numel
  pads_S5x64_S8x64_030_000 : S5x64.Pads (![0, 0] : Fin 2 → Nat) ![3, 0] ![0, 0] S8x64
  h_S_ : 0 < S_.numel
  slices_S4096x50_S2048x50_0_0 : S4096x50.Slices ![0, 0] S2048x50
  transposes_S2048x50_S50x2048_1_0 : S2048x50.Transposes [1, 0] S50x2048
  shapeCasts_S50x2048_S102400 : S50x2048.ShapeCasts S102400
  slices_S4096_S2048_0 : S4096.Slices ![0] S2048
  bcast_S50x2048_S50x2048x1_0_1 : S50x2048.BroadcastsInDim S50x2048x1 (![0, 1] : Fin 2 → Fin S50x2048x1.rank)
  bcast_S50x2048x1_S50x2048x8_0_1_2 : S50x2048x1.BroadcastsInDim S50x2048x8 (![0, 1, 2] : Fin 3 → Fin S50x2048x8.rank)
  bcast_S1x1x8_S50x2048x8_0_1_2 : S1x1x8.BroadcastsInDim S50x2048x8 (![0, 1, 2] : Fin 3 → Fin S50x2048x8.rank)
  natLt_1_8 : 1 < 8
  inb_S100000x128_S100000x128_0_0 : ∀ a, (![0, 0] : Fin 2 → Nat) a + S100000x128.size a ≤ S100000x128.size a
  gathers_S100000x128_S64x128 : S100000x128.Gathers 0 S64x128
  inb_S3200_S128_0 : ∀ a, (![0] : Fin 1 → Nat) a + S128.size a ≤ S3200.size a
  gathers_S100000x128_S128x128 : S100000x128.Gathers 0 S128x128
  inb_S3200_S128_3072 : ∀ a, (![3072] : Fin 1 → Nat) a + S128.size a ≤ S3200.size a
  shapeCasts_S102400x128_S50x2048x128 : S102400x128.ShapeCasts S50x2048x128
  shapeCasts_S1_S1x1 : S1.ShapeCasts S1x1
  inb_S50x128x128_S50x128x128_0_0_0 : ∀ a, (![0, 0, 0] : Fin 3 → Nat) a + S50x128x128.size a ≤ S50x128x128.size a
  h_S50x128x128 : 0 < S50x128x128.numel
  shapeCasts_S50x128x128_S50x128x128 : S50x128x128.ShapeCasts S50x128x128
  slices_S50x128x128_o0_0_0_S50x128x64 : S50x128x128.Slices ![0, 0, 0] S50x128x64
  shapeCasts_S50x128x64_S6400x64 : S50x128x64.ShapeCasts S6400x64
  inb_S8x64_S8x64_0_0 : ∀ a, (![0, 0] : Fin 2 → Nat) a + S8x64.size a ≤ S8x64.size a
  h_S8x64 : 0 < S8x64.numel
  shapeCasts_S8x64_S8x64 : S8x64.ShapeCasts S8x64
  broadcasts_S1x64_S8x64 : S1x64.Broadcasts S8x64
  inb_S50x128x8_S50x128x8_0_0_0 : ∀ a, (![0, 0, 0] : Fin 3 → Nat) a + S50x128x8.size a ≤ S50x128x8.size a
  h_S50x128x8 : 0 < S50x128x8.numel
  shapeCasts_S50x128x8_S50x128x8 : S50x128x8.ShapeCasts S50x128x8
  shapeCasts_S50x128x8_S6400x8 : S50x128x8.ShapeCasts S6400x8
  broadcasts_S1x64_S6400x64 : S1x64.Broadcasts S6400x64
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S128x128_o0_64_S128x64 : S128x128.Slices ![0, 64] S128x64
  shapeCasts_S128x64_S1x128x64 : S128x64.ShapeCasts S1x128x64
  shapeCasts_S1x128x64_S1x128x64 : S1x128x64.ShapeCasts S1x128x64
  broadcasts_S1x128x64_S50x128x64 : S1x128x64.Broadcasts S50x128x64
  reduces_S6400x64_S6400 : S6400x64.Reduces [1] S6400
  shapeCasts_S6400_S6400x1 : S6400.ShapeCasts S6400x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S6400x1 : S1x1.Broadcasts S6400x1
  shapeCasts_S6400x1_S50x128x1 : S6400x1.ShapeCasts S50x128x1
  reduces_S50x128x1_S128x1 : S50x128x1.Reduces [0] S128x1
  shapeCasts_S128x1_S1x128x1 : S128x1.ShapeCasts S1x128x1
  broadcasts_S1x128x1_S50x128x1 : S1x128x1.Broadcasts S50x128x1
  shapeCasts_S6400x64_S50x128x64 : S6400x64.ShapeCasts S50x128x64
  broadcasts_S50x128x1_S50x128x64 : S50x128x1.Broadcasts S50x128x64
  reduces_S50x128x64_S128x64 : S50x128x64.Reduces [0] S128x64
  broadcasts_S128x1_S128x64 : S128x1.Broadcasts S128x64
  inb_S128x64_S128x64_0_0 : ∀ a, (![0, 0] : Fin 2 → Nat) a + S128x64.size a ≤ S128x64.size a
  h_S128x64 : 0 < S128x64.numel
  slices_S4096x50_S2048x50_2048_0 : S4096x50.Slices ![2048, 0] S2048x50
  slices_S4096_S2048_2048 : S4096.Slices ![2048] S2048
  concatenates_S2048x64_S2048x64_S4096x64_d0 : Shape.Concatenates [S2048x64, S2048x64] S4096x64 0
  dot_S64x8192_S64x64_S8192x64_0_0_1_1_n_n_wf : DotDims.WF S64x8192 S64x64 S8192x64 [0] [0] [1] [1] [] []
  dot_S8x64_S64x64_S8x64_1_0_0_1_n_n_wf : DotDims.WF S8x64 S64x64 S8x64 [1] [0] [0] [1] [] []
  dot_S6400x8_S8x64_S6400x64_1_0_0_1_n_n_wf : DotDims.WF S6400x8 S8x64 S6400x64 [1] [0] [0] [1] [] []
  dot_S6400x64_S64x64_S6400x64_1_0_0_1_n_n_wf : DotDims.WF S6400x64 S64x64 S6400x64 [1] [0] [0] [1] [] []
  hcc1_scratch5 : 9 + S_.numel ≤ 61
  hcc1_scratch6 : 10 + S_.numel ≤ 61
  hcc1_scratch7 : 11 + S_.numel ≤ 61
  hcc1_scratch8 : 12 + S_.numel ≤ 61
  hcc1_scratch9 : 13 + S_.numel ≤ 61
  hcc1_scoped0 : 14 + S_.numel ≤ 61
  hcc1_scoped1 : 15 + S_.numel ≤ 61
  hcc1_scoped2 : 16 + S_.numel ≤ 61
  hcc3_scratch5 : 35 + S_.numel ≤ 61
  hcc3_scratch6 : 36 + S_.numel ≤ 61
  hcc3_scratch7 : 37 + S_.numel ≤ 61
  hcc3_scratch8 : 38 + S_.numel ≤ 61
  hcc3_scratch9 : 39 + S_.numel ≤ 61
  hcc3_scoped0 : 40 + S_.numel ≤ 61
  hcc3_scoped1 : 41 + S_.numel ≤ 61
  hcc3_scoped2 : 42 + S_.numel ≤ 61
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S64x8192.size a < S64x100000.size a
  hwx0_0 : ∀ i : grid0.Coords, EltTy.bits .f32 = 32 ∨ (Rect.unit (s := S64x100000) (fun a => cc0_transform_0 i a * S64x8192.size a) (fun a => (Pipeline.Clip.of (cc0_transform_0 i a) (S64x8192.size a) (S64x100000.size a)).extent (S64x8192.size a)) fun a => Pipeline.Clip.inb (Pipeline.Clip.ok_of (hstart0_0 i a))).WholeWords (EltTy.packing .f32)
  hwxs0_0 : ∀ i : grid0.Coords, EltTy.bits .f32 = 32 ∨ (Rect.unit (s := S64x8192) (fun _ => 0) (fun a => (Pipeline.Clip.of (cc0_transform_0 i a) (S64x8192.size a) (S64x100000.size a)).extent (S64x8192.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S64x8192.size a < S64x100000.size a
  hwx0_1 : ∀ i : grid0.Coords, EltTy.bits .f32 = 32 ∨ (Rect.unit (s := S64x100000) (fun a => cc0_transform_1 i a * S64x8192.size a) (fun a => (Pipeline.Clip.of (cc0_transform_1 i a) (S64x8192.size a) (S64x100000.size a)).extent (S64x8192.size a)) fun a => Pipeline.Clip.inb (Pipeline.Clip.ok_of (hstart0_1 i a))).WholeWords (EltTy.packing .f32)
  hwxs0_1 : ∀ i : grid0.Coords, EltTy.bits .f32 = 32 ∨ (Rect.unit (s := S64x8192) (fun _ => 0) (fun a => (Pipeline.Clip.of (cc0_transform_1 i a) (S64x8192.size a) (S64x100000.size a)).extent (S64x8192.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .bf16 = 32 ∨ (Rect.block (s := S64x64) S64x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S8192x128.size a < S100000x128.size a
  hwx0_5 : ∀ i : grid0.Coords, EltTy.bits .f32 = 32 ∨ (Rect.unit (s := S100000x128) (fun a => cc0_transform_5 i a * S8192x128.size a) (fun a => (Pipeline.Clip.of (cc0_transform_5 i a) (S8192x128.size a) (S100000x128.size a)).extent (S8192x128.size a)) fun a => Pipeline.Clip.inb (Pipeline.Clip.ok_of (hstart0_5 i a))).WholeWords (EltTy.packing .f32)
  hwxs0_5 : ∀ i : grid0.Coords, EltTy.bits .f32 = 32 ∨ (Rect.unit (s := S8192x128) (fun _ => 0) (fun a => (Pipeline.Clip.of (cc0_transform_5 i a) (S8192x128.size a) (S100000x128.size a)).extent (S8192x128.size a)) fun a => (Nat.zero_add _).trans_le (Pipeline.Clip.extent_le (Pipeline.Clip.ok_of (hstart0_5 i a)))).WholeWords (EltTy.packing .f32)
  hcore1 : grid1.bound 0 ≤ τ.nSC
  hsub1 : grid1.bound 1 ≤ τ.nSub
  k1_off1_inb : ∀ i : grid1.Coords, ∀ a, (k1_off1 i) a + S3200.size a ≤ S102400.size a
  k1_off2_inb : ∀ i : grid1.Coords, ∀ a, (k1_off2 i) a + S64.size a ≤ S2048.size a
  k1_t1_ok : k1_t1_loop.OK
  k1_off3_inb : ∀ k1_t1 : Fin k1_t1_loop.trips, ∀ a, (k1_off3 k1_t1) a + S128.size a ≤ S3200.size a
  k1_off4_inb : ∀ (i : grid1.Coords) (k1_t1 : Fin k1_t1_loop.trips), ∀ (k1_h1 : k1_cond1 k1_t1 = 1#1), ∀ a, (k1_off4 i k1_t1) a + S128x128.size a ≤ S102400x128.size a
  k1_off5_inb : ∀ k1_t1 : Fin k1_t1_loop.trips, ∀ a, (k1_off5 k1_t1) a + S128.size a ≤ S3200.size a
  k1_off6_inb : ∀ (i : grid1.Coords) (k1_t1 : Fin k1_t1_loop.trips), ∀ a, (k1_off6 i k1_t1) a + S128x128.size a ≤ S102400x128.size a
  k1_off7_inb : ∀ (i : grid1.Coords) (k1_t1 : Fin k1_t1_loop.trips), ∀ (k1_h2 : k1_cond2 k1_t1 = 1#1), ∀ a, (k1_off7 i k1_t1) a + S128x128.size a ≤ S102400x128.size a
  k1_off8_inb : ∀ k1_t1 : Fin k1_t1_loop.trips, ∀ (k1_h2 : k1_cond2 k1_t1 = 1#1), ∀ a, (k1_off8 k1_t1) a + S128.size a ≤ S3200.size a
  k1_off9_inb : ∀ (i : grid1.Coords) (k1_t1 : Fin k1_t1_loop.trips), ∀ a, (k1_off9 i k1_t1) a + S128x128.size a ≤ S102400x128.size a
  k1_off10_inb : ∀ i : grid1.Coords, ∀ (r : Fin 3), ∀ a, (k1_off10 i (BitVec.ofNat 32 (2816 + 128 * r.val))) a + S128x128.size a ≤ S102400x128.size a
  k1_off11_inb : ∀ i : grid1.Coords, ∀ a, (k1_off11 i) a + S64x128.size a ≤ S2048x128.size a
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S50x128x128.size a ≤ S50x2048x128.size a
  hwx2_0 : ∀ i : grid2.Coords, EltTy.bits .f32 = 32 ∨ (Rect.block (s := S50x2048x128) S50x128x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S2048x128.size a
  hwx2_1 : ∀ i : grid2.Coords, EltTy.bits .f32 = 32 ∨ (Rect.block (s := S2048x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S50x128x8.size a ≤ S50x2048x8.size a
  hwx2_2 : ∀ i : grid2.Coords, EltTy.bits .i8 = 32 ∨ (Rect.block (s := S50x2048x8) S50x128x8.size (cc2_transform_2 i) (hinb2_2 i)).WholeWords (EltTy.packing .i8)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S8x64.size a ≤ S8x64.size a
  hwx2_3 : ∀ i : grid2.Coords, EltTy.bits .f32 = 32 ∨ (Rect.block (s := S8x64) S8x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x64.size a ≤ S64x64.size a
  hwx2_6 : ∀ i : grid2.Coords, EltTy.bits .bf16 = 32 ∨ (Rect.block (s := S64x64) S64x64.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .bf16 = 32 ∨ (Rect.block (s := S1x64) S1x64.size (cc2_transform_7 i) (hinb2_7 i)).WholeWords (EltTy.packing .bf16)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x64.size a ≤ S64x64.size a
  hwx2_8 : ∀ i : grid2.Coords, EltTy.bits .bf16 = 32 ∨ (Rect.block (s := S64x64) S64x64.size (cc2_transform_8 i) (hinb2_8 i)).WholeWords (EltTy.packing .bf16)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S64x64.size a ≤ S64x64.size a
  hwx2_9 : ∀ i : grid2.Coords, EltTy.bits .bf16 = 32 ∨ (Rect.block (s := S64x64) S64x64.size (cc2_transform_9 i) (hinb2_9 i)).WholeWords (EltTy.packing .bf16)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x64.size a ≤ S1x64.size a
  hwx2_10 : ∀ i : grid2.Coords, EltTy.bits .bf16 = 32 ∨ (Rect.block (s := S1x64) S1x64.size (cc2_transform_10 i) (hinb2_10 i)).WholeWords (EltTy.packing .bf16)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x64.size a ≤ S1x64.size a
  hwx2_11 : ∀ i : grid2.Coords, EltTy.bits .bf16 = 32 ∨ (Rect.block (s := S1x64) S1x64.size (cc2_transform_11 i) (hinb2_11 i)).WholeWords (EltTy.packing .bf16)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x1.size a ≤ S1x1.size a
  hwx2_12 : ∀ i : grid2.Coords, EltTy.bits .f32 = 32 ∨ (Rect.block (s := S1x1) S1x1.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S128x64.size a ≤ S2048x64.size a
  hwx2_13 : ∀ i : grid2.Coords, EltTy.bits .f32 = 32 ∨ (Rect.block (s := S2048x64) S128x64.size (cc2_transform_13 i) (hinb2_13 i)).WholeWords (EltTy.packing .f32)
  hcore3 : grid3.bound 0 ≤ τ.nSC
  hsub3 : grid3.bound 1 ≤ τ.nSub
  k3_off1_inb : ∀ i : grid3.Coords, ∀ a, (k3_off1 i) a + S3200.size a ≤ S102400.size a
  k3_off2_inb : ∀ i : grid3.Coords, ∀ a, (k3_off2 i) a + S64.size a ≤ S2048.size a
  k3_t1_ok : k3_t1_loop.OK
  k3_off3_inb : ∀ k3_t1 : Fin k3_t1_loop.trips, ∀ a, (k3_off3 k3_t1) a + S128.size a ≤ S3200.size a
  k3_off4_inb : ∀ (i : grid3.Coords) (k3_t1 : Fin k3_t1_loop.trips), ∀ (k3_h1 : k3_cond1 k3_t1 = 1#1), ∀ a, (k3_off4 i k3_t1) a + S128x128.size a ≤ S102400x128.size a
  k3_off5_inb : ∀ k3_t1 : Fin k3_t1_loop.trips, ∀ a, (k3_off5 k3_t1) a + S128.size a ≤ S3200.size a
  k3_off6_inb : ∀ (i : grid3.Coords) (k3_t1 : Fin k3_t1_loop.trips), ∀ a, (k3_off6 i k3_t1) a + S128x128.size a ≤ S102400x128.size a
  k3_off7_inb : ∀ (i : grid3.Coords) (k3_t1 : Fin k3_t1_loop.trips), ∀ (k3_h2 : k3_cond2 k3_t1 = 1#1), ∀ a, (k3_off7 i k3_t1) a + S128x128.size a ≤ S102400x128.size a
  k3_off8_inb : ∀ k3_t1 : Fin k3_t1_loop.trips, ∀ (k3_h2 : k3_cond2 k3_t1 = 1#1), ∀ a, (k3_off8 k3_t1) a + S128.size a ≤ S3200.size a
  k3_off9_inb : ∀ (i : grid3.Coords) (k3_t1 : Fin k3_t1_loop.trips), ∀ a, (k3_off9 i k3_t1) a + S128x128.size a ≤ S102400x128.size a
  k3_off10_inb : ∀ i : grid3.Coords, ∀ (r : Fin 3), ∀ a, (k3_off10 i (BitVec.ofNat 32 (2816 + 128 * r.val))) a + S128x128.size a ≤ S102400x128.size a
  k3_off11_inb : ∀ i : grid3.Coords, ∀ a, (k3_off11 i) a + S64x128.size a ≤ S2048x128.size a
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S50x128x128.size a ≤ S50x2048x128.size a
  hwx4_0 : ∀ i : grid4.Coords, EltTy.bits .f32 = 32 ∨ (Rect.block (s := S50x2048x128) S50x128x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S2048x128.size a
  hwx4_1 : ∀ i : grid4.Coords, EltTy.bits .f32 = 32 ∨ (Rect.block (s := S2048x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S50x128x8.size a ≤ S50x2048x8.size a
  hwx4_2 : ∀ i : grid4.Coords, EltTy.bits .i8 = 32 ∨ (Rect.block (s := S50x2048x8) S50x128x8.size (cc4_transform_2 i) (hinb4_2 i)).WholeWords (EltTy.packing .i8)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S8x64.size a ≤ S8x64.size a
  hwx4_3 : ∀ i : grid4.Coords, EltTy.bits .f32 = 32 ∨ (Rect.block (s := S8x64) S8x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S64x64.size a ≤ S64x64.size a
  hwx4_6 : ∀ i : grid4.Coords, EltTy.bits .bf16 = 32 ∨ (Rect.block (s := S64x64) S64x64.size (cc4_transform_6 i) (hinb4_6 i)).WholeWords (EltTy.packing .bf16)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x64.size a ≤ S1x64.size a
  hwx4_7 : ∀ i : grid4.Coords, EltTy.bits .bf16 = 32 ∨ (Rect.block (s := S1x64) S1x64.size (cc4_transform_7 i) (hinb4_7 i)).WholeWords (EltTy.packing .bf16)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S64x64.size a ≤ S64x64.size a
  hwx4_8 : ∀ i : grid4.Coords, EltTy.bits .bf16 = 32 ∨ (Rect.block (s := S64x64) S64x64.size (cc4_transform_8 i) (hinb4_8 i)).WholeWords (EltTy.packing .bf16)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S64x64.size a ≤ S64x64.size a
  hwx4_9 : ∀ i : grid4.Coords, EltTy.bits .bf16 = 32 ∨ (Rect.block (s := S64x64) S64x64.size (cc4_transform_9 i) (hinb4_9 i)).WholeWords (EltTy.packing .bf16)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x64.size a ≤ S1x64.size a
  hwx4_10 : ∀ i : grid4.Coords, EltTy.bits .bf16 = 32 ∨ (Rect.block (s := S1x64) S1x64.size (cc4_transform_10 i) (hinb4_10 i)).WholeWords (EltTy.packing .bf16)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S1x64.size a ≤ S1x64.size a
  hwx4_11 : ∀ i : grid4.Coords, EltTy.bits .bf16 = 32 ∨ (Rect.block (s := S1x64) S1x64.size (cc4_transform_11 i) (hinb4_11 i)).WholeWords (EltTy.packing .bf16)
  hstage4_12 : ∀ j, (stage4_12 j).IsWhole
  nbuf4_12 : grid4.bufCount reads4_12 true = 1
  hreads4_12 : ∀ i i' : grid4.Coords, (∀ a, reads4_12 a = true → i a = i' a) → cc4_transform_12 i = cc4_transform_12 i'
  hinb4_12 : ∀ (i : grid4.Coords) a, (cc4_transform_12 i a + 1) * S1x1.size a ≤ S1x1.size a
  hwx4_12 : ∀ i : grid4.Coords, EltTy.bits .f32 = 32 ∨ (Rect.block (s := S1x1) S1x1.size (cc4_transform_12 i) (hinb4_12 i)).WholeWords (EltTy.packing .f32)
  hstage4_13 : ∀ j, (stage4_13 j).IsWhole
  nbuf4_13 : grid4.bufCount reads4_13 false = 2
  hreads4_13 : ∀ i i' : grid4.Coords, (∀ a, reads4_13 a = true → i a = i' a) → cc4_transform_13 i = cc4_transform_13 i'
  hinb4_13 : ∀ (i : grid4.Coords) a, (cc4_transform_13 i a + 1) * S128x64.size a ≤ S2048x64.size a
  hwx4_13 : ∀ i : grid4.Coords, EltTy.bits .f32 = 32 ∨ (Rect.block (s := S2048x64) S128x64.size (cc4_transform_13 i) (hinb4_13 i)).WholeWords (EltTy.packing .f32)

variable [Facts₀]

abbrev cc1_scratch5 : DmaSems sig S_ := SemArray.consecutive 9 S_ hcc1_scratch5
abbrev cc1_scratch6 : DmaSems sig S_ := SemArray.consecutive 10 S_ hcc1_scratch6
abbrev cc1_scratch7 : DmaSems sig S_ := SemArray.consecutive 11 S_ hcc1_scratch7
abbrev cc1_scratch8 : DmaSems sig S_ := SemArray.consecutive 12 S_ hcc1_scratch8
abbrev cc1_scratch9 : DmaSems sig S_ := SemArray.consecutive 13 S_ hcc1_scratch9
abbrev cc1_scoped0 : DmaSems sig S_ := SemArray.consecutive 14 S_ hcc1_scoped0
abbrev cc1_scoped1 : DmaSems sig S_ := SemArray.consecutive 15 S_ hcc1_scoped1
abbrev cc1_scoped2 : DmaSems sig S_ := SemArray.consecutive 16 S_ hcc1_scoped2
abbrev cc3_scratch5 : DmaSems sig S_ := SemArray.consecutive 35 S_ hcc3_scratch5
abbrev cc3_scratch6 : DmaSems sig S_ := SemArray.consecutive 36 S_ hcc3_scratch6
abbrev cc3_scratch7 : DmaSems sig S_ := SemArray.consecutive 37 S_ hcc3_scratch7
abbrev cc3_scratch8 : DmaSems sig S_ := SemArray.consecutive 38 S_ hcc3_scratch8
abbrev cc3_scratch9 : DmaSems sig S_ := SemArray.consecutive 39 S_ hcc3_scratch9
abbrev cc3_scoped0 : DmaSems sig S_ := SemArray.consecutive 40 S_ hcc3_scoped0
abbrev cc3_scoped1 : DmaSems sig S_ := SemArray.consecutive 41 S_ hcc3_scoped1
abbrev cc3_scoped2 : DmaSems sig S_ := SemArray.consecutive 42 S_ hcc3_scoped2
def dot_S64x8192_S64x64_S8192x64_0_0_1_1_n_n : DotDims S64x8192 S64x64 S8192x64 where
  lhsContracting := [0]
  rhsContracting := [0]
  lhsNonContracting := [1]
  rhsNonContracting := [1]
  lhsBatch := []
  rhsBatch := []
  wf := dot_S64x8192_S64x64_S8192x64_0_0_1_1_n_n_wf
def dot_S8x64_S64x64_S8x64_1_0_0_1_n_n : DotDims S8x64 S64x64 S8x64 where
  lhsContracting := [1]
  rhsContracting := [0]
  lhsNonContracting := [0]
  rhsNonContracting := [1]
  lhsBatch := []
  rhsBatch := []
  wf := dot_S8x64_S64x64_S8x64_1_0_0_1_n_n_wf
def dot_S6400x8_S8x64_S6400x64_1_0_0_1_n_n : DotDims S6400x8 S8x64 S6400x64 where
  lhsContracting := [1]
  rhsContracting := [0]
  lhsNonContracting := [0]
  rhsNonContracting := [1]
  lhsBatch := []
  rhsBatch := []
  wf := dot_S6400x8_S8x64_S6400x64_1_0_0_1_n_n_wf
def dot_S6400x64_S64x64_S6400x64_1_0_0_1_n_n : DotDims S6400x64 S64x64 S6400x64 where
  lhsContracting := [1]
  rhsContracting := [0]
  lhsNonContracting := [0]
  rhsNonContracting := [1]
  lhsBatch := []
  rhsBatch := []
  wf := dot_S6400x64_S64x64_S6400x64_1_0_0_1_n_n_wf

abbrev win0_0 : Pipeline.Window sig grid0 :=
  Pipeline.Window.ofSpecClip (Memref.whole main_v0) S64x8192.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v1) S64x8192.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v4) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpecClip (Memref.whole main_v9) S8192x128.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win2_0 : Pipeline.Window sig grid2 :=
  Pipeline.Window.ofSpec (Memref.whole main_v19) S50x128x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18_1) S128x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S50x128x8.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v10) S8x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v21) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v22) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v24) S64x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v26) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v29) S64x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v31) S64x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v33) S1x64.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v34) S1x64.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v35) S1x1.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v36) S128x64.size cc2_transform_13 reads2_13 true false 2 stage2_13 sem2_13
    hrank2 hreads2_13 hinb2_13 nbuf2_13 (Memref.isWhole_whole _) hwx2_13 hstage2_13

abbrev win2 : Fin 14 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | ⟨_ + 14, h⟩ => absurd h (Nat.not_lt.2 (Nat.le_add_left _ _))
abbrev spec2 : Fin 14 → Pipeline.WinSpec sig grid2.rank := fun w => (win2 w).toWinSpec

abbrev win4_0 : Pipeline.Window sig grid4 :=
  Pipeline.Window.ofSpec (Memref.whole main_v45) S50x128x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v44_1) S128x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v43) S50x128x8.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v10) S8x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v47) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v48) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v50) S64x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v52) S1x64.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v55) S64x64.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v57) S64x64.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v59) S1x64.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v60) S1x64.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_v61) S1x1.size cc4_transform_12 reads4_12 false true 1 stage4_12 sem4_12
    hrank4 hreads4_12 hinb4_12 nbuf4_12 (Memref.isWhole_whole _) hwx4_12 hstage4_12

abbrev win4_13 : Pipeline.Window sig grid4 :=
  Pipeline.Window.ofSpec (Memref.whole main_v62) S128x64.size cc4_transform_13 reads4_13 true false 2 stage4_13 sem4_13
    hrank4 hreads4_13 hinb4_13 nbuf4_13 (Memref.isWhole_whole _) hwx4_13 hstage4_13

abbrev win4 : Fin 14 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | ⟨_ + 14, h⟩ => absurd h (Nat.not_lt.2 (Nat.le_add_left _ _))
abbrev spec4 : Fin 14 → Pipeline.WinSpec sig grid4.rank := fun w => (win4 w).toWinSpec

class Facts : Prop extends Facts₀ where

variable [Facts]
-- ==== ReferenceIdeal.lean ====
abbrev S4096 : Shape := ⟨1, ![4096]⟩
abbrev S4096x50 : Shape := ⟨2, ![4096, 50]⟩
abbrev S100000x64 : Shape := ⟨2, ![100000, 64]⟩
abbrev S5x64 : Shape := ⟨2, ![5, 64]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S_ : Shape := ⟨0, ![]⟩
abbrev S4096x50x1 : Shape := ⟨3, ![4096, 50, 1]⟩
abbrev S1x1x1 : Shape := ⟨3, ![1, 1, 1]⟩
abbrev S4096x50x64 : Shape := ⟨3, ![4096, 50, 64]⟩
abbrev S4096x1 : Shape := ⟨2, ![4096, 1]⟩
abbrev S1x1 : Shape := ⟨2, ![1, 1]⟩
abbrev S4096x64 : Shape := ⟨2, ![4096, 64]⟩
abbrev S4096x50x128 : Shape := ⟨3, ![4096, 50, 128]⟩
abbrev S1x1x64 : Shape := ⟨3, ![1, 1, 64]⟩
abbrev S4096x1x64 : Shape := ⟨3, ![4096, 1, 64]⟩
abbrev S4096x1x1 : Shape := ⟨3, ![4096, 1, 1]⟩

abbrev nBuf : Space → Nat
  | .hbm => 139
  | .vmem => 0
  | .smem => 0
  | _ => 0

abbrev hbmTy0_0 (i : Nat) : BufTy := match i % 128 with
  | 0 => ⟨S4096, .i32⟩
  | 1 => ⟨S4096x50, .i32⟩
  | 2 => ⟨S4096x50, .i32⟩
  | 3 => ⟨S100000x64, .f32⟩
  | 4 => ⟨S100000x64, .f32⟩
  | 5 => ⟨S5x64, .f32⟩
  | 6 => ⟨S64x128, .f32⟩
  | 7 => ⟨S64, .f32⟩
  | 8 => ⟨S64x64, .f32⟩
  | 9 => ⟨S64, .f32⟩
  | 10 => ⟨S64x128, .f32⟩
  | 11 => ⟨S64, .f32⟩
  | 12 => ⟨S64x64, .f32⟩
  | 13 => ⟨S64, .f32⟩
  | 14 => ⟨S1x64, .f32⟩
  | 15 => ⟨S1, .f32⟩
  | 16 => ⟨S_, .i32⟩
  | 17 => ⟨S4096x50, .i32⟩
  | 18 => ⟨S4096x50, .i1⟩
  | 19 => ⟨S_, .i32⟩
  | 20 => ⟨S4096x50, .i32⟩
  | 21 => ⟨S4096x50, .i32⟩
  | 22 => ⟨S4096x50, .i32⟩
  | 23 => ⟨S4096x50x1, .i32⟩
  | 24 => ⟨S1, .i32⟩
  | 25 => ⟨S_, .i32⟩
  | 26 => ⟨S4096x50x1, .i32⟩
  | 27 => ⟨S4096x50x1, .i1⟩
  | 28 => ⟨S1x1x1, .i32⟩
  | 29 => ⟨S4096x50x1, .i32⟩
  | 30 => ⟨S4096x50x1, .i1⟩
  | 31 => ⟨S4096x50x1, .i1⟩
  | 32 => ⟨S_, .i1⟩
  | 33 => ⟨S4096x50, .i1⟩
  | 34 => ⟨S4096x50x64, .f32⟩
  | 35 => ⟨S4096x50x64, .i1⟩
  | 36 => ⟨S_, .f32⟩
  | 37 => ⟨S4096x50x64, .f32⟩
  | 38 => ⟨S4096x50x64, .f32⟩
  | 39 => ⟨S_, .i32⟩
  | 40 => ⟨S4096, .i32⟩
  | 41 => ⟨S4096, .i1⟩
  | 42 => ⟨S_, .i32⟩
  | 43 => ⟨S4096, .i32⟩
  | 44 => ⟨S4096, .i32⟩
  | 45 => ⟨S4096, .i32⟩
  | 46 => ⟨S4096x1, .i32⟩
  | 47 => ⟨S1, .i32⟩
  | 48 => ⟨S_, .i32⟩
  | 49 => ⟨S4096x1, .i32⟩
  | 50 => ⟨S4096x1, .i1⟩
  | 51 => ⟨S1x1, .i32⟩
  | 52 => ⟨S4096x1, .i32⟩
  | 53 => ⟨S4096x1, .i1⟩
  | 54 => ⟨S4096x1, .i1⟩
  | 55 => ⟨S_, .i1⟩
  | 56 => ⟨S4096, .i1⟩
  | 57 => ⟨S4096x64, .f32⟩
  | 58 => ⟨S4096x64, .i1⟩
  | 59 => ⟨S_, .f32⟩
  | 60 => ⟨S4096x64, .f32⟩
  | 61 => ⟨S4096x64, .f32⟩
  | 62 => ⟨S_, .i32⟩
  | 63 => ⟨S4096x50, .i32⟩
  | 64 => ⟨S4096x50, .i1⟩
  | 65 => ⟨S_, .i32⟩
  | 66 => ⟨S4096x50, .i32⟩
  | 67 => ⟨S4096x50, .i32⟩
  | 68 => ⟨S4096x50, .i32⟩
  | 69 => ⟨S4096x50x1, .i32⟩
  | 70 => ⟨S1, .i32⟩
  | 71 => ⟨S_, .i32⟩
  | 72 => ⟨S4096x50x1, .i32⟩
  | 73 => ⟨S4096x50x1, .i1⟩
  | 74 => ⟨S1x1x1, .i32⟩
  | 75 => ⟨S4096x50x1, .i32⟩
  | 76 => ⟨S4096x50x1, .i1⟩
  | 77 => ⟨S4096x50x1, .i1⟩
  | 78 => ⟨S_, .i1⟩
  | 79 => ⟨S4096x50, .i1⟩
  | 80 => ⟨S4096x50x64, .f32⟩
  | 81 => ⟨S4096x50x64, .i1⟩
  | 82 => ⟨S_, .f32⟩
  | 83 => ⟨S4096x50x64, .f32⟩
  | 84 => ⟨S4096x50x64, .f32⟩
  | 85 => ⟨S4096x50x128, .f32⟩
  | 86 => ⟨S4096x50x64, .f32⟩
  | 87 => ⟨S1x1x64, .f32⟩
  | 88 => ⟨S4096x50x64, .f32⟩
  | 89 => ⟨S4096x50x64, .f32⟩
  | 90 => ⟨S_, .f32⟩
  | 91 => ⟨S4096x50x64, .f32⟩
  | 92 => ⟨S4096x50x64, .f32⟩
  | 93 => ⟨S4096x50x64, .f32⟩
  | 94 => ⟨S1x1x64, .f32⟩
  | 95 => ⟨S4096x50x64, .f32⟩
  | 96 => ⟨S4096x50x64, .f32⟩
  | 97 => ⟨S_, .f32⟩
  | 98 => ⟨S4096x50x64, .f32⟩
  | 99 => ⟨S4096x50x64, .f32⟩
  | 100 => ⟨S4096x1x64, .f32⟩
  | 101 => ⟨S4096x50x64, .f32⟩
  | 102 => ⟨S4096x50x128, .f32⟩
  | 103 => ⟨S4096x50x64, .f32⟩
  | 104 => ⟨S1x1x64, .f32⟩
  | 105 => ⟨S4096x50x64, .f32⟩
  | 106 => ⟨S4096x50x64, .f32⟩
  | 107 => ⟨S_, .f32⟩
  | 108 => ⟨S4096x50x64, .f32⟩
  | 109 => ⟨S4096x50x64, .f32⟩
  | 110 => ⟨S4096x50x64, .f32⟩
  | 111 => ⟨S1x1x64, .f32⟩
  | 112 => ⟨S4096x50x64, .f32⟩
  | 113 => ⟨S4096x50x64, .f32⟩
  | 114 => ⟨S_, .f32⟩
  | 115 => ⟨S4096x50x64, .f32⟩
  | 116 => ⟨S4096x50x64, .f32⟩
  | 117 => ⟨S4096x50x1, .f32⟩
  | 118 => ⟨S1x1x1, .f32⟩
  | 119 => ⟨S4096x50x1, .f32⟩
  | 120 => ⟨S4096x50x1, .f32⟩
  | 121 => ⟨S_, .f32⟩
  | 122 => ⟨S4096x1, .f32⟩
  | 123 => ⟨S_, .f32⟩
  | 124 => ⟨S4096x1, .f32⟩
  | 125 => ⟨S4096x1, .f32⟩
  | 126 => ⟨S4096x1x1, .f32⟩
  | 127 => ⟨S4096x50x1, .f32⟩
  | _ => ⟨S4096, .i32⟩

abbrev hbmTy0_1 (i : Nat) : BufTy := match i % 128 with
  | 0 => ⟨S4096x50x1, .f32⟩
  | 1 => ⟨S4096x50x1, .f32⟩
  | 2 => ⟨S_, .f32⟩
  | 3 => ⟨S4096x1, .f32⟩
  | 4 => ⟨S4096x1x1, .f32⟩
  | 5 => ⟨S4096x50x1, .f32⟩
  | 6 => ⟨S4096x50x1, .f32⟩
  | 7 => ⟨S4096x50x64, .f32⟩
  | 8 => ⟨S4096x50x64, .f32⟩
  | 9 => ⟨S_, .f32⟩
  | 10 => ⟨S4096x64, .f32⟩
  | _ => ⟨S4096, .i32⟩

abbrev hbmTy (i : Nat) : BufTy := match i / 128 with
  | 0 => hbmTy0_0 i
  | 1 => hbmTy0_1 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v0 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v1 : Ref sig .tc := ⟨.hbm, 61, rfl⟩
abbrev main_call2_c : Ref sig .tc := ⟨.hbm, 62, rfl⟩
abbrev main_call2_v0 : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_c_1 : Ref sig .tc := ⟨.hbm, 70, rfl⟩
abbrev main_call2_c_2 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_3 : Ref sig .tc := ⟨.hbm, 78, rfl⟩
abbrev main_call2_v12 : Ref sig .tc := ⟨.hbm, 79, rfl⟩
abbrev main_call2_v13 : Ref sig .tc := ⟨.hbm, 80, rfl⟩
abbrev main_call2_v14 : Ref sig .tc := ⟨.hbm, 81, rfl⟩
abbrev main_call2_cst : Ref sig .tc := ⟨.hbm, 82, rfl⟩
abbrev main_call2_v15 : Ref sig .tc := ⟨.hbm, 83, rfl⟩
abbrev main_v2 : Ref sig .tc := ⟨.hbm, 84, rfl⟩
abbrev main_v3 : Ref sig .tc := ⟨.hbm, 85, rfl⟩
abbrev main_v4 : Ref sig .tc := ⟨.hbm, 86, rfl⟩
abbrev main_v5 : Ref sig .tc := ⟨.hbm, 87, rfl⟩
abbrev main_v6 : Ref sig .tc := ⟨.hbm, 88, rfl⟩
abbrev main_v7 : Ref sig .tc := ⟨.hbm, 89, rfl⟩
abbrev main_call3_cst : Ref sig .tc := ⟨.hbm, 90, rfl⟩
abbrev main_call3_v0 : Ref sig .tc := ⟨.hbm, 91, rfl⟩
abbrev main_v8 : Ref sig .tc := ⟨.hbm, 92, rfl⟩
abbrev main_v9 : Ref sig .tc := ⟨.hbm, 93, rfl⟩
abbrev main_v10 : Ref sig .tc := ⟨.hbm, 94, rfl⟩
abbrev main_v11 : Ref sig .tc := ⟨.hbm, 95, rfl⟩
abbrev main_v12 : Ref sig .tc := ⟨.hbm, 96, rfl⟩
abbrev main_call4_cst : Ref sig .tc := ⟨.hbm, 97, rfl⟩
abbrev main_call4_v0 : Ref sig .tc := ⟨.hbm, 98, rfl⟩
abbrev main_v13 : Ref sig .tc := ⟨.hbm, 99, rfl⟩
abbrev main_v14 : Ref sig .tc := ⟨.hbm, 100, rfl⟩
abbrev main_v15 : Ref sig .tc := ⟨.hbm, 101, rfl⟩
abbrev main_v16 : Ref sig .tc := ⟨.hbm, 102, rfl⟩
abbrev main_v17 : Ref sig .tc := ⟨.hbm, 103, rfl⟩
abbrev main_v18 : Ref sig .tc := ⟨.hbm, 104, rfl⟩
abbrev main_v19 : Ref sig .tc := ⟨.hbm, 105, rfl⟩
abbrev main_v20 : Ref sig .tc := ⟨.hbm, 106, rfl⟩
abbrev main_call5_cst : Ref sig .tc := ⟨.hbm, 107, rfl⟩
abbrev main_call5_v0 : Ref sig .tc := ⟨.hbm, 108, rfl⟩
abbrev main_v21 : Ref sig .tc := ⟨.hbm, 109, rfl⟩
abbrev main_v22 : Ref sig .tc := ⟨.hbm, 110, rfl⟩
abbrev main_v23 : Ref sig .tc := ⟨.hbm, 111, rfl⟩
abbrev main_v24 : Ref sig .tc := ⟨.hbm, 112, rfl⟩
abbrev main_v25 : Ref sig .tc := ⟨.hbm, 113, rfl⟩
abbrev main_call6_cst : Ref sig .tc := ⟨.hbm, 114, rfl⟩
abbrev main_call6_v0 : Ref sig .tc := ⟨.hbm, 115, rfl⟩
abbrev main_v26 : Ref sig .tc := ⟨.hbm, 116, rfl⟩
abbrev main_v27 : Ref sig .tc := ⟨.hbm, 117, rfl⟩
abbrev main_v28 : Ref sig .tc := ⟨.hbm, 118, rfl⟩
abbrev main_v29 : Ref sig .tc := ⟨.hbm, 119, rfl⟩
abbrev main_v30 : Ref sig .tc := ⟨.hbm, 120, rfl⟩
abbrev main_cst : Ref sig .tc := ⟨.hbm, 121, rfl⟩
abbrev main_v31 : Ref sig .tc := ⟨.hbm, 122, rfl⟩
abbrev main_cst_0 : Ref sig .tc := ⟨.hbm, 123, rfl⟩
abbrev main_v32 : Ref sig .tc := ⟨.hbm, 124, rfl⟩
abbrev main_v33 : Ref sig .tc := ⟨.hbm, 125, rfl⟩
abbrev main_v34 : Ref sig .tc := ⟨.hbm, 126, rfl⟩
abbrev main_v35 : Ref sig .tc := ⟨.hbm, 127, rfl⟩
abbrev main_v36 : Ref sig .tc := ⟨.hbm, 128, rfl⟩
abbrev main_v37 : Ref sig .tc := ⟨.hbm, 129, rfl⟩
abbrev main_cst_1 : Ref sig .tc := ⟨.hbm, 130, rfl⟩
abbrev main_v38 : Ref sig .tc := ⟨.hbm, 131, rfl⟩
abbrev main_v39 : Ref sig .tc := ⟨.hbm, 132, rfl⟩
abbrev main_v40 : Ref sig .tc := ⟨.hbm, 133, rfl⟩
abbrev main_v41 : Ref sig .tc := ⟨.hbm, 134, rfl⟩
abbrev main_v42 : Ref sig .tc := ⟨.hbm, 135, rfl⟩
abbrev main_v43 : Ref sig .tc := ⟨.hbm, 136, rfl⟩
abbrev main_cst_2 : Ref sig .tc := ⟨.hbm, 137, rfl⟩
abbrev main_v44 : Ref sig .tc := ⟨.hbm, 138, rfl⟩

abbrev nD : Nat := 1
abbrev τ : Topo := Topo.v7x

variable {F : FTy → Type} [FloatOps F]

class Facts₀ : Prop where
  bcast_S_S4096x50 : S_.BroadcastsInDim S4096x50 (![] : Fin 0 → Fin S4096x50.rank)
  bcast_S4096x50_S4096x50x1_0_1 : S4096x50.BroadcastsInDim S4096x50x1 (![0, 1] : Fin 2 → Fin S4096x50x1.rank)
  bcast_S_S4096x50x1 : S_.BroadcastsInDim S4096x50x1 (![] : Fin 0 → Fin S4096x50x1.rank)
  bcast_S1_S1x1x1_2 : S1.BroadcastsInDim S1x1x1 (![2] : Fin 1 → Fin S1x1x1.rank)
  bcast_S1x1x1_S4096x50x1_0_1_2 : S1x1x1.BroadcastsInDim S4096x50x1 (![0, 1, 2] : Fin 3 → Fin S4096x50x1.rank)
  reducesTo_S4096x50x1_S4096x50_d2 : S4096x50x1.ReducesTo [2] S4096x50
  h_S_ : 0 < S_.numel
  bcast_S4096x50_S4096x50x64_0_1 : S4096x50.BroadcastsInDim S4096x50x64 (![0, 1] : Fin 2 → Fin S4096x50x64.rank)
  bcast_S_S4096x50x64 : S_.BroadcastsInDim S4096x50x64 (![] : Fin 0 → Fin S4096x50x64.rank)
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  bcast_S4096_S4096x64_0 : S4096.BroadcastsInDim S4096x64 (![0] : Fin 1 → Fin S4096x64.rank)
  bcast_S_S4096x64 : S_.BroadcastsInDim S4096x64 (![] : Fin 0 → Fin S4096x64.rank)
  concatenates_S4096x50x64_S4096x50x64_S4096x50x128_d2 : Shape.Concatenates [S4096x50x64, S4096x50x64] S4096x50x128 2
  bcast_S64_S1x1x64_2 : S64.BroadcastsInDim S1x1x64 (![2] : Fin 1 → Fin S1x1x64.rank)
  bcast_S1x1x64_S4096x50x64_0_1_2 : S1x1x64.BroadcastsInDim S4096x50x64 (![0, 1, 2] : Fin 3 → Fin S4096x50x64.rank)
  bcast_S4096x64_S4096x1x64_0_2 : S4096x64.BroadcastsInDim S4096x1x64 (![0, 2] : Fin 2 → Fin S4096x1x64.rank)
  bcast_S4096x1x64_S4096x50x64_0_1_2 : S4096x1x64.BroadcastsInDim S4096x50x64 (![0, 1, 2] : Fin 3 → Fin S4096x50x64.rank)
  reducesTo_S4096x50x1_S4096x1_d1 : S4096x50x1.ReducesTo [1] S4096x1
  bcast_S4096x1_S4096x1x1_0_2 : S4096x1.BroadcastsInDim S4096x1x1 (![0, 2] : Fin 2 → Fin S4096x1x1.rank)
  bcast_S4096x1x1_S4096x50x1_0_1_2 : S4096x1x1.BroadcastsInDim S4096x50x1 (![0, 1, 2] : Fin 3 → Fin S4096x50x1.rank)
  bcast_S4096x50x1_S4096x50x64_0_1_2 : S4096x50x1.BroadcastsInDim S4096x50x64 (![0, 1, 2] : Fin 3 → Fin S4096x50x64.rank)
  reducesTo_S4096x50x64_S4096x64_d1 : S4096x50x64.ReducesTo [1] S4096x64
  gather_S100000x64_S4096x50x1_S4096x50x64_2_0_n_n_0_2_164_wf : GatherDims.WF S100000x64 S4096x50x1 S4096x50x64 [2] [0] [] [0] [] 2 ![1, 64]
  gather_S100000x64_S4096x1_S4096x64_1_0_n_n_0_1_164_wf : GatherDims.WF S100000x64 S4096x1 S4096x64 [1] [0] [] [0] [] 1 ![1, 64]
  gather_S5x64_S4096x50x1_S4096x50x64_2_0_n_n_0_2_164_wf : GatherDims.WF S5x64 S4096x50x1 S4096x50x64 [2] [0] [] [0] [] 2 ![1, 64]
  dot_S4096x50x128_S64x128_S4096x50x64_2_1_01_0_n_n_wf : DotDims.WF S4096x50x128 S64x128 S4096x50x64 [2] [1] [0, 1] [0] [] []
  dot_S4096x50x64_S64x64_S4096x50x64_2_1_01_0_n_n_wf : DotDims.WF S4096x50x64 S64x64 S4096x50x64 [2] [1] [0, 1] [0] [] []
  dot_S4096x50x64_S1x64_S4096x50x1_2_1_01_0_n_n_wf : DotDims.WF S4096x50x64 S1x64 S4096x50x1 [2] [1] [0, 1] [0] [] []

variable [Facts₀]

def gather_S100000x64_S4096x50x1_S4096x50x64_2_0_n_n_0_2_164 : GatherDims S100000x64 S4096x50x1 S4096x50x64 where
  offsetDims := [2]
  collapsedSliceDims := [0]
  operandBatchingDims := []
  startIndicesBatchingDims := []
  startIndexMap := [0]
  indexVectorDim := 2
  sliceSizes := ![1, 64]
  wf := gather_S100000x64_S4096x50x1_S4096x50x64_2_0_n_n_0_2_164_wf
def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def gather_S5x64_S4096x50x1_S4096x50x64_2_0_n_n_0_2_164 : GatherDims S5x64 S4096x50x1 S4096x50x64 where
  offsetDims := [2]
  collapsedSliceDims := [0]
  operandBatchingDims := []
  startIndicesBatchingDims := []
  startIndexMap := [0]
  indexVectorDim := 2
  sliceSizes := ![1, 64]
  wf := gather_S5x64_S4096x50x1_S4096x50x64_2_0_n_n_0_2_164_wf
def dot_S4096x50x128_S64x128_S4096x50x64_2_1_01_0_n_n : DotDims S4096x50x128 S64x128 S4096x50x64 where
  lhsContracting := [2]
  rhsContracting := [1]
  lhsNonContracting := [0, 1]
  rhsNonContracting := [0]
  lhsBatch := []
  rhsBatch := []
  wf := dot_S4096x50x128_S64x128_S4096x50x64_2_1_01_0_n_n_wf
def dot_S4096x50x64_S64x64_S4096x50x64_2_1_01_0_n_n : DotDims S4096x50x64 S64x64 S4096x50x64 where
  lhsContracting := [2]
  rhsContracting := [1]
  lhsNonContracting := [0, 1]
  rhsNonContracting := [0]
  lhsBatch := []
  rhsBatch := []
  wf := dot_S4096x50x64_S64x64_S4096x50x64_2_1_01_0_n_n_wf
def dot_S4096x50x64_S1x64_S4096x50x1_2_1_01_0_n_n : DotDims S4096x50x64 S1x64 S4096x50x1 where
  lhsContracting := [2]
  rhsContracting := [1]
  lhsNonContracting := [0, 1]
  rhsNonContracting := [0]
  lhsBatch := []
  rhsBatch := []
  wf := dot_S4096x50x64_S1x64_S4096x50x1_2_1_01_0_n_n_wf

class Facts : Prop extends Facts₀ where

variable [Facts]
-- ==== Proof.ScInv.lean ====
/-
  The gather kernel on the SparseCore, first call: what one vector subcore (tile) holds of each array, and the invariant of
  its double-buffered loop. Tile `(c, s)` is worker `w = 2 s + c`; it owns entries `[3200 w, 3200 w + 3200)` of the flat item-index
  list and the same rows of the gathered-rows result, and entries / rows `[64 w, 64 w + 64)` of the user-index list and of
  the user-rows result. Its 3200 rows are 25 chunks of 128; chunk `2k` goes through the first row buffer and chunk `2k + 1`
  through the second, each gathered from the table by an indexed copy on a semaphore of its own and copied out to the result
  on another. Before trip `k` of the loop the gather of chunk `2k` is in flight and, for `k > 0`, so is the copy-out of chunk
  `2k - 1`; after the last trip the copy-outs of chunks 22 and 23 are.
  The invariant keeps the row buffers' and the result's contents existential (enough for the frame: termination, no fault,
  the arguments unchanged); the fetched index list stays at its fixed contents, because every later gather's offsets are read
  from it and must be known in range.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«217981_g19061064860210_cont_8to1_1320_37_alg».proof.Proof.Gen.KernelIdeal
import proofs.«217981_g19061064860210_cont_8to1_1320_37_alg».proof.Proof.Gen.KernelIdeal.Skeleton

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 3) fun p => (pcfgs (F := F) p).Adm
abbrev K : SparseCore.Cfg τ sig (ΛP (F := F)) 2 := sc (F := F)
abbrev 𝒱₀ : Variants := Variants.none
abbrev UH : Type := URounds (GSem nD τ sig) ℕ
abbrev UU : Type := UH × (UR sig nD τ × Counters)

local notation "𝕄" => MT nD τ sig (HIx 2) (Elt F) ℕ UU ℕ

local notation "ctW" => (Memref.whole Cert.KernelIdeal.main_v9_scv : Memref Cert.KernelIdeal.sig Kind.scVector Space.hbm Cert.KernelIdeal.S100000x128 EltTy.f32)
local notation "viW" => (Memref.whole Cert.KernelIdeal.main_v13_scv : Memref Cert.KernelIdeal.sig Kind.scVector Space.hbm Cert.KernelIdeal.S102400 EltTy.i32)
local notation "niW" => (Memref.whole Cert.KernelIdeal.main_v14_scv : Memref Cert.KernelIdeal.sig Kind.scVector Space.hbm Cert.KernelIdeal.S2048 EltTy.i32)
local notation "euW" => (Memref.whole Cert.KernelIdeal.main_v18_0_scv : Memref Cert.KernelIdeal.sig Kind.scVector Space.hbm Cert.KernelIdeal.S102400x128 EltTy.f32)
local notation "uvW" => (Memref.whole Cert.KernelIdeal.main_v18_1_scv : Memref Cert.KernelIdeal.sig Kind.scVector Space.hbm Cert.KernelIdeal.S2048x128 EltTy.f32)
local notation "s0W" => (Memref.whole Cert.KernelIdeal.cc1_scratch0 : Memref Cert.KernelIdeal.sig Kind.scVector Space.vmem Cert.KernelIdeal.S3200 EltTy.i32)
local notation "s1W" => (Memref.whole Cert.KernelIdeal.cc1_scratch1 : Memref Cert.KernelIdeal.sig Kind.scVector Space.vmem Cert.KernelIdeal.S64 EltTy.i32)
local notation "s2W" => (Memref.whole Cert.KernelIdeal.cc1_scratch2 : Memref Cert.KernelIdeal.sig Kind.scVector Space.vmem Cert.KernelIdeal.S128x128 EltTy.f32)
local notation "s3W" => (Memref.whole Cert.KernelIdeal.cc1_scratch3 : Memref Cert.KernelIdeal.sig Kind.scVector Space.vmem Cert.KernelIdeal.S128x128 EltTy.f32)
local notation "s4W" => (Memref.whole Cert.KernelIdeal.cc1_scratch4 : Memref Cert.KernelIdeal.sig Kind.scVector Space.vmem Cert.KernelIdeal.S64x128 EltTy.f32)

variable [FloatOps F]
variable (d : Dev nD) (L : grid1.Coords)

abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)

abbrev S3200x128 : Shape := ⟨2, ![3200, 128]⟩

/-! ## Geometry: the tile's share of each array -/

/-- The tile's 3200 entries of the flat item-index list, as the body slices them. -/
abbrev viS (L : grid1.Coords) : Memref sig .scVector .hbm S3200 .i32 :=
  (viW).slice (Rect.unit (s := S102400) (k1_off1 L) S3200.size (k1_off1_inb L)) (fun _ => rfl)
/-- The tile's 64 entries of the user-index list. -/
abbrev niS (L : grid1.Coords) : Memref sig .scVector .hbm S64 .i32 :=
  (niW).slice (Rect.unit (s := S2048) (k1_off2 L) S64.size (k1_off2_inb L)) (fun _ => rfl)
/-- The whole table, as each gather slices it. -/
abbrev ctS : Memref sig .scVector .hbm S100000x128 .f32 :=
  (ctW).slice (Rect.unit (s := S100000x128) ![0, 0] S100000x128.size inb_S100000x128_S100000x128_0_0) (fun _ => rfl)

theorem L0_lt (L : grid1.Coords) : (L 0).val < 2 := (L 0).isLt
theorem L1_lt (L : grid1.Coords) : (L 1).val < 16 := (L 1).isLt

theorem tileOff_inb (L : grid1.Coords) : ∀ a, (![6400 * (L 1).val + 3200 * (L 0).val, 0] : Fin 2 → Nat) a + S3200x128.size a ≤ S102400x128.size a := by
  have h0 := L0_lt L; have h1 := L1_lt L
  intro a; fin_cases a
  · show 6400 * (L 1).val + 3200 * (L 0).val + 3200 ≤ 102400; omega
  · show 0 + 128 ≤ 128; omega
/-- The tile's 3200 rows of the gathered-rows result, a rectangle of the whole array. -/
abbrev tileRect (L : grid1.Coords) : Rect S102400x128 :=
  Rect.unit (s := S102400x128) ![6400 * (L 1).val + 3200 * (L 0).val, 0] S3200x128.size (tileOff_inb L)
theorem uvOff_inb (L : grid1.Coords) : ∀ a, (![128 * (L 1).val + 64 * (L 0).val, 0] : Fin 2 → Nat) a + S64x128.size a ≤ S2048x128.size a := by
  have h0 := L0_lt L; have h1 := L1_lt L
  intro a; fin_cases a
  · show 128 * (L 1).val + 64 * (L 0).val + 64 ≤ 2048; omega
  · show 0 + 128 ≤ 128; omega
/-- The tile's 64 rows of the user-rows result. -/
abbrev uvRect (L : grid1.Coords) : Rect S2048x128 :=
  Rect.unit (s := S2048x128) ![128 * (L 1).val + 64 * (L 0).val, 0] S64x128.size (uvOff_inb L)

theorem oddOff_inb (L : grid1.Coords) (j : ℕ) (hj : j + 1 ≤ 12) : ∀ a, (![6400 * (L 1).val + 3200 * (L 0).val + 256 * j + 128, 0] : Fin 2 → Nat) a + S128x128.size a ≤ S102400x128.size a := by
  have h0 := L0_lt L; have h1 := L1_lt L
  intro a; fin_cases a
  · show 6400 * (L 1).val + 3200 * (L 0).val + 256 * j + 128 + 128 ≤ 102400; omega
  · show 0 + 128 ≤ 128; omega
/-- The window of the result that the odd chunk `2j + 1` is written to. -/
abbrev euOdd (L : grid1.Coords) (j : ℕ) (hj : j + 1 ≤ 12) : Memref sig .scVector .hbm S128x128 .f32 :=
  (euW).slice (Rect.unit (s := S102400x128) ![6400 * (L 1).val + 3200 * (L 0).val + 256 * j + 128, 0] S128x128.size (oddOff_inb L j hj)) (fun _ => rfl)
theorem evenOff_inb (L : grid1.Coords) (j : ℕ) (hj : j + 1 ≤ 12) : ∀ a, (![6400 * (L 1).val + 3200 * (L 0).val + 256 * j, 0] : Fin 2 → Nat) a + S128x128.size a ≤ S102400x128.size a := by
  have h0 := L0_lt L; have h1 := L1_lt L
  intro a; fin_cases a
  · show 6400 * (L 1).val + 3200 * (L 0).val + 256 * j + 128 ≤ 102400; omega
  · show 0 + 128 ≤ 128; omega
/-- The window of the result that the even chunk `2j` is written to. -/
abbrev euEven (L : grid1.Coords) (j : ℕ) (hj : j + 1 ≤ 12) : Memref sig .scVector .hbm S128x128 .f32 :=
  (euW).slice (Rect.unit (s := S102400x128) ![6400 * (L 1).val + 3200 * (L 0).val + 256 * j, 0] S128x128.size (evenOff_inb L j hj)) (fun _ => rfl)

/-- A 128-entry window of the fetched index list. -/
abbrev s0Win (off : Fin 1 → ℕ) (hoff : ∀ a, off a + S128.size a ≤ S3200.size a) : Memref sig .scVector .vmem S128 .i32 :=
  (s0W).slice (Rect.unit (s := S3200) off S128.size hoff) (fun _ => rfl)

/-! ## The conditions of a trip -/

theorem cond1_zero : ∀ k : Fin k1_t1_loop.trips, k.val = 0 → ¬ k1_cond1 k = 1#1 := by decide +kernel
theorem cond1_pos : ∀ k : Fin k1_t1_loop.trips, 0 < k.val → k1_cond1 k = 1#1 := by decide +kernel
theorem cond2_lt : ∀ k : Fin k1_t1_loop.trips, k.val < 11 → k1_cond2 k = 1#1 := by decide +kernel
theorem cond2_ge : ∀ k : Fin k1_t1_loop.trips, ¬ k.val < 11 → ¬ k1_cond2 k = 1#1 := by decide +kernel
theorem trips_eq : k1_t1_loop.trips = 12 := by decide +kernel

theorem le12 : 11 + 1 ≤ 12 := by decide

/-! ## The pieces of the loop's invariant -/

section Inv

variable (O : CellTallies nD τ sig (HIx 2)) (W : Waits sig (HIx 2))
  (fct : Buf (Elt F) ((SparseCore.T (τ := τ) d).loc main_v9)) (q : PosShare TreeShare)
  (c0 : Buf (Elt F) ((thr d L).loc cc1_scratch0))

/-- The gather of an even chunk into the first row buffer in flight, its list a window of the fetched indices; beside it
    what is left of the row buffer, of the index list and of the table's read token while it flies. -/
def gath0 (off : Fin 1 → ℕ) (hoff : ∀ a, off a + S128.size a ≤ S3200.size a) (g2 : Buf (Elt F) ((thr d L).loc cc1_scratch2)) : sProp 𝕄 :=
  iprop(Transfers.Flight countersEmb (thr d L) (SemLoc.dma cc1_scratch5.sem) (default : HIx 2) 524288
          iprop((((s2W).view.loc (thr d L) ↦[(s2W).view.set]{fullShare} g2)
            ∗ ((s0W).view.loc (thr d L) ↦[(s0Win off hoff).view.set]{fullShare} c0))
            ∗ ((ctW).view.loc (thr d L) ↦[(ctS).view.set]{Transfers.shareTok q 3 1} fct))
      ∗ ((s2W).view.loc (thr d L) ↦[Finset.univ \ (s2W).view.set]{fullShare} g2)
      ∗ ((s0W).view.loc (thr d L) ↦[Finset.univ \ (s0Win off hoff).view.set]{fullShare} c0)
      ∗ ((ctW).view.loc (thr d L) ↦[Finset.univ \ (ctS).view.set]{Transfers.shareTok q 3 1} fct))

/-- The copy of the second row buffer out to the odd chunk `2j + 1`'s window in flight, and what is left of the row buffer. -/
def wout1 (j : ℕ) (hj : j + 1 ≤ 12) (fe : Buf (Elt F) ((SparseCore.T (τ := τ) d).loc main_v18_0)) (g3 : Buf (Elt F) ((thr d L).loc cc1_scratch3)) : sProp 𝕄 :=
  iprop(Transfers.Flight countersEmb (thr d L) (SemLoc.dma cc1_scratch8.sem) (default : HIx 2) 524288
          iprop(((euW).view.loc (thr d L) ↦[(euOdd L j hj).view.set]{fullShare} fe)
            ∗ ((s3W).view.loc (thr d L) ↦[(s3W).view.set]{fullShare} g3))
      ∗ ((s3W).view.loc (thr d L) ↦[Finset.univ \ (s3W).view.set]{fullShare} g3))

/-- The copy of the first row buffer out to the even chunk `2j`'s window in flight, and what is left of the row buffer. -/
def wout0 (j : ℕ) (hj : j + 1 ≤ 12) (fe : Buf (Elt F) ((SparseCore.T (τ := τ) d).loc main_v18_0)) (g2 : Buf (Elt F) ((thr d L).loc cc1_scratch2)) : sProp 𝕄 :=
  iprop(Transfers.Flight countersEmb (thr d L) (SemLoc.dma cc1_scratch7.sem) (default : HIx 2) 524288
          iprop(((euW).view.loc (thr d L) ↦[(euEven L j hj).view.set]{fullShare} fe)
            ∗ ((s2W).view.loc (thr d L) ↦[(s2W).view.set]{fullShare} g2))
      ∗ ((s2W).view.loc (thr d L) ↦[Finset.univ \ (s2W).view.set]{fullShare} g2))

/-- What every trip keeps: the admissibility of its waits, the third read token of the table, the second gather's cell at
    zero, and what the tile owes, its recorded waits grown only at index `none`. -/
def keep : sProp 𝕄 :=
  iprop(Transfers.MayWaits (thr d L) (none : HIx 2) O
      ∗ ((ctW).view.loc (thr d L) ↦{Transfers.shareTok q 3 2} fct)
      ∗ semVal (thr d L, SemLoc.dma cc1_scratch6.sem) 0
      ∗ ∃ W', ⌜∀ p ∈ W', p ∈ W ∨ p.2 = none⌝ ∗ owes (thr d L) O W')

/-- Before the first trip: chunk 0's gather in flight, nothing of the result written or in flight. -/
def inv0 : sProp 𝕄 :=
  iprop(keep d L O W fct q ∗ ∃ g2 g3 fe, (∃ off hoff, gath0 d L fct q c0 off hoff g2)
      ∗ semVal (thr d L, SemLoc.dma cc1_scratch7.sem) 0
      ∗ ((s3W).view.loc (thr d L) ↦{fullShare} g3) ∗ semVal (thr d L, SemLoc.dma cc1_scratch8.sem) 0
      ∗ ((euW).view.loc (thr d L) ↦[(euW).view.setOn (tileRect L).set]{fullShare} fe))

/-- Before trip `j + 1 < 12`: the even chunk `2j + 2`'s gather and the odd chunk `2j + 1`'s copy-out in flight. -/
def invMid (j : ℕ) (hj : j + 1 < 12) : sProp 𝕄 :=
  iprop(keep d L O W fct q ∗ ∃ g2 g3 fe, (∃ off hoff, gath0 d L fct q c0 off hoff g2)
      ∗ semVal (thr d L, SemLoc.dma cc1_scratch7.sem) 0
      ∗ wout1 d L j (Nat.le_of_lt hj) fe g3
      ∗ ((euW).view.loc (thr d L) ↦[(euW).view.setOn (tileRect L).set \ (euOdd L j (Nat.le_of_lt hj)).view.set]{fullShare} fe))

/-- After the last trip: chunks 22 and 23 being copied out, no gather in flight. (The even chunk's window travels at the contents
    the result had when its copy was issued, the rest at its contents since: two functions, joined after the loop.) -/
def invEnd : sProp 𝕄 :=
  iprop(keep d L O W fct q ∗ ∃ g2 g3 fe0 fe,
      semVal (thr d L, SemLoc.dma cc1_scratch5.sem) 0 ∗ ((ctW).view.loc (thr d L) ↦{Transfers.shareTok q 3 1} fct)
      ∗ ((s0W).view.loc (thr d L) ↦{fullShare} c0)
      ∗ wout0 d L 11 le12 fe0 g2 ∗ wout1 d L 11 le12 fe g3
      ∗ ((euW).view.loc (thr d L) ↦[((euW).view.setOn (tileRect L).set \ (euEven L 11 le12).view.set) \ (euOdd L 11 le12).view.set]{fullShare} fe))

/-- The loop's invariant before trip `k`. -/
def inv (k : ℕ) (_ : PUnit) : sProp 𝕄 :=
  match k with
  | 0 => inv0 d L O W fct q c0
  | j + 1 => if hj : j + 1 < 12 then invMid d L O W fct q c0 j hj else invEnd d L O W fct q c0

end Inv

end Cert.Proof.KI

end
-- ==== Proof.ScTrip.lean ====
/-
  One trip of the gather kernel's double-buffered loop, in its three shapes: the first trip (no copy-out pending), a middle
  trip, and the last trip (no further gather issued, the even chunk's copy-out left in flight). Each runs the trip's region
  from the loop's invariant before it to the invariant after it.
-/
import proofs.«217981_g19061064860210_cont_8to1_1320_37_alg».proof.Proof.ScInv

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "ctW" => (Memref.whole Cert.KernelIdeal.main_v9_scv : Memref Cert.KernelIdeal.sig Kind.scVector Space.hbm Cert.KernelIdeal.S100000x128 EltTy.f32)
local notation "viW" => (Memref.whole Cert.KernelIdeal.main_v13_scv : Memref Cert.KernelIdeal.sig Kind.scVector Space.hbm Cert.KernelIdeal.S102400 EltTy.i32)
local notation "niW" => (Memref.whole Cert.KernelIdeal.main_v14_scv : Memref Cert.KernelIdeal.sig Kind.scVector Space.hbm Cert.KernelIdeal.S2048 EltTy.i32)
local notation "euW" => (Memref.whole Cert.KernelIdeal.main_v18_0_scv : Memref Cert.KernelIdeal.sig Kind.scVector Space.hbm Cert.KernelIdeal.S102400x128 EltTy.f32)
local notation "uvW" => (Memref.whole Cert.KernelIdeal.main_v18_1_scv : Memref Cert.KernelIdeal.sig Kind.scVector Space.hbm Cert.KernelIdeal.S2048x128 EltTy.f32)
local notation "s0W" => (Memref.whole Cert.KernelIdeal.cc1_scratch0 : Memref Cert.KernelIdeal.sig Kind.scVector Space.vmem Cert.KernelIdeal.S3200 EltTy.i32)
local notation "s1W" => (Memref.whole Cert.KernelIdeal.cc1_scratch1 : Memref Cert.KernelIdeal.sig Kind.scVector Space.vmem Cert.KernelIdeal.S64 EltTy.i32)
local notation "s2W" => (Memref.whole Cert.KernelIdeal.cc1_scratch2 : Memref Cert.KernelIdeal.sig Kind.scVector Space.vmem Cert.KernelIdeal.S128x128 EltTy.f32)
local notation "s3W" => (Memref.whole Cert.KernelIdeal.cc1_scratch3 : Memref Cert.KernelIdeal.sig Kind.scVector Space.vmem Cert.KernelIdeal.S128x128 EltTy.f32)
local notation "s4W" => (Memref.whole Cert.KernelIdeal.cc1_scratch4 : Memref Cert.KernelIdeal.sig Kind.scVector Space.vmem Cert.KernelIdeal.S64x128 EltTy.f32)

variable [FloatOps F]
variable (d : Dev nD) (L : grid1.Coords)

variable (O : CellTallies nD τ sig (HIx 2)) (W : Waits sig (HIx 2))
  (fct : Buf (Elt F) ((SparseCore.T (τ := τ) d).loc main_v9)) (q : PosShare TreeShare)
  (c0 : Buf (Elt F) ((thr d L).loc cc1_scratch0))

omit [FloatOps F] in
/-- A wait recorded at index `none` keeps the recorded waits within the bound. -/
theorem mem_ins {W W' : Waits sig (HIx 2)} {sm : SemLoc sig} (h : ∀ p ∈ W', p ∈ W ∨ p.2 = none) :
    ∀ p ∈ insert (sm, (default : HIx 2)) W', p ∈ W ∨ p.2 = none := by
  intro p hp
  rcases Finset.mem_insert.mp hp with hp | hp
  · exact .inr (hp ▸ rfl)
  · exact h p hp

omit [FloatOps F] in
/-- The odd chunk's window spelt by its offsets' closed form is the window spelt by any offsets equal to it. -/
theorem odd_respell (off : Fin 2 → ℕ) (hoff : ∀ a, off a + S128x128.size a ≤ S102400x128.size a)
    (j : ℕ) (hj : j + 1 ≤ 12) (e : off = ![6400 * (L 1).val + 3200 * (L 0).val + 256 * j + 128, 0])
    (fe : Buf (Elt F) ((SparseCore.T (τ := τ) d).loc main_v18_0)) (g3 : Buf (Elt F) ((thr d L).loc cc1_scratch3)) :
    (iprop((Transfers.Flight countersEmb (thr d L) (SemLoc.dma cc1_scratch8.sem) (default : HIx 2) 524288
          iprop(((euW).view.loc (thr d L) ↦[((euW).slice (Rect.unit (s := S102400x128) off S128x128.size hoff) (fun _ => rfl)).view.set]{fullShare} fe)
            ∗ ((s3W).view.loc (thr d L) ↦[(s3W).view.set]{fullShare} g3))
        ∗ ((s3W).view.loc (thr d L) ↦[Finset.univ \ (s3W).view.set]{fullShare} g3))
      ∗ ((euW).view.loc (thr d L) ↦[(euW).view.setOn (tileRect L).set \ ((euW).slice (Rect.unit (s := S102400x128) off S128x128.size hoff) (fun _ => rfl)).view.set]{fullShare} fe)) : sProp 𝕄)
    = iprop(wout1 d L j hj fe g3 ∗ ((euW).view.loc (thr d L) ↦[(euW).view.setOn (tileRect L).set \ (euOdd L j hj).view.set]{fullShare} fe)) := by
  subst e; rfl

/-- The first trip: chunk 0 lands and is copied out and waited for, chunk 2's gather is issued, chunk 1 is gathered and its
    copy-out issued. -/
theorem trip0 (hO : ∀ g, O g none = 0) (k : Fin k1_t1_loop.trips) (h0 : k.val = 0)
    (hc0 : ∀ (off : Fin 1 → ℕ) (h : ∀ a, off a + S128.size a ≤ S3200.size a) (x : S128.Idx),
      (View.read (Elt F) ((s0W).slice (Rect.unit (s := S3200) off S128.size h) (fun _ => rfl)).view c0 x).toNat < 100000) :
    inv0 d L O W fct q c0
      ⊢ wp frame (wpE (defs₀ (F := F)) 𝒱₀ (thr d L) none) Set.univ
          (k1_t1_body L ctW (Memref.isWhole_whole _) viW (Memref.isWhole_whole _) niW (Memref.isWhole_whole _)
            euW (Memref.isWhole_whole _) uvW (Memref.isWhole_whole _)
            s0W (Memref.isWhole_whole _) s1W (Memref.isWhole_whole _) s2W (Memref.isWhole_whole _)
            s3W (Memref.isWhole_whole _) s4W (Memref.isWhole_whole _)
            cc1_scratch5 cc1_scratch6 cc1_scratch7 cc1_scratch8 cc1_scratch9 cc1_scoped0 cc1_scoped1 cc1_scoped2 k ⟨⟩)
          fun _ => invMid d L O W fct q c0 0 (by decide) := by
  have h1 : ¬ k1_cond1 k = 1#1 := cond1_zero k h0
  have h2 : k1_cond2 k = 1#1 := cond2_lt k (by omega)
  have hk : (k : ℕ) < 12 := by omega
  unfold k1_t1_body
  unfold inv0 keep
  iintro ⟨⟨Hmw, Hct2, Hg1, %W', %hW', HO⟩, %g2, %g3, %fe, ⟨%off, %hoff, HG⟩, Hw0, Hs3, Hw1, Heu⟩
  unfold gath0
  icases HG with ⟨Hg0, Hs2r, Hs0r, Hct1r⟩
  sl_exec
  sl_step
  unfold invMid keep
  isplitl [Hmw Hct2 Hg1 HO]
  · isplitl [Hmw]; · iexact Hmw
    isplitl [Hct2]; · iexact Hct2
    isplitl [Hg1]; · iexact Hg1
    iexists _; isplitr
    swap; · iexact HO
    ipureintro; exact mem_ins (mem_ins (mem_ins hW'))
  iexists _; iexists _; iexists _
  isplitl [Hg0 Hs2r Hs0r Hct1r]
  · iexists _; iexists _
    unfold gath0
    isplitl [Hg0]; · iexact Hg0
    isplitl [Hs2r]; · iexact Hs2r
    isplitl [Hs0r]; · iexact Hs0r
    iexact Hct1r
  isplitl [Hw0]; · iexact Hw0
  iapply (Entails.of_eq (odd_respell d L (k1_off9 L k) (k1_off9_inb L k) 0 _ (by rw [k1_off9_eq, h0]) _ _))
  isplitl [Hw1 Hs3]
  · isplitl [Hw1]; · iexact Hw1
    iexact Hs3
  iexact Heu

/-- A middle trip `k = j + 1 < 11`: chunk `2k` lands, chunk `2k - 1`'s copy-out is waited for, chunk `2k + 1`'s gather and chunk
    `2k`'s copy-out are issued, the latter waited for, chunk `2k + 2`'s gather issued, chunk `2k + 1` lands and its copy-out is issued. -/
theorem tripMid (hO : ∀ g, O g none = 0) (k : Fin k1_t1_loop.trips) (j : ℕ) (hkj : k.val = j + 1) (hj : j + 1 < 11)
    (hc0 : ∀ (off : Fin 1 → ℕ) (h : ∀ a, off a + S128.size a ≤ S3200.size a) (x : S128.Idx),
      (View.read (Elt F) ((s0W).slice (Rect.unit (s := S3200) off S128.size h) (fun _ => rfl)).view c0 x).toNat < 100000) :
    invMid d L O W fct q c0 j (by omega)
      ⊢ wp frame (wpE (defs₀ (F := F)) 𝒱₀ (thr d L) none) Set.univ
          (k1_t1_body L ctW (Memref.isWhole_whole _) viW (Memref.isWhole_whole _) niW (Memref.isWhole_whole _)
            euW (Memref.isWhole_whole _) uvW (Memref.isWhole_whole _)
            s0W (Memref.isWhole_whole _) s1W (Memref.isWhole_whole _) s2W (Memref.isWhole_whole _)
            s3W (Memref.isWhole_whole _) s4W (Memref.isWhole_whole _)
            cc1_scratch5 cc1_scratch6 cc1_scratch7 cc1_scratch8 cc1_scratch9 cc1_scoped0 cc1_scoped1 cc1_scoped2 k ⟨⟩)
          fun _ => invMid d L O W fct q c0 (j + 1) (by omega) := by
  have h1 : k1_cond1 k = 1#1 := cond1_pos k (by omega)
  have h2 : k1_cond2 k = 1#1 := cond2_lt k (by omega)
  have hk : (k : ℕ) < 12 := by omega
  unfold k1_t1_body
  unfold invMid keep
  iintro ⟨⟨Hmw, Hct2, Hg1, %W', %hW', HO⟩, %g2, %g3, %fe, ⟨%off, %hoff, HG⟩, Hw0, HWO, Heu⟩
  unfold gath0 wout1
  icases HG with ⟨Hg0, Hs2r, Hs0r, Hct1r⟩
  icases HWO with ⟨Hw1, Hs3⟩
  sl_exec
  sl_step
  try unfold invMid keep
  isplitl [Hmw Hct2 Hg1 HO]
  · isplitl [Hmw]; · iexact Hmw
    isplitl [Hct2]; · iexact Hct2
    isplitl [Hg1]; · iexact Hg1
    iexists _; isplitr
    swap; · iexact HO
    ipureintro
    first
      | exact mem_ins (mem_ins (mem_ins (mem_ins hW')))
      | exact mem_ins (mem_ins (mem_ins hW'))
  iexists _; iexists _; iexists _
  isplitl [Hg0 Hs2r Hs0r Hct1r]
  · iexists _; iexists _
    try unfold gath0
    isplitl [Hg0]; · iexact Hg0
    isplitl [Hs2r]; · iexact Hs2r
    isplitl [Hs0r]; · iexact Hs0r
    iexact Hct1r
  isplitl [Hw0]; · iexact Hw0
  iapply (Entails.of_eq (odd_respell d L (k1_off9 L k) (k1_off9_inb L k) (j + 1) _ (by rw [k1_off9_eq, hkj]) _ _))
  isplitl [Hw1 Hs3]
  · isplitl [Hw1]; · iexact Hw1
    iexact Hs3
  iexact Heu

omit [FloatOps F] in
/-- The two windows in flight after the last trip, spelt by their offsets' closed forms. -/
theorem end_respell (off6 off9 : Fin 2 → ℕ) (h6 : ∀ a, off6 a + S128x128.size a ≤ S102400x128.size a)
    (h9 : ∀ a, off9 a + S128x128.size a ≤ S102400x128.size a)
    (e6 : off6 = ![6400 * (L 1).val + 3200 * (L 0).val + 256 * 11, 0])
    (e9 : off9 = ![6400 * (L 1).val + 3200 * (L 0).val + 256 * 11 + 128, 0])
    (fe0 fe : Buf (Elt F) ((SparseCore.T (τ := τ) d).loc main_v18_0)) (g2 : Buf (Elt F) ((thr d L).loc cc1_scratch2))
    (g3 : Buf (Elt F) ((thr d L).loc cc1_scratch3)) :
    (iprop((Transfers.Flight countersEmb (thr d L) (SemLoc.dma cc1_scratch7.sem) (default : HIx 2) 524288
          iprop(((euW).view.loc (thr d L) ↦[((euW).slice (Rect.unit (s := S102400x128) off6 S128x128.size h6) (fun _ => rfl)).view.set]{fullShare} fe0)
            ∗ ((s2W).view.loc (thr d L) ↦[(s2W).view.set]{fullShare} g2))
        ∗ ((s2W).view.loc (thr d L) ↦[Finset.univ \ (s2W).view.set]{fullShare} g2))
      ∗ (Transfers.Flight countersEmb (thr d L) (SemLoc.dma cc1_scratch8.sem) (default : HIx 2) 524288
          iprop(((euW).view.loc (thr d L) ↦[((euW).slice (Rect.unit (s := S102400x128) off9 S128x128.size h9) (fun _ => rfl)).view.set]{fullShare} fe)
            ∗ ((s3W).view.loc (thr d L) ↦[(s3W).view.set]{fullShare} g3))
        ∗ ((s3W).view.loc (thr d L) ↦[Finset.univ \ (s3W).view.set]{fullShare} g3))
      ∗ ((euW).view.loc (thr d L) ↦[((euW).view.setOn (tileRect L).set \ ((euW).slice (Rect.unit (s := S102400x128) off6 S128x128.size h6) (fun _ => rfl)).view.set)
          \ ((euW).slice (Rect.unit (s := S102400x128) off9 S128x128.size h9) (fun _ => rfl)).view.set]{fullShare} fe)) : sProp 𝕄)
    = iprop(wout0 d L 11 le12 fe0 g2 ∗ wout1 d L 11 le12 fe g3
        ∗ ((euW).view.loc (thr d L) ↦[((euW).view.setOn (tileRect L).set \ (euEven L 11 le12).view.set) \ (euOdd L 11 le12).view.set]{fullShare} fe)) := by
  subst e6; subst e9; rfl

/-- The last trip `k = 11`: chunk 22 lands, chunk 21's copy-out is waited for, chunk 23's gather and chunk 22's copy-out are
    issued, chunk 23 lands and its copy-out is issued; no further gather. -/
theorem tripLast (hO : ∀ g, O g none = 0) (k : Fin k1_t1_loop.trips) (hk11 : k.val = 11)
    (hc0 : ∀ (off : Fin 1 → ℕ) (h : ∀ a, off a + S128.size a ≤ S3200.size a) (x : S128.Idx),
      (View.read (Elt F) ((s0W).slice (Rect.unit (s := S3200) off S128.size h) (fun _ => rfl)).view c0 x).toNat < 100000) :
    invMid d L O W fct q c0 10 (by decide)
      ⊢ wp frame (wpE (defs₀ (F := F)) 𝒱₀ (thr d L) none) Set.univ
          (k1_t1_body L ctW (Memref.isWhole_whole _) viW (Memref.isWhole_whole _) niW (Memref.isWhole_whole _)
            euW (Memref.isWhole_whole _) uvW (Memref.isWhole_whole _)
            s0W (Memref.isWhole_whole _) s1W (Memref.isWhole_whole _) s2W (Memref.isWhole_whole _)
            s3W (Memref.isWhole_whole _) s4W (Memref.isWhole_whole _)
            cc1_scratch5 cc1_scratch6 cc1_scratch7 cc1_scratch8 cc1_scratch9 cc1_scoped0 cc1_scoped1 cc1_scoped2 k ⟨⟩)
          fun _ => invEnd d L O W fct q c0 := by
  have h1 : k1_cond1 k = 1#1 := cond1_pos k (by omega)
  have h2 : ¬ k1_cond2 k = 1#1 := cond2_ge k (by omega)
  have hk : (k : ℕ) < 12 := by omega
  have hkj : (k : ℕ) = 10 + 1 := hk11
  unfold k1_t1_body
  unfold invMid keep
  iintro ⟨⟨Hmw, Hct2, Hg1, %W', %hW', HO⟩, %g2, %g3, %fe, ⟨%off, %hoff, HG⟩, Hw0, HWO, Heu⟩
  unfold gath0 wout1
  icases HG with ⟨Hg0, Hs2r, Hs0r, Hct1r⟩
  icases HWO with ⟨Hw1, Hs3⟩
  sl_exec
  sl_step
  unfold invEnd
  try unfold keep
  isplitl [Hmw Hct2 Hg1 HO]
  · isplitl [Hmw]; · iexact Hmw
    isplitl [Hct2]; · iexact Hct2
    isplitl [Hg1]; · iexact Hg1
    iexists _; isplitr
    swap; · iexact HO
    ipureintro
    first
      | exact mem_ins (mem_ins (mem_ins (mem_ins hW')))
      | exact mem_ins (mem_ins (mem_ins hW'))
  iexists _; iexists _; iexists _; iexists _
  isplitl [Hg0]; · iexact Hg0
  isplitl [Hct1r]; · iexact Hct1r
  isplitl [Hs0r]; · iexact Hs0r
  iapply (Entails.of_eq (end_respell d L (k1_off6 L k) (k1_off9 L k) (k1_off6_inb L k) (k1_off9_inb L k)
    (by rw [k1_off6_eq, hk11]) (by rw [k1_off9_eq, hk11]) _ _ _ _))
  isplitl [Hw0 Hs2r]
  · isplitl [Hw0]; · iexact Hw0
    iexact Hs2r
  isplitl [Hw1 Hs3]
  · isplitl [Hw1]; · iexact Hw1
    iexact Hs3
  iexact Heu

end Cert.Proof.KI

end
-- ==== Proof.ScTile.lean ====
/-
  The gather kernel's task on one vector subcore, run whole: the two index lists fetched, the user rows' gather and chunk 0's
  gather issued, the loop by its invariant (ScInv, ScTrip), then chunk 24 and the user rows copied out and every transfer waited
  for. From what the tile is handed — read tokens of the table, its slices of the two index lists, its rows of the two
  results, its scratch and its semaphores at zero — back to the same, the results' rows at some contents.
-/
import proofs.«217981_g19061064860210_cont_8to1_1320_37_alg».proof.Proof.ScTrip

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "ctW" => (Memref.whole Cert.KernelIdeal.main_v9_scv : Memref Cert.KernelIdeal.sig Kind.scVector Space.hbm Cert.KernelIdeal.S100000x128 EltTy.f32)
local notation "viW" => (Memref.whole Cert.KernelIdeal.main_v13_scv : Memref Cert.KernelIdeal.sig Kind.scVector Space.hbm Cert.KernelIdeal.S102400 EltTy.i32)
local notation "niW" => (Memref.whole Cert.KernelIdeal.main_v14_scv : Memref Cert.KernelIdeal.sig Kind.scVector Space.hbm Cert.KernelIdeal.S2048 EltTy.i32)
local notation "euW" => (Memref.whole Cert.KernelIdeal.main_v18_0_scv : Memref Cert.KernelIdeal.sig Kind.scVector Space.hbm Cert.KernelIdeal.S102400x128 EltTy.f32)
local notation "uvW" => (Memref.whole Cert.KernelIdeal.main_v18_1_scv : Memref Cert.KernelIdeal.sig Kind.scVector Space.hbm Cert.KernelIdeal.S2048x128 EltTy.f32)
local notation "s0W" => (Memref.whole Cert.KernelIdeal.cc1_scratch0 : Memref Cert.KernelIdeal.sig Kind.scVector Space.vmem Cert.KernelIdeal.S3200 EltTy.i32)
local notation "s1W" => (Memref.whole Cert.KernelIdeal.cc1_scratch1 : Memref Cert.KernelIdeal.sig Kind.scVector Space.vmem Cert.KernelIdeal.S64 EltTy.i32)
local notation "s2W" => (Memref.whole Cert.KernelIdeal.cc1_scratch2 : Memref Cert.KernelIdeal.sig Kind.scVector Space.vmem Cert.KernelIdeal.S128x128 EltTy.f32)
local notation "s3W" => (Memref.whole Cert.KernelIdeal.cc1_scratch3 : Memref Cert.KernelIdeal.sig Kind.scVector Space.vmem Cert.KernelIdeal.S128x128 EltTy.f32)
local notation "s4W" => (Memref.whole Cert.KernelIdeal.cc1_scratch4 : Memref Cert.KernelIdeal.sig Kind.scVector Space.vmem Cert.KernelIdeal.S64x128 EltTy.f32)

variable [FloatOps F]
variable (d : Dev nD) (L : grid1.Coords)

variable (O : CellTallies nD τ sig (HIx 2)) (W : Waits sig (HIx 2))
  (fct : Buf (Elt F) ((SparseCore.T (τ := τ) d).loc main_v9)) (q : PosShare TreeShare)

omit [FloatOps F] in
theorem inv_zero (c0 : Buf (Elt F) ((thr d L).loc cc1_scratch0)) (acc : PUnit) :
    inv d L O W fct q c0 0 acc = inv0 d L O W fct q c0 := rfl
omit [FloatOps F] in
theorem inv_end (c0 : Buf (Elt F) ((thr d L).loc cc1_scratch0)) (acc : PUnit) :
    inv d L O W fct q c0 (Scf.trips k1_t1_loop.lb k1_t1_loop.ub k1_t1_loop.st) acc = invEnd d L O W fct q c0 := by
  rw [show Scf.trips k1_t1_loop.lb k1_t1_loop.ub k1_t1_loop.st = 12 from trips_eq]; rfl

/-- What the first copy leaves in the item-index scratch: the tile's slice of the flat index list. -/
abbrev fetched (fvi : Buf (Elt F) ((SparseCore.T (τ := τ) d).loc main_v13)) (f0 : Buf (Elt F) ((thr d L).loc cc1_scratch0)) :
    Buf (Elt F) ((thr d L).loc cc1_scratch0) :=
  View.write (Elt F) (s0W).view f0 (ReadAs.same.apply (View.read (Elt F) (viS L).view fvi)) Finset.univ

omit [FloatOps F] in
/-- What the fetch leaves in the item-index scratch: the tile's slice of the flat list, every entry a row of the table. -/
theorem c0_lt (fvi : Buf (Elt F) ((SparseCore.T (τ := τ) d).loc main_v13)) (hvi : ∀ j, (fvi j).toNat < 100000)
    (f0 : Buf (Elt F) ((thr d L).loc cc1_scratch0)) (i : S3200.Idx) :
    (View.write (Elt F) (s0W).view f0 (ReadAs.same.apply (View.read (Elt F) (viS L).view fvi)) Finset.univ i).toNat < 100000 := by
  have e : View.write (Elt F) (s0W).view f0 (ReadAs.same.apply (View.read (Elt F) (viS L).view fvi)) Finset.univ
      = ReadAs.same.apply (View.read (Elt F) (viS L).view fvi) := View.write_whole_univ _ _ _
  rw [e]
  show (View.read (Elt F) (viS L).view fvi i).toNat < 100000
  rw [show View.read (Elt F) (viS L).view fvi i = fvi ((viS L).view.emb i) from (View.read_apply _ _).trans (cast_eq _ _)]
  exact hvi _

omit [FloatOps F] in
/-- Every 128-entry window of the fetched item indices names rows of the table. -/
theorem hin_v_of (fvi : Buf (Elt F) ((SparseCore.T (τ := τ) d).loc main_v13)) (hvi : ∀ j, (fvi j).toNat < 100000)
    (f0 : Buf (Elt F) ((thr d L).loc cc1_scratch0)) :
    ∀ (off : Fin 1 → Nat) (h : ∀ a, off a + S128.size a ≤ S3200.size a) (x : S128.Idx),
      (View.read (Elt F) ((s0W).slice (Rect.unit (s := S3200) off S128.size h) (fun _ => rfl)).view (View.write (Elt F) (s0W).view f0
        (ReadAs.same.apply (View.read (Elt F) (viS L).view fvi)) Finset.univ) x).toNat < 100000 := by
  intro off h x
  rw [show View.read (Elt F) ((s0W).slice (Rect.unit (s := S3200) off S128.size h) (fun _ => rfl)).view (View.write (Elt F) (s0W).view f0
        (ReadAs.same.apply (View.read (Elt F) (viS L).view fvi)) Finset.univ) x
      = View.write (Elt F) (s0W).view f0 (ReadAs.same.apply (View.read (Elt F) (viS L).view fvi)) Finset.univ
          (((s0W).slice (Rect.unit (s := S3200) off S128.size h) (fun _ => rfl)).view.emb x) from (View.read_apply _ _).trans (cast_eq _ _)]
  exact c0_lt d L fvi hvi f0 _

omit [FloatOps F] in
/-- The fetched user indices name rows of the table. -/
theorem hin_u_of (fni : Buf (Elt F) ((SparseCore.T (τ := τ) d).loc main_v14)) (hni : ∀ j, (fni j).toNat < 100000) :
    ∀ (g : Buf (Elt F) ((thr d L).loc cc1_scratch1)) (x : S64.Idx),
      (View.read (Elt F) (s1W).view (View.write (Elt F) (s1W).view g
        (ReadAs.same.apply (View.read (Elt F) (niS L).view fni)) Finset.univ) x).toNat < 100000 := by
  intro g x
  have e : View.write (Elt F) (s1W).view g (ReadAs.same.apply (View.read (Elt F) (niS L).view fni)) Finset.univ
      = ReadAs.same.apply (View.read (Elt F) (niS L).view fni) := View.write_whole_univ _ _ _
  rw [e]
  rw [show View.read (Elt F) (s1W).view (ReadAs.same.apply (View.read (Elt F) (niS L).view fni)) x
      = ReadAs.same.apply (View.read (Elt F) (niS L).view fni) ((s1W).view.emb x) from (View.read_apply _ _).trans (cast_eq _ _)]
  show (View.read (Elt F) (niS L).view fni ((s1W).view.emb x)).toNat < 100000
  rw [show View.read (Elt F) (niS L).view fni ((s1W).view.emb x) = fni ((niS L).view.emb ((s1W).view.emb x)) from (View.read_apply _ _).trans (cast_eq _ _)]
  exact hni _

omit [FloatOps F] in
/-- The last even chunk's window lies in the tile's rows. -/
theorem even11_sub : (euEven L 11 le12).view.set ⊆ (euW).view.setOn (tileRect L).set := by
  refine Memref.set_slice_subset_setOn_of_within (euW) (tileRect L) _ (fun _ => rfl) (LoadRect.within_of_withinP ?_)
  have h0 := L0_lt L; have h1 := L1_lt L
  intro a; fin_cases a
  · refine ⟨?_, ?_, Or.inl rfl⟩
    · show 6400 * (L 1).val + 3200 * (L 0).val ≤ 6400 * (L 1).val + 3200 * (L 0).val + 256 * 11; omega
    · show 6400 * (L 1).val + 3200 * (L 0).val + 256 * 11 + 1 * (128 - 1) < 6400 * (L 1).val + 3200 * (L 0).val + 1 * 3200; omega
  · refine ⟨?_, ?_, Or.inl rfl⟩
    · show 0 ≤ 0; omega
    · show 0 + 1 * (128 - 1) < 0 + 1 * 128; omega

/-- What the tile holds when its task starts. -/
def tilePre (fvi : Buf (Elt F) ((SparseCore.T (τ := τ) d).loc main_v13)) (fni : Buf (Elt F) ((SparseCore.T (τ := τ) d).loc main_v14))
    (qi : PosShare TreeShare)
    (f0 : Buf (Elt F) ((thr d L).loc cc1_scratch0)) (f1 : Buf (Elt F) ((thr d L).loc cc1_scratch1))
    (f2 : Buf (Elt F) ((thr d L).loc cc1_scratch2)) (f3 : Buf (Elt F) ((thr d L).loc cc1_scratch3))
    (f4 : Buf (Elt F) ((thr d L).loc cc1_scratch4))
    (feu : Buf (Elt F) ((SparseCore.T (τ := τ) d).loc main_v18_0)) (fuv : Buf (Elt F) ((SparseCore.T (τ := τ) d).loc main_v18_1)) : sProp 𝕄 :=
  iprop(Transfers.MayWaits (thr d L) (none : HIx 2) O
      ∗ ((ctW).view.loc (thr d L) ↦{Transfers.shareTok q 3 0} fct)
      ∗ ((ctW).view.loc (thr d L) ↦{Transfers.shareTok q 3 1} fct)
      ∗ ((ctW).view.loc (thr d L) ↦{Transfers.shareTok q 3 2} fct)
      ∗ ((viS L).view.loc (thr d L) ↦[(viS L).view.set]{qi} fvi)
      ∗ ((niS L).view.loc (thr d L) ↦[(niS L).view.set]{qi} fni)
      ∗ ((s0W).view.loc (thr d L) ↦{fullShare} f0) ∗ ((s1W).view.loc (thr d L) ↦{fullShare} f1)
      ∗ ((s2W).view.loc (thr d L) ↦{fullShare} f2) ∗ ((s3W).view.loc (thr d L) ↦{fullShare} f3)
      ∗ ((s4W).view.loc (thr d L) ↦{fullShare} f4)
      ∗ semVal (thr d L, SemLoc.dma cc1_scratch5.sem) 0 ∗ semVal (thr d L, SemLoc.dma cc1_scratch6.sem) 0
      ∗ semVal (thr d L, SemLoc.dma cc1_scratch7.sem) 0 ∗ semVal (thr d L, SemLoc.dma cc1_scratch8.sem) 0
      ∗ semVal (thr d L, SemLoc.dma cc1_scratch9.sem) 0
      ∗ semVal (thr d L, SemLoc.dma cc1_scoped0.sem) 0 ∗ semVal (thr d L, SemLoc.dma cc1_scoped1.sem) 0
      ∗ semVal (thr d L, SemLoc.dma cc1_scoped2.sem) 0
      ∗ ((euW).view.loc (thr d L) ↦[(euW).view.setOn (tileRect L).set]{fullShare} feu)
      ∗ ((uvW).view.loc (thr d L) ↦[(uvW).view.setOn (uvRect L).set]{fullShare} fuv)
      ∗ owes (thr d L) O W)

/-- What the tile holds when its task ends: all it was handed, the scratch and the results' rows at some contents, the
    recorded waits grown only at index `none`. -/
def tilePost (fvi : Buf (Elt F) ((SparseCore.T (τ := τ) d).loc main_v13)) (fni : Buf (Elt F) ((SparseCore.T (τ := τ) d).loc main_v14))
    (qi : PosShare TreeShare) : sProp 𝕄 :=
  iprop(((ctW).view.loc (thr d L) ↦{Transfers.shareTok q 3 0} fct)
      ∗ ((ctW).view.loc (thr d L) ↦{Transfers.shareTok q 3 1} fct)
      ∗ ((ctW).view.loc (thr d L) ↦{Transfers.shareTok q 3 2} fct)
      ∗ ((viS L).view.loc (thr d L) ↦[(viS L).view.set]{qi} fvi)
      ∗ ((niS L).view.loc (thr d L) ↦[(niS L).view.set]{qi} fni)
      ∗ (∃ f, (s0W).view.loc (thr d L) ↦{fullShare} f) ∗ (∃ f, (s1W).view.loc (thr d L) ↦{fullShare} f)
      ∗ (∃ f, (s2W).view.loc (thr d L) ↦{fullShare} f) ∗ (∃ f, (s3W).view.loc (thr d L) ↦{fullShare} f)
      ∗ (∃ f, (s4W).view.loc (thr d L) ↦{fullShare} f)
      ∗ semVal (thr d L, SemLoc.dma cc1_scratch5.sem) 0 ∗ semVal (thr d L, SemLoc.dma cc1_scratch6.sem) 0
      ∗ semVal (thr d L, SemLoc.dma cc1_scratch7.sem) 0 ∗ semVal (thr d L, SemLoc.dma cc1_scratch8.sem) 0
      ∗ semVal (thr d L, SemLoc.dma cc1_scratch9.sem) 0
      ∗ semVal (thr d L, SemLoc.dma cc1_scoped0.sem) 0 ∗ semVal (thr d L, SemLoc.dma cc1_scoped1.sem) 0
      ∗ semVal (thr d L, SemLoc.dma cc1_scoped2.sem) 0
      ∗ (∃ f, (euW).view.loc (thr d L) ↦[(euW).view.setOn (tileRect L).set]{fullShare} f)
      ∗ (∃ f, (uvW).view.loc (thr d L) ↦[(uvW).view.setOn (uvRect L).set]{fullShare} f)
      ∗ ∃ W', ⌜∀ p ∈ W', p ∈ W ∨ p.2 = none⌝ ∗ owes (thr d L) O W')

set_option maxHeartbeats 4000000 in
/-- The task, run: every weakly fair execution of the tile's body from what it is handed ends, without a fault, in what it
    hands back. The index lists' entries name rows of the table (`hvi`, `hni`): that is what keeps every indexed copy defined. -/
theorem tile_run (hO : ∀ g, O g none = 0)
    (fvi : Buf (Elt F) ((SparseCore.T (τ := τ) d).loc main_v13)) (fni : Buf (Elt F) ((SparseCore.T (τ := τ) d).loc main_v14))
    (qi : PosShare TreeShare)
    (f0 : Buf (Elt F) ((thr d L).loc cc1_scratch0)) (f1 : Buf (Elt F) ((thr d L).loc cc1_scratch1))
    (f2 : Buf (Elt F) ((thr d L).loc cc1_scratch2)) (f3 : Buf (Elt F) ((thr d L).loc cc1_scratch3))
    (f4 : Buf (Elt F) ((thr d L).loc cc1_scratch4))
    (feu : Buf (Elt F) ((SparseCore.T (τ := τ) d).loc main_v18_0)) (fuv : Buf (Elt F) ((SparseCore.T (τ := τ) d).loc main_v18_1))
    (hvi : ∀ j, (fvi j).toNat < 100000) (hni : ∀ j, (fni j).toNat < 100000) :
    tilePre d L O W fct q fvi fni qi f0 f1 f2 f3 f4 feu fuv
      ⊢ wp frame (wpE (defs₀ (F := F)) 𝒱₀ (thr d L) none) Set.univ
          (cc1_k L ctW (Memref.isWhole_whole _) viW (Memref.isWhole_whole _) niW (Memref.isWhole_whole _)
            euW (Memref.isWhole_whole _) uvW (Memref.isWhole_whole _)
            s0W (Memref.isWhole_whole _) s1W (Memref.isWhole_whole _) s2W (Memref.isWhole_whole _)
            s3W (Memref.isWhole_whole _) s4W (Memref.isWhole_whole _)
            cc1_scratch5 cc1_scratch6 cc1_scratch7 cc1_scratch8 cc1_scratch9 cc1_scoped0 cc1_scoped1 cc1_scoped2)
          fun _ => tilePost d L O W fct q fvi fni qi := by
  simp only [cc1_k_eq_skeleton]; unfold cc1_k_skel
  simp only [k1_part1_eq_skeleton]; unfold k1_part1_skel
  unfold tilePre
  iintro ⟨Hmw, Hct0, Hct1, Hct2, Hvi, Hni, Hs0, Hs1, Hs2, Hs3, Hs4, Hg0, Hg1, Hw0, Hw1, Hsu, Hc0, Hc1, Hc2, Heu, Huv, HO⟩
  have hin_u := hin_u_of d L fni hni
  have hin_v := hin_v_of d L fvi hvi f0
  sl_exec
  sl_rw [bind_assoc]
  sl_for (inv d L O W fct q (fetched d L fvi f0))
    $$ [Hmw Hct2 Hg1 HO Hg0 Hs2 Hs0 Hct1 Hw0 Hs3 Hw1 Heu]
  case region =>
    intro k acc
    rcases Nat.eq_zero_or_pos k.val with h0 | hpos
    · rw [h0]
      exact trip0 d L O W fct q _ hO k h0 hin_v
    · obtain ⟨j, hj⟩ := Nat.exists_eq_succ_of_ne_zero (Nat.pos_iff_ne_zero.mp hpos)
      have hk12 : (k : ℕ) < 12 := lt_of_lt_of_le k.isLt k1_t1_abs.2.1
      rw [hj]
      by_cases h11 : j + 1 < 11
      · have e1 : inv d L O W fct q (fetched d L fvi f0) (j + 1) acc
            = invMid d L O W fct q _ j (by omega) := dif_pos (by omega)
        have e2 : inv d L O W fct q (fetched d L fvi f0) (j + 1 + 1)
            = fun _ => invMid d L O W fct q _ (j + 1) (by omega) := funext fun _ => dif_pos (by omega)
        rw [e1, e2]
        exact tripMid d L O W fct q _ hO k j hj h11 hin_v
      · have hj10 : j = 10 := by omega
        subst hj10
        have e2 : inv d L O W fct q (fetched d L fvi f0) (10 + 1 + 1)
            = fun _ => invEnd d L O W fct q _ := rfl
        rw [e2]
        exact tripLast d L O W fct q _ hO k hj hin_v
  · rw [inv_zero]
    unfold inv0 keep
    isplitl [Hmw Hct2 Hg1 HO]
    · isplitl [Hmw]; · iexact Hmw
      isplitl [Hct2]; · iexact Hct2
      isplitl [Hg1]; · iexact Hg1
      iexists _; isplitr
      swap; · iexact HO
      ipureintro; exact mem_ins (mem_ins (fun p hp => Or.inl hp))
    iexists _; iexists _; iexists _
    isplitl [Hg0 Hs2 Hs0 Hct1]
    · iexists _; iexists _
      unfold gath0
      isplitl [Hg0]; · iexact Hg0
      isplitl [Hs2]; · iexact Hs2
      isplitl [Hs0]; · iexact Hs0
      iexact Hct1
    isplitl [Hw0]; · iexact Hw0
    isplitl [Hs3]; · iexact Hs3
    isplitl [Hw1]; · iexact Hw1
    iexact Heu
  iintro %acc HI
  ihave HI' := (Entails.of_eq (inv_end d L O W fct q (fetched d L fvi f0) acc)) $$ HI
  unfold invEnd keep
  icases HI' with ⟨⟨Hmw, Hct2, Hg1, %W', %hW', HO⟩, %g2, %g3, %fe0, %fe, Hg0, Hct1, Hs0, HW0, HW1, Heu⟩
  unfold wout0 wout1
  icases HW0 with ⟨Hw0, Hs2⟩
  icases HW1 with ⟨Hw1, Hs3⟩
  sl_exec
  sl_step
  unfold tilePost
  isplitl [Hct0]; · iexact Hct0
  isplitl [Hct1]; · iexact Hct1
  isplitl [Hct2]; · iexact Hct2
  isplitl [Hvi]; · iexact Hvi
  isplitl [Hni]; · iexact Hni
  isplitl [Hs0]; · iexists _; iexact Hs0
  isplitl [Hs1]; · iexists _; iexact Hs1
  isplitl [Hs2]; · iexists _; iexact Hs2
  isplitl [Hs3]; · iexists _; iexact Hs3
  isplitl [Hs4]; · iexists _; iexact Hs4
  isplitl [Hg0]; · iexact Hg0
  isplitl [Hg1]; · iexact Hg1
  isplitl [Hw0]; · iexact Hw0
  isplitl [Hw1]; · iexact Hw1
  isplitl [Hsu]; · iexact Hsu
  isplitl [Hc0]; · iexact Hc0
  isplitl [Hc1]; · iexact Hc1
  isplitl [Hc2]; · iexact Hc2
  isplitl [Hw0_dst Heu]
  · iexists _
    iapply (pointsTo_join_subset (even11_sub L))
    isplitl [Hw0_dst]; · iexact Hw0_dst
    iexact Heu
  isplitl [Huv]; · iexists _; iexact Huv
  iexists _; isplitr
  swap; · iexact HO
  ipureintro
  exact mem_ins (mem_ins (mem_ins (mem_ins (mem_ins (mem_ins hW')))))

end Cert.Proof.KI

end
-- ==== Proof.ScObl.lean ====
/-
  The gather kernel's task as the launch hands it over: from the tile's operands (a read share of the table, its slices of the
  two index lists with every entry a row of the table, its rows of the two results) and the vector subcore's scoped storage
  (among it the kernel's five scratch buffers and eight DMA semaphores) to the same, by the task's run (ScTile).
-/
import proofs.«217981_g19061064860210_cont_8to1_1320_37_alg».proof.Proof.ScTile

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "ctW" => (Memref.whole Cert.KernelIdeal.main_v9_scv : Memref Cert.KernelIdeal.sig Kind.scVector Space.hbm Cert.KernelIdeal.S100000x128 EltTy.f32)
local notation "viW" => (Memref.whole Cert.KernelIdeal.main_v13_scv : Memref Cert.KernelIdeal.sig Kind.scVector Space.hbm Cert.KernelIdeal.S102400 EltTy.i32)
local notation "niW" => (Memref.whole Cert.KernelIdeal.main_v14_scv : Memref Cert.KernelIdeal.sig Kind.scVector Space.hbm Cert.KernelIdeal.S2048 EltTy.i32)
local notation "euW" => (Memref.whole Cert.KernelIdeal.main_v18_0_scv : Memref Cert.KernelIdeal.sig Kind.scVector Space.hbm Cert.KernelIdeal.S102400x128 EltTy.f32)
local notation "uvW" => (Memref.whole Cert.KernelIdeal.main_v18_1_scv : Memref Cert.KernelIdeal.sig Kind.scVector Space.hbm Cert.KernelIdeal.S2048x128 EltTy.f32)
local notation "s0W" => (Memref.whole Cert.KernelIdeal.cc1_scratch0 : Memref Cert.KernelIdeal.sig Kind.scVector Space.vmem Cert.KernelIdeal.S3200 EltTy.i32)
local notation "s1W" => (Memref.whole Cert.KernelIdeal.cc1_scratch1 : Memref Cert.KernelIdeal.sig Kind.scVector Space.vmem Cert.KernelIdeal.S64 EltTy.i32)
local notation "s2W" => (Memref.whole Cert.KernelIdeal.cc1_scratch2 : Memref Cert.KernelIdeal.sig Kind.scVector Space.vmem Cert.KernelIdeal.S128x128 EltTy.f32)
local notation "s3W" => (Memref.whole Cert.KernelIdeal.cc1_scratch3 : Memref Cert.KernelIdeal.sig Kind.scVector Space.vmem Cert.KernelIdeal.S128x128 EltTy.f32)
local notation "s4W" => (Memref.whole Cert.KernelIdeal.cc1_scratch4 : Memref Cert.KernelIdeal.sig Kind.scVector Space.vmem Cert.KernelIdeal.S64x128 EltTy.f32)

variable [FloatOps F]
variable (d : Dev nD) (L : grid1.Coords)

/-! ## The kernel's semaphores and scratch among the vector subcore's own -/

/-- The eight DMA semaphores of the first gather call, in the body's order. -/
def semOf : Fin 8 → DmaSem sig
  | 0 => cc1_scratch5.sem | 1 => cc1_scratch6.sem | 2 => cc1_scratch7.sem | 3 => cc1_scratch8.sem
  | 4 => cc1_scratch9.sem | 5 => cc1_scoped0.sem | 6 => cc1_scoped1.sem | 7 => cc1_scoped2.sem
theorem semOf_inj : Function.Injective semOf := by decide
theorem semOf_scoped : ∀ n : Fin 8, (SemLoc.dma (semOf n) : SemLoc sig).isScoped .scVector = true := by decide

/-- The five scratch buffers of the first gather call. -/
def refOf : Fin 5 → Ref sig .scVector
  | 0 => cc1_scratch0 | 1 => cc1_scratch1 | 2 => cc1_scratch2 | 3 => cc1_scratch3 | 4 => cc1_scratch4
theorem refOf_inj : Function.Injective refOf := by decide

def semEmb (thr : Thread nD τ) : Fin 8 ↪ GSem nD τ sig :=
  ⟨fun n => (thr, SemLoc.dma (semOf n)), fun a b e => semOf_inj (SemLoc.dma.inj (Prod.mk.inj e).2)⟩

def refEmb (c : Fin τ.nSC) (i : Fin τ.nSub) : Fin 5 ↪ DevRef τ sig :=
  ⟨fun n => (Proc.scVector c i).devRef (refOf n), fun a b e => refOf_inj (Proc.devRef_injective _ e)⟩

theorem semEmb_sub : Finset.univ.map (semEmb (thr d L)) ⊆ ownCells (sig := sig) (thr d L) := by
  intro g hg
  obtain ⟨n, -, rfl⟩ := Finset.mem_map.mp hg
  exact mem_ownCells.mpr ⟨rfl, semOf_scoped n⟩

theorem refEmb_sub : Finset.univ.map (refEmb (cV L) (jV L)) ⊆ ownRefs (τ := τ) (sig := sig) (Proc.scVector (cV L) (jV L)) := by
  intro b hb
  obtain ⟨n, -, rfl⟩ := Finset.mem_map.mp hb
  fin_cases n <;> exact SparseCore.Cfg.mem_ownRefs_of_owner rfl

omit [FloatOps F] in
/-- The subcore's scoped semaphores at zero: the kernel's eight, and the others. -/
theorem ownSems0_V8 :
    (ownSems0 (thr d L) : sProp 𝕄)
      = iprop((semVal (thr d L, SemLoc.dma cc1_scratch5.sem) 0 ∗ semVal (thr d L, SemLoc.dma cc1_scratch6.sem) 0
          ∗ semVal (thr d L, SemLoc.dma cc1_scratch7.sem) 0 ∗ semVal (thr d L, SemLoc.dma cc1_scratch8.sem) 0
          ∗ semVal (thr d L, SemLoc.dma cc1_scratch9.sem) 0 ∗ semVal (thr d L, SemLoc.dma cc1_scoped0.sem) 0
          ∗ semVal (thr d L, SemLoc.dma cc1_scoped1.sem) 0 ∗ semVal (thr d L, SemLoc.dma cc1_scoped2.sem) 0)
          ∗ bigSep (ownCells (thr d L) \ Finset.univ.map (semEmb (thr d L))) fun g => semVal g 0) := by
  unfold SparseCore.Cfg.ownSems0
  rw [SparseCore.bigSep_sdiff_split' (semEmb_sub d L), BI.bigSep_map,
    BI.bigSep_univ_eq_bigSepL [(0 : Fin 8), 1, 2, 3, 4, 5, 6, 7] (by decide) (by decide)]
  rfl

omit [FloatOps F] in
/-- The subcore's own buffers: the kernel's five scratch buffers at some contents, and the others. -/
theorem ownBufs_V5 :
    (ownBufs (thr d L) : sProp 𝕄)
      = iprop(((∃ f, (s0W).view.loc (thr d L) ↦{fullShare} f) ∗ (∃ f, (s1W).view.loc (thr d L) ↦{fullShare} f)
          ∗ (∃ f, (s2W).view.loc (thr d L) ↦{fullShare} f) ∗ (∃ f, (s3W).view.loc (thr d L) ↦{fullShare} f)
          ∗ (∃ f, (s4W).view.loc (thr d L) ↦{fullShare} f))
          ∗ bigSep (ownRefs (τ := τ) (Proc.scVector (cV L) (jV L)) \ Finset.univ.map (refEmb (cV L) (jV L)))
              fun b => iprop(∃ f, ((d, b) : Loc nD τ sig) ↦{fullShare} f)) := by
  unfold SparseCore.Cfg.ownBufs
  rw [SparseCore.bigSep_sdiff_split' (refEmb_sub L), BI.bigSep_map,
    BI.bigSep_univ_eq_bigSepL [(0 : Fin 5), 1, 2, 3, 4] (by decide) (by decide)]
  rfl

/-! ## The task from the launch's hand -/

omit [FloatOps F] in
/-- Three tokens conjoined one by one. -/
theorem bigSep_three (Φ : Fin 3 → sProp 𝕄) : bigSep Finset.univ Φ = iprop(Φ 0 ∗ Φ 1 ∗ Φ 2) :=
  BI.bigSep_univ_eq_bigSepL [(0 : Fin 3), 1, 2] (by decide) (by decide) Φ

omit [FloatOps F] in
/-- Points-to assertions can be stored in a handshake's payload, whatever the location. -/
theorem pts_storable (ℓ : Loc nD τ sig) (I : Finset (Idx ℓ)) (q : PosShare TreeShare) (f : Buf (Elt F) ℓ) :
    BI.Storable (upEmb : UEmb _ 𝕄) (ℓ ↦[I]{q} f : sProp 𝕄) := inferInstance

/-- The table through a read share, as a tile addresses it. -/
def ctPts (q : PosShare TreeShare) (fct : Buf (Elt F) ((SparseCore.T (τ := τ) d).loc main_v9)) : sProp 𝕄 :=
  (ctW).view.loc (thr d L) ↦{q} fct
/-- The flat item-index list through a read share (the tile reads its own slice of it). -/
def viPts (q : PosShare TreeShare) (fvi : Buf (Elt F) ((SparseCore.T (τ := τ) d).loc main_v13)) : sProp 𝕄 :=
  (viW).view.loc (thr d L) ↦{q} fvi
/-- The user-index list through a read share. -/
def niPts (q : PosShare TreeShare) (fni : Buf (Elt F) ((SparseCore.T (τ := τ) d).loc main_v14)) : sProp 𝕄 :=
  (niW).view.loc (thr d L) ↦{q} fni
/-- The tile's rows of the gathered-rows result. -/
def euPts (f : Buf (Elt F) ((SparseCore.T (τ := τ) d).loc main_v18_0)) : sProp 𝕄 :=
  (euW).view.loc (thr d L) ↦[(euW).view.setOn (tileRect L).set]{fullShare} f
/-- The tile's rows of the user-rows result. -/
def uvPts (f : Buf (Elt F) ((SparseCore.T (τ := τ) d).loc main_v18_1)) : sProp 𝕄 :=
  (uvW).view.loc (thr d L) ↦[(uvW).view.setOn (uvRect L).set]{fullShare} f

omit [FloatOps F] in
instance ctPts_storable (q : PosShare TreeShare) (fct : Buf (Elt F) ((SparseCore.T (τ := τ) d).loc main_v9)) :
    BI.Storable (upEmb : UEmb _ 𝕄) (ctPts d L q fct) := by unfold ctPts; exact pts_storable _ _ _ _
omit [FloatOps F] in
instance viPts_storable (q : PosShare TreeShare) (fvi : Buf (Elt F) ((SparseCore.T (τ := τ) d).loc main_v13)) :
    BI.Storable (upEmb : UEmb _ 𝕄) (viPts d L q fvi) := by unfold viPts; exact pts_storable _ _ _ _
omit [FloatOps F] in
instance niPts_storable (q : PosShare TreeShare) (fni : Buf (Elt F) ((SparseCore.T (τ := τ) d).loc main_v14)) :
    BI.Storable (upEmb : UEmb _ 𝕄) (niPts d L q fni) := by unfold niPts; exact pts_storable _ _ _ _
omit [FloatOps F] in
instance euPts_storable (f : Buf (Elt F) ((SparseCore.T (τ := τ) d).loc main_v18_0)) :
    BI.Storable (upEmb : UEmb _ 𝕄) (euPts d L f) := by unfold euPts; exact pts_storable _ _ _ _
omit [FloatOps F] in
instance uvPts_storable (f : Buf (Elt F) ((SparseCore.T (τ := τ) d).loc main_v18_1)) :
    BI.Storable (upEmb : UEmb _ 𝕄) (uvPts d L f) := by unfold uvPts; exact pts_storable _ _ _ _

/-- What the launch hands tile `L` for the first gather call, and what the tile hands back: a read share of the table and of
    each index list (every entry a row of the table), its rows of the two results at some contents. -/
def goRes (qT : PosShare TreeShare) : sProp 𝕄 :=
  iprop(∃ (fct : Buf (Elt F) ((SparseCore.T (τ := τ) d).loc main_v9)) (fvi : Buf (Elt F) ((SparseCore.T (τ := τ) d).loc main_v13))
      (fni : Buf (Elt F) ((SparseCore.T (τ := τ) d).loc main_v14)),
      ⌜∀ j, (fvi j).toNat < 100000⌝ ∗ ⌜∀ j, (fni j).toNat < 100000⌝
      ∗ ctPts d L qT fct ∗ viPts d L qT fvi ∗ niPts d L qT fni ∗ (∃ f, euPts d L f) ∗ (∃ f, uvPts d L f))

set_option synthInstance.maxHeartbeats 400000 in
omit [FloatOps F] in
instance goRes_storable (qT : PosShare TreeShare) : BI.Storable (upEmb : UEmb _ 𝕄) (goRes (F := F) d L qT) := by
  unfold goRes; infer_instance

set_option maxHeartbeats 1000000 in
/-- The task of tile `L`, from the launch's hand to the launch's hand. -/
theorem tile_task0 (hF : (K (F := F)).Facts) (O : CellTallies nD τ sig (HIx 2)) (W : Waits sig (HIx 2)) (hO : ∀ g, O g none = 0)
    (qT : PosShare TreeShare) :
    iprop(levAts (K (F := F)).L (K (F := F)).lev ∗ emp ∗ goRes d L qT ∗ scopedBufs (thr d L) ∗ scopedSems0 (thr d L) ∗ owes (thr d L) O W)
      ⊢ wp frame (wpE (defs₀ (F := F)) 𝒱₀ (thr d L) none) Set.univ
          (cc1_k L ctW (Memref.isWhole_whole _) viW (Memref.isWhole_whole _) niW (Memref.isWhole_whole _)
            euW (Memref.isWhole_whole _) uvW (Memref.isWhole_whole _)
            s0W (Memref.isWhole_whole _) s1W (Memref.isWhole_whole _) s2W (Memref.isWhole_whole _)
            s3W (Memref.isWhole_whole _) s4W (Memref.isWhole_whole _)
            cc1_scratch5 cc1_scratch6 cc1_scratch7 cc1_scratch8 cc1_scratch9 cc1_scoped0 cc1_scoped1 cc1_scoped2)
          fun _ => iprop(goRes d L qT ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V8, ownBufs_V5]
  unfold goRes ctPts viPts niPts euPts uvPts
  iintro ⟨#Hlv, -, ⟨%fct, %fvi, %fni, %hvi, %hni, Hct, Hvi, Hni, ⟨%feu, Heu⟩, ⟨%fuv, Huv⟩⟩,
    ⟨⟨⟨%f0, Hs0⟩, ⟨%f1, Hs1⟩, ⟨%f2, Hs2⟩, ⟨%f3, Hs3⟩, ⟨%f4, Hs4⟩⟩, Hbufs⟩,
    ⟨⟨Hg0, Hg1, Hw0, Hw1, Hsu, Hc0, Hc1, Hc2⟩, Hsems⟩, HO⟩
  ihave Hmw := (show levAts (K (F := F)).L (K (F := F)).lev ⊢ Transfers.MayWaits (thr d L) (none : HIx 2) O from
    (K (F := F)).mayWaits_none (thr := thr d L) hO) $$ Hlv
  ihave Ht := (Transfers.pointsTo_toks qT 3).1 $$ Hct
  icases Ht with ⟨Hdrop, Htoks⟩
  ihave Ht3 := (Entails.of_eq (bigSep_three _)) $$ Htoks
  icases Ht3 with ⟨Hct0, Hct1, Hct2⟩
  ihave Hv := (pointsTo_split_subset (q := qT) (f := fvi) (S := Finset.univ) (Finset.subset_univ (viS L).view.set)).1 $$ Hvi
  icases Hv with ⟨Hvi, Hvir⟩
  ihave Hn := (pointsTo_split_subset (q := qT) (f := fni) (S := Finset.univ) (Finset.subset_univ (niS L).view.set)).1 $$ Hni
  icases Hn with ⟨Hni, Hnir⟩
  iapply (wp_wand_r frame (wpE (defs₀ (F := F)) 𝒱₀ (thr d L) none) Set.univ (Q := fun _ => tilePost d L O W fct qT fvi fni qT))
  isplitl [Hmw Hct0 Hct1 Hct2 Hvi Hni Hs0 Hs1 Hs2 Hs3 Hs4 Hg0 Hg1 Hw0 Hw1 Hsu Hc0 Hc1 Hc2 Heu Huv HO]
  · iapply (tile_run d L O W fct qT hO fvi fni qT f0 f1 f2 f3 f4 feu fuv hvi hni)
    unfold tilePre
    isplitl [Hmw]; · iexact Hmw
    isplitl [Hct0]; · iexact Hct0
    isplitl [Hct1]; · iexact Hct1
    isplitl [Hct2]; · iexact Hct2
    isplitl [Hvi]; · iexact Hvi
    isplitl [Hni]; · iexact Hni
    isplitl [Hs0]; · iexact Hs0
    isplitl [Hs1]; · iexact Hs1
    isplitl [Hs2]; · iexact Hs2
    isplitl [Hs3]; · iexact Hs3
    isplitl [Hs4]; · iexact Hs4
    isplitl [Hg0]; · iexact Hg0
    isplitl [Hg1]; · iexact Hg1
    isplitl [Hw0]; · iexact Hw0
    isplitl [Hw1]; · iexact Hw1
    isplitl [Hsu]; · iexact Hsu
    isplitl [Hc0]; · iexact Hc0
    isplitl [Hc1]; · iexact Hc1
    isplitl [Hc2]; · iexact Hc2
    isplitl [Heu]; · iexact Heu
    isplitl [Huv]; · iexact Huv
    iexact HO
  iintro %a Hpost
  unfold tilePost
  icases Hpost with ⟨Hct0, Hct1, Hct2, Hvi, Hni, Hs0, Hs1, Hs2, Hs3, Hs4, Hg0, Hg1, Hw0, Hw1, Hsu, Hc0, Hc1, Hc2, Heu, Huv, HOW⟩
  ihave Htoks := (Entails.of_eq (bigSep_three
      (fun i : Fin 3 => ((ctW).view.loc (thr d L) ↦{Transfers.shareTok qT 3 i} fct : sProp 𝕄))).symm) $$ [Hct0 Hct1 Hct2]
  · isplitl [Hct0]; · iexact Hct0
    isplitl [Hct1]; · iexact Hct1
    iexact Hct2
  ihave Hct := (Transfers.pointsTo_toks qT 3).2 $$ [Hdrop Htoks]
  · isplitl [Hdrop]; · iexact Hdrop
    iexact Htoks
  ihave Hvi := (pointsTo_split_subset (q := qT) (f := fvi) (S := Finset.univ) (Finset.subset_univ (viS L).view.set)).2 $$ [Hvi Hvir]
  · isplitl [Hvi]; · iexact Hvi
    iexact Hvir
  ihave Hni := (pointsTo_split_subset (q := qT) (f := fni) (S := Finset.univ) (Finset.subset_univ (niS L).view.set)).2 $$ [Hni Hnir]
  · isplitl [Hni]; · iexact Hni
    iexact Hnir
  isplitl [Hct Hvi Hni Heu Huv]
  · iexists fct; iexists fvi; iexists fni
    isplitr; · ipureintro; exact hvi
    isplitr; · ipureintro; exact hni
    isplitl [Hct]; · iexact Hct
    isplitl [Hvi]; · iexact Hvi
    isplitl [Hni]; · iexact Hni
    isplitl [Heu]; · iexact Heu
    iexact Huv
  isplitl [Hs0 Hs1 Hs2 Hs3 Hs4 Hbufs]
  · isplitl [Hs0 Hs1 Hs2 Hs3 Hs4]
    · isplitl [Hs0]; · iexact Hs0
      isplitl [Hs1]; · iexact Hs1
      isplitl [Hs2]; · iexact Hs2
      isplitl [Hs3]; · iexact Hs3
      iexact Hs4
    iexact Hbufs
  isplitl [Hg0 Hg1 Hw0 Hw1 Hsu Hc0 Hc1 Hc2 Hsems]
  · isplitl [Hg0 Hg1 Hw0 Hw1 Hsu Hc0 Hc1 Hc2]
    · isplitl [Hg0]; · iexact Hg0
      isplitl [Hg1]; · iexact Hg1
      isplitl [Hw0]; · iexact Hw0
      isplitl [Hw1]; · iexact Hw1
      isplitl [Hsu]; · iexact Hsu
      isplitl [Hc0]; · iexact Hc0
      isplitl [Hc1]; · iexact Hc1
      iexact Hc2
    iexact Hsems
  iexact HOW

end Cert.Proof.KI

end
-- ==== Proof.Sc3Inv.lean ====
/-
  The gather kernel on the SparseCore, second call: what one vector subcore (tile) holds of each array, and the invariant of
  its double-buffered loop. Tile `(c, s)` is worker `w = 2 s + c`; it owns entries `[3200 w, 3200 w + 3200)` of the flat item-index
  list and the same rows of the gathered-rows result, and entries / rows `[64 w, 64 w + 64)` of the user-index list and of
  the user-rows result. Its 3200 rows are 25 chunks of 128; chunk `2k` goes through the first row buffer and chunk `2k + 1`
  through the second, each gathered from the table by an indexed copy on a semaphore of its own and copied out to the result
  on another. Before trip `k` of the loop the gather of chunk `2k` is in flight and, for `k > 0`, so is the copy-out of chunk
  `2k - 1`; after the last trip the copy-outs of chunks 22 and 23 are.
  The invariant keeps the row buffers' and the result's contents existential (enough for the frame: termination, no fault,
  the arguments unchanged); the fetched index list stays at its fixed contents, because every later gather's offsets are read
  from it and must be known in range.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«217981_g19061064860210_cont_8to1_1320_37_alg».proof.Proof.Gen.KernelIdeal
import proofs.«217981_g19061064860210_cont_8to1_1320_37_alg».proof.Proof.Gen.KernelIdeal.Skeleton

noncomputable section

namespace Cert.Proof.KI3

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 3) fun p => (pcfgs (F := F) p).Adm
abbrev K : SparseCore.Cfg τ sig (ΛP (F := F)) 2 := sc (F := F)
abbrev 𝒱₀ : Variants := Variants.none
abbrev UH : Type := URounds (GSem nD τ sig) ℕ
abbrev UU : Type := UH × (UR sig nD τ × Counters)

local notation "𝕄" => MT nD τ sig (HIx 2) (Elt F) ℕ UU ℕ

local notation "ctW" => (Memref.whole Cert.KernelIdeal.main_v9_scv : Memref Cert.KernelIdeal.sig Kind.scVector Space.hbm Cert.KernelIdeal.S100000x128 EltTy.f32)
local notation "viW" => (Memref.whole Cert.KernelIdeal.main_v39_scv : Memref Cert.KernelIdeal.sig Kind.scVector Space.hbm Cert.KernelIdeal.S102400 EltTy.i32)
local notation "niW" => (Memref.whole Cert.KernelIdeal.main_v40_scv : Memref Cert.KernelIdeal.sig Kind.scVector Space.hbm Cert.KernelIdeal.S2048 EltTy.i32)
local notation "euW" => (Memref.whole Cert.KernelIdeal.main_v44_0_scv : Memref Cert.KernelIdeal.sig Kind.scVector Space.hbm Cert.KernelIdeal.S102400x128 EltTy.f32)
local notation "uvW" => (Memref.whole Cert.KernelIdeal.main_v44_1_scv : Memref Cert.KernelIdeal.sig Kind.scVector Space.hbm Cert.KernelIdeal.S2048x128 EltTy.f32)
local notation "s0W" => (Memref.whole Cert.KernelIdeal.cc3_scratch0 : Memref Cert.KernelIdeal.sig Kind.scVector Space.vmem Cert.KernelIdeal.S3200 EltTy.i32)
local notation "s1W" => (Memref.whole Cert.KernelIdeal.cc3_scratch1 : Memref Cert.KernelIdeal.sig Kind.scVector Space.vmem Cert.KernelIdeal.S64 EltTy.i32)
local notation "s2W" => (Memref.whole Cert.KernelIdeal.cc3_scratch2 : Memref Cert.KernelIdeal.sig Kind.scVector Space.vmem Cert.KernelIdeal.S128x128 EltTy.f32)
local notation "s3W" => (Memref.whole Cert.KernelIdeal.cc3_scratch3 : Memref Cert.KernelIdeal.sig Kind.scVector Space.vmem Cert.KernelIdeal.S128x128 EltTy.f32)
local notation "s4W" => (Memref.whole Cert.KernelIdeal.cc3_scratch4 : Memref Cert.KernelIdeal.sig Kind.scVector Space.vmem Cert.KernelIdeal.S64x128 EltTy.f32)

variable [FloatOps F]
variable (d : Dev nD) (L : grid3.Coords)

abbrev cV (L : grid3.Coords) : Fin τ.nSC := (L 0).castLE hcore3
abbrev jV (L : grid3.Coords) : Fin τ.nSub := (L 1).castLE hsub3
abbrev thr (d : Dev nD) (L : grid3.Coords) : Thread nD τ := V d (cV L) (jV L)

abbrev S3200x128 : Shape := ⟨2, ![3200, 128]⟩

/-! ## Geometry: the tile's share of each array -/

/-- The tile's 3200 entries of the flat item-index list, as the body slices them. -/
abbrev viS (L : grid3.Coords) : Memref sig .scVector .hbm S3200 .i32 :=
  (viW).slice (Rect.unit (s := S102400) (k3_off1 L) S3200.size (k3_off1_inb L)) (fun _ => rfl)
/-- The tile's 64 entries of the user-index list. -/
abbrev niS (L : grid3.Coords) : Memref sig .scVector .hbm S64 .i32 :=
  (niW).slice (Rect.unit (s := S2048) (k3_off2 L) S64.size (k3_off2_inb L)) (fun _ => rfl)
/-- The whole table, as each gather slices it. -/
abbrev ctS : Memref sig .scVector .hbm S100000x128 .f32 :=
  (ctW).slice (Rect.unit (s := S100000x128) ![0, 0] S100000x128.size inb_S100000x128_S100000x128_0_0) (fun _ => rfl)

theorem L0_lt (L : grid3.Coords) : (L 0).val < 2 := (L 0).isLt
theorem L1_lt (L : grid3.Coords) : (L 1).val < 16 := (L 1).isLt

theorem tileOff_inb (L : grid3.Coords) : ∀ a, (![6400 * (L 1).val + 3200 * (L 0).val, 0] : Fin 2 → Nat) a + S3200x128.size a ≤ S102400x128.size a := by
  have h0 := L0_lt L; have h1 := L1_lt L
  intro a; fin_cases a
  · show 6400 * (L 1).val + 3200 * (L 0).val + 3200 ≤ 102400; omega
  · show 0 + 128 ≤ 128; omega
/-- The tile's 3200 rows of the gathered-rows result, a rectangle of the whole array. -/
abbrev tileRect (L : grid3.Coords) : Rect S102400x128 :=
  Rect.unit (s := S102400x128) ![6400 * (L 1).val + 3200 * (L 0).val, 0] S3200x128.size (tileOff_inb L)
theorem uvOff_inb (L : grid3.Coords) : ∀ a, (![128 * (L 1).val + 64 * (L 0).val, 0] : Fin 2 → Nat) a + S64x128.size a ≤ S2048x128.size a := by
  have h0 := L0_lt L; have h1 := L1_lt L
  intro a; fin_cases a
  · show 128 * (L 1).val + 64 * (L 0).val + 64 ≤ 2048; omega
  · show 0 + 128 ≤ 128; omega
/-- The tile's 64 rows of the user-rows result. -/
abbrev uvRect (L : grid3.Coords) : Rect S2048x128 :=
  Rect.unit (s := S2048x128) ![128 * (L 1).val + 64 * (L 0).val, 0] S64x128.size (uvOff_inb L)

theorem oddOff_inb (L : grid3.Coords) (j : ℕ) (hj : j + 1 ≤ 12) : ∀ a, (![6400 * (L 1).val + 3200 * (L 0).val + 256 * j + 128, 0] : Fin 2 → Nat) a + S128x128.size a ≤ S102400x128.size a := by
  have h0 := L0_lt L; have h1 := L1_lt L
  intro a; fin_cases a
  · show 6400 * (L 1).val + 3200 * (L 0).val + 256 * j + 128 + 128 ≤ 102400; omega
  · show 0 + 128 ≤ 128; omega
/-- The window of the result that the odd chunk `2j + 1` is written to. -/
abbrev euOdd (L : grid3.Coords) (j : ℕ) (hj : j + 1 ≤ 12) : Memref sig .scVector .hbm S128x128 .f32 :=
  (euW).slice (Rect.unit (s := S102400x128) ![6400 * (L 1).val + 3200 * (L 0).val + 256 * j + 128, 0] S128x128.size (oddOff_inb L j hj)) (fun _ => rfl)
theorem evenOff_inb (L : grid3.Coords) (j : ℕ) (hj : j + 1 ≤ 12) : ∀ a, (![6400 * (L 1).val + 3200 * (L 0).val + 256 * j, 0] : Fin 2 → Nat) a + S128x128.size a ≤ S102400x128.size a := by
  have h0 := L0_lt L; have h1 := L1_lt L
  intro a; fin_cases a
  · show 6400 * (L 1).val + 3200 * (L 0).val + 256 * j + 128 ≤ 102400; omega
  · show 0 + 128 ≤ 128; omega
/-- The window of the result that the even chunk `2j` is written to. -/
abbrev euEven (L : grid3.Coords) (j : ℕ) (hj : j + 1 ≤ 12) : Memref sig .scVector .hbm S128x128 .f32 :=
  (euW).slice (Rect.unit (s := S102400x128) ![6400 * (L 1).val + 3200 * (L 0).val + 256 * j, 0] S128x128.size (evenOff_inb L j hj)) (fun _ => rfl)

/-- A 128-entry window of the fetched index list. -/
abbrev s0Win (off : Fin 1 → ℕ) (hoff : ∀ a, off a + S128.size a ≤ S3200.size a) : Memref sig .scVector .vmem S128 .i32 :=
  (s0W).slice (Rect.unit (s := S3200) off S128.size hoff) (fun _ => rfl)

/-! ## The conditions of a trip -/

theorem cond1_zero : ∀ k : Fin k3_t1_loop.trips, k.val = 0 → ¬ k3_cond1 k = 1#1 := by decide +kernel
theorem cond1_pos : ∀ k : Fin k3_t1_loop.trips, 0 < k.val → k3_cond1 k = 1#1 := by decide +kernel
theorem cond2_lt : ∀ k : Fin k3_t1_loop.trips, k.val < 11 → k3_cond2 k = 1#1 := by decide +kernel
theorem cond2_ge : ∀ k : Fin k3_t1_loop.trips, ¬ k.val < 11 → ¬ k3_cond2 k = 1#1 := by decide +kernel
theorem trips_eq : k3_t1_loop.trips = 12 := by decide +kernel

theorem le12 : 11 + 1 ≤ 12 := by decide

/-! ## The pieces of the loop's invariant -/

section Inv

variable (O : CellTallies nD τ sig (HIx 2)) (W : Waits sig (HIx 2))
  (fct : Buf (Elt F) ((SparseCore.T (τ := τ) d).loc main_v9)) (q : PosShare TreeShare)
  (c0 : Buf (Elt F) ((thr d L).loc cc3_scratch0))

/-- The gather of an even chunk into the first row buffer in flight, its list a window of the fetched indices; beside it
    what is left of the row buffer, of the index list and of the table's read token while it flies. -/
def gath0 (off : Fin 1 → ℕ) (hoff : ∀ a, off a + S128.size a ≤ S3200.size a) (g2 : Buf (Elt F) ((thr d L).loc cc3_scratch2)) : sProp 𝕄 :=
  iprop(Transfers.Flight countersEmb (thr d L) (SemLoc.dma cc3_scratch5.sem) (default : HIx 2) 524288
          iprop((((s2W).view.loc (thr d L) ↦[(s2W).view.set]{fullShare} g2)
            ∗ ((s0W).view.loc (thr d L) ↦[(s0Win off hoff).view.set]{fullShare} c0))
            ∗ ((ctW).view.loc (thr d L) ↦[(ctS).view.set]{Transfers.shareTok q 3 1} fct))
      ∗ ((s2W).view.loc (thr d L) ↦[Finset.univ \ (s2W).view.set]{fullShare} g2)
      ∗ ((s0W).view.loc (thr d L) ↦[Finset.univ \ (s0Win off hoff).view.set]{fullShare} c0)
      ∗ ((ctW).view.loc (thr d L) ↦[Finset.univ \ (ctS).view.set]{Transfers.shareTok q 3 1} fct))

/-- The copy of the second row buffer out to the odd chunk `2j + 1`'s window in flight, and what is left of the row buffer. -/
def wout1 (j : ℕ) (hj : j + 1 ≤ 12) (fe : Buf (Elt F) ((SparseCore.T (τ := τ) d).loc main_v44_0)) (g3 : Buf (Elt F) ((thr d L).loc cc3_scratch3)) : sProp 𝕄 :=
  iprop(Transfers.Flight countersEmb (thr d L) (SemLoc.dma cc3_scratch8.sem) (default : HIx 2) 524288
          iprop(((euW).view.loc (thr d L) ↦[(euOdd L j hj).view.set]{fullShare} fe)
            ∗ ((s3W).view.loc (thr d L) ↦[(s3W).view.set]{fullShare} g3))
      ∗ ((s3W).view.loc (thr d L) ↦[Finset.univ \ (s3W).view.set]{fullShare} g3))

/-- The copy of the first row buffer out to the even chunk `2j`'s window in flight, and what is left of the row buffer. -/
def wout0 (j : ℕ) (hj : j + 1 ≤ 12) (fe : Buf (Elt F) ((SparseCore.T (τ := τ) d).loc main_v44_0)) (g2 : Buf (Elt F) ((thr d L).loc cc3_scratch2)) : sProp 𝕄 :=
  iprop(Transfers.Flight countersEmb (thr d L) (SemLoc.dma cc3_scratch7.sem) (default : HIx 2) 524288
          iprop(((euW).view.loc (thr d L) ↦[(euEven L j hj).view.set]{fullShare} fe)
            ∗ ((s2W).view.loc (thr d L) ↦[(s2W).view.set]{fullShare} g2))
      ∗ ((s2W).view.loc (thr d L) ↦[Finset.univ \ (s2W).view.set]{fullShare} g2))

/-- What every trip keeps: the admissibility of its waits, the third read token of the table, the second gather's cell at
    zero, and what the tile owes, its recorded waits grown only at index `none`. -/
def keep : sProp 𝕄 :=
  iprop(Transfers.MayWaits (thr d L) (none : HIx 2) O
      ∗ ((ctW).view.loc (thr d L) ↦{Transfers.shareTok q 3 2} fct)
      ∗ semVal (thr d L, SemLoc.dma cc3_scratch6.sem) 0
      ∗ ∃ W', ⌜∀ p ∈ W', p ∈ W ∨ p.2 = none⌝ ∗ owes (thr d L) O W')

/-- Before the first trip: chunk 0's gather in flight, nothing of the result written or in flight. -/
def inv0 : sProp 𝕄 :=
  iprop(keep d L O W fct q ∗ ∃ g2 g3 fe, (∃ off hoff, gath0 d L fct q c0 off hoff g2)
      ∗ semVal (thr d L, SemLoc.dma cc3_scratch7.sem) 0
      ∗ ((s3W).view.loc (thr d L) ↦{fullShare} g3) ∗ semVal (thr d L, SemLoc.dma cc3_scratch8.sem) 0
      ∗ ((euW).view.loc (thr d L) ↦[(euW).view.setOn (tileRect L).set]{fullShare} fe))

/-- Before trip `j + 1 < 12`: the even chunk `2j + 2`'s gather and the odd chunk `2j + 1`'s copy-out in flight. -/
def invMid (j : ℕ) (hj : j + 1 < 12) : sProp 𝕄 :=
  iprop(keep d L O W fct q ∗ ∃ g2 g3 fe, (∃ off hoff, gath0 d L fct q c0 off hoff g2)
      ∗ semVal (thr d L, SemLoc.dma cc3_scratch7.sem) 0
      ∗ wout1 d L j (Nat.le_of_lt hj) fe g3
      ∗ ((euW).view.loc (thr d L) ↦[(euW).view.setOn (tileRect L).set \ (euOdd L j (Nat.le_of_lt hj)).view.set]{fullShare} fe))

/-- After the last trip: chunks 22 and 23 being copied out, no gather in flight. (The even chunk's window travels at the contents
    the result had when its copy was issued, the rest at its contents since: two functions, joined after the loop.) -/
def invEnd : sProp 𝕄 :=
  iprop(keep d L O W fct q ∗ ∃ g2 g3 fe0 fe,
      semVal (thr d L, SemLoc.dma cc3_scratch5.sem) 0 ∗ ((ctW).view.loc (thr d L) ↦{Transfers.shareTok q 3 1} fct)
      ∗ ((s0W).view.loc (thr d L) ↦{fullShare} c0)
      ∗ wout0 d L 11 le12 fe0 g2 ∗ wout1 d L 11 le12 fe g3
      ∗ ((euW).view.loc (thr d L) ↦[((euW).view.setOn (tileRect L).set \ (euEven L 11 le12).view.set) \ (euOdd L 11 le12).view.set]{fullShare} fe))

/-- The loop's invariant before trip `k`. -/
def inv (k : ℕ) (_ : PUnit) : sProp 𝕄 :=
  match k with
  | 0 => inv0 d L O W fct q c0
  | j + 1 => if hj : j + 1 < 12 then invMid d L O W fct q c0 j hj else invEnd d L O W fct q c0

end Inv

end Cert.Proof.KI3

end
-- ==== Proof.Sc3Trip.lean ====
/-
  One trip of the gather kernel's double-buffered loop, in its three shapes: the first trip (no copy-out pending), a middle
  trip, and the last trip (no further gather issued, the even chunk's copy-out left in flight). Each runs the trip's region
  from the loop's invariant before it to the invariant after it.
-/
import proofs.«217981_g19061064860210_cont_8to1_1320_37_alg».proof.Proof.Sc3Inv

noncomputable section

namespace Cert.Proof.KI3

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "ctW" => (Memref.whole Cert.KernelIdeal.main_v9_scv : Memref Cert.KernelIdeal.sig Kind.scVector Space.hbm Cert.KernelIdeal.S100000x128 EltTy.f32)
local notation "viW" => (Memref.whole Cert.KernelIdeal.main_v39_scv : Memref Cert.KernelIdeal.sig Kind.scVector Space.hbm Cert.KernelIdeal.S102400 EltTy.i32)
local notation "niW" => (Memref.whole Cert.KernelIdeal.main_v40_scv : Memref Cert.KernelIdeal.sig Kind.scVector Space.hbm Cert.KernelIdeal.S2048 EltTy.i32)
local notation "euW" => (Memref.whole Cert.KernelIdeal.main_v44_0_scv : Memref Cert.KernelIdeal.sig Kind.scVector Space.hbm Cert.KernelIdeal.S102400x128 EltTy.f32)
local notation "uvW" => (Memref.whole Cert.KernelIdeal.main_v44_1_scv : Memref Cert.KernelIdeal.sig Kind.scVector Space.hbm Cert.KernelIdeal.S2048x128 EltTy.f32)
local notation "s0W" => (Memref.whole Cert.KernelIdeal.cc3_scratch0 : Memref Cert.KernelIdeal.sig Kind.scVector Space.vmem Cert.KernelIdeal.S3200 EltTy.i32)
local notation "s1W" => (Memref.whole Cert.KernelIdeal.cc3_scratch1 : Memref Cert.KernelIdeal.sig Kind.scVector Space.vmem Cert.KernelIdeal.S64 EltTy.i32)
local notation "s2W" => (Memref.whole Cert.KernelIdeal.cc3_scratch2 : Memref Cert.KernelIdeal.sig Kind.scVector Space.vmem Cert.KernelIdeal.S128x128 EltTy.f32)
local notation "s3W" => (Memref.whole Cert.KernelIdeal.cc3_scratch3 : Memref Cert.KernelIdeal.sig Kind.scVector Space.vmem Cert.KernelIdeal.S128x128 EltTy.f32)
local notation "s4W" => (Memref.whole Cert.KernelIdeal.cc3_scratch4 : Memref Cert.KernelIdeal.sig Kind.scVector Space.vmem Cert.KernelIdeal.S64x128 EltTy.f32)

variable [FloatOps F]
variable (d : Dev nD) (L : grid3.Coords)

variable (O : CellTallies nD τ sig (HIx 2)) (W : Waits sig (HIx 2))
  (fct : Buf (Elt F) ((SparseCore.T (τ := τ) d).loc main_v9)) (q : PosShare TreeShare)
  (c0 : Buf (Elt F) ((thr d L).loc cc3_scratch0))

omit [FloatOps F] in
/-- A wait recorded at index `none` keeps the recorded waits within the bound. -/
theorem mem_ins {W W' : Waits sig (HIx 2)} {sm : SemLoc sig} (h : ∀ p ∈ W', p ∈ W ∨ p.2 = none) :
    ∀ p ∈ insert (sm, (default : HIx 2)) W', p ∈ W ∨ p.2 = none := by
  intro p hp
  rcases Finset.mem_insert.mp hp with hp | hp
  · exact .inr (hp ▸ rfl)
  · exact h p hp

omit [FloatOps F] in
/-- The odd chunk's window spelt by its offsets' closed form is the window spelt by any offsets equal to it. -/
theorem odd_respell (off : Fin 2 → ℕ) (hoff : ∀ a, off a + S128x128.size a ≤ S102400x128.size a)
    (j : ℕ) (hj : j + 1 ≤ 12) (e : off = ![6400 * (L 1).val + 3200 * (L 0).val + 256 * j + 128, 0])
    (fe : Buf (Elt F) ((SparseCore.T (τ := τ) d).loc main_v44_0)) (g3 : Buf (Elt F) ((thr d L).loc cc3_scratch3)) :
    (iprop((Transfers.Flight countersEmb (thr d L) (SemLoc.dma cc3_scratch8.sem) (default : HIx 2) 524288
          iprop(((euW).view.loc (thr d L) ↦[((euW).slice (Rect.unit (s := S102400x128) off S128x128.size hoff) (fun _ => rfl)).view.set]{fullShare} fe)
            ∗ ((s3W).view.loc (thr d L) ↦[(s3W).view.set]{fullShare} g3))
        ∗ ((s3W).view.loc (thr d L) ↦[Finset.univ \ (s3W).view.set]{fullShare} g3))
      ∗ ((euW).view.loc (thr d L) ↦[(euW).view.setOn (tileRect L).set \ ((euW).slice (Rect.unit (s := S102400x128) off S128x128.size hoff) (fun _ => rfl)).view.set]{fullShare} fe)) : sProp 𝕄)
    = iprop(wout1 d L j hj fe g3 ∗ ((euW).view.loc (thr d L) ↦[(euW).view.setOn (tileRect L).set \ (euOdd L j hj).view.set]{fullShare} fe)) := by
  subst e; rfl

/-- The first trip: chunk 0 lands and is copied out and waited for, chunk 2's gather is issued, chunk 1 is gathered and its
    copy-out issued. -/
theorem trip0 (hO : ∀ g, O g none = 0) (k : Fin k3_t1_loop.trips) (h0 : k.val = 0)
    (hc0 : ∀ (off : Fin 1 → ℕ) (h : ∀ a, off a + S128.size a ≤ S3200.size a) (x : S128.Idx),
      (View.read (Elt F) ((s0W).slice (Rect.unit (s := S3200) off S128.size h) (fun _ => rfl)).view c0 x).toNat < 100000) :
    inv0 d L O W fct q c0
      ⊢ wp frame (wpE (defs₀ (F := F)) 𝒱₀ (thr d L) none) Set.univ
          (k3_t1_body L ctW (Memref.isWhole_whole _) viW (Memref.isWhole_whole _) niW (Memref.isWhole_whole _)
            euW (Memref.isWhole_whole _) uvW (Memref.isWhole_whole _)
            s0W (Memref.isWhole_whole _) s1W (Memref.isWhole_whole _) s2W (Memref.isWhole_whole _)
            s3W (Memref.isWhole_whole _) s4W (Memref.isWhole_whole _)
            cc3_scratch5 cc3_scratch6 cc3_scratch7 cc3_scratch8 cc3_scratch9 cc3_scoped0 cc3_scoped1 cc3_scoped2 k ⟨⟩)
          fun _ => invMid d L O W fct q c0 0 (by decide) := by
  have h1 : ¬ k3_cond1 k = 1#1 := cond1_zero k h0
  have h2 : k3_cond2 k = 1#1 := cond2_lt k (by omega)
  have hk : (k : ℕ) < 12 := by omega
  unfold k3_t1_body
  unfold inv0 keep
  iintro ⟨⟨Hmw, Hct2, Hg1, %W', %hW', HO⟩, %g2, %g3, %fe, ⟨%off, %hoff, HG⟩, Hw0, Hs3, Hw1, Heu⟩
  unfold gath0
  icases HG with ⟨Hg0, Hs2r, Hs0r, Hct1r⟩
  sl_exec
  sl_step
  unfold invMid keep
  isplitl [Hmw Hct2 Hg1 HO]
  · isplitl [Hmw]; · iexact Hmw
    isplitl [Hct2]; · iexact Hct2
    isplitl [Hg1]; · iexact Hg1
    iexists _; isplitr
    swap; · iexact HO
    ipureintro; exact mem_ins (mem_ins (mem_ins hW'))
  iexists _; iexists _; iexists _
  isplitl [Hg0 Hs2r Hs0r Hct1r]
  · iexists _; iexists _
    unfold gath0
    isplitl [Hg0]; · iexact Hg0
    isplitl [Hs2r]; · iexact Hs2r
    isplitl [Hs0r]; · iexact Hs0r
    iexact Hct1r
  isplitl [Hw0]; · iexact Hw0
  iapply (Entails.of_eq (odd_respell d L (k3_off9 L k) (k3_off9_inb L k) 0 _ (by rw [k3_off9_eq, h0]) _ _))
  isplitl [Hw1 Hs3]
  · isplitl [Hw1]; · iexact Hw1
    iexact Hs3
  iexact Heu

/-- A middle trip `k = j + 1 < 11`: chunk `2k` lands, chunk `2k - 1`'s copy-out is waited for, chunk `2k + 1`'s gather and chunk
    `2k`'s copy-out are issued, the latter waited for, chunk `2k + 2`'s gather issued, chunk `2k + 1` lands and its copy-out is issued. -/
theorem tripMid (hO : ∀ g, O g none = 0) (k : Fin k3_t1_loop.trips) (j : ℕ) (hkj : k.val = j + 1) (hj : j + 1 < 11)
    (hc0 : ∀ (off : Fin 1 → ℕ) (h : ∀ a, off a + S128.size a ≤ S3200.size a) (x : S128.Idx),
      (View.read (Elt F) ((s0W).slice (Rect.unit (s := S3200) off S128.size h) (fun _ => rfl)).view c0 x).toNat < 100000) :
    invMid d L O W fct q c0 j (by omega)
      ⊢ wp frame (wpE (defs₀ (F := F)) 𝒱₀ (thr d L) none) Set.univ
          (k3_t1_body L ctW (Memref.isWhole_whole _) viW (Memref.isWhole_whole _) niW (Memref.isWhole_whole _)
            euW (Memref.isWhole_whole _) uvW (Memref.isWhole_whole _)
            s0W (Memref.isWhole_whole _) s1W (Memref.isWhole_whole _) s2W (Memref.isWhole_whole _)
            s3W (Memref.isWhole_whole _) s4W (Memref.isWhole_whole _)
            cc3_scratch5 cc3_scratch6 cc3_scratch7 cc3_scratch8 cc3_scratch9 cc3_scoped0 cc3_scoped1 cc3_scoped2 k ⟨⟩)
          fun _ => invMid d L O W fct q c0 (j + 1) (by omega) := by
  have h1 : k3_cond1 k = 1#1 := cond1_pos k (by omega)
  have h2 : k3_cond2 k = 1#1 := cond2_lt k (by omega)
  have hk : (k : ℕ) < 12 := by omega
  unfold k3_t1_body
  unfold invMid keep
  iintro ⟨⟨Hmw, Hct2, Hg1, %W', %hW', HO⟩, %g2, %g3, %fe, ⟨%off, %hoff, HG⟩, Hw0, HWO, Heu⟩
  unfold gath0 wout1
  icases HG with ⟨Hg0, Hs2r, Hs0r, Hct1r⟩
  icases HWO with ⟨Hw1, Hs3⟩
  sl_exec
  sl_step
  try unfold invMid keep
  isplitl [Hmw Hct2 Hg1 HO]
  · isplitl [Hmw]; · iexact Hmw
    isplitl [Hct2]; · iexact Hct2
    isplitl [Hg1]; · iexact Hg1
    iexists _; isplitr
    swap; · iexact HO
    ipureintro
    first
      | exact mem_ins (mem_ins (mem_ins (mem_ins hW')))
      | exact mem_ins (mem_ins (mem_ins hW'))
  iexists _; iexists _; iexists _
  isplitl [Hg0 Hs2r Hs0r Hct1r]
  · iexists _; iexists _
    try unfold gath0
    isplitl [Hg0]; · iexact Hg0
    isplitl [Hs2r]; · iexact Hs2r
    isplitl [Hs0r]; · iexact Hs0r
    iexact Hct1r
  isplitl [Hw0]; · iexact Hw0
  iapply (Entails.of_eq (odd_respell d L (k3_off9 L k) (k3_off9_inb L k) (j + 1) _ (by rw [k3_off9_eq, hkj]) _ _))
  isplitl [Hw1 Hs3]
  · isplitl [Hw1]; · iexact Hw1
    iexact Hs3
  iexact Heu

omit [FloatOps F] in
/-- The two windows in flight after the last trip, spelt by their offsets' closed forms. -/
theorem end_respell (off6 off9 : Fin 2 → ℕ) (h6 : ∀ a, off6 a + S128x128.size a ≤ S102400x128.size a)
    (h9 : ∀ a, off9 a + S128x128.size a ≤ S102400x128.size a)
    (e6 : off6 = ![6400 * (L 1).val + 3200 * (L 0).val + 256 * 11, 0])
    (e9 : off9 = ![6400 * (L 1).val + 3200 * (L 0).val + 256 * 11 + 128, 0])
    (fe0 fe : Buf (Elt F) ((SparseCore.T (τ := τ) d).loc main_v44_0)) (g2 : Buf (Elt F) ((thr d L).loc cc3_scratch2))
    (g3 : Buf (Elt F) ((thr d L).loc cc3_scratch3)) :
    (iprop((Transfers.Flight countersEmb (thr d L) (SemLoc.dma cc3_scratch7.sem) (default : HIx 2) 524288
          iprop(((euW).view.loc (thr d L) ↦[((euW).slice (Rect.unit (s := S102400x128) off6 S128x128.size h6) (fun _ => rfl)).view.set]{fullShare} fe0)
            ∗ ((s2W).view.loc (thr d L) ↦[(s2W).view.set]{fullShare} g2))
        ∗ ((s2W).view.loc (thr d L) ↦[Finset.univ \ (s2W).view.set]{fullShare} g2))
      ∗ (Transfers.Flight countersEmb (thr d L) (SemLoc.dma cc3_scratch8.sem) (default : HIx 2) 524288
          iprop(((euW).view.loc (thr d L) ↦[((euW).slice (Rect.unit (s := S102400x128) off9 S128x128.size h9) (fun _ => rfl)).view.set]{fullShare} fe)
            ∗ ((s3W).view.loc (thr d L) ↦[(s3W).view.set]{fullShare} g3))
        ∗ ((s3W).view.loc (thr d L) ↦[Finset.univ \ (s3W).view.set]{fullShare} g3))
      ∗ ((euW).view.loc (thr d L) ↦[((euW).view.setOn (tileRect L).set \ ((euW).slice (Rect.unit (s := S102400x128) off6 S128x128.size h6) (fun _ => rfl)).view.set)
          \ ((euW).slice (Rect.unit (s := S102400x128) off9 S128x128.size h9) (fun _ => rfl)).view.set]{fullShare} fe)) : sProp 𝕄)
    = iprop(wout0 d L 11 le12 fe0 g2 ∗ wout1 d L 11 le12 fe g3
        ∗ ((euW).view.loc (thr d L) ↦[((euW).view.setOn (tileRect L).set \ (euEven L 11 le12).view.set) \ (euOdd L 11 le12).view.set]{fullShare} fe)) := by
  subst e6; subst e9; rfl

/-- The last trip `k = 11`: chunk 22 lands, chunk 21's copy-out is waited for, chunk 23's gather and chunk 22's copy-out are
    issued, chunk 23 lands and its copy-out is issued; no further gather. -/
theorem tripLast (hO : ∀ g, O g none = 0) (k : Fin k3_t1_loop.trips) (hk11 : k.val = 11)
    (hc0 : ∀ (off : Fin 1 → ℕ) (h : ∀ a, off a + S128.size a ≤ S3200.size a) (x : S128.Idx),
      (View.read (Elt F) ((s0W).slice (Rect.unit (s := S3200) off S128.size h) (fun _ => rfl)).view c0 x).toNat < 100000) :
    invMid d L O W fct q c0 10 (by decide)
      ⊢ wp frame (wpE (defs₀ (F := F)) 𝒱₀ (thr d L) none) Set.univ
          (k3_t1_body L ctW (Memref.isWhole_whole _) viW (Memref.isWhole_whole _) niW (Memref.isWhole_whole _)
            euW (Memref.isWhole_whole _) uvW (Memref.isWhole_whole _)
            s0W (Memref.isWhole_whole _) s1W (Memref.isWhole_whole _) s2W (Memref.isWhole_whole _)
            s3W (Memref.isWhole_whole _) s4W (Memref.isWhole_whole _)
            cc3_scratch5 cc3_scratch6 cc3_scratch7 cc3_scratch8 cc3_scratch9 cc3_scoped0 cc3_scoped1 cc3_scoped2 k ⟨⟩)
          fun _ => invEnd d L O W fct q c0 := by
  have h1 : k3_cond1 k = 1#1 := cond1_pos k (by omega)
  have h2 : ¬ k3_cond2 k = 1#1 := cond2_ge k (by omega)
  have hk : (k : ℕ) < 12 := by omega
  have hkj : (k : ℕ) = 10 + 1 := hk11
  unfold k3_t1_body
  unfold invMid keep
  iintro ⟨⟨Hmw, Hct2, Hg1, %W', %hW', HO⟩, %g2, %g3, %fe, ⟨%off, %hoff, HG⟩, Hw0, HWO, Heu⟩
  unfold gath0 wout1
  icases HG with ⟨Hg0, Hs2r, Hs0r, Hct1r⟩
  icases HWO with ⟨Hw1, Hs3⟩
  sl_exec
  sl_step
  unfold invEnd
  try unfold keep
  isplitl [Hmw Hct2 Hg1 HO]
  · isplitl [Hmw]; · iexact Hmw
    isplitl [Hct2]; · iexact Hct2
    isplitl [Hg1]; · iexact Hg1
    iexists _; isplitr
    swap; · iexact HO
    ipureintro
    first
      | exact mem_ins (mem_ins (mem_ins (mem_ins hW')))
      | exact mem_ins (mem_ins (mem_ins hW'))
  iexists _; iexists _; iexists _; iexists _
  isplitl [Hg0]; · iexact Hg0
  isplitl [Hct1r]; · iexact Hct1r
  isplitl [Hs0r]; · iexact Hs0r
  iapply (Entails.of_eq (end_respell d L (k3_off6 L k) (k3_off9 L k) (k3_off6_inb L k) (k3_off9_inb L k)
    (by rw [k3_off6_eq, hk11]) (by rw [k3_off9_eq, hk11]) _ _ _ _))
  isplitl [Hw0 Hs2r]
  · isplitl [Hw0]; · iexact Hw0
    iexact Hs2r
  isplitl [Hw1 Hs3]
  · isplitl [Hw1]; · iexact Hw1
    iexact Hs3
  iexact Heu

end Cert.Proof.KI3

end
-- ==== Proof.Sc3Tile.lean ====
/-
  The gather kernel's task on one vector subcore, run whole: the two index lists fetched, the user rows' gather and chunk 0's
  gather issued, the loop by its invariant (ScInv, ScTrip), then chunk 24 and the user rows copied out and every transfer waited
  for. From what the tile is handed — read tokens of the table, its slices of the two index lists, its rows of the two
  results, its scratch and its semaphores at zero — back to the same, the results' rows at some contents.
-/
import proofs.«217981_g19061064860210_cont_8to1_1320_37_alg».proof.Proof.Sc3Trip

noncomputable section

namespace Cert.Proof.KI3

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "ctW" => (Memref.whole Cert.KernelIdeal.main_v9_scv : Memref Cert.KernelIdeal.sig Kind.scVector Space.hbm Cert.KernelIdeal.S100000x128 EltTy.f32)
local notation "viW" => (Memref.whole Cert.KernelIdeal.main_v39_scv : Memref Cert.KernelIdeal.sig Kind.scVector Space.hbm Cert.KernelIdeal.S102400 EltTy.i32)
local notation "niW" => (Memref.whole Cert.KernelIdeal.main_v40_scv : Memref Cert.KernelIdeal.sig Kind.scVector Space.hbm Cert.KernelIdeal.S2048 EltTy.i32)
local notation "euW" => (Memref.whole Cert.KernelIdeal.main_v44_0_scv : Memref Cert.KernelIdeal.sig Kind.scVector Space.hbm Cert.KernelIdeal.S102400x128 EltTy.f32)
local notation "uvW" => (Memref.whole Cert.KernelIdeal.main_v44_1_scv : Memref Cert.KernelIdeal.sig Kind.scVector Space.hbm Cert.KernelIdeal.S2048x128 EltTy.f32)
local notation "s0W" => (Memref.whole Cert.KernelIdeal.cc3_scratch0 : Memref Cert.KernelIdeal.sig Kind.scVector Space.vmem Cert.KernelIdeal.S3200 EltTy.i32)
local notation "s1W" => (Memref.whole Cert.KernelIdeal.cc3_scratch1 : Memref Cert.KernelIdeal.sig Kind.scVector Space.vmem Cert.KernelIdeal.S64 EltTy.i32)
local notation "s2W" => (Memref.whole Cert.KernelIdeal.cc3_scratch2 : Memref Cert.KernelIdeal.sig Kind.scVector Space.vmem Cert.KernelIdeal.S128x128 EltTy.f32)
local notation "s3W" => (Memref.whole Cert.KernelIdeal.cc3_scratch3 : Memref Cert.KernelIdeal.sig Kind.scVector Space.vmem Cert.KernelIdeal.S128x128 EltTy.f32)
local notation "s4W" => (Memref.whole Cert.KernelIdeal.cc3_scratch4 : Memref Cert.KernelIdeal.sig Kind.scVector Space.vmem Cert.KernelIdeal.S64x128 EltTy.f32)

variable [FloatOps F]
variable (d : Dev nD) (L : grid3.Coords)

variable (O : CellTallies nD τ sig (HIx 2)) (W : Waits sig (HIx 2))
  (fct : Buf (Elt F) ((SparseCore.T (τ := τ) d).loc main_v9)) (q : PosShare TreeShare)

omit [FloatOps F] in
theorem inv_zero (c0 : Buf (Elt F) ((thr d L).loc cc3_scratch0)) (acc : PUnit) :
    inv d L O W fct q c0 0 acc = inv0 d L O W fct q c0 := rfl
omit [FloatOps F] in
theorem inv_end (c0 : Buf (Elt F) ((thr d L).loc cc3_scratch0)) (acc : PUnit) :
    inv d L O W fct q c0 (Scf.trips k3_t1_loop.lb k3_t1_loop.ub k3_t1_loop.st) acc = invEnd d L O W fct q c0 := by
  rw [show Scf.trips k3_t1_loop.lb k3_t1_loop.ub k3_t1_loop.st = 12 from trips_eq]; rfl

/-- What the first copy leaves in the item-index scratch: the tile's slice of the flat index list. -/
abbrev fetched (fvi : Buf (Elt F) ((SparseCore.T (τ := τ) d).loc main_v39)) (f0 : Buf (Elt F) ((thr d L).loc cc3_scratch0)) :
    Buf (Elt F) ((thr d L).loc cc3_scratch0) :=
  View.write (Elt F) (s0W).view f0 (ReadAs.same.apply (View.read (Elt F) (viS L).view fvi)) Finset.univ

omit [FloatOps F] in
/-- What the fetch leaves in the item-index scratch: the tile's slice of the flat list, every entry a row of the table. -/
theorem c0_lt (fvi : Buf (Elt F) ((SparseCore.T (τ := τ) d).loc main_v39)) (hvi : ∀ j, (fvi j).toNat < 100000)
    (f0 : Buf (Elt F) ((thr d L).loc cc3_scratch0)) (i : S3200.Idx) :
    (View.write (Elt F) (s0W).view f0 (ReadAs.same.apply (View.read (Elt F) (viS L).view fvi)) Finset.univ i).toNat < 100000 := by
  have e : View.write (Elt F) (s0W).view f0 (ReadAs.same.apply (View.read (Elt F) (viS L).view fvi)) Finset.univ
      = ReadAs.same.apply (View.read (Elt F) (viS L).view fvi) := View.write_whole_univ _ _ _
  rw [e]
  show (View.read (Elt F) (viS L).view fvi i).toNat < 100000
  rw [show View.read (Elt F) (viS L).view fvi i = fvi ((viS L).view.emb i) from (View.read_apply _ _).trans (cast_eq _ _)]
  exact hvi _

omit [FloatOps F] in
/-- Every 128-entry window of the fetched item indices names rows of the table. -/
theorem hin_v_of (fvi : Buf (Elt F) ((SparseCore.T (τ := τ) d).loc main_v39)) (hvi : ∀ j, (fvi j).toNat < 100000)
    (f0 : Buf (Elt F) ((thr d L).loc cc3_scratch0)) :
    ∀ (off : Fin 1 → Nat) (h : ∀ a, off a + S128.size a ≤ S3200.size a) (x : S128.Idx),
      (View.read (Elt F) ((s0W).slice (Rect.unit (s := S3200) off S128.size h) (fun _ => rfl)).view (View.write (Elt F) (s0W).view f0
        (ReadAs.same.apply (View.read (Elt F) (viS L).view fvi)) Finset.univ) x).toNat < 100000 := by
  intro off h x
  rw [show View.read (Elt F) ((s0W).slice (Rect.unit (s := S3200) off S128.size h) (fun _ => rfl)).view (View.write (Elt F) (s0W).view f0
        (ReadAs.same.apply (View.read (Elt F) (viS L).view fvi)) Finset.univ) x
      = View.write (Elt F) (s0W).view f0 (ReadAs.same.apply (View.read (Elt F) (viS L).view fvi)) Finset.univ
          (((s0W).slice (Rect.unit (s := S3200) off S128.size h) (fun _ => rfl)).view.emb x) from (View.read_apply _ _).trans (cast_eq _ _)]
  exact c0_lt d L fvi hvi f0 _

omit [FloatOps F] in
/-- The fetched user indices name rows of the table. -/
theorem hin_u_of (fni : Buf (Elt F) ((SparseCore.T (τ := τ) d).loc main_v40)) (hni : ∀ j, (fni j).toNat < 100000) :
    ∀ (g : Buf (Elt F) ((thr d L).loc cc3_scratch1)) (x : S64.Idx),
      (View.read (Elt F) (s1W).view (View.write (Elt F) (s1W).view g
        (ReadAs.same.apply (View.read (Elt F) (niS L).view fni)) Finset.univ) x).toNat < 100000 := by
  intro g x
  have e : View.write (Elt F) (s1W).view g (ReadAs.same.apply (View.read (Elt F) (niS L).view fni)) Finset.univ
      = ReadAs.same.apply (View.read (Elt F) (niS L).view fni) := View.write_whole_univ _ _ _
  rw [e]
  rw [show View.read (Elt F) (s1W).view (ReadAs.same.apply (View.read (Elt F) (niS L).view fni)) x
      = ReadAs.same.apply (View.read (Elt F) (niS L).view fni) ((s1W).view.emb x) from (View.read_apply _ _).trans (cast_eq _ _)]
  show (View.read (Elt F) (niS L).view fni ((s1W).view.emb x)).toNat < 100000
  rw [show View.read (Elt F) (niS L).view fni ((s1W).view.emb x) = fni ((niS L).view.emb ((s1W).view.emb x)) from (View.read_apply _ _).trans (cast_eq _ _)]
  exact hni _

omit [FloatOps F] in
/-- The last even chunk's window lies in the tile's rows. -/
theorem even11_sub : (euEven L 11 le12).view.set ⊆ (euW).view.setOn (tileRect L).set := by
  refine Memref.set_slice_subset_setOn_of_within (euW) (tileRect L) _ (fun _ => rfl) (LoadRect.within_of_withinP ?_)
  have h0 := L0_lt L; have h1 := L1_lt L
  intro a; fin_cases a
  · refine ⟨?_, ?_, Or.inl rfl⟩
    · show 6400 * (L 1).val + 3200 * (L 0).val ≤ 6400 * (L 1).val + 3200 * (L 0).val + 256 * 11; omega
    · show 6400 * (L 1).val + 3200 * (L 0).val + 256 * 11 + 1 * (128 - 1) < 6400 * (L 1).val + 3200 * (L 0).val + 1 * 3200; omega
  · refine ⟨?_, ?_, Or.inl rfl⟩
    · show 0 ≤ 0; omega
    · show 0 + 1 * (128 - 1) < 0 + 1 * 128; omega

/-- What the tile holds when its task starts. -/
def tilePre (fvi : Buf (Elt F) ((SparseCore.T (τ := τ) d).loc main_v39)) (fni : Buf (Elt F) ((SparseCore.T (τ := τ) d).loc main_v40))
    (qi : PosShare TreeShare)
    (f0 : Buf (Elt F) ((thr d L).loc cc3_scratch0)) (f1 : Buf (Elt F) ((thr d L).loc cc3_scratch1))
    (f2 : Buf (Elt F) ((thr d L).loc cc3_scratch2)) (f3 : Buf (Elt F) ((thr d L).loc cc3_scratch3))
    (f4 : Buf (Elt F) ((thr d L).loc cc3_scratch4))
    (feu : Buf (Elt F) ((SparseCore.T (τ := τ) d).loc main_v44_0)) (fuv : Buf (Elt F) ((SparseCore.T (τ := τ) d).loc main_v44_1)) : sProp 𝕄 :=
  iprop(Transfers.MayWaits (thr d L) (none : HIx 2) O
      ∗ ((ctW).view.loc (thr d L) ↦{Transfers.shareTok q 3 0} fct)
      ∗ ((ctW).view.loc (thr d L) ↦{Transfers.shareTok q 3 1} fct)
      ∗ ((ctW).view.loc (thr d L) ↦{Transfers.shareTok q 3 2} fct)
      ∗ ((viS L).view.loc (thr d L) ↦[(viS L).view.set]{qi} fvi)
      ∗ ((niS L).view.loc (thr d L) ↦[(niS L).view.set]{qi} fni)
      ∗ ((s0W).view.loc (thr d L) ↦{fullShare} f0) ∗ ((s1W).view.loc (thr d L) ↦{fullShare} f1)
      ∗ ((s2W).view.loc (thr d L) ↦{fullShare} f2) ∗ ((s3W).view.loc (thr d L) ↦{fullShare} f3)
      ∗ ((s4W).view.loc (thr d L) ↦{fullShare} f4)
      ∗ semVal (thr d L, SemLoc.dma cc3_scratch5.sem) 0 ∗ semVal (thr d L, SemLoc.dma cc3_scratch6.sem) 0
      ∗ semVal (thr d L, SemLoc.dma cc3_scratch7.sem) 0 ∗ semVal (thr d L, SemLoc.dma cc3_scratch8.sem) 0
      ∗ semVal (thr d L, SemLoc.dma cc3_scratch9.sem) 0
      ∗ semVal (thr d L, SemLoc.dma cc3_scoped0.sem) 0 ∗ semVal (thr d L, SemLoc.dma cc3_scoped1.sem) 0
      ∗ semVal (thr d L, SemLoc.dma cc3_scoped2.sem) 0
      ∗ ((euW).view.loc (thr d L) ↦[(euW).view.setOn (tileRect L).set]{fullShare} feu)
      ∗ ((uvW).view.loc (thr d L) ↦[(uvW).view.setOn (uvRect L).set]{fullShare} fuv)
      ∗ owes (thr d L) O W)

/-- What the tile holds when its task ends: all it was handed, the scratch and the results' rows at some contents, the
    recorded waits grown only at index `none`. -/
def tilePost (fvi : Buf (Elt F) ((SparseCore.T (τ := τ) d).loc main_v39)) (fni : Buf (Elt F) ((SparseCore.T (τ := τ) d).loc main_v40))
    (qi : PosShare TreeShare) : sProp 𝕄 :=
  iprop(((ctW).view.loc (thr d L) ↦{Transfers.shareTok q 3 0} fct)
      ∗ ((ctW).view.loc (thr d L) ↦{Transfers.shareTok q 3 1} fct)
      ∗ ((ctW).view.loc (thr d L) ↦{Transfers.shareTok q 3 2} fct)
      ∗ ((viS L).view.loc (thr d L) ↦[(viS L).view.set]{qi} fvi)
      ∗ ((niS L).view.loc (thr d L) ↦[(niS L).view.set]{qi} fni)
      ∗ (∃ f, (s0W).view.loc (thr d L) ↦{fullShare} f) ∗ (∃ f, (s1W).view.loc (thr d L) ↦{fullShare} f)
      ∗ (∃ f, (s2W).view.loc (thr d L) ↦{fullShare} f) ∗ (∃ f, (s3W).view.loc (thr d L) ↦{fullShare} f)
      ∗ (∃ f, (s4W).view.loc (thr d L) ↦{fullShare} f)
      ∗ semVal (thr d L, SemLoc.dma cc3_scratch5.sem) 0 ∗ semVal (thr d L, SemLoc.dma cc3_scratch6.sem) 0
      ∗ semVal (thr d L, SemLoc.dma cc3_scratch7.sem) 0 ∗ semVal (thr d L, SemLoc.dma cc3_scratch8.sem) 0
      ∗ semVal (thr d L, SemLoc.dma cc3_scratch9.sem) 0
      ∗ semVal (thr d L, SemLoc.dma cc3_scoped0.sem) 0 ∗ semVal (thr d L, SemLoc.dma cc3_scoped1.sem) 0
      ∗ semVal (thr d L, SemLoc.dma cc3_scoped2.sem) 0
      ∗ (∃ f, (euW).view.loc (thr d L) ↦[(euW).view.setOn (tileRect L).set]{fullShare} f)
      ∗ (∃ f, (uvW).view.loc (thr d L) ↦[(uvW).view.setOn (uvRect L).set]{fullShare} f)
      ∗ ∃ W', ⌜∀ p ∈ W', p ∈ W ∨ p.2 = none⌝ ∗ owes (thr d L) O W')

set_option maxHeartbeats 4000000 in
/-- The task, run: every weakly fair execution of the tile's body from what it is handed ends, without a fault, in what it
    hands back. The index lists' entries name rows of the table (`hvi`, `hni`): that is what keeps every indexed copy defined. -/
theorem tile_run (hO : ∀ g, O g none = 0)
    (fvi : Buf (Elt F) ((SparseCore.T (τ := τ) d).loc main_v39)) (fni : Buf (Elt F) ((SparseCore.T (τ := τ) d).loc main_v40))
    (qi : PosShare TreeShare)
    (f0 : Buf (Elt F) ((thr d L).loc cc3_scratch0)) (f1 : Buf (Elt F) ((thr d L).loc cc3_scratch1))
    (f2 : Buf (Elt F) ((thr d L).loc cc3_scratch2)) (f3 : Buf (Elt F) ((thr d L).loc cc3_scratch3))
    (f4 : Buf (Elt F) ((thr d L).loc cc3_scratch4))
    (feu : Buf (Elt F) ((SparseCore.T (τ := τ) d).loc main_v44_0)) (fuv : Buf (Elt F) ((SparseCore.T (τ := τ) d).loc main_v44_1))
    (hvi : ∀ j, (fvi j).toNat < 100000) (hni : ∀ j, (fni j).toNat < 100000) :
    tilePre d L O W fct q fvi fni qi f0 f1 f2 f3 f4 feu fuv
      ⊢ wp frame (wpE (defs₀ (F := F)) 𝒱₀ (thr d L) none) Set.univ
          (cc3_k L ctW (Memref.isWhole_whole _) viW (Memref.isWhole_whole _) niW (Memref.isWhole_whole _)
            euW (Memref.isWhole_whole _) uvW (Memref.isWhole_whole _)
            s0W (Memref.isWhole_whole _) s1W (Memref.isWhole_whole _) s2W (Memref.isWhole_whole _)
            s3W (Memref.isWhole_whole _) s4W (Memref.isWhole_whole _)
            cc3_scratch5 cc3_scratch6 cc3_scratch7 cc3_scratch8 cc3_scratch9 cc3_scoped0 cc3_scoped1 cc3_scoped2)
          fun _ => tilePost d L O W fct q fvi fni qi := by
  simp only [cc3_k_eq_skeleton]; unfold cc3_k_skel
  simp only [k3_part1_eq_skeleton]; unfold k3_part1_skel
  unfold tilePre
  iintro ⟨Hmw, Hct0, Hct1, Hct2, Hvi, Hni, Hs0, Hs1, Hs2, Hs3, Hs4, Hg0, Hg1, Hw0, Hw1, Hsu, Hc0, Hc1, Hc2, Heu, Huv, HO⟩
  have hin_u := hin_u_of d L fni hni
  have hin_v := hin_v_of d L fvi hvi f0
  sl_exec
  sl_rw [bind_assoc]
  sl_for (inv d L O W fct q (fetched d L fvi f0))
    $$ [Hmw Hct2 Hg1 HO Hg0 Hs2 Hs0 Hct1 Hw0 Hs3 Hw1 Heu]
  case region =>
    intro k acc
    rcases Nat.eq_zero_or_pos k.val with h0 | hpos
    · rw [h0]
      exact trip0 d L O W fct q _ hO k h0 hin_v
    · obtain ⟨j, hj⟩ := Nat.exists_eq_succ_of_ne_zero (Nat.pos_iff_ne_zero.mp hpos)
      have hk12 : (k : ℕ) < 12 := lt_of_lt_of_le k.isLt k3_t1_abs.2.1
      rw [hj]
      by_cases h11 : j + 1 < 11
      · have e1 : inv d L O W fct q (fetched d L fvi f0) (j + 1) acc
            = invMid d L O W fct q _ j (by omega) := dif_pos (by omega)
        have e2 : inv d L O W fct q (fetched d L fvi f0) (j + 1 + 1)
            = fun _ => invMid d L O W fct q _ (j + 1) (by omega) := funext fun _ => dif_pos (by omega)
        rw [e1, e2]
        exact tripMid d L O W fct q _ hO k j hj h11 hin_v
      · have hj10 : j = 10 := by omega
        subst hj10
        have e2 : inv d L O W fct q (fetched d L fvi f0) (10 + 1 + 1)
            = fun _ => invEnd d L O W fct q _ := rfl
        rw [e2]
        exact tripLast d L O W fct q _ hO k hj hin_v
  · rw [inv_zero]
    unfold inv0 keep
    isplitl [Hmw Hct2 Hg1 HO]
    · isplitl [Hmw]; · iexact Hmw
      isplitl [Hct2]; · iexact Hct2
      isplitl [Hg1]; · iexact Hg1
      iexists _; isplitr
      swap; · iexact HO
      ipureintro; exact mem_ins (mem_ins (fun p hp => Or.inl hp))
    iexists _; iexists _; iexists _
    isplitl [Hg0 Hs2 Hs0 Hct1]
    · iexists _; iexists _
      unfold gath0
      isplitl [Hg0]; · iexact Hg0
      isplitl [Hs2]; · iexact Hs2
      isplitl [Hs0]; · iexact Hs0
      iexact Hct1
    isplitl [Hw0]; · iexact Hw0
    isplitl [Hs3]; · iexact Hs3
    isplitl [Hw1]; · iexact Hw1
    iexact Heu
  iintro %acc HI
  ihave HI' := (Entails.of_eq (inv_end d L O W fct q (fetched d L fvi f0) acc)) $$ HI
  unfold invEnd keep
  icases HI' with ⟨⟨Hmw, Hct2, Hg1, %W', %hW', HO⟩, %g2, %g3, %fe0, %fe, Hg0, Hct1, Hs0, HW0, HW1, Heu⟩
  unfold wout0 wout1
  icases HW0 with ⟨Hw0, Hs2⟩
  icases HW1 with ⟨Hw1, Hs3⟩
  sl_exec
  sl_step
  unfold tilePost
  isplitl [Hct0]; · iexact Hct0
  isplitl [Hct1]; · iexact Hct1
  isplitl [Hct2]; · iexact Hct2
  isplitl [Hvi]; · iexact Hvi
  isplitl [Hni]; · iexact Hni
  isplitl [Hs0]; · iexists _; iexact Hs0
  isplitl [Hs1]; · iexists _; iexact Hs1
  isplitl [Hs2]; · iexists _; iexact Hs2
  isplitl [Hs3]; · iexists _; iexact Hs3
  isplitl [Hs4]; · iexists _; iexact Hs4
  isplitl [Hg0]; · iexact Hg0
  isplitl [Hg1]; · iexact Hg1
  isplitl [Hw0]; · iexact Hw0
  isplitl [Hw1]; · iexact Hw1
  isplitl [Hsu]; · iexact Hsu
  isplitl [Hc0]; · iexact Hc0
  isplitl [Hc1]; · iexact Hc1
  isplitl [Hc2]; · iexact Hc2
  isplitl [Hw0_dst Heu]
  · iexists _
    iapply (pointsTo_join_subset (even11_sub L))
    isplitl [Hw0_dst]; · iexact Hw0_dst
    iexact Heu
  isplitl [Huv]; · iexists _; iexact Huv
  iexists _; isplitr
  swap; · iexact HO
  ipureintro
  exact mem_ins (mem_ins (mem_ins (mem_ins (mem_ins (mem_ins hW')))))

end Cert.Proof.KI3

end
-- ==== Proof.Sc3Obl.lean ====
/-
  The gather kernel's task as the launch hands it over: from the tile's operands (a read share of the table, its slices of the
  two index lists with every entry a row of the table, its rows of the two results) and the vector subcore's scoped storage
  (among it the kernel's five scratch buffers and eight DMA semaphores) to the same, by the task's run (ScTile).
-/
import proofs.«217981_g19061064860210_cont_8to1_1320_37_alg».proof.Proof.Sc3Tile

noncomputable section

namespace Cert.Proof.KI3

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "ctW" => (Memref.whole Cert.KernelIdeal.main_v9_scv : Memref Cert.KernelIdeal.sig Kind.scVector Space.hbm Cert.KernelIdeal.S100000x128 EltTy.f32)
local notation "viW" => (Memref.whole Cert.KernelIdeal.main_v39_scv : Memref Cert.KernelIdeal.sig Kind.scVector Space.hbm Cert.KernelIdeal.S102400 EltTy.i32)
local notation "niW" => (Memref.whole Cert.KernelIdeal.main_v40_scv : Memref Cert.KernelIdeal.sig Kind.scVector Space.hbm Cert.KernelIdeal.S2048 EltTy.i32)
local notation "euW" => (Memref.whole Cert.KernelIdeal.main_v44_0_scv : Memref Cert.KernelIdeal.sig Kind.scVector Space.hbm Cert.KernelIdeal.S102400x128 EltTy.f32)
local notation "uvW" => (Memref.whole Cert.KernelIdeal.main_v44_1_scv : Memref Cert.KernelIdeal.sig Kind.scVector Space.hbm Cert.KernelIdeal.S2048x128 EltTy.f32)
local notation "s0W" => (Memref.whole Cert.KernelIdeal.cc3_scratch0 : Memref Cert.KernelIdeal.sig Kind.scVector Space.vmem Cert.KernelIdeal.S3200 EltTy.i32)
local notation "s1W" => (Memref.whole Cert.KernelIdeal.cc3_scratch1 : Memref Cert.KernelIdeal.sig Kind.scVector Space.vmem Cert.KernelIdeal.S64 EltTy.i32)
local notation "s2W" => (Memref.whole Cert.KernelIdeal.cc3_scratch2 : Memref Cert.KernelIdeal.sig Kind.scVector Space.vmem Cert.KernelIdeal.S128x128 EltTy.f32)
local notation "s3W" => (Memref.whole Cert.KernelIdeal.cc3_scratch3 : Memref Cert.KernelIdeal.sig Kind.scVector Space.vmem Cert.KernelIdeal.S128x128 EltTy.f32)
local notation "s4W" => (Memref.whole Cert.KernelIdeal.cc3_scratch4 : Memref Cert.KernelIdeal.sig Kind.scVector Space.vmem Cert.KernelIdeal.S64x128 EltTy.f32)

variable [FloatOps F]
variable (d : Dev nD) (L : grid3.Coords)

/-! ## The kernel's semaphores and scratch among the vector subcore's own -/

/-- The eight DMA semaphores of the second gather call, in the body's order. -/
def semOf : Fin 8 → DmaSem sig
  | 0 => cc3_scratch5.sem | 1 => cc3_scratch6.sem | 2 => cc3_scratch7.sem | 3 => cc3_scratch8.sem
  | 4 => cc3_scratch9.sem | 5 => cc3_scoped0.sem | 6 => cc3_scoped1.sem | 7 => cc3_scoped2.sem
theorem semOf_inj : Function.Injective semOf := by decide
theorem semOf_scoped : ∀ n : Fin 8, (SemLoc.dma (semOf n) : SemLoc sig).isScoped .scVector = true := by decide

/-- The five scratch buffers of the second gather call. -/
def refOf : Fin 5 → Ref sig .scVector
  | 0 => cc3_scratch0 | 1 => cc3_scratch1 | 2 => cc3_scratch2 | 3 => cc3_scratch3 | 4 => cc3_scratch4
theorem refOf_inj : Function.Injective refOf := by decide

def semEmb (thr : Thread nD τ) : Fin 8 ↪ GSem nD τ sig :=
  ⟨fun n => (thr, SemLoc.dma (semOf n)), fun a b e => semOf_inj (SemLoc.dma.inj (Prod.mk.inj e).2)⟩

def refEmb (c : Fin τ.nSC) (i : Fin τ.nSub) : Fin 5 ↪ DevRef τ sig :=
  ⟨fun n => (Proc.scVector c i).devRef (refOf n), fun a b e => refOf_inj (Proc.devRef_injective _ e)⟩

theorem semEmb_sub : Finset.univ.map (semEmb (thr d L)) ⊆ ownCells (sig := sig) (thr d L) := by
  intro g hg
  obtain ⟨n, -, rfl⟩ := Finset.mem_map.mp hg
  exact mem_ownCells.mpr ⟨rfl, semOf_scoped n⟩

theorem refEmb_sub : Finset.univ.map (refEmb (cV L) (jV L)) ⊆ ownRefs (τ := τ) (sig := sig) (Proc.scVector (cV L) (jV L)) := by
  intro b hb
  obtain ⟨n, -, rfl⟩ := Finset.mem_map.mp hb
  fin_cases n <;> exact SparseCore.Cfg.mem_ownRefs_of_owner rfl

omit [FloatOps F] in
/-- The subcore's scoped semaphores at zero: the kernel's eight, and the others. -/
theorem ownSems0_V8 :
    (ownSems0 (thr d L) : sProp 𝕄)
      = iprop((semVal (thr d L, SemLoc.dma cc3_scratch5.sem) 0 ∗ semVal (thr d L, SemLoc.dma cc3_scratch6.sem) 0
          ∗ semVal (thr d L, SemLoc.dma cc3_scratch7.sem) 0 ∗ semVal (thr d L, SemLoc.dma cc3_scratch8.sem) 0
          ∗ semVal (thr d L, SemLoc.dma cc3_scratch9.sem) 0 ∗ semVal (thr d L, SemLoc.dma cc3_scoped0.sem) 0
          ∗ semVal (thr d L, SemLoc.dma cc3_scoped1.sem) 0 ∗ semVal (thr d L, SemLoc.dma cc3_scoped2.sem) 0)
          ∗ bigSep (ownCells (thr d L) \ Finset.univ.map (semEmb (thr d L))) fun g => semVal g 0) := by
  unfold SparseCore.Cfg.ownSems0
  rw [SparseCore.bigSep_sdiff_split' (semEmb_sub d L), BI.bigSep_map,
    BI.bigSep_univ_eq_bigSepL [(0 : Fin 8), 1, 2, 3, 4, 5, 6, 7] (by decide) (by decide)]
  rfl

omit [FloatOps F] in
/-- The subcore's own buffers: the kernel's five scratch buffers at some contents, and the others. -/
theorem ownBufs_V5 :
    (ownBufs (thr d L) : sProp 𝕄)
      = iprop(((∃ f, (s0W).view.loc (thr d L) ↦{fullShare} f) ∗ (∃ f, (s1W).view.loc (thr d L) ↦{fullShare} f)
          ∗ (∃ f, (s2W).view.loc (thr d L) ↦{fullShare} f) ∗ (∃ f, (s3W).view.loc (thr d L) ↦{fullShare} f)
          ∗ (∃ f, (s4W).view.loc (thr d L) ↦{fullShare} f))
          ∗ bigSep (ownRefs (τ := τ) (Proc.scVector (cV L) (jV L)) \ Finset.univ.map (refEmb (cV L) (jV L)))
              fun b => iprop(∃ f, ((d, b) : Loc nD τ sig) ↦{fullShare} f)) := by
  unfold SparseCore.Cfg.ownBufs
  rw [SparseCore.bigSep_sdiff_split' (refEmb_sub L), BI.bigSep_map,
    BI.bigSep_univ_eq_bigSepL [(0 : Fin 5), 1, 2, 3, 4] (by decide) (by decide)]
  rfl

/-! ## The task from the launch's hand -/

omit [FloatOps F] in
/-- Three tokens conjoined one by one. -/
theorem bigSep_three (Φ : Fin 3 → sProp 𝕄) : bigSep Finset.univ Φ = iprop(Φ 0 ∗ Φ 1 ∗ Φ 2) :=
  BI.bigSep_univ_eq_bigSepL [(0 : Fin 3), 1, 2] (by decide) (by decide) Φ

omit [FloatOps F] in
/-- Points-to assertions can be stored in a handshake's payload, whatever the location. -/
theorem pts_storable (ℓ : Loc nD τ sig) (I : Finset (Idx ℓ)) (q : PosShare TreeShare) (f : Buf (Elt F) ℓ) :
    BI.Storable (upEmb : UEmb _ 𝕄) (ℓ ↦[I]{q} f : sProp 𝕄) := inferInstance

/-- The table through a read share, as a tile addresses it. -/
def ctPts (q : PosShare TreeShare) (fct : Buf (Elt F) ((SparseCore.T (τ := τ) d).loc main_v9)) : sProp 𝕄 :=
  (ctW).view.loc (thr d L) ↦{q} fct
/-- The flat item-index list through a read share (the tile reads its own slice of it). -/
def viPts (q : PosShare TreeShare) (fvi : Buf (Elt F) ((SparseCore.T (τ := τ) d).loc main_v39)) : sProp 𝕄 :=
  (viW).view.loc (thr d L) ↦{q} fvi
/-- The user-index list through a read share. -/
def niPts (q : PosShare TreeShare) (fni : Buf (Elt F) ((SparseCore.T (τ := τ) d).loc main_v40)) : sProp 𝕄 :=
  (niW).view.loc (thr d L) ↦{q} fni
/-- The tile's rows of the gathered-rows result. -/
def euPts (f : Buf (Elt F) ((SparseCore.T (τ := τ) d).loc main_v44_0)) : sProp 𝕄 :=
  (euW).view.loc (thr d L) ↦[(euW).view.setOn (tileRect L).set]{fullShare} f
/-- The tile's rows of the user-rows result. -/
def uvPts (f : Buf (Elt F) ((SparseCore.T (τ := τ) d).loc main_v44_1)) : sProp 𝕄 :=
  (uvW).view.loc (thr d L) ↦[(uvW).view.setOn (uvRect L).set]{fullShare} f

omit [FloatOps F] in
instance ctPts_storable (q : PosShare TreeShare) (fct : Buf (Elt F) ((SparseCore.T (τ := τ) d).loc main_v9)) :
    BI.Storable (upEmb : UEmb _ 𝕄) (ctPts d L q fct) := by unfold ctPts; exact pts_storable _ _ _ _
omit [FloatOps F] in
instance viPts_storable (q : PosShare TreeShare) (fvi : Buf (Elt F) ((SparseCore.T (τ := τ) d).loc main_v39)) :
    BI.Storable (upEmb : UEmb _ 𝕄) (viPts d L q fvi) := by unfold viPts; exact pts_storable _ _ _ _
omit [FloatOps F] in
instance niPts_storable (q : PosShare TreeShare) (fni : Buf (Elt F) ((SparseCore.T (τ := τ) d).loc main_v40)) :
    BI.Storable (upEmb : UEmb _ 𝕄) (niPts d L q fni) := by unfold niPts; exact pts_storable _ _ _ _
omit [FloatOps F] in
instance euPts_storable (f : Buf (Elt F) ((SparseCore.T (τ := τ) d).loc main_v44_0)) :
    BI.Storable (upEmb : UEmb _ 𝕄) (euPts d L f) := by unfold euPts; exact pts_storable _ _ _ _
omit [FloatOps F] in
instance uvPts_storable (f : Buf (Elt F) ((SparseCore.T (τ := τ) d).loc main_v44_1)) :
    BI.Storable (upEmb : UEmb _ 𝕄) (uvPts d L f) := by unfold uvPts; exact pts_storable _ _ _ _

/-- What the launch hands tile `L` for the second gather call, and what the tile hands back: a read share of the table and of
    each index list (every entry a row of the table), its rows of the two results at some contents. -/
def goRes (qT : PosShare TreeShare) : sProp 𝕄 :=
  iprop(∃ (fct : Buf (Elt F) ((SparseCore.T (τ := τ) d).loc main_v9)) (fvi : Buf (Elt F) ((SparseCore.T (τ := τ) d).loc main_v39))
      (fni : Buf (Elt F) ((SparseCore.T (τ := τ) d).loc main_v40)),
      ⌜∀ j, (fvi j).toNat < 100000⌝ ∗ ⌜∀ j, (fni j).toNat < 100000⌝
      ∗ ctPts d L qT fct ∗ viPts d L qT fvi ∗ niPts d L qT fni ∗ (∃ f, euPts d L f) ∗ (∃ f, uvPts d L f))

set_option synthInstance.maxHeartbeats 400000 in
omit [FloatOps F] in
instance goRes_storable (qT : PosShare TreeShare) : BI.Storable (upEmb : UEmb _ 𝕄) (goRes (F := F) d L qT) := by
  unfold goRes; infer_instance

set_option maxHeartbeats 1000000 in
/-- The task of tile `L`, from the launch's hand to the launch's hand. -/
theorem tile_task0 (hF : (K (F := F)).Facts) (O : CellTallies nD τ sig (HIx 2)) (W : Waits sig (HIx 2)) (hO : ∀ g, O g none = 0)
    (qT : PosShare TreeShare) :
    iprop(levAts (K (F := F)).L (K (F := F)).lev ∗ emp ∗ goRes d L qT ∗ scopedBufs (thr d L) ∗ scopedSems0 (thr d L) ∗ owes (thr d L) O W)
      ⊢ wp frame (wpE (defs₀ (F := F)) 𝒱₀ (thr d L) none) Set.univ
          (cc3_k L ctW (Memref.isWhole_whole _) viW (Memref.isWhole_whole _) niW (Memref.isWhole_whole _)
            euW (Memref.isWhole_whole _) uvW (Memref.isWhole_whole _)
            s0W (Memref.isWhole_whole _) s1W (Memref.isWhole_whole _) s2W (Memref.isWhole_whole _)
            s3W (Memref.isWhole_whole _) s4W (Memref.isWhole_whole _)
            cc3_scratch5 cc3_scratch6 cc3_scratch7 cc3_scratch8 cc3_scratch9 cc3_scoped0 cc3_scoped1 cc3_scoped2)
          fun _ => iprop(goRes d L qT ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V8, ownBufs_V5]
  unfold goRes ctPts viPts niPts euPts uvPts
  iintro ⟨#Hlv, -, ⟨%fct, %fvi, %fni, %hvi, %hni, Hct, Hvi, Hni, ⟨%feu, Heu⟩, ⟨%fuv, Huv⟩⟩,
    ⟨⟨⟨%f0, Hs0⟩, ⟨%f1, Hs1⟩, ⟨%f2, Hs2⟩, ⟨%f3, Hs3⟩, ⟨%f4, Hs4⟩⟩, Hbufs⟩,
    ⟨⟨Hg0, Hg1, Hw0, Hw1, Hsu, Hc0, Hc1, Hc2⟩, Hsems⟩, HO⟩
  ihave Hmw := (show levAts (K (F := F)).L (K (F := F)).lev ⊢ Transfers.MayWaits (thr d L) (none : HIx 2) O from
    (K (F := F)).mayWaits_none (thr := thr d L) hO) $$ Hlv
  ihave Ht := (Transfers.pointsTo_toks qT 3).1 $$ Hct
  icases Ht with ⟨Hdrop, Htoks⟩
  ihave Ht3 := (Entails.of_eq (bigSep_three _)) $$ Htoks
  icases Ht3 with ⟨Hct0, Hct1, Hct2⟩
  ihave Hv := (pointsTo_split_subset (q := qT) (f := fvi) (S := Finset.univ) (Finset.subset_univ (viS L).view.set)).1 $$ Hvi
  icases Hv with ⟨Hvi, Hvir⟩
  ihave Hn := (pointsTo_split_subset (q := qT) (f := fni) (S := Finset.univ) (Finset.subset_univ (niS L).view.set)).1 $$ Hni
  icases Hn with ⟨Hni, Hnir⟩
  iapply (wp_wand_r frame (wpE (defs₀ (F := F)) 𝒱₀ (thr d L) none) Set.univ (Q := fun _ => tilePost d L O W fct qT fvi fni qT))
  isplitl [Hmw Hct0 Hct1 Hct2 Hvi Hni Hs0 Hs1 Hs2 Hs3 Hs4 Hg0 Hg1 Hw0 Hw1 Hsu Hc0 Hc1 Hc2 Heu Huv HO]
  · iapply (tile_run d L O W fct qT hO fvi fni qT f0 f1 f2 f3 f4 feu fuv hvi hni)
    unfold tilePre
    isplitl [Hmw]; · iexact Hmw
    isplitl [Hct0]; · iexact Hct0
    isplitl [Hct1]; · iexact Hct1
    isplitl [Hct2]; · iexact Hct2
    isplitl [Hvi]; · iexact Hvi
    isplitl [Hni]; · iexact Hni
    isplitl [Hs0]; · iexact Hs0
    isplitl [Hs1]; · iexact Hs1
    isplitl [Hs2]; · iexact Hs2
    isplitl [Hs3]; · iexact Hs3
    isplitl [Hs4]; · iexact Hs4
    isplitl [Hg0]; · iexact Hg0
    isplitl [Hg1]; · iexact Hg1
    isplitl [Hw0]; · iexact Hw0
    isplitl [Hw1]; · iexact Hw1
    isplitl [Hsu]; · iexact Hsu
    isplitl [Hc0]; · iexact Hc0
    isplitl [Hc1]; · iexact Hc1
    isplitl [Hc2]; · iexact Hc2
    isplitl [Heu]; · iexact Heu
    isplitl [Huv]; · iexact Huv
    iexact HO
  iintro %a Hpost
  unfold tilePost
  icases Hpost with ⟨Hct0, Hct1, Hct2, Hvi, Hni, Hs0, Hs1, Hs2, Hs3, Hs4, Hg0, Hg1, Hw0, Hw1, Hsu, Hc0, Hc1, Hc2, Heu, Huv, HOW⟩
  ihave Htoks := (Entails.of_eq (bigSep_three
      (fun i : Fin 3 => ((ctW).view.loc (thr d L) ↦{Transfers.shareTok qT 3 i} fct : sProp 𝕄))).symm) $$ [Hct0 Hct1 Hct2]
  · isplitl [Hct0]; · iexact Hct0
    isplitl [Hct1]; · iexact Hct1
    iexact Hct2
  ihave Hct := (Transfers.pointsTo_toks qT 3).2 $$ [Hdrop Htoks]
  · isplitl [Hdrop]; · iexact Hdrop
    iexact Htoks
  ihave Hvi := (pointsTo_split_subset (q := qT) (f := fvi) (S := Finset.univ) (Finset.subset_univ (viS L).view.set)).2 $$ [Hvi Hvir]
  · isplitl [Hvi]; · iexact Hvi
    iexact Hvir
  ihave Hni := (pointsTo_split_subset (q := qT) (f := fni) (S := Finset.univ) (Finset.subset_univ (niS L).view.set)).2 $$ [Hni Hnir]
  · isplitl [Hni]; · iexact Hni
    iexact Hnir
  isplitl [Hct Hvi Hni Heu Huv]
  · iexists fct; iexists fvi; iexists fni
    isplitr; · ipureintro; exact hvi
    isplitr; · ipureintro; exact hni
    isplitl [Hct]; · iexact Hct
    isplitl [Hvi]; · iexact Hvi
    isplitl [Hni]; · iexact Hni
    isplitl [Heu]; · iexact Heu
    iexact Huv
  isplitl [Hs0 Hs1 Hs2 Hs3 Hs4 Hbufs]
  · isplitl [Hs0 Hs1 Hs2 Hs3 Hs4]
    · isplitl [Hs0]; · iexact Hs0
      isplitl [Hs1]; · iexact Hs1
      isplitl [Hs2]; · iexact Hs2
      isplitl [Hs3]; · iexact Hs3
      iexact Hs4
    iexact Hbufs
  isplitl [Hg0 Hg1 Hw0 Hw1 Hsu Hc0 Hc1 Hc2 Hsems]
  · isplitl [Hg0 Hg1 Hw0 Hw1 Hsu Hc0 Hc1 Hc2]
    · isplitl [Hg0]; · iexact Hg0
      isplitl [Hg1]; · iexact Hg1
      isplitl [Hw0]; · iexact Hw0
      isplitl [Hw1]; · iexact Hw1
      isplitl [Hsu]; · iexact Hsu
      isplitl [Hc0]; · iexact Hc0
      isplitl [Hc1]; · iexact Hc1
      iexact Hc2
    iexact Hsems
  iexact HOW

end Cert.Proof.KI3

end
-- ==== Proof.ScPay.lean ====
/-
  What the launch's handshakes carry for the two gather calls, and the launch theorem's obligations about the vector subcores:
  each call hands SparseCore `c` its sixteen tiles' operands (tile `(c, i)`: a read token of the table, its slices of the two
  index lists, its rows of the two results) and takes them back; a tile's task is its run (ScObl, Sc3Obl).
-/
import proofs.«217981_g19061064860210_cont_8to1_1320_37_alg».proof.Proof.ScObl
import proofs.«217981_g19061064860210_cont_8to1_1320_37_alg».proof.Proof.Sc3Obl
import Idealize.ShloMosaic.Lib.SparseCore.Launch

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]
variable (d : Dev nD) (L : grid1.Coords)

abbrev D : Defs nD τ sig (Elt F) (ΛP (F := F)) := Pipeline.defs pcfgs defs₀
abbrev 𝒱 : Variants := 𝒱₀.lift
abbrev v₀ : 𝒱.V := Sum.inl none

omit [FloatOps F] in
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The coordinates of tile `(c, s)`, as the body table passes them. -/
def coordsV (c : Fin (grid1.bound 0)) (s : Fin (grid1.bound 1)) : grid1.Coords :=
  fun | 0 => c | 1 => s | ⟨_ + 2, h⟩ => absurd h (Nat.not_lt.2 (Nat.le_add_left _ _))

/-- The read token of the table that tile `(c, i)` is dealt: one of thirty-two. -/
abbrev qTile (c i : ℕ) : PosShare TreeShare := Transfers.shareTokN fullShare (16 * c + i)

/-- What a call hands tile `(c, i)`, and takes back. -/
def tileRes (q : Fin 2) (d : Dev nD) (c : Fin 2) (i : Fin 16) : sProp 𝕄 :=
  match q with
  | 0 => goRes d (coordsV c i) (qTile c.val i.val)
  | 1 => Cert.Proof.KI3.goRes d (coordsV c i) (qTile c.val i.val)

omit [FloatOps F] in
theorem tileRes_zero (d : Dev nD) (c : Fin 2) (i : Fin 16) : tileRes (F := F) 0 d c i = goRes d (coordsV c i) (qTile c.val i.val) := rfl
omit [FloatOps F] in
theorem tileRes_one (d : Dev nD) (c : Fin 2) (i : Fin 16) : tileRes (F := F) 1 d c i = Cert.Proof.KI3.goRes d (coordsV c i) (qTile c.val i.val) := rfl

omit [FloatOps F] in
instance tileRes_storable (q : Fin 2) (d : Dev nD) (c : Fin 2) (i : Fin 16) : BI.Storable (upEmb : UEmb _ 𝕄) (tileRes (F := F) q d c i) := by
  match q with
  | 0 => rw [tileRes_zero]; infer_instance
  | 1 => rw [tileRes_one]; infer_instance

/-- The handshakes' payloads: per call and SparseCore its sixteen tiles' operands, both ways; nothing of the launch's consumed. -/
def P : (K (F := F)).Pay (nD := nD) (Val := Elt F) (Name := ℕ) (U := UU) where
  st := fun q d c => match q with
    | 0 => bigSep Finset.univ fun i : Fin 16 => tileRes 0 d c i
    | 1 => bigSep Finset.univ fun i : Fin 16 => tileRes 1 d c i
  dn := fun q d c => match q with
    | 0 => bigSep Finset.univ fun i : Fin 16 => tileRes 0 d c i
    | 1 => bigSep Finset.univ fun i : Fin 16 => tileRes 1 d c i
  go := fun q d c i => match q with
    | 0 => tileRes 0 d c i
    | 1 => tileRes 1 d c i
  td := fun q d c i => match q with
    | 0 => tileRes 0 d c i
    | 1 => tileRes 1 d c i
  x := fun _ _ => iprop(emp)

instance P_storable : (P (F := F)).IsStorable where
  st q d c := match q with
    | 0 => (inferInstance : BI.Storable (upEmb : UEmb _ 𝕄) (bigSep Finset.univ fun i : Fin 16 => tileRes (F := F) 0 d c i))
    | 1 => (inferInstance : BI.Storable (upEmb : UEmb _ 𝕄) (bigSep Finset.univ fun i : Fin 16 => tileRes (F := F) 1 d c i))
  dn q d c := match q with
    | 0 => (inferInstance : BI.Storable (upEmb : UEmb _ 𝕄) (bigSep Finset.univ fun i : Fin 16 => tileRes (F := F) 0 d c i))
    | 1 => (inferInstance : BI.Storable (upEmb : UEmb _ 𝕄) (bigSep Finset.univ fun i : Fin 16 => tileRes (F := F) 1 d c i))
  go q d c i := match q with
    | 0 => (inferInstance : BI.Storable (upEmb : UEmb _ 𝕄) (tileRes (F := F) 0 d c i))
    | 1 => (inferInstance : BI.Storable (upEmb : UEmb _ 𝕄) (tileRes (F := F) 1 d c i))
  td q d c i := match q with
    | 0 => (inferInstance : BI.Storable (upEmb : UEmb _ 𝕄) (tileRes (F := F) 0 d c i))
    | 1 => (inferInstance : BI.Storable (upEmb : UEmb _ 𝕄) (tileRes (F := F) 1 d c i))

/-! ## The obligations -/

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem defs₀_vector0 (c : Fin τ.nSC) (s : Fin τ.nSub) :
    defs₀ (F := F) (.scVector c s) 1 ()
      = SparseCore.onTile hcore1 hsub1 (fun c s => cc1_k (coordsV c s)
          (Memref.whole main_v9_scv) (Memref.isWhole_whole _) (Memref.whole main_v13_scv) (Memref.isWhole_whole _)
          (Memref.whole main_v14_scv) (Memref.isWhole_whole _) (Memref.whole main_v18_0_scv) (Memref.isWhole_whole _)
          (Memref.whole main_v18_1_scv) (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _)
          (Memref.whole cc1_scratch4) (Memref.isWhole_whole _)
          cc1_scratch5 cc1_scratch6 cc1_scratch7 cc1_scratch8 cc1_scratch9 cc1_scoped0 cc1_scoped1 cc1_scoped2) ⟨⟩ c s := rfl

/-- `TileObl` at the first gather call. -/
theorem tileObl0 : (K (F := F)).TileObl (D (F := F)) 𝒱 (P (F := F)) v₀ 0 := by
  intro d c i O W hO _ _
  simp only [show (P (F := F)).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector0]; simp only [SparseCore.onTile, hc, and_self, ↓reduceDIte]
  exact (tile_task0 d (coordsV ⟨_, hc.1⟩ ⟨_, hc.2⟩) (facts (F := F)) O W hO _).trans (wp_mono frame _ _ fun _ => obl_post)

theorem defs₀_vector1 (c : Fin τ.nSC) (s : Fin τ.nSub) :
    defs₀ (F := F) (.scVector c s) 3 ()
      = SparseCore.onTile hcore3 hsub3 (fun c s => cc3_k (coordsV c s)
          (Memref.whole main_v9_scv) (Memref.isWhole_whole _) (Memref.whole main_v39_scv) (Memref.isWhole_whole _)
          (Memref.whole main_v40_scv) (Memref.isWhole_whole _) (Memref.whole main_v44_0_scv) (Memref.isWhole_whole _)
          (Memref.whole main_v44_1_scv) (Memref.isWhole_whole _)
          (Memref.whole cc3_scratch0) (Memref.isWhole_whole _) (Memref.whole cc3_scratch1) (Memref.isWhole_whole _)
          (Memref.whole cc3_scratch2) (Memref.isWhole_whole _) (Memref.whole cc3_scratch3) (Memref.isWhole_whole _)
          (Memref.whole cc3_scratch4) (Memref.isWhole_whole _)
          cc3_scratch5 cc3_scratch6 cc3_scratch7 cc3_scratch8 cc3_scratch9 cc3_scoped0 cc3_scoped1 cc3_scoped2) ⟨⟩ c s := rfl

/-- `TileObl` at the second gather call. -/
theorem tileObl1 : (K (F := F)).TileObl (D (F := F)) 𝒱 (P (F := F)) v₀ 1 := by
  intro d c i O W hO _ _
  simp only [show (P (F := F)).ox = fun _ _ => 0 from rfl, add_zero]
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  have hc : ((K (F := F)).core 1 c).val < grid3.bound 0 ∧ ((K (F := F)).sub 1 i).val < grid3.bound 1 := ⟨c.isLt, i.isLt⟩
  rw [defs₀_vector1]; simp only [SparseCore.onTile, hc, and_self, ↓reduceDIte]
  exact (Cert.Proof.KI3.tile_task0 d (coordsV ⟨_, hc.1⟩ ⟨_, hc.2⟩) (facts (F := F)) O W hO _).trans (wp_mono frame _ _ fun _ => obl_post)

omit [FloatOps F] in
/-- A call's operands for a SparseCore are its tiles' operands, and its results theirs. -/
theorem vecSplit (q : Fin 2) : (K (F := F)).VecSplit' (P (F := F)) q := by
  intro d c
  match q with
  | 0 =>
    show (bigSep Finset.univ fun i : Fin 16 => tileRes (F := F) 0 d c i)
      ⊢ |={Set.univ}=> iprop((bigSep Finset.univ fun i : Fin 16 => tileRes (F := F) 0 d c i)
        ∗ ((bigSep Finset.univ fun i : Fin 16 => tileRes (F := F) 0 d c i) -∗ (bigSep Finset.univ fun i : Fin 16 => tileRes (F := F) 0 d c i)))
    iintro H; imodintro
    isplitl [H]; · iexact H
    iintro H'; iexact H'
  | 1 =>
    show (bigSep Finset.univ fun i : Fin 16 => tileRes (F := F) 1 d c i)
      ⊢ |={Set.univ}=> iprop((bigSep Finset.univ fun i : Fin 16 => tileRes (F := F) 1 d c i)
        ∗ ((bigSep Finset.univ fun i : Fin 16 => tileRes (F := F) 1 d c i) -∗ (bigSep Finset.univ fun i : Fin 16 => tileRes (F := F) 1 d c i)))
    iintro H; imodintro
    isplitl [H]; · iexact H
    iintro H'; iexact H'

end Cert.Proof.KI

end
-- ==== Proof.ScLaunch.lean ====
/-
  The launch of the kernel program: the launch theorem of the SparseCore library applied to the two gather calls' obligations
  (ScPay), what @main leaves the claim (the sixteen arguments at their launch contents) and how the final memory reads it.
  The run's two remaining premises — @main's own proof on the TensorCore (`MainObl`) and the launch element (`LaunchObl`) — are
  stated here as propositions, and the frame claim is derived from them.
-/
import proofs.«217981_g19061064860210_cont_8to1_1320_37_alg».proof.Proof.ScPay
import proofs.«217981_g19061064860210_cont_8to1_1320_37_alg».proof.Defs
import proofs.«217981_g19061064860210_cont_8to1_1320_37_alg».proof.Proof.Gen.Pre_input_domain

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

variable (m : (ℓ : Loc nD τ sig) → Buf (Elt F) ℓ) (ρ : Dev nD → PrngReg)

/-- The handshakes' ghost state sits on the left of the certificate's algebra. -/
abbrev EH : Emb UH 𝕄 := embL

/-- The sixteen arguments of @main. -/
def argRef : Fin 16 → Ref sig .tc :=
  ![main_arg0, main_arg1, main_arg2, main_arg3, main_arg4, main_arg5, main_arg6, main_arg7, main_arg8, main_arg9,
    main_arg10, main_arg11, main_arg12, main_arg13, main_arg14, main_arg15]

/-- What @main leaves the claim: every argument whole, at its launch contents. -/
def FIN (d : Dev nD) : sProp 𝕄 :=
  bigSep Finset.univ fun k : Fin 16 => (SparseCore.T d).loc (argRef k) ↦{fullShare} m ((SparseCore.T d).loc (argRef k))

def fq (d : Dev nD) (s' : Phys nD τ sig (Elt F)) : Prop :=
  ∀ k : Fin 16, s'.mem.mem ((SparseCore.T d).loc (argRef k)) = m ((SparseCore.T d).loc (argRef k))

omit [FloatOps F] in
theorem hfin (d : Dev nD) (s' : Phys nD τ sig (Elt F)) : iprop(FIN m d ∗ SI s') ⊢ (⌜fq m d s'⌝ : sProp 𝕄) := by
  unfold FIN
  refine (posts_pure (Finset.univ : Finset (Fin 16))
    (q := fun k s' => s'.mem.mem ((SparseCore.T d).loc (argRef k)) = m ((SparseCore.T d).loc (argRef k))) (fun k s' => ?_) s').trans ?_
  · iintro ⟨Hx, HSI⟩
    ihave H := (SI_pointsTo_agree (st := s') (ℓ := (SparseCore.T d).loc (argRef k)) (I := Finset.univ) (q := fullShare)
      (f := m ((SparseCore.T d).loc (argRef k)))) $$ [HSI Hx]
    · isplitl [HSI] <;> iassumption
    icases H with %hx
    ipureintro; exact funext fun i => hx i (Finset.mem_univ i)
  · iintro %h; ipureintro; exact fun k => h k (Finset.mem_univ k)

/-- The run's claim: on every device every argument ends as it was launched. -/
def QC : PUnit × MemSt nD τ sig (Elt F) → Prop :=
  fun r => ∀ c : Dev nD, ∀ k : Fin 16, r.2.mem ((SparseCore.T c).loc (argRef k)) = m ((SparseCore.T c).loc (argRef k))

/-- @main's own proof on the TensorCore of each device, as the launch theorem asks for it: from the cells' invariants, the
    TensorCore's state before call 0, what the launch deals it and its share `G d` of the launch element, @main runs to the
    TensorCore's state after call 2 and the arguments at their launch contents. -/
def MainObl (G : Dev nD → sProp 𝕄) : Prop :=
  ∀ (κ : GSem nD τ sig → ℕ) (d : Dev nD),
    iprop((K (F := F)).ctx EH (P (F := F)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 2 ∗ FIN m d)

/-- The launch element: the certificate's ghost state splits into the handshakes' and each device's share `G d`. -/
def LaunchObl (G : Dev nD → sProp 𝕄) (u₀ : UU) : Prop :=
  iprop(ownU u₀ ∗ (P (F := F)).oxCred ∗ (K (F := F)).freeSems0)
    ⊢ |={Set.univ}=> iprop(BI.own (EH (initOf (K (F := F)).hsCells (K (F := F)).hsToks)) ∗ bigSep Finset.univ G
      ∗ bigSep Finset.univ fun thr : Thread nD τ => bigSep Finset.univ fun q : Fin 2 => (P (F := F)).x q thr)

/-- The program's run, from @main's proof and the launch element. -/
theorem run_main [∀ e, Nonempty (Elt F e)] (G : Dev nD → sProp 𝕄) (u₀ : UU) (hu₀ : LaunchObl (F := F) G u₀) (hmain : MainObl m ρ G) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (F := F)) facts v₀
    (fun q hq => match q with | 0 => nomatch hq | 1 => nomatch hq)
    (fun q _ => match q with | 0 => tileObl0 | 1 => tileObl1)
    (fun q _ => SparseCore.Cfg.VecSplit.of_plain (vecSplit q))
    m ρ main G (FIN m) u₀ hu₀ hmain (fq m) (hfin m) (QC m) (fun _ h => h)

/-- `Cert.frame_KernelIdeal` (Defs.lean), from @main's proof and the launch element at every admitted memory. -/
theorem frame_of (H : ∀ (m : (ℓ : Loc nD τ sig) → Buf (Elt Ideal) ℓ) (g : Dev nD → PrngReg), Cert.Pre_KernelIdeal m →
      ∃ (G : Dev nD → sProp (MT nD τ sig (HIx 2) (Elt Ideal) ℕ UU ℕ)) (u₀ : UU), LaunchObl (F := Ideal) G u₀ ∧ MainObl m g G) :
    Cert.frame_KernelIdeal (hKernelIdeal := Cert.KernelIdeal.Gen.facts) (hPre_input_domain := Cert.Pre_input_domain.Gen.facts) :=
  fun m g hpre => by
    obtain ⟨G, u₀, hu₀, hmain⟩ := H m g hpre
    exact (θ_run Cert.KernelIdeal.defs _ _).mono
      (fun _ h c => ⟨h c 0, h c 1, h c 2, h c 3, h c 4, h c 5, h c 6, h c 7, h c 8, h c 9, h c 10, h c 11, h c 12, h c 13, h c 14, h c 15⟩)
      (run_main (F := Ideal) m g G u₀ hu₀ hmain)

end Cert.Proof.KI

end
-- ==== Proof.ScDeal.lean ====
/-
  Read tokens of an array for thirty-two readers: the full share splits into a remainder and thirty-two tokens, and comes back
  whole from the remainder and the tokens returned at whatever contents their holders assert — a reader cannot have changed
  what it only read, so each token agrees with the remainder.
-/
import proofs.«217981_g19061064860210_cont_8to1_1320_37_alg».proof.Proof.ScInv
import Idealize.ShloMosaic.Lib.Transfers

noncomputable section

namespace Cert.Proof.KI

open Cert.KernelIdeal
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 2) (Elt F) ℕ UU ℕ

/-- A family of assertions rewritten one by one against a resource that each step gives back. -/
theorem bigSep_against {ι : Type} [DecidableEq ι] (S : Finset ι) (A : sProp 𝕄) (B B' : ι → sProp 𝕄)
    (h : ∀ i, iprop(A ∗ B i) ⊢ iprop(A ∗ B' i)) : iprop(A ∗ bigSep S B) ⊢ iprop(A ∗ bigSep S B') := by
  induction S using Finset.induction_on with
  | empty => rw [bigSep_empty, bigSep_empty]
  | insert i S hi ih =>
    rw [bigSep_insert hi, bigSep_insert hi]
    refine (show iprop(A ∗ (B i ∗ bigSep S B)) ⊢ iprop(A ∗ (B' i ∗ bigSep S B')) from ?_)
    iintro ⟨HA, HB, HS⟩
    ihave H1 := (h i) $$ [HA HB]
    · isplitl [HA]; · iexact HA
      iexact HB
    icases H1 with ⟨HA, HB'⟩
    ihave H2 := ih $$ [HA HS]
    · isplitl [HA]; · iexact HA
      iexact HS
    icases H2 with ⟨HA, HS'⟩
    isplitl [HA]; · iexact HA
    isplitl [HB']; · iexact HB'
    iexact HS'

/-- A token returned at some contents is a token at the remainder's contents. -/
theorem tok_agree (ℓ : Loc nD τ sig) (q₁ q₂ : PosShare TreeShare) (f : Buf (Elt F) ℓ) :
    iprop((ℓ ↦{q₁} f) ∗ ∃ g, ℓ ↦{q₂} g) ⊢ (iprop((ℓ ↦{q₁} f) ∗ ℓ ↦{q₂} f) : sProp 𝕄) := by
  iintro ⟨H1, %g, H2⟩
  have key : iprop((ℓ ↦{q₁} f) ∗ ℓ ↦{q₂} g) ⊢ (iprop((ℓ ↦{q₁} f) ∗ ℓ ↦{q₂} f) : sProp 𝕄) :=
    pure_elim _ (pointsTo_agree (ℓ := ℓ) (I := Finset.univ) (J := Finset.univ) (q₁ := q₁) (q₂ := q₂) (f := f) (g := g)) (fun hag => by
      rw [show (ℓ ↦{q₂} g : sProp 𝕄) = ℓ ↦{q₂} f from
        pointsTo_congr fun i _ => ((hag i (Finset.mem_inter.mpr ⟨Finset.mem_univ _, Finset.mem_univ _⟩)).1).symm])
  iapply key
  isplitl [H1]; · iexact H1
  iexact H2

/-- The array whole, from the remainder and the thirty-two tokens back at some contents each. -/
theorem toks_rejoin (ℓ : Loc nD τ sig) (f : Buf (Elt F) ℓ) :
    iprop((ℓ ↦{Transfers.shareDrop fullShare 32} f) ∗ bigSep Finset.univ fun n : Fin 32 => iprop(∃ g, ℓ ↦{Transfers.shareTok fullShare 32 n} g))
      ⊢ (ℓ ↦{fullShare} f : sProp 𝕄) := by
  refine (bigSep_against Finset.univ _ _ (fun n : Fin 32 => (ℓ ↦{Transfers.shareTok fullShare 32 n} f : sProp 𝕄))
    (fun n => tok_agree ℓ _ _ f)).trans ?_
  exact (Transfers.pointsTo_toks (ℓ := ℓ) (S := Finset.univ) (f := f) fullShare 32).2

/-- The array whole is the remainder and thirty-two tokens. -/
theorem toks_deal (ℓ : Loc nD τ sig) (f : Buf (Elt F) ℓ) :
    (ℓ ↦{fullShare} f : sProp 𝕄)
      ⊢ iprop((ℓ ↦{Transfers.shareDrop fullShare 32} f) ∗ bigSep Finset.univ fun n : Fin 32 => ℓ ↦{Transfers.shareTok fullShare 32 n} f) :=
  (Transfers.pointsTo_toks (ℓ := ℓ) (S := Finset.univ) (f := f) fullShare 32).1

end Cert.Proof.KI

end
-- ==== Proof.KDeal.lean ====
/-
  The two results of the first gather call, divided among the thirty-two vector subcores: tile `(c, s)` is worker
  `2 s + c` and owns rows `[3200 w, 3200 w + 3200)` of the gathered-rows array and rows `[64 w, 64 w + 64)` of the
  per-row array. The tiles' blocks are pairwise disjoint and cover each array, so the array held whole is the
  separating conjunction of the blocks held, and blocks held at any contents join to the array held at some contents.
-/
import proofs.«217981_g19061064860210_cont_8to1_1320_37_alg».proof.Proof.ScInv

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "euW" => (Memref.whole Cert.KernelIdeal.main_v18_0_scv : Memref Cert.KernelIdeal.sig Kind.scVector Space.hbm Cert.KernelIdeal.S102400x128 EltTy.f32)
local notation "uvW" => (Memref.whole Cert.KernelIdeal.main_v18_1_scv : Memref Cert.KernelIdeal.sig Kind.scVector Space.hbm Cert.KernelIdeal.S2048x128 EltTy.f32)

/-- The coordinates of tile `(c, s)`: core `c` on the first axis, subcore `s` on the second. -/
def coordsV' (c : Fin (grid1.bound 0)) (s : Fin (grid1.bound 1)) : grid1.Coords :=
  fun | 0 => c | 1 => s | ⟨_ + 2, h⟩ => absurd h (Nat.not_lt.2 (Nat.le_add_left _ _))

/-! ## The gathered-rows array: 3200 rows a tile -/

/-- Under the whole view of the array an index set is itself. -/
theorem eu_setOn (M : Finset S102400x128.Idx) : (euW).view.setOn M = M := Finset.map_refl

/-- Two tiles that differ in a coordinate own disjoint blocks of rows: worker `2 s + c`'s block starts 3200 rows
    times its number. -/
theorem tileRect_disjoint (L L' : grid1.Coords) (h : (L 0).val ≠ (L' 0).val ∨ (L 1).val ≠ (L' 1).val) :
    Disjoint (tileRect L).set (tileRect L').set := by
  have h0 := L0_lt L; have h1 := L1_lt L; have h0' := L0_lt L'; have h1' := L1_lt L'
  refine Rect.unit_disjoint 0 ?_
  show 6400 * (L 1).val + 3200 * (L 0).val + 3200 ≤ 6400 * (L' 1).val + 3200 * (L' 0).val ∨ 6400 * (L' 1).val + 3200 * (L' 0).val + 3200 ≤ 6400 * (L 1).val + 3200 * (L 0).val
  omega

/-- The same, of the element sets under the array's whole view. -/
theorem eu_tileSets_disjoint (L L' : grid1.Coords) (h : (L 0, L 1) ≠ (L' 0, L' 1)) :
    Disjoint ((euW).view.setOn (tileRect L).set) ((euW).view.setOn (tileRect L').set) := by
  rw [eu_setOn, eu_setOn]
  refine tileRect_disjoint L L' ?_
  by_contra hc
  rw [not_or, not_not, not_not] at hc
  exact h (Prod.ext (Fin.ext hc.1) (Fin.ext hc.2))

/-- The thirty-two tiles' blocks cover the array: row `r` lies in worker `r / 3200`'s. -/
theorem tileRect_cover :
    (Finset.univ : Finset (Fin 2 × Fin 16)).biUnion (fun ci => (tileRect (coordsV' ci.1 ci.2)).set)
      = (Finset.univ : Finset S102400x128.Idx) := by
  ext i
  simp only [Finset.mem_biUnion, Finset.mem_univ, true_and, iff_true]
  have hi0 : (i 0 : ℕ) < 102400 := (i 0).isLt
  have hi1 : (i 1 : ℕ) < 128 := (i 1).isLt
  refine ⟨(⟨(i 0 : ℕ) / 3200 % 2, Nat.mod_lt _ (by decide)⟩, ⟨(i 0 : ℕ) / 3200 / 2, by omega⟩),
    Rect.mem_set_unit.mpr fun a => ?_⟩
  fin_cases a
  · show 6400 * ((i 0 : ℕ) / 3200 / 2) + 3200 * ((i 0 : ℕ) / 3200 % 2) ≤ (i 0 : ℕ)
      ∧ (i 0 : ℕ) < 6400 * ((i 0 : ℕ) / 3200 / 2) + 3200 * ((i 0 : ℕ) / 3200 % 2) + 3200
    omega
  · show 0 ≤ (i 1 : ℕ) ∧ (i 1 : ℕ) < 0 + 128
    omega

theorem eu_disjoint : ∀ ci ∈ (Finset.univ : Finset (Fin 2 × Fin 16)), ∀ cj ∈ (Finset.univ : Finset (Fin 2 × Fin 16)), ci ≠ cj →
    Disjoint ((fun ci : Fin 2 × Fin 16 => (euW).view.setOn (tileRect (coordsV' ci.1 ci.2)).set) ci) ((fun ci : Fin 2 × Fin 16 => (euW).view.setOn (tileRect (coordsV' ci.1 ci.2)).set) cj) := by
  intro ci _ cj _ h
  refine eu_tileSets_disjoint _ _ fun e => h ?_
  exact Prod.ext (congrArg Prod.fst e) (congrArg Prod.snd e)

theorem eu_cover : (Finset.univ : Finset (Fin 2 × Fin 16)).biUnion (fun ci : Fin 2 × Fin 16 => (euW).view.setOn (tileRect (coordsV' ci.1 ci.2)).set) = Finset.univ :=
  (Finset.biUnion_congr rfl fun ci _ => eu_setOn _).trans tileRect_cover

/-- The whole array held at `f` is the thirty-two tiles' blocks, each held at `f`. -/
theorem eu_deal (d : Dev nD) (f : Buf (Elt F) ((SparseCore.T (τ := τ) d).loc main_v18_0)) :
    ((SparseCore.T (τ := τ) d).loc main_v18_0 ↦{fullShare} f : sProp 𝕄)
      = bigSep Finset.univ fun ci : Fin 2 × Fin 16 =>
          (SparseCore.T (τ := τ) d).loc main_v18_0 ↦[(euW).view.setOn (tileRect (coordsV' ci.1 ci.2)).set]{fullShare} f := by
  rw [← pointsTo_biUnion Finset.univ (ℓ := (SparseCore.T (τ := τ) d).loc main_v18_0) (fun ci : Fin 2 × Fin 16 => (euW).view.setOn (tileRect (coordsV' ci.1 ci.2)).set) eu_disjoint, eu_cover]; try rfl

/-! ## The per-row array: 64 rows a tile -/

/-- Under the whole view of the array an index set is itself. -/
theorem uv_setOn (M : Finset S2048x128.Idx) : (uvW).view.setOn M = M := Finset.map_refl

/-- Two tiles that differ in a coordinate own disjoint blocks of rows: worker `2 s + c`'s block starts 64 rows
    times its number. -/
theorem uvRect_disjoint (L L' : grid1.Coords) (h : (L 0).val ≠ (L' 0).val ∨ (L 1).val ≠ (L' 1).val) :
    Disjoint (uvRect L).set (uvRect L').set := by
  have h0 := L0_lt L; have h1 := L1_lt L; have h0' := L0_lt L'; have h1' := L1_lt L'
  refine Rect.unit_disjoint 0 ?_
  show 128 * (L 1).val + 64 * (L 0).val + 64 ≤ 128 * (L' 1).val + 64 * (L' 0).val ∨ 128 * (L' 1).val + 64 * (L' 0).val + 64 ≤ 128 * (L 1).val + 64 * (L 0).val
  omega

/-- The same, of the element sets under the array's whole view. -/
theorem uv_tileSets_disjoint (L L' : grid1.Coords) (h : (L 0, L 1) ≠ (L' 0, L' 1)) :
    Disjoint ((uvW).view.setOn (uvRect L).set) ((uvW).view.setOn (uvRect L').set) := by
  rw [uv_setOn, uv_setOn]
  refine uvRect_disjoint L L' ?_
  by_contra hc
  rw [not_or, not_not, not_not] at hc
  exact h (Prod.ext (Fin.ext hc.1) (Fin.ext hc.2))

/-- The thirty-two tiles' blocks cover the array: row `r` lies in worker `r / 64`'s. -/
theorem uvRect_cover :
    (Finset.univ : Finset (Fin 2 × Fin 16)).biUnion (fun ci => (uvRect (coordsV' ci.1 ci.2)).set)
      = (Finset.univ : Finset S2048x128.Idx) := by
  ext i
  simp only [Finset.mem_biUnion, Finset.mem_univ, true_and, iff_true]
  have hi0 : (i 0 : ℕ) < 2048 := (i 0).isLt
  have hi1 : (i 1 : ℕ) < 128 := (i 1).isLt
  refine ⟨(⟨(i 0 : ℕ) / 64 % 2, Nat.mod_lt _ (by decide)⟩, ⟨(i 0 : ℕ) / 64 / 2, by omega⟩),
    Rect.mem_set_unit.mpr fun a => ?_⟩
  fin_cases a
  · show 128 * ((i 0 : ℕ) / 64 / 2) + 64 * ((i 0 : ℕ) / 64 % 2) ≤ (i 0 : ℕ)
      ∧ (i 0 : ℕ) < 128 * ((i 0 : ℕ) / 64 / 2) + 64 * ((i 0 : ℕ) / 64 % 2) + 64
    omega
  · show 0 ≤ (i 1 : ℕ) ∧ (i 1 : ℕ) < 0 + 128
    omega

theorem uv_disjoint : ∀ ci ∈ (Finset.univ : Finset (Fin 2 × Fin 16)), ∀ cj ∈ (Finset.univ : Finset (Fin 2 × Fin 16)), ci ≠ cj →
    Disjoint ((fun ci : Fin 2 × Fin 16 => (uvW).view.setOn (uvRect (coordsV' ci.1 ci.2)).set) ci) ((fun ci : Fin 2 × Fin 16 => (uvW).view.setOn (uvRect (coordsV' ci.1 ci.2)).set) cj) := by
  intro ci _ cj _ h
  refine uv_tileSets_disjoint _ _ fun e => h ?_
  exact Prod.ext (congrArg Prod.fst e) (congrArg Prod.snd e)

theorem uv_cover : (Finset.univ : Finset (Fin 2 × Fin 16)).biUnion (fun ci : Fin 2 × Fin 16 => (uvW).view.setOn (uvRect (coordsV' ci.1 ci.2)).set) = Finset.univ :=
  (Finset.biUnion_congr rfl fun ci _ => uv_setOn _).trans uvRect_cover

/-- The whole array held at `f` is the thirty-two tiles' blocks, each held at `f`. -/
theorem uv_deal (d : Dev nD) (f : Buf (Elt F) ((SparseCore.T (τ := τ) d).loc main_v18_1)) :
    ((SparseCore.T (τ := τ) d).loc main_v18_1 ↦{fullShare} f : sProp 𝕄)
      = bigSep Finset.univ fun ci : Fin 2 × Fin 16 =>
          (SparseCore.T (τ := τ) d).loc main_v18_1 ↦[(uvW).view.setOn (uvRect (coordsV' ci.1 ci.2)).set]{fullShare} f := by
  rw [← pointsTo_biUnion Finset.univ (ℓ := (SparseCore.T (τ := τ) d).loc main_v18_1) (fun ci : Fin 2 × Fin 16 => (uvW).view.setOn (uvRect (coordsV' ci.1 ci.2)).set) uv_disjoint, uv_cover]; try rfl

variable [FloatOps F]

/-- The thirty-two blocks, each held at some contents, are the whole array held at some contents. -/
theorem eu_join (d : Dev nD) :
    (bigSep Finset.univ fun ci : Fin 2 × Fin 16 =>
        iprop(∃ f, (SparseCore.T (τ := τ) d).loc main_v18_0 ↦[(euW).view.setOn (tileRect (coordsV' ci.1 ci.2)).set]{fullShare} f))
      ⊢ (iprop(∃ f, (SparseCore.T (τ := τ) d).loc main_v18_0 ↦{fullShare} f) : sProp 𝕄) := by
  refine (bigSep_exists_pi Finset.univ (fun (ci : Fin 2 × Fin 16) (f : Buf (Elt F) ((SparseCore.T (τ := τ) d).loc main_v18_0)) =>
    ((SparseCore.T (τ := τ) d).loc main_v18_0 ↦[(euW).view.setOn (tileRect (coordsV' ci.1 ci.2)).set]{fullShare} f : sProp 𝕄))).trans ?_
  iintro ⟨%fs, H⟩
  ihave H' := (pointsTo_biUnion_join Finset.univ (fun ci : Fin 2 × Fin 16 => (euW).view.setOn (tileRect (coordsV' ci.1 ci.2)).set) fs (fs (0, 0)) eu_disjoint) $$ H
  icases H' with ⟨%g, -, Hg⟩
  rw [eu_cover]
  iexists g; iexact Hg

/-- The thirty-two blocks, each held at some contents, are the whole array held at some contents. -/
theorem uv_join (d : Dev nD) :
    (bigSep Finset.univ fun ci : Fin 2 × Fin 16 =>
        iprop(∃ f, (SparseCore.T (τ := τ) d).loc main_v18_1 ↦[(uvW).view.setOn (uvRect (coordsV' ci.1 ci.2)).set]{fullShare} f))
      ⊢ (iprop(∃ f, (SparseCore.T (τ := τ) d).loc main_v18_1 ↦{fullShare} f) : sProp 𝕄) := by
  refine (bigSep_exists_pi Finset.univ (fun (ci : Fin 2 × Fin 16) (f : Buf (Elt F) ((SparseCore.T (τ := τ) d).loc main_v18_1)) =>
    ((SparseCore.T (τ := τ) d).loc main_v18_1 ↦[(uvW).view.setOn (uvRect (coordsV' ci.1 ci.2)).set]{fullShare} f : sProp 𝕄))).trans ?_
  iintro ⟨%fs, H⟩
  ihave H' := (pointsTo_biUnion_join Finset.univ (fun ci : Fin 2 × Fin 16 => (uvW).view.setOn (uvRect (coordsV' ci.1 ci.2)).set) fs (fs (0, 0)) uv_disjoint) $$ H
  icases H' with ⟨%g, -, Hg⟩
  rw [uv_cover]
  iexists g; iexact Hg

/-- A separating conjunction over the tiles is one over the cores of one over each core's subcores. -/
theorem bigSep_tiles (Φ : Fin 2 × Fin 16 → sProp 𝕄) :
    bigSep Finset.univ Φ = bigSep Finset.univ fun c : Fin 2 => bigSep Finset.univ fun i : Fin 16 => Φ (c, i) :=
  bigSep_univ_prod Φ

end Cert.Proof.KI

end
-- ==== Proof.KDeal3.lean ====
/-
  The two results of the second gather call, divided among the thirty-two vector subcores: tile `(c, s)` is worker
  `2 s + c` and owns rows `[3200 w, 3200 w + 3200)` of the gathered-rows array and rows `[64 w, 64 w + 64)` of the
  per-row array. The tiles' blocks are pairwise disjoint and cover each array, so the array held whole is the
  separating conjunction of the blocks held, and blocks held at any contents join to the array held at some contents.
-/
import proofs.«217981_g19061064860210_cont_8to1_1320_37_alg».proof.Proof.Sc3Inv

noncomputable section

namespace Cert.Proof.KI3

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "euW" => (Memref.whole Cert.KernelIdeal.main_v44_0_scv : Memref Cert.KernelIdeal.sig Kind.scVector Space.hbm Cert.KernelIdeal.S102400x128 EltTy.f32)
local notation "uvW" => (Memref.whole Cert.KernelIdeal.main_v44_1_scv : Memref Cert.KernelIdeal.sig Kind.scVector Space.hbm Cert.KernelIdeal.S2048x128 EltTy.f32)

/-- The coordinates of tile `(c, s)`: core `c` on the first axis, subcore `s` on the second. -/
def coordsV' (c : Fin (grid3.bound 0)) (s : Fin (grid3.bound 1)) : grid3.Coords :=
  fun | 0 => c | 1 => s | ⟨_ + 2, h⟩ => absurd h (Nat.not_lt.2 (Nat.le_add_left _ _))

/-! ## The gathered-rows array: 3200 rows a tile -/

/-- Under the whole view of the array an index set is itself. -/
theorem eu_setOn (M : Finset S102400x128.Idx) : (euW).view.setOn M = M := Finset.map_refl

/-- Two tiles that differ in a coordinate own disjoint blocks of rows: worker `2 s + c`'s block starts 3200 rows
    times its number. -/
theorem tileRect_disjoint (L L' : grid3.Coords) (h : (L 0).val ≠ (L' 0).val ∨ (L 1).val ≠ (L' 1).val) :
    Disjoint (tileRect L).set (tileRect L').set := by
  have h0 := L0_lt L; have h1 := L1_lt L; have h0' := L0_lt L'; have h1' := L1_lt L'
  refine Rect.unit_disjoint 0 ?_
  show 6400 * (L 1).val + 3200 * (L 0).val + 3200 ≤ 6400 * (L' 1).val + 3200 * (L' 0).val ∨ 6400 * (L' 1).val + 3200 * (L' 0).val + 3200 ≤ 6400 * (L 1).val + 3200 * (L 0).val
  omega

/-- The same, of the element sets under the array's whole view. -/
theorem eu_tileSets_disjoint (L L' : grid3.Coords) (h : (L 0, L 1) ≠ (L' 0, L' 1)) :
    Disjoint ((euW).view.setOn (tileRect L).set) ((euW).view.setOn (tileRect L').set) := by
  rw [eu_setOn, eu_setOn]
  refine tileRect_disjoint L L' ?_
  by_contra hc
  rw [not_or, not_not, not_not] at hc
  exact h (Prod.ext (Fin.ext hc.1) (Fin.ext hc.2))

/-- The thirty-two tiles' blocks cover the array: row `r` lies in worker `r / 3200`'s. -/
theorem tileRect_cover :
    (Finset.univ : Finset (Fin 2 × Fin 16)).biUnion (fun ci => (tileRect (coordsV' ci.1 ci.2)).set)
      = (Finset.univ : Finset S102400x128.Idx) := by
  ext i
  simp only [Finset.mem_biUnion, Finset.mem_univ, true_and, iff_true]
  have hi0 : (i 0 : ℕ) < 102400 := (i 0).isLt
  have hi1 : (i 1 : ℕ) < 128 := (i 1).isLt
  refine ⟨(⟨(i 0 : ℕ) / 3200 % 2, Nat.mod_lt _ (by decide)⟩, ⟨(i 0 : ℕ) / 3200 / 2, by omega⟩),
    Rect.mem_set_unit.mpr fun a => ?_⟩
  fin_cases a
  · show 6400 * ((i 0 : ℕ) / 3200 / 2) + 3200 * ((i 0 : ℕ) / 3200 % 2) ≤ (i 0 : ℕ)
      ∧ (i 0 : ℕ) < 6400 * ((i 0 : ℕ) / 3200 / 2) + 3200 * ((i 0 : ℕ) / 3200 % 2) + 3200
    omega
  · show 0 ≤ (i 1 : ℕ) ∧ (i 1 : ℕ) < 0 + 128
    omega

theorem eu_disjoint : ∀ ci ∈ (Finset.univ : Finset (Fin 2 × Fin 16)), ∀ cj ∈ (Finset.univ : Finset (Fin 2 × Fin 16)), ci ≠ cj →
    Disjoint ((fun ci : Fin 2 × Fin 16 => (euW).view.setOn (tileRect (coordsV' ci.1 ci.2)).set) ci) ((fun ci : Fin 2 × Fin 16 => (euW).view.setOn (tileRect (coordsV' ci.1 ci.2)).set) cj) := by
  intro ci _ cj _ h
  refine eu_tileSets_disjoint _ _ fun e => h ?_
  exact Prod.ext (congrArg Prod.fst e) (congrArg Prod.snd e)

theorem eu_cover : (Finset.univ : Finset (Fin 2 × Fin 16)).biUnion (fun ci : Fin 2 × Fin 16 => (euW).view.setOn (tileRect (coordsV' ci.1 ci.2)).set) = Finset.univ :=
  (Finset.biUnion_congr rfl fun ci _ => eu_setOn _).trans tileRect_cover

/-- The whole array held at `f` is the thirty-two tiles' blocks, each held at `f`. -/
theorem eu_deal (d : Dev nD) (f : Buf (Elt F) ((SparseCore.T (τ := τ) d).loc main_v44_0)) :
    ((SparseCore.T (τ := τ) d).loc main_v44_0 ↦{fullShare} f : sProp 𝕄)
      = bigSep Finset.univ fun ci : Fin 2 × Fin 16 =>
          (SparseCore.T (τ := τ) d).loc main_v44_0 ↦[(euW).view.setOn (tileRect (coordsV' ci.1 ci.2)).set]{fullShare} f := by
  rw [← pointsTo_biUnion Finset.univ (ℓ := (SparseCore.T (τ := τ) d).loc main_v44_0) (fun ci : Fin 2 × Fin 16 => (euW).view.setOn (tileRect (coordsV' ci.1 ci.2)).set) eu_disjoint, eu_cover]; try rfl

/-! ## The per-row array: 64 rows a tile -/

/-- Under the whole view of the array an index set is itself. -/
theorem uv_setOn (M : Finset S2048x128.Idx) : (uvW).view.setOn M = M := Finset.map_refl

/-- Two tiles that differ in a coordinate own disjoint blocks of rows: worker `2 s + c`'s block starts 64 rows
    times its number. -/
theorem uvRect_disjoint (L L' : grid3.Coords) (h : (L 0).val ≠ (L' 0).val ∨ (L 1).val ≠ (L' 1).val) :
    Disjoint (uvRect L).set (uvRect L').set := by
  have h0 := L0_lt L; have h1 := L1_lt L; have h0' := L0_lt L'; have h1' := L1_lt L'
  refine Rect.unit_disjoint 0 ?_
  show 128 * (L 1).val + 64 * (L 0).val + 64 ≤ 128 * (L' 1).val + 64 * (L' 0).val ∨ 128 * (L' 1).val + 64 * (L' 0).val + 64 ≤ 128 * (L 1).val + 64 * (L 0).val
  omega

/-- The same, of the element sets under the array's whole view. -/
theorem uv_tileSets_disjoint (L L' : grid3.Coords) (h : (L 0, L 1) ≠ (L' 0, L' 1)) :
    Disjoint ((uvW).view.setOn (uvRect L).set) ((uvW).view.setOn (uvRect L').set) := by
  rw [uv_setOn, uv_setOn]
  refine uvRect_disjoint L L' ?_
  by_contra hc
  rw [not_or, not_not, not_not] at hc
  exact h (Prod.ext (Fin.ext hc.1) (Fin.ext hc.2))

/-- The thirty-two tiles' blocks cover the array: row `r` lies in worker `r / 64`'s. -/
theorem uvRect_cover :
    (Finset.univ : Finset (Fin 2 × Fin 16)).biUnion (fun ci => (uvRect (coordsV' ci.1 ci.2)).set)
      = (Finset.univ : Finset S2048x128.Idx) := by
  ext i
  simp only [Finset.mem_biUnion, Finset.mem_univ, true_and, iff_true]
  have hi0 : (i 0 : ℕ) < 2048 := (i 0).isLt
  have hi1 : (i 1 : ℕ) < 128 := (i 1).isLt
  refine ⟨(⟨(i 0 : ℕ) / 64 % 2, Nat.mod_lt _ (by decide)⟩, ⟨(i 0 : ℕ) / 64 / 2, by omega⟩),
    Rect.mem_set_unit.mpr fun a => ?_⟩
  fin_cases a
  · show 128 * ((i 0 : ℕ) / 64 / 2) + 64 * ((i 0 : ℕ) / 64 % 2) ≤ (i 0 : ℕ)
      ∧ (i 0 : ℕ) < 128 * ((i 0 : ℕ) / 64 / 2) + 64 * ((i 0 : ℕ) / 64 % 2) + 64
    omega
  · show 0 ≤ (i 1 : ℕ) ∧ (i 1 : ℕ) < 0 + 128
    omega

theorem uv_disjoint : ∀ ci ∈ (Finset.univ : Finset (Fin 2 × Fin 16)), ∀ cj ∈ (Finset.univ : Finset (Fin 2 × Fin 16)), ci ≠ cj →
    Disjoint ((fun ci : Fin 2 × Fin 16 => (uvW).view.setOn (uvRect (coordsV' ci.1 ci.2)).set) ci) ((fun ci : Fin 2 × Fin 16 => (uvW).view.setOn (uvRect (coordsV' ci.1 ci.2)).set) cj) := by
  intro ci _ cj _ h
  refine uv_tileSets_disjoint _ _ fun e => h ?_
  exact Prod.ext (congrArg Prod.fst e) (congrArg Prod.snd e)

theorem uv_cover : (Finset.univ : Finset (Fin 2 × Fin 16)).biUnion (fun ci : Fin 2 × Fin 16 => (uvW).view.setOn (uvRect (coordsV' ci.1 ci.2)).set) = Finset.univ :=
  (Finset.biUnion_congr rfl fun ci _ => uv_setOn _).trans uvRect_cover

/-- The whole array held at `f` is the thirty-two tiles' blocks, each held at `f`. -/
theorem uv_deal (d : Dev nD) (f : Buf (Elt F) ((SparseCore.T (τ := τ) d).loc main_v44_1)) :
    ((SparseCore.T (τ := τ) d).loc main_v44_1 ↦{fullShare} f : sProp 𝕄)
      = bigSep Finset.univ fun ci : Fin 2 × Fin 16 =>
          (SparseCore.T (τ := τ) d).loc main_v44_1 ↦[(uvW).view.setOn (uvRect (coordsV' ci.1 ci.2)).set]{fullShare} f := by
  rw [← pointsTo_biUnion Finset.univ (ℓ := (SparseCore.T (τ := τ) d).loc main_v44_1) (fun ci : Fin 2 × Fin 16 => (uvW).view.setOn (uvRect (coordsV' ci.1 ci.2)).set) uv_disjoint, uv_cover]; try rfl

variable [FloatOps F]

/-- The thirty-two blocks, each held at some contents, are the whole array held at some contents. -/
theorem eu_join (d : Dev nD) :
    (bigSep Finset.univ fun ci : Fin 2 × Fin 16 =>
        iprop(∃ f, (SparseCore.T (τ := τ) d).loc main_v44_0 ↦[(euW).view.setOn (tileRect (coordsV' ci.1 ci.2)).set]{fullShare} f))
      ⊢ (iprop(∃ f, (SparseCore.T (τ := τ) d).loc main_v44_0 ↦{fullShare} f) : sProp 𝕄) := by
  refine (bigSep_exists_pi Finset.univ (fun (ci : Fin 2 × Fin 16) (f : Buf (Elt F) ((SparseCore.T (τ := τ) d).loc main_v44_0)) =>
    ((SparseCore.T (τ := τ) d).loc main_v44_0 ↦[(euW).view.setOn (tileRect (coordsV' ci.1 ci.2)).set]{fullShare} f : sProp 𝕄))).trans ?_
  iintro ⟨%fs, H⟩
  ihave H' := (pointsTo_biUnion_join Finset.univ (fun ci : Fin 2 × Fin 16 => (euW).view.setOn (tileRect (coordsV' ci.1 ci.2)).set) fs (fs (0, 0)) eu_disjoint) $$ H
  icases H' with ⟨%g, -, Hg⟩
  rw [eu_cover]
  iexists g; iexact Hg

/-- The thirty-two blocks, each held at some contents, are the whole array held at some contents. -/
theorem uv_join (d : Dev nD) :
    (bigSep Finset.univ fun ci : Fin 2 × Fin 16 =>
        iprop(∃ f, (SparseCore.T (τ := τ) d).loc main_v44_1 ↦[(uvW).view.setOn (uvRect (coordsV' ci.1 ci.2)).set]{fullShare} f))
      ⊢ (iprop(∃ f, (SparseCore.T (τ := τ) d).loc main_v44_1 ↦{fullShare} f) : sProp 𝕄) := by
  refine (bigSep_exists_pi Finset.univ (fun (ci : Fin 2 × Fin 16) (f : Buf (Elt F) ((SparseCore.T (τ := τ) d).loc main_v44_1)) =>
    ((SparseCore.T (τ := τ) d).loc main_v44_1 ↦[(uvW).view.setOn (uvRect (coordsV' ci.1 ci.2)).set]{fullShare} f : sProp 𝕄))).trans ?_
  iintro ⟨%fs, H⟩
  ihave H' := (pointsTo_biUnion_join Finset.univ (fun ci : Fin 2 × Fin 16 => (uvW).view.setOn (uvRect (coordsV' ci.1 ci.2)).set) fs (fs (0, 0)) uv_disjoint) $$ H
  icases H' with ⟨%g, -, Hg⟩
  rw [uv_cover]
  iexists g; iexact Hg

/-- A separating conjunction over the tiles is one over the cores of one over each core's subcores. -/
theorem bigSep_tiles (Φ : Fin 2 × Fin 16 → sProp 𝕄) :
    bigSep Finset.univ Φ = bigSep Finset.univ fun c : Fin 2 => bigSep Finset.univ fun i : Fin 16 => Φ (c, i) :=
  bigSep_univ_prod Φ

end Cert.Proof.KI3

end
-- ==== Proof.ScGive.lean ====
/-
  What the TensorCore hands the two SparseCores at a gather call, and what it takes back. Before a call it holds the
  table, the two index lists and the two result arrays whole. Each of the thirty-two tiles is handed a read token of the
  table and of each index list (the lists' entries all rows of the table) and its own rows of the two results; the
  TensorCore keeps the remainder of the three shares. After the call the tokens come back at whatever contents their
  holders assert, which agree with the remainder's, and the tiles' rows come back at some contents; the three read
  arrays are whole again at their contents and the two results whole at some contents.
-/
import proofs.«217981_g19061064860210_cont_8to1_1320_37_alg».proof.Proof.ScPay
import proofs.«217981_g19061064860210_cont_8to1_1320_37_alg».proof.Proof.ScDeal
import proofs.«217981_g19061064860210_cont_8to1_1320_37_alg».proof.Proof.KDeal
import proofs.«217981_g19061064860210_cont_8to1_1320_37_alg».proof.Proof.KDeal3

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-- A separating conjunction over the thirty-two workers is one over the tiles, worker `16 c + i` being tile `(c, i)`. -/
theorem bigSep_workers (Ψ : ℕ → sProp 𝕄) :
    (bigSep Finset.univ fun n : Fin 32 => Ψ n.val)
      = bigSep Finset.univ fun ci : Fin 2 × Fin 16 => Ψ (16 * ci.1.val + ci.2.val) := by
  rw [bigSep_univ_equiv (finProdFinEquiv : Fin 2 × Fin 16 ≃ Fin 32) fun n : Fin 32 => Ψ n.val]
  refine bigSep_congr fun ci _ => ?_
  rw [finProdFinEquiv_apply_val, Nat.add_comm]

/-- The array whole is the remainder and a read token per tile. -/
theorem toks_deal_tiles (ℓ : Loc nD τ sig) (f : Buf (Elt F) ℓ) :
    (ℓ ↦{fullShare} f : sProp 𝕄)
      ⊢ iprop((ℓ ↦{Transfers.shareDrop fullShare 32} f)
          ∗ bigSep Finset.univ fun ci : Fin 2 × Fin 16 => ℓ ↦{qTile ci.1.val ci.2.val} f) :=
  (toks_deal ℓ f).trans (sep_mono (.refl _)
    (Entails.of_eq (bigSep_workers fun n => (ℓ ↦{Transfers.shareTokN fullShare n} f : sProp 𝕄))))

/-- The array whole, from the remainder and the tiles' tokens back at some contents each. -/
theorem toks_rejoin_tiles (ℓ : Loc nD τ sig) (f : Buf (Elt F) ℓ) :
    iprop((ℓ ↦{Transfers.shareDrop fullShare 32} f)
        ∗ bigSep Finset.univ fun ci : Fin 2 × Fin 16 => iprop(∃ g, ℓ ↦{qTile ci.1.val ci.2.val} g))
      ⊢ (ℓ ↦{fullShare} f : sProp 𝕄) :=
  (sep_mono (.refl _)
    (Entails.of_eq (bigSep_workers fun n => (iprop(∃ g, ℓ ↦{Transfers.shareTokN fullShare n} g) : sProp 𝕄)).symm)).trans
    (toks_rejoin ℓ f)

variable [FloatOps F]

/-! ## The first call -/

/-- One tile's hand: from its three tokens and its rows of the two results. -/
theorem tile_give0 (d : Dev nD) (fct : Buf (Elt F) ((SparseCore.T (τ := τ) d).loc main_v9)) (fvi : Buf (Elt F) ((SparseCore.T (τ := τ) d).loc main_v13)) (fni : Buf (Elt F) ((SparseCore.T (τ := τ) d).loc main_v14))
    (feu : Buf (Elt F) ((SparseCore.T (τ := τ) d).loc main_v18_0)) (fuv : Buf (Elt F) ((SparseCore.T (τ := τ) d).loc main_v18_1))
    (hvi : ∀ j, (fvi j).toNat < 100000) (hni : ∀ j, (fni j).toNat < 100000) (c : Fin 2) (i : Fin 16) :
    iprop(((SparseCore.T (τ := τ) d).loc main_v9 ↦{qTile c.val i.val} fct) ∗ ((SparseCore.T (τ := τ) d).loc main_v13 ↦{qTile c.val i.val} fvi) ∗ ((SparseCore.T (τ := τ) d).loc main_v14 ↦{qTile c.val i.val} fni)
        ∗ ((SparseCore.T (τ := τ) d).loc main_v18_0 ↦[((Memref.whole Cert.KernelIdeal.main_v18_0_scv : Memref Cert.KernelIdeal.sig Kind.scVector Space.hbm Cert.KernelIdeal.S102400x128 EltTy.f32)).view.setOn (tileRect (coordsV' c i)).set]{fullShare} feu)
        ∗ ((SparseCore.T (τ := τ) d).loc main_v18_1 ↦[((Memref.whole Cert.KernelIdeal.main_v18_1_scv : Memref Cert.KernelIdeal.sig Kind.scVector Space.hbm Cert.KernelIdeal.S2048x128 EltTy.f32)).view.setOn (uvRect (coordsV' c i)).set]{fullShare} fuv))
      ⊢ (tileRes (F := F) 0 d c i : sProp 𝕄) := by
  rw [tileRes_zero]
  unfold goRes ctPts viPts niPts euPts uvPts
  iintro ⟨H9, H13, H14, He, Hu⟩
  iexists fct; iexists fvi; iexists fni
  isplitr
  · ipureintro; exact hvi
  isplitr
  · ipureintro; exact hni
  isplitl [H9]; · iexact H9
  isplitl [H13]; · iexact H13
  isplitl [H14]; · iexact H14
  isplitl [He]
  · iexists feu; iexact He
  iexists fuv; iexact Hu

/-- One tile's return: its three tokens at some contents each and its rows of the two results at some contents. -/
theorem tile_take0 (d : Dev nD) (c : Fin 2) (i : Fin 16) :
    (tileRes (F := F) 0 d c i : sProp 𝕄)
      ⊢ iprop((∃ g, (SparseCore.T (τ := τ) d).loc main_v9 ↦{qTile c.val i.val} g) ∗ (∃ g, (SparseCore.T (τ := τ) d).loc main_v13 ↦{qTile c.val i.val} g) ∗ (∃ g, (SparseCore.T (τ := τ) d).loc main_v14 ↦{qTile c.val i.val} g)
          ∗ (∃ f, (SparseCore.T (τ := τ) d).loc main_v18_0 ↦[((Memref.whole Cert.KernelIdeal.main_v18_0_scv : Memref Cert.KernelIdeal.sig Kind.scVector Space.hbm Cert.KernelIdeal.S102400x128 EltTy.f32)).view.setOn (tileRect (coordsV' c i)).set]{fullShare} f)
          ∗ (∃ f, (SparseCore.T (τ := τ) d).loc main_v18_1 ↦[((Memref.whole Cert.KernelIdeal.main_v18_1_scv : Memref Cert.KernelIdeal.sig Kind.scVector Space.hbm Cert.KernelIdeal.S2048x128 EltTy.f32)).view.setOn (uvRect (coordsV' c i)).set]{fullShare} f)) := by
  rw [tileRes_zero]
  unfold goRes ctPts viPts niPts euPts uvPts
  iintro ⟨%fct, %fvi, %fni, -, -, H9, H13, H14, ⟨%feu, He⟩, ⟨%fuv, Hu⟩⟩
  isplitl [H9]
  · iexists fct; iexact H9
  isplitl [H13]
  · iexists fvi; iexact H13
  isplitl [H14]
  · iexists fni; iexact H14
  isplitl [He]
  · iexists feu; iexact He
  iexists fuv; iexact Hu

/-- Before the call: the five arrays whole give every tile its hand and leave the three remainders. -/
theorem st_give0 (d : Dev nD) (fct : Buf (Elt F) ((SparseCore.T (τ := τ) d).loc main_v9)) (fvi : Buf (Elt F) ((SparseCore.T (τ := τ) d).loc main_v13)) (fni : Buf (Elt F) ((SparseCore.T (τ := τ) d).loc main_v14))
    (feu : Buf (Elt F) ((SparseCore.T (τ := τ) d).loc main_v18_0)) (fuv : Buf (Elt F) ((SparseCore.T (τ := τ) d).loc main_v18_1))
    (hvi : ∀ j, (fvi j).toNat < 100000) (hni : ∀ j, (fni j).toNat < 100000) :
    iprop(((SparseCore.T (τ := τ) d).loc main_v9 ↦{fullShare} fct) ∗ ((SparseCore.T (τ := τ) d).loc main_v13 ↦{fullShare} fvi) ∗ ((SparseCore.T (τ := τ) d).loc main_v14 ↦{fullShare} fni)
        ∗ ((SparseCore.T (τ := τ) d).loc main_v18_0 ↦{fullShare} feu) ∗ ((SparseCore.T (τ := τ) d).loc main_v18_1 ↦{fullShare} fuv))
      ⊢ (iprop((bigSep Finset.univ fun c : Fin ((K (F := F)).nCore 0) => (P (F := F)).st 0 d c)
          ∗ ((SparseCore.T (τ := τ) d).loc main_v9 ↦{Transfers.shareDrop fullShare 32} fct) ∗ ((SparseCore.T (τ := τ) d).loc main_v13 ↦{Transfers.shareDrop fullShare 32} fvi) ∗ ((SparseCore.T (τ := τ) d).loc main_v14 ↦{Transfers.shareDrop fullShare 32} fni)) : sProp 𝕄) := by
  have merge : iprop((bigSep Finset.univ fun ci : Fin 2 × Fin 16 => (SparseCore.T (τ := τ) d).loc main_v9 ↦{qTile ci.1.val ci.2.val} fct)
        ∗ (bigSep Finset.univ fun ci : Fin 2 × Fin 16 => (SparseCore.T (τ := τ) d).loc main_v13 ↦{qTile ci.1.val ci.2.val} fvi)
        ∗ (bigSep Finset.univ fun ci : Fin 2 × Fin 16 => (SparseCore.T (τ := τ) d).loc main_v14 ↦{qTile ci.1.val ci.2.val} fni)
        ∗ (bigSep Finset.univ fun ci : Fin 2 × Fin 16 => (SparseCore.T (τ := τ) d).loc main_v18_0 ↦[((Memref.whole Cert.KernelIdeal.main_v18_0_scv : Memref Cert.KernelIdeal.sig Kind.scVector Space.hbm Cert.KernelIdeal.S102400x128 EltTy.f32)).view.setOn (tileRect (coordsV' ci.1 ci.2)).set]{fullShare} feu)
        ∗ (bigSep Finset.univ fun ci : Fin 2 × Fin 16 => (SparseCore.T (τ := τ) d).loc main_v18_1 ↦[((Memref.whole Cert.KernelIdeal.main_v18_1_scv : Memref Cert.KernelIdeal.sig Kind.scVector Space.hbm Cert.KernelIdeal.S2048x128 EltTy.f32)).view.setOn (uvRect (coordsV' ci.1 ci.2)).set]{fullShare} fuv))
      ⊢ (bigSep Finset.univ fun ci : Fin 2 × Fin 16 => tileRes (F := F) 0 d ci.1 ci.2 : sProp 𝕄) := by
    rw [← bigSep_sep', ← bigSep_sep', ← bigSep_sep', ← bigSep_sep']
    exact bigSep_mono fun ci _ => tile_give0 d fct fvi fni feu fuv hvi hni ci.1 ci.2
  have tiles : (bigSep Finset.univ fun ci : Fin 2 × Fin 16 => tileRes (F := F) 0 d ci.1 ci.2 : sProp 𝕄)
      = bigSep Finset.univ fun c : Fin ((K (F := F)).nCore 0) => (P (F := F)).st 0 d c :=
    bigSep_tiles (fun ci : Fin 2 × Fin 16 => tileRes (F := F) 0 d ci.1 ci.2)
  rw [← tiles, eu_deal d feu, uv_deal d fuv]
  iintro ⟨H9, H13, H14, He, Hu⟩
  ihave H9' := (toks_deal_tiles ((SparseCore.T (τ := τ) d).loc main_v9) fct) $$ H9
  icases H9' with ⟨H9d, H9t⟩
  ihave H13' := (toks_deal_tiles ((SparseCore.T (τ := τ) d).loc main_v13) fvi) $$ H13
  icases H13' with ⟨H13d, H13t⟩
  ihave H14' := (toks_deal_tiles ((SparseCore.T (τ := τ) d).loc main_v14) fni) $$ H14
  icases H14' with ⟨H14d, H14t⟩
  isplitl [H9t H13t H14t He Hu]
  · iapply merge
    isplitl [H9t]; · iexact H9t
    isplitl [H13t]; · iexact H13t
    isplitl [H14t]; · iexact H14t
    isplitl [He]; · iexact He
    iexact Hu
  isplitl [H9d]; · iexact H9d
  isplitl [H13d]; · iexact H13d
  iexact H14d

/-- After the call: the tiles' returns and the three remainders give the three read arrays whole at their contents and
    the two results whole at some contents. -/
theorem dn_take0 (d : Dev nD) (fct : Buf (Elt F) ((SparseCore.T (τ := τ) d).loc main_v9)) (fvi : Buf (Elt F) ((SparseCore.T (τ := τ) d).loc main_v13)) (fni : Buf (Elt F) ((SparseCore.T (τ := τ) d).loc main_v14)) :
    iprop((bigSep Finset.univ fun c : Fin ((K (F := F)).nCore 0) => (P (F := F)).dn 0 d c)
        ∗ ((SparseCore.T (τ := τ) d).loc main_v9 ↦{Transfers.shareDrop fullShare 32} fct) ∗ ((SparseCore.T (τ := τ) d).loc main_v13 ↦{Transfers.shareDrop fullShare 32} fvi) ∗ ((SparseCore.T (τ := τ) d).loc main_v14 ↦{Transfers.shareDrop fullShare 32} fni))
      ⊢ (iprop(((SparseCore.T (τ := τ) d).loc main_v9 ↦{fullShare} fct) ∗ ((SparseCore.T (τ := τ) d).loc main_v13 ↦{fullShare} fvi) ∗ ((SparseCore.T (τ := τ) d).loc main_v14 ↦{fullShare} fni)
          ∗ (∃ f, (SparseCore.T (τ := τ) d).loc main_v18_0 ↦{fullShare} f) ∗ (∃ f, (SparseCore.T (τ := τ) d).loc main_v18_1 ↦{fullShare} f)) : sProp 𝕄) := by
  have split : (bigSep Finset.univ fun ci : Fin 2 × Fin 16 => tileRes (F := F) 0 d ci.1 ci.2 : sProp 𝕄)
      ⊢ iprop((bigSep Finset.univ fun ci : Fin 2 × Fin 16 => iprop(∃ g, (SparseCore.T (τ := τ) d).loc main_v9 ↦{qTile ci.1.val ci.2.val} g))
        ∗ (bigSep Finset.univ fun ci : Fin 2 × Fin 16 => iprop(∃ g, (SparseCore.T (τ := τ) d).loc main_v13 ↦{qTile ci.1.val ci.2.val} g))
        ∗ (bigSep Finset.univ fun ci : Fin 2 × Fin 16 => iprop(∃ g, (SparseCore.T (τ := τ) d).loc main_v14 ↦{qTile ci.1.val ci.2.val} g))
        ∗ (bigSep Finset.univ fun ci : Fin 2 × Fin 16 => iprop(∃ f, (SparseCore.T (τ := τ) d).loc main_v18_0 ↦[((Memref.whole Cert.KernelIdeal.main_v18_0_scv : Memref Cert.KernelIdeal.sig Kind.scVector Space.hbm Cert.KernelIdeal.S102400x128 EltTy.f32)).view.setOn (tileRect (coordsV' ci.1 ci.2)).set]{fullShare} f))
        ∗ (bigSep Finset.univ fun ci : Fin 2 × Fin 16 => iprop(∃ f, (SparseCore.T (τ := τ) d).loc main_v18_1 ↦[((Memref.whole Cert.KernelIdeal.main_v18_1_scv : Memref Cert.KernelIdeal.sig Kind.scVector Space.hbm Cert.KernelIdeal.S2048x128 EltTy.f32)).view.setOn (uvRect (coordsV' ci.1 ci.2)).set]{fullShare} f))) := by
    rw [← bigSep_sep', ← bigSep_sep', ← bigSep_sep', ← bigSep_sep']
    exact bigSep_mono fun ci _ => tile_take0 d ci.1 ci.2
  have tiles : (bigSep Finset.univ fun ci : Fin 2 × Fin 16 => tileRes (F := F) 0 d ci.1 ci.2 : sProp 𝕄)
      = bigSep Finset.univ fun c : Fin ((K (F := F)).nCore 0) => (P (F := F)).dn 0 d c :=
    bigSep_tiles (fun ci : Fin 2 × Fin 16 => tileRes (F := F) 0 d ci.1 ci.2)
  rw [← tiles]
  iintro ⟨Ht, H9d, H13d, H14d⟩
  ihave Hs := split $$ Ht
  icases Hs with ⟨H9t, H13t, H14t, He, Hu⟩
  isplitl [H9d H9t]
  · iapply (toks_rejoin_tiles ((SparseCore.T (τ := τ) d).loc main_v9) fct)
    isplitl [H9d]; · iexact H9d
    iexact H9t
  isplitl [H13d H13t]
  · iapply (toks_rejoin_tiles ((SparseCore.T (τ := τ) d).loc main_v13) fvi)
    isplitl [H13d]; · iexact H13d
    iexact H13t
  isplitl [H14d H14t]
  · iapply (toks_rejoin_tiles ((SparseCore.T (τ := τ) d).loc main_v14) fni)
    isplitl [H14d]; · iexact H14d
    iexact H14t
  isplitl [He]
  · iapply (eu_join d); iexact He
  iapply (uv_join d); iexact Hu

/-! ## The second call -/

/-- One tile's hand: from its three tokens and its rows of the two results. -/
theorem tile_give1 (d : Dev nD) (fct : Buf (Elt F) ((SparseCore.T (τ := τ) d).loc main_v9)) (fvi : Buf (Elt F) ((SparseCore.T (τ := τ) d).loc main_v39)) (fni : Buf (Elt F) ((SparseCore.T (τ := τ) d).loc main_v40))
    (feu : Buf (Elt F) ((SparseCore.T (τ := τ) d).loc main_v44_0)) (fuv : Buf (Elt F) ((SparseCore.T (τ := τ) d).loc main_v44_1))
    (hvi : ∀ j, (fvi j).toNat < 100000) (hni : ∀ j, (fni j).toNat < 100000) (c : Fin 2) (i : Fin 16) :
    iprop(((SparseCore.T (τ := τ) d).loc main_v9 ↦{qTile c.val i.val} fct) ∗ ((SparseCore.T (τ := τ) d).loc main_v39 ↦{qTile c.val i.val} fvi) ∗ ((SparseCore.T (τ := τ) d).loc main_v40 ↦{qTile c.val i.val} fni)
        ∗ ((SparseCore.T (τ := τ) d).loc main_v44_0 ↦[((Memref.whole Cert.KernelIdeal.main_v44_0_scv : Memref Cert.KernelIdeal.sig Kind.scVector Space.hbm Cert.KernelIdeal.S102400x128 EltTy.f32)).view.setOn (Cert.Proof.KI3.tileRect (Cert.Proof.KI3.coordsV' c i)).set]{fullShare} feu)
        ∗ ((SparseCore.T (τ := τ) d).loc main_v44_1 ↦[((Memref.whole Cert.KernelIdeal.main_v44_1_scv : Memref Cert.KernelIdeal.sig Kind.scVector Space.hbm Cert.KernelIdeal.S2048x128 EltTy.f32)).view.setOn (Cert.Proof.KI3.uvRect (Cert.Proof.KI3.coordsV' c i)).set]{fullShare} fuv))
      ⊢ (tileRes (F := F) 1 d c i : sProp 𝕄) := by
  rw [tileRes_one]
  unfold Cert.Proof.KI3.goRes Cert.Proof.KI3.ctPts Cert.Proof.KI3.viPts Cert.Proof.KI3.niPts Cert.Proof.KI3.euPts Cert.Proof.KI3.uvPts
  iintro ⟨H9, H13, H14, He, Hu⟩
  iexists fct; iexists fvi; iexists fni
  isplitr
  · ipureintro; exact hvi
  isplitr
  · ipureintro; exact hni
  isplitl [H9]; · iexact H9
  isplitl [H13]; · iexact H13
  isplitl [H14]; · iexact H14
  isplitl [He]
  · iexists feu; iexact He
  iexists fuv; iexact Hu

/-- One tile's return: its three tokens at some contents each and its rows of the two results at some contents. -/
theorem tile_take1 (d : Dev nD) (c : Fin 2) (i : Fin 16) :
    (tileRes (F := F) 1 d c i : sProp 𝕄)
      ⊢ iprop((∃ g, (SparseCore.T (τ := τ) d).loc main_v9 ↦{qTile c.val i.val} g) ∗ (∃ g, (SparseCore.T (τ := τ) d).loc main_v39 ↦{qTile c.val i.val} g) ∗ (∃ g, (SparseCore.T (τ := τ) d).loc main_v40 ↦{qTile c.val i.val} g)
          ∗ (∃ f, (SparseCore.T (τ := τ) d).loc main_v44_0 ↦[((Memref.whole Cert.KernelIdeal.main_v44_0_scv : Memref Cert.KernelIdeal.sig Kind.scVector Space.hbm Cert.KernelIdeal.S102400x128 EltTy.f32)).view.setOn (Cert.Proof.KI3.tileRect (Cert.Proof.KI3.coordsV' c i)).set]{fullShare} f)
          ∗ (∃ f, (SparseCore.T (τ := τ) d).loc main_v44_1 ↦[((Memref.whole Cert.KernelIdeal.main_v44_1_scv : Memref Cert.KernelIdeal.sig Kind.scVector Space.hbm Cert.KernelIdeal.S2048x128 EltTy.f32)).view.setOn (Cert.Proof.KI3.uvRect (Cert.Proof.KI3.coordsV' c i)).set]{fullShare} f)) := by
  rw [tileRes_one]
  unfold Cert.Proof.KI3.goRes Cert.Proof.KI3.ctPts Cert.Proof.KI3.viPts Cert.Proof.KI3.niPts Cert.Proof.KI3.euPts Cert.Proof.KI3.uvPts
  iintro ⟨%fct, %fvi, %fni, -, -, H9, H13, H14, ⟨%feu, He⟩, ⟨%fuv, Hu⟩⟩
  isplitl [H9]
  · iexists fct; iexact H9
  isplitl [H13]
  · iexists fvi; iexact H13
  isplitl [H14]
  · iexists fni; iexact H14
  isplitl [He]
  · iexists feu; iexact He
  iexists fuv; iexact Hu

/-- Before the call: the five arrays whole give every tile its hand and leave the three remainders. -/
theorem st_give1 (d : Dev nD) (fct : Buf (Elt F) ((SparseCore.T (τ := τ) d).loc main_v9)) (fvi : Buf (Elt F) ((SparseCore.T (τ := τ) d).loc main_v39)) (fni : Buf (Elt F) ((SparseCore.T (τ := τ) d).loc main_v40))
    (feu : Buf (Elt F) ((SparseCore.T (τ := τ) d).loc main_v44_0)) (fuv : Buf (Elt F) ((SparseCore.T (τ := τ) d).loc main_v44_1))
    (hvi : ∀ j, (fvi j).toNat < 100000) (hni : ∀ j, (fni j).toNat < 100000) :
    iprop(((SparseCore.T (τ := τ) d).loc main_v9 ↦{fullShare} fct) ∗ ((SparseCore.T (τ := τ) d).loc main_v39 ↦{fullShare} fvi) ∗ ((SparseCore.T (τ := τ) d).loc main_v40 ↦{fullShare} fni)
        ∗ ((SparseCore.T (τ := τ) d).loc main_v44_0 ↦{fullShare} feu) ∗ ((SparseCore.T (τ := τ) d).loc main_v44_1 ↦{fullShare} fuv))
      ⊢ (iprop((bigSep Finset.univ fun c : Fin ((K (F := F)).nCore 1) => (P (F := F)).st 1 d c)
          ∗ ((SparseCore.T (τ := τ) d).loc main_v9 ↦{Transfers.shareDrop fullShare 32} fct) ∗ ((SparseCore.T (τ := τ) d).loc main_v39 ↦{Transfers.shareDrop fullShare 32} fvi) ∗ ((SparseCore.T (τ := τ) d).loc main_v40 ↦{Transfers.shareDrop fullShare 32} fni)) : sProp 𝕄) := by
  have merge : iprop((bigSep Finset.univ fun ci : Fin 2 × Fin 16 => (SparseCore.T (τ := τ) d).loc main_v9 ↦{qTile ci.1.val ci.2.val} fct)
        ∗ (bigSep Finset.univ fun ci : Fin 2 × Fin 16 => (SparseCore.T (τ := τ) d).loc main_v39 ↦{qTile ci.1.val ci.2.val} fvi)
        ∗ (bigSep Finset.univ fun ci : Fin 2 × Fin 16 => (SparseCore.T (τ := τ) d).loc main_v40 ↦{qTile ci.1.val ci.2.val} fni)
        ∗ (bigSep Finset.univ fun ci : Fin 2 × Fin 16 => (SparseCore.T (τ := τ) d).loc main_v44_0 ↦[((Memref.whole Cert.KernelIdeal.main_v44_0_scv : Memref Cert.KernelIdeal.sig Kind.scVector Space.hbm Cert.KernelIdeal.S102400x128 EltTy.f32)).view.setOn (Cert.Proof.KI3.tileRect (Cert.Proof.KI3.coordsV' ci.1 ci.2)).set]{fullShare} feu)
        ∗ (bigSep Finset.univ fun ci : Fin 2 × Fin 16 => (SparseCore.T (τ := τ) d).loc main_v44_1 ↦[((Memref.whole Cert.KernelIdeal.main_v44_1_scv : Memref Cert.KernelIdeal.sig Kind.scVector Space.hbm Cert.KernelIdeal.S2048x128 EltTy.f32)).view.setOn (Cert.Proof.KI3.uvRect (Cert.Proof.KI3.coordsV' ci.1 ci.2)).set]{fullShare} fuv))
      ⊢ (bigSep Finset.univ fun ci : Fin 2 × Fin 16 => tileRes (F := F) 1 d ci.1 ci.2 : sProp 𝕄) := by
    rw [← bigSep_sep', ← bigSep_sep', ← bigSep_sep', ← bigSep_sep']
    exact bigSep_mono fun ci _ => tile_give1 d fct fvi fni feu fuv hvi hni ci.1 ci.2
  have tiles : (bigSep Finset.univ fun ci : Fin 2 × Fin 16 => tileRes (F := F) 1 d ci.1 ci.2 : sProp 𝕄)
      = bigSep Finset.univ fun c : Fin ((K (F := F)).nCore 1) => (P (F := F)).st 1 d c :=
    Cert.Proof.KI3.bigSep_tiles (fun ci : Fin 2 × Fin 16 => tileRes (F := F) 1 d ci.1 ci.2)
  rw [← tiles, Cert.Proof.KI3.eu_deal d feu, Cert.Proof.KI3.uv_deal d fuv]
  iintro ⟨H9, H13, H14, He, Hu⟩
  ihave H9' := (toks_deal_tiles ((SparseCore.T (τ := τ) d).loc main_v9) fct) $$ H9
  icases H9' with ⟨H9d, H9t⟩
  ihave H13' := (toks_deal_tiles ((SparseCore.T (τ := τ) d).loc main_v39) fvi) $$ H13
  icases H13' with ⟨H13d, H13t⟩
  ihave H14' := (toks_deal_tiles ((SparseCore.T (τ := τ) d).loc main_v40) fni) $$ H14
  icases H14' with ⟨H14d, H14t⟩
  isplitl [H9t H13t H14t He Hu]
  · iapply merge
    isplitl [H9t]; · iexact H9t
    isplitl [H13t]; · iexact H13t
    isplitl [H14t]; · iexact H14t
    isplitl [He]; · iexact He
    iexact Hu
  isplitl [H9d]; · iexact H9d
  isplitl [H13d]; · iexact H13d
  iexact H14d

/-- After the call: the tiles' returns and the three remainders give the three read arrays whole at their contents and
    the two results whole at some contents. -/
theorem dn_take1 (d : Dev nD) (fct : Buf (Elt F) ((SparseCore.T (τ := τ) d).loc main_v9)) (fvi : Buf (Elt F) ((SparseCore.T (τ := τ) d).loc main_v39)) (fni : Buf (Elt F) ((SparseCore.T (τ := τ) d).loc main_v40)) :
    iprop((bigSep Finset.univ fun c : Fin ((K (F := F)).nCore 1) => (P (F := F)).dn 1 d c)
        ∗ ((SparseCore.T (τ := τ) d).loc main_v9 ↦{Transfers.shareDrop fullShare 32} fct) ∗ ((SparseCore.T (τ := τ) d).loc main_v39 ↦{Transfers.shareDrop fullShare 32} fvi) ∗ ((SparseCore.T (τ := τ) d).loc main_v40 ↦{Transfers.shareDrop fullShare 32} fni))
      ⊢ (iprop(((SparseCore.T (τ := τ) d).loc main_v9 ↦{fullShare} fct) ∗ ((SparseCore.T (τ := τ) d).loc main_v39 ↦{fullShare} fvi) ∗ ((SparseCore.T (τ := τ) d).loc main_v40 ↦{fullShare} fni)
          ∗ (∃ f, (SparseCore.T (τ := τ) d).loc main_v44_0 ↦{fullShare} f) ∗ (∃ f, (SparseCore.T (τ := τ) d).loc main_v44_1 ↦{fullShare} f)) : sProp 𝕄) := by
  have split : (bigSep Finset.univ fun ci : Fin 2 × Fin 16 => tileRes (F := F) 1 d ci.1 ci.2 : sProp 𝕄)
      ⊢ iprop((bigSep Finset.univ fun ci : Fin 2 × Fin 16 => iprop(∃ g, (SparseCore.T (τ := τ) d).loc main_v9 ↦{qTile ci.1.val ci.2.val} g))
        ∗ (bigSep Finset.univ fun ci : Fin 2 × Fin 16 => iprop(∃ g, (SparseCore.T (τ := τ) d).loc main_v39 ↦{qTile ci.1.val ci.2.val} g))
        ∗ (bigSep Finset.univ fun ci : Fin 2 × Fin 16 => iprop(∃ g, (SparseCore.T (τ := τ) d).loc main_v40 ↦{qTile ci.1.val ci.2.val} g))
        ∗ (bigSep Finset.univ fun ci : Fin 2 × Fin 16 => iprop(∃ f, (SparseCore.T (τ := τ) d).loc main_v44_0 ↦[((Memref.whole Cert.KernelIdeal.main_v44_0_scv : Memref Cert.KernelIdeal.sig Kind.scVector Space.hbm Cert.KernelIdeal.S102400x128 EltTy.f32)).view.setOn (Cert.Proof.KI3.tileRect (Cert.Proof.KI3.coordsV' ci.1 ci.2)).set]{fullShare} f))
        ∗ (bigSep Finset.univ fun ci : Fin 2 × Fin 16 => iprop(∃ f, (SparseCore.T (τ := τ) d).loc main_v44_1 ↦[((Memref.whole Cert.KernelIdeal.main_v44_1_scv : Memref Cert.KernelIdeal.sig Kind.scVector Space.hbm Cert.KernelIdeal.S2048x128 EltTy.f32)).view.setOn (Cert.Proof.KI3.uvRect (Cert.Proof.KI3.coordsV' ci.1 ci.2)).set]{fullShare} f))) := by
    rw [← bigSep_sep', ← bigSep_sep', ← bigSep_sep', ← bigSep_sep']
    exact bigSep_mono fun ci _ => tile_take1 d ci.1 ci.2
  have tiles : (bigSep Finset.univ fun ci : Fin 2 × Fin 16 => tileRes (F := F) 1 d ci.1 ci.2 : sProp 𝕄)
      = bigSep Finset.univ fun c : Fin ((K (F := F)).nCore 1) => (P (F := F)).dn 1 d c :=
    Cert.Proof.KI3.bigSep_tiles (fun ci : Fin 2 × Fin 16 => tileRes (F := F) 1 d ci.1 ci.2)
  rw [← tiles]
  iintro ⟨Ht, H9d, H13d, H14d⟩
  ihave Hs := split $$ Ht
  icases Hs with ⟨H9t, H13t, H14t, He, Hu⟩
  isplitl [H9d H9t]
  · iapply (toks_rejoin_tiles ((SparseCore.T (τ := τ) d).loc main_v9) fct)
    isplitl [H9d]; · iexact H9d
    iexact H9t
  isplitl [H13d H13t]
  · iapply (toks_rejoin_tiles ((SparseCore.T (τ := τ) d).loc main_v39) fvi)
    isplitl [H13d]; · iexact H13d
    iexact H13t
  isplitl [H14d H14t]
  · iapply (toks_rejoin_tiles ((SparseCore.T (τ := τ) d).loc main_v40) fni)
    isplitl [H14d]; · iexact H14d
    iexact H14t
  isplitl [He]
  · iapply (Cert.Proof.KI3.eu_join d); iexact He
  iapply (Cert.Proof.KI3.uv_join d); iexact Hu

end Cert.Proof.KI

end
-- ==== Proof.ScCall.lean ====
/-
  @main's step over a gather call, on the TensorCore: out of the arrays it holds it hands the call's five (the table and the two
  index lists to read, the two results to be written), runs the call (the library's `wp_run`), takes them back — the three read
  ones as they were, the two results at whatever the tiles left — and holds everything again, at the valuation so updated.
-/
import proofs.«217981_g19061064860210_cont_8to1_1320_37_alg».proof.Proof.ScLaunch
import Idealize.ShloMosaic.Lib.Pipeline.Frame
import proofs.«217981_g19061064860210_cont_8to1_1320_37_alg».proof.Proof.ScGive

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

open Idealize.ShloMosaic.StableHlo (held)
open Idealize.ShloMosaic.TcCoe

/-- The five arrays of the first gather call, among the TensorCore's. -/
def refs0 : Finset (DevRef τ sig) :=
  {(main_v9 : DevRef τ sig), (main_v13 : DevRef τ sig), (main_v14 : DevRef τ sig), (main_v18_0 : DevRef τ sig), (main_v18_1 : DevRef τ sig)}

theorem refs0_sub : refs0 ⊆ Pipeline.ucRefs τ sig := by decide

omit [FloatOps F] in
theorem held_refs0 (d : Dev nD) (V : Valuation τ sig (Elt F)) :
    (held (SparseCore.T d) refs0 V : sProp 𝕄)
      = iprop(((SparseCore.T d).loc main_v9 ↦{fullShare} V (main_v9 : DevRef τ sig))
          ∗ ((SparseCore.T d).loc main_v13 ↦{fullShare} V (main_v13 : DevRef τ sig))
          ∗ ((SparseCore.T d).loc main_v14 ↦{fullShare} V (main_v14 : DevRef τ sig))
          ∗ ((SparseCore.T d).loc main_v18_0 ↦{fullShare} V (main_v18_0 : DevRef τ sig))
          ∗ ((SparseCore.T d).loc main_v18_1 ↦{fullShare} V (main_v18_1 : DevRef τ sig))) := by
  unfold held refs0
  rw [SparseCore.bigSep_insert' (by decide), SparseCore.bigSep_insert' (by decide), SparseCore.bigSep_insert' (by decide),
    SparseCore.bigSep_insert' (by decide), bigSep_singleton]

/-- The valuation after the call: the two results at what came back. -/
def afterCall0 (V : Valuation τ sig (Elt F)) (feu : (main_v18_0 : DevRef τ sig).ty.Contents (Elt F)) (fuv : (main_v18_1 : DevRef τ sig).ty.Contents (Elt F)) :
    Valuation τ sig (Elt F) :=
  Function.update (Function.update V (main_v18_0 : DevRef τ sig) feu) (main_v18_1 : DevRef τ sig) fuv

omit [FloatOps F] in
theorem afterCall0_of_ne (V : Valuation τ sig (Elt F)) (feu : (main_v18_0 : DevRef τ sig).ty.Contents (Elt F))
    (fuv : (main_v18_1 : DevRef τ sig).ty.Contents (Elt F)) (b : DevRef τ sig)
    (h0 : b ≠ (main_v18_0 : DevRef τ sig)) (h1 : b ≠ (main_v18_1 : DevRef τ sig)) : afterCall0 V feu fuv b = V b := by
  unfold afterCall0; rw [Function.update_of_ne h1, Function.update_of_ne h0]
omit [FloatOps F] in
theorem afterCall0_eu (V : Valuation τ sig (Elt F)) (feu : (main_v18_0 : DevRef τ sig).ty.Contents (Elt F))
    (fuv : (main_v18_1 : DevRef τ sig).ty.Contents (Elt F)) : afterCall0 V feu fuv (main_v18_0 : DevRef τ sig) = feu := by
  unfold afterCall0; rw [Function.update_of_ne (by decide), Function.update_self]
omit [FloatOps F] in
theorem afterCall0_uv (V : Valuation τ sig (Elt F)) (feu : (main_v18_0 : DevRef τ sig).ty.Contents (Elt F))
    (fuv : (main_v18_1 : DevRef τ sig).ty.Contents (Elt F)) : afterCall0 V feu fuv (main_v18_1 : DevRef τ sig) = fuv := by
  unfold afterCall0; rw [Function.update_self]

/-- The step over the first gather call. The two index lists' entries name rows of the table (`hvi`, `hni`). -/
theorem call0_step (κ : GSem nD τ sig → ℕ) (d : Dev nD) (V : Valuation τ sig (Elt F))
    (hvi : ∀ j, ((V (main_v13 : DevRef τ sig) : (⟨S102400, .i32⟩ : BufTy).Contents (Elt F)) j).toNat < 100000)
    (hni : ∀ j, ((V (main_v14 : DevRef τ sig) : (⟨S2048, .i32⟩ : BufTy).Contents (Elt F)) j).toNat < 100000)
    {Φ : PUnit → sProp 𝕄} :
    iprop((K (F := F)).ctx EH (P (F := F)) κ ∗ (K (F := F)).tcSt EH d 0 ∗ held (SparseCore.T d) (Pipeline.ucRefs τ sig) V
        ∗ (∀ feu fuv, ((K (F := F)).tcSt EH d 1 ∗ held (SparseCore.T d) (Pipeline.ucRefs τ sig) (afterCall0 V feu fuv)) -∗ Φ ⟨⟩))
      ⊢ wp frame (wpE ((K (F := F)).defs (D (F := F))) 𝒱 (SparseCore.T d) none) Set.univ ((K (F := F)).run d 0) Φ := by
  rw [StableHlo.held_sub_split (SparseCore.T d) refs0_sub V, held_refs0]
  iintro ⟨#Hctx, Hst, ⟨⟨H9, H13, H14, He, Hu⟩, Hrest⟩, Hk⟩
  ihave Hg := (st_give0 d _ _ _ _ _ hvi hni) $$ [H9 H13 H14 He Hu]
  · isplitl [H9]; · iexact H9
    isplitl [H13]; · iexact H13
    isplitl [H14]; · iexact H14
    isplitl [He]; · iexact He
    iexact Hu
  icases Hg with ⟨Hst0, H9d, H13d, H14d⟩
  iapply ((K (F := F)).wp_run (D (F := F)) 𝒱 (EH := EH) (P := P (F := F)) κ d 0) $$ [Hst Hst0 H9d H13d H14d Hrest Hk]
  isplitr; · iexact Hctx
  isplitl [Hst]; · iexact Hst
  isplitl [Hst0]; · iexact Hst0
  iintro ⟨Hst, Hdn⟩
  ihave Ht := (dn_take0 d _ _ _) $$ [Hdn H9d H13d H14d]
  · isplitl [Hdn]; · iexact Hdn
    isplitl [H9d]; · iexact H9d
    isplitl [H13d]; · iexact H13d
    iexact H14d
  icases Ht with ⟨H9, H13, H14, ⟨%feu, He⟩, ⟨%fuv, Hu⟩⟩
  ispecialize Hk $$ %feu %fuv
  iapply Hk
  isplitl [Hst]; · iexact Hst
  rw [StableHlo.held_sub_split (SparseCore.T d) refs0_sub (afterCall0 V feu fuv), held_refs0,
    afterCall0_of_ne V feu fuv (main_v9 : DevRef τ sig) (by decide) (by decide),
    afterCall0_of_ne V feu fuv (main_v13 : DevRef τ sig) (by decide) (by decide),
    afterCall0_of_ne V feu fuv (main_v14 : DevRef τ sig) (by decide) (by decide), afterCall0_eu, afterCall0_uv,
    StableHlo.held_congr (SparseCore.T d) (V := afterCall0 V feu fuv) (V' := V) (S := Pipeline.ucRefs τ sig \ refs0) (fun b hb =>
      afterCall0_of_ne V feu fuv b
        (fun e => (Finset.mem_sdiff.mp hb).2 (e ▸ by decide)) (fun e => (Finset.mem_sdiff.mp hb).2 (e ▸ by decide)))]
  isplitl [H9 H13 H14 He Hu]
  · isplitl [H9]; · iexact H9
    isplitl [H13]; · iexact H13
    isplitl [H14]; · iexact H14
    isplitl [He]; · iexact He
    iexact Hu
  iexact Hrest

end Cert.Proof.KI

end
-- ==== Proof.ScCall1.lean ====
/-
  @main's step over a gather call, on the TensorCore: out of the arrays it holds it hands the call's five (the table and the two
  index lists to read, the two results to be written), runs the call (the library's `wp_run`), takes them back — the three read
  ones as they were, the two results at whatever the tiles left — and holds everything again, at the valuation so updated.
-/
import proofs.«217981_g19061064860210_cont_8to1_1320_37_alg».proof.Proof.ScLaunch
import Idealize.ShloMosaic.Lib.Pipeline.Frame
import proofs.«217981_g19061064860210_cont_8to1_1320_37_alg».proof.Proof.ScGive

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

open Idealize.ShloMosaic.StableHlo (held)
open Idealize.ShloMosaic.TcCoe

/-- The five arrays of the second gather call, among the TensorCore's. -/
def refs1 : Finset (DevRef τ sig) :=
  {(main_v9 : DevRef τ sig), (main_v39 : DevRef τ sig), (main_v40 : DevRef τ sig), (main_v44_0 : DevRef τ sig), (main_v44_1 : DevRef τ sig)}

theorem refs1_sub : refs1 ⊆ Pipeline.ucRefs τ sig := by decide

omit [FloatOps F] in
theorem held_refs1 (d : Dev nD) (V : Valuation τ sig (Elt F)) :
    (held (SparseCore.T d) refs1 V : sProp 𝕄)
      = iprop(((SparseCore.T d).loc main_v9 ↦{fullShare} V (main_v9 : DevRef τ sig))
          ∗ ((SparseCore.T d).loc main_v39 ↦{fullShare} V (main_v39 : DevRef τ sig))
          ∗ ((SparseCore.T d).loc main_v40 ↦{fullShare} V (main_v40 : DevRef τ sig))
          ∗ ((SparseCore.T d).loc main_v44_0 ↦{fullShare} V (main_v44_0 : DevRef τ sig))
          ∗ ((SparseCore.T d).loc main_v44_1 ↦{fullShare} V (main_v44_1 : DevRef τ sig))) := by
  unfold held refs1
  rw [SparseCore.bigSep_insert' (by decide), SparseCore.bigSep_insert' (by decide), SparseCore.bigSep_insert' (by decide),
    SparseCore.bigSep_insert' (by decide), bigSep_singleton]

/-- The valuation after the call: the two results at what came back. -/
def afterCall1 (V : Valuation τ sig (Elt F)) (feu : (main_v44_0 : DevRef τ sig).ty.Contents (Elt F)) (fuv : (main_v44_1 : DevRef τ sig).ty.Contents (Elt F)) :
    Valuation τ sig (Elt F) :=
  Function.update (Function.update V (main_v44_0 : DevRef τ sig) feu) (main_v44_1 : DevRef τ sig) fuv

omit [FloatOps F] in
theorem afterCall1_of_ne (V : Valuation τ sig (Elt F)) (feu : (main_v44_0 : DevRef τ sig).ty.Contents (Elt F))
    (fuv : (main_v44_1 : DevRef τ sig).ty.Contents (Elt F)) (b : DevRef τ sig)
    (h0 : b ≠ (main_v44_0 : DevRef τ sig)) (h1 : b ≠ (main_v44_1 : DevRef τ sig)) : afterCall1 V feu fuv b = V b := by
  unfold afterCall1; rw [Function.update_of_ne h1, Function.update_of_ne h0]
omit [FloatOps F] in
theorem afterCall1_eu (V : Valuation τ sig (Elt F)) (feu : (main_v44_0 : DevRef τ sig).ty.Contents (Elt F))
    (fuv : (main_v44_1 : DevRef τ sig).ty.Contents (Elt F)) : afterCall1 V feu fuv (main_v44_0 : DevRef τ sig) = feu := by
  unfold afterCall1; rw [Function.update_of_ne (by decide), Function.update_self]
omit [FloatOps F] in
theorem afterCall1_uv (V : Valuation τ sig (Elt F)) (feu : (main_v44_0 : DevRef τ sig).ty.Contents (Elt F))
    (fuv : (main_v44_1 : DevRef τ sig).ty.Contents (Elt F)) : afterCall1 V feu fuv (main_v44_1 : DevRef τ sig) = fuv := by
  unfold afterCall1; rw [Function.update_self]

/-- The step over the second gather call. The two index lists' entries name rows of the table (`hvi`, `hni`). -/
theorem call1_step (κ : GSem nD τ sig → ℕ) (d : Dev nD) (V : Valuation τ sig (Elt F))
    (hvi : ∀ j, ((V (main_v39 : DevRef τ sig) : (⟨S102400, .i32⟩ : BufTy).Contents (Elt F)) j).toNat < 100000)
    (hni : ∀ j, ((V (main_v40 : DevRef τ sig) : (⟨S2048, .i32⟩ : BufTy).Contents (Elt F)) j).toNat < 100000)
    {Φ : PUnit → sProp 𝕄} :
    iprop((K (F := F)).ctx EH (P (F := F)) κ ∗ (K (F := F)).tcSt EH d 1 ∗ held (SparseCore.T d) (Pipeline.ucRefs τ sig) V
        ∗ (∀ feu fuv, ((K (F := F)).tcSt EH d 2 ∗ held (SparseCore.T d) (Pipeline.ucRefs τ sig) (afterCall1 V feu fuv)) -∗ Φ ⟨⟩))
      ⊢ wp frame (wpE ((K (F := F)).defs (D (F := F))) 𝒱 (SparseCore.T d) none) Set.univ ((K (F := F)).run d 1) Φ := by
  rw [StableHlo.held_sub_split (SparseCore.T d) refs1_sub V, held_refs1]
  iintro ⟨#Hctx, Hst, ⟨⟨H9, H13, H14, He, Hu⟩, Hrest⟩, Hk⟩
  ihave Hg := (st_give1 d _ _ _ _ _ hvi hni) $$ [H9 H13 H14 He Hu]
  · isplitl [H9]; · iexact H9
    isplitl [H13]; · iexact H13
    isplitl [H14]; · iexact H14
    isplitl [He]; · iexact He
    iexact Hu
  icases Hg with ⟨Hst0, H9d, H13d, H14d⟩
  iapply ((K (F := F)).wp_run (D (F := F)) 𝒱 (EH := EH) (P := P (F := F)) κ d 1) $$ [Hst Hst0 H9d H13d H14d Hrest Hk]
  isplitr; · iexact Hctx
  isplitl [Hst]; · iexact Hst
  isplitl [Hst0]; · iexact Hst0
  iintro ⟨Hst, Hdn⟩
  ihave Ht := (dn_take1 d _ _ _) $$ [Hdn H9d H13d H14d]
  · isplitl [Hdn]; · iexact Hdn
    isplitl [H9d]; · iexact H9d
    isplitl [H13d]; · iexact H13d
    iexact H14d
  icases Ht with ⟨H9, H13, H14, ⟨%feu, He⟩, ⟨%fuv, Hu⟩⟩
  ispecialize Hk $$ %feu %fuv
  iapply Hk
  isplitl [Hst]; · iexact Hst
  rw [StableHlo.held_sub_split (SparseCore.T d) refs1_sub (afterCall1 V feu fuv), held_refs1,
    afterCall1_of_ne V feu fuv (main_v9 : DevRef τ sig) (by decide) (by decide),
    afterCall1_of_ne V feu fuv (main_v39 : DevRef τ sig) (by decide) (by decide),
    afterCall1_of_ne V feu fuv (main_v40 : DevRef τ sig) (by decide) (by decide), afterCall1_eu, afterCall1_uv,
    StableHlo.held_congr (SparseCore.T d) (V := afterCall1 V feu fuv) (V' := V) (S := Pipeline.ucRefs τ sig \ refs1) (fun b hb =>
      afterCall1_of_ne V feu fuv b
        (fun e => (Finset.mem_sdiff.mp hb).2 (e ▸ by decide)) (fun e => (Finset.mem_sdiff.mp hb).2 (e ▸ by decide)))]
  isplitl [H9 H13 H14 He Hu]
  · isplitl [H9]; · iexact H9
    isplitl [H13]; · iexact H13
    isplitl [H14]; · iexact H14
    isplitl [He]; · iexact He
    iexact Hu
  iexact Hrest

end Cert.Proof.KI

end
-- ==== Proof.KMainSegs.lean ====
/-
  The kernel program's @main as its six straight lines of host operations with the three TensorCore regions and
  the two SparseCore calls between them. Each line is a list of operations (a call of a module-local function
  replaced by the callee's body over that call's buffers); @main equals the lines and the five calls in
  sequence; every operation touches unscoped TensorCore buffers only and determines its results; no line
  writes any of the sixteen argument buffers; and the four index lists the SparseCore calls gather by are
  slices (transposed and flattened, for the two-dimensional array) of the argument index arrays, so a bound on
  every entry of an argument array bounds every entry of its list.
-/
import proofs.«217981_g19061064860210_cont_8to1_1320_37_alg».proof.Proof.Gen.KernelIdeal
import Idealize.ShloMosaic.Lib.StableHlo.Run
import Idealize.ShloMosaic.Lib.Pipeline.Frame

noncomputable section

namespace Cert.KernelIdeal.MainSegs

open Cert.KernelIdeal Cert.KernelIdeal.Gen Idealize.ShloMosaic Idealize.ShloMosaic.TcCoe Idealize.SL.Sem Idealize.ShloMosaic.StableHlo

variable {F : FTy → Type} [FloatOps F]

/-- Before the first TensorCore region: the two embedding tables transposed, two weight halves sliced, transposed and narrowed, one bias reshaped to a row. -/
abbrev ops0 : List (HloOp τ sig (Elt F)) :=
  [ StableHlo.unary main_arg4 main_v0 ((transpose S64x100000 [1, 0] · transposes_S100000x64_S64x100000_1_0) : (⟨S100000x64, .f32⟩ : BufTy).Contents (Elt F) → (⟨S64x100000, .f32⟩ : BufTy).Contents (Elt F)),
    StableHlo.unary main_arg3 main_v1 ((transpose S64x100000 [1, 0] · transposes_S100000x64_S64x100000_1_0) : (⟨S100000x64, .f32⟩ : BufTy).Contents (Elt F) → (⟨S64x100000, .f32⟩ : BufTy).Contents (Elt F)),
    StableHlo.unary main_arg6 main_v2 ((extractStridedSlice S64x64 ![0, 0] · slices_S64x128_S64x64_0_0) : (⟨S64x128, .f32⟩ : BufTy).Contents (Elt F) → (⟨S64x64, .f32⟩ : BufTy).Contents (Elt F)),
    StableHlo.unary main_v2 main_v3 ((transpose S64x64 [1, 0] · transposes_S64x64_S64x64_1_0) : (⟨S64x64, .f32⟩ : BufTy).Contents (Elt F) → (⟨S64x64, .f32⟩ : BufTy).Contents (Elt F)),
    StableHlo.unary main_v3 main_v4 ((truncf .bf16 · bitsLt_bf16_f32) : (⟨S64x64, .f32⟩ : BufTy).Contents (Elt F) → (⟨S64x64, .bf16⟩ : BufTy).Contents (Elt F)),
    StableHlo.unary main_arg10 main_v5 ((extractStridedSlice S64x64 ![0, 64] · slices_S64x128_S64x64_0_64) : (⟨S64x128, .f32⟩ : BufTy).Contents (Elt F) → (⟨S64x64, .f32⟩ : BufTy).Contents (Elt F)),
    StableHlo.unary main_v5 main_v6 ((transpose S64x64 [1, 0] · transposes_S64x64_S64x64_1_0) : (⟨S64x64, .f32⟩ : BufTy).Contents (Elt F) → (⟨S64x64, .f32⟩ : BufTy).Contents (Elt F)),
    StableHlo.unary main_v6 main_v7 ((truncf .bf16 · bitsLt_bf16_f32) : (⟨S64x64, .f32⟩ : BufTy).Contents (Elt F) → (⟨S64x64, .bf16⟩ : BufTy).Contents (Elt F)),
    StableHlo.reshape main_arg11 main_v8 rfl shapeCasts_S64_S1x64 ]

/-- Before the first SparseCore call: the zero constant and the five-row table padded to eight rows with it (the padding value converted to float first), the first 2048 rows of the two index arrays sliced and transposed (one flattened, the per-row indices sliced), and the one-hot encoding of the second (the index against the iota of eight, as bytes). -/
abbrev ops1 : List (HloOp τ sig (Elt F)) :=
  [ StableHlo.nullary main_c (constantI S_ 32 0#32),
    StableHlo.TRef.unary (StableHlo.TRef.of (T := ⟨S_, .i32⟩) main_c) main_call0.v0 (sitofp .f32),
    StableHlo.TRef.binary (StableHlo.TRef.of (T := ⟨S5x64, .f32⟩) main_arg5) main_call0.v0 main_call0.v1 (fun x v => pad S8x64 ![0, 0] ![3, 0] ![0, 0] x v pads_S5x64_S8x64_030_000 h_S_),
    StableHlo.unary main_arg1 main_v11 ((extractStridedSlice S2048x50 ![0, 0] · slices_S4096x50_S2048x50_0_0) : (⟨S4096x50, .i32⟩ : BufTy).Contents (Elt F) → (⟨S2048x50, .i32⟩ : BufTy).Contents (Elt F)),
    StableHlo.unary main_v11 main_v12 ((transpose S50x2048 [1, 0] · transposes_S2048x50_S50x2048_1_0) : (⟨S2048x50, .i32⟩ : BufTy).Contents (Elt F) → (⟨S50x2048, .i32⟩ : BufTy).Contents (Elt F)),
    StableHlo.reshape main_v12 main_v13 rfl shapeCasts_S50x2048_S102400,
    StableHlo.unary main_arg0 main_v14 ((extractStridedSlice S2048 ![0] · slices_S4096_S2048_0) : (⟨S4096, .i32⟩ : BufTy).Contents (Elt F) → (⟨S2048, .i32⟩ : BufTy).Contents (Elt F)),
    StableHlo.unary main_arg2 main_v15 ((extractStridedSlice S2048x50 ![0, 0] · slices_S4096x50_S2048x50_0_0) : (⟨S4096x50, .i32⟩ : BufTy).Contents (Elt F) → (⟨S2048x50, .i32⟩ : BufTy).Contents (Elt F)),
    StableHlo.unary main_v15 main_v16 ((transpose S50x2048 [1, 0] · transposes_S2048x50_S50x2048_1_0) : (⟨S2048x50, .i32⟩ : BufTy).Contents (Elt F) → (⟨S50x2048, .i32⟩ : BufTy).Contents (Elt F)),
    StableHlo.TRef.unary (StableHlo.TRef.of (T := ⟨S50x2048, .i32⟩) main_v16) main_call1.v0 (broadcastInDim S50x2048x1 ![0, 1] bcast_S50x2048_S50x2048x1_0_1),
    StableHlo.TRef.nullary main_call1.v1 (iotaInDim S1x1x8 32 2),
    StableHlo.TRef.unary main_call1.v0 main_call1.v2 (broadcastInDim S50x2048x8 ![0, 1, 2] bcast_S50x2048x1_S50x2048x8_0_1_2),
    StableHlo.TRef.unary main_call1.v1 main_call1.v3 (broadcastInDim S50x2048x8 ![0, 1, 2] bcast_S1x1x8_S50x2048x8_0_1_2),
    StableHlo.TRef.binary main_call1.v2 main_call1.v3 main_call1.v4 (cmpi .eq),
    StableHlo.TRef.unary main_call1.v4 main_call1.v5 (extui 8 · natLt_1_8) ]

/-- After the first SparseCore call, before the second region: the gathered rows reshaped, the weights sliced, transposed, narrowed and the biases reshaped for the region. -/
abbrev ops2 : List (HloOp τ sig (Elt F)) :=
  [ StableHlo.reshape main_v18_0 main_v19 rfl shapeCasts_S102400x128_S50x2048x128,
    StableHlo.unary main_arg6 main_v20 ((extractStridedSlice S64x64 ![0, 64] · slices_S64x128_S64x64_0_64) : (⟨S64x128, .f32⟩ : BufTy).Contents (Elt F) → (⟨S64x64, .f32⟩ : BufTy).Contents (Elt F)),
    StableHlo.unary main_v20 main_v21 ((transpose S64x64 [1, 0] · transposes_S64x64_S64x64_1_0) : (⟨S64x64, .f32⟩ : BufTy).Contents (Elt F) → (⟨S64x64, .f32⟩ : BufTy).Contents (Elt F)),
    StableHlo.reshape main_arg7 main_v22 rfl shapeCasts_S64_S1x64,
    StableHlo.unary main_arg8 main_v23 ((transpose S64x64 [1, 0] · transposes_S64x64_S64x64_1_0) : (⟨S64x64, .f32⟩ : BufTy).Contents (Elt F) → (⟨S64x64, .f32⟩ : BufTy).Contents (Elt F)),
    StableHlo.unary main_v23 main_v24 ((truncf .bf16 · bitsLt_bf16_f32) : (⟨S64x64, .f32⟩ : BufTy).Contents (Elt F) → (⟨S64x64, .bf16⟩ : BufTy).Contents (Elt F)),
    StableHlo.reshape main_arg9 main_v25 rfl shapeCasts_S64_S1x64,
    StableHlo.unary main_v25 main_v26 ((truncf .bf16 · bitsLt_bf16_f32) : (⟨S1x64, .f32⟩ : BufTy).Contents (Elt F) → (⟨S1x64, .bf16⟩ : BufTy).Contents (Elt F)),
    StableHlo.unary main_arg10 main_v27 ((extractStridedSlice S64x64 ![0, 0] · slices_S64x128_S64x64_0_0) : (⟨S64x128, .f32⟩ : BufTy).Contents (Elt F) → (⟨S64x64, .f32⟩ : BufTy).Contents (Elt F)),
    StableHlo.unary main_v27 main_v28 ((transpose S64x64 [1, 0] · transposes_S64x64_S64x64_1_0) : (⟨S64x64, .f32⟩ : BufTy).Contents (Elt F) → (⟨S64x64, .f32⟩ : BufTy).Contents (Elt F)),
    StableHlo.unary main_v28 main_v29 ((truncf .bf16 · bitsLt_bf16_f32) : (⟨S64x64, .f32⟩ : BufTy).Contents (Elt F) → (⟨S64x64, .bf16⟩ : BufTy).Contents (Elt F)),
    StableHlo.unary main_arg12 main_v30 ((transpose S64x64 [1, 0] · transposes_S64x64_S64x64_1_0) : (⟨S64x64, .f32⟩ : BufTy).Contents (Elt F) → (⟨S64x64, .f32⟩ : BufTy).Contents (Elt F)),
    StableHlo.unary main_v30 main_v31 ((truncf .bf16 · bitsLt_bf16_f32) : (⟨S64x64, .f32⟩ : BufTy).Contents (Elt F) → (⟨S64x64, .bf16⟩ : BufTy).Contents (Elt F)),
    StableHlo.reshape main_arg13 main_v32 rfl shapeCasts_S64_S1x64,
    StableHlo.unary main_v32 main_v33 ((truncf .bf16 · bitsLt_bf16_f32) : (⟨S1x64, .f32⟩ : BufTy).Contents (Elt F) → (⟨S1x64, .bf16⟩ : BufTy).Contents (Elt F)),
    StableHlo.unary main_arg14 main_v34 ((truncf .bf16 · bitsLt_bf16_f32) : (⟨S1x64, .f32⟩ : BufTy).Contents (Elt F) → (⟨S1x64, .bf16⟩ : BufTy).Contents (Elt F)),
    StableHlo.reshape main_arg15 main_v35 rfl shapeCasts_S1_S1x1 ]

/-- After the second region, before the second SparseCore call: the same index preparation for rows 2048 to 4095. -/
abbrev ops3 : List (HloOp τ sig (Elt F)) :=
  [ StableHlo.unary main_arg1 main_v37 ((extractStridedSlice S2048x50 ![2048, 0] · slices_S4096x50_S2048x50_2048_0) : (⟨S4096x50, .i32⟩ : BufTy).Contents (Elt F) → (⟨S2048x50, .i32⟩ : BufTy).Contents (Elt F)),
    StableHlo.unary main_v37 main_v38 ((transpose S50x2048 [1, 0] · transposes_S2048x50_S50x2048_1_0) : (⟨S2048x50, .i32⟩ : BufTy).Contents (Elt F) → (⟨S50x2048, .i32⟩ : BufTy).Contents (Elt F)),
    StableHlo.reshape main_v38 main_v39 rfl shapeCasts_S50x2048_S102400,
    StableHlo.unary main_arg0 main_v40 ((extractStridedSlice S2048 ![2048] · slices_S4096_S2048_2048) : (⟨S4096, .i32⟩ : BufTy).Contents (Elt F) → (⟨S2048, .i32⟩ : BufTy).Contents (Elt F)),
    StableHlo.unary main_arg2 main_v41 ((extractStridedSlice S2048x50 ![2048, 0] · slices_S4096x50_S2048x50_2048_0) : (⟨S4096x50, .i32⟩ : BufTy).Contents (Elt F) → (⟨S2048x50, .i32⟩ : BufTy).Contents (Elt F)),
    StableHlo.unary main_v41 main_v42 ((transpose S50x2048 [1, 0] · transposes_S2048x50_S50x2048_1_0) : (⟨S2048x50, .i32⟩ : BufTy).Contents (Elt F) → (⟨S50x2048, .i32⟩ : BufTy).Contents (Elt F)),
    StableHlo.TRef.unary (StableHlo.TRef.of (T := ⟨S50x2048, .i32⟩) main_v42) main_call2.v0 (broadcastInDim S50x2048x1 ![0, 1] bcast_S50x2048_S50x2048x1_0_1),
    StableHlo.TRef.nullary main_call2.v1 (iotaInDim S1x1x8 32 2),
    StableHlo.TRef.unary main_call2.v0 main_call2.v2 (broadcastInDim S50x2048x8 ![0, 1, 2] bcast_S50x2048x1_S50x2048x8_0_1_2),
    StableHlo.TRef.unary main_call2.v1 main_call2.v3 (broadcastInDim S50x2048x8 ![0, 1, 2] bcast_S1x1x8_S50x2048x8_0_1_2),
    StableHlo.TRef.binary main_call2.v2 main_call2.v3 main_call2.v4 (cmpi .eq),
    StableHlo.TRef.unary main_call2.v4 main_call2.v5 (extui 8 · natLt_1_8) ]

/-- After the second SparseCore call, before the third region: the same weight and bias preparation again. -/
abbrev ops4 : List (HloOp τ sig (Elt F)) :=
  [ StableHlo.reshape main_v44_0 main_v45 rfl shapeCasts_S102400x128_S50x2048x128,
    StableHlo.unary main_arg6 main_v46 ((extractStridedSlice S64x64 ![0, 64] · slices_S64x128_S64x64_0_64) : (⟨S64x128, .f32⟩ : BufTy).Contents (Elt F) → (⟨S64x64, .f32⟩ : BufTy).Contents (Elt F)),
    StableHlo.unary main_v46 main_v47 ((transpose S64x64 [1, 0] · transposes_S64x64_S64x64_1_0) : (⟨S64x64, .f32⟩ : BufTy).Contents (Elt F) → (⟨S64x64, .f32⟩ : BufTy).Contents (Elt F)),
    StableHlo.reshape main_arg7 main_v48 rfl shapeCasts_S64_S1x64,
    StableHlo.unary main_arg8 main_v49 ((transpose S64x64 [1, 0] · transposes_S64x64_S64x64_1_0) : (⟨S64x64, .f32⟩ : BufTy).Contents (Elt F) → (⟨S64x64, .f32⟩ : BufTy).Contents (Elt F)),
    StableHlo.unary main_v49 main_v50 ((truncf .bf16 · bitsLt_bf16_f32) : (⟨S64x64, .f32⟩ : BufTy).Contents (Elt F) → (⟨S64x64, .bf16⟩ : BufTy).Contents (Elt F)),
    StableHlo.reshape main_arg9 main_v51 rfl shapeCasts_S64_S1x64,
    StableHlo.unary main_v51 main_v52 ((truncf .bf16 · bitsLt_bf16_f32) : (⟨S1x64, .f32⟩ : BufTy).Contents (Elt F) → (⟨S1x64, .bf16⟩ : BufTy).Contents (Elt F)),
    StableHlo.unary main_arg10 main_v53 ((extractStridedSlice S64x64 ![0, 0] · slices_S64x128_S64x64_0_0) : (⟨S64x128, .f32⟩ : BufTy).Contents (Elt F) → (⟨S64x64, .f32⟩ : BufTy).Contents (Elt F)),
    StableHlo.unary main_v53 main_v54 ((transpose S64x64 [1, 0] · transposes_S64x64_S64x64_1_0) : (⟨S64x64, .f32⟩ : BufTy).Contents (Elt F) → (⟨S64x64, .f32⟩ : BufTy).Contents (Elt F)),
    StableHlo.unary main_v54 main_v55 ((truncf .bf16 · bitsLt_bf16_f32) : (⟨S64x64, .f32⟩ : BufTy).Contents (Elt F) → (⟨S64x64, .bf16⟩ : BufTy).Contents (Elt F)),
    StableHlo.unary main_arg12 main_v56 ((transpose S64x64 [1, 0] · transposes_S64x64_S64x64_1_0) : (⟨S64x64, .f32⟩ : BufTy).Contents (Elt F) → (⟨S64x64, .f32⟩ : BufTy).Contents (Elt F)),
    StableHlo.unary main_v56 main_v57 ((truncf .bf16 · bitsLt_bf16_f32) : (⟨S64x64, .f32⟩ : BufTy).Contents (Elt F) → (⟨S64x64, .bf16⟩ : BufTy).Contents (Elt F)),
    StableHlo.reshape main_arg13 main_v58 rfl shapeCasts_S64_S1x64,
    StableHlo.unary main_v58 main_v59 ((truncf .bf16 · bitsLt_bf16_f32) : (⟨S1x64, .f32⟩ : BufTy).Contents (Elt F) → (⟨S1x64, .bf16⟩ : BufTy).Contents (Elt F)),
    StableHlo.unary main_arg14 main_v60 ((truncf .bf16 · bitsLt_bf16_f32) : (⟨S1x64, .f32⟩ : BufTy).Contents (Elt F) → (⟨S1x64, .bf16⟩ : BufTy).Contents (Elt F)),
    StableHlo.reshape main_arg15 main_v61 rfl shapeCasts_S1_S1x1 ]

/-- After the third region: the two halves' results joined along the rows. -/
abbrev ops5 : List (HloOp τ sig (Elt F)) :=
  [ StableHlo.binary main_v36 main_v62 main_v63 ((fun a b => concatenate S4096x64 0 [⟨S2048x64, a⟩, ⟨S2048x64, b⟩] concatenates_S2048x64_S2048x64_S4096x64_d0) : (⟨S2048x64, .f32⟩ : BufTy).Contents (Elt F) → (⟨S2048x64, .f32⟩ : BufTy).Contents (Elt F) → (⟨S4096x64, .f32⟩ : BufTy).Contents (Elt F)) ]

set_option maxRecDepth 8192 in
set_option maxHeartbeats 4000000 in
/-- @main is the six straight lines of host operations with the three TensorCore regions and the two SparseCore
    calls between them: the two windows of @main and the callees' definitions unfolded at their calls, both sides
    are one chain of steps once sequencing is reassociated. -/
theorem main_eq (d : Dev nD) : main (F := F) d = (do
      seq ops0
      Prog.lift (.customCall (SparseCore.inner (Pipeline.entry 0)) ())
      seq ops1
      sc.run d 0
      seq ops2
      Prog.lift (.customCall (SparseCore.inner (Pipeline.entry 1)) ())
      seq ops3
      sc.run d 1
      seq ops4
      Prog.lift (.customCall (SparseCore.inner (Pipeline.entry 2)) ())
      seq ops5) := by
  simp only [main, main_part0, main_part1, fn_pad.body, fn_one_hot.body, seq, bind_assoc, pure_bind]

/-- An operation that writes the one buffer `y`, a member of the list, writes inside the list. -/
theorem writes_sub_of_mem {W : List (Ref sig .tc)} {op : HloOp τ sig (Elt F)} (y : Ref sig .tc)
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

set_option maxRecDepth 8192 in
theorem ops0_tc : (ops0 : List (HloOp τ sig (Elt F))).Forall fun op => op.bufs ⊆ tcRefs τ sig :=
  ⟨
    unary_bufs_sub .., unary_bufs_sub .., unary_bufs_sub .., unary_bufs_sub .., unary_bufs_sub .., unary_bufs_sub ..,
    unary_bufs_sub .., unary_bufs_sub .., reshape_bufs_sub ..⟩

/-- Every operation of the line touches unscoped TensorCore buffers only. -/
theorem ops0_sub : ∀ op ∈ (ops0 : List (HloOp τ sig (Elt F))), op.bufs ⊆ Pipeline.ucRefs τ sig :=
  fun op h => Pipeline.sub_ucRefs op (List.forall_iff_forall_mem.mp ops0_tc op h)

set_option maxRecDepth 8192 in
theorem ops0_freshAll : (ops0 : List (HloOp τ sig (Elt F))).Forall fun op => op.fresh = ∅ :=
  ⟨
    rfl, rfl, rfl, rfl, rfl, rfl, rfl, rfl, rfl⟩

/-- Every operation of the line determines its results. -/
theorem ops0_fresh : ∀ op ∈ (ops0 : List (HloOp τ sig (Elt F))), op.fresh = ∅ :=
  List.forall_iff_forall_mem.mp ops0_freshAll

/-- The buffers the line writes, in order: one per operation. -/
abbrev ops0_W : List (Ref sig .tc) :=
  [main_v0, main_v1, main_v2, main_v3, main_v4, main_v5, main_v6, main_v7, main_v8]

set_option maxRecDepth 8192 in
theorem ops0_writes : (ops0 : List (HloOp τ sig (Elt F))).Forall fun op =>
    op.writes ⊆ (ops0_W.map (Proc.devRef (τ := τ) .tc)).toFinset :=
  ⟨
    writes_sub_of_mem main_v0 rfl (by decide), writes_sub_of_mem main_v1 rfl (by decide), writes_sub_of_mem main_v2 rfl (by decide),
    writes_sub_of_mem main_v3 rfl (by decide), writes_sub_of_mem main_v4 rfl (by decide), writes_sub_of_mem main_v5 rfl (by decide),
    writes_sub_of_mem main_v6 rfl (by decide), writes_sub_of_mem main_v7 rfl (by decide), writes_sub_of_mem main_v8 rfl (by decide)⟩

theorem ops0_arg0 (V : Valuation τ sig (Elt F)) : after ops0 V (main_arg0 : DevRef τ sig) = V (main_arg0 : DevRef τ sig) :=
  after_of_writes_sub ops0 V ops0_writes (by decide)
theorem ops0_arg1 (V : Valuation τ sig (Elt F)) : after ops0 V (main_arg1 : DevRef τ sig) = V (main_arg1 : DevRef τ sig) :=
  after_of_writes_sub ops0 V ops0_writes (by decide)
theorem ops0_arg2 (V : Valuation τ sig (Elt F)) : after ops0 V (main_arg2 : DevRef τ sig) = V (main_arg2 : DevRef τ sig) :=
  after_of_writes_sub ops0 V ops0_writes (by decide)
theorem ops0_arg3 (V : Valuation τ sig (Elt F)) : after ops0 V (main_arg3 : DevRef τ sig) = V (main_arg3 : DevRef τ sig) :=
  after_of_writes_sub ops0 V ops0_writes (by decide)
theorem ops0_arg4 (V : Valuation τ sig (Elt F)) : after ops0 V (main_arg4 : DevRef τ sig) = V (main_arg4 : DevRef τ sig) :=
  after_of_writes_sub ops0 V ops0_writes (by decide)
theorem ops0_arg5 (V : Valuation τ sig (Elt F)) : after ops0 V (main_arg5 : DevRef τ sig) = V (main_arg5 : DevRef τ sig) :=
  after_of_writes_sub ops0 V ops0_writes (by decide)
theorem ops0_arg6 (V : Valuation τ sig (Elt F)) : after ops0 V (main_arg6 : DevRef τ sig) = V (main_arg6 : DevRef τ sig) :=
  after_of_writes_sub ops0 V ops0_writes (by decide)
theorem ops0_arg7 (V : Valuation τ sig (Elt F)) : after ops0 V (main_arg7 : DevRef τ sig) = V (main_arg7 : DevRef τ sig) :=
  after_of_writes_sub ops0 V ops0_writes (by decide)
theorem ops0_arg8 (V : Valuation τ sig (Elt F)) : after ops0 V (main_arg8 : DevRef τ sig) = V (main_arg8 : DevRef τ sig) :=
  after_of_writes_sub ops0 V ops0_writes (by decide)
theorem ops0_arg9 (V : Valuation τ sig (Elt F)) : after ops0 V (main_arg9 : DevRef τ sig) = V (main_arg9 : DevRef τ sig) :=
  after_of_writes_sub ops0 V ops0_writes (by decide)
theorem ops0_arg10 (V : Valuation τ sig (Elt F)) : after ops0 V (main_arg10 : DevRef τ sig) = V (main_arg10 : DevRef τ sig) :=
  after_of_writes_sub ops0 V ops0_writes (by decide)
theorem ops0_arg11 (V : Valuation τ sig (Elt F)) : after ops0 V (main_arg11 : DevRef τ sig) = V (main_arg11 : DevRef τ sig) :=
  after_of_writes_sub ops0 V ops0_writes (by decide)
theorem ops0_arg12 (V : Valuation τ sig (Elt F)) : after ops0 V (main_arg12 : DevRef τ sig) = V (main_arg12 : DevRef τ sig) :=
  after_of_writes_sub ops0 V ops0_writes (by decide)
theorem ops0_arg13 (V : Valuation τ sig (Elt F)) : after ops0 V (main_arg13 : DevRef τ sig) = V (main_arg13 : DevRef τ sig) :=
  after_of_writes_sub ops0 V ops0_writes (by decide)
theorem ops0_arg14 (V : Valuation τ sig (Elt F)) : after ops0 V (main_arg14 : DevRef τ sig) = V (main_arg14 : DevRef τ sig) :=
  after_of_writes_sub ops0 V ops0_writes (by decide)
theorem ops0_arg15 (V : Valuation τ sig (Elt F)) : after ops0 V (main_arg15 : DevRef τ sig) = V (main_arg15 : DevRef τ sig) :=
  after_of_writes_sub ops0 V ops0_writes (by decide)

set_option maxRecDepth 8192 in
theorem ops1_tc : (ops1 : List (HloOp τ sig (Elt F))).Forall fun op => op.bufs ⊆ tcRefs τ sig :=
  ⟨
    nullary_bufs_sub .., unary_bufs_sub .., binary_bufs_sub .., unary_bufs_sub .., unary_bufs_sub .., reshape_bufs_sub ..,
    unary_bufs_sub .., unary_bufs_sub .., unary_bufs_sub .., unary_bufs_sub .., nullary_bufs_sub .., unary_bufs_sub ..,
    unary_bufs_sub .., binary_bufs_sub .., unary_bufs_sub ..⟩

/-- Every operation of the line touches unscoped TensorCore buffers only. -/
theorem ops1_sub : ∀ op ∈ (ops1 : List (HloOp τ sig (Elt F))), op.bufs ⊆ Pipeline.ucRefs τ sig :=
  fun op h => Pipeline.sub_ucRefs op (List.forall_iff_forall_mem.mp ops1_tc op h)

set_option maxRecDepth 8192 in
theorem ops1_freshAll : (ops1 : List (HloOp τ sig (Elt F))).Forall fun op => op.fresh = ∅ :=
  ⟨
    rfl, rfl, rfl, rfl, rfl, rfl, rfl, rfl, rfl, rfl, rfl, rfl, rfl, rfl, rfl⟩

/-- Every operation of the line determines its results. -/
theorem ops1_fresh : ∀ op ∈ (ops1 : List (HloOp τ sig (Elt F))), op.fresh = ∅ :=
  List.forall_iff_forall_mem.mp ops1_freshAll

/-- The buffers the line writes, in order: one per operation. -/
abbrev ops1_W : List (Ref sig .tc) :=
  [main_c, main_call0_v0, main_v10, main_v11, main_v12, main_v13, main_v14, main_v15, main_v16, main_call1_v0, main_call1_v1, main_call1_v2, main_call1_v3, main_call1_v4, main_v17]

set_option maxRecDepth 8192 in
theorem ops1_writes : (ops1 : List (HloOp τ sig (Elt F))).Forall fun op =>
    op.writes ⊆ (ops1_W.map (Proc.devRef (τ := τ) .tc)).toFinset :=
  ⟨
    writes_sub_of_mem main_c rfl (by decide), writes_sub_of_mem main_call0_v0 rfl (by decide), writes_sub_of_mem main_v10 rfl (by decide),
    writes_sub_of_mem main_v11 rfl (by decide), writes_sub_of_mem main_v12 rfl (by decide), writes_sub_of_mem main_v13 rfl (by decide),
    writes_sub_of_mem main_v14 rfl (by decide), writes_sub_of_mem main_v15 rfl (by decide), writes_sub_of_mem main_v16 rfl (by decide),
    writes_sub_of_mem main_call1_v0 rfl (by decide), writes_sub_of_mem main_call1_v1 rfl (by decide), writes_sub_of_mem main_call1_v2 rfl (by decide),
    writes_sub_of_mem main_call1_v3 rfl (by decide), writes_sub_of_mem main_call1_v4 rfl (by decide), writes_sub_of_mem main_v17 rfl (by decide)⟩

theorem ops1_arg0 (V : Valuation τ sig (Elt F)) : after ops1 V (main_arg0 : DevRef τ sig) = V (main_arg0 : DevRef τ sig) :=
  after_of_writes_sub ops1 V ops1_writes (by decide)
theorem ops1_arg1 (V : Valuation τ sig (Elt F)) : after ops1 V (main_arg1 : DevRef τ sig) = V (main_arg1 : DevRef τ sig) :=
  after_of_writes_sub ops1 V ops1_writes (by decide)
theorem ops1_arg2 (V : Valuation τ sig (Elt F)) : after ops1 V (main_arg2 : DevRef τ sig) = V (main_arg2 : DevRef τ sig) :=
  after_of_writes_sub ops1 V ops1_writes (by decide)
theorem ops1_arg3 (V : Valuation τ sig (Elt F)) : after ops1 V (main_arg3 : DevRef τ sig) = V (main_arg3 : DevRef τ sig) :=
  after_of_writes_sub ops1 V ops1_writes (by decide)
theorem ops1_arg4 (V : Valuation τ sig (Elt F)) : after ops1 V (main_arg4 : DevRef τ sig) = V (main_arg4 : DevRef τ sig) :=
  after_of_writes_sub ops1 V ops1_writes (by decide)
theorem ops1_arg5 (V : Valuation τ sig (Elt F)) : after ops1 V (main_arg5 : DevRef τ sig) = V (main_arg5 : DevRef τ sig) :=
  after_of_writes_sub ops1 V ops1_writes (by decide)
theorem ops1_arg6 (V : Valuation τ sig (Elt F)) : after ops1 V (main_arg6 : DevRef τ sig) = V (main_arg6 : DevRef τ sig) :=
  after_of_writes_sub ops1 V ops1_writes (by decide)
theorem ops1_arg7 (V : Valuation τ sig (Elt F)) : after ops1 V (main_arg7 : DevRef τ sig) = V (main_arg7 : DevRef τ sig) :=
  after_of_writes_sub ops1 V ops1_writes (by decide)
theorem ops1_arg8 (V : Valuation τ sig (Elt F)) : after ops1 V (main_arg8 : DevRef τ sig) = V (main_arg8 : DevRef τ sig) :=
  after_of_writes_sub ops1 V ops1_writes (by decide)
theorem ops1_arg9 (V : Valuation τ sig (Elt F)) : after ops1 V (main_arg9 : DevRef τ sig) = V (main_arg9 : DevRef τ sig) :=
  after_of_writes_sub ops1 V ops1_writes (by decide)
theorem ops1_arg10 (V : Valuation τ sig (Elt F)) : after ops1 V (main_arg10 : DevRef τ sig) = V (main_arg10 : DevRef τ sig) :=
  after_of_writes_sub ops1 V ops1_writes (by decide)
theorem ops1_arg11 (V : Valuation τ sig (Elt F)) : after ops1 V (main_arg11 : DevRef τ sig) = V (main_arg11 : DevRef τ sig) :=
  after_of_writes_sub ops1 V ops1_writes (by decide)
theorem ops1_arg12 (V : Valuation τ sig (Elt F)) : after ops1 V (main_arg12 : DevRef τ sig) = V (main_arg12 : DevRef τ sig) :=
  after_of_writes_sub ops1 V ops1_writes (by decide)
theorem ops1_arg13 (V : Valuation τ sig (Elt F)) : after ops1 V (main_arg13 : DevRef τ sig) = V (main_arg13 : DevRef τ sig) :=
  after_of_writes_sub ops1 V ops1_writes (by decide)
theorem ops1_arg14 (V : Valuation τ sig (Elt F)) : after ops1 V (main_arg14 : DevRef τ sig) = V (main_arg14 : DevRef τ sig) :=
  after_of_writes_sub ops1 V ops1_writes (by decide)
theorem ops1_arg15 (V : Valuation τ sig (Elt F)) : after ops1 V (main_arg15 : DevRef τ sig) = V (main_arg15 : DevRef τ sig) :=
  after_of_writes_sub ops1 V ops1_writes (by decide)

set_option maxRecDepth 8192 in
theorem ops2_tc : (ops2 : List (HloOp τ sig (Elt F))).Forall fun op => op.bufs ⊆ tcRefs τ sig :=
  ⟨
    reshape_bufs_sub .., unary_bufs_sub .., unary_bufs_sub .., reshape_bufs_sub .., unary_bufs_sub .., unary_bufs_sub ..,
    reshape_bufs_sub .., unary_bufs_sub .., unary_bufs_sub .., unary_bufs_sub .., unary_bufs_sub .., unary_bufs_sub ..,
    unary_bufs_sub .., reshape_bufs_sub .., unary_bufs_sub .., unary_bufs_sub .., reshape_bufs_sub ..⟩

/-- Every operation of the line touches unscoped TensorCore buffers only. -/
theorem ops2_sub : ∀ op ∈ (ops2 : List (HloOp τ sig (Elt F))), op.bufs ⊆ Pipeline.ucRefs τ sig :=
  fun op h => Pipeline.sub_ucRefs op (List.forall_iff_forall_mem.mp ops2_tc op h)

set_option maxRecDepth 8192 in
theorem ops2_freshAll : (ops2 : List (HloOp τ sig (Elt F))).Forall fun op => op.fresh = ∅ :=
  ⟨
    rfl, rfl, rfl, rfl, rfl, rfl, rfl, rfl, rfl, rfl, rfl, rfl, rfl, rfl, rfl, rfl, rfl⟩

/-- Every operation of the line determines its results. -/
theorem ops2_fresh : ∀ op ∈ (ops2 : List (HloOp τ sig (Elt F))), op.fresh = ∅ :=
  List.forall_iff_forall_mem.mp ops2_freshAll

/-- The buffers the line writes, in order: one per operation. -/
abbrev ops2_W : List (Ref sig .tc) :=
  [main_v19, main_v20, main_v21, main_v22, main_v23, main_v24, main_v25, main_v26, main_v27, main_v28, main_v29, main_v30, main_v31, main_v32, main_v33, main_v34, main_v35]

set_option maxRecDepth 8192 in
theorem ops2_writes : (ops2 : List (HloOp τ sig (Elt F))).Forall fun op =>
    op.writes ⊆ (ops2_W.map (Proc.devRef (τ := τ) .tc)).toFinset :=
  ⟨
    writes_sub_of_mem main_v19 rfl (by decide), writes_sub_of_mem main_v20 rfl (by decide), writes_sub_of_mem main_v21 rfl (by decide),
    writes_sub_of_mem main_v22 rfl (by decide), writes_sub_of_mem main_v23 rfl (by decide), writes_sub_of_mem main_v24 rfl (by decide),
    writes_sub_of_mem main_v25 rfl (by decide), writes_sub_of_mem main_v26 rfl (by decide), writes_sub_of_mem main_v27 rfl (by decide),
    writes_sub_of_mem main_v28 rfl (by decide), writes_sub_of_mem main_v29 rfl (by decide), writes_sub_of_mem main_v30 rfl (by decide),
    writes_sub_of_mem main_v31 rfl (by decide), writes_sub_of_mem main_v32 rfl (by decide), writes_sub_of_mem main_v33 rfl (by decide),
    writes_sub_of_mem main_v34 rfl (by decide), writes_sub_of_mem main_v35 rfl (by decide)⟩

theorem ops2_arg0 (V : Valuation τ sig (Elt F)) : after ops2 V (main_arg0 : DevRef τ sig) = V (main_arg0 : DevRef τ sig) :=
  after_of_writes_sub ops2 V ops2_writes (by decide)
theorem ops2_arg1 (V : Valuation τ sig (Elt F)) : after ops2 V (main_arg1 : DevRef τ sig) = V (main_arg1 : DevRef τ sig) :=
  after_of_writes_sub ops2 V ops2_writes (by decide)
theorem ops2_arg2 (V : Valuation τ sig (Elt F)) : after ops2 V (main_arg2 : DevRef τ sig) = V (main_arg2 : DevRef τ sig) :=
  after_of_writes_sub ops2 V ops2_writes (by decide)
theorem ops2_arg3 (V : Valuation τ sig (Elt F)) : after ops2 V (main_arg3 : DevRef τ sig) = V (main_arg3 : DevRef τ sig) :=
  after_of_writes_sub ops2 V ops2_writes (by decide)
theorem ops2_arg4 (V : Valuation τ sig (Elt F)) : after ops2 V (main_arg4 : DevRef τ sig) = V (main_arg4 : DevRef τ sig) :=
  after_of_writes_sub ops2 V ops2_writes (by decide)
theorem ops2_arg5 (V : Valuation τ sig (Elt F)) : after ops2 V (main_arg5 : DevRef τ sig) = V (main_arg5 : DevRef τ sig) :=
  after_of_writes_sub ops2 V ops2_writes (by decide)
theorem ops2_arg6 (V : Valuation τ sig (Elt F)) : after ops2 V (main_arg6 : DevRef τ sig) = V (main_arg6 : DevRef τ sig) :=
  after_of_writes_sub ops2 V ops2_writes (by decide)
theorem ops2_arg7 (V : Valuation τ sig (Elt F)) : after ops2 V (main_arg7 : DevRef τ sig) = V (main_arg7 : DevRef τ sig) :=
  after_of_writes_sub ops2 V ops2_writes (by decide)
theorem ops2_arg8 (V : Valuation τ sig (Elt F)) : after ops2 V (main_arg8 : DevRef τ sig) = V (main_arg8 : DevRef τ sig) :=
  after_of_writes_sub ops2 V ops2_writes (by decide)
theorem ops2_arg9 (V : Valuation τ sig (Elt F)) : after ops2 V (main_arg9 : DevRef τ sig) = V (main_arg9 : DevRef τ sig) :=
  after_of_writes_sub ops2 V ops2_writes (by decide)
theorem ops2_arg10 (V : Valuation τ sig (Elt F)) : after ops2 V (main_arg10 : DevRef τ sig) = V (main_arg10 : DevRef τ sig) :=
  after_of_writes_sub ops2 V ops2_writes (by decide)
theorem ops2_arg11 (V : Valuation τ sig (Elt F)) : after ops2 V (main_arg11 : DevRef τ sig) = V (main_arg11 : DevRef τ sig) :=
  after_of_writes_sub ops2 V ops2_writes (by decide)
theorem ops2_arg12 (V : Valuation τ sig (Elt F)) : after ops2 V (main_arg12 : DevRef τ sig) = V (main_arg12 : DevRef τ sig) :=
  after_of_writes_sub ops2 V ops2_writes (by decide)
theorem ops2_arg13 (V : Valuation τ sig (Elt F)) : after ops2 V (main_arg13 : DevRef τ sig) = V (main_arg13 : DevRef τ sig) :=
  after_of_writes_sub ops2 V ops2_writes (by decide)
theorem ops2_arg14 (V : Valuation τ sig (Elt F)) : after ops2 V (main_arg14 : DevRef τ sig) = V (main_arg14 : DevRef τ sig) :=
  after_of_writes_sub ops2 V ops2_writes (by decide)
theorem ops2_arg15 (V : Valuation τ sig (Elt F)) : after ops2 V (main_arg15 : DevRef τ sig) = V (main_arg15 : DevRef τ sig) :=
  after_of_writes_sub ops2 V ops2_writes (by decide)

set_option maxRecDepth 8192 in
theorem ops3_tc : (ops3 : List (HloOp τ sig (Elt F))).Forall fun op => op.bufs ⊆ tcRefs τ sig :=
  ⟨
    unary_bufs_sub .., unary_bufs_sub .., reshape_bufs_sub .., unary_bufs_sub .., unary_bufs_sub .., unary_bufs_sub ..,
    unary_bufs_sub .., nullary_bufs_sub .., unary_bufs_sub .., unary_bufs_sub .., binary_bufs_sub .., unary_bufs_sub ..⟩

/-- Every operation of the line touches unscoped TensorCore buffers only. -/
theorem ops3_sub : ∀ op ∈ (ops3 : List (HloOp τ sig (Elt F))), op.bufs ⊆ Pipeline.ucRefs τ sig :=
  fun op h => Pipeline.sub_ucRefs op (List.forall_iff_forall_mem.mp ops3_tc op h)

set_option maxRecDepth 8192 in
theorem ops3_freshAll : (ops3 : List (HloOp τ sig (Elt F))).Forall fun op => op.fresh = ∅ :=
  ⟨
    rfl, rfl, rfl, rfl, rfl, rfl, rfl, rfl, rfl, rfl, rfl, rfl⟩

/-- Every operation of the line determines its results. -/
theorem ops3_fresh : ∀ op ∈ (ops3 : List (HloOp τ sig (Elt F))), op.fresh = ∅ :=
  List.forall_iff_forall_mem.mp ops3_freshAll

/-- The buffers the line writes, in order: one per operation. -/
abbrev ops3_W : List (Ref sig .tc) :=
  [main_v37, main_v38, main_v39, main_v40, main_v41, main_v42, main_call2_v0, main_call2_v1, main_call2_v2, main_call2_v3, main_call2_v4, main_v43]

set_option maxRecDepth 8192 in
theorem ops3_writes : (ops3 : List (HloOp τ sig (Elt F))).Forall fun op =>
    op.writes ⊆ (ops3_W.map (Proc.devRef (τ := τ) .tc)).toFinset :=
  ⟨
    writes_sub_of_mem main_v37 rfl (by decide), writes_sub_of_mem main_v38 rfl (by decide), writes_sub_of_mem main_v39 rfl (by decide),
    writes_sub_of_mem main_v40 rfl (by decide), writes_sub_of_mem main_v41 rfl (by decide), writes_sub_of_mem main_v42 rfl (by decide),
    writes_sub_of_mem main_call2_v0 rfl (by decide), writes_sub_of_mem main_call2_v1 rfl (by decide), writes_sub_of_mem main_call2_v2 rfl (by decide),
    writes_sub_of_mem main_call2_v3 rfl (by decide), writes_sub_of_mem main_call2_v4 rfl (by decide), writes_sub_of_mem main_v43 rfl (by decide)⟩

theorem ops3_arg0 (V : Valuation τ sig (Elt F)) : after ops3 V (main_arg0 : DevRef τ sig) = V (main_arg0 : DevRef τ sig) :=
  after_of_writes_sub ops3 V ops3_writes (by decide)
theorem ops3_arg1 (V : Valuation τ sig (Elt F)) : after ops3 V (main_arg1 : DevRef τ sig) = V (main_arg1 : DevRef τ sig) :=
  after_of_writes_sub ops3 V ops3_writes (by decide)
theorem ops3_arg2 (V : Valuation τ sig (Elt F)) : after ops3 V (main_arg2 : DevRef τ sig) = V (main_arg2 : DevRef τ sig) :=
  after_of_writes_sub ops3 V ops3_writes (by decide)
theorem ops3_arg3 (V : Valuation τ sig (Elt F)) : after ops3 V (main_arg3 : DevRef τ sig) = V (main_arg3 : DevRef τ sig) :=
  after_of_writes_sub ops3 V ops3_writes (by decide)
theorem ops3_arg4 (V : Valuation τ sig (Elt F)) : after ops3 V (main_arg4 : DevRef τ sig) = V (main_arg4 : DevRef τ sig) :=
  after_of_writes_sub ops3 V ops3_writes (by decide)
theorem ops3_arg5 (V : Valuation τ sig (Elt F)) : after ops3 V (main_arg5 : DevRef τ sig) = V (main_arg5 : DevRef τ sig) :=
  after_of_writes_sub ops3 V ops3_writes (by decide)
theorem ops3_arg6 (V : Valuation τ sig (Elt F)) : after ops3 V (main_arg6 : DevRef τ sig) = V (main_arg6 : DevRef τ sig) :=
  after_of_writes_sub ops3 V ops3_writes (by decide)
theorem ops3_arg7 (V : Valuation τ sig (Elt F)) : after ops3 V (main_arg7 : DevRef τ sig) = V (main_arg7 : DevRef τ sig) :=
  after_of_writes_sub ops3 V ops3_writes (by decide)
theorem ops3_arg8 (V : Valuation τ sig (Elt F)) : after ops3 V (main_arg8 : DevRef τ sig) = V (main_arg8 : DevRef τ sig) :=
  after_of_writes_sub ops3 V ops3_writes (by decide)
theorem ops3_arg9 (V : Valuation τ sig (Elt F)) : after ops3 V (main_arg9 : DevRef τ sig) = V (main_arg9 : DevRef τ sig) :=
  after_of_writes_sub ops3 V ops3_writes (by decide)
theorem ops3_arg10 (V : Valuation τ sig (Elt F)) : after ops3 V (main_arg10 : DevRef τ sig) = V (main_arg10 : DevRef τ sig) :=
  after_of_writes_sub ops3 V ops3_writes (by decide)
theorem ops3_arg11 (V : Valuation τ sig (Elt F)) : after ops3 V (main_arg11 : DevRef τ sig) = V (main_arg11 : DevRef τ sig) :=
  after_of_writes_sub ops3 V ops3_writes (by decide)
theorem ops3_arg12 (V : Valuation τ sig (Elt F)) : after ops3 V (main_arg12 : DevRef τ sig) = V (main_arg12 : DevRef τ sig) :=
  after_of_writes_sub ops3 V ops3_writes (by decide)
theorem ops3_arg13 (V : Valuation τ sig (Elt F)) : after ops3 V (main_arg13 : DevRef τ sig) = V (main_arg13 : DevRef τ sig) :=
  after_of_writes_sub ops3 V ops3_writes (by decide)
theorem ops3_arg14 (V : Valuation τ sig (Elt F)) : after ops3 V (main_arg14 : DevRef τ sig) = V (main_arg14 : DevRef τ sig) :=
  after_of_writes_sub ops3 V ops3_writes (by decide)
theorem ops3_arg15 (V : Valuation τ sig (Elt F)) : after ops3 V (main_arg15 : DevRef τ sig) = V (main_arg15 : DevRef τ sig) :=
  after_of_writes_sub ops3 V ops3_writes (by decide)

set_option maxRecDepth 8192 in
theorem ops4_tc : (ops4 : List (HloOp τ sig (Elt F))).Forall fun op => op.bufs ⊆ tcRefs τ sig :=
  ⟨
    reshape_bufs_sub .., unary_bufs_sub .., unary_bufs_sub .., reshape_bufs_sub .., unary_bufs_sub .., unary_bufs_sub ..,
    reshape_bufs_sub .., unary_bufs_sub .., unary_bufs_sub .., unary_bufs_sub .., unary_bufs_sub .., unary_bufs_sub ..,
    unary_bufs_sub .., reshape_bufs_sub .., unary_bufs_sub .., unary_bufs_sub .., reshape_bufs_sub ..⟩

/-- Every operation of the line touches unscoped TensorCore buffers only. -/
theorem ops4_sub : ∀ op ∈ (ops4 : List (HloOp τ sig (Elt F))), op.bufs ⊆ Pipeline.ucRefs τ sig :=
  fun op h => Pipeline.sub_ucRefs op (List.forall_iff_forall_mem.mp ops4_tc op h)

set_option maxRecDepth 8192 in
theorem ops4_freshAll : (ops4 : List (HloOp τ sig (Elt F))).Forall fun op => op.fresh = ∅ :=
  ⟨
    rfl, rfl, rfl, rfl, rfl, rfl, rfl, rfl, rfl, rfl, rfl, rfl, rfl, rfl, rfl, rfl, rfl⟩

/-- Every operation of the line determines its results. -/
theorem ops4_fresh : ∀ op ∈ (ops4 : List (HloOp τ sig (Elt F))), op.fresh = ∅ :=
  List.forall_iff_forall_mem.mp ops4_freshAll

/-- The buffers the line writes, in order: one per operation. -/
abbrev ops4_W : List (Ref sig .tc) :=
  [main_v45, main_v46, main_v47, main_v48, main_v49, main_v50, main_v51, main_v52, main_v53, main_v54, main_v55, main_v56, main_v57, main_v58, main_v59, main_v60, main_v61]

set_option maxRecDepth 8192 in
theorem ops4_writes : (ops4 : List (HloOp τ sig (Elt F))).Forall fun op =>
    op.writes ⊆ (ops4_W.map (Proc.devRef (τ := τ) .tc)).toFinset :=
  ⟨
    writes_sub_of_mem main_v45 rfl (by decide), writes_sub_of_mem main_v46 rfl (by decide), writes_sub_of_mem main_v47 rfl (by decide),
    writes_sub_of_mem main_v48 rfl (by decide), writes_sub_of_mem main_v49 rfl (by decide), writes_sub_of_mem main_v50 rfl (by decide),
    writes_sub_of_mem main_v51 rfl (by decide), writes_sub_of_mem main_v52 rfl (by decide), writes_sub_of_mem main_v53 rfl (by decide),
    writes_sub_of_mem main_v54 rfl (by decide), writes_sub_of_mem main_v55 rfl (by decide), writes_sub_of_mem main_v56 rfl (by decide),
    writes_sub_of_mem main_v57 rfl (by decide), writes_sub_of_mem main_v58 rfl (by decide), writes_sub_of_mem main_v59 rfl (by decide),
    writes_sub_of_mem main_v60 rfl (by decide), writes_sub_of_mem main_v61 rfl (by decide)⟩

theorem ops4_arg0 (V : Valuation τ sig (Elt F)) : after ops4 V (main_arg0 : DevRef τ sig) = V (main_arg0 : DevRef τ sig) :=
  after_of_writes_sub ops4 V ops4_writes (by decide)
theorem ops4_arg1 (V : Valuation τ sig (Elt F)) : after ops4 V (main_arg1 : DevRef τ sig) = V (main_arg1 : DevRef τ sig) :=
  after_of_writes_sub ops4 V ops4_writes (by decide)
theorem ops4_arg2 (V : Valuation τ sig (Elt F)) : after ops4 V (main_arg2 : DevRef τ sig) = V (main_arg2 : DevRef τ sig) :=
  after_of_writes_sub ops4 V ops4_writes (by decide)
theorem ops4_arg3 (V : Valuation τ sig (Elt F)) : after ops4 V (main_arg3 : DevRef τ sig) = V (main_arg3 : DevRef τ sig) :=
  after_of_writes_sub ops4 V ops4_writes (by decide)
theorem ops4_arg4 (V : Valuation τ sig (Elt F)) : after ops4 V (main_arg4 : DevRef τ sig) = V (main_arg4 : DevRef τ sig) :=
  after_of_writes_sub ops4 V ops4_writes (by decide)
theorem ops4_arg5 (V : Valuation τ sig (Elt F)) : after ops4 V (main_arg5 : DevRef τ sig) = V (main_arg5 : DevRef τ sig) :=
  after_of_writes_sub ops4 V ops4_writes (by decide)
theorem ops4_arg6 (V : Valuation τ sig (Elt F)) : after ops4 V (main_arg6 : DevRef τ sig) = V (main_arg6 : DevRef τ sig) :=
  after_of_writes_sub ops4 V ops4_writes (by decide)
theorem ops4_arg7 (V : Valuation τ sig (Elt F)) : after ops4 V (main_arg7 : DevRef τ sig) = V (main_arg7 : DevRef τ sig) :=
  after_of_writes_sub ops4 V ops4_writes (by decide)
theorem ops4_arg8 (V : Valuation τ sig (Elt F)) : after ops4 V (main_arg8 : DevRef τ sig) = V (main_arg8 : DevRef τ sig) :=
  after_of_writes_sub ops4 V ops4_writes (by decide)
theorem ops4_arg9 (V : Valuation τ sig (Elt F)) : after ops4 V (main_arg9 : DevRef τ sig) = V (main_arg9 : DevRef τ sig) :=
  after_of_writes_sub ops4 V ops4_writes (by decide)
theorem ops4_arg10 (V : Valuation τ sig (Elt F)) : after ops4 V (main_arg10 : DevRef τ sig) = V (main_arg10 : DevRef τ sig) :=
  after_of_writes_sub ops4 V ops4_writes (by decide)
theorem ops4_arg11 (V : Valuation τ sig (Elt F)) : after ops4 V (main_arg11 : DevRef τ sig) = V (main_arg11 : DevRef τ sig) :=
  after_of_writes_sub ops4 V ops4_writes (by decide)
theorem ops4_arg12 (V : Valuation τ sig (Elt F)) : after ops4 V (main_arg12 : DevRef τ sig) = V (main_arg12 : DevRef τ sig) :=
  after_of_writes_sub ops4 V ops4_writes (by decide)
theorem ops4_arg13 (V : Valuation τ sig (Elt F)) : after ops4 V (main_arg13 : DevRef τ sig) = V (main_arg13 : DevRef τ sig) :=
  after_of_writes_sub ops4 V ops4_writes (by decide)
theorem ops4_arg14 (V : Valuation τ sig (Elt F)) : after ops4 V (main_arg14 : DevRef τ sig) = V (main_arg14 : DevRef τ sig) :=
  after_of_writes_sub ops4 V ops4_writes (by decide)
theorem ops4_arg15 (V : Valuation τ sig (Elt F)) : after ops4 V (main_arg15 : DevRef τ sig) = V (main_arg15 : DevRef τ sig) :=
  after_of_writes_sub ops4 V ops4_writes (by decide)

set_option maxRecDepth 8192 in
theorem ops5_tc : (ops5 : List (HloOp τ sig (Elt F))).Forall fun op => op.bufs ⊆ tcRefs τ sig :=
  binary_bufs_sub ..

/-- Every operation of the line touches unscoped TensorCore buffers only. -/
theorem ops5_sub : ∀ op ∈ (ops5 : List (HloOp τ sig (Elt F))), op.bufs ⊆ Pipeline.ucRefs τ sig :=
  fun op h => Pipeline.sub_ucRefs op (List.forall_iff_forall_mem.mp ops5_tc op h)

set_option maxRecDepth 8192 in
theorem ops5_freshAll : (ops5 : List (HloOp τ sig (Elt F))).Forall fun op => op.fresh = ∅ :=
  rfl

/-- Every operation of the line determines its results. -/
theorem ops5_fresh : ∀ op ∈ (ops5 : List (HloOp τ sig (Elt F))), op.fresh = ∅ :=
  List.forall_iff_forall_mem.mp ops5_freshAll

/-- The buffers the line writes, in order: one per operation. -/
abbrev ops5_W : List (Ref sig .tc) :=
  [main_v63]

set_option maxRecDepth 8192 in
theorem ops5_writes : (ops5 : List (HloOp τ sig (Elt F))).Forall fun op =>
    op.writes ⊆ (ops5_W.map (Proc.devRef (τ := τ) .tc)).toFinset :=
  writes_sub_of_mem main_v63 rfl (by decide)

theorem ops5_arg0 (V : Valuation τ sig (Elt F)) : after ops5 V (main_arg0 : DevRef τ sig) = V (main_arg0 : DevRef τ sig) :=
  after_of_writes_sub ops5 V ops5_writes (by decide)
theorem ops5_arg1 (V : Valuation τ sig (Elt F)) : after ops5 V (main_arg1 : DevRef τ sig) = V (main_arg1 : DevRef τ sig) :=
  after_of_writes_sub ops5 V ops5_writes (by decide)
theorem ops5_arg2 (V : Valuation τ sig (Elt F)) : after ops5 V (main_arg2 : DevRef τ sig) = V (main_arg2 : DevRef τ sig) :=
  after_of_writes_sub ops5 V ops5_writes (by decide)
theorem ops5_arg3 (V : Valuation τ sig (Elt F)) : after ops5 V (main_arg3 : DevRef τ sig) = V (main_arg3 : DevRef τ sig) :=
  after_of_writes_sub ops5 V ops5_writes (by decide)
theorem ops5_arg4 (V : Valuation τ sig (Elt F)) : after ops5 V (main_arg4 : DevRef τ sig) = V (main_arg4 : DevRef τ sig) :=
  after_of_writes_sub ops5 V ops5_writes (by decide)
theorem ops5_arg5 (V : Valuation τ sig (Elt F)) : after ops5 V (main_arg5 : DevRef τ sig) = V (main_arg5 : DevRef τ sig) :=
  after_of_writes_sub ops5 V ops5_writes (by decide)
theorem ops5_arg6 (V : Valuation τ sig (Elt F)) : after ops5 V (main_arg6 : DevRef τ sig) = V (main_arg6 : DevRef τ sig) :=
  after_of_writes_sub ops5 V ops5_writes (by decide)
theorem ops5_arg7 (V : Valuation τ sig (Elt F)) : after ops5 V (main_arg7 : DevRef τ sig) = V (main_arg7 : DevRef τ sig) :=
  after_of_writes_sub ops5 V ops5_writes (by decide)
theorem ops5_arg8 (V : Valuation τ sig (Elt F)) : after ops5 V (main_arg8 : DevRef τ sig) = V (main_arg8 : DevRef τ sig) :=
  after_of_writes_sub ops5 V ops5_writes (by decide)
theorem ops5_arg9 (V : Valuation τ sig (Elt F)) : after ops5 V (main_arg9 : DevRef τ sig) = V (main_arg9 : DevRef τ sig) :=
  after_of_writes_sub ops5 V ops5_writes (by decide)
theorem ops5_arg10 (V : Valuation τ sig (Elt F)) : after ops5 V (main_arg10 : DevRef τ sig) = V (main_arg10 : DevRef τ sig) :=
  after_of_writes_sub ops5 V ops5_writes (by decide)
theorem ops5_arg11 (V : Valuation τ sig (Elt F)) : after ops5 V (main_arg11 : DevRef τ sig) = V (main_arg11 : DevRef τ sig) :=
  after_of_writes_sub ops5 V ops5_writes (by decide)
theorem ops5_arg12 (V : Valuation τ sig (Elt F)) : after ops5 V (main_arg12 : DevRef τ sig) = V (main_arg12 : DevRef τ sig) :=
  after_of_writes_sub ops5 V ops5_writes (by decide)
theorem ops5_arg13 (V : Valuation τ sig (Elt F)) : after ops5 V (main_arg13 : DevRef τ sig) = V (main_arg13 : DevRef τ sig) :=
  after_of_writes_sub ops5 V ops5_writes (by decide)
theorem ops5_arg14 (V : Valuation τ sig (Elt F)) : after ops5 V (main_arg14 : DevRef τ sig) = V (main_arg14 : DevRef τ sig) :=
  after_of_writes_sub ops5 V ops5_writes (by decide)
theorem ops5_arg15 (V : Valuation τ sig (Elt F)) : after ops5 V (main_arg15 : DevRef τ sig) = V (main_arg15 : DevRef τ sig) :=
  after_of_writes_sub ops5 V ops5_writes (by decide)

/-- The first SparseCore call's index list: rows 0 to 2047 of the first index array, transposed and flattened; each entry is an entry of that array. -/
theorem v13_eq (V : Valuation τ sig (Elt F)) :
    (after ops1 V (main_v13 : DevRef τ sig) : (⟨S102400, .i32⟩ : BufTy).Contents (Elt F))
      = shapeCast S102400 (transpose S50x2048 [1, 0] (extractStridedSlice S2048x50 ![0, 0] (V (main_arg1 : DevRef τ sig) : (⟨S4096x50, .i32⟩ : BufTy).Contents (Elt F)) slices_S4096x50_S2048x50_0_0) transposes_S2048x50_S50x2048_1_0) shapeCasts_S50x2048_S102400 := by
  after_results_simp
  rfl

/-- Hence a bound on every entry of the argument array is a bound on every entry of it. -/
theorem v13_lt (V : Valuation τ sig (Elt F))
    (h : ∀ j, BitVec.toNat ((V (main_arg1 : DevRef τ sig) : (⟨S4096x50, .i32⟩ : BufTy).Contents (Elt F)) j) < 100000) :
    ∀ j, BitVec.toNat ((after ops1 V (main_v13 : DevRef τ sig) : (⟨S102400, .i32⟩ : BufTy).Contents (Elt F)) j) < 100000 := by
  intro j
  rw [v13_eq]
  exact h _

/-- The first SparseCore call's per-row index list: entries 0 to 2047 of the per-row index array. -/
theorem v14_eq (V : Valuation τ sig (Elt F)) :
    (after ops1 V (main_v14 : DevRef τ sig) : (⟨S2048, .i32⟩ : BufTy).Contents (Elt F))
      = extractStridedSlice S2048 ![0] (V (main_arg0 : DevRef τ sig) : (⟨S4096, .i32⟩ : BufTy).Contents (Elt F)) slices_S4096_S2048_0 := by
  after_results_simp

/-- Hence a bound on every entry of the argument array is a bound on every entry of it. -/
theorem v14_lt (V : Valuation τ sig (Elt F))
    (h : ∀ j, BitVec.toNat ((V (main_arg0 : DevRef τ sig) : (⟨S4096, .i32⟩ : BufTy).Contents (Elt F)) j) < 100000) :
    ∀ j, BitVec.toNat ((after ops1 V (main_v14 : DevRef τ sig) : (⟨S2048, .i32⟩ : BufTy).Contents (Elt F)) j) < 100000 := by
  intro j
  rw [v14_eq]
  exact h _

/-- The second SparseCore call's index list: rows 2048 to 4095 of the first index array, transposed and flattened. -/
theorem v39_eq (V : Valuation τ sig (Elt F)) :
    (after ops3 V (main_v39 : DevRef τ sig) : (⟨S102400, .i32⟩ : BufTy).Contents (Elt F))
      = shapeCast S102400 (transpose S50x2048 [1, 0] (extractStridedSlice S2048x50 ![2048, 0] (V (main_arg1 : DevRef τ sig) : (⟨S4096x50, .i32⟩ : BufTy).Contents (Elt F)) slices_S4096x50_S2048x50_2048_0) transposes_S2048x50_S50x2048_1_0) shapeCasts_S50x2048_S102400 := by
  after_results_simp
  rfl

/-- Hence a bound on every entry of the argument array is a bound on every entry of it. -/
theorem v39_lt (V : Valuation τ sig (Elt F))
    (h : ∀ j, BitVec.toNat ((V (main_arg1 : DevRef τ sig) : (⟨S4096x50, .i32⟩ : BufTy).Contents (Elt F)) j) < 100000) :
    ∀ j, BitVec.toNat ((after ops3 V (main_v39 : DevRef τ sig) : (⟨S102400, .i32⟩ : BufTy).Contents (Elt F)) j) < 100000 := by
  intro j
  rw [v39_eq]
  exact h _

/-- The second SparseCore call's per-row index list: entries 2048 to 4095 of the per-row index array. -/
theorem v40_eq (V : Valuation τ sig (Elt F)) :
    (after ops3 V (main_v40 : DevRef τ sig) : (⟨S2048, .i32⟩ : BufTy).Contents (Elt F))
      = extractStridedSlice S2048 ![2048] (V (main_arg0 : DevRef τ sig) : (⟨S4096, .i32⟩ : BufTy).Contents (Elt F)) slices_S4096_S2048_2048 := by
  after_results_simp

/-- Hence a bound on every entry of the argument array is a bound on every entry of it. -/
theorem v40_lt (V : Valuation τ sig (Elt F))
    (h : ∀ j, BitVec.toNat ((V (main_arg0 : DevRef τ sig) : (⟨S4096, .i32⟩ : BufTy).Contents (Elt F)) j) < 100000) :
    ∀ j, BitVec.toNat ((after ops3 V (main_v40 : DevRef τ sig) : (⟨S2048, .i32⟩ : BufTy).Contents (Elt F)) j) < 100000 := by
  intro j
  rw [v40_eq]
  exact h _

end Cert.KernelIdeal.MainSegs

end
-- ==== Proof.ScMain.lean ====
/-
  @main of the kernel program on the TensorCore, piece by piece: six stretches of host operations (each run whole by the host
  rule over the arrays held), three TensorCore regions (each by its step, `RegStepR`: the arrays held go in and come out at a
  valuation related to the entry one, the arguments untouched; what the TensorCore owes is borrowed and returned), and the two gather calls (ScCall,
  ScCall1). The sixteen arguments are never written, so they end at their launch contents: what the claim reads.
-/
import proofs.«217981_g19061064860210_cont_8to1_1320_37_alg».proof.Proof.ScCall
import proofs.«217981_g19061064860210_cont_8to1_1320_37_alg».proof.Proof.ScCall1
import proofs.«217981_g19061064860210_cont_8to1_1320_37_alg».proof.Proof.KMainSegs

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

open Idealize.ShloMosaic.StableHlo (held after seq)
open Idealize.ShloMosaic.TcCoe
open Cert.KernelIdeal.MainSegs

variable (m : (ℓ : Loc nD τ sig) → Buf (Elt F) ℓ) (ρ : Dev nD → PrngReg)

/-- What the TensorCore owes before call `n`, with its recorded waits bounded: the part of its state a region borrows. -/
def tcOwes (d : Dev nD) (n : ℕ) : sProp 𝕄 :=
  iprop(∃ W, ⌜(K (F := F)).WBelow (SparseCore.T d) W (8 * n)⌝ ∗ owes (SparseCore.T d) ((K (F := F)).Otc d n) W)

/-- A TensorCore region's step inside @main: region `p`, entered when the TensorCore is before call `n`. The arrays held go in
    at `V` and come out at `exitV d V`; the region spends its share `Gin d` of the launch element; what the TensorCore owes is
    borrowed and returned. -/
def RegStep (p : Fin 3) (n : ℕ) (Gin : Dev nD → sProp 𝕄) (exitV : Dev nD → Valuation τ sig (Elt F) → Valuation τ sig (Elt F)) : Prop :=
  ∀ (d : Dev nD) (V : Valuation τ sig (Elt F)),
    iprop(boundary (SparseCore.T d)
        ∗ (held (SparseCore.T d) (Pipeline.ucRefs τ sig) V ∗ (∃ r, prngReg d r) ∗ tcOwes (F := F) d n)
        ∗ levAts (K (F := F)).L (K (F := F)).lev ∗ Gin d)
      ⊢ wp frame (wpE ((K (F := F)).defs (D (F := F))) 𝒱 (SparseCore.T d) none) Set.univ
          (Prog.lift (.customCall (SparseCore.inner (Pipeline.entry p)) ()))
          fun _ => iprop(boundary (SparseCore.T d)
            ∗ (held (SparseCore.T d) (Pipeline.ucRefs τ sig) (exitV d V) ∗ (∃ r, prngReg d r) ∗ tcOwes (F := F) d n))

/-- The same with the exit valuation only RELATED to the entry one (a region some of whose results' contents are forgotten). -/
def RegStepR (p : Fin 3) (n : ℕ) (Gin : Dev nD → sProp 𝕄) (R : Dev nD → Valuation τ sig (Elt F) → Valuation τ sig (Elt F) → Prop) : Prop :=
  ∀ (d : Dev nD) (V : Valuation τ sig (Elt F)),
    iprop(boundary (SparseCore.T d)
        ∗ (held (SparseCore.T d) (Pipeline.ucRefs τ sig) V ∗ (∃ r, prngReg d r) ∗ tcOwes (F := F) d n)
        ∗ levAts (K (F := F)).L (K (F := F)).lev ∗ Gin d)
      ⊢ wp frame (wpE ((K (F := F)).defs (D (F := F))) 𝒱 (SparseCore.T d) none) Set.univ
          (Prog.lift (.customCall (SparseCore.inner (Pipeline.entry p)) ()))
          fun _ => iprop(boundary (SparseCore.T d)
            ∗ ∃ V', ⌜R d V V'⌝ ∗ held (SparseCore.T d) (Pipeline.ucRefs τ sig) V' ∗ (∃ r, prngReg d r) ∗ tcOwes (F := F) d n)

/-- A step with a computed exit valuation is one with that valuation's graph as relation. -/
theorem RegStep.toR {p : Fin 3} {n : ℕ} {Gin : Dev nD → sProp 𝕄} {exitV : Dev nD → Valuation τ sig (Elt F) → Valuation τ sig (Elt F)}
    (h : RegStep (F := F) p n Gin exitV) : RegStepR (F := F) p n Gin (fun d V V' => V' = exitV d V) := by
  intro d V
  refine (h d V).trans (wp_mono frame _ _ fun _ => ?_)
  iintro ⟨Hb, Hh, Hp, Ho⟩
  isplitl [Hb]; · iexact Hb
  iexists _
  isplitr; · ipureintro; rfl
  isplitl [Hh]; · iexact Hh
  isplitl [Hp]; · iexact Hp
  iexact Ho

omit [FloatOps F] in
/-- Waits recorded at index `none` sit at level zero: the bound on the recorded pairs is kept. -/
theorem wbelow_keep (d : Dev nD) (n : ℕ) (W W' : Waits sig (HIx 2)) (hW : (K (F := F)).WBelow (SparseCore.T d) W (8 * n))
    (h : ∀ p ∈ W', p ∈ W ∨ p.2 = none) : (K (F := F)).WBelow (SparseCore.T d) W' (8 * n) := by
  intro p hp
  rcases h p hp with hw | hn
  · exact hW p hw
  · rw [show p.2 = none from hn]; exact Nat.zero_le _

omit [FloatOps F] in
/-- The TensorCore's state before call `n` opened: what it owes, the rest `R`, and that the two make the state again. -/
theorem tcSt_open (d : Dev nD) (n : ℕ) :
    (K (F := F)).tcSt EH d n ⊢ (iprop(∃ (R : sProp 𝕄), ⌜iprop(tcOwes (F := F) d n ∗ R) ⊢ (K (F := F)).tcSt EH d n⌝
      ∗ tcOwes (F := F) d n ∗ R) : sProp 𝕄) := by
  unfold SparseCore.Cfg.tcSt tcOwes
  iintro ⟨HC, HR⟩
  iexists _
  isplitr
  swap
  · isplitl [HC]; · iexact HC
    iexact HR
  ipureintro
  exact BI.Entails.refl _

/-- The sixteen arguments as device buffers. -/
def argEmb : Fin 16 ↪ DevRef τ sig := ⟨fun k => ((argRef k : Ref sig .tc) : DevRef τ sig), by decide⟩
theorem argSet_sub : Finset.univ.map argEmb ⊆ Pipeline.ucRefs τ sig := by decide

omit [FloatOps F] in
/-- The arguments at their launch contents, out of everything the TensorCore holds at a valuation that agrees with the
    launch memory on them. -/
theorem fin_of_held (d : Dev nD) (V : Valuation τ sig (Elt F))
    (hV : ∀ k : Fin 16, V ((argRef k : Ref sig .tc) : DevRef τ sig) = m (d, ((argRef k : Ref sig .tc) : DevRef τ sig))) :
    (held (SparseCore.T d) (Pipeline.ucRefs τ sig) V : sProp 𝕄) ⊢ FIN m d := by
  rw [StableHlo.held_sub_split (SparseCore.T d) argSet_sub V]
  have e : (held (SparseCore.T d) (Finset.univ.map argEmb) V : sProp 𝕄) = FIN m d := by
    unfold held FIN
    rw [BI.bigSep_map]
    exact bigSep_congr fun k _ => by rw [show V (argEmb k) = m (d, argEmb k) from hV k]; rfl
  rw [e]
  iintro ⟨H, -⟩
  iexact H

set_option maxHeartbeats 2000000 in
/-- @main's proof from its three regions' steps. -/
theorem hmain_of
    (G0 G1 G2 : Dev nD → sProp 𝕄)
    (R0 R1 R2 : Dev nD → Valuation τ sig (Elt F) → Valuation τ sig (Elt F) → Prop)
    (hreg0 : RegStepR (F := F) 0 0 G0 R0) (hreg1 : RegStepR (F := F) 1 1 G1 R1) (hreg2 : RegStepR (F := F) 2 2 G2 R2)
    (he0 : ∀ d V V', R0 d V V' → ∀ k : Fin 16, V' ((argRef k : Ref sig .tc) : DevRef τ sig) = V ((argRef k : Ref sig .tc) : DevRef τ sig))
    (he1 : ∀ d V V', R1 d V V' → ∀ k : Fin 16, V' ((argRef k : Ref sig .tc) : DevRef τ sig) = V ((argRef k : Ref sig .tc) : DevRef τ sig))
    (he2 : ∀ d V V', R2 d V V' → ∀ k : Fin 16, V' ((argRef k : Ref sig .tc) : DevRef τ sig) = V ((argRef k : Ref sig .tc) : DevRef τ sig))
    (ho0 : ∀ (V : Valuation τ sig (Elt F)) (k : Fin 16), after (ops0 (F := F)) V ((argRef k : Ref sig .tc) : DevRef τ sig) = V ((argRef k : Ref sig .tc) : DevRef τ sig))
    (ho1 : ∀ (V : Valuation τ sig (Elt F)) (k : Fin 16), after (ops1 (F := F)) V ((argRef k : Ref sig .tc) : DevRef τ sig) = V ((argRef k : Ref sig .tc) : DevRef τ sig))
    (ho2 : ∀ (V : Valuation τ sig (Elt F)) (k : Fin 16), after (ops2 (F := F)) V ((argRef k : Ref sig .tc) : DevRef τ sig) = V ((argRef k : Ref sig .tc) : DevRef τ sig))
    (ho3 : ∀ (V : Valuation τ sig (Elt F)) (k : Fin 16), after (ops3 (F := F)) V ((argRef k : Ref sig .tc) : DevRef τ sig) = V ((argRef k : Ref sig .tc) : DevRef τ sig))
    (ho4 : ∀ (V : Valuation τ sig (Elt F)) (k : Fin 16), after (ops4 (F := F)) V ((argRef k : Ref sig .tc) : DevRef τ sig) = V ((argRef k : Ref sig .tc) : DevRef τ sig))
    (ho5 : ∀ (V : Valuation τ sig (Elt F)) (k : Fin 16), after (ops5 (F := F)) V ((argRef k : Ref sig .tc) : DevRef τ sig) = V ((argRef k : Ref sig .tc) : DevRef τ sig))
    (hc0 : ∀ (V : Valuation τ sig (Elt F)) feu fuv (k : Fin 16), afterCall0 V feu fuv ((argRef k : Ref sig .tc) : DevRef τ sig) = V ((argRef k : Ref sig .tc) : DevRef τ sig))
    (hc1 : ∀ (V : Valuation τ sig (Elt F)) feu fuv (k : Fin 16), afterCall1 V feu fuv ((argRef k : Ref sig .tc) : DevRef τ sig) = V ((argRef k : Ref sig .tc) : DevRef τ sig))
    (hA1 : ∀ d j, BitVec.toNat ((m (d, (main_arg1 : DevRef τ sig)) : (⟨S4096x50, .i32⟩ : BufTy).Contents (Elt F)) j) < 100000)
    (hA0 : ∀ d j, BitVec.toNat ((m (d, (main_arg0 : DevRef τ sig)) : (⟨S4096, .i32⟩ : BufTy).Contents (Elt F)) j) < 100000) :
    MainObl m ρ (fun d => iprop(G0 d ∗ G1 d ∗ G2 d)) := by
  intro κ d
  unfold SparseCore.Cfg.tcRes
  rw [show unscopedBufs d (fun b => m ((SparseCore.T d).loc b)) = held (SparseCore.T d) (Pipeline.ucRefs τ sig) (fun b => m (d, b)) from
      Pipeline.unscopedBufs_held (Ix := HIx 2) (Name := ℕ) (U := UU) (Lvl := ℕ) d (fun b => m (d, b))]
  rw [main_eq]
  iintro ⟨#Hctx, Hst, ⟨Hb, Hheld, -, Hprng⟩, HG0, HG1, HG2⟩
  ihave Hlev := ((K (F := F)).ctx_levAts κ) $$ Hctx
  ihave Hprng := (show (prngReg d (ρ d) : sProp 𝕄) ⊢ iprop(∃ r, prngReg d r) from by iintro H; iexists _; iexact H) $$ Hprng
  -- host operations, stretch 0
  iapply (StableHlo.wp_seq 𝒱 none Set.univ d (Pipeline.ucRefs τ sig) _ (ops0 (F := F)) ops0_sub ops0_fresh _) $$ [Hb Hheld]
  · isplitl [Hb]; · iexact Hb
    iexact Hheld
  iintro ⟨Hb, Hheld⟩
  -- region 0
  ihave Ho := (tcSt_open d 0) $$ Hst
  icases Ho with ⟨%Rs0, %hcl0, HC, HR⟩
  irw [wp_bind]
  iapply (wp_wand_r frame (wpE ((K (F := F)).defs (D (F := F))) 𝒱 (SparseCore.T d) none) Set.univ)
  isplitl [Hb Hheld Hprng HC HG0]
  · iapply (hreg0 d _)
    isplitl [Hb]; · iexact Hb
    isplitl [Hheld Hprng HC]
    · isplitl [Hheld]; · iexact Hheld
      isplitl [Hprng]; · iexact Hprng
      iexact HC
    isplitr; · iexact Hlev
    iexact HG0
  iintro %_a0 ⟨Hb, %V2, %hR0, Hheld, Hprng, HC⟩
  ihave Hst := hcl0 $$ [HC HR]
  · isplitl [HC]; · iexact HC
    iexact HR
  have a2 : ∀ k : Fin 16, V2 ((argRef k : Ref sig .tc) : DevRef τ sig) = m (d, ((argRef k : Ref sig .tc) : DevRef τ sig)) := fun k =>
    (he0 d _ _ hR0 k).trans (ho0 (fun b => m (d, b)) k)
  -- host operations, stretch 1
  iapply (StableHlo.wp_seq 𝒱 none Set.univ d (Pipeline.ucRefs τ sig) _ (ops1 (F := F)) ops1_sub ops1_fresh _) $$ [Hb Hheld]
  · isplitl [Hb]; · iexact Hb
    iexact Hheld
  iintro ⟨Hb, Hheld⟩
  -- the first gather call
  have hv13 : ∀ j, BitVec.toNat ((after (ops1 (F := F)) V2 (main_v13 : DevRef τ sig) : (⟨S102400, .i32⟩ : BufTy).Contents (Elt F)) j) < 100000 :=
    v13_lt _ (fun j => by rw [show V2 (main_arg1 : DevRef τ sig) = m (d, (main_arg1 : DevRef τ sig)) from a2 1]; exact hA1 d j)
  have hv14 : ∀ j, BitVec.toNat ((after (ops1 (F := F)) V2 (main_v14 : DevRef τ sig) : (⟨S2048, .i32⟩ : BufTy).Contents (Elt F)) j) < 100000 :=
    v14_lt _ (fun j => by rw [show V2 (main_arg0 : DevRef τ sig) = m (d, (main_arg0 : DevRef τ sig)) from a2 0]; exact hA0 d j)
  irw [wp_bind]
  iapply (call0_step κ d _ hv13 hv14) $$ [Hst Hheld Hb Hprng HG1 HG2]
  isplitr; · iexact Hctx
  isplitl [Hst]; · iexact Hst
  isplitl [Hheld]; · iexact Hheld
  iintro %feu %fuv ⟨Hst, Hheld⟩
  -- host operations, stretch 2
  iapply (StableHlo.wp_seq 𝒱 none Set.univ d (Pipeline.ucRefs τ sig) _ (ops2 (F := F)) ops2_sub ops2_fresh _) $$ [Hb Hheld]
  · isplitl [Hb]; · iexact Hb
    iexact Hheld
  iintro ⟨Hb, Hheld⟩
  -- region 1
  ihave Ho := (tcSt_open d 1) $$ Hst
  icases Ho with ⟨%Rs1, %hcl1, HC, HR⟩
  irw [wp_bind]
  iapply (wp_wand_r frame (wpE ((K (F := F)).defs (D (F := F))) 𝒱 (SparseCore.T d) none) Set.univ)
  isplitl [Hb Hheld Hprng HC HG1]
  · iapply (hreg1 d _)
    isplitl [Hb]; · iexact Hb
    isplitl [Hheld Hprng HC]
    · isplitl [Hheld]; · iexact Hheld
      isplitl [Hprng]; · iexact Hprng
      iexact HC
    isplitr; · iexact Hlev
    iexact HG1
  iintro %_a1 ⟨Hb, %V6, %hR1, Hheld, Hprng, HC⟩
  ihave Hst := hcl1 $$ [HC HR]
  · isplitl [HC]; · iexact HC
    iexact HR
  have a6 : ∀ k : Fin 16, V6 ((argRef k : Ref sig .tc) : DevRef τ sig) = m (d, ((argRef k : Ref sig .tc) : DevRef τ sig)) := fun k =>
    (he1 d _ _ hR1 k).trans ((ho2 _ k).trans ((hc0 _ _ _ k).trans ((ho1 _ k).trans (a2 k))))
  -- host operations, stretch 3
  iapply (StableHlo.wp_seq 𝒱 none Set.univ d (Pipeline.ucRefs τ sig) _ (ops3 (F := F)) ops3_sub ops3_fresh _) $$ [Hb Hheld]
  · isplitl [Hb]; · iexact Hb
    iexact Hheld
  iintro ⟨Hb, Hheld⟩
  -- the second gather call
  have hv39 : ∀ j, BitVec.toNat ((after (ops3 (F := F)) V6 (main_v39 : DevRef τ sig) : (⟨S102400, .i32⟩ : BufTy).Contents (Elt F)) j) < 100000 :=
    v39_lt _ (fun j => by rw [show V6 (main_arg1 : DevRef τ sig) = m (d, (main_arg1 : DevRef τ sig)) from a6 1]; exact hA1 d j)
  have hv40 : ∀ j, BitVec.toNat ((after (ops3 (F := F)) V6 (main_v40 : DevRef τ sig) : (⟨S2048, .i32⟩ : BufTy).Contents (Elt F)) j) < 100000 :=
    v40_lt _ (fun j => by rw [show V6 (main_arg0 : DevRef τ sig) = m (d, (main_arg0 : DevRef τ sig)) from a6 0]; exact hA0 d j)
  irw [wp_bind]
  iapply (call1_step κ d _ hv39 hv40) $$ [Hst Hheld Hb Hprng HG2]
  isplitr; · iexact Hctx
  isplitl [Hst]; · iexact Hst
  isplitl [Hheld]; · iexact Hheld
  iintro %feu' %fuv' ⟨Hst, Hheld⟩
  -- host operations, stretch 4
  iapply (StableHlo.wp_seq 𝒱 none Set.univ d (Pipeline.ucRefs τ sig) _ (ops4 (F := F)) ops4_sub ops4_fresh _) $$ [Hb Hheld]
  · isplitl [Hb]; · iexact Hb
    iexact Hheld
  iintro ⟨Hb, Hheld⟩
  -- region 2
  ihave Ho := (tcSt_open d 2) $$ Hst
  icases Ho with ⟨%Rs2, %hcl2, HC, HR⟩
  irw [wp_bind]
  iapply (wp_wand_r frame (wpE ((K (F := F)).defs (D (F := F))) 𝒱 (SparseCore.T d) none) Set.univ)
  isplitl [Hb Hheld Hprng HC HG2]
  · iapply (hreg2 d _)
    isplitl [Hb]; · iexact Hb
    isplitl [Hheld Hprng HC]
    · isplitl [Hheld]; · iexact Hheld
      isplitl [Hprng]; · iexact Hprng
      iexact HC
    isplitr; · iexact Hlev
    iexact HG2
  iintro %_a2 ⟨Hb, %V10, %hR2, Hheld, Hprng, HC⟩
  ihave Hst := hcl2 $$ [HC HR]
  · isplitl [HC]; · iexact HC
    iexact HR
  have a10 : ∀ k : Fin 16, V10 ((argRef k : Ref sig .tc) : DevRef τ sig) = m (d, ((argRef k : Ref sig .tc) : DevRef τ sig)) := fun k =>
    (he2 d _ _ hR2 k).trans ((ho4 _ k).trans ((hc1 _ _ _ k).trans ((ho3 _ k).trans (a6 k))))
  -- the last host operation
  irw [← bind_pure (seq (ops5 (F := F)))]
  -- host operations, stretch 5
  iapply (StableHlo.wp_seq 𝒱 none Set.univ d (Pipeline.ucRefs τ sig) _ (ops5 (F := F)) ops5_sub ops5_fresh _) $$ [Hb Hheld]
  · isplitl [Hb]; · iexact Hb
    iexact Hheld
  iintro ⟨Hb, Hheld⟩
  irw [wp_pure]
  imodintro
  isplitl [Hst]; · iexact Hst
  iapply (fin_of_held m d _ (fun k => (ho5 _ k).trans (a10 k)))
  iexact Hheld

end Cert.Proof.KI

end
-- ==== Proof.TcBody0.lean ====
/-
  The body of TensorCore pallas call 0 on whole staging buffers: what it leaves in its output window's
  buffer, and its run.

  The body loads its five input windows whole — two 64 × 8192 blocks of the transposed embedding
  tables, two 64 × 64 weight halves and a 1 × 64 bias —, multiplies each table block (transposed) by its
  weight half, adds the bias to the second product, and stores the two 8192 × 64 results side by side
  over the whole of its 8192 × 128 output window (it also loads the output window first, and does not
  use what it loaded).  So after the body the output buffer holds the canonical form of that one
  store, as a function of the five loaded blocks, and every input buffer is as it was.  The run is
  stated for any user ghost state and any continuation.
-/
import proofs.«217981_g19061064860210_cont_8to1_1320_37_alg».proof.Proof.Gen.KernelIdeal.Launch
import proofs.«217981_g19061064860210_cont_8to1_1320_37_alg».proof.Proof.Gen.KernelIdeal.Skeleton
import proofs.«217981_g19061064860210_cont_8to1_1320_37_alg».proof.Proof.Gen.KernelIdeal.Points
import Idealize.ShloMosaic.Lib.Pipeline.FrameBody
import Idealize.ShloMosaic.Lib.Tactic

set_option maxRecDepth 16384

noncomputable section

namespace Cert.KernelIdeal.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The rectangles the body reads and writes: each window's whole block -/

abbrev r0_S64x8192 : Rect S64x8192 := Rect.unit (s := S64x8192) ![0, 0] S64x8192.size inb_S64x8192_S64x8192_0_0
abbrev r0_S64x64 : Rect S64x64 := Rect.unit (s := S64x64) ![0, 0] S64x64.size inb_S64x64_S64x64_0_0
abbrev r0_S1x64 : Rect S1x64 := Rect.unit (s := S1x64) ![0, 0] S1x64.size inb_S1x64_S1x64_0_0
abbrev r0_S8192x128 : Rect S8192x128 := Rect.unit (s := S8192x128) ![0, 0] S8192x128.size inb_S8192x128_S8192x128_0_0

/-! ## What the body leaves in the output window's buffer -/

/-- Window 5's staging buffer after the body, from the five input blocks: the one store, over the whole
    block, of the two products side by side. -/
def out0_5 (x0 : Vec F S64x8192 .f32) (x1 : Vec F S64x8192 .f32) (x2 : Vec F S64x64 .bf16) (x3 : Vec F S64x64 .bf16) (x4 : Vec F S1x64 .f32) : Vec F S8192x128 .f32 :=
  View.canon [⟨r0_S8192x128, k0_pay1 (View.ld x0 r0_S64x8192) (View.ld x2 r0_S64x64) (View.ld x1 r0_S64x8192) (View.ld x3 r0_S64x64) (View.ld x4 r0_S1x64)⟩]

/-- The one store covers the output block. -/
theorem cover0_5 (p0 : Vec F S8192x128 .f32) (y : S8192x128.Idx) :
    ∃ pc ∈ ([⟨r0_S8192x128, p0⟩] : List (View.Piece (Elt F) S8192x128 .f32)), y ∈ pc.1.set :=
  View.cover_of_tiled [⟨r0_S8192x128, p0⟩] S8192x128.size (by rfl) y

/-! ## The body's run -/

set_option maxHeartbeats 4000000 in
/-- The body on whole staging memrefs, the five inputs' at contents x0 … x4 and the output's at anything,
    runs to the continuation with the inputs' as they were and the output's at out0_5 of the inputs'. -/
theorem sound_kernel0 (𝒱₀ : Variants) (c : Dev nD) (E : Set Name) (i : grid0.Coords) (arg1 : Memref sig .tc .vmem S64x8192 .f32) (harg1 : arg1.IsWhole) (arg2 : Memref sig .tc .vmem S64x8192 .f32) (harg2 : arg2.IsWhole) (arg3 : Memref sig .tc .vmem S64x64 .bf16) (harg3 : arg3.IsWhole) (arg4 : Memref sig .tc .vmem S64x64 .bf16) (harg4 : arg4.IsWhole) (arg5 : Memref sig .tc .vmem S1x64 .f32) (harg5 : arg5.IsWhole) (arg6 : Memref sig .tc .vmem S8192x128 .f32) (harg6 : arg6.IsWhole)
    (x0 : Vec F S64x8192 .f32) (x1 : Vec F S64x8192 .f32) (x2 : Vec F S64x64 .bf16) (x3 : Vec F S64x64 .bf16) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) 𝒱₀ c none) E (cc0__pre_body i arg1 harg1 arg2 harg2 arg3 harg3 arg4 harg4 arg5 harg5 arg6 harg6) K := by
  simp only [cc0__pre_body_eq_skeleton]; unfold cc0__pre_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

end Cert.KernelIdeal.Tc

end
-- ==== Proof.TcDat0.lean ====
/-
  The proof data of TensorCore pallas call 0 on one core, and its body obligation.

  The two table windows (0 and 1: 64 × 8192 blocks of 64 × 100000 arrays) and the output window
  (5: 8192 × 128 blocks of a 100000 × 128 array) overhang their arrays at the last grid point:
  13 · 8192 > 100000.  There a fetch fills only the columns inside the array (the first 1696) and the
  rest of the staging buffer holds words nothing names; the write-back writes only the rows inside
  the array.  So the body obligation states those three buffers on the part the transfers move and
  nothing past it, and it is provable exactly when the output rows inside the array do not depend on
  the table columns past the array's end.  That is a property of the payload — row r of each product
  is the contraction of column r of the table block with the weights — and it is taken here as the
  hypothesis PayLocal0, so that everything else is stated for any float instance; at the extended
  reals it follows from the contraction read at an index.
  The three small windows (2, 3, 4: the weight halves and the bias) are whole arrays, fetched once.
-/
import proofs.«217981_g19061064860210_cont_8to1_1320_37_alg».proof.Proof.TcBody0

set_option maxRecDepth 16384

noncomputable section

namespace Cert.KernelIdeal.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The windows' blocks -/

/-- Window w's block at point t as a fetch reads it: its part inside the array (for windows 0, 1 and 5 at
    the last point the first 1696 columns or rows; everywhere else the whole block). -/
def iblk0 (c : Dev nD) (A : (w : Fin cfg0.W) → Buf (Elt F) ((cfg0.win w).arr.view.loc (c.tc : Thread nD τ))) (w : Fin cfg0.W) (t : Fin cfg0.N) :
    ((cfg0.win w).xblock (cfg0.grid.coords t)).Idx → Elt F (cfg0.win w).elt :=
  ((cfg0.win w).blk t).view.read (Elt F) (A w)

/-- Table window 0's block at point t filled out to the staging buffer's 64 × 8192 with the zero word past
    the array's end (a filler nothing reads). -/
def blkz0_0 (c : Dev nD) (A : (w : Fin cfg0.W) → Buf (Elt F) ((cfg0.win w).arr.view.loc (c.tc : Thread nD τ))) (t : Fin cfg0.N) : S64x8192.Idx → Elt F .f32 :=
  win0_0.fill (grid0.coords t) (fun _ => Scalar.ofBits .f32 0#32) (iblk0 c A 0 t)
/-- Table window 1's likewise. -/
def blkz0_1 (c : Dev nD) (A : (w : Fin cfg0.W) → Buf (Elt F) ((cfg0.win w).arr.view.loc (c.tc : Thread nD τ))) (t : Fin cfg0.N) : S64x8192.Idx → Elt F .f32 :=
  win0_1.fill (grid0.coords t) (fun _ => Scalar.ofBits .f32 0#32) (iblk0 c A 1 t)

/-- The payload is local: the output rows inside the array depend only on the table columns inside the array.
    For every point's coordinates i, table blocks b0 b1 (their parts inside the arrays) and any two ways d, d'
    of filling them out to the staging buffers' size, the output block cut at the array's end is the same. -/
def PayLocal0 (F : FTy → Type) [FloatOps F] : Prop :=
  ∀ (i : grid0.Coords) (b0 : (win0_0.xblock i).Idx → Elt F .f32) (b1 : (win0_1.xblock i).Idx → Elt F .f32)
    (d0 d0' d1 d1' : S64x8192.Idx → Elt F .f32) (x2 : Vec F S64x64 .bf16) (x3 : Vec F S64x64 .bf16) (x4 : Vec F S1x64 .f32),
    win0_5.cut i (out0_5 (win0_0.fill i d0 b0) (win0_1.fill i d1 b1) x2 x3 x4)
      = win0_5.cut i (out0_5 (win0_0.fill i d0' b0) (win0_1.fill i d1' b1) x2 x3 x4)

/-- Input window 2's current staging buffer holds its block at every point, fetched there or not, for any
    proof data whose array is A's and whose body leaves the block in place: the window is uncut and never idle. -/
theorem before0_2_of {c : Dev nD} (A : (w : Fin cfg0.W) → Buf (Elt F) ((cfg0.win w).arr.view.loc (c.tc : Thread nD τ))) (dat : Dat τ (Elt F) Ix Name U Lvl cfg0 c) (hA : dat.A 2 = A 2)
    (hafter : ∀ t, dat.after 2 t = iblk0 c A 2 t) (t : Fin cfg0.N) (d) : dat.before 2 t d = iblk0 c A 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any
    proof data whose array is A's and whose body leaves the block in place: the window is uncut and never idle. -/
theorem before0_3_of {c : Dev nD} (A : (w : Fin cfg0.W) → Buf (Elt F) ((cfg0.win w).arr.view.loc (c.tc : Thread nD τ))) (dat : Dat τ (Elt F) Ix Name U Lvl cfg0 c) (hA : dat.A 3 = A 3)
    (hafter : ∀ t, dat.after 3 t = iblk0 c A 3 t) (t : Fin cfg0.N) (d) : dat.before 3 t d = iblk0 c A 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any
    proof data whose array is A's and whose body leaves the block in place: the window is uncut and never idle. -/
theorem before0_4_of {c : Dev nD} (A : (w : Fin cfg0.W) → Buf (Elt F) ((cfg0.win w).arr.view.loc (c.tc : Thread nD τ))) (dat : Dat τ (Elt F) Ix Name U Lvl cfg0 c) (hA : dat.A 4 = A 4)
    (hafter : ∀ t, dat.after 4 t = iblk0 c A 4 t) (t : Fin cfg0.N) (d) : dat.before 4 t d = iblk0 c A 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The proof data -/

/-- The proof data of the pipeline on core c: the arrays as the region finds them (A); after the body at
    point t the table windows' buffers at their blocks filled out with zero words, the three small windows'
    at their blocks, and the output's at the payload of those; the invariant Φ₀, the owed tallies O and the bound B on the recorded pairs
    at every point; full shares. -/
def dats0 (c : Dev nD) (A : (w : Fin cfg0.W) → Buf (Elt F) ((cfg0.win w).arr.view.loc (c.tc : Thread nD τ))) (Φ₀ : sProp 𝕄) (O : CellTallies nD τ sig Ix) (B : Set (SemLoc sig × Ix)) : Dat τ (Elt F) Ix Name U Lvl cfg0 c where
  A w := A w
  after w t := match w with
    | ⟨0, _⟩ => blkz0_0 c A t
    | ⟨1, _⟩ => blkz0_1 c A t
    | ⟨2, _⟩ => iblk0 c A 2 t
    | ⟨3, _⟩ => iblk0 c A 3 t
    | ⟨4, _⟩ => iblk0 c A 4 t
    | ⟨5, _⟩ => out0_5 (blkz0_0 c A t) (blkz0_1 c A t) (iblk0 c A 2 t) (iblk0 c A 3 t) (iblk0 c A 4 t)
  Φ _ := Φ₀
  q _ := fullShare
  owed _ := O
  recorded _ := B

/-- The proof data's arrays are the region-entry contents. -/
theorem A_eq0 (c : Dev nD) (A : (w : Fin cfg0.W) → Buf (Elt F) ((cfg0.win w).arr.view.loc (c.tc : Thread nD τ))) (Φ₀ : sProp 𝕄) (O : CellTallies nD τ sig Ix) (B : Set (SemLoc sig × Ix)) (w : Fin cfg0.W) : (dats0 (F := F) (Ix := Ix) (Name := Name) (U := U) (Lvl := Lvl) c A Φ₀ O B).A w = A w := by dsimp only [dats0]

/-- What the body leaves, window by window. -/
theorem after0_0 (c : Dev nD) (A : (w : Fin cfg0.W) → Buf (Elt F) ((cfg0.win w).arr.view.loc (c.tc : Thread nD τ))) (Φ₀ : sProp 𝕄) (O : CellTallies nD τ sig Ix) (B : Set (SemLoc sig × Ix)) (t : Fin cfg0.N) : (dats0 (F := F) (Ix := Ix) (Name := Name) (U := U) (Lvl := Lvl) c A Φ₀ O B).after 0 t = blkz0_0 c A t := by dsimp only [dats0]
theorem after0_1 (c : Dev nD) (A : (w : Fin cfg0.W) → Buf (Elt F) ((cfg0.win w).arr.view.loc (c.tc : Thread nD τ))) (Φ₀ : sProp 𝕄) (O : CellTallies nD τ sig Ix) (B : Set (SemLoc sig × Ix)) (t : Fin cfg0.N) : (dats0 (F := F) (Ix := Ix) (Name := Name) (U := U) (Lvl := Lvl) c A Φ₀ O B).after 1 t = blkz0_1 c A t := by dsimp only [dats0]
theorem after0_2 (c : Dev nD) (A : (w : Fin cfg0.W) → Buf (Elt F) ((cfg0.win w).arr.view.loc (c.tc : Thread nD τ))) (Φ₀ : sProp 𝕄) (O : CellTallies nD τ sig Ix) (B : Set (SemLoc sig × Ix)) (t : Fin cfg0.N) : (dats0 (F := F) (Ix := Ix) (Name := Name) (U := U) (Lvl := Lvl) c A Φ₀ O B).after 2 t = iblk0 c A 2 t := by dsimp only [dats0]
theorem after0_3 (c : Dev nD) (A : (w : Fin cfg0.W) → Buf (Elt F) ((cfg0.win w).arr.view.loc (c.tc : Thread nD τ))) (Φ₀ : sProp 𝕄) (O : CellTallies nD τ sig Ix) (B : Set (SemLoc sig × Ix)) (t : Fin cfg0.N) : (dats0 (F := F) (Ix := Ix) (Name := Name) (U := U) (Lvl := Lvl) c A Φ₀ O B).after 3 t = iblk0 c A 3 t := by dsimp only [dats0]
theorem after0_4 (c : Dev nD) (A : (w : Fin cfg0.W) → Buf (Elt F) ((cfg0.win w).arr.view.loc (c.tc : Thread nD τ))) (Φ₀ : sProp 𝕄) (O : CellTallies nD τ sig Ix) (B : Set (SemLoc sig × Ix)) (t : Fin cfg0.N) : (dats0 (F := F) (Ix := Ix) (Name := Name) (U := U) (Lvl := Lvl) c A Φ₀ O B).after 4 t = iblk0 c A 4 t := by dsimp only [dats0]
theorem after0_5 (c : Dev nD) (A : (w : Fin cfg0.W) → Buf (Elt F) ((cfg0.win w).arr.view.loc (c.tc : Thread nD τ))) (Φ₀ : sProp 𝕄) (O : CellTallies nD τ sig Ix) (B : Set (SemLoc sig × Ix)) (t : Fin cfg0.N) : (dats0 (F := F) (Ix := Ix) (Name := Name) (U := U) (Lvl := Lvl) c A Φ₀ O B).after 5 t
    = out0_5 (blkz0_0 c A t) (blkz0_1 c A t) (iblk0 c A 2 t) (iblk0 c A 3 t) (iblk0 c A 4 t) := by dsimp only [dats0]

/-- The table windows are fetched at every point: the buffer holds the block on the part inside the array and
    whatever it held (d) past it. -/
theorem before0_0 (c : Dev nD) (A : (w : Fin cfg0.W) → Buf (Elt F) ((cfg0.win w).arr.view.loc (c.tc : Thread nD τ))) (Φ₀ : sProp 𝕄) (O : CellTallies nD τ sig Ix) (B : Set (SemLoc sig × Ix)) (t : Fin cfg0.N) (d) :
    (dats0 (F := F) (Ix := Ix) (Name := Name) (U := U) (Lvl := Lvl) c A Φ₀ O B).before 0 t d = win0_0.fill (grid0.coords t) d (iblk0 c A 0 t) := by
  unfold Dat.before; rw [if_pos (fetch0_0 t)]; rfl
theorem before0_1 (c : Dev nD) (A : (w : Fin cfg0.W) → Buf (Elt F) ((cfg0.win w).arr.view.loc (c.tc : Thread nD τ))) (Φ₀ : sProp 𝕄) (O : CellTallies nD τ sig Ix) (B : Set (SemLoc sig × Ix)) (t : Fin cfg0.N) (d) :
    (dats0 (F := F) (Ix := Ix) (Name := Name) (U := U) (Lvl := Lvl) c A Φ₀ O B).before 1 t d = win0_1.fill (grid0.coords t) d (iblk0 c A 1 t) := by
  unfold Dat.before; rw [if_pos (fetch0_1 t)]; rfl
/-- The small windows hold their blocks at every point, fetched there or not. -/
theorem before0_2 (c : Dev nD) (A : (w : Fin cfg0.W) → Buf (Elt F) ((cfg0.win w).arr.view.loc (c.tc : Thread nD τ))) (Φ₀ : sProp 𝕄) (O : CellTallies nD τ sig Ix) (B : Set (SemLoc sig × Ix)) (t : Fin cfg0.N) (d) : (dats0 (F := F) (Ix := Ix) (Name := Name) (U := U) (Lvl := Lvl) c A Φ₀ O B).before 2 t d = iblk0 c A 2 t :=
  before0_2_of A (dats0 (F := F) (Ix := Ix) (Name := Name) (U := U) (Lvl := Lvl) c A Φ₀ O B) (A_eq0 c A Φ₀ O B 2) (after0_2 c A Φ₀ O B) t d
theorem before0_3 (c : Dev nD) (A : (w : Fin cfg0.W) → Buf (Elt F) ((cfg0.win w).arr.view.loc (c.tc : Thread nD τ))) (Φ₀ : sProp 𝕄) (O : CellTallies nD τ sig Ix) (B : Set (SemLoc sig × Ix)) (t : Fin cfg0.N) (d) : (dats0 (F := F) (Ix := Ix) (Name := Name) (U := U) (Lvl := Lvl) c A Φ₀ O B).before 3 t d = iblk0 c A 3 t :=
  before0_3_of A (dats0 (F := F) (Ix := Ix) (Name := Name) (U := U) (Lvl := Lvl) c A Φ₀ O B) (A_eq0 c A Φ₀ O B 3) (after0_3 c A Φ₀ O B) t d
theorem before0_4 (c : Dev nD) (A : (w : Fin cfg0.W) → Buf (Elt F) ((cfg0.win w).arr.view.loc (c.tc : Thread nD τ))) (Φ₀ : sProp 𝕄) (O : CellTallies nD τ sig Ix) (B : Set (SemLoc sig × Ix)) (t : Fin cfg0.N) (d) : (dats0 (F := F) (Ix := Ix) (Name := Name) (U := U) (Lvl := Lvl) c A Φ₀ O B).before 4 t d = iblk0 c A 4 t :=
  before0_4_of A (dats0 (F := F) (Ix := Ix) (Name := Name) (U := U) (Lvl := Lvl) c A Φ₀ O B) (A_eq0 c A Φ₀ O B 4) (after0_4 c A Φ₀ O B) t d

/-! ## The body obligation -/

set_option maxHeartbeats 4000000 in
/-- The library's body obligation for this proof data, at every point, given that the payload is local: the
    table buffers arrive holding their blocks filled out with anything past the array's end, the small ones
    their blocks, the output's anything; the body's run applies; the table buffers leave as they came, which on
    the part inside the array is their block; the output's leaves at the payload of what arrived, which on the
    rows inside the array is the payload of the zero-filled blocks, by locality. -/
theorem body_obligation0 (hloc : PayLocal0 F) (c : Dev nD) (A : (w : Fin cfg0.W) → Buf (Elt F) ((cfg0.win w).arr.view.loc (c.tc : Thread nD τ))) (Φ₀ : sProp 𝕄) (O : CellTallies nD τ sig Ix) (B : Set (SemLoc sig × Ix)) (𝒱₀ : Variants) (ι : Ix) :
    BodyObligationLoose (dats0 (F := F) (Ix := Ix) (Name := Name) (U := U) (Lvl := Lvl) c A Φ₀ O B) (defs₀ (F := F)) 𝒱₀ ι Set.univ := fun t => by
  rw [bigSep_W0, bigSep_W0]
  simp only
  rw [show (dats0 (F := F) (Ix := Ix) (Name := Name) (U := U) (Lvl := Lvl) c A Φ₀ O B).Φ t.succ = (dats0 (F := F) (Ix := Ix) (Name := Name) (U := U) (Lvl := Lvl) c A Φ₀ O B).Φ t.castSucc from rfl,
    show (dats0 (F := F) (Ix := Ix) (Name := Name) (U := U) (Lvl := Lvl) c A Φ₀ O B).owesAt ι t.succ = (dats0 (F := F) (Ix := Ix) (Name := Name) (U := U) (Lvl := Lvl) c A Φ₀ O B).owesAt ι t.castSucc from rfl]
  show _ ⊢ wp frame (wpE (defs₀ (F := F)) 𝒱₀ c none) Set.univ (bodyAt0 t) _
  unfold bodyAt0
  iintro ⟨HΦ, Ho, ⟨%d0, H0⟩, ⟨%d1, H1⟩, ⟨%d2, H2⟩, ⟨%d3, H3⟩, ⟨%d4, H4⟩, ⟨%d5, H5⟩⟩
  rw [before0_0 c A Φ₀ O B t d0, before0_1 c A Φ₀ O B t d1, before0_2 c A Φ₀ O B t d2, before0_3 c A Φ₀ O B t d3,
    before0_4 c A Φ₀ O B t d4]
  iapply (sound_kernel0 𝒱₀ c Set.univ (grid0.coords t) _ _ _ _ _ _ _ _ _ _ _ _
    (win0_0.fill (grid0.coords t) d0 (iblk0 c A 0 t)) (win0_1.fill (grid0.coords t) d1 (iblk0 c A 1 t))
    (iblk0 c A 2 t) (iblk0 c A 3 t) (iblk0 c A 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists d0
    rw [after0_0, show win0_0.cut (grid0.coords t) (blkz0_0 c A t) = iblk0 c A 0 t from win0_0.cut_fill _ _ _]
    iexact H0
  isplitl [H1]
  · iexists d1
    rw [after0_1, show win0_1.cut (grid0.coords t) (blkz0_1 c A t) = iblk0 c A 1 t from win0_1.cut_fill _ _ _]
    iexact H1
  isplitl [H2]; · rw [after0_2]; iexact H2
  isplitl [H3]; · rw [after0_3]; iexact H3
  isplitl [H4]; · rw [after0_4]; iexact H4
  iexists out0_5 (win0_0.fill (grid0.coords t) d0 (iblk0 c A 0 t)) (win0_1.fill (grid0.coords t) d1 (iblk0 c A 1 t))
    (iblk0 c A 2 t) (iblk0 c A 3 t) (iblk0 c A 4 t)
  have h := win0_5.fill_congr_cut (grid0.coords t)
    (hloc (grid0.coords t) (iblk0 c A 0 t) (iblk0 c A 1 t) d0 (fun _ => Scalar.ofBits .f32 0#32) d1 (fun _ => Scalar.ofBits .f32 0#32)
      (iblk0 c A 2 t) (iblk0 c A 3 t) (iblk0 c A 4 t))
  rw [after0_5, show (win0 5).fill (grid0.coords t)
      (out0_5 (win0_0.fill (grid0.coords t) d0 (iblk0 c A 0 t)) (win0_1.fill (grid0.coords t) d1 (iblk0 c A 1 t))
        (iblk0 c A 2 t) (iblk0 c A 3 t) (iblk0 c A 4 t))
      ((win0 5).cut (grid0.coords t)
        (out0_5 (blkz0_0 c A t) (blkz0_1 c A t) (iblk0 c A 2 t) (iblk0 c A 3 t) (iblk0 c A 4 t)))
    = out0_5 (win0_0.fill (grid0.coords t) d0 (iblk0 c A 0 t)) (win0_1.fill (grid0.coords t) d1 (iblk0 c A 1 t))
        (iblk0 c A 2 t) (iblk0 c A 3 t) (iblk0 c A 4 t) from h]
  iexact H5

end Cert.KernelIdeal.Tc

end
-- ==== Proof.TcBody2.lean ====
/-
  The body of TensorCore pallas call 2 on whole staging buffers: what it leaves in its output window's
  buffer, and its run.

  The body loads its thirteen input windows whole, computes, and stores one value over the whole of
  its output window (it also loads the output window first, and does not use what it loaded).  So
  after the body the output buffer holds the canonical form of that one store: the composed payload
  — the softmax-weighted sum over the 50 history rows of the rectified features, divided by the
  softmax denominator — as a function of the thirteen loaded blocks, and every input buffer is as it
  was.  The run is stated for any user ghost state and any continuation.
-/
import proofs.«217981_g19061064860210_cont_8to1_1320_37_alg».proof.Proof.Gen.KernelIdeal.Launch
import proofs.«217981_g19061064860210_cont_8to1_1320_37_alg».proof.Proof.Gen.KernelIdeal.Skeleton
import proofs.«217981_g19061064860210_cont_8to1_1320_37_alg».proof.Proof.Gen.KernelIdeal.Points
import Idealize.ShloMosaic.Lib.Pipeline.FrameBody
import Idealize.ShloMosaic.Lib.Tactic

set_option maxRecDepth 16384

noncomputable section

namespace Cert.KernelIdeal.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The rectangles the body reads and writes: each window's whole block -/

abbrev r2_S50x128x128 : Rect S50x128x128 := Rect.unit (s := S50x128x128) ![0, 0, 0] S50x128x128.size inb_S50x128x128_S50x128x128_0_0_0
abbrev r2_S128x128 : Rect S128x128 := Rect.unit (s := S128x128) ![0, 0] S128x128.size inb_S128x128_S128x128_0_0
abbrev r2_S50x128x8 : Rect S50x128x8 := Rect.unit (s := S50x128x8) ![0, 0, 0] S50x128x8.size inb_S50x128x8_S50x128x8_0_0_0
abbrev r2_S8x64 : Rect S8x64 := Rect.unit (s := S8x64) ![0, 0] S8x64.size inb_S8x64_S8x64_0_0
abbrev r2_S64x64 : Rect S64x64 := Rect.unit (s := S64x64) ![0, 0] S64x64.size inb_S64x64_S64x64_0_0
abbrev r2_S1x64 : Rect S1x64 := Rect.unit (s := S1x64) ![0, 0] S1x64.size inb_S1x64_S1x64_0_0
abbrev r2_S1x1 : Rect S1x1 := Rect.unit (s := S1x1) ![0, 0] S1x1.size inb_S1x1_S1x1_0_0
abbrev r2_S128x64 : Rect S128x64 := Rect.unit (s := S128x64) ![0, 0] S128x64.size inb_S128x64_S128x64_0_0

/-! ## What the body leaves in the output window's buffer -/

/-- Window 13's staging buffer after the body, from the thirteen input blocks: the one store, over the
    whole block, of the composed payload. -/
def out2_13 (x0 : Vec F S50x128x128 .f32) (x1 : Vec F S128x128 .f32) (x2 : Vec F S50x128x8 .i8) (x3 : Vec F S8x64 .f32) (x4 : Vec F S64x64 .f32) (x5 : Vec F S1x64 .f32) (x6 : Vec F S64x64 .bf16) (x7 : Vec F S1x64 .bf16) (x8 : Vec F S64x64 .bf16) (x9 : Vec F S64x64 .bf16) (x10 : Vec F S1x64 .bf16) (x11 : Vec F S1x64 .bf16) (x12 : Vec F S1x1 .f32) : Vec F S128x64 .f32 :=
  View.canon [⟨r2_S128x64, k2_pay1 (k2_pay4 (k2_pay2 (View.ld x0 r2_S50x128x128) (View.ld x3 r2_S8x64) (View.ld x4 r2_S64x64) (View.ld x5 r2_S1x64) (View.ld x2 r2_S50x128x8) (View.ld x6 r2_S64x64) (View.ld x7 r2_S1x64)) (k2_pay3 (View.ld x1 r2_S128x128)) (View.ld x8 r2_S64x64) (View.ld x9 r2_S64x64) (View.ld x10 r2_S1x64) (View.ld x11 r2_S1x64) (View.ld x12 r2_S1x1)) (k2_pay5 (k2_pay2 (View.ld x0 r2_S50x128x128) (View.ld x3 r2_S8x64) (View.ld x4 r2_S64x64) (View.ld x5 r2_S1x64) (View.ld x2 r2_S50x128x8) (View.ld x6 r2_S64x64) (View.ld x7 r2_S1x64)) (k2_pay3 (View.ld x1 r2_S128x128)) (View.ld x8 r2_S64x64) (View.ld x9 r2_S64x64) (View.ld x10 r2_S1x64) (View.ld x11 r2_S1x64) (View.ld x12 r2_S1x1)) (k2_pay6 (k2_pay2 (View.ld x0 r2_S50x128x128) (View.ld x3 r2_S8x64) (View.ld x4 r2_S64x64) (View.ld x5 r2_S1x64) (View.ld x2 r2_S50x128x8) (View.ld x6 r2_S64x64) (View.ld x7 r2_S1x64)))⟩]

/-- The one store covers the output block. -/
theorem cover2_13 (p0 : Vec F S128x64 .f32) (y : S128x64.Idx) :
    ∃ pc ∈ ([⟨r2_S128x64, p0⟩] : List (View.Piece (Elt F) S128x64 .f32)), y ∈ pc.1.set :=
  View.cover_of_tiled [⟨r2_S128x64, p0⟩] S128x64.size (by rfl) y

/-! ## The body's run -/

set_option maxHeartbeats 4000000 in
/-- The body on whole staging memrefs, the thirteen inputs' at contents x0 … x12 and the output's at
    anything, runs to the continuation with the inputs' as they were and the output's at out2_13 of the
    inputs'. -/
theorem sound_kernel2 (𝒱₀ : Variants) (c : Dev nD) (E : Set Name) (i : grid2.Coords) (arg1 : Memref sig .tc .vmem S50x128x128 .f32) (harg1 : arg1.IsWhole) (arg2 : Memref sig .tc .vmem S128x128 .f32) (harg2 : arg2.IsWhole) (arg3 : Memref sig .tc .vmem S50x128x8 .i8) (harg3 : arg3.IsWhole) (arg4 : Memref sig .tc .vmem S8x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .bf16) (harg7 : arg7.IsWhole) (arg8 : Memref sig .tc .vmem S1x64 .bf16) (harg8 : arg8.IsWhole) (arg9 : Memref sig .tc .vmem S64x64 .bf16) (harg9 : arg9.IsWhole) (arg10 : Memref sig .tc .vmem S64x64 .bf16) (harg10 : arg10.IsWhole) (arg11 : Memref sig .tc .vmem S1x64 .bf16) (harg11 : arg11.IsWhole) (arg12 : Memref sig .tc .vmem S1x64 .bf16) (harg12 : arg12.IsWhole) (arg13 : Memref sig .tc .vmem S1x1 .f32) (harg13 : arg13.IsWhole) (arg14 : Memref sig .tc .vmem S128x64 .f32) (harg14 : arg14.IsWhole)
    (x0 : Vec F S50x128x128 .f32) (x1 : Vec F S128x128 .f32) (x2 : Vec F S50x128x8 .i8) (x3 : Vec F S8x64 .f32) (x4 : Vec F S64x64 .f32) (x5 : Vec F S1x64 .f32) (x6 : Vec F S64x64 .bf16) (x7 : Vec F S1x64 .bf16) (x8 : Vec F S64x64 .bf16) (x9 : Vec F S64x64 .bf16) (x10 : Vec F S1x64 .bf16) (x11 : Vec F S1x64 .bf16) (x12 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out2_13 x0 x1 x2 x3 x4 x5 x6 x7 x8 x9 x10 x11 x12)) -∗ K ⟨⟩))
      ⊢ wp frame (wpE (defs₀ (F := F)) 𝒱₀ c none) E (cc2__tc_body i arg1 harg1 arg2 harg2 arg3 harg3 arg4 harg4 arg5 harg5 arg6 harg6 arg7 harg7 arg8 harg8 arg9 harg9 arg10 harg10 arg11 harg11 arg12 harg12 arg13 harg13 arg14 harg14) K := by
  simp only [cc2__tc_body_eq_skeleton]; unfold cc2__tc_body_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  exact View.read_writes_eq_canon _ _ _ (cover2_13 _)

end Cert.KernelIdeal.Tc

end
-- ==== Proof.TcDat2.lean ====
/-
  The proof data of TensorCore pallas call 2 on one core, and its body obligation.

  The region is entered with each windowed array at some contents A w (whatever ran before the region
  left there).  No window of this call is clipped or idle, so at every point each input window's
  current staging buffer holds the array's block there — fetched at that point, or fetched earlier
  with the block index unmoved since — and the output window's buffer holds anything.  The body reads
  the thirteen input blocks and leaves them in place, and leaves in the output buffer the composed
  payload of those blocks.  The invariant carried beside the windows (everything of the core the body
  does not touch) and the tallies the core owes are parameters, constant from point to point: the
  body touches neither.
-/
import proofs.«217981_g19061064860210_cont_8to1_1320_37_alg».proof.Proof.TcBody2

set_option maxRecDepth 16384

noncomputable section

namespace Cert.KernelIdeal.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The windows' blocks -/

/-- Window w's block at point t, read off its array as the region finds it (A w). -/
def iblk2 (c : Dev nD) (A : (w : Fin cfg2.W) → Buf (Elt F) ((cfg2.win w).arr.view.loc (c.tc : Thread nD τ))) (w : Fin cfg2.W) (t : Fin cfg2.N) :
    ((cfg2.win w).xblock (cfg2.grid.coords t)).Idx → Elt F (cfg2.win w).elt :=
  ((cfg2.win w).blk t).view.read (Elt F) (A w)

/-- Input window 0's current staging buffer holds its block at every point, fetched there or not, for any
    proof data whose array is A's and whose body leaves the block in place: the window is uncut and never idle. -/
theorem before2_0_of {c : Dev nD} (A : (w : Fin cfg2.W) → Buf (Elt F) ((cfg2.win w).arr.view.loc (c.tc : Thread nD τ))) (dat : Dat τ (Elt F) Ix Name U Lvl cfg2 c) (hA : dat.A 0 = A 0)
    (hafter : ∀ t, dat.after 0 t = iblk2 c A 0 t) (t : Fin cfg2.N) (d) : dat.before 0 t d = iblk2 c A 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any
    proof data whose array is A's and whose body leaves the block in place: the window is uncut and never idle. -/
theorem before2_1_of {c : Dev nD} (A : (w : Fin cfg2.W) → Buf (Elt F) ((cfg2.win w).arr.view.loc (c.tc : Thread nD τ))) (dat : Dat τ (Elt F) Ix Name U Lvl cfg2 c) (hA : dat.A 1 = A 1)
    (hafter : ∀ t, dat.after 1 t = iblk2 c A 1 t) (t : Fin cfg2.N) (d) : dat.before 1 t d = iblk2 c A 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any
    proof data whose array is A's and whose body leaves the block in place: the window is uncut and never idle. -/
theorem before2_2_of {c : Dev nD} (A : (w : Fin cfg2.W) → Buf (Elt F) ((cfg2.win w).arr.view.loc (c.tc : Thread nD τ))) (dat : Dat τ (Elt F) Ix Name U Lvl cfg2 c) (hA : dat.A 2 = A 2)
    (hafter : ∀ t, dat.after 2 t = iblk2 c A 2 t) (t : Fin cfg2.N) (d) : dat.before 2 t d = iblk2 c A 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for any
    proof data whose array is A's and whose body leaves the block in place: the window is uncut and never idle. -/
theorem before2_3_of {c : Dev nD} (A : (w : Fin cfg2.W) → Buf (Elt F) ((cfg2.win w).arr.view.loc (c.tc : Thread nD τ))) (dat : Dat τ (Elt F) Ix Name U Lvl cfg2 c) (hA : dat.A 3 = A 3)
    (hafter : ∀ t, dat.after 3 t = iblk2 c A 3 t) (t : Fin cfg2.N) (d) : dat.before 3 t d = iblk2 c A 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for any
    proof data whose array is A's and whose body leaves the block in place: the window is uncut and never idle. -/
theorem before2_4_of {c : Dev nD} (A : (w : Fin cfg2.W) → Buf (Elt F) ((cfg2.win w).arr.view.loc (c.tc : Thread nD τ))) (dat : Dat τ (Elt F) Ix Name U Lvl cfg2 c) (hA : dat.A 4 = A 4)
    (hafter : ∀ t, dat.after 4 t = iblk2 c A 4 t) (t : Fin cfg2.N) (d) : dat.before 4 t d = iblk2 c A 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for any
    proof data whose array is A's and whose body leaves the block in place: the window is uncut and never idle. -/
theorem before2_5_of {c : Dev nD} (A : (w : Fin cfg2.W) → Buf (Elt F) ((cfg2.win w).arr.view.loc (c.tc : Thread nD τ))) (dat : Dat τ (Elt F) Ix Name U Lvl cfg2 c) (hA : dat.A 5 = A 5)
    (hafter : ∀ t, dat.after 5 t = iblk2 c A 5 t) (t : Fin cfg2.N) (d) : dat.before 5 t d = iblk2 c A 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not, for any
    proof data whose array is A's and whose body leaves the block in place: the window is uncut and never idle. -/
theorem before2_6_of {c : Dev nD} (A : (w : Fin cfg2.W) → Buf (Elt F) ((cfg2.win w).arr.view.loc (c.tc : Thread nD τ))) (dat : Dat τ (Elt F) Ix Name U Lvl cfg2 c) (hA : dat.A 6 = A 6)
    (hafter : ∀ t, dat.after 6 t = iblk2 c A 6 t) (t : Fin cfg2.N) (d) : dat.before 6 t d = iblk2 c A 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- Input window 7's current staging buffer holds its block at every point, fetched there or not, for any
    proof data whose array is A's and whose body leaves the block in place: the window is uncut and never idle. -/
theorem before2_7_of {c : Dev nD} (A : (w : Fin cfg2.W) → Buf (Elt F) ((cfg2.win w).arr.view.loc (c.tc : Thread nD τ))) (dat : Dat τ (Elt F) Ix Name U Lvl cfg2 c) (hA : dat.A 7 = A 7)
    (hafter : ∀ t, dat.after 7 t = iblk2 c A 7 t) (t : Fin cfg2.N) (d) : dat.before 7 t d = iblk2 c A 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
/-- Input window 8's current staging buffer holds its block at every point, fetched there or not, for any
    proof data whose array is A's and whose body leaves the block in place: the window is uncut and never idle. -/
theorem before2_8_of {c : Dev nD} (A : (w : Fin cfg2.W) → Buf (Elt F) ((cfg2.win w).arr.view.loc (c.tc : Thread nD τ))) (dat : Dat τ (Elt F) Ix Name U Lvl cfg2 c) (hA : dat.A 8 = A 8)
    (hafter : ∀ t, dat.after 8 t = iblk2 c A 8 t) (t : Fin cfg2.N) (d) : dat.before 8 t d = iblk2 c A 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
/-- Input window 9's current staging buffer holds its block at every point, fetched there or not, for any
    proof data whose array is A's and whose body leaves the block in place: the window is uncut and never idle. -/
theorem before2_9_of {c : Dev nD} (A : (w : Fin cfg2.W) → Buf (Elt F) ((cfg2.win w).arr.view.loc (c.tc : Thread nD τ))) (dat : Dat τ (Elt F) Ix Name U Lvl cfg2 c) (hA : dat.A 9 = A 9)
    (hafter : ∀ t, dat.after 9 t = iblk2 c A 9 t) (t : Fin cfg2.N) (d) : dat.before 9 t d = iblk2 c A 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
/-- Input window 10's current staging buffer holds its block at every point, fetched there or not, for any
    proof data whose array is A's and whose body leaves the block in place: the window is uncut and never idle. -/
theorem before2_10_of {c : Dev nD} (A : (w : Fin cfg2.W) → Buf (Elt F) ((cfg2.win w).arr.view.loc (c.tc : Thread nD τ))) (dat : Dat τ (Elt F) Ix Name U Lvl cfg2 c) (hA : dat.A 10 = A 10)
    (hafter : ∀ t, dat.after 10 t = iblk2 c A 10 t) (t : Fin cfg2.N) (d) : dat.before 10 t d = iblk2 c A 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)
/-- Input window 11's current staging buffer holds its block at every point, fetched there or not, for any
    proof data whose array is A's and whose body leaves the block in place: the window is uncut and never idle. -/
theorem before2_11_of {c : Dev nD} (A : (w : Fin cfg2.W) → Buf (Elt F) ((cfg2.win w).arr.view.loc (c.tc : Thread nD τ))) (dat : Dat τ (Elt F) Ix Name U Lvl cfg2 c) (hA : dat.A 11 = A 11)
    (hafter : ∀ t, dat.after 11 t = iblk2 c A 11 t) (t : Fin cfg2.N) (d) : dat.before 11 t d = iblk2 c A 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)
/-- Input window 12's current staging buffer holds its block at every point, fetched there or not, for any
    proof data whose array is A's and whose body leaves the block in place: the window is uncut and never idle. -/
theorem before2_12_of {c : Dev nD} (A : (w : Fin cfg2.W) → Buf (Elt F) ((cfg2.win w).arr.view.loc (c.tc : Thread nD τ))) (dat : Dat τ (Elt F) Ix Name U Lvl cfg2 c) (hA : dat.A 12 = A 12)
    (hafter : ∀ t, dat.after 12 t = iblk2 c A 12 t) (t : Fin cfg2.N) (d) : dat.before 12 t d = iblk2 c A 12 t :=
  (dat.before_in_eq_fetched 12 rfl (fun _ => rfl) (fun _ _ _ => rfl) (fun t => by rw [hafter]; unfold Dat.blockOf iblk2; rw [hA]; try rfl) t d).trans
    (by unfold Dat.fetched Dat.blockOf iblk2; rw [hA]; try rfl)

/-! ## The proof data -/

/-- The proof data of the pipeline on core c: the arrays as the region finds them (A); after the body at
    point t each input's buffer at its block and the output's at the composed payload of the input blocks;
    the invariant Φ₀, the owed tallies O and the bound B on the recorded pairs at every point; full shares. -/
def dats2 (c : Dev nD) (A : (w : Fin cfg2.W) → Buf (Elt F) ((cfg2.win w).arr.view.loc (c.tc : Thread nD τ))) (Φ₀ : sProp 𝕄) (O : CellTallies nD τ sig Ix) (B : Set (SemLoc sig × Ix)) : Dat τ (Elt F) Ix Name U Lvl cfg2 c where
  A w := A w
  after w t := match w with
    | ⟨0, _⟩ => iblk2 c A 0 t
    | ⟨1, _⟩ => iblk2 c A 1 t
    | ⟨2, _⟩ => iblk2 c A 2 t
    | ⟨3, _⟩ => iblk2 c A 3 t
    | ⟨4, _⟩ => iblk2 c A 4 t
    | ⟨5, _⟩ => iblk2 c A 5 t
    | ⟨6, _⟩ => iblk2 c A 6 t
    | ⟨7, _⟩ => iblk2 c A 7 t
    | ⟨8, _⟩ => iblk2 c A 8 t
    | ⟨9, _⟩ => iblk2 c A 9 t
    | ⟨10, _⟩ => iblk2 c A 10 t
    | ⟨11, _⟩ => iblk2 c A 11 t
    | ⟨12, _⟩ => iblk2 c A 12 t
    | ⟨13, _⟩ => out2_13 (iblk2 c A 0 t) (iblk2 c A 1 t) (iblk2 c A 2 t) (iblk2 c A 3 t) (iblk2 c A 4 t) (iblk2 c A 5 t) (iblk2 c A 6 t) (iblk2 c A 7 t) (iblk2 c A 8 t) (iblk2 c A 9 t) (iblk2 c A 10 t) (iblk2 c A 11 t) (iblk2 c A 12 t)
  Φ _ := Φ₀
  q _ := fullShare
  owed _ := O
  recorded _ := B

/-- The proof data's arrays are the region-entry contents. -/
theorem A_eq2 (c : Dev nD) (A : (w : Fin cfg2.W) → Buf (Elt F) ((cfg2.win w).arr.view.loc (c.tc : Thread nD τ))) (Φ₀ : sProp 𝕄) (O : CellTallies nD τ sig Ix) (B : Set (SemLoc sig × Ix)) (w : Fin cfg2.W) : (dats2 (F := F) (Ix := Ix) (Name := Name) (U := U) (Lvl := Lvl) c A Φ₀ O B).A w = A w := by dsimp only [dats2]

/-- What the body leaves, window by window. -/
theorem after2_0 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) : (dats2 (F := F) (Ix := Ix) (Name := Name) (U := U) (Lvl := Lvl) c A Φ₀ O B).after 0 t = iblk2 c A 0 t := by dsimp only [dats2]
theorem after2_1 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) : (dats2 (F := F) (Ix := Ix) (Name := Name) (U := U) (Lvl := Lvl) c A Φ₀ O B).after 1 t = iblk2 c A 1 t := by dsimp only [dats2]
theorem after2_2 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) : (dats2 (F := F) (Ix := Ix) (Name := Name) (U := U) (Lvl := Lvl) c A Φ₀ O B).after 2 t = iblk2 c A 2 t := by dsimp only [dats2]
theorem after2_3 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) : (dats2 (F := F) (Ix := Ix) (Name := Name) (U := U) (Lvl := Lvl) c A Φ₀ O B).after 3 t = iblk2 c A 3 t := by dsimp only [dats2]
theorem after2_4 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) : (dats2 (F := F) (Ix := Ix) (Name := Name) (U := U) (Lvl := Lvl) c A Φ₀ O B).after 4 t = iblk2 c A 4 t := by dsimp only [dats2]
theorem after2_5 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) : (dats2 (F := F) (Ix := Ix) (Name := Name) (U := U) (Lvl := Lvl) c A Φ₀ O B).after 5 t = iblk2 c A 5 t := by dsimp only [dats2]
theorem after2_6 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) : (dats2 (F := F) (Ix := Ix) (Name := Name) (U := U) (Lvl := Lvl) c A Φ₀ O B).after 6 t = iblk2 c A 6 t := by dsimp only [dats2]
theorem after2_7 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) : (dats2 (F := F) (Ix := Ix) (Name := Name) (U := U) (Lvl := Lvl) c A Φ₀ O B).after 7 t = iblk2 c A 7 t := by dsimp only [dats2]
theorem after2_8 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) : (dats2 (F := F) (Ix := Ix) (Name := Name) (U := U) (Lvl := Lvl) c A Φ₀ O B).after 8 t = iblk2 c A 8 t := by dsimp only [dats2]
theorem after2_9 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) : (dats2 (F := F) (Ix := Ix) (Name := Name) (U := U) (Lvl := Lvl) c A Φ₀ O B).after 9 t = iblk2 c A 9 t := by dsimp only [dats2]
theorem after2_10 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) : (dats2 (F := F) (Ix := Ix) (Name := Name) (U := U) (Lvl := Lvl) c A Φ₀ O B).after 10 t = iblk2 c A 10 t := by dsimp only [dats2]
theorem after2_11 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) : (dats2 (F := F) (Ix := Ix) (Name := Name) (U := U) (Lvl := Lvl) c A Φ₀ O B).after 11 t = iblk2 c A 11 t := by dsimp only [dats2]
theorem after2_12 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) : (dats2 (F := F) (Ix := Ix) (Name := Name) (U := U) (Lvl := Lvl) c A Φ₀ O B).after 12 t = iblk2 c A 12 t := by dsimp only [dats2]
theorem after2_13 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) : (dats2 (F := F) (Ix := Ix) (Name := Name) (U := U) (Lvl := Lvl) c A Φ₀ O B).after 13 t = out2_13 (iblk2 c A 0 t) (iblk2 c A 1 t) (iblk2 c A 2 t) (iblk2 c A 3 t) (iblk2 c A 4 t) (iblk2 c A 5 t) (iblk2 c A 6 t) (iblk2 c A 7 t) (iblk2 c A 8 t) (iblk2 c A 9 t) (iblk2 c A 10 t) (iblk2 c A 11 t) (iblk2 c A 12 t) := by dsimp only [dats2]

/-- Each input's current staging buffer holds its block at every point, fetched there or not. -/
theorem before2_0 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) (d) : (dats2 (F := F) (Ix := Ix) (Name := Name) (U := U) (Lvl := Lvl) c A Φ₀ O B).before 0 t d = iblk2 c A 0 t :=
  before2_0_of A (dats2 (F := F) (Ix := Ix) (Name := Name) (U := U) (Lvl := Lvl) c A Φ₀ O B) (A_eq2 c A Φ₀ O B 0) (after2_0 c A Φ₀ O B) t d
theorem before2_1 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) (d) : (dats2 (F := F) (Ix := Ix) (Name := Name) (U := U) (Lvl := Lvl) c A Φ₀ O B).before 1 t d = iblk2 c A 1 t :=
  before2_1_of A (dats2 (F := F) (Ix := Ix) (Name := Name) (U := U) (Lvl := Lvl) c A Φ₀ O B) (A_eq2 c A Φ₀ O B 1) (after2_1 c A Φ₀ O B) t d
theorem before2_2 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) (d) : (dats2 (F := F) (Ix := Ix) (Name := Name) (U := U) (Lvl := Lvl) c A Φ₀ O B).before 2 t d = iblk2 c A 2 t :=
  before2_2_of A (dats2 (F := F) (Ix := Ix) (Name := Name) (U := U) (Lvl := Lvl) c A Φ₀ O B) (A_eq2 c A Φ₀ O B 2) (after2_2 c A Φ₀ O B) t d
theorem before2_3 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) (d) : (dats2 (F := F) (Ix := Ix) (Name := Name) (U := U) (Lvl := Lvl) c A Φ₀ O B).before 3 t d = iblk2 c A 3 t :=
  before2_3_of A (dats2 (F := F) (Ix := Ix) (Name := Name) (U := U) (Lvl := Lvl) c A Φ₀ O B) (A_eq2 c A Φ₀ O B 3) (after2_3 c A Φ₀ O B) t d
theorem before2_4 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) (d) : (dats2 (F := F) (Ix := Ix) (Name := Name) (U := U) (Lvl := Lvl) c A Φ₀ O B).before 4 t d = iblk2 c A 4 t :=
  before2_4_of A (dats2 (F := F) (Ix := Ix) (Name := Name) (U := U) (Lvl := Lvl) c A Φ₀ O B) (A_eq2 c A Φ₀ O B 4) (after2_4 c A Φ₀ O B) t d
theorem before2_5 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) (d) : (dats2 (F := F) (Ix := Ix) (Name := Name) (U := U) (Lvl := Lvl) c A Φ₀ O B).before 5 t d = iblk2 c A 5 t :=
  before2_5_of A (dats2 (F := F) (Ix := Ix) (Name := Name) (U := U) (Lvl := Lvl) c A Φ₀ O B) (A_eq2 c A Φ₀ O B 5) (after2_5 c A Φ₀ O B) t d
theorem before2_6 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) (d) : (dats2 (F := F) (Ix := Ix) (Name := Name) (U := U) (Lvl := Lvl) c A Φ₀ O B).before 6 t d = iblk2 c A 6 t :=
  before2_6_of A (dats2 (F := F) (Ix := Ix) (Name := Name) (U := U) (Lvl := Lvl) c A Φ₀ O B) (A_eq2 c A Φ₀ O B 6) (after2_6 c A Φ₀ O B) t d
theorem before2_7 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) (d) : (dats2 (F := F) (Ix := Ix) (Name := Name) (U := U) (Lvl := Lvl) c A Φ₀ O B).before 7 t d = iblk2 c A 7 t :=
  before2_7_of A (dats2 (F := F) (Ix := Ix) (Name := Name) (U := U) (Lvl := Lvl) c A Φ₀ O B) (A_eq2 c A Φ₀ O B 7) (after2_7 c A Φ₀ O B) t d
theorem before2_8 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) (d) : (dats2 (F := F) (Ix := Ix) (Name := Name) (U := U) (Lvl := Lvl) c A Φ₀ O B).before 8 t d = iblk2 c A 8 t :=
  before2_8_of A (dats2 (F := F) (Ix := Ix) (Name := Name) (U := U) (Lvl := Lvl) c A Φ₀ O B) (A_eq2 c A Φ₀ O B 8) (after2_8 c A Φ₀ O B) t d
theorem before2_9 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) (d) : (dats2 (F := F) (Ix := Ix) (Name := Name) (U := U) (Lvl := Lvl) c A Φ₀ O B).before 9 t d = iblk2 c A 9 t :=
  before2_9_of A (dats2 (F := F) (Ix := Ix) (Name := Name) (U := U) (Lvl := Lvl) c A Φ₀ O B) (A_eq2 c A Φ₀ O B 9) (after2_9 c A Φ₀ O B) t d
theorem before2_10 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) (d) : (dats2 (F := F) (Ix := Ix) (Name := Name) (U := U) (Lvl := Lvl) c A Φ₀ O B).before 10 t d = iblk2 c A 10 t :=
  before2_10_of A (dats2 (F := F) (Ix := Ix) (Name := Name) (U := U) (Lvl := Lvl) c A Φ₀ O B) (A_eq2 c A Φ₀ O B 10) (after2_10 c A Φ₀ O B) t d
theorem before2_11 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) (d) : (dats2 (F := F) (Ix := Ix) (Name := Name) (U := U) (Lvl := Lvl) c A Φ₀ O B).before 11 t d = iblk2 c A 11 t :=
  before2_11_of A (dats2 (F := F) (Ix := Ix) (Name := Name) (U := U) (Lvl := Lvl) c A Φ₀ O B) (A_eq2 c A Φ₀ O B 11) (after2_11 c A Φ₀ O B) t d
theorem before2_12 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) (d) : (dats2 (F := F) (Ix := Ix) (Name := Name) (U := U) (Lvl := Lvl) c A Φ₀ O B).before 12 t d = iblk2 c A 12 t :=
  before2_12_of A (dats2 (F := F) (Ix := Ix) (Name := Name) (U := U) (Lvl := Lvl) c A Φ₀ O B) (A_eq2 c A Φ₀ O B 12) (after2_12 c A Φ₀ O B) t d

/-! ## The body obligation, at a generic point -/

/-- What the body is called with at point t: the invariant, what the core owes, and every window's current
    staging buffer at what it then holds, -/
def bodyPre2 (c : Dev nD) (A : (w : Fin cfg2.W) → Buf (Elt F) ((cfg2.win w).arr.view.loc (c.tc : Thread nD τ))) (Φ₀ : sProp 𝕄) (O : CellTallies nD τ sig Ix) (B : Set (SemLoc sig × Ix)) (ι : Ix) (t : Fin cfg2.N) : sProp 𝕄 :=
  iprop((dats2 (F := F) (Ix := Ix) (Name := Name) (U := U) (Lvl := Lvl) c A Φ₀ O B).Φ t.castSucc ∗ (dats2 (F := F) (Ix := Ix) (Name := Name) (U := U) (Lvl := Lvl) c A Φ₀ O B).owesAt ι t.castSucc
    ∗ (∃ d, owns (c : Thread nD τ) (st2_0 t) fullShare ((dats2 (F := F) (Ix := Ix) (Name := Name) (U := U) (Lvl := Lvl) c A Φ₀ O B).before 0 t d))
    ∗ (∃ d, owns (c : Thread nD τ) (st2_1 t) fullShare ((dats2 (F := F) (Ix := Ix) (Name := Name) (U := U) (Lvl := Lvl) c A Φ₀ O B).before 1 t d))
    ∗ (∃ d, owns (c : Thread nD τ) (st2_2 t) fullShare ((dats2 (F := F) (Ix := Ix) (Name := Name) (U := U) (Lvl := Lvl) c A Φ₀ O B).before 2 t d))
    ∗ (∃ d, owns (c : Thread nD τ) (st2_3 t) fullShare ((dats2 (F := F) (Ix := Ix) (Name := Name) (U := U) (Lvl := Lvl) c A Φ₀ O B).before 3 t d))
    ∗ (∃ d, owns (c : Thread nD τ) (st2_4 t) fullShare ((dats2 (F := F) (Ix := Ix) (Name := Name) (U := U) (Lvl := Lvl) c A Φ₀ O B).before 4 t d))
    ∗ (∃ d, owns (c : Thread nD τ) (st2_5 t) fullShare ((dats2 (F := F) (Ix := Ix) (Name := Name) (U := U) (Lvl := Lvl) c A Φ₀ O B).before 5 t d))
    ∗ (∃ d, owns (c : Thread nD τ) (st2_6 t) fullShare ((dats2 (F := F) (Ix := Ix) (Name := Name) (U := U) (Lvl := Lvl) c A Φ₀ O B).before 6 t d))
    ∗ (∃ d, owns (c : Thread nD τ) (st2_7 t) fullShare ((dats2 (F := F) (Ix := Ix) (Name := Name) (U := U) (Lvl := Lvl) c A Φ₀ O B).before 7 t d))
    ∗ (∃ d, owns (c : Thread nD τ) (st2_8 t) fullShare ((dats2 (F := F) (Ix := Ix) (Name := Name) (U := U) (Lvl := Lvl) c A Φ₀ O B).before 8 t d))
    ∗ (∃ d, owns (c : Thread nD τ) (st2_9 t) fullShare ((dats2 (F := F) (Ix := Ix) (Name := Name) (U := U) (Lvl := Lvl) c A Φ₀ O B).before 9 t d))
    ∗ (∃ d, owns (c : Thread nD τ) (st2_10 t) fullShare ((dats2 (F := F) (Ix := Ix) (Name := Name) (U := U) (Lvl := Lvl) c A Φ₀ O B).before 10 t d))
    ∗ (∃ d, owns (c : Thread nD τ) (st2_11 t) fullShare ((dats2 (F := F) (Ix := Ix) (Name := Name) (U := U) (Lvl := Lvl) c A Φ₀ O B).before 11 t d))
    ∗ (∃ d, owns (c : Thread nD τ) (st2_12 t) fullShare ((dats2 (F := F) (Ix := Ix) (Name := Name) (U := U) (Lvl := Lvl) c A Φ₀ O B).before 12 t d))
    ∗ (∃ d, owns (c : Thread nD τ) (st2_13 t) fullShare ((dats2 (F := F) (Ix := Ix) (Name := Name) (U := U) (Lvl := Lvl) c A Φ₀ O B).before 13 t d)))

/-- and what it returns: the same invariant and owed tallies, and every buffer at what the body leaves. -/
def bodyPost2 (c : Dev nD) (A : (w : Fin cfg2.W) → Buf (Elt F) ((cfg2.win w).arr.view.loc (c.tc : Thread nD τ))) (Φ₀ : sProp 𝕄) (O : CellTallies nD τ sig Ix) (B : Set (SemLoc sig × Ix)) (ι : Ix) (t : Fin cfg2.N) : sProp 𝕄 :=
  iprop((dats2 (F := F) (Ix := Ix) (Name := Name) (U := U) (Lvl := Lvl) c A Φ₀ O B).Φ t.succ ∗ (dats2 (F := F) (Ix := Ix) (Name := Name) (U := U) (Lvl := Lvl) c A Φ₀ O B).owesAt ι t.succ
    ∗ owns (c : Thread nD τ) (st2_0 t) fullShare ((dats2 (F := F) (Ix := Ix) (Name := Name) (U := U) (Lvl := Lvl) c A Φ₀ O B).after 0 t)
    ∗ owns (c : Thread nD τ) (st2_1 t) fullShare ((dats2 (F := F) (Ix := Ix) (Name := Name) (U := U) (Lvl := Lvl) c A Φ₀ O B).after 1 t)
    ∗ owns (c : Thread nD τ) (st2_2 t) fullShare ((dats2 (F := F) (Ix := Ix) (Name := Name) (U := U) (Lvl := Lvl) c A Φ₀ O B).after 2 t)
    ∗ owns (c : Thread nD τ) (st2_3 t) fullShare ((dats2 (F := F) (Ix := Ix) (Name := Name) (U := U) (Lvl := Lvl) c A Φ₀ O B).after 3 t)
    ∗ owns (c : Thread nD τ) (st2_4 t) fullShare ((dats2 (F := F) (Ix := Ix) (Name := Name) (U := U) (Lvl := Lvl) c A Φ₀ O B).after 4 t)
    ∗ owns (c : Thread nD τ) (st2_5 t) fullShare ((dats2 (F := F) (Ix := Ix) (Name := Name) (U := U) (Lvl := Lvl) c A Φ₀ O B).after 5 t)
    ∗ owns (c : Thread nD τ) (st2_6 t) fullShare ((dats2 (F := F) (Ix := Ix) (Name := Name) (U := U) (Lvl := Lvl) c A Φ₀ O B).after 6 t)
    ∗ owns (c : Thread nD τ) (st2_7 t) fullShare ((dats2 (F := F) (Ix := Ix) (Name := Name) (U := U) (Lvl := Lvl) c A Φ₀ O B).after 7 t)
    ∗ owns (c : Thread nD τ) (st2_8 t) fullShare ((dats2 (F := F) (Ix := Ix) (Name := Name) (U := U) (Lvl := Lvl) c A Φ₀ O B).after 8 t)
    ∗ owns (c : Thread nD τ) (st2_9 t) fullShare ((dats2 (F := F) (Ix := Ix) (Name := Name) (U := U) (Lvl := Lvl) c A Φ₀ O B).after 9 t)
    ∗ owns (c : Thread nD τ) (st2_10 t) fullShare ((dats2 (F := F) (Ix := Ix) (Name := Name) (U := U) (Lvl := Lvl) c A Φ₀ O B).after 10 t)
    ∗ owns (c : Thread nD τ) (st2_11 t) fullShare ((dats2 (F := F) (Ix := Ix) (Name := Name) (U := U) (Lvl := Lvl) c A Φ₀ O B).after 11 t)
    ∗ owns (c : Thread nD τ) (st2_12 t) fullShare ((dats2 (F := F) (Ix := Ix) (Name := Name) (U := U) (Lvl := Lvl) c A Φ₀ O B).after 12 t)
    ∗ owns (c : Thread nD τ) (st2_13 t) fullShare ((dats2 (F := F) (Ix := Ix) (Name := Name) (U := U) (Lvl := Lvl) c A Φ₀ O B).after 13 t))

set_option maxHeartbeats 4000000 in
/-- The body at any point: the inputs' buffers hold their blocks, so the body's run applies; the invariant
    and the core's owed tallies pass through unread. -/
theorem sound_body2 (c : Dev nD) (A : (w : Fin cfg2.W) → Buf (Elt F) ((cfg2.win w).arr.view.loc (c.tc : Thread nD τ))) (Φ₀ : sProp 𝕄) (O : CellTallies nD τ sig Ix) (B : Set (SemLoc sig × Ix)) (𝒱₀ : Variants) (ι : Ix) (t : Fin cfg2.N) :
    bodyPre2 c A Φ₀ O B ι t ⊢ wp frame (wpE (defs₀ (F := F)) 𝒱₀ c none) Set.univ (bodyAt2 t) (fun _ => bodyPost2 c A Φ₀ O B ι t) := by
  unfold bodyPre2 bodyPost2 bodyAt2
  simp only [before2_0, before2_1, before2_2, before2_3, before2_4, before2_5, before2_6, before2_7, before2_8, before2_9, before2_10, before2_11, before2_12]
  rw [show (dats2 (F := F) (Ix := Ix) (Name := Name) (U := U) (Lvl := Lvl) c A Φ₀ O B).Φ t.succ = (dats2 (F := F) (Ix := Ix) (Name := Name) (U := U) (Lvl := Lvl) c A Φ₀ O B).Φ t.castSucc from rfl,
    show (dats2 (F := F) (Ix := Ix) (Name := Name) (U := U) (Lvl := Lvl) c A Φ₀ O B).owesAt ι t.succ = (dats2 (F := F) (Ix := Ix) (Name := Name) (U := U) (Lvl := Lvl) c A Φ₀ O B).owesAt ι t.castSucc from rfl,
    after2_0, after2_1, after2_2, after2_3, after2_4, after2_5, after2_6, after2_7, after2_8, after2_9, after2_10, after2_11, after2_12, after2_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel2 𝒱₀ c Set.univ (grid2.coords t) _ _ _ _ _ _ _ _ _ _ _ _ _ _ _ _ _ _ _ _ _ _ _ _ _ _ _ _ (iblk2 c A 0 t) (iblk2 c A 1 t) (iblk2 c A 2 t) (iblk2 c A 3 t) (iblk2 c A 4 t) (iblk2 c A 5 t) (iblk2 c A 6 t) (iblk2 c A 7 t) (iblk2 c A 8 t) (iblk2 c A 9 t) (iblk2 c A 10 t) (iblk2 c A 11 t) (iblk2 c A 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation for this proof data, at every point. -/
theorem body_obligation2 (c : Dev nD) (A : (w : Fin cfg2.W) → Buf (Elt F) ((cfg2.win w).arr.view.loc (c.tc : Thread nD τ))) (Φ₀ : sProp 𝕄) (O : CellTallies nD τ sig Ix) (B : Set (SemLoc sig × Ix)) (𝒱₀ : Variants) (ι : Ix) :
    BodyObligation (dats2 (F := F) (Ix := Ix) (Name := Name) (U := U) (Lvl := Lvl) c A Φ₀ O B) (defs₀ (F := F)) 𝒱₀ ι Set.univ := fun t => by
  rw [bigSep_W2, bigSep_W2]
  exact sound_body2 c A Φ₀ O B 𝒱₀ ι t

end Cert.KernelIdeal.Tc

end
-- ==== Proof.TcBody4.lean ====
/-
  The body of TensorCore pallas call 4 on whole staging buffers: what it leaves in its output window's
  buffer, and its run.

  The body loads its thirteen input windows whole, computes, and stores one value over the whole of
  its output window (it also loads the output window first, and does not use what it loaded).  So
  after the body the output buffer holds the canonical form of that one store: the composed payload
  — the softmax-weighted sum over the 50 history rows of the rectified features, divided by the
  softmax denominator — as a function of the thirteen loaded blocks, and every input buffer is as it
  was.  The run is stated for any user ghost state and any continuation.
-/
import proofs.«217981_g19061064860210_cont_8to1_1320_37_alg».proof.Proof.Gen.KernelIdeal.Launch
import proofs.«217981_g19061064860210_cont_8to1_1320_37_alg».proof.Proof.Gen.KernelIdeal.Skeleton
import proofs.«217981_g19061064860210_cont_8to1_1320_37_alg».proof.Proof.Gen.KernelIdeal.Points
import Idealize.ShloMosaic.Lib.Pipeline.FrameBody
import Idealize.ShloMosaic.Lib.Tactic

set_option maxRecDepth 16384

noncomputable section

namespace Cert.KernelIdeal.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The rectangles the body reads and writes: each window's whole block -/

abbrev r4_S50x128x128 : Rect S50x128x128 := Rect.unit (s := S50x128x128) ![0, 0, 0] S50x128x128.size inb_S50x128x128_S50x128x128_0_0_0
abbrev r4_S128x128 : Rect S128x128 := Rect.unit (s := S128x128) ![0, 0] S128x128.size inb_S128x128_S128x128_0_0
abbrev r4_S50x128x8 : Rect S50x128x8 := Rect.unit (s := S50x128x8) ![0, 0, 0] S50x128x8.size inb_S50x128x8_S50x128x8_0_0_0
abbrev r4_S8x64 : Rect S8x64 := Rect.unit (s := S8x64) ![0, 0] S8x64.size inb_S8x64_S8x64_0_0
abbrev r4_S64x64 : Rect S64x64 := Rect.unit (s := S64x64) ![0, 0] S64x64.size inb_S64x64_S64x64_0_0
abbrev r4_S1x64 : Rect S1x64 := Rect.unit (s := S1x64) ![0, 0] S1x64.size inb_S1x64_S1x64_0_0
abbrev r4_S1x1 : Rect S1x1 := Rect.unit (s := S1x1) ![0, 0] S1x1.size inb_S1x1_S1x1_0_0
abbrev r4_S128x64 : Rect S128x64 := Rect.unit (s := S128x64) ![0, 0] S128x64.size inb_S128x64_S128x64_0_0

/-! ## What the body leaves in the output window's buffer -/

/-- Window 13's staging buffer after the body, from the thirteen input blocks: the one store, over the
    whole block, of the composed payload. -/
def out4_13 (x0 : Vec F S50x128x128 .f32) (x1 : Vec F S128x128 .f32) (x2 : Vec F S50x128x8 .i8) (x3 : Vec F S8x64 .f32) (x4 : Vec F S64x64 .f32) (x5 : Vec F S1x64 .f32) (x6 : Vec F S64x64 .bf16) (x7 : Vec F S1x64 .bf16) (x8 : Vec F S64x64 .bf16) (x9 : Vec F S64x64 .bf16) (x10 : Vec F S1x64 .bf16) (x11 : Vec F S1x64 .bf16) (x12 : Vec F S1x1 .f32) : Vec F S128x64 .f32 :=
  View.canon [⟨r4_S128x64, k4_pay1 (k4_pay4 (k4_pay2 (View.ld x0 r4_S50x128x128) (View.ld x3 r4_S8x64) (View.ld x4 r4_S64x64) (View.ld x5 r4_S1x64) (View.ld x2 r4_S50x128x8) (View.ld x6 r4_S64x64) (View.ld x7 r4_S1x64)) (k4_pay3 (View.ld x1 r4_S128x128)) (View.ld x8 r4_S64x64) (View.ld x9 r4_S64x64) (View.ld x10 r4_S1x64) (View.ld x11 r4_S1x64) (View.ld x12 r4_S1x1)) (k4_pay5 (k4_pay2 (View.ld x0 r4_S50x128x128) (View.ld x3 r4_S8x64) (View.ld x4 r4_S64x64) (View.ld x5 r4_S1x64) (View.ld x2 r4_S50x128x8) (View.ld x6 r4_S64x64) (View.ld x7 r4_S1x64)) (k4_pay3 (View.ld x1 r4_S128x128)) (View.ld x8 r4_S64x64) (View.ld x9 r4_S64x64) (View.ld x10 r4_S1x64) (View.ld x11 r4_S1x64) (View.ld x12 r4_S1x1)) (k4_pay6 (k4_pay2 (View.ld x0 r4_S50x128x128) (View.ld x3 r4_S8x64) (View.ld x4 r4_S64x64) (View.ld x5 r4_S1x64) (View.ld x2 r4_S50x128x8) (View.ld x6 r4_S64x64) (View.ld x7 r4_S1x64)))⟩]

/-- The one store covers the output block. -/
theorem cover4_13 (p0 : Vec F S128x64 .f32) (y : S128x64.Idx) :
    ∃ pc ∈ ([⟨r4_S128x64, p0⟩] : List (View.Piece (Elt F) S128x64 .f32)), y ∈ pc.1.set :=
  View.cover_of_tiled [⟨r4_S128x64, p0⟩] S128x64.size (by rfl) y

/-! ## The body's run -/

set_option maxHeartbeats 4000000 in
/-- The body on whole staging memrefs, the thirteen inputs' at contents x0 … x12 and the output's at
    anything, runs to the continuation with the inputs' as they were and the output's at out4_13 of the
    inputs'. -/
theorem sound_kernel4 (𝒱₀ : Variants) (c : Dev nD) (E : Set Name) (i : grid4.Coords) (arg1 : Memref sig .tc .vmem S50x128x128 .f32) (harg1 : arg1.IsWhole) (arg2 : Memref sig .tc .vmem S128x128 .f32) (harg2 : arg2.IsWhole) (arg3 : Memref sig .tc .vmem S50x128x8 .i8) (harg3 : arg3.IsWhole) (arg4 : Memref sig .tc .vmem S8x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .bf16) (harg7 : arg7.IsWhole) (arg8 : Memref sig .tc .vmem S1x64 .bf16) (harg8 : arg8.IsWhole) (arg9 : Memref sig .tc .vmem S64x64 .bf16) (harg9 : arg9.IsWhole) (arg10 : Memref sig .tc .vmem S64x64 .bf16) (harg10 : arg10.IsWhole) (arg11 : Memref sig .tc .vmem S1x64 .bf16) (harg11 : arg11.IsWhole) (arg12 : Memref sig .tc .vmem S1x64 .bf16) (harg12 : arg12.IsWhole) (arg13 : Memref sig .tc .vmem S1x1 .f32) (harg13 : arg13.IsWhole) (arg14 : Memref sig .tc .vmem S128x64 .f32) (harg14 : arg14.IsWhole)
    (x0 : Vec F S50x128x128 .f32) (x1 : Vec F S128x128 .f32) (x2 : Vec F S50x128x8 .i8) (x3 : Vec F S8x64 .f32) (x4 : Vec F S64x64 .f32) (x5 : Vec F S1x64 .f32) (x6 : Vec F S64x64 .bf16) (x7 : Vec F S1x64 .bf16) (x8 : Vec F S64x64 .bf16) (x9 : Vec F S64x64 .bf16) (x10 : Vec F S1x64 .bf16) (x11 : Vec F S1x64 .bf16) (x12 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out4_13 x0 x1 x2 x3 x4 x5 x6 x7 x8 x9 x10 x11 x12)) -∗ K ⟨⟩))
      ⊢ wp frame (wpE (defs₀ (F := F)) 𝒱₀ c none) E (cc4__tc_body i arg1 harg1 arg2 harg2 arg3 harg3 arg4 harg4 arg5 harg5 arg6 harg6 arg7 harg7 arg8 harg8 arg9 harg9 arg10 harg10 arg11 harg11 arg12 harg12 arg13 harg13 arg14 harg14) K := by
  simp only [cc4__tc_body_eq_skeleton]; unfold cc4__tc_body_skel
  simp only [k4_part1_eq_skeleton, k4_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  exact View.read_writes_eq_canon _ _ _ (cover4_13 _)

end Cert.KernelIdeal.Tc

end
-- ==== Proof.TcDat4.lean ====
/-
  The proof data of TensorCore pallas call 4 on one core, and its body obligation.

  The region is entered with each windowed array at some contents A w (whatever ran before the region
  left there).  No window of this call is clipped or idle, so at every point each input window's
  current staging buffer holds the array's block there — fetched at that point, or fetched earlier
  with the block index unmoved since — and the output window's buffer holds anything.  The body reads
  the thirteen input blocks and leaves them in place, and leaves in the output buffer the composed
  payload of those blocks.  The invariant carried beside the windows (everything of the core the body
  does not touch) and the tallies the core owes are parameters, constant from point to point: the
  body touches neither.
-/
import proofs.«217981_g19061064860210_cont_8to1_1320_37_alg».proof.Proof.TcBody4

set_option maxRecDepth 16384

noncomputable section

namespace Cert.KernelIdeal.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The windows' blocks -/

/-- Window w's block at point t, read off its array as the region finds it (A w). -/
def iblk4 (c : Dev nD) (A : (w : Fin cfg4.W) → Buf (Elt F) ((cfg4.win w).arr.view.loc (c.tc : Thread nD τ))) (w : Fin cfg4.W) (t : Fin cfg4.N) :
    ((cfg4.win w).xblock (cfg4.grid.coords t)).Idx → Elt F (cfg4.win w).elt :=
  ((cfg4.win w).blk t).view.read (Elt F) (A w)

/-- Input window 0's current staging buffer holds its block at every point, fetched there or not, for any
    proof data whose array is A's and whose body leaves the block in place: the window is uncut and never idle. -/
theorem before4_0_of {c : Dev nD} (A : (w : Fin cfg4.W) → Buf (Elt F) ((cfg4.win w).arr.view.loc (c.tc : Thread nD τ))) (dat : Dat τ (Elt F) Ix Name U Lvl cfg4 c) (hA : dat.A 0 = A 0)
    (hafter : ∀ t, dat.after 0 t = iblk4 c A 0 t) (t : Fin cfg4.N) (d) : dat.before 0 t d = iblk4 c A 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, fetched there or not, for any
    proof data whose array is A's and whose body leaves the block in place: the window is uncut and never idle. -/
theorem before4_1_of {c : Dev nD} (A : (w : Fin cfg4.W) → Buf (Elt F) ((cfg4.win w).arr.view.loc (c.tc : Thread nD τ))) (dat : Dat τ (Elt F) Ix Name U Lvl cfg4 c) (hA : dat.A 1 = A 1)
    (hafter : ∀ t, dat.after 1 t = iblk4 c A 1 t) (t : Fin cfg4.N) (d) : dat.before 1 t d = iblk4 c A 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, fetched there or not, for any
    proof data whose array is A's and whose body leaves the block in place: the window is uncut and never idle. -/
theorem before4_2_of {c : Dev nD} (A : (w : Fin cfg4.W) → Buf (Elt F) ((cfg4.win w).arr.view.loc (c.tc : Thread nD τ))) (dat : Dat τ (Elt F) Ix Name U Lvl cfg4 c) (hA : dat.A 2 = A 2)
    (hafter : ∀ t, dat.after 2 t = iblk4 c A 2 t) (t : Fin cfg4.N) (d) : dat.before 2 t d = iblk4 c A 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3's current staging buffer holds its block at every point, fetched there or not, for any
    proof data whose array is A's and whose body leaves the block in place: the window is uncut and never idle. -/
theorem before4_3_of {c : Dev nD} (A : (w : Fin cfg4.W) → Buf (Elt F) ((cfg4.win w).arr.view.loc (c.tc : Thread nD τ))) (dat : Dat τ (Elt F) Ix Name U Lvl cfg4 c) (hA : dat.A 3 = A 3)
    (hafter : ∀ t, dat.after 3 t = iblk4 c A 3 t) (t : Fin cfg4.N) (d) : dat.before 3 t d = iblk4 c A 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Input window 4's current staging buffer holds its block at every point, fetched there or not, for any
    proof data whose array is A's and whose body leaves the block in place: the window is uncut and never idle. -/
theorem before4_4_of {c : Dev nD} (A : (w : Fin cfg4.W) → Buf (Elt F) ((cfg4.win w).arr.view.loc (c.tc : Thread nD τ))) (dat : Dat τ (Elt F) Ix Name U Lvl cfg4 c) (hA : dat.A 4 = A 4)
    (hafter : ∀ t, dat.after 4 t = iblk4 c A 4 t) (t : Fin cfg4.N) (d) : dat.before 4 t d = iblk4 c A 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
/-- Input window 5's current staging buffer holds its block at every point, fetched there or not, for any
    proof data whose array is A's and whose body leaves the block in place: the window is uncut and never idle. -/
theorem before4_5_of {c : Dev nD} (A : (w : Fin cfg4.W) → Buf (Elt F) ((cfg4.win w).arr.view.loc (c.tc : Thread nD τ))) (dat : Dat τ (Elt F) Ix Name U Lvl cfg4 c) (hA : dat.A 5 = A 5)
    (hafter : ∀ t, dat.after 5 t = iblk4 c A 5 t) (t : Fin cfg4.N) (d) : dat.before 5 t d = iblk4 c A 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
/-- Input window 6's current staging buffer holds its block at every point, fetched there or not, for any
    proof data whose array is A's and whose body leaves the block in place: the window is uncut and never idle. -/
theorem before4_6_of {c : Dev nD} (A : (w : Fin cfg4.W) → Buf (Elt F) ((cfg4.win w).arr.view.loc (c.tc : Thread nD τ))) (dat : Dat τ (Elt F) Ix Name U Lvl cfg4 c) (hA : dat.A 6 = A 6)
    (hafter : ∀ t, dat.after 6 t = iblk4 c A 6 t) (t : Fin cfg4.N) (d) : dat.before 6 t d = iblk4 c A 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)
/-- Input window 7's current staging buffer holds its block at every point, fetched there or not, for any
    proof data whose array is A's and whose body leaves the block in place: the window is uncut and never idle. -/
theorem before4_7_of {c : Dev nD} (A : (w : Fin cfg4.W) → Buf (Elt F) ((cfg4.win w).arr.view.loc (c.tc : Thread nD τ))) (dat : Dat τ (Elt F) Ix Name U Lvl cfg4 c) (hA : dat.A 7 = A 7)
    (hafter : ∀ t, dat.after 7 t = iblk4 c A 7 t) (t : Fin cfg4.N) (d) : dat.before 7 t d = iblk4 c A 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)
/-- Input window 8's current staging buffer holds its block at every point, fetched there or not, for any
    proof data whose array is A's and whose body leaves the block in place: the window is uncut and never idle. -/
theorem before4_8_of {c : Dev nD} (A : (w : Fin cfg4.W) → Buf (Elt F) ((cfg4.win w).arr.view.loc (c.tc : Thread nD τ))) (dat : Dat τ (Elt F) Ix Name U Lvl cfg4 c) (hA : dat.A 8 = A 8)
    (hafter : ∀ t, dat.after 8 t = iblk4 c A 8 t) (t : Fin cfg4.N) (d) : dat.before 8 t d = iblk4 c A 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)
/-- Input window 9's current staging buffer holds its block at every point, fetched there or not, for any
    proof data whose array is A's and whose body leaves the block in place: the window is uncut and never idle. -/
theorem before4_9_of {c : Dev nD} (A : (w : Fin cfg4.W) → Buf (Elt F) ((cfg4.win w).arr.view.loc (c.tc : Thread nD τ))) (dat : Dat τ (Elt F) Ix Name U Lvl cfg4 c) (hA : dat.A 9 = A 9)
    (hafter : ∀ t, dat.after 9 t = iblk4 c A 9 t) (t : Fin cfg4.N) (d) : dat.before 9 t d = iblk4 c A 9 t :=
  (dat.before_in_eq_fetched 9 rfl (fun _ => rfl) (fun _ _ _ => rfl) (fun t => by rw [hafter]; unfold Dat.blockOf iblk4; rw [hA]; try rfl) t d).trans
    (by unfold Dat.fetched Dat.blockOf iblk4; rw [hA]; try rfl)
/-- Input window 10's current staging buffer holds its block at every point, fetched there or not, for any
    proof data whose array is A's and whose body leaves the block in place: the window is uncut and never idle. -/
theorem before4_10_of {c : Dev nD} (A : (w : Fin cfg4.W) → Buf (Elt F) ((cfg4.win w).arr.view.loc (c.tc : Thread nD τ))) (dat : Dat τ (Elt F) Ix Name U Lvl cfg4 c) (hA : dat.A 10 = A 10)
    (hafter : ∀ t, dat.after 10 t = iblk4 c A 10 t) (t : Fin cfg4.N) (d) : dat.before 10 t d = iblk4 c A 10 t :=
  (dat.before_in_eq_fetched 10 rfl (fun _ => rfl) (fun _ _ _ => rfl) (fun t => by rw [hafter]; unfold Dat.blockOf iblk4; rw [hA]; try rfl) t d).trans
    (by unfold Dat.fetched Dat.blockOf iblk4; rw [hA]; try rfl)
/-- Input window 11's current staging buffer holds its block at every point, fetched there or not, for any
    proof data whose array is A's and whose body leaves the block in place: the window is uncut and never idle. -/
theorem before4_11_of {c : Dev nD} (A : (w : Fin cfg4.W) → Buf (Elt F) ((cfg4.win w).arr.view.loc (c.tc : Thread nD τ))) (dat : Dat τ (Elt F) Ix Name U Lvl cfg4 c) (hA : dat.A 11 = A 11)
    (hafter : ∀ t, dat.after 11 t = iblk4 c A 11 t) (t : Fin cfg4.N) (d) : dat.before 11 t d = iblk4 c A 11 t :=
  (dat.before_in_eq_fetched 11 rfl (fun _ => rfl) (fun _ _ _ => rfl) (fun t => by rw [hafter]; unfold Dat.blockOf iblk4; rw [hA]; try rfl) t d).trans
    (by unfold Dat.fetched Dat.blockOf iblk4; rw [hA]; try rfl)
/-- Input window 12's current staging buffer holds its block at every point, fetched there or not, for any
    proof data whose array is A's and whose body leaves the block in place: the window is uncut and never idle. -/
theorem before4_12_of {c : Dev nD} (A : (w : Fin cfg4.W) → Buf (Elt F) ((cfg4.win w).arr.view.loc (c.tc : Thread nD τ))) (dat : Dat τ (Elt F) Ix Name U Lvl cfg4 c) (hA : dat.A 12 = A 12)
    (hafter : ∀ t, dat.after 12 t = iblk4 c A 12 t) (t : Fin cfg4.N) (d) : dat.before 12 t d = iblk4 c A 12 t :=
  (dat.before_in_eq_fetched 12 rfl (fun _ => rfl) (fun _ _ _ => rfl) (fun t => by rw [hafter]; unfold Dat.blockOf iblk4; rw [hA]; try rfl) t d).trans
    (by unfold Dat.fetched Dat.blockOf iblk4; rw [hA]; try rfl)

/-! ## The proof data -/

/-- The proof data of the pipeline on core c: the arrays as the region finds them (A); after the body at
    point t each input's buffer at its block and the output's at the composed payload of the input blocks;
    the invariant Φ₀, the owed tallies O and the bound B on the recorded pairs at every point; full shares. -/
def dats4 (c : Dev nD) (A : (w : Fin cfg4.W) → Buf (Elt F) ((cfg4.win w).arr.view.loc (c.tc : Thread nD τ))) (Φ₀ : sProp 𝕄) (O : CellTallies nD τ sig Ix) (B : Set (SemLoc sig × Ix)) : Dat τ (Elt F) Ix Name U Lvl cfg4 c where
  A w := A w
  after w t := match w with
    | ⟨0, _⟩ => iblk4 c A 0 t
    | ⟨1, _⟩ => iblk4 c A 1 t
    | ⟨2, _⟩ => iblk4 c A 2 t
    | ⟨3, _⟩ => iblk4 c A 3 t
    | ⟨4, _⟩ => iblk4 c A 4 t
    | ⟨5, _⟩ => iblk4 c A 5 t
    | ⟨6, _⟩ => iblk4 c A 6 t
    | ⟨7, _⟩ => iblk4 c A 7 t
    | ⟨8, _⟩ => iblk4 c A 8 t
    | ⟨9, _⟩ => iblk4 c A 9 t
    | ⟨10, _⟩ => iblk4 c A 10 t
    | ⟨11, _⟩ => iblk4 c A 11 t
    | ⟨12, _⟩ => iblk4 c A 12 t
    | ⟨13, _⟩ => out4_13 (iblk4 c A 0 t) (iblk4 c A 1 t) (iblk4 c A 2 t) (iblk4 c A 3 t) (iblk4 c A 4 t) (iblk4 c A 5 t) (iblk4 c A 6 t) (iblk4 c A 7 t) (iblk4 c A 8 t) (iblk4 c A 9 t) (iblk4 c A 10 t) (iblk4 c A 11 t) (iblk4 c A 12 t)
  Φ _ := Φ₀
  q _ := fullShare
  owed _ := O
  recorded _ := B

/-- The proof data's arrays are the region-entry contents. -/
theorem A_eq4 (c : Dev nD) (A : (w : Fin cfg4.W) → Buf (Elt F) ((cfg4.win w).arr.view.loc (c.tc : Thread nD τ))) (Φ₀ : sProp 𝕄) (O : CellTallies nD τ sig Ix) (B : Set (SemLoc sig × Ix)) (w : Fin cfg4.W) : (dats4 (F := F) (Ix := Ix) (Name := Name) (U := U) (Lvl := Lvl) c A Φ₀ O B).A w = A w := by dsimp only [dats4]

/-- What the body leaves, window by window. -/
theorem after4_0 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) : (dats4 (F := F) (Ix := Ix) (Name := Name) (U := U) (Lvl := Lvl) c A Φ₀ O B).after 0 t = iblk4 c A 0 t := by dsimp only [dats4]
theorem after4_1 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) : (dats4 (F := F) (Ix := Ix) (Name := Name) (U := U) (Lvl := Lvl) c A Φ₀ O B).after 1 t = iblk4 c A 1 t := by dsimp only [dats4]
theorem after4_2 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) : (dats4 (F := F) (Ix := Ix) (Name := Name) (U := U) (Lvl := Lvl) c A Φ₀ O B).after 2 t = iblk4 c A 2 t := by dsimp only [dats4]
theorem after4_3 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) : (dats4 (F := F) (Ix := Ix) (Name := Name) (U := U) (Lvl := Lvl) c A Φ₀ O B).after 3 t = iblk4 c A 3 t := by dsimp only [dats4]
theorem after4_4 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) : (dats4 (F := F) (Ix := Ix) (Name := Name) (U := U) (Lvl := Lvl) c A Φ₀ O B).after 4 t = iblk4 c A 4 t := by dsimp only [dats4]
theorem after4_5 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) : (dats4 (F := F) (Ix := Ix) (Name := Name) (U := U) (Lvl := Lvl) c A Φ₀ O B).after 5 t = iblk4 c A 5 t := by dsimp only [dats4]
theorem after4_6 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) : (dats4 (F := F) (Ix := Ix) (Name := Name) (U := U) (Lvl := Lvl) c A Φ₀ O B).after 6 t = iblk4 c A 6 t := by dsimp only [dats4]
theorem after4_7 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) : (dats4 (F := F) (Ix := Ix) (Name := Name) (U := U) (Lvl := Lvl) c A Φ₀ O B).after 7 t = iblk4 c A 7 t := by dsimp only [dats4]
theorem after4_8 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) : (dats4 (F := F) (Ix := Ix) (Name := Name) (U := U) (Lvl := Lvl) c A Φ₀ O B).after 8 t = iblk4 c A 8 t := by dsimp only [dats4]
theorem after4_9 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) : (dats4 (F := F) (Ix := Ix) (Name := Name) (U := U) (Lvl := Lvl) c A Φ₀ O B).after 9 t = iblk4 c A 9 t := by dsimp only [dats4]
theorem after4_10 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) : (dats4 (F := F) (Ix := Ix) (Name := Name) (U := U) (Lvl := Lvl) c A Φ₀ O B).after 10 t = iblk4 c A 10 t := by dsimp only [dats4]
theorem after4_11 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) : (dats4 (F := F) (Ix := Ix) (Name := Name) (U := U) (Lvl := Lvl) c A Φ₀ O B).after 11 t = iblk4 c A 11 t := by dsimp only [dats4]
theorem after4_12 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) : (dats4 (F := F) (Ix := Ix) (Name := Name) (U := U) (Lvl := Lvl) c A Φ₀ O B).after 12 t = iblk4 c A 12 t := by dsimp only [dats4]
theorem after4_13 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) : (dats4 (F := F) (Ix := Ix) (Name := Name) (U := U) (Lvl := Lvl) c A Φ₀ O B).after 13 t = out4_13 (iblk4 c A 0 t) (iblk4 c A 1 t) (iblk4 c A 2 t) (iblk4 c A 3 t) (iblk4 c A 4 t) (iblk4 c A 5 t) (iblk4 c A 6 t) (iblk4 c A 7 t) (iblk4 c A 8 t) (iblk4 c A 9 t) (iblk4 c A 10 t) (iblk4 c A 11 t) (iblk4 c A 12 t) := by dsimp only [dats4]

/-- Each input's current staging buffer holds its block at every point, fetched there or not. -/
theorem before4_0 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) (d) : (dats4 (F := F) (Ix := Ix) (Name := Name) (U := U) (Lvl := Lvl) c A Φ₀ O B).before 0 t d = iblk4 c A 0 t :=
  before4_0_of A (dats4 (F := F) (Ix := Ix) (Name := Name) (U := U) (Lvl := Lvl) c A Φ₀ O B) (A_eq4 c A Φ₀ O B 0) (after4_0 c A Φ₀ O B) t d
theorem before4_1 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) (d) : (dats4 (F := F) (Ix := Ix) (Name := Name) (U := U) (Lvl := Lvl) c A Φ₀ O B).before 1 t d = iblk4 c A 1 t :=
  before4_1_of A (dats4 (F := F) (Ix := Ix) (Name := Name) (U := U) (Lvl := Lvl) c A Φ₀ O B) (A_eq4 c A Φ₀ O B 1) (after4_1 c A Φ₀ O B) t d
theorem before4_2 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) (d) : (dats4 (F := F) (Ix := Ix) (Name := Name) (U := U) (Lvl := Lvl) c A Φ₀ O B).before 2 t d = iblk4 c A 2 t :=
  before4_2_of A (dats4 (F := F) (Ix := Ix) (Name := Name) (U := U) (Lvl := Lvl) c A Φ₀ O B) (A_eq4 c A Φ₀ O B 2) (after4_2 c A Φ₀ O B) t d
theorem before4_3 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) (d) : (dats4 (F := F) (Ix := Ix) (Name := Name) (U := U) (Lvl := Lvl) c A Φ₀ O B).before 3 t d = iblk4 c A 3 t :=
  before4_3_of A (dats4 (F := F) (Ix := Ix) (Name := Name) (U := U) (Lvl := Lvl) c A Φ₀ O B) (A_eq4 c A Φ₀ O B 3) (after4_3 c A Φ₀ O B) t d
theorem before4_4 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) (d) : (dats4 (F := F) (Ix := Ix) (Name := Name) (U := U) (Lvl := Lvl) c A Φ₀ O B).before 4 t d = iblk4 c A 4 t :=
  before4_4_of A (dats4 (F := F) (Ix := Ix) (Name := Name) (U := U) (Lvl := Lvl) c A Φ₀ O B) (A_eq4 c A Φ₀ O B 4) (after4_4 c A Φ₀ O B) t d
theorem before4_5 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) (d) : (dats4 (F := F) (Ix := Ix) (Name := Name) (U := U) (Lvl := Lvl) c A Φ₀ O B).before 5 t d = iblk4 c A 5 t :=
  before4_5_of A (dats4 (F := F) (Ix := Ix) (Name := Name) (U := U) (Lvl := Lvl) c A Φ₀ O B) (A_eq4 c A Φ₀ O B 5) (after4_5 c A Φ₀ O B) t d
theorem before4_6 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) (d) : (dats4 (F := F) (Ix := Ix) (Name := Name) (U := U) (Lvl := Lvl) c A Φ₀ O B).before 6 t d = iblk4 c A 6 t :=
  before4_6_of A (dats4 (F := F) (Ix := Ix) (Name := Name) (U := U) (Lvl := Lvl) c A Φ₀ O B) (A_eq4 c A Φ₀ O B 6) (after4_6 c A Φ₀ O B) t d
theorem before4_7 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) (d) : (dats4 (F := F) (Ix := Ix) (Name := Name) (U := U) (Lvl := Lvl) c A Φ₀ O B).before 7 t d = iblk4 c A 7 t :=
  before4_7_of A (dats4 (F := F) (Ix := Ix) (Name := Name) (U := U) (Lvl := Lvl) c A Φ₀ O B) (A_eq4 c A Φ₀ O B 7) (after4_7 c A Φ₀ O B) t d
theorem before4_8 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) (d) : (dats4 (F := F) (Ix := Ix) (Name := Name) (U := U) (Lvl := Lvl) c A Φ₀ O B).before 8 t d = iblk4 c A 8 t :=
  before4_8_of A (dats4 (F := F) (Ix := Ix) (Name := Name) (U := U) (Lvl := Lvl) c A Φ₀ O B) (A_eq4 c A Φ₀ O B 8) (after4_8 c A Φ₀ O B) t d
theorem before4_9 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) (d) : (dats4 (F := F) (Ix := Ix) (Name := Name) (U := U) (Lvl := Lvl) c A Φ₀ O B).before 9 t d = iblk4 c A 9 t :=
  before4_9_of A (dats4 (F := F) (Ix := Ix) (Name := Name) (U := U) (Lvl := Lvl) c A Φ₀ O B) (A_eq4 c A Φ₀ O B 9) (after4_9 c A Φ₀ O B) t d
theorem before4_10 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) (d) : (dats4 (F := F) (Ix := Ix) (Name := Name) (U := U) (Lvl := Lvl) c A Φ₀ O B).before 10 t d = iblk4 c A 10 t :=
  before4_10_of A (dats4 (F := F) (Ix := Ix) (Name := Name) (U := U) (Lvl := Lvl) c A Φ₀ O B) (A_eq4 c A Φ₀ O B 10) (after4_10 c A Φ₀ O B) t d
theorem before4_11 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) (d) : (dats4 (F := F) (Ix := Ix) (Name := Name) (U := U) (Lvl := Lvl) c A Φ₀ O B).before 11 t d = iblk4 c A 11 t :=
  before4_11_of A (dats4 (F := F) (Ix := Ix) (Name := Name) (U := U) (Lvl := Lvl) c A Φ₀ O B) (A_eq4 c A Φ₀ O B 11) (after4_11 c A Φ₀ O B) t d
theorem before4_12 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) (d) : (dats4 (F := F) (Ix := Ix) (Name := Name) (U := U) (Lvl := Lvl) c A Φ₀ O B).before 12 t d = iblk4 c A 12 t :=
  before4_12_of A (dats4 (F := F) (Ix := Ix) (Name := Name) (U := U) (Lvl := Lvl) c A Φ₀ O B) (A_eq4 c A Φ₀ O B 12) (after4_12 c A Φ₀ O B) t d

/-! ## The body obligation, at a generic point -/

/-- What the body is called with at point t: the invariant, what the core owes, and every window's current
    staging buffer at what it then holds, -/
def bodyPre4 (c : Dev nD) (A : (w : Fin cfg4.W) → Buf (Elt F) ((cfg4.win w).arr.view.loc (c.tc : Thread nD τ))) (Φ₀ : sProp 𝕄) (O : CellTallies nD τ sig Ix) (B : Set (SemLoc sig × Ix)) (ι : Ix) (t : Fin cfg4.N) : sProp 𝕄 :=
  iprop((dats4 (F := F) (Ix := Ix) (Name := Name) (U := U) (Lvl := Lvl) c A Φ₀ O B).Φ t.castSucc ∗ (dats4 (F := F) (Ix := Ix) (Name := Name) (U := U) (Lvl := Lvl) c A Φ₀ O B).owesAt ι t.castSucc
    ∗ (∃ d, owns (c : Thread nD τ) (st4_0 t) fullShare ((dats4 (F := F) (Ix := Ix) (Name := Name) (U := U) (Lvl := Lvl) c A Φ₀ O B).before 0 t d))
    ∗ (∃ d, owns (c : Thread nD τ) (st4_1 t) fullShare ((dats4 (F := F) (Ix := Ix) (Name := Name) (U := U) (Lvl := Lvl) c A Φ₀ O B).before 1 t d))
    ∗ (∃ d, owns (c : Thread nD τ) (st4_2 t) fullShare ((dats4 (F := F) (Ix := Ix) (Name := Name) (U := U) (Lvl := Lvl) c A Φ₀ O B).before 2 t d))
    ∗ (∃ d, owns (c : Thread nD τ) (st4_3 t) fullShare ((dats4 (F := F) (Ix := Ix) (Name := Name) (U := U) (Lvl := Lvl) c A Φ₀ O B).before 3 t d))
    ∗ (∃ d, owns (c : Thread nD τ) (st4_4 t) fullShare ((dats4 (F := F) (Ix := Ix) (Name := Name) (U := U) (Lvl := Lvl) c A Φ₀ O B).before 4 t d))
    ∗ (∃ d, owns (c : Thread nD τ) (st4_5 t) fullShare ((dats4 (F := F) (Ix := Ix) (Name := Name) (U := U) (Lvl := Lvl) c A Φ₀ O B).before 5 t d))
    ∗ (∃ d, owns (c : Thread nD τ) (st4_6 t) fullShare ((dats4 (F := F) (Ix := Ix) (Name := Name) (U := U) (Lvl := Lvl) c A Φ₀ O B).before 6 t d))
    ∗ (∃ d, owns (c : Thread nD τ) (st4_7 t) fullShare ((dats4 (F := F) (Ix := Ix) (Name := Name) (U := U) (Lvl := Lvl) c A Φ₀ O B).before 7 t d))
    ∗ (∃ d, owns (c : Thread nD τ) (st4_8 t) fullShare ((dats4 (F := F) (Ix := Ix) (Name := Name) (U := U) (Lvl := Lvl) c A Φ₀ O B).before 8 t d))
    ∗ (∃ d, owns (c : Thread nD τ) (st4_9 t) fullShare ((dats4 (F := F) (Ix := Ix) (Name := Name) (U := U) (Lvl := Lvl) c A Φ₀ O B).before 9 t d))
    ∗ (∃ d, owns (c : Thread nD τ) (st4_10 t) fullShare ((dats4 (F := F) (Ix := Ix) (Name := Name) (U := U) (Lvl := Lvl) c A Φ₀ O B).before 10 t d))
    ∗ (∃ d, owns (c : Thread nD τ) (st4_11 t) fullShare ((dats4 (F := F) (Ix := Ix) (Name := Name) (U := U) (Lvl := Lvl) c A Φ₀ O B).before 11 t d))
    ∗ (∃ d, owns (c : Thread nD τ) (st4_12 t) fullShare ((dats4 (F := F) (Ix := Ix) (Name := Name) (U := U) (Lvl := Lvl) c A Φ₀ O B).before 12 t d))
    ∗ (∃ d, owns (c : Thread nD τ) (st4_13 t) fullShare ((dats4 (F := F) (Ix := Ix) (Name := Name) (U := U) (Lvl := Lvl) c A Φ₀ O B).before 13 t d)))

/-- and what it returns: the same invariant and owed tallies, and every buffer at what the body leaves. -/
def bodyPost4 (c : Dev nD) (A : (w : Fin cfg4.W) → Buf (Elt F) ((cfg4.win w).arr.view.loc (c.tc : Thread nD τ))) (Φ₀ : sProp 𝕄) (O : CellTallies nD τ sig Ix) (B : Set (SemLoc sig × Ix)) (ι : Ix) (t : Fin cfg4.N) : sProp 𝕄 :=
  iprop((dats4 (F := F) (Ix := Ix) (Name := Name) (U := U) (Lvl := Lvl) c A Φ₀ O B).Φ t.succ ∗ (dats4 (F := F) (Ix := Ix) (Name := Name) (U := U) (Lvl := Lvl) c A Φ₀ O B).owesAt ι t.succ
    ∗ owns (c : Thread nD τ) (st4_0 t) fullShare ((dats4 (F := F) (Ix := Ix) (Name := Name) (U := U) (Lvl := Lvl) c A Φ₀ O B).after 0 t)
    ∗ owns (c : Thread nD τ) (st4_1 t) fullShare ((dats4 (F := F) (Ix := Ix) (Name := Name) (U := U) (Lvl := Lvl) c A Φ₀ O B).after 1 t)
    ∗ owns (c : Thread nD τ) (st4_2 t) fullShare ((dats4 (F := F) (Ix := Ix) (Name := Name) (U := U) (Lvl := Lvl) c A Φ₀ O B).after 2 t)
    ∗ owns (c : Thread nD τ) (st4_3 t) fullShare ((dats4 (F := F) (Ix := Ix) (Name := Name) (U := U) (Lvl := Lvl) c A Φ₀ O B).after 3 t)
    ∗ owns (c : Thread nD τ) (st4_4 t) fullShare ((dats4 (F := F) (Ix := Ix) (Name := Name) (U := U) (Lvl := Lvl) c A Φ₀ O B).after 4 t)
    ∗ owns (c : Thread nD τ) (st4_5 t) fullShare ((dats4 (F := F) (Ix := Ix) (Name := Name) (U := U) (Lvl := Lvl) c A Φ₀ O B).after 5 t)
    ∗ owns (c : Thread nD τ) (st4_6 t) fullShare ((dats4 (F := F) (Ix := Ix) (Name := Name) (U := U) (Lvl := Lvl) c A Φ₀ O B).after 6 t)
    ∗ owns (c : Thread nD τ) (st4_7 t) fullShare ((dats4 (F := F) (Ix := Ix) (Name := Name) (U := U) (Lvl := Lvl) c A Φ₀ O B).after 7 t)
    ∗ owns (c : Thread nD τ) (st4_8 t) fullShare ((dats4 (F := F) (Ix := Ix) (Name := Name) (U := U) (Lvl := Lvl) c A Φ₀ O B).after 8 t)
    ∗ owns (c : Thread nD τ) (st4_9 t) fullShare ((dats4 (F := F) (Ix := Ix) (Name := Name) (U := U) (Lvl := Lvl) c A Φ₀ O B).after 9 t)
    ∗ owns (c : Thread nD τ) (st4_10 t) fullShare ((dats4 (F := F) (Ix := Ix) (Name := Name) (U := U) (Lvl := Lvl) c A Φ₀ O B).after 10 t)
    ∗ owns (c : Thread nD τ) (st4_11 t) fullShare ((dats4 (F := F) (Ix := Ix) (Name := Name) (U := U) (Lvl := Lvl) c A Φ₀ O B).after 11 t)
    ∗ owns (c : Thread nD τ) (st4_12 t) fullShare ((dats4 (F := F) (Ix := Ix) (Name := Name) (U := U) (Lvl := Lvl) c A Φ₀ O B).after 12 t)
    ∗ owns (c : Thread nD τ) (st4_13 t) fullShare ((dats4 (F := F) (Ix := Ix) (Name := Name) (U := U) (Lvl := Lvl) c A Φ₀ O B).after 13 t))

set_option maxHeartbeats 4000000 in
/-- The body at any point: the inputs' buffers hold their blocks, so the body's run applies; the invariant
    and the core's owed tallies pass through unread. -/
theorem sound_body4 (c : Dev nD) (A : (w : Fin cfg4.W) → Buf (Elt F) ((cfg4.win w).arr.view.loc (c.tc : Thread nD τ))) (Φ₀ : sProp 𝕄) (O : CellTallies nD τ sig Ix) (B : Set (SemLoc sig × Ix)) (𝒱₀ : Variants) (ι : Ix) (t : Fin cfg4.N) :
    bodyPre4 c A Φ₀ O B ι t ⊢ wp frame (wpE (defs₀ (F := F)) 𝒱₀ c none) Set.univ (bodyAt4 t) (fun _ => bodyPost4 c A Φ₀ O B ι t) := by
  unfold bodyPre4 bodyPost4 bodyAt4
  simp only [before4_0, before4_1, before4_2, before4_3, before4_4, before4_5, before4_6, before4_7, before4_8, before4_9, before4_10, before4_11, before4_12]
  rw [show (dats4 (F := F) (Ix := Ix) (Name := Name) (U := U) (Lvl := Lvl) c A Φ₀ O B).Φ t.succ = (dats4 (F := F) (Ix := Ix) (Name := Name) (U := U) (Lvl := Lvl) c A Φ₀ O B).Φ t.castSucc from rfl,
    show (dats4 (F := F) (Ix := Ix) (Name := Name) (U := U) (Lvl := Lvl) c A Φ₀ O B).owesAt ι t.succ = (dats4 (F := F) (Ix := Ix) (Name := Name) (U := U) (Lvl := Lvl) c A Φ₀ O B).owesAt ι t.castSucc from rfl,
    after4_0, after4_1, after4_2, after4_3, after4_4, after4_5, after4_6, after4_7, after4_8, after4_9, after4_10, after4_11, after4_12, after4_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel4 𝒱₀ c Set.univ (grid4.coords t) _ _ _ _ _ _ _ _ _ _ _ _ _ _ _ _ _ _ _ _ _ _ _ _ _ _ _ _ (iblk4 c A 0 t) (iblk4 c A 1 t) (iblk4 c A 2 t) (iblk4 c A 3 t) (iblk4 c A 4 t) (iblk4 c A 5 t) (iblk4 c A 6 t) (iblk4 c A 7 t) (iblk4 c A 8 t) (iblk4 c A 9 t) (iblk4 c A 10 t) (iblk4 c A 11 t) (iblk4 c A 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation for this proof data, at every point. -/
theorem body_obligation4 (c : Dev nD) (A : (w : Fin cfg4.W) → Buf (Elt F) ((cfg4.win w).arr.view.loc (c.tc : Thread nD τ))) (Φ₀ : sProp 𝕄) (O : CellTallies nD τ sig Ix) (B : Set (SemLoc sig × Ix)) (𝒱₀ : Variants) (ι : Ix) :
    BodyObligation (dats4 (F := F) (Ix := Ix) (Name := Name) (U := U) (Lvl := Lvl) c A Φ₀ O B) (defs₀ (F := F)) 𝒱₀ ι Set.univ := fun t => by
  rw [bigSep_W4, bigSep_W4]
  exact sound_body4 c A Φ₀ O B 𝒱₀ ι t

end Cert.KernelIdeal.Tc

end
-- ==== Proof.TcFamily.lean ====
/-
  The three TensorCore pallas calls' proof data as one family, over the TensorCore's thread state.

  Between two segments of its thread the TensorCore of core c holds every unscoped buffer of its own
  at some contents (a valuation W c), its generator register at some state, and what it owes.  Each
  pallas call's proof data is taken at its own region's entry valuation; the invariant beside the
  windows is the same for all three — the scoped buffers that are no staging buffer, at some
  contents, and the generator register at some state: what a body that touches only its windows may
  use and need not describe —, stated here for any ghost state; what the core owes is constant
  through each region.
-/
import proofs.«217981_g19061064860210_cont_8to1_1320_37_alg».proof.Proof.TcDat0
import proofs.«217981_g19061064860210_cont_8to1_1320_37_alg».proof.Proof.TcDat2
import proofs.«217981_g19061064860210_cont_8to1_1320_37_alg».proof.Proof.TcDat4
import Idealize.ShloMosaic.Lib.Pipeline.RegionsLoop
import Idealize.ShloMosaic.Lib.Pipeline.FrameSuffix

set_option maxRecDepth 16384

noncomputable section

namespace Cert.KernelIdeal.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The prefetched tables' admissible contents: no pipeline of this program has a table. -/
abbrev adm : (p : Fin 3) → (pcfgs (F := F) p).Adm := fun p => (cfgs p).toPCfg_adm

/-- The region invariant of a body that touches nothing but its windows, at any ghost state: the core's scoped
    buffers that are no staging buffer, at some contents each, and its generator register at some state. -/
def ΦTc {gr W : Nat} (win : Fin W → Pipeline.WinSpec sig gr) (c : Dev nD) : sProp 𝕄 :=
  iprop(Pipeline.scopedRest (Ix := Ix) (Name := Name) (U := U) (Lvl := Lvl) (Val := Elt F) win c ∗ ∃ r, prngReg c r)

/-- The contents a valuation of the core's buffers gives a TensorCore reference. -/
abbrev valTc (W : Dev nD → Valuation τ sig (Elt F)) : (c : Dev nD) → (b : Ref sig .tc) → Buf (Elt F) ((c : Thread nD τ).loc b) :=
  fun c b => W c b

/-- Every pipeline's proof data, each at its own region's entry contents (W0, W2, W4), the class invariant
    (the scoped rest and the generator register) what the core owes there (O0, O2, O4) and the bound on the pairs its waits have recorded (B0, B2, B4). -/
def pdatsTc (W0 W2 W4 : Dev nD → Valuation τ sig (Elt F)) (O0 O2 O4 : Dev nD → CellTallies nD τ sig Ix)
    (B0 B2 B4 : Dev nD → Set (SemLoc sig × Ix)) :
    (p : Fin 3) → (c : Dev nD) → Dat τ (Elt F) Ix Name U Lvl (Pipeline.pin (pcfgs (F := F)) adm p) c
  | ⟨0, _⟩ => fun c => dats0 c (fun w => valTc W0 c (Pipeline.arrRef spec0 w)) (ΦTc spec0 c) (O0 c) (B0 c)
  | ⟨1, _⟩ => fun c => dats2 c (fun w => valTc W2 c (Pipeline.arrRef spec2 w)) (ΦTc spec2 c) (O2 c) (B2 c)
  | ⟨2, _⟩ => fun c => dats4 c (fun w => valTc W4 c (Pipeline.arrRef spec4 w)) (ΦTc spec4 c) (O4 c) (B4 c)

end Cert.KernelIdeal.Tc

end
-- ==== Proof.TcReg0.lean ====
/-
  TensorCore pallas call 0 (pipeline 0 of the program) as a region segment of the TensorCore's thread.

  Between two segments the TensorCore of core c holds every unscoped buffer of its own at some contents
  W c, its generator register at some state, and what it owes (the tallies O c, constant through the
  region: the body signals no one).  The region splits its six windowed arrays out of those buffers at
  the contents W c gives them, runs the pipeline — the class invariant is the scoped rest and the
  generator register, which the body does not touch —, and puts the arrays back: the five inputs as
  they were and the output at what the thirteen write-backs leave (the last one cut at the array's
  end), every other buffer as entered.  Two things are left as hypotheses: that the payload is local
  (the output rows inside the array do not depend on the table columns past the arrays' end), which
  holds at the extended reals; and that the pipeline's staging cells sit below, in level, everything
  the core owes during the region (the wait evidence, a fact of the whole program's level assignment).
-/
import proofs.«217981_g19061064860210_cont_8to1_1320_37_alg».proof.Proof.TcFamily

set_option maxRecDepth 16384

noncomputable section

namespace Cert.KernelIdeal.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (Name U Lvl) in
/-- The core's buffers at the region's exit: the six windowed arrays at what the pipeline leaves (the inputs as
    entered, the output's write-backs folded), every other buffer as entered. -/
def exitW0 (W0 : Dev nD → Valuation τ sig (Elt F)) (O0 : Dev nD → CellTallies nD τ sig Ix) (B0 : Dev nD → Set (SemLoc sig × Ix)) (c : Dev nD) : Valuation τ sig (Elt F) :=
  Pipeline.withArrays spec0 c (W0 c) fun w =>
    (dats0 (F := F) (Ix := Ix) (Name := Name) (U := U) (Lvl := Lvl) c (fun w => valTc W0 c (Pipeline.arrRef spec0 w)) (ΦTc spec0 c) (O0 c) (B0 c)).arrAt w cfg0.N

section Reg0

variable (W0 W2 W4 : Dev nD → Valuation τ sig (Elt F)) (O0 O2 O4 : Dev nD → CellTallies nD τ sig Ix)
  (B0 B2 B4 : Dev nD → Set (SemLoc sig × Ix))
  (𝒱₀ : Variants) (ι : Ix) (L : GSem nD τ sig → Finset Ix) (lv : GSem nD τ sig → Ix → Lvl)

/-- The exit contents at a windowed array: what the pipeline leaves there. -/
theorem exitW0_arr (c : Dev nD) (w : Fin cfg0.W) :
    exitW0 Name U Lvl W0 O0 B0 c (Proc.devRef .tc (Pipeline.arrRef spec0 w))
      = (dats0 (F := F) (Ix := Ix) (Name := Name) (U := U) (Lvl := Lvl) c (fun w => valTc W0 c (Pipeline.arrRef spec0 w)) (ΦTc spec0 c) (O0 c) (B0 c)).arrAt w cfg0.N := by
  unfold exitW0; exact Pipeline.withArrays_arr spec0 launch0.win.arr_inj c _ _ w
/-- The exit contents at any other TensorCore buffer: what it held at entry. -/
theorem exitW0_of_ne (c : Dev nD) (b : Ref sig .tc) (hb : ∀ w, Pipeline.arrRef spec0 w ≠ b) :
    exitW0 Name U Lvl W0 O0 B0 c (Proc.devRef .tc b) = W0 c (Proc.devRef .tc b) := by
  unfold exitW0; exact Pipeline.withArrays_of_ne spec0 c _ _ b hb
/-- At the exit each windowed array holds what the pipeline leaves, -/
theorem hF0 (c : Dev nD) (w : Fin cfg0.W) :
    (pdatsTc (F := F) (Name := Name) (U := U) (Lvl := Lvl) W0 W2 W4 O0 O2 O4 B0 B2 B4 0 c).arrAt w cfg0.N
      = valTc (exitW0 Name U Lvl W0 O0 B0) c (Pipeline.arrRef spec0 w) :=
  (exitW0_arr W0 O0 B0 c w).symm
/-- and every other buffer what it held at entry. -/
theorem hrest0 (c : Dev nD) : ∀ b, b ∉ Finset.univ.image (Pipeline.arrRef spec0) →
    valTc (exitW0 Name U Lvl W0 O0 B0) c b = valTc W0 c b :=
  fun b hb => exitW0_of_ne W0 O0 B0 c b fun w e => hb (Finset.mem_image.mpr ⟨w, Finset.mem_univ _, e⟩)

-- a library lemma stated over the pinned configuration unifies with the printed one only when unification may unfold
-- plain definitions in a metavariable's type
set_option backward.isDefEq.respectTransparency.types false in
/-- The region of pallas call 0 over the thread state "every unscoped buffer at W0 c, the generator register at some
    state, the core owing O0 c with its recorded pairs within B0 c": entered there, left with the buffers at exitW0, the
    recorded pairs within B0 c and the pipeline's own wait pairs, and the rest as it was.  The wait
    evidence hw is the program's: the staging cells below everything the core owes. -/
def reg0 (hloc : PayLocal0 F) (hw : ∀ c, (levAts L lv : sProp 𝕄) ⊢ Pipeline.cellsWaits (Pipeline.pin (pcfgs (F := F)) adm)
      (pdatsTc (F := F) (Name := Name) (U := U) (Lvl := Lvl) W0 W2 W4 O0 O2 O4 B0 B2 B4) ι 0 c) :
    Pipeline.RegionSeg (pcfgs (F := F)) adm (pdatsTc (F := F) (Name := Name) (U := U) (Lvl := Lvl) W0 W2 W4 O0 O2 O4 B0 B2 B4) ι defs₀ 𝒱₀ L lv 0 where
  win := launch0.win.to₀
  block_pos := launch0.block_pos
  stage_whole := launch0.stage_whole
  K := PEmpty
  osem k := k.elim
  ho := Pipeline.OwnSemFacts.none _
  hbody c := body_obligation0 hloc c _ _ _ _ 𝒱₀ ι
  hwaits := hw
  pre c := iprop(StableHlo.held (c : Thread nD τ) (Pipeline.ucRefs τ sig) (W0 c) ∗ (∃ r, prngReg c r)
    ∗ Pipeline.owesWithin c (O0 c) (B0 c))
  post c := iprop(StableHlo.held (c : Thread nD τ) (Pipeline.ucRefs τ sig) (exitW0 Name U Lvl W0 O0 B0 c) ∗ (∃ r, prngReg c r)
    ∗ Pipeline.owesWithin c (O0 c) (B0 c ∪ cfg0.waitPairs ι))
  X c := iprop(∃ r, prngReg c r)
  Y c := iprop(∃ r, prngReg c r)
  Z c := Pipeline.unscopedRest (Ix := Ix) (Name := Name) (U := U) (Lvl := Lvl) spec0 c (valTc W0 c)
  hentry c := by
    rw [Pipeline.ownSems0_none]
    have hsplit := Pipeline.arrays_of_unscopedBufs (p := 0) (pcfgs (F := F)) adm
      (pdatsTc (F := F) (Name := Name) (U := U) (Lvl := Lvl) W0 W2 W4 O0 O2 O4 B0 B2 B4) launch0.win launch0.arr_whole c
      ((pdatsTc (F := F) (Name := Name) (U := U) (Lvl := Lvl) W0 W2 W4 O0 O2 O4 B0 B2 B4 0 c).share_full fun _ => rfl) (valTc W0 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c (O0 c) (B := B0 c) (B' := B0 c ∪ cfg0.waitPairs ι) Set.subset_union_left); iexact HO
    isplitl [Hp]; · iexact Hp
    iexact Hrest
  hin c := by
    rw [show (pdatsTc (F := F) (Name := Name) (U := U) (Lvl := Lvl) W0 W2 W4 O0 O2 O4 B0 B2 B4 0 c).Φ 0 = ΦTc spec0 c from rfl]; unfold ΦTc
    iintro ⟨Hp, -, Hr⟩
    isplitl [Hr]; · iexact Hr
    iexact Hp
  hout c := by
    rw [Pipeline.ownSems0_none, show (pdatsTc (F := F) (Name := Name) (U := U) (Lvl := Lvl) W0 W2 W4 O0 O2 O4 B0 B2 B4 0 c).Φ (Fin.last _) = ΦTc spec0 c from rfl]; unfold ΦTc
    iintro ⟨Hr, Hp⟩
    isplitl [Hp]; · iexact Hp
    isplitr; · iempintro
    iexact Hr
  hexit c := by
    have hjoin := Pipeline.unscopedBufs_of_arrays (p := 0) (pcfgs (F := F)) adm (Ix := Ix) (Name := Name) (U := U) (Lvl := Lvl)
      launch0.win launch0.arr_whole c (pdatsTc (F := F) (Name := Name) (U := U) (Lvl := Lvl) W0 W2 W4 O0 O2 O4 B0 B2 B4)
      ((pdatsTc (F := F) (Name := Name) (U := U) (Lvl := Lvl) W0 W2 W4 O0 O2 O4 B0 B2 B4 0 c).share_full fun _ => rfl)
      (valTc W0 c) (valTc (exitW0 Name U Lvl W0 O0 B0) c)
      ((pdatsTc (F := F) (Name := Name) (U := U) (Lvl := Lvl) W0 W2 W4 O0 O2 O4 B0 B2 B4 0 c).arrAt · cfg0.N)
      (hF0 W0 W2 W4 O0 O2 O4 B0 B2 B4 c) (hrest0 W0 O0 B0 c)
    rw [Pipeline.unscopedBufs_held] at hjoin
    iintro ⟨Ha, HO, HY, Hrest⟩
    imodintro
    isplitl [Ha Hrest]
    · iapply hjoin; isplitl [Ha] <;> iassumption
    isplitl [HY]; · iexact HY
    iexact HO

end Reg0

end Cert.KernelIdeal.Tc

end
-- ==== Proof.TcReg2.lean ====
/-
  TensorCore pallas call 2 (pipeline 1 of the program) as a region segment of the TensorCore's thread.

  Between two segments the TensorCore of core c holds every unscoped buffer of its own at some contents
  W c, its generator register at some state, and what it owes (the tallies O c, constant through the
  region: the body signals no one).  The region splits its fourteen windowed arrays out of those
  buffers at the contents W c gives them, runs the pipeline — the class invariant is the scoped rest
  and the generator register, which the body does not touch —, and puts the arrays back: the thirteen
  inputs as they were and the output at what the write-backs leave, every other buffer as entered.
  What is left as a hypothesis: that the pipeline's staging cells sit below, in level, everything the
  core owes during the region (the wait evidence, a fact of the whole program's level assignment).
-/
import proofs.«217981_g19061064860210_cont_8to1_1320_37_alg».proof.Proof.TcFamily

set_option maxRecDepth 16384

noncomputable section

namespace Cert.KernelIdeal.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (Name U Lvl) in
/-- The core's buffers at the region's exit: the fourteen windowed arrays at what the pipeline leaves (the inputs as
    entered, the output's write-backs folded), every other buffer as entered. -/
def exitW2 (W2 : Dev nD → Valuation τ sig (Elt F)) (O2 : Dev nD → CellTallies nD τ sig Ix) (B2 : Dev nD → Set (SemLoc sig × Ix)) (c : Dev nD) : Valuation τ sig (Elt F) :=
  Pipeline.withArrays spec2 c (W2 c) fun w =>
    (dats2 (F := F) (Ix := Ix) (Name := Name) (U := U) (Lvl := Lvl) c (fun w => valTc W2 c (Pipeline.arrRef spec2 w)) (ΦTc spec2 c) (O2 c) (B2 c)).arrAt w cfg2.N

section Reg2

variable (W0 W2 W4 : Dev nD → Valuation τ sig (Elt F)) (O0 O2 O4 : Dev nD → CellTallies nD τ sig Ix)
  (B0 B2 B4 : Dev nD → Set (SemLoc sig × Ix))
  (𝒱₀ : Variants) (ι : Ix) (L : GSem nD τ sig → Finset Ix) (lv : GSem nD τ sig → Ix → Lvl)

/-- The exit contents at a windowed array: what the pipeline leaves there. -/
theorem exitW2_arr (c : Dev nD) (w : Fin cfg2.W) :
    exitW2 Name U Lvl W2 O2 B2 c (Proc.devRef .tc (Pipeline.arrRef spec2 w))
      = (dats2 (F := F) (Ix := Ix) (Name := Name) (U := U) (Lvl := Lvl) c (fun w => valTc W2 c (Pipeline.arrRef spec2 w)) (ΦTc spec2 c) (O2 c) (B2 c)).arrAt w cfg2.N := by
  unfold exitW2; exact Pipeline.withArrays_arr spec2 launch2.win.arr_inj c _ _ w
/-- The exit contents at any other TensorCore buffer: what it held at entry. -/
theorem exitW2_of_ne (c : Dev nD) (b : Ref sig .tc) (hb : ∀ w, Pipeline.arrRef spec2 w ≠ b) :
    exitW2 Name U Lvl W2 O2 B2 c (Proc.devRef .tc b) = W2 c (Proc.devRef .tc b) := by
  unfold exitW2; exact Pipeline.withArrays_of_ne spec2 c _ _ b hb
/-- At the exit each windowed array holds what the pipeline leaves, -/
theorem hF2 (c : Dev nD) (w : Fin cfg2.W) :
    (pdatsTc (F := F) (Name := Name) (U := U) (Lvl := Lvl) W0 W2 W4 O0 O2 O4 B0 B2 B4 1 c).arrAt w cfg2.N
      = valTc (exitW2 Name U Lvl W2 O2 B2) c (Pipeline.arrRef spec2 w) :=
  (exitW2_arr W2 O2 B2 c w).symm
/-- and every other buffer what it held at entry. -/
theorem hrest2 (c : Dev nD) : ∀ b, b ∉ Finset.univ.image (Pipeline.arrRef spec2) →
    valTc (exitW2 Name U Lvl W2 O2 B2) c b = valTc W2 c b :=
  fun b hb => exitW2_of_ne W2 O2 B2 c b fun w e => hb (Finset.mem_image.mpr ⟨w, Finset.mem_univ _, e⟩)

-- a library lemma stated over the pinned configuration unifies with the printed one only when unification may unfold
-- plain definitions in a metavariable's type
set_option backward.isDefEq.respectTransparency.types false in
/-- The region of pallas call 2 over the thread state "every unscoped buffer at W2 c, the generator register at some
    state, the core owing O2 c with its recorded pairs within B2 c": entered there, left with the buffers at exitW2, the
    recorded pairs within B2 c and the pipeline's own wait pairs, and the rest as it was.  The wait
    evidence hw is the program's: the staging cells below everything the core owes. -/
def reg2 (hw : ∀ c, (levAts L lv : sProp 𝕄) ⊢ Pipeline.cellsWaits (Pipeline.pin (pcfgs (F := F)) adm)
      (pdatsTc (F := F) (Name := Name) (U := U) (Lvl := Lvl) W0 W2 W4 O0 O2 O4 B0 B2 B4) ι 1 c) :
    Pipeline.RegionSeg (pcfgs (F := F)) adm (pdatsTc (F := F) (Name := Name) (U := U) (Lvl := Lvl) W0 W2 W4 O0 O2 O4 B0 B2 B4) ι defs₀ 𝒱₀ L lv 1 where
  win := launch2.win.to₀
  block_pos := launch2.block_pos
  stage_whole := launch2.stage_whole
  K := PEmpty
  osem k := k.elim
  ho := Pipeline.OwnSemFacts.none _
  hbody c := (body_obligation2 c _ _ _ _ 𝒱₀ ι).loose
  hwaits := hw
  pre c := iprop(StableHlo.held (c : Thread nD τ) (Pipeline.ucRefs τ sig) (W2 c) ∗ (∃ r, prngReg c r)
    ∗ Pipeline.owesWithin c (O2 c) (B2 c))
  post c := iprop(StableHlo.held (c : Thread nD τ) (Pipeline.ucRefs τ sig) (exitW2 Name U Lvl W2 O2 B2 c) ∗ (∃ r, prngReg c r)
    ∗ Pipeline.owesWithin c (O2 c) (B2 c ∪ cfg2.waitPairs ι))
  X c := iprop(∃ r, prngReg c r)
  Y c := iprop(∃ r, prngReg c r)
  Z c := Pipeline.unscopedRest (Ix := Ix) (Name := Name) (U := U) (Lvl := Lvl) spec2 c (valTc W2 c)
  hentry c := by
    rw [Pipeline.ownSems0_none]
    have hsplit := Pipeline.arrays_of_unscopedBufs (p := 1) (pcfgs (F := F)) adm
      (pdatsTc (F := F) (Name := Name) (U := U) (Lvl := Lvl) W0 W2 W4 O0 O2 O4 B0 B2 B4) launch2.win launch2.arr_whole c
      ((pdatsTc (F := F) (Name := Name) (U := U) (Lvl := Lvl) W0 W2 W4 O0 O2 O4 B0 B2 B4 1 c).share_full fun _ => rfl) (valTc W2 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c (O2 c) (B := B2 c) (B' := B2 c ∪ cfg2.waitPairs ι) Set.subset_union_left); iexact HO
    isplitl [Hp]; · iexact Hp
    iexact Hrest
  hin c := by
    rw [show (pdatsTc (F := F) (Name := Name) (U := U) (Lvl := Lvl) W0 W2 W4 O0 O2 O4 B0 B2 B4 1 c).Φ 0 = ΦTc spec2 c from rfl]; unfold ΦTc
    iintro ⟨Hp, -, Hr⟩
    isplitl [Hr]; · iexact Hr
    iexact Hp
  hout c := by
    rw [Pipeline.ownSems0_none, show (pdatsTc (F := F) (Name := Name) (U := U) (Lvl := Lvl) W0 W2 W4 O0 O2 O4 B0 B2 B4 1 c).Φ (Fin.last _) = ΦTc spec2 c from rfl]; unfold ΦTc
    iintro ⟨Hr, Hp⟩
    isplitl [Hp]; · iexact Hp
    isplitr; · iempintro
    iexact Hr
  hexit c := by
    have hjoin := Pipeline.unscopedBufs_of_arrays (p := 1) (pcfgs (F := F)) adm (Ix := Ix) (Name := Name) (U := U) (Lvl := Lvl)
      launch2.win launch2.arr_whole c (pdatsTc (F := F) (Name := Name) (U := U) (Lvl := Lvl) W0 W2 W4 O0 O2 O4 B0 B2 B4)
      ((pdatsTc (F := F) (Name := Name) (U := U) (Lvl := Lvl) W0 W2 W4 O0 O2 O4 B0 B2 B4 1 c).share_full fun _ => rfl)
      (valTc W2 c) (valTc (exitW2 Name U Lvl W2 O2 B2) c)
      ((pdatsTc (F := F) (Name := Name) (U := U) (Lvl := Lvl) W0 W2 W4 O0 O2 O4 B0 B2 B4 1 c).arrAt · cfg2.N)
      (hF2 W0 W2 W4 O0 O2 O4 B0 B2 B4 c) (hrest2 W2 O2 B2 c)
    rw [Pipeline.unscopedBufs_held] at hjoin
    iintro ⟨Ha, HO, HY, Hrest⟩
    imodintro
    isplitl [Ha Hrest]
    · iapply hjoin; isplitl [Ha] <;> iassumption
    isplitl [HY]; · iexact HY
    iexact HO

end Reg2

end Cert.KernelIdeal.Tc

end
-- ==== Proof.TcReg4.lean ====
/-
  TensorCore pallas call 4 (pipeline 2 of the program) as a region segment of the TensorCore's thread.

  Between two segments the TensorCore of core c holds every unscoped buffer of its own at some contents
  W c, its generator register at some state, and what it owes (the tallies O c, constant through the
  region: the body signals no one).  The region splits its fourteen windowed arrays out of those
  buffers at the contents W c gives them, runs the pipeline — the class invariant is the scoped rest
  and the generator register, which the body does not touch —, and puts the arrays back: the thirteen
  inputs as they were and the output at what the write-backs leave, every other buffer as entered.
  What is left as a hypothesis: that the pipeline's staging cells sit below, in level, everything the
  core owes during the region (the wait evidence, a fact of the whole program's level assignment).
-/
import proofs.«217981_g19061064860210_cont_8to1_1320_37_alg».proof.Proof.TcFamily

set_option maxRecDepth 16384

noncomputable section

namespace Cert.KernelIdeal.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (Name U Lvl) in
/-- The core's buffers at the region's exit: the fourteen windowed arrays at what the pipeline leaves (the inputs as
    entered, the output's write-backs folded), every other buffer as entered. -/
def exitW4 (W4 : Dev nD → Valuation τ sig (Elt F)) (O4 : Dev nD → CellTallies nD τ sig Ix) (B4 : Dev nD → Set (SemLoc sig × Ix)) (c : Dev nD) : Valuation τ sig (Elt F) :=
  Pipeline.withArrays spec4 c (W4 c) fun w =>
    (dats4 (F := F) (Ix := Ix) (Name := Name) (U := U) (Lvl := Lvl) c (fun w => valTc W4 c (Pipeline.arrRef spec4 w)) (ΦTc spec4 c) (O4 c) (B4 c)).arrAt w cfg4.N

section Reg4

variable (W0 W2 W4 : Dev nD → Valuation τ sig (Elt F)) (O0 O2 O4 : Dev nD → CellTallies nD τ sig Ix)
  (B0 B2 B4 : Dev nD → Set (SemLoc sig × Ix))
  (𝒱₀ : Variants) (ι : Ix) (L : GSem nD τ sig → Finset Ix) (lv : GSem nD τ sig → Ix → Lvl)

/-- The exit contents at a windowed array: what the pipeline leaves there. -/
theorem exitW4_arr (c : Dev nD) (w : Fin cfg4.W) :
    exitW4 Name U Lvl W4 O4 B4 c (Proc.devRef .tc (Pipeline.arrRef spec4 w))
      = (dats4 (F := F) (Ix := Ix) (Name := Name) (U := U) (Lvl := Lvl) c (fun w => valTc W4 c (Pipeline.arrRef spec4 w)) (ΦTc spec4 c) (O4 c) (B4 c)).arrAt w cfg4.N := by
  unfold exitW4; exact Pipeline.withArrays_arr spec4 launch4.win.arr_inj c _ _ w
/-- The exit contents at any other TensorCore buffer: what it held at entry. -/
theorem exitW4_of_ne (c : Dev nD) (b : Ref sig .tc) (hb : ∀ w, Pipeline.arrRef spec4 w ≠ b) :
    exitW4 Name U Lvl W4 O4 B4 c (Proc.devRef .tc b) = W4 c (Proc.devRef .tc b) := by
  unfold exitW4; exact Pipeline.withArrays_of_ne spec4 c _ _ b hb
/-- At the exit each windowed array holds what the pipeline leaves, -/
theorem hF4 (c : Dev nD) (w : Fin cfg4.W) :
    (pdatsTc (F := F) (Name := Name) (U := U) (Lvl := Lvl) W0 W2 W4 O0 O2 O4 B0 B2 B4 2 c).arrAt w cfg4.N
      = valTc (exitW4 Name U Lvl W4 O4 B4) c (Pipeline.arrRef spec4 w) :=
  (exitW4_arr W4 O4 B4 c w).symm
/-- and every other buffer what it held at entry. -/
theorem hrest4 (c : Dev nD) : ∀ b, b ∉ Finset.univ.image (Pipeline.arrRef spec4) →
    valTc (exitW4 Name U Lvl W4 O4 B4) c b = valTc W4 c b :=
  fun b hb => exitW4_of_ne W4 O4 B4 c b fun w e => hb (Finset.mem_image.mpr ⟨w, Finset.mem_univ _, e⟩)

-- a library lemma stated over the pinned configuration unifies with the printed one only when unification may unfold
-- plain definitions in a metavariable's type
set_option backward.isDefEq.respectTransparency.types false in
/-- The region of pallas call 4 over the thread state "every unscoped buffer at W4 c, the generator register at some
    state, the core owing O4 c with its recorded pairs within B4 c": entered there, left with the buffers at exitW4, the
    recorded pairs within B4 c and the pipeline's own wait pairs, and the rest as it was.  The wait
    evidence hw is the program's: the staging cells below everything the core owes. -/
def reg4 (hw : ∀ c, (levAts L lv : sProp 𝕄) ⊢ Pipeline.cellsWaits (Pipeline.pin (pcfgs (F := F)) adm)
      (pdatsTc (F := F) (Name := Name) (U := U) (Lvl := Lvl) W0 W2 W4 O0 O2 O4 B0 B2 B4) ι 2 c) :
    Pipeline.RegionSeg (pcfgs (F := F)) adm (pdatsTc (F := F) (Name := Name) (U := U) (Lvl := Lvl) W0 W2 W4 O0 O2 O4 B0 B2 B4) ι defs₀ 𝒱₀ L lv 2 where
  win := launch4.win.to₀
  block_pos := launch4.block_pos
  stage_whole := launch4.stage_whole
  K := PEmpty
  osem k := k.elim
  ho := Pipeline.OwnSemFacts.none _
  hbody c := (body_obligation4 c _ _ _ _ 𝒱₀ ι).loose
  hwaits := hw
  pre c := iprop(StableHlo.held (c : Thread nD τ) (Pipeline.ucRefs τ sig) (W4 c) ∗ (∃ r, prngReg c r)
    ∗ Pipeline.owesWithin c (O4 c) (B4 c))
  post c := iprop(StableHlo.held (c : Thread nD τ) (Pipeline.ucRefs τ sig) (exitW4 Name U Lvl W4 O4 B4 c) ∗ (∃ r, prngReg c r)
    ∗ Pipeline.owesWithin c (O4 c) (B4 c ∪ cfg4.waitPairs ι))
  X c := iprop(∃ r, prngReg c r)
  Y c := iprop(∃ r, prngReg c r)
  Z c := Pipeline.unscopedRest (Ix := Ix) (Name := Name) (U := U) (Lvl := Lvl) spec4 c (valTc W4 c)
  hentry c := by
    rw [Pipeline.ownSems0_none]
    have hsplit := Pipeline.arrays_of_unscopedBufs (p := 2) (pcfgs (F := F)) adm
      (pdatsTc (F := F) (Name := Name) (U := U) (Lvl := Lvl) W0 W2 W4 O0 O2 O4 B0 B2 B4) launch4.win launch4.arr_whole c
      ((pdatsTc (F := F) (Name := Name) (U := U) (Lvl := Lvl) W0 W2 W4 O0 O2 O4 B0 B2 B4 2 c).share_full fun _ => rfl) (valTc W4 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c (O4 c) (B := B4 c) (B' := B4 c ∪ cfg4.waitPairs ι) Set.subset_union_left); iexact HO
    isplitl [Hp]; · iexact Hp
    iexact Hrest
  hin c := by
    rw [show (pdatsTc (F := F) (Name := Name) (U := U) (Lvl := Lvl) W0 W2 W4 O0 O2 O4 B0 B2 B4 2 c).Φ 0 = ΦTc spec4 c from rfl]; unfold ΦTc
    iintro ⟨Hp, -, Hr⟩
    isplitl [Hr]; · iexact Hr
    iexact Hp
  hout c := by
    rw [Pipeline.ownSems0_none, show (pdatsTc (F := F) (Name := Name) (U := U) (Lvl := Lvl) W0 W2 W4 O0 O2 O4 B0 B2 B4 2 c).Φ (Fin.last _) = ΦTc spec4 c from rfl]; unfold ΦTc
    iintro ⟨Hr, Hp⟩
    isplitl [Hp]; · iexact Hp
    isplitr; · iempintro
    iexact Hr
  hexit c := by
    have hjoin := Pipeline.unscopedBufs_of_arrays (p := 2) (pcfgs (F := F)) adm (Ix := Ix) (Name := Name) (U := U) (Lvl := Lvl)
      launch4.win launch4.arr_whole c (pdatsTc (F := F) (Name := Name) (U := U) (Lvl := Lvl) W0 W2 W4 O0 O2 O4 B0 B2 B4)
      ((pdatsTc (F := F) (Name := Name) (U := U) (Lvl := Lvl) W0 W2 W4 O0 O2 O4 B0 B2 B4 2 c).share_full fun _ => rfl)
      (valTc W4 c) (valTc (exitW4 Name U Lvl W4 O4 B4) c)
      ((pdatsTc (F := F) (Name := Name) (U := U) (Lvl := Lvl) W0 W2 W4 O0 O2 O4 B0 B2 B4 2 c).arrAt · cfg4.N)
      (hF4 W0 W2 W4 O0 O2 O4 B0 B2 B4 c) (hrest4 W4 O4 B4 c)
    rw [Pipeline.unscopedBufs_held] at hjoin
    iintro ⟨Ha, HO, HY, Hrest⟩
    imodintro
    isplitl [Ha Hrest]
    · iapply hjoin; isplitl [Ha] <;> iassumption
    isplitl [HY]; · iexact HY
    iexact HO

end Reg4

end Cert.KernelIdeal.Tc

end
-- ==== Proof.TcGhost.lean ====
/-
  The certificate's ghost state, as far as the TensorCore pallas calls are concerned.

  The ghost state of the whole certificate is a triple: the rounds of the handshakes between the
  TensorCore, the sequencers and the tiles; a copy of the rounds algebra with unnamed duties, which is
  where the pipeline library keeps its staging cells; and the transfer counters.  This file names the
  middle and the last component's embeddings, and records that the start signals the TensorCore owes
  are all owed at a call's index, never at the index of no call.
-/
import proofs.«217981_g19061064860210_cont_8to1_1320_37_alg».proof.Proof.ScInv
import proofs.«217981_g19061064860210_cont_8to1_1320_37_alg».proof.Proof.TcReg0
import proofs.«217981_g19061064860210_cont_8to1_1320_37_alg».proof.Proof.TcReg2
import proofs.«217981_g19061064860210_cont_8to1_1320_37_alg».proof.Proof.TcReg4
import Idealize.ShloMosaic.Lib.SparseCore.Threads

set_option maxRecDepth 16384

noncomputable section

namespace Cert.Proof.KI

open Cert.KernelIdeal Cert.KernelIdeal.Gen Cert.KernelIdeal.Tc
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- The pipeline library's copy of the rounds algebra inside the certificate's ghost state: the left of the right
    component. -/
def ER : Emb (UR sig nD τ) 𝕄 :=
  (Emb.inl : Emb (UR sig nD τ) (UR sig nD τ × Counters)).trans (embR (A := UH) (B := UR sig nD τ × Counters))

instance ER_landsIn : (ER (F := F)).LandsIn (upEmb : UEmb _ 𝕄) := by unfold ER embR; infer_instance

/-- What the TensorCore of d owes before SparseCore call n, as a family over the devices. -/
abbrev OtcAt (n : ℕ) : Dev nD → CellTallies nD τ sig (HIx 2) := fun d => (K (F := F)).Otc d n

/-- The TensorCore owes nothing at the index of no call: every start signal is owed at its call's index. -/
theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

/-- The transfer counters inside the certificate's ghost state: the right of the right component. -/
def EC : Emb Counters 𝕄 :=
  (Emb.inr : Emb Counters (UR sig nD τ × Counters)).trans (embR (A := UH) (B := UR sig nD τ × Counters))

instance EC_landsIn : (EC (F := F)).LandsIn (upEmb : UEmb _ 𝕄) := by unfold EC embR; infer_instance

end Cert.Proof.KI

end
-- ==== Proof.TcFund.lean ====
/-
  The three pipelines' part of the launch element.

  The certificate's launch element is a triple: the handshakes' rounds, the pipeline library's rounds
  — the launch state of every staging cell of the three pallas calls on every device, with a duty
  token for every transfer their loops issue —, and the transfer counters.  Owning it is owning each
  component through its embedding; and the middle one funds, for every device and every pallas call,
  the staging cells' ghost state and the duty tokens that entering that call's region spends.
-/
import proofs.«217981_g19061064860210_cont_8to1_1320_37_alg».proof.Proof.TcGhost

set_option maxRecDepth 16384

noncomputable section

namespace Cert.Proof.KI

open Cert.KernelIdeal Cert.KernelIdeal.Gen Cert.KernelIdeal.Tc
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- The pipeline library's launch element: every staging cell of the three pallas calls at its launch state, and a
    duty token for every transfer the three loops issue. -/
abbrev uPipes : UR sig nD τ :=
  initOf (Pipeline.cells (nD := nD) (τ := τ) (Pipeline.pin (pcfgs (F := F)) adm) cellOf_inj)
    (Pipeline.launchToks (nD := nD) (τ := τ) (Pipeline.pin (pcfgs (F := F)) adm) cellOf_inj)

set_option backward.isDefEq.respectTransparency.types false in
/-- Owning the launch element (uH, (uPipes, cnt)) gives, after a ghost update: the handshakes' component uH through
    the left embedding; the counters' component cnt through its embedding; and for every device and every pallas
    call the staging cells' ghost state and the duty tokens. -/
theorem fund_pipes (uH : UH) (cnt : Counters) :
    (ownU ((uH, (uPipes (F := F), cnt)) : UU) : sProp 𝕄)
      ⊢ iprop(|==> (BI.own ((embL (A := UH) (B := UR sig nD τ × Counters) : Emb UH 𝕄) uH) ∗ BI.own ((EC (F := F)) cnt)
          ∗ (bigSep Finset.univ fun c : Dev nD => bigSep Finset.univ fun p : Fin 3 =>
              Pipeline.cellsGhost (Pipeline.pin (pcfgs (F := F)) adm) (ER (F := F)) p c)
          ∗ (bigSep Finset.univ fun c : Dev nD => bigSep Finset.univ fun p : Fin 3 =>
              (Pipeline.toksInit (Pipeline.pin (pcfgs (F := F)) adm) (ER (F := F)) p c : sProp 𝕄)))) := by
  iintro Hu
  ihave H := (ownU_pair (nD := nD) (τ := τ) (sig := sig) (Ix := HIx 2) (Val := Elt F) (Name := ℕ) (Lvl := ℕ) uH (uPipes (F := F), cnt)) $$ Hu
  icases H with ⟨HH, HR⟩
  ihave H2 := (own_pair_emb (embR (nD := nD) (τ := τ) (sig := sig) (Ix := HIx 2) (Val := Elt F) (Name := ℕ) (Lvl := ℕ) (A := UH) (B := UR sig nD τ × Counters)) (uPipes (F := F)) cnt) $$ HR
  icases H2 with ⟨HuR, Hc⟩
  have hconvR : (BI.own (((Emb.inl : Emb (UR sig nD τ) (UR sig nD τ × Counters)).trans
      (embR (nD := nD) (τ := τ) (sig := sig) (Ix := HIx 2) (Val := Elt F) (Name := ℕ) (Lvl := ℕ) (A := UH) (B := UR sig nD τ × Counters))) (uPipes (F := F))) : sProp 𝕄)
      ⊢ BI.own ((ER (F := F)) (uPipes (F := F))) := .rfl
  have hconvC : (BI.own (((Emb.inr : Emb Counters (UR sig nD τ × Counters)).trans
      (embR (nD := nD) (τ := τ) (sig := sig) (Ix := HIx 2) (Val := Elt F) (Name := ℕ) (Lvl := ℕ) (A := UH) (B := UR sig nD τ × Counters))) cnt) : sProp 𝕄)
      ⊢ BI.own ((EC (F := F)) cnt) := .rfl
  ihave HuR2 := hconvR $$ HuR
  ihave Hc2 := hconvC $$ Hc
  imod (Pipeline.fund_ghost (Pipeline.pin (pcfgs (F := F)) adm) (ER (F := F)) cellOf_inj) $$ HuR2 with ⟨Hg, Ht⟩
  imodintro
  isplitl [HH]; · iexact HH
  isplitl [Hc2]; · iexact Hc2
  isplitl [Hg] <;> iassumption

end Cert.Proof.KI

end
-- ==== Proof.ScFund.lean ====
/-
  The launch element of the kernel program: the certificate's ghost state at launch is the handshakes' rounds at their
  launch state, the pipelines' rounds (every staging cell of the three TensorCore regions at its launch state, with a
  duty token for every transfer their loops issue) and the transfer counters at one. Owning it gives, after a ghost
  update, the handshakes' component and, for every device, what each of the three regions spends on entry: its staging
  cells' ghost state and its duty tokens. Nothing is paid per thread.
-/
import proofs.«217981_g19061064860210_cont_8to1_1320_37_alg».proof.Proof.ScLaunch
import proofs.«217981_g19061064860210_cont_8to1_1320_37_alg».proof.Proof.TcFund

noncomputable section

namespace Cert.Proof.KI

open Cert.KernelIdeal Cert.KernelIdeal.Gen Cert.KernelIdeal.Tc
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- What region `p` spends on device `d` on entry: its staging cells' ghost state and its duty tokens. -/
def Gp (p : Fin 3) (d : Dev nD) : sProp 𝕄 :=
  iprop(Pipeline.cellsGhost (Pipeline.pin (pcfgs (F := F)) adm) (ER (F := F)) p d
    ∗ Pipeline.toksInit (Pipeline.pin (pcfgs (F := F)) adm) (ER (F := F)) p d)

/-- The launch element: the handshakes' rounds, the pipelines' rounds, the counters at one. -/
def u₀ : UU := (initOf (K (F := F)).hsCells (K (F := F)).hsToks, (uPipes (F := F), 1))

/-- A family of `emp` is `emp`. -/
theorem bigSep_emp' {I : Type} (s : Finset I) : (bigSep s fun _ => iprop(emp)) = (iprop(emp) : sProp 𝕄) := bigSep_emp_const s

/-- The two families the pipelines' rounds fund, regrouped by device and region. -/
theorem Gp_regroup :
    (bigSep Finset.univ fun d : Dev nD => iprop(Gp (F := F) 0 d ∗ Gp (F := F) 1 d ∗ Gp (F := F) 2 d))
      = iprop((bigSep Finset.univ fun c : Dev nD => bigSep Finset.univ fun p : Fin 3 =>
            Pipeline.cellsGhost (Pipeline.pin (pcfgs (F := F)) adm) (ER (F := F)) p c)
          ∗ (bigSep Finset.univ fun c : Dev nD => bigSep Finset.univ fun p : Fin 3 =>
            (Pipeline.toksInit (Pipeline.pin (pcfgs (F := F)) adm) (ER (F := F)) p c : sProp 𝕄))) := by
  rw [← bigSep_sep']
  refine bigSep_congr fun d _ => ?_
  rw [← bigSep_sep', bigSep_three]
  rfl

theorem launchObl : LaunchObl (F := F) (fun d => iprop(Gp (F := F) 0 d ∗ Gp (F := F) 1 d ∗ Gp (F := F) 2 d)) (u₀ (F := F)) := by
  unfold LaunchObl u₀
  iintro ⟨Hu, -, -⟩
  imod (fund_pipes (F := F) (initOf (K (F := F)).hsCells (K (F := F)).hsToks) 1) $$ Hu with ⟨HH, -, Hg, Ht⟩
  imodintro
  isplitl [HH]; · iexact HH
  isplitl [Hg Ht]
  · rw [Gp_regroup]
    isplitl [Hg]; · iexact Hg
    iexact Ht
  unfold P; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

end Cert.Proof.KI

end
-- ==== Proof.TcEnter.lean ====
/-
  The three TensorCore pallas calls entered from inside the program that also runs the SparseCores.

  @main of that program calls a pallas call as  customCall (inner (entry p)) :  the plain call of the
  pipeline, read in the extended table of body definitions.  A proof about the plain call is a proof
  about the lifted one; the plain call is the region rule — the boundary and the thread state in, the
  boundary and the thread state out, the pipeline's staging cells' ghost state spent —; and during
  the region the TensorCore still owes the start signals of the SparseCore calls to come: the
  pipeline may wait on its staging cells all the same, because it waits at the index of no call, at
  level 0, and every start signal is owed at a call's index, at a positive level.  For the same
  reason the pairs the pipeline's waits record keep the bound the TensorCore's state carries on its
  recorded pairs (all at or below level 8 n before call n).
-/
import proofs.«217981_g19061064860210_cont_8to1_1320_37_alg».proof.Proof.TcGhost

set_option maxRecDepth 16384

noncomputable section

namespace Cert.Proof.KI

open Cert.KernelIdeal Cert.KernelIdeal.Gen Cert.KernelIdeal.Tc
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- The pairs at or below level 8 n on the TensorCore of d: where its recorded pairs lie before SparseCore call n. -/
abbrev BelowAt (n : ℕ) : Dev nD → Set (SemLoc sig × HIx 2) := fun d => {p | (K (F := F)).lev (T d, p.1) p.2 ≤ 8 * n}

/-- The TensorCore's owes as its state before call n holds it, read as the pipeline library reads it. -/
theorem owes_in (n : ℕ) (d : Dev nD) :
    (iprop(∃ W, ⌜(K (F := F)).WBelow (T d) W (8 * n)⌝ ∗ owes (T d) ((K (F := F)).Otc d n) W) : sProp 𝕄)
      ⊢ Pipeline.owesWithin d ((K (F := F)).Otc d n) (BelowAt (F := F) n d) := by
  iintro ⟨%W, %hW, H⟩
  iexists W; isplitr; · ipureintro; exact fun p hp => hW p (Finset.mem_coe.mp hp)
  iexact H

/-- And back. -/
theorem owes_out (n : ℕ) (d : Dev nD) :
    (Pipeline.owesWithin d ((K (F := F)).Otc d n) (BelowAt (F := F) n d) : sProp 𝕄)
      ⊢ iprop(∃ W, ⌜(K (F := F)).WBelow (T d) W (8 * n)⌝ ∗ owes (T d) ((K (F := F)).Otc d n) W) := by
  iintro ⟨%W, %hW, H⟩
  iexists W; isplitr; · ipureintro; exact fun p hp => hW (Finset.mem_coe.mpr hp)
  iexact H

/-- The region rule of the plain program, read in the extended program: stated over propositions, so that the
    instances are compared with the rule's statement and nothing is unfolded. -/
theorem enter_of_region {Bd Pre Post Lv G Tk : sProp 𝕄} (p : Fin 3) (d : Dev nD)
    (h : ∀ Q : PUnit → sProp 𝕄,
      iprop((iprop(Bd ∗ Post) -∗ wp frame (wpE (Pipeline.defs (pcfgs (F := F)) defs₀) 𝒱₀.lift (T d) none) Set.univ (Prog.ret PUnit.unit) Q)
          ∗ Bd ∗ Pre ∗ Lv ∗ G ∗ Tk)
        ⊢ wp frame (wpE (Pipeline.defs (pcfgs (F := F)) defs₀) 𝒱₀.lift (T d) none) Set.univ
            (.op (.customCall (Pipeline.entry p) ()) fun _ => Prog.ret PUnit.unit) Q) :
    iprop(Bd ∗ Pre ∗ Lv ∗ G ∗ Tk)
      ⊢ wp frame (wpE ((K (F := F)).defs (Pipeline.defs pcfgs defs₀)) 𝒱₀.lift (T d) none) Set.univ
          (Prog.lift (.customCall (SparseCore.inner (Pipeline.entry p)) ())) (fun _ => iprop(Bd ∗ Post)) := by
  have hret : iprop(Bd ∗ Post) ⊢ wp frame (wpE (Pipeline.defs (pcfgs (F := F)) defs₀) 𝒱₀.lift (T d) none) Set.univ
      (Prog.ret PUnit.unit) (fun _ => iprop(Bd ∗ Post)) := by
    rw [wp_ret]; iintro H; imodintro; iexact H
  have hk : (BI.emp : sProp 𝕄) ⊢ iprop(iprop(Bd ∗ Post) -∗ wp frame (wpE (Pipeline.defs (pcfgs (F := F)) defs₀) 𝒱₀.lift (T d) none) Set.univ
      (Prog.ret PUnit.unit) (fun _ => iprop(Bd ∗ Post))) :=
    BIClass.wand_intro (emp_sep_elim.trans hret)
  exact (emp_sep_intro.trans (sep_mono hk .rfl)).trans ((h _).trans
    ((K (F := F)).wp_liftProg (Pipeline.defs pcfgs defs₀) 𝒱₀.lift (T d) Set.univ none
      (.op (.customCall (Pipeline.entry p) ()) fun _ => Prog.ret PUnit.unit) _))

/-- The wait evidence of pallas call 0's region: the pipeline waits on its staging cells at index none, at level 0,
    and everything the TensorCore owes (start signals of later calls) sits at a call's index, at a positive level. -/
theorem hwTc0 (W0 W2 W4 : Dev nD → Valuation τ sig (Elt F)) (n0 n2 n4 : ℕ) (d : Dev nD) :
    (levAts (K (F := F)).L (K (F := F)).lev : sProp 𝕄) ⊢ Pipeline.cellsWaits (Pipeline.pin (pcfgs (F := F)) adm)
      (pdatsTc (F := F) (Name := ℕ) (U := UU) (Lvl := ℕ) W0 W2 W4 (OtcAt (F := F) n0) (OtcAt (F := F) n2) (OtcAt (F := F) n4) (BelowAt (F := F) n0) (BelowAt (F := F) n2) (BelowAt (F := F) n4)) none 0 d :=
  Pipeline.cellsWaits_intro (Pipeline.pin (pcfgs (F := F)) adm)
    (pdatsTc (F := F) (Name := ℕ) (U := UU) (Lvl := ℕ) W0 W2 W4 (OtcAt (F := F) n0) (OtcAt (F := F) n2) (OtcAt (F := F) n4) (BelowAt (F := F) n0) (BelowAt (F := F) n2) (BelowAt (F := F) n4)) none 0 d
    fun w s t => (K (F := F)).mayWait_none (thr := (d.tc : Thread nD τ)) _ (Otc_none d n0)

/-- The pairs pallas call 0's pipeline records at its own waits sit at level 0: they are at the index of no call. -/
theorem waitPairs0_below (n : ℕ) (d : Dev nD) : cfg0.waitPairs (none : HIx 2) ⊆ BelowAt (F := F) n d := by
  rintro p ⟨w, s, rfl⟩
  show (K (F := F)).lev _ none ≤ 8 * n
  rw [SparseCore.Cfg.lev_none]; exact Nat.zero_le _

set_option backward.isDefEq.respectTransparency.types false in
/-- ONE REGION inside the extended program: pallas call 0 entered from the TensorCore's thread state before
    SparseCore call n0.
    CONSUMES the region boundary of the TensorCore (scoped buffers at some contents, scoped semaphores at zero, the idle
    slot); every unscoped TensorCore buffer at W0 d, the generator register at some state, and the TensorCore's owes
    exactly as its state before call n0 holds it (the start signals still owed, the recorded pairs at or below level
    8 n0); the level facts (persistent: keep your copy); and pipeline 0's staging cells' ghost state and duty tokens
    on d.  RETURNS the boundary; the buffers at exitW0 (the six windowed arrays at what the pipeline leaves, the rest
    as entered); the generator register; and the owes in the same form, the pairs the pipeline's waits recorded being at
    level 0.  The cells' ghost state and tokens are spent: a pipeline is entered once. -/
theorem enter0 (hloc : PayLocal0 F) (W0 W2 W4 : Dev nD → Valuation τ sig (Elt F)) (n0 n2 n4 : ℕ) (d : Dev nD) :
    iprop(boundary (T d)
        ∗ iprop(StableHlo.held (T d) (Pipeline.ucRefs τ sig) (W0 d) ∗ (∃ r, prngReg d r)
          ∗ ∃ W, ⌜(K (F := F)).WBelow (T d) W (8 * n0)⌝ ∗ owes (T d) ((K (F := F)).Otc d n0) W)
        ∗ levAts (K (F := F)).L (K (F := F)).lev
        ∗ Pipeline.cellsGhost (Pipeline.pin (pcfgs (F := F)) adm) ER 0 d ∗ Pipeline.toksInit (Pipeline.pin (pcfgs (F := F)) adm) ER 0 d)
      ⊢ wp frame (wpE ((K (F := F)).defs (Pipeline.defs pcfgs defs₀)) 𝒱₀.lift (T d) none) Set.univ
          (Prog.lift (.customCall (SparseCore.inner (Pipeline.entry 0)) ()))
          (fun _ => iprop(boundary (T d)
            ∗ iprop(StableHlo.held (T d) (Pipeline.ucRefs τ sig) (exitW0 ℕ UU ℕ W0 (OtcAt (F := F) n0) (BelowAt (F := F) n0) d) ∗ (∃ r, prngReg d r)
          ∗ ∃ W, ⌜(K (F := F)).WBelow (T d) W (8 * n0)⌝ ∗ owes (T d) ((K (F := F)).Otc d n0) W) : sProp 𝕄)) := by
  have hreg := enter_of_region (F := F) 0 d (fun Q => Pipeline.RegionSeg.wp (pcfgs (F := F)) adm
    (pdatsTc (F := F) (Name := ℕ) (U := UU) (Lvl := ℕ) W0 W2 W4 (OtcAt (F := F) n0) (OtcAt (F := F) n2) (OtcAt (F := F) n4) (BelowAt (F := F) n0) (BelowAt (F := F) n2) (BelowAt (F := F) n4)) none cellOf_inj ER defs₀ 𝒱₀
    (K (F := F)).L (K (F := F)).lev
    (reg0 W0 W2 W4 (OtcAt (F := F) n0) (OtcAt (F := F) n2) (OtcAt (F := F) n4) (BelowAt (F := F) n0) (BelowAt (F := F) n2) (BelowAt (F := F) n4) 𝒱₀ none (K (F := F)).L (K (F := F)).lev hloc (hwTc0 W0 W2 W4 n0 n2 n4))
    d none (fun u hu => by cases hu) (α := PUnit) (fun _ => Prog.ret PUnit.unit) Q)
  refine BI.Entails.trans (sep_mono .rfl (sep_mono (sep_mono .rfl (sep_mono .rfl (owes_in n0 d))) .rfl)) (hreg.trans ?_)
  exact wp_mono _ _ _ fun _ => sep_mono .rfl (sep_mono .rfl (sep_mono .rfl
    ((Pipeline.owesWithin_mono d _ (Set.union_subset (fun _ h => h) (waitPairs0_below n0 d))).trans (owes_out n0 d))))

/-- The wait evidence of pallas call 2's region: the pipeline waits on its staging cells at index none, at level 0,
    and everything the TensorCore owes (start signals of later calls) sits at a call's index, at a positive level. -/
theorem hwTc2 (W0 W2 W4 : Dev nD → Valuation τ sig (Elt F)) (n0 n2 n4 : ℕ) (d : Dev nD) :
    (levAts (K (F := F)).L (K (F := F)).lev : sProp 𝕄) ⊢ Pipeline.cellsWaits (Pipeline.pin (pcfgs (F := F)) adm)
      (pdatsTc (F := F) (Name := ℕ) (U := UU) (Lvl := ℕ) W0 W2 W4 (OtcAt (F := F) n0) (OtcAt (F := F) n2) (OtcAt (F := F) n4) (BelowAt (F := F) n0) (BelowAt (F := F) n2) (BelowAt (F := F) n4)) none 1 d :=
  Pipeline.cellsWaits_intro (Pipeline.pin (pcfgs (F := F)) adm)
    (pdatsTc (F := F) (Name := ℕ) (U := UU) (Lvl := ℕ) W0 W2 W4 (OtcAt (F := F) n0) (OtcAt (F := F) n2) (OtcAt (F := F) n4) (BelowAt (F := F) n0) (BelowAt (F := F) n2) (BelowAt (F := F) n4)) none 1 d
    fun w s t => (K (F := F)).mayWait_none (thr := (d.tc : Thread nD τ)) _ (Otc_none d n2)

/-- The pairs pallas call 2's pipeline records at its own waits sit at level 0: they are at the index of no call. -/
theorem waitPairs2_below (n : ℕ) (d : Dev nD) : cfg2.waitPairs (none : HIx 2) ⊆ BelowAt (F := F) n d := by
  rintro p ⟨w, s, rfl⟩
  show (K (F := F)).lev _ none ≤ 8 * n
  rw [SparseCore.Cfg.lev_none]; exact Nat.zero_le _

set_option backward.isDefEq.respectTransparency.types false in
/-- ONE REGION inside the extended program: pallas call 2 entered from the TensorCore's thread state before
    SparseCore call n2.
    CONSUMES the region boundary of the TensorCore (scoped buffers at some contents, scoped semaphores at zero, the idle
    slot); every unscoped TensorCore buffer at W2 d, the generator register at some state, and the TensorCore's owes
    exactly as its state before call n2 holds it (the start signals still owed, the recorded pairs at or below level
    8 n2); the level facts (persistent: keep your copy); and pipeline 1's staging cells' ghost state and duty tokens
    on d.  RETURNS the boundary; the buffers at exitW2 (the fourteen windowed arrays at what the pipeline leaves, the rest
    as entered); the generator register; and the owes in the same form, the pairs the pipeline's waits recorded being at
    level 0.  The cells' ghost state and tokens are spent: a pipeline is entered once. -/
theorem enter2 (W0 W2 W4 : Dev nD → Valuation τ sig (Elt F)) (n0 n2 n4 : ℕ) (d : Dev nD) :
    iprop(boundary (T d)
        ∗ iprop(StableHlo.held (T d) (Pipeline.ucRefs τ sig) (W2 d) ∗ (∃ r, prngReg d r)
          ∗ ∃ W, ⌜(K (F := F)).WBelow (T d) W (8 * n2)⌝ ∗ owes (T d) ((K (F := F)).Otc d n2) W)
        ∗ levAts (K (F := F)).L (K (F := F)).lev
        ∗ Pipeline.cellsGhost (Pipeline.pin (pcfgs (F := F)) adm) ER 1 d ∗ Pipeline.toksInit (Pipeline.pin (pcfgs (F := F)) adm) ER 1 d)
      ⊢ wp frame (wpE ((K (F := F)).defs (Pipeline.defs pcfgs defs₀)) 𝒱₀.lift (T d) none) Set.univ
          (Prog.lift (.customCall (SparseCore.inner (Pipeline.entry 1)) ()))
          (fun _ => iprop(boundary (T d)
            ∗ iprop(StableHlo.held (T d) (Pipeline.ucRefs τ sig) (exitW2 ℕ UU ℕ W2 (OtcAt (F := F) n2) (BelowAt (F := F) n2) d) ∗ (∃ r, prngReg d r)
          ∗ ∃ W, ⌜(K (F := F)).WBelow (T d) W (8 * n2)⌝ ∗ owes (T d) ((K (F := F)).Otc d n2) W) : sProp 𝕄)) := by
  have hreg := enter_of_region (F := F) 1 d (fun Q => Pipeline.RegionSeg.wp (pcfgs (F := F)) adm
    (pdatsTc (F := F) (Name := ℕ) (U := UU) (Lvl := ℕ) W0 W2 W4 (OtcAt (F := F) n0) (OtcAt (F := F) n2) (OtcAt (F := F) n4) (BelowAt (F := F) n0) (BelowAt (F := F) n2) (BelowAt (F := F) n4)) none cellOf_inj ER defs₀ 𝒱₀
    (K (F := F)).L (K (F := F)).lev
    (reg2 W0 W2 W4 (OtcAt (F := F) n0) (OtcAt (F := F) n2) (OtcAt (F := F) n4) (BelowAt (F := F) n0) (BelowAt (F := F) n2) (BelowAt (F := F) n4) 𝒱₀ none (K (F := F)).L (K (F := F)).lev (hwTc2 W0 W2 W4 n0 n2 n4))
    d none (fun u hu => by cases hu) (α := PUnit) (fun _ => Prog.ret PUnit.unit) Q)
  refine BI.Entails.trans (sep_mono .rfl (sep_mono (sep_mono .rfl (sep_mono .rfl (owes_in n2 d))) .rfl)) (hreg.trans ?_)
  exact wp_mono _ _ _ fun _ => sep_mono .rfl (sep_mono .rfl (sep_mono .rfl
    ((Pipeline.owesWithin_mono d _ (Set.union_subset (fun _ h => h) (waitPairs2_below n2 d))).trans (owes_out n2 d))))

/-- The wait evidence of pallas call 4's region: the pipeline waits on its staging cells at index none, at level 0,
    and everything the TensorCore owes (start signals of later calls) sits at a call's index, at a positive level. -/
theorem hwTc4 (W0 W2 W4 : Dev nD → Valuation τ sig (Elt F)) (n0 n2 n4 : ℕ) (d : Dev nD) :
    (levAts (K (F := F)).L (K (F := F)).lev : sProp 𝕄) ⊢ Pipeline.cellsWaits (Pipeline.pin (pcfgs (F := F)) adm)
      (pdatsTc (F := F) (Name := ℕ) (U := UU) (Lvl := ℕ) W0 W2 W4 (OtcAt (F := F) n0) (OtcAt (F := F) n2) (OtcAt (F := F) n4) (BelowAt (F := F) n0) (BelowAt (F := F) n2) (BelowAt (F := F) n4)) none 2 d :=
  Pipeline.cellsWaits_intro (Pipeline.pin (pcfgs (F := F)) adm)
    (pdatsTc (F := F) (Name := ℕ) (U := UU) (Lvl := ℕ) W0 W2 W4 (OtcAt (F := F) n0) (OtcAt (F := F) n2) (OtcAt (F := F) n4) (BelowAt (F := F) n0) (BelowAt (F := F) n2) (BelowAt (F := F) n4)) none 2 d
    fun w s t => (K (F := F)).mayWait_none (thr := (d.tc : Thread nD τ)) _ (Otc_none d n4)

/-- The pairs pallas call 4's pipeline records at its own waits sit at level 0: they are at the index of no call. -/
theorem waitPairs4_below (n : ℕ) (d : Dev nD) : cfg4.waitPairs (none : HIx 2) ⊆ BelowAt (F := F) n d := by
  rintro p ⟨w, s, rfl⟩
  show (K (F := F)).lev _ none ≤ 8 * n
  rw [SparseCore.Cfg.lev_none]; exact Nat.zero_le _

set_option backward.isDefEq.respectTransparency.types false in
/-- ONE REGION inside the extended program: pallas call 4 entered from the TensorCore's thread state before
    SparseCore call n4.
    CONSUMES the region boundary of the TensorCore (scoped buffers at some contents, scoped semaphores at zero, the idle
    slot); every unscoped TensorCore buffer at W4 d, the generator register at some state, and the TensorCore's owes
    exactly as its state before call n4 holds it (the start signals still owed, the recorded pairs at or below level
    8 n4); the level facts (persistent: keep your copy); and pipeline 2's staging cells' ghost state and duty tokens
    on d.  RETURNS the boundary; the buffers at exitW4 (the fourteen windowed arrays at what the pipeline leaves, the rest
    as entered); the generator register; and the owes in the same form, the pairs the pipeline's waits recorded being at
    level 0.  The cells' ghost state and tokens are spent: a pipeline is entered once. -/
theorem enter4 (W0 W2 W4 : Dev nD → Valuation τ sig (Elt F)) (n0 n2 n4 : ℕ) (d : Dev nD) :
    iprop(boundary (T d)
        ∗ iprop(StableHlo.held (T d) (Pipeline.ucRefs τ sig) (W4 d) ∗ (∃ r, prngReg d r)
          ∗ ∃ W, ⌜(K (F := F)).WBelow (T d) W (8 * n4)⌝ ∗ owes (T d) ((K (F := F)).Otc d n4) W)
        ∗ levAts (K (F := F)).L (K (F := F)).lev
        ∗ Pipeline.cellsGhost (Pipeline.pin (pcfgs (F := F)) adm) ER 2 d ∗ Pipeline.toksInit (Pipeline.pin (pcfgs (F := F)) adm) ER 2 d)
      ⊢ wp frame (wpE ((K (F := F)).defs (Pipeline.defs pcfgs defs₀)) 𝒱₀.lift (T d) none) Set.univ
          (Prog.lift (.customCall (SparseCore.inner (Pipeline.entry 2)) ()))
          (fun _ => iprop(boundary (T d)
            ∗ iprop(StableHlo.held (T d) (Pipeline.ucRefs τ sig) (exitW4 ℕ UU ℕ W4 (OtcAt (F := F) n4) (BelowAt (F := F) n4) d) ∗ (∃ r, prngReg d r)
          ∗ ∃ W, ⌜(K (F := F)).WBelow (T d) W (8 * n4)⌝ ∗ owes (T d) ((K (F := F)).Otc d n4) W) : sProp 𝕄)) := by
  have hreg := enter_of_region (F := F) 2 d (fun Q => Pipeline.RegionSeg.wp (pcfgs (F := F)) adm
    (pdatsTc (F := F) (Name := ℕ) (U := UU) (Lvl := ℕ) W0 W2 W4 (OtcAt (F := F) n0) (OtcAt (F := F) n2) (OtcAt (F := F) n4) (BelowAt (F := F) n0) (BelowAt (F := F) n2) (BelowAt (F := F) n4)) none cellOf_inj ER defs₀ 𝒱₀
    (K (F := F)).L (K (F := F)).lev
    (reg4 W0 W2 W4 (OtcAt (F := F) n0) (OtcAt (F := F) n2) (OtcAt (F := F) n4) (BelowAt (F := F) n0) (BelowAt (F := F) n2) (BelowAt (F := F) n4) 𝒱₀ none (K (F := F)).L (K (F := F)).lev (hwTc4 W0 W2 W4 n0 n2 n4))
    d none (fun u hu => by cases hu) (α := PUnit) (fun _ => Prog.ret PUnit.unit) Q)
  refine BI.Entails.trans (sep_mono .rfl (sep_mono (sep_mono .rfl (sep_mono .rfl (owes_in n4 d))) .rfl)) (hreg.trans ?_)
  exact wp_mono _ _ _ fun _ => sep_mono .rfl (sep_mono .rfl (sep_mono .rfl
    ((Pipeline.owesWithin_mono d _ (Set.union_subset (fun _ h => h) (waitPairs4_below n4 d))).trans (owes_out n4 d))))

end Cert.Proof.KI

end
-- ==== Proof.TcStep.lean ====
/-
  The three TensorCore pallas calls as steps of @main.

  @main's proof threads one thread state through the program: the region boundary, every unscoped
  buffer of the TensorCore at a valuation, the generator register, and what the TensorCore owes before
  the SparseCore call to come.  Each pallas call is one step on that state: region 0 runs before the
  first SparseCore call, region 1 between the two, region 2 after the second.  A step changes the
  valuation only at the call's windowed arrays, so the program's sixteen arguments — no window's array
  of any of the three calls — are where they were.
-/
import proofs.«217981_g19061064860210_cont_8to1_1320_37_alg».proof.Proof.ScMain
import proofs.«217981_g19061064860210_cont_8to1_1320_37_alg».proof.Proof.TcEnter

set_option maxRecDepth 16384

noncomputable section

namespace Cert.Proof.KI

open Cert.KernelIdeal Cert.KernelIdeal.Gen Cert.KernelIdeal.Tc
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after seq)

variable {F : FTy → Type} [FloatOps F]

local notation "𝕄" => MT nD τ sig (HIx 2) (Elt F) ℕ UU ℕ

/-- The buffers after pallas call 0's region, entered before SparseCore call 0 with the buffers at V. -/
def e0 (d : Dev nD) (V : Valuation τ sig (Elt F)) : Valuation τ sig (Elt F) :=
  exitW0 ℕ UU ℕ (fun _ => V) (OtcAt (F := F) 0) (BelowAt (F := F) 0) d

/-- Pallas call 0's region as a step of @main: entered before SparseCore call 0, it spends its staging cells' ghost
    state and duty tokens, borrows and returns what the TensorCore owes, and leaves the buffers at e0. -/
theorem regStep0 (hloc : PayLocal0 F) : RegStep (F := F) 0 0
    (fun d => iprop(Pipeline.cellsGhost (Pipeline.pin (pcfgs (F := F)) adm) (ER (F := F)) 0 d
      ∗ Pipeline.toksInit (Pipeline.pin (pcfgs (F := F)) adm) (ER (F := F)) 0 d)) (e0 (F := F)) := by
  intro d V
  unfold tcOwes e0
  exact enter0 hloc (fun _ => V) (fun _ => V) (fun _ => V) 0 1 2 d

/-- No argument of the program is a windowed array of pallas call 0. -/
theorem args_ne0 : ∀ (k : Fin 16) (w : Fin cfg0.W), Pipeline.arrRef spec0 w ≠ argRef k := by decide

/-- Pallas call 0's region leaves the program's sixteen arguments as it found them. -/
theorem e0_args (d : Dev nD) (V : Valuation τ sig (Elt F)) (k : Fin 16) :
    e0 (F := F) d V ((argRef k : Ref sig .tc) : DevRef τ sig) = V ((argRef k : Ref sig .tc) : DevRef τ sig) :=
  exitW0_of_ne (Name := ℕ) (U := UU) (Lvl := ℕ) (fun _ => V) (OtcAt (F := F) 0) (BelowAt (F := F) 0) d (argRef k) (args_ne0 k)

/-- The buffers after pallas call 2's region, entered before SparseCore call 1 with the buffers at V. -/
def e1 (d : Dev nD) (V : Valuation τ sig (Elt F)) : Valuation τ sig (Elt F) :=
  exitW2 ℕ UU ℕ (fun _ => V) (OtcAt (F := F) 1) (BelowAt (F := F) 1) d

/-- Pallas call 2's region as a step of @main: entered before SparseCore call 1, it spends its staging cells' ghost
    state and duty tokens, borrows and returns what the TensorCore owes, and leaves the buffers at e1. -/
theorem regStep1 : RegStep (F := F) 1 1
    (fun d => iprop(Pipeline.cellsGhost (Pipeline.pin (pcfgs (F := F)) adm) (ER (F := F)) 1 d
      ∗ Pipeline.toksInit (Pipeline.pin (pcfgs (F := F)) adm) (ER (F := F)) 1 d)) (e1 (F := F)) := by
  intro d V
  unfold tcOwes e1
  exact enter2 (fun _ => V) (fun _ => V) (fun _ => V) 0 1 2 d

/-- No argument of the program is a windowed array of pallas call 2. -/
theorem args_ne1 : ∀ (k : Fin 16) (w : Fin cfg2.W), Pipeline.arrRef spec2 w ≠ argRef k := by decide

/-- Pallas call 2's region leaves the program's sixteen arguments as it found them. -/
theorem e1_args (d : Dev nD) (V : Valuation τ sig (Elt F)) (k : Fin 16) :
    e1 (F := F) d V ((argRef k : Ref sig .tc) : DevRef τ sig) = V ((argRef k : Ref sig .tc) : DevRef τ sig) :=
  exitW2_of_ne (Name := ℕ) (U := UU) (Lvl := ℕ) (fun _ => V) (OtcAt (F := F) 1) (BelowAt (F := F) 1) d (argRef k) (args_ne1 k)

/-- The buffers after pallas call 4's region, entered before SparseCore call 2 with the buffers at V. -/
def e2 (d : Dev nD) (V : Valuation τ sig (Elt F)) : Valuation τ sig (Elt F) :=
  exitW4 ℕ UU ℕ (fun _ => V) (OtcAt (F := F) 2) (BelowAt (F := F) 2) d

/-- Pallas call 4's region as a step of @main: entered before SparseCore call 2, it spends its staging cells' ghost
    state and duty tokens, borrows and returns what the TensorCore owes, and leaves the buffers at e2. -/
theorem regStep2 : RegStep (F := F) 2 2
    (fun d => iprop(Pipeline.cellsGhost (Pipeline.pin (pcfgs (F := F)) adm) (ER (F := F)) 2 d
      ∗ Pipeline.toksInit (Pipeline.pin (pcfgs (F := F)) adm) (ER (F := F)) 2 d)) (e2 (F := F)) := by
  intro d V
  unfold tcOwes e2
  exact enter4 (fun _ => V) (fun _ => V) (fun _ => V) 0 1 2 d

/-- No argument of the program is a windowed array of pallas call 4. -/
theorem args_ne2 : ∀ (k : Fin 16) (w : Fin cfg4.W), Pipeline.arrRef spec4 w ≠ argRef k := by decide

/-- Pallas call 4's region leaves the program's sixteen arguments as it found them. -/
theorem e2_args (d : Dev nD) (V : Valuation τ sig (Elt F)) (k : Fin 16) :
    e2 (F := F) d V ((argRef k : Ref sig .tc) : DevRef τ sig) = V ((argRef k : Ref sig .tc) : DevRef τ sig) :=
  exitW4_of_ne (Name := ℕ) (U := UU) (Lvl := ℕ) (fun _ => V) (OtcAt (F := F) 2) (BelowAt (F := F) 2) d (argRef k) (args_ne2 k)

end Cert.Proof.KI

end
-- ==== Proof.KPreArgs.lean ====
/-
  The index ranges the claim's precondition gives. The input predicate is a conjunction, over its sixteen arguments, of
  "every entry finite" for the float arrays and "every entry within its range" for the three index arrays, each a
  reduction by `and` of an array of comparison bits, all joined by `and`. Its value being all ones therefore gives each
  conjunct: for the first index array and the per-row index array, every entry `x` has `0 ≤ x` and `x ≤ 99999` read
  signed, hence `x < 100000` read unsigned.
-/
import proofs.«217981_g19061064860210_cont_8to1_1320_37_alg».proof.Defs
import proofs.«217981_g19061064860210_cont_8to1_1320_37_alg».proof.Proof.Gen.Pre_input_domain
import Idealize.ShloMosaic.Lib.ReduceAll

noncomputable section

namespace Cert.Proof.KI

open Idealize.ShloMosaic Idealize.SL.Sem

/-- A 32-bit word whose signed reading lies in `0 … 99999` reads the same unsigned. -/
theorem toNat_lt_of_toInt {x : BitVec 32} (h0 : 0 ≤ x.toInt) (h1 : x.toInt ≤ 99999) : x.toNat < 100000 := by
  have := BitVec.toInt_eq_toNat_cond x
  split at this <;> omega

section Predicate

open Cert.Pre_input_domain

variable {F : FTy → Type} [FloatOps F] [hF : Cert.Pre_input_domain.Facts]

/-- The last part of the input predicate being all ones bounds the first index array: among its conjuncts is the
    conjunction over all entries of `0 ≤ x` and `x ≤ 99999`, read signed. -/
theorem part4_arg1 (arg1 arg2 : IVec S4096x50 32) (v63 : IVec S_ 1) (v65 v67 : IVec S4096 1)
    (h : fn_part4 (F := F) arg1 arg2 v63 v65 v67 = fun _ => 1#1) : ∀ j, (arg1 j).toNat < 100000 := by
  intro j
  have h0 : fn_part4 (F := F) arg1 arg2 v63 v65 v67 (fun a => a.elim0) = 1#1 := congrFun h _
  unfold fn_part4 at h0
  have h1 := (IntOp.andi_eq_one.1 h0).1
  have h2 := (IntOp.andi_eq_one.1 h1).2
  have h3 := Host.reduce_andi_all _ _ _ _ _ h2 j
  have h4 := IntOp.andi_eq_one.1 h3
  have h5 := IntOp.cmpi_sge.1 h4.1
  have h6 := IntOp.cmpi_sle.1 h4.2
  exact toNat_lt_of_toInt h5 h6

/-- The same part bounds the per-row index array through the two comparison arrays it is handed. -/
theorem part4_v65 (arg1 arg2 : IVec S4096x50 32) (v63 : IVec S_ 1) (v65 v67 : IVec S4096 1)
    (h : fn_part4 (F := F) arg1 arg2 v63 v65 v67 = fun _ => 1#1) : ∀ j, v65 j = 1#1 ∧ v67 j = 1#1 := by
  intro j
  have h0 : fn_part4 (F := F) arg1 arg2 v63 v65 v67 (fun a => a.elim0) = 1#1 := congrFun h _
  unfold fn_part4 at h0
  have h1 := (IntOp.andi_eq_one.1 h0).1
  have h2 := (IntOp.andi_eq_one.1 h1).1
  have h3 := (IntOp.andi_eq_one.1 h2).2
  have h4 := Host.reduce_andi_all _ _ _ _ _ h3 j
  exact IntOp.andi_eq_one.1 h4

end Predicate

section Whole

open Cert.Pre_input_domain

variable {F : FTy → Type} [FloatOps F] [hF : Cert.Pre_input_domain.Facts]

/-- The input predicate all ones bounds every entry of the first index array: `0 ≤ x ≤ 99999` read signed, so
    `x < 100000` read unsigned. -/
theorem fn_arg1 (a0 : IVec S4096 32) (a1 : IVec S4096x50 32) (a2 : IVec S4096x50 32) (a3 : FVec F S100000x64 .f32) (a4 : FVec F S100000x64 .f32) (a5 : FVec F S5x64 .f32) (a6 : FVec F S64x128 .f32) (a7 : FVec F S64 .f32) (a8 : FVec F S64x64 .f32) (a9 : FVec F S64 .f32) (a10 : FVec F S64x128 .f32) (a11 : FVec F S64 .f32) (a12 : FVec F S64x64 .f32) (a13 : FVec F S64 .f32) (a14 : FVec F S1x64 .f32) (a15 : FVec F S1 .f32)
    (h : fn (F := F) a0 a1 a2 a3 a4 a5 a6 a7 a8 a9 a10 a11 a12 a13 a14 a15 = fun _ => 1#1) : ∀ j, (a1 j).toNat < 100000 :=
  part4_arg1 (F := F) a1 a2 _ _ _ h

/-- And every entry of the per-row index array. -/
theorem fn_arg0 (a0 : IVec S4096 32) (a1 : IVec S4096x50 32) (a2 : IVec S4096x50 32) (a3 : FVec F S100000x64 .f32) (a4 : FVec F S100000x64 .f32) (a5 : FVec F S5x64 .f32) (a6 : FVec F S64x128 .f32) (a7 : FVec F S64 .f32) (a8 : FVec F S64x64 .f32) (a9 : FVec F S64 .f32) (a10 : FVec F S64x128 .f32) (a11 : FVec F S64 .f32) (a12 : FVec F S64x64 .f32) (a13 : FVec F S64 .f32) (a14 : FVec F S1x64 .f32) (a15 : FVec F S1 .f32)
    (h : fn (F := F) a0 a1 a2 a3 a4 a5 a6 a7 a8 a9 a10 a11 a12 a13 a14 a15 = fun _ => 1#1) : ∀ j, (a0 j).toNat < 100000 := by
  intro j
  have hh := part4_v65 (F := F) a1 a2 _ _ _ h j
  exact toNat_lt_of_toInt (IntOp.cmpi_sge.1 hh.1) (IntOp.cmpi_sle.1 hh.2)

end Whole

section Claim

open Cert.KernelIdeal Idealize.ShloMosaic.TcCoe

/-- From the claim's precondition: every entry of the first index array, on every device, is below 100000. -/
theorem pre_arg1_lt (m : (ℓ : Loc nD τ sig) → Buf (Elt Ideal) ℓ)
    (hpre : Cert.Pre_KernelIdeal (hPre_input_domain := Cert.Pre_input_domain.Gen.facts) m) (d : Dev nD) :
    ∀ j, BitVec.toNat ((m ((SparseCore.T (τ := τ) d).loc main_arg1) : (⟨S4096x50, .i32⟩ : BufTy).Contents (Elt Ideal)) j) < 100000 :=
  fn_arg1 (F := Ideal) (hF := Cert.Pre_input_domain.Gen.facts) _ _ _ _ _ _ _ _ _ _ _ _ _ _ _ _ (hpre d)

/-- And every entry of the per-row index array. -/
theorem pre_arg0_lt (m : (ℓ : Loc nD τ sig) → Buf (Elt Ideal) ℓ)
    (hpre : Cert.Pre_KernelIdeal (hPre_input_domain := Cert.Pre_input_domain.Gen.facts) m) (d : Dev nD) :
    ∀ j, BitVec.toNat ((m ((SparseCore.T (τ := τ) d).loc main_arg0) : (⟨S4096, .i32⟩ : BufTy).Contents (Elt Ideal)) j) < 100000 :=
  fn_arg0 (F := Ideal) (hF := Cert.Pre_input_domain.Gen.facts) _ _ _ _ _ _ _ _ _ _ _ _ _ _ _ _ (hpre d)

/-- The same of any contents of the device's buffers that agree with the launch memory on the first index array. -/
theorem pre_arg1_lt_of (m : (ℓ : Loc nD τ sig) → Buf (Elt Ideal) ℓ)
    (hpre : Cert.Pre_KernelIdeal (hPre_input_domain := Cert.Pre_input_domain.Gen.facts) m) (d : Dev nD)
    (V : Valuation τ sig (Elt Ideal)) (hV : V (main_arg1 : DevRef τ sig) = m ((SparseCore.T (τ := τ) d).loc main_arg1)) :
    ∀ j, BitVec.toNat ((V (main_arg1 : DevRef τ sig) : (⟨S4096x50, .i32⟩ : BufTy).Contents (Elt Ideal)) j) < 100000 := by
  rw [hV]; exact pre_arg1_lt m hpre d

/-- The same on the per-row index array. -/
theorem pre_arg0_lt_of (m : (ℓ : Loc nD τ sig) → Buf (Elt Ideal) ℓ)
    (hpre : Cert.Pre_KernelIdeal (hPre_input_domain := Cert.Pre_input_domain.Gen.facts) m) (d : Dev nD)
    (V : Valuation τ sig (Elt Ideal)) (hV : V (main_arg0 : DevRef τ sig) = m ((SparseCore.T (τ := τ) d).loc main_arg0)) :
    ∀ j, BitVec.toNat ((V (main_arg0 : DevRef τ sig) : (⟨S4096, .i32⟩ : BufTy).Contents (Elt Ideal)) j) < 100000 := by
  rw [hV]; exact pre_arg0_lt m hpre d

end Claim

end Cert.Proof.KI

end
-- ==== Proof.KMainArgs.lean ====
/-
  @main's sixteen arguments through its proof's valuations, in one form over the family of argument references: none of
  the six straight lines of host operations writes an argument, and neither gather call's step changes one (a call
  changes its two result arrays only). With the index ranges the claim's precondition gives, carried to any valuation
  that agrees with the launch memory on the index arrays.
-/
import proofs.«217981_g19061064860210_cont_8to1_1320_37_alg».proof.Proof.KMainSegs
import proofs.«217981_g19061064860210_cont_8to1_1320_37_alg».proof.Proof.ScLaunch
import proofs.«217981_g19061064860210_cont_8to1_1320_37_alg».proof.Proof.ScCall
import proofs.«217981_g19061064860210_cont_8to1_1320_37_alg».proof.Proof.ScCall1
import proofs.«217981_g19061064860210_cont_8to1_1320_37_alg».proof.Proof.KPreArgs

noncomputable section

namespace Cert.Proof.KI

open Cert.KernelIdeal Cert.KernelIdeal.Gen
open Idealize.ShloMosaic
open Idealize.ShloMosaic.TcCoe

variable {F : FTy → Type} [FloatOps F]

/-- Line 0 of @main writes no argument. -/
theorem ops0_args (V : Valuation τ sig (Elt F)) (k : Fin 16) :
    StableHlo.after (Cert.KernelIdeal.MainSegs.ops0 (F := F)) V ((argRef k : Ref sig .tc) : DevRef τ sig)
      = V ((argRef k : Ref sig .tc) : DevRef τ sig) := by
  fin_cases k
  exacts [Cert.KernelIdeal.MainSegs.ops0_arg0 V, Cert.KernelIdeal.MainSegs.ops0_arg1 V, Cert.KernelIdeal.MainSegs.ops0_arg2 V, Cert.KernelIdeal.MainSegs.ops0_arg3 V, Cert.KernelIdeal.MainSegs.ops0_arg4 V, Cert.KernelIdeal.MainSegs.ops0_arg5 V, Cert.KernelIdeal.MainSegs.ops0_arg6 V, Cert.KernelIdeal.MainSegs.ops0_arg7 V, Cert.KernelIdeal.MainSegs.ops0_arg8 V, Cert.KernelIdeal.MainSegs.ops0_arg9 V, Cert.KernelIdeal.MainSegs.ops0_arg10 V, Cert.KernelIdeal.MainSegs.ops0_arg11 V, Cert.KernelIdeal.MainSegs.ops0_arg12 V, Cert.KernelIdeal.MainSegs.ops0_arg13 V, Cert.KernelIdeal.MainSegs.ops0_arg14 V, Cert.KernelIdeal.MainSegs.ops0_arg15 V]

/-- Line 1 of @main writes no argument. -/
theorem ops1_args (V : Valuation τ sig (Elt F)) (k : Fin 16) :
    StableHlo.after (Cert.KernelIdeal.MainSegs.ops1 (F := F)) V ((argRef k : Ref sig .tc) : DevRef τ sig)
      = V ((argRef k : Ref sig .tc) : DevRef τ sig) := by
  fin_cases k
  exacts [Cert.KernelIdeal.MainSegs.ops1_arg0 V, Cert.KernelIdeal.MainSegs.ops1_arg1 V, Cert.KernelIdeal.MainSegs.ops1_arg2 V, Cert.KernelIdeal.MainSegs.ops1_arg3 V, Cert.KernelIdeal.MainSegs.ops1_arg4 V, Cert.KernelIdeal.MainSegs.ops1_arg5 V, Cert.KernelIdeal.MainSegs.ops1_arg6 V, Cert.KernelIdeal.MainSegs.ops1_arg7 V, Cert.KernelIdeal.MainSegs.ops1_arg8 V, Cert.KernelIdeal.MainSegs.ops1_arg9 V, Cert.KernelIdeal.MainSegs.ops1_arg10 V, Cert.KernelIdeal.MainSegs.ops1_arg11 V, Cert.KernelIdeal.MainSegs.ops1_arg12 V, Cert.KernelIdeal.MainSegs.ops1_arg13 V, Cert.KernelIdeal.MainSegs.ops1_arg14 V, Cert.KernelIdeal.MainSegs.ops1_arg15 V]

/-- Line 2 of @main writes no argument. -/
theorem ops2_args (V : Valuation τ sig (Elt F)) (k : Fin 16) :
    StableHlo.after (Cert.KernelIdeal.MainSegs.ops2 (F := F)) V ((argRef k : Ref sig .tc) : DevRef τ sig)
      = V ((argRef k : Ref sig .tc) : DevRef τ sig) := by
  fin_cases k
  exacts [Cert.KernelIdeal.MainSegs.ops2_arg0 V, Cert.KernelIdeal.MainSegs.ops2_arg1 V, Cert.KernelIdeal.MainSegs.ops2_arg2 V, Cert.KernelIdeal.MainSegs.ops2_arg3 V, Cert.KernelIdeal.MainSegs.ops2_arg4 V, Cert.KernelIdeal.MainSegs.ops2_arg5 V, Cert.KernelIdeal.MainSegs.ops2_arg6 V, Cert.KernelIdeal.MainSegs.ops2_arg7 V, Cert.KernelIdeal.MainSegs.ops2_arg8 V, Cert.KernelIdeal.MainSegs.ops2_arg9 V, Cert.KernelIdeal.MainSegs.ops2_arg10 V, Cert.KernelIdeal.MainSegs.ops2_arg11 V, Cert.KernelIdeal.MainSegs.ops2_arg12 V, Cert.KernelIdeal.MainSegs.ops2_arg13 V, Cert.KernelIdeal.MainSegs.ops2_arg14 V, Cert.KernelIdeal.MainSegs.ops2_arg15 V]

/-- Line 3 of @main writes no argument. -/
theorem ops3_args (V : Valuation τ sig (Elt F)) (k : Fin 16) :
    StableHlo.after (Cert.KernelIdeal.MainSegs.ops3 (F := F)) V ((argRef k : Ref sig .tc) : DevRef τ sig)
      = V ((argRef k : Ref sig .tc) : DevRef τ sig) := by
  fin_cases k
  exacts [Cert.KernelIdeal.MainSegs.ops3_arg0 V, Cert.KernelIdeal.MainSegs.ops3_arg1 V, Cert.KernelIdeal.MainSegs.ops3_arg2 V, Cert.KernelIdeal.MainSegs.ops3_arg3 V, Cert.KernelIdeal.MainSegs.ops3_arg4 V, Cert.KernelIdeal.MainSegs.ops3_arg5 V, Cert.KernelIdeal.MainSegs.ops3_arg6 V, Cert.KernelIdeal.MainSegs.ops3_arg7 V, Cert.KernelIdeal.MainSegs.ops3_arg8 V, Cert.KernelIdeal.MainSegs.ops3_arg9 V, Cert.KernelIdeal.MainSegs.ops3_arg10 V, Cert.KernelIdeal.MainSegs.ops3_arg11 V, Cert.KernelIdeal.MainSegs.ops3_arg12 V, Cert.KernelIdeal.MainSegs.ops3_arg13 V, Cert.KernelIdeal.MainSegs.ops3_arg14 V, Cert.KernelIdeal.MainSegs.ops3_arg15 V]

/-- Line 4 of @main writes no argument. -/
theorem ops4_args (V : Valuation τ sig (Elt F)) (k : Fin 16) :
    StableHlo.after (Cert.KernelIdeal.MainSegs.ops4 (F := F)) V ((argRef k : Ref sig .tc) : DevRef τ sig)
      = V ((argRef k : Ref sig .tc) : DevRef τ sig) := by
  fin_cases k
  exacts [Cert.KernelIdeal.MainSegs.ops4_arg0 V, Cert.KernelIdeal.MainSegs.ops4_arg1 V, Cert.KernelIdeal.MainSegs.ops4_arg2 V, Cert.KernelIdeal.MainSegs.ops4_arg3 V, Cert.KernelIdeal.MainSegs.ops4_arg4 V, Cert.KernelIdeal.MainSegs.ops4_arg5 V, Cert.KernelIdeal.MainSegs.ops4_arg6 V, Cert.KernelIdeal.MainSegs.ops4_arg7 V, Cert.KernelIdeal.MainSegs.ops4_arg8 V, Cert.KernelIdeal.MainSegs.ops4_arg9 V, Cert.KernelIdeal.MainSegs.ops4_arg10 V, Cert.KernelIdeal.MainSegs.ops4_arg11 V, Cert.KernelIdeal.MainSegs.ops4_arg12 V, Cert.KernelIdeal.MainSegs.ops4_arg13 V, Cert.KernelIdeal.MainSegs.ops4_arg14 V, Cert.KernelIdeal.MainSegs.ops4_arg15 V]

/-- Line 5 of @main writes no argument. -/
theorem ops5_args (V : Valuation τ sig (Elt F)) (k : Fin 16) :
    StableHlo.after (Cert.KernelIdeal.MainSegs.ops5 (F := F)) V ((argRef k : Ref sig .tc) : DevRef τ sig)
      = V ((argRef k : Ref sig .tc) : DevRef τ sig) := by
  fin_cases k
  exacts [Cert.KernelIdeal.MainSegs.ops5_arg0 V, Cert.KernelIdeal.MainSegs.ops5_arg1 V, Cert.KernelIdeal.MainSegs.ops5_arg2 V, Cert.KernelIdeal.MainSegs.ops5_arg3 V, Cert.KernelIdeal.MainSegs.ops5_arg4 V, Cert.KernelIdeal.MainSegs.ops5_arg5 V, Cert.KernelIdeal.MainSegs.ops5_arg6 V, Cert.KernelIdeal.MainSegs.ops5_arg7 V, Cert.KernelIdeal.MainSegs.ops5_arg8 V, Cert.KernelIdeal.MainSegs.ops5_arg9 V, Cert.KernelIdeal.MainSegs.ops5_arg10 V, Cert.KernelIdeal.MainSegs.ops5_arg11 V, Cert.KernelIdeal.MainSegs.ops5_arg12 V, Cert.KernelIdeal.MainSegs.ops5_arg13 V, Cert.KernelIdeal.MainSegs.ops5_arg14 V, Cert.KernelIdeal.MainSegs.ops5_arg15 V]

/-- The first gather call's step changes no argument. -/
theorem afterCall0_args (V : Valuation τ sig (Elt F)) (feu : (main_v18_0 : DevRef τ sig).ty.Contents (Elt F))
    (fuv : (main_v18_1 : DevRef τ sig).ty.Contents (Elt F)) (k : Fin 16) :
    afterCall0 V feu fuv ((argRef k : Ref sig .tc) : DevRef τ sig) = V ((argRef k : Ref sig .tc) : DevRef τ sig) := by
  fin_cases k <;> exact afterCall0_of_ne V feu fuv _ (by decide) (by decide)

/-- Nor does the second's. -/
theorem afterCall1_args (V : Valuation τ sig (Elt F)) (feu : (main_v44_0 : DevRef τ sig).ty.Contents (Elt F))
    (fuv : (main_v44_1 : DevRef τ sig).ty.Contents (Elt F)) (k : Fin 16) :
    afterCall1 V feu fuv ((argRef k : Ref sig .tc) : DevRef τ sig) = V ((argRef k : Ref sig .tc) : DevRef τ sig) := by
  fin_cases k <;> exact afterCall1_of_ne V feu fuv _ (by decide) (by decide)

end Cert.Proof.KI

end
-- ==== Proof.TcReg0F.lean ====
/-
  TensorCore pallas call 0 as a region segment that says nothing of its output array.

  A claim that only asks the program to run to its end and leave its arguments as they were need not
  know what pallas call 0 writes into its 100000 × 128 output.  Then the output window is forgotten:
  the body is handed its staging buffer at any contents and hands it back at any contents, and after
  the region the output array holds some contents nothing names.  The five input arrays are as the
  region found them, and so is every other buffer.  Nothing about the payload is needed for this —
  in particular not that it is local —, so the statement holds for any float instance.
-/
import proofs.«217981_g19061064860210_cont_8to1_1320_37_alg».proof.Proof.TcFamily

set_option maxRecDepth 16384

noncomputable section

namespace Cert.KernelIdeal.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- Which windows of pallas call 0 are forgotten: the output window, 5. -/
abbrev fgt0 : Fin cfg0.W → Bool :=
  fun | 0 => false | 1 => false | 2 => false | 3 => false | 4 => false | 5 => true | ⟨_ + 6, h⟩ => absurd h (Nat.not_lt.2 (Nat.le_add_left _ _))

set_option maxHeartbeats 4000000 in
/-- The body obligation of pallas call 0 with the output window forgotten: as before for the five inputs; the
    output's buffer comes at any contents and leaves at any contents. -/
theorem body_obligation0F (c : Dev nD) (A : (w : Fin cfg0.W) → Buf (Elt F) ((cfg0.win w).arr.view.loc (c.tc : Thread nD τ)))
    (Φ₀ : sProp 𝕄) (O : CellTallies nD τ sig Ix) (B : Set (SemLoc sig × Ix)) (𝒱₀ : Variants) (ι : Ix) :
    BodyObligationLoose (dats0 (F := F) (Ix := Ix) (Name := Name) (U := U) (Lvl := Lvl) c A Φ₀ O B) (defs₀ (F := F)) 𝒱₀ ι Set.univ fgt0 := fun t => by
  rw [bigSep_W0, bigSep_W0]
  simp only
  rw [show (dats0 (F := F) (Ix := Ix) (Name := Name) (U := U) (Lvl := Lvl) c A Φ₀ O B).Φ t.succ = (dats0 (F := F) (Ix := Ix) (Name := Name) (U := U) (Lvl := Lvl) c A Φ₀ O B).Φ t.castSucc from rfl,
    show (dats0 (F := F) (Ix := Ix) (Name := Name) (U := U) (Lvl := Lvl) c A Φ₀ O B).owesAt ι t.succ = (dats0 (F := F) (Ix := Ix) (Name := Name) (U := U) (Lvl := Lvl) c A Φ₀ O B).owesAt ι t.castSucc from rfl]
  show _ ⊢ wp frame (wpE (defs₀ (F := F)) 𝒱₀ c none) Set.univ (bodyAt0 t) _
  unfold bodyAt0
  iintro ⟨HΦ, Ho, ⟨%d0, H0⟩, ⟨%d1, H1⟩, ⟨%d2, H2⟩, ⟨%d3, H3⟩, ⟨%d4, H4⟩, ⟨%X5, H5⟩⟩
  rw [before0_0 c A Φ₀ O B t d0, before0_1 c A Φ₀ O B t d1, before0_2 c A Φ₀ O B t d2, before0_3 c A Φ₀ O B t d3,
    before0_4 c A Φ₀ O B t d4]
  iapply (sound_kernel0 𝒱₀ c Set.univ (grid0.coords t) _ _ _ _ _ _ _ _ _ _ _ _
    (win0_0.fill (grid0.coords t) d0 (iblk0 c A 0 t)) (win0_1.fill (grid0.coords t) d1 (iblk0 c A 1 t))
    (iblk0 c A 2 t) (iblk0 c A 3 t) (iblk0 c A 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists d0
    rw [after0_0, show win0_0.cut (grid0.coords t) (blkz0_0 c A t) = iblk0 c A 0 t from win0_0.cut_fill _ _ _]
    iexact H0
  isplitl [H1]
  · iexists d1
    rw [after0_1, show win0_1.cut (grid0.coords t) (blkz0_1 c A t) = iblk0 c A 1 t from win0_1.cut_fill _ _ _]
    iexact H1
  isplitl [H2]; · rw [after0_2]; iexact H2
  isplitl [H3]; · rw [after0_3]; iexact H3
  isplitl [H4]; · rw [after0_4]; iexact H4
  iexists _; iexact H5

/-- Which windows each pallas call forgets: call 0 its output window, the others none. -/
abbrev fgtTc : (p : Fin 3) → Fin (Pipeline.pin (pcfgs (F := F)) adm p).W → Bool
  | ⟨0, _⟩ => fgt0
  | ⟨1, _⟩ => fun _ => false
  | ⟨2, _⟩ => fun _ => false

/-- The three pallas calls' proof data read relationally, pallas call 0's output window forgotten. -/
def rdatsF (W0 W2 W4 : Dev nD → Valuation τ sig (Elt F)) (O0 O2 O4 : Dev nD → CellTallies nD τ sig Ix)
  (B0 B2 B4 : Dev nD → Set (SemLoc sig × Ix)) :
    (p : Fin 3) → (c : Dev nD) → RDat τ (Elt F) Ix Name U Lvl (Pipeline.pin (pcfgs (F := F)) adm p) c :=
  fun p c => (pdatsTc (F := F) (Name := Name) (U := U) (Lvl := Lvl) W0 W2 W4 O0 O2 O4 B0 B2 B4 p c).toRForget (fgtTc p)

section Reg0F

variable (W0 W2 W4 : Dev nD → Valuation τ sig (Elt F)) (O0 O2 O4 : Dev nD → CellTallies nD τ sig Ix)
  (B0 B2 B4 : Dev nD → Set (SemLoc sig × Ix))
  (𝒱₀ : Variants) (ι : Ix) (L : GSem nD τ sig → Finset Ix) (lv : GSem nD τ sig → Ix → Lvl)

/-- An input array of pallas call 0 holds after the region what it held at entry. -/
theorem arrAt0F_in (c : Dev nD) (w : Fin cfg0.W) (hw : fgt0 w = false) (hin : (cfg0.win w).isOut = false)
    (X : Buf (Elt F) ((cfg0.win w).arr.view.loc (c.tc : Thread nD τ)))
    (h : ((rdatsF (F := F) (Name := Name) (U := U) (Lvl := Lvl) W0 W2 W4 O0 O2 O4 B0 B2 B4) 0 c).ArrAt w cfg0.N X) : X = valTc W0 c (Pipeline.arrRef spec0 w) := by
  have h1 := (((pdatsTc (F := F) (Name := Name) (U := U) (Lvl := Lvl) W0 W2 W4 O0 O2 O4 B0 B2 B4) 0 c).toRForget_arrAt_iff (fgt := fgt0) hw cfg0.N X).mp h
  rw [h1]
  exact (((pdatsTc (F := F) (Name := Name) (U := U) (Lvl := Lvl) W0 W2 W4 O0 O2 O4 B0 B2 B4) 0 c).arrAt_in w hin _).trans rfl

set_option maxHeartbeats 4000000 in
set_option backward.isDefEq.respectTransparency.types false in
/-- The region of pallas call 0 with its output forgotten, over the thread state "every unscoped buffer at W0 c, the
    generator register at some state, the core owing O0 c with its recorded pairs within B0 c": left with the buffers
    at SOME contents that agree with W0 c everywhere but at the output array, and the rest as it was. -/
def reg0F (hw : ∀ c, (levAts L lv : sProp 𝕄) ⊢ Pipeline.RDat.cellsWaits (Pipeline.pin (pcfgs (F := F)) adm) (rdatsF (F := F) (Name := Name) (U := U) (Lvl := Lvl) W0 W2 W4 O0 O2 O4 B0 B2 B4) ι 0 c) :
    Pipeline.RDat.RegionSeg (pcfgs (F := F)) adm (rdatsF (F := F) (Name := Name) (U := U) (Lvl := Lvl) W0 W2 W4 O0 O2 O4 B0 B2 B4) ι defs₀ 𝒱₀ L lv 0 where
  win := launch0.win.to₀
  block_pos := launch0.block_pos
  stage_whole := launch0.stage_whole
  K := PEmpty
  osem k := k.elim
  ho := Pipeline.OwnSemFacts.none _
  hbody c := (body_obligation0F c _ _ _ _ 𝒱₀ ι).toRForget
  hwaits := hw
  pre c := iprop(StableHlo.held (c : Thread nD τ) (Pipeline.ucRefs τ sig) (W0 c) ∗ (∃ r, prngReg c r)
    ∗ Pipeline.owesWithin c (O0 c) (B0 c))
  post c := iprop(∃ V' : Valuation τ sig (Elt F),
    ⌜∀ b : Ref sig .tc, b ≠ Pipeline.arrRef spec0 5 → V' (Proc.devRef .tc b) = W0 c (Proc.devRef .tc b)⌝
    ∗ StableHlo.held (c : Thread nD τ) (Pipeline.ucRefs τ sig) V' ∗ (∃ r, prngReg c r)
    ∗ Pipeline.owesWithin c (O0 c) (B0 c ∪ cfg0.waitPairs ι))
  X c := iprop(∃ r, prngReg c r)
  Y c := iprop(∃ r, prngReg c r)
  Z c := Pipeline.unscopedRest (Ix := Ix) (Name := Name) (U := U) (Lvl := Lvl) spec0 c (valTc W0 c)
  hentry c := by
    rw [Pipeline.ownSems0_none]
    have hsplit := Pipeline.RDat.arrays_of_unscopedBufs (p := 0) (pcfgs (F := F)) adm (rdatsF (F := F) (Name := Name) (U := U) (Lvl := Lvl) W0 W2 W4 O0 O2 O4 B0 B2 B4) launch0.win launch0.arr_whole c
      (((pdatsTc (F := F) (Name := Name) (U := U) (Lvl := Lvl) W0 W2 W4 O0 O2 O4 B0 B2 B4) 0 c).share_full fun _ => rfl) (valTc W0 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c (O0 c) (B := B0 c) (B' := B0 c ∪ cfg0.waitPairs ι) Set.subset_union_left); iexact HO
    isplitl [Hp]; · iexact Hp
    iexact Hrest
  hin c := by
    rw [show ((rdatsF (F := F) (Name := Name) (U := U) (Lvl := Lvl) W0 W2 W4 O0 O2 O4 B0 B2 B4) 0 c).Φ 0 = ΦTc spec0 c from rfl]; unfold ΦTc
    iintro ⟨Hp, -, Hr⟩
    isplitl [Hr]; · iexact Hr
    iexact Hp
  hout c := by
    rw [Pipeline.ownSems0_none, show ((rdatsF (F := F) (Name := Name) (U := U) (Lvl := Lvl) W0 W2 W4 O0 O2 O4 B0 B2 B4) 0 c).Φ (Fin.last _) = ΦTc spec0 c from rfl]; unfold ΦTc
    iintro ⟨Hr, Hp⟩
    isplitl [Hp]; · iexact Hp
    isplitr; · iempintro
    iexact Hr
  hexit c := by
    show iprop(((rdatsF (F := F) (Name := Name) (U := U) (Lvl := Lvl) W0 W2 W4 O0 O2 O4 B0 B2 B4) 0 c).arraysAt cfg0.N ∗ _ ∗ _ ∗ _) ⊢ _
    unfold RDat.arraysAt
    rw [bigSep_W0]
    iintro ⟨⟨⟨%F0, %h0, H0⟩, ⟨%F1, %h1, H1⟩, ⟨%F2, %h2, H2⟩, ⟨%F3, %h3, H3⟩, ⟨%F4, %h4, H4⟩, ⟨%F5, %h5, H5⟩⟩, HO, HY, Hrest⟩
    let Fm : (w : Fin cfg0.W) → Buf (Elt F) ((cfg0.win w).arr.view.loc (c.tc : Thread nD τ)) :=
      fun | ⟨0, _⟩ => F0 | ⟨1, _⟩ => F1 | ⟨2, _⟩ => F2 | ⟨3, _⟩ => F3 | ⟨4, _⟩ => F4 | ⟨5, _⟩ => F5
    have hjoin := Pipeline.unscopedBufs_of_arrays (p := 0) (pcfgs (F := F)) adm (Ix := Ix) (Name := Name) (U := U) (Lvl := Lvl)
      launch0.win launch0.arr_whole c (pdatsTc (F := F) (Name := Name) (U := U) (Lvl := Lvl) W0 W2 W4 O0 O2 O4 B0 B2 B4)
      (((pdatsTc (F := F) (Name := Name) (U := U) (Lvl := Lvl) W0 W2 W4 O0 O2 O4 B0 B2 B4) 0 c).share_full fun _ => rfl)
      (valTc W0 c) (valTc (fun _ => Pipeline.withArrays spec0 c (W0 c) Fm) c) Fm
      (fun w => (Pipeline.withArrays_arr spec0 launch0.win.arr_inj c _ _ w).symm)
      (fun b hb => Pipeline.withArrays_of_ne spec0 c _ _ b fun w e => hb (Finset.mem_image.mpr ⟨w, Finset.mem_univ _, e⟩))
    rw [Pipeline.unscopedBufs_held] at hjoin
    imodintro
    iexists Pipeline.withArrays spec0 c (W0 c) Fm
    isplitr
    · ipureintro
      intro b hb
      by_cases hm : b ∈ Finset.univ.image (Pipeline.arrRef spec0)
      · obtain ⟨w, -, rfl⟩ := Finset.mem_image.mp hm
        rw [Pipeline.withArrays_arr spec0 launch0.win.arr_inj c _ _ w]
        match w with
        | ⟨0, _⟩ => exact arrAt0F_in W0 W2 W4 O0 O2 O4 B0 B2 B4 c 0 rfl rfl F0 h0
        | ⟨1, _⟩ => exact arrAt0F_in W0 W2 W4 O0 O2 O4 B0 B2 B4 c 1 rfl rfl F1 h1
        | ⟨2, _⟩ => exact arrAt0F_in W0 W2 W4 O0 O2 O4 B0 B2 B4 c 2 rfl rfl F2 h2
        | ⟨3, _⟩ => exact arrAt0F_in W0 W2 W4 O0 O2 O4 B0 B2 B4 c 3 rfl rfl F3 h3
        | ⟨4, _⟩ => exact arrAt0F_in W0 W2 W4 O0 O2 O4 B0 B2 B4 c 4 rfl rfl F4 h4
        | ⟨5, _⟩ => exact absurd rfl hb
      · exact Pipeline.withArrays_of_ne spec0 c _ _ b fun w e => hm (Finset.mem_image.mpr ⟨w, Finset.mem_univ _, e⟩)
    isplitl [H0 H1 H2 H3 H4 H5 Hrest]
    · iapply hjoin
      isplitr [Hrest]
      · unfold Dat.arrays; rw [bigSep_W0]
        isplitl [H0]; · iexact H0
        isplitl [H1]; · iexact H1
        isplitl [H2]; · iexact H2
        isplitl [H3]; · iexact H3
        isplitl [H4]; · iexact H4
        iexact H5
      · iexact Hrest
    isplitl [HY]; · iexact HY
    iexact HO

end Reg0F

end Cert.KernelIdeal.Tc

end
-- ==== Proof.TcEnter0F.lean ====
/-
  TensorCore pallas call 0 entered from inside the program that also runs the SparseCores, its output
  array forgotten.

  For a claim that does not read what pallas call 0 writes: the region is entered as before, and is
  left with every unscoped buffer of the TensorCore at SOME contents that agree with the entry
  contents everywhere but at the call's output array.  Nothing of the payload is used, so the
  statement holds at every float instance.
-/
import proofs.«217981_g19061064860210_cont_8to1_1320_37_alg».proof.Proof.TcEnter
import proofs.«217981_g19061064860210_cont_8to1_1320_37_alg».proof.Proof.TcReg0F

set_option maxRecDepth 16384

noncomputable section

namespace Cert.Proof.KI

open Cert.KernelIdeal Cert.KernelIdeal.Gen Cert.KernelIdeal.Tc
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- The wait evidence of pallas call 0's region, read of the relational proof data: as before, the pipeline waits at
    index none, at level 0, below every start signal owed. -/
theorem hwTc0F (W0 W2 W4 : Dev nD → Valuation τ sig (Elt F)) (n0 n2 n4 : ℕ) (d : Dev nD) :
    (levAts (K (F := F)).L (K (F := F)).lev : sProp 𝕄) ⊢ Pipeline.RDat.cellsWaits (Pipeline.pin (pcfgs (F := F)) adm)
      (rdatsF (F := F) (Name := ℕ) (U := UU) (Lvl := ℕ) W0 W2 W4 (OtcAt (F := F) n0) (OtcAt (F := F) n2) (OtcAt (F := F) n4) (BelowAt (F := F) n0) (BelowAt (F := F) n2) (BelowAt (F := F) n4)) none 0 d :=
  Pipeline.RDat.cellsWaits_intro (Pipeline.pin (pcfgs (F := F)) adm)
    (rdatsF (F := F) (Name := ℕ) (U := UU) (Lvl := ℕ) W0 W2 W4 (OtcAt (F := F) n0) (OtcAt (F := F) n2) (OtcAt (F := F) n4) (BelowAt (F := F) n0) (BelowAt (F := F) n2) (BelowAt (F := F) n4)) none 0 d
    fun w s t => (K (F := F)).mayWait_none (thr := (d.tc : Thread nD τ)) _ (Otc_none d n0)

/-- The exit state of the forgetting region, its owes read back as the TensorCore's state holds them. -/
theorem post0F_conv (W0 : Dev nD → Valuation τ sig (Elt F)) (n0 : ℕ) (d : Dev nD) :
    (iprop(∃ V' : Valuation τ sig (Elt F),
        ⌜∀ b : Ref sig .tc, b ≠ Pipeline.arrRef spec0 5 → V' (Proc.devRef .tc b) = W0 d (Proc.devRef .tc b)⌝
        ∗ StableHlo.held (T d) (Pipeline.ucRefs τ sig) V' ∗ (∃ r, prngReg d r)
        ∗ Pipeline.owesWithin d ((K (F := F)).Otc d n0) (BelowAt (F := F) n0 d ∪ cfg0.waitPairs (none : HIx 2))) : sProp 𝕄)
      ⊢ iprop(∃ V' : Valuation τ sig (Elt F),
        ⌜∀ b : Ref sig .tc, b ≠ Pipeline.arrRef spec0 5 → V' (Proc.devRef .tc b) = W0 d (Proc.devRef .tc b)⌝
        ∗ StableHlo.held (T d) (Pipeline.ucRefs τ sig) V' ∗ (∃ r, prngReg d r)
        ∗ ∃ W, ⌜(K (F := F)).WBelow (T d) W (8 * n0)⌝ ∗ owes (T d) ((K (F := F)).Otc d n0) W) := by
  iintro ⟨%V', %hV, Hh, Hp, HO⟩
  iexists V'
  isplitr; · ipureintro; exact hV
  isplitl [Hh]; · iexact Hh
  isplitl [Hp]; · iexact Hp
  iapply (owes_out n0 d)
  iapply (Pipeline.owesWithin_mono d _ (Set.union_subset (fun _ h => h) (waitPairs0_below n0 d)))
  iexact HO

set_option backward.isDefEq.respectTransparency.types false in
/-- ONE REGION inside the extended program, the output forgotten: pallas call 0 entered from the TensorCore's thread
    state before SparseCore call n0.  CONSUMES what entering it consumes (the boundary; the buffers at W0 d, the
    generator register and the TensorCore's owes; the level facts; pipeline 0's staging cells' ghost state and
    duty tokens on d).  RETURNS the boundary; the buffers at some contents V' equal to W0 d at every TensorCore
    buffer but the call's output array; the generator register; the owes in the same form. -/
theorem enter0F (W0 W2 W4 : Dev nD → Valuation τ sig (Elt F)) (n0 n2 n4 : ℕ) (d : Dev nD) :
    iprop(boundary (T d)
        ∗ iprop(StableHlo.held (T d) (Pipeline.ucRefs τ sig) (W0 d) ∗ (∃ r, prngReg d r)
          ∗ ∃ W, ⌜(K (F := F)).WBelow (T d) W (8 * n0)⌝ ∗ owes (T d) ((K (F := F)).Otc d n0) W)
        ∗ levAts (K (F := F)).L (K (F := F)).lev
        ∗ Pipeline.cellsGhost (Pipeline.pin (pcfgs (F := F)) adm) ER 0 d ∗ Pipeline.toksInit (Pipeline.pin (pcfgs (F := F)) adm) ER 0 d)
      ⊢ wp frame (wpE ((K (F := F)).defs (Pipeline.defs pcfgs defs₀)) 𝒱₀.lift (T d) none) Set.univ
          (Prog.lift (.customCall (SparseCore.inner (Pipeline.entry 0)) ()))
          (fun _ => iprop(boundary (T d)
            ∗ iprop(∃ V' : Valuation τ sig (Elt F),
                ⌜∀ b : Ref sig .tc, b ≠ Pipeline.arrRef spec0 5 → V' (Proc.devRef .tc b) = W0 d (Proc.devRef .tc b)⌝
                ∗ StableHlo.held (T d) (Pipeline.ucRefs τ sig) V' ∗ (∃ r, prngReg d r)
                ∗ ∃ W, ⌜(K (F := F)).WBelow (T d) W (8 * n0)⌝ ∗ owes (T d) ((K (F := F)).Otc d n0) W) : sProp 𝕄)) := by
  have hreg := enter_of_region (F := F) 0 d (fun Q => Pipeline.RDat.RegionSeg.wp (pcfgs (F := F)) adm
    (rdatsF (F := F) (Name := ℕ) (U := UU) (Lvl := ℕ) W0 W2 W4 (OtcAt (F := F) n0) (OtcAt (F := F) n2) (OtcAt (F := F) n4) (BelowAt (F := F) n0) (BelowAt (F := F) n2) (BelowAt (F := F) n4)) none cellOf_inj ER defs₀ 𝒱₀
    (K (F := F)).L (K (F := F)).lev
    (reg0F W0 W2 W4 (OtcAt (F := F) n0) (OtcAt (F := F) n2) (OtcAt (F := F) n4) (BelowAt (F := F) n0) (BelowAt (F := F) n2) (BelowAt (F := F) n4) 𝒱₀ none (K (F := F)).L (K (F := F)).lev (hwTc0F W0 W2 W4 n0 n2 n4))
    d none (fun u hu => by cases hu) (α := PUnit) (fun _ => Prog.ret PUnit.unit) Q)
  refine BI.Entails.trans (sep_mono .rfl (sep_mono (sep_mono .rfl (sep_mono .rfl (owes_in n0 d))) .rfl)) (hreg.trans ?_)
  exact wp_mono _ _ _ fun _ => sep_mono .rfl (post0F_conv W0 n0 d)

end Cert.Proof.KI

end
-- ==== Proof.TcStep0F.lean ====
/-
  TensorCore pallas call 0, its output forgotten, as a step of @main.

  For a claim that does not read what pallas call 0 writes, region 0's step is stated by a relation
  between the buffers before and after it: they agree everywhere but at the call's output array.  The
  program's sixteen arguments are not that array, so they are where they were.  The statement holds
  at every float instance.
-/
import proofs.«217981_g19061064860210_cont_8to1_1320_37_alg».proof.Proof.ScMain
import proofs.«217981_g19061064860210_cont_8to1_1320_37_alg».proof.Proof.TcEnter0F

set_option maxRecDepth 16384

noncomputable section

namespace Cert.Proof.KI

open Cert.KernelIdeal Cert.KernelIdeal.Gen Cert.KernelIdeal.Tc
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after seq)

variable {F : FTy → Type} [FloatOps F]

local notation "𝕄" => MT nD τ sig (HIx 2) (Elt F) ℕ UU ℕ

/-- What pallas call 0's region may do to the TensorCore's buffers when its output is forgotten: anything at the
    output array, nothing anywhere else. -/
def R0F (d : Dev nD) (V V' : Valuation τ sig (Elt F)) : Prop :=
  ∀ b : Ref sig .tc, b ≠ Pipeline.arrRef spec0 5 → V' (Proc.devRef .tc b) = V (Proc.devRef .tc b)

/-- Pallas call 0's region as a step of @main, at any float instance: entered before SparseCore call 0, it spends its
    staging cells' ghost state and duty tokens, borrows and returns what the TensorCore owes, and leaves the buffers
    at some contents related to the entry contents by R0F. -/
theorem regStep0F : RegStepR (F := F) 0 0
    (fun d => iprop(Pipeline.cellsGhost (Pipeline.pin (pcfgs (F := F)) adm) (ER (F := F)) 0 d
      ∗ Pipeline.toksInit (Pipeline.pin (pcfgs (F := F)) adm) (ER (F := F)) 0 d)) (R0F (F := F)) := by
  intro d V
  unfold tcOwes R0F
  exact enter0F (fun _ => V) (fun _ => V) (fun _ => V) 0 1 2 d

/-- No argument of the program is pallas call 0's output array. -/
theorem args_ne_out0 : ∀ k : Fin 16, argRef k ≠ Pipeline.arrRef spec0 5 := by decide

/-- The step leaves the program's sixteen arguments as it found them. -/
theorem r0F_args (d : Dev nD) (V V' : Valuation τ sig (Elt F)) (h : R0F (F := F) d V V') (k : Fin 16) :
    V' ((argRef k : Ref sig .tc) : DevRef τ sig) = V ((argRef k : Ref sig .tc) : DevRef τ sig) :=
  h (argRef k) (args_ne_out0 k)

end Cert.Proof.KI

end
-- ==== Proof.ScFrame.lean ====
/-
  `frame_KernelIdeal`: the kernel program, at the extended-real instance, runs to its end from any admitted memory
  without a fault and leaves its sixteen arguments as they were. The launch (ScLaunch) from @main's proof (ScMain) at the three
  TensorCore regions' steps (TcStep) and the launch element (ScFund); the index ranges the gathers need come from the claim's
  precondition (KPreArgs).
-/
import proofs.«217981_g19061064860210_cont_8to1_1320_37_alg».proof.Proof.ScMain
import proofs.«217981_g19061064860210_cont_8to1_1320_37_alg».proof.Proof.ScFund
import proofs.«217981_g19061064860210_cont_8to1_1320_37_alg».proof.Proof.TcStep
import proofs.«217981_g19061064860210_cont_8to1_1320_37_alg».proof.Proof.KMainArgs
import proofs.«217981_g19061064860210_cont_8to1_1320_37_alg».proof.Proof.TcStep0F

noncomputable section

namespace Cert.Proof.KI

open Cert.KernelIdeal
open Idealize.ShloMosaic
open Idealize.SL Idealize.SL.BI
open scoped Idealize.SL.BI
open Idealize.SL.BI.BIBase

/-- `Cert.frame_KernelIdeal` (Defs.lean). -/
theorem frame_kernelIdeal :
    Cert.frame_KernelIdeal (hKernelIdeal := Cert.KernelIdeal.Gen.facts) (hPre_input_domain := Cert.Pre_input_domain.Gen.facts) :=
  frame_of fun m g hpre =>
    ⟨fun d => iprop(Gp 0 d ∗ Gp 1 d ∗ Gp 2 d), u₀, launchObl,
      hmain_of m g (Gp 0) (Gp 1) (Gp 2) R0F (fun d V V' => V' = e1 d V) (fun d V V' => V' = e2 d V)
        regStep0F regStep1.toR regStep2.toR
        r0F_args (fun d V V' h k => h ▸ e1_args d V k) (fun d V V' h k => h ▸ e2_args d V k)
        ops0_args ops1_args ops2_args ops3_args ops4_args ops5_args afterCall0_args afterCall1_args
        (fun d => pre_arg1_lt m hpre d) (fun d => pre_arg0_lt m hpre d)⟩

end Cert.Proof.KI

end
-- ==== Proof.WScInv.lean ====
/-
  The gather kernel on the SparseCore, first call: what one vector subcore (tile) holds of each array, and the invariant of
  its double-buffered loop. Tile `(c, s)` is worker `w = 2 s + c`; it owns entries `[3200 w, 3200 w + 3200)` of the flat item-index
  list and the same rows of the gathered-rows result, and entries / rows `[64 w, 64 w + 64)` of the user-index list and of
  the user-rows result. Its 3200 rows are 25 chunks of 128; chunk `2k` goes through the first row buffer and chunk `2k + 1`
  through the second, each gathered from the table by an indexed copy on a semaphore of its own and copied out to the result
  on another. Before trip `k` of the loop the gather of chunk `2k` is in flight and, for `k > 0`, so is the copy-out of chunk
  `2k - 1`; after the last trip the copy-outs of chunks 22 and 23 are.
  The invariant keeps the row buffers' and the result's contents existential (enough for the frame: termination, no fault,
  the arguments unchanged); the fetched index list stays at its fixed contents, because every later gather's offsets are read
  from it and must be known in range.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«217981_g19061064860210_cont_8to1_1320_37_alg».proof.Proof.Gen.Kernel
import proofs.«217981_g19061064860210_cont_8to1_1320_37_alg».proof.Proof.Gen.Kernel.Skeleton

noncomputable section

namespace Cert.Proof.KW

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 3) fun p => (pcfgs (F := F) p).Adm
abbrev K : SparseCore.Cfg τ sig (ΛP (F := F)) 2 := sc (F := F)
abbrev 𝒱₀ : Variants := Variants.none
abbrev UH : Type := URounds (GSem nD τ sig) ℕ
abbrev UU : Type := UH × (UR sig nD τ × Counters)

local notation "𝕄" => MT nD τ sig (HIx 2) (Elt F) ℕ UU ℕ

local notation "ctW" => (Memref.whole Cert.Kernel.main_v9_scv : Memref Cert.Kernel.sig Kind.scVector Space.hbm Cert.Kernel.S100000x128 EltTy.f32)
local notation "viW" => (Memref.whole Cert.Kernel.main_v13_scv : Memref Cert.Kernel.sig Kind.scVector Space.hbm Cert.Kernel.S102400 EltTy.i32)
local notation "niW" => (Memref.whole Cert.Kernel.main_v14_scv : Memref Cert.Kernel.sig Kind.scVector Space.hbm Cert.Kernel.S2048 EltTy.i32)
local notation "euW" => (Memref.whole Cert.Kernel.main_v18_0_scv : Memref Cert.Kernel.sig Kind.scVector Space.hbm Cert.Kernel.S102400x128 EltTy.f32)
local notation "uvW" => (Memref.whole Cert.Kernel.main_v18_1_scv : Memref Cert.Kernel.sig Kind.scVector Space.hbm Cert.Kernel.S2048x128 EltTy.f32)
local notation "s0W" => (Memref.whole Cert.Kernel.cc1_scratch0 : Memref Cert.Kernel.sig Kind.scVector Space.vmem Cert.Kernel.S3200 EltTy.i32)
local notation "s1W" => (Memref.whole Cert.Kernel.cc1_scratch1 : Memref Cert.Kernel.sig Kind.scVector Space.vmem Cert.Kernel.S64 EltTy.i32)
local notation "s2W" => (Memref.whole Cert.Kernel.cc1_scratch2 : Memref Cert.Kernel.sig Kind.scVector Space.vmem Cert.Kernel.S128x128 EltTy.f32)
local notation "s3W" => (Memref.whole Cert.Kernel.cc1_scratch3 : Memref Cert.Kernel.sig Kind.scVector Space.vmem Cert.Kernel.S128x128 EltTy.f32)
local notation "s4W" => (Memref.whole Cert.Kernel.cc1_scratch4 : Memref Cert.Kernel.sig Kind.scVector Space.vmem Cert.Kernel.S64x128 EltTy.f32)

variable [FloatOps F]
variable (d : Dev nD) (L : grid1.Coords)

abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)

abbrev S3200x128 : Shape := ⟨2, ![3200, 128]⟩

/-! ## Geometry: the tile's share of each array -/

/-- The tile's 3200 entries of the flat item-index list, as the body slices them. -/
abbrev viS (L : grid1.Coords) : Memref sig .scVector .hbm S3200 .i32 :=
  (viW).slice (Rect.unit (s := S102400) (k1_off1 L) S3200.size (k1_off1_inb L)) (fun _ => rfl)
/-- The tile's 64 entries of the user-index list. -/
abbrev niS (L : grid1.Coords) : Memref sig .scVector .hbm S64 .i32 :=
  (niW).slice (Rect.unit (s := S2048) (k1_off2 L) S64.size (k1_off2_inb L)) (fun _ => rfl)
/-- The whole table, as each gather slices it. -/
abbrev ctS : Memref sig .scVector .hbm S100000x128 .f32 :=
  (ctW).slice (Rect.unit (s := S100000x128) ![0, 0] S100000x128.size inb_S100000x128_S100000x128_0_0) (fun _ => rfl)

theorem L0_lt (L : grid1.Coords) : (L 0).val < 2 := (L 0).isLt
theorem L1_lt (L : grid1.Coords) : (L 1).val < 16 := (L 1).isLt

theorem tileOff_inb (L : grid1.Coords) : ∀ a, (![6400 * (L 1).val + 3200 * (L 0).val, 0] : Fin 2 → Nat) a + S3200x128.size a ≤ S102400x128.size a := by
  have h0 := L0_lt L; have h1 := L1_lt L
  intro a; fin_cases a
  · show 6400 * (L 1).val + 3200 * (L 0).val + 3200 ≤ 102400; omega
  · show 0 + 128 ≤ 128; omega
/-- The tile's 3200 rows of the gathered-rows result, a rectangle of the whole array. -/
abbrev tileRect (L : grid1.Coords) : Rect S102400x128 :=
  Rect.unit (s := S102400x128) ![6400 * (L 1).val + 3200 * (L 0).val, 0] S3200x128.size (tileOff_inb L)
theorem uvOff_inb (L : grid1.Coords) : ∀ a, (![128 * (L 1).val + 64 * (L 0).val, 0] : Fin 2 → Nat) a + S64x128.size a ≤ S2048x128.size a := by
  have h0 := L0_lt L; have h1 := L1_lt L
  intro a; fin_cases a
  · show 128 * (L 1).val + 64 * (L 0).val + 64 ≤ 2048; omega
  · show 0 + 128 ≤ 128; omega
/-- The tile's 64 rows of the user-rows result. -/
abbrev uvRect (L : grid1.Coords) : Rect S2048x128 :=
  Rect.unit (s := S2048x128) ![128 * (L 1).val + 64 * (L 0).val, 0] S64x128.size (uvOff_inb L)

theorem oddOff_inb (L : grid1.Coords) (j : ℕ) (hj : j + 1 ≤ 12) : ∀ a, (![6400 * (L 1).val + 3200 * (L 0).val + 256 * j + 128, 0] : Fin 2 → Nat) a + S128x128.size a ≤ S102400x128.size a := by
  have h0 := L0_lt L; have h1 := L1_lt L
  intro a; fin_cases a
  · show 6400 * (L 1).val + 3200 * (L 0).val + 256 * j + 128 + 128 ≤ 102400; omega
  · show 0 + 128 ≤ 128; omega
/-- The window of the result that the odd chunk `2j + 1` is written to. -/
abbrev euOdd (L : grid1.Coords) (j : ℕ) (hj : j + 1 ≤ 12) : Memref sig .scVector .hbm S128x128 .f32 :=
  (euW).slice (Rect.unit (s := S102400x128) ![6400 * (L 1).val + 3200 * (L 0).val + 256 * j + 128, 0] S128x128.size (oddOff_inb L j hj)) (fun _ => rfl)
theorem evenOff_inb (L : grid1.Coords) (j : ℕ) (hj : j + 1 ≤ 12) : ∀ a, (![6400 * (L 1).val + 3200 * (L 0).val + 256 * j, 0] : Fin 2 → Nat) a + S128x128.size a ≤ S102400x128.size a := by
  have h0 := L0_lt L; have h1 := L1_lt L
  intro a; fin_cases a
  · show 6400 * (L 1).val + 3200 * (L 0).val + 256 * j + 128 ≤ 102400; omega
  · show 0 + 128 ≤ 128; omega
/-- The window of the result that the even chunk `2j` is written to. -/
abbrev euEven (L : grid1.Coords) (j : ℕ) (hj : j + 1 ≤ 12) : Memref sig .scVector .hbm S128x128 .f32 :=
  (euW).slice (Rect.unit (s := S102400x128) ![6400 * (L 1).val + 3200 * (L 0).val + 256 * j, 0] S128x128.size (evenOff_inb L j hj)) (fun _ => rfl)

/-- A 128-entry window of the fetched index list. -/
abbrev s0Win (off : Fin 1 → ℕ) (hoff : ∀ a, off a + S128.size a ≤ S3200.size a) : Memref sig .scVector .vmem S128 .i32 :=
  (s0W).slice (Rect.unit (s := S3200) off S128.size hoff) (fun _ => rfl)

/-! ## The conditions of a trip -/

theorem cond1_zero : ∀ k : Fin k1_t1_loop.trips, k.val = 0 → ¬ k1_cond1 k = 1#1 := by decide +kernel
theorem cond1_pos : ∀ k : Fin k1_t1_loop.trips, 0 < k.val → k1_cond1 k = 1#1 := by decide +kernel
theorem cond2_lt : ∀ k : Fin k1_t1_loop.trips, k.val < 11 → k1_cond2 k = 1#1 := by decide +kernel
theorem cond2_ge : ∀ k : Fin k1_t1_loop.trips, ¬ k.val < 11 → ¬ k1_cond2 k = 1#1 := by decide +kernel
theorem trips_eq : k1_t1_loop.trips = 12 := by decide +kernel

theorem le12 : 11 + 1 ≤ 12 := by decide

/-! ## The pieces of the loop's invariant -/

section Inv

variable (O : CellTallies nD τ sig (HIx 2)) (W : Waits sig (HIx 2))
  (fct : Buf (Elt F) ((SparseCore.T (τ := τ) d).loc main_v9)) (q : PosShare TreeShare)
  (c0 : Buf (Elt F) ((thr d L).loc cc1_scratch0))

/-- The gather of an even chunk into the first row buffer in flight, its list a window of the fetched indices; beside it
    what is left of the row buffer, of the index list and of the table's read token while it flies. -/
def gath0 (off : Fin 1 → ℕ) (hoff : ∀ a, off a + S128.size a ≤ S3200.size a) (g2 : Buf (Elt F) ((thr d L).loc cc1_scratch2)) : sProp 𝕄 :=
  iprop(Transfers.Flight countersEmb (thr d L) (SemLoc.dma cc1_scratch5.sem) (default : HIx 2) 524288
          iprop((((s2W).view.loc (thr d L) ↦[(s2W).view.set]{fullShare} g2)
            ∗ ((s0W).view.loc (thr d L) ↦[(s0Win off hoff).view.set]{fullShare} c0))
            ∗ ((ctW).view.loc (thr d L) ↦[(ctS).view.set]{Transfers.shareTok q 3 1} fct))
      ∗ ((s2W).view.loc (thr d L) ↦[Finset.univ \ (s2W).view.set]{fullShare} g2)
      ∗ ((s0W).view.loc (thr d L) ↦[Finset.univ \ (s0Win off hoff).view.set]{fullShare} c0)
      ∗ ((ctW).view.loc (thr d L) ↦[Finset.univ \ (ctS).view.set]{Transfers.shareTok q 3 1} fct))

/-- The copy of the second row buffer out to the odd chunk `2j + 1`'s window in flight, and what is left of the row buffer. -/
def wout1 (j : ℕ) (hj : j + 1 ≤ 12) (fe : Buf (Elt F) ((SparseCore.T (τ := τ) d).loc main_v18_0)) (g3 : Buf (Elt F) ((thr d L).loc cc1_scratch3)) : sProp 𝕄 :=
  iprop(Transfers.Flight countersEmb (thr d L) (SemLoc.dma cc1_scratch8.sem) (default : HIx 2) 524288
          iprop(((euW).view.loc (thr d L) ↦[(euOdd L j hj).view.set]{fullShare} fe)
            ∗ ((s3W).view.loc (thr d L) ↦[(s3W).view.set]{fullShare} g3))
      ∗ ((s3W).view.loc (thr d L) ↦[Finset.univ \ (s3W).view.set]{fullShare} g3))

/-- The copy of the first row buffer out to the even chunk `2j`'s window in flight, and what is left of the row buffer. -/
def wout0 (j : ℕ) (hj : j + 1 ≤ 12) (fe : Buf (Elt F) ((SparseCore.T (τ := τ) d).loc main_v18_0)) (g2 : Buf (Elt F) ((thr d L).loc cc1_scratch2)) : sProp 𝕄 :=
  iprop(Transfers.Flight countersEmb (thr d L) (SemLoc.dma cc1_scratch7.sem) (default : HIx 2) 524288
          iprop(((euW).view.loc (thr d L) ↦[(euEven L j hj).view.set]{fullShare} fe)
            ∗ ((s2W).view.loc (thr d L) ↦[(s2W).view.set]{fullShare} g2))
      ∗ ((s2W).view.loc (thr d L) ↦[Finset.univ \ (s2W).view.set]{fullShare} g2))

/-- What every trip keeps: the admissibility of its waits, the third read token of the table, the second gather's cell at
    zero, and what the tile owes, its recorded waits grown only at index `none`. -/
def keep : sProp 𝕄 :=
  iprop(Transfers.MayWaits (thr d L) (none : HIx 2) O
      ∗ ((ctW).view.loc (thr d L) ↦{Transfers.shareTok q 3 2} fct)
      ∗ semVal (thr d L, SemLoc.dma cc1_scratch6.sem) 0
      ∗ ∃ W', ⌜∀ p ∈ W', p ∈ W ∨ p.2 = none⌝ ∗ owes (thr d L) O W')

/-- Before the first trip: chunk 0's gather in flight, nothing of the result written or in flight. -/
def inv0 : sProp 𝕄 :=
  iprop(keep d L O W fct q ∗ ∃ g2 g3 fe, (∃ off hoff, gath0 d L fct q c0 off hoff g2)
      ∗ semVal (thr d L, SemLoc.dma cc1_scratch7.sem) 0
      ∗ ((s3W).view.loc (thr d L) ↦{fullShare} g3) ∗ semVal (thr d L, SemLoc.dma cc1_scratch8.sem) 0
      ∗ ((euW).view.loc (thr d L) ↦[(euW).view.setOn (tileRect L).set]{fullShare} fe))

/-- Before trip `j + 1 < 12`: the even chunk `2j + 2`'s gather and the odd chunk `2j + 1`'s copy-out in flight. -/
def invMid (j : ℕ) (hj : j + 1 < 12) : sProp 𝕄 :=
  iprop(keep d L O W fct q ∗ ∃ g2 g3 fe, (∃ off hoff, gath0 d L fct q c0 off hoff g2)
      ∗ semVal (thr d L, SemLoc.dma cc1_scratch7.sem) 0
      ∗ wout1 d L j (Nat.le_of_lt hj) fe g3
      ∗ ((euW).view.loc (thr d L) ↦[(euW).view.setOn (tileRect L).set \ (euOdd L j (Nat.le_of_lt hj)).view.set]{fullShare} fe))

/-- After the last trip: chunks 22 and 23 being copied out, no gather in flight. (The even chunk's window travels at the contents
    the result had when its copy was issued, the rest at its contents since: two functions, joined after the loop.) -/
def invEnd : sProp 𝕄 :=
  iprop(keep d L O W fct q ∗ ∃ g2 g3 fe0 fe,
      semVal (thr d L, SemLoc.dma cc1_scratch5.sem) 0 ∗ ((ctW).view.loc (thr d L) ↦{Transfers.shareTok q 3 1} fct)
      ∗ ((s0W).view.loc (thr d L) ↦{fullShare} c0)
      ∗ wout0 d L 11 le12 fe0 g2 ∗ wout1 d L 11 le12 fe g3
      ∗ ((euW).view.loc (thr d L) ↦[((euW).view.setOn (tileRect L).set \ (euEven L 11 le12).view.set) \ (euOdd L 11 le12).view.set]{fullShare} fe))

/-- The loop's invariant before trip `k`. -/
def inv (k : ℕ) (_ : PUnit) : sProp 𝕄 :=
  match k with
  | 0 => inv0 d L O W fct q c0
  | j + 1 => if hj : j + 1 < 12 then invMid d L O W fct q c0 j hj else invEnd d L O W fct q c0

end Inv

end Cert.Proof.KW

end
-- ==== Proof.WScTrip.lean ====
/-
  One trip of the gather kernel's double-buffered loop, in its three shapes: the first trip (no copy-out pending), a middle
  trip, and the last trip (no further gather issued, the even chunk's copy-out left in flight). Each runs the trip's region
  from the loop's invariant before it to the invariant after it.
-/
import proofs.«217981_g19061064860210_cont_8to1_1320_37_alg».proof.Proof.WScInv

noncomputable section

namespace Cert.Proof.KW

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "ctW" => (Memref.whole Cert.Kernel.main_v9_scv : Memref Cert.Kernel.sig Kind.scVector Space.hbm Cert.Kernel.S100000x128 EltTy.f32)
local notation "viW" => (Memref.whole Cert.Kernel.main_v13_scv : Memref Cert.Kernel.sig Kind.scVector Space.hbm Cert.Kernel.S102400 EltTy.i32)
local notation "niW" => (Memref.whole Cert.Kernel.main_v14_scv : Memref Cert.Kernel.sig Kind.scVector Space.hbm Cert.Kernel.S2048 EltTy.i32)
local notation "euW" => (Memref.whole Cert.Kernel.main_v18_0_scv : Memref Cert.Kernel.sig Kind.scVector Space.hbm Cert.Kernel.S102400x128 EltTy.f32)
local notation "uvW" => (Memref.whole Cert.Kernel.main_v18_1_scv : Memref Cert.Kernel.sig Kind.scVector Space.hbm Cert.Kernel.S2048x128 EltTy.f32)
local notation "s0W" => (Memref.whole Cert.Kernel.cc1_scratch0 : Memref Cert.Kernel.sig Kind.scVector Space.vmem Cert.Kernel.S3200 EltTy.i32)
local notation "s1W" => (Memref.whole Cert.Kernel.cc1_scratch1 : Memref Cert.Kernel.sig Kind.scVector Space.vmem Cert.Kernel.S64 EltTy.i32)
local notation "s2W" => (Memref.whole Cert.Kernel.cc1_scratch2 : Memref Cert.Kernel.sig Kind.scVector Space.vmem Cert.Kernel.S128x128 EltTy.f32)
local notation "s3W" => (Memref.whole Cert.Kernel.cc1_scratch3 : Memref Cert.Kernel.sig Kind.scVector Space.vmem Cert.Kernel.S128x128 EltTy.f32)
local notation "s4W" => (Memref.whole Cert.Kernel.cc1_scratch4 : Memref Cert.Kernel.sig Kind.scVector Space.vmem Cert.Kernel.S64x128 EltTy.f32)

variable [FloatOps F]
variable (d : Dev nD) (L : grid1.Coords)

variable (O : CellTallies nD τ sig (HIx 2)) (W : Waits sig (HIx 2))
  (fct : Buf (Elt F) ((SparseCore.T (τ := τ) d).loc main_v9)) (q : PosShare TreeShare)
  (c0 : Buf (Elt F) ((thr d L).loc cc1_scratch0))

omit [FloatOps F] in
/-- A wait recorded at index `none` keeps the recorded waits within the bound. -/
theorem mem_ins {W W' : Waits sig (HIx 2)} {sm : SemLoc sig} (h : ∀ p ∈ W', p ∈ W ∨ p.2 = none) :
    ∀ p ∈ insert (sm, (default : HIx 2)) W', p ∈ W ∨ p.2 = none := by
  intro p hp
  rcases Finset.mem_insert.mp hp with hp | hp
  · exact .inr (hp ▸ rfl)
  · exact h p hp

omit [FloatOps F] in
/-- The odd chunk's window spelt by its offsets' closed form is the window spelt by any offsets equal to it. -/
theorem odd_respell (off : Fin 2 → ℕ) (hoff : ∀ a, off a + S128x128.size a ≤ S102400x128.size a)
    (j : ℕ) (hj : j + 1 ≤ 12) (e : off = ![6400 * (L 1).val + 3200 * (L 0).val + 256 * j + 128, 0])
    (fe : Buf (Elt F) ((SparseCore.T (τ := τ) d).loc main_v18_0)) (g3 : Buf (Elt F) ((thr d L).loc cc1_scratch3)) :
    (iprop((Transfers.Flight countersEmb (thr d L) (SemLoc.dma cc1_scratch8.sem) (default : HIx 2) 524288
          iprop(((euW).view.loc (thr d L) ↦[((euW).slice (Rect.unit (s := S102400x128) off S128x128.size hoff) (fun _ => rfl)).view.set]{fullShare} fe)
            ∗ ((s3W).view.loc (thr d L) ↦[(s3W).view.set]{fullShare} g3))
        ∗ ((s3W).view.loc (thr d L) ↦[Finset.univ \ (s3W).view.set]{fullShare} g3))
      ∗ ((euW).view.loc (thr d L) ↦[(euW).view.setOn (tileRect L).set \ ((euW).slice (Rect.unit (s := S102400x128) off S128x128.size hoff) (fun _ => rfl)).view.set]{fullShare} fe)) : sProp 𝕄)
    = iprop(wout1 d L j hj fe g3 ∗ ((euW).view.loc (thr d L) ↦[(euW).view.setOn (tileRect L).set \ (euOdd L j hj).view.set]{fullShare} fe)) := by
  subst e; rfl

/-- The first trip: chunk 0 lands and is copied out and waited for, chunk 2's gather is issued, chunk 1 is gathered and its
    copy-out issued. -/
theorem trip0 (hO : ∀ g, O g none = 0) (k : Fin k1_t1_loop.trips) (h0 : k.val = 0)
    (hc0 : ∀ (off : Fin 1 → ℕ) (h : ∀ a, off a + S128.size a ≤ S3200.size a) (x : S128.Idx),
      (View.read (Elt F) ((s0W).slice (Rect.unit (s := S3200) off S128.size h) (fun _ => rfl)).view c0 x).toNat < 100000) :
    inv0 d L O W fct q c0
      ⊢ wp frame (wpE (defs₀ (F := F)) 𝒱₀ (thr d L) none) Set.univ
          (k1_t1_body L ctW (Memref.isWhole_whole _) viW (Memref.isWhole_whole _) niW (Memref.isWhole_whole _)
            euW (Memref.isWhole_whole _) uvW (Memref.isWhole_whole _)
            s0W (Memref.isWhole_whole _) s1W (Memref.isWhole_whole _) s2W (Memref.isWhole_whole _)
            s3W (Memref.isWhole_whole _) s4W (Memref.isWhole_whole _)
            cc1_scratch5 cc1_scratch6 cc1_scratch7 cc1_scratch8 cc1_scratch9 cc1_scoped0 cc1_scoped1 cc1_scoped2 k ⟨⟩)
          fun _ => invMid d L O W fct q c0 0 (by decide) := by
  have h1 : ¬ k1_cond1 k = 1#1 := cond1_zero k h0
  have h2 : k1_cond2 k = 1#1 := cond2_lt k (by omega)
  have hk : (k : ℕ) < 12 := by omega
  unfold k1_t1_body
  unfold inv0 keep
  iintro ⟨⟨Hmw, Hct2, Hg1, %W', %hW', HO⟩, %g2, %g3, %fe, ⟨%off, %hoff, HG⟩, Hw0, Hs3, Hw1, Heu⟩
  unfold gath0
  icases HG with ⟨Hg0, Hs2r, Hs0r, Hct1r⟩
  sl_exec
  sl_step
  unfold invMid keep
  isplitl [Hmw Hct2 Hg1 HO]
  · isplitl [Hmw]; · iexact Hmw
    isplitl [Hct2]; · iexact Hct2
    isplitl [Hg1]; · iexact Hg1
    iexists _; isplitr
    swap; · iexact HO
    ipureintro; exact mem_ins (mem_ins (mem_ins hW'))
  iexists _; iexists _; iexists _
  isplitl [Hg0 Hs2r Hs0r Hct1r]
  · iexists _; iexists _
    unfold gath0
    isplitl [Hg0]; · iexact Hg0
    isplitl [Hs2r]; · iexact Hs2r
    isplitl [Hs0r]; · iexact Hs0r
    iexact Hct1r
  isplitl [Hw0]; · iexact Hw0
  iapply (Entails.of_eq (odd_respell d L (k1_off9 L k) (k1_off9_inb L k) 0 _ (by rw [k1_off9_eq, h0]) _ _))
  isplitl [Hw1 Hs3]
  · isplitl [Hw1]; · iexact Hw1
    iexact Hs3
  iexact Heu

/-- A middle trip `k = j + 1 < 11`: chunk `2k` lands, chunk `2k - 1`'s copy-out is waited for, chunk `2k + 1`'s gather and chunk
    `2k`'s copy-out are issued, the latter waited for, chunk `2k + 2`'s gather issued, chunk `2k + 1` lands and its copy-out is issued. -/
theorem tripMid (hO : ∀ g, O g none = 0) (k : Fin k1_t1_loop.trips) (j : ℕ) (hkj : k.val = j + 1) (hj : j + 1 < 11)
    (hc0 : ∀ (off : Fin 1 → ℕ) (h : ∀ a, off a + S128.size a ≤ S3200.size a) (x : S128.Idx),
      (View.read (Elt F) ((s0W).slice (Rect.unit (s := S3200) off S128.size h) (fun _ => rfl)).view c0 x).toNat < 100000) :
    invMid d L O W fct q c0 j (by omega)
      ⊢ wp frame (wpE (defs₀ (F := F)) 𝒱₀ (thr d L) none) Set.univ
          (k1_t1_body L ctW (Memref.isWhole_whole _) viW (Memref.isWhole_whole _) niW (Memref.isWhole_whole _)
            euW (Memref.isWhole_whole _) uvW (Memref.isWhole_whole _)
            s0W (Memref.isWhole_whole _) s1W (Memref.isWhole_whole _) s2W (Memref.isWhole_whole _)
            s3W (Memref.isWhole_whole _) s4W (Memref.isWhole_whole _)
            cc1_scratch5 cc1_scratch6 cc1_scratch7 cc1_scratch8 cc1_scratch9 cc1_scoped0 cc1_scoped1 cc1_scoped2 k ⟨⟩)
          fun _ => invMid d L O W fct q c0 (j + 1) (by omega) := by
  have h1 : k1_cond1 k = 1#1 := cond1_pos k (by omega)
  have h2 : k1_cond2 k = 1#1 := cond2_lt k (by omega)
  have hk : (k : ℕ) < 12 := by omega
  unfold k1_t1_body
  unfold invMid keep
  iintro ⟨⟨Hmw, Hct2, Hg1, %W', %hW', HO⟩, %g2, %g3, %fe, ⟨%off, %hoff, HG⟩, Hw0, HWO, Heu⟩
  unfold gath0 wout1
  icases HG with ⟨Hg0, Hs2r, Hs0r, Hct1r⟩
  icases HWO with ⟨Hw1, Hs3⟩
  sl_exec
  sl_step
  try unfold invMid keep
  isplitl [Hmw Hct2 Hg1 HO]
  · isplitl [Hmw]; · iexact Hmw
    isplitl [Hct2]; · iexact Hct2
    isplitl [Hg1]; · iexact Hg1
    iexists _; isplitr
    swap; · iexact HO
    ipureintro
    first
      | exact mem_ins (mem_ins (mem_ins (mem_ins hW')))
      | exact mem_ins (mem_ins (mem_ins hW'))
  iexists _; iexists _; iexists _
  isplitl [Hg0 Hs2r Hs0r Hct1r]
  · iexists _; iexists _
    try unfold gath0
    isplitl [Hg0]; · iexact Hg0
    isplitl [Hs2r]; · iexact Hs2r
    isplitl [Hs0r]; · iexact Hs0r
    iexact Hct1r
  isplitl [Hw0]; · iexact Hw0
  iapply (Entails.of_eq (odd_respell d L (k1_off9 L k) (k1_off9_inb L k) (j + 1) _ (by rw [k1_off9_eq, hkj]) _ _))
  isplitl [Hw1 Hs3]
  · isplitl [Hw1]; · iexact Hw1
    iexact Hs3
  iexact Heu

omit [FloatOps F] in
/-- The two windows in flight after the last trip, spelt by their offsets' closed forms. -/
theorem end_respell (off6 off9 : Fin 2 → ℕ) (h6 : ∀ a, off6 a + S128x128.size a ≤ S102400x128.size a)
    (h9 : ∀ a, off9 a + S128x128.size a ≤ S102400x128.size a)
    (e6 : off6 = ![6400 * (L 1).val + 3200 * (L 0).val + 256 * 11, 0])
    (e9 : off9 = ![6400 * (L 1).val + 3200 * (L 0).val + 256 * 11 + 128, 0])
    (fe0 fe : Buf (Elt F) ((SparseCore.T (τ := τ) d).loc main_v18_0)) (g2 : Buf (Elt F) ((thr d L).loc cc1_scratch2))
    (g3 : Buf (Elt F) ((thr d L).loc cc1_scratch3)) :
    (iprop((Transfers.Flight countersEmb (thr d L) (SemLoc.dma cc1_scratch7.sem) (default : HIx 2) 524288
          iprop(((euW).view.loc (thr d L) ↦[((euW).slice (Rect.unit (s := S102400x128) off6 S128x128.size h6) (fun _ => rfl)).view.set]{fullShare} fe0)
            ∗ ((s2W).view.loc (thr d L) ↦[(s2W).view.set]{fullShare} g2))
        ∗ ((s2W).view.loc (thr d L) ↦[Finset.univ \ (s2W).view.set]{fullShare} g2))
      ∗ (Transfers.Flight countersEmb (thr d L) (SemLoc.dma cc1_scratch8.sem) (default : HIx 2) 524288
          iprop(((euW).view.loc (thr d L) ↦[((euW).slice (Rect.unit (s := S102400x128) off9 S128x128.size h9) (fun _ => rfl)).view.set]{fullShare} fe)
            ∗ ((s3W).view.loc (thr d L) ↦[(s3W).view.set]{fullShare} g3))
        ∗ ((s3W).view.loc (thr d L) ↦[Finset.univ \ (s3W).view.set]{fullShare} g3))
      ∗ ((euW).view.loc (thr d L) ↦[((euW).view.setOn (tileRect L).set \ ((euW).slice (Rect.unit (s := S102400x128) off6 S128x128.size h6) (fun _ => rfl)).view.set)
          \ ((euW).slice (Rect.unit (s := S102400x128) off9 S128x128.size h9) (fun _ => rfl)).view.set]{fullShare} fe)) : sProp 𝕄)
    = iprop(wout0 d L 11 le12 fe0 g2 ∗ wout1 d L 11 le12 fe g3
        ∗ ((euW).view.loc (thr d L) ↦[((euW).view.setOn (tileRect L).set \ (euEven L 11 le12).view.set) \ (euOdd L 11 le12).view.set]{fullShare} fe)) := by
  subst e6; subst e9; rfl

/-- The last trip `k = 11`: chunk 22 lands, chunk 21's copy-out is waited for, chunk 23's gather and chunk 22's copy-out are
    issued, chunk 23 lands and its copy-out is issued; no further gather. -/
theorem tripLast (hO : ∀ g, O g none = 0) (k : Fin k1_t1_loop.trips) (hk11 : k.val = 11)
    (hc0 : ∀ (off : Fin 1 → ℕ) (h : ∀ a, off a + S128.size a ≤ S3200.size a) (x : S128.Idx),
      (View.read (Elt F) ((s0W).slice (Rect.unit (s := S3200) off S128.size h) (fun _ => rfl)).view c0 x).toNat < 100000) :
    invMid d L O W fct q c0 10 (by decide)
      ⊢ wp frame (wpE (defs₀ (F := F)) 𝒱₀ (thr d L) none) Set.univ
          (k1_t1_body L ctW (Memref.isWhole_whole _) viW (Memref.isWhole_whole _) niW (Memref.isWhole_whole _)
            euW (Memref.isWhole_whole _) uvW (Memref.isWhole_whole _)
            s0W (Memref.isWhole_whole _) s1W (Memref.isWhole_whole _) s2W (Memref.isWhole_whole _)
            s3W (Memref.isWhole_whole _) s4W (Memref.isWhole_whole _)
            cc1_scratch5 cc1_scratch6 cc1_scratch7 cc1_scratch8 cc1_scratch9 cc1_scoped0 cc1_scoped1 cc1_scoped2 k ⟨⟩)
          fun _ => invEnd d L O W fct q c0 := by
  have h1 : k1_cond1 k = 1#1 := cond1_pos k (by omega)
  have h2 : ¬ k1_cond2 k = 1#1 := cond2_ge k (by omega)
  have hk : (k : ℕ) < 12 := by omega
  have hkj : (k : ℕ) = 10 + 1 := hk11
  unfold k1_t1_body
  unfold invMid keep
  iintro ⟨⟨Hmw, Hct2, Hg1, %W', %hW', HO⟩, %g2, %g3, %fe, ⟨%off, %hoff, HG⟩, Hw0, HWO, Heu⟩
  unfold gath0 wout1
  icases HG with ⟨Hg0, Hs2r, Hs0r, Hct1r⟩
  icases HWO with ⟨Hw1, Hs3⟩
  sl_exec
  sl_step
  unfold invEnd
  try unfold keep
  isplitl [Hmw Hct2 Hg1 HO]
  · isplitl [Hmw]; · iexact Hmw
    isplitl [Hct2]; · iexact Hct2
    isplitl [Hg1]; · iexact Hg1
    iexists _; isplitr
    swap; · iexact HO
    ipureintro
    first
      | exact mem_ins (mem_ins (mem_ins (mem_ins hW')))
      | exact mem_ins (mem_ins (mem_ins hW'))
  iexists _; iexists _; iexists _; iexists _
  isplitl [Hg0]; · iexact Hg0
  isplitl [Hct1r]; · iexact Hct1r
  isplitl [Hs0r]; · iexact Hs0r
  iapply (Entails.of_eq (end_respell d L (k1_off6 L k) (k1_off9 L k) (k1_off6_inb L k) (k1_off9_inb L k)
    (by rw [k1_off6_eq, hk11]) (by rw [k1_off9_eq, hk11]) _ _ _ _))
  isplitl [Hw0 Hs2r]
  · isplitl [Hw0]; · iexact Hw0
    iexact Hs2r
  isplitl [Hw1 Hs3]
  · isplitl [Hw1]; · iexact Hw1
    iexact Hs3
  iexact Heu

end Cert.Proof.KW

end
-- ==== Proof.WScTile.lean ====
/-
  The gather kernel's task on one vector subcore, run whole: the two index lists fetched, the user rows' gather and chunk 0's
  gather issued, the loop by its invariant (ScInv, ScTrip), then chunk 24 and the user rows copied out and every transfer waited
  for. From what the tile is handed — read tokens of the table, its slices of the two index lists, its rows of the two
  results, its scratch and its semaphores at zero — back to the same, the results' rows at some contents.
-/
import proofs.«217981_g19061064860210_cont_8to1_1320_37_alg».proof.Proof.WScTrip

noncomputable section

namespace Cert.Proof.KW

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "ctW" => (Memref.whole Cert.Kernel.main_v9_scv : Memref Cert.Kernel.sig Kind.scVector Space.hbm Cert.Kernel.S100000x128 EltTy.f32)
local notation "viW" => (Memref.whole Cert.Kernel.main_v13_scv : Memref Cert.Kernel.sig Kind.scVector Space.hbm Cert.Kernel.S102400 EltTy.i32)
local notation "niW" => (Memref.whole Cert.Kernel.main_v14_scv : Memref Cert.Kernel.sig Kind.scVector Space.hbm Cert.Kernel.S2048 EltTy.i32)
local notation "euW" => (Memref.whole Cert.Kernel.main_v18_0_scv : Memref Cert.Kernel.sig Kind.scVector Space.hbm Cert.Kernel.S102400x128 EltTy.f32)
local notation "uvW" => (Memref.whole Cert.Kernel.main_v18_1_scv : Memref Cert.Kernel.sig Kind.scVector Space.hbm Cert.Kernel.S2048x128 EltTy.f32)
local notation "s0W" => (Memref.whole Cert.Kernel.cc1_scratch0 : Memref Cert.Kernel.sig Kind.scVector Space.vmem Cert.Kernel.S3200 EltTy.i32)
local notation "s1W" => (Memref.whole Cert.Kernel.cc1_scratch1 : Memref Cert.Kernel.sig Kind.scVector Space.vmem Cert.Kernel.S64 EltTy.i32)
local notation "s2W" => (Memref.whole Cert.Kernel.cc1_scratch2 : Memref Cert.Kernel.sig Kind.scVector Space.vmem Cert.Kernel.S128x128 EltTy.f32)
local notation "s3W" => (Memref.whole Cert.Kernel.cc1_scratch3 : Memref Cert.Kernel.sig Kind.scVector Space.vmem Cert.Kernel.S128x128 EltTy.f32)
local notation "s4W" => (Memref.whole Cert.Kernel.cc1_scratch4 : Memref Cert.Kernel.sig Kind.scVector Space.vmem Cert.Kernel.S64x128 EltTy.f32)

variable [FloatOps F]
variable (d : Dev nD) (L : grid1.Coords)

variable (O : CellTallies nD τ sig (HIx 2)) (W : Waits sig (HIx 2))
  (fct : Buf (Elt F) ((SparseCore.T (τ := τ) d).loc main_v9)) (q : PosShare TreeShare)

omit [FloatOps F] in
theorem inv_zero (c0 : Buf (Elt F) ((thr d L).loc cc1_scratch0)) (acc : PUnit) :
    inv d L O W fct q c0 0 acc = inv0 d L O W fct q c0 := rfl
omit [FloatOps F] in
theorem inv_end (c0 : Buf (Elt F) ((thr d L).loc cc1_scratch0)) (acc : PUnit) :
    inv d L O W fct q c0 (Scf.trips k1_t1_loop.lb k1_t1_loop.ub k1_t1_loop.st) acc = invEnd d L O W fct q c0 := by
  rw [show Scf.trips k1_t1_loop.lb k1_t1_loop.ub k1_t1_loop.st = 12 from trips_eq]; rfl

/-- What the first copy leaves in the item-index scratch: the tile's slice of the flat index list. -/
abbrev fetched (fvi : Buf (Elt F) ((SparseCore.T (τ := τ) d).loc main_v13)) (f0 : Buf (Elt F) ((thr d L).loc cc1_scratch0)) :
    Buf (Elt F) ((thr d L).loc cc1_scratch0) :=
  View.write (Elt F) (s0W).view f0 (ReadAs.same.apply (View.read (Elt F) (viS L).view fvi)) Finset.univ

omit [FloatOps F] in
/-- What the fetch leaves in the item-index scratch: the tile's slice of the flat list, every entry a row of the table. -/
theorem c0_lt (fvi : Buf (Elt F) ((SparseCore.T (τ := τ) d).loc main_v13)) (hvi : ∀ j, (fvi j).toNat < 100000)
    (f0 : Buf (Elt F) ((thr d L).loc cc1_scratch0)) (i : S3200.Idx) :
    (View.write (Elt F) (s0W).view f0 (ReadAs.same.apply (View.read (Elt F) (viS L).view fvi)) Finset.univ i).toNat < 100000 := by
  have e : View.write (Elt F) (s0W).view f0 (ReadAs.same.apply (View.read (Elt F) (viS L).view fvi)) Finset.univ
      = ReadAs.same.apply (View.read (Elt F) (viS L).view fvi) := View.write_whole_univ _ _ _
  rw [e]
  show (View.read (Elt F) (viS L).view fvi i).toNat < 100000
  rw [show View.read (Elt F) (viS L).view fvi i = fvi ((viS L).view.emb i) from (View.read_apply _ _).trans (cast_eq _ _)]
  exact hvi _

omit [FloatOps F] in
/-- Every 128-entry window of the fetched item indices names rows of the table. -/
theorem hin_v_of (fvi : Buf (Elt F) ((SparseCore.T (τ := τ) d).loc main_v13)) (hvi : ∀ j, (fvi j).toNat < 100000)
    (f0 : Buf (Elt F) ((thr d L).loc cc1_scratch0)) :
    ∀ (off : Fin 1 → Nat) (h : ∀ a, off a + S128.size a ≤ S3200.size a) (x : S128.Idx),
      (View.read (Elt F) ((s0W).slice (Rect.unit (s := S3200) off S128.size h) (fun _ => rfl)).view (View.write (Elt F) (s0W).view f0
        (ReadAs.same.apply (View.read (Elt F) (viS L).view fvi)) Finset.univ) x).toNat < 100000 := by
  intro off h x
  rw [show View.read (Elt F) ((s0W).slice (Rect.unit (s := S3200) off S128.size h) (fun _ => rfl)).view (View.write (Elt F) (s0W).view f0
        (ReadAs.same.apply (View.read (Elt F) (viS L).view fvi)) Finset.univ) x
      = View.write (Elt F) (s0W).view f0 (ReadAs.same.apply (View.read (Elt F) (viS L).view fvi)) Finset.univ
          (((s0W).slice (Rect.unit (s := S3200) off S128.size h) (fun _ => rfl)).view.emb x) from (View.read_apply _ _).trans (cast_eq _ _)]
  exact c0_lt d L fvi hvi f0 _

omit [FloatOps F] in
/-- The fetched user indices name rows of the table. -/
theorem hin_u_of (fni : Buf (Elt F) ((SparseCore.T (τ := τ) d).loc main_v14)) (hni : ∀ j, (fni j).toNat < 100000) :
    ∀ (g : Buf (Elt F) ((thr d L).loc cc1_scratch1)) (x : S64.Idx),
      (View.read (Elt F) (s1W).view (View.write (Elt F) (s1W).view g
        (ReadAs.same.apply (View.read (Elt F) (niS L).view fni)) Finset.univ) x).toNat < 100000 := by
  intro g x
  have e : View.write (Elt F) (s1W).view g (ReadAs.same.apply (View.read (Elt F) (niS L).view fni)) Finset.univ
      = ReadAs.same.apply (View.read (Elt F) (niS L).view fni) := View.write_whole_univ _ _ _
  rw [e]
  rw [show View.read (Elt F) (s1W).view (ReadAs.same.apply (View.read (Elt F) (niS L).view fni)) x
      = ReadAs.same.apply (View.read (Elt F) (niS L).view fni) ((s1W).view.emb x) from (View.read_apply _ _).trans (cast_eq _ _)]
  show (View.read (Elt F) (niS L).view fni ((s1W).view.emb x)).toNat < 100000
  rw [show View.read (Elt F) (niS L).view fni ((s1W).view.emb x) = fni ((niS L).view.emb ((s1W).view.emb x)) from (View.read_apply _ _).trans (cast_eq _ _)]
  exact hni _

omit [FloatOps F] in
/-- The last even chunk's window lies in the tile's rows. -/
theorem even11_sub : (euEven L 11 le12).view.set ⊆ (euW).view.setOn (tileRect L).set := by
  refine Memref.set_slice_subset_setOn_of_within (euW) (tileRect L) _ (fun _ => rfl) (LoadRect.within_of_withinP ?_)
  have h0 := L0_lt L; have h1 := L1_lt L
  intro a; fin_cases a
  · refine ⟨?_, ?_, Or.inl rfl⟩
    · show 6400 * (L 1).val + 3200 * (L 0).val ≤ 6400 * (L 1).val + 3200 * (L 0).val + 256 * 11; omega
    · show 6400 * (L 1).val + 3200 * (L 0).val + 256 * 11 + 1 * (128 - 1) < 6400 * (L 1).val + 3200 * (L 0).val + 1 * 3200; omega
  · refine ⟨?_, ?_, Or.inl rfl⟩
    · show 0 ≤ 0; omega
    · show 0 + 1 * (128 - 1) < 0 + 1 * 128; omega

/-- What the tile holds when its task starts. -/
def tilePre (fvi : Buf (Elt F) ((SparseCore.T (τ := τ) d).loc main_v13)) (fni : Buf (Elt F) ((SparseCore.T (τ := τ) d).loc main_v14))
    (qi : PosShare TreeShare)
    (f0 : Buf (Elt F) ((thr d L).loc cc1_scratch0)) (f1 : Buf (Elt F) ((thr d L).loc cc1_scratch1))
    (f2 : Buf (Elt F) ((thr d L).loc cc1_scratch2)) (f3 : Buf (Elt F) ((thr d L).loc cc1_scratch3))
    (f4 : Buf (Elt F) ((thr d L).loc cc1_scratch4))
    (feu : Buf (Elt F) ((SparseCore.T (τ := τ) d).loc main_v18_0)) (fuv : Buf (Elt F) ((SparseCore.T (τ := τ) d).loc main_v18_1)) : sProp 𝕄 :=
  iprop(Transfers.MayWaits (thr d L) (none : HIx 2) O
      ∗ ((ctW).view.loc (thr d L) ↦{Transfers.shareTok q 3 0} fct)
      ∗ ((ctW).view.loc (thr d L) ↦{Transfers.shareTok q 3 1} fct)
      ∗ ((ctW).view.loc (thr d L) ↦{Transfers.shareTok q 3 2} fct)
      ∗ ((viS L).view.loc (thr d L) ↦[(viS L).view.set]{qi} fvi)
      ∗ ((niS L).view.loc (thr d L) ↦[(niS L).view.set]{qi} fni)
      ∗ ((s0W).view.loc (thr d L) ↦{fullShare} f0) ∗ ((s1W).view.loc (thr d L) ↦{fullShare} f1)
      ∗ ((s2W).view.loc (thr d L) ↦{fullShare} f2) ∗ ((s3W).view.loc (thr d L) ↦{fullShare} f3)
      ∗ ((s4W).view.loc (thr d L) ↦{fullShare} f4)
      ∗ semVal (thr d L, SemLoc.dma cc1_scratch5.sem) 0 ∗ semVal (thr d L, SemLoc.dma cc1_scratch6.sem) 0
      ∗ semVal (thr d L, SemLoc.dma cc1_scratch7.sem) 0 ∗ semVal (thr d L, SemLoc.dma cc1_scratch8.sem) 0
      ∗ semVal (thr d L, SemLoc.dma cc1_scratch9.sem) 0
      ∗ semVal (thr d L, SemLoc.dma cc1_scoped0.sem) 0 ∗ semVal (thr d L, SemLoc.dma cc1_scoped1.sem) 0
      ∗ semVal (thr d L, SemLoc.dma cc1_scoped2.sem) 0
      ∗ ((euW).view.loc (thr d L) ↦[(euW).view.setOn (tileRect L).set]{fullShare} feu)
      ∗ ((uvW).view.loc (thr d L) ↦[(uvW).view.setOn (uvRect L).set]{fullShare} fuv)
      ∗ owes (thr d L) O W)

/-- What the tile holds when its task ends: all it was handed, the scratch and the results' rows at some contents, the
    recorded waits grown only at index `none`. -/
def tilePost (fvi : Buf (Elt F) ((SparseCore.T (τ := τ) d).loc main_v13)) (fni : Buf (Elt F) ((SparseCore.T (τ := τ) d).loc main_v14))
    (qi : PosShare TreeShare) : sProp 𝕄 :=
  iprop(((ctW).view.loc (thr d L) ↦{Transfers.shareTok q 3 0} fct)
      ∗ ((ctW).view.loc (thr d L) ↦{Transfers.shareTok q 3 1} fct)
      ∗ ((ctW).view.loc (thr d L) ↦{Transfers.shareTok q 3 2} fct)
      ∗ ((viS L).view.loc (thr d L) ↦[(viS L).view.set]{qi} fvi)
      ∗ ((niS L).view.loc (thr d L) ↦[(niS L).view.set]{qi} fni)
      ∗ (∃ f, (s0W).view.loc (thr d L) ↦{fullShare} f) ∗ (∃ f, (s1W).view.loc (thr d L) ↦{fullShare} f)
      ∗ (∃ f, (s2W).view.loc (thr d L) ↦{fullShare} f) ∗ (∃ f, (s3W).view.loc (thr d L) ↦{fullShare} f)
      ∗ (∃ f, (s4W).view.loc (thr d L) ↦{fullShare} f)
      ∗ semVal (thr d L, SemLoc.dma cc1_scratch5.sem) 0 ∗ semVal (thr d L, SemLoc.dma cc1_scratch6.sem) 0
      ∗ semVal (thr d L, SemLoc.dma cc1_scratch7.sem) 0 ∗ semVal (thr d L, SemLoc.dma cc1_scratch8.sem) 0
      ∗ semVal (thr d L, SemLoc.dma cc1_scratch9.sem) 0
      ∗ semVal (thr d L, SemLoc.dma cc1_scoped0.sem) 0 ∗ semVal (thr d L, SemLoc.dma cc1_scoped1.sem) 0
      ∗ semVal (thr d L, SemLoc.dma cc1_scoped2.sem) 0
      ∗ (∃ f, (euW).view.loc (thr d L) ↦[(euW).view.setOn (tileRect L).set]{fullShare} f)
      ∗ (∃ f, (uvW).view.loc (thr d L) ↦[(uvW).view.setOn (uvRect L).set]{fullShare} f)
      ∗ ∃ W', ⌜∀ p ∈ W', p ∈ W ∨ p.2 = none⌝ ∗ owes (thr d L) O W')

set_option maxHeartbeats 4000000 in
/-- The task, run: every weakly fair execution of the tile's body from what it is handed ends, without a fault, in what it
    hands back. The index lists' entries name rows of the table (`hvi`, `hni`): that is what keeps every indexed copy defined. -/
theorem tile_run (hO : ∀ g, O g none = 0)
    (fvi : Buf (Elt F) ((SparseCore.T (τ := τ) d).loc main_v13)) (fni : Buf (Elt F) ((SparseCore.T (τ := τ) d).loc main_v14))
    (qi : PosShare TreeShare)
    (f0 : Buf (Elt F) ((thr d L).loc cc1_scratch0)) (f1 : Buf (Elt F) ((thr d L).loc cc1_scratch1))
    (f2 : Buf (Elt F) ((thr d L).loc cc1_scratch2)) (f3 : Buf (Elt F) ((thr d L).loc cc1_scratch3))
    (f4 : Buf (Elt F) ((thr d L).loc cc1_scratch4))
    (feu : Buf (Elt F) ((SparseCore.T (τ := τ) d).loc main_v18_0)) (fuv : Buf (Elt F) ((SparseCore.T (τ := τ) d).loc main_v18_1))
    (hvi : ∀ j, (fvi j).toNat < 100000) (hni : ∀ j, (fni j).toNat < 100000) :
    tilePre d L O W fct q fvi fni qi f0 f1 f2 f3 f4 feu fuv
      ⊢ wp frame (wpE (defs₀ (F := F)) 𝒱₀ (thr d L) none) Set.univ
          (cc1_k L ctW (Memref.isWhole_whole _) viW (Memref.isWhole_whole _) niW (Memref.isWhole_whole _)
            euW (Memref.isWhole_whole _) uvW (Memref.isWhole_whole _)
            s0W (Memref.isWhole_whole _) s1W (Memref.isWhole_whole _) s2W (Memref.isWhole_whole _)
            s3W (Memref.isWhole_whole _) s4W (Memref.isWhole_whole _)
            cc1_scratch5 cc1_scratch6 cc1_scratch7 cc1_scratch8 cc1_scratch9 cc1_scoped0 cc1_scoped1 cc1_scoped2)
          fun _ => tilePost d L O W fct q fvi fni qi := by
  simp only [cc1_k_eq_skeleton]; unfold cc1_k_skel
  simp only [k1_part1_eq_skeleton]; unfold k1_part1_skel
  unfold tilePre
  iintro ⟨Hmw, Hct0, Hct1, Hct2, Hvi, Hni, Hs0, Hs1, Hs2, Hs3, Hs4, Hg0, Hg1, Hw0, Hw1, Hsu, Hc0, Hc1, Hc2, Heu, Huv, HO⟩
  have hin_u := hin_u_of d L fni hni
  have hin_v := hin_v_of d L fvi hvi f0
  sl_exec
  sl_rw [bind_assoc]
  sl_for (inv d L O W fct q (fetched d L fvi f0))
    $$ [Hmw Hct2 Hg1 HO Hg0 Hs2 Hs0 Hct1 Hw0 Hs3 Hw1 Heu]
  case region =>
    intro k acc
    rcases Nat.eq_zero_or_pos k.val with h0 | hpos
    · rw [h0]
      exact trip0 d L O W fct q _ hO k h0 hin_v
    · obtain ⟨j, hj⟩ := Nat.exists_eq_succ_of_ne_zero (Nat.pos_iff_ne_zero.mp hpos)
      have hk12 : (k : ℕ) < 12 := lt_of_lt_of_le k.isLt k1_t1_abs.2.1
      rw [hj]
      by_cases h11 : j + 1 < 11
      · have e1 : inv d L O W fct q (fetched d L fvi f0) (j + 1) acc
            = invMid d L O W fct q _ j (by omega) := dif_pos (by omega)
        have e2 : inv d L O W fct q (fetched d L fvi f0) (j + 1 + 1)
            = fun _ => invMid d L O W fct q _ (j + 1) (by omega) := funext fun _ => dif_pos (by omega)
        rw [e1, e2]
        exact tripMid d L O W fct q _ hO k j hj h11 hin_v
      · have hj10 : j = 10 := by omega
        subst hj10
        have e2 : inv d L O W fct q (fetched d L fvi f0) (10 + 1 + 1)
            = fun _ => invEnd d L O W fct q _ := rfl
        rw [e2]
        exact tripLast d L O W fct q _ hO k hj hin_v
  · rw [inv_zero]
    unfold inv0 keep
    isplitl [Hmw Hct2 Hg1 HO]
    · isplitl [Hmw]; · iexact Hmw
      isplitl [Hct2]; · iexact Hct2
      isplitl [Hg1]; · iexact Hg1
      iexists _; isplitr
      swap; · iexact HO
      ipureintro; exact mem_ins (mem_ins (fun p hp => Or.inl hp))
    iexists _; iexists _; iexists _
    isplitl [Hg0 Hs2 Hs0 Hct1]
    · iexists _; iexists _
      unfold gath0
      isplitl [Hg0]; · iexact Hg0
      isplitl [Hs2]; · iexact Hs2
      isplitl [Hs0]; · iexact Hs0
      iexact Hct1
    isplitl [Hw0]; · iexact Hw0
    isplitl [Hs3]; · iexact Hs3
    isplitl [Hw1]; · iexact Hw1
    iexact Heu
  iintro %acc HI
  ihave HI' := (Entails.of_eq (inv_end d L O W fct q (fetched d L fvi f0) acc)) $$ HI
  unfold invEnd keep
  icases HI' with ⟨⟨Hmw, Hct2, Hg1, %W', %hW', HO⟩, %g2, %g3, %fe0, %fe, Hg0, Hct1, Hs0, HW0, HW1, Heu⟩
  unfold wout0 wout1
  icases HW0 with ⟨Hw0, Hs2⟩
  icases HW1 with ⟨Hw1, Hs3⟩
  sl_exec
  sl_step
  unfold tilePost
  isplitl [Hct0]; · iexact Hct0
  isplitl [Hct1]; · iexact Hct1
  isplitl [Hct2]; · iexact Hct2
  isplitl [Hvi]; · iexact Hvi
  isplitl [Hni]; · iexact Hni
  isplitl [Hs0]; · iexists _; iexact Hs0
  isplitl [Hs1]; · iexists _; iexact Hs1
  isplitl [Hs2]; · iexists _; iexact Hs2
  isplitl [Hs3]; · iexists _; iexact Hs3
  isplitl [Hs4]; · iexists _; iexact Hs4
  isplitl [Hg0]; · iexact Hg0
  isplitl [Hg1]; · iexact Hg1
  isplitl [Hw0]; · iexact Hw0
  isplitl [Hw1]; · iexact Hw1
  isplitl [Hsu]; · iexact Hsu
  isplitl [Hc0]; · iexact Hc0
  isplitl [Hc1]; · iexact Hc1
  isplitl [Hc2]; · iexact Hc2
  isplitl [Hw0_dst Heu]
  · iexists _
    iapply (pointsTo_join_subset (even11_sub L))
    isplitl [Hw0_dst]; · iexact Hw0_dst
    iexact Heu
  isplitl [Huv]; · iexists _; iexact Huv
  iexists _; isplitr
  swap; · iexact HO
  ipureintro
  exact mem_ins (mem_ins (mem_ins (mem_ins (mem_ins (mem_ins hW')))))

end Cert.Proof.KW

end
-- ==== Proof.WScObl.lean ====
/-
  The gather kernel's task as the launch hands it over: from the tile's operands (a read share of the table, its slices of the
  two index lists with every entry a row of the table, its rows of the two results) and the vector subcore's scoped storage
  (among it the kernel's five scratch buffers and eight DMA semaphores) to the same, by the task's run (ScTile).
-/
import proofs.«217981_g19061064860210_cont_8to1_1320_37_alg».proof.Proof.WScTile

noncomputable section

namespace Cert.Proof.KW

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "ctW" => (Memref.whole Cert.Kernel.main_v9_scv : Memref Cert.Kernel.sig Kind.scVector Space.hbm Cert.Kernel.S100000x128 EltTy.f32)
local notation "viW" => (Memref.whole Cert.Kernel.main_v13_scv : Memref Cert.Kernel.sig Kind.scVector Space.hbm Cert.Kernel.S102400 EltTy.i32)
local notation "niW" => (Memref.whole Cert.Kernel.main_v14_scv : Memref Cert.Kernel.sig Kind.scVector Space.hbm Cert.Kernel.S2048 EltTy.i32)
local notation "euW" => (Memref.whole Cert.Kernel.main_v18_0_scv : Memref Cert.Kernel.sig Kind.scVector Space.hbm Cert.Kernel.S102400x128 EltTy.f32)
local notation "uvW" => (Memref.whole Cert.Kernel.main_v18_1_scv : Memref Cert.Kernel.sig Kind.scVector Space.hbm Cert.Kernel.S2048x128 EltTy.f32)
local notation "s0W" => (Memref.whole Cert.Kernel.cc1_scratch0 : Memref Cert.Kernel.sig Kind.scVector Space.vmem Cert.Kernel.S3200 EltTy.i32)
local notation "s1W" => (Memref.whole Cert.Kernel.cc1_scratch1 : Memref Cert.Kernel.sig Kind.scVector Space.vmem Cert.Kernel.S64 EltTy.i32)
local notation "s2W" => (Memref.whole Cert.Kernel.cc1_scratch2 : Memref Cert.Kernel.sig Kind.scVector Space.vmem Cert.Kernel.S128x128 EltTy.f32)
local notation "s3W" => (Memref.whole Cert.Kernel.cc1_scratch3 : Memref Cert.Kernel.sig Kind.scVector Space.vmem Cert.Kernel.S128x128 EltTy.f32)
local notation "s4W" => (Memref.whole Cert.Kernel.cc1_scratch4 : Memref Cert.Kernel.sig Kind.scVector Space.vmem Cert.Kernel.S64x128 EltTy.f32)

variable [FloatOps F]
variable (d : Dev nD) (L : grid1.Coords)

/-! ## The kernel's semaphores and scratch among the vector subcore's own -/

/-- The eight DMA semaphores of the first gather call, in the body's order. -/
def semOf : Fin 8 → DmaSem sig
  | 0 => cc1_scratch5.sem | 1 => cc1_scratch6.sem | 2 => cc1_scratch7.sem | 3 => cc1_scratch8.sem
  | 4 => cc1_scratch9.sem | 5 => cc1_scoped0.sem | 6 => cc1_scoped1.sem | 7 => cc1_scoped2.sem
theorem semOf_inj : Function.Injective semOf := by decide
theorem semOf_scoped : ∀ n : Fin 8, (SemLoc.dma (semOf n) : SemLoc sig).isScoped .scVector = true := by decide

/-- The five scratch buffers of the first gather call. -/
def refOf : Fin 5 → Ref sig .scVector
  | 0 => cc1_scratch0 | 1 => cc1_scratch1 | 2 => cc1_scratch2 | 3 => cc1_scratch3 | 4 => cc1_scratch4
theorem refOf_inj : Function.Injective refOf := by decide

def semEmb (thr : Thread nD τ) : Fin 8 ↪ GSem nD τ sig :=
  ⟨fun n => (thr, SemLoc.dma (semOf n)), fun a b e => semOf_inj (SemLoc.dma.inj (Prod.mk.inj e).2)⟩

def refEmb (c : Fin τ.nSC) (i : Fin τ.nSub) : Fin 5 ↪ DevRef τ sig :=
  ⟨fun n => (Proc.scVector c i).devRef (refOf n), fun a b e => refOf_inj (Proc.devRef_injective _ e)⟩

theorem semEmb_sub : Finset.univ.map (semEmb (thr d L)) ⊆ ownCells (sig := sig) (thr d L) := by
  intro g hg
  obtain ⟨n, -, rfl⟩ := Finset.mem_map.mp hg
  exact mem_ownCells.mpr ⟨rfl, semOf_scoped n⟩

theorem refEmb_sub : Finset.univ.map (refEmb (cV L) (jV L)) ⊆ ownRefs (τ := τ) (sig := sig) (Proc.scVector (cV L) (jV L)) := by
  intro b hb
  obtain ⟨n, -, rfl⟩ := Finset.mem_map.mp hb
  fin_cases n <;> exact SparseCore.Cfg.mem_ownRefs_of_owner rfl

omit [FloatOps F] in
/-- The subcore's scoped semaphores at zero: the kernel's eight, and the others. -/
theorem ownSems0_V8 :
    (ownSems0 (thr d L) : sProp 𝕄)
      = iprop((semVal (thr d L, SemLoc.dma cc1_scratch5.sem) 0 ∗ semVal (thr d L, SemLoc.dma cc1_scratch6.sem) 0
          ∗ semVal (thr d L, SemLoc.dma cc1_scratch7.sem) 0 ∗ semVal (thr d L, SemLoc.dma cc1_scratch8.sem) 0
          ∗ semVal (thr d L, SemLoc.dma cc1_scratch9.sem) 0 ∗ semVal (thr d L, SemLoc.dma cc1_scoped0.sem) 0
          ∗ semVal (thr d L, SemLoc.dma cc1_scoped1.sem) 0 ∗ semVal (thr d L, SemLoc.dma cc1_scoped2.sem) 0)
          ∗ bigSep (ownCells (thr d L) \ Finset.univ.map (semEmb (thr d L))) fun g => semVal g 0) := by
  unfold SparseCore.Cfg.ownSems0
  rw [SparseCore.bigSep_sdiff_split' (semEmb_sub d L), BI.bigSep_map,
    BI.bigSep_univ_eq_bigSepL [(0 : Fin 8), 1, 2, 3, 4, 5, 6, 7] (by decide) (by decide)]
  rfl

omit [FloatOps F] in
/-- The subcore's own buffers: the kernel's five scratch buffers at some contents, and the others. -/
theorem ownBufs_V5 :
    (ownBufs (thr d L) : sProp 𝕄)
      = iprop(((∃ f, (s0W).view.loc (thr d L) ↦{fullShare} f) ∗ (∃ f, (s1W).view.loc (thr d L) ↦{fullShare} f)
          ∗ (∃ f, (s2W).view.loc (thr d L) ↦{fullShare} f) ∗ (∃ f, (s3W).view.loc (thr d L) ↦{fullShare} f)
          ∗ (∃ f, (s4W).view.loc (thr d L) ↦{fullShare} f))
          ∗ bigSep (ownRefs (τ := τ) (Proc.scVector (cV L) (jV L)) \ Finset.univ.map (refEmb (cV L) (jV L)))
              fun b => iprop(∃ f, ((d, b) : Loc nD τ sig) ↦{fullShare} f)) := by
  unfold SparseCore.Cfg.ownBufs
  rw [SparseCore.bigSep_sdiff_split' (refEmb_sub L), BI.bigSep_map,
    BI.bigSep_univ_eq_bigSepL [(0 : Fin 5), 1, 2, 3, 4] (by decide) (by decide)]
  rfl

/-! ## The task from the launch's hand -/

omit [FloatOps F] in
/-- Three tokens conjoined one by one. -/
theorem bigSep_three (Φ : Fin 3 → sProp 𝕄) : bigSep Finset.univ Φ = iprop(Φ 0 ∗ Φ 1 ∗ Φ 2) :=
  BI.bigSep_univ_eq_bigSepL [(0 : Fin 3), 1, 2] (by decide) (by decide) Φ

omit [FloatOps F] in
/-- Points-to assertions can be stored in a handshake's payload, whatever the location. -/
theorem pts_storable (ℓ : Loc nD τ sig) (I : Finset (Idx ℓ)) (q : PosShare TreeShare) (f : Buf (Elt F) ℓ) :
    BI.Storable (upEmb : UEmb _ 𝕄) (ℓ ↦[I]{q} f : sProp 𝕄) := inferInstance

/-- The table through a read share, as a tile addresses it. -/
def ctPts (q : PosShare TreeShare) (fct : Buf (Elt F) ((SparseCore.T (τ := τ) d).loc main_v9)) : sProp 𝕄 :=
  (ctW).view.loc (thr d L) ↦{q} fct
/-- The flat item-index list through a read share (the tile reads its own slice of it). -/
def viPts (q : PosShare TreeShare) (fvi : Buf (Elt F) ((SparseCore.T (τ := τ) d).loc main_v13)) : sProp 𝕄 :=
  (viW).view.loc (thr d L) ↦{q} fvi
/-- The user-index list through a read share. -/
def niPts (q : PosShare TreeShare) (fni : Buf (Elt F) ((SparseCore.T (τ := τ) d).loc main_v14)) : sProp 𝕄 :=
  (niW).view.loc (thr d L) ↦{q} fni
/-- The tile's rows of the gathered-rows result. -/
def euPts (f : Buf (Elt F) ((SparseCore.T (τ := τ) d).loc main_v18_0)) : sProp 𝕄 :=
  (euW).view.loc (thr d L) ↦[(euW).view.setOn (tileRect L).set]{fullShare} f
/-- The tile's rows of the user-rows result. -/
def uvPts (f : Buf (Elt F) ((SparseCore.T (τ := τ) d).loc main_v18_1)) : sProp 𝕄 :=
  (uvW).view.loc (thr d L) ↦[(uvW).view.setOn (uvRect L).set]{fullShare} f

omit [FloatOps F] in
instance ctPts_storable (q : PosShare TreeShare) (fct : Buf (Elt F) ((SparseCore.T (τ := τ) d).loc main_v9)) :
    BI.Storable (upEmb : UEmb _ 𝕄) (ctPts d L q fct) := by unfold ctPts; exact pts_storable _ _ _ _
omit [FloatOps F] in
instance viPts_storable (q : PosShare TreeShare) (fvi : Buf (Elt F) ((SparseCore.T (τ := τ) d).loc main_v13)) :
    BI.Storable (upEmb : UEmb _ 𝕄) (viPts d L q fvi) := by unfold viPts; exact pts_storable _ _ _ _
omit [FloatOps F] in
instance niPts_storable (q : PosShare TreeShare) (fni : Buf (Elt F) ((SparseCore.T (τ := τ) d).loc main_v14)) :
    BI.Storable (upEmb : UEmb _ 𝕄) (niPts d L q fni) := by unfold niPts; exact pts_storable _ _ _ _
omit [FloatOps F] in
instance euPts_storable (f : Buf (Elt F) ((SparseCore.T (τ := τ) d).loc main_v18_0)) :
    BI.Storable (upEmb : UEmb _ 𝕄) (euPts d L f) := by unfold euPts; exact pts_storable _ _ _ _
omit [FloatOps F] in
instance uvPts_storable (f : Buf (Elt F) ((SparseCore.T (τ := τ) d).loc main_v18_1)) :
    BI.Storable (upEmb : UEmb _ 𝕄) (uvPts d L f) := by unfold uvPts; exact pts_storable _ _ _ _

/-- What the launch hands tile `L` for the first gather call, and what the tile hands back: a read share of the table and of
    each index list (every entry a row of the table), its rows of the two results at some contents. -/
def goRes (qT : PosShare TreeShare) : sProp 𝕄 :=
  iprop(∃ (fct : Buf (Elt F) ((SparseCore.T (τ := τ) d).loc main_v9)) (fvi : Buf (Elt F) ((SparseCore.T (τ := τ) d).loc main_v13))
      (fni : Buf (Elt F) ((SparseCore.T (τ := τ) d).loc main_v14)),
      ⌜∀ j, (fvi j).toNat < 100000⌝ ∗ ⌜∀ j, (fni j).toNat < 100000⌝
      ∗ ctPts d L qT fct ∗ viPts d L qT fvi ∗ niPts d L qT fni ∗ (∃ f, euPts d L f) ∗ (∃ f, uvPts d L f))

set_option synthInstance.maxHeartbeats 400000 in
omit [FloatOps F] in
instance goRes_storable (qT : PosShare TreeShare) : BI.Storable (upEmb : UEmb _ 𝕄) (goRes (F := F) d L qT) := by
  unfold goRes; infer_instance

set_option maxHeartbeats 1000000 in
/-- The task of tile `L`, from the launch's hand to the launch's hand. -/
theorem tile_task0 (hF : (K (F := F)).Facts) (O : CellTallies nD τ sig (HIx 2)) (W : Waits sig (HIx 2)) (hO : ∀ g, O g none = 0)
    (qT : PosShare TreeShare) :
    iprop(levAts (K (F := F)).L (K (F := F)).lev ∗ emp ∗ goRes d L qT ∗ scopedBufs (thr d L) ∗ scopedSems0 (thr d L) ∗ owes (thr d L) O W)
      ⊢ wp frame (wpE (defs₀ (F := F)) 𝒱₀ (thr d L) none) Set.univ
          (cc1_k L ctW (Memref.isWhole_whole _) viW (Memref.isWhole_whole _) niW (Memref.isWhole_whole _)
            euW (Memref.isWhole_whole _) uvW (Memref.isWhole_whole _)
            s0W (Memref.isWhole_whole _) s1W (Memref.isWhole_whole _) s2W (Memref.isWhole_whole _)
            s3W (Memref.isWhole_whole _) s4W (Memref.isWhole_whole _)
            cc1_scratch5 cc1_scratch6 cc1_scratch7 cc1_scratch8 cc1_scratch9 cc1_scoped0 cc1_scoped1 cc1_scoped2)
          fun _ => iprop(goRes d L qT ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V8, ownBufs_V5]
  unfold goRes ctPts viPts niPts euPts uvPts
  iintro ⟨#Hlv, -, ⟨%fct, %fvi, %fni, %hvi, %hni, Hct, Hvi, Hni, ⟨%feu, Heu⟩, ⟨%fuv, Huv⟩⟩,
    ⟨⟨⟨%f0, Hs0⟩, ⟨%f1, Hs1⟩, ⟨%f2, Hs2⟩, ⟨%f3, Hs3⟩, ⟨%f4, Hs4⟩⟩, Hbufs⟩,
    ⟨⟨Hg0, Hg1, Hw0, Hw1, Hsu, Hc0, Hc1, Hc2⟩, Hsems⟩, HO⟩
  ihave Hmw := (show levAts (K (F := F)).L (K (F := F)).lev ⊢ Transfers.MayWaits (thr d L) (none : HIx 2) O from
    (K (F := F)).mayWaits_none (thr := thr d L) hO) $$ Hlv
  ihave Ht := (Transfers.pointsTo_toks qT 3).1 $$ Hct
  icases Ht with ⟨Hdrop, Htoks⟩
  ihave Ht3 := (Entails.of_eq (bigSep_three _)) $$ Htoks
  icases Ht3 with ⟨Hct0, Hct1, Hct2⟩
  ihave Hv := (pointsTo_split_subset (q := qT) (f := fvi) (S := Finset.univ) (Finset.subset_univ (viS L).view.set)).1 $$ Hvi
  icases Hv with ⟨Hvi, Hvir⟩
  ihave Hn := (pointsTo_split_subset (q := qT) (f := fni) (S := Finset.univ) (Finset.subset_univ (niS L).view.set)).1 $$ Hni
  icases Hn with ⟨Hni, Hnir⟩
  iapply (wp_wand_r frame (wpE (defs₀ (F := F)) 𝒱₀ (thr d L) none) Set.univ (Q := fun _ => tilePost d L O W fct qT fvi fni qT))
  isplitl [Hmw Hct0 Hct1 Hct2 Hvi Hni Hs0 Hs1 Hs2 Hs3 Hs4 Hg0 Hg1 Hw0 Hw1 Hsu Hc0 Hc1 Hc2 Heu Huv HO]
  · iapply (tile_run d L O W fct qT hO fvi fni qT f0 f1 f2 f3 f4 feu fuv hvi hni)
    unfold tilePre
    isplitl [Hmw]; · iexact Hmw
    isplitl [Hct0]; · iexact Hct0
    isplitl [Hct1]; · iexact Hct1
    isplitl [Hct2]; · iexact Hct2
    isplitl [Hvi]; · iexact Hvi
    isplitl [Hni]; · iexact Hni
    isplitl [Hs0]; · iexact Hs0
    isplitl [Hs1]; · iexact Hs1
    isplitl [Hs2]; · iexact Hs2
    isplitl [Hs3]; · iexact Hs3
    isplitl [Hs4]; · iexact Hs4
    isplitl [Hg0]; · iexact Hg0
    isplitl [Hg1]; · iexact Hg1
    isplitl [Hw0]; · iexact Hw0
    isplitl [Hw1]; · iexact Hw1
    isplitl [Hsu]; · iexact Hsu
    isplitl [Hc0]; · iexact Hc0
    isplitl [Hc1]; · iexact Hc1
    isplitl [Hc2]; · iexact Hc2
    isplitl [Heu]; · iexact Heu
    isplitl [Huv]; · iexact Huv
    iexact HO
  iintro %a Hpost
  unfold tilePost
  icases Hpost with ⟨Hct0, Hct1, Hct2, Hvi, Hni, Hs0, Hs1, Hs2, Hs3, Hs4, Hg0, Hg1, Hw0, Hw1, Hsu, Hc0, Hc1, Hc2, Heu, Huv, HOW⟩
  ihave Htoks := (Entails.of_eq (bigSep_three
      (fun i : Fin 3 => ((ctW).view.loc (thr d L) ↦{Transfers.shareTok qT 3 i} fct : sProp 𝕄))).symm) $$ [Hct0 Hct1 Hct2]
  · isplitl [Hct0]; · iexact Hct0
    isplitl [Hct1]; · iexact Hct1
    iexact Hct2
  ihave Hct := (Transfers.pointsTo_toks qT 3).2 $$ [Hdrop Htoks]
  · isplitl [Hdrop]; · iexact Hdrop
    iexact Htoks
  ihave Hvi := (pointsTo_split_subset (q := qT) (f := fvi) (S := Finset.univ) (Finset.subset_univ (viS L).view.set)).2 $$ [Hvi Hvir]
  · isplitl [Hvi]; · iexact Hvi
    iexact Hvir
  ihave Hni := (pointsTo_split_subset (q := qT) (f := fni) (S := Finset.univ) (Finset.subset_univ (niS L).view.set)).2 $$ [Hni Hnir]
  · isplitl [Hni]; · iexact Hni
    iexact Hnir
  isplitl [Hct Hvi Hni Heu Huv]
  · iexists fct; iexists fvi; iexists fni
    isplitr; · ipureintro; exact hvi
    isplitr; · ipureintro; exact hni
    isplitl [Hct]; · iexact Hct
    isplitl [Hvi]; · iexact Hvi
    isplitl [Hni]; · iexact Hni
    isplitl [Heu]; · iexact Heu
    iexact Huv
  isplitl [Hs0 Hs1 Hs2 Hs3 Hs4 Hbufs]
  · isplitl [Hs0 Hs1 Hs2 Hs3 Hs4]
    · isplitl [Hs0]; · iexact Hs0
      isplitl [Hs1]; · iexact Hs1
      isplitl [Hs2]; · iexact Hs2
      isplitl [Hs3]; · iexact Hs3
      iexact Hs4
    iexact Hbufs
  isplitl [Hg0 Hg1 Hw0 Hw1 Hsu Hc0 Hc1 Hc2 Hsems]
  · isplitl [Hg0 Hg1 Hw0 Hw1 Hsu Hc0 Hc1 Hc2]
    · isplitl [Hg0]; · iexact Hg0
      isplitl [Hg1]; · iexact Hg1
      isplitl [Hw0]; · iexact Hw0
      isplitl [Hw1]; · iexact Hw1
      isplitl [Hsu]; · iexact Hsu
      isplitl [Hc0]; · iexact Hc0
      isplitl [Hc1]; · iexact Hc1
      iexact Hc2
    iexact Hsems
  iexact HOW

end Cert.Proof.KW

end
-- ==== Proof.WSc3Inv.lean ====
/-
  The gather kernel on the SparseCore, second call: what one vector subcore (tile) holds of each array, and the invariant of
  its double-buffered loop. Tile `(c, s)` is worker `w = 2 s + c`; it owns entries `[3200 w, 3200 w + 3200)` of the flat item-index
  list and the same rows of the gathered-rows result, and entries / rows `[64 w, 64 w + 64)` of the user-index list and of
  the user-rows result. Its 3200 rows are 25 chunks of 128; chunk `2k` goes through the first row buffer and chunk `2k + 1`
  through the second, each gathered from the table by an indexed copy on a semaphore of its own and copied out to the result
  on another. Before trip `k` of the loop the gather of chunk `2k` is in flight and, for `k > 0`, so is the copy-out of chunk
  `2k - 1`; after the last trip the copy-outs of chunks 22 and 23 are.
  The invariant keeps the row buffers' and the result's contents existential (enough for the frame: termination, no fault,
  the arguments unchanged); the fetched index list stays at its fixed contents, because every later gather's offsets are read
  from it and must be known in range.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«217981_g19061064860210_cont_8to1_1320_37_alg».proof.Proof.Gen.Kernel
import proofs.«217981_g19061064860210_cont_8to1_1320_37_alg».proof.Proof.Gen.Kernel.Skeleton

noncomputable section

namespace Cert.Proof.KW3

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 3) fun p => (pcfgs (F := F) p).Adm
abbrev K : SparseCore.Cfg τ sig (ΛP (F := F)) 2 := sc (F := F)
abbrev 𝒱₀ : Variants := Variants.none
abbrev UH : Type := URounds (GSem nD τ sig) ℕ
abbrev UU : Type := UH × (UR sig nD τ × Counters)

local notation "𝕄" => MT nD τ sig (HIx 2) (Elt F) ℕ UU ℕ

local notation "ctW" => (Memref.whole Cert.Kernel.main_v9_scv : Memref Cert.Kernel.sig Kind.scVector Space.hbm Cert.Kernel.S100000x128 EltTy.f32)
local notation "viW" => (Memref.whole Cert.Kernel.main_v39_scv : Memref Cert.Kernel.sig Kind.scVector Space.hbm Cert.Kernel.S102400 EltTy.i32)
local notation "niW" => (Memref.whole Cert.Kernel.main_v40_scv : Memref Cert.Kernel.sig Kind.scVector Space.hbm Cert.Kernel.S2048 EltTy.i32)
local notation "euW" => (Memref.whole Cert.Kernel.main_v44_0_scv : Memref Cert.Kernel.sig Kind.scVector Space.hbm Cert.Kernel.S102400x128 EltTy.f32)
local notation "uvW" => (Memref.whole Cert.Kernel.main_v44_1_scv : Memref Cert.Kernel.sig Kind.scVector Space.hbm Cert.Kernel.S2048x128 EltTy.f32)
local notation "s0W" => (Memref.whole Cert.Kernel.cc3_scratch0 : Memref Cert.Kernel.sig Kind.scVector Space.vmem Cert.Kernel.S3200 EltTy.i32)
local notation "s1W" => (Memref.whole Cert.Kernel.cc3_scratch1 : Memref Cert.Kernel.sig Kind.scVector Space.vmem Cert.Kernel.S64 EltTy.i32)
local notation "s2W" => (Memref.whole Cert.Kernel.cc3_scratch2 : Memref Cert.Kernel.sig Kind.scVector Space.vmem Cert.Kernel.S128x128 EltTy.f32)
local notation "s3W" => (Memref.whole Cert.Kernel.cc3_scratch3 : Memref Cert.Kernel.sig Kind.scVector Space.vmem Cert.Kernel.S128x128 EltTy.f32)
local notation "s4W" => (Memref.whole Cert.Kernel.cc3_scratch4 : Memref Cert.Kernel.sig Kind.scVector Space.vmem Cert.Kernel.S64x128 EltTy.f32)

variable [FloatOps F]
variable (d : Dev nD) (L : grid3.Coords)

abbrev cV (L : grid3.Coords) : Fin τ.nSC := (L 0).castLE hcore3
abbrev jV (L : grid3.Coords) : Fin τ.nSub := (L 1).castLE hsub3
abbrev thr (d : Dev nD) (L : grid3.Coords) : Thread nD τ := V d (cV L) (jV L)

abbrev S3200x128 : Shape := ⟨2, ![3200, 128]⟩

/-! ## Geometry: the tile's share of each array -/

/-- The tile's 3200 entries of the flat item-index list, as the body slices them. -/
abbrev viS (L : grid3.Coords) : Memref sig .scVector .hbm S3200 .i32 :=
  (viW).slice (Rect.unit (s := S102400) (k3_off1 L) S3200.size (k3_off1_inb L)) (fun _ => rfl)
/-- The tile's 64 entries of the user-index list. -/
abbrev niS (L : grid3.Coords) : Memref sig .scVector .hbm S64 .i32 :=
  (niW).slice (Rect.unit (s := S2048) (k3_off2 L) S64.size (k3_off2_inb L)) (fun _ => rfl)
/-- The whole table, as each gather slices it. -/
abbrev ctS : Memref sig .scVector .hbm S100000x128 .f32 :=
  (ctW).slice (Rect.unit (s := S100000x128) ![0, 0] S100000x128.size inb_S100000x128_S100000x128_0_0) (fun _ => rfl)

theorem L0_lt (L : grid3.Coords) : (L 0).val < 2 := (L 0).isLt
theorem L1_lt (L : grid3.Coords) : (L 1).val < 16 := (L 1).isLt

theorem tileOff_inb (L : grid3.Coords) : ∀ a, (![6400 * (L 1).val + 3200 * (L 0).val, 0] : Fin 2 → Nat) a + S3200x128.size a ≤ S102400x128.size a := by
  have h0 := L0_lt L; have h1 := L1_lt L
  intro a; fin_cases a
  · show 6400 * (L 1).val + 3200 * (L 0).val + 3200 ≤ 102400; omega
  · show 0 + 128 ≤ 128; omega
/-- The tile's 3200 rows of the gathered-rows result, a rectangle of the whole array. -/
abbrev tileRect (L : grid3.Coords) : Rect S102400x128 :=
  Rect.unit (s := S102400x128) ![6400 * (L 1).val + 3200 * (L 0).val, 0] S3200x128.size (tileOff_inb L)
theorem uvOff_inb (L : grid3.Coords) : ∀ a, (![128 * (L 1).val + 64 * (L 0).val, 0] : Fin 2 → Nat) a + S64x128.size a ≤ S2048x128.size a := by
  have h0 := L0_lt L; have h1 := L1_lt L
  intro a; fin_cases a
  · show 128 * (L 1).val + 64 * (L 0).val + 64 ≤ 2048; omega
  · show 0 + 128 ≤ 128; omega
/-- The tile's 64 rows of the user-rows result. -/
abbrev uvRect (L : grid3.Coords) : Rect S2048x128 :=
  Rect.unit (s := S2048x128) ![128 * (L 1).val + 64 * (L 0).val, 0] S64x128.size (uvOff_inb L)

theorem oddOff_inb (L : grid3.Coords) (j : ℕ) (hj : j + 1 ≤ 12) : ∀ a, (![6400 * (L 1).val + 3200 * (L 0).val + 256 * j + 128, 0] : Fin 2 → Nat) a + S128x128.size a ≤ S102400x128.size a := by
  have h0 := L0_lt L; have h1 := L1_lt L
  intro a; fin_cases a
  · show 6400 * (L 1).val + 3200 * (L 0).val + 256 * j + 128 + 128 ≤ 102400; omega
  · show 0 + 128 ≤ 128; omega
/-- The window of the result that the odd chunk `2j + 1` is written to. -/
abbrev euOdd (L : grid3.Coords) (j : ℕ) (hj : j + 1 ≤ 12) : Memref sig .scVector .hbm S128x128 .f32 :=
  (euW).slice (Rect.unit (s := S102400x128) ![6400 * (L 1).val + 3200 * (L 0).val + 256 * j + 128, 0] S128x128.size (oddOff_inb L j hj)) (fun _ => rfl)
theorem evenOff_inb (L : grid3.Coords) (j : ℕ) (hj : j + 1 ≤ 12) : ∀ a, (![6400 * (L 1).val + 3200 * (L 0).val + 256 * j, 0] : Fin 2 → Nat) a + S128x128.size a ≤ S102400x128.size a := by
  have h0 := L0_lt L; have h1 := L1_lt L
  intro a; fin_cases a
  · show 6400 * (L 1).val + 3200 * (L 0).val + 256 * j + 128 ≤ 102400; omega
  · show 0 + 128 ≤ 128; omega
/-- The window of the result that the even chunk `2j` is written to. -/
abbrev euEven (L : grid3.Coords) (j : ℕ) (hj : j + 1 ≤ 12) : Memref sig .scVector .hbm S128x128 .f32 :=
  (euW).slice (Rect.unit (s := S102400x128) ![6400 * (L 1).val + 3200 * (L 0).val + 256 * j, 0] S128x128.size (evenOff_inb L j hj)) (fun _ => rfl)

/-- A 128-entry window of the fetched index list. -/
abbrev s0Win (off : Fin 1 → ℕ) (hoff : ∀ a, off a + S128.size a ≤ S3200.size a) : Memref sig .scVector .vmem S128 .i32 :=
  (s0W).slice (Rect.unit (s := S3200) off S128.size hoff) (fun _ => rfl)

/-! ## The conditions of a trip -/

theorem cond1_zero : ∀ k : Fin k3_t1_loop.trips, k.val = 0 → ¬ k3_cond1 k = 1#1 := by decide +kernel
theorem cond1_pos : ∀ k : Fin k3_t1_loop.trips, 0 < k.val → k3_cond1 k = 1#1 := by decide +kernel
theorem cond2_lt : ∀ k : Fin k3_t1_loop.trips, k.val < 11 → k3_cond2 k = 1#1 := by decide +kernel
theorem cond2_ge : ∀ k : Fin k3_t1_loop.trips, ¬ k.val < 11 → ¬ k3_cond2 k = 1#1 := by decide +kernel
theorem trips_eq : k3_t1_loop.trips = 12 := by decide +kernel

theorem le12 : 11 + 1 ≤ 12 := by decide

/-! ## The pieces of the loop's invariant -/

section Inv

variable (O : CellTallies nD τ sig (HIx 2)) (W : Waits sig (HIx 2))
  (fct : Buf (Elt F) ((SparseCore.T (τ := τ) d).loc main_v9)) (q : PosShare TreeShare)
  (c0 : Buf (Elt F) ((thr d L).loc cc3_scratch0))

/-- The gather of an even chunk into the first row buffer in flight, its list a window of the fetched indices; beside it
    what is left of the row buffer, of the index list and of the table's read token while it flies. -/
def gath0 (off : Fin 1 → ℕ) (hoff : ∀ a, off a + S128.size a ≤ S3200.size a) (g2 : Buf (Elt F) ((thr d L).loc cc3_scratch2)) : sProp 𝕄 :=
  iprop(Transfers.Flight countersEmb (thr d L) (SemLoc.dma cc3_scratch5.sem) (default : HIx 2) 524288
          iprop((((s2W).view.loc (thr d L) ↦[(s2W).view.set]{fullShare} g2)
            ∗ ((s0W).view.loc (thr d L) ↦[(s0Win off hoff).view.set]{fullShare} c0))
            ∗ ((ctW).view.loc (thr d L) ↦[(ctS).view.set]{Transfers.shareTok q 3 1} fct))
      ∗ ((s2W).view.loc (thr d L) ↦[Finset.univ \ (s2W).view.set]{fullShare} g2)
      ∗ ((s0W).view.loc (thr d L) ↦[Finset.univ \ (s0Win off hoff).view.set]{fullShare} c0)
      ∗ ((ctW).view.loc (thr d L) ↦[Finset.univ \ (ctS).view.set]{Transfers.shareTok q 3 1} fct))

/-- The copy of the second row buffer out to the odd chunk `2j + 1`'s window in flight, and what is left of the row buffer. -/
def wout1 (j : ℕ) (hj : j + 1 ≤ 12) (fe : Buf (Elt F) ((SparseCore.T (τ := τ) d).loc main_v44_0)) (g3 : Buf (Elt F) ((thr d L).loc cc3_scratch3)) : sProp 𝕄 :=
  iprop(Transfers.Flight countersEmb (thr d L) (SemLoc.dma cc3_scratch8.sem) (default : HIx 2) 524288
          iprop(((euW).view.loc (thr d L) ↦[(euOdd L j hj).view.set]{fullShare} fe)
            ∗ ((s3W).view.loc (thr d L) ↦[(s3W).view.set]{fullShare} g3))
      ∗ ((s3W).view.loc (thr d L) ↦[Finset.univ \ (s3W).view.set]{fullShare} g3))

/-- The copy of the first row buffer out to the even chunk `2j`'s window in flight, and what is left of the row buffer. -/
def wout0 (j : ℕ) (hj : j + 1 ≤ 12) (fe : Buf (Elt F) ((SparseCore.T (τ := τ) d).loc main_v44_0)) (g2 : Buf (Elt F) ((thr d L).loc cc3_scratch2)) : sProp 𝕄 :=
  iprop(Transfers.Flight countersEmb (thr d L) (SemLoc.dma cc3_scratch7.sem) (default : HIx 2) 524288
          iprop(((euW).view.loc (thr d L) ↦[(euEven L j hj).view.set]{fullShare} fe)
            ∗ ((s2W).view.loc (thr d L) ↦[(s2W).view.set]{fullShare} g2))
      ∗ ((s2W).view.loc (thr d L) ↦[Finset.univ \ (s2W).view.set]{fullShare} g2))

/-- What every trip keeps: the admissibility of its waits, the third read token of the table, the second gather's cell at
    zero, and what the tile owes, its recorded waits grown only at index `none`. -/
def keep : sProp 𝕄 :=
  iprop(Transfers.MayWaits (thr d L) (none : HIx 2) O
      ∗ ((ctW).view.loc (thr d L) ↦{Transfers.shareTok q 3 2} fct)
      ∗ semVal (thr d L, SemLoc.dma cc3_scratch6.sem) 0
      ∗ ∃ W', ⌜∀ p ∈ W', p ∈ W ∨ p.2 = none⌝ ∗ owes (thr d L) O W')

/-- Before the first trip: chunk 0's gather in flight, nothing of the result written or in flight. -/
def inv0 : sProp 𝕄 :=
  iprop(keep d L O W fct q ∗ ∃ g2 g3 fe, (∃ off hoff, gath0 d L fct q c0 off hoff g2)
      ∗ semVal (thr d L, SemLoc.dma cc3_scratch7.sem) 0
      ∗ ((s3W).view.loc (thr d L) ↦{fullShare} g3) ∗ semVal (thr d L, SemLoc.dma cc3_scratch8.sem) 0
      ∗ ((euW).view.loc (thr d L) ↦[(euW).view.setOn (tileRect L).set]{fullShare} fe))

/-- Before trip `j + 1 < 12`: the even chunk `2j + 2`'s gather and the odd chunk `2j + 1`'s copy-out in flight. -/
def invMid (j : ℕ) (hj : j + 1 < 12) : sProp 𝕄 :=
  iprop(keep d L O W fct q ∗ ∃ g2 g3 fe, (∃ off hoff, gath0 d L fct q c0 off hoff g2)
      ∗ semVal (thr d L, SemLoc.dma cc3_scratch7.sem) 0
      ∗ wout1 d L j (Nat.le_of_lt hj) fe g3
      ∗ ((euW).view.loc (thr d L) ↦[(euW).view.setOn (tileRect L).set \ (euOdd L j (Nat.le_of_lt hj)).view.set]{fullShare} fe))

/-- After the last trip: chunks 22 and 23 being copied out, no gather in flight. (The even chunk's window travels at the contents
    the result had when its copy was issued, the rest at its contents since: two functions, joined after the loop.) -/
def invEnd : sProp 𝕄 :=
  iprop(keep d L O W fct q ∗ ∃ g2 g3 fe0 fe,
      semVal (thr d L, SemLoc.dma cc3_scratch5.sem) 0 ∗ ((ctW).view.loc (thr d L) ↦{Transfers.shareTok q 3 1} fct)
      ∗ ((s0W).view.loc (thr d L) ↦{fullShare} c0)
      ∗ wout0 d L 11 le12 fe0 g2 ∗ wout1 d L 11 le12 fe g3
      ∗ ((euW).view.loc (thr d L) ↦[((euW).view.setOn (tileRect L).set \ (euEven L 11 le12).view.set) \ (euOdd L 11 le12).view.set]{fullShare} fe))

/-- The loop's invariant before trip `k`. -/
def inv (k : ℕ) (_ : PUnit) : sProp 𝕄 :=
  match k with
  | 0 => inv0 d L O W fct q c0
  | j + 1 => if hj : j + 1 < 12 then invMid d L O W fct q c0 j hj else invEnd d L O W fct q c0

end Inv

end Cert.Proof.KW3

end
-- ==== Proof.WSc3Trip.lean ====
/-
  One trip of the gather kernel's double-buffered loop, in its three shapes: the first trip (no copy-out pending), a middle
  trip, and the last trip (no further gather issued, the even chunk's copy-out left in flight). Each runs the trip's region
  from the loop's invariant before it to the invariant after it.
-/
import proofs.«217981_g19061064860210_cont_8to1_1320_37_alg».proof.Proof.WSc3Inv

noncomputable section

namespace Cert.Proof.KW3

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "ctW" => (Memref.whole Cert.Kernel.main_v9_scv : Memref Cert.Kernel.sig Kind.scVector Space.hbm Cert.Kernel.S100000x128 EltTy.f32)
local notation "viW" => (Memref.whole Cert.Kernel.main_v39_scv : Memref Cert.Kernel.sig Kind.scVector Space.hbm Cert.Kernel.S102400 EltTy.i32)
local notation "niW" => (Memref.whole Cert.Kernel.main_v40_scv : Memref Cert.Kernel.sig Kind.scVector Space.hbm Cert.Kernel.S2048 EltTy.i32)
local notation "euW" => (Memref.whole Cert.Kernel.main_v44_0_scv : Memref Cert.Kernel.sig Kind.scVector Space.hbm Cert.Kernel.S102400x128 EltTy.f32)
local notation "uvW" => (Memref.whole Cert.Kernel.main_v44_1_scv : Memref Cert.Kernel.sig Kind.scVector Space.hbm Cert.Kernel.S2048x128 EltTy.f32)
local notation "s0W" => (Memref.whole Cert.Kernel.cc3_scratch0 : Memref Cert.Kernel.sig Kind.scVector Space.vmem Cert.Kernel.S3200 EltTy.i32)
local notation "s1W" => (Memref.whole Cert.Kernel.cc3_scratch1 : Memref Cert.Kernel.sig Kind.scVector Space.vmem Cert.Kernel.S64 EltTy.i32)
local notation "s2W" => (Memref.whole Cert.Kernel.cc3_scratch2 : Memref Cert.Kernel.sig Kind.scVector Space.vmem Cert.Kernel.S128x128 EltTy.f32)
local notation "s3W" => (Memref.whole Cert.Kernel.cc3_scratch3 : Memref Cert.Kernel.sig Kind.scVector Space.vmem Cert.Kernel.S128x128 EltTy.f32)
local notation "s4W" => (Memref.whole Cert.Kernel.cc3_scratch4 : Memref Cert.Kernel.sig Kind.scVector Space.vmem Cert.Kernel.S64x128 EltTy.f32)

variable [FloatOps F]
variable (d : Dev nD) (L : grid3.Coords)

variable (O : CellTallies nD τ sig (HIx 2)) (W : Waits sig (HIx 2))
  (fct : Buf (Elt F) ((SparseCore.T (τ := τ) d).loc main_v9)) (q : PosShare TreeShare)
  (c0 : Buf (Elt F) ((thr d L).loc cc3_scratch0))

omit [FloatOps F] in
/-- A wait recorded at index `none` keeps the recorded waits within the bound. -/
theorem mem_ins {W W' : Waits sig (HIx 2)} {sm : SemLoc sig} (h : ∀ p ∈ W', p ∈ W ∨ p.2 = none) :
    ∀ p ∈ insert (sm, (default : HIx 2)) W', p ∈ W ∨ p.2 = none := by
  intro p hp
  rcases Finset.mem_insert.mp hp with hp | hp
  · exact .inr (hp ▸ rfl)
  · exact h p hp

omit [FloatOps F] in
/-- The odd chunk's window spelt by its offsets' closed form is the window spelt by any offsets equal to it. -/
theorem odd_respell (off : Fin 2 → ℕ) (hoff : ∀ a, off a + S128x128.size a ≤ S102400x128.size a)
    (j : ℕ) (hj : j + 1 ≤ 12) (e : off = ![6400 * (L 1).val + 3200 * (L 0).val + 256 * j + 128, 0])
    (fe : Buf (Elt F) ((SparseCore.T (τ := τ) d).loc main_v44_0)) (g3 : Buf (Elt F) ((thr d L).loc cc3_scratch3)) :
    (iprop((Transfers.Flight countersEmb (thr d L) (SemLoc.dma cc3_scratch8.sem) (default : HIx 2) 524288
          iprop(((euW).view.loc (thr d L) ↦[((euW).slice (Rect.unit (s := S102400x128) off S128x128.size hoff) (fun _ => rfl)).view.set]{fullShare} fe)
            ∗ ((s3W).view.loc (thr d L) ↦[(s3W).view.set]{fullShare} g3))
        ∗ ((s3W).view.loc (thr d L) ↦[Finset.univ \ (s3W).view.set]{fullShare} g3))
      ∗ ((euW).view.loc (thr d L) ↦[(euW).view.setOn (tileRect L).set \ ((euW).slice (Rect.unit (s := S102400x128) off S128x128.size hoff) (fun _ => rfl)).view.set]{fullShare} fe)) : sProp 𝕄)
    = iprop(wout1 d L j hj fe g3 ∗ ((euW).view.loc (thr d L) ↦[(euW).view.setOn (tileRect L).set \ (euOdd L j hj).view.set]{fullShare} fe)) := by
  subst e; rfl

/-- The first trip: chunk 0 lands and is copied out and waited for, chunk 2's gather is issued, chunk 1 is gathered and its
    copy-out issued. -/
theorem trip0 (hO : ∀ g, O g none = 0) (k : Fin k3_t1_loop.trips) (h0 : k.val = 0)
    (hc0 : ∀ (off : Fin 1 → ℕ) (h : ∀ a, off a + S128.size a ≤ S3200.size a) (x : S128.Idx),
      (View.read (Elt F) ((s0W).slice (Rect.unit (s := S3200) off S128.size h) (fun _ => rfl)).view c0 x).toNat < 100000) :
    inv0 d L O W fct q c0
      ⊢ wp frame (wpE (defs₀ (F := F)) 𝒱₀ (thr d L) none) Set.univ
          (k3_t1_body L ctW (Memref.isWhole_whole _) viW (Memref.isWhole_whole _) niW (Memref.isWhole_whole _)
            euW (Memref.isWhole_whole _) uvW (Memref.isWhole_whole _)
            s0W (Memref.isWhole_whole _) s1W (Memref.isWhole_whole _) s2W (Memref.isWhole_whole _)
            s3W (Memref.isWhole_whole _) s4W (Memref.isWhole_whole _)
            cc3_scratch5 cc3_scratch6 cc3_scratch7 cc3_scratch8 cc3_scratch9 cc3_scoped0 cc3_scoped1 cc3_scoped2 k ⟨⟩)
          fun _ => invMid d L O W fct q c0 0 (by decide) := by
  have h1 : ¬ k3_cond1 k = 1#1 := cond1_zero k h0
  have h2 : k3_cond2 k = 1#1 := cond2_lt k (by omega)
  have hk : (k : ℕ) < 12 := by omega
  unfold k3_t1_body
  unfold inv0 keep
  iintro ⟨⟨Hmw, Hct2, Hg1, %W', %hW', HO⟩, %g2, %g3, %fe, ⟨%off, %hoff, HG⟩, Hw0, Hs3, Hw1, Heu⟩
  unfold gath0
  icases HG with ⟨Hg0, Hs2r, Hs0r, Hct1r⟩
  sl_exec
  sl_step
  unfold invMid keep
  isplitl [Hmw Hct2 Hg1 HO]
  · isplitl [Hmw]; · iexact Hmw
    isplitl [Hct2]; · iexact Hct2
    isplitl [Hg1]; · iexact Hg1
    iexists _; isplitr
    swap; · iexact HO
    ipureintro; exact mem_ins (mem_ins (mem_ins hW'))
  iexists _; iexists _; iexists _
  isplitl [Hg0 Hs2r Hs0r Hct1r]
  · iexists _; iexists _
    unfold gath0
    isplitl [Hg0]; · iexact Hg0
    isplitl [Hs2r]; · iexact Hs2r
    isplitl [Hs0r]; · iexact Hs0r
    iexact Hct1r
  isplitl [Hw0]; · iexact Hw0
  iapply (Entails.of_eq (odd_respell d L (k3_off9 L k) (k3_off9_inb L k) 0 _ (by rw [k3_off9_eq, h0]) _ _))
  isplitl [Hw1 Hs3]
  · isplitl [Hw1]; · iexact Hw1
    iexact Hs3
  iexact Heu

/-- A middle trip `k = j + 1 < 11`: chunk `2k` lands, chunk `2k - 1`'s copy-out is waited for, chunk `2k + 1`'s gather and chunk
    `2k`'s copy-out are issued, the latter waited for, chunk `2k + 2`'s gather issued, chunk `2k + 1` lands and its copy-out is issued. -/
theorem tripMid (hO : ∀ g, O g none = 0) (k : Fin k3_t1_loop.trips) (j : ℕ) (hkj : k.val = j + 1) (hj : j + 1 < 11)
    (hc0 : ∀ (off : Fin 1 → ℕ) (h : ∀ a, off a + S128.size a ≤ S3200.size a) (x : S128.Idx),
      (View.read (Elt F) ((s0W).slice (Rect.unit (s := S3200) off S128.size h) (fun _ => rfl)).view c0 x).toNat < 100000) :
    invMid d L O W fct q c0 j (by omega)
      ⊢ wp frame (wpE (defs₀ (F := F)) 𝒱₀ (thr d L) none) Set.univ
          (k3_t1_body L ctW (Memref.isWhole_whole _) viW (Memref.isWhole_whole _) niW (Memref.isWhole_whole _)
            euW (Memref.isWhole_whole _) uvW (Memref.isWhole_whole _)
            s0W (Memref.isWhole_whole _) s1W (Memref.isWhole_whole _) s2W (Memref.isWhole_whole _)
            s3W (Memref.isWhole_whole _) s4W (Memref.isWhole_whole _)
            cc3_scratch5 cc3_scratch6 cc3_scratch7 cc3_scratch8 cc3_scratch9 cc3_scoped0 cc3_scoped1 cc3_scoped2 k ⟨⟩)
          fun _ => invMid d L O W fct q c0 (j + 1) (by omega) := by
  have h1 : k3_cond1 k = 1#1 := cond1_pos k (by omega)
  have h2 : k3_cond2 k = 1#1 := cond2_lt k (by omega)
  have hk : (k : ℕ) < 12 := by omega
  unfold k3_t1_body
  unfold invMid keep
  iintro ⟨⟨Hmw, Hct2, Hg1, %W', %hW', HO⟩, %g2, %g3, %fe, ⟨%off, %hoff, HG⟩, Hw0, HWO, Heu⟩
  unfold gath0 wout1
  icases HG with ⟨Hg0, Hs2r, Hs0r, Hct1r⟩
  icases HWO with ⟨Hw1, Hs3⟩
  sl_exec
  sl_step
  try unfold invMid keep
  isplitl [Hmw Hct2 Hg1 HO]
  · isplitl [Hmw]; · iexact Hmw
    isplitl [Hct2]; · iexact Hct2
    isplitl [Hg1]; · iexact Hg1
    iexists _; isplitr
    swap; · iexact HO
    ipureintro
    first
      | exact mem_ins (mem_ins (mem_ins (mem_ins hW')))
      | exact mem_ins (mem_ins (mem_ins hW'))
  iexists _; iexists _; iexists _
  isplitl [Hg0 Hs2r Hs0r Hct1r]
  · iexists _; iexists _
    try unfold gath0
    isplitl [Hg0]; · iexact Hg0
    isplitl [Hs2r]; · iexact Hs2r
    isplitl [Hs0r]; · iexact Hs0r
    iexact Hct1r
  isplitl [Hw0]; · iexact Hw0
  iapply (Entails.of_eq (odd_respell d L (k3_off9 L k) (k3_off9_inb L k) (j + 1) _ (by rw [k3_off9_eq, hkj]) _ _))
  isplitl [Hw1 Hs3]
  · isplitl [Hw1]; · iexact Hw1
    iexact Hs3
  iexact Heu

omit [FloatOps F] in
/-- The two windows in flight after the last trip, spelt by their offsets' closed forms. -/
theorem end_respell (off6 off9 : Fin 2 → ℕ) (h6 : ∀ a, off6 a + S128x128.size a ≤ S102400x128.size a)
    (h9 : ∀ a, off9 a + S128x128.size a ≤ S102400x128.size a)
    (e6 : off6 = ![6400 * (L 1).val + 3200 * (L 0).val + 256 * 11, 0])
    (e9 : off9 = ![6400 * (L 1).val + 3200 * (L 0).val + 256 * 11 + 128, 0])
    (fe0 fe : Buf (Elt F) ((SparseCore.T (τ := τ) d).loc main_v44_0)) (g2 : Buf (Elt F) ((thr d L).loc cc3_scratch2))
    (g3 : Buf (Elt F) ((thr d L).loc cc3_scratch3)) :
    (iprop((Transfers.Flight countersEmb (thr d L) (SemLoc.dma cc3_scratch7.sem) (default : HIx 2) 524288
          iprop(((euW).view.loc (thr d L) ↦[((euW).slice (Rect.unit (s := S102400x128) off6 S128x128.size h6) (fun _ => rfl)).view.set]{fullShare} fe0)
            ∗ ((s2W).view.loc (thr d L) ↦[(s2W).view.set]{fullShare} g2))
        ∗ ((s2W).view.loc (thr d L) ↦[Finset.univ \ (s2W).view.set]{fullShare} g2))
      ∗ (Transfers.Flight countersEmb (thr d L) (SemLoc.dma cc3_scratch8.sem) (default : HIx 2) 524288
          iprop(((euW).view.loc (thr d L) ↦[((euW).slice (Rect.unit (s := S102400x128) off9 S128x128.size h9) (fun _ => rfl)).view.set]{fullShare} fe)
            ∗ ((s3W).view.loc (thr d L) ↦[(s3W).view.set]{fullShare} g3))
        ∗ ((s3W).view.loc (thr d L) ↦[Finset.univ \ (s3W).view.set]{fullShare} g3))
      ∗ ((euW).view.loc (thr d L) ↦[((euW).view.setOn (tileRect L).set \ ((euW).slice (Rect.unit (s := S102400x128) off6 S128x128.size h6) (fun _ => rfl)).view.set)
          \ ((euW).slice (Rect.unit (s := S102400x128) off9 S128x128.size h9) (fun _ => rfl)).view.set]{fullShare} fe)) : sProp 𝕄)
    = iprop(wout0 d L 11 le12 fe0 g2 ∗ wout1 d L 11 le12 fe g3
        ∗ ((euW).view.loc (thr d L) ↦[((euW).view.setOn (tileRect L).set \ (euEven L 11 le12).view.set) \ (euOdd L 11 le12).view.set]{fullShare} fe)) := by
  subst e6; subst e9; rfl

/-- The last trip `k = 11`: chunk 22 lands, chunk 21's copy-out is waited for, chunk 23's gather and chunk 22's copy-out are
    issued, chunk 23 lands and its copy-out is issued; no further gather. -/
theorem tripLast (hO : ∀ g, O g none = 0) (k : Fin k3_t1_loop.trips) (hk11 : k.val = 11)
    (hc0 : ∀ (off : Fin 1 → ℕ) (h : ∀ a, off a + S128.size a ≤ S3200.size a) (x : S128.Idx),
      (View.read (Elt F) ((s0W).slice (Rect.unit (s := S3200) off S128.size h) (fun _ => rfl)).view c0 x).toNat < 100000) :
    invMid d L O W fct q c0 10 (by decide)
      ⊢ wp frame (wpE (defs₀ (F := F)) 𝒱₀ (thr d L) none) Set.univ
          (k3_t1_body L ctW (Memref.isWhole_whole _) viW (Memref.isWhole_whole _) niW (Memref.isWhole_whole _)
            euW (Memref.isWhole_whole _) uvW (Memref.isWhole_whole _)
            s0W (Memref.isWhole_whole _) s1W (Memref.isWhole_whole _) s2W (Memref.isWhole_whole _)
            s3W (Memref.isWhole_whole _) s4W (Memref.isWhole_whole _)
            cc3_scratch5 cc3_scratch6 cc3_scratch7 cc3_scratch8 cc3_scratch9 cc3_scoped0 cc3_scoped1 cc3_scoped2 k ⟨⟩)
          fun _ => invEnd d L O W fct q c0 := by
  have h1 : k3_cond1 k = 1#1 := cond1_pos k (by omega)
  have h2 : ¬ k3_cond2 k = 1#1 := cond2_ge k (by omega)
  have hk : (k : ℕ) < 12 := by omega
  have hkj : (k : ℕ) = 10 + 1 := hk11
  unfold k3_t1_body
  unfold invMid keep
  iintro ⟨⟨Hmw, Hct2, Hg1, %W', %hW', HO⟩, %g2, %g3, %fe, ⟨%off, %hoff, HG⟩, Hw0, HWO, Heu⟩
  unfold gath0 wout1
  icases HG with ⟨Hg0, Hs2r, Hs0r, Hct1r⟩
  icases HWO with ⟨Hw1, Hs3⟩
  sl_exec
  sl_step
  unfold invEnd
  try unfold keep
  isplitl [Hmw Hct2 Hg1 HO]
  · isplitl [Hmw]; · iexact Hmw
    isplitl [Hct2]; · iexact Hct2
    isplitl [Hg1]; · iexact Hg1
    iexists _; isplitr
    swap; · iexact HO
    ipureintro
    first
      | exact mem_ins (mem_ins (mem_ins (mem_ins hW')))
      | exact mem_ins (mem_ins (mem_ins hW'))
  iexists _; iexists _; iexists _; iexists _
  isplitl [Hg0]; · iexact Hg0
  isplitl [Hct1r]; · iexact Hct1r
  isplitl [Hs0r]; · iexact Hs0r
  iapply (Entails.of_eq (end_respell d L (k3_off6 L k) (k3_off9 L k) (k3_off6_inb L k) (k3_off9_inb L k)
    (by rw [k3_off6_eq, hk11]) (by rw [k3_off9_eq, hk11]) _ _ _ _))
  isplitl [Hw0 Hs2r]
  · isplitl [Hw0]; · iexact Hw0
    iexact Hs2r
  isplitl [Hw1 Hs3]
  · isplitl [Hw1]; · iexact Hw1
    iexact Hs3
  iexact Heu

end Cert.Proof.KW3

end
-- ==== Proof.WSc3Tile.lean ====
/-
  The gather kernel's task on one vector subcore, run whole: the two index lists fetched, the user rows' gather and chunk 0's
  gather issued, the loop by its invariant (ScInv, ScTrip), then chunk 24 and the user rows copied out and every transfer waited
  for. From what the tile is handed — read tokens of the table, its slices of the two index lists, its rows of the two
  results, its scratch and its semaphores at zero — back to the same, the results' rows at some contents.
-/
import proofs.«217981_g19061064860210_cont_8to1_1320_37_alg».proof.Proof.WSc3Trip

noncomputable section

namespace Cert.Proof.KW3

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "ctW" => (Memref.whole Cert.Kernel.main_v9_scv : Memref Cert.Kernel.sig Kind.scVector Space.hbm Cert.Kernel.S100000x128 EltTy.f32)
local notation "viW" => (Memref.whole Cert.Kernel.main_v39_scv : Memref Cert.Kernel.sig Kind.scVector Space.hbm Cert.Kernel.S102400 EltTy.i32)
local notation "niW" => (Memref.whole Cert.Kernel.main_v40_scv : Memref Cert.Kernel.sig Kind.scVector Space.hbm Cert.Kernel.S2048 EltTy.i32)
local notation "euW" => (Memref.whole Cert.Kernel.main_v44_0_scv : Memref Cert.Kernel.sig Kind.scVector Space.hbm Cert.Kernel.S102400x128 EltTy.f32)
local notation "uvW" => (Memref.whole Cert.Kernel.main_v44_1_scv : Memref Cert.Kernel.sig Kind.scVector Space.hbm Cert.Kernel.S2048x128 EltTy.f32)
local notation "s0W" => (Memref.whole Cert.Kernel.cc3_scratch0 : Memref Cert.Kernel.sig Kind.scVector Space.vmem Cert.Kernel.S3200 EltTy.i32)
local notation "s1W" => (Memref.whole Cert.Kernel.cc3_scratch1 : Memref Cert.Kernel.sig Kind.scVector Space.vmem Cert.Kernel.S64 EltTy.i32)
local notation "s2W" => (Memref.whole Cert.Kernel.cc3_scratch2 : Memref Cert.Kernel.sig Kind.scVector Space.vmem Cert.Kernel.S128x128 EltTy.f32)
local notation "s3W" => (Memref.whole Cert.Kernel.cc3_scratch3 : Memref Cert.Kernel.sig Kind.scVector Space.vmem Cert.Kernel.S128x128 EltTy.f32)
local notation "s4W" => (Memref.whole Cert.Kernel.cc3_scratch4 : Memref Cert.Kernel.sig Kind.scVector Space.vmem Cert.Kernel.S64x128 EltTy.f32)

variable [FloatOps F]
variable (d : Dev nD) (L : grid3.Coords)

variable (O : CellTallies nD τ sig (HIx 2)) (W : Waits sig (HIx 2))
  (fct : Buf (Elt F) ((SparseCore.T (τ := τ) d).loc main_v9)) (q : PosShare TreeShare)

omit [FloatOps F] in
theorem inv_zero (c0 : Buf (Elt F) ((thr d L).loc cc3_scratch0)) (acc : PUnit) :
    inv d L O W fct q c0 0 acc = inv0 d L O W fct q c0 := rfl
omit [FloatOps F] in
theorem inv_end (c0 : Buf (Elt F) ((thr d L).loc cc3_scratch0)) (acc : PUnit) :
    inv d L O W fct q c0 (Scf.trips k3_t1_loop.lb k3_t1_loop.ub k3_t1_loop.st) acc = invEnd d L O W fct q c0 := by
  rw [show Scf.trips k3_t1_loop.lb k3_t1_loop.ub k3_t1_loop.st = 12 from trips_eq]; rfl

/-- What the first copy leaves in the item-index scratch: the tile's slice of the flat index list. -/
abbrev fetched (fvi : Buf (Elt F) ((SparseCore.T (τ := τ) d).loc main_v39)) (f0 : Buf (Elt F) ((thr d L).loc cc3_scratch0)) :
    Buf (Elt F) ((thr d L).loc cc3_scratch0) :=
  View.write (Elt F) (s0W).view f0 (ReadAs.same.apply (View.read (Elt F) (viS L).view fvi)) Finset.univ

omit [FloatOps F] in
/-- What the fetch leaves in the item-index scratch: the tile's slice of the flat list, every entry a row of the table. -/
theorem c0_lt (fvi : Buf (Elt F) ((SparseCore.T (τ := τ) d).loc main_v39)) (hvi : ∀ j, (fvi j).toNat < 100000)
    (f0 : Buf (Elt F) ((thr d L).loc cc3_scratch0)) (i : S3200.Idx) :
    (View.write (Elt F) (s0W).view f0 (ReadAs.same.apply (View.read (Elt F) (viS L).view fvi)) Finset.univ i).toNat < 100000 := by
  have e : View.write (Elt F) (s0W).view f0 (ReadAs.same.apply (View.read (Elt F) (viS L).view fvi)) Finset.univ
      = ReadAs.same.apply (View.read (Elt F) (viS L).view fvi) := View.write_whole_univ _ _ _
  rw [e]
  show (View.read (Elt F) (viS L).view fvi i).toNat < 100000
  rw [show View.read (Elt F) (viS L).view fvi i = fvi ((viS L).view.emb i) from (View.read_apply _ _).trans (cast_eq _ _)]
  exact hvi _

omit [FloatOps F] in
/-- Every 128-entry window of the fetched item indices names rows of the table. -/
theorem hin_v_of (fvi : Buf (Elt F) ((SparseCore.T (τ := τ) d).loc main_v39)) (hvi : ∀ j, (fvi j).toNat < 100000)
    (f0 : Buf (Elt F) ((thr d L).loc cc3_scratch0)) :
    ∀ (off : Fin 1 → Nat) (h : ∀ a, off a + S128.size a ≤ S3200.size a) (x : S128.Idx),
      (View.read (Elt F) ((s0W).slice (Rect.unit (s := S3200) off S128.size h) (fun _ => rfl)).view (View.write (Elt F) (s0W).view f0
        (ReadAs.same.apply (View.read (Elt F) (viS L).view fvi)) Finset.univ) x).toNat < 100000 := by
  intro off h x
  rw [show View.read (Elt F) ((s0W).slice (Rect.unit (s := S3200) off S128.size h) (fun _ => rfl)).view (View.write (Elt F) (s0W).view f0
        (ReadAs.same.apply (View.read (Elt F) (viS L).view fvi)) Finset.univ) x
      = View.write (Elt F) (s0W).view f0 (ReadAs.same.apply (View.read (Elt F) (viS L).view fvi)) Finset.univ
          (((s0W).slice (Rect.unit (s := S3200) off S128.size h) (fun _ => rfl)).view.emb x) from (View.read_apply _ _).trans (cast_eq _ _)]
  exact c0_lt d L fvi hvi f0 _

omit [FloatOps F] in
/-- The fetched user indices name rows of the table. -/
theorem hin_u_of (fni : Buf (Elt F) ((SparseCore.T (τ := τ) d).loc main_v40)) (hni : ∀ j, (fni j).toNat < 100000) :
    ∀ (g : Buf (Elt F) ((thr d L).loc cc3_scratch1)) (x : S64.Idx),
      (View.read (Elt F) (s1W).view (View.write (Elt F) (s1W).view g
        (ReadAs.same.apply (View.read (Elt F) (niS L).view fni)) Finset.univ) x).toNat < 100000 := by
  intro g x
  have e : View.write (Elt F) (s1W).view g (ReadAs.same.apply (View.read (Elt F) (niS L).view fni)) Finset.univ
      = ReadAs.same.apply (View.read (Elt F) (niS L).view fni) := View.write_whole_univ _ _ _
  rw [e]
  rw [show View.read (Elt F) (s1W).view (ReadAs.same.apply (View.read (Elt F) (niS L).view fni)) x
      = ReadAs.same.apply (View.read (Elt F) (niS L).view fni) ((s1W).view.emb x) from (View.read_apply _ _).trans (cast_eq _ _)]
  show (View.read (Elt F) (niS L).view fni ((s1W).view.emb x)).toNat < 100000
  rw [show View.read (Elt F) (niS L).view fni ((s1W).view.emb x) = fni ((niS L).view.emb ((s1W).view.emb x)) from (View.read_apply _ _).trans (cast_eq _ _)]
  exact hni _

omit [FloatOps F] in
/-- The last even chunk's window lies in the tile's rows. -/
theorem even11_sub : (euEven L 11 le12).view.set ⊆ (euW).view.setOn (tileRect L).set := by
  refine Memref.set_slice_subset_setOn_of_within (euW) (tileRect L) _ (fun _ => rfl) (LoadRect.within_of_withinP ?_)
  have h0 := L0_lt L; have h1 := L1_lt L
  intro a; fin_cases a
  · refine ⟨?_, ?_, Or.inl rfl⟩
    · show 6400 * (L 1).val + 3200 * (L 0).val ≤ 6400 * (L 1).val + 3200 * (L 0).val + 256 * 11; omega
    · show 6400 * (L 1).val + 3200 * (L 0).val + 256 * 11 + 1 * (128 - 1) < 6400 * (L 1).val + 3200 * (L 0).val + 1 * 3200; omega
  · refine ⟨?_, ?_, Or.inl rfl⟩
    · show 0 ≤ 0; omega
    · show 0 + 1 * (128 - 1) < 0 + 1 * 128; omega

/-- What the tile holds when its task starts. -/
def tilePre (fvi : Buf (Elt F) ((SparseCore.T (τ := τ) d).loc main_v39)) (fni : Buf (Elt F) ((SparseCore.T (τ := τ) d).loc main_v40))
    (qi : PosShare TreeShare)
    (f0 : Buf (Elt F) ((thr d L).loc cc3_scratch0)) (f1 : Buf (Elt F) ((thr d L).loc cc3_scratch1))
    (f2 : Buf (Elt F) ((thr d L).loc cc3_scratch2)) (f3 : Buf (Elt F) ((thr d L).loc cc3_scratch3))
    (f4 : Buf (Elt F) ((thr d L).loc cc3_scratch4))
    (feu : Buf (Elt F) ((SparseCore.T (τ := τ) d).loc main_v44_0)) (fuv : Buf (Elt F) ((SparseCore.T (τ := τ) d).loc main_v44_1)) : sProp 𝕄 :=
  iprop(Transfers.MayWaits (thr d L) (none : HIx 2) O
      ∗ ((ctW).view.loc (thr d L) ↦{Transfers.shareTok q 3 0} fct)
      ∗ ((ctW).view.loc (thr d L) ↦{Transfers.shareTok q 3 1} fct)
      ∗ ((ctW).view.loc (thr d L) ↦{Transfers.shareTok q 3 2} fct)
      ∗ ((viS L).view.loc (thr d L) ↦[(viS L).view.set]{qi} fvi)
      ∗ ((niS L).view.loc (thr d L) ↦[(niS L).view.set]{qi} fni)
      ∗ ((s0W).view.loc (thr d L) ↦{fullShare} f0) ∗ ((s1W).view.loc (thr d L) ↦{fullShare} f1)
      ∗ ((s2W).view.loc (thr d L) ↦{fullShare} f2) ∗ ((s3W).view.loc (thr d L) ↦{fullShare} f3)
      ∗ ((s4W).view.loc (thr d L) ↦{fullShare} f4)
      ∗ semVal (thr d L, SemLoc.dma cc3_scratch5.sem) 0 ∗ semVal (thr d L, SemLoc.dma cc3_scratch6.sem) 0
      ∗ semVal (thr d L, SemLoc.dma cc3_scratch7.sem) 0 ∗ semVal (thr d L, SemLoc.dma cc3_scratch8.sem) 0
      ∗ semVal (thr d L, SemLoc.dma cc3_scratch9.sem) 0
      ∗ semVal (thr d L, SemLoc.dma cc3_scoped0.sem) 0 ∗ semVal (thr d L, SemLoc.dma cc3_scoped1.sem) 0
      ∗ semVal (thr d L, SemLoc.dma cc3_scoped2.sem) 0
      ∗ ((euW).view.loc (thr d L) ↦[(euW).view.setOn (tileRect L).set]{fullShare} feu)
      ∗ ((uvW).view.loc (thr d L) ↦[(uvW).view.setOn (uvRect L).set]{fullShare} fuv)
      ∗ owes (thr d L) O W)

/-- What the tile holds when its task ends: all it was handed, the scratch and the results' rows at some contents, the
    recorded waits grown only at index `none`. -/
def tilePost (fvi : Buf (Elt F) ((SparseCore.T (τ := τ) d).loc main_v39)) (fni : Buf (Elt F) ((SparseCore.T (τ := τ) d).loc main_v40))
    (qi : PosShare TreeShare) : sProp 𝕄 :=
  iprop(((ctW).view.loc (thr d L) ↦{Transfers.shareTok q 3 0} fct)
      ∗ ((ctW).view.loc (thr d L) ↦{Transfers.shareTok q 3 1} fct)
      ∗ ((ctW).view.loc (thr d L) ↦{Transfers.shareTok q 3 2} fct)
      ∗ ((viS L).view.loc (thr d L) ↦[(viS L).view.set]{qi} fvi)
      ∗ ((niS L).view.loc (thr d L) ↦[(niS L).view.set]{qi} fni)
      ∗ (∃ f, (s0W).view.loc (thr d L) ↦{fullShare} f) ∗ (∃ f, (s1W).view.loc (thr d L) ↦{fullShare} f)
      ∗ (∃ f, (s2W).view.loc (thr d L) ↦{fullShare} f) ∗ (∃ f, (s3W).view.loc (thr d L) ↦{fullShare} f)
      ∗ (∃ f, (s4W).view.loc (thr d L) ↦{fullShare} f)
      ∗ semVal (thr d L, SemLoc.dma cc3_scratch5.sem) 0 ∗ semVal (thr d L, SemLoc.dma cc3_scratch6.sem) 0
      ∗ semVal (thr d L, SemLoc.dma cc3_scratch7.sem) 0 ∗ semVal (thr d L, SemLoc.dma cc3_scratch8.sem) 0
      ∗ semVal (thr d L, SemLoc.dma cc3_scratch9.sem) 0
      ∗ semVal (thr d L, SemLoc.dma cc3_scoped0.sem) 0 ∗ semVal (thr d L, SemLoc.dma cc3_scoped1.sem) 0
      ∗ semVal (thr d L, SemLoc.dma cc3_scoped2.sem) 0
      ∗ (∃ f, (euW).view.loc (thr d L) ↦[(euW).view.setOn (tileRect L).set]{fullShare} f)
      ∗ (∃ f, (uvW).view.loc (thr d L) ↦[(uvW).view.setOn (uvRect L).set]{fullShare} f)
      ∗ ∃ W', ⌜∀ p ∈ W', p ∈ W ∨ p.2 = none⌝ ∗ owes (thr d L) O W')

set_option maxHeartbeats 4000000 in
/-- The task, run: every weakly fair execution of the tile's body from what it is handed ends, without a fault, in what it
    hands back. The index lists' entries name rows of the table (`hvi`, `hni`): that is what keeps every indexed copy defined. -/
theorem tile_run (hO : ∀ g, O g none = 0)
    (fvi : Buf (Elt F) ((SparseCore.T (τ := τ) d).loc main_v39)) (fni : Buf (Elt F) ((SparseCore.T (τ := τ) d).loc main_v40))
    (qi : PosShare TreeShare)
    (f0 : Buf (Elt F) ((thr d L).loc cc3_scratch0)) (f1 : Buf (Elt F) ((thr d L).loc cc3_scratch1))
    (f2 : Buf (Elt F) ((thr d L).loc cc3_scratch2)) (f3 : Buf (Elt F) ((thr d L).loc cc3_scratch3))
    (f4 : Buf (Elt F) ((thr d L).loc cc3_scratch4))
    (feu : Buf (Elt F) ((SparseCore.T (τ := τ) d).loc main_v44_0)) (fuv : Buf (Elt F) ((SparseCore.T (τ := τ) d).loc main_v44_1))
    (hvi : ∀ j, (fvi j).toNat < 100000) (hni : ∀ j, (fni j).toNat < 100000) :
    tilePre d L O W fct q fvi fni qi f0 f1 f2 f3 f4 feu fuv
      ⊢ wp frame (wpE (defs₀ (F := F)) 𝒱₀ (thr d L) none) Set.univ
          (cc3_k L ctW (Memref.isWhole_whole _) viW (Memref.isWhole_whole _) niW (Memref.isWhole_whole _)
            euW (Memref.isWhole_whole _) uvW (Memref.isWhole_whole _)
            s0W (Memref.isWhole_whole _) s1W (Memref.isWhole_whole _) s2W (Memref.isWhole_whole _)
            s3W (Memref.isWhole_whole _) s4W (Memref.isWhole_whole _)
            cc3_scratch5 cc3_scratch6 cc3_scratch7 cc3_scratch8 cc3_scratch9 cc3_scoped0 cc3_scoped1 cc3_scoped2)
          fun _ => tilePost d L O W fct q fvi fni qi := by
  simp only [cc3_k_eq_skeleton]; unfold cc3_k_skel
  simp only [k3_part1_eq_skeleton]; unfold k3_part1_skel
  unfold tilePre
  iintro ⟨Hmw, Hct0, Hct1, Hct2, Hvi, Hni, Hs0, Hs1, Hs2, Hs3, Hs4, Hg0, Hg1, Hw0, Hw1, Hsu, Hc0, Hc1, Hc2, Heu, Huv, HO⟩
  have hin_u := hin_u_of d L fni hni
  have hin_v := hin_v_of d L fvi hvi f0
  sl_exec
  sl_rw [bind_assoc]
  sl_for (inv d L O W fct q (fetched d L fvi f0))
    $$ [Hmw Hct2 Hg1 HO Hg0 Hs2 Hs0 Hct1 Hw0 Hs3 Hw1 Heu]
  case region =>
    intro k acc
    rcases Nat.eq_zero_or_pos k.val with h0 | hpos
    · rw [h0]
      exact trip0 d L O W fct q _ hO k h0 hin_v
    · obtain ⟨j, hj⟩ := Nat.exists_eq_succ_of_ne_zero (Nat.pos_iff_ne_zero.mp hpos)
      have hk12 : (k : ℕ) < 12 := lt_of_lt_of_le k.isLt k3_t1_abs.2.1
      rw [hj]
      by_cases h11 : j + 1 < 11
      · have e1 : inv d L O W fct q (fetched d L fvi f0) (j + 1) acc
            = invMid d L O W fct q _ j (by omega) := dif_pos (by omega)
        have e2 : inv d L O W fct q (fetched d L fvi f0) (j + 1 + 1)
            = fun _ => invMid d L O W fct q _ (j + 1) (by omega) := funext fun _ => dif_pos (by omega)
        rw [e1, e2]
        exact tripMid d L O W fct q _ hO k j hj h11 hin_v
      · have hj10 : j = 10 := by omega
        subst hj10
        have e2 : inv d L O W fct q (fetched d L fvi f0) (10 + 1 + 1)
            = fun _ => invEnd d L O W fct q _ := rfl
        rw [e2]
        exact tripLast d L O W fct q _ hO k hj hin_v
  · rw [inv_zero]
    unfold inv0 keep
    isplitl [Hmw Hct2 Hg1 HO]
    · isplitl [Hmw]; · iexact Hmw
      isplitl [Hct2]; · iexact Hct2
      isplitl [Hg1]; · iexact Hg1
      iexists _; isplitr
      swap; · iexact HO
      ipureintro; exact mem_ins (mem_ins (fun p hp => Or.inl hp))
    iexists _; iexists _; iexists _
    isplitl [Hg0 Hs2 Hs0 Hct1]
    · iexists _; iexists _
      unfold gath0
      isplitl [Hg0]; · iexact Hg0
      isplitl [Hs2]; · iexact Hs2
      isplitl [Hs0]; · iexact Hs0
      iexact Hct1
    isplitl [Hw0]; · iexact Hw0
    isplitl [Hs3]; · iexact Hs3
    isplitl [Hw1]; · iexact Hw1
    iexact Heu
  iintro %acc HI
  ihave HI' := (Entails.of_eq (inv_end d L O W fct q (fetched d L fvi f0) acc)) $$ HI
  unfold invEnd keep
  icases HI' with ⟨⟨Hmw, Hct2, Hg1, %W', %hW', HO⟩, %g2, %g3, %fe0, %fe, Hg0, Hct1, Hs0, HW0, HW1, Heu⟩
  unfold wout0 wout1
  icases HW0 with ⟨Hw0, Hs2⟩
  icases HW1 with ⟨Hw1, Hs3⟩
  sl_exec
  sl_step
  unfold tilePost
  isplitl [Hct0]; · iexact Hct0
  isplitl [Hct1]; · iexact Hct1
  isplitl [Hct2]; · iexact Hct2
  isplitl [Hvi]; · iexact Hvi
  isplitl [Hni]; · iexact Hni
  isplitl [Hs0]; · iexists _; iexact Hs0
  isplitl [Hs1]; · iexists _; iexact Hs1
  isplitl [Hs2]; · iexists _; iexact Hs2
  isplitl [Hs3]; · iexists _; iexact Hs3
  isplitl [Hs4]; · iexists _; iexact Hs4
  isplitl [Hg0]; · iexact Hg0
  isplitl [Hg1]; · iexact Hg1
  isplitl [Hw0]; · iexact Hw0
  isplitl [Hw1]; · iexact Hw1
  isplitl [Hsu]; · iexact Hsu
  isplitl [Hc0]; · iexact Hc0
  isplitl [Hc1]; · iexact Hc1
  isplitl [Hc2]; · iexact Hc2
  isplitl [Hw0_dst Heu]
  · iexists _
    iapply (pointsTo_join_subset (even11_sub L))
    isplitl [Hw0_dst]; · iexact Hw0_dst
    iexact Heu
  isplitl [Huv]; · iexists _; iexact Huv
  iexists _; isplitr
  swap; · iexact HO
  ipureintro
  exact mem_ins (mem_ins (mem_ins (mem_ins (mem_ins (mem_ins hW')))))

end Cert.Proof.KW3

end
-- ==== Proof.WSc3Obl.lean ====
/-
  The gather kernel's task as the launch hands it over: from the tile's operands (a read share of the table, its slices of the
  two index lists with every entry a row of the table, its rows of the two results) and the vector subcore's scoped storage
  (among it the kernel's five scratch buffers and eight DMA semaphores) to the same, by the task's run (ScTile).
-/
import proofs.«217981_g19061064860210_cont_8to1_1320_37_alg».proof.Proof.WSc3Tile

noncomputable section

namespace Cert.Proof.KW3

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "ctW" => (Memref.whole Cert.Kernel.main_v9_scv : Memref Cert.Kernel.sig Kind.scVector Space.hbm Cert.Kernel.S100000x128 EltTy.f32)
local notation "viW" => (Memref.whole Cert.Kernel.main_v39_scv : Memref Cert.Kernel.sig Kind.scVector Space.hbm Cert.Kernel.S102400 EltTy.i32)
local notation "niW" => (Memref.whole Cert.Kernel.main_v40_scv : Memref Cert.Kernel.sig Kind.scVector Space.hbm Cert.Kernel.S2048 EltTy.i32)
local notation "euW" => (Memref.whole Cert.Kernel.main_v44_0_scv : Memref Cert.Kernel.sig Kind.scVector Space.hbm Cert.Kernel.S102400x128 EltTy.f32)
local notation "uvW" => (Memref.whole Cert.Kernel.main_v44_1_scv : Memref Cert.Kernel.sig Kind.scVector Space.hbm Cert.Kernel.S2048x128 EltTy.f32)
local notation "s0W" => (Memref.whole Cert.Kernel.cc3_scratch0 : Memref Cert.Kernel.sig Kind.scVector Space.vmem Cert.Kernel.S3200 EltTy.i32)
local notation "s1W" => (Memref.whole Cert.Kernel.cc3_scratch1 : Memref Cert.Kernel.sig Kind.scVector Space.vmem Cert.Kernel.S64 EltTy.i32)
local notation "s2W" => (Memref.whole Cert.Kernel.cc3_scratch2 : Memref Cert.Kernel.sig Kind.scVector Space.vmem Cert.Kernel.S128x128 EltTy.f32)
local notation "s3W" => (Memref.whole Cert.Kernel.cc3_scratch3 : Memref Cert.Kernel.sig Kind.scVector Space.vmem Cert.Kernel.S128x128 EltTy.f32)
local notation "s4W" => (Memref.whole Cert.Kernel.cc3_scratch4 : Memref Cert.Kernel.sig Kind.scVector Space.vmem Cert.Kernel.S64x128 EltTy.f32)

variable [FloatOps F]
variable (d : Dev nD) (L : grid3.Coords)

/-! ## The kernel's semaphores and scratch among the vector subcore's own -/

/-- The eight DMA semaphores of the second gather call, in the body's order. -/
def semOf : Fin 8 → DmaSem sig
  | 0 => cc3_scratch5.sem | 1 => cc3_scratch6.sem | 2 => cc3_scratch7.sem | 3 => cc3_scratch8.sem
  | 4 => cc3_scratch9.sem | 5 => cc3_scoped0.sem | 6 => cc3_scoped1.sem | 7 => cc3_scoped2.sem
theorem semOf_inj : Function.Injective semOf := by decide
theorem semOf_scoped : ∀ n : Fin 8, (SemLoc.dma (semOf n) : SemLoc sig).isScoped .scVector = true := by decide

/-- The five scratch buffers of the second gather call. -/
def refOf : Fin 5 → Ref sig .scVector
  | 0 => cc3_scratch0 | 1 => cc3_scratch1 | 2 => cc3_scratch2 | 3 => cc3_scratch3 | 4 => cc3_scratch4
theorem refOf_inj : Function.Injective refOf := by decide

def semEmb (thr : Thread nD τ) : Fin 8 ↪ GSem nD τ sig :=
  ⟨fun n => (thr, SemLoc.dma (semOf n)), fun a b e => semOf_inj (SemLoc.dma.inj (Prod.mk.inj e).2)⟩

def refEmb (c : Fin τ.nSC) (i : Fin τ.nSub) : Fin 5 ↪ DevRef τ sig :=
  ⟨fun n => (Proc.scVector c i).devRef (refOf n), fun a b e => refOf_inj (Proc.devRef_injective _ e)⟩

theorem semEmb_sub : Finset.univ.map (semEmb (thr d L)) ⊆ ownCells (sig := sig) (thr d L) := by
  intro g hg
  obtain ⟨n, -, rfl⟩ := Finset.mem_map.mp hg
  exact mem_ownCells.mpr ⟨rfl, semOf_scoped n⟩

theorem refEmb_sub : Finset.univ.map (refEmb (cV L) (jV L)) ⊆ ownRefs (τ := τ) (sig := sig) (Proc.scVector (cV L) (jV L)) := by
  intro b hb
  obtain ⟨n, -, rfl⟩ := Finset.mem_map.mp hb
  fin_cases n <;> exact SparseCore.Cfg.mem_ownRefs_of_owner rfl

omit [FloatOps F] in
/-- The subcore's scoped semaphores at zero: the kernel's eight, and the others. -/
theorem ownSems0_V8 :
    (ownSems0 (thr d L) : sProp 𝕄)
      = iprop((semVal (thr d L, SemLoc.dma cc3_scratch5.sem) 0 ∗ semVal (thr d L, SemLoc.dma cc3_scratch6.sem) 0
          ∗ semVal (thr d L, SemLoc.dma cc3_scratch7.sem) 0 ∗ semVal (thr d L, SemLoc.dma cc3_scratch8.sem) 0
          ∗ semVal (thr d L, SemLoc.dma cc3_scratch9.sem) 0 ∗ semVal (thr d L, SemLoc.dma cc3_scoped0.sem) 0
          ∗ semVal (thr d L, SemLoc.dma cc3_scoped1.sem) 0 ∗ semVal (thr d L, SemLoc.dma cc3_scoped2.sem) 0)
          ∗ bigSep (ownCells (thr d L) \ Finset.univ.map (semEmb (thr d L))) fun g => semVal g 0) := by
  unfold SparseCore.Cfg.ownSems0
  rw [SparseCore.bigSep_sdiff_split' (semEmb_sub d L), BI.bigSep_map,
    BI.bigSep_univ_eq_bigSepL [(0 : Fin 8), 1, 2, 3, 4, 5, 6, 7] (by decide) (by decide)]
  rfl

omit [FloatOps F] in
/-- The subcore's own buffers: the kernel's five scratch buffers at some contents, and the others. -/
theorem ownBufs_V5 :
    (ownBufs (thr d L) : sProp 𝕄)
      = iprop(((∃ f, (s0W).view.loc (thr d L) ↦{fullShare} f) ∗ (∃ f, (s1W).view.loc (thr d L) ↦{fullShare} f)
          ∗ (∃ f, (s2W).view.loc (thr d L) ↦{fullShare} f) ∗ (∃ f, (s3W).view.loc (thr d L) ↦{fullShare} f)
          ∗ (∃ f, (s4W).view.loc (thr d L) ↦{fullShare} f))
          ∗ bigSep (ownRefs (τ := τ) (Proc.scVector (cV L) (jV L)) \ Finset.univ.map (refEmb (cV L) (jV L)))
              fun b => iprop(∃ f, ((d, b) : Loc nD τ sig) ↦{fullShare} f)) := by
  unfold SparseCore.Cfg.ownBufs
  rw [SparseCore.bigSep_sdiff_split' (refEmb_sub L), BI.bigSep_map,
    BI.bigSep_univ_eq_bigSepL [(0 : Fin 5), 1, 2, 3, 4] (by decide) (by decide)]
  rfl

/-! ## The task from the launch's hand -/

omit [FloatOps F] in
/-- Three tokens conjoined one by one. -/
theorem bigSep_three (Φ : Fin 3 → sProp 𝕄) : bigSep Finset.univ Φ = iprop(Φ 0 ∗ Φ 1 ∗ Φ 2) :=
  BI.bigSep_univ_eq_bigSepL [(0 : Fin 3), 1, 2] (by decide) (by decide) Φ

omit [FloatOps F] in
/-- Points-to assertions can be stored in a handshake's payload, whatever the location. -/
theorem pts_storable (ℓ : Loc nD τ sig) (I : Finset (Idx ℓ)) (q : PosShare TreeShare) (f : Buf (Elt F) ℓ) :
    BI.Storable (upEmb : UEmb _ 𝕄) (ℓ ↦[I]{q} f : sProp 𝕄) := inferInstance

/-- The table through a read share, as a tile addresses it. -/
def ctPts (q : PosShare TreeShare) (fct : Buf (Elt F) ((SparseCore.T (τ := τ) d).loc main_v9)) : sProp 𝕄 :=
  (ctW).view.loc (thr d L) ↦{q} fct
/-- The flat item-index list through a read share (the tile reads its own slice of it). -/
def viPts (q : PosShare TreeShare) (fvi : Buf (Elt F) ((SparseCore.T (τ := τ) d).loc main_v39)) : sProp 𝕄 :=
  (viW).view.loc (thr d L) ↦{q} fvi
/-- The user-index list through a read share. -/
def niPts (q : PosShare TreeShare) (fni : Buf (Elt F) ((SparseCore.T (τ := τ) d).loc main_v40)) : sProp 𝕄 :=
  (niW).view.loc (thr d L) ↦{q} fni
/-- The tile's rows of the gathered-rows result. -/
def euPts (f : Buf (Elt F) ((SparseCore.T (τ := τ) d).loc main_v44_0)) : sProp 𝕄 :=
  (euW).view.loc (thr d L) ↦[(euW).view.setOn (tileRect L).set]{fullShare} f
/-- The tile's rows of the user-rows result. -/
def uvPts (f : Buf (Elt F) ((SparseCore.T (τ := τ) d).loc main_v44_1)) : sProp 𝕄 :=
  (uvW).view.loc (thr d L) ↦[(uvW).view.setOn (uvRect L).set]{fullShare} f

omit [FloatOps F] in
instance ctPts_storable (q : PosShare TreeShare) (fct : Buf (Elt F) ((SparseCore.T (τ := τ) d).loc main_v9)) :
    BI.Storable (upEmb : UEmb _ 𝕄) (ctPts d L q fct) := by unfold ctPts; exact pts_storable _ _ _ _
omit [FloatOps F] in
instance viPts_storable (q : PosShare TreeShare) (fvi : Buf (Elt F) ((SparseCore.T (τ := τ) d).loc main_v39)) :
    BI.Storable (upEmb : UEmb _ 𝕄) (viPts d L q fvi) := by unfold viPts; exact pts_storable _ _ _ _
omit [FloatOps F] in
instance niPts_storable (q : PosShare TreeShare) (fni : Buf (Elt F) ((SparseCore.T (τ := τ) d).loc main_v40)) :
    BI.Storable (upEmb : UEmb _ 𝕄) (niPts d L q fni) := by unfold niPts; exact pts_storable _ _ _ _
omit [FloatOps F] in
instance euPts_storable (f : Buf (Elt F) ((SparseCore.T (τ := τ) d).loc main_v44_0)) :
    BI.Storable (upEmb : UEmb _ 𝕄) (euPts d L f) := by unfold euPts; exact pts_storable _ _ _ _
omit [FloatOps F] in
instance uvPts_storable (f : Buf (Elt F) ((SparseCore.T (τ := τ) d).loc main_v44_1)) :
    BI.Storable (upEmb : UEmb _ 𝕄) (uvPts d L f) := by unfold uvPts; exact pts_storable _ _ _ _

/-- What the launch hands tile `L` for the second gather call, and what the tile hands back: a read share of the table and of
    each index list (every entry a row of the table), its rows of the two results at some contents. -/
def goRes (qT : PosShare TreeShare) : sProp 𝕄 :=
  iprop(∃ (fct : Buf (Elt F) ((SparseCore.T (τ := τ) d).loc main_v9)) (fvi : Buf (Elt F) ((SparseCore.T (τ := τ) d).loc main_v39))
      (fni : Buf (Elt F) ((SparseCore.T (τ := τ) d).loc main_v40)),
      ⌜∀ j, (fvi j).toNat < 100000⌝ ∗ ⌜∀ j, (fni j).toNat < 100000⌝
      ∗ ctPts d L qT fct ∗ viPts d L qT fvi ∗ niPts d L qT fni ∗ (∃ f, euPts d L f) ∗ (∃ f, uvPts d L f))

set_option synthInstance.maxHeartbeats 400000 in
omit [FloatOps F] in
instance goRes_storable (qT : PosShare TreeShare) : BI.Storable (upEmb : UEmb _ 𝕄) (goRes (F := F) d L qT) := by
  unfold goRes; infer_instance

set_option maxHeartbeats 1000000 in
/-- The task of tile `L`, from the launch's hand to the launch's hand. -/
theorem tile_task0 (hF : (K (F := F)).Facts) (O : CellTallies nD τ sig (HIx 2)) (W : Waits sig (HIx 2)) (hO : ∀ g, O g none = 0)
    (qT : PosShare TreeShare) :
    iprop(levAts (K (F := F)).L (K (F := F)).lev ∗ emp ∗ goRes d L qT ∗ scopedBufs (thr d L) ∗ scopedSems0 (thr d L) ∗ owes (thr d L) O W)
      ⊢ wp frame (wpE (defs₀ (F := F)) 𝒱₀ (thr d L) none) Set.univ
          (cc3_k L ctW (Memref.isWhole_whole _) viW (Memref.isWhole_whole _) niW (Memref.isWhole_whole _)
            euW (Memref.isWhole_whole _) uvW (Memref.isWhole_whole _)
            s0W (Memref.isWhole_whole _) s1W (Memref.isWhole_whole _) s2W (Memref.isWhole_whole _)
            s3W (Memref.isWhole_whole _) s4W (Memref.isWhole_whole _)
            cc3_scratch5 cc3_scratch6 cc3_scratch7 cc3_scratch8 cc3_scratch9 cc3_scoped0 cc3_scoped1 cc3_scoped2)
          fun _ => iprop(goRes d L qT ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V8, ownBufs_V5]
  unfold goRes ctPts viPts niPts euPts uvPts
  iintro ⟨#Hlv, -, ⟨%fct, %fvi, %fni, %hvi, %hni, Hct, Hvi, Hni, ⟨%feu, Heu⟩, ⟨%fuv, Huv⟩⟩,
    ⟨⟨⟨%f0, Hs0⟩, ⟨%f1, Hs1⟩, ⟨%f2, Hs2⟩, ⟨%f3, Hs3⟩, ⟨%f4, Hs4⟩⟩, Hbufs⟩,
    ⟨⟨Hg0, Hg1, Hw0, Hw1, Hsu, Hc0, Hc1, Hc2⟩, Hsems⟩, HO⟩
  ihave Hmw := (show levAts (K (F := F)).L (K (F := F)).lev ⊢ Transfers.MayWaits (thr d L) (none : HIx 2) O from
    (K (F := F)).mayWaits_none (thr := thr d L) hO) $$ Hlv
  ihave Ht := (Transfers.pointsTo_toks qT 3).1 $$ Hct
  icases Ht with ⟨Hdrop, Htoks⟩
  ihave Ht3 := (Entails.of_eq (bigSep_three _)) $$ Htoks
  icases Ht3 with ⟨Hct0, Hct1, Hct2⟩
  ihave Hv := (pointsTo_split_subset (q := qT) (f := fvi) (S := Finset.univ) (Finset.subset_univ (viS L).view.set)).1 $$ Hvi
  icases Hv with ⟨Hvi, Hvir⟩
  ihave Hn := (pointsTo_split_subset (q := qT) (f := fni) (S := Finset.univ) (Finset.subset_univ (niS L).view.set)).1 $$ Hni
  icases Hn with ⟨Hni, Hnir⟩
  iapply (wp_wand_r frame (wpE (defs₀ (F := F)) 𝒱₀ (thr d L) none) Set.univ (Q := fun _ => tilePost d L O W fct qT fvi fni qT))
  isplitl [Hmw Hct0 Hct1 Hct2 Hvi Hni Hs0 Hs1 Hs2 Hs3 Hs4 Hg0 Hg1 Hw0 Hw1 Hsu Hc0 Hc1 Hc2 Heu Huv HO]
  · iapply (tile_run d L O W fct qT hO fvi fni qT f0 f1 f2 f3 f4 feu fuv hvi hni)
    unfold tilePre
    isplitl [Hmw]; · iexact Hmw
    isplitl [Hct0]; · iexact Hct0
    isplitl [Hct1]; · iexact Hct1
    isplitl [Hct2]; · iexact Hct2
    isplitl [Hvi]; · iexact Hvi
    isplitl [Hni]; · iexact Hni
    isplitl [Hs0]; · iexact Hs0
    isplitl [Hs1]; · iexact Hs1
    isplitl [Hs2]; · iexact Hs2
    isplitl [Hs3]; · iexact Hs3
    isplitl [Hs4]; · iexact Hs4
    isplitl [Hg0]; · iexact Hg0
    isplitl [Hg1]; · iexact Hg1
    isplitl [Hw0]; · iexact Hw0
    isplitl [Hw1]; · iexact Hw1
    isplitl [Hsu]; · iexact Hsu
    isplitl [Hc0]; · iexact Hc0
    isplitl [Hc1]; · iexact Hc1
    isplitl [Hc2]; · iexact Hc2
    isplitl [Heu]; · iexact Heu
    isplitl [Huv]; · iexact Huv
    iexact HO
  iintro %a Hpost
  unfold tilePost
  icases Hpost with ⟨Hct0, Hct1, Hct2, Hvi, Hni, Hs0, Hs1, Hs2, Hs3, Hs4, Hg0, Hg1, Hw0, Hw1, Hsu, Hc0, Hc1, Hc2, Heu, Huv, HOW⟩
  ihave Htoks := (Entails.of_eq (bigSep_three
      (fun i : Fin 3 => ((ctW).view.loc (thr d L) ↦{Transfers.shareTok qT 3 i} fct : sProp 𝕄))).symm) $$ [Hct0 Hct1 Hct2]
  · isplitl [Hct0]; · iexact Hct0
    isplitl [Hct1]; · iexact Hct1
    iexact Hct2
  ihave Hct := (Transfers.pointsTo_toks qT 3).2 $$ [Hdrop Htoks]
  · isplitl [Hdrop]; · iexact Hdrop
    iexact Htoks
  ihave Hvi := (pointsTo_split_subset (q := qT) (f := fvi) (S := Finset.univ) (Finset.subset_univ (viS L).view.set)).2 $$ [Hvi Hvir]
  · isplitl [Hvi]; · iexact Hvi
    iexact Hvir
  ihave Hni := (pointsTo_split_subset (q := qT) (f := fni) (S := Finset.univ) (Finset.subset_univ (niS L).view.set)).2 $$ [Hni Hnir]
  · isplitl [Hni]; · iexact Hni
    iexact Hnir
  isplitl [Hct Hvi Hni Heu Huv]
  · iexists fct; iexists fvi; iexists fni
    isplitr; · ipureintro; exact hvi
    isplitr; · ipureintro; exact hni
    isplitl [Hct]; · iexact Hct
    isplitl [Hvi]; · iexact Hvi
    isplitl [Hni]; · iexact Hni
    isplitl [Heu]; · iexact Heu
    iexact Huv
  isplitl [Hs0 Hs1 Hs2 Hs3 Hs4 Hbufs]
  · isplitl [Hs0 Hs1 Hs2 Hs3 Hs4]
    · isplitl [Hs0]; · iexact Hs0
      isplitl [Hs1]; · iexact Hs1
      isplitl [Hs2]; · iexact Hs2
      isplitl [Hs3]; · iexact Hs3
      iexact Hs4
    iexact Hbufs
  isplitl [Hg0 Hg1 Hw0 Hw1 Hsu Hc0 Hc1 Hc2 Hsems]
  · isplitl [Hg0 Hg1 Hw0 Hw1 Hsu Hc0 Hc1 Hc2]
    · isplitl [Hg0]; · iexact Hg0
      isplitl [Hg1]; · iexact Hg1
      isplitl [Hw0]; · iexact Hw0
      isplitl [Hw1]; · iexact Hw1
      isplitl [Hsu]; · iexact Hsu
      isplitl [Hc0]; · iexact Hc0
      isplitl [Hc1]; · iexact Hc1
      iexact Hc2
    iexact Hsems
  iexact HOW

end Cert.Proof.KW3

end
-- ==== Proof.WScPay.lean ====
/-
  What the launch's handshakes carry for the two gather calls, and the launch theorem's obligations about the vector subcores:
  each call hands SparseCore `c` its sixteen tiles' operands (tile `(c, i)`: a read token of the table, its slices of the two
  index lists, its rows of the two results) and takes them back; a tile's task is its run (ScObl, Sc3Obl).
-/
import proofs.«217981_g19061064860210_cont_8to1_1320_37_alg».proof.Proof.WScObl
import proofs.«217981_g19061064860210_cont_8to1_1320_37_alg».proof.Proof.WSc3Obl
import Idealize.ShloMosaic.Lib.SparseCore.Launch

noncomputable section

namespace Cert.Proof.KW

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]
variable (d : Dev nD) (L : grid1.Coords)

abbrev D : Defs nD τ sig (Elt F) (ΛP (F := F)) := Pipeline.defs pcfgs defs₀
abbrev 𝒱 : Variants := 𝒱₀.lift
abbrev v₀ : 𝒱.V := Sum.inl none

omit [FloatOps F] in
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The coordinates of tile `(c, s)`, as the body table passes them. -/
def coordsV (c : Fin (grid1.bound 0)) (s : Fin (grid1.bound 1)) : grid1.Coords :=
  fun | 0 => c | 1 => s | ⟨_ + 2, h⟩ => absurd h (Nat.not_lt.2 (Nat.le_add_left _ _))

/-- The read token of the table that tile `(c, i)` is dealt: one of thirty-two. -/
abbrev qTile (c i : ℕ) : PosShare TreeShare := Transfers.shareTokN fullShare (16 * c + i)

/-- What a call hands tile `(c, i)`, and takes back. -/
def tileRes (q : Fin 2) (d : Dev nD) (c : Fin 2) (i : Fin 16) : sProp 𝕄 :=
  match q with
  | 0 => goRes d (coordsV c i) (qTile c.val i.val)
  | 1 => Cert.Proof.KW3.goRes d (coordsV c i) (qTile c.val i.val)

omit [FloatOps F] in
theorem tileRes_zero (d : Dev nD) (c : Fin 2) (i : Fin 16) : tileRes (F := F) 0 d c i = goRes d (coordsV c i) (qTile c.val i.val) := rfl
omit [FloatOps F] in
theorem tileRes_one (d : Dev nD) (c : Fin 2) (i : Fin 16) : tileRes (F := F) 1 d c i = Cert.Proof.KW3.goRes d (coordsV c i) (qTile c.val i.val) := rfl

omit [FloatOps F] in
instance tileRes_storable (q : Fin 2) (d : Dev nD) (c : Fin 2) (i : Fin 16) : BI.Storable (upEmb : UEmb _ 𝕄) (tileRes (F := F) q d c i) := by
  match q with
  | 0 => rw [tileRes_zero]; infer_instance
  | 1 => rw [tileRes_one]; infer_instance

/-- The handshakes' payloads: per call and SparseCore its sixteen tiles' operands, both ways; nothing of the launch's consumed. -/
def P : (K (F := F)).Pay (nD := nD) (Val := Elt F) (Name := ℕ) (U := UU) where
  st := fun q d c => match q with
    | 0 => bigSep Finset.univ fun i : Fin 16 => tileRes 0 d c i
    | 1 => bigSep Finset.univ fun i : Fin 16 => tileRes 1 d c i
  dn := fun q d c => match q with
    | 0 => bigSep Finset.univ fun i : Fin 16 => tileRes 0 d c i
    | 1 => bigSep Finset.univ fun i : Fin 16 => tileRes 1 d c i
  go := fun q d c i => match q with
    | 0 => tileRes 0 d c i
    | 1 => tileRes 1 d c i
  td := fun q d c i => match q with
    | 0 => tileRes 0 d c i
    | 1 => tileRes 1 d c i
  x := fun _ _ => iprop(emp)

instance P_storable : (P (F := F)).IsStorable where
  st q d c := match q with
    | 0 => (inferInstance : BI.Storable (upEmb : UEmb _ 𝕄) (bigSep Finset.univ fun i : Fin 16 => tileRes (F := F) 0 d c i))
    | 1 => (inferInstance : BI.Storable (upEmb : UEmb _ 𝕄) (bigSep Finset.univ fun i : Fin 16 => tileRes (F := F) 1 d c i))
  dn q d c := match q with
    | 0 => (inferInstance : BI.Storable (upEmb : UEmb _ 𝕄) (bigSep Finset.univ fun i : Fin 16 => tileRes (F := F) 0 d c i))
    | 1 => (inferInstance : BI.Storable (upEmb : UEmb _ 𝕄) (bigSep Finset.univ fun i : Fin 16 => tileRes (F := F) 1 d c i))
  go q d c i := match q with
    | 0 => (inferInstance : BI.Storable (upEmb : UEmb _ 𝕄) (tileRes (F := F) 0 d c i))
    | 1 => (inferInstance : BI.Storable (upEmb : UEmb _ 𝕄) (tileRes (F := F) 1 d c i))
  td q d c i := match q with
    | 0 => (inferInstance : BI.Storable (upEmb : UEmb _ 𝕄) (tileRes (F := F) 0 d c i))
    | 1 => (inferInstance : BI.Storable (upEmb : UEmb _ 𝕄) (tileRes (F := F) 1 d c i))

/-! ## The obligations -/

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem defs₀_vector0 (c : Fin τ.nSC) (s : Fin τ.nSub) :
    defs₀ (F := F) (.scVector c s) 1 ()
      = SparseCore.onTile hcore1 hsub1 (fun c s => cc1_k (coordsV c s)
          (Memref.whole main_v9_scv) (Memref.isWhole_whole _) (Memref.whole main_v13_scv) (Memref.isWhole_whole _)
          (Memref.whole main_v14_scv) (Memref.isWhole_whole _) (Memref.whole main_v18_0_scv) (Memref.isWhole_whole _)
          (Memref.whole main_v18_1_scv) (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _)
          (Memref.whole cc1_scratch4) (Memref.isWhole_whole _)
          cc1_scratch5 cc1_scratch6 cc1_scratch7 cc1_scratch8 cc1_scratch9 cc1_scoped0 cc1_scoped1 cc1_scoped2) ⟨⟩ c s := rfl

/-- `TileObl` at the first gather call. -/
theorem tileObl0 : (K (F := F)).TileObl (D (F := F)) 𝒱 (P (F := F)) v₀ 0 := by
  intro d c i O W hO _ _
  simp only [show (P (F := F)).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector0]; simp only [SparseCore.onTile, hc, and_self, ↓reduceDIte]
  exact (tile_task0 d (coordsV ⟨_, hc.1⟩ ⟨_, hc.2⟩) (facts (F := F)) O W hO _).trans (wp_mono frame _ _ fun _ => obl_post)

theorem defs₀_vector1 (c : Fin τ.nSC) (s : Fin τ.nSub) :
    defs₀ (F := F) (.scVector c s) 3 ()
      = SparseCore.onTile hcore3 hsub3 (fun c s => cc3_k (coordsV c s)
          (Memref.whole main_v9_scv) (Memref.isWhole_whole _) (Memref.whole main_v39_scv) (Memref.isWhole_whole _)
          (Memref.whole main_v40_scv) (Memref.isWhole_whole _) (Memref.whole main_v44_0_scv) (Memref.isWhole_whole _)
          (Memref.whole main_v44_1_scv) (Memref.isWhole_whole _)
          (Memref.whole cc3_scratch0) (Memref.isWhole_whole _) (Memref.whole cc3_scratch1) (Memref.isWhole_whole _)
          (Memref.whole cc3_scratch2) (Memref.isWhole_whole _) (Memref.whole cc3_scratch3) (Memref.isWhole_whole _)
          (Memref.whole cc3_scratch4) (Memref.isWhole_whole _)
          cc3_scratch5 cc3_scratch6 cc3_scratch7 cc3_scratch8 cc3_scratch9 cc3_scoped0 cc3_scoped1 cc3_scoped2) ⟨⟩ c s := rfl

/-- `TileObl` at the second gather call. -/
theorem tileObl1 : (K (F := F)).TileObl (D (F := F)) 𝒱 (P (F := F)) v₀ 1 := by
  intro d c i O W hO _ _
  simp only [show (P (F := F)).ox = fun _ _ => 0 from rfl, add_zero]
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  have hc : ((K (F := F)).core 1 c).val < grid3.bound 0 ∧ ((K (F := F)).sub 1 i).val < grid3.bound 1 := ⟨c.isLt, i.isLt⟩
  rw [defs₀_vector1]; simp only [SparseCore.onTile, hc, and_self, ↓reduceDIte]
  exact (Cert.Proof.KW3.tile_task0 d (coordsV ⟨_, hc.1⟩ ⟨_, hc.2⟩) (facts (F := F)) O W hO _).trans (wp_mono frame _ _ fun _ => obl_post)

omit [FloatOps F] in
/-- A call's operands for a SparseCore are its tiles' operands, and its results theirs. -/
theorem vecSplit (q : Fin 2) : (K (F := F)).VecSplit' (P (F := F)) q := by
  intro d c
  match q with
  | 0 =>
    show (bigSep Finset.univ fun i : Fin 16 => tileRes (F := F) 0 d c i)
      ⊢ |={Set.univ}=> iprop((bigSep Finset.univ fun i : Fin 16 => tileRes (F := F) 0 d c i)
        ∗ ((bigSep Finset.univ fun i : Fin 16 => tileRes (F := F) 0 d c i) -∗ (bigSep Finset.univ fun i : Fin 16 => tileRes (F := F) 0 d c i)))
    iintro H; imodintro
    isplitl [H]; · iexact H
    iintro H'; iexact H'
  | 1 =>
    show (bigSep Finset.univ fun i : Fin 16 => tileRes (F := F) 1 d c i)
      ⊢ |={Set.univ}=> iprop((bigSep Finset.univ fun i : Fin 16 => tileRes (F := F) 1 d c i)
        ∗ ((bigSep Finset.univ fun i : Fin 16 => tileRes (F := F) 1 d c i) -∗ (bigSep Finset.univ fun i : Fin 16 => tileRes (F := F) 1 d c i)))
    iintro H; imodintro
    isplitl [H]; · iexact H
    iintro H'; iexact H'

end Cert.Proof.KW

end
-- ==== Proof.WScLaunch.lean ====
/-
  The launch of the kernel program: the launch theorem of the SparseCore library applied to the two gather calls' obligations
  (ScPay), what @main leaves the claim (the sixteen arguments at their launch contents) and how the final memory reads it.
  The run's two remaining premises — @main's own proof on the TensorCore (`MainObl`) and the launch element (`LaunchObl`) — are
  stated here as propositions, and the frame claim is derived from them.
-/
import proofs.«217981_g19061064860210_cont_8to1_1320_37_alg».proof.Proof.WScPay
import proofs.«217981_g19061064860210_cont_8to1_1320_37_alg».proof.Defs
import proofs.«217981_g19061064860210_cont_8to1_1320_37_alg».proof.Proof.Gen.Pre_input_domain

noncomputable section

namespace Cert.Proof.KW

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

variable (m : (ℓ : Loc nD τ sig) → Buf (Elt F) ℓ) (ρ : Dev nD → PrngReg)

/-- The handshakes' ghost state sits on the left of the certificate's algebra. -/
abbrev EH : Emb UH 𝕄 := embL

/-- The sixteen arguments of @main. -/
def argRef : Fin 16 → Ref sig .tc :=
  ![main_arg0, main_arg1, main_arg2, main_arg3, main_arg4, main_arg5, main_arg6, main_arg7, main_arg8, main_arg9,
    main_arg10, main_arg11, main_arg12, main_arg13, main_arg14, main_arg15]

/-- What @main leaves the claim: every argument whole, at its launch contents. -/
def FIN (d : Dev nD) : sProp 𝕄 :=
  bigSep Finset.univ fun k : Fin 16 => (SparseCore.T d).loc (argRef k) ↦{fullShare} m ((SparseCore.T d).loc (argRef k))

def fq (d : Dev nD) (s' : Phys nD τ sig (Elt F)) : Prop :=
  ∀ k : Fin 16, s'.mem.mem ((SparseCore.T d).loc (argRef k)) = m ((SparseCore.T d).loc (argRef k))

omit [FloatOps F] in
theorem hfin (d : Dev nD) (s' : Phys nD τ sig (Elt F)) : iprop(FIN m d ∗ SI s') ⊢ (⌜fq m d s'⌝ : sProp 𝕄) := by
  unfold FIN
  refine (posts_pure (Finset.univ : Finset (Fin 16))
    (q := fun k s' => s'.mem.mem ((SparseCore.T d).loc (argRef k)) = m ((SparseCore.T d).loc (argRef k))) (fun k s' => ?_) s').trans ?_
  · iintro ⟨Hx, HSI⟩
    ihave H := (SI_pointsTo_agree (st := s') (ℓ := (SparseCore.T d).loc (argRef k)) (I := Finset.univ) (q := fullShare)
      (f := m ((SparseCore.T d).loc (argRef k)))) $$ [HSI Hx]
    · isplitl [HSI] <;> iassumption
    icases H with %hx
    ipureintro; exact funext fun i => hx i (Finset.mem_univ i)
  · iintro %h; ipureintro; exact fun k => h k (Finset.mem_univ k)

/-- The run's claim: on every device every argument ends as it was launched. -/
def QC : PUnit × MemSt nD τ sig (Elt F) → Prop :=
  fun r => ∀ c : Dev nD, ∀ k : Fin 16, r.2.mem ((SparseCore.T c).loc (argRef k)) = m ((SparseCore.T c).loc (argRef k))

/-- @main's own proof on the TensorCore of each device, as the launch theorem asks for it: from the cells' invariants, the
    TensorCore's state before call 0, what the launch deals it and its share `G d` of the launch element, @main runs to the
    TensorCore's state after call 2 and the arguments at their launch contents. -/
def MainObl (G : Dev nD → sProp 𝕄) : Prop :=
  ∀ (κ : GSem nD τ sig → ℕ) (d : Dev nD),
    iprop((K (F := F)).ctx EH (P (F := F)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 2 ∗ FIN m d)

/-- The launch element: the certificate's ghost state splits into the handshakes' and each device's share `G d`. -/
def LaunchObl (G : Dev nD → sProp 𝕄) (u₀ : UU) : Prop :=
  iprop(ownU u₀ ∗ (P (F := F)).oxCred ∗ (K (F := F)).freeSems0)
    ⊢ |={Set.univ}=> iprop(BI.own (EH (initOf (K (F := F)).hsCells (K (F := F)).hsToks)) ∗ bigSep Finset.univ G
      ∗ bigSep Finset.univ fun thr : Thread nD τ => bigSep Finset.univ fun q : Fin 2 => (P (F := F)).x q thr)

/-- The program's run, from @main's proof and the launch element. -/
theorem run_main [∀ e, Nonempty (Elt F e)] (G : Dev nD → sProp 𝕄) (u₀ : UU) (hu₀ : LaunchObl (F := F) G u₀) (hmain : MainObl m ρ G) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (F := F)) facts v₀
    (fun q hq => match q with | 0 => nomatch hq | 1 => nomatch hq)
    (fun q _ => match q with | 0 => tileObl0 | 1 => tileObl1)
    (fun q _ => SparseCore.Cfg.VecSplit.of_plain (vecSplit q))
    m ρ main G (FIN m) u₀ hu₀ hmain (fq m) (hfin m) (QC m) (fun _ h => h)

/-- `Cert.frame_Kernel` (Defs.lean), from @main's proof and the launch element at every admitted memory. -/
theorem frame_of (H : ∀ (m : (ℓ : Loc nD τ sig) → Buf (Elt Bits) ℓ) (g : Dev nD → PrngReg), Cert.Pre_Kernel m →
      ∃ (G : Dev nD → sProp (MT nD τ sig (HIx 2) (Elt Bits) ℕ UU ℕ)) (u₀ : UU), LaunchObl (F := Bits) G u₀ ∧ MainObl m g G) :
    Cert.frame_Kernel (hKernel := Cert.Kernel.Gen.facts) (hPre_input_domain := Cert.Pre_input_domain.Gen.facts) :=
  fun m g hpre => by
    obtain ⟨G, u₀, hu₀, hmain⟩ := H m g hpre
    exact (θ_run Cert.Kernel.defs _ _).mono
      (fun _ h c => ⟨h c 0, h c 1, h c 2, h c 3, h c 4, h c 5, h c 6, h c 7, h c 8, h c 9, h c 10, h c 11, h c 12, h c 13, h c 14, h c 15⟩)
      (run_main (F := Bits) m g G u₀ hu₀ hmain)

end Cert.Proof.KW

end
-- ==== Proof.WScDeal.lean ====
/-
  Read tokens of an array for thirty-two readers: the full share splits into a remainder and thirty-two tokens, and comes back
  whole from the remainder and the tokens returned at whatever contents their holders assert — a reader cannot have changed
  what it only read, so each token agrees with the remainder.
-/
import proofs.«217981_g19061064860210_cont_8to1_1320_37_alg».proof.Proof.WScInv
import Idealize.ShloMosaic.Lib.Transfers

noncomputable section

namespace Cert.Proof.KW

open Cert.Kernel
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 2) (Elt F) ℕ UU ℕ

/-- A family of assertions rewritten one by one against a resource that each step gives back. -/
theorem bigSep_against {ι : Type} [DecidableEq ι] (S : Finset ι) (A : sProp 𝕄) (B B' : ι → sProp 𝕄)
    (h : ∀ i, iprop(A ∗ B i) ⊢ iprop(A ∗ B' i)) : iprop(A ∗ bigSep S B) ⊢ iprop(A ∗ bigSep S B') := by
  induction S using Finset.induction_on with
  | empty => rw [bigSep_empty, bigSep_empty]
  | insert i S hi ih =>
    rw [bigSep_insert hi, bigSep_insert hi]
    refine (show iprop(A ∗ (B i ∗ bigSep S B)) ⊢ iprop(A ∗ (B' i ∗ bigSep S B')) from ?_)
    iintro ⟨HA, HB, HS⟩
    ihave H1 := (h i) $$ [HA HB]
    · isplitl [HA]; · iexact HA
      iexact HB
    icases H1 with ⟨HA, HB'⟩
    ihave H2 := ih $$ [HA HS]
    · isplitl [HA]; · iexact HA
      iexact HS
    icases H2 with ⟨HA, HS'⟩
    isplitl [HA]; · iexact HA
    isplitl [HB']; · iexact HB'
    iexact HS'

/-- A token returned at some contents is a token at the remainder's contents. -/
theorem tok_agree (ℓ : Loc nD τ sig) (q₁ q₂ : PosShare TreeShare) (f : Buf (Elt F) ℓ) :
    iprop((ℓ ↦{q₁} f) ∗ ∃ g, ℓ ↦{q₂} g) ⊢ (iprop((ℓ ↦{q₁} f) ∗ ℓ ↦{q₂} f) : sProp 𝕄) := by
  iintro ⟨H1, %g, H2⟩
  have key : iprop((ℓ ↦{q₁} f) ∗ ℓ ↦{q₂} g) ⊢ (iprop((ℓ ↦{q₁} f) ∗ ℓ ↦{q₂} f) : sProp 𝕄) :=
    pure_elim _ (pointsTo_agree (ℓ := ℓ) (I := Finset.univ) (J := Finset.univ) (q₁ := q₁) (q₂ := q₂) (f := f) (g := g)) (fun hag => by
      rw [show (ℓ ↦{q₂} g : sProp 𝕄) = ℓ ↦{q₂} f from
        pointsTo_congr fun i _ => ((hag i (Finset.mem_inter.mpr ⟨Finset.mem_univ _, Finset.mem_univ _⟩)).1).symm])
  iapply key
  isplitl [H1]; · iexact H1
  iexact H2

/-- The array whole, from the remainder and the thirty-two tokens back at some contents each. -/
theorem toks_rejoin (ℓ : Loc nD τ sig) (f : Buf (Elt F) ℓ) :
    iprop((ℓ ↦{Transfers.shareDrop fullShare 32} f) ∗ bigSep Finset.univ fun n : Fin 32 => iprop(∃ g, ℓ ↦{Transfers.shareTok fullShare 32 n} g))
      ⊢ (ℓ ↦{fullShare} f : sProp 𝕄) := by
  refine (bigSep_against Finset.univ _ _ (fun n : Fin 32 => (ℓ ↦{Transfers.shareTok fullShare 32 n} f : sProp 𝕄))
    (fun n => tok_agree ℓ _ _ f)).trans ?_
  exact (Transfers.pointsTo_toks (ℓ := ℓ) (S := Finset.univ) (f := f) fullShare 32).2

/-- The array whole is the remainder and thirty-two tokens. -/
theorem toks_deal (ℓ : Loc nD τ sig) (f : Buf (Elt F) ℓ) :
    (ℓ ↦{fullShare} f : sProp 𝕄)
      ⊢ iprop((ℓ ↦{Transfers.shareDrop fullShare 32} f) ∗ bigSep Finset.univ fun n : Fin 32 => ℓ ↦{Transfers.shareTok fullShare 32 n} f) :=
  (Transfers.pointsTo_toks (ℓ := ℓ) (S := Finset.univ) (f := f) fullShare 32).1

end Cert.Proof.KW

end
-- ==== Proof.WKDeal.lean ====
/-
  The two results of the first gather call, divided among the thirty-two vector subcores: tile `(c, s)` is worker
  `2 s + c` and owns rows `[3200 w, 3200 w + 3200)` of the gathered-rows array and rows `[64 w, 64 w + 64)` of the
  per-row array. The tiles' blocks are pairwise disjoint and cover each array, so the array held whole is the
  separating conjunction of the blocks held, and blocks held at any contents join to the array held at some contents.
-/
import proofs.«217981_g19061064860210_cont_8to1_1320_37_alg».proof.Proof.WScInv

noncomputable section

namespace Cert.Proof.KW

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "euW" => (Memref.whole Cert.Kernel.main_v18_0_scv : Memref Cert.Kernel.sig Kind.scVector Space.hbm Cert.Kernel.S102400x128 EltTy.f32)
local notation "uvW" => (Memref.whole Cert.Kernel.main_v18_1_scv : Memref Cert.Kernel.sig Kind.scVector Space.hbm Cert.Kernel.S2048x128 EltTy.f32)

/-- The coordinates of tile `(c, s)`: core `c` on the first axis, subcore `s` on the second. -/
def coordsV' (c : Fin (grid1.bound 0)) (s : Fin (grid1.bound 1)) : grid1.Coords :=
  fun | 0 => c | 1 => s | ⟨_ + 2, h⟩ => absurd h (Nat.not_lt.2 (Nat.le_add_left _ _))

/-! ## The gathered-rows array: 3200 rows a tile -/

/-- Under the whole view of the array an index set is itself. -/
theorem eu_setOn (M : Finset S102400x128.Idx) : (euW).view.setOn M = M := Finset.map_refl

/-- Two tiles that differ in a coordinate own disjoint blocks of rows: worker `2 s + c`'s block starts 3200 rows
    times its number. -/
theorem tileRect_disjoint (L L' : grid1.Coords) (h : (L 0).val ≠ (L' 0).val ∨ (L 1).val ≠ (L' 1).val) :
    Disjoint (tileRect L).set (tileRect L').set := by
  have h0 := L0_lt L; have h1 := L1_lt L; have h0' := L0_lt L'; have h1' := L1_lt L'
  refine Rect.unit_disjoint 0 ?_
  show 6400 * (L 1).val + 3200 * (L 0).val + 3200 ≤ 6400 * (L' 1).val + 3200 * (L' 0).val ∨ 6400 * (L' 1).val + 3200 * (L' 0).val + 3200 ≤ 6400 * (L 1).val + 3200 * (L 0).val
  omega

/-- The same, of the element sets under the array's whole view. -/
theorem eu_tileSets_disjoint (L L' : grid1.Coords) (h : (L 0, L 1) ≠ (L' 0, L' 1)) :
    Disjoint ((euW).view.setOn (tileRect L).set) ((euW).view.setOn (tileRect L').set) := by
  rw [eu_setOn, eu_setOn]
  refine tileRect_disjoint L L' ?_
  by_contra hc
  rw [not_or, not_not, not_not] at hc
  exact h (Prod.ext (Fin.ext hc.1) (Fin.ext hc.2))

/-- The thirty-two tiles' blocks cover the array: row `r` lies in worker `r / 3200`'s. -/
theorem tileRect_cover :
    (Finset.univ : Finset (Fin 2 × Fin 16)).biUnion (fun ci => (tileRect (coordsV' ci.1 ci.2)).set)
      = (Finset.univ : Finset S102400x128.Idx) := by
  ext i
  simp only [Finset.mem_biUnion, Finset.mem_univ, true_and, iff_true]
  have hi0 : (i 0 : ℕ) < 102400 := (i 0).isLt
  have hi1 : (i 1 : ℕ) < 128 := (i 1).isLt
  refine ⟨(⟨(i 0 : ℕ) / 3200 % 2, Nat.mod_lt _ (by decide)⟩, ⟨(i 0 : ℕ) / 3200 / 2, by omega⟩),
    Rect.mem_set_unit.mpr fun a => ?_⟩
  fin_cases a
  · show 6400 * ((i 0 : ℕ) / 3200 / 2) + 3200 * ((i 0 : ℕ) / 3200 % 2) ≤ (i 0 : ℕ)
      ∧ (i 0 : ℕ) < 6400 * ((i 0 : ℕ) / 3200 / 2) + 3200 * ((i 0 : ℕ) / 3200 % 2) + 3200
    omega
  · show 0 ≤ (i 1 : ℕ) ∧ (i 1 : ℕ) < 0 + 128
    omega

theorem eu_disjoint : ∀ ci ∈ (Finset.univ : Finset (Fin 2 × Fin 16)), ∀ cj ∈ (Finset.univ : Finset (Fin 2 × Fin 16)), ci ≠ cj →
    Disjoint ((fun ci : Fin 2 × Fin 16 => (euW).view.setOn (tileRect (coordsV' ci.1 ci.2)).set) ci) ((fun ci : Fin 2 × Fin 16 => (euW).view.setOn (tileRect (coordsV' ci.1 ci.2)).set) cj) := by
  intro ci _ cj _ h
  refine eu_tileSets_disjoint _ _ fun e => h ?_
  exact Prod.ext (congrArg Prod.fst e) (congrArg Prod.snd e)

theorem eu_cover : (Finset.univ : Finset (Fin 2 × Fin 16)).biUnion (fun ci : Fin 2 × Fin 16 => (euW).view.setOn (tileRect (coordsV' ci.1 ci.2)).set) = Finset.univ :=
  (Finset.biUnion_congr rfl fun ci _ => eu_setOn _).trans tileRect_cover

/-- The whole array held at `f` is the thirty-two tiles' blocks, each held at `f`. -/
theorem eu_deal (d : Dev nD) (f : Buf (Elt F) ((SparseCore.T (τ := τ) d).loc main_v18_0)) :
    ((SparseCore.T (τ := τ) d).loc main_v18_0 ↦{fullShare} f : sProp 𝕄)
      = bigSep Finset.univ fun ci : Fin 2 × Fin 16 =>
          (SparseCore.T (τ := τ) d).loc main_v18_0 ↦[(euW).view.setOn (tileRect (coordsV' ci.1 ci.2)).set]{fullShare} f := by
  rw [← pointsTo_biUnion Finset.univ (ℓ := (SparseCore.T (τ := τ) d).loc main_v18_0) (fun ci : Fin 2 × Fin 16 => (euW).view.setOn (tileRect (coordsV' ci.1 ci.2)).set) eu_disjoint, eu_cover]; try rfl

/-! ## The per-row array: 64 rows a tile -/

/-- Under the whole view of the array an index set is itself. -/
theorem uv_setOn (M : Finset S2048x128.Idx) : (uvW).view.setOn M = M := Finset.map_refl

/-- Two tiles that differ in a coordinate own disjoint blocks of rows: worker `2 s + c`'s block starts 64 rows
    times its number. -/
theorem uvRect_disjoint (L L' : grid1.Coords) (h : (L 0).val ≠ (L' 0).val ∨ (L 1).val ≠ (L' 1).val) :
    Disjoint (uvRect L).set (uvRect L').set := by
  have h0 := L0_lt L; have h1 := L1_lt L; have h0' := L0_lt L'; have h1' := L1_lt L'
  refine Rect.unit_disjoint 0 ?_
  show 128 * (L 1).val + 64 * (L 0).val + 64 ≤ 128 * (L' 1).val + 64 * (L' 0).val ∨ 128 * (L' 1).val + 64 * (L' 0).val + 64 ≤ 128 * (L 1).val + 64 * (L 0).val
  omega

/-- The same, of the element sets under the array's whole view. -/
theorem uv_tileSets_disjoint (L L' : grid1.Coords) (h : (L 0, L 1) ≠ (L' 0, L' 1)) :
    Disjoint ((uvW).view.setOn (uvRect L).set) ((uvW).view.setOn (uvRect L').set) := by
  rw [uv_setOn, uv_setOn]
  refine uvRect_disjoint L L' ?_
  by_contra hc
  rw [not_or, not_not, not_not] at hc
  exact h (Prod.ext (Fin.ext hc.1) (Fin.ext hc.2))

/-- The thirty-two tiles' blocks cover the array: row `r` lies in worker `r / 64`'s. -/
theorem uvRect_cover :
    (Finset.univ : Finset (Fin 2 × Fin 16)).biUnion (fun ci => (uvRect (coordsV' ci.1 ci.2)).set)
      = (Finset.univ : Finset S2048x128.Idx) := by
  ext i
  simp only [Finset.mem_biUnion, Finset.mem_univ, true_and, iff_true]
  have hi0 : (i 0 : ℕ) < 2048 := (i 0).isLt
  have hi1 : (i 1 : ℕ) < 128 := (i 1).isLt
  refine ⟨(⟨(i 0 : ℕ) / 64 % 2, Nat.mod_lt _ (by decide)⟩, ⟨(i 0 : ℕ) / 64 / 2, by omega⟩),
    Rect.mem_set_unit.mpr fun a => ?_⟩
  fin_cases a
  · show 128 * ((i 0 : ℕ) / 64 / 2) + 64 * ((i 0 : ℕ) / 64 % 2) ≤ (i 0 : ℕ)
      ∧ (i 0 : ℕ) < 128 * ((i 0 : ℕ) / 64 / 2) + 64 * ((i 0 : ℕ) / 64 % 2) + 64
    omega
  · show 0 ≤ (i 1 : ℕ) ∧ (i 1 : ℕ) < 0 + 128
    omega

theorem uv_disjoint : ∀ ci ∈ (Finset.univ : Finset (Fin 2 × Fin 16)), ∀ cj ∈ (Finset.univ : Finset (Fin 2 × Fin 16)), ci ≠ cj →
    Disjoint ((fun ci : Fin 2 × Fin 16 => (uvW).view.setOn (uvRect (coordsV' ci.1 ci.2)).set) ci) ((fun ci : Fin 2 × Fin 16 => (uvW).view.setOn (uvRect (coordsV' ci.1 ci.2)).set) cj) := by
  intro ci _ cj _ h
  refine uv_tileSets_disjoint _ _ fun e => h ?_
  exact Prod.ext (congrArg Prod.fst e) (congrArg Prod.snd e)

theorem uv_cover : (Finset.univ : Finset (Fin 2 × Fin 16)).biUnion (fun ci : Fin 2 × Fin 16 => (uvW).view.setOn (uvRect (coordsV' ci.1 ci.2)).set) = Finset.univ :=
  (Finset.biUnion_congr rfl fun ci _ => uv_setOn _).trans uvRect_cover

/-- The whole array held at `f` is the thirty-two tiles' blocks, each held at `f`. -/
theorem uv_deal (d : Dev nD) (f : Buf (Elt F) ((SparseCore.T (τ := τ) d).loc main_v18_1)) :
    ((SparseCore.T (τ := τ) d).loc main_v18_1 ↦{fullShare} f : sProp 𝕄)
      = bigSep Finset.univ fun ci : Fin 2 × Fin 16 =>
          (SparseCore.T (τ := τ) d).loc main_v18_1 ↦[(uvW).view.setOn (uvRect (coordsV' ci.1 ci.2)).set]{fullShare} f := by
  rw [← pointsTo_biUnion Finset.univ (ℓ := (SparseCore.T (τ := τ) d).loc main_v18_1) (fun ci : Fin 2 × Fin 16 => (uvW).view.setOn (uvRect (coordsV' ci.1 ci.2)).set) uv_disjoint, uv_cover]; try rfl

variable [FloatOps F]

/-- The thirty-two blocks, each held at some contents, are the whole array held at some contents. -/
theorem eu_join (d : Dev nD) :
    (bigSep Finset.univ fun ci : Fin 2 × Fin 16 =>
        iprop(∃ f, (SparseCore.T (τ := τ) d).loc main_v18_0 ↦[(euW).view.setOn (tileRect (coordsV' ci.1 ci.2)).set]{fullShare} f))
      ⊢ (iprop(∃ f, (SparseCore.T (τ := τ) d).loc main_v18_0 ↦{fullShare} f) : sProp 𝕄) := by
  refine (bigSep_exists_pi Finset.univ (fun (ci : Fin 2 × Fin 16) (f : Buf (Elt F) ((SparseCore.T (τ := τ) d).loc main_v18_0)) =>
    ((SparseCore.T (τ := τ) d).loc main_v18_0 ↦[(euW).view.setOn (tileRect (coordsV' ci.1 ci.2)).set]{fullShare} f : sProp 𝕄))).trans ?_
  iintro ⟨%fs, H⟩
  ihave H' := (pointsTo_biUnion_join Finset.univ (fun ci : Fin 2 × Fin 16 => (euW).view.setOn (tileRect (coordsV' ci.1 ci.2)).set) fs (fs (0, 0)) eu_disjoint) $$ H
  icases H' with ⟨%g, -, Hg⟩
  rw [eu_cover]
  iexists g; iexact Hg

/-- The thirty-two blocks, each held at some contents, are the whole array held at some contents. -/
theorem uv_join (d : Dev nD) :
    (bigSep Finset.univ fun ci : Fin 2 × Fin 16 =>
        iprop(∃ f, (SparseCore.T (τ := τ) d).loc main_v18_1 ↦[(uvW).view.setOn (uvRect (coordsV' ci.1 ci.2)).set]{fullShare} f))
      ⊢ (iprop(∃ f, (SparseCore.T (τ := τ) d).loc main_v18_1 ↦{fullShare} f) : sProp 𝕄) := by
  refine (bigSep_exists_pi Finset.univ (fun (ci : Fin 2 × Fin 16) (f : Buf (Elt F) ((SparseCore.T (τ := τ) d).loc main_v18_1)) =>
    ((SparseCore.T (τ := τ) d).loc main_v18_1 ↦[(uvW).view.setOn (uvRect (coordsV' ci.1 ci.2)).set]{fullShare} f : sProp 𝕄))).trans ?_
  iintro ⟨%fs, H⟩
  ihave H' := (pointsTo_biUnion_join Finset.univ (fun ci : Fin 2 × Fin 16 => (uvW).view.setOn (uvRect (coordsV' ci.1 ci.2)).set) fs (fs (0, 0)) uv_disjoint) $$ H
  icases H' with ⟨%g, -, Hg⟩
  rw [uv_cover]
  iexists g; iexact Hg

/-- A separating conjunction over the tiles is one over the cores of one over each core's subcores. -/
theorem bigSep_tiles (Φ : Fin 2 × Fin 16 → sProp 𝕄) :
    bigSep Finset.univ Φ = bigSep Finset.univ fun c : Fin 2 => bigSep Finset.univ fun i : Fin 16 => Φ (c, i) :=
  bigSep_univ_prod Φ

end Cert.Proof.KW

end
-- ==== Proof.WKDeal3.lean ====
/-
  The two results of the second gather call, divided among the thirty-two vector subcores: tile `(c, s)` is worker
  `2 s + c` and owns rows `[3200 w, 3200 w + 3200)` of the gathered-rows array and rows `[64 w, 64 w + 64)` of the
  per-row array. The tiles' blocks are pairwise disjoint and cover each array, so the array held whole is the
  separating conjunction of the blocks held, and blocks held at any contents join to the array held at some contents.
-/
import proofs.«217981_g19061064860210_cont_8to1_1320_37_alg».proof.Proof.WSc3Inv

noncomputable section

namespace Cert.Proof.KW3

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "euW" => (Memref.whole Cert.Kernel.main_v44_0_scv : Memref Cert.Kernel.sig Kind.scVector Space.hbm Cert.Kernel.S102400x128 EltTy.f32)
local notation "uvW" => (Memref.whole Cert.Kernel.main_v44_1_scv : Memref Cert.Kernel.sig Kind.scVector Space.hbm Cert.Kernel.S2048x128 EltTy.f32)

/-- The coordinates of tile `(c, s)`: core `c` on the first axis, subcore `s` on the second. -/
def coordsV' (c : Fin (grid3.bound 0)) (s : Fin (grid3.bound 1)) : grid3.Coords :=
  fun | 0 => c | 1 => s | ⟨_ + 2, h⟩ => absurd h (Nat.not_lt.2 (Nat.le_add_left _ _))

/-! ## The gathered-rows array: 3200 rows a tile -/

/-- Under the whole view of the array an index set is itself. -/
theorem eu_setOn (M : Finset S102400x128.Idx) : (euW).view.setOn M = M := Finset.map_refl

/-- Two tiles that differ in a coordinate own disjoint blocks of rows: worker `2 s + c`'s block starts 3200 rows
    times its number. -/
theorem tileRect_disjoint (L L' : grid3.Coords) (h : (L 0).val ≠ (L' 0).val ∨ (L 1).val ≠ (L' 1).val) :
    Disjoint (tileRect L).set (tileRect L').set := by
  have h0 := L0_lt L; have h1 := L1_lt L; have h0' := L0_lt L'; have h1' := L1_lt L'
  refine Rect.unit_disjoint 0 ?_
  show 6400 * (L 1).val + 3200 * (L 0).val + 3200 ≤ 6400 * (L' 1).val + 3200 * (L' 0).val ∨ 6400 * (L' 1).val + 3200 * (L' 0).val + 3200 ≤ 6400 * (L 1).val + 3200 * (L 0).val
  omega

/-- The same, of the element sets under the array's whole view. -/
theorem eu_tileSets_disjoint (L L' : grid3.Coords) (h : (L 0, L 1) ≠ (L' 0, L' 1)) :
    Disjoint ((euW).view.setOn (tileRect L).set) ((euW).view.setOn (tileRect L').set) := by
  rw [eu_setOn, eu_setOn]
  refine tileRect_disjoint L L' ?_
  by_contra hc
  rw [not_or, not_not, not_not] at hc
  exact h (Prod.ext (Fin.ext hc.1) (Fin.ext hc.2))

/-- The thirty-two tiles' blocks cover the array: row `r` lies in worker `r / 3200`'s. -/
theorem tileRect_cover :
    (Finset.univ : Finset (Fin 2 × Fin 16)).biUnion (fun ci => (tileRect (coordsV' ci.1 ci.2)).set)
      = (Finset.univ : Finset S102400x128.Idx) := by
  ext i
  simp only [Finset.mem_biUnion, Finset.mem_univ, true_and, iff_true]
  have hi0 : (i 0 : ℕ) < 102400 := (i 0).isLt
  have hi1 : (i 1 : ℕ) < 128 := (i 1).isLt
  refine ⟨(⟨(i 0 : ℕ) / 3200 % 2, Nat.mod_lt _ (by decide)⟩, ⟨(i 0 : ℕ) / 3200 / 2, by omega⟩),
    Rect.mem_set_unit.mpr fun a => ?_⟩
  fin_cases a
  · show 6400 * ((i 0 : ℕ) / 3200 / 2) + 3200 * ((i 0 : ℕ) / 3200 % 2) ≤ (i 0 : ℕ)
      ∧ (i 0 : ℕ) < 6400 * ((i 0 : ℕ) / 3200 / 2) + 3200 * ((i 0 : ℕ) / 3200 % 2) + 3200
    omega
  · show 0 ≤ (i 1 : ℕ) ∧ (i 1 : ℕ) < 0 + 128
    omega

theorem eu_disjoint : ∀ ci ∈ (Finset.univ : Finset (Fin 2 × Fin 16)), ∀ cj ∈ (Finset.univ : Finset (Fin 2 × Fin 16)), ci ≠ cj →
    Disjoint ((fun ci : Fin 2 × Fin 16 => (euW).view.setOn (tileRect (coordsV' ci.1 ci.2)).set) ci) ((fun ci : Fin 2 × Fin 16 => (euW).view.setOn (tileRect (coordsV' ci.1 ci.2)).set) cj) := by
  intro ci _ cj _ h
  refine eu_tileSets_disjoint _ _ fun e => h ?_
  exact Prod.ext (congrArg Prod.fst e) (congrArg Prod.snd e)

theorem eu_cover : (Finset.univ : Finset (Fin 2 × Fin 16)).biUnion (fun ci : Fin 2 × Fin 16 => (euW).view.setOn (tileRect (coordsV' ci.1 ci.2)).set) = Finset.univ :=
  (Finset.biUnion_congr rfl fun ci _ => eu_setOn _).trans tileRect_cover

/-- The whole array held at `f` is the thirty-two tiles' blocks, each held at `f`. -/
theorem eu_deal (d : Dev nD) (f : Buf (Elt F) ((SparseCore.T (τ := τ) d).loc main_v44_0)) :
    ((SparseCore.T (τ := τ) d).loc main_v44_0 ↦{fullShare} f : sProp 𝕄)
      = bigSep Finset.univ fun ci : Fin 2 × Fin 16 =>
          (SparseCore.T (τ := τ) d).loc main_v44_0 ↦[(euW).view.setOn (tileRect (coordsV' ci.1 ci.2)).set]{fullShare} f := by
  rw [← pointsTo_biUnion Finset.univ (ℓ := (SparseCore.T (τ := τ) d).loc main_v44_0) (fun ci : Fin 2 × Fin 16 => (euW).view.setOn (tileRect (coordsV' ci.1 ci.2)).set) eu_disjoint, eu_cover]; try rfl

/-! ## The per-row array: 64 rows a tile -/

/-- Under the whole view of the array an index set is itself. -/
theorem uv_setOn (M : Finset S2048x128.Idx) : (uvW).view.setOn M = M := Finset.map_refl

/-- Two tiles that differ in a coordinate own disjoint blocks of rows: worker `2 s + c`'s block starts 64 rows
    times its number. -/
theorem uvRect_disjoint (L L' : grid3.Coords) (h : (L 0).val ≠ (L' 0).val ∨ (L 1).val ≠ (L' 1).val) :
    Disjoint (uvRect L).set (uvRect L').set := by
  have h0 := L0_lt L; have h1 := L1_lt L; have h0' := L0_lt L'; have h1' := L1_lt L'
  refine Rect.unit_disjoint 0 ?_
  show 128 * (L 1).val + 64 * (L 0).val + 64 ≤ 128 * (L' 1).val + 64 * (L' 0).val ∨ 128 * (L' 1).val + 64 * (L' 0).val + 64 ≤ 128 * (L 1).val + 64 * (L 0).val
  omega

/-- The same, of the element sets under the array's whole view. -/
theorem uv_tileSets_disjoint (L L' : grid3.Coords) (h : (L 0, L 1) ≠ (L' 0, L' 1)) :
    Disjoint ((uvW).view.setOn (uvRect L).set) ((uvW).view.setOn (uvRect L').set) := by
  rw [uv_setOn, uv_setOn]
  refine uvRect_disjoint L L' ?_
  by_contra hc
  rw [not_or, not_not, not_not] at hc
  exact h (Prod.ext (Fin.ext hc.1) (Fin.ext hc.2))

/-- The thirty-two tiles' blocks cover the array: row `r` lies in worker `r / 64`'s. -/
theorem uvRect_cover :
    (Finset.univ : Finset (Fin 2 × Fin 16)).biUnion (fun ci => (uvRect (coordsV' ci.1 ci.2)).set)
      = (Finset.univ : Finset S2048x128.Idx) := by
  ext i
  simp only [Finset.mem_biUnion, Finset.mem_univ, true_and, iff_true]
  have hi0 : (i 0 : ℕ) < 2048 := (i 0).isLt
  have hi1 : (i 1 : ℕ) < 128 := (i 1).isLt
  refine ⟨(⟨(i 0 : ℕ) / 64 % 2, Nat.mod_lt _ (by decide)⟩, ⟨(i 0 : ℕ) / 64 / 2, by omega⟩),
    Rect.mem_set_unit.mpr fun a => ?_⟩
  fin_cases a
  · show 128 * ((i 0 : ℕ) / 64 / 2) + 64 * ((i 0 : ℕ) / 64 % 2) ≤ (i 0 : ℕ)
      ∧ (i 0 : ℕ) < 128 * ((i 0 : ℕ) / 64 / 2) + 64 * ((i 0 : ℕ) / 64 % 2) + 64
    omega
  · show 0 ≤ (i 1 : ℕ) ∧ (i 1 : ℕ) < 0 + 128
    omega

theorem uv_disjoint : ∀ ci ∈ (Finset.univ : Finset (Fin 2 × Fin 16)), ∀ cj ∈ (Finset.univ : Finset (Fin 2 × Fin 16)), ci ≠ cj →
    Disjoint ((fun ci : Fin 2 × Fin 16 => (uvW).view.setOn (uvRect (coordsV' ci.1 ci.2)).set) ci) ((fun ci : Fin 2 × Fin 16 => (uvW).view.setOn (uvRect (coordsV' ci.1 ci.2)).set) cj) := by
  intro ci _ cj _ h
  refine uv_tileSets_disjoint _ _ fun e => h ?_
  exact Prod.ext (congrArg Prod.fst e) (congrArg Prod.snd e)

theorem uv_cover : (Finset.univ : Finset (Fin 2 × Fin 16)).biUnion (fun ci : Fin 2 × Fin 16 => (uvW).view.setOn (uvRect (coordsV' ci.1 ci.2)).set) = Finset.univ :=
  (Finset.biUnion_congr rfl fun ci _ => uv_setOn _).trans uvRect_cover

/-- The whole array held at `f` is the thirty-two tiles' blocks, each held at `f`. -/
theorem uv_deal (d : Dev nD) (f : Buf (Elt F) ((SparseCore.T (τ := τ) d).loc main_v44_1)) :
    ((SparseCore.T (τ := τ) d).loc main_v44_1 ↦{fullShare} f : sProp 𝕄)
      = bigSep Finset.univ fun ci : Fin 2 × Fin 16 =>
          (SparseCore.T (τ := τ) d).loc main_v44_1 ↦[(uvW).view.setOn (uvRect (coordsV' ci.1 ci.2)).set]{fullShare} f := by
  rw [← pointsTo_biUnion Finset.univ (ℓ := (SparseCore.T (τ := τ) d).loc main_v44_1) (fun ci : Fin 2 × Fin 16 => (uvW).view.setOn (uvRect (coordsV' ci.1 ci.2)).set) uv_disjoint, uv_cover]; try rfl

variable [FloatOps F]

/-- The thirty-two blocks, each held at some contents, are the whole array held at some contents. -/
theorem eu_join (d : Dev nD) :
    (bigSep Finset.univ fun ci : Fin 2 × Fin 16 =>
        iprop(∃ f, (SparseCore.T (τ := τ) d).loc main_v44_0 ↦[(euW).view.setOn (tileRect (coordsV' ci.1 ci.2)).set]{fullShare} f))
      ⊢ (iprop(∃ f, (SparseCore.T (τ := τ) d).loc main_v44_0 ↦{fullShare} f) : sProp 𝕄) := by
  refine (bigSep_exists_pi Finset.univ (fun (ci : Fin 2 × Fin 16) (f : Buf (Elt F) ((SparseCore.T (τ := τ) d).loc main_v44_0)) =>
    ((SparseCore.T (τ := τ) d).loc main_v44_0 ↦[(euW).view.setOn (tileRect (coordsV' ci.1 ci.2)).set]{fullShare} f : sProp 𝕄))).trans ?_
  iintro ⟨%fs, H⟩
  ihave H' := (pointsTo_biUnion_join Finset.univ (fun ci : Fin 2 × Fin 16 => (euW).view.setOn (tileRect (coordsV' ci.1 ci.2)).set) fs (fs (0, 0)) eu_disjoint) $$ H
  icases H' with ⟨%g, -, Hg⟩
  rw [eu_cover]
  iexists g; iexact Hg

/-- The thirty-two blocks, each held at some contents, are the whole array held at some contents. -/
theorem uv_join (d : Dev nD) :
    (bigSep Finset.univ fun ci : Fin 2 × Fin 16 =>
        iprop(∃ f, (SparseCore.T (τ := τ) d).loc main_v44_1 ↦[(uvW).view.setOn (uvRect (coordsV' ci.1 ci.2)).set]{fullShare} f))
      ⊢ (iprop(∃ f, (SparseCore.T (τ := τ) d).loc main_v44_1 ↦{fullShare} f) : sProp 𝕄) := by
  refine (bigSep_exists_pi Finset.univ (fun (ci : Fin 2 × Fin 16) (f : Buf (Elt F) ((SparseCore.T (τ := τ) d).loc main_v44_1)) =>
    ((SparseCore.T (τ := τ) d).loc main_v44_1 ↦[(uvW).view.setOn (uvRect (coordsV' ci.1 ci.2)).set]{fullShare} f : sProp 𝕄))).trans ?_
  iintro ⟨%fs, H⟩
  ihave H' := (pointsTo_biUnion_join Finset.univ (fun ci : Fin 2 × Fin 16 => (uvW).view.setOn (uvRect (coordsV' ci.1 ci.2)).set) fs (fs (0, 0)) uv_disjoint) $$ H
  icases H' with ⟨%g, -, Hg⟩
  rw [uv_cover]
  iexists g; iexact Hg

/-- A separating conjunction over the tiles is one over the cores of one over each core's subcores. -/
theorem bigSep_tiles (Φ : Fin 2 × Fin 16 → sProp 𝕄) :
    bigSep Finset.univ Φ = bigSep Finset.univ fun c : Fin 2 => bigSep Finset.univ fun i : Fin 16 => Φ (c, i) :=
  bigSep_univ_prod Φ

end Cert.Proof.KW3

end
-- ==== Proof.WScGive.lean ====
/-
  What the TensorCore hands the two SparseCores at a gather call, and what it takes back. Before a call it holds the
  table, the two index lists and the two result arrays whole. Each of the thirty-two tiles is handed a read token of the
  table and of each index list (the lists' entries all rows of the table) and its own rows of the two results; the
  TensorCore keeps the remainder of the three shares. After the call the tokens come back at whatever contents their
  holders assert, which agree with the remainder's, and the tiles' rows come back at some contents; the three read
  arrays are whole again at their contents and the two results whole at some contents.
-/
import proofs.«217981_g19061064860210_cont_8to1_1320_37_alg».proof.Proof.WScPay
import proofs.«217981_g19061064860210_cont_8to1_1320_37_alg».proof.Proof.WScDeal
import proofs.«217981_g19061064860210_cont_8to1_1320_37_alg».proof.Proof.WKDeal
import proofs.«217981_g19061064860210_cont_8to1_1320_37_alg».proof.Proof.WKDeal3

noncomputable section

namespace Cert.Proof.KW

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-- A separating conjunction over the thirty-two workers is one over the tiles, worker `16 c + i` being tile `(c, i)`. -/
theorem bigSep_workers (Ψ : ℕ → sProp 𝕄) :
    (bigSep Finset.univ fun n : Fin 32 => Ψ n.val)
      = bigSep Finset.univ fun ci : Fin 2 × Fin 16 => Ψ (16 * ci.1.val + ci.2.val) := by
  rw [bigSep_univ_equiv (finProdFinEquiv : Fin 2 × Fin 16 ≃ Fin 32) fun n : Fin 32 => Ψ n.val]
  refine bigSep_congr fun ci _ => ?_
  rw [finProdFinEquiv_apply_val, Nat.add_comm]

/-- The array whole is the remainder and a read token per tile. -/
theorem toks_deal_tiles (ℓ : Loc nD τ sig) (f : Buf (Elt F) ℓ) :
    (ℓ ↦{fullShare} f : sProp 𝕄)
      ⊢ iprop((ℓ ↦{Transfers.shareDrop fullShare 32} f)
          ∗ bigSep Finset.univ fun ci : Fin 2 × Fin 16 => ℓ ↦{qTile ci.1.val ci.2.val} f) :=
  (toks_deal ℓ f).trans (sep_mono (.refl _)
    (Entails.of_eq (bigSep_workers fun n => (ℓ ↦{Transfers.shareTokN fullShare n} f : sProp 𝕄))))

/-- The array whole, from the remainder and the tiles' tokens back at some contents each. -/
theorem toks_rejoin_tiles (ℓ : Loc nD τ sig) (f : Buf (Elt F) ℓ) :
    iprop((ℓ ↦{Transfers.shareDrop fullShare 32} f)
        ∗ bigSep Finset.univ fun ci : Fin 2 × Fin 16 => iprop(∃ g, ℓ ↦{qTile ci.1.val ci.2.val} g))
      ⊢ (ℓ ↦{fullShare} f : sProp 𝕄) :=
  (sep_mono (.refl _)
    (Entails.of_eq (bigSep_workers fun n => (iprop(∃ g, ℓ ↦{Transfers.shareTokN fullShare n} g) : sProp 𝕄)).symm)).trans
    (toks_rejoin ℓ f)

variable [FloatOps F]

/-! ## The first call -/

/-- One tile's hand: from its three tokens and its rows of the two results. -/
theorem tile_give0 (d : Dev nD) (fct : Buf (Elt F) ((SparseCore.T (τ := τ) d).loc main_v9)) (fvi : Buf (Elt F) ((SparseCore.T (τ := τ) d).loc main_v13)) (fni : Buf (Elt F) ((SparseCore.T (τ := τ) d).loc main_v14))
    (feu : Buf (Elt F) ((SparseCore.T (τ := τ) d).loc main_v18_0)) (fuv : Buf (Elt F) ((SparseCore.T (τ := τ) d).loc main_v18_1))
    (hvi : ∀ j, (fvi j).toNat < 100000) (hni : ∀ j, (fni j).toNat < 100000) (c : Fin 2) (i : Fin 16) :
    iprop(((SparseCore.T (τ := τ) d).loc main_v9 ↦{qTile c.val i.val} fct) ∗ ((SparseCore.T (τ := τ) d).loc main_v13 ↦{qTile c.val i.val} fvi) ∗ ((SparseCore.T (τ := τ) d).loc main_v14 ↦{qTile c.val i.val} fni)
        ∗ ((SparseCore.T (τ := τ) d).loc main_v18_0 ↦[((Memref.whole Cert.Kernel.main_v18_0_scv : Memref Cert.Kernel.sig Kind.scVector Space.hbm Cert.Kernel.S102400x128 EltTy.f32)).view.setOn (tileRect (coordsV' c i)).set]{fullShare} feu)
        ∗ ((SparseCore.T (τ := τ) d).loc main_v18_1 ↦[((Memref.whole Cert.Kernel.main_v18_1_scv : Memref Cert.Kernel.sig Kind.scVector Space.hbm Cert.Kernel.S2048x128 EltTy.f32)).view.setOn (uvRect (coordsV' c i)).set]{fullShare} fuv))
      ⊢ (tileRes (F := F) 0 d c i : sProp 𝕄) := by
  rw [tileRes_zero]
  unfold goRes ctPts viPts niPts euPts uvPts
  iintro ⟨H9, H13, H14, He, Hu⟩
  iexists fct; iexists fvi; iexists fni
  isplitr
  · ipureintro; exact hvi
  isplitr
  · ipureintro; exact hni
  isplitl [H9]; · iexact H9
  isplitl [H13]; · iexact H13
  isplitl [H14]; · iexact H14
  isplitl [He]
  · iexists feu; iexact He
  iexists fuv; iexact Hu

/-- One tile's return: its three tokens at some contents each and its rows of the two results at some contents. -/
theorem tile_take0 (d : Dev nD) (c : Fin 2) (i : Fin 16) :
    (tileRes (F := F) 0 d c i : sProp 𝕄)
      ⊢ iprop((∃ g, (SparseCore.T (τ := τ) d).loc main_v9 ↦{qTile c.val i.val} g) ∗ (∃ g, (SparseCore.T (τ := τ) d).loc main_v13 ↦{qTile c.val i.val} g) ∗ (∃ g, (SparseCore.T (τ := τ) d).loc main_v14 ↦{qTile c.val i.val} g)
          ∗ (∃ f, (SparseCore.T (τ := τ) d).loc main_v18_0 ↦[((Memref.whole Cert.Kernel.main_v18_0_scv : Memref Cert.Kernel.sig Kind.scVector Space.hbm Cert.Kernel.S102400x128 EltTy.f32)).view.setOn (tileRect (coordsV' c i)).set]{fullShare} f)
          ∗ (∃ f, (SparseCore.T (τ := τ) d).loc main_v18_1 ↦[((Memref.whole Cert.Kernel.main_v18_1_scv : Memref Cert.Kernel.sig Kind.scVector Space.hbm Cert.Kernel.S2048x128 EltTy.f32)).view.setOn (uvRect (coordsV' c i)).set]{fullShare} f)) := by
  rw [tileRes_zero]
  unfold goRes ctPts viPts niPts euPts uvPts
  iintro ⟨%fct, %fvi, %fni, -, -, H9, H13, H14, ⟨%feu, He⟩, ⟨%fuv, Hu⟩⟩
  isplitl [H9]
  · iexists fct; iexact H9
  isplitl [H13]
  · iexists fvi; iexact H13
  isplitl [H14]
  · iexists fni; iexact H14
  isplitl [He]
  · iexists feu; iexact He
  iexists fuv; iexact Hu

/-- Before the call: the five arrays whole give every tile its hand and leave the three remainders. -/
theorem st_give0 (d : Dev nD) (fct : Buf (Elt F) ((SparseCore.T (τ := τ) d).loc main_v9)) (fvi : Buf (Elt F) ((SparseCore.T (τ := τ) d).loc main_v13)) (fni : Buf (Elt F) ((SparseCore.T (τ := τ) d).loc main_v14))
    (feu : Buf (Elt F) ((SparseCore.T (τ := τ) d).loc main_v18_0)) (fuv : Buf (Elt F) ((SparseCore.T (τ := τ) d).loc main_v18_1))
    (hvi : ∀ j, (fvi j).toNat < 100000) (hni : ∀ j, (fni j).toNat < 100000) :
    iprop(((SparseCore.T (τ := τ) d).loc main_v9 ↦{fullShare} fct) ∗ ((SparseCore.T (τ := τ) d).loc main_v13 ↦{fullShare} fvi) ∗ ((SparseCore.T (τ := τ) d).loc main_v14 ↦{fullShare} fni)
        ∗ ((SparseCore.T (τ := τ) d).loc main_v18_0 ↦{fullShare} feu) ∗ ((SparseCore.T (τ := τ) d).loc main_v18_1 ↦{fullShare} fuv))
      ⊢ (iprop((bigSep Finset.univ fun c : Fin ((K (F := F)).nCore 0) => (P (F := F)).st 0 d c)
          ∗ ((SparseCore.T (τ := τ) d).loc main_v9 ↦{Transfers.shareDrop fullShare 32} fct) ∗ ((SparseCore.T (τ := τ) d).loc main_v13 ↦{Transfers.shareDrop fullShare 32} fvi) ∗ ((SparseCore.T (τ := τ) d).loc main_v14 ↦{Transfers.shareDrop fullShare 32} fni)) : sProp 𝕄) := by
  have merge : iprop((bigSep Finset.univ fun ci : Fin 2 × Fin 16 => (SparseCore.T (τ := τ) d).loc main_v9 ↦{qTile ci.1.val ci.2.val} fct)
        ∗ (bigSep Finset.univ fun ci : Fin 2 × Fin 16 => (SparseCore.T (τ := τ) d).loc main_v13 ↦{qTile ci.1.val ci.2.val} fvi)
        ∗ (bigSep Finset.univ fun ci : Fin 2 × Fin 16 => (SparseCore.T (τ := τ) d).loc main_v14 ↦{qTile ci.1.val ci.2.val} fni)
        ∗ (bigSep Finset.univ fun ci : Fin 2 × Fin 16 => (SparseCore.T (τ := τ) d).loc main_v18_0 ↦[((Memref.whole Cert.Kernel.main_v18_0_scv : Memref Cert.Kernel.sig Kind.scVector Space.hbm Cert.Kernel.S102400x128 EltTy.f32)).view.setOn (tileRect (coordsV' ci.1 ci.2)).set]{fullShare} feu)
        ∗ (bigSep Finset.univ fun ci : Fin 2 × Fin 16 => (SparseCore.T (τ := τ) d).loc main_v18_1 ↦[((Memref.whole Cert.Kernel.main_v18_1_scv : Memref Cert.Kernel.sig Kind.scVector Space.hbm Cert.Kernel.S2048x128 EltTy.f32)).view.setOn (uvRect (coordsV' ci.1 ci.2)).set]{fullShare} fuv))
      ⊢ (bigSep Finset.univ fun ci : Fin 2 × Fin 16 => tileRes (F := F) 0 d ci.1 ci.2 : sProp 𝕄) := by
    rw [← bigSep_sep', ← bigSep_sep', ← bigSep_sep', ← bigSep_sep']
    exact bigSep_mono fun ci _ => tile_give0 d fct fvi fni feu fuv hvi hni ci.1 ci.2
  have tiles : (bigSep Finset.univ fun ci : Fin 2 × Fin 16 => tileRes (F := F) 0 d ci.1 ci.2 : sProp 𝕄)
      = bigSep Finset.univ fun c : Fin ((K (F := F)).nCore 0) => (P (F := F)).st 0 d c :=
    bigSep_tiles (fun ci : Fin 2 × Fin 16 => tileRes (F := F) 0 d ci.1 ci.2)
  rw [← tiles, eu_deal d feu, uv_deal d fuv]
  iintro ⟨H9, H13, H14, He, Hu⟩
  ihave H9' := (toks_deal_tiles ((SparseCore.T (τ := τ) d).loc main_v9) fct) $$ H9
  icases H9' with ⟨H9d, H9t⟩
  ihave H13' := (toks_deal_tiles ((SparseCore.T (τ := τ) d).loc main_v13) fvi) $$ H13
  icases H13' with ⟨H13d, H13t⟩
  ihave H14' := (toks_deal_tiles ((SparseCore.T (τ := τ) d).loc main_v14) fni) $$ H14
  icases H14' with ⟨H14d, H14t⟩
  isplitl [H9t H13t H14t He Hu]
  · iapply merge
    isplitl [H9t]; · iexact H9t
    isplitl [H13t]; · iexact H13t
    isplitl [H14t]; · iexact H14t
    isplitl [He]; · iexact He
    iexact Hu
  isplitl [H9d]; · iexact H9d
  isplitl [H13d]; · iexact H13d
  iexact H14d

/-- After the call: the tiles' returns and the three remainders give the three read arrays whole at their contents and
    the two results whole at some contents. -/
theorem dn_take0 (d : Dev nD) (fct : Buf (Elt F) ((SparseCore.T (τ := τ) d).loc main_v9)) (fvi : Buf (Elt F) ((SparseCore.T (τ := τ) d).loc main_v13)) (fni : Buf (Elt F) ((SparseCore.T (τ := τ) d).loc main_v14)) :
    iprop((bigSep Finset.univ fun c : Fin ((K (F := F)).nCore 0) => (P (F := F)).dn 0 d c)
        ∗ ((SparseCore.T (τ := τ) d).loc main_v9 ↦{Transfers.shareDrop fullShare 32} fct) ∗ ((SparseCore.T (τ := τ) d).loc main_v13 ↦{Transfers.shareDrop fullShare 32} fvi) ∗ ((SparseCore.T (τ := τ) d).loc main_v14 ↦{Transfers.shareDrop fullShare 32} fni))
      ⊢ (iprop(((SparseCore.T (τ := τ) d).loc main_v9 ↦{fullShare} fct) ∗ ((SparseCore.T (τ := τ) d).loc main_v13 ↦{fullShare} fvi) ∗ ((SparseCore.T (τ := τ) d).loc main_v14 ↦{fullShare} fni)
          ∗ (∃ f, (SparseCore.T (τ := τ) d).loc main_v18_0 ↦{fullShare} f) ∗ (∃ f, (SparseCore.T (τ := τ) d).loc main_v18_1 ↦{fullShare} f)) : sProp 𝕄) := by
  have split : (bigSep Finset.univ fun ci : Fin 2 × Fin 16 => tileRes (F := F) 0 d ci.1 ci.2 : sProp 𝕄)
      ⊢ iprop((bigSep Finset.univ fun ci : Fin 2 × Fin 16 => iprop(∃ g, (SparseCore.T (τ := τ) d).loc main_v9 ↦{qTile ci.1.val ci.2.val} g))
        ∗ (bigSep Finset.univ fun ci : Fin 2 × Fin 16 => iprop(∃ g, (SparseCore.T (τ := τ) d).loc main_v13 ↦{qTile ci.1.val ci.2.val} g))
        ∗ (bigSep Finset.univ fun ci : Fin 2 × Fin 16 => iprop(∃ g, (SparseCore.T (τ := τ) d).loc main_v14 ↦{qTile ci.1.val ci.2.val} g))
        ∗ (bigSep Finset.univ fun ci : Fin 2 × Fin 16 => iprop(∃ f, (SparseCore.T (τ := τ) d).loc main_v18_0 ↦[((Memref.whole Cert.Kernel.main_v18_0_scv : Memref Cert.Kernel.sig Kind.scVector Space.hbm Cert.Kernel.S102400x128 EltTy.f32)).view.setOn (tileRect (coordsV' ci.1 ci.2)).set]{fullShare} f))
        ∗ (bigSep Finset.univ fun ci : Fin 2 × Fin 16 => iprop(∃ f, (SparseCore.T (τ := τ) d).loc main_v18_1 ↦[((Memref.whole Cert.Kernel.main_v18_1_scv : Memref Cert.Kernel.sig Kind.scVector Space.hbm Cert.Kernel.S2048x128 EltTy.f32)).view.setOn (uvRect (coordsV' ci.1 ci.2)).set]{fullShare} f))) := by
    rw [← bigSep_sep', ← bigSep_sep', ← bigSep_sep', ← bigSep_sep']
    exact bigSep_mono fun ci _ => tile_take0 d ci.1 ci.2
  have tiles : (bigSep Finset.univ fun ci : Fin 2 × Fin 16 => tileRes (F := F) 0 d ci.1 ci.2 : sProp 𝕄)
      = bigSep Finset.univ fun c : Fin ((K (F := F)).nCore 0) => (P (F := F)).dn 0 d c :=
    bigSep_tiles (fun ci : Fin 2 × Fin 16 => tileRes (F := F) 0 d ci.1 ci.2)
  rw [← tiles]
  iintro ⟨Ht, H9d, H13d, H14d⟩
  ihave Hs := split $$ Ht
  icases Hs with ⟨H9t, H13t, H14t, He, Hu⟩
  isplitl [H9d H9t]
  · iapply (toks_rejoin_tiles ((SparseCore.T (τ := τ) d).loc main_v9) fct)
    isplitl [H9d]; · iexact H9d
    iexact H9t
  isplitl [H13d H13t]
  · iapply (toks_rejoin_tiles ((SparseCore.T (τ := τ) d).loc main_v13) fvi)
    isplitl [H13d]; · iexact H13d
    iexact H13t
  isplitl [H14d H14t]
  · iapply (toks_rejoin_tiles ((SparseCore.T (τ := τ) d).loc main_v14) fni)
    isplitl [H14d]; · iexact H14d
    iexact H14t
  isplitl [He]
  · iapply (eu_join d); iexact He
  iapply (uv_join d); iexact Hu

/-! ## The second call -/

/-- One tile's hand: from its three tokens and its rows of the two results. -/
theorem tile_give1 (d : Dev nD) (fct : Buf (Elt F) ((SparseCore.T (τ := τ) d).loc main_v9)) (fvi : Buf (Elt F) ((SparseCore.T (τ := τ) d).loc main_v39)) (fni : Buf (Elt F) ((SparseCore.T (τ := τ) d).loc main_v40))
    (feu : Buf (Elt F) ((SparseCore.T (τ := τ) d).loc main_v44_0)) (fuv : Buf (Elt F) ((SparseCore.T (τ := τ) d).loc main_v44_1))
    (hvi : ∀ j, (fvi j).toNat < 100000) (hni : ∀ j, (fni j).toNat < 100000) (c : Fin 2) (i : Fin 16) :
    iprop(((SparseCore.T (τ := τ) d).loc main_v9 ↦{qTile c.val i.val} fct) ∗ ((SparseCore.T (τ := τ) d).loc main_v39 ↦{qTile c.val i.val} fvi) ∗ ((SparseCore.T (τ := τ) d).loc main_v40 ↦{qTile c.val i.val} fni)
        ∗ ((SparseCore.T (τ := τ) d).loc main_v44_0 ↦[((Memref.whole Cert.Kernel.main_v44_0_scv : Memref Cert.Kernel.sig Kind.scVector Space.hbm Cert.Kernel.S102400x128 EltTy.f32)).view.setOn (Cert.Proof.KW3.tileRect (Cert.Proof.KW3.coordsV' c i)).set]{fullShare} feu)
        ∗ ((SparseCore.T (τ := τ) d).loc main_v44_1 ↦[((Memref.whole Cert.Kernel.main_v44_1_scv : Memref Cert.Kernel.sig Kind.scVector Space.hbm Cert.Kernel.S2048x128 EltTy.f32)).view.setOn (Cert.Proof.KW3.uvRect (Cert.Proof.KW3.coordsV' c i)).set]{fullShare} fuv))
      ⊢ (tileRes (F := F) 1 d c i : sProp 𝕄) := by
  rw [tileRes_one]
  unfold Cert.Proof.KW3.goRes Cert.Proof.KW3.ctPts Cert.Proof.KW3.viPts Cert.Proof.KW3.niPts Cert.Proof.KW3.euPts Cert.Proof.KW3.uvPts
  iintro ⟨H9, H13, H14, He, Hu⟩
  iexists fct; iexists fvi; iexists fni
  isplitr
  · ipureintro; exact hvi
  isplitr
  · ipureintro; exact hni
  isplitl [H9]; · iexact H9
  isplitl [H13]; · iexact H13
  isplitl [H14]; · iexact H14
  isplitl [He]
  · iexists feu; iexact He
  iexists fuv; iexact Hu

/-- One tile's return: its three tokens at some contents each and its rows of the two results at some contents. -/
theorem tile_take1 (d : Dev nD) (c : Fin 2) (i : Fin 16) :
    (tileRes (F := F) 1 d c i : sProp 𝕄)
      ⊢ iprop((∃ g, (SparseCore.T (τ := τ) d).loc main_v9 ↦{qTile c.val i.val} g) ∗ (∃ g, (SparseCore.T (τ := τ) d).loc main_v39 ↦{qTile c.val i.val} g) ∗ (∃ g, (SparseCore.T (τ := τ) d).loc main_v40 ↦{qTile c.val i.val} g)
          ∗ (∃ f, (SparseCore.T (τ := τ) d).loc main_v44_0 ↦[((Memref.whole Cert.Kernel.main_v44_0_scv : Memref Cert.Kernel.sig Kind.scVector Space.hbm Cert.Kernel.S102400x128 EltTy.f32)).view.setOn (Cert.Proof.KW3.tileRect (Cert.Proof.KW3.coordsV' c i)).set]{fullShare} f)
          ∗ (∃ f, (SparseCore.T (τ := τ) d).loc main_v44_1 ↦[((Memref.whole Cert.Kernel.main_v44_1_scv : Memref Cert.Kernel.sig Kind.scVector Space.hbm Cert.Kernel.S2048x128 EltTy.f32)).view.setOn (Cert.Proof.KW3.uvRect (Cert.Proof.KW3.coordsV' c i)).set]{fullShare} f)) := by
  rw [tileRes_one]
  unfold Cert.Proof.KW3.goRes Cert.Proof.KW3.ctPts Cert.Proof.KW3.viPts Cert.Proof.KW3.niPts Cert.Proof.KW3.euPts Cert.Proof.KW3.uvPts
  iintro ⟨%fct, %fvi, %fni, -, -, H9, H13, H14, ⟨%feu, He⟩, ⟨%fuv, Hu⟩⟩
  isplitl [H9]
  · iexists fct; iexact H9
  isplitl [H13]
  · iexists fvi; iexact H13
  isplitl [H14]
  · iexists fni; iexact H14
  isplitl [He]
  · iexists feu; iexact He
  iexists fuv; iexact Hu

/-- Before the call: the five arrays whole give every tile its hand and leave the three remainders. -/
theorem st_give1 (d : Dev nD) (fct : Buf (Elt F) ((SparseCore.T (τ := τ) d).loc main_v9)) (fvi : Buf (Elt F) ((SparseCore.T (τ := τ) d).loc main_v39)) (fni : Buf (Elt F) ((SparseCore.T (τ := τ) d).loc main_v40))
    (feu : Buf (Elt F) ((SparseCore.T (τ := τ) d).loc main_v44_0)) (fuv : Buf (Elt F) ((SparseCore.T (τ := τ) d).loc main_v44_1))
    (hvi : ∀ j, (fvi j).toNat < 100000) (hni : ∀ j, (fni j).toNat < 100000) :
    iprop(((SparseCore.T (τ := τ) d).loc main_v9 ↦{fullShare} fct) ∗ ((SparseCore.T (τ := τ) d).loc main_v39 ↦{fullShare} fvi) ∗ ((SparseCore.T (τ := τ) d).loc main_v40 ↦{fullShare} fni)
        ∗ ((SparseCore.T (τ := τ) d).loc main_v44_0 ↦{fullShare} feu) ∗ ((SparseCore.T (τ := τ) d).loc main_v44_1 ↦{fullShare} fuv))
      ⊢ (iprop((bigSep Finset.univ fun c : Fin ((K (F := F)).nCore 1) => (P (F := F)).st 1 d c)
          ∗ ((SparseCore.T (τ := τ) d).loc main_v9 ↦{Transfers.shareDrop fullShare 32} fct) ∗ ((SparseCore.T (τ := τ) d).loc main_v39 ↦{Transfers.shareDrop fullShare 32} fvi) ∗ ((SparseCore.T (τ := τ) d).loc main_v40 ↦{Transfers.shareDrop fullShare 32} fni)) : sProp 𝕄) := by
  have merge : iprop((bigSep Finset.univ fun ci : Fin 2 × Fin 16 => (SparseCore.T (τ := τ) d).loc main_v9 ↦{qTile ci.1.val ci.2.val} fct)
        ∗ (bigSep Finset.univ fun ci : Fin 2 × Fin 16 => (SparseCore.T (τ := τ) d).loc main_v39 ↦{qTile ci.1.val ci.2.val} fvi)
        ∗ (bigSep Finset.univ fun ci : Fin 2 × Fin 16 => (SparseCore.T (τ := τ) d).loc main_v40 ↦{qTile ci.1.val ci.2.val} fni)
        ∗ (bigSep Finset.univ fun ci : Fin 2 × Fin 16 => (SparseCore.T (τ := τ) d).loc main_v44_0 ↦[((Memref.whole Cert.Kernel.main_v44_0_scv : Memref Cert.Kernel.sig Kind.scVector Space.hbm Cert.Kernel.S102400x128 EltTy.f32)).view.setOn (Cert.Proof.KW3.tileRect (Cert.Proof.KW3.coordsV' ci.1 ci.2)).set]{fullShare} feu)
        ∗ (bigSep Finset.univ fun ci : Fin 2 × Fin 16 => (SparseCore.T (τ := τ) d).loc main_v44_1 ↦[((Memref.whole Cert.Kernel.main_v44_1_scv : Memref Cert.Kernel.sig Kind.scVector Space.hbm Cert.Kernel.S2048x128 EltTy.f32)).view.setOn (Cert.Proof.KW3.uvRect (Cert.Proof.KW3.coordsV' ci.1 ci.2)).set]{fullShare} fuv))
      ⊢ (bigSep Finset.univ fun ci : Fin 2 × Fin 16 => tileRes (F := F) 1 d ci.1 ci.2 : sProp 𝕄) := by
    rw [← bigSep_sep', ← bigSep_sep', ← bigSep_sep', ← bigSep_sep']
    exact bigSep_mono fun ci _ => tile_give1 d fct fvi fni feu fuv hvi hni ci.1 ci.2
  have tiles : (bigSep Finset.univ fun ci : Fin 2 × Fin 16 => tileRes (F := F) 1 d ci.1 ci.2 : sProp 𝕄)
      = bigSep Finset.univ fun c : Fin ((K (F := F)).nCore 1) => (P (F := F)).st 1 d c :=
    Cert.Proof.KW3.bigSep_tiles (fun ci : Fin 2 × Fin 16 => tileRes (F := F) 1 d ci.1 ci.2)
  rw [← tiles, Cert.Proof.KW3.eu_deal d feu, Cert.Proof.KW3.uv_deal d fuv]
  iintro ⟨H9, H13, H14, He, Hu⟩
  ihave H9' := (toks_deal_tiles ((SparseCore.T (τ := τ) d).loc main_v9) fct) $$ H9
  icases H9' with ⟨H9d, H9t⟩
  ihave H13' := (toks_deal_tiles ((SparseCore.T (τ := τ) d).loc main_v39) fvi) $$ H13
  icases H13' with ⟨H13d, H13t⟩
  ihave H14' := (toks_deal_tiles ((SparseCore.T (τ := τ) d).loc main_v40) fni) $$ H14
  icases H14' with ⟨H14d, H14t⟩
  isplitl [H9t H13t H14t He Hu]
  · iapply merge
    isplitl [H9t]; · iexact H9t
    isplitl [H13t]; · iexact H13t
    isplitl [H14t]; · iexact H14t
    isplitl [He]; · iexact He
    iexact Hu
  isplitl [H9d]; · iexact H9d
  isplitl [H13d]; · iexact H13d
  iexact H14d

/-- After the call: the tiles' returns and the three remainders give the three read arrays whole at their contents and
    the two results whole at some contents. -/
theorem dn_take1 (d : Dev nD) (fct : Buf (Elt F) ((SparseCore.T (τ := τ) d).loc main_v9)) (fvi : Buf (Elt F) ((SparseCore.T (τ := τ) d).loc main_v39)) (fni : Buf (Elt F) ((SparseCore.T (τ := τ) d).loc main_v40)) :
    iprop((bigSep Finset.univ fun c : Fin ((K (F := F)).nCore 1) => (P (F := F)).dn 1 d c)
        ∗ ((SparseCore.T (τ := τ) d).loc main_v9 ↦{Transfers.shareDrop fullShare 32} fct) ∗ ((SparseCore.T (τ := τ) d).loc main_v39 ↦{Transfers.shareDrop fullShare 32} fvi) ∗ ((SparseCore.T (τ := τ) d).loc main_v40 ↦{Transfers.shareDrop fullShare 32} fni))
      ⊢ (iprop(((SparseCore.T (τ := τ) d).loc main_v9 ↦{fullShare} fct) ∗ ((SparseCore.T (τ := τ) d).loc main_v39 ↦{fullShare} fvi) ∗ ((SparseCore.T (τ := τ) d).loc main_v40 ↦{fullShare} fni)
          ∗ (∃ f, (SparseCore.T (τ := τ) d).loc main_v44_0 ↦{fullShare} f) ∗ (∃ f, (SparseCore.T (τ := τ) d).loc main_v44_1 ↦{fullShare} f)) : sProp 𝕄) := by
  have split : (bigSep Finset.univ fun ci : Fin 2 × Fin 16 => tileRes (F := F) 1 d ci.1 ci.2 : sProp 𝕄)
      ⊢ iprop((bigSep Finset.univ fun ci : Fin 2 × Fin 16 => iprop(∃ g, (SparseCore.T (τ := τ) d).loc main_v9 ↦{qTile ci.1.val ci.2.val} g))
        ∗ (bigSep Finset.univ fun ci : Fin 2 × Fin 16 => iprop(∃ g, (SparseCore.T (τ := τ) d).loc main_v39 ↦{qTile ci.1.val ci.2.val} g))
        ∗ (bigSep Finset.univ fun ci : Fin 2 × Fin 16 => iprop(∃ g, (SparseCore.T (τ := τ) d).loc main_v40 ↦{qTile ci.1.val ci.2.val} g))
        ∗ (bigSep Finset.univ fun ci : Fin 2 × Fin 16 => iprop(∃ f, (SparseCore.T (τ := τ) d).loc main_v44_0 ↦[((Memref.whole Cert.Kernel.main_v44_0_scv : Memref Cert.Kernel.sig Kind.scVector Space.hbm Cert.Kernel.S102400x128 EltTy.f32)).view.setOn (Cert.Proof.KW3.tileRect (Cert.Proof.KW3.coordsV' ci.1 ci.2)).set]{fullShare} f))
        ∗ (bigSep Finset.univ fun ci : Fin 2 × Fin 16 => iprop(∃ f, (SparseCore.T (τ := τ) d).loc main_v44_1 ↦[((Memref.whole Cert.Kernel.main_v44_1_scv : Memref Cert.Kernel.sig Kind.scVector Space.hbm Cert.Kernel.S2048x128 EltTy.f32)).view.setOn (Cert.Proof.KW3.uvRect (Cert.Proof.KW3.coordsV' ci.1 ci.2)).set]{fullShare} f))) := by
    rw [← bigSep_sep', ← bigSep_sep', ← bigSep_sep', ← bigSep_sep']
    exact bigSep_mono fun ci _ => tile_take1 d ci.1 ci.2
  have tiles : (bigSep Finset.univ fun ci : Fin 2 × Fin 16 => tileRes (F := F) 1 d ci.1 ci.2 : sProp 𝕄)
      = bigSep Finset.univ fun c : Fin ((K (F := F)).nCore 1) => (P (F := F)).dn 1 d c :=
    Cert.Proof.KW3.bigSep_tiles (fun ci : Fin 2 × Fin 16 => tileRes (F := F) 1 d ci.1 ci.2)
  rw [← tiles]
  iintro ⟨Ht, H9d, H13d, H14d⟩
  ihave Hs := split $$ Ht
  icases Hs with ⟨H9t, H13t, H14t, He, Hu⟩
  isplitl [H9d H9t]
  · iapply (toks_rejoin_tiles ((SparseCore.T (τ := τ) d).loc main_v9) fct)
    isplitl [H9d]; · iexact H9d
    iexact H9t
  isplitl [H13d H13t]
  · iapply (toks_rejoin_tiles ((SparseCore.T (τ := τ) d).loc main_v39) fvi)
    isplitl [H13d]; · iexact H13d
    iexact H13t
  isplitl [H14d H14t]
  · iapply (toks_rejoin_tiles ((SparseCore.T (τ := τ) d).loc main_v40) fni)
    isplitl [H14d]; · iexact H14d
    iexact H14t
  isplitl [He]
  · iapply (Cert.Proof.KW3.eu_join d); iexact He
  iapply (Cert.Proof.KW3.uv_join d); iexact Hu

end Cert.Proof.KW

end
-- ==== Proof.WScCall.lean ====
/-
  @main's step over a gather call, on the TensorCore: out of the arrays it holds it hands the call's five (the table and the two
  index lists to read, the two results to be written), runs the call (the library's `wp_run`), takes them back — the three read
  ones as they were, the two results at whatever the tiles left — and holds everything again, at the valuation so updated.
-/
import proofs.«217981_g19061064860210_cont_8to1_1320_37_alg».proof.Proof.WScLaunch
import Idealize.ShloMosaic.Lib.Pipeline.Frame
import proofs.«217981_g19061064860210_cont_8to1_1320_37_alg».proof.Proof.WScGive

noncomputable section

namespace Cert.Proof.KW

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

open Idealize.ShloMosaic.StableHlo (held)
open Idealize.ShloMosaic.TcCoe

/-- The five arrays of the first gather call, among the TensorCore's. -/
def refs0 : Finset (DevRef τ sig) :=
  {(main_v9 : DevRef τ sig), (main_v13 : DevRef τ sig), (main_v14 : DevRef τ sig), (main_v18_0 : DevRef τ sig), (main_v18_1 : DevRef τ sig)}

theorem refs0_sub : refs0 ⊆ Pipeline.ucRefs τ sig := by decide

omit [FloatOps F] in
theorem held_refs0 (d : Dev nD) (V : Valuation τ sig (Elt F)) :
    (held (SparseCore.T d) refs0 V : sProp 𝕄)
      = iprop(((SparseCore.T d).loc main_v9 ↦{fullShare} V (main_v9 : DevRef τ sig))
          ∗ ((SparseCore.T d).loc main_v13 ↦{fullShare} V (main_v13 : DevRef τ sig))
          ∗ ((SparseCore.T d).loc main_v14 ↦{fullShare} V (main_v14 : DevRef τ sig))
          ∗ ((SparseCore.T d).loc main_v18_0 ↦{fullShare} V (main_v18_0 : DevRef τ sig))
          ∗ ((SparseCore.T d).loc main_v18_1 ↦{fullShare} V (main_v18_1 : DevRef τ sig))) := by
  unfold held refs0
  rw [SparseCore.bigSep_insert' (by decide), SparseCore.bigSep_insert' (by decide), SparseCore.bigSep_insert' (by decide),
    SparseCore.bigSep_insert' (by decide), bigSep_singleton]

/-- The valuation after the call: the two results at what came back. -/
def afterCall0 (V : Valuation τ sig (Elt F)) (feu : (main_v18_0 : DevRef τ sig).ty.Contents (Elt F)) (fuv : (main_v18_1 : DevRef τ sig).ty.Contents (Elt F)) :
    Valuation τ sig (Elt F) :=
  Function.update (Function.update V (main_v18_0 : DevRef τ sig) feu) (main_v18_1 : DevRef τ sig) fuv

omit [FloatOps F] in
theorem afterCall0_of_ne (V : Valuation τ sig (Elt F)) (feu : (main_v18_0 : DevRef τ sig).ty.Contents (Elt F))
    (fuv : (main_v18_1 : DevRef τ sig).ty.Contents (Elt F)) (b : DevRef τ sig)
    (h0 : b ≠ (main_v18_0 : DevRef τ sig)) (h1 : b ≠ (main_v18_1 : DevRef τ sig)) : afterCall0 V feu fuv b = V b := by
  unfold afterCall0; rw [Function.update_of_ne h1, Function.update_of_ne h0]
omit [FloatOps F] in
theorem afterCall0_eu (V : Valuation τ sig (Elt F)) (feu : (main_v18_0 : DevRef τ sig).ty.Contents (Elt F))
    (fuv : (main_v18_1 : DevRef τ sig).ty.Contents (Elt F)) : afterCall0 V feu fuv (main_v18_0 : DevRef τ sig) = feu := by
  unfold afterCall0; rw [Function.update_of_ne (by decide), Function.update_self]
omit [FloatOps F] in
theorem afterCall0_uv (V : Valuation τ sig (Elt F)) (feu : (main_v18_0 : DevRef τ sig).ty.Contents (Elt F))
    (fuv : (main_v18_1 : DevRef τ sig).ty.Contents (Elt F)) : afterCall0 V feu fuv (main_v18_1 : DevRef τ sig) = fuv := by
  unfold afterCall0; rw [Function.update_self]

/-- The step over the first gather call. The two index lists' entries name rows of the table (`hvi`, `hni`). -/
theorem call0_step (κ : GSem nD τ sig → ℕ) (d : Dev nD) (V : Valuation τ sig (Elt F))
    (hvi : ∀ j, ((V (main_v13 : DevRef τ sig) : (⟨S102400, .i32⟩ : BufTy).Contents (Elt F)) j).toNat < 100000)
    (hni : ∀ j, ((V (main_v14 : DevRef τ sig) : (⟨S2048, .i32⟩ : BufTy).Contents (Elt F)) j).toNat < 100000)
    {Φ : PUnit → sProp 𝕄} :
    iprop((K (F := F)).ctx EH (P (F := F)) κ ∗ (K (F := F)).tcSt EH d 0 ∗ held (SparseCore.T d) (Pipeline.ucRefs τ sig) V
        ∗ (∀ feu fuv, ((K (F := F)).tcSt EH d 1 ∗ held (SparseCore.T d) (Pipeline.ucRefs τ sig) (afterCall0 V feu fuv)) -∗ Φ ⟨⟩))
      ⊢ wp frame (wpE ((K (F := F)).defs (D (F := F))) 𝒱 (SparseCore.T d) none) Set.univ ((K (F := F)).run d 0) Φ := by
  rw [StableHlo.held_sub_split (SparseCore.T d) refs0_sub V, held_refs0]
  iintro ⟨#Hctx, Hst, ⟨⟨H9, H13, H14, He, Hu⟩, Hrest⟩, Hk⟩
  ihave Hg := (st_give0 d _ _ _ _ _ hvi hni) $$ [H9 H13 H14 He Hu]
  · isplitl [H9]; · iexact H9
    isplitl [H13]; · iexact H13
    isplitl [H14]; · iexact H14
    isplitl [He]; · iexact He
    iexact Hu
  icases Hg with ⟨Hst0, H9d, H13d, H14d⟩
  iapply ((K (F := F)).wp_run (D (F := F)) 𝒱 (EH := EH) (P := P (F := F)) κ d 0) $$ [Hst Hst0 H9d H13d H14d Hrest Hk]
  isplitr; · iexact Hctx
  isplitl [Hst]; · iexact Hst
  isplitl [Hst0]; · iexact Hst0
  iintro ⟨Hst, Hdn⟩
  ihave Ht := (dn_take0 d _ _ _) $$ [Hdn H9d H13d H14d]
  · isplitl [Hdn]; · iexact Hdn
    isplitl [H9d]; · iexact H9d
    isplitl [H13d]; · iexact H13d
    iexact H14d
  icases Ht with ⟨H9, H13, H14, ⟨%feu, He⟩, ⟨%fuv, Hu⟩⟩
  ispecialize Hk $$ %feu %fuv
  iapply Hk
  isplitl [Hst]; · iexact Hst
  rw [StableHlo.held_sub_split (SparseCore.T d) refs0_sub (afterCall0 V feu fuv), held_refs0,
    afterCall0_of_ne V feu fuv (main_v9 : DevRef τ sig) (by decide) (by decide),
    afterCall0_of_ne V feu fuv (main_v13 : DevRef τ sig) (by decide) (by decide),
    afterCall0_of_ne V feu fuv (main_v14 : DevRef τ sig) (by decide) (by decide), afterCall0_eu, afterCall0_uv,
    StableHlo.held_congr (SparseCore.T d) (V := afterCall0 V feu fuv) (V' := V) (S := Pipeline.ucRefs τ sig \ refs0) (fun b hb =>
      afterCall0_of_ne V feu fuv b
        (fun e => (Finset.mem_sdiff.mp hb).2 (e ▸ by decide)) (fun e => (Finset.mem_sdiff.mp hb).2 (e ▸ by decide)))]
  isplitl [H9 H13 H14 He Hu]
  · isplitl [H9]; · iexact H9
    isplitl [H13]; · iexact H13
    isplitl [H14]; · iexact H14
    isplitl [He]; · iexact He
    iexact Hu
  iexact Hrest

end Cert.Proof.KW

end
-- ==== Proof.WScCall1.lean ====
/-
  @main's step over a gather call, on the TensorCore: out of the arrays it holds it hands the call's five (the table and the two
  index lists to read, the two results to be written), runs the call (the library's `wp_run`), takes them back — the three read
  ones as they were, the two results at whatever the tiles left — and holds everything again, at the valuation so updated.
-/
import proofs.«217981_g19061064860210_cont_8to1_1320_37_alg».proof.Proof.WScLaunch
import Idealize.ShloMosaic.Lib.Pipeline.Frame
import proofs.«217981_g19061064860210_cont_8to1_1320_37_alg».proof.Proof.WScGive

noncomputable section

namespace Cert.Proof.KW

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

open Idealize.ShloMosaic.StableHlo (held)
open Idealize.ShloMosaic.TcCoe

/-- The five arrays of the second gather call, among the TensorCore's. -/
def refs1 : Finset (DevRef τ sig) :=
  {(main_v9 : DevRef τ sig), (main_v39 : DevRef τ sig), (main_v40 : DevRef τ sig), (main_v44_0 : DevRef τ sig), (main_v44_1 : DevRef τ sig)}

theorem refs1_sub : refs1 ⊆ Pipeline.ucRefs τ sig := by decide

omit [FloatOps F] in
theorem held_refs1 (d : Dev nD) (V : Valuation τ sig (Elt F)) :
    (held (SparseCore.T d) refs1 V : sProp 𝕄)
      = iprop(((SparseCore.T d).loc main_v9 ↦{fullShare} V (main_v9 : DevRef τ sig))
          ∗ ((SparseCore.T d).loc main_v39 ↦{fullShare} V (main_v39 : DevRef τ sig))
          ∗ ((SparseCore.T d).loc main_v40 ↦{fullShare} V (main_v40 : DevRef τ sig))
          ∗ ((SparseCore.T d).loc main_v44_0 ↦{fullShare} V (main_v44_0 : DevRef τ sig))
          ∗ ((SparseCore.T d).loc main_v44_1 ↦{fullShare} V (main_v44_1 : DevRef τ sig))) := by
  unfold held refs1
  rw [SparseCore.bigSep_insert' (by decide), SparseCore.bigSep_insert' (by decide), SparseCore.bigSep_insert' (by decide),
    SparseCore.bigSep_insert' (by decide), bigSep_singleton]

/-- The valuation after the call: the two results at what came back. -/
def afterCall1 (V : Valuation τ sig (Elt F)) (feu : (main_v44_0 : DevRef τ sig).ty.Contents (Elt F)) (fuv : (main_v44_1 : DevRef τ sig).ty.Contents (Elt F)) :
    Valuation τ sig (Elt F) :=
  Function.update (Function.update V (main_v44_0 : DevRef τ sig) feu) (main_v44_1 : DevRef τ sig) fuv

omit [FloatOps F] in
theorem afterCall1_of_ne (V : Valuation τ sig (Elt F)) (feu : (main_v44_0 : DevRef τ sig).ty.Contents (Elt F))
    (fuv : (main_v44_1 : DevRef τ sig).ty.Contents (Elt F)) (b : DevRef τ sig)
    (h0 : b ≠ (main_v44_0 : DevRef τ sig)) (h1 : b ≠ (main_v44_1 : DevRef τ sig)) : afterCall1 V feu fuv b = V b := by
  unfold afterCall1; rw [Function.update_of_ne h1, Function.update_of_ne h0]
omit [FloatOps F] in
theorem afterCall1_eu (V : Valuation τ sig (Elt F)) (feu : (main_v44_0 : DevRef τ sig).ty.Contents (Elt F))
    (fuv : (main_v44_1 : DevRef τ sig).ty.Contents (Elt F)) : afterCall1 V feu fuv (main_v44_0 : DevRef τ sig) = feu := by
  unfold afterCall1; rw [Function.update_of_ne (by decide), Function.update_self]
omit [FloatOps F] in
theorem afterCall1_uv (V : Valuation τ sig (Elt F)) (feu : (main_v44_0 : DevRef τ sig).ty.Contents (Elt F))
    (fuv : (main_v44_1 : DevRef τ sig).ty.Contents (Elt F)) : afterCall1 V feu fuv (main_v44_1 : DevRef τ sig) = fuv := by
  unfold afterCall1; rw [Function.update_self]

/-- The step over the second gather call. The two index lists' entries name rows of the table (`hvi`, `hni`). -/
theorem call1_step (κ : GSem nD τ sig → ℕ) (d : Dev nD) (V : Valuation τ sig (Elt F))
    (hvi : ∀ j, ((V (main_v39 : DevRef τ sig) : (⟨S102400, .i32⟩ : BufTy).Contents (Elt F)) j).toNat < 100000)
    (hni : ∀ j, ((V (main_v40 : DevRef τ sig) : (⟨S2048, .i32⟩ : BufTy).Contents (Elt F)) j).toNat < 100000)
    {Φ : PUnit → sProp 𝕄} :
    iprop((K (F := F)).ctx EH (P (F := F)) κ ∗ (K (F := F)).tcSt EH d 1 ∗ held (SparseCore.T d) (Pipeline.ucRefs τ sig) V
        ∗ (∀ feu fuv, ((K (F := F)).tcSt EH d 2 ∗ held (SparseCore.T d) (Pipeline.ucRefs τ sig) (afterCall1 V feu fuv)) -∗ Φ ⟨⟩))
      ⊢ wp frame (wpE ((K (F := F)).defs (D (F := F))) 𝒱 (SparseCore.T d) none) Set.univ ((K (F := F)).run d 1) Φ := by
  rw [StableHlo.held_sub_split (SparseCore.T d) refs1_sub V, held_refs1]
  iintro ⟨#Hctx, Hst, ⟨⟨H9, H13, H14, He, Hu⟩, Hrest⟩, Hk⟩
  ihave Hg := (st_give1 d _ _ _ _ _ hvi hni) $$ [H9 H13 H14 He Hu]
  · isplitl [H9]; · iexact H9
    isplitl [H13]; · iexact H13
    isplitl [H14]; · iexact H14
    isplitl [He]; · iexact He
    iexact Hu
  icases Hg with ⟨Hst0, H9d, H13d, H14d⟩
  iapply ((K (F := F)).wp_run (D (F := F)) 𝒱 (EH := EH) (P := P (F := F)) κ d 1) $$ [Hst Hst0 H9d H13d H14d Hrest Hk]
  isplitr; · iexact Hctx
  isplitl [Hst]; · iexact Hst
  isplitl [Hst0]; · iexact Hst0
  iintro ⟨Hst, Hdn⟩
  ihave Ht := (dn_take1 d _ _ _) $$ [Hdn H9d H13d H14d]
  · isplitl [Hdn]; · iexact Hdn
    isplitl [H9d]; · iexact H9d
    isplitl [H13d]; · iexact H13d
    iexact H14d
  icases Ht with ⟨H9, H13, H14, ⟨%feu, He⟩, ⟨%fuv, Hu⟩⟩
  ispecialize Hk $$ %feu %fuv
  iapply Hk
  isplitl [Hst]; · iexact Hst
  rw [StableHlo.held_sub_split (SparseCore.T d) refs1_sub (afterCall1 V feu fuv), held_refs1,
    afterCall1_of_ne V feu fuv (main_v9 : DevRef τ sig) (by decide) (by decide),
    afterCall1_of_ne V feu fuv (main_v39 : DevRef τ sig) (by decide) (by decide),
    afterCall1_of_ne V feu fuv (main_v40 : DevRef τ sig) (by decide) (by decide), afterCall1_eu, afterCall1_uv,
    StableHlo.held_congr (SparseCore.T d) (V := afterCall1 V feu fuv) (V' := V) (S := Pipeline.ucRefs τ sig \ refs1) (fun b hb =>
      afterCall1_of_ne V feu fuv b
        (fun e => (Finset.mem_sdiff.mp hb).2 (e ▸ by decide)) (fun e => (Finset.mem_sdiff.mp hb).2 (e ▸ by decide)))]
  isplitl [H9 H13 H14 He Hu]
  · isplitl [H9]; · iexact H9
    isplitl [H13]; · iexact H13
    isplitl [H14]; · iexact H14
    isplitl [He]; · iexact He
    iexact Hu
  iexact Hrest

end Cert.Proof.KW

end
-- ==== Proof.KMainSegsWord.lean ====
/-
  The kernel program's @main (as printed, before idealization) as its six straight lines of host operations with the three TensorCore regions and
  the two SparseCore calls between them. Each line is a list of operations (a call of a module-local function
  replaced by the callee's body over that call's buffers); @main equals the lines and the five calls in
  sequence; every operation touches unscoped TensorCore buffers only and determines its results; no line
  writes any of the sixteen argument buffers; and the four index lists the SparseCore calls gather by are
  slices (transposed and flattened, for the two-dimensional array) of the argument index arrays, so a bound on
  every entry of an argument array bounds every entry of its list.
-/
import proofs.«217981_g19061064860210_cont_8to1_1320_37_alg».proof.Proof.Gen.Kernel
import Idealize.ShloMosaic.Lib.StableHlo.Run
import Idealize.ShloMosaic.Lib.Pipeline.Frame

noncomputable section

namespace Cert.Kernel.MainSegs

open Cert.Kernel Cert.Kernel.Gen Idealize.ShloMosaic Idealize.ShloMosaic.TcCoe Idealize.SL.Sem Idealize.ShloMosaic.StableHlo

variable {F : FTy → Type} [FloatOps F]

/-- Before the first TensorCore region: the two embedding tables transposed, two weight halves sliced, transposed and narrowed, one bias reshaped to a row. -/
abbrev ops0 : List (HloOp τ sig (Elt F)) :=
  [ StableHlo.unary main_arg4 main_v0 ((transpose S64x100000 [1, 0] · transposes_S100000x64_S64x100000_1_0) : (⟨S100000x64, .f32⟩ : BufTy).Contents (Elt F) → (⟨S64x100000, .f32⟩ : BufTy).Contents (Elt F)),
    StableHlo.unary main_arg3 main_v1 ((transpose S64x100000 [1, 0] · transposes_S100000x64_S64x100000_1_0) : (⟨S100000x64, .f32⟩ : BufTy).Contents (Elt F) → (⟨S64x100000, .f32⟩ : BufTy).Contents (Elt F)),
    StableHlo.unary main_arg6 main_v2 ((extractStridedSlice S64x64 ![0, 0] · slices_S64x128_S64x64_0_0) : (⟨S64x128, .f32⟩ : BufTy).Contents (Elt F) → (⟨S64x64, .f32⟩ : BufTy).Contents (Elt F)),
    StableHlo.unary main_v2 main_v3 ((transpose S64x64 [1, 0] · transposes_S64x64_S64x64_1_0) : (⟨S64x64, .f32⟩ : BufTy).Contents (Elt F) → (⟨S64x64, .f32⟩ : BufTy).Contents (Elt F)),
    StableHlo.unary main_v3 main_v4 ((truncf .bf16 · bitsLt_bf16_f32) : (⟨S64x64, .f32⟩ : BufTy).Contents (Elt F) → (⟨S64x64, .bf16⟩ : BufTy).Contents (Elt F)),
    StableHlo.unary main_arg10 main_v5 ((extractStridedSlice S64x64 ![0, 64] · slices_S64x128_S64x64_0_64) : (⟨S64x128, .f32⟩ : BufTy).Contents (Elt F) → (⟨S64x64, .f32⟩ : BufTy).Contents (Elt F)),
    StableHlo.unary main_v5 main_v6 ((transpose S64x64 [1, 0] · transposes_S64x64_S64x64_1_0) : (⟨S64x64, .f32⟩ : BufTy).Contents (Elt F) → (⟨S64x64, .f32⟩ : BufTy).Contents (Elt F)),
    StableHlo.unary main_v6 main_v7 ((truncf .bf16 · bitsLt_bf16_f32) : (⟨S64x64, .f32⟩ : BufTy).Contents (Elt F) → (⟨S64x64, .bf16⟩ : BufTy).Contents (Elt F)),
    StableHlo.reshape main_arg11 main_v8 rfl shapeCasts_S64_S1x64 ]

/-- Before the first SparseCore call: the zero constant and the five-row table padded to eight rows with it (the padding value converted to float first), the first 2048 rows of the two index arrays sliced and transposed (one flattened, the per-row indices sliced), and the one-hot encoding of the second (the index against the iota of eight, as bytes). -/
abbrev ops1 : List (HloOp τ sig (Elt F)) :=
  [ StableHlo.nullary main_c (constantI S_ 32 0#32),
    StableHlo.TRef.unary (StableHlo.TRef.of (T := ⟨S_, .i32⟩) main_c) main_call0.v0 (sitofp .f32),
    StableHlo.TRef.binary (StableHlo.TRef.of (T := ⟨S5x64, .f32⟩) main_arg5) main_call0.v0 main_call0.v1 (fun x v => pad S8x64 ![0, 0] ![3, 0] ![0, 0] x v pads_S5x64_S8x64_030_000 h_S_),
    StableHlo.unary main_arg1 main_v11 ((extractStridedSlice S2048x50 ![0, 0] · slices_S4096x50_S2048x50_0_0) : (⟨S4096x50, .i32⟩ : BufTy).Contents (Elt F) → (⟨S2048x50, .i32⟩ : BufTy).Contents (Elt F)),
    StableHlo.unary main_v11 main_v12 ((transpose S50x2048 [1, 0] · transposes_S2048x50_S50x2048_1_0) : (⟨S2048x50, .i32⟩ : BufTy).Contents (Elt F) → (⟨S50x2048, .i32⟩ : BufTy).Contents (Elt F)),
    StableHlo.reshape main_v12 main_v13 rfl shapeCasts_S50x2048_S102400,
    StableHlo.unary main_arg0 main_v14 ((extractStridedSlice S2048 ![0] · slices_S4096_S2048_0) : (⟨S4096, .i32⟩ : BufTy).Contents (Elt F) → (⟨S2048, .i32⟩ : BufTy).Contents (Elt F)),
    StableHlo.unary main_arg2 main_v15 ((extractStridedSlice S2048x50 ![0, 0] · slices_S4096x50_S2048x50_0_0) : (⟨S4096x50, .i32⟩ : BufTy).Contents (Elt F) → (⟨S2048x50, .i32⟩ : BufTy).Contents (Elt F)),
    StableHlo.unary main_v15 main_v16 ((transpose S50x2048 [1, 0] · transposes_S2048x50_S50x2048_1_0) : (⟨S2048x50, .i32⟩ : BufTy).Contents (Elt F) → (⟨S50x2048, .i32⟩ : BufTy).Contents (Elt F)),
    StableHlo.TRef.unary (StableHlo.TRef.of (T := ⟨S50x2048, .i32⟩) main_v16) main_call1.v0 (broadcastInDim S50x2048x1 ![0, 1] bcast_S50x2048_S50x2048x1_0_1),
    StableHlo.TRef.nullary main_call1.v1 (iotaInDim S1x1x8 32 2),
    StableHlo.TRef.unary main_call1.v0 main_call1.v2 (broadcastInDim S50x2048x8 ![0, 1, 2] bcast_S50x2048x1_S50x2048x8_0_1_2),
    StableHlo.TRef.unary main_call1.v1 main_call1.v3 (broadcastInDim S50x2048x8 ![0, 1, 2] bcast_S1x1x8_S50x2048x8_0_1_2),
    StableHlo.TRef.binary main_call1.v2 main_call1.v3 main_call1.v4 (cmpi .eq),
    StableHlo.TRef.unary main_call1.v4 main_call1.v5 (extui 8 · natLt_1_8) ]

/-- After the first SparseCore call, before the second region: the gathered rows reshaped, the weights sliced, transposed, narrowed and the biases reshaped for the region. -/
abbrev ops2 : List (HloOp τ sig (Elt F)) :=
  [ StableHlo.reshape main_v18_0 main_v19 rfl shapeCasts_S102400x128_S50x2048x128,
    StableHlo.unary main_arg6 main_v20 ((extractStridedSlice S64x64 ![0, 64] · slices_S64x128_S64x64_0_64) : (⟨S64x128, .f32⟩ : BufTy).Contents (Elt F) → (⟨S64x64, .f32⟩ : BufTy).Contents (Elt F)),
    StableHlo.unary main_v20 main_v21 ((transpose S64x64 [1, 0] · transposes_S64x64_S64x64_1_0) : (⟨S64x64, .f32⟩ : BufTy).Contents (Elt F) → (⟨S64x64, .f32⟩ : BufTy).Contents (Elt F)),
    StableHlo.reshape main_arg7 main_v22 rfl shapeCasts_S64_S1x64,
    StableHlo.unary main_arg8 main_v23 ((transpose S64x64 [1, 0] · transposes_S64x64_S64x64_1_0) : (⟨S64x64, .f32⟩ : BufTy).Contents (Elt F) → (⟨S64x64, .f32⟩ : BufTy).Contents (Elt F)),
    StableHlo.unary main_v23 main_v24 ((truncf .bf16 · bitsLt_bf16_f32) : (⟨S64x64, .f32⟩ : BufTy).Contents (Elt F) → (⟨S64x64, .bf16⟩ : BufTy).Contents (Elt F)),
    StableHlo.reshape main_arg9 main_v25 rfl shapeCasts_S64_S1x64,
    StableHlo.unary main_v25 main_v26 ((truncf .bf16 · bitsLt_bf16_f32) : (⟨S1x64, .f32⟩ : BufTy).Contents (Elt F) → (⟨S1x64, .bf16⟩ : BufTy).Contents (Elt F)),
    StableHlo.unary main_arg10 main_v27 ((extractStridedSlice S64x64 ![0, 0] · slices_S64x128_S64x64_0_0) : (⟨S64x128, .f32⟩ : BufTy).Contents (Elt F) → (⟨S64x64, .f32⟩ : BufTy).Contents (Elt F)),
    StableHlo.unary main_v27 main_v28 ((transpose S64x64 [1, 0] · transposes_S64x64_S64x64_1_0) : (⟨S64x64, .f32⟩ : BufTy).Contents (Elt F) → (⟨S64x64, .f32⟩ : BufTy).Contents (Elt F)),
    StableHlo.unary main_v28 main_v29 ((truncf .bf16 · bitsLt_bf16_f32) : (⟨S64x64, .f32⟩ : BufTy).Contents (Elt F) → (⟨S64x64, .bf16⟩ : BufTy).Contents (Elt F)),
    StableHlo.unary main_arg12 main_v30 ((transpose S64x64 [1, 0] · transposes_S64x64_S64x64_1_0) : (⟨S64x64, .f32⟩ : BufTy).Contents (Elt F) → (⟨S64x64, .f32⟩ : BufTy).Contents (Elt F)),
    StableHlo.unary main_v30 main_v31 ((truncf .bf16 · bitsLt_bf16_f32) : (⟨S64x64, .f32⟩ : BufTy).Contents (Elt F) → (⟨S64x64, .bf16⟩ : BufTy).Contents (Elt F)),
    StableHlo.reshape main_arg13 main_v32 rfl shapeCasts_S64_S1x64,
    StableHlo.unary main_v32 main_v33 ((truncf .bf16 · bitsLt_bf16_f32) : (⟨S1x64, .f32⟩ : BufTy).Contents (Elt F) → (⟨S1x64, .bf16⟩ : BufTy).Contents (Elt F)),
    StableHlo.unary main_arg14 main_v34 ((truncf .bf16 · bitsLt_bf16_f32) : (⟨S1x64, .f32⟩ : BufTy).Contents (Elt F) → (⟨S1x64, .bf16⟩ : BufTy).Contents (Elt F)),
    StableHlo.reshape main_arg15 main_v35 rfl shapeCasts_S1_S1x1 ]

/-- After the second region, before the second SparseCore call: the same index preparation for rows 2048 to 4095. -/
abbrev ops3 : List (HloOp τ sig (Elt F)) :=
  [ StableHlo.unary main_arg1 main_v37 ((extractStridedSlice S2048x50 ![2048, 0] · slices_S4096x50_S2048x50_2048_0) : (⟨S4096x50, .i32⟩ : BufTy).Contents (Elt F) → (⟨S2048x50, .i32⟩ : BufTy).Contents (Elt F)),
    StableHlo.unary main_v37 main_v38 ((transpose S50x2048 [1, 0] · transposes_S2048x50_S50x2048_1_0) : (⟨S2048x50, .i32⟩ : BufTy).Contents (Elt F) → (⟨S50x2048, .i32⟩ : BufTy).Contents (Elt F)),
    StableHlo.reshape main_v38 main_v39 rfl shapeCasts_S50x2048_S102400,
    StableHlo.unary main_arg0 main_v40 ((extractStridedSlice S2048 ![2048] · slices_S4096_S2048_2048) : (⟨S4096, .i32⟩ : BufTy).Contents (Elt F) → (⟨S2048, .i32⟩ : BufTy).Contents (Elt F)),
    StableHlo.unary main_arg2 main_v41 ((extractStridedSlice S2048x50 ![2048, 0] · slices_S4096x50_S2048x50_2048_0) : (⟨S4096x50, .i32⟩ : BufTy).Contents (Elt F) → (⟨S2048x50, .i32⟩ : BufTy).Contents (Elt F)),
    StableHlo.unary main_v41 main_v42 ((transpose S50x2048 [1, 0] · transposes_S2048x50_S50x2048_1_0) : (⟨S2048x50, .i32⟩ : BufTy).Contents (Elt F) → (⟨S50x2048, .i32⟩ : BufTy).Contents (Elt F)),
    StableHlo.TRef.unary (StableHlo.TRef.of (T := ⟨S50x2048, .i32⟩) main_v42) main_call2.v0 (broadcastInDim S50x2048x1 ![0, 1] bcast_S50x2048_S50x2048x1_0_1),
    StableHlo.TRef.nullary main_call2.v1 (iotaInDim S1x1x8 32 2),
    StableHlo.TRef.unary main_call2.v0 main_call2.v2 (broadcastInDim S50x2048x8 ![0, 1, 2] bcast_S50x2048x1_S50x2048x8_0_1_2),
    StableHlo.TRef.unary main_call2.v1 main_call2.v3 (broadcastInDim S50x2048x8 ![0, 1, 2] bcast_S1x1x8_S50x2048x8_0_1_2),
    StableHlo.TRef.binary main_call2.v2 main_call2.v3 main_call2.v4 (cmpi .eq),
    StableHlo.TRef.unary main_call2.v4 main_call2.v5 (extui 8 · natLt_1_8) ]

/-- After the second SparseCore call, before the third region: the same weight and bias preparation again. -/
abbrev ops4 : List (HloOp τ sig (Elt F)) :=
  [ StableHlo.reshape main_v44_0 main_v45 rfl shapeCasts_S102400x128_S50x2048x128,
    StableHlo.unary main_arg6 main_v46 ((extractStridedSlice S64x64 ![0, 64] · slices_S64x128_S64x64_0_64) : (⟨S64x128, .f32⟩ : BufTy).Contents (Elt F) → (⟨S64x64, .f32⟩ : BufTy).Contents (Elt F)),
    StableHlo.unary main_v46 main_v47 ((transpose S64x64 [1, 0] · transposes_S64x64_S64x64_1_0) : (⟨S64x64, .f32⟩ : BufTy).Contents (Elt F) → (⟨S64x64, .f32⟩ : BufTy).Contents (Elt F)),
    StableHlo.reshape main_arg7 main_v48 rfl shapeCasts_S64_S1x64,
    StableHlo.unary main_arg8 main_v49 ((transpose S64x64 [1, 0] · transposes_S64x64_S64x64_1_0) : (⟨S64x64, .f32⟩ : BufTy).Contents (Elt F) → (⟨S64x64, .f32⟩ : BufTy).Contents (Elt F)),
    StableHlo.unary main_v49 main_v50 ((truncf .bf16 · bitsLt_bf16_f32) : (⟨S64x64, .f32⟩ : BufTy).Contents (Elt F) → (⟨S64x64, .bf16⟩ : BufTy).Contents (Elt F)),
    StableHlo.reshape main_arg9 main_v51 rfl shapeCasts_S64_S1x64,
    StableHlo.unary main_v51 main_v52 ((truncf .bf16 · bitsLt_bf16_f32) : (⟨S1x64, .f32⟩ : BufTy).Contents (Elt F) → (⟨S1x64, .bf16⟩ : BufTy).Contents (Elt F)),
    StableHlo.unary main_arg10 main_v53 ((extractStridedSlice S64x64 ![0, 0] · slices_S64x128_S64x64_0_0) : (⟨S64x128, .f32⟩ : BufTy).Contents (Elt F) → (⟨S64x64, .f32⟩ : BufTy).Contents (Elt F)),
    StableHlo.unary main_v53 main_v54 ((transpose S64x64 [1, 0] · transposes_S64x64_S64x64_1_0) : (⟨S64x64, .f32⟩ : BufTy).Contents (Elt F) → (⟨S64x64, .f32⟩ : BufTy).Contents (Elt F)),
    StableHlo.unary main_v54 main_v55 ((truncf .bf16 · bitsLt_bf16_f32) : (⟨S64x64, .f32⟩ : BufTy).Contents (Elt F) → (⟨S64x64, .bf16⟩ : BufTy).Contents (Elt F)),
    StableHlo.unary main_arg12 main_v56 ((transpose S64x64 [1, 0] · transposes_S64x64_S64x64_1_0) : (⟨S64x64, .f32⟩ : BufTy).Contents (Elt F) → (⟨S64x64, .f32⟩ : BufTy).Contents (Elt F)),
    StableHlo.unary main_v56 main_v57 ((truncf .bf16 · bitsLt_bf16_f32) : (⟨S64x64, .f32⟩ : BufTy).Contents (Elt F) → (⟨S64x64, .bf16⟩ : BufTy).Contents (Elt F)),
    StableHlo.reshape main_arg13 main_v58 rfl shapeCasts_S64_S1x64,
    StableHlo.unary main_v58 main_v59 ((truncf .bf16 · bitsLt_bf16_f32) : (⟨S1x64, .f32⟩ : BufTy).Contents (Elt F) → (⟨S1x64, .bf16⟩ : BufTy).Contents (Elt F)),
    StableHlo.unary main_arg14 main_v60 ((truncf .bf16 · bitsLt_bf16_f32) : (⟨S1x64, .f32⟩ : BufTy).Contents (Elt F) → (⟨S1x64, .bf16⟩ : BufTy).Contents (Elt F)),
    StableHlo.reshape main_arg15 main_v61 rfl shapeCasts_S1_S1x1 ]

/-- After the third region: the two halves' results joined along the rows. -/
abbrev ops5 : List (HloOp τ sig (Elt F)) :=
  [ StableHlo.binary main_v36 main_v62 main_v63 ((fun a b => concatenate S4096x64 0 [⟨S2048x64, a⟩, ⟨S2048x64, b⟩] concatenates_S2048x64_S2048x64_S4096x64_d0) : (⟨S2048x64, .f32⟩ : BufTy).Contents (Elt F) → (⟨S2048x64, .f32⟩ : BufTy).Contents (Elt F) → (⟨S4096x64, .f32⟩ : BufTy).Contents (Elt F)) ]

set_option maxRecDepth 8192 in
set_option maxHeartbeats 4000000 in
/-- @main is the six straight lines of host operations with the three TensorCore regions and the two SparseCore
    calls between them: the two windows of @main and the callees' definitions unfolded at their calls, both sides
    are one chain of steps once sequencing is reassociated. -/
theorem main_eq (d : Dev nD) : main (F := F) d = (do
      seq ops0
      Prog.lift (.customCall (SparseCore.inner (Pipeline.entry 0)) ())
      seq ops1
      sc.run d 0
      seq ops2
      Prog.lift (.customCall (SparseCore.inner (Pipeline.entry 1)) ())
      seq ops3
      sc.run d 1
      seq ops4
      Prog.lift (.customCall (SparseCore.inner (Pipeline.entry 2)) ())
      seq ops5) := by
  simp only [main, main_part0, main_part1, fn_pad.body, fn_one_hot.body, seq, bind_assoc, pure_bind]

/-- An operation that writes the one buffer `y`, a member of the list, writes inside the list. -/
theorem writes_sub_of_mem {W : List (Ref sig .tc)} {op : HloOp τ sig (Elt F)} (y : Ref sig .tc)
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

set_option maxRecDepth 8192 in
theorem ops0_tc : (ops0 : List (HloOp τ sig (Elt F))).Forall fun op => op.bufs ⊆ tcRefs τ sig :=
  ⟨
    unary_bufs_sub .., unary_bufs_sub .., unary_bufs_sub .., unary_bufs_sub .., unary_bufs_sub .., unary_bufs_sub ..,
    unary_bufs_sub .., unary_bufs_sub .., reshape_bufs_sub ..⟩

/-- Every operation of the line touches unscoped TensorCore buffers only. -/
theorem ops0_sub : ∀ op ∈ (ops0 : List (HloOp τ sig (Elt F))), op.bufs ⊆ Pipeline.ucRefs τ sig :=
  fun op h => Pipeline.sub_ucRefs op (List.forall_iff_forall_mem.mp ops0_tc op h)

set_option maxRecDepth 8192 in
theorem ops0_freshAll : (ops0 : List (HloOp τ sig (Elt F))).Forall fun op => op.fresh = ∅ :=
  ⟨
    rfl, rfl, rfl, rfl, rfl, rfl, rfl, rfl, rfl⟩

/-- Every operation of the line determines its results. -/
theorem ops0_fresh : ∀ op ∈ (ops0 : List (HloOp τ sig (Elt F))), op.fresh = ∅ :=
  List.forall_iff_forall_mem.mp ops0_freshAll

/-- The buffers the line writes, in order: one per operation. -/
abbrev ops0_W : List (Ref sig .tc) :=
  [main_v0, main_v1, main_v2, main_v3, main_v4, main_v5, main_v6, main_v7, main_v8]

set_option maxRecDepth 8192 in
theorem ops0_writes : (ops0 : List (HloOp τ sig (Elt F))).Forall fun op =>
    op.writes ⊆ (ops0_W.map (Proc.devRef (τ := τ) .tc)).toFinset :=
  ⟨
    writes_sub_of_mem main_v0 rfl (by decide), writes_sub_of_mem main_v1 rfl (by decide), writes_sub_of_mem main_v2 rfl (by decide),
    writes_sub_of_mem main_v3 rfl (by decide), writes_sub_of_mem main_v4 rfl (by decide), writes_sub_of_mem main_v5 rfl (by decide),
    writes_sub_of_mem main_v6 rfl (by decide), writes_sub_of_mem main_v7 rfl (by decide), writes_sub_of_mem main_v8 rfl (by decide)⟩

theorem ops0_arg0 (V : Valuation τ sig (Elt F)) : after ops0 V (main_arg0 : DevRef τ sig) = V (main_arg0 : DevRef τ sig) :=
  after_of_writes_sub ops0 V ops0_writes (by decide)
theorem ops0_arg1 (V : Valuation τ sig (Elt F)) : after ops0 V (main_arg1 : DevRef τ sig) = V (main_arg1 : DevRef τ sig) :=
  after_of_writes_sub ops0 V ops0_writes (by decide)
theorem ops0_arg2 (V : Valuation τ sig (Elt F)) : after ops0 V (main_arg2 : DevRef τ sig) = V (main_arg2 : DevRef τ sig) :=
  after_of_writes_sub ops0 V ops0_writes (by decide)
theorem ops0_arg3 (V : Valuation τ sig (Elt F)) : after ops0 V (main_arg3 : DevRef τ sig) = V (main_arg3 : DevRef τ sig) :=
  after_of_writes_sub ops0 V ops0_writes (by decide)
theorem ops0_arg4 (V : Valuation τ sig (Elt F)) : after ops0 V (main_arg4 : DevRef τ sig) = V (main_arg4 : DevRef τ sig) :=
  after_of_writes_sub ops0 V ops0_writes (by decide)
theorem ops0_arg5 (V : Valuation τ sig (Elt F)) : after ops0 V (main_arg5 : DevRef τ sig) = V (main_arg5 : DevRef τ sig) :=
  after_of_writes_sub ops0 V ops0_writes (by decide)
theorem ops0_arg6 (V : Valuation τ sig (Elt F)) : after ops0 V (main_arg6 : DevRef τ sig) = V (main_arg6 : DevRef τ sig) :=
  after_of_writes_sub ops0 V ops0_writes (by decide)
theorem ops0_arg7 (V : Valuation τ sig (Elt F)) : after ops0 V (main_arg7 : DevRef τ sig) = V (main_arg7 : DevRef τ sig) :=
  after_of_writes_sub ops0 V ops0_writes (by decide)
theorem ops0_arg8 (V : Valuation τ sig (Elt F)) : after ops0 V (main_arg8 : DevRef τ sig) = V (main_arg8 : DevRef τ sig) :=
  after_of_writes_sub ops0 V ops0_writes (by decide)
theorem ops0_arg9 (V : Valuation τ sig (Elt F)) : after ops0 V (main_arg9 : DevRef τ sig) = V (main_arg9 : DevRef τ sig) :=
  after_of_writes_sub ops0 V ops0_writes (by decide)
theorem ops0_arg10 (V : Valuation τ sig (Elt F)) : after ops0 V (main_arg10 : DevRef τ sig) = V (main_arg10 : DevRef τ sig) :=
  after_of_writes_sub ops0 V ops0_writes (by decide)
theorem ops0_arg11 (V : Valuation τ sig (Elt F)) : after ops0 V (main_arg11 : DevRef τ sig) = V (main_arg11 : DevRef τ sig) :=
  after_of_writes_sub ops0 V ops0_writes (by decide)
theorem ops0_arg12 (V : Valuation τ sig (Elt F)) : after ops0 V (main_arg12 : DevRef τ sig) = V (main_arg12 : DevRef τ sig) :=
  after_of_writes_sub ops0 V ops0_writes (by decide)
theorem ops0_arg13 (V : Valuation τ sig (Elt F)) : after ops0 V (main_arg13 : DevRef τ sig) = V (main_arg13 : DevRef τ sig) :=
  after_of_writes_sub ops0 V ops0_writes (by decide)
theorem ops0_arg14 (V : Valuation τ sig (Elt F)) : after ops0 V (main_arg14 : DevRef τ sig) = V (main_arg14 : DevRef τ sig) :=
  after_of_writes_sub ops0 V ops0_writes (by decide)
theorem ops0_arg15 (V : Valuation τ sig (Elt F)) : after ops0 V (main_arg15 : DevRef τ sig) = V (main_arg15 : DevRef τ sig) :=
  after_of_writes_sub ops0 V ops0_writes (by decide)

set_option maxRecDepth 8192 in
theorem ops1_tc : (ops1 : List (HloOp τ sig (Elt F))).Forall fun op => op.bufs ⊆ tcRefs τ sig :=
  ⟨
    nullary_bufs_sub .., unary_bufs_sub .., binary_bufs_sub .., unary_bufs_sub .., unary_bufs_sub .., reshape_bufs_sub ..,
    unary_bufs_sub .., unary_bufs_sub .., unary_bufs_sub .., unary_bufs_sub .., nullary_bufs_sub .., unary_bufs_sub ..,
    unary_bufs_sub .., binary_bufs_sub .., unary_bufs_sub ..⟩

/-- Every operation of the line touches unscoped TensorCore buffers only. -/
theorem ops1_sub : ∀ op ∈ (ops1 : List (HloOp τ sig (Elt F))), op.bufs ⊆ Pipeline.ucRefs τ sig :=
  fun op h => Pipeline.sub_ucRefs op (List.forall_iff_forall_mem.mp ops1_tc op h)

set_option maxRecDepth 8192 in
theorem ops1_freshAll : (ops1 : List (HloOp τ sig (Elt F))).Forall fun op => op.fresh = ∅ :=
  ⟨
    rfl, rfl, rfl, rfl, rfl, rfl, rfl, rfl, rfl, rfl, rfl, rfl, rfl, rfl, rfl⟩

/-- Every operation of the line determines its results. -/
theorem ops1_fresh : ∀ op ∈ (ops1 : List (HloOp τ sig (Elt F))), op.fresh = ∅ :=
  List.forall_iff_forall_mem.mp ops1_freshAll

/-- The buffers the line writes, in order: one per operation. -/
abbrev ops1_W : List (Ref sig .tc) :=
  [main_c, main_call0_v0, main_v10, main_v11, main_v12, main_v13, main_v14, main_v15, main_v16, main_call1_v0, main_call1_v1, main_call1_v2, main_call1_v3, main_call1_v4, main_v17]

set_option maxRecDepth 8192 in
theorem ops1_writes : (ops1 : List (HloOp τ sig (Elt F))).Forall fun op =>
    op.writes ⊆ (ops1_W.map (Proc.devRef (τ := τ) .tc)).toFinset :=
  ⟨
    writes_sub_of_mem main_c rfl (by decide), writes_sub_of_mem main_call0_v0 rfl (by decide), writes_sub_of_mem main_v10 rfl (by decide),
    writes_sub_of_mem main_v11 rfl (by decide), writes_sub_of_mem main_v12 rfl (by decide), writes_sub_of_mem main_v13 rfl (by decide),
    writes_sub_of_mem main_v14 rfl (by decide), writes_sub_of_mem main_v15 rfl (by decide), writes_sub_of_mem main_v16 rfl (by decide),
    writes_sub_of_mem main_call1_v0 rfl (by decide), writes_sub_of_mem main_call1_v1 rfl (by decide), writes_sub_of_mem main_call1_v2 rfl (by decide),
    writes_sub_of_mem main_call1_v3 rfl (by decide), writes_sub_of_mem main_call1_v4 rfl (by decide), writes_sub_of_mem main_v17 rfl (by decide)⟩

theorem ops1_arg0 (V : Valuation τ sig (Elt F)) : after ops1 V (main_arg0 : DevRef τ sig) = V (main_arg0 : DevRef τ sig) :=
  after_of_writes_sub ops1 V ops1_writes (by decide)
theorem ops1_arg1 (V : Valuation τ sig (Elt F)) : after ops1 V (main_arg1 : DevRef τ sig) = V (main_arg1 : DevRef τ sig) :=
  after_of_writes_sub ops1 V ops1_writes (by decide)
theorem ops1_arg2 (V : Valuation τ sig (Elt F)) : after ops1 V (main_arg2 : DevRef τ sig) = V (main_arg2 : DevRef τ sig) :=
  after_of_writes_sub ops1 V ops1_writes (by decide)
theorem ops1_arg3 (V : Valuation τ sig (Elt F)) : after ops1 V (main_arg3 : DevRef τ sig) = V (main_arg3 : DevRef τ sig) :=
  after_of_writes_sub ops1 V ops1_writes (by decide)
theorem ops1_arg4 (V : Valuation τ sig (Elt F)) : after ops1 V (main_arg4 : DevRef τ sig) = V (main_arg4 : DevRef τ sig) :=
  after_of_writes_sub ops1 V ops1_writes (by decide)
theorem ops1_arg5 (V : Valuation τ sig (Elt F)) : after ops1 V (main_arg5 : DevRef τ sig) = V (main_arg5 : DevRef τ sig) :=
  after_of_writes_sub ops1 V ops1_writes (by decide)
theorem ops1_arg6 (V : Valuation τ sig (Elt F)) : after ops1 V (main_arg6 : DevRef τ sig) = V (main_arg6 : DevRef τ sig) :=
  after_of_writes_sub ops1 V ops1_writes (by decide)
theorem ops1_arg7 (V : Valuation τ sig (Elt F)) : after ops1 V (main_arg7 : DevRef τ sig) = V (main_arg7 : DevRef τ sig) :=
  after_of_writes_sub ops1 V ops1_writes (by decide)
theorem ops1_arg8 (V : Valuation τ sig (Elt F)) : after ops1 V (main_arg8 : DevRef τ sig) = V (main_arg8 : DevRef τ sig) :=
  after_of_writes_sub ops1 V ops1_writes (by decide)
theorem ops1_arg9 (V : Valuation τ sig (Elt F)) : after ops1 V (main_arg9 : DevRef τ sig) = V (main_arg9 : DevRef τ sig) :=
  after_of_writes_sub ops1 V ops1_writes (by decide)
theorem ops1_arg10 (V : Valuation τ sig (Elt F)) : after ops1 V (main_arg10 : DevRef τ sig) = V (main_arg10 : DevRef τ sig) :=
  after_of_writes_sub ops1 V ops1_writes (by decide)
theorem ops1_arg11 (V : Valuation τ sig (Elt F)) : after ops1 V (main_arg11 : DevRef τ sig) = V (main_arg11 : DevRef τ sig) :=
  after_of_writes_sub ops1 V ops1_writes (by decide)
theorem ops1_arg12 (V : Valuation τ sig (Elt F)) : after ops1 V (main_arg12 : DevRef τ sig) = V (main_arg12 : DevRef τ sig) :=
  after_of_writes_sub ops1 V ops1_writes (by decide)
theorem ops1_arg13 (V : Valuation τ sig (Elt F)) : after ops1 V (main_arg13 : DevRef τ sig) = V (main_arg13 : DevRef τ sig) :=
  after_of_writes_sub ops1 V ops1_writes (by decide)
theorem ops1_arg14 (V : Valuation τ sig (Elt F)) : after ops1 V (main_arg14 : DevRef τ sig) = V (main_arg14 : DevRef τ sig) :=
  after_of_writes_sub ops1 V ops1_writes (by decide)
theorem ops1_arg15 (V : Valuation τ sig (Elt F)) : after ops1 V (main_arg15 : DevRef τ sig) = V (main_arg15 : DevRef τ sig) :=
  after_of_writes_sub ops1 V ops1_writes (by decide)

set_option maxRecDepth 8192 in
theorem ops2_tc : (ops2 : List (HloOp τ sig (Elt F))).Forall fun op => op.bufs ⊆ tcRefs τ sig :=
  ⟨
    reshape_bufs_sub .., unary_bufs_sub .., unary_bufs_sub .., reshape_bufs_sub .., unary_bufs_sub .., unary_bufs_sub ..,
    reshape_bufs_sub .., unary_bufs_sub .., unary_bufs_sub .., unary_bufs_sub .., unary_bufs_sub .., unary_bufs_sub ..,
    unary_bufs_sub .., reshape_bufs_sub .., unary_bufs_sub .., unary_bufs_sub .., reshape_bufs_sub ..⟩

/-- Every operation of the line touches unscoped TensorCore buffers only. -/
theorem ops2_sub : ∀ op ∈ (ops2 : List (HloOp τ sig (Elt F))), op.bufs ⊆ Pipeline.ucRefs τ sig :=
  fun op h => Pipeline.sub_ucRefs op (List.forall_iff_forall_mem.mp ops2_tc op h)

set_option maxRecDepth 8192 in
theorem ops2_freshAll : (ops2 : List (HloOp τ sig (Elt F))).Forall fun op => op.fresh = ∅ :=
  ⟨
    rfl, rfl, rfl, rfl, rfl, rfl, rfl, rfl, rfl, rfl, rfl, rfl, rfl, rfl, rfl, rfl, rfl⟩

/-- Every operation of the line determines its results. -/
theorem ops2_fresh : ∀ op ∈ (ops2 : List (HloOp τ sig (Elt F))), op.fresh = ∅ :=
  List.forall_iff_forall_mem.mp ops2_freshAll

/-- The buffers the line writes, in order: one per operation. -/
abbrev ops2_W : List (Ref sig .tc) :=
  [main_v19, main_v20, main_v21, main_v22, main_v23, main_v24, main_v25, main_v26, main_v27, main_v28, main_v29, main_v30, main_v31, main_v32, main_v33, main_v34, main_v35]

set_option maxRecDepth 8192 in
theorem ops2_writes : (ops2 : List (HloOp τ sig (Elt F))).Forall fun op =>
    op.writes ⊆ (ops2_W.map (Proc.devRef (τ := τ) .tc)).toFinset :=
  ⟨
    writes_sub_of_mem main_v19 rfl (by decide), writes_sub_of_mem main_v20 rfl (by decide), writes_sub_of_mem main_v21 rfl (by decide),
    writes_sub_of_mem main_v22 rfl (by decide), writes_sub_of_mem main_v23 rfl (by decide), writes_sub_of_mem main_v24 rfl (by decide),
    writes_sub_of_mem main_v25 rfl (by decide), writes_sub_of_mem main_v26 rfl (by decide), writes_sub_of_mem main_v27 rfl (by decide),
    writes_sub_of_mem main_v28 rfl (by decide), writes_sub_of_mem main_v29 rfl (by decide), writes_sub_of_mem main_v30 rfl (by decide),
    writes_sub_of_mem main_v31 rfl (by decide), writes_sub_of_mem main_v32 rfl (by decide), writes_sub_of_mem main_v33 rfl (by decide),
    writes_sub_of_mem main_v34 rfl (by decide), writes_sub_of_mem main_v35 rfl (by decide)⟩

theorem ops2_arg0 (V : Valuation τ sig (Elt F)) : after ops2 V (main_arg0 : DevRef τ sig) = V (main_arg0 : DevRef τ sig) :=
  after_of_writes_sub ops2 V ops2_writes (by decide)
theorem ops2_arg1 (V : Valuation τ sig (Elt F)) : after ops2 V (main_arg1 : DevRef τ sig) = V (main_arg1 : DevRef τ sig) :=
  after_of_writes_sub ops2 V ops2_writes (by decide)
theorem ops2_arg2 (V : Valuation τ sig (Elt F)) : after ops2 V (main_arg2 : DevRef τ sig) = V (main_arg2 : DevRef τ sig) :=
  after_of_writes_sub ops2 V ops2_writes (by decide)
theorem ops2_arg3 (V : Valuation τ sig (Elt F)) : after ops2 V (main_arg3 : DevRef τ sig) = V (main_arg3 : DevRef τ sig) :=
  after_of_writes_sub ops2 V ops2_writes (by decide)
theorem ops2_arg4 (V : Valuation τ sig (Elt F)) : after ops2 V (main_arg4 : DevRef τ sig) = V (main_arg4 : DevRef τ sig) :=
  after_of_writes_sub ops2 V ops2_writes (by decide)
theorem ops2_arg5 (V : Valuation τ sig (Elt F)) : after ops2 V (main_arg5 : DevRef τ sig) = V (main_arg5 : DevRef τ sig) :=
  after_of_writes_sub ops2 V ops2_writes (by decide)
theorem ops2_arg6 (V : Valuation τ sig (Elt F)) : after ops2 V (main_arg6 : DevRef τ sig) = V (main_arg6 : DevRef τ sig) :=
  after_of_writes_sub ops2 V ops2_writes (by decide)
theorem ops2_arg7 (V : Valuation τ sig (Elt F)) : after ops2 V (main_arg7 : DevRef τ sig) = V (main_arg7 : DevRef τ sig) :=
  after_of_writes_sub ops2 V ops2_writes (by decide)
theorem ops2_arg8 (V : Valuation τ sig (Elt F)) : after ops2 V (main_arg8 : DevRef τ sig) = V (main_arg8 : DevRef τ sig) :=
  after_of_writes_sub ops2 V ops2_writes (by decide)
theorem ops2_arg9 (V : Valuation τ sig (Elt F)) : after ops2 V (main_arg9 : DevRef τ sig) = V (main_arg9 : DevRef τ sig) :=
  after_of_writes_sub ops2 V ops2_writes (by decide)
theorem ops2_arg10 (V : Valuation τ sig (Elt F)) : after ops2 V (main_arg10 : DevRef τ sig) = V (main_arg10 : DevRef τ sig) :=
  after_of_writes_sub ops2 V ops2_writes (by decide)
theorem ops2_arg11 (V : Valuation τ sig (Elt F)) : after ops2 V (main_arg11 : DevRef τ sig) = V (main_arg11 : DevRef τ sig) :=
  after_of_writes_sub ops2 V ops2_writes (by decide)
theorem ops2_arg12 (V : Valuation τ sig (Elt F)) : after ops2 V (main_arg12 : DevRef τ sig) = V (main_arg12 : DevRef τ sig) :=
  after_of_writes_sub ops2 V ops2_writes (by decide)
theorem ops2_arg13 (V : Valuation τ sig (Elt F)) : after ops2 V (main_arg13 : DevRef τ sig) = V (main_arg13 : DevRef τ sig) :=
  after_of_writes_sub ops2 V ops2_writes (by decide)
theorem ops2_arg14 (V : Valuation τ sig (Elt F)) : after ops2 V (main_arg14 : DevRef τ sig) = V (main_arg14 : DevRef τ sig) :=
  after_of_writes_sub ops2 V ops2_writes (by decide)
theorem ops2_arg15 (V : Valuation τ sig (Elt F)) : after ops2 V (main_arg15 : DevRef τ sig) = V (main_arg15 : DevRef τ sig) :=
  after_of_writes_sub ops2 V ops2_writes (by decide)

set_option maxRecDepth 8192 in
theorem ops3_tc : (ops3 : List (HloOp τ sig (Elt F))).Forall fun op => op.bufs ⊆ tcRefs τ sig :=
  ⟨
    unary_bufs_sub .., unary_bufs_sub .., reshape_bufs_sub .., unary_bufs_sub .., unary_bufs_sub .., unary_bufs_sub ..,
    unary_bufs_sub .., nullary_bufs_sub .., unary_bufs_sub .., unary_bufs_sub .., binary_bufs_sub .., unary_bufs_sub ..⟩

/-- Every operation of the line touches unscoped TensorCore buffers only. -/
theorem ops3_sub : ∀ op ∈ (ops3 : List (HloOp τ sig (Elt F))), op.bufs ⊆ Pipeline.ucRefs τ sig :=
  fun op h => Pipeline.sub_ucRefs op (List.forall_iff_forall_mem.mp ops3_tc op h)

set_option maxRecDepth 8192 in
theorem ops3_freshAll : (ops3 : List (HloOp τ sig (Elt F))).Forall fun op => op.fresh = ∅ :=
  ⟨
    rfl, rfl, rfl, rfl, rfl, rfl, rfl, rfl, rfl, rfl, rfl, rfl⟩

/-- Every operation of the line determines its results. -/
theorem ops3_fresh : ∀ op ∈ (ops3 : List (HloOp τ sig (Elt F))), op.fresh = ∅ :=
  List.forall_iff_forall_mem.mp ops3_freshAll

/-- The buffers the line writes, in order: one per operation. -/
abbrev ops3_W : List (Ref sig .tc) :=
  [main_v37, main_v38, main_v39, main_v40, main_v41, main_v42, main_call2_v0, main_call2_v1, main_call2_v2, main_call2_v3, main_call2_v4, main_v43]

set_option maxRecDepth 8192 in
theorem ops3_writes : (ops3 : List (HloOp τ sig (Elt F))).Forall fun op =>
    op.writes ⊆ (ops3_W.map (Proc.devRef (τ := τ) .tc)).toFinset :=
  ⟨
    writes_sub_of_mem main_v37 rfl (by decide), writes_sub_of_mem main_v38 rfl (by decide), writes_sub_of_mem main_v39 rfl (by decide),
    writes_sub_of_mem main_v40 rfl (by decide), writes_sub_of_mem main_v41 rfl (by decide), writes_sub_of_mem main_v42 rfl (by decide),
    writes_sub_of_mem main_call2_v0 rfl (by decide), writes_sub_of_mem main_call2_v1 rfl (by decide), writes_sub_of_mem main_call2_v2 rfl (by decide),
    writes_sub_of_mem main_call2_v3 rfl (by decide), writes_sub_of_mem main_call2_v4 rfl (by decide), writes_sub_of_mem main_v43 rfl (by decide)⟩

theorem ops3_arg0 (V : Valuation τ sig (Elt F)) : after ops3 V (main_arg0 : DevRef τ sig) = V (main_arg0 : DevRef τ sig) :=
  after_of_writes_sub ops3 V ops3_writes (by decide)
theorem ops3_arg1 (V : Valuation τ sig (Elt F)) : after ops3 V (main_arg1 : DevRef τ sig) = V (main_arg1 : DevRef τ sig) :=
  after_of_writes_sub ops3 V ops3_writes (by decide)
theorem ops3_arg2 (V : Valuation τ sig (Elt F)) : after ops3 V (main_arg2 : DevRef τ sig) = V (main_arg2 : DevRef τ sig) :=
  after_of_writes_sub ops3 V ops3_writes (by decide)
theorem ops3_arg3 (V : Valuation τ sig (Elt F)) : after ops3 V (main_arg3 : DevRef τ sig) = V (main_arg3 : DevRef τ sig) :=
  after_of_writes_sub ops3 V ops3_writes (by decide)
theorem ops3_arg4 (V : Valuation τ sig (Elt F)) : after ops3 V (main_arg4 : DevRef τ sig) = V (main_arg4 : DevRef τ sig) :=
  after_of_writes_sub ops3 V ops3_writes (by decide)
theorem ops3_arg5 (V : Valuation τ sig (Elt F)) : after ops3 V (main_arg5 : DevRef τ sig) = V (main_arg5 : DevRef τ sig) :=
  after_of_writes_sub ops3 V ops3_writes (by decide)
theorem ops3_arg6 (V : Valuation τ sig (Elt F)) : after ops3 V (main_arg6 : DevRef τ sig) = V (main_arg6 : DevRef τ sig) :=
  after_of_writes_sub ops3 V ops3_writes (by decide)
theorem ops3_arg7 (V : Valuation τ sig (Elt F)) : after ops3 V (main_arg7 : DevRef τ sig) = V (main_arg7 : DevRef τ sig) :=
  after_of_writes_sub ops3 V ops3_writes (by decide)
theorem ops3_arg8 (V : Valuation τ sig (Elt F)) : after ops3 V (main_arg8 : DevRef τ sig) = V (main_arg8 : DevRef τ sig) :=
  after_of_writes_sub ops3 V ops3_writes (by decide)
theorem ops3_arg9 (V : Valuation τ sig (Elt F)) : after ops3 V (main_arg9 : DevRef τ sig) = V (main_arg9 : DevRef τ sig) :=
  after_of_writes_sub ops3 V ops3_writes (by decide)
theorem ops3_arg10 (V : Valuation τ sig (Elt F)) : after ops3 V (main_arg10 : DevRef τ sig) = V (main_arg10 : DevRef τ sig) :=
  after_of_writes_sub ops3 V ops3_writes (by decide)
theorem ops3_arg11 (V : Valuation τ sig (Elt F)) : after ops3 V (main_arg11 : DevRef τ sig) = V (main_arg11 : DevRef τ sig) :=
  after_of_writes_sub ops3 V ops3_writes (by decide)
theorem ops3_arg12 (V : Valuation τ sig (Elt F)) : after ops3 V (main_arg12 : DevRef τ sig) = V (main_arg12 : DevRef τ sig) :=
  after_of_writes_sub ops3 V ops3_writes (by decide)
theorem ops3_arg13 (V : Valuation τ sig (Elt F)) : after ops3 V (main_arg13 : DevRef τ sig) = V (main_arg13 : DevRef τ sig) :=
  after_of_writes_sub ops3 V ops3_writes (by decide)
theorem ops3_arg14 (V : Valuation τ sig (Elt F)) : after ops3 V (main_arg14 : DevRef τ sig) = V (main_arg14 : DevRef τ sig) :=
  after_of_writes_sub ops3 V ops3_writes (by decide)
theorem ops3_arg15 (V : Valuation τ sig (Elt F)) : after ops3 V (main_arg15 : DevRef τ sig) = V (main_arg15 : DevRef τ sig) :=
  after_of_writes_sub ops3 V ops3_writes (by decide)

set_option maxRecDepth 8192 in
theorem ops4_tc : (ops4 : List (HloOp τ sig (Elt F))).Forall fun op => op.bufs ⊆ tcRefs τ sig :=
  ⟨
    reshape_bufs_sub .., unary_bufs_sub .., unary_bufs_sub .., reshape_bufs_sub .., unary_bufs_sub .., unary_bufs_sub ..,
    reshape_bufs_sub .., unary_bufs_sub .., unary_bufs_sub .., unary_bufs_sub .., unary_bufs_sub .., unary_bufs_sub ..,
    unary_bufs_sub .., reshape_bufs_sub .., unary_bufs_sub .., unary_bufs_sub .., reshape_bufs_sub ..⟩

/-- Every operation of the line touches unscoped TensorCore buffers only. -/
theorem ops4_sub : ∀ op ∈ (ops4 : List (HloOp τ sig (Elt F))), op.bufs ⊆ Pipeline.ucRefs τ sig :=
  fun op h => Pipeline.sub_ucRefs op (List.forall_iff_forall_mem.mp ops4_tc op h)

set_option maxRecDepth 8192 in
theorem ops4_freshAll : (ops4 : List (HloOp τ sig (Elt F))).Forall fun op => op.fresh = ∅ :=
  ⟨
    rfl, rfl, rfl, rfl, rfl, rfl, rfl, rfl, rfl, rfl, rfl, rfl, rfl, rfl, rfl, rfl, rfl⟩

/-- Every operation of the line determines its results. -/
theorem ops4_fresh : ∀ op ∈ (ops4 : List (HloOp τ sig (Elt F))), op.fresh = ∅ :=
  List.forall_iff_forall_mem.mp ops4_freshAll

/-- The buffers the line writes, in order: one per operation. -/
abbrev ops4_W : List (Ref sig .tc) :=
  [main_v45, main_v46, main_v47, main_v48, main_v49, main_v50, main_v51, main_v52, main_v53, main_v54, main_v55, main_v56, main_v57, main_v58, main_v59, main_v60, main_v61]

set_option maxRecDepth 8192 in
theorem ops4_writes : (ops4 : List (HloOp τ sig (Elt F))).Forall fun op =>
    op.writes ⊆ (ops4_W.map (Proc.devRef (τ := τ) .tc)).toFinset :=
  ⟨
    writes_sub_of_mem main_v45 rfl (by decide), writes_sub_of_mem main_v46 rfl (by decide), writes_sub_of_mem main_v47 rfl (by decide),
    writes_sub_of_mem main_v48 rfl (by decide), writes_sub_of_mem main_v49 rfl (by decide), writes_sub_of_mem main_v50 rfl (by decide),
    writes_sub_of_mem main_v51 rfl (by decide), writes_sub_of_mem main_v52 rfl (by decide), writes_sub_of_mem main_v53 rfl (by decide),
    writes_sub_of_mem main_v54 rfl (by decide), writes_sub_of_mem main_v55 rfl (by decide), writes_sub_of_mem main_v56 rfl (by decide),
    writes_sub_of_mem main_v57 rfl (by decide), writes_sub_of_mem main_v58 rfl (by decide), writes_sub_of_mem main_v59 rfl (by decide),
    writes_sub_of_mem main_v60 rfl (by decide), writes_sub_of_mem main_v61 rfl (by decide)⟩

theorem ops4_arg0 (V : Valuation τ sig (Elt F)) : after ops4 V (main_arg0 : DevRef τ sig) = V (main_arg0 : DevRef τ sig) :=
  after_of_writes_sub ops4 V ops4_writes (by decide)
theorem ops4_arg1 (V : Valuation τ sig (Elt F)) : after ops4 V (main_arg1 : DevRef τ sig) = V (main_arg1 : DevRef τ sig) :=
  after_of_writes_sub ops4 V ops4_writes (by decide)
theorem ops4_arg2 (V : Valuation τ sig (Elt F)) : after ops4 V (main_arg2 : DevRef τ sig) = V (main_arg2 : DevRef τ sig) :=
  after_of_writes_sub ops4 V ops4_writes (by decide)
theorem ops4_arg3 (V : Valuation τ sig (Elt F)) : after ops4 V (main_arg3 : DevRef τ sig) = V (main_arg3 : DevRef τ sig) :=
  after_of_writes_sub ops4 V ops4_writes (by decide)
theorem ops4_arg4 (V : Valuation τ sig (Elt F)) : after ops4 V (main_arg4 : DevRef τ sig) = V (main_arg4 : DevRef τ sig) :=
  after_of_writes_sub ops4 V ops4_writes (by decide)
theorem ops4_arg5 (V : Valuation τ sig (Elt F)) : after ops4 V (main_arg5 : DevRef τ sig) = V (main_arg5 : DevRef τ sig) :=
  after_of_writes_sub ops4 V ops4_writes (by decide)
theorem ops4_arg6 (V : Valuation τ sig (Elt F)) : after ops4 V (main_arg6 : DevRef τ sig) = V (main_arg6 : DevRef τ sig) :=
  after_of_writes_sub ops4 V ops4_writes (by decide)
theorem ops4_arg7 (V : Valuation τ sig (Elt F)) : after ops4 V (main_arg7 : DevRef τ sig) = V (main_arg7 : DevRef τ sig) :=
  after_of_writes_sub ops4 V ops4_writes (by decide)
theorem ops4_arg8 (V : Valuation τ sig (Elt F)) : after ops4 V (main_arg8 : DevRef τ sig) = V (main_arg8 : DevRef τ sig) :=
  after_of_writes_sub ops4 V ops4_writes (by decide)
theorem ops4_arg9 (V : Valuation τ sig (Elt F)) : after ops4 V (main_arg9 : DevRef τ sig) = V (main_arg9 : DevRef τ sig) :=
  after_of_writes_sub ops4 V ops4_writes (by decide)
theorem ops4_arg10 (V : Valuation τ sig (Elt F)) : after ops4 V (main_arg10 : DevRef τ sig) = V (main_arg10 : DevRef τ sig) :=
  after_of_writes_sub ops4 V ops4_writes (by decide)
theorem ops4_arg11 (V : Valuation τ sig (Elt F)) : after ops4 V (main_arg11 : DevRef τ sig) = V (main_arg11 : DevRef τ sig) :=
  after_of_writes_sub ops4 V ops4_writes (by decide)
theorem ops4_arg12 (V : Valuation τ sig (Elt F)) : after ops4 V (main_arg12 : DevRef τ sig) = V (main_arg12 : DevRef τ sig) :=
  after_of_writes_sub ops4 V ops4_writes (by decide)
theorem ops4_arg13 (V : Valuation τ sig (Elt F)) : after ops4 V (main_arg13 : DevRef τ sig) = V (main_arg13 : DevRef τ sig) :=
  after_of_writes_sub ops4 V ops4_writes (by decide)
theorem ops4_arg14 (V : Valuation τ sig (Elt F)) : after ops4 V (main_arg14 : DevRef τ sig) = V (main_arg14 : DevRef τ sig) :=
  after_of_writes_sub ops4 V ops4_writes (by decide)
theorem ops4_arg15 (V : Valuation τ sig (Elt F)) : after ops4 V (main_arg15 : DevRef τ sig) = V (main_arg15 : DevRef τ sig) :=
  after_of_writes_sub ops4 V ops4_writes (by decide)

set_option maxRecDepth 8192 in
theorem ops5_tc : (ops5 : List (HloOp τ sig (Elt F))).Forall fun op => op.bufs ⊆ tcRefs τ sig :=
  binary_bufs_sub ..

/-- Every operation of the line touches unscoped TensorCore buffers only. -/
theorem ops5_sub : ∀ op ∈ (ops5 : List (HloOp τ sig (Elt F))), op.bufs ⊆ Pipeline.ucRefs τ sig :=
  fun op h => Pipeline.sub_ucRefs op (List.forall_iff_forall_mem.mp ops5_tc op h)

set_option maxRecDepth 8192 in
theorem ops5_freshAll : (ops5 : List (HloOp τ sig (Elt F))).Forall fun op => op.fresh = ∅ :=
  rfl

/-- Every operation of the line determines its results. -/
theorem ops5_fresh : ∀ op ∈ (ops5 : List (HloOp τ sig (Elt F))), op.fresh = ∅ :=
  List.forall_iff_forall_mem.mp ops5_freshAll

/-- The buffers the line writes, in order: one per operation. -/
abbrev ops5_W : List (Ref sig .tc) :=
  [main_v63]

set_option maxRecDepth 8192 in
theorem ops5_writes : (ops5 : List (HloOp τ sig (Elt F))).Forall fun op =>
    op.writes ⊆ (ops5_W.map (Proc.devRef (τ := τ) .tc)).toFinset :=
  writes_sub_of_mem main_v63 rfl (by decide)

theorem ops5_arg0 (V : Valuation τ sig (Elt F)) : after ops5 V (main_arg0 : DevRef τ sig) = V (main_arg0 : DevRef τ sig) :=
  after_of_writes_sub ops5 V ops5_writes (by decide)
theorem ops5_arg1 (V : Valuation τ sig (Elt F)) : after ops5 V (main_arg1 : DevRef τ sig) = V (main_arg1 : DevRef τ sig) :=
  after_of_writes_sub ops5 V ops5_writes (by decide)
theorem ops5_arg2 (V : Valuation τ sig (Elt F)) : after ops5 V (main_arg2 : DevRef τ sig) = V (main_arg2 : DevRef τ sig) :=
  after_of_writes_sub ops5 V ops5_writes (by decide)
theorem ops5_arg3 (V : Valuation τ sig (Elt F)) : after ops5 V (main_arg3 : DevRef τ sig) = V (main_arg3 : DevRef τ sig) :=
  after_of_writes_sub ops5 V ops5_writes (by decide)
theorem ops5_arg4 (V : Valuation τ sig (Elt F)) : after ops5 V (main_arg4 : DevRef τ sig) = V (main_arg4 : DevRef τ sig) :=
  after_of_writes_sub ops5 V ops5_writes (by decide)
theorem ops5_arg5 (V : Valuation τ sig (Elt F)) : after ops5 V (main_arg5 : DevRef τ sig) = V (main_arg5 : DevRef τ sig) :=
  after_of_writes_sub ops5 V ops5_writes (by decide)
theorem ops5_arg6 (V : Valuation τ sig (Elt F)) : after ops5 V (main_arg6 : DevRef τ sig) = V (main_arg6 : DevRef τ sig) :=
  after_of_writes_sub ops5 V ops5_writes (by decide)
theorem ops5_arg7 (V : Valuation τ sig (Elt F)) : after ops5 V (main_arg7 : DevRef τ sig) = V (main_arg7 : DevRef τ sig) :=
  after_of_writes_sub ops5 V ops5_writes (by decide)
theorem ops5_arg8 (V : Valuation τ sig (Elt F)) : after ops5 V (main_arg8 : DevRef τ sig) = V (main_arg8 : DevRef τ sig) :=
  after_of_writes_sub ops5 V ops5_writes (by decide)
theorem ops5_arg9 (V : Valuation τ sig (Elt F)) : after ops5 V (main_arg9 : DevRef τ sig) = V (main_arg9 : DevRef τ sig) :=
  after_of_writes_sub ops5 V ops5_writes (by decide)
theorem ops5_arg10 (V : Valuation τ sig (Elt F)) : after ops5 V (main_arg10 : DevRef τ sig) = V (main_arg10 : DevRef τ sig) :=
  after_of_writes_sub ops5 V ops5_writes (by decide)
theorem ops5_arg11 (V : Valuation τ sig (Elt F)) : after ops5 V (main_arg11 : DevRef τ sig) = V (main_arg11 : DevRef τ sig) :=
  after_of_writes_sub ops5 V ops5_writes (by decide)
theorem ops5_arg12 (V : Valuation τ sig (Elt F)) : after ops5 V (main_arg12 : DevRef τ sig) = V (main_arg12 : DevRef τ sig) :=
  after_of_writes_sub ops5 V ops5_writes (by decide)
theorem ops5_arg13 (V : Valuation τ sig (Elt F)) : after ops5 V (main_arg13 : DevRef τ sig) = V (main_arg13 : DevRef τ sig) :=
  after_of_writes_sub ops5 V ops5_writes (by decide)
theorem ops5_arg14 (V : Valuation τ sig (Elt F)) : after ops5 V (main_arg14 : DevRef τ sig) = V (main_arg14 : DevRef τ sig) :=
  after_of_writes_sub ops5 V ops5_writes (by decide)
theorem ops5_arg15 (V : Valuation τ sig (Elt F)) : after ops5 V (main_arg15 : DevRef τ sig) = V (main_arg15 : DevRef τ sig) :=
  after_of_writes_sub ops5 V ops5_writes (by decide)

/-- The first SparseCore call's index list: rows 0 to 2047 of the first index array, transposed and flattened; each entry is an entry of that array. -/
theorem v13_eq (V : Valuation τ sig (Elt F)) :
    (after ops1 V (main_v13 : DevRef τ sig) : (⟨S102400, .i32⟩ : BufTy).Contents (Elt F))
      = shapeCast S102400 (transpose S50x2048 [1, 0] (extractStridedSlice S2048x50 ![0, 0] (V (main_arg1 : DevRef τ sig) : (⟨S4096x50, .i32⟩ : BufTy).Contents (Elt F)) slices_S4096x50_S2048x50_0_0) transposes_S2048x50_S50x2048_1_0) shapeCasts_S50x2048_S102400 := by
  after_results_simp
  rfl

/-- Hence a bound on every entry of the argument array is a bound on every entry of it. -/
theorem v13_lt (V : Valuation τ sig (Elt F))
    (h : ∀ j, BitVec.toNat ((V (main_arg1 : DevRef τ sig) : (⟨S4096x50, .i32⟩ : BufTy).Contents (Elt F)) j) < 100000) :
    ∀ j, BitVec.toNat ((after ops1 V (main_v13 : DevRef τ sig) : (⟨S102400, .i32⟩ : BufTy).Contents (Elt F)) j) < 100000 := by
  intro j
  rw [v13_eq]
  exact h _

/-- The first SparseCore call's per-row index list: entries 0 to 2047 of the per-row index array. -/
theorem v14_eq (V : Valuation τ sig (Elt F)) :
    (after ops1 V (main_v14 : DevRef τ sig) : (⟨S2048, .i32⟩ : BufTy).Contents (Elt F))
      = extractStridedSlice S2048 ![0] (V (main_arg0 : DevRef τ sig) : (⟨S4096, .i32⟩ : BufTy).Contents (Elt F)) slices_S4096_S2048_0 := by
  after_results_simp

/-- Hence a bound on every entry of the argument array is a bound on every entry of it. -/
theorem v14_lt (V : Valuation τ sig (Elt F))
    (h : ∀ j, BitVec.toNat ((V (main_arg0 : DevRef τ sig) : (⟨S4096, .i32⟩ : BufTy).Contents (Elt F)) j) < 100000) :
    ∀ j, BitVec.toNat ((after ops1 V (main_v14 : DevRef τ sig) : (⟨S2048, .i32⟩ : BufTy).Contents (Elt F)) j) < 100000 := by
  intro j
  rw [v14_eq]
  exact h _

/-- The second SparseCore call's index list: rows 2048 to 4095 of the first index array, transposed and flattened. -/
theorem v39_eq (V : Valuation τ sig (Elt F)) :
    (after ops3 V (main_v39 : DevRef τ sig) : (⟨S102400, .i32⟩ : BufTy).Contents (Elt F))
      = shapeCast S102400 (transpose S50x2048 [1, 0] (extractStridedSlice S2048x50 ![2048, 0] (V (main_arg1 : DevRef τ sig) : (⟨S4096x50, .i32⟩ : BufTy).Contents (Elt F)) slices_S4096x50_S2048x50_2048_0) transposes_S2048x50_S50x2048_1_0) shapeCasts_S50x2048_S102400 := by
  after_results_simp
  rfl

/-- Hence a bound on every entry of the argument array is a bound on every entry of it. -/
theorem v39_lt (V : Valuation τ sig (Elt F))
    (h : ∀ j, BitVec.toNat ((V (main_arg1 : DevRef τ sig) : (⟨S4096x50, .i32⟩ : BufTy).Contents (Elt F)) j) < 100000) :
    ∀ j, BitVec.toNat ((after ops3 V (main_v39 : DevRef τ sig) : (⟨S102400, .i32⟩ : BufTy).Contents (Elt F)) j) < 100000 := by
  intro j
  rw [v39_eq]
  exact h _

/-- The second SparseCore call's per-row index list: entries 2048 to 4095 of the per-row index array. -/
theorem v40_eq (V : Valuation τ sig (Elt F)) :
    (after ops3 V (main_v40 : DevRef τ sig) : (⟨S2048, .i32⟩ : BufTy).Contents (Elt F))
      = extractStridedSlice S2048 ![2048] (V (main_arg0 : DevRef τ sig) : (⟨S4096, .i32⟩ : BufTy).Contents (Elt F)) slices_S4096_S2048_2048 := by
  after_results_simp

/-- Hence a bound on every entry of the argument array is a bound on every entry of it. -/
theorem v40_lt (V : Valuation τ sig (Elt F))
    (h : ∀ j, BitVec.toNat ((V (main_arg0 : DevRef τ sig) : (⟨S4096, .i32⟩ : BufTy).Contents (Elt F)) j) < 100000) :
    ∀ j, BitVec.toNat ((after ops3 V (main_v40 : DevRef τ sig) : (⟨S2048, .i32⟩ : BufTy).Contents (Elt F)) j) < 100000 := by
  intro j
  rw [v40_eq]
  exact h _

end Cert.Kernel.MainSegs

end
-- ==== Proof.WScMain.lean ====
/-
  @main of the kernel program on the TensorCore, piece by piece: six stretches of host operations (each run whole by the host
  rule over the arrays held), three TensorCore regions (each by its step, `RegStepR`: the arrays held go in and come out at a
  valuation related to the entry one, the arguments untouched; what the TensorCore owes is borrowed and returned), and the two gather calls (ScCall,
  ScCall1). The sixteen arguments are never written, so they end at their launch contents: what the claim reads.
-/
import proofs.«217981_g19061064860210_cont_8to1_1320_37_alg».proof.Proof.WScCall
import proofs.«217981_g19061064860210_cont_8to1_1320_37_alg».proof.Proof.WScCall1
import proofs.«217981_g19061064860210_cont_8to1_1320_37_alg».proof.Proof.KMainSegsWord

noncomputable section

namespace Cert.Proof.KW

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

open Idealize.ShloMosaic.StableHlo (held after seq)
open Idealize.ShloMosaic.TcCoe
open Cert.Kernel.MainSegs

variable (m : (ℓ : Loc nD τ sig) → Buf (Elt F) ℓ) (ρ : Dev nD → PrngReg)

/-- What the TensorCore owes before call `n`, with its recorded waits bounded: the part of its state a region borrows. -/
def tcOwes (d : Dev nD) (n : ℕ) : sProp 𝕄 :=
  iprop(∃ W, ⌜(K (F := F)).WBelow (SparseCore.T d) W (8 * n)⌝ ∗ owes (SparseCore.T d) ((K (F := F)).Otc d n) W)

/-- A TensorCore region's step inside @main: region `p`, entered when the TensorCore is before call `n`. The arrays held go in
    at `V` and come out at `exitV d V`; the region spends its share `Gin d` of the launch element; what the TensorCore owes is
    borrowed and returned. -/
def RegStep (p : Fin 3) (n : ℕ) (Gin : Dev nD → sProp 𝕄) (exitV : Dev nD → Valuation τ sig (Elt F) → Valuation τ sig (Elt F)) : Prop :=
  ∀ (d : Dev nD) (V : Valuation τ sig (Elt F)),
    iprop(boundary (SparseCore.T d)
        ∗ (held (SparseCore.T d) (Pipeline.ucRefs τ sig) V ∗ (∃ r, prngReg d r) ∗ tcOwes (F := F) d n)
        ∗ levAts (K (F := F)).L (K (F := F)).lev ∗ Gin d)
      ⊢ wp frame (wpE ((K (F := F)).defs (D (F := F))) 𝒱 (SparseCore.T d) none) Set.univ
          (Prog.lift (.customCall (SparseCore.inner (Pipeline.entry p)) ()))
          fun _ => iprop(boundary (SparseCore.T d)
            ∗ (held (SparseCore.T d) (Pipeline.ucRefs τ sig) (exitV d V) ∗ (∃ r, prngReg d r) ∗ tcOwes (F := F) d n))

/-- The same with the exit valuation only RELATED to the entry one (a region some of whose results' contents are forgotten). -/
def RegStepR (p : Fin 3) (n : ℕ) (Gin : Dev nD → sProp 𝕄) (R : Dev nD → Valuation τ sig (Elt F) → Valuation τ sig (Elt F) → Prop) : Prop :=
  ∀ (d : Dev nD) (V : Valuation τ sig (Elt F)),
    iprop(boundary (SparseCore.T d)
        ∗ (held (SparseCore.T d) (Pipeline.ucRefs τ sig) V ∗ (∃ r, prngReg d r) ∗ tcOwes (F := F) d n)
        ∗ levAts (K (F := F)).L (K (F := F)).lev ∗ Gin d)
      ⊢ wp frame (wpE ((K (F := F)).defs (D (F := F))) 𝒱 (SparseCore.T d) none) Set.univ
          (Prog.lift (.customCall (SparseCore.inner (Pipeline.entry p)) ()))
          fun _ => iprop(boundary (SparseCore.T d)
            ∗ ∃ V', ⌜R d V V'⌝ ∗ held (SparseCore.T d) (Pipeline.ucRefs τ sig) V' ∗ (∃ r, prngReg d r) ∗ tcOwes (F := F) d n)

/-- A step with a computed exit valuation is one with that valuation's graph as relation. -/
theorem RegStep.toR {p : Fin 3} {n : ℕ} {Gin : Dev nD → sProp 𝕄} {exitV : Dev nD → Valuation τ sig (Elt F) → Valuation τ sig (Elt F)}
    (h : RegStep (F := F) p n Gin exitV) : RegStepR (F := F) p n Gin (fun d V V' => V' = exitV d V) := by
  intro d V
  refine (h d V).trans (wp_mono frame _ _ fun _ => ?_)
  iintro ⟨Hb, Hh, Hp, Ho⟩
  isplitl [Hb]; · iexact Hb
  iexists _
  isplitr; · ipureintro; rfl
  isplitl [Hh]; · iexact Hh
  isplitl [Hp]; · iexact Hp
  iexact Ho

omit [FloatOps F] in
/-- Waits recorded at index `none` sit at level zero: the bound on the recorded pairs is kept. -/
theorem wbelow_keep (d : Dev nD) (n : ℕ) (W W' : Waits sig (HIx 2)) (hW : (K (F := F)).WBelow (SparseCore.T d) W (8 * n))
    (h : ∀ p ∈ W', p ∈ W ∨ p.2 = none) : (K (F := F)).WBelow (SparseCore.T d) W' (8 * n) := by
  intro p hp
  rcases h p hp with hw | hn
  · exact hW p hw
  · rw [show p.2 = none from hn]; exact Nat.zero_le _

omit [FloatOps F] in
/-- The TensorCore's state before call `n` opened: what it owes, the rest `R`, and that the two make the state again. -/
theorem tcSt_open (d : Dev nD) (n : ℕ) :
    (K (F := F)).tcSt EH d n ⊢ (iprop(∃ (R : sProp 𝕄), ⌜iprop(tcOwes (F := F) d n ∗ R) ⊢ (K (F := F)).tcSt EH d n⌝
      ∗ tcOwes (F := F) d n ∗ R) : sProp 𝕄) := by
  unfold SparseCore.Cfg.tcSt tcOwes
  iintro ⟨HC, HR⟩
  iexists _
  isplitr
  swap
  · isplitl [HC]; · iexact HC
    iexact HR
  ipureintro
  exact BI.Entails.refl _

/-- The sixteen arguments as device buffers. -/
def argEmb : Fin 16 ↪ DevRef τ sig := ⟨fun k => ((argRef k : Ref sig .tc) : DevRef τ sig), by decide⟩
theorem argSet_sub : Finset.univ.map argEmb ⊆ Pipeline.ucRefs τ sig := by decide

omit [FloatOps F] in
/-- The arguments at their launch contents, out of everything the TensorCore holds at a valuation that agrees with the
    launch memory on them. -/
theorem fin_of_held (d : Dev nD) (V : Valuation τ sig (Elt F))
    (hV : ∀ k : Fin 16, V ((argRef k : Ref sig .tc) : DevRef τ sig) = m (d, ((argRef k : Ref sig .tc) : DevRef τ sig))) :
    (held (SparseCore.T d) (Pipeline.ucRefs τ sig) V : sProp 𝕄) ⊢ FIN m d := by
  rw [StableHlo.held_sub_split (SparseCore.T d) argSet_sub V]
  have e : (held (SparseCore.T d) (Finset.univ.map argEmb) V : sProp 𝕄) = FIN m d := by
    unfold held FIN
    rw [BI.bigSep_map]
    exact bigSep_congr fun k _ => by rw [show V (argEmb k) = m (d, argEmb k) from hV k]; rfl
  rw [e]
  iintro ⟨H, -⟩
  iexact H

set_option maxHeartbeats 2000000 in
/-- @main's proof from its three regions' steps. -/
theorem hmain_of
    (G0 G1 G2 : Dev nD → sProp 𝕄)
    (R0 R1 R2 : Dev nD → Valuation τ sig (Elt F) → Valuation τ sig (Elt F) → Prop)
    (hreg0 : RegStepR (F := F) 0 0 G0 R0) (hreg1 : RegStepR (F := F) 1 1 G1 R1) (hreg2 : RegStepR (F := F) 2 2 G2 R2)
    (he0 : ∀ d V V', R0 d V V' → ∀ k : Fin 16, V' ((argRef k : Ref sig .tc) : DevRef τ sig) = V ((argRef k : Ref sig .tc) : DevRef τ sig))
    (he1 : ∀ d V V', R1 d V V' → ∀ k : Fin 16, V' ((argRef k : Ref sig .tc) : DevRef τ sig) = V ((argRef k : Ref sig .tc) : DevRef τ sig))
    (he2 : ∀ d V V', R2 d V V' → ∀ k : Fin 16, V' ((argRef k : Ref sig .tc) : DevRef τ sig) = V ((argRef k : Ref sig .tc) : DevRef τ sig))
    (ho0 : ∀ (V : Valuation τ sig (Elt F)) (k : Fin 16), after (ops0 (F := F)) V ((argRef k : Ref sig .tc) : DevRef τ sig) = V ((argRef k : Ref sig .tc) : DevRef τ sig))
    (ho1 : ∀ (V : Valuation τ sig (Elt F)) (k : Fin 16), after (ops1 (F := F)) V ((argRef k : Ref sig .tc) : DevRef τ sig) = V ((argRef k : Ref sig .tc) : DevRef τ sig))
    (ho2 : ∀ (V : Valuation τ sig (Elt F)) (k : Fin 16), after (ops2 (F := F)) V ((argRef k : Ref sig .tc) : DevRef τ sig) = V ((argRef k : Ref sig .tc) : DevRef τ sig))
    (ho3 : ∀ (V : Valuation τ sig (Elt F)) (k : Fin 16), after (ops3 (F := F)) V ((argRef k : Ref sig .tc) : DevRef τ sig) = V ((argRef k : Ref sig .tc) : DevRef τ sig))
    (ho4 : ∀ (V : Valuation τ sig (Elt F)) (k : Fin 16), after (ops4 (F := F)) V ((argRef k : Ref sig .tc) : DevRef τ sig) = V ((argRef k : Ref sig .tc) : DevRef τ sig))
    (ho5 : ∀ (V : Valuation τ sig (Elt F)) (k : Fin 16), after (ops5 (F := F)) V ((argRef k : Ref sig .tc) : DevRef τ sig) = V ((argRef k : Ref sig .tc) : DevRef τ sig))
    (hc0 : ∀ (V : Valuation τ sig (Elt F)) feu fuv (k : Fin 16), afterCall0 V feu fuv ((argRef k : Ref sig .tc) : DevRef τ sig) = V ((argRef k : Ref sig .tc) : DevRef τ sig))
    (hc1 : ∀ (V : Valuation τ sig (Elt F)) feu fuv (k : Fin 16), afterCall1 V feu fuv ((argRef k : Ref sig .tc) : DevRef τ sig) = V ((argRef k : Ref sig .tc) : DevRef τ sig))
    (hA1 : ∀ d j, BitVec.toNat ((m (d, (main_arg1 : DevRef τ sig)) : (⟨S4096x50, .i32⟩ : BufTy).Contents (Elt F)) j) < 100000)
    (hA0 : ∀ d j, BitVec.toNat ((m (d, (main_arg0 : DevRef τ sig)) : (⟨S4096, .i32⟩ : BufTy).Contents (Elt F)) j) < 100000) :
    MainObl m ρ (fun d => iprop(G0 d ∗ G1 d ∗ G2 d)) := by
  intro κ d
  unfold SparseCore.Cfg.tcRes
  rw [show unscopedBufs d (fun b => m ((SparseCore.T d).loc b)) = held (SparseCore.T d) (Pipeline.ucRefs τ sig) (fun b => m (d, b)) from
      Pipeline.unscopedBufs_held (Ix := HIx 2) (Name := ℕ) (U := UU) (Lvl := ℕ) d (fun b => m (d, b))]
  rw [main_eq]
  iintro ⟨#Hctx, Hst, ⟨Hb, Hheld, -, Hprng⟩, HG0, HG1, HG2⟩
  ihave Hlev := ((K (F := F)).ctx_levAts κ) $$ Hctx
  ihave Hprng := (show (prngReg d (ρ d) : sProp 𝕄) ⊢ iprop(∃ r, prngReg d r) from by iintro H; iexists _; iexact H) $$ Hprng
  -- host operations, stretch 0
  iapply (StableHlo.wp_seq 𝒱 none Set.univ d (Pipeline.ucRefs τ sig) _ (ops0 (F := F)) ops0_sub ops0_fresh _) $$ [Hb Hheld]
  · isplitl [Hb]; · iexact Hb
    iexact Hheld
  iintro ⟨Hb, Hheld⟩
  -- region 0
  ihave Ho := (tcSt_open d 0) $$ Hst
  icases Ho with ⟨%Rs0, %hcl0, HC, HR⟩
  irw [wp_bind]
  iapply (wp_wand_r frame (wpE ((K (F := F)).defs (D (F := F))) 𝒱 (SparseCore.T d) none) Set.univ)
  isplitl [Hb Hheld Hprng HC HG0]
  · iapply (hreg0 d _)
    isplitl [Hb]; · iexact Hb
    isplitl [Hheld Hprng HC]
    · isplitl [Hheld]; · iexact Hheld
      isplitl [Hprng]; · iexact Hprng
      iexact HC
    isplitr; · iexact Hlev
    iexact HG0
  iintro %_a0 ⟨Hb, %V2, %hR0, Hheld, Hprng, HC⟩
  ihave Hst := hcl0 $$ [HC HR]
  · isplitl [HC]; · iexact HC
    iexact HR
  have a2 : ∀ k : Fin 16, V2 ((argRef k : Ref sig .tc) : DevRef τ sig) = m (d, ((argRef k : Ref sig .tc) : DevRef τ sig)) := fun k =>
    (he0 d _ _ hR0 k).trans (ho0 (fun b => m (d, b)) k)
  -- host operations, stretch 1
  iapply (StableHlo.wp_seq 𝒱 none Set.univ d (Pipeline.ucRefs τ sig) _ (ops1 (F := F)) ops1_sub ops1_fresh _) $$ [Hb Hheld]
  · isplitl [Hb]; · iexact Hb
    iexact Hheld
  iintro ⟨Hb, Hheld⟩
  -- the first gather call
  have hv13 : ∀ j, BitVec.toNat ((after (ops1 (F := F)) V2 (main_v13 : DevRef τ sig) : (⟨S102400, .i32⟩ : BufTy).Contents (Elt F)) j) < 100000 :=
    v13_lt _ (fun j => by rw [show V2 (main_arg1 : DevRef τ sig) = m (d, (main_arg1 : DevRef τ sig)) from a2 1]; exact hA1 d j)
  have hv14 : ∀ j, BitVec.toNat ((after (ops1 (F := F)) V2 (main_v14 : DevRef τ sig) : (⟨S2048, .i32⟩ : BufTy).Contents (Elt F)) j) < 100000 :=
    v14_lt _ (fun j => by rw [show V2 (main_arg0 : DevRef τ sig) = m (d, (main_arg0 : DevRef τ sig)) from a2 0]; exact hA0 d j)
  irw [wp_bind]
  iapply (call0_step κ d _ hv13 hv14) $$ [Hst Hheld Hb Hprng HG1 HG2]
  isplitr; · iexact Hctx
  isplitl [Hst]; · iexact Hst
  isplitl [Hheld]; · iexact Hheld
  iintro %feu %fuv ⟨Hst, Hheld⟩
  -- host operations, stretch 2
  iapply (StableHlo.wp_seq 𝒱 none Set.univ d (Pipeline.ucRefs τ sig) _ (ops2 (F := F)) ops2_sub ops2_fresh _) $$ [Hb Hheld]
  · isplitl [Hb]; · iexact Hb
    iexact Hheld
  iintro ⟨Hb, Hheld⟩
  -- region 1
  ihave Ho := (tcSt_open d 1) $$ Hst
  icases Ho with ⟨%Rs1, %hcl1, HC, HR⟩
  irw [wp_bind]
  iapply (wp_wand_r frame (wpE ((K (F := F)).defs (D (F := F))) 𝒱 (SparseCore.T d) none) Set.univ)
  isplitl [Hb Hheld Hprng HC HG1]
  · iapply (hreg1 d _)
    isplitl [Hb]; · iexact Hb
    isplitl [Hheld Hprng HC]
    · isplitl [Hheld]; · iexact Hheld
      isplitl [Hprng]; · iexact Hprng
      iexact HC
    isplitr; · iexact Hlev
    iexact HG1
  iintro %_a1 ⟨Hb, %V6, %hR1, Hheld, Hprng, HC⟩
  ihave Hst := hcl1 $$ [HC HR]
  · isplitl [HC]; · iexact HC
    iexact HR
  have a6 : ∀ k : Fin 16, V6 ((argRef k : Ref sig .tc) : DevRef τ sig) = m (d, ((argRef k : Ref sig .tc) : DevRef τ sig)) := fun k =>
    (he1 d _ _ hR1 k).trans ((ho2 _ k).trans ((hc0 _ _ _ k).trans ((ho1 _ k).trans (a2 k))))
  -- host operations, stretch 3
  iapply (StableHlo.wp_seq 𝒱 none Set.univ d (Pipeline.ucRefs τ sig) _ (ops3 (F := F)) ops3_sub ops3_fresh _) $$ [Hb Hheld]
  · isplitl [Hb]; · iexact Hb
    iexact Hheld
  iintro ⟨Hb, Hheld⟩
  -- the second gather call
  have hv39 : ∀ j, BitVec.toNat ((after (ops3 (F := F)) V6 (main_v39 : DevRef τ sig) : (⟨S102400, .i32⟩ : BufTy).Contents (Elt F)) j) < 100000 :=
    v39_lt _ (fun j => by rw [show V6 (main_arg1 : DevRef τ sig) = m (d, (main_arg1 : DevRef τ sig)) from a6 1]; exact hA1 d j)
  have hv40 : ∀ j, BitVec.toNat ((after (ops3 (F := F)) V6 (main_v40 : DevRef τ sig) : (⟨S2048, .i32⟩ : BufTy).Contents (Elt F)) j) < 100000 :=
    v40_lt _ (fun j => by rw [show V6 (main_arg0 : DevRef τ sig) = m (d, (main_arg0 : DevRef τ sig)) from a6 0]; exact hA0 d j)
  irw [wp_bind]
  iapply (call1_step κ d _ hv39 hv40) $$ [Hst Hheld Hb Hprng HG2]
  isplitr; · iexact Hctx
  isplitl [Hst]; · iexact Hst
  isplitl [Hheld]; · iexact Hheld
  iintro %feu' %fuv' ⟨Hst, Hheld⟩
  -- host operations, stretch 4
  iapply (StableHlo.wp_seq 𝒱 none Set.univ d (Pipeline.ucRefs τ sig) _ (ops4 (F := F)) ops4_sub ops4_fresh _) $$ [Hb Hheld]
  · isplitl [Hb]; · iexact Hb
    iexact Hheld
  iintro ⟨Hb, Hheld⟩
  -- region 2
  ihave Ho := (tcSt_open d 2) $$ Hst
  icases Ho with ⟨%Rs2, %hcl2, HC, HR⟩
  irw [wp_bind]
  iapply (wp_wand_r frame (wpE ((K (F := F)).defs (D (F := F))) 𝒱 (SparseCore.T d) none) Set.univ)
  isplitl [Hb Hheld Hprng HC HG2]
  · iapply (hreg2 d _)
    isplitl [Hb]; · iexact Hb
    isplitl [Hheld Hprng HC]
    · isplitl [Hheld]; · iexact Hheld
      isplitl [Hprng]; · iexact Hprng
      iexact HC
    isplitr; · iexact Hlev
    iexact HG2
  iintro %_a2 ⟨Hb, %V10, %hR2, Hheld, Hprng, HC⟩
  ihave Hst := hcl2 $$ [HC HR]
  · isplitl [HC]; · iexact HC
    iexact HR
  have a10 : ∀ k : Fin 16, V10 ((argRef k : Ref sig .tc) : DevRef τ sig) = m (d, ((argRef k : Ref sig .tc) : DevRef τ sig)) := fun k =>
    (he2 d _ _ hR2 k).trans ((ho4 _ k).trans ((hc1 _ _ _ k).trans ((ho3 _ k).trans (a6 k))))
  -- the last host operation
  irw [← bind_pure (seq (ops5 (F := F)))]
  -- host operations, stretch 5
  iapply (StableHlo.wp_seq 𝒱 none Set.univ d (Pipeline.ucRefs τ sig) _ (ops5 (F := F)) ops5_sub ops5_fresh _) $$ [Hb Hheld]
  · isplitl [Hb]; · iexact Hb
    iexact Hheld
  iintro ⟨Hb, Hheld⟩
  irw [wp_pure]
  imodintro
  isplitl [Hst]; · iexact Hst
  iapply (fin_of_held m d _ (fun k => (ho5 _ k).trans (a10 k)))
  iexact Hheld

end Cert.Proof.KW

end
-- ==== Proof.WTcBody0.lean ====
/-
  The body of TensorCore pallas call 0 on whole staging buffers: what it leaves in its output window's
  buffer, and its run.

  The body loads its five input windows whole — two 64 × 8192 blocks of the transposed embedding
  tables, two 64 × 64 weight halves and a 1 × 64 bias —, multiplies each table block (transposed) by its
  weight half, adds the bias to the second product, and stores the two 8192 × 64 results side by side
  over the whole of its 8192 × 128 output window (it also loads the output window first, and does not
  use what it loaded).  So after the body the output buffer holds the canonical form of that one
  store, as a function of the five loaded blocks, and every input buffer is as it was.  The run is
  stated for any user ghost state and any continuation.
-/
import proofs.«217981_g19061064860210_cont_8to1_1320_37_alg».proof.Proof.Gen.Kernel.Launch
import proofs.«217981_g19061064860210_cont_8to1_1320_37_alg».proof.Proof.Gen.Kernel.Skeleton
import proofs.«217981_g19061064860210_cont_8to1_1320_37_alg».proof.Proof.Gen.Kernel.Points
import Idealize.ShloMosaic.Lib.Pipeline.FrameBody
import Idealize.ShloMosaic.Lib.Tactic

set_option maxRecDepth 16384

noncomputable section

namespace Cert.Kernel.Tc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The rectangles the body reads and writes: each window's whole block -/

abbrev r0_S64x8192 : Rect S64x8192 := Rect.unit (s := S64x8192) ![0, 0] S64x8192.size inb_S64x8192_S64x8192_0_0
abbrev r0_S64x64 : Rect S64x64 := Rect.unit (s := S64x64) ![0, 0] S64x64.size inb_S64x64_S64x64_0_0
abbrev r0_S1x64 : Rect S1x64 := Rect.unit (s := S1x64) ![0, 0] S1x64.size inb_S1x64_S1x64_0_0
abbrev r0_S8192x128 : Rect S8192x128 := Rect.unit (s := S8192x128) ![0, 0] S8192x128.size inb_S8192x128_S8192x128_0_0

/-! ## What the body leaves in the output window's buffer -/

/-- Window 5's staging buffer after the body, from the five input blocks: the one store, over the whole
    block, of the two products side by side. -/
def out0_5 (x0 : Vec F S64x8192 .f32) (x1 : Vec F S64x8192 .f32) (x2 : Vec F S64x64 .bf16) (x3 : Vec F S64x64 .bf16) (x4 : Vec F S1x64 .f32) : Vec F S8192x128 .f32 :=
  View.canon [⟨r0_S8192x128, k0_pay1 (View.ld x0 r0_S64x8192) (View.ld x2 r0_S64x64) (View.ld x1 r0_S64x8192) (View.ld x3 r0_S64x64) (View.ld x4 r0_S1x64)⟩]

/-- The one store covers the output block. -/
theorem cover0_5 (p0 : Vec F S8192x128 .f32) (y : S8192x128.Idx) :
    ∃ pc ∈ ([⟨r0_S8192x128, p0⟩] : List (View.Piece (Elt F) S8192x128 .f32)), y ∈ pc.1.set :=
  View.cover_of_tiled [⟨r0_S8192x128, p0⟩] S8192x128.size (by rfl) y

/-! ## The body's run -/

set_option maxHeartbeats 4000000 in
/-- The body on whole staging memrefs, the five inputs' at contents x0 … x4 and the output's at anything,
    runs to the continuation with the inputs' as they were and the output's at out0_5 of the inputs'. -/
theorem sound_kernel0 (𝒱₀ : Variants) (c : Dev nD) (E : Set Name) (i : grid0.Coords) (arg1 : Memref sig .tc .vmem S64x8192 .f32) (harg1 : arg1.IsWhole) (arg2 : Memref sig .tc .vmem S64x8192 .f32) (harg2 : arg2.IsWhole) (arg3 : Memref sig .tc .vmem S64x64 .bf16) (harg3 : arg3.IsWhole) (arg4 : Memref sig .tc .vmem S64x64 .bf16) (harg4 : arg4.IsWhole) (arg5 : Memref sig .tc .vmem S1x64 .f32) (harg5 : arg5.IsWhole) (arg6 : Memref sig .tc .vmem S8192x128 .f32) (harg6 : arg6.IsWhole)
    (x0 : Vec F S64x8192 .f32) (x1 : Vec F S64x8192 .f32) (x2 : Vec F S64x64 .bf16) (x3 : Vec F S64x64 .bf16) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) 𝒱₀ c none) E (cc0__pre_body i arg1 harg1 arg2 harg2 arg3 harg3 arg4 harg4 arg5 harg5 arg6 harg6) K := by
  simp only [cc0__pre_body_eq_skeleton]; unfold cc0__pre_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

end Cert.Kernel.Tc

end
-- ==== Proof.WTcDat0.lean ====
/-
  The proof data of TensorCore pallas call 0 on one core, and its body obligation.

  The two table windows (0 and 1: 64 × 8192 blocks of 64 × 100000 arrays) and the output window
  (5: 8192 × 128 blocks of a 100000 × 128 array) overhang their arrays at the last grid point:
  13 · 8192 > 100000.  There a fetch fills only the columns inside the array (the first 1696) and the
  rest of the staging buffer holds words nothing names; the write-back writes only the rows inside
  the array.  So the body obligation states those three buffers on the part the transfers move and
  nothing past it, and it is provable exactly when the output rows inside the array do not depend on
  the table columns past the array's end.  That is a property of the payload — row r of each product
  is the contraction of column r of the table block with the weights — and it is taken here as the
  hypothesis PayLocal0, so that everything else is stated for any float instance; at the extended
  reals it follows from the contraction read at an index.
  The three small windows (2, 3, 4: the weight halves and the bias) are whole arrays, fetched once.
-/
import proofs.«217981_g19061064860210_cont_8to1_1320_37_alg».proof.Proof.WTcBody0

set_option maxRecDepth 16384

noncomputable section

namespace Cert.Kernel.Tc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The windows' blocks -/

/-- Window w's block at point t as a fetch reads it: its part inside the array (for windows 0, 1 and 5 at
    the last point the first 1696 columns or rows; everywhere else the whole block). -/
def iblk0 (c : Dev nD) (A : (w : Fin cfg0.W) → Buf (Elt F) ((cfg0.win w).arr.view.loc (c.tc : Thread nD τ))) (w : Fin cfg0.W) (t : Fin cfg0.N) :
    ((cfg0.win w).xblock (cfg0.grid.coords t)).Idx → Elt F (cfg0.win w).elt :=
  ((cfg0.win w).blk t).view.read (Elt F) (A w)

/-- Table window 0's block at point t filled out to the staging buffer's 64 × 8192 with the zero word past
    the array's end (a filler nothing reads). -/
def blkz0_0 (c : Dev nD) (A : (w : Fin cfg0.W) → Buf (Elt F) ((cfg0.win w).arr.view.loc (c.tc : Thread nD τ))) (t : Fin cfg0.N) : S64x8192.Idx → Elt F .f32 :=
  win0_0.fill (grid0.coords t) (fun _ => Scalar.ofBits .f32 0#32) (iblk0 c A 0 t)
/-- Table window 1's likewise. -/
def blkz0_1 (c : Dev nD) (A : (w : Fin cfg0.W) → Buf (Elt F) ((cfg0.win w).arr.view.loc (c.tc : Thread nD τ))) (t : Fin cfg0.N) : S64x8192.Idx → Elt F .f32 :=
  win0_1.fill (grid0.coords t) (fun _ => Scalar.ofBits .f32 0#32) (iblk0 c A 1 t)

/-- The payload is local: the output rows inside the array depend only on the table columns inside the array.
    For every point's coordinates i, table blocks b0 b1 (their parts inside the arrays) and any two ways d, d'
    of filling them out to the staging buffers' size, the output block cut at the array's end is the same. -/
def PayLocal0 (F : FTy → Type) [FloatOps F] : Prop :=
  ∀ (i : grid0.Coords) (b0 : (win0_0.xblock i).Idx → Elt F .f32) (b1 : (win0_1.xblock i).Idx → Elt F .f32)
    (d0 d0' d1 d1' : S64x8192.Idx → Elt F .f32) (x2 : Vec F S64x64 .bf16) (x3 : Vec F S64x64 .bf16) (x4 : Vec F S1x64 .f32),
    win0_5.cut i (out0_5 (win0_0.fill i d0 b0) (win0_1.fill i d1 b1) x2 x3 x4)
      = win0_5.cut i (out0_5 (win0_0.fill i d0' b0) (win0_1.fill i d1' b1) x2 x3 x4)

/-- Input window 2's current staging buffer holds its block at every point, fetched there or not, for any
    proof data whose array is A's and whose body leaves the block in place: the window is uncut and never idle. -/
theorem before0_2_of {c : Dev nD} (A : (w : Fin cfg0.W) → Buf (Elt F) ((cfg0.win w).arr.view.loc (c.tc : Thread nD τ))) (dat : Dat τ (Elt F) Ix Name U Lvl cfg0 c) (hA : dat.A 2 = A 2)
    (hafter : ∀ t, dat.after 2 t = iblk0 c A 2 t) (t : Fin cfg0.N) (d) : dat.before 2 t d = iblk0 c A 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any
    proof data whose array is A's and whose body leaves the block in place: the window is uncut and never idle. -/
theorem before0_3_of {c : Dev nD} (A : (w : Fin cfg0.W) → Buf (Elt F) ((cfg0.win w).arr.view.loc (c.tc : Thread nD τ))) (dat : Dat τ (Elt F) Ix Name U Lvl cfg0 c) (hA : dat.A 3 = A 3)
    (hafter : ∀ t, dat.after 3 t = iblk0 c A 3 t) (t : Fin cfg0.N) (d) : dat.before 3 t d = iblk0 c A 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any
    proof data whose array is A's and whose body leaves the block in place: the window is uncut and never idle. -/
theorem before0_4_of {c : Dev nD} (A : (w : Fin cfg0.W) → Buf (Elt F) ((cfg0.win w).arr.view.loc (c.tc : Thread nD τ))) (dat : Dat τ (Elt F) Ix Name U Lvl cfg0 c) (hA : dat.A 4 = A 4)
    (hafter : ∀ t, dat.after 4 t = iblk0 c A 4 t) (t : Fin cfg0.N) (d) : dat.before 4 t d = iblk0 c A 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The proof data -/

/-- The proof data of the pipeline on core c: the arrays as the region finds them (A); after the body at
    point t the table windows' buffers at their blocks filled out with zero words, the three small windows'
    at their blocks, and the output's at the payload of those; the invariant Φ₀, the owed tallies O and the bound B on the recorded pairs
    at every point; full shares. -/
def dats0 (c : Dev nD) (A : (w : Fin cfg0.W) → Buf (Elt F) ((cfg0.win w).arr.view.loc (c.tc : Thread nD τ))) (Φ₀ : sProp 𝕄) (O : CellTallies nD τ sig Ix) (B : Set (SemLoc sig × Ix)) : Dat τ (Elt F) Ix Name U Lvl cfg0 c where
  A w := A w
  after w t := match w with
    | ⟨0, _⟩ => blkz0_0 c A t
    | ⟨1, _⟩ => blkz0_1 c A t
    | ⟨2, _⟩ => iblk0 c A 2 t
    | ⟨3, _⟩ => iblk0 c A 3 t
    | ⟨4, _⟩ => iblk0 c A 4 t
    | ⟨5, _⟩ => out0_5 (blkz0_0 c A t) (blkz0_1 c A t) (iblk0 c A 2 t) (iblk0 c A 3 t) (iblk0 c A 4 t)
  Φ _ := Φ₀
  q _ := fullShare
  owed _ := O
  recorded _ := B

/-- The proof data's arrays are the region-entry contents. -/
theorem A_eq0 (c : Dev nD) (A : (w : Fin cfg0.W) → Buf (Elt F) ((cfg0.win w).arr.view.loc (c.tc : Thread nD τ))) (Φ₀ : sProp 𝕄) (O : CellTallies nD τ sig Ix) (B : Set (SemLoc sig × Ix)) (w : Fin cfg0.W) : (dats0 (F := F) (Ix := Ix) (Name := Name) (U := U) (Lvl := Lvl) c A Φ₀ O B).A w = A w := by dsimp only [dats0]

/-- What the body leaves, window by window. -/
theorem after0_0 (c : Dev nD) (A : (w : Fin cfg0.W) → Buf (Elt F) ((cfg0.win w).arr.view.loc (c.tc : Thread nD τ))) (Φ₀ : sProp 𝕄) (O : CellTallies nD τ sig Ix) (B : Set (SemLoc sig × Ix)) (t : Fin cfg0.N) : (dats0 (F := F) (Ix := Ix) (Name := Name) (U := U) (Lvl := Lvl) c A Φ₀ O B).after 0 t = blkz0_0 c A t := by dsimp only [dats0]
theorem after0_1 (c : Dev nD) (A : (w : Fin cfg0.W) → Buf (Elt F) ((cfg0.win w).arr.view.loc (c.tc : Thread nD τ))) (Φ₀ : sProp 𝕄) (O : CellTallies nD τ sig Ix) (B : Set (SemLoc sig × Ix)) (t : Fin cfg0.N) : (dats0 (F := F) (Ix := Ix) (Name := Name) (U := U) (Lvl := Lvl) c A Φ₀ O B).after 1 t = blkz0_1 c A t := by dsimp only [dats0]
theorem after0_2 (c : Dev nD) (A : (w : Fin cfg0.W) → Buf (Elt F) ((cfg0.win w).arr.view.loc (c.tc : Thread nD τ))) (Φ₀ : sProp 𝕄) (O : CellTallies nD τ sig Ix) (B : Set (SemLoc sig × Ix)) (t : Fin cfg0.N) : (dats0 (F := F) (Ix := Ix) (Name := Name) (U := U) (Lvl := Lvl) c A Φ₀ O B).after 2 t = iblk0 c A 2 t := by dsimp only [dats0]
theorem after0_3 (c : Dev nD) (A : (w : Fin cfg0.W) → Buf (Elt F) ((cfg0.win w).arr.view.loc (c.tc : Thread nD τ))) (Φ₀ : sProp 𝕄) (O : CellTallies nD τ sig Ix) (B : Set (SemLoc sig × Ix)) (t : Fin cfg0.N) : (dats0 (F := F) (Ix := Ix) (Name := Name) (U := U) (Lvl := Lvl) c A Φ₀ O B).after 3 t = iblk0 c A 3 t := by dsimp only [dats0]
theorem after0_4 (c : Dev nD) (A : (w : Fin cfg0.W) → Buf (Elt F) ((cfg0.win w).arr.view.loc (c.tc : Thread nD τ))) (Φ₀ : sProp 𝕄) (O : CellTallies nD τ sig Ix) (B : Set (SemLoc sig × Ix)) (t : Fin cfg0.N) : (dats0 (F := F) (Ix := Ix) (Name := Name) (U := U) (Lvl := Lvl) c A Φ₀ O B).after 4 t = iblk0 c A 4 t := by dsimp only [dats0]
theorem after0_5 (c : Dev nD) (A : (w : Fin cfg0.W) → Buf (Elt F) ((cfg0.win w).arr.view.loc (c.tc : Thread nD τ))) (Φ₀ : sProp 𝕄) (O : CellTallies nD τ sig Ix) (B : Set (SemLoc sig × Ix)) (t : Fin cfg0.N) : (dats0 (F := F) (Ix := Ix) (Name := Name) (U := U) (Lvl := Lvl) c A Φ₀ O B).after 5 t
    = out0_5 (blkz0_0 c A t) (blkz0_1 c A t) (iblk0 c A 2 t) (iblk0 c A 3 t) (iblk0 c A 4 t) := by dsimp only [dats0]

/-- The table windows are fetched at every point: the buffer holds the block on the part inside the array and
    whatever it held (d) past it. -/
theorem before0_0 (c : Dev nD) (A : (w : Fin cfg0.W) → Buf (Elt F) ((cfg0.win w).arr.view.loc (c.tc : Thread nD τ))) (Φ₀ : sProp 𝕄) (O : CellTallies nD τ sig Ix) (B : Set (SemLoc sig × Ix)) (t : Fin cfg0.N) (d) :
    (dats0 (F := F) (Ix := Ix) (Name := Name) (U := U) (Lvl := Lvl) c A Φ₀ O B).before 0 t d = win0_0.fill (grid0.coords t) d (iblk0 c A 0 t) := by
  unfold Dat.before; rw [if_pos (fetch0_0 t)]; rfl
theorem before0_1 (c : Dev nD) (A : (w : Fin cfg0.W) → Buf (Elt F) ((cfg0.win w).arr.view.loc (c.tc : Thread nD τ))) (Φ₀ : sProp 𝕄) (O : CellTallies nD τ sig Ix) (B : Set (SemLoc sig × Ix)) (t : Fin cfg0.N) (d) :
    (dats0 (F := F) (Ix := Ix) (Name := Name) (U := U) (Lvl := Lvl) c A Φ₀ O B).before 1 t d = win0_1.fill (grid0.coords t) d (iblk0 c A 1 t) := by
  unfold Dat.before; rw [if_pos (fetch0_1 t)]; rfl
/-- The small windows hold their blocks at every point, fetched there or not. -/
theorem before0_2 (c : Dev nD) (A : (w : Fin cfg0.W) → Buf (Elt F) ((cfg0.win w).arr.view.loc (c.tc : Thread nD τ))) (Φ₀ : sProp 𝕄) (O : CellTallies nD τ sig Ix) (B : Set (SemLoc sig × Ix)) (t : Fin cfg0.N) (d) : (dats0 (F := F) (Ix := Ix) (Name := Name) (U := U) (Lvl := Lvl) c A Φ₀ O B).before 2 t d = iblk0 c A 2 t :=
  before0_2_of A (dats0 (F := F) (Ix := Ix) (Name := Name) (U := U) (Lvl := Lvl) c A Φ₀ O B) (A_eq0 c A Φ₀ O B 2) (after0_2 c A Φ₀ O B) t d
theorem before0_3 (c : Dev nD) (A : (w : Fin cfg0.W) → Buf (Elt F) ((cfg0.win w).arr.view.loc (c.tc : Thread nD τ))) (Φ₀ : sProp 𝕄) (O : CellTallies nD τ sig Ix) (B : Set (SemLoc sig × Ix)) (t : Fin cfg0.N) (d) : (dats0 (F := F) (Ix := Ix) (Name := Name) (U := U) (Lvl := Lvl) c A Φ₀ O B).before 3 t d = iblk0 c A 3 t :=
  before0_3_of A (dats0 (F := F) (Ix := Ix) (Name := Name) (U := U) (Lvl := Lvl) c A Φ₀ O B) (A_eq0 c A Φ₀ O B 3) (after0_3 c A Φ₀ O B) t d
theorem before0_4 (c : Dev nD) (A : (w : Fin cfg0.W) → Buf (Elt F) ((cfg0.win w).arr.view.loc (c.tc : Thread nD τ))) (Φ₀ : sProp 𝕄) (O : CellTallies nD τ sig Ix) (B : Set (SemLoc sig × Ix)) (t : Fin cfg0.N) (d) : (dats0 (F := F) (Ix := Ix) (Name := Name) (U := U) (Lvl := Lvl) c A Φ₀ O B).before 4 t d = iblk0 c A 4 t :=
  before0_4_of A (dats0 (F := F) (Ix := Ix) (Name := Name) (U := U) (Lvl := Lvl) c A Φ₀ O B) (A_eq0 c A Φ₀ O B 4) (after0_4 c A Φ₀ O B) t d

/-! ## The body obligation -/

set_option maxHeartbeats 4000000 in
/-- The library's body obligation for this proof data, at every point, given that the payload is local: the
    table buffers arrive holding their blocks filled out with anything past the array's end, the small ones
    their blocks, the output's anything; the body's run applies; the table buffers leave as they came, which on
    the part inside the array is their block; the output's leaves at the payload of what arrived, which on the
    rows inside the array is the payload of the zero-filled blocks, by locality. -/
theorem body_obligation0 (hloc : PayLocal0 F) (c : Dev nD) (A : (w : Fin cfg0.W) → Buf (Elt F) ((cfg0.win w).arr.view.loc (c.tc : Thread nD τ))) (Φ₀ : sProp 𝕄) (O : CellTallies nD τ sig Ix) (B : Set (SemLoc sig × Ix)) (𝒱₀ : Variants) (ι : Ix) :
    BodyObligationLoose (dats0 (F := F) (Ix := Ix) (Name := Name) (U := U) (Lvl := Lvl) c A Φ₀ O B) (defs₀ (F := F)) 𝒱₀ ι Set.univ := fun t => by
  rw [bigSep_W0, bigSep_W0]
  simp only
  rw [show (dats0 (F := F) (Ix := Ix) (Name := Name) (U := U) (Lvl := Lvl) c A Φ₀ O B).Φ t.succ = (dats0 (F := F) (Ix := Ix) (Name := Name) (U := U) (Lvl := Lvl) c A Φ₀ O B).Φ t.castSucc from rfl,
    show (dats0 (F := F) (Ix := Ix) (Name := Name) (U := U) (Lvl := Lvl) c A Φ₀ O B).owesAt ι t.succ = (dats0 (F := F) (Ix := Ix) (Name := Name) (U := U) (Lvl := Lvl) c A Φ₀ O B).owesAt ι t.castSucc from rfl]
  show _ ⊢ wp frame (wpE (defs₀ (F := F)) 𝒱₀ c none) Set.univ (bodyAt0 t) _
  unfold bodyAt0
  iintro ⟨HΦ, Ho, ⟨%d0, H0⟩, ⟨%d1, H1⟩, ⟨%d2, H2⟩, ⟨%d3, H3⟩, ⟨%d4, H4⟩, ⟨%d5, H5⟩⟩
  rw [before0_0 c A Φ₀ O B t d0, before0_1 c A Φ₀ O B t d1, before0_2 c A Φ₀ O B t d2, before0_3 c A Φ₀ O B t d3,
    before0_4 c A Φ₀ O B t d4]
  iapply (sound_kernel0 𝒱₀ c Set.univ (grid0.coords t) _ _ _ _ _ _ _ _ _ _ _ _
    (win0_0.fill (grid0.coords t) d0 (iblk0 c A 0 t)) (win0_1.fill (grid0.coords t) d1 (iblk0 c A 1 t))
    (iblk0 c A 2 t) (iblk0 c A 3 t) (iblk0 c A 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists d0
    rw [after0_0, show win0_0.cut (grid0.coords t) (blkz0_0 c A t) = iblk0 c A 0 t from win0_0.cut_fill _ _ _]
    iexact H0
  isplitl [H1]
  · iexists d1
    rw [after0_1, show win0_1.cut (grid0.coords t) (blkz0_1 c A t) = iblk0 c A 1 t from win0_1.cut_fill _ _ _]
    iexact H1
  isplitl [H2]; · rw [after0_2]; iexact H2
  isplitl [H3]; · rw [after0_3]; iexact H3
  isplitl [H4]; · rw [after0_4]; iexact H4
  iexists out0_5 (win0_0.fill (grid0.coords t) d0 (iblk0 c A 0 t)) (win0_1.fill (grid0.coords t) d1 (iblk0 c A 1 t))
    (iblk0 c A 2 t) (iblk0 c A 3 t) (iblk0 c A 4 t)
  have h := win0_5.fill_congr_cut (grid0.coords t)
    (hloc (grid0.coords t) (iblk0 c A 0 t) (iblk0 c A 1 t) d0 (fun _ => Scalar.ofBits .f32 0#32) d1 (fun _ => Scalar.ofBits .f32 0#32)
      (iblk0 c A 2 t) (iblk0 c A 3 t) (iblk0 c A 4 t))
  rw [after0_5, show (win0 5).fill (grid0.coords t)
      (out0_5 (win0_0.fill (grid0.coords t) d0 (iblk0 c A 0 t)) (win0_1.fill (grid0.coords t) d1 (iblk0 c A 1 t))
        (iblk0 c A 2 t) (iblk0 c A 3 t) (iblk0 c A 4 t))
      ((win0 5).cut (grid0.coords t)
        (out0_5 (blkz0_0 c A t) (blkz0_1 c A t) (iblk0 c A 2 t) (iblk0 c A 3 t) (iblk0 c A 4 t)))
    = out0_5 (win0_0.fill (grid0.coords t) d0 (iblk0 c A 0 t)) (win0_1.fill (grid0.coords t) d1 (iblk0 c A 1 t))
        (iblk0 c A 2 t) (iblk0 c A 3 t) (iblk0 c A 4 t) from h]
  iexact H5

end Cert.Kernel.Tc

end
-- ==== Proof.WTcBody2.lean ====
/-
  The body of TensorCore pallas call 2 on whole staging buffers: what it leaves in its output window's
  buffer, and its run.

  The body loads its thirteen input windows whole, computes, and stores one value over the whole of
  its output window (it also loads the output window first, and does not use what it loaded).  So
  after the body the output buffer holds the canonical form of that one store: the composed payload
  — the softmax-weighted sum over the 50 history rows of the rectified features, divided by the
  softmax denominator — as a function of the thirteen loaded blocks, and every input buffer is as it
  was.  The run is stated for any user ghost state and any continuation.
-/
import proofs.«217981_g19061064860210_cont_8to1_1320_37_alg».proof.Proof.Gen.Kernel.Launch
import proofs.«217981_g19061064860210_cont_8to1_1320_37_alg».proof.Proof.Gen.Kernel.Skeleton
import proofs.«217981_g19061064860210_cont_8to1_1320_37_alg».proof.Proof.Gen.Kernel.Points
import Idealize.ShloMosaic.Lib.Pipeline.FrameBody
import Idealize.ShloMosaic.Lib.Tactic

set_option maxRecDepth 16384

noncomputable section

namespace Cert.Kernel.Tc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The rectangles the body reads and writes: each window's whole block -/

abbrev r2_S50x128x128 : Rect S50x128x128 := Rect.unit (s := S50x128x128) ![0, 0, 0] S50x128x128.size inb_S50x128x128_S50x128x128_0_0_0
abbrev r2_S128x128 : Rect S128x128 := Rect.unit (s := S128x128) ![0, 0] S128x128.size inb_S128x128_S128x128_0_0
abbrev r2_S50x128x8 : Rect S50x128x8 := Rect.unit (s := S50x128x8) ![0, 0, 0] S50x128x8.size inb_S50x128x8_S50x128x8_0_0_0
abbrev r2_S8x64 : Rect S8x64 := Rect.unit (s := S8x64) ![0, 0] S8x64.size inb_S8x64_S8x64_0_0
abbrev r2_S64x64 : Rect S64x64 := Rect.unit (s := S64x64) ![0, 0] S64x64.size inb_S64x64_S64x64_0_0
abbrev r2_S1x64 : Rect S1x64 := Rect.unit (s := S1x64) ![0, 0] S1x64.size inb_S1x64_S1x64_0_0
abbrev r2_S1x1 : Rect S1x1 := Rect.unit (s := S1x1) ![0, 0] S1x1.size inb_S1x1_S1x1_0_0
abbrev r2_S128x64 : Rect S128x64 := Rect.unit (s := S128x64) ![0, 0] S128x64.size inb_S128x64_S128x64_0_0

/-! ## What the body leaves in the output window's buffer -/

/-- Window 13's staging buffer after the body, from the thirteen input blocks: the one store, over the
    whole block, of the composed payload. -/
def out2_13 (x0 : Vec F S50x128x128 .f32) (x1 : Vec F S128x128 .f32) (x2 : Vec F S50x128x8 .i8) (x3 : Vec F S8x64 .f32) (x4 : Vec F S64x64 .f32) (x5 : Vec F S1x64 .f32) (x6 : Vec F S64x64 .bf16) (x7 : Vec F S1x64 .bf16) (x8 : Vec F S64x64 .bf16) (x9 : Vec F S64x64 .bf16) (x10 : Vec F S1x64 .bf16) (x11 : Vec F S1x64 .bf16) (x12 : Vec F S1x1 .f32) : Vec F S128x64 .f32 :=
  View.canon [⟨r2_S128x64, k2_pay1 (k2_pay4 (k2_pay2 (View.ld x0 r2_S50x128x128) (View.ld x3 r2_S8x64) (View.ld x4 r2_S64x64) (View.ld x5 r2_S1x64) (View.ld x2 r2_S50x128x8) (View.ld x6 r2_S64x64) (View.ld x7 r2_S1x64)) (k2_pay3 (View.ld x1 r2_S128x128)) (View.ld x8 r2_S64x64) (View.ld x9 r2_S64x64) (View.ld x10 r2_S1x64) (View.ld x11 r2_S1x64) (View.ld x12 r2_S1x1)) (k2_pay5 (k2_pay2 (View.ld x0 r2_S50x128x128) (View.ld x3 r2_S8x64) (View.ld x4 r2_S64x64) (View.ld x5 r2_S1x64) (View.ld x2 r2_S50x128x8) (View.ld x6 r2_S64x64) (View.ld x7 r2_S1x64)) (k2_pay3 (View.ld x1 r2_S128x128)) (View.ld x8 r2_S64x64) (View.ld x9 r2_S64x64) (View.ld x10 r2_S1x64) (View.ld x11 r2_S1x64) (View.ld x12 r2_S1x1)) (k2_pay6 (k2_pay2 (View.ld x0 r2_S50x128x128) (View.ld x3 r2_S8x64) (View.ld x4 r2_S64x64) (View.ld x5 r2_S1x64) (View.ld x2 r2_S50x128x8) (View.ld x6 r2_S64x64) (View.ld x7 r2_S1x64)))⟩]

/-- The one store covers the output block. -/
theorem cover2_13 (p0 : Vec F S128x64 .f32) (y : S128x64.Idx) :
    ∃ pc ∈ ([⟨r2_S128x64, p0⟩] : List (View.Piece (Elt F) S128x64 .f32)), y ∈ pc.1.set :=
  View.cover_of_tiled [⟨r2_S128x64, p0⟩] S128x64.size (by rfl) y

/-! ## The body's run -/

set_option maxHeartbeats 4000000 in
/-- The body on whole staging memrefs, the thirteen inputs' at contents x0 … x12 and the output's at
    anything, runs to the continuation with the inputs' as they were and the output's at out2_13 of the
    inputs'. -/
theorem sound_kernel2 (𝒱₀ : Variants) (c : Dev nD) (E : Set Name) (i : grid2.Coords) (arg1 : Memref sig .tc .vmem S50x128x128 .f32) (harg1 : arg1.IsWhole) (arg2 : Memref sig .tc .vmem S128x128 .f32) (harg2 : arg2.IsWhole) (arg3 : Memref sig .tc .vmem S50x128x8 .i8) (harg3 : arg3.IsWhole) (arg4 : Memref sig .tc .vmem S8x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .bf16) (harg7 : arg7.IsWhole) (arg8 : Memref sig .tc .vmem S1x64 .bf16) (harg8 : arg8.IsWhole) (arg9 : Memref sig .tc .vmem S64x64 .bf16) (harg9 : arg9.IsWhole) (arg10 : Memref sig .tc .vmem S64x64 .bf16) (harg10 : arg10.IsWhole) (arg11 : Memref sig .tc .vmem S1x64 .bf16) (harg11 : arg11.IsWhole) (arg12 : Memref sig .tc .vmem S1x64 .bf16) (harg12 : arg12.IsWhole) (arg13 : Memref sig .tc .vmem S1x1 .f32) (harg13 : arg13.IsWhole) (arg14 : Memref sig .tc .vmem S128x64 .f32) (harg14 : arg14.IsWhole)
    (x0 : Vec F S50x128x128 .f32) (x1 : Vec F S128x128 .f32) (x2 : Vec F S50x128x8 .i8) (x3 : Vec F S8x64 .f32) (x4 : Vec F S64x64 .f32) (x5 : Vec F S1x64 .f32) (x6 : Vec F S64x64 .bf16) (x7 : Vec F S1x64 .bf16) (x8 : Vec F S64x64 .bf16) (x9 : Vec F S64x64 .bf16) (x10 : Vec F S1x64 .bf16) (x11 : Vec F S1x64 .bf16) (x12 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out2_13 x0 x1 x2 x3 x4 x5 x6 x7 x8 x9 x10 x11 x12)) -∗ K ⟨⟩))
      ⊢ wp frame (wpE (defs₀ (F := F)) 𝒱₀ c none) E (cc2__tc_body i arg1 harg1 arg2 harg2 arg3 harg3 arg4 harg4 arg5 harg5 arg6 harg6 arg7 harg7 arg8 harg8 arg9 harg9 arg10 harg10 arg11 harg11 arg12 harg12 arg13 harg13 arg14 harg14) K := by
  simp only [cc2__tc_body_eq_skeleton]; unfold cc2__tc_body_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  exact View.read_writes_eq_canon _ _ _ (cover2_13 _)

end Cert.Kernel.Tc

end
-- ==== Proof.WTcDat2.lean ====
/-
  The proof data of TensorCore pallas call 2 on one core, and its body obligation.

  The region is entered with each windowed array at some contents A w (whatever ran before the region
  left there).  No window of this call is clipped or idle, so at every point each input window's
  current staging buffer holds the array's block there — fetched at that point, or fetched earlier
  with the block index unmoved since — and the output window's buffer holds anything.  The body reads
  the thirteen input blocks and leaves them in place, and leaves in the output buffer the composed
  payload of those blocks.  The invariant carried beside the windows (everything of the core the body
  does not touch) and the tallies the core owes are parameters, constant from point to point: the
  body touches neither.
-/
import proofs.«217981_g19061064860210_cont_8to1_1320_37_alg».proof.Proof.WTcBody2

set_option maxRecDepth 16384

noncomputable section

namespace Cert.Kernel.Tc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The windows' blocks -/

/-- Window w's block at point t, read off its array as the region finds it (A w). -/
def iblk2 (c : Dev nD) (A : (w : Fin cfg2.W) → Buf (Elt F) ((cfg2.win w).arr.view.loc (c.tc : Thread nD τ))) (w : Fin cfg2.W) (t : Fin cfg2.N) :
    ((cfg2.win w).xblock (cfg2.grid.coords t)).Idx → Elt F (cfg2.win w).elt :=
  ((cfg2.win w).blk t).view.read (Elt F) (A w)

/-- Input window 0's current staging buffer holds its block at every point, fetched there or not, for any
    proof data whose array is A's and whose body leaves the block in place: the window is uncut and never idle. -/
theorem before2_0_of {c : Dev nD} (A : (w : Fin cfg2.W) → Buf (Elt F) ((cfg2.win w).arr.view.loc (c.tc : Thread nD τ))) (dat : Dat τ (Elt F) Ix Name U Lvl cfg2 c) (hA : dat.A 0 = A 0)
    (hafter : ∀ t, dat.after 0 t = iblk2 c A 0 t) (t : Fin cfg2.N) (d) : dat.before 0 t d = iblk2 c A 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any
    proof data whose array is A's and whose body leaves the block in place: the window is uncut and never idle. -/
theorem before2_1_of {c : Dev nD} (A : (w : Fin cfg2.W) → Buf (Elt F) ((cfg2.win w).arr.view.loc (c.tc : Thread nD τ))) (dat : Dat τ (Elt F) Ix Name U Lvl cfg2 c) (hA : dat.A 1 = A 1)
    (hafter : ∀ t, dat.after 1 t = iblk2 c A 1 t) (t : Fin cfg2.N) (d) : dat.before 1 t d = iblk2 c A 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any
    proof data whose array is A's and whose body leaves the block in place: the window is uncut and never idle. -/
theorem before2_2_of {c : Dev nD} (A : (w : Fin cfg2.W) → Buf (Elt F) ((cfg2.win w).arr.view.loc (c.tc : Thread nD τ))) (dat : Dat τ (Elt F) Ix Name U Lvl cfg2 c) (hA : dat.A 2 = A 2)
    (hafter : ∀ t, dat.after 2 t = iblk2 c A 2 t) (t : Fin cfg2.N) (d) : dat.before 2 t d = iblk2 c A 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for any
    proof data whose array is A's and whose body leaves the block in place: the window is uncut and never idle. -/
theorem before2_3_of {c : Dev nD} (A : (w : Fin cfg2.W) → Buf (Elt F) ((cfg2.win w).arr.view.loc (c.tc : Thread nD τ))) (dat : Dat τ (Elt F) Ix Name U Lvl cfg2 c) (hA : dat.A 3 = A 3)
    (hafter : ∀ t, dat.after 3 t = iblk2 c A 3 t) (t : Fin cfg2.N) (d) : dat.before 3 t d = iblk2 c A 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for any
    proof data whose array is A's and whose body leaves the block in place: the window is uncut and never idle. -/
theorem before2_4_of {c : Dev nD} (A : (w : Fin cfg2.W) → Buf (Elt F) ((cfg2.win w).arr.view.loc (c.tc : Thread nD τ))) (dat : Dat τ (Elt F) Ix Name U Lvl cfg2 c) (hA : dat.A 4 = A 4)
    (hafter : ∀ t, dat.after 4 t = iblk2 c A 4 t) (t : Fin cfg2.N) (d) : dat.before 4 t d = iblk2 c A 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for any
    proof data whose array is A's and whose body leaves the block in place: the window is uncut and never idle. -/
theorem before2_5_of {c : Dev nD} (A : (w : Fin cfg2.W) → Buf (Elt F) ((cfg2.win w).arr.view.loc (c.tc : Thread nD τ))) (dat : Dat τ (Elt F) Ix Name U Lvl cfg2 c) (hA : dat.A 5 = A 5)
    (hafter : ∀ t, dat.after 5 t = iblk2 c A 5 t) (t : Fin cfg2.N) (d) : dat.before 5 t d = iblk2 c A 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not, for any
    proof data whose array is A's and whose body leaves the block in place: the window is uncut and never idle. -/
theorem before2_6_of {c : Dev nD} (A : (w : Fin cfg2.W) → Buf (Elt F) ((cfg2.win w).arr.view.loc (c.tc : Thread nD τ))) (dat : Dat τ (Elt F) Ix Name U Lvl cfg2 c) (hA : dat.A 6 = A 6)
    (hafter : ∀ t, dat.after 6 t = iblk2 c A 6 t) (t : Fin cfg2.N) (d) : dat.before 6 t d = iblk2 c A 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- Input window 7's current staging buffer holds its block at every point, fetched there or not, for any
    proof data whose array is A's and whose body leaves the block in place: the window is uncut and never idle. -/
theorem before2_7_of {c : Dev nD} (A : (w : Fin cfg2.W) → Buf (Elt F) ((cfg2.win w).arr.view.loc (c.tc : Thread nD τ))) (dat : Dat τ (Elt F) Ix Name U Lvl cfg2 c) (hA : dat.A 7 = A 7)
    (hafter : ∀ t, dat.after 7 t = iblk2 c A 7 t) (t : Fin cfg2.N) (d) : dat.before 7 t d = iblk2 c A 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
/-- Input window 8's current staging buffer holds its block at every point, fetched there or not, for any
    proof data whose array is A's and whose body leaves the block in place: the window is uncut and never idle. -/
theorem before2_8_of {c : Dev nD} (A : (w : Fin cfg2.W) → Buf (Elt F) ((cfg2.win w).arr.view.loc (c.tc : Thread nD τ))) (dat : Dat τ (Elt F) Ix Name U Lvl cfg2 c) (hA : dat.A 8 = A 8)
    (hafter : ∀ t, dat.after 8 t = iblk2 c A 8 t) (t : Fin cfg2.N) (d) : dat.before 8 t d = iblk2 c A 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
/-- Input window 9's current staging buffer holds its block at every point, fetched there or not, for any
    proof data whose array is A's and whose body leaves the block in place: the window is uncut and never idle. -/
theorem before2_9_of {c : Dev nD} (A : (w : Fin cfg2.W) → Buf (Elt F) ((cfg2.win w).arr.view.loc (c.tc : Thread nD τ))) (dat : Dat τ (Elt F) Ix Name U Lvl cfg2 c) (hA : dat.A 9 = A 9)
    (hafter : ∀ t, dat.after 9 t = iblk2 c A 9 t) (t : Fin cfg2.N) (d) : dat.before 9 t d = iblk2 c A 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
/-- Input window 10's current staging buffer holds its block at every point, fetched there or not, for any
    proof data whose array is A's and whose body leaves the block in place: the window is uncut and never idle. -/
theorem before2_10_of {c : Dev nD} (A : (w : Fin cfg2.W) → Buf (Elt F) ((cfg2.win w).arr.view.loc (c.tc : Thread nD τ))) (dat : Dat τ (Elt F) Ix Name U Lvl cfg2 c) (hA : dat.A 10 = A 10)
    (hafter : ∀ t, dat.after 10 t = iblk2 c A 10 t) (t : Fin cfg2.N) (d) : dat.before 10 t d = iblk2 c A 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)
/-- Input window 11's current staging buffer holds its block at every point, fetched there or not, for any
    proof data whose array is A's and whose body leaves the block in place: the window is uncut and never idle. -/
theorem before2_11_of {c : Dev nD} (A : (w : Fin cfg2.W) → Buf (Elt F) ((cfg2.win w).arr.view.loc (c.tc : Thread nD τ))) (dat : Dat τ (Elt F) Ix Name U Lvl cfg2 c) (hA : dat.A 11 = A 11)
    (hafter : ∀ t, dat.after 11 t = iblk2 c A 11 t) (t : Fin cfg2.N) (d) : dat.before 11 t d = iblk2 c A 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)
/-- Input window 12's current staging buffer holds its block at every point, fetched there or not, for any
    proof data whose array is A's and whose body leaves the block in place: the window is uncut and never idle. -/
theorem before2_12_of {c : Dev nD} (A : (w : Fin cfg2.W) → Buf (Elt F) ((cfg2.win w).arr.view.loc (c.tc : Thread nD τ))) (dat : Dat τ (Elt F) Ix Name U Lvl cfg2 c) (hA : dat.A 12 = A 12)
    (hafter : ∀ t, dat.after 12 t = iblk2 c A 12 t) (t : Fin cfg2.N) (d) : dat.before 12 t d = iblk2 c A 12 t :=
  (dat.before_in_eq_fetched 12 rfl (fun _ => rfl) (fun _ _ _ => rfl) (fun t => by rw [hafter]; unfold Dat.blockOf iblk2; rw [hA]; try rfl) t d).trans
    (by unfold Dat.fetched Dat.blockOf iblk2; rw [hA]; try rfl)

/-! ## The proof data -/

/-- The proof data of the pipeline on core c: the arrays as the region finds them (A); after the body at
    point t each input's buffer at its block and the output's at the composed payload of the input blocks;
    the invariant Φ₀, the owed tallies O and the bound B on the recorded pairs at every point; full shares. -/
def dats2 (c : Dev nD) (A : (w : Fin cfg2.W) → Buf (Elt F) ((cfg2.win w).arr.view.loc (c.tc : Thread nD τ))) (Φ₀ : sProp 𝕄) (O : CellTallies nD τ sig Ix) (B : Set (SemLoc sig × Ix)) : Dat τ (Elt F) Ix Name U Lvl cfg2 c where
  A w := A w
  after w t := match w with
    | ⟨0, _⟩ => iblk2 c A 0 t
    | ⟨1, _⟩ => iblk2 c A 1 t
    | ⟨2, _⟩ => iblk2 c A 2 t
    | ⟨3, _⟩ => iblk2 c A 3 t
    | ⟨4, _⟩ => iblk2 c A 4 t
    | ⟨5, _⟩ => iblk2 c A 5 t
    | ⟨6, _⟩ => iblk2 c A 6 t
    | ⟨7, _⟩ => iblk2 c A 7 t
    | ⟨8, _⟩ => iblk2 c A 8 t
    | ⟨9, _⟩ => iblk2 c A 9 t
    | ⟨10, _⟩ => iblk2 c A 10 t
    | ⟨11, _⟩ => iblk2 c A 11 t
    | ⟨12, _⟩ => iblk2 c A 12 t
    | ⟨13, _⟩ => out2_13 (iblk2 c A 0 t) (iblk2 c A 1 t) (iblk2 c A 2 t) (iblk2 c A 3 t) (iblk2 c A 4 t) (iblk2 c A 5 t) (iblk2 c A 6 t) (iblk2 c A 7 t) (iblk2 c A 8 t) (iblk2 c A 9 t) (iblk2 c A 10 t) (iblk2 c A 11 t) (iblk2 c A 12 t)
  Φ _ := Φ₀
  q _ := fullShare
  owed _ := O
  recorded _ := B

/-- The proof data's arrays are the region-entry contents. -/
theorem A_eq2 (c : Dev nD) (A : (w : Fin cfg2.W) → Buf (Elt F) ((cfg2.win w).arr.view.loc (c.tc : Thread nD τ))) (Φ₀ : sProp 𝕄) (O : CellTallies nD τ sig Ix) (B : Set (SemLoc sig × Ix)) (w : Fin cfg2.W) : (dats2 (F := F) (Ix := Ix) (Name := Name) (U := U) (Lvl := Lvl) c A Φ₀ O B).A w = A w := by dsimp only [dats2]

/-- What the body leaves, window by window. -/
theorem after2_0 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) : (dats2 (F := F) (Ix := Ix) (Name := Name) (U := U) (Lvl := Lvl) c A Φ₀ O B).after 0 t = iblk2 c A 0 t := by dsimp only [dats2]
theorem after2_1 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) : (dats2 (F := F) (Ix := Ix) (Name := Name) (U := U) (Lvl := Lvl) c A Φ₀ O B).after 1 t = iblk2 c A 1 t := by dsimp only [dats2]
theorem after2_2 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) : (dats2 (F := F) (Ix := Ix) (Name := Name) (U := U) (Lvl := Lvl) c A Φ₀ O B).after 2 t = iblk2 c A 2 t := by dsimp only [dats2]
theorem after2_3 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) : (dats2 (F := F) (Ix := Ix) (Name := Name) (U := U) (Lvl := Lvl) c A Φ₀ O B).after 3 t = iblk2 c A 3 t := by dsimp only [dats2]
theorem after2_4 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) : (dats2 (F := F) (Ix := Ix) (Name := Name) (U := U) (Lvl := Lvl) c A Φ₀ O B).after 4 t = iblk2 c A 4 t := by dsimp only [dats2]
theorem after2_5 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) : (dats2 (F := F) (Ix := Ix) (Name := Name) (U := U) (Lvl := Lvl) c A Φ₀ O B).after 5 t = iblk2 c A 5 t := by dsimp only [dats2]
theorem after2_6 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) : (dats2 (F := F) (Ix := Ix) (Name := Name) (U := U) (Lvl := Lvl) c A Φ₀ O B).after 6 t = iblk2 c A 6 t := by dsimp only [dats2]
theorem after2_7 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) : (dats2 (F := F) (Ix := Ix) (Name := Name) (U := U) (Lvl := Lvl) c A Φ₀ O B).after 7 t = iblk2 c A 7 t := by dsimp only [dats2]
theorem after2_8 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) : (dats2 (F := F) (Ix := Ix) (Name := Name) (U := U) (Lvl := Lvl) c A Φ₀ O B).after 8 t = iblk2 c A 8 t := by dsimp only [dats2]
theorem after2_9 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) : (dats2 (F := F) (Ix := Ix) (Name := Name) (U := U) (Lvl := Lvl) c A Φ₀ O B).after 9 t = iblk2 c A 9 t := by dsimp only [dats2]
theorem after2_10 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) : (dats2 (F := F) (Ix := Ix) (Name := Name) (U := U) (Lvl := Lvl) c A Φ₀ O B).after 10 t = iblk2 c A 10 t := by dsimp only [dats2]
theorem after2_11 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) : (dats2 (F := F) (Ix := Ix) (Name := Name) (U := U) (Lvl := Lvl) c A Φ₀ O B).after 11 t = iblk2 c A 11 t := by dsimp only [dats2]
theorem after2_12 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) : (dats2 (F := F) (Ix := Ix) (Name := Name) (U := U) (Lvl := Lvl) c A Φ₀ O B).after 12 t = iblk2 c A 12 t := by dsimp only [dats2]
theorem after2_13 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) : (dats2 (F := F) (Ix := Ix) (Name := Name) (U := U) (Lvl := Lvl) c A Φ₀ O B).after 13 t = out2_13 (iblk2 c A 0 t) (iblk2 c A 1 t) (iblk2 c A 2 t) (iblk2 c A 3 t) (iblk2 c A 4 t) (iblk2 c A 5 t) (iblk2 c A 6 t) (iblk2 c A 7 t) (iblk2 c A 8 t) (iblk2 c A 9 t) (iblk2 c A 10 t) (iblk2 c A 11 t) (iblk2 c A 12 t) := by dsimp only [dats2]

/-- Each input's current staging buffer holds its block at every point, fetched there or not. -/
theorem before2_0 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) (d) : (dats2 (F := F) (Ix := Ix) (Name := Name) (U := U) (Lvl := Lvl) c A Φ₀ O B).before 0 t d = iblk2 c A 0 t :=
  before2_0_of A (dats2 (F := F) (Ix := Ix) (Name := Name) (U := U) (Lvl := Lvl) c A Φ₀ O B) (A_eq2 c A Φ₀ O B 0) (after2_0 c A Φ₀ O B) t d
theorem before2_1 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) (d) : (dats2 (F := F) (Ix := Ix) (Name := Name) (U := U) (Lvl := Lvl) c A Φ₀ O B).before 1 t d = iblk2 c A 1 t :=
  before2_1_of A (dats2 (F := F) (Ix := Ix) (Name := Name) (U := U) (Lvl := Lvl) c A Φ₀ O B) (A_eq2 c A Φ₀ O B 1) (after2_1 c A Φ₀ O B) t d
theorem before2_2 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) (d) : (dats2 (F := F) (Ix := Ix) (Name := Name) (U := U) (Lvl := Lvl) c A Φ₀ O B).before 2 t d = iblk2 c A 2 t :=
  before2_2_of A (dats2 (F := F) (Ix := Ix) (Name := Name) (U := U) (Lvl := Lvl) c A Φ₀ O B) (A_eq2 c A Φ₀ O B 2) (after2_2 c A Φ₀ O B) t d
theorem before2_3 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) (d) : (dats2 (F := F) (Ix := Ix) (Name := Name) (U := U) (Lvl := Lvl) c A Φ₀ O B).before 3 t d = iblk2 c A 3 t :=
  before2_3_of A (dats2 (F := F) (Ix := Ix) (Name := Name) (U := U) (Lvl := Lvl) c A Φ₀ O B) (A_eq2 c A Φ₀ O B 3) (after2_3 c A Φ₀ O B) t d
theorem before2_4 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) (d) : (dats2 (F := F) (Ix := Ix) (Name := Name) (U := U) (Lvl := Lvl) c A Φ₀ O B).before 4 t d = iblk2 c A 4 t :=
  before2_4_of A (dats2 (F := F) (Ix := Ix) (Name := Name) (U := U) (Lvl := Lvl) c A Φ₀ O B) (A_eq2 c A Φ₀ O B 4) (after2_4 c A Φ₀ O B) t d
theorem before2_5 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) (d) : (dats2 (F := F) (Ix := Ix) (Name := Name) (U := U) (Lvl := Lvl) c A Φ₀ O B).before 5 t d = iblk2 c A 5 t :=
  before2_5_of A (dats2 (F := F) (Ix := Ix) (Name := Name) (U := U) (Lvl := Lvl) c A Φ₀ O B) (A_eq2 c A Φ₀ O B 5) (after2_5 c A Φ₀ O B) t d
theorem before2_6 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) (d) : (dats2 (F := F) (Ix := Ix) (Name := Name) (U := U) (Lvl := Lvl) c A Φ₀ O B).before 6 t d = iblk2 c A 6 t :=
  before2_6_of A (dats2 (F := F) (Ix := Ix) (Name := Name) (U := U) (Lvl := Lvl) c A Φ₀ O B) (A_eq2 c A Φ₀ O B 6) (after2_6 c A Φ₀ O B) t d
theorem before2_7 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) (d) : (dats2 (F := F) (Ix := Ix) (Name := Name) (U := U) (Lvl := Lvl) c A Φ₀ O B).before 7 t d = iblk2 c A 7 t :=
  before2_7_of A (dats2 (F := F) (Ix := Ix) (Name := Name) (U := U) (Lvl := Lvl) c A Φ₀ O B) (A_eq2 c A Φ₀ O B 7) (after2_7 c A Φ₀ O B) t d
theorem before2_8 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) (d) : (dats2 (F := F) (Ix := Ix) (Name := Name) (U := U) (Lvl := Lvl) c A Φ₀ O B).before 8 t d = iblk2 c A 8 t :=
  before2_8_of A (dats2 (F := F) (Ix := Ix) (Name := Name) (U := U) (Lvl := Lvl) c A Φ₀ O B) (A_eq2 c A Φ₀ O B 8) (after2_8 c A Φ₀ O B) t d
theorem before2_9 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) (d) : (dats2 (F := F) (Ix := Ix) (Name := Name) (U := U) (Lvl := Lvl) c A Φ₀ O B).before 9 t d = iblk2 c A 9 t :=
  before2_9_of A (dats2 (F := F) (Ix := Ix) (Name := Name) (U := U) (Lvl := Lvl) c A Φ₀ O B) (A_eq2 c A Φ₀ O B 9) (after2_9 c A Φ₀ O B) t d
theorem before2_10 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) (d) : (dats2 (F := F) (Ix := Ix) (Name := Name) (U := U) (Lvl := Lvl) c A Φ₀ O B).before 10 t d = iblk2 c A 10 t :=
  before2_10_of A (dats2 (F := F) (Ix := Ix) (Name := Name) (U := U) (Lvl := Lvl) c A Φ₀ O B) (A_eq2 c A Φ₀ O B 10) (after2_10 c A Φ₀ O B) t d
theorem before2_11 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) (d) : (dats2 (F := F) (Ix := Ix) (Name := Name) (U := U) (Lvl := Lvl) c A Φ₀ O B).before 11 t d = iblk2 c A 11 t :=
  before2_11_of A (dats2 (F := F) (Ix := Ix) (Name := Name) (U := U) (Lvl := Lvl) c A Φ₀ O B) (A_eq2 c A Φ₀ O B 11) (after2_11 c A Φ₀ O B) t d
theorem before2_12 (c : Dev nD) (A : (w : Fin cfg2.W) → Buf (Elt F) ((cfg2.win w).arr.view.loc (c.tc : Thread nD τ))) (Φ₀ : sProp 𝕄) (O : CellTallies nD τ sig Ix) (B : Set (SemLoc sig × Ix)) (t : Fin cfg2.N) (d) : (dats2 (F := F) (Ix := Ix) (Name := Name) (U := U) (Lvl := Lvl) c A Φ₀ O B).before 12 t d = iblk2 c A 12 t :=
  before2_12_of A (dats2 (F := F) (Ix := Ix) (Name := Name) (U := U) (Lvl := Lvl) c A Φ₀ O B) (A_eq2 c A Φ₀ O B 12) (after2_12 c A Φ₀ O B) t d

/-! ## The body obligation, at a generic point -/

/-- What the body is called with at point t: the invariant, what the core owes, and every window's current
    staging buffer at what it then holds, -/
def bodyPre2 (c : Dev nD) (A : (w : Fin cfg2.W) → Buf (Elt F) ((cfg2.win w).arr.view.loc (c.tc : Thread nD τ))) (Φ₀ : sProp 𝕄) (O : CellTallies nD τ sig Ix) (B : Set (SemLoc sig × Ix)) (ι : Ix) (t : Fin cfg2.N) : sProp 𝕄 :=
  iprop((dats2 (F := F) (Ix := Ix) (Name := Name) (U := U) (Lvl := Lvl) c A Φ₀ O B).Φ t.castSucc ∗ (dats2 (F := F) (Ix := Ix) (Name := Name) (U := U) (Lvl := Lvl) c A Φ₀ O B).owesAt ι t.castSucc
    ∗ (∃ d, owns (c : Thread nD τ) (st2_0 t) fullShare ((dats2 (F := F) (Ix := Ix) (Name := Name) (U := U) (Lvl := Lvl) c A Φ₀ O B).before 0 t d))
    ∗ (∃ d, owns (c : Thread nD τ) (st2_1 t) fullShare ((dats2 (F := F) (Ix := Ix) (Name := Name) (U := U) (Lvl := Lvl) c A Φ₀ O B).before 1 t d))
    ∗ (∃ d, owns (c : Thread nD τ) (st2_2 t) fullShare ((dats2 (F := F) (Ix := Ix) (Name := Name) (U := U) (Lvl := Lvl) c A Φ₀ O B).before 2 t d))
    ∗ (∃ d, owns (c : Thread nD τ) (st2_3 t) fullShare ((dats2 (F := F) (Ix := Ix) (Name := Name) (U := U) (Lvl := Lvl) c A Φ₀ O B).before 3 t d))
    ∗ (∃ d, owns (c : Thread nD τ) (st2_4 t) fullShare ((dats2 (F := F) (Ix := Ix) (Name := Name) (U := U) (Lvl := Lvl) c A Φ₀ O B).before 4 t d))
    ∗ (∃ d, owns (c : Thread nD τ) (st2_5 t) fullShare ((dats2 (F := F) (Ix := Ix) (Name := Name) (U := U) (Lvl := Lvl) c A Φ₀ O B).before 5 t d))
    ∗ (∃ d, owns (c : Thread nD τ) (st2_6 t) fullShare ((dats2 (F := F) (Ix := Ix) (Name := Name) (U := U) (Lvl := Lvl) c A Φ₀ O B).before 6 t d))
    ∗ (∃ d, owns (c : Thread nD τ) (st2_7 t) fullShare ((dats2 (F := F) (Ix := Ix) (Name := Name) (U := U) (Lvl := Lvl) c A Φ₀ O B).before 7 t d))
    ∗ (∃ d, owns (c : Thread nD τ) (st2_8 t) fullShare ((dats2 (F := F) (Ix := Ix) (Name := Name) (U := U) (Lvl := Lvl) c A Φ₀ O B).before 8 t d))
    ∗ (∃ d, owns (c : Thread nD τ) (st2_9 t) fullShare ((dats2 (F := F) (Ix := Ix) (Name := Name) (U := U) (Lvl := Lvl) c A Φ₀ O B).before 9 t d))
    ∗ (∃ d, owns (c : Thread nD τ) (st2_10 t) fullShare ((dats2 (F := F) (Ix := Ix) (Name := Name) (U := U) (Lvl := Lvl) c A Φ₀ O B).before 10 t d))
    ∗ (∃ d, owns (c : Thread nD τ) (st2_11 t) fullShare ((dats2 (F := F) (Ix := Ix) (Name := Name) (U := U) (Lvl := Lvl) c A Φ₀ O B).before 11 t d))
    ∗ (∃ d, owns (c : Thread nD τ) (st2_12 t) fullShare ((dats2 (F := F) (Ix := Ix) (Name := Name) (U := U) (Lvl := Lvl) c A Φ₀ O B).before 12 t d))
    ∗ (∃ d, owns (c : Thread nD τ) (st2_13 t) fullShare ((dats2 (F := F) (Ix := Ix) (Name := Name) (U := U) (Lvl := Lvl) c A Φ₀ O B).before 13 t d)))

/-- and what it returns: the same invariant and owed tallies, and every buffer at what the body leaves. -/
def bodyPost2 (c : Dev nD) (A : (w : Fin cfg2.W) → Buf (Elt F) ((cfg2.win w).arr.view.loc (c.tc : Thread nD τ))) (Φ₀ : sProp 𝕄) (O : CellTallies nD τ sig Ix) (B : Set (SemLoc sig × Ix)) (ι : Ix) (t : Fin cfg2.N) : sProp 𝕄 :=
  iprop((dats2 (F := F) (Ix := Ix) (Name := Name) (U := U) (Lvl := Lvl) c A Φ₀ O B).Φ t.succ ∗ (dats2 (F := F) (Ix := Ix) (Name := Name) (U := U) (Lvl := Lvl) c A Φ₀ O B).owesAt ι t.succ
    ∗ owns (c : Thread nD τ) (st2_0 t) fullShare ((dats2 (F := F) (Ix := Ix) (Name := Name) (U := U) (Lvl := Lvl) c A Φ₀ O B).after 0 t)
    ∗ owns (c : Thread nD τ) (st2_1 t) fullShare ((dats2 (F := F) (Ix := Ix) (Name := Name) (U := U) (Lvl := Lvl) c A Φ₀ O B).after 1 t)
    ∗ owns (c : Thread nD τ) (st2_2 t) fullShare ((dats2 (F := F) (Ix := Ix) (Name := Name) (U := U) (Lvl := Lvl) c A Φ₀ O B).after 2 t)
    ∗ owns (c : Thread nD τ) (st2_3 t) fullShare ((dats2 (F := F) (Ix := Ix) (Name := Name) (U := U) (Lvl := Lvl) c A Φ₀ O B).after 3 t)
    ∗ owns (c : Thread nD τ) (st2_4 t) fullShare ((dats2 (F := F) (Ix := Ix) (Name := Name) (U := U) (Lvl := Lvl) c A Φ₀ O B).after 4 t)
    ∗ owns (c : Thread nD τ) (st2_5 t) fullShare ((dats2 (F := F) (Ix := Ix) (Name := Name) (U := U) (Lvl := Lvl) c A Φ₀ O B).after 5 t)
    ∗ owns (c : Thread nD τ) (st2_6 t) fullShare ((dats2 (F := F) (Ix := Ix) (Name := Name) (U := U) (Lvl := Lvl) c A Φ₀ O B).after 6 t)
    ∗ owns (c : Thread nD τ) (st2_7 t) fullShare ((dats2 (F := F) (Ix := Ix) (Name := Name) (U := U) (Lvl := Lvl) c A Φ₀ O B).after 7 t)
    ∗ owns (c : Thread nD τ) (st2_8 t) fullShare ((dats2 (F := F) (Ix := Ix) (Name := Name) (U := U) (Lvl := Lvl) c A Φ₀ O B).after 8 t)
    ∗ owns (c : Thread nD τ) (st2_9 t) fullShare ((dats2 (F := F) (Ix := Ix) (Name := Name) (U := U) (Lvl := Lvl) c A Φ₀ O B).after 9 t)
    ∗ owns (c : Thread nD τ) (st2_10 t) fullShare ((dats2 (F := F) (Ix := Ix) (Name := Name) (U := U) (Lvl := Lvl) c A Φ₀ O B).after 10 t)
    ∗ owns (c : Thread nD τ) (st2_11 t) fullShare ((dats2 (F := F) (Ix := Ix) (Name := Name) (U := U) (Lvl := Lvl) c A Φ₀ O B).after 11 t)
    ∗ owns (c : Thread nD τ) (st2_12 t) fullShare ((dats2 (F := F) (Ix := Ix) (Name := Name) (U := U) (Lvl := Lvl) c A Φ₀ O B).after 12 t)
    ∗ owns (c : Thread nD τ) (st2_13 t) fullShare ((dats2 (F := F) (Ix := Ix) (Name := Name) (U := U) (Lvl := Lvl) c A Φ₀ O B).after 13 t))

set_option maxHeartbeats 4000000 in
/-- The body at any point: the inputs' buffers hold their blocks, so the body's run applies; the invariant
    and the core's owed tallies pass through unread. -/
theorem sound_body2 (c : Dev nD) (A : (w : Fin cfg2.W) → Buf (Elt F) ((cfg2.win w).arr.view.loc (c.tc : Thread nD τ))) (Φ₀ : sProp 𝕄) (O : CellTallies nD τ sig Ix) (B : Set (SemLoc sig × Ix)) (𝒱₀ : Variants) (ι : Ix) (t : Fin cfg2.N) :
    bodyPre2 c A Φ₀ O B ι t ⊢ wp frame (wpE (defs₀ (F := F)) 𝒱₀ c none) Set.univ (bodyAt2 t) (fun _ => bodyPost2 c A Φ₀ O B ι t) := by
  unfold bodyPre2 bodyPost2 bodyAt2
  simp only [before2_0, before2_1, before2_2, before2_3, before2_4, before2_5, before2_6, before2_7, before2_8, before2_9, before2_10, before2_11, before2_12]
  rw [show (dats2 (F := F) (Ix := Ix) (Name := Name) (U := U) (Lvl := Lvl) c A Φ₀ O B).Φ t.succ = (dats2 (F := F) (Ix := Ix) (Name := Name) (U := U) (Lvl := Lvl) c A Φ₀ O B).Φ t.castSucc from rfl,
    show (dats2 (F := F) (Ix := Ix) (Name := Name) (U := U) (Lvl := Lvl) c A Φ₀ O B).owesAt ι t.succ = (dats2 (F := F) (Ix := Ix) (Name := Name) (U := U) (Lvl := Lvl) c A Φ₀ O B).owesAt ι t.castSucc from rfl,
    after2_0, after2_1, after2_2, after2_3, after2_4, after2_5, after2_6, after2_7, after2_8, after2_9, after2_10, after2_11, after2_12, after2_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel2 𝒱₀ c Set.univ (grid2.coords t) _ _ _ _ _ _ _ _ _ _ _ _ _ _ _ _ _ _ _ _ _ _ _ _ _ _ _ _ (iblk2 c A 0 t) (iblk2 c A 1 t) (iblk2 c A 2 t) (iblk2 c A 3 t) (iblk2 c A 4 t) (iblk2 c A 5 t) (iblk2 c A 6 t) (iblk2 c A 7 t) (iblk2 c A 8 t) (iblk2 c A 9 t) (iblk2 c A 10 t) (iblk2 c A 11 t) (iblk2 c A 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation for this proof data, at every point. -/
theorem body_obligation2 (c : Dev nD) (A : (w : Fin cfg2.W) → Buf (Elt F) ((cfg2.win w).arr.view.loc (c.tc : Thread nD τ))) (Φ₀ : sProp 𝕄) (O : CellTallies nD τ sig Ix) (B : Set (SemLoc sig × Ix)) (𝒱₀ : Variants) (ι : Ix) :
    BodyObligation (dats2 (F := F) (Ix := Ix) (Name := Name) (U := U) (Lvl := Lvl) c A Φ₀ O B) (defs₀ (F := F)) 𝒱₀ ι Set.univ := fun t => by
  rw [bigSep_W2, bigSep_W2]
  exact sound_body2 c A Φ₀ O B 𝒱₀ ι t

end Cert.Kernel.Tc

end
-- ==== Proof.WTcBody4.lean ====
/-
  The body of TensorCore pallas call 4 on whole staging buffers: what it leaves in its output window's
  buffer, and its run.

  The body loads its thirteen input windows whole, computes, and stores one value over the whole of
  its output window (it also loads the output window first, and does not use what it loaded).  So
  after the body the output buffer holds the canonical form of that one store: the composed payload
  — the softmax-weighted sum over the 50 history rows of the rectified features, divided by the
  softmax denominator — as a function of the thirteen loaded blocks, and every input buffer is as it
  was.  The run is stated for any user ghost state and any continuation.
-/
import proofs.«217981_g19061064860210_cont_8to1_1320_37_alg».proof.Proof.Gen.Kernel.Launch
import proofs.«217981_g19061064860210_cont_8to1_1320_37_alg».proof.Proof.Gen.Kernel.Skeleton
import proofs.«217981_g19061064860210_cont_8to1_1320_37_alg».proof.Proof.Gen.Kernel.Points
import Idealize.ShloMosaic.Lib.Pipeline.FrameBody
import Idealize.ShloMosaic.Lib.Tactic

set_option maxRecDepth 16384

noncomputable section

namespace Cert.Kernel.Tc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The rectangles the body reads and writes: each window's whole block -/

abbrev r4_S50x128x128 : Rect S50x128x128 := Rect.unit (s := S50x128x128) ![0, 0, 0] S50x128x128.size inb_S50x128x128_S50x128x128_0_0_0
abbrev r4_S128x128 : Rect S128x128 := Rect.unit (s := S128x128) ![0, 0] S128x128.size inb_S128x128_S128x128_0_0
abbrev r4_S50x128x8 : Rect S50x128x8 := Rect.unit (s := S50x128x8) ![0, 0, 0] S50x128x8.size inb_S50x128x8_S50x128x8_0_0_0
abbrev r4_S8x64 : Rect S8x64 := Rect.unit (s := S8x64) ![0, 0] S8x64.size inb_S8x64_S8x64_0_0
abbrev r4_S64x64 : Rect S64x64 := Rect.unit (s := S64x64) ![0, 0] S64x64.size inb_S64x64_S64x64_0_0
abbrev r4_S1x64 : Rect S1x64 := Rect.unit (s := S1x64) ![0, 0] S1x64.size inb_S1x64_S1x64_0_0
abbrev r4_S1x1 : Rect S1x1 := Rect.unit (s := S1x1) ![0, 0] S1x1.size inb_S1x1_S1x1_0_0
abbrev r4_S128x64 : Rect S128x64 := Rect.unit (s := S128x64) ![0, 0] S128x64.size inb_S128x64_S128x64_0_0

/-! ## What the body leaves in the output window's buffer -/

/-- Window 13's staging buffer after the body, from the thirteen input blocks: the one store, over the
    whole block, of the composed payload. -/
def out4_13 (x0 : Vec F S50x128x128 .f32) (x1 : Vec F S128x128 .f32) (x2 : Vec F S50x128x8 .i8) (x3 : Vec F S8x64 .f32) (x4 : Vec F S64x64 .f32) (x5 : Vec F S1x64 .f32) (x6 : Vec F S64x64 .bf16) (x7 : Vec F S1x64 .bf16) (x8 : Vec F S64x64 .bf16) (x9 : Vec F S64x64 .bf16) (x10 : Vec F S1x64 .bf16) (x11 : Vec F S1x64 .bf16) (x12 : Vec F S1x1 .f32) : Vec F S128x64 .f32 :=
  View.canon [⟨r4_S128x64, k4_pay1 (k4_pay4 (k4_pay2 (View.ld x0 r4_S50x128x128) (View.ld x3 r4_S8x64) (View.ld x4 r4_S64x64) (View.ld x5 r4_S1x64) (View.ld x2 r4_S50x128x8) (View.ld x6 r4_S64x64) (View.ld x7 r4_S1x64)) (k4_pay3 (View.ld x1 r4_S128x128)) (View.ld x8 r4_S64x64) (View.ld x9 r4_S64x64) (View.ld x10 r4_S1x64) (View.ld x11 r4_S1x64) (View.ld x12 r4_S1x1)) (k4_pay5 (k4_pay2 (View.ld x0 r4_S50x128x128) (View.ld x3 r4_S8x64) (View.ld x4 r4_S64x64) (View.ld x5 r4_S1x64) (View.ld x2 r4_S50x128x8) (View.ld x6 r4_S64x64) (View.ld x7 r4_S1x64)) (k4_pay3 (View.ld x1 r4_S128x128)) (View.ld x8 r4_S64x64) (View.ld x9 r4_S64x64) (View.ld x10 r4_S1x64) (View.ld x11 r4_S1x64) (View.ld x12 r4_S1x1)) (k4_pay6 (k4_pay2 (View.ld x0 r4_S50x128x128) (View.ld x3 r4_S8x64) (View.ld x4 r4_S64x64) (View.ld x5 r4_S1x64) (View.ld x2 r4_S50x128x8) (View.ld x6 r4_S64x64) (View.ld x7 r4_S1x64)))⟩]

/-- The one store covers the output block. -/
theorem cover4_13 (p0 : Vec F S128x64 .f32) (y : S128x64.Idx) :
    ∃ pc ∈ ([⟨r4_S128x64, p0⟩] : List (View.Piece (Elt F) S128x64 .f32)), y ∈ pc.1.set :=
  View.cover_of_tiled [⟨r4_S128x64, p0⟩] S128x64.size (by rfl) y

/-! ## The body's run -/

set_option maxHeartbeats 4000000 in
/-- The body on whole staging memrefs, the thirteen inputs' at contents x0 … x12 and the output's at
    anything, runs to the continuation with the inputs' as they were and the output's at out4_13 of the
    inputs'. -/
theorem sound_kernel4 (𝒱₀ : Variants) (c : Dev nD) (E : Set Name) (i : grid4.Coords) (arg1 : Memref sig .tc .vmem S50x128x128 .f32) (harg1 : arg1.IsWhole) (arg2 : Memref sig .tc .vmem S128x128 .f32) (harg2 : arg2.IsWhole) (arg3 : Memref sig .tc .vmem S50x128x8 .i8) (harg3 : arg3.IsWhole) (arg4 : Memref sig .tc .vmem S8x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .bf16) (harg7 : arg7.IsWhole) (arg8 : Memref sig .tc .vmem S1x64 .bf16) (harg8 : arg8.IsWhole) (arg9 : Memref sig .tc .vmem S64x64 .bf16) (harg9 : arg9.IsWhole) (arg10 : Memref sig .tc .vmem S64x64 .bf16) (harg10 : arg10.IsWhole) (arg11 : Memref sig .tc .vmem S1x64 .bf16) (harg11 : arg11.IsWhole) (arg12 : Memref sig .tc .vmem S1x64 .bf16) (harg12 : arg12.IsWhole) (arg13 : Memref sig .tc .vmem S1x1 .f32) (harg13 : arg13.IsWhole) (arg14 : Memref sig .tc .vmem S128x64 .f32) (harg14 : arg14.IsWhole)
    (x0 : Vec F S50x128x128 .f32) (x1 : Vec F S128x128 .f32) (x2 : Vec F S50x128x8 .i8) (x3 : Vec F S8x64 .f32) (x4 : Vec F S64x64 .f32) (x5 : Vec F S1x64 .f32) (x6 : Vec F S64x64 .bf16) (x7 : Vec F S1x64 .bf16) (x8 : Vec F S64x64 .bf16) (x9 : Vec F S64x64 .bf16) (x10 : Vec F S1x64 .bf16) (x11 : Vec F S1x64 .bf16) (x12 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out4_13 x0 x1 x2 x3 x4 x5 x6 x7 x8 x9 x10 x11 x12)) -∗ K ⟨⟩))
      ⊢ wp frame (wpE (defs₀ (F := F)) 𝒱₀ c none) E (cc4__tc_body i arg1 harg1 arg2 harg2 arg3 harg3 arg4 harg4 arg5 harg5 arg6 harg6 arg7 harg7 arg8 harg8 arg9 harg9 arg10 harg10 arg11 harg11 arg12 harg12 arg13 harg13 arg14 harg14) K := by
  simp only [cc4__tc_body_eq_skeleton]; unfold cc4__tc_body_skel
  simp only [k4_part1_eq_skeleton, k4_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  exact View.read_writes_eq_canon _ _ _ (cover4_13 _)

end Cert.Kernel.Tc

end
-- ==== Proof.WTcDat4.lean ====
/-
  The proof data of TensorCore pallas call 4 on one core, and its body obligation.

  The region is entered with each windowed array at some contents A w (whatever ran before the region
  left there).  No window of this call is clipped or idle, so at every point each input window's
  current staging buffer holds the array's block there — fetched at that point, or fetched earlier
  with the block index unmoved since — and the output window's buffer holds anything.  The body reads
  the thirteen input blocks and leaves them in place, and leaves in the output buffer the composed
  payload of those blocks.  The invariant carried beside the windows (everything of the core the body
  does not touch) and the tallies the core owes are parameters, constant from point to point: the
  body touches neither.
-/
import proofs.«217981_g19061064860210_cont_8to1_1320_37_alg».proof.Proof.WTcBody4

set_option maxRecDepth 16384

noncomputable section

namespace Cert.Kernel.Tc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The windows' blocks -/

/-- Window w's block at point t, read off its array as the region finds it (A w). -/
def iblk4 (c : Dev nD) (A : (w : Fin cfg4.W) → Buf (Elt F) ((cfg4.win w).arr.view.loc (c.tc : Thread nD τ))) (w : Fin cfg4.W) (t : Fin cfg4.N) :
    ((cfg4.win w).xblock (cfg4.grid.coords t)).Idx → Elt F (cfg4.win w).elt :=
  ((cfg4.win w).blk t).view.read (Elt F) (A w)

/-- Input window 0's current staging buffer holds its block at every point, fetched there or not, for any
    proof data whose array is A's and whose body leaves the block in place: the window is uncut and never idle. -/
theorem before4_0_of {c : Dev nD} (A : (w : Fin cfg4.W) → Buf (Elt F) ((cfg4.win w).arr.view.loc (c.tc : Thread nD τ))) (dat : Dat τ (Elt F) Ix Name U Lvl cfg4 c) (hA : dat.A 0 = A 0)
    (hafter : ∀ t, dat.after 0 t = iblk4 c A 0 t) (t : Fin cfg4.N) (d) : dat.before 0 t d = iblk4 c A 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, fetched there or not, for any
    proof data whose array is A's and whose body leaves the block in place: the window is uncut and never idle. -/
theorem before4_1_of {c : Dev nD} (A : (w : Fin cfg4.W) → Buf (Elt F) ((cfg4.win w).arr.view.loc (c.tc : Thread nD τ))) (dat : Dat τ (Elt F) Ix Name U Lvl cfg4 c) (hA : dat.A 1 = A 1)
    (hafter : ∀ t, dat.after 1 t = iblk4 c A 1 t) (t : Fin cfg4.N) (d) : dat.before 1 t d = iblk4 c A 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, fetched there or not, for any
    proof data whose array is A's and whose body leaves the block in place: the window is uncut and never idle. -/
theorem before4_2_of {c : Dev nD} (A : (w : Fin cfg4.W) → Buf (Elt F) ((cfg4.win w).arr.view.loc (c.tc : Thread nD τ))) (dat : Dat τ (Elt F) Ix Name U Lvl cfg4 c) (hA : dat.A 2 = A 2)
    (hafter : ∀ t, dat.after 2 t = iblk4 c A 2 t) (t : Fin cfg4.N) (d) : dat.before 2 t d = iblk4 c A 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3's current staging buffer holds its block at every point, fetched there or not, for any
    proof data whose array is A's and whose body leaves the block in place: the window is uncut and never idle. -/
theorem before4_3_of {c : Dev nD} (A : (w : Fin cfg4.W) → Buf (Elt F) ((cfg4.win w).arr.view.loc (c.tc : Thread nD τ))) (dat : Dat τ (Elt F) Ix Name U Lvl cfg4 c) (hA : dat.A 3 = A 3)
    (hafter : ∀ t, dat.after 3 t = iblk4 c A 3 t) (t : Fin cfg4.N) (d) : dat.before 3 t d = iblk4 c A 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Input window 4's current staging buffer holds its block at every point, fetched there or not, for any
    proof data whose array is A's and whose body leaves the block in place: the window is uncut and never idle. -/
theorem before4_4_of {c : Dev nD} (A : (w : Fin cfg4.W) → Buf (Elt F) ((cfg4.win w).arr.view.loc (c.tc : Thread nD τ))) (dat : Dat τ (Elt F) Ix Name U Lvl cfg4 c) (hA : dat.A 4 = A 4)
    (hafter : ∀ t, dat.after 4 t = iblk4 c A 4 t) (t : Fin cfg4.N) (d) : dat.before 4 t d = iblk4 c A 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
/-- Input window 5's current staging buffer holds its block at every point, fetched there or not, for any
    proof data whose array is A's and whose body leaves the block in place: the window is uncut and never idle. -/
theorem before4_5_of {c : Dev nD} (A : (w : Fin cfg4.W) → Buf (Elt F) ((cfg4.win w).arr.view.loc (c.tc : Thread nD τ))) (dat : Dat τ (Elt F) Ix Name U Lvl cfg4 c) (hA : dat.A 5 = A 5)
    (hafter : ∀ t, dat.after 5 t = iblk4 c A 5 t) (t : Fin cfg4.N) (d) : dat.before 5 t d = iblk4 c A 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
/-- Input window 6's current staging buffer holds its block at every point, fetched there or not, for any
    proof data whose array is A's and whose body leaves the block in place: the window is uncut and never idle. -/
theorem before4_6_of {c : Dev nD} (A : (w : Fin cfg4.W) → Buf (Elt F) ((cfg4.win w).arr.view.loc (c.tc : Thread nD τ))) (dat : Dat τ (Elt F) Ix Name U Lvl cfg4 c) (hA : dat.A 6 = A 6)
    (hafter : ∀ t, dat.after 6 t = iblk4 c A 6 t) (t : Fin cfg4.N) (d) : dat.before 6 t d = iblk4 c A 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)
/-- Input window 7's current staging buffer holds its block at every point, fetched there or not, for any
    proof data whose array is A's and whose body leaves the block in place: the window is uncut and never idle. -/
theorem before4_7_of {c : Dev nD} (A : (w : Fin cfg4.W) → Buf (Elt F) ((cfg4.win w).arr.view.loc (c.tc : Thread nD τ))) (dat : Dat τ (Elt F) Ix Name U Lvl cfg4 c) (hA : dat.A 7 = A 7)
    (hafter : ∀ t, dat.after 7 t = iblk4 c A 7 t) (t : Fin cfg4.N) (d) : dat.before 7 t d = iblk4 c A 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)
/-- Input window 8's current staging buffer holds its block at every point, fetched there or not, for any
    proof data whose array is A's and whose body leaves the block in place: the window is uncut and never idle. -/
theorem before4_8_of {c : Dev nD} (A : (w : Fin cfg4.W) → Buf (Elt F) ((cfg4.win w).arr.view.loc (c.tc : Thread nD τ))) (dat : Dat τ (Elt F) Ix Name U Lvl cfg4 c) (hA : dat.A 8 = A 8)
    (hafter : ∀ t, dat.after 8 t = iblk4 c A 8 t) (t : Fin cfg4.N) (d) : dat.before 8 t d = iblk4 c A 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)
/-- Input window 9's current staging buffer holds its block at every point, fetched there or not, for any
    proof data whose array is A's and whose body leaves the block in place: the window is uncut and never idle. -/
theorem before4_9_of {c : Dev nD} (A : (w : Fin cfg4.W) → Buf (Elt F) ((cfg4.win w).arr.view.loc (c.tc : Thread nD τ))) (dat : Dat τ (Elt F) Ix Name U Lvl cfg4 c) (hA : dat.A 9 = A 9)
    (hafter : ∀ t, dat.after 9 t = iblk4 c A 9 t) (t : Fin cfg4.N) (d) : dat.before 9 t d = iblk4 c A 9 t :=
  (dat.before_in_eq_fetched 9 rfl (fun _ => rfl) (fun _ _ _ => rfl) (fun t => by rw [hafter]; unfold Dat.blockOf iblk4; rw [hA]; try rfl) t d).trans
    (by unfold Dat.fetched Dat.blockOf iblk4; rw [hA]; try rfl)
/-- Input window 10's current staging buffer holds its block at every point, fetched there or not, for any
    proof data whose array is A's and whose body leaves the block in place: the window is uncut and never idle. -/
theorem before4_10_of {c : Dev nD} (A : (w : Fin cfg4.W) → Buf (Elt F) ((cfg4.win w).arr.view.loc (c.tc : Thread nD τ))) (dat : Dat τ (Elt F) Ix Name U Lvl cfg4 c) (hA : dat.A 10 = A 10)
    (hafter : ∀ t, dat.after 10 t = iblk4 c A 10 t) (t : Fin cfg4.N) (d) : dat.before 10 t d = iblk4 c A 10 t :=
  (dat.before_in_eq_fetched 10 rfl (fun _ => rfl) (fun _ _ _ => rfl) (fun t => by rw [hafter]; unfold Dat.blockOf iblk4; rw [hA]; try rfl) t d).trans
    (by unfold Dat.fetched Dat.blockOf iblk4; rw [hA]; try rfl)
/-- Input window 11's current staging buffer holds its block at every point, fetched there or not, for any
    proof data whose array is A's and whose body leaves the block in place: the window is uncut and never idle. -/
theorem before4_11_of {c : Dev nD} (A : (w : Fin cfg4.W) → Buf (Elt F) ((cfg4.win w).arr.view.loc (c.tc : Thread nD τ))) (dat : Dat τ (Elt F) Ix Name U Lvl cfg4 c) (hA : dat.A 11 = A 11)
    (hafter : ∀ t, dat.after 11 t = iblk4 c A 11 t) (t : Fin cfg4.N) (d) : dat.before 11 t d = iblk4 c A 11 t :=
  (dat.before_in_eq_fetched 11 rfl (fun _ => rfl) (fun _ _ _ => rfl) (fun t => by rw [hafter]; unfold Dat.blockOf iblk4; rw [hA]; try rfl) t d).trans
    (by unfold Dat.fetched Dat.blockOf iblk4; rw [hA]; try rfl)
/-- Input window 12's current staging buffer holds its block at every point, fetched there or not, for any
    proof data whose array is A's and whose body leaves the block in place: the window is uncut and never idle. -/
theorem before4_12_of {c : Dev nD} (A : (w : Fin cfg4.W) → Buf (Elt F) ((cfg4.win w).arr.view.loc (c.tc : Thread nD τ))) (dat : Dat τ (Elt F) Ix Name U Lvl cfg4 c) (hA : dat.A 12 = A 12)
    (hafter : ∀ t, dat.after 12 t = iblk4 c A 12 t) (t : Fin cfg4.N) (d) : dat.before 12 t d = iblk4 c A 12 t :=
  (dat.before_in_eq_fetched 12 rfl (fun _ => rfl) (fun _ _ _ => rfl) (fun t => by rw [hafter]; unfold Dat.blockOf iblk4; rw [hA]; try rfl) t d).trans
    (by unfold Dat.fetched Dat.blockOf iblk4; rw [hA]; try rfl)

/-! ## The proof data -/

/-- The proof data of the pipeline on core c: the arrays as the region finds them (A); after the body at
    point t each input's buffer at its block and the output's at the composed payload of the input blocks;
    the invariant Φ₀, the owed tallies O and the bound B on the recorded pairs at every point; full shares. -/
def dats4 (c : Dev nD) (A : (w : Fin cfg4.W) → Buf (Elt F) ((cfg4.win w).arr.view.loc (c.tc : Thread nD τ))) (Φ₀ : sProp 𝕄) (O : CellTallies nD τ sig Ix) (B : Set (SemLoc sig × Ix)) : Dat τ (Elt F) Ix Name U Lvl cfg4 c where
  A w := A w
  after w t := match w with
    | ⟨0, _⟩ => iblk4 c A 0 t
    | ⟨1, _⟩ => iblk4 c A 1 t
    | ⟨2, _⟩ => iblk4 c A 2 t
    | ⟨3, _⟩ => iblk4 c A 3 t
    | ⟨4, _⟩ => iblk4 c A 4 t
    | ⟨5, _⟩ => iblk4 c A 5 t
    | ⟨6, _⟩ => iblk4 c A 6 t
    | ⟨7, _⟩ => iblk4 c A 7 t
    | ⟨8, _⟩ => iblk4 c A 8 t
    | ⟨9, _⟩ => iblk4 c A 9 t
    | ⟨10, _⟩ => iblk4 c A 10 t
    | ⟨11, _⟩ => iblk4 c A 11 t
    | ⟨12, _⟩ => iblk4 c A 12 t
    | ⟨13, _⟩ => out4_13 (iblk4 c A 0 t) (iblk4 c A 1 t) (iblk4 c A 2 t) (iblk4 c A 3 t) (iblk4 c A 4 t) (iblk4 c A 5 t) (iblk4 c A 6 t) (iblk4 c A 7 t) (iblk4 c A 8 t) (iblk4 c A 9 t) (iblk4 c A 10 t) (iblk4 c A 11 t) (iblk4 c A 12 t)
  Φ _ := Φ₀
  q _ := fullShare
  owed _ := O
  recorded _ := B

/-- The proof data's arrays are the region-entry contents. -/
theorem A_eq4 (c : Dev nD) (A : (w : Fin cfg4.W) → Buf (Elt F) ((cfg4.win w).arr.view.loc (c.tc : Thread nD τ))) (Φ₀ : sProp 𝕄) (O : CellTallies nD τ sig Ix) (B : Set (SemLoc sig × Ix)) (w : Fin cfg4.W) : (dats4 (F := F) (Ix := Ix) (Name := Name) (U := U) (Lvl := Lvl) c A Φ₀ O B).A w = A w := by dsimp only [dats4]

/-- What the body leaves, window by window. -/
theorem after4_0 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) : (dats4 (F := F) (Ix := Ix) (Name := Name) (U := U) (Lvl := Lvl) c A Φ₀ O B).after 0 t = iblk4 c A 0 t := by dsimp only [dats4]
theorem after4_1 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) : (dats4 (F := F) (Ix := Ix) (Name := Name) (U := U) (Lvl := Lvl) c A Φ₀ O B).after 1 t = iblk4 c A 1 t := by dsimp only [dats4]
theorem after4_2 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) : (dats4 (F := F) (Ix := Ix) (Name := Name) (U := U) (Lvl := Lvl) c A Φ₀ O B).after 2 t = iblk4 c A 2 t := by dsimp only [dats4]
theorem after4_3 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) : (dats4 (F := F) (Ix := Ix) (Name := Name) (U := U) (Lvl := Lvl) c A Φ₀ O B).after 3 t = iblk4 c A 3 t := by dsimp only [dats4]
theorem after4_4 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) : (dats4 (F := F) (Ix := Ix) (Name := Name) (U := U) (Lvl := Lvl) c A Φ₀ O B).after 4 t = iblk4 c A 4 t := by dsimp only [dats4]
theorem after4_5 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) : (dats4 (F := F) (Ix := Ix) (Name := Name) (U := U) (Lvl := Lvl) c A Φ₀ O B).after 5 t = iblk4 c A 5 t := by dsimp only [dats4]
theorem after4_6 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) : (dats4 (F := F) (Ix := Ix) (Name := Name) (U := U) (Lvl := Lvl) c A Φ₀ O B).after 6 t = iblk4 c A 6 t := by dsimp only [dats4]
theorem after4_7 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) : (dats4 (F := F) (Ix := Ix) (Name := Name) (U := U) (Lvl := Lvl) c A Φ₀ O B).after 7 t = iblk4 c A 7 t := by dsimp only [dats4]
theorem after4_8 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) : (dats4 (F := F) (Ix := Ix) (Name := Name) (U := U) (Lvl := Lvl) c A Φ₀ O B).after 8 t = iblk4 c A 8 t := by dsimp only [dats4]
theorem after4_9 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) : (dats4 (F := F) (Ix := Ix) (Name := Name) (U := U) (Lvl := Lvl) c A Φ₀ O B).after 9 t = iblk4 c A 9 t := by dsimp only [dats4]
theorem after4_10 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) : (dats4 (F := F) (Ix := Ix) (Name := Name) (U := U) (Lvl := Lvl) c A Φ₀ O B).after 10 t = iblk4 c A 10 t := by dsimp only [dats4]
theorem after4_11 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) : (dats4 (F := F) (Ix := Ix) (Name := Name) (U := U) (Lvl := Lvl) c A Φ₀ O B).after 11 t = iblk4 c A 11 t := by dsimp only [dats4]
theorem after4_12 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) : (dats4 (F := F) (Ix := Ix) (Name := Name) (U := U) (Lvl := Lvl) c A Φ₀ O B).after 12 t = iblk4 c A 12 t := by dsimp only [dats4]
theorem after4_13 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) : (dats4 (F := F) (Ix := Ix) (Name := Name) (U := U) (Lvl := Lvl) c A Φ₀ O B).after 13 t = out4_13 (iblk4 c A 0 t) (iblk4 c A 1 t) (iblk4 c A 2 t) (iblk4 c A 3 t) (iblk4 c A 4 t) (iblk4 c A 5 t) (iblk4 c A 6 t) (iblk4 c A 7 t) (iblk4 c A 8 t) (iblk4 c A 9 t) (iblk4 c A 10 t) (iblk4 c A 11 t) (iblk4 c A 12 t) := by dsimp only [dats4]

/-- Each input's current staging buffer holds its block at every point, fetched there or not. -/
theorem before4_0 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) (d) : (dats4 (F := F) (Ix := Ix) (Name := Name) (U := U) (Lvl := Lvl) c A Φ₀ O B).before 0 t d = iblk4 c A 0 t :=
  before4_0_of A (dats4 (F := F) (Ix := Ix) (Name := Name) (U := U) (Lvl := Lvl) c A Φ₀ O B) (A_eq4 c A Φ₀ O B 0) (after4_0 c A Φ₀ O B) t d
theorem before4_1 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) (d) : (dats4 (F := F) (Ix := Ix) (Name := Name) (U := U) (Lvl := Lvl) c A Φ₀ O B).before 1 t d = iblk4 c A 1 t :=
  before4_1_of A (dats4 (F := F) (Ix := Ix) (Name := Name) (U := U) (Lvl := Lvl) c A Φ₀ O B) (A_eq4 c A Φ₀ O B 1) (after4_1 c A Φ₀ O B) t d
theorem before4_2 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) (d) : (dats4 (F := F) (Ix := Ix) (Name := Name) (U := U) (Lvl := Lvl) c A Φ₀ O B).before 2 t d = iblk4 c A 2 t :=
  before4_2_of A (dats4 (F := F) (Ix := Ix) (Name := Name) (U := U) (Lvl := Lvl) c A Φ₀ O B) (A_eq4 c A Φ₀ O B 2) (after4_2 c A Φ₀ O B) t d
theorem before4_3 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) (d) : (dats4 (F := F) (Ix := Ix) (Name := Name) (U := U) (Lvl := Lvl) c A Φ₀ O B).before 3 t d = iblk4 c A 3 t :=
  before4_3_of A (dats4 (F := F) (Ix := Ix) (Name := Name) (U := U) (Lvl := Lvl) c A Φ₀ O B) (A_eq4 c A Φ₀ O B 3) (after4_3 c A Φ₀ O B) t d
theorem before4_4 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) (d) : (dats4 (F := F) (Ix := Ix) (Name := Name) (U := U) (Lvl := Lvl) c A Φ₀ O B).before 4 t d = iblk4 c A 4 t :=
  before4_4_of A (dats4 (F := F) (Ix := Ix) (Name := Name) (U := U) (Lvl := Lvl) c A Φ₀ O B) (A_eq4 c A Φ₀ O B 4) (after4_4 c A Φ₀ O B) t d
theorem before4_5 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) (d) : (dats4 (F := F) (Ix := Ix) (Name := Name) (U := U) (Lvl := Lvl) c A Φ₀ O B).before 5 t d = iblk4 c A 5 t :=
  before4_5_of A (dats4 (F := F) (Ix := Ix) (Name := Name) (U := U) (Lvl := Lvl) c A Φ₀ O B) (A_eq4 c A Φ₀ O B 5) (after4_5 c A Φ₀ O B) t d
theorem before4_6 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) (d) : (dats4 (F := F) (Ix := Ix) (Name := Name) (U := U) (Lvl := Lvl) c A Φ₀ O B).before 6 t d = iblk4 c A 6 t :=
  before4_6_of A (dats4 (F := F) (Ix := Ix) (Name := Name) (U := U) (Lvl := Lvl) c A Φ₀ O B) (A_eq4 c A Φ₀ O B 6) (after4_6 c A Φ₀ O B) t d
theorem before4_7 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) (d) : (dats4 (F := F) (Ix := Ix) (Name := Name) (U := U) (Lvl := Lvl) c A Φ₀ O B).before 7 t d = iblk4 c A 7 t :=
  before4_7_of A (dats4 (F := F) (Ix := Ix) (Name := Name) (U := U) (Lvl := Lvl) c A Φ₀ O B) (A_eq4 c A Φ₀ O B 7) (after4_7 c A Φ₀ O B) t d
theorem before4_8 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) (d) : (dats4 (F := F) (Ix := Ix) (Name := Name) (U := U) (Lvl := Lvl) c A Φ₀ O B).before 8 t d = iblk4 c A 8 t :=
  before4_8_of A (dats4 (F := F) (Ix := Ix) (Name := Name) (U := U) (Lvl := Lvl) c A Φ₀ O B) (A_eq4 c A Φ₀ O B 8) (after4_8 c A Φ₀ O B) t d
theorem before4_9 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) (d) : (dats4 (F := F) (Ix := Ix) (Name := Name) (U := U) (Lvl := Lvl) c A Φ₀ O B).before 9 t d = iblk4 c A 9 t :=
  before4_9_of A (dats4 (F := F) (Ix := Ix) (Name := Name) (U := U) (Lvl := Lvl) c A Φ₀ O B) (A_eq4 c A Φ₀ O B 9) (after4_9 c A Φ₀ O B) t d
theorem before4_10 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) (d) : (dats4 (F := F) (Ix := Ix) (Name := Name) (U := U) (Lvl := Lvl) c A Φ₀ O B).before 10 t d = iblk4 c A 10 t :=
  before4_10_of A (dats4 (F := F) (Ix := Ix) (Name := Name) (U := U) (Lvl := Lvl) c A Φ₀ O B) (A_eq4 c A Φ₀ O B 10) (after4_10 c A Φ₀ O B) t d
theorem before4_11 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) (d) : (dats4 (F := F) (Ix := Ix) (Name := Name) (U := U) (Lvl := Lvl) c A Φ₀ O B).before 11 t d = iblk4 c A 11 t :=
  before4_11_of A (dats4 (F := F) (Ix := Ix) (Name := Name) (U := U) (Lvl := Lvl) c A Φ₀ O B) (A_eq4 c A Φ₀ O B 11) (after4_11 c A Φ₀ O B) t d
theorem before4_12 (c : Dev nD) (A : (w : Fin cfg4.W) → Buf (Elt F) ((cfg4.win w).arr.view.loc (c.tc : Thread nD τ))) (Φ₀ : sProp 𝕄) (O : CellTallies nD τ sig Ix) (B : Set (SemLoc sig × Ix)) (t : Fin cfg4.N) (d) : (dats4 (F := F) (Ix := Ix) (Name := Name) (U := U) (Lvl := Lvl) c A Φ₀ O B).before 12 t d = iblk4 c A 12 t :=
  before4_12_of A (dats4 (F := F) (Ix := Ix) (Name := Name) (U := U) (Lvl := Lvl) c A Φ₀ O B) (A_eq4 c A Φ₀ O B 12) (after4_12 c A Φ₀ O B) t d

/-! ## The body obligation, at a generic point -/

/-- What the body is called with at point t: the invariant, what the core owes, and every window's current
    staging buffer at what it then holds, -/
def bodyPre4 (c : Dev nD) (A : (w : Fin cfg4.W) → Buf (Elt F) ((cfg4.win w).arr.view.loc (c.tc : Thread nD τ))) (Φ₀ : sProp 𝕄) (O : CellTallies nD τ sig Ix) (B : Set (SemLoc sig × Ix)) (ι : Ix) (t : Fin cfg4.N) : sProp 𝕄 :=
  iprop((dats4 (F := F) (Ix := Ix) (Name := Name) (U := U) (Lvl := Lvl) c A Φ₀ O B).Φ t.castSucc ∗ (dats4 (F := F) (Ix := Ix) (Name := Name) (U := U) (Lvl := Lvl) c A Φ₀ O B).owesAt ι t.castSucc
    ∗ (∃ d, owns (c : Thread nD τ) (st4_0 t) fullShare ((dats4 (F := F) (Ix := Ix) (Name := Name) (U := U) (Lvl := Lvl) c A Φ₀ O B).before 0 t d))
    ∗ (∃ d, owns (c : Thread nD τ) (st4_1 t) fullShare ((dats4 (F := F) (Ix := Ix) (Name := Name) (U := U) (Lvl := Lvl) c A Φ₀ O B).before 1 t d))
    ∗ (∃ d, owns (c : Thread nD τ) (st4_2 t) fullShare ((dats4 (F := F) (Ix := Ix) (Name := Name) (U := U) (Lvl := Lvl) c A Φ₀ O B).before 2 t d))
    ∗ (∃ d, owns (c : Thread nD τ) (st4_3 t) fullShare ((dats4 (F := F) (Ix := Ix) (Name := Name) (U := U) (Lvl := Lvl) c A Φ₀ O B).before 3 t d))
    ∗ (∃ d, owns (c : Thread nD τ) (st4_4 t) fullShare ((dats4 (F := F) (Ix := Ix) (Name := Name) (U := U) (Lvl := Lvl) c A Φ₀ O B).before 4 t d))
    ∗ (∃ d, owns (c : Thread nD τ) (st4_5 t) fullShare ((dats4 (F := F) (Ix := Ix) (Name := Name) (U := U) (Lvl := Lvl) c A Φ₀ O B).before 5 t d))
    ∗ (∃ d, owns (c : Thread nD τ) (st4_6 t) fullShare ((dats4 (F := F) (Ix := Ix) (Name := Name) (U := U) (Lvl := Lvl) c A Φ₀ O B).before 6 t d))
    ∗ (∃ d, owns (c : Thread nD τ) (st4_7 t) fullShare ((dats4 (F := F) (Ix := Ix) (Name := Name) (U := U) (Lvl := Lvl) c A Φ₀ O B).before 7 t d))
    ∗ (∃ d, owns (c : Thread nD τ) (st4_8 t) fullShare ((dats4 (F := F) (Ix := Ix) (Name := Name) (U := U) (Lvl := Lvl) c A Φ₀ O B).before 8 t d))
    ∗ (∃ d, owns (c : Thread nD τ) (st4_9 t) fullShare ((dats4 (F := F) (Ix := Ix) (Name := Name) (U := U) (Lvl := Lvl) c A Φ₀ O B).before 9 t d))
    ∗ (∃ d, owns (c : Thread nD τ) (st4_10 t) fullShare ((dats4 (F := F) (Ix := Ix) (Name := Name) (U := U) (Lvl := Lvl) c A Φ₀ O B).before 10 t d))
    ∗ (∃ d, owns (c : Thread nD τ) (st4_11 t) fullShare ((dats4 (F := F) (Ix := Ix) (Name := Name) (U := U) (Lvl := Lvl) c A Φ₀ O B).before 11 t d))
    ∗ (∃ d, owns (c : Thread nD τ) (st4_12 t) fullShare ((dats4 (F := F) (Ix := Ix) (Name := Name) (U := U) (Lvl := Lvl) c A Φ₀ O B).before 12 t d))
    ∗ (∃ d, owns (c : Thread nD τ) (st4_13 t) fullShare ((dats4 (F := F) (Ix := Ix) (Name := Name) (U := U) (Lvl := Lvl) c A Φ₀ O B).before 13 t d)))

/-- and what it returns: the same invariant and owed tallies, and every buffer at what the body leaves. -/
def bodyPost4 (c : Dev nD) (A : (w : Fin cfg4.W) → Buf (Elt F) ((cfg4.win w).arr.view.loc (c.tc : Thread nD τ))) (Φ₀ : sProp 𝕄) (O : CellTallies nD τ sig Ix) (B : Set (SemLoc sig × Ix)) (ι : Ix) (t : Fin cfg4.N) : sProp 𝕄 :=
  iprop((dats4 (F := F) (Ix := Ix) (Name := Name) (U := U) (Lvl := Lvl) c A Φ₀ O B).Φ t.succ ∗ (dats4 (F := F) (Ix := Ix) (Name := Name) (U := U) (Lvl := Lvl) c A Φ₀ O B).owesAt ι t.succ
    ∗ owns (c : Thread nD τ) (st4_0 t) fullShare ((dats4 (F := F) (Ix := Ix) (Name := Name) (U := U) (Lvl := Lvl) c A Φ₀ O B).after 0 t)
    ∗ owns (c : Thread nD τ) (st4_1 t) fullShare ((dats4 (F := F) (Ix := Ix) (Name := Name) (U := U) (Lvl := Lvl) c A Φ₀ O B).after 1 t)
    ∗ owns (c : Thread nD τ) (st4_2 t) fullShare ((dats4 (F := F) (Ix := Ix) (Name := Name) (U := U) (Lvl := Lvl) c A Φ₀ O B).after 2 t)
    ∗ owns (c : Thread nD τ) (st4_3 t) fullShare ((dats4 (F := F) (Ix := Ix) (Name := Name) (U := U) (Lvl := Lvl) c A Φ₀ O B).after 3 t)
    ∗ owns (c : Thread nD τ) (st4_4 t) fullShare ((dats4 (F := F) (Ix := Ix) (Name := Name) (U := U) (Lvl := Lvl) c A Φ₀ O B).after 4 t)
    ∗ owns (c : Thread nD τ) (st4_5 t) fullShare ((dats4 (F := F) (Ix := Ix) (Name := Name) (U := U) (Lvl := Lvl) c A Φ₀ O B).after 5 t)
    ∗ owns (c : Thread nD τ) (st4_6 t) fullShare ((dats4 (F := F) (Ix := Ix) (Name := Name) (U := U) (Lvl := Lvl) c A Φ₀ O B).after 6 t)
    ∗ owns (c : Thread nD τ) (st4_7 t) fullShare ((dats4 (F := F) (Ix := Ix) (Name := Name) (U := U) (Lvl := Lvl) c A Φ₀ O B).after 7 t)
    ∗ owns (c : Thread nD τ) (st4_8 t) fullShare ((dats4 (F := F) (Ix := Ix) (Name := Name) (U := U) (Lvl := Lvl) c A Φ₀ O B).after 8 t)
    ∗ owns (c : Thread nD τ) (st4_9 t) fullShare ((dats4 (F := F) (Ix := Ix) (Name := Name) (U := U) (Lvl := Lvl) c A Φ₀ O B).after 9 t)
    ∗ owns (c : Thread nD τ) (st4_10 t) fullShare ((dats4 (F := F) (Ix := Ix) (Name := Name) (U := U) (Lvl := Lvl) c A Φ₀ O B).after 10 t)
    ∗ owns (c : Thread nD τ) (st4_11 t) fullShare ((dats4 (F := F) (Ix := Ix) (Name := Name) (U := U) (Lvl := Lvl) c A Φ₀ O B).after 11 t)
    ∗ owns (c : Thread nD τ) (st4_12 t) fullShare ((dats4 (F := F) (Ix := Ix) (Name := Name) (U := U) (Lvl := Lvl) c A Φ₀ O B).after 12 t)
    ∗ owns (c : Thread nD τ) (st4_13 t) fullShare ((dats4 (F := F) (Ix := Ix) (Name := Name) (U := U) (Lvl := Lvl) c A Φ₀ O B).after 13 t))

set_option maxHeartbeats 4000000 in
/-- The body at any point: the inputs' buffers hold their blocks, so the body's run applies; the invariant
    and the core's owed tallies pass through unread. -/
theorem sound_body4 (c : Dev nD) (A : (w : Fin cfg4.W) → Buf (Elt F) ((cfg4.win w).arr.view.loc (c.tc : Thread nD τ))) (Φ₀ : sProp 𝕄) (O : CellTallies nD τ sig Ix) (B : Set (SemLoc sig × Ix)) (𝒱₀ : Variants) (ι : Ix) (t : Fin cfg4.N) :
    bodyPre4 c A Φ₀ O B ι t ⊢ wp frame (wpE (defs₀ (F := F)) 𝒱₀ c none) Set.univ (bodyAt4 t) (fun _ => bodyPost4 c A Φ₀ O B ι t) := by
  unfold bodyPre4 bodyPost4 bodyAt4
  simp only [before4_0, before4_1, before4_2, before4_3, before4_4, before4_5, before4_6, before4_7, before4_8, before4_9, before4_10, before4_11, before4_12]
  rw [show (dats4 (F := F) (Ix := Ix) (Name := Name) (U := U) (Lvl := Lvl) c A Φ₀ O B).Φ t.succ = (dats4 (F := F) (Ix := Ix) (Name := Name) (U := U) (Lvl := Lvl) c A Φ₀ O B).Φ t.castSucc from rfl,
    show (dats4 (F := F) (Ix := Ix) (Name := Name) (U := U) (Lvl := Lvl) c A Φ₀ O B).owesAt ι t.succ = (dats4 (F := F) (Ix := Ix) (Name := Name) (U := U) (Lvl := Lvl) c A Φ₀ O B).owesAt ι t.castSucc from rfl,
    after4_0, after4_1, after4_2, after4_3, after4_4, after4_5, after4_6, after4_7, after4_8, after4_9, after4_10, after4_11, after4_12, after4_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel4 𝒱₀ c Set.univ (grid4.coords t) _ _ _ _ _ _ _ _ _ _ _ _ _ _ _ _ _ _ _ _ _ _ _ _ _ _ _ _ (iblk4 c A 0 t) (iblk4 c A 1 t) (iblk4 c A 2 t) (iblk4 c A 3 t) (iblk4 c A 4 t) (iblk4 c A 5 t) (iblk4 c A 6 t) (iblk4 c A 7 t) (iblk4 c A 8 t) (iblk4 c A 9 t) (iblk4 c A 10 t) (iblk4 c A 11 t) (iblk4 c A 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation for this proof data, at every point. -/
theorem body_obligation4 (c : Dev nD) (A : (w : Fin cfg4.W) → Buf (Elt F) ((cfg4.win w).arr.view.loc (c.tc : Thread nD τ))) (Φ₀ : sProp 𝕄) (O : CellTallies nD τ sig Ix) (B : Set (SemLoc sig × Ix)) (𝒱₀ : Variants) (ι : Ix) :
    BodyObligation (dats4 (F := F) (Ix := Ix) (Name := Name) (U := U) (Lvl := Lvl) c A Φ₀ O B) (defs₀ (F := F)) 𝒱₀ ι Set.univ := fun t => by
  rw [bigSep_W4, bigSep_W4]
  exact sound_body4 c A Φ₀ O B 𝒱₀ ι t

end Cert.Kernel.Tc

end
-- ==== Proof.WTcFamily.lean ====
/-
  The three TensorCore pallas calls' proof data as one family, over the TensorCore's thread state.

  Between two segments of its thread the TensorCore of core c holds every unscoped buffer of its own
  at some contents (a valuation W c), its generator register at some state, and what it owes.  Each
  pallas call's proof data is taken at its own region's entry valuation; the invariant beside the
  windows is the same for all three — the scoped buffers that are no staging buffer, at some
  contents, and the generator register at some state: what a body that touches only its windows may
  use and need not describe —, stated here for any ghost state; what the core owes is constant
  through each region.
-/
import proofs.«217981_g19061064860210_cont_8to1_1320_37_alg».proof.Proof.WTcDat0
import proofs.«217981_g19061064860210_cont_8to1_1320_37_alg».proof.Proof.WTcDat2
import proofs.«217981_g19061064860210_cont_8to1_1320_37_alg».proof.Proof.WTcDat4
import Idealize.ShloMosaic.Lib.Pipeline.RegionsLoop
import Idealize.ShloMosaic.Lib.Pipeline.FrameSuffix

set_option maxRecDepth 16384

noncomputable section

namespace Cert.Kernel.Tc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The prefetched tables' admissible contents: no pipeline of this program has a table. -/
abbrev adm : (p : Fin 3) → (pcfgs (F := F) p).Adm := fun p => (cfgs p).toPCfg_adm

/-- The region invariant of a body that touches nothing but its windows, at any ghost state: the core's scoped
    buffers that are no staging buffer, at some contents each, and its generator register at some state. -/
def ΦTc {gr W : Nat} (win : Fin W → Pipeline.WinSpec sig gr) (c : Dev nD) : sProp 𝕄 :=
  iprop(Pipeline.scopedRest (Ix := Ix) (Name := Name) (U := U) (Lvl := Lvl) (Val := Elt F) win c ∗ ∃ r, prngReg c r)

/-- The contents a valuation of the core's buffers gives a TensorCore reference. -/
abbrev valTc (W : Dev nD → Valuation τ sig (Elt F)) : (c : Dev nD) → (b : Ref sig .tc) → Buf (Elt F) ((c : Thread nD τ).loc b) :=
  fun c b => W c b

/-- Every pipeline's proof data, each at its own region's entry contents (W0, W2, W4), the class invariant
    (the scoped rest and the generator register) what the core owes there (O0, O2, O4) and the bound on the pairs its waits have recorded (B0, B2, B4). -/
def pdatsTc (W0 W2 W4 : Dev nD → Valuation τ sig (Elt F)) (O0 O2 O4 : Dev nD → CellTallies nD τ sig Ix)
    (B0 B2 B4 : Dev nD → Set (SemLoc sig × Ix)) :
    (p : Fin 3) → (c : Dev nD) → Dat τ (Elt F) Ix Name U Lvl (Pipeline.pin (pcfgs (F := F)) adm p) c
  | ⟨0, _⟩ => fun c => dats0 c (fun w => valTc W0 c (Pipeline.arrRef spec0 w)) (ΦTc spec0 c) (O0 c) (B0 c)
  | ⟨1, _⟩ => fun c => dats2 c (fun w => valTc W2 c (Pipeline.arrRef spec2 w)) (ΦTc spec2 c) (O2 c) (B2 c)
  | ⟨2, _⟩ => fun c => dats4 c (fun w => valTc W4 c (Pipeline.arrRef spec4 w)) (ΦTc spec4 c) (O4 c) (B4 c)

end Cert.Kernel.Tc

end
-- ==== Proof.WTcReg0.lean ====
/-
  TensorCore pallas call 0 (pipeline 0 of the program) as a region segment of the TensorCore's thread.

  Between two segments the TensorCore of core c holds every unscoped buffer of its own at some contents
  W c, its generator register at some state, and what it owes (the tallies O c, constant through the
  region: the body signals no one).  The region splits its six windowed arrays out of those buffers at
  the contents W c gives them, runs the pipeline — the class invariant is the scoped rest and the
  generator register, which the body does not touch —, and puts the arrays back: the five inputs as
  they were and the output at what the thirteen write-backs leave (the last one cut at the array's
  end), every other buffer as entered.  Two things are left as hypotheses: that the payload is local
  (the output rows inside the array do not depend on the table columns past the arrays' end), which
  holds at the extended reals; and that the pipeline's staging cells sit below, in level, everything
  the core owes during the region (the wait evidence, a fact of the whole program's level assignment).
-/
import proofs.«217981_g19061064860210_cont_8to1_1320_37_alg».proof.Proof.WTcFamily

set_option maxRecDepth 16384

noncomputable section

namespace Cert.Kernel.Tc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (Name U Lvl) in
/-- The core's buffers at the region's exit: the six windowed arrays at what the pipeline leaves (the inputs as
    entered, the output's write-backs folded), every other buffer as entered. -/
def exitW0 (W0 : Dev nD → Valuation τ sig (Elt F)) (O0 : Dev nD → CellTallies nD τ sig Ix) (B0 : Dev nD → Set (SemLoc sig × Ix)) (c : Dev nD) : Valuation τ sig (Elt F) :=
  Pipeline.withArrays spec0 c (W0 c) fun w =>
    (dats0 (F := F) (Ix := Ix) (Name := Name) (U := U) (Lvl := Lvl) c (fun w => valTc W0 c (Pipeline.arrRef spec0 w)) (ΦTc spec0 c) (O0 c) (B0 c)).arrAt w cfg0.N

section Reg0

variable (W0 W2 W4 : Dev nD → Valuation τ sig (Elt F)) (O0 O2 O4 : Dev nD → CellTallies nD τ sig Ix)
  (B0 B2 B4 : Dev nD → Set (SemLoc sig × Ix))
  (𝒱₀ : Variants) (ι : Ix) (L : GSem nD τ sig → Finset Ix) (lv : GSem nD τ sig → Ix → Lvl)

/-- The exit contents at a windowed array: what the pipeline leaves there. -/
theorem exitW0_arr (c : Dev nD) (w : Fin cfg0.W) :
    exitW0 Name U Lvl W0 O0 B0 c (Proc.devRef .tc (Pipeline.arrRef spec0 w))
      = (dats0 (F := F) (Ix := Ix) (Name := Name) (U := U) (Lvl := Lvl) c (fun w => valTc W0 c (Pipeline.arrRef spec0 w)) (ΦTc spec0 c) (O0 c) (B0 c)).arrAt w cfg0.N := by
  unfold exitW0; exact Pipeline.withArrays_arr spec0 launch0.win.arr_inj c _ _ w
/-- The exit contents at any other TensorCore buffer: what it held at entry. -/
theorem exitW0_of_ne (c : Dev nD) (b : Ref sig .tc) (hb : ∀ w, Pipeline.arrRef spec0 w ≠ b) :
    exitW0 Name U Lvl W0 O0 B0 c (Proc.devRef .tc b) = W0 c (Proc.devRef .tc b) := by
  unfold exitW0; exact Pipeline.withArrays_of_ne spec0 c _ _ b hb
/-- At the exit each windowed array holds what the pipeline leaves, -/
theorem hF0 (c : Dev nD) (w : Fin cfg0.W) :
    (pdatsTc (F := F) (Name := Name) (U := U) (Lvl := Lvl) W0 W2 W4 O0 O2 O4 B0 B2 B4 0 c).arrAt w cfg0.N
      = valTc (exitW0 Name U Lvl W0 O0 B0) c (Pipeline.arrRef spec0 w) :=
  (exitW0_arr W0 O0 B0 c w).symm
/-- and every other buffer what it held at entry. -/
theorem hrest0 (c : Dev nD) : ∀ b, b ∉ Finset.univ.image (Pipeline.arrRef spec0) →
    valTc (exitW0 Name U Lvl W0 O0 B0) c b = valTc W0 c b :=
  fun b hb => exitW0_of_ne W0 O0 B0 c b fun w e => hb (Finset.mem_image.mpr ⟨w, Finset.mem_univ _, e⟩)

-- a library lemma stated over the pinned configuration unifies with the printed one only when unification may unfold
-- plain definitions in a metavariable's type
set_option backward.isDefEq.respectTransparency.types false in
/-- The region of pallas call 0 over the thread state "every unscoped buffer at W0 c, the generator register at some
    state, the core owing O0 c with its recorded pairs within B0 c": entered there, left with the buffers at exitW0, the
    recorded pairs within B0 c and the pipeline's own wait pairs, and the rest as it was.  The wait
    evidence hw is the program's: the staging cells below everything the core owes. -/
def reg0 (hloc : PayLocal0 F) (hw : ∀ c, (levAts L lv : sProp 𝕄) ⊢ Pipeline.cellsWaits (Pipeline.pin (pcfgs (F := F)) adm)
      (pdatsTc (F := F) (Name := Name) (U := U) (Lvl := Lvl) W0 W2 W4 O0 O2 O4 B0 B2 B4) ι 0 c) :
    Pipeline.RegionSeg (pcfgs (F := F)) adm (pdatsTc (F := F) (Name := Name) (U := U) (Lvl := Lvl) W0 W2 W4 O0 O2 O4 B0 B2 B4) ι defs₀ 𝒱₀ L lv 0 where
  win := launch0.win.to₀
  block_pos := launch0.block_pos
  stage_whole := launch0.stage_whole
  K := PEmpty
  osem k := k.elim
  ho := Pipeline.OwnSemFacts.none _
  hbody c := body_obligation0 hloc c _ _ _ _ 𝒱₀ ι
  hwaits := hw
  pre c := iprop(StableHlo.held (c : Thread nD τ) (Pipeline.ucRefs τ sig) (W0 c) ∗ (∃ r, prngReg c r)
    ∗ Pipeline.owesWithin c (O0 c) (B0 c))
  post c := iprop(StableHlo.held (c : Thread nD τ) (Pipeline.ucRefs τ sig) (exitW0 Name U Lvl W0 O0 B0 c) ∗ (∃ r, prngReg c r)
    ∗ Pipeline.owesWithin c (O0 c) (B0 c ∪ cfg0.waitPairs ι))
  X c := iprop(∃ r, prngReg c r)
  Y c := iprop(∃ r, prngReg c r)
  Z c := Pipeline.unscopedRest (Ix := Ix) (Name := Name) (U := U) (Lvl := Lvl) spec0 c (valTc W0 c)
  hentry c := by
    rw [Pipeline.ownSems0_none]
    have hsplit := Pipeline.arrays_of_unscopedBufs (p := 0) (pcfgs (F := F)) adm
      (pdatsTc (F := F) (Name := Name) (U := U) (Lvl := Lvl) W0 W2 W4 O0 O2 O4 B0 B2 B4) launch0.win launch0.arr_whole c
      ((pdatsTc (F := F) (Name := Name) (U := U) (Lvl := Lvl) W0 W2 W4 O0 O2 O4 B0 B2 B4 0 c).share_full fun _ => rfl) (valTc W0 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c (O0 c) (B := B0 c) (B' := B0 c ∪ cfg0.waitPairs ι) Set.subset_union_left); iexact HO
    isplitl [Hp]; · iexact Hp
    iexact Hrest
  hin c := by
    rw [show (pdatsTc (F := F) (Name := Name) (U := U) (Lvl := Lvl) W0 W2 W4 O0 O2 O4 B0 B2 B4 0 c).Φ 0 = ΦTc spec0 c from rfl]; unfold ΦTc
    iintro ⟨Hp, -, Hr⟩
    isplitl [Hr]; · iexact Hr
    iexact Hp
  hout c := by
    rw [Pipeline.ownSems0_none, show (pdatsTc (F := F) (Name := Name) (U := U) (Lvl := Lvl) W0 W2 W4 O0 O2 O4 B0 B2 B4 0 c).Φ (Fin.last _) = ΦTc spec0 c from rfl]; unfold ΦTc
    iintro ⟨Hr, Hp⟩
    isplitl [Hp]; · iexact Hp
    isplitr; · iempintro
    iexact Hr
  hexit c := by
    have hjoin := Pipeline.unscopedBufs_of_arrays (p := 0) (pcfgs (F := F)) adm (Ix := Ix) (Name := Name) (U := U) (Lvl := Lvl)
      launch0.win launch0.arr_whole c (pdatsTc (F := F) (Name := Name) (U := U) (Lvl := Lvl) W0 W2 W4 O0 O2 O4 B0 B2 B4)
      ((pdatsTc (F := F) (Name := Name) (U := U) (Lvl := Lvl) W0 W2 W4 O0 O2 O4 B0 B2 B4 0 c).share_full fun _ => rfl)
      (valTc W0 c) (valTc (exitW0 Name U Lvl W0 O0 B0) c)
      ((pdatsTc (F := F) (Name := Name) (U := U) (Lvl := Lvl) W0 W2 W4 O0 O2 O4 B0 B2 B4 0 c).arrAt · cfg0.N)
      (hF0 W0 W2 W4 O0 O2 O4 B0 B2 B4 c) (hrest0 W0 O0 B0 c)
    rw [Pipeline.unscopedBufs_held] at hjoin
    iintro ⟨Ha, HO, HY, Hrest⟩
    imodintro
    isplitl [Ha Hrest]
    · iapply hjoin; isplitl [Ha] <;> iassumption
    isplitl [HY]; · iexact HY
    iexact HO

end Reg0

end Cert.Kernel.Tc

end
-- ==== Proof.WTcReg2.lean ====
/-
  TensorCore pallas call 2 (pipeline 1 of the program) as a region segment of the TensorCore's thread.

  Between two segments the TensorCore of core c holds every unscoped buffer of its own at some contents
  W c, its generator register at some state, and what it owes (the tallies O c, constant through the
  region: the body signals no one).  The region splits its fourteen windowed arrays out of those
  buffers at the contents W c gives them, runs the pipeline — the class invariant is the scoped rest
  and the generator register, which the body does not touch —, and puts the arrays back: the thirteen
  inputs as they were and the output at what the write-backs leave, every other buffer as entered.
  What is left as a hypothesis: that the pipeline's staging cells sit below, in level, everything the
  core owes during the region (the wait evidence, a fact of the whole program's level assignment).
-/
import proofs.«217981_g19061064860210_cont_8to1_1320_37_alg».proof.Proof.WTcFamily

set_option maxRecDepth 16384

noncomputable section

namespace Cert.Kernel.Tc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (Name U Lvl) in
/-- The core's buffers at the region's exit: the fourteen windowed arrays at what the pipeline leaves (the inputs as
    entered, the output's write-backs folded), every other buffer as entered. -/
def exitW2 (W2 : Dev nD → Valuation τ sig (Elt F)) (O2 : Dev nD → CellTallies nD τ sig Ix) (B2 : Dev nD → Set (SemLoc sig × Ix)) (c : Dev nD) : Valuation τ sig (Elt F) :=
  Pipeline.withArrays spec2 c (W2 c) fun w =>
    (dats2 (F := F) (Ix := Ix) (Name := Name) (U := U) (Lvl := Lvl) c (fun w => valTc W2 c (Pipeline.arrRef spec2 w)) (ΦTc spec2 c) (O2 c) (B2 c)).arrAt w cfg2.N

section Reg2

variable (W0 W2 W4 : Dev nD → Valuation τ sig (Elt F)) (O0 O2 O4 : Dev nD → CellTallies nD τ sig Ix)
  (B0 B2 B4 : Dev nD → Set (SemLoc sig × Ix))
  (𝒱₀ : Variants) (ι : Ix) (L : GSem nD τ sig → Finset Ix) (lv : GSem nD τ sig → Ix → Lvl)

/-- The exit contents at a windowed array: what the pipeline leaves there. -/
theorem exitW2_arr (c : Dev nD) (w : Fin cfg2.W) :
    exitW2 Name U Lvl W2 O2 B2 c (Proc.devRef .tc (Pipeline.arrRef spec2 w))
      = (dats2 (F := F) (Ix := Ix) (Name := Name) (U := U) (Lvl := Lvl) c (fun w => valTc W2 c (Pipeline.arrRef spec2 w)) (ΦTc spec2 c) (O2 c) (B2 c)).arrAt w cfg2.N := by
  unfold exitW2; exact Pipeline.withArrays_arr spec2 launch2.win.arr_inj c _ _ w
/-- The exit contents at any other TensorCore buffer: what it held at entry. -/
theorem exitW2_of_ne (c : Dev nD) (b : Ref sig .tc) (hb : ∀ w, Pipeline.arrRef spec2 w ≠ b) :
    exitW2 Name U Lvl W2 O2 B2 c (Proc.devRef .tc b) = W2 c (Proc.devRef .tc b) := by
  unfold exitW2; exact Pipeline.withArrays_of_ne spec2 c _ _ b hb
/-- At the exit each windowed array holds what the pipeline leaves, -/
theorem hF2 (c : Dev nD) (w : Fin cfg2.W) :
    (pdatsTc (F := F) (Name := Name) (U := U) (Lvl := Lvl) W0 W2 W4 O0 O2 O4 B0 B2 B4 1 c).arrAt w cfg2.N
      = valTc (exitW2 Name U Lvl W2 O2 B2) c (Pipeline.arrRef spec2 w) :=
  (exitW2_arr W2 O2 B2 c w).symm
/-- and every other buffer what it held at entry. -/
theorem hrest2 (c : Dev nD) : ∀ b, b ∉ Finset.univ.image (Pipeline.arrRef spec2) →
    valTc (exitW2 Name U Lvl W2 O2 B2) c b = valTc W2 c b :=
  fun b hb => exitW2_of_ne W2 O2 B2 c b fun w e => hb (Finset.mem_image.mpr ⟨w, Finset.mem_univ _, e⟩)

-- a library lemma stated over the pinned configuration unifies with the printed one only when unification may unfold
-- plain definitions in a metavariable's type
set_option backward.isDefEq.respectTransparency.types false in
/-- The region of pallas call 2 over the thread state "every unscoped buffer at W2 c, the generator register at some
    state, the core owing O2 c with its recorded pairs within B2 c": entered there, left with the buffers at exitW2, the
    recorded pairs within B2 c and the pipeline's own wait pairs, and the rest as it was.  The wait
    evidence hw is the program's: the staging cells below everything the core owes. -/
def reg2 (hw : ∀ c, (levAts L lv : sProp 𝕄) ⊢ Pipeline.cellsWaits (Pipeline.pin (pcfgs (F := F)) adm)
      (pdatsTc (F := F) (Name := Name) (U := U) (Lvl := Lvl) W0 W2 W4 O0 O2 O4 B0 B2 B4) ι 1 c) :
    Pipeline.RegionSeg (pcfgs (F := F)) adm (pdatsTc (F := F) (Name := Name) (U := U) (Lvl := Lvl) W0 W2 W4 O0 O2 O4 B0 B2 B4) ι defs₀ 𝒱₀ L lv 1 where
  win := launch2.win.to₀
  block_pos := launch2.block_pos
  stage_whole := launch2.stage_whole
  K := PEmpty
  osem k := k.elim
  ho := Pipeline.OwnSemFacts.none _
  hbody c := (body_obligation2 c _ _ _ _ 𝒱₀ ι).loose
  hwaits := hw
  pre c := iprop(StableHlo.held (c : Thread nD τ) (Pipeline.ucRefs τ sig) (W2 c) ∗ (∃ r, prngReg c r)
    ∗ Pipeline.owesWithin c (O2 c) (B2 c))
  post c := iprop(StableHlo.held (c : Thread nD τ) (Pipeline.ucRefs τ sig) (exitW2 Name U Lvl W2 O2 B2 c) ∗ (∃ r, prngReg c r)
    ∗ Pipeline.owesWithin c (O2 c) (B2 c ∪ cfg2.waitPairs ι))
  X c := iprop(∃ r, prngReg c r)
  Y c := iprop(∃ r, prngReg c r)
  Z c := Pipeline.unscopedRest (Ix := Ix) (Name := Name) (U := U) (Lvl := Lvl) spec2 c (valTc W2 c)
  hentry c := by
    rw [Pipeline.ownSems0_none]
    have hsplit := Pipeline.arrays_of_unscopedBufs (p := 1) (pcfgs (F := F)) adm
      (pdatsTc (F := F) (Name := Name) (U := U) (Lvl := Lvl) W0 W2 W4 O0 O2 O4 B0 B2 B4) launch2.win launch2.arr_whole c
      ((pdatsTc (F := F) (Name := Name) (U := U) (Lvl := Lvl) W0 W2 W4 O0 O2 O4 B0 B2 B4 1 c).share_full fun _ => rfl) (valTc W2 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c (O2 c) (B := B2 c) (B' := B2 c ∪ cfg2.waitPairs ι) Set.subset_union_left); iexact HO
    isplitl [Hp]; · iexact Hp
    iexact Hrest
  hin c := by
    rw [show (pdatsTc (F := F) (Name := Name) (U := U) (Lvl := Lvl) W0 W2 W4 O0 O2 O4 B0 B2 B4 1 c).Φ 0 = ΦTc spec2 c from rfl]; unfold ΦTc
    iintro ⟨Hp, -, Hr⟩
    isplitl [Hr]; · iexact Hr
    iexact Hp
  hout c := by
    rw [Pipeline.ownSems0_none, show (pdatsTc (F := F) (Name := Name) (U := U) (Lvl := Lvl) W0 W2 W4 O0 O2 O4 B0 B2 B4 1 c).Φ (Fin.last _) = ΦTc spec2 c from rfl]; unfold ΦTc
    iintro ⟨Hr, Hp⟩
    isplitl [Hp]; · iexact Hp
    isplitr; · iempintro
    iexact Hr
  hexit c := by
    have hjoin := Pipeline.unscopedBufs_of_arrays (p := 1) (pcfgs (F := F)) adm (Ix := Ix) (Name := Name) (U := U) (Lvl := Lvl)
      launch2.win launch2.arr_whole c (pdatsTc (F := F) (Name := Name) (U := U) (Lvl := Lvl) W0 W2 W4 O0 O2 O4 B0 B2 B4)
      ((pdatsTc (F := F) (Name := Name) (U := U) (Lvl := Lvl) W0 W2 W4 O0 O2 O4 B0 B2 B4 1 c).share_full fun _ => rfl)
      (valTc W2 c) (valTc (exitW2 Name U Lvl W2 O2 B2) c)
      ((pdatsTc (F := F) (Name := Name) (U := U) (Lvl := Lvl) W0 W2 W4 O0 O2 O4 B0 B2 B4 1 c).arrAt · cfg2.N)
      (hF2 W0 W2 W4 O0 O2 O4 B0 B2 B4 c) (hrest2 W2 O2 B2 c)
    rw [Pipeline.unscopedBufs_held] at hjoin
    iintro ⟨Ha, HO, HY, Hrest⟩
    imodintro
    isplitl [Ha Hrest]
    · iapply hjoin; isplitl [Ha] <;> iassumption
    isplitl [HY]; · iexact HY
    iexact HO

end Reg2

end Cert.Kernel.Tc

end
-- ==== Proof.WTcReg4.lean ====
/-
  TensorCore pallas call 4 (pipeline 2 of the program) as a region segment of the TensorCore's thread.

  Between two segments the TensorCore of core c holds every unscoped buffer of its own at some contents
  W c, its generator register at some state, and what it owes (the tallies O c, constant through the
  region: the body signals no one).  The region splits its fourteen windowed arrays out of those
  buffers at the contents W c gives them, runs the pipeline — the class invariant is the scoped rest
  and the generator register, which the body does not touch —, and puts the arrays back: the thirteen
  inputs as they were and the output at what the write-backs leave, every other buffer as entered.
  What is left as a hypothesis: that the pipeline's staging cells sit below, in level, everything the
  core owes during the region (the wait evidence, a fact of the whole program's level assignment).
-/
import proofs.«217981_g19061064860210_cont_8to1_1320_37_alg».proof.Proof.WTcFamily

set_option maxRecDepth 16384

noncomputable section

namespace Cert.Kernel.Tc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (Name U Lvl) in
/-- The core's buffers at the region's exit: the fourteen windowed arrays at what the pipeline leaves (the inputs as
    entered, the output's write-backs folded), every other buffer as entered. -/
def exitW4 (W4 : Dev nD → Valuation τ sig (Elt F)) (O4 : Dev nD → CellTallies nD τ sig Ix) (B4 : Dev nD → Set (SemLoc sig × Ix)) (c : Dev nD) : Valuation τ sig (Elt F) :=
  Pipeline.withArrays spec4 c (W4 c) fun w =>
    (dats4 (F := F) (Ix := Ix) (Name := Name) (U := U) (Lvl := Lvl) c (fun w => valTc W4 c (Pipeline.arrRef spec4 w)) (ΦTc spec4 c) (O4 c) (B4 c)).arrAt w cfg4.N

section Reg4

variable (W0 W2 W4 : Dev nD → Valuation τ sig (Elt F)) (O0 O2 O4 : Dev nD → CellTallies nD τ sig Ix)
  (B0 B2 B4 : Dev nD → Set (SemLoc sig × Ix))
  (𝒱₀ : Variants) (ι : Ix) (L : GSem nD τ sig → Finset Ix) (lv : GSem nD τ sig → Ix → Lvl)

/-- The exit contents at a windowed array: what the pipeline leaves there. -/
theorem exitW4_arr (c : Dev nD) (w : Fin cfg4.W) :
    exitW4 Name U Lvl W4 O4 B4 c (Proc.devRef .tc (Pipeline.arrRef spec4 w))
      = (dats4 (F := F) (Ix := Ix) (Name := Name) (U := U) (Lvl := Lvl) c (fun w => valTc W4 c (Pipeline.arrRef spec4 w)) (ΦTc spec4 c) (O4 c) (B4 c)).arrAt w cfg4.N := by
  unfold exitW4; exact Pipeline.withArrays_arr spec4 launch4.win.arr_inj c _ _ w
/-- The exit contents at any other TensorCore buffer: what it held at entry. -/
theorem exitW4_of_ne (c : Dev nD) (b : Ref sig .tc) (hb : ∀ w, Pipeline.arrRef spec4 w ≠ b) :
    exitW4 Name U Lvl W4 O4 B4 c (Proc.devRef .tc b) = W4 c (Proc.devRef .tc b) := by
  unfold exitW4; exact Pipeline.withArrays_of_ne spec4 c _ _ b hb
/-- At the exit each windowed array holds what the pipeline leaves, -/
theorem hF4 (c : Dev nD) (w : Fin cfg4.W) :
    (pdatsTc (F := F) (Name := Name) (U := U) (Lvl := Lvl) W0 W2 W4 O0 O2 O4 B0 B2 B4 2 c).arrAt w cfg4.N
      = valTc (exitW4 Name U Lvl W4 O4 B4) c (Pipeline.arrRef spec4 w) :=
  (exitW4_arr W4 O4 B4 c w).symm
/-- and every other buffer what it held at entry. -/
theorem hrest4 (c : Dev nD) : ∀ b, b ∉ Finset.univ.image (Pipeline.arrRef spec4) →
    valTc (exitW4 Name U Lvl W4 O4 B4) c b = valTc W4 c b :=
  fun b hb => exitW4_of_ne W4 O4 B4 c b fun w e => hb (Finset.mem_image.mpr ⟨w, Finset.mem_univ _, e⟩)

-- a library lemma stated over the pinned configuration unifies with the printed one only when unification may unfold
-- plain definitions in a metavariable's type
set_option backward.isDefEq.respectTransparency.types false in
/-- The region of pallas call 4 over the thread state "every unscoped buffer at W4 c, the generator register at some
    state, the core owing O4 c with its recorded pairs within B4 c": entered there, left with the buffers at exitW4, the
    recorded pairs within B4 c and the pipeline's own wait pairs, and the rest as it was.  The wait
    evidence hw is the program's: the staging cells below everything the core owes. -/
def reg4 (hw : ∀ c, (levAts L lv : sProp 𝕄) ⊢ Pipeline.cellsWaits (Pipeline.pin (pcfgs (F := F)) adm)
      (pdatsTc (F := F) (Name := Name) (U := U) (Lvl := Lvl) W0 W2 W4 O0 O2 O4 B0 B2 B4) ι 2 c) :
    Pipeline.RegionSeg (pcfgs (F := F)) adm (pdatsTc (F := F) (Name := Name) (U := U) (Lvl := Lvl) W0 W2 W4 O0 O2 O4 B0 B2 B4) ι defs₀ 𝒱₀ L lv 2 where
  win := launch4.win.to₀
  block_pos := launch4.block_pos
  stage_whole := launch4.stage_whole
  K := PEmpty
  osem k := k.elim
  ho := Pipeline.OwnSemFacts.none _
  hbody c := (body_obligation4 c _ _ _ _ 𝒱₀ ι).loose
  hwaits := hw
  pre c := iprop(StableHlo.held (c : Thread nD τ) (Pipeline.ucRefs τ sig) (W4 c) ∗ (∃ r, prngReg c r)
    ∗ Pipeline.owesWithin c (O4 c) (B4 c))
  post c := iprop(StableHlo.held (c : Thread nD τ) (Pipeline.ucRefs τ sig) (exitW4 Name U Lvl W4 O4 B4 c) ∗ (∃ r, prngReg c r)
    ∗ Pipeline.owesWithin c (O4 c) (B4 c ∪ cfg4.waitPairs ι))
  X c := iprop(∃ r, prngReg c r)
  Y c := iprop(∃ r, prngReg c r)
  Z c := Pipeline.unscopedRest (Ix := Ix) (Name := Name) (U := U) (Lvl := Lvl) spec4 c (valTc W4 c)
  hentry c := by
    rw [Pipeline.ownSems0_none]
    have hsplit := Pipeline.arrays_of_unscopedBufs (p := 2) (pcfgs (F := F)) adm
      (pdatsTc (F := F) (Name := Name) (U := U) (Lvl := Lvl) W0 W2 W4 O0 O2 O4 B0 B2 B4) launch4.win launch4.arr_whole c
      ((pdatsTc (F := F) (Name := Name) (U := U) (Lvl := Lvl) W0 W2 W4 O0 O2 O4 B0 B2 B4 2 c).share_full fun _ => rfl) (valTc W4 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c (O4 c) (B := B4 c) (B' := B4 c ∪ cfg4.waitPairs ι) Set.subset_union_left); iexact HO
    isplitl [Hp]; · iexact Hp
    iexact Hrest
  hin c := by
    rw [show (pdatsTc (F := F) (Name := Name) (U := U) (Lvl := Lvl) W0 W2 W4 O0 O2 O4 B0 B2 B4 2 c).Φ 0 = ΦTc spec4 c from rfl]; unfold ΦTc
    iintro ⟨Hp, -, Hr⟩
    isplitl [Hr]; · iexact Hr
    iexact Hp
  hout c := by
    rw [Pipeline.ownSems0_none, show (pdatsTc (F := F) (Name := Name) (U := U) (Lvl := Lvl) W0 W2 W4 O0 O2 O4 B0 B2 B4 2 c).Φ (Fin.last _) = ΦTc spec4 c from rfl]; unfold ΦTc
    iintro ⟨Hr, Hp⟩
    isplitl [Hp]; · iexact Hp
    isplitr; · iempintro
    iexact Hr
  hexit c := by
    have hjoin := Pipeline.unscopedBufs_of_arrays (p := 2) (pcfgs (F := F)) adm (Ix := Ix) (Name := Name) (U := U) (Lvl := Lvl)
      launch4.win launch4.arr_whole c (pdatsTc (F := F) (Name := Name) (U := U) (Lvl := Lvl) W0 W2 W4 O0 O2 O4 B0 B2 B4)
      ((pdatsTc (F := F) (Name := Name) (U := U) (Lvl := Lvl) W0 W2 W4 O0 O2 O4 B0 B2 B4 2 c).share_full fun _ => rfl)
      (valTc W4 c) (valTc (exitW4 Name U Lvl W4 O4 B4) c)
      ((pdatsTc (F := F) (Name := Name) (U := U) (Lvl := Lvl) W0 W2 W4 O0 O2 O4 B0 B2 B4 2 c).arrAt · cfg4.N)
      (hF4 W0 W2 W4 O0 O2 O4 B0 B2 B4 c) (hrest4 W4 O4 B4 c)
    rw [Pipeline.unscopedBufs_held] at hjoin
    iintro ⟨Ha, HO, HY, Hrest⟩
    imodintro
    isplitl [Ha Hrest]
    · iapply hjoin; isplitl [Ha] <;> iassumption
    isplitl [HY]; · iexact HY
    iexact HO

end Reg4

end Cert.Kernel.Tc

end
-- ==== Proof.WTcGhost.lean ====
/-
  The certificate's ghost state, as far as the TensorCore pallas calls are concerned.

  The ghost state of the whole certificate is a triple: the rounds of the handshakes between the
  TensorCore, the sequencers and the tiles; a copy of the rounds algebra with unnamed duties, which is
  where the pipeline library keeps its staging cells; and the transfer counters.  This file names the
  middle and the last component's embeddings, and records that the start signals the TensorCore owes
  are all owed at a call's index, never at the index of no call.
-/
import proofs.«217981_g19061064860210_cont_8to1_1320_37_alg».proof.Proof.WScInv
import proofs.«217981_g19061064860210_cont_8to1_1320_37_alg».proof.Proof.WTcReg0
import proofs.«217981_g19061064860210_cont_8to1_1320_37_alg».proof.Proof.WTcReg2
import proofs.«217981_g19061064860210_cont_8to1_1320_37_alg».proof.Proof.WTcReg4
import Idealize.ShloMosaic.Lib.SparseCore.Threads

set_option maxRecDepth 16384

noncomputable section

namespace Cert.Proof.KW

open Cert.Kernel Cert.Kernel.Gen Cert.Kernel.Tc
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- The pipeline library's copy of the rounds algebra inside the certificate's ghost state: the left of the right
    component. -/
def ER : Emb (UR sig nD τ) 𝕄 :=
  (Emb.inl : Emb (UR sig nD τ) (UR sig nD τ × Counters)).trans (embR (A := UH) (B := UR sig nD τ × Counters))

instance ER_landsIn : (ER (F := F)).LandsIn (upEmb : UEmb _ 𝕄) := by unfold ER embR; infer_instance

/-- What the TensorCore of d owes before SparseCore call n, as a family over the devices. -/
abbrev OtcAt (n : ℕ) : Dev nD → CellTallies nD τ sig (HIx 2) := fun d => (K (F := F)).Otc d n

/-- The TensorCore owes nothing at the index of no call: every start signal is owed at its call's index. -/
theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

/-- The transfer counters inside the certificate's ghost state: the right of the right component. -/
def EC : Emb Counters 𝕄 :=
  (Emb.inr : Emb Counters (UR sig nD τ × Counters)).trans (embR (A := UH) (B := UR sig nD τ × Counters))

instance EC_landsIn : (EC (F := F)).LandsIn (upEmb : UEmb _ 𝕄) := by unfold EC embR; infer_instance

end Cert.Proof.KW

end
-- ==== Proof.WTcFund.lean ====
/-
  The three pipelines' part of the launch element.

  The certificate's launch element is a triple: the handshakes' rounds, the pipeline library's rounds
  — the launch state of every staging cell of the three pallas calls on every device, with a duty
  token for every transfer their loops issue —, and the transfer counters.  Owning it is owning each
  component through its embedding; and the middle one funds, for every device and every pallas call,
  the staging cells' ghost state and the duty tokens that entering that call's region spends.
-/
import proofs.«217981_g19061064860210_cont_8to1_1320_37_alg».proof.Proof.WTcGhost

set_option maxRecDepth 16384

noncomputable section

namespace Cert.Proof.KW

open Cert.Kernel Cert.Kernel.Gen Cert.Kernel.Tc
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- The pipeline library's launch element: every staging cell of the three pallas calls at its launch state, and a
    duty token for every transfer the three loops issue. -/
abbrev uPipes : UR sig nD τ :=
  initOf (Pipeline.cells (nD := nD) (τ := τ) (Pipeline.pin (pcfgs (F := F)) adm) cellOf_inj)
    (Pipeline.launchToks (nD := nD) (τ := τ) (Pipeline.pin (pcfgs (F := F)) adm) cellOf_inj)

set_option backward.isDefEq.respectTransparency.types false in
/-- Owning the launch element (uH, (uPipes, cnt)) gives, after a ghost update: the handshakes' component uH through
    the left embedding; the counters' component cnt through its embedding; and for every device and every pallas
    call the staging cells' ghost state and the duty tokens. -/
theorem fund_pipes (uH : UH) (cnt : Counters) :
    (ownU ((uH, (uPipes (F := F), cnt)) : UU) : sProp 𝕄)
      ⊢ iprop(|==> (BI.own ((embL (A := UH) (B := UR sig nD τ × Counters) : Emb UH 𝕄) uH) ∗ BI.own ((EC (F := F)) cnt)
          ∗ (bigSep Finset.univ fun c : Dev nD => bigSep Finset.univ fun p : Fin 3 =>
              Pipeline.cellsGhost (Pipeline.pin (pcfgs (F := F)) adm) (ER (F := F)) p c)
          ∗ (bigSep Finset.univ fun c : Dev nD => bigSep Finset.univ fun p : Fin 3 =>
              (Pipeline.toksInit (Pipeline.pin (pcfgs (F := F)) adm) (ER (F := F)) p c : sProp 𝕄)))) := by
  iintro Hu
  ihave H := (ownU_pair (nD := nD) (τ := τ) (sig := sig) (Ix := HIx 2) (Val := Elt F) (Name := ℕ) (Lvl := ℕ) uH (uPipes (F := F), cnt)) $$ Hu
  icases H with ⟨HH, HR⟩
  ihave H2 := (own_pair_emb (embR (nD := nD) (τ := τ) (sig := sig) (Ix := HIx 2) (Val := Elt F) (Name := ℕ) (Lvl := ℕ) (A := UH) (B := UR sig nD τ × Counters)) (uPipes (F := F)) cnt) $$ HR
  icases H2 with ⟨HuR, Hc⟩
  have hconvR : (BI.own (((Emb.inl : Emb (UR sig nD τ) (UR sig nD τ × Counters)).trans
      (embR (nD := nD) (τ := τ) (sig := sig) (Ix := HIx 2) (Val := Elt F) (Name := ℕ) (Lvl := ℕ) (A := UH) (B := UR sig nD τ × Counters))) (uPipes (F := F))) : sProp 𝕄)
      ⊢ BI.own ((ER (F := F)) (uPipes (F := F))) := .rfl
  have hconvC : (BI.own (((Emb.inr : Emb Counters (UR sig nD τ × Counters)).trans
      (embR (nD := nD) (τ := τ) (sig := sig) (Ix := HIx 2) (Val := Elt F) (Name := ℕ) (Lvl := ℕ) (A := UH) (B := UR sig nD τ × Counters))) cnt) : sProp 𝕄)
      ⊢ BI.own ((EC (F := F)) cnt) := .rfl
  ihave HuR2 := hconvR $$ HuR
  ihave Hc2 := hconvC $$ Hc
  imod (Pipeline.fund_ghost (Pipeline.pin (pcfgs (F := F)) adm) (ER (F := F)) cellOf_inj) $$ HuR2 with ⟨Hg, Ht⟩
  imodintro
  isplitl [HH]; · iexact HH
  isplitl [Hc2]; · iexact Hc2
  isplitl [Hg] <;> iassumption

end Cert.Proof.KW

end
-- ==== Proof.WScFund.lean ====
/-
  The launch element of the kernel program: the certificate's ghost state at launch is the handshakes' rounds at their
  launch state, the pipelines' rounds (every staging cell of the three TensorCore regions at its launch state, with a
  duty token for every transfer their loops issue) and the transfer counters at one. Owning it gives, after a ghost
  update, the handshakes' component and, for every device, what each of the three regions spends on entry: its staging
  cells' ghost state and its duty tokens. Nothing is paid per thread.
-/
import proofs.«217981_g19061064860210_cont_8to1_1320_37_alg».proof.Proof.WScLaunch
import proofs.«217981_g19061064860210_cont_8to1_1320_37_alg».proof.Proof.WTcFund

noncomputable section

namespace Cert.Proof.KW

open Cert.Kernel Cert.Kernel.Gen Cert.Kernel.Tc
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- What region `p` spends on device `d` on entry: its staging cells' ghost state and its duty tokens. -/
def Gp (p : Fin 3) (d : Dev nD) : sProp 𝕄 :=
  iprop(Pipeline.cellsGhost (Pipeline.pin (pcfgs (F := F)) adm) (ER (F := F)) p d
    ∗ Pipeline.toksInit (Pipeline.pin (pcfgs (F := F)) adm) (ER (F := F)) p d)

/-- The launch element: the handshakes' rounds, the pipelines' rounds, the counters at one. -/
def u₀ : UU := (initOf (K (F := F)).hsCells (K (F := F)).hsToks, (uPipes (F := F), 1))

/-- A family of `emp` is `emp`. -/
theorem bigSep_emp' {I : Type} (s : Finset I) : (bigSep s fun _ => iprop(emp)) = (iprop(emp) : sProp 𝕄) := bigSep_emp_const s

/-- The two families the pipelines' rounds fund, regrouped by device and region. -/
theorem Gp_regroup :
    (bigSep Finset.univ fun d : Dev nD => iprop(Gp (F := F) 0 d ∗ Gp (F := F) 1 d ∗ Gp (F := F) 2 d))
      = iprop((bigSep Finset.univ fun c : Dev nD => bigSep Finset.univ fun p : Fin 3 =>
            Pipeline.cellsGhost (Pipeline.pin (pcfgs (F := F)) adm) (ER (F := F)) p c)
          ∗ (bigSep Finset.univ fun c : Dev nD => bigSep Finset.univ fun p : Fin 3 =>
            (Pipeline.toksInit (Pipeline.pin (pcfgs (F := F)) adm) (ER (F := F)) p c : sProp 𝕄))) := by
  rw [← bigSep_sep']
  refine bigSep_congr fun d _ => ?_
  rw [← bigSep_sep', bigSep_three]
  rfl

theorem launchObl : LaunchObl (F := F) (fun d => iprop(Gp (F := F) 0 d ∗ Gp (F := F) 1 d ∗ Gp (F := F) 2 d)) (u₀ (F := F)) := by
  unfold LaunchObl u₀
  iintro ⟨Hu, -, -⟩
  imod (fund_pipes (F := F) (initOf (K (F := F)).hsCells (K (F := F)).hsToks) 1) $$ Hu with ⟨HH, -, Hg, Ht⟩
  imodintro
  isplitl [HH]; · iexact HH
  isplitl [Hg Ht]
  · rw [Gp_regroup]
    isplitl [Hg]; · iexact Hg
    iexact Ht
  unfold P; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

end Cert.Proof.KW

end
-- ==== Proof.WTcEnter.lean ====
/-
  The three TensorCore pallas calls entered from inside the program that also runs the SparseCores.

  @main of that program calls a pallas call as  customCall (inner (entry p)) :  the plain call of the
  pipeline, read in the extended table of body definitions.  A proof about the plain call is a proof
  about the lifted one; the plain call is the region rule — the boundary and the thread state in, the
  boundary and the thread state out, the pipeline's staging cells' ghost state spent —; and during
  the region the TensorCore still owes the start signals of the SparseCore calls to come: the
  pipeline may wait on its staging cells all the same, because it waits at the index of no call, at
  level 0, and every start signal is owed at a call's index, at a positive level.  For the same
  reason the pairs the pipeline's waits record keep the bound the TensorCore's state carries on its
  recorded pairs (all at or below level 8 n before call n).
-/
import proofs.«217981_g19061064860210_cont_8to1_1320_37_alg».proof.Proof.WTcGhost

set_option maxRecDepth 16384

noncomputable section

namespace Cert.Proof.KW

open Cert.Kernel Cert.Kernel.Gen Cert.Kernel.Tc
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- The pairs at or below level 8 n on the TensorCore of d: where its recorded pairs lie before SparseCore call n. -/
abbrev BelowAt (n : ℕ) : Dev nD → Set (SemLoc sig × HIx 2) := fun d => {p | (K (F := F)).lev (T d, p.1) p.2 ≤ 8 * n}

/-- The TensorCore's owes as its state before call n holds it, read as the pipeline library reads it. -/
theorem owes_in (n : ℕ) (d : Dev nD) :
    (iprop(∃ W, ⌜(K (F := F)).WBelow (T d) W (8 * n)⌝ ∗ owes (T d) ((K (F := F)).Otc d n) W) : sProp 𝕄)
      ⊢ Pipeline.owesWithin d ((K (F := F)).Otc d n) (BelowAt (F := F) n d) := by
  iintro ⟨%W, %hW, H⟩
  iexists W; isplitr; · ipureintro; exact fun p hp => hW p (Finset.mem_coe.mp hp)
  iexact H

/-- And back. -/
theorem owes_out (n : ℕ) (d : Dev nD) :
    (Pipeline.owesWithin d ((K (F := F)).Otc d n) (BelowAt (F := F) n d) : sProp 𝕄)
      ⊢ iprop(∃ W, ⌜(K (F := F)).WBelow (T d) W (8 * n)⌝ ∗ owes (T d) ((K (F := F)).Otc d n) W) := by
  iintro ⟨%W, %hW, H⟩
  iexists W; isplitr; · ipureintro; exact fun p hp => hW (Finset.mem_coe.mpr hp)
  iexact H

/-- The region rule of the plain program, read in the extended program: stated over propositions, so that the
    instances are compared with the rule's statement and nothing is unfolded. -/
theorem enter_of_region {Bd Pre Post Lv G Tk : sProp 𝕄} (p : Fin 3) (d : Dev nD)
    (h : ∀ Q : PUnit → sProp 𝕄,
      iprop((iprop(Bd ∗ Post) -∗ wp frame (wpE (Pipeline.defs (pcfgs (F := F)) defs₀) 𝒱₀.lift (T d) none) Set.univ (Prog.ret PUnit.unit) Q)
          ∗ Bd ∗ Pre ∗ Lv ∗ G ∗ Tk)
        ⊢ wp frame (wpE (Pipeline.defs (pcfgs (F := F)) defs₀) 𝒱₀.lift (T d) none) Set.univ
            (.op (.customCall (Pipeline.entry p) ()) fun _ => Prog.ret PUnit.unit) Q) :
    iprop(Bd ∗ Pre ∗ Lv ∗ G ∗ Tk)
      ⊢ wp frame (wpE ((K (F := F)).defs (Pipeline.defs pcfgs defs₀)) 𝒱₀.lift (T d) none) Set.univ
          (Prog.lift (.customCall (SparseCore.inner (Pipeline.entry p)) ())) (fun _ => iprop(Bd ∗ Post)) := by
  have hret : iprop(Bd ∗ Post) ⊢ wp frame (wpE (Pipeline.defs (pcfgs (F := F)) defs₀) 𝒱₀.lift (T d) none) Set.univ
      (Prog.ret PUnit.unit) (fun _ => iprop(Bd ∗ Post)) := by
    rw [wp_ret]; iintro H; imodintro; iexact H
  have hk : (BI.emp : sProp 𝕄) ⊢ iprop(iprop(Bd ∗ Post) -∗ wp frame (wpE (Pipeline.defs (pcfgs (F := F)) defs₀) 𝒱₀.lift (T d) none) Set.univ
      (Prog.ret PUnit.unit) (fun _ => iprop(Bd ∗ Post))) :=
    BIClass.wand_intro (emp_sep_elim.trans hret)
  exact (emp_sep_intro.trans (sep_mono hk .rfl)).trans ((h _).trans
    ((K (F := F)).wp_liftProg (Pipeline.defs pcfgs defs₀) 𝒱₀.lift (T d) Set.univ none
      (.op (.customCall (Pipeline.entry p) ()) fun _ => Prog.ret PUnit.unit) _))

/-- The wait evidence of pallas call 0's region: the pipeline waits on its staging cells at index none, at level 0,
    and everything the TensorCore owes (start signals of later calls) sits at a call's index, at a positive level. -/
theorem hwTc0 (W0 W2 W4 : Dev nD → Valuation τ sig (Elt F)) (n0 n2 n4 : ℕ) (d : Dev nD) :
    (levAts (K (F := F)).L (K (F := F)).lev : sProp 𝕄) ⊢ Pipeline.cellsWaits (Pipeline.pin (pcfgs (F := F)) adm)
      (pdatsTc (F := F) (Name := ℕ) (U := UU) (Lvl := ℕ) W0 W2 W4 (OtcAt (F := F) n0) (OtcAt (F := F) n2) (OtcAt (F := F) n4) (BelowAt (F := F) n0) (BelowAt (F := F) n2) (BelowAt (F := F) n4)) none 0 d :=
  Pipeline.cellsWaits_intro (Pipeline.pin (pcfgs (F := F)) adm)
    (pdatsTc (F := F) (Name := ℕ) (U := UU) (Lvl := ℕ) W0 W2 W4 (OtcAt (F := F) n0) (OtcAt (F := F) n2) (OtcAt (F := F) n4) (BelowAt (F := F) n0) (BelowAt (F := F) n2) (BelowAt (F := F) n4)) none 0 d
    fun w s t => (K (F := F)).mayWait_none (thr := (d.tc : Thread nD τ)) _ (Otc_none d n0)

/-- The pairs pallas call 0's pipeline records at its own waits sit at level 0: they are at the index of no call. -/
theorem waitPairs0_below (n : ℕ) (d : Dev nD) : cfg0.waitPairs (none : HIx 2) ⊆ BelowAt (F := F) n d := by
  rintro p ⟨w, s, rfl⟩
  show (K (F := F)).lev _ none ≤ 8 * n
  rw [SparseCore.Cfg.lev_none]; exact Nat.zero_le _

set_option backward.isDefEq.respectTransparency.types false in
/-- ONE REGION inside the extended program: pallas call 0 entered from the TensorCore's thread state before
    SparseCore call n0.
    CONSUMES the region boundary of the TensorCore (scoped buffers at some contents, scoped semaphores at zero, the idle
    slot); every unscoped TensorCore buffer at W0 d, the generator register at some state, and the TensorCore's owes
    exactly as its state before call n0 holds it (the start signals still owed, the recorded pairs at or below level
    8 n0); the level facts (persistent: keep your copy); and pipeline 0's staging cells' ghost state and duty tokens
    on d.  RETURNS the boundary; the buffers at exitW0 (the six windowed arrays at what the pipeline leaves, the rest
    as entered); the generator register; and the owes in the same form, the pairs the pipeline's waits recorded being at
    level 0.  The cells' ghost state and tokens are spent: a pipeline is entered once. -/
theorem enter0 (hloc : PayLocal0 F) (W0 W2 W4 : Dev nD → Valuation τ sig (Elt F)) (n0 n2 n4 : ℕ) (d : Dev nD) :
    iprop(boundary (T d)
        ∗ iprop(StableHlo.held (T d) (Pipeline.ucRefs τ sig) (W0 d) ∗ (∃ r, prngReg d r)
          ∗ ∃ W, ⌜(K (F := F)).WBelow (T d) W (8 * n0)⌝ ∗ owes (T d) ((K (F := F)).Otc d n0) W)
        ∗ levAts (K (F := F)).L (K (F := F)).lev
        ∗ Pipeline.cellsGhost (Pipeline.pin (pcfgs (F := F)) adm) ER 0 d ∗ Pipeline.toksInit (Pipeline.pin (pcfgs (F := F)) adm) ER 0 d)
      ⊢ wp frame (wpE ((K (F := F)).defs (Pipeline.defs pcfgs defs₀)) 𝒱₀.lift (T d) none) Set.univ
          (Prog.lift (.customCall (SparseCore.inner (Pipeline.entry 0)) ()))
          (fun _ => iprop(boundary (T d)
            ∗ iprop(StableHlo.held (T d) (Pipeline.ucRefs τ sig) (exitW0 ℕ UU ℕ W0 (OtcAt (F := F) n0) (BelowAt (F := F) n0) d) ∗ (∃ r, prngReg d r)
          ∗ ∃ W, ⌜(K (F := F)).WBelow (T d) W (8 * n0)⌝ ∗ owes (T d) ((K (F := F)).Otc d n0) W) : sProp 𝕄)) := by
  have hreg := enter_of_region (F := F) 0 d (fun Q => Pipeline.RegionSeg.wp (pcfgs (F := F)) adm
    (pdatsTc (F := F) (Name := ℕ) (U := UU) (Lvl := ℕ) W0 W2 W4 (OtcAt (F := F) n0) (OtcAt (F := F) n2) (OtcAt (F := F) n4) (BelowAt (F := F) n0) (BelowAt (F := F) n2) (BelowAt (F := F) n4)) none cellOf_inj ER defs₀ 𝒱₀
    (K (F := F)).L (K (F := F)).lev
    (reg0 W0 W2 W4 (OtcAt (F := F) n0) (OtcAt (F := F) n2) (OtcAt (F := F) n4) (BelowAt (F := F) n0) (BelowAt (F := F) n2) (BelowAt (F := F) n4) 𝒱₀ none (K (F := F)).L (K (F := F)).lev hloc (hwTc0 W0 W2 W4 n0 n2 n4))
    d none (fun u hu => by cases hu) (α := PUnit) (fun _ => Prog.ret PUnit.unit) Q)
  refine BI.Entails.trans (sep_mono .rfl (sep_mono (sep_mono .rfl (sep_mono .rfl (owes_in n0 d))) .rfl)) (hreg.trans ?_)
  exact wp_mono _ _ _ fun _ => sep_mono .rfl (sep_mono .rfl (sep_mono .rfl
    ((Pipeline.owesWithin_mono d _ (Set.union_subset (fun _ h => h) (waitPairs0_below n0 d))).trans (owes_out n0 d))))

/-- The wait evidence of pallas call 2's region: the pipeline waits on its staging cells at index none, at level 0,
    and everything the TensorCore owes (start signals of later calls) sits at a call's index, at a positive level. -/
theorem hwTc2 (W0 W2 W4 : Dev nD → Valuation τ sig (Elt F)) (n0 n2 n4 : ℕ) (d : Dev nD) :
    (levAts (K (F := F)).L (K (F := F)).lev : sProp 𝕄) ⊢ Pipeline.cellsWaits (Pipeline.pin (pcfgs (F := F)) adm)
      (pdatsTc (F := F) (Name := ℕ) (U := UU) (Lvl := ℕ) W0 W2 W4 (OtcAt (F := F) n0) (OtcAt (F := F) n2) (OtcAt (F := F) n4) (BelowAt (F := F) n0) (BelowAt (F := F) n2) (BelowAt (F := F) n4)) none 1 d :=
  Pipeline.cellsWaits_intro (Pipeline.pin (pcfgs (F := F)) adm)
    (pdatsTc (F := F) (Name := ℕ) (U := UU) (Lvl := ℕ) W0 W2 W4 (OtcAt (F := F) n0) (OtcAt (F := F) n2) (OtcAt (F := F) n4) (BelowAt (F := F) n0) (BelowAt (F := F) n2) (BelowAt (F := F) n4)) none 1 d
    fun w s t => (K (F := F)).mayWait_none (thr := (d.tc : Thread nD τ)) _ (Otc_none d n2)

/-- The pairs pallas call 2's pipeline records at its own waits sit at level 0: they are at the index of no call. -/
theorem waitPairs2_below (n : ℕ) (d : Dev nD) : cfg2.waitPairs (none : HIx 2) ⊆ BelowAt (F := F) n d := by
  rintro p ⟨w, s, rfl⟩
  show (K (F := F)).lev _ none ≤ 8 * n
  rw [SparseCore.Cfg.lev_none]; exact Nat.zero_le _

set_option backward.isDefEq.respectTransparency.types false in
/-- ONE REGION inside the extended program: pallas call 2 entered from the TensorCore's thread state before
    SparseCore call n2.
    CONSUMES the region boundary of the TensorCore (scoped buffers at some contents, scoped semaphores at zero, the idle
    slot); every unscoped TensorCore buffer at W2 d, the generator register at some state, and the TensorCore's owes
    exactly as its state before call n2 holds it (the start signals still owed, the recorded pairs at or below level
    8 n2); the level facts (persistent: keep your copy); and pipeline 1's staging cells' ghost state and duty tokens
    on d.  RETURNS the boundary; the buffers at exitW2 (the fourteen windowed arrays at what the pipeline leaves, the rest
    as entered); the generator register; and the owes in the same form, the pairs the pipeline's waits recorded being at
    level 0.  The cells' ghost state and tokens are spent: a pipeline is entered once. -/
theorem enter2 (W0 W2 W4 : Dev nD → Valuation τ sig (Elt F)) (n0 n2 n4 : ℕ) (d : Dev nD) :
    iprop(boundary (T d)
        ∗ iprop(StableHlo.held (T d) (Pipeline.ucRefs τ sig) (W2 d) ∗ (∃ r, prngReg d r)
          ∗ ∃ W, ⌜(K (F := F)).WBelow (T d) W (8 * n2)⌝ ∗ owes (T d) ((K (F := F)).Otc d n2) W)
        ∗ levAts (K (F := F)).L (K (F := F)).lev
        ∗ Pipeline.cellsGhost (Pipeline.pin (pcfgs (F := F)) adm) ER 1 d ∗ Pipeline.toksInit (Pipeline.pin (pcfgs (F := F)) adm) ER 1 d)
      ⊢ wp frame (wpE ((K (F := F)).defs (Pipeline.defs pcfgs defs₀)) 𝒱₀.lift (T d) none) Set.univ
          (Prog.lift (.customCall (SparseCore.inner (Pipeline.entry 1)) ()))
          (fun _ => iprop(boundary (T d)
            ∗ iprop(StableHlo.held (T d) (Pipeline.ucRefs τ sig) (exitW2 ℕ UU ℕ W2 (OtcAt (F := F) n2) (BelowAt (F := F) n2) d) ∗ (∃ r, prngReg d r)
          ∗ ∃ W, ⌜(K (F := F)).WBelow (T d) W (8 * n2)⌝ ∗ owes (T d) ((K (F := F)).Otc d n2) W) : sProp 𝕄)) := by
  have hreg := enter_of_region (F := F) 1 d (fun Q => Pipeline.RegionSeg.wp (pcfgs (F := F)) adm
    (pdatsTc (F := F) (Name := ℕ) (U := UU) (Lvl := ℕ) W0 W2 W4 (OtcAt (F := F) n0) (OtcAt (F := F) n2) (OtcAt (F := F) n4) (BelowAt (F := F) n0) (BelowAt (F := F) n2) (BelowAt (F := F) n4)) none cellOf_inj ER defs₀ 𝒱₀
    (K (F := F)).L (K (F := F)).lev
    (reg2 W0 W2 W4 (OtcAt (F := F) n0) (OtcAt (F := F) n2) (OtcAt (F := F) n4) (BelowAt (F := F) n0) (BelowAt (F := F) n2) (BelowAt (F := F) n4) 𝒱₀ none (K (F := F)).L (K (F := F)).lev (hwTc2 W0 W2 W4 n0 n2 n4))
    d none (fun u hu => by cases hu) (α := PUnit) (fun _ => Prog.ret PUnit.unit) Q)
  refine BI.Entails.trans (sep_mono .rfl (sep_mono (sep_mono .rfl (sep_mono .rfl (owes_in n2 d))) .rfl)) (hreg.trans ?_)
  exact wp_mono _ _ _ fun _ => sep_mono .rfl (sep_mono .rfl (sep_mono .rfl
    ((Pipeline.owesWithin_mono d _ (Set.union_subset (fun _ h => h) (waitPairs2_below n2 d))).trans (owes_out n2 d))))

/-- The wait evidence of pallas call 4's region: the pipeline waits on its staging cells at index none, at level 0,
    and everything the TensorCore owes (start signals of later calls) sits at a call's index, at a positive level. -/
theorem hwTc4 (W0 W2 W4 : Dev nD → Valuation τ sig (Elt F)) (n0 n2 n4 : ℕ) (d : Dev nD) :
    (levAts (K (F := F)).L (K (F := F)).lev : sProp 𝕄) ⊢ Pipeline.cellsWaits (Pipeline.pin (pcfgs (F := F)) adm)
      (pdatsTc (F := F) (Name := ℕ) (U := UU) (Lvl := ℕ) W0 W2 W4 (OtcAt (F := F) n0) (OtcAt (F := F) n2) (OtcAt (F := F) n4) (BelowAt (F := F) n0) (BelowAt (F := F) n2) (BelowAt (F := F) n4)) none 2 d :=
  Pipeline.cellsWaits_intro (Pipeline.pin (pcfgs (F := F)) adm)
    (pdatsTc (F := F) (Name := ℕ) (U := UU) (Lvl := ℕ) W0 W2 W4 (OtcAt (F := F) n0) (OtcAt (F := F) n2) (OtcAt (F := F) n4) (BelowAt (F := F) n0) (BelowAt (F := F) n2) (BelowAt (F := F) n4)) none 2 d
    fun w s t => (K (F := F)).mayWait_none (thr := (d.tc : Thread nD τ)) _ (Otc_none d n4)

/-- The pairs pallas call 4's pipeline records at its own waits sit at level 0: they are at the index of no call. -/
theorem waitPairs4_below (n : ℕ) (d : Dev nD) : cfg4.waitPairs (none : HIx 2) ⊆ BelowAt (F := F) n d := by
  rintro p ⟨w, s, rfl⟩
  show (K (F := F)).lev _ none ≤ 8 * n
  rw [SparseCore.Cfg.lev_none]; exact Nat.zero_le _

set_option backward.isDefEq.respectTransparency.types false in
/-- ONE REGION inside the extended program: pallas call 4 entered from the TensorCore's thread state before
    SparseCore call n4.
    CONSUMES the region boundary of the TensorCore (scoped buffers at some contents, scoped semaphores at zero, the idle
    slot); every unscoped TensorCore buffer at W4 d, the generator register at some state, and the TensorCore's owes
    exactly as its state before call n4 holds it (the start signals still owed, the recorded pairs at or below level
    8 n4); the level facts (persistent: keep your copy); and pipeline 2's staging cells' ghost state and duty tokens
    on d.  RETURNS the boundary; the buffers at exitW4 (the fourteen windowed arrays at what the pipeline leaves, the rest
    as entered); the generator register; and the owes in the same form, the pairs the pipeline's waits recorded being at
    level 0.  The cells' ghost state and tokens are spent: a pipeline is entered once. -/
theorem enter4 (W0 W2 W4 : Dev nD → Valuation τ sig (Elt F)) (n0 n2 n4 : ℕ) (d : Dev nD) :
    iprop(boundary (T d)
        ∗ iprop(StableHlo.held (T d) (Pipeline.ucRefs τ sig) (W4 d) ∗ (∃ r, prngReg d r)
          ∗ ∃ W, ⌜(K (F := F)).WBelow (T d) W (8 * n4)⌝ ∗ owes (T d) ((K (F := F)).Otc d n4) W)
        ∗ levAts (K (F := F)).L (K (F := F)).lev
        ∗ Pipeline.cellsGhost (Pipeline.pin (pcfgs (F := F)) adm) ER 2 d ∗ Pipeline.toksInit (Pipeline.pin (pcfgs (F := F)) adm) ER 2 d)
      ⊢ wp frame (wpE ((K (F := F)).defs (Pipeline.defs pcfgs defs₀)) 𝒱₀.lift (T d) none) Set.univ
          (Prog.lift (.customCall (SparseCore.inner (Pipeline.entry 2)) ()))
          (fun _ => iprop(boundary (T d)
            ∗ iprop(StableHlo.held (T d) (Pipeline.ucRefs τ sig) (exitW4 ℕ UU ℕ W4 (OtcAt (F := F) n4) (BelowAt (F := F) n4) d) ∗ (∃ r, prngReg d r)
          ∗ ∃ W, ⌜(K (F := F)).WBelow (T d) W (8 * n4)⌝ ∗ owes (T d) ((K (F := F)).Otc d n4) W) : sProp 𝕄)) := by
  have hreg := enter_of_region (F := F) 2 d (fun Q => Pipeline.RegionSeg.wp (pcfgs (F := F)) adm
    (pdatsTc (F := F) (Name := ℕ) (U := UU) (Lvl := ℕ) W0 W2 W4 (OtcAt (F := F) n0) (OtcAt (F := F) n2) (OtcAt (F := F) n4) (BelowAt (F := F) n0) (BelowAt (F := F) n2) (BelowAt (F := F) n4)) none cellOf_inj ER defs₀ 𝒱₀
    (K (F := F)).L (K (F := F)).lev
    (reg4 W0 W2 W4 (OtcAt (F := F) n0) (OtcAt (F := F) n2) (OtcAt (F := F) n4) (BelowAt (F := F) n0) (BelowAt (F := F) n2) (BelowAt (F := F) n4) 𝒱₀ none (K (F := F)).L (K (F := F)).lev (hwTc4 W0 W2 W4 n0 n2 n4))
    d none (fun u hu => by cases hu) (α := PUnit) (fun _ => Prog.ret PUnit.unit) Q)
  refine BI.Entails.trans (sep_mono .rfl (sep_mono (sep_mono .rfl (sep_mono .rfl (owes_in n4 d))) .rfl)) (hreg.trans ?_)
  exact wp_mono _ _ _ fun _ => sep_mono .rfl (sep_mono .rfl (sep_mono .rfl
    ((Pipeline.owesWithin_mono d _ (Set.union_subset (fun _ h => h) (waitPairs4_below n4 d))).trans (owes_out n4 d))))

end Cert.Proof.KW

end
-- ==== Proof.WTcStep.lean ====
/-
  The three TensorCore pallas calls as steps of @main.

  @main's proof threads one thread state through the program: the region boundary, every unscoped
  buffer of the TensorCore at a valuation, the generator register, and what the TensorCore owes before
  the SparseCore call to come.  Each pallas call is one step on that state: region 0 runs before the
  first SparseCore call, region 1 between the two, region 2 after the second.  A step changes the
  valuation only at the call's windowed arrays, so the program's sixteen arguments — no window's array
  of any of the three calls — are where they were.
-/
import proofs.«217981_g19061064860210_cont_8to1_1320_37_alg».proof.Proof.WScMain
import proofs.«217981_g19061064860210_cont_8to1_1320_37_alg».proof.Proof.WTcEnter

set_option maxRecDepth 16384

noncomputable section

namespace Cert.Proof.KW

open Cert.Kernel Cert.Kernel.Gen Cert.Kernel.Tc
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after seq)

variable {F : FTy → Type} [FloatOps F]

local notation "𝕄" => MT nD τ sig (HIx 2) (Elt F) ℕ UU ℕ

/-- The buffers after pallas call 0's region, entered before SparseCore call 0 with the buffers at V. -/
def e0 (d : Dev nD) (V : Valuation τ sig (Elt F)) : Valuation τ sig (Elt F) :=
  exitW0 ℕ UU ℕ (fun _ => V) (OtcAt (F := F) 0) (BelowAt (F := F) 0) d

/-- Pallas call 0's region as a step of @main: entered before SparseCore call 0, it spends its staging cells' ghost
    state and duty tokens, borrows and returns what the TensorCore owes, and leaves the buffers at e0. -/
theorem regStep0 (hloc : PayLocal0 F) : RegStep (F := F) 0 0
    (fun d => iprop(Pipeline.cellsGhost (Pipeline.pin (pcfgs (F := F)) adm) (ER (F := F)) 0 d
      ∗ Pipeline.toksInit (Pipeline.pin (pcfgs (F := F)) adm) (ER (F := F)) 0 d)) (e0 (F := F)) := by
  intro d V
  unfold tcOwes e0
  exact enter0 hloc (fun _ => V) (fun _ => V) (fun _ => V) 0 1 2 d

/-- No argument of the program is a windowed array of pallas call 0. -/
theorem args_ne0 : ∀ (k : Fin 16) (w : Fin cfg0.W), Pipeline.arrRef spec0 w ≠ argRef k := by decide

/-- Pallas call 0's region leaves the program's sixteen arguments as it found them. -/
theorem e0_args (d : Dev nD) (V : Valuation τ sig (Elt F)) (k : Fin 16) :
    e0 (F := F) d V ((argRef k : Ref sig .tc) : DevRef τ sig) = V ((argRef k : Ref sig .tc) : DevRef τ sig) :=
  exitW0_of_ne (Name := ℕ) (U := UU) (Lvl := ℕ) (fun _ => V) (OtcAt (F := F) 0) (BelowAt (F := F) 0) d (argRef k) (args_ne0 k)

/-- The buffers after pallas call 2's region, entered before SparseCore call 1 with the buffers at V. -/
def e1 (d : Dev nD) (V : Valuation τ sig (Elt F)) : Valuation τ sig (Elt F) :=
  exitW2 ℕ UU ℕ (fun _ => V) (OtcAt (F := F) 1) (BelowAt (F := F) 1) d

/-- Pallas call 2's region as a step of @main: entered before SparseCore call 1, it spends its staging cells' ghost
    state and duty tokens, borrows and returns what the TensorCore owes, and leaves the buffers at e1. -/
theorem regStep1 : RegStep (F := F) 1 1
    (fun d => iprop(Pipeline.cellsGhost (Pipeline.pin (pcfgs (F := F)) adm) (ER (F := F)) 1 d
      ∗ Pipeline.toksInit (Pipeline.pin (pcfgs (F := F)) adm) (ER (F := F)) 1 d)) (e1 (F := F)) := by
  intro d V
  unfold tcOwes e1
  exact enter2 (fun _ => V) (fun _ => V) (fun _ => V) 0 1 2 d

/-- No argument of the program is a windowed array of pallas call 2. -/
theorem args_ne1 : ∀ (k : Fin 16) (w : Fin cfg2.W), Pipeline.arrRef spec2 w ≠ argRef k := by decide

/-- Pallas call 2's region leaves the program's sixteen arguments as it found them. -/
theorem e1_args (d : Dev nD) (V : Valuation τ sig (Elt F)) (k : Fin 16) :
    e1 (F := F) d V ((argRef k : Ref sig .tc) : DevRef τ sig) = V ((argRef k : Ref sig .tc) : DevRef τ sig) :=
  exitW2_of_ne (Name := ℕ) (U := UU) (Lvl := ℕ) (fun _ => V) (OtcAt (F := F) 1) (BelowAt (F := F) 1) d (argRef k) (args_ne1 k)

/-- The buffers after pallas call 4's region, entered before SparseCore call 2 with the buffers at V. -/
def e2 (d : Dev nD) (V : Valuation τ sig (Elt F)) : Valuation τ sig (Elt F) :=
  exitW4 ℕ UU ℕ (fun _ => V) (OtcAt (F := F) 2) (BelowAt (F := F) 2) d

/-- Pallas call 4's region as a step of @main: entered before SparseCore call 2, it spends its staging cells' ghost
    state and duty tokens, borrows and returns what the TensorCore owes, and leaves the buffers at e2. -/
theorem regStep2 : RegStep (F := F) 2 2
    (fun d => iprop(Pipeline.cellsGhost (Pipeline.pin (pcfgs (F := F)) adm) (ER (F := F)) 2 d
      ∗ Pipeline.toksInit (Pipeline.pin (pcfgs (F := F)) adm) (ER (F := F)) 2 d)) (e2 (F := F)) := by
  intro d V
  unfold tcOwes e2
  exact enter4 (fun _ => V) (fun _ => V) (fun _ => V) 0 1 2 d

/-- No argument of the program is a windowed array of pallas call 4. -/
theorem args_ne2 : ∀ (k : Fin 16) (w : Fin cfg4.W), Pipeline.arrRef spec4 w ≠ argRef k := by decide

/-- Pallas call 4's region leaves the program's sixteen arguments as it found them. -/
theorem e2_args (d : Dev nD) (V : Valuation τ sig (Elt F)) (k : Fin 16) :
    e2 (F := F) d V ((argRef k : Ref sig .tc) : DevRef τ sig) = V ((argRef k : Ref sig .tc) : DevRef τ sig) :=
  exitW4_of_ne (Name := ℕ) (U := UU) (Lvl := ℕ) (fun _ => V) (OtcAt (F := F) 2) (BelowAt (F := F) 2) d (argRef k) (args_ne2 k)

end Cert.Proof.KW

end
-- ==== Proof.WKPreArgs.lean ====
/-
  The index ranges the claim's precondition gives. The input predicate is a conjunction, over its sixteen arguments, of
  "every entry finite" for the float arrays and "every entry within its range" for the three index arrays, each a
  reduction by `and` of an array of comparison bits, all joined by `and`. Its value being all ones therefore gives each
  conjunct: for the first index array and the per-row index array, every entry `x` has `0 ≤ x` and `x ≤ 99999` read
  signed, hence `x < 100000` read unsigned.
-/
import proofs.«217981_g19061064860210_cont_8to1_1320_37_alg».proof.Defs
import proofs.«217981_g19061064860210_cont_8to1_1320_37_alg».proof.Proof.Gen.Pre_input_domain
import Idealize.ShloMosaic.Lib.ReduceAll

noncomputable section

namespace Cert.Proof.KW

open Idealize.ShloMosaic Idealize.SL.Sem

/-- A 32-bit word whose signed reading lies in `0 … 99999` reads the same unsigned. -/
theorem toNat_lt_of_toInt {x : BitVec 32} (h0 : 0 ≤ x.toInt) (h1 : x.toInt ≤ 99999) : x.toNat < 100000 := by
  have := BitVec.toInt_eq_toNat_cond x
  split at this <;> omega

section Predicate

open Cert.Pre_input_domain

variable {F : FTy → Type} [FloatOps F] [hF : Cert.Pre_input_domain.Facts]

/-- The last part of the input predicate being all ones bounds the first index array: among its conjuncts is the
    conjunction over all entries of `0 ≤ x` and `x ≤ 99999`, read signed. -/
theorem part4_arg1 (arg1 arg2 : IVec S4096x50 32) (v63 : IVec S_ 1) (v65 v67 : IVec S4096 1)
    (h : fn_part4 (F := F) arg1 arg2 v63 v65 v67 = fun _ => 1#1) : ∀ j, (arg1 j).toNat < 100000 := by
  intro j
  have h0 : fn_part4 (F := F) arg1 arg2 v63 v65 v67 (fun a => a.elim0) = 1#1 := congrFun h _
  unfold fn_part4 at h0
  have h1 := (IntOp.andi_eq_one.1 h0).1
  have h2 := (IntOp.andi_eq_one.1 h1).2
  have h3 := Host.reduce_andi_all _ _ _ _ _ h2 j
  have h4 := IntOp.andi_eq_one.1 h3
  have h5 := IntOp.cmpi_sge.1 h4.1
  have h6 := IntOp.cmpi_sle.1 h4.2
  exact toNat_lt_of_toInt h5 h6

/-- The same part bounds the per-row index array through the two comparison arrays it is handed. -/
theorem part4_v65 (arg1 arg2 : IVec S4096x50 32) (v63 : IVec S_ 1) (v65 v67 : IVec S4096 1)
    (h : fn_part4 (F := F) arg1 arg2 v63 v65 v67 = fun _ => 1#1) : ∀ j, v65 j = 1#1 ∧ v67 j = 1#1 := by
  intro j
  have h0 : fn_part4 (F := F) arg1 arg2 v63 v65 v67 (fun a => a.elim0) = 1#1 := congrFun h _
  unfold fn_part4 at h0
  have h1 := (IntOp.andi_eq_one.1 h0).1
  have h2 := (IntOp.andi_eq_one.1 h1).1
  have h3 := (IntOp.andi_eq_one.1 h2).2
  have h4 := Host.reduce_andi_all _ _ _ _ _ h3 j
  exact IntOp.andi_eq_one.1 h4

end Predicate

section Whole

open Cert.Pre_input_domain

variable {F : FTy → Type} [FloatOps F] [hF : Cert.Pre_input_domain.Facts]

/-- The input predicate all ones bounds every entry of the first index array: `0 ≤ x ≤ 99999` read signed, so
    `x < 100000` read unsigned. -/
theorem fn_arg1 (a0 : IVec S4096 32) (a1 : IVec S4096x50 32) (a2 : IVec S4096x50 32) (a3 : FVec F S100000x64 .f32) (a4 : FVec F S100000x64 .f32) (a5 : FVec F S5x64 .f32) (a6 : FVec F S64x128 .f32) (a7 : FVec F S64 .f32) (a8 : FVec F S64x64 .f32) (a9 : FVec F S64 .f32) (a10 : FVec F S64x128 .f32) (a11 : FVec F S64 .f32) (a12 : FVec F S64x64 .f32) (a13 : FVec F S64 .f32) (a14 : FVec F S1x64 .f32) (a15 : FVec F S1 .f32)
    (h : fn (F := F) a0 a1 a2 a3 a4 a5 a6 a7 a8 a9 a10 a11 a12 a13 a14 a15 = fun _ => 1#1) : ∀ j, (a1 j).toNat < 100000 :=
  part4_arg1 (F := F) a1 a2 _ _ _ h

/-- And every entry of the per-row index array. -/
theorem fn_arg0 (a0 : IVec S4096 32) (a1 : IVec S4096x50 32) (a2 : IVec S4096x50 32) (a3 : FVec F S100000x64 .f32) (a4 : FVec F S100000x64 .f32) (a5 : FVec F S5x64 .f32) (a6 : FVec F S64x128 .f32) (a7 : FVec F S64 .f32) (a8 : FVec F S64x64 .f32) (a9 : FVec F S64 .f32) (a10 : FVec F S64x128 .f32) (a11 : FVec F S64 .f32) (a12 : FVec F S64x64 .f32) (a13 : FVec F S64 .f32) (a14 : FVec F S1x64 .f32) (a15 : FVec F S1 .f32)
    (h : fn (F := F) a0 a1 a2 a3 a4 a5 a6 a7 a8 a9 a10 a11 a12 a13 a14 a15 = fun _ => 1#1) : ∀ j, (a0 j).toNat < 100000 := by
  intro j
  have hh := part4_v65 (F := F) a1 a2 _ _ _ h j
  exact toNat_lt_of_toInt (IntOp.cmpi_sge.1 hh.1) (IntOp.cmpi_sle.1 hh.2)

end Whole

section Claim

open Cert.Kernel Idealize.ShloMosaic.TcCoe

/-- From the claim's precondition: every entry of the first index array, on every device, is below 100000. -/
theorem pre_arg1_lt (m : (ℓ : Loc nD τ sig) → Buf (Elt Bits) ℓ)
    (hpre : Cert.Pre_Kernel (hPre_input_domain := Cert.Pre_input_domain.Gen.facts) m) (d : Dev nD) :
    ∀ j, BitVec.toNat ((m ((SparseCore.T (τ := τ) d).loc main_arg1) : (⟨S4096x50, .i32⟩ : BufTy).Contents (Elt Bits)) j) < 100000 :=
  fn_arg1 (F := Bits) (hF := Cert.Pre_input_domain.Gen.facts) _ _ _ _ _ _ _ _ _ _ _ _ _ _ _ _ (hpre d)

/-- And every entry of the per-row index array. -/
theorem pre_arg0_lt (m : (ℓ : Loc nD τ sig) → Buf (Elt Bits) ℓ)
    (hpre : Cert.Pre_Kernel (hPre_input_domain := Cert.Pre_input_domain.Gen.facts) m) (d : Dev nD) :
    ∀ j, BitVec.toNat ((m ((SparseCore.T (τ := τ) d).loc main_arg0) : (⟨S4096, .i32⟩ : BufTy).Contents (Elt Bits)) j) < 100000 :=
  fn_arg0 (F := Bits) (hF := Cert.Pre_input_domain.Gen.facts) _ _ _ _ _ _ _ _ _ _ _ _ _ _ _ _ (hpre d)

/-- The same of any contents of the device's buffers that agree with the launch memory on the first index array. -/
theorem pre_arg1_lt_of (m : (ℓ : Loc nD τ sig) → Buf (Elt Bits) ℓ)
    (hpre : Cert.Pre_Kernel (hPre_input_domain := Cert.Pre_input_domain.Gen.facts) m) (d : Dev nD)
    (V : Valuation τ sig (Elt Bits)) (hV : V (main_arg1 : DevRef τ sig) = m ((SparseCore.T (τ := τ) d).loc main_arg1)) :
    ∀ j, BitVec.toNat ((V (main_arg1 : DevRef τ sig) : (⟨S4096x50, .i32⟩ : BufTy).Contents (Elt Bits)) j) < 100000 := by
  rw [hV]; exact pre_arg1_lt m hpre d

/-- The same on the per-row index array. -/
theorem pre_arg0_lt_of (m : (ℓ : Loc nD τ sig) → Buf (Elt Bits) ℓ)
    (hpre : Cert.Pre_Kernel (hPre_input_domain := Cert.Pre_input_domain.Gen.facts) m) (d : Dev nD)
    (V : Valuation τ sig (Elt Bits)) (hV : V (main_arg0 : DevRef τ sig) = m ((SparseCore.T (τ := τ) d).loc main_arg0)) :
    ∀ j, BitVec.toNat ((V (main_arg0 : DevRef τ sig) : (⟨S4096, .i32⟩ : BufTy).Contents (Elt Bits)) j) < 100000 := by
  rw [hV]; exact pre_arg0_lt m hpre d

end Claim

end Cert.Proof.KW

end
-- ==== Proof.WKMainArgs.lean ====
/-
  @main's sixteen arguments through its proof's valuations, in one form over the family of argument references: none of
  the six straight lines of host operations writes an argument, and neither gather call's step changes one (a call
  changes its two result arrays only). With the index ranges the claim's precondition gives, carried to any valuation
  that agrees with the launch memory on the index arrays.
-/
import proofs.«217981_g19061064860210_cont_8to1_1320_37_alg».proof.Proof.KMainSegsWord
import proofs.«217981_g19061064860210_cont_8to1_1320_37_alg».proof.Proof.WScLaunch
import proofs.«217981_g19061064860210_cont_8to1_1320_37_alg».proof.Proof.WScCall
import proofs.«217981_g19061064860210_cont_8to1_1320_37_alg».proof.Proof.WScCall1
import proofs.«217981_g19061064860210_cont_8to1_1320_37_alg».proof.Proof.WKPreArgs

noncomputable section

namespace Cert.Proof.KW

open Cert.Kernel Cert.Kernel.Gen
open Idealize.ShloMosaic
open Idealize.ShloMosaic.TcCoe

variable {F : FTy → Type} [FloatOps F]

/-- Line 0 of @main writes no argument. -/
theorem ops0_args (V : Valuation τ sig (Elt F)) (k : Fin 16) :
    StableHlo.after (Cert.Kernel.MainSegs.ops0 (F := F)) V ((argRef k : Ref sig .tc) : DevRef τ sig)
      = V ((argRef k : Ref sig .tc) : DevRef τ sig) := by
  fin_cases k
  exacts [Cert.Kernel.MainSegs.ops0_arg0 V, Cert.Kernel.MainSegs.ops0_arg1 V, Cert.Kernel.MainSegs.ops0_arg2 V, Cert.Kernel.MainSegs.ops0_arg3 V, Cert.Kernel.MainSegs.ops0_arg4 V, Cert.Kernel.MainSegs.ops0_arg5 V, Cert.Kernel.MainSegs.ops0_arg6 V, Cert.Kernel.MainSegs.ops0_arg7 V, Cert.Kernel.MainSegs.ops0_arg8 V, Cert.Kernel.MainSegs.ops0_arg9 V, Cert.Kernel.MainSegs.ops0_arg10 V, Cert.Kernel.MainSegs.ops0_arg11 V, Cert.Kernel.MainSegs.ops0_arg12 V, Cert.Kernel.MainSegs.ops0_arg13 V, Cert.Kernel.MainSegs.ops0_arg14 V, Cert.Kernel.MainSegs.ops0_arg15 V]

/-- Line 1 of @main writes no argument. -/
theorem ops1_args (V : Valuation τ sig (Elt F)) (k : Fin 16) :
    StableHlo.after (Cert.Kernel.MainSegs.ops1 (F := F)) V ((argRef k : Ref sig .tc) : DevRef τ sig)
      = V ((argRef k : Ref sig .tc) : DevRef τ sig) := by
  fin_cases k
  exacts [Cert.Kernel.MainSegs.ops1_arg0 V, Cert.Kernel.MainSegs.ops1_arg1 V, Cert.Kernel.MainSegs.ops1_arg2 V, Cert.Kernel.MainSegs.ops1_arg3 V, Cert.Kernel.MainSegs.ops1_arg4 V, Cert.Kernel.MainSegs.ops1_arg5 V, Cert.Kernel.MainSegs.ops1_arg6 V, Cert.Kernel.MainSegs.ops1_arg7 V, Cert.Kernel.MainSegs.ops1_arg8 V, Cert.Kernel.MainSegs.ops1_arg9 V, Cert.Kernel.MainSegs.ops1_arg10 V, Cert.Kernel.MainSegs.ops1_arg11 V, Cert.Kernel.MainSegs.ops1_arg12 V, Cert.Kernel.MainSegs.ops1_arg13 V, Cert.Kernel.MainSegs.ops1_arg14 V, Cert.Kernel.MainSegs.ops1_arg15 V]

/-- Line 2 of @main writes no argument. -/
theorem ops2_args (V : Valuation τ sig (Elt F)) (k : Fin 16) :
    StableHlo.after (Cert.Kernel.MainSegs.ops2 (F := F)) V ((argRef k : Ref sig .tc) : DevRef τ sig)
      = V ((argRef k : Ref sig .tc) : DevRef τ sig) := by
  fin_cases k
  exacts [Cert.Kernel.MainSegs.ops2_arg0 V, Cert.Kernel.MainSegs.ops2_arg1 V, Cert.Kernel.MainSegs.ops2_arg2 V, Cert.Kernel.MainSegs.ops2_arg3 V, Cert.Kernel.MainSegs.ops2_arg4 V, Cert.Kernel.MainSegs.ops2_arg5 V, Cert.Kernel.MainSegs.ops2_arg6 V, Cert.Kernel.MainSegs.ops2_arg7 V, Cert.Kernel.MainSegs.ops2_arg8 V, Cert.Kernel.MainSegs.ops2_arg9 V, Cert.Kernel.MainSegs.ops2_arg10 V, Cert.Kernel.MainSegs.ops2_arg11 V, Cert.Kernel.MainSegs.ops2_arg12 V, Cert.Kernel.MainSegs.ops2_arg13 V, Cert.Kernel.MainSegs.ops2_arg14 V, Cert.Kernel.MainSegs.ops2_arg15 V]

/-- Line 3 of @main writes no argument. -/
theorem ops3_args (V : Valuation τ sig (Elt F)) (k : Fin 16) :
    StableHlo.after (Cert.Kernel.MainSegs.ops3 (F := F)) V ((argRef k : Ref sig .tc) : DevRef τ sig)
      = V ((argRef k : Ref sig .tc) : DevRef τ sig) := by
  fin_cases k
  exacts [Cert.Kernel.MainSegs.ops3_arg0 V, Cert.Kernel.MainSegs.ops3_arg1 V, Cert.Kernel.MainSegs.ops3_arg2 V, Cert.Kernel.MainSegs.ops3_arg3 V, Cert.Kernel.MainSegs.ops3_arg4 V, Cert.Kernel.MainSegs.ops3_arg5 V, Cert.Kernel.MainSegs.ops3_arg6 V, Cert.Kernel.MainSegs.ops3_arg7 V, Cert.Kernel.MainSegs.ops3_arg8 V, Cert.Kernel.MainSegs.ops3_arg9 V, Cert.Kernel.MainSegs.ops3_arg10 V, Cert.Kernel.MainSegs.ops3_arg11 V, Cert.Kernel.MainSegs.ops3_arg12 V, Cert.Kernel.MainSegs.ops3_arg13 V, Cert.Kernel.MainSegs.ops3_arg14 V, Cert.Kernel.MainSegs.ops3_arg15 V]

/-- Line 4 of @main writes no argument. -/
theorem ops4_args (V : Valuation τ sig (Elt F)) (k : Fin 16) :
    StableHlo.after (Cert.Kernel.MainSegs.ops4 (F := F)) V ((argRef k : Ref sig .tc) : DevRef τ sig)
      = V ((argRef k : Ref sig .tc) : DevRef τ sig) := by
  fin_cases k
  exacts [Cert.Kernel.MainSegs.ops4_arg0 V, Cert.Kernel.MainSegs.ops4_arg1 V, Cert.Kernel.MainSegs.ops4_arg2 V, Cert.Kernel.MainSegs.ops4_arg3 V, Cert.Kernel.MainSegs.ops4_arg4 V, Cert.Kernel.MainSegs.ops4_arg5 V, Cert.Kernel.MainSegs.ops4_arg6 V, Cert.Kernel.MainSegs.ops4_arg7 V, Cert.Kernel.MainSegs.ops4_arg8 V, Cert.Kernel.MainSegs.ops4_arg9 V, Cert.Kernel.MainSegs.ops4_arg10 V, Cert.Kernel.MainSegs.ops4_arg11 V, Cert.Kernel.MainSegs.ops4_arg12 V, Cert.Kernel.MainSegs.ops4_arg13 V, Cert.Kernel.MainSegs.ops4_arg14 V, Cert.Kernel.MainSegs.ops4_arg15 V]

/-- Line 5 of @main writes no argument. -/
theorem ops5_args (V : Valuation τ sig (Elt F)) (k : Fin 16) :
    StableHlo.after (Cert.Kernel.MainSegs.ops5 (F := F)) V ((argRef k : Ref sig .tc) : DevRef τ sig)
      = V ((argRef k : Ref sig .tc) : DevRef τ sig) := by
  fin_cases k
  exacts [Cert.Kernel.MainSegs.ops5_arg0 V, Cert.Kernel.MainSegs.ops5_arg1 V, Cert.Kernel.MainSegs.ops5_arg2 V, Cert.Kernel.MainSegs.ops5_arg3 V, Cert.Kernel.MainSegs.ops5_arg4 V, Cert.Kernel.MainSegs.ops5_arg5 V, Cert.Kernel.MainSegs.ops5_arg6 V, Cert.Kernel.MainSegs.ops5_arg7 V, Cert.Kernel.MainSegs.ops5_arg8 V, Cert.Kernel.MainSegs.ops5_arg9 V, Cert.Kernel.MainSegs.ops5_arg10 V, Cert.Kernel.MainSegs.ops5_arg11 V, Cert.Kernel.MainSegs.ops5_arg12 V, Cert.Kernel.MainSegs.ops5_arg13 V, Cert.Kernel.MainSegs.ops5_arg14 V, Cert.Kernel.MainSegs.ops5_arg15 V]

/-- The first gather call's step changes no argument. -/
theorem afterCall0_args (V : Valuation τ sig (Elt F)) (feu : (main_v18_0 : DevRef τ sig).ty.Contents (Elt F))
    (fuv : (main_v18_1 : DevRef τ sig).ty.Contents (Elt F)) (k : Fin 16) :
    afterCall0 V feu fuv ((argRef k : Ref sig .tc) : DevRef τ sig) = V ((argRef k : Ref sig .tc) : DevRef τ sig) := by
  fin_cases k <;> exact afterCall0_of_ne V feu fuv _ (by decide) (by decide)

/-- Nor does the second's. -/
theorem afterCall1_args (V : Valuation τ sig (Elt F)) (feu : (main_v44_0 : DevRef τ sig).ty.Contents (Elt F))
    (fuv : (main_v44_1 : DevRef τ sig).ty.Contents (Elt F)) (k : Fin 16) :
    afterCall1 V feu fuv ((argRef k : Ref sig .tc) : DevRef τ sig) = V ((argRef k : Ref sig .tc) : DevRef τ sig) := by
  fin_cases k <;> exact afterCall1_of_ne V feu fuv _ (by decide) (by decide)

end Cert.Proof.KW

end
-- ==== Proof.WTcReg0F.lean ====
/-
  TensorCore pallas call 0 as a region segment that says nothing of its output array.

  A claim that only asks the program to run to its end and leave its arguments as they were need not
  know what pallas call 0 writes into its 100000 × 128 output.  Then the output window is forgotten:
  the body is handed its staging buffer at any contents and hands it back at any contents, and after
  the region the output array holds some contents nothing names.  The five input arrays are as the
  region found them, and so is every other buffer.  Nothing about the payload is needed for this —
  in particular not that it is local —, so the statement holds for any float instance.
-/
import proofs.«217981_g19061064860210_cont_8to1_1320_37_alg».proof.Proof.WTcFamily

set_option maxRecDepth 16384

noncomputable section

namespace Cert.Kernel.Tc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- Which windows of pallas call 0 are forgotten: the output window, 5. -/
abbrev fgt0 : Fin cfg0.W → Bool :=
  fun | 0 => false | 1 => false | 2 => false | 3 => false | 4 => false | 5 => true | ⟨_ + 6, h⟩ => absurd h (Nat.not_lt.2 (Nat.le_add_left _ _))

set_option maxHeartbeats 4000000 in
/-- The body obligation of pallas call 0 with the output window forgotten: as before for the five inputs; the
    output's buffer comes at any contents and leaves at any contents. -/
theorem body_obligation0F (c : Dev nD) (A : (w : Fin cfg0.W) → Buf (Elt F) ((cfg0.win w).arr.view.loc (c.tc : Thread nD τ)))
    (Φ₀ : sProp 𝕄) (O : CellTallies nD τ sig Ix) (B : Set (SemLoc sig × Ix)) (𝒱₀ : Variants) (ι : Ix) :
    BodyObligationLoose (dats0 (F := F) (Ix := Ix) (Name := Name) (U := U) (Lvl := Lvl) c A Φ₀ O B) (defs₀ (F := F)) 𝒱₀ ι Set.univ fgt0 := fun t => by
  rw [bigSep_W0, bigSep_W0]
  simp only
  rw [show (dats0 (F := F) (Ix := Ix) (Name := Name) (U := U) (Lvl := Lvl) c A Φ₀ O B).Φ t.succ = (dats0 (F := F) (Ix := Ix) (Name := Name) (U := U) (Lvl := Lvl) c A Φ₀ O B).Φ t.castSucc from rfl,
    show (dats0 (F := F) (Ix := Ix) (Name := Name) (U := U) (Lvl := Lvl) c A Φ₀ O B).owesAt ι t.succ = (dats0 (F := F) (Ix := Ix) (Name := Name) (U := U) (Lvl := Lvl) c A Φ₀ O B).owesAt ι t.castSucc from rfl]
  show _ ⊢ wp frame (wpE (defs₀ (F := F)) 𝒱₀ c none) Set.univ (bodyAt0 t) _
  unfold bodyAt0
  iintro ⟨HΦ, Ho, ⟨%d0, H0⟩, ⟨%d1, H1⟩, ⟨%d2, H2⟩, ⟨%d3, H3⟩, ⟨%d4, H4⟩, ⟨%X5, H5⟩⟩
  rw [before0_0 c A Φ₀ O B t d0, before0_1 c A Φ₀ O B t d1, before0_2 c A Φ₀ O B t d2, before0_3 c A Φ₀ O B t d3,
    before0_4 c A Φ₀ O B t d4]
  iapply (sound_kernel0 𝒱₀ c Set.univ (grid0.coords t) _ _ _ _ _ _ _ _ _ _ _ _
    (win0_0.fill (grid0.coords t) d0 (iblk0 c A 0 t)) (win0_1.fill (grid0.coords t) d1 (iblk0 c A 1 t))
    (iblk0 c A 2 t) (iblk0 c A 3 t) (iblk0 c A 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists d0
    rw [after0_0, show win0_0.cut (grid0.coords t) (blkz0_0 c A t) = iblk0 c A 0 t from win0_0.cut_fill _ _ _]
    iexact H0
  isplitl [H1]
  · iexists d1
    rw [after0_1, show win0_1.cut (grid0.coords t) (blkz0_1 c A t) = iblk0 c A 1 t from win0_1.cut_fill _ _ _]
    iexact H1
  isplitl [H2]; · rw [after0_2]; iexact H2
  isplitl [H3]; · rw [after0_3]; iexact H3
  isplitl [H4]; · rw [after0_4]; iexact H4
  iexists _; iexact H5

/-- Which windows each pallas call forgets: call 0 its output window, the others none. -/
abbrev fgtTc : (p : Fin 3) → Fin (Pipeline.pin (pcfgs (F := F)) adm p).W → Bool
  | ⟨0, _⟩ => fgt0
  | ⟨1, _⟩ => fun _ => false
  | ⟨2, _⟩ => fun _ => false

/-- The three pallas calls' proof data read relationally, pallas call 0's output window forgotten. -/
def rdatsF (W0 W2 W4 : Dev nD → Valuation τ sig (Elt F)) (O0 O2 O4 : Dev nD → CellTallies nD τ sig Ix)
  (B0 B2 B4 : Dev nD → Set (SemLoc sig × Ix)) :
    (p : Fin 3) → (c : Dev nD) → RDat τ (Elt F) Ix Name U Lvl (Pipeline.pin (pcfgs (F := F)) adm p) c :=
  fun p c => (pdatsTc (F := F) (Name := Name) (U := U) (Lvl := Lvl) W0 W2 W4 O0 O2 O4 B0 B2 B4 p c).toRForget (fgtTc p)

section Reg0F

variable (W0 W2 W4 : Dev nD → Valuation τ sig (Elt F)) (O0 O2 O4 : Dev nD → CellTallies nD τ sig Ix)
  (B0 B2 B4 : Dev nD → Set (SemLoc sig × Ix))
  (𝒱₀ : Variants) (ι : Ix) (L : GSem nD τ sig → Finset Ix) (lv : GSem nD τ sig → Ix → Lvl)

/-- An input array of pallas call 0 holds after the region what it held at entry. -/
theorem arrAt0F_in (c : Dev nD) (w : Fin cfg0.W) (hw : fgt0 w = false) (hin : (cfg0.win w).isOut = false)
    (X : Buf (Elt F) ((cfg0.win w).arr.view.loc (c.tc : Thread nD τ)))
    (h : ((rdatsF (F := F) (Name := Name) (U := U) (Lvl := Lvl) W0 W2 W4 O0 O2 O4 B0 B2 B4) 0 c).ArrAt w cfg0.N X) : X = valTc W0 c (Pipeline.arrRef spec0 w) := by
  have h1 := (((pdatsTc (F := F) (Name := Name) (U := U) (Lvl := Lvl) W0 W2 W4 O0 O2 O4 B0 B2 B4) 0 c).toRForget_arrAt_iff (fgt := fgt0) hw cfg0.N X).mp h
  rw [h1]
  exact (((pdatsTc (F := F) (Name := Name) (U := U) (Lvl := Lvl) W0 W2 W4 O0 O2 O4 B0 B2 B4) 0 c).arrAt_in w hin _).trans rfl

set_option maxHeartbeats 4000000 in
set_option backward.isDefEq.respectTransparency.types false in
/-- The region of pallas call 0 with its output forgotten, over the thread state "every unscoped buffer at W0 c, the
    generator register at some state, the core owing O0 c with its recorded pairs within B0 c": left with the buffers
    at SOME contents that agree with W0 c everywhere but at the output array, and the rest as it was. -/
def reg0F (hw : ∀ c, (levAts L lv : sProp 𝕄) ⊢ Pipeline.RDat.cellsWaits (Pipeline.pin (pcfgs (F := F)) adm) (rdatsF (F := F) (Name := Name) (U := U) (Lvl := Lvl) W0 W2 W4 O0 O2 O4 B0 B2 B4) ι 0 c) :
    Pipeline.RDat.RegionSeg (pcfgs (F := F)) adm (rdatsF (F := F) (Name := Name) (U := U) (Lvl := Lvl) W0 W2 W4 O0 O2 O4 B0 B2 B4) ι defs₀ 𝒱₀ L lv 0 where
  win := launch0.win.to₀
  block_pos := launch0.block_pos
  stage_whole := launch0.stage_whole
  K := PEmpty
  osem k := k.elim
  ho := Pipeline.OwnSemFacts.none _
  hbody c := (body_obligation0F c _ _ _ _ 𝒱₀ ι).toRForget
  hwaits := hw
  pre c := iprop(StableHlo.held (c : Thread nD τ) (Pipeline.ucRefs τ sig) (W0 c) ∗ (∃ r, prngReg c r)
    ∗ Pipeline.owesWithin c (O0 c) (B0 c))
  post c := iprop(∃ V' : Valuation τ sig (Elt F),
    ⌜∀ b : Ref sig .tc, b ≠ Pipeline.arrRef spec0 5 → V' (Proc.devRef .tc b) = W0 c (Proc.devRef .tc b)⌝
    ∗ StableHlo.held (c : Thread nD τ) (Pipeline.ucRefs τ sig) V' ∗ (∃ r, prngReg c r)
    ∗ Pipeline.owesWithin c (O0 c) (B0 c ∪ cfg0.waitPairs ι))
  X c := iprop(∃ r, prngReg c r)
  Y c := iprop(∃ r, prngReg c r)
  Z c := Pipeline.unscopedRest (Ix := Ix) (Name := Name) (U := U) (Lvl := Lvl) spec0 c (valTc W0 c)
  hentry c := by
    rw [Pipeline.ownSems0_none]
    have hsplit := Pipeline.RDat.arrays_of_unscopedBufs (p := 0) (pcfgs (F := F)) adm (rdatsF (F := F) (Name := Name) (U := U) (Lvl := Lvl) W0 W2 W4 O0 O2 O4 B0 B2 B4) launch0.win launch0.arr_whole c
      (((pdatsTc (F := F) (Name := Name) (U := U) (Lvl := Lvl) W0 W2 W4 O0 O2 O4 B0 B2 B4) 0 c).share_full fun _ => rfl) (valTc W0 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c (O0 c) (B := B0 c) (B' := B0 c ∪ cfg0.waitPairs ι) Set.subset_union_left); iexact HO
    isplitl [Hp]; · iexact Hp
    iexact Hrest
  hin c := by
    rw [show ((rdatsF (F := F) (Name := Name) (U := U) (Lvl := Lvl) W0 W2 W4 O0 O2 O4 B0 B2 B4) 0 c).Φ 0 = ΦTc spec0 c from rfl]; unfold ΦTc
    iintro ⟨Hp, -, Hr⟩
    isplitl [Hr]; · iexact Hr
    iexact Hp
  hout c := by
    rw [Pipeline.ownSems0_none, show ((rdatsF (F := F) (Name := Name) (U := U) (Lvl := Lvl) W0 W2 W4 O0 O2 O4 B0 B2 B4) 0 c).Φ (Fin.last _) = ΦTc spec0 c from rfl]; unfold ΦTc
    iintro ⟨Hr, Hp⟩
    isplitl [Hp]; · iexact Hp
    isplitr; · iempintro
    iexact Hr
  hexit c := by
    show iprop(((rdatsF (F := F) (Name := Name) (U := U) (Lvl := Lvl) W0 W2 W4 O0 O2 O4 B0 B2 B4) 0 c).arraysAt cfg0.N ∗ _ ∗ _ ∗ _) ⊢ _
    unfold RDat.arraysAt
    rw [bigSep_W0]
    iintro ⟨⟨⟨%F0, %h0, H0⟩, ⟨%F1, %h1, H1⟩, ⟨%F2, %h2, H2⟩, ⟨%F3, %h3, H3⟩, ⟨%F4, %h4, H4⟩, ⟨%F5, %h5, H5⟩⟩, HO, HY, Hrest⟩
    let Fm : (w : Fin cfg0.W) → Buf (Elt F) ((cfg0.win w).arr.view.loc (c.tc : Thread nD τ)) :=
      fun | ⟨0, _⟩ => F0 | ⟨1, _⟩ => F1 | ⟨2, _⟩ => F2 | ⟨3, _⟩ => F3 | ⟨4, _⟩ => F4 | ⟨5, _⟩ => F5
    have hjoin := Pipeline.unscopedBufs_of_arrays (p := 0) (pcfgs (F := F)) adm (Ix := Ix) (Name := Name) (U := U) (Lvl := Lvl)
      launch0.win launch0.arr_whole c (pdatsTc (F := F) (Name := Name) (U := U) (Lvl := Lvl) W0 W2 W4 O0 O2 O4 B0 B2 B4)
      (((pdatsTc (F := F) (Name := Name) (U := U) (Lvl := Lvl) W0 W2 W4 O0 O2 O4 B0 B2 B4) 0 c).share_full fun _ => rfl)
      (valTc W0 c) (valTc (fun _ => Pipeline.withArrays spec0 c (W0 c) Fm) c) Fm
      (fun w => (Pipeline.withArrays_arr spec0 launch0.win.arr_inj c _ _ w).symm)
      (fun b hb => Pipeline.withArrays_of_ne spec0 c _ _ b fun w e => hb (Finset.mem_image.mpr ⟨w, Finset.mem_univ _, e⟩))
    rw [Pipeline.unscopedBufs_held] at hjoin
    imodintro
    iexists Pipeline.withArrays spec0 c (W0 c) Fm
    isplitr
    · ipureintro
      intro b hb
      by_cases hm : b ∈ Finset.univ.image (Pipeline.arrRef spec0)
      · obtain ⟨w, -, rfl⟩ := Finset.mem_image.mp hm
        rw [Pipeline.withArrays_arr spec0 launch0.win.arr_inj c _ _ w]
        match w with
        | ⟨0, _⟩ => exact arrAt0F_in W0 W2 W4 O0 O2 O4 B0 B2 B4 c 0 rfl rfl F0 h0
        | ⟨1, _⟩ => exact arrAt0F_in W0 W2 W4 O0 O2 O4 B0 B2 B4 c 1 rfl rfl F1 h1
        | ⟨2, _⟩ => exact arrAt0F_in W0 W2 W4 O0 O2 O4 B0 B2 B4 c 2 rfl rfl F2 h2
        | ⟨3, _⟩ => exact arrAt0F_in W0 W2 W4 O0 O2 O4 B0 B2 B4 c 3 rfl rfl F3 h3
        | ⟨4, _⟩ => exact arrAt0F_in W0 W2 W4 O0 O2 O4 B0 B2 B4 c 4 rfl rfl F4 h4
        | ⟨5, _⟩ => exact absurd rfl hb
      · exact Pipeline.withArrays_of_ne spec0 c _ _ b fun w e => hm (Finset.mem_image.mpr ⟨w, Finset.mem_univ _, e⟩)
    isplitl [H0 H1 H2 H3 H4 H5 Hrest]
    · iapply hjoin
      isplitr [Hrest]
      · unfold Dat.arrays; rw [bigSep_W0]
        isplitl [H0]; · iexact H0
        isplitl [H1]; · iexact H1
        isplitl [H2]; · iexact H2
        isplitl [H3]; · iexact H3
        isplitl [H4]; · iexact H4
        iexact H5
      · iexact Hrest
    isplitl [HY]; · iexact HY
    iexact HO

end Reg0F

end Cert.Kernel.Tc

end
-- ==== Proof.WTcEnter0F.lean ====
/-
  TensorCore pallas call 0 entered from inside the program that also runs the SparseCores, its output
  array forgotten.

  For a claim that does not read what pallas call 0 writes: the region is entered as before, and is
  left with every unscoped buffer of the TensorCore at SOME contents that agree with the entry
  contents everywhere but at the call's output array.  Nothing of the payload is used, so the
  statement holds at every float instance.
-/
import proofs.«217981_g19061064860210_cont_8to1_1320_37_alg».proof.Proof.WTcEnter
import proofs.«217981_g19061064860210_cont_8to1_1320_37_alg».proof.Proof.WTcReg0F

set_option maxRecDepth 16384

noncomputable section

namespace Cert.Proof.KW

open Cert.Kernel Cert.Kernel.Gen Cert.Kernel.Tc
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- The wait evidence of pallas call 0's region, read of the relational proof data: as before, the pipeline waits at
    index none, at level 0, below every start signal owed. -/
theorem hwTc0F (W0 W2 W4 : Dev nD → Valuation τ sig (Elt F)) (n0 n2 n4 : ℕ) (d : Dev nD) :
    (levAts (K (F := F)).L (K (F := F)).lev : sProp 𝕄) ⊢ Pipeline.RDat.cellsWaits (Pipeline.pin (pcfgs (F := F)) adm)
      (rdatsF (F := F) (Name := ℕ) (U := UU) (Lvl := ℕ) W0 W2 W4 (OtcAt (F := F) n0) (OtcAt (F := F) n2) (OtcAt (F := F) n4) (BelowAt (F := F) n0) (BelowAt (F := F) n2) (BelowAt (F := F) n4)) none 0 d :=
  Pipeline.RDat.cellsWaits_intro (Pipeline.pin (pcfgs (F := F)) adm)
    (rdatsF (F := F) (Name := ℕ) (U := UU) (Lvl := ℕ) W0 W2 W4 (OtcAt (F := F) n0) (OtcAt (F := F) n2) (OtcAt (F := F) n4) (BelowAt (F := F) n0) (BelowAt (F := F) n2) (BelowAt (F := F) n4)) none 0 d
    fun w s t => (K (F := F)).mayWait_none (thr := (d.tc : Thread nD τ)) _ (Otc_none d n0)

/-- The exit state of the forgetting region, its owes read back as the TensorCore's state holds them. -/
theorem post0F_conv (W0 : Dev nD → Valuation τ sig (Elt F)) (n0 : ℕ) (d : Dev nD) :
    (iprop(∃ V' : Valuation τ sig (Elt F),
        ⌜∀ b : Ref sig .tc, b ≠ Pipeline.arrRef spec0 5 → V' (Proc.devRef .tc b) = W0 d (Proc.devRef .tc b)⌝
        ∗ StableHlo.held (T d) (Pipeline.ucRefs τ sig) V' ∗ (∃ r, prngReg d r)
        ∗ Pipeline.owesWithin d ((K (F := F)).Otc d n0) (BelowAt (F := F) n0 d ∪ cfg0.waitPairs (none : HIx 2))) : sProp 𝕄)
      ⊢ iprop(∃ V' : Valuation τ sig (Elt F),
        ⌜∀ b : Ref sig .tc, b ≠ Pipeline.arrRef spec0 5 → V' (Proc.devRef .tc b) = W0 d (Proc.devRef .tc b)⌝
        ∗ StableHlo.held (T d) (Pipeline.ucRefs τ sig) V' ∗ (∃ r, prngReg d r)
        ∗ ∃ W, ⌜(K (F := F)).WBelow (T d) W (8 * n0)⌝ ∗ owes (T d) ((K (F := F)).Otc d n0) W) := by
  iintro ⟨%V', %hV, Hh, Hp, HO⟩
  iexists V'
  isplitr; · ipureintro; exact hV
  isplitl [Hh]; · iexact Hh
  isplitl [Hp]; · iexact Hp
  iapply (owes_out n0 d)
  iapply (Pipeline.owesWithin_mono d _ (Set.union_subset (fun _ h => h) (waitPairs0_below n0 d)))
  iexact HO

set_option backward.isDefEq.respectTransparency.types false in
/-- ONE REGION inside the extended program, the output forgotten: pallas call 0 entered from the TensorCore's thread
    state before SparseCore call n0.  CONSUMES what entering it consumes (the boundary; the buffers at W0 d, the
    generator register and the TensorCore's owes; the level facts; pipeline 0's staging cells' ghost state and
    duty tokens on d).  RETURNS the boundary; the buffers at some contents V' equal to W0 d at every TensorCore
    buffer but the call's output array; the generator register; the owes in the same form. -/
theorem enter0F (W0 W2 W4 : Dev nD → Valuation τ sig (Elt F)) (n0 n2 n4 : ℕ) (d : Dev nD) :
    iprop(boundary (T d)
        ∗ iprop(StableHlo.held (T d) (Pipeline.ucRefs τ sig) (W0 d) ∗ (∃ r, prngReg d r)
          ∗ ∃ W, ⌜(K (F := F)).WBelow (T d) W (8 * n0)⌝ ∗ owes (T d) ((K (F := F)).Otc d n0) W)
        ∗ levAts (K (F := F)).L (K (F := F)).lev
        ∗ Pipeline.cellsGhost (Pipeline.pin (pcfgs (F := F)) adm) ER 0 d ∗ Pipeline.toksInit (Pipeline.pin (pcfgs (F := F)) adm) ER 0 d)
      ⊢ wp frame (wpE ((K (F := F)).defs (Pipeline.defs pcfgs defs₀)) 𝒱₀.lift (T d) none) Set.univ
          (Prog.lift (.customCall (SparseCore.inner (Pipeline.entry 0)) ()))
          (fun _ => iprop(boundary (T d)
            ∗ iprop(∃ V' : Valuation τ sig (Elt F),
                ⌜∀ b : Ref sig .tc, b ≠ Pipeline.arrRef spec0 5 → V' (Proc.devRef .tc b) = W0 d (Proc.devRef .tc b)⌝
                ∗ StableHlo.held (T d) (Pipeline.ucRefs τ sig) V' ∗ (∃ r, prngReg d r)
                ∗ ∃ W, ⌜(K (F := F)).WBelow (T d) W (8 * n0)⌝ ∗ owes (T d) ((K (F := F)).Otc d n0) W) : sProp 𝕄)) := by
  have hreg := enter_of_region (F := F) 0 d (fun Q => Pipeline.RDat.RegionSeg.wp (pcfgs (F := F)) adm
    (rdatsF (F := F) (Name := ℕ) (U := UU) (Lvl := ℕ) W0 W2 W4 (OtcAt (F := F) n0) (OtcAt (F := F) n2) (OtcAt (F := F) n4) (BelowAt (F := F) n0) (BelowAt (F := F) n2) (BelowAt (F := F) n4)) none cellOf_inj ER defs₀ 𝒱₀
    (K (F := F)).L (K (F := F)).lev
    (reg0F W0 W2 W4 (OtcAt (F := F) n0) (OtcAt (F := F) n2) (OtcAt (F := F) n4) (BelowAt (F := F) n0) (BelowAt (F := F) n2) (BelowAt (F := F) n4) 𝒱₀ none (K (F := F)).L (K (F := F)).lev (hwTc0F W0 W2 W4 n0 n2 n4))
    d none (fun u hu => by cases hu) (α := PUnit) (fun _ => Prog.ret PUnit.unit) Q)
  refine BI.Entails.trans (sep_mono .rfl (sep_mono (sep_mono .rfl (sep_mono .rfl (owes_in n0 d))) .rfl)) (hreg.trans ?_)
  exact wp_mono _ _ _ fun _ => sep_mono .rfl (post0F_conv W0 n0 d)

end Cert.Proof.KW

end
-- ==== Proof.WTcStep0F.lean ====
/-
  TensorCore pallas call 0, its output forgotten, as a step of @main.

  For a claim that does not read what pallas call 0 writes, region 0's step is stated by a relation
  between the buffers before and after it: they agree everywhere but at the call's output array.  The
  program's sixteen arguments are not that array, so they are where they were.  The statement holds
  at every float instance.
-/
import proofs.«217981_g19061064860210_cont_8to1_1320_37_alg».proof.Proof.WScMain
import proofs.«217981_g19061064860210_cont_8to1_1320_37_alg».proof.Proof.WTcEnter0F

set_option maxRecDepth 16384

noncomputable section

namespace Cert.Proof.KW

open Cert.Kernel Cert.Kernel.Gen Cert.Kernel.Tc
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after seq)

variable {F : FTy → Type} [FloatOps F]

local notation "𝕄" => MT nD τ sig (HIx 2) (Elt F) ℕ UU ℕ

/-- What pallas call 0's region may do to the TensorCore's buffers when its output is forgotten: anything at the
    output array, nothing anywhere else. -/
def R0F (d : Dev nD) (V V' : Valuation τ sig (Elt F)) : Prop :=
  ∀ b : Ref sig .tc, b ≠ Pipeline.arrRef spec0 5 → V' (Proc.devRef .tc b) = V (Proc.devRef .tc b)

/-- Pallas call 0's region as a step of @main, at any float instance: entered before SparseCore call 0, it spends its
    staging cells' ghost state and duty tokens, borrows and returns what the TensorCore owes, and leaves the buffers
    at some contents related to the entry contents by R0F. -/
theorem regStep0F : RegStepR (F := F) 0 0
    (fun d => iprop(Pipeline.cellsGhost (Pipeline.pin (pcfgs (F := F)) adm) (ER (F := F)) 0 d
      ∗ Pipeline.toksInit (Pipeline.pin (pcfgs (F := F)) adm) (ER (F := F)) 0 d)) (R0F (F := F)) := by
  intro d V
  unfold tcOwes R0F
  exact enter0F (fun _ => V) (fun _ => V) (fun _ => V) 0 1 2 d

/-- No argument of the program is pallas call 0's output array. -/
theorem args_ne_out0 : ∀ k : Fin 16, argRef k ≠ Pipeline.arrRef spec0 5 := by decide

/-- The step leaves the program's sixteen arguments as it found them. -/
theorem r0F_args (d : Dev nD) (V V' : Valuation τ sig (Elt F)) (h : R0F (F := F) d V V') (k : Fin 16) :
    V' ((argRef k : Ref sig .tc) : DevRef τ sig) = V ((argRef k : Ref sig .tc) : DevRef τ sig) :=
  h (argRef k) (args_ne_out0 k)

end Cert.Proof.KW

end
-- ==== Proof.WScFrame.lean ====
/-
  `frame_Kernel`: the kernel program, at the word-level instance, runs to its end from any admitted memory
  without a fault and leaves its sixteen arguments as they were. The launch (ScLaunch) from @main's proof (ScMain) at the three
  TensorCore regions' steps (TcStep) and the launch element (ScFund); the index ranges the gathers need come from the claim's
  precondition (KPreArgs).
-/
import proofs.«217981_g19061064860210_cont_8to1_1320_37_alg».proof.Proof.WScMain
import proofs.«217981_g19061064860210_cont_8to1_1320_37_alg».proof.Proof.WScFund
import proofs.«217981_g19061064860210_cont_8to1_1320_37_alg».proof.Proof.WTcStep
import proofs.«217981_g19061064860210_cont_8to1_1320_37_alg».proof.Proof.WKMainArgs
import proofs.«217981_g19061064860210_cont_8to1_1320_37_alg».proof.Proof.WTcStep0F

noncomputable section

namespace Cert.Proof.KW

open Cert.Kernel
open Idealize.ShloMosaic
open Idealize.SL Idealize.SL.BI
open scoped Idealize.SL.BI
open Idealize.SL.BI.BIBase

/-- `Cert.frame_Kernel` (Defs.lean). -/
theorem frame_kernel :
    Cert.frame_Kernel (hKernel := Cert.Kernel.Gen.facts) (hPre_input_domain := Cert.Pre_input_domain.Gen.facts) :=
  frame_of fun m g hpre =>
    ⟨fun d => iprop(Gp 0 d ∗ Gp 1 d ∗ Gp 2 d), u₀, launchObl,
      hmain_of m g (Gp 0) (Gp 1) (Gp 2) R0F (fun d V V' => V' = e1 d V) (fun d V V' => V' = e2 d V)
        regStep0F regStep1.toR regStep2.toR
        r0F_args (fun d V V' h k => h ▸ e1_args d V k) (fun d V V' h k => h ▸ e2_args d V k)
        ops0_args ops1_args ops2_args ops3_args ops4_args ops5_args afterCall0_args afterCall1_args
        (fun d => pre_arg1_lt m hpre d) (fun d => pre_arg0_lt m hpre d)⟩

end Cert.Proof.KW

end
-- ==== Proof.RefRunOps.lean ====
/-
  The run of the reference program's @main, a straight line of host operations once each call of a
  module-local function is replaced by the callee's body over that call's buffers: the list of its
  operations, the equation between @main and the straight line over that list, the run from any memory with
  zero counters (every weakly fair execution terminates and each buffer ends at the fold of the operations'
  results over the launch contents), and the sixteen argument buffers unchanged by that fold (no operation
  writes one).
-/
import proofs.«217981_g19061064860210_cont_8to1_1320_37_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, each call's body in its place over that call's buffers: three index
    look-ups (each a clamp test, the wrapped index chosen by the inner select, the bounds mask, the gather
    and the masked select: twenty-three operations), the two-layer networks with their four rectifiers
    (three operations each), the softmax over the fifty positions and the weighted sum. -/
abbrev ops : List (HloOp τ sig (Elt F)) :=
  [ StableHlo.TRef.nullary main_call0.c (constantI S_ 32 0#32),
    StableHlo.TRef.unary main_call0.c main_call0.v0 (broadcastInDim S4096x50 ![] bcast_S_S4096x50),
    StableHlo.TRef.binary (StableHlo.TRef.of (T := ⟨S4096x50, .i32⟩) main_arg1) main_call0.v0 main_call0.v1 (cmpi .slt),
    StableHlo.TRef.nullary main_call0.c_0 (constantI S_ 32 100000#32),
    StableHlo.TRef.unary main_call0.c_0 main_call0.v2 (broadcastInDim S4096x50 ![] bcast_S_S4096x50),
    StableHlo.TRef.binary (StableHlo.TRef.of (T := ⟨S4096x50, .i32⟩) main_arg1) main_call0.v2 main_call0.v3 addi,
    StableHlo.TRef.ternary main_call0.v1 main_call0.v3 (StableHlo.TRef.of (T := ⟨S4096x50, .i32⟩) main_arg1) main_call0.call0.v0 select,
    StableHlo.TRef.unary main_call0.call0.v0 main_call0.v5 (broadcastInDim S4096x50x1 ![0, 1] bcast_S4096x50_S4096x50x1_0_1),
    StableHlo.TRef.nullary main_call0.c_1 (constantI S1 32 99999#32),
    StableHlo.TRef.nullary main_call0.c_2 (constantI S_ 32 0#32),
    StableHlo.TRef.unary main_call0.c_2 main_call0.v6 (broadcastInDim S4096x50x1 ![] bcast_S_S4096x50x1),
    StableHlo.TRef.binary main_call0.v5 main_call0.v6 main_call0.v7 (cmpi .sge),
    StableHlo.TRef.unary main_call0.c_1 main_call0.v8 (broadcastInDim S1x1x1 ![2] bcast_S1_S1x1x1_2),
    StableHlo.TRef.unary main_call0.v8 main_call0.v9 (broadcastInDim S4096x50x1 ![0, 1, 2] bcast_S1x1x1_S4096x50x1_0_1_2),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S4096x50x1_S4096x50_d2 h_S_),
    StableHlo.TRef.binary (StableHlo.TRef.of (T := ⟨S100000x64, .f32⟩) main_arg4) main_call0.v5 main_call0.v13 (fun x i => Host.gather gather_S100000x64_S4096x50x1_S4096x50x64_2_0_n_n_0_2_164 x i),
    StableHlo.TRef.unary main_call0.v12 main_call0.v14 (broadcastInDim S4096x50x64 ![0, 1] bcast_S4096x50_S4096x50x64_0_1),
    StableHlo.TRef.nullary main_call0.cst (constant S_ .f32 0x7FC00000#32),
    StableHlo.TRef.unary main_call0.cst main_call0.v15 (broadcastInDim S4096x50x64 ![] bcast_S_S4096x50x64),
    StableHlo.TRef.ternary main_call0.v14 main_call0.v13 main_call0.v15 main_call0.v16 select,
    StableHlo.TRef.nullary main_call1.c (constantI S_ 32 0#32),
    StableHlo.TRef.unary main_call1.c main_call1.v0 (broadcastInDim S4096 ![] bcast_S_S4096),
    StableHlo.TRef.binary (StableHlo.TRef.of (T := ⟨S4096, .i32⟩) main_arg0) main_call1.v0 main_call1.v1 (cmpi .slt),
    StableHlo.TRef.nullary main_call1.c_0 (constantI S_ 32 100000#32),
    StableHlo.TRef.unary main_call1.c_0 main_call1.v2 (broadcastInDim S4096 ![] bcast_S_S4096),
    StableHlo.TRef.binary (StableHlo.TRef.of (T := ⟨S4096, .i32⟩) main_arg0) main_call1.v2 main_call1.v3 addi,
    StableHlo.TRef.ternary main_call1.v1 main_call1.v3 (StableHlo.TRef.of (T := ⟨S4096, .i32⟩) main_arg0) main_call1.call0.v0 select,
    StableHlo.TRef.unary main_call1.call0.v0 main_call1.v5 (broadcastInDim S4096x1 ![0] bcast_S4096_S4096x1_0),
    StableHlo.TRef.nullary main_call1.c_1 (constantI S1 32 99999#32),
    StableHlo.TRef.nullary main_call1.c_2 (constantI S_ 32 0#32),
    StableHlo.TRef.unary main_call1.c_2 main_call1.v6 (broadcastInDim S4096x1 ![] bcast_S_S4096x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S4096x1 ![0, 1] bcast_S1x1_S4096x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S4096x1_S4096_d1 h_S_),
    StableHlo.TRef.binary (StableHlo.TRef.of (T := ⟨S100000x64, .f32⟩) main_arg3) main_call1.v5 main_call1.v13 (fun x i => Host.gather gather_S100000x64_S4096x1_S4096x64_1_0_n_n_0_1_164 x i),
    StableHlo.TRef.unary main_call1.v12 main_call1.v14 (broadcastInDim S4096x64 ![0] bcast_S4096_S4096x64_0),
    StableHlo.TRef.nullary main_call1.cst (constant S_ .f32 0x7FC00000#32),
    StableHlo.TRef.unary main_call1.cst main_call1.v15 (broadcastInDim S4096x64 ![] bcast_S_S4096x64),
    StableHlo.TRef.ternary main_call1.v14 main_call1.v13 main_call1.v15 main_call1.v16 select,
    StableHlo.TRef.nullary main_call2.c (constantI S_ 32 0#32),
    StableHlo.TRef.unary main_call2.c main_call2.v0 (broadcastInDim S4096x50 ![] bcast_S_S4096x50),
    StableHlo.TRef.binary (StableHlo.TRef.of (T := ⟨S4096x50, .i32⟩) main_arg2) main_call2.v0 main_call2.v1 (cmpi .slt),
    StableHlo.TRef.nullary main_call2.c_0 (constantI S_ 32 5#32),
    StableHlo.TRef.unary main_call2.c_0 main_call2.v2 (broadcastInDim S4096x50 ![] bcast_S_S4096x50),
    StableHlo.TRef.binary (StableHlo.TRef.of (T := ⟨S4096x50, .i32⟩) main_arg2) main_call2.v2 main_call2.v3 addi,
    StableHlo.TRef.ternary main_call2.v1 main_call2.v3 (StableHlo.TRef.of (T := ⟨S4096x50, .i32⟩) main_arg2) main_call2.call0.v0 select,
    StableHlo.TRef.unary main_call2.call0.v0 main_call2.v5 (broadcastInDim S4096x50x1 ![0, 1] bcast_S4096x50_S4096x50x1_0_1),
    StableHlo.TRef.nullary main_call2.c_1 (constantI S1 32 4#32),
    StableHlo.TRef.nullary main_call2.c_2 (constantI S_ 32 0#32),
    StableHlo.TRef.unary main_call2.c_2 main_call2.v6 (broadcastInDim S4096x50x1 ![] bcast_S_S4096x50x1),
    StableHlo.TRef.binary main_call2.v5 main_call2.v6 main_call2.v7 (cmpi .sge),
    StableHlo.TRef.unary main_call2.c_1 main_call2.v8 (broadcastInDim S1x1x1 ![2] bcast_S1_S1x1x1_2),
    StableHlo.TRef.unary main_call2.v8 main_call2.v9 (broadcastInDim S4096x50x1 ![0, 1, 2] bcast_S1x1x1_S4096x50x1_0_1_2),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S4096x50x1_S4096x50_d2 h_S_),
    StableHlo.TRef.binary (StableHlo.TRef.of (T := ⟨S5x64, .f32⟩) main_arg5) main_call2.v5 main_call2.v13 (fun x i => Host.gather gather_S5x64_S4096x50x1_S4096x50x64_2_0_n_n_0_2_164 x i),
    StableHlo.TRef.unary main_call2.v12 main_call2.v14 (broadcastInDim S4096x50x64 ![0, 1] bcast_S4096x50_S4096x50x64_0_1),
    StableHlo.TRef.nullary main_call2.cst (constant S_ .f32 0x7FC00000#32),
    StableHlo.TRef.unary main_call2.cst main_call2.v15 (broadcastInDim S4096x50x64 ![] bcast_S_S4096x50x64),
    StableHlo.TRef.ternary main_call2.v14 main_call2.v13 main_call2.v15 main_call2.v16 select,
    StableHlo.binary main_v0 main_v2 main_v3 ((fun a b => concatenate S4096x50x128 2 [⟨S4096x50x64, a⟩, ⟨S4096x50x64, b⟩] concatenates_S4096x50x64_S4096x50x64_S4096x50x128_d2) : (⟨S4096x50x64, .f32⟩ : BufTy).Contents (Elt F) → (⟨S4096x50x64, .f32⟩ : BufTy).Contents (Elt F) → (⟨S4096x50x128, .f32⟩ : BufTy).Contents (Elt F)),
    StableHlo.binary main_v3 main_arg6 main_v4 ((fun l r => Host.dotGeneral dot_S4096x50x128_S64x128_S4096x50x64_2_1_01_0_n_n none l r) : (⟨S4096x50x128, .f32⟩ : BufTy).Contents (Elt F) → (⟨S64x128, .f32⟩ : BufTy).Contents (Elt F) → (⟨S4096x50x64, .f32⟩ : BufTy).Contents (Elt F)),
    StableHlo.unary main_arg7 main_v5 (broadcastInDim S1x1x64 ![2] bcast_S64_S1x1x64_2 : (⟨S64, .f32⟩ : BufTy).Contents (Elt F) → (⟨S1x1x64, .f32⟩ : BufTy).Contents (Elt F)),
    StableHlo.unary main_v5 main_v6 (broadcastInDim S4096x50x64 ![0, 1, 2] bcast_S1x1x64_S4096x50x64_0_1_2 : (⟨S1x1x64, .f32⟩ : BufTy).Contents (Elt F) → (⟨S4096x50x64, .f32⟩ : BufTy).Contents (Elt F)),
    StableHlo.binary main_v4 main_v6 main_v7 (addf : (⟨S4096x50x64, .f32⟩ : BufTy).Contents (Elt F) → (⟨S4096x50x64, .f32⟩ : BufTy).Contents (Elt F) → (⟨S4096x50x64, .f32⟩ : BufTy).Contents (Elt F)),
    StableHlo.TRef.nullary main_call3.cst (constant S_ .f32 0x00000000#32),
    StableHlo.TRef.unary main_call3.cst main_call3.v0 (broadcastInDim S4096x50x64 ![] bcast_S_S4096x50x64),
    StableHlo.TRef.binary (StableHlo.TRef.of (T := ⟨S4096x50x64, .f32⟩) main_v7) main_call3.v0 main_call3.v1 maximumf,
    StableHlo.binary main_v8 main_arg8 main_v9 ((fun l r => Host.dotGeneral dot_S4096x50x64_S64x64_S4096x50x64_2_1_01_0_n_n none l r) : (⟨S4096x50x64, .f32⟩ : BufTy).Contents (Elt F) → (⟨S64x64, .f32⟩ : BufTy).Contents (Elt F) → (⟨S4096x50x64, .f32⟩ : BufTy).Contents (Elt F)),
    StableHlo.unary main_arg9 main_v10 (broadcastInDim S1x1x64 ![2] bcast_S64_S1x1x64_2 : (⟨S64, .f32⟩ : BufTy).Contents (Elt F) → (⟨S1x1x64, .f32⟩ : BufTy).Contents (Elt F)),
    StableHlo.unary main_v10 main_v11 (broadcastInDim S4096x50x64 ![0, 1, 2] bcast_S1x1x64_S4096x50x64_0_1_2 : (⟨S1x1x64, .f32⟩ : BufTy).Contents (Elt F) → (⟨S4096x50x64, .f32⟩ : BufTy).Contents (Elt F)),
    StableHlo.binary main_v9 main_v11 main_v12 (addf : (⟨S4096x50x64, .f32⟩ : BufTy).Contents (Elt F) → (⟨S4096x50x64, .f32⟩ : BufTy).Contents (Elt F) → (⟨S4096x50x64, .f32⟩ : BufTy).Contents (Elt F)),
    StableHlo.TRef.nullary main_call4.cst (constant S_ .f32 0x00000000#32),
    StableHlo.TRef.unary main_call4.cst main_call4.v0 (broadcastInDim S4096x50x64 ![] bcast_S_S4096x50x64),
    StableHlo.TRef.binary (StableHlo.TRef.of (T := ⟨S4096x50x64, .f32⟩) main_v12) main_call4.v0 main_call4.v1 maximumf,
    StableHlo.unary main_v1 main_v14 (broadcastInDim S4096x1x64 ![0, 2] bcast_S4096x64_S4096x1x64_0_2 : (⟨S4096x64, .f32⟩ : BufTy).Contents (Elt F) → (⟨S4096x1x64, .f32⟩ : BufTy).Contents (Elt F)),
    StableHlo.unary main_v14 main_v15 (broadcastInDim S4096x50x64 ![0, 1, 2] bcast_S4096x1x64_S4096x50x64_0_1_2 : (⟨S4096x1x64, .f32⟩ : BufTy).Contents (Elt F) → (⟨S4096x50x64, .f32⟩ : BufTy).Contents (Elt F)),
    StableHlo.binary main_v13 main_v15 main_v16 ((fun a b => concatenate S4096x50x128 2 [⟨S4096x50x64, a⟩, ⟨S4096x50x64, b⟩] concatenates_S4096x50x64_S4096x50x64_S4096x50x128_d2) : (⟨S4096x50x64, .f32⟩ : BufTy).Contents (Elt F) → (⟨S4096x50x64, .f32⟩ : BufTy).Contents (Elt F) → (⟨S4096x50x128, .f32⟩ : BufTy).Contents (Elt F)),
    StableHlo.binary main_v16 main_arg10 main_v17 ((fun l r => Host.dotGeneral dot_S4096x50x128_S64x128_S4096x50x64_2_1_01_0_n_n none l r) : (⟨S4096x50x128, .f32⟩ : BufTy).Contents (Elt F) → (⟨S64x128, .f32⟩ : BufTy).Contents (Elt F) → (⟨S4096x50x64, .f32⟩ : BufTy).Contents (Elt F)),
    StableHlo.unary main_arg11 main_v18 (broadcastInDim S1x1x64 ![2] bcast_S64_S1x1x64_2 : (⟨S64, .f32⟩ : BufTy).Contents (Elt F) → (⟨S1x1x64, .f32⟩ : BufTy).Contents (Elt F)),
    StableHlo.unary main_v18 main_v19 (broadcastInDim S4096x50x64 ![0, 1, 2] bcast_S1x1x64_S4096x50x64_0_1_2 : (⟨S1x1x64, .f32⟩ : BufTy).Contents (Elt F) → (⟨S4096x50x64, .f32⟩ : BufTy).Contents (Elt F)),
    StableHlo.binary main_v17 main_v19 main_v20 (addf : (⟨S4096x50x64, .f32⟩ : BufTy).Contents (Elt F) → (⟨S4096x50x64, .f32⟩ : BufTy).Contents (Elt F) → (⟨S4096x50x64, .f32⟩ : BufTy).Contents (Elt F)),
    StableHlo.TRef.nullary main_call5.cst (constant S_ .f32 0x00000000#32),
    StableHlo.TRef.unary main_call5.cst main_call5.v0 (broadcastInDim S4096x50x64 ![] bcast_S_S4096x50x64),
    StableHlo.TRef.binary (StableHlo.TRef.of (T := ⟨S4096x50x64, .f32⟩) main_v20) main_call5.v0 main_call5.v1 maximumf,
    StableHlo.binary main_v21 main_arg12 main_v22 ((fun l r => Host.dotGeneral dot_S4096x50x64_S64x64_S4096x50x64_2_1_01_0_n_n none l r) : (⟨S4096x50x64, .f32⟩ : BufTy).Contents (Elt F) → (⟨S64x64, .f32⟩ : BufTy).Contents (Elt F) → (⟨S4096x50x64, .f32⟩ : BufTy).Contents (Elt F)),
    StableHlo.unary main_arg13 main_v23 (broadcastInDim S1x1x64 ![2] bcast_S64_S1x1x64_2 : (⟨S64, .f32⟩ : BufTy).Contents (Elt F) → (⟨S1x1x64, .f32⟩ : BufTy).Contents (Elt F)),
    StableHlo.unary main_v23 main_v24 (broadcastInDim S4096x50x64 ![0, 1, 2] bcast_S1x1x64_S4096x50x64_0_1_2 : (⟨S1x1x64, .f32⟩ : BufTy).Contents (Elt F) → (⟨S4096x50x64, .f32⟩ : BufTy).Contents (Elt F)),
    StableHlo.binary main_v22 main_v24 main_v25 (addf : (⟨S4096x50x64, .f32⟩ : BufTy).Contents (Elt F) → (⟨S4096x50x64, .f32⟩ : BufTy).Contents (Elt F) → (⟨S4096x50x64, .f32⟩ : BufTy).Contents (Elt F)),
    StableHlo.TRef.nullary main_call6.cst (constant S_ .f32 0x00000000#32),
    StableHlo.TRef.unary main_call6.cst main_call6.v0 (broadcastInDim S4096x50x64 ![] bcast_S_S4096x50x64),
    StableHlo.TRef.binary (StableHlo.TRef.of (T := ⟨S4096x50x64, .f32⟩) main_v25) main_call6.v0 main_call6.v1 maximumf,
    StableHlo.binary main_v26 main_arg14 main_v27 ((fun l r => Host.dotGeneral dot_S4096x50x64_S1x64_S4096x50x1_2_1_01_0_n_n none l r) : (⟨S4096x50x64, .f32⟩ : BufTy).Contents (Elt F) → (⟨S1x64, .f32⟩ : BufTy).Contents (Elt F) → (⟨S4096x50x1, .f32⟩ : BufTy).Contents (Elt F)),
    StableHlo.unary main_arg15 main_v28 (broadcastInDim S1x1x1 ![2] bcast_S1_S1x1x1_2 : (⟨S1, .f32⟩ : BufTy).Contents (Elt F) → (⟨S1x1x1, .f32⟩ : BufTy).Contents (Elt F)),
    StableHlo.unary main_v28 main_v29 (broadcastInDim S4096x50x1 ![0, 1, 2] bcast_S1x1x1_S4096x50x1_0_1_2 : (⟨S1x1x1, .f32⟩ : BufTy).Contents (Elt F) → (⟨S4096x50x1, .f32⟩ : BufTy).Contents (Elt F)),
    StableHlo.binary main_v27 main_v29 main_v30 (addf : (⟨S4096x50x1, .f32⟩ : BufTy).Contents (Elt F) → (⟨S4096x50x1, .f32⟩ : BufTy).Contents (Elt F) → (⟨S4096x50x1, .f32⟩ : BufTy).Contents (Elt F)),
    StableHlo.nullary main_cst (constant S_ .f32 0xFF800000#32),
    StableHlo.binary main_v30 main_cst main_v31 ((fun x v => Host.reduce FloatOps.maximumf x v reducesTo_S4096x50x1_S4096x1_d1 h_S_) : (⟨S4096x50x1, .f32⟩ : BufTy).Contents (Elt F) → (⟨S_, .f32⟩ : BufTy).Contents (Elt F) → (⟨S4096x1, .f32⟩ : BufTy).Contents (Elt F)),
    StableHlo.nullary main_cst_0 (constant S_ .f32 0xFF800000#32),
    StableHlo.unary main_cst_0 main_v32 (broadcastInDim S4096x1 ![] bcast_S_S4096x1 : (⟨S_, .f32⟩ : BufTy).Contents (Elt F) → (⟨S4096x1, .f32⟩ : BufTy).Contents (Elt F)),
    StableHlo.binary main_v32 main_v31 main_v33 (maximumf : (⟨S4096x1, .f32⟩ : BufTy).Contents (Elt F) → (⟨S4096x1, .f32⟩ : BufTy).Contents (Elt F) → (⟨S4096x1, .f32⟩ : BufTy).Contents (Elt F)),
    StableHlo.unary main_v33 main_v34 (broadcastInDim S4096x1x1 ![0, 2] bcast_S4096x1_S4096x1x1_0_2 : (⟨S4096x1, .f32⟩ : BufTy).Contents (Elt F) → (⟨S4096x1x1, .f32⟩ : BufTy).Contents (Elt F)),
    StableHlo.unary main_v34 main_v35 (broadcastInDim S4096x50x1 ![0, 1, 2] bcast_S4096x1x1_S4096x50x1_0_1_2 : (⟨S4096x1x1, .f32⟩ : BufTy).Contents (Elt F) → (⟨S4096x50x1, .f32⟩ : BufTy).Contents (Elt F)),
    StableHlo.binary main_v30 main_v35 main_v36 (subf : (⟨S4096x50x1, .f32⟩ : BufTy).Contents (Elt F) → (⟨S4096x50x1, .f32⟩ : BufTy).Contents (Elt F) → (⟨S4096x50x1, .f32⟩ : BufTy).Contents (Elt F)),
    StableHlo.unary main_v36 main_v37 (Host.exp : (⟨S4096x50x1, .f32⟩ : BufTy).Contents (Elt F) → (⟨S4096x50x1, .f32⟩ : BufTy).Contents (Elt F)),
    StableHlo.nullary main_cst_1 (constant S_ .f32 0x00000000#32),
    StableHlo.binary main_v37 main_cst_1 main_v38 ((fun x v => Host.reduceAdd x v reducesTo_S4096x50x1_S4096x1_d1 h_S_) : (⟨S4096x50x1, .f32⟩ : BufTy).Contents (Elt F) → (⟨S_, .f32⟩ : BufTy).Contents (Elt F) → (⟨S4096x1, .f32⟩ : BufTy).Contents (Elt F)),
    StableHlo.unary main_v38 main_v39 (broadcastInDim S4096x1x1 ![0, 2] bcast_S4096x1_S4096x1x1_0_2 : (⟨S4096x1, .f32⟩ : BufTy).Contents (Elt F) → (⟨S4096x1x1, .f32⟩ : BufTy).Contents (Elt F)),
    StableHlo.unary main_v39 main_v40 (broadcastInDim S4096x50x1 ![0, 1, 2] bcast_S4096x1x1_S4096x50x1_0_1_2 : (⟨S4096x1x1, .f32⟩ : BufTy).Contents (Elt F) → (⟨S4096x50x1, .f32⟩ : BufTy).Contents (Elt F)),
    StableHlo.binary main_v37 main_v40 main_v41 (Host.divf : (⟨S4096x50x1, .f32⟩ : BufTy).Contents (Elt F) → (⟨S4096x50x1, .f32⟩ : BufTy).Contents (Elt F) → (⟨S4096x50x1, .f32⟩ : BufTy).Contents (Elt F)),
    StableHlo.unary main_v41 main_v42 (broadcastInDim S4096x50x64 ![0, 1, 2] bcast_S4096x50x1_S4096x50x64_0_1_2 : (⟨S4096x50x1, .f32⟩ : BufTy).Contents (Elt F) → (⟨S4096x50x64, .f32⟩ : BufTy).Contents (Elt F)),
    StableHlo.binary main_v13 main_v42 main_v43 (mulf : (⟨S4096x50x64, .f32⟩ : BufTy).Contents (Elt F) → (⟨S4096x50x64, .f32⟩ : BufTy).Contents (Elt F) → (⟨S4096x50x64, .f32⟩ : BufTy).Contents (Elt F)),
    StableHlo.nullary main_cst_2 (constant S_ .f32 0x00000000#32),
    StableHlo.binary main_v43 main_cst_2 main_v44 ((fun x v => Host.reduceAdd x v reducesTo_S4096x50x64_S4096x64_d1 h_S_) : (⟨S4096x50x64, .f32⟩ : BufTy).Contents (Elt F) → (⟨S_, .f32⟩ : BufTy).Contents (Elt F) → (⟨S4096x64, .f32⟩ : BufTy).Contents (Elt F)) ]

set_option maxRecDepth 8192 in
/-- @main is that straight line: the callees' definitions unfolded at their calls and the calls' records at
    their fields, both sides are one chain of `hlo` steps once sequencing is reassociated. -/
theorem main_eq (c : Dev nD) : main (F := F) c = seq ops := by
  simp only [main, fn_take.body, fn_take_0.body, fn_take_2.body, fn_where.body, fn_where_1.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., nullary_bufs_sub .., unary_bufs_sub ..,
    binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub .., binary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub .., nullary_bufs_sub .., unary_bufs_sub .., binary_bufs_sub ..,
    unary_bufs_sub .., unary_bufs_sub .., binary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub .., nullary_bufs_sub .., binary_bufs_sub .., nullary_bufs_sub ..,
    unary_bufs_sub .., binary_bufs_sub .., unary_bufs_sub .., unary_bufs_sub .., binary_bufs_sub .., unary_bufs_sub ..,
    nullary_bufs_sub .., binary_bufs_sub .., unary_bufs_sub .., unary_bufs_sub .., binary_bufs_sub .., unary_bufs_sub ..,
    binary_bufs_sub .., nullary_bufs_sub .., binary_bufs_sub ..⟩

set_option maxRecDepth 8192 in
theorem ops_fresh : (ops : List (HloOp τ sig (Elt F))).Forall fun op => op.fresh = ∅ :=
  ⟨
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl⟩

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

/-- The buffers the operations write, in order: one each. -/
abbrev ops_W : List (Ref sig .tc) :=
  [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v1, main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v2, main_v3, main_v4, main_v5, main_v6, main_v7, main_call3_cst, main_call3_v0, main_v8, main_v9, main_v10, main_v11, main_v12, main_call4_cst, main_call4_v0, main_v13, main_v14, main_v15, main_v16, main_v17, main_v18, main_v19, main_v20, main_call5_cst, main_call5_v0, main_v21, main_v22, main_v23, main_v24, main_v25, main_call6_cst, main_call6_v0, main_v26, main_v27, main_v28, main_v29, main_v30, main_cst, main_v31, main_cst_0, main_v32, main_v33, main_v34, main_v35, main_v36, main_v37, main_cst_1, main_v38, main_v39, main_v40, main_v41, main_v42, main_v43, main_cst_2, main_v44]

/-- An operation that writes the one buffer `y`, a member of the list, writes inside the list. -/
theorem writes_sub_of_mem {W : List (Ref sig .tc)} {op : HloOp τ sig (Elt F)} (y : Ref sig .tc)
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

set_option maxRecDepth 8192 in
theorem ops_writes : (ops : List (HloOp τ sig (Elt F))).Forall fun op =>
    op.writes ⊆ (ops_W.map (Proc.devRef (τ := τ) .tc)).toFinset :=
  ⟨
    writes_sub_of_mem main_call0_c rfl (by decide), writes_sub_of_mem main_call0_v0 rfl (by decide), writes_sub_of_mem main_call0_v1 rfl (by decide),
    writes_sub_of_mem main_call0_c_0 rfl (by decide), writes_sub_of_mem main_call0_v2 rfl (by decide), writes_sub_of_mem main_call0_v3 rfl (by decide),
    writes_sub_of_mem main_call0_v4 rfl (by decide), writes_sub_of_mem main_call0_v5 rfl (by decide), writes_sub_of_mem main_call0_c_1 rfl (by decide),
    writes_sub_of_mem main_call0_c_2 rfl (by decide), writes_sub_of_mem main_call0_v6 rfl (by decide), writes_sub_of_mem main_call0_v7 rfl (by decide),
    writes_sub_of_mem main_call0_v8 rfl (by decide), writes_sub_of_mem main_call0_v9 rfl (by decide), writes_sub_of_mem main_call0_v10 rfl (by decide),
    writes_sub_of_mem main_call0_v11 rfl (by decide), writes_sub_of_mem main_call0_c_3 rfl (by decide), writes_sub_of_mem main_call0_v12 rfl (by decide),
    writes_sub_of_mem main_call0_v13 rfl (by decide), writes_sub_of_mem main_call0_v14 rfl (by decide), writes_sub_of_mem main_call0_cst rfl (by decide),
    writes_sub_of_mem main_call0_v15 rfl (by decide), writes_sub_of_mem main_v0 rfl (by decide), writes_sub_of_mem main_call1_c rfl (by decide),
    writes_sub_of_mem main_call1_v0 rfl (by decide), writes_sub_of_mem main_call1_v1 rfl (by decide), writes_sub_of_mem main_call1_c_0 rfl (by decide),
    writes_sub_of_mem main_call1_v2 rfl (by decide), writes_sub_of_mem main_call1_v3 rfl (by decide), writes_sub_of_mem main_call1_v4 rfl (by decide),
    writes_sub_of_mem main_call1_v5 rfl (by decide), writes_sub_of_mem main_call1_c_1 rfl (by decide), writes_sub_of_mem main_call1_c_2 rfl (by decide),
    writes_sub_of_mem main_call1_v6 rfl (by decide), writes_sub_of_mem main_call1_v7 rfl (by decide), writes_sub_of_mem main_call1_v8 rfl (by decide),
    writes_sub_of_mem main_call1_v9 rfl (by decide), writes_sub_of_mem main_call1_v10 rfl (by decide), writes_sub_of_mem main_call1_v11 rfl (by decide),
    writes_sub_of_mem main_call1_c_3 rfl (by decide), writes_sub_of_mem main_call1_v12 rfl (by decide), writes_sub_of_mem main_call1_v13 rfl (by decide),
    writes_sub_of_mem main_call1_v14 rfl (by decide), writes_sub_of_mem main_call1_cst rfl (by decide), writes_sub_of_mem main_call1_v15 rfl (by decide),
    writes_sub_of_mem main_v1 rfl (by decide), writes_sub_of_mem main_call2_c rfl (by decide), writes_sub_of_mem main_call2_v0 rfl (by decide),
    writes_sub_of_mem main_call2_v1 rfl (by decide), writes_sub_of_mem main_call2_c_0 rfl (by decide), writes_sub_of_mem main_call2_v2 rfl (by decide),
    writes_sub_of_mem main_call2_v3 rfl (by decide), writes_sub_of_mem main_call2_v4 rfl (by decide), writes_sub_of_mem main_call2_v5 rfl (by decide),
    writes_sub_of_mem main_call2_c_1 rfl (by decide), writes_sub_of_mem main_call2_c_2 rfl (by decide), writes_sub_of_mem main_call2_v6 rfl (by decide),
    writes_sub_of_mem main_call2_v7 rfl (by decide), writes_sub_of_mem main_call2_v8 rfl (by decide), writes_sub_of_mem main_call2_v9 rfl (by decide),
    writes_sub_of_mem main_call2_v10 rfl (by decide), writes_sub_of_mem main_call2_v11 rfl (by decide), writes_sub_of_mem main_call2_c_3 rfl (by decide),
    writes_sub_of_mem main_call2_v12 rfl (by decide), writes_sub_of_mem main_call2_v13 rfl (by decide), writes_sub_of_mem main_call2_v14 rfl (by decide),
    writes_sub_of_mem main_call2_cst rfl (by decide), writes_sub_of_mem main_call2_v15 rfl (by decide), writes_sub_of_mem main_v2 rfl (by decide),
    writes_sub_of_mem main_v3 rfl (by decide), writes_sub_of_mem main_v4 rfl (by decide), writes_sub_of_mem main_v5 rfl (by decide),
    writes_sub_of_mem main_v6 rfl (by decide), writes_sub_of_mem main_v7 rfl (by decide), writes_sub_of_mem main_call3_cst rfl (by decide),
    writes_sub_of_mem main_call3_v0 rfl (by decide), writes_sub_of_mem main_v8 rfl (by decide), writes_sub_of_mem main_v9 rfl (by decide),
    writes_sub_of_mem main_v10 rfl (by decide), writes_sub_of_mem main_v11 rfl (by decide), writes_sub_of_mem main_v12 rfl (by decide),
    writes_sub_of_mem main_call4_cst rfl (by decide), writes_sub_of_mem main_call4_v0 rfl (by decide), writes_sub_of_mem main_v13 rfl (by decide),
    writes_sub_of_mem main_v14 rfl (by decide), writes_sub_of_mem main_v15 rfl (by decide), writes_sub_of_mem main_v16 rfl (by decide),
    writes_sub_of_mem main_v17 rfl (by decide), writes_sub_of_mem main_v18 rfl (by decide), writes_sub_of_mem main_v19 rfl (by decide),
    writes_sub_of_mem main_v20 rfl (by decide), writes_sub_of_mem main_call5_cst rfl (by decide), writes_sub_of_mem main_call5_v0 rfl (by decide),
    writes_sub_of_mem main_v21 rfl (by decide), writes_sub_of_mem main_v22 rfl (by decide), writes_sub_of_mem main_v23 rfl (by decide),
    writes_sub_of_mem main_v24 rfl (by decide), writes_sub_of_mem main_v25 rfl (by decide), writes_sub_of_mem main_call6_cst rfl (by decide),
    writes_sub_of_mem main_call6_v0 rfl (by decide), writes_sub_of_mem main_v26 rfl (by decide), writes_sub_of_mem main_v27 rfl (by decide),
    writes_sub_of_mem main_v28 rfl (by decide), writes_sub_of_mem main_v29 rfl (by decide), writes_sub_of_mem main_v30 rfl (by decide),
    writes_sub_of_mem main_cst rfl (by decide), writes_sub_of_mem main_v31 rfl (by decide), writes_sub_of_mem main_cst_0 rfl (by decide),
    writes_sub_of_mem main_v32 rfl (by decide), writes_sub_of_mem main_v33 rfl (by decide), writes_sub_of_mem main_v34 rfl (by decide),
    writes_sub_of_mem main_v35 rfl (by decide), writes_sub_of_mem main_v36 rfl (by decide), writes_sub_of_mem main_v37 rfl (by decide),
    writes_sub_of_mem main_cst_1 rfl (by decide), writes_sub_of_mem main_v38 rfl (by decide), writes_sub_of_mem main_v39 rfl (by decide),
    writes_sub_of_mem main_v40 rfl (by decide), writes_sub_of_mem main_v41 rfl (by decide), writes_sub_of_mem main_v42 rfl (by decide),
    writes_sub_of_mem main_v43 rfl (by decide), writes_sub_of_mem main_cst_2 rfl (by decide), writes_sub_of_mem main_v44 rfl (by decide)⟩

/-- No operation writes argument 0: it keeps its contents. -/
theorem arg0_eq (V : Valuation τ sig (Elt F)) : after ops V (main_arg0 : DevRef τ sig) = V (main_arg0 : DevRef τ sig) :=
  after_of_writes_sub ops V ops_writes (by decide)
/-- No operation writes argument 1: it keeps its contents. -/
theorem arg1_eq (V : Valuation τ sig (Elt F)) : after ops V (main_arg1 : DevRef τ sig) = V (main_arg1 : DevRef τ sig) :=
  after_of_writes_sub ops V ops_writes (by decide)
/-- No operation writes argument 2: it keeps its contents. -/
theorem arg2_eq (V : Valuation τ sig (Elt F)) : after ops V (main_arg2 : DevRef τ sig) = V (main_arg2 : DevRef τ sig) :=
  after_of_writes_sub ops V ops_writes (by decide)
/-- No operation writes argument 3: it keeps its contents. -/
theorem arg3_eq (V : Valuation τ sig (Elt F)) : after ops V (main_arg3 : DevRef τ sig) = V (main_arg3 : DevRef τ sig) :=
  after_of_writes_sub ops V ops_writes (by decide)
/-- No operation writes argument 4: it keeps its contents. -/
theorem arg4_eq (V : Valuation τ sig (Elt F)) : after ops V (main_arg4 : DevRef τ sig) = V (main_arg4 : DevRef τ sig) :=
  after_of_writes_sub ops V ops_writes (by decide)
/-- No operation writes argument 5: it keeps its contents. -/
theorem arg5_eq (V : Valuation τ sig (Elt F)) : after ops V (main_arg5 : DevRef τ sig) = V (main_arg5 : DevRef τ sig) :=
  after_of_writes_sub ops V ops_writes (by decide)
/-- No operation writes argument 6: it keeps its contents. -/
theorem arg6_eq (V : Valuation τ sig (Elt F)) : after ops V (main_arg6 : DevRef τ sig) = V (main_arg6 : DevRef τ sig) :=
  after_of_writes_sub ops V ops_writes (by decide)
/-- No operation writes argument 7: it keeps its contents. -/
theorem arg7_eq (V : Valuation τ sig (Elt F)) : after ops V (main_arg7 : DevRef τ sig) = V (main_arg7 : DevRef τ sig) :=
  after_of_writes_sub ops V ops_writes (by decide)
/-- No operation writes argument 8: it keeps its contents. -/
theorem arg8_eq (V : Valuation τ sig (Elt F)) : after ops V (main_arg8 : DevRef τ sig) = V (main_arg8 : DevRef τ sig) :=
  after_of_writes_sub ops V ops_writes (by decide)
/-- No operation writes argument 9: it keeps its contents. -/
theorem arg9_eq (V : Valuation τ sig (Elt F)) : after ops V (main_arg9 : DevRef τ sig) = V (main_arg9 : DevRef τ sig) :=
  after_of_writes_sub ops V ops_writes (by decide)
/-- No operation writes argument 10: it keeps its contents. -/
theorem arg10_eq (V : Valuation τ sig (Elt F)) : after ops V (main_arg10 : DevRef τ sig) = V (main_arg10 : DevRef τ sig) :=
  after_of_writes_sub ops V ops_writes (by decide)
/-- No operation writes argument 11: it keeps its contents. -/
theorem arg11_eq (V : Valuation τ sig (Elt F)) : after ops V (main_arg11 : DevRef τ sig) = V (main_arg11 : DevRef τ sig) :=
  after_of_writes_sub ops V ops_writes (by decide)
/-- No operation writes argument 12: it keeps its contents. -/
theorem arg12_eq (V : Valuation τ sig (Elt F)) : after ops V (main_arg12 : DevRef τ sig) = V (main_arg12 : DevRef τ sig) :=
  after_of_writes_sub ops V ops_writes (by decide)
/-- No operation writes argument 13: it keeps its contents. -/
theorem arg13_eq (V : Valuation τ sig (Elt F)) : after ops V (main_arg13 : DevRef τ sig) = V (main_arg13 : DevRef τ sig) :=
  after_of_writes_sub ops V ops_writes (by decide)
/-- No operation writes argument 14: it keeps its contents. -/
theorem arg14_eq (V : Valuation τ sig (Elt F)) : after ops V (main_arg14 : DevRef τ sig) = V (main_arg14 : DevRef τ sig) :=
  after_of_writes_sub ops V ops_writes (by decide)
/-- No operation writes argument 15: it keeps its contents. -/
theorem arg15_eq (V : Valuation τ sig (Elt F)) : after ops V (main_arg15 : DevRef τ sig) = V (main_arg15 : DevRef τ sig) :=
  after_of_writes_sub ops V ops_writes (by decide)

end Cert.ReferenceIdeal.RefRun

end
-- ==== Proof.RefRun.lean ====
/-
  The reference program's frame: from any memory satisfying the input precondition, every weakly fair
  execution of @main terminates and leaves the sixteen argument arrays as they were. It is the run of the
  straight line of operations (each buffer ends at the fold of the operations' results over the launch
  contents) read at the argument buffers, which no operation writes.
-/
import proofs.«217981_g19061064860210_cont_8to1_1320_37_alg».proof.Proof.RefRunOps
import proofs.«217981_g19061064860210_cont_8to1_1320_37_alg».proof.Defs
import proofs.«217981_g19061064860210_cont_8to1_1320_37_alg».proof.Proof.Gen.Pre_input_domain

noncomputable section

namespace Cert.ReferenceIdeal.RefRun

open Cert.ReferenceIdeal Cert.ReferenceIdeal.Gen Idealize.ShloMosaic Idealize.ShloMosaic.TcCoe Idealize.SL.Sem Idealize.ShloMosaic.StableHlo

/-- At the ideal instance: @main runs and its argument arrays end unchanged. -/
theorem frame_ri : Cert.frame_ReferenceIdeal (hReferenceIdeal := Cert.ReferenceIdeal.Gen.facts)
    (hPre_input_domain := Cert.Pre_input_domain.Gen.facts) := by
  intro m g _
  exact (θ_run (defs (F := Ideal)) _ _).mono (fun _ h c =>
    ⟨(h c main_arg0).trans (arg0_eq _),
     (h c main_arg1).trans (arg1_eq _),
     (h c main_arg2).trans (arg2_eq _),
     (h c main_arg3).trans (arg3_eq _),
     (h c main_arg4).trans (arg4_eq _),
     (h c main_arg5).trans (arg5_eq _),
     (h c main_arg6).trans (arg6_eq _),
     (h c main_arg7).trans (arg7_eq _),
     (h c main_arg8).trans (arg8_eq _),
     (h c main_arg9).trans (arg9_eq _),
     (h c main_arg10).trans (arg10_eq _),
     (h c main_arg11).trans (arg11_eq _),
     (h c main_arg12).trans (arg12_eq _),
     (h c main_arg13).trans (arg13_eq _),
     (h c main_arg14).trans (arg14_eq _),
     (h c main_arg15).trans (arg15_eq _)⟩)
    (run_main (F := Ideal) m g)

end Cert.ReferenceIdeal.RefRun

end
-- ==== Proof.RefOut.lean ====
/-
  What the reference program computes, as one pure term of its sixteen arguments' contents, in named stages: the three
  index look-ups (a negative index wrapped by the table's length, the rows gathered where the wrapped index is in range
  and the quiet NaN constant elsewhere), the first two-layer network over the two look-ups joined along the features,
  the second network over its output joined with the per-row look-up, the score, the softmax over the fifty positions
  and the weighted sum. The gathers, the reductions and the contractions are kept as the library's operations.
-/
import proofs.«217981_g19061064860210_cont_8to1_1320_37_alg».proof.Proof.Gen.ReferenceIdeal
import Idealize.ShloMosaic.PureOps

noncomputable section

namespace Cert.ReferenceIdeal.RefRun

open Cert.ReferenceIdeal Cert.ReferenceIdeal.Gen Idealize.ShloMosaic

variable {F : FTy → Type} [FloatOps F]

/-- The first look-up's index column: a negative index wrapped by the table's length (100000), one index per (row, position), as a trailing axis of length one. -/
def uvIdx (a1 : (⟨S4096x50, .i32⟩ : BufTy).Contents (Elt F)) :
    (⟨S4096x50x1, .i32⟩ : BufTy).Contents (Elt F) :=
  broadcastInDim S4096x50x1 ![0, 1] bcast_S4096x50_S4096x50x1_0_1 (select (cmpi .slt a1 (broadcastInDim S4096x50 ![] bcast_S_S4096x50 (constantI S_ 32 0#32))) (addi a1 (broadcastInDim S4096x50 ![] bcast_S_S4096x50 (constantI S_ 32 100000#32))) a1)

/-- The first look-up (rows of the second table at the first index array): the gathered rows where the wrapped index lies in `0 … 99999`, the quiet NaN constant elsewhere. -/
def take0 (a1 : (⟨S4096x50, .i32⟩ : BufTy).Contents (Elt F)) (a4 : (⟨S100000x64, .f32⟩ : BufTy).Contents (Elt F)) :
    (⟨S4096x50x64, .f32⟩ : BufTy).Contents (Elt F) :=
  select (broadcastInDim S4096x50x64 ![0, 1] bcast_S4096x50_S4096x50x64_0_1 (Host.reduce IntOp.andi (andi (cmpi .sge (uvIdx a1) (broadcastInDim S4096x50x1 ![] bcast_S_S4096x50x1 (constantI S_ 32 0#32))) (cmpi .sle (uvIdx a1) (broadcastInDim S4096x50x1 ![0, 1, 2] bcast_S1x1x1_S4096x50x1_0_1_2 (broadcastInDim S1x1x1 ![2] bcast_S1_S1x1x1_2 (constantI S1 32 99999#32))))) (constantI S_ 1 1#1) reducesTo_S4096x50x1_S4096x50_d2 h_S_)) (Host.gather gather_S100000x64_S4096x50x1_S4096x50x64_2_0_n_n_0_2_164 a4 (uvIdx a1)) (broadcastInDim S4096x50x64 ![] bcast_S_S4096x50x64 (constant S_ .f32 0x7FC00000#32))

/-- The second look-up's index column: a negative index wrapped by 100000, one index per row. -/
def nodeIdx (a0 : (⟨S4096, .i32⟩ : BufTy).Contents (Elt F)) :
    (⟨S4096x1, .i32⟩ : BufTy).Contents (Elt F) :=
  broadcastInDim S4096x1 ![0] bcast_S4096_S4096x1_0 (select (cmpi .slt a0 (broadcastInDim S4096 ![] bcast_S_S4096 (constantI S_ 32 0#32))) (addi a0 (broadcastInDim S4096 ![] bcast_S_S4096 (constantI S_ 32 100000#32))) a0)

/-- The second look-up (rows of the first table at the per-row index): the gathered rows where the wrapped index lies in `0 … 99999`, the quiet NaN constant elsewhere. -/
def take1 (a0 : (⟨S4096, .i32⟩ : BufTy).Contents (Elt F)) (a3 : (⟨S100000x64, .f32⟩ : BufTy).Contents (Elt F)) :
    (⟨S4096x64, .f32⟩ : BufTy).Contents (Elt F) :=
  select (broadcastInDim S4096x64 ![0] bcast_S4096_S4096x64_0 (Host.reduce IntOp.andi (andi (cmpi .sge (nodeIdx a0) (broadcastInDim S4096x1 ![] bcast_S_S4096x1 (constantI S_ 32 0#32))) (cmpi .sle (nodeIdx a0) (broadcastInDim S4096x1 ![0, 1] bcast_S1x1_S4096x1_0_1 (broadcastInDim S1x1 ![1] bcast_S1_S1x1_1 (constantI S1 32 99999#32))))) (constantI S_ 1 1#1) reducesTo_S4096x1_S4096_d1 h_S_)) (Host.gather gather_S100000x64_S4096x1_S4096x64_1_0_n_n_0_1_164 a3 (nodeIdx a0)) (broadcastInDim S4096x64 ![] bcast_S_S4096x64 (constant S_ .f32 0x7FC00000#32))

/-- The third look-up's index column: a negative index wrapped by the small table's length (5). -/
def rIdx (a2 : (⟨S4096x50, .i32⟩ : BufTy).Contents (Elt F)) :
    (⟨S4096x50x1, .i32⟩ : BufTy).Contents (Elt F) :=
  broadcastInDim S4096x50x1 ![0, 1] bcast_S4096x50_S4096x50x1_0_1 (select (cmpi .slt a2 (broadcastInDim S4096x50 ![] bcast_S_S4096x50 (constantI S_ 32 0#32))) (addi a2 (broadcastInDim S4096x50 ![] bcast_S_S4096x50 (constantI S_ 32 5#32))) a2)

/-- The third look-up (rows of the five-row table at the second index array): the gathered rows where the wrapped index lies in `0 … 4`, the quiet NaN constant elsewhere. -/
def take2 (a2 : (⟨S4096x50, .i32⟩ : BufTy).Contents (Elt F)) (a5 : (⟨S5x64, .f32⟩ : BufTy).Contents (Elt F)) :
    (⟨S4096x50x64, .f32⟩ : BufTy).Contents (Elt F) :=
  select (broadcastInDim S4096x50x64 ![0, 1] bcast_S4096x50_S4096x50x64_0_1 (Host.reduce IntOp.andi (andi (cmpi .sge (rIdx a2) (broadcastInDim S4096x50x1 ![] bcast_S_S4096x50x1 (constantI S_ 32 0#32))) (cmpi .sle (rIdx a2) (broadcastInDim S4096x50x1 ![0, 1, 2] bcast_S1x1x1_S4096x50x1_0_1_2 (broadcastInDim S1x1x1 ![2] bcast_S1_S1x1x1_2 (constantI S1 32 4#32))))) (constantI S_ 1 1#1) reducesTo_S4096x50x1_S4096x50_d2 h_S_)) (Host.gather gather_S5x64_S4096x50x1_S4096x50x64_2_0_n_n_0_2_164 a5 (rIdx a2)) (broadcastInDim S4096x50x64 ![] bcast_S_S4096x50x64 (constant S_ .f32 0x7FC00000#32))

/-- The first two-layer network over the two look-ups joined along the feature axis: each layer a contraction with its weight, its bias added, the maximum with zero. -/
def hid (a1 : (⟨S4096x50, .i32⟩ : BufTy).Contents (Elt F)) (a2 : (⟨S4096x50, .i32⟩ : BufTy).Contents (Elt F)) (a4 : (⟨S100000x64, .f32⟩ : BufTy).Contents (Elt F)) (a5 : (⟨S5x64, .f32⟩ : BufTy).Contents (Elt F)) (a6 : (⟨S64x128, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) :
    (⟨S4096x50x64, .f32⟩ : BufTy).Contents (Elt F) :=
  maximumf (addf (Host.dotGeneral dot_S4096x50x64_S64x64_S4096x50x64_2_1_01_0_n_n none (maximumf (addf (Host.dotGeneral dot_S4096x50x128_S64x128_S4096x50x64_2_1_01_0_n_n none (concatenate S4096x50x128 2 [⟨S4096x50x64, (take0 a1 a4)⟩, ⟨S4096x50x64, (take2 a2 a5)⟩] concatenates_S4096x50x64_S4096x50x64_S4096x50x128_d2) a6) (broadcastInDim S4096x50x64 ![0, 1, 2] bcast_S1x1x64_S4096x50x64_0_1_2 (broadcastInDim S1x1x64 ![2] bcast_S64_S1x1x64_2 a7))) (broadcastInDim S4096x50x64 ![] bcast_S_S4096x50x64 (constant S_ .f32 0x00000000#32))) a8) (broadcastInDim S4096x50x64 ![0, 1, 2] bcast_S1x1x64_S4096x50x64_0_1_2 (broadcastInDim S1x1x64 ![2] bcast_S64_S1x1x64_2 a9))) (broadcastInDim S4096x50x64 ![] bcast_S_S4096x50x64 (constant S_ .f32 0x00000000#32))

/-- The second network over the first network's output joined with the per-row look-up repeated along the positions, and its last contraction to one score per (row, position), bias added. -/
def score (a0 : (⟨S4096, .i32⟩ : BufTy).Contents (Elt F)) (a1 : (⟨S4096x50, .i32⟩ : BufTy).Contents (Elt F)) (a2 : (⟨S4096x50, .i32⟩ : BufTy).Contents (Elt F)) (a3 : (⟨S100000x64, .f32⟩ : BufTy).Contents (Elt F)) (a4 : (⟨S100000x64, .f32⟩ : BufTy).Contents (Elt F)) (a5 : (⟨S5x64, .f32⟩ : BufTy).Contents (Elt F)) (a6 : (⟨S64x128, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x128, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S1x64, .f32⟩ : BufTy).Contents (Elt F)) (a15 : (⟨S1, .f32⟩ : BufTy).Contents (Elt F)) :
    (⟨S4096x50x1, .f32⟩ : BufTy).Contents (Elt F) :=
  addf (Host.dotGeneral dot_S4096x50x64_S1x64_S4096x50x1_2_1_01_0_n_n none (maximumf (addf (Host.dotGeneral dot_S4096x50x64_S64x64_S4096x50x64_2_1_01_0_n_n none (maximumf (addf (Host.dotGeneral dot_S4096x50x128_S64x128_S4096x50x64_2_1_01_0_n_n none (concatenate S4096x50x128 2 [⟨S4096x50x64, (hid a1 a2 a4 a5 a6 a7 a8 a9)⟩, ⟨S4096x50x64, (broadcastInDim S4096x50x64 ![0, 1, 2] bcast_S4096x1x64_S4096x50x64_0_1_2 (broadcastInDim S4096x1x64 ![0, 2] bcast_S4096x64_S4096x1x64_0_2 (take1 a0 a3)))⟩] concatenates_S4096x50x64_S4096x50x64_S4096x50x128_d2) a10) (broadcastInDim S4096x50x64 ![0, 1, 2] bcast_S1x1x64_S4096x50x64_0_1_2 (broadcastInDim S1x1x64 ![2] bcast_S64_S1x1x64_2 a11))) (broadcastInDim S4096x50x64 ![] bcast_S_S4096x50x64 (constant S_ .f32 0x00000000#32))) a12) (broadcastInDim S4096x50x64 ![0, 1, 2] bcast_S1x1x64_S4096x50x64_0_1_2 (broadcastInDim S1x1x64 ![2] bcast_S64_S1x1x64_2 a13))) (broadcastInDim S4096x50x64 ![] bcast_S_S4096x50x64 (constant S_ .f32 0x00000000#32))) a14) (broadcastInDim S4096x50x1 ![0, 1, 2] bcast_S1x1x1_S4096x50x1_0_1_2 (broadcastInDim S1x1x1 ![2] bcast_S1_S1x1x1_2 a15))

/-- The exponential of each score less its row's maximum over the fifty positions (the maximum taken from minus infinity). -/
def expo (a0 : (⟨S4096, .i32⟩ : BufTy).Contents (Elt F)) (a1 : (⟨S4096x50, .i32⟩ : BufTy).Contents (Elt F)) (a2 : (⟨S4096x50, .i32⟩ : BufTy).Contents (Elt F)) (a3 : (⟨S100000x64, .f32⟩ : BufTy).Contents (Elt F)) (a4 : (⟨S100000x64, .f32⟩ : BufTy).Contents (Elt F)) (a5 : (⟨S5x64, .f32⟩ : BufTy).Contents (Elt F)) (a6 : (⟨S64x128, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x128, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S1x64, .f32⟩ : BufTy).Contents (Elt F)) (a15 : (⟨S1, .f32⟩ : BufTy).Contents (Elt F)) :
    (⟨S4096x50x1, .f32⟩ : BufTy).Contents (Elt F) :=
  Host.exp (subf (score a0 a1 a2 a3 a4 a5 a6 a7 a8 a9 a10 a11 a12 a13 a14 a15) (broadcastInDim S4096x50x1 ![0, 1, 2] bcast_S4096x1x1_S4096x50x1_0_1_2 (broadcastInDim S4096x1x1 ![0, 2] bcast_S4096x1_S4096x1x1_0_2 (maximumf (broadcastInDim S4096x1 ![] bcast_S_S4096x1 (constant S_ .f32 0xFF800000#32)) (Host.reduce FloatOps.maximumf (score a0 a1 a2 a3 a4 a5 a6 a7 a8 a9 a10 a11 a12 a13 a14 a15) (constant S_ .f32 0xFF800000#32) reducesTo_S4096x50x1_S4096x1_d1 h_S_)))))

/-- What @main returns, from the sixteen arguments' contents: the first network's output weighted by the softmax of the scores over the fifty positions, summed over the positions. -/
def out (a0 : (⟨S4096, .i32⟩ : BufTy).Contents (Elt F)) (a1 : (⟨S4096x50, .i32⟩ : BufTy).Contents (Elt F)) (a2 : (⟨S4096x50, .i32⟩ : BufTy).Contents (Elt F)) (a3 : (⟨S100000x64, .f32⟩ : BufTy).Contents (Elt F)) (a4 : (⟨S100000x64, .f32⟩ : BufTy).Contents (Elt F)) (a5 : (⟨S5x64, .f32⟩ : BufTy).Contents (Elt F)) (a6 : (⟨S64x128, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x128, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S1x64, .f32⟩ : BufTy).Contents (Elt F)) (a15 : (⟨S1, .f32⟩ : BufTy).Contents (Elt F)) :
    (⟨S4096x64, .f32⟩ : BufTy).Contents (Elt F) :=
  Host.reduceAdd (mulf (hid a1 a2 a4 a5 a6 a7 a8 a9) (broadcastInDim S4096x50x64 ![0, 1, 2] bcast_S4096x50x1_S4096x50x64_0_1_2 (Host.divf (expo a0 a1 a2 a3 a4 a5 a6 a7 a8 a9 a10 a11 a12 a13 a14 a15) (broadcastInDim S4096x50x1 ![0, 1, 2] bcast_S4096x1x1_S4096x50x1_0_1_2 (broadcastInDim S4096x1x1 ![0, 2] bcast_S4096x1_S4096x1x1_0_2 (Host.reduceAdd (expo a0 a1 a2 a3 a4 a5 a6 a7 a8 a9 a10 a11 a12 a13 a14 a15) (constant S_ .f32 0x00000000#32) reducesTo_S4096x50x1_S4096x1_d1 h_S_)))))) (constant S_ .f32 0x00000000#32) reducesTo_S4096x50x64_S4096x64_d1 h_S_

end Cert.ReferenceIdeal.RefRun

end
-- ==== Proof.RefRunOut.lean ====
/-
  The fold of the reference program's operations at its result buffer is the staged term `out` of the sixteen
  arguments' contents: each operation's result read at its own buffer is its function of its operands' contents, and at
  any other buffer what was there.
-/
import proofs.«217981_g19061064860210_cont_8to1_1320_37_alg».proof.Proof.RefRunOps
import proofs.«217981_g19061064860210_cont_8to1_1320_37_alg».proof.Proof.RefOut

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.gather Host.reduceAdd concatenate in
set_option maxRecDepth 8192 in
set_option maxHeartbeats 4000000 in
/-- The fold of the operations at the result buffer is `out` of the arguments' contents: each operation's result read
    at its own buffer is its function of its operands' contents, and at any other buffer what was there. -/
theorem out_eq (V : Valuation τ sig (Elt F)) :
    after ops V (main_v44 : DevRef τ sig)
      = out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) := by
  after_results_simp
  rfl

end Cert.ReferenceIdeal.RefRun

end
-- ==== Proof.RefSpec.lean ====
/-
  The specification of the attention-pooled embedding both programs compute, as plain functions on the extended reals
  over explicit coordinates: a row of a table named by an index word (read signed and clamped into the table, which in
  range is the word itself); two feature vectors of length 64 joined into one of length 128; a dense layer with bias
  and rectifier, `max (∑ₖ xₖ · W[f, k] + bias[f]) 0`; and the whole function `G`: per row and position a two-layer
  network over the two looked-up rows, a second two-layer network and a score over its output joined with the row's own
  looked-up row, the softmax of the scores over the fifty positions, and the first network's outputs summed with
  those weights.
-/
import Idealize.ShloMosaic.PureOps.Ideal
import Idealize.ShloMosaic.PureOps.Ideal.Laws
import Idealize.ShloMosaic.Lib.ValueIdx

noncomputable section

open scoped BigOperators

namespace Cert.Proof.Spec

open Idealize.ShloMosaic Idealize.ShloMosaic.ValueIdx

/-- The row a start index names: read signed and clamped into `[0, N − 1]`. -/
def clampRow (N : ℕ) (hN : 0 < N) {w : ℕ} (x : BitVec w) : Fin N := ⟨min x.toInt.toNat (N - 1), by omega⟩

/-- A 32-bit word below `2³¹` read unsigned reads the same signed. -/
theorem toInt_of_toNat_lt {x : BitVec 32} {N : ℕ} (h : x.toNat < N) (hN : N ≤ 2147483648) : x.toInt = (x.toNat : ℤ) :=
  BitVec.toInt_eq_toNat_of_lt (by omega)

/-- In range, the row is the word read unsigned. -/
theorem clampRow_val {N : ℕ} (hN : 0 < N) {x : BitVec 32} (h : x.toNat < N) (hN' : N ≤ 2147483648) :
    (clampRow N hN x).val = x.toNat := by
  show min x.toInt.toNat (N - 1) = x.toNat
  rw [toInt_of_toNat_lt h hN', Int.toNat_natCast]; omega

/-- Two feature vectors of length 64 joined into one of length 128. -/
def cat (x y : Fin 64 → EReal) (k : Fin 128) : EReal :=
  if h : k.val < 64 then x ⟨k.val, h⟩ else y ⟨k.val - 64, by omega⟩

/-- A dense layer with bias and rectifier: output feature `f` is `max (∑ₖ xₖ · W[f, k] + bias[f]) 0`. -/
def dense {n : ℕ} (W : (⟨2, ![64, n]⟩ : Shape).Idx → EReal) (bias : (⟨1, ![64]⟩ : Shape).Idx → EReal) (x : Fin n → EReal)
    (f : Fin 64) : EReal :=
  max ((∑ k : Fin n, x k * W (ix2 f k)) + bias (ix1 f)) 0

/-! ## The whole function -/

section Whole

variable (n0 : (⟨1, ![4096]⟩ : Shape).Idx → BitVec 32) (n1 n2 : (⟨2, ![4096, 50]⟩ : Shape).Idx → BitVec 32)
  (A3 A4 : (⟨2, ![100000, 64]⟩ : Shape).Idx → EReal) (A5 : (⟨2, ![5, 64]⟩ : Shape).Idx → EReal)
  (W6 : (⟨2, ![64, 128]⟩ : Shape).Idx → EReal) (b7 : (⟨1, ![64]⟩ : Shape).Idx → EReal)
  (W8 : (⟨2, ![64, 64]⟩ : Shape).Idx → EReal) (b9 : (⟨1, ![64]⟩ : Shape).Idx → EReal)
  (W10 : (⟨2, ![64, 128]⟩ : Shape).Idx → EReal) (b11 : (⟨1, ![64]⟩ : Shape).Idx → EReal)
  (W12 : (⟨2, ![64, 64]⟩ : Shape).Idx → EReal) (b13 : (⟨1, ![64]⟩ : Shape).Idx → EReal)
  (w14 : (⟨2, ![1, 64]⟩ : Shape).Idx → EReal) (b15 : (⟨1, ![1]⟩ : Shape).Idx → EReal)

/-- The first network's output for row `b`, position `t`: two dense layers over the item row and the small table's row
    joined along the features. -/
def hidS (b : Fin 4096) (t : Fin 50) : Fin 64 → EReal :=
  dense W8 b9 (dense W6 b7 (cat (fun k => A4 (ix2 (clampRow 100000 (by decide) (n1 (ix2 b t))) k))
    (fun k => A5 (ix2 (clampRow 5 (by decide) (n2 (ix2 b t))) k))))

/-- The score of position `t` in row `b`: the second network over the first network's output joined with the row's own
    table row, contracted with the score weights, bias added. -/
def scoreS (b : Fin 4096) (t : Fin 50) : EReal :=
  (∑ k : Fin 64, dense W12 b13 (dense W10 b11 (cat (hidS n1 n2 A4 A5 W6 b7 W8 b9 b t)
      (fun k => A3 (ix2 (clampRow 100000 (by decide) (n0 (ix1 b))) k)))) k * w14 (ix2 ⟨0, Nat.one_pos⟩ k))
    + b15 (ix1 ⟨0, Nat.one_pos⟩)

/-- The exponential of a score less its row's maximum over the positions (the maximum taken from minus infinity). -/
def expoS (b : Fin 4096) (t : Fin 50) : EReal :=
  Ideal.exp (scoreS n0 n1 n2 A3 A4 A5 W6 b7 W8 b9 W10 b11 W12 b13 w14 b15 b t
    - max (Ideal.ofBits .f32 0xFF800000#32)
        ((Finset.univ : Finset (Fin 50)).fold (FloatOps.maximumf (F := Ideal) (φ := .f32)) (Ideal.ofBits .f32 0xFF800000#32)
          (fun t' => scoreS n0 n1 n2 A3 A4 A5 W6 b7 W8 b9 W10 b11 W12 b13 w14 b15 b t')))

/-- The result at row `b`, feature `f`: the first network's outputs weighted by the softmax of the scores over the
    fifty positions, summed over the positions. -/
def G (b : Fin 4096) (f : Fin 64) : EReal :=
  (0 : EReal) + ∑ t : Fin 50, hidS n1 n2 A4 A5 W6 b7 W8 b9 b t f
    * Ideal.div (expoS n0 n1 n2 A3 A4 A5 W6 b7 W8 b9 W10 b11 W12 b13 w14 b15 b t)
        ((0 : EReal) + ∑ t' : Fin 50, expoS n0 n1 n2 A3 A4 A5 W6 b7 W8 b9 W10 b11 W12 b13 w14 b15 b t')

end Whole

end Cert.Proof.Spec

end
-- ==== Proof.RefTake.lean ====
/-
  The reference program's three index look-ups read at an index, under the precondition's ranges. A look-up wraps a
  negative index by the table's length, gathers whole rows at the wrapped indices (each start index read signed and
  clamped into the table), and keeps a gathered row only where the wrapped index lies inside the table, writing the
  quiet NaN constant elsewhere. When every index is a row of the table nothing is wrapped, the bounds mask — a reduction
  by `and` over an axis of length one — is all ones, and the clamp does nothing: the look-up at a position is the table's
  row at that position's index.
-/
import proofs.«217981_g19061064860210_cont_8to1_1320_37_alg».proof.Proof.RefOut
import Idealize.ShloMosaic.Lib.ValueIdx
import Idealize.ShloMosaic.Lib.ReduceAll
import proofs.«217981_g19061064860210_cont_8to1_1320_37_alg».proof.Proof.RefSpec

noncomputable section

namespace Cert.ReferenceIdeal.RefRun

open Cert.ReferenceIdeal Cert.ReferenceIdeal.Gen Idealize.ShloMosaic Idealize.ShloMosaic.ValueIdx Cert.Proof.Spec

/-! ## A gather of whole rows, read at an index -/

section Rows
variable {α : Type}

/-- The dimension numbers of `x[idx]` for a table `x : [N, D]` and indices `idx : [R, C]` carried as `[R, C, 1]`:
    the row axis collapsed and indexed, the feature axis an offset axis. -/
abbrev rowsDims (N D R C : Nat) (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- That gather at `(b, t, f)`: the table at the row `idx[b, t, 0]`, read signed and clamped into `[0, N − 1]`,
    and feature `f`. -/
theorem gather_rows_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (b : Fin R) (t : Fin C) (f : Fin D) :
    Host.gather (rowsDims N D R C wf) x idx (ix3 b t f)
      = x (ix2 ⟨min (idx (ix3 b t ⟨0, Nat.one_pos⟩)).toInt.toNat (N - 1), by omega⟩ f) := by
  unfold Host.gather
  congr 1
  funext a
  refine Fin.ext ?_
  match a with
  | ⟨0, _⟩ =>
    show (rowsDims N D R C wf).start (ix3 b t f) idx 0 + (rowsDims N D R C wf).batchCoord (ix3 b t f) 0
      + (rowsDims N D R C wf).offCoord (ix3 b t f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D R C wf).startIndexMap from List.mem_singleton.mpr rfl)]
    have hsi : (rowsDims N D R C wf).siIdx (ix3 b t f) ⟨List.idxOf (0 : Fin 2) (rowsDims N D R C wf).startIndexMap,
        List.idxOf_lt_length_iff.2 (List.mem_singleton.mpr rfl)⟩ = ix3 b t ⟨0, Nat.one_pos⟩ := by
      funext c; refine Fin.ext ?_
      match c with
      | ⟨0, _⟩ => rfl
      | ⟨1, _⟩ => rfl
      | ⟨2, _⟩ => rfl
    rw [hsi]
    rfl
  | ⟨1, _⟩ =>
    show (rowsDims N D R C wf).start (ix3 b t f) idx 1 + (rowsDims N D R C wf).batchCoord (ix3 b t f) 1
      + (rowsDims N D R C wf).offCoord (ix3 b t f) 1 = f.val
    rw [GatherDims.batchCoord_eq_zero _ _ _ List.not_mem_nil]
    unfold GatherDims.start
    rw [dif_neg (show (1 : Fin 2) ∉ (rowsDims N D R C wf).startIndexMap from fun h => absurd (congrArg Fin.val (List.mem_singleton.mp h)) Nat.one_ne_zero)]
    simp only [Nat.add_zero, Nat.zero_add]
    rfl

end Rows

/-! ## A gather of whole rows by a list of indices, read at an index -/

section Rows1
variable {α : Type}

/-- The dimension numbers of `x[idx]` for a table `x : [N, D]` and a list `idx : [R]` carried as `[R, 1]`. -/
abbrev rows1Dims (N D R : Nat) (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- That gather at `(b, f)`: the table at the row `idx[b, 0]`, read signed and clamped into `[0, N − 1]`, and
    feature `f`. -/
theorem gather_rows1_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (b : Fin R) (f : Fin D) :
    Host.gather (rows1Dims N D R wf) x idx (ix2 b f)
      = x (ix2 ⟨min (idx (ix2 b ⟨0, Nat.one_pos⟩)).toInt.toNat (N - 1), by omega⟩ f) := by
  unfold Host.gather
  congr 1
  funext a
  refine Fin.ext ?_
  match a with
  | ⟨0, _⟩ =>
    show (rows1Dims N D R wf).start (ix2 b f) idx 0 + (rows1Dims N D R wf).batchCoord (ix2 b f) 0
      + (rows1Dims N D R wf).offCoord (ix2 b f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rows1Dims N D R wf).startIndexMap from List.mem_singleton.mpr rfl)]
    have hsi : (rows1Dims N D R wf).siIdx (ix2 b f) ⟨List.idxOf (0 : Fin 2) (rows1Dims N D R wf).startIndexMap,
        List.idxOf_lt_length_iff.2 (List.mem_singleton.mpr rfl)⟩ = ix2 b ⟨0, Nat.one_pos⟩ := by
      funext c; refine Fin.ext ?_
      match c with
      | ⟨0, _⟩ => rfl
      | ⟨1, _⟩ => rfl
    rw [hsi]
    rfl
  | ⟨1, _⟩ =>
    show (rows1Dims N D R wf).start (ix2 b f) idx 1 + (rows1Dims N D R wf).batchCoord (ix2 b f) 1
      + (rows1Dims N D R wf).offCoord (ix2 b f) 1 = f.val
    rw [GatherDims.batchCoord_eq_zero _ _ _ List.not_mem_nil]
    unfold GatherDims.start
    rw [dif_neg (show (1 : Fin 2) ∉ (rows1Dims N D R wf).startIndexMap from fun h => absurd (congrArg Fin.val (List.mem_singleton.mp h)) Nat.one_ne_zero)]
    simp only [Nat.add_zero, Nat.zero_add]
    rfl

end Rows1

/-! ## The reduction by `and` of an array of ones -/

/-- A left fold by `and` over one-bit words that starts at 1 and meets only 1s is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    exact foldl_andi_one f l _ (IntOp.andi_eq_one.2 ⟨h, hl a List.mem_cons_self⟩) fun n hn => hl n (List.mem_cons_of_mem _ hn)

/-- A `stablehlo.reduce` by `and` from 1 of an array whose entries are all 1 is 1 everywhere. -/
theorem reduce_andi_of_forall {s t u : Shape} {axes : List (Fin s.rank)} (x : s.Idx → BitVec 1) (init : u.Idx → BitVec 1)
    (h : s.ReducesTo axes t) (hu : 0 < u.numel) (hinit : ∀ i, init i = 1#1) (hx : ∀ i, x i = 1#1) (j : t.Idx) :
    Host.reduce IntOp.andi x init h hu j = 1#1 := by
  unfold Host.reduce
  exact foldl_andi_one (fun n => x (s.rowMajor.symm n)) _ _ (hinit _) fun n _ => hx _

/-! ## The first look-up at an index -/

section Take0

variable {F : FTy → Type} [FloatOps F]

/-- The index column's broadcast along a trailing axis of length one, read at an index. -/
theorem bcast_uv_apply {β : Type} (g : S4096x50.Idx → β) (b : Fin 4096) (t : Fin 50) (k : Fin 1) :
    broadcastInDim S4096x50x1 ![0, 1] bcast_S4096x50_S4096x50x1_0_1 g (ix3 b t k) = g (ix2 b t) := by
  unfold broadcastInDim
  congr 1
  funext a
  refine Fin.ext ?_
  match a with
  | ⟨0, _⟩ => rfl
  | ⟨1, _⟩ => rfl

/-- A nonnegative index is not wrapped. -/
theorem uvIdx_apply (a1 : (⟨S4096x50, .i32⟩ : BufTy).Contents (Elt F)) (b : Fin 4096) (t : Fin 50) (k : Fin 1)
    (h : (a1 (ix2 b t)).toNat < 100000) : uvIdx (F := F) a1 (ix3 b t k) = a1 (ix2 b t) := by
  unfold uvIdx
  rw [bcast_uv_apply]
  have hc : IntOp.cmpi .slt (a1 (ix2 b t)) 0#32 = 0#1 := eq_zero_of_ne_one fun h1 => by
    have h2 := IntOp.cmpi_slt.1 h1
    rw [toInt_of_toNat_lt h (by decide)] at h2
    have h3 : (0#32 : BitVec 32).toInt = 0 := by decide
    omega
  show Scalar.select (IntOp.cmpi .slt (a1 (ix2 b t)) 0#32) _ (a1 (ix2 b t)) = _
  rw [hc, select_zero]

/-- The mask's broadcast along the features, read at an index. -/
theorem bcast_mask_apply {β : Type} (g : S4096x50.Idx → β) (b : Fin 4096) (t : Fin 50) (f : Fin 64) :
    broadcastInDim S4096x50x64 ![0, 1] bcast_S4096x50_S4096x50x64_0_1 g (ix3 b t f) = g (ix2 b t) := by
  unfold broadcastInDim
  congr 1
  funext a
  refine Fin.ext ?_
  match a with
  | ⟨0, _⟩ => rfl
  | ⟨1, _⟩ => rfl

/-- With every index a row of the table, the first look-up at `(b, t, f)` is the table at row `a1[b, t]`, feature `f`:
    no index is wrapped, the bounds mask is all ones, and the gather's clamp does nothing. -/
theorem take0_apply (a1 : (⟨S4096x50, .i32⟩ : BufTy).Contents (Elt F)) (a4 : (⟨S100000x64, .f32⟩ : BufTy).Contents (Elt F))
    (h : ∀ i, (a1 i).toNat < 100000) (b : Fin 4096) (t : Fin 50) (f : Fin 64) :
    take0 (F := F) a1 a4 (ix3 b t f) = a4 (ix2 (clampRow 100000 (by decide) (a1 (ix2 b t))) f) := by
  have hix : ∀ i : S4096x50x1.Idx, uvIdx (F := F) a1 i = a1 (ix2 (i 0) (i 1)) := fun i => by
    rw [eq_ix3 i]; exact uvIdx_apply a1 _ _ _ (h _)
  have hmask : ∀ i : S4096x50x1.Idx,
      andi (cmpi .sge (uvIdx (F := F) a1) (broadcastInDim S4096x50x1 ![] bcast_S_S4096x50x1 (constantI S_ 32 0#32)))
        (cmpi .sle (uvIdx (F := F) a1) (broadcastInDim S4096x50x1 ![0, 1, 2] bcast_S1x1x1_S4096x50x1_0_1_2
          (broadcastInDim S1x1x1 ![2] bcast_S1_S1x1x1_2 (constantI S1 32 99999#32)))) i = 1#1 := fun i => by
    refine IntOp.andi_eq_one.2 ⟨IntOp.cmpi_sge.2 ?_, IntOp.cmpi_sle.2 ?_⟩
    · show (0#32 : BitVec 32).toInt ≤ (uvIdx (F := F) a1 i).toInt
      rw [hix i, toInt_of_toNat_lt (h _) (by decide), show (0#32 : BitVec 32).toInt = 0 from by decide]; omega
    · show (uvIdx (F := F) a1 i).toInt ≤ (99999#32 : BitVec 32).toInt
      rw [hix i, toInt_of_toNat_lt (h _) (by decide), show (99999#32 : BitVec 32).toInt = 99999 from by decide]
      have := h (ix2 (i 0) (i 1)); omega
  unfold take0
  rw [select_apply, bcast_mask_apply, reduce_andi_of_forall _ (constantI S_ 1 1#1) _ _ (fun _ => rfl) hmask, select_one]
  refine (gather_rows_apply (by decide) _ a4 (uvIdx (F := F) a1) b t f).trans ?_
  refine congrArg a4 (congrArg (fun r => ix2 r f) (Fin.ext ?_))
  show min (uvIdx (F := F) a1 (ix3 b t ⟨0, Nat.one_pos⟩)).toInt.toNat (100000 - 1) = min (a1 (ix2 b t)).toInt.toNat (100000 - 1)
  rw [uvIdx_apply a1 b t _ (h _)]

end Take0

/-! ## The third look-up at an index -/

section Take2

variable {F : FTy → Type} [FloatOps F]

/-- A nonnegative index is not wrapped (the five-row table's). -/
theorem rIdx_apply (a2 : (⟨S4096x50, .i32⟩ : BufTy).Contents (Elt F)) (b : Fin 4096) (t : Fin 50) (k : Fin 1)
    (h : (a2 (ix2 b t)).toNat < 5) : rIdx (F := F) a2 (ix3 b t k) = a2 (ix2 b t) := by
  unfold rIdx
  rw [bcast_uv_apply]
  have hc : IntOp.cmpi .slt (a2 (ix2 b t)) 0#32 = 0#1 := eq_zero_of_ne_one fun h1 => by
    have h2 := IntOp.cmpi_slt.1 h1
    rw [toInt_of_toNat_lt h (by decide)] at h2
    have h3 : (0#32 : BitVec 32).toInt = 0 := by decide
    omega
  show Scalar.select (IntOp.cmpi .slt (a2 (ix2 b t)) 0#32) _ (a2 (ix2 b t)) = _
  rw [hc, select_zero]

/-- With every index a row of the five-row table, the third look-up at `(b, t, f)` is the table at row `a2[b, t]`, feature `f`:
    no index is wrapped, the bounds mask is all ones, and the gather's clamp does nothing. -/
theorem take2_apply (a2 : (⟨S4096x50, .i32⟩ : BufTy).Contents (Elt F)) (a5 : (⟨S5x64, .f32⟩ : BufTy).Contents (Elt F))
    (h : ∀ i, (a2 i).toNat < 5) (b : Fin 4096) (t : Fin 50) (f : Fin 64) :
    take2 (F := F) a2 a5 (ix3 b t f) = a5 (ix2 (clampRow 5 (by decide) (a2 (ix2 b t))) f) := by
  have hix : ∀ i : S4096x50x1.Idx, rIdx (F := F) a2 i = a2 (ix2 (i 0) (i 1)) := fun i => by
    rw [eq_ix3 i]; exact rIdx_apply a2 _ _ _ (h _)
  have hmask : ∀ i : S4096x50x1.Idx,
      andi (cmpi .sge (rIdx (F := F) a2) (broadcastInDim S4096x50x1 ![] bcast_S_S4096x50x1 (constantI S_ 32 0#32)))
        (cmpi .sle (rIdx (F := F) a2) (broadcastInDim S4096x50x1 ![0, 1, 2] bcast_S1x1x1_S4096x50x1_0_1_2
          (broadcastInDim S1x1x1 ![2] bcast_S1_S1x1x1_2 (constantI S1 32 4#32)))) i = 1#1 := fun i => by
    refine IntOp.andi_eq_one.2 ⟨IntOp.cmpi_sge.2 ?_, IntOp.cmpi_sle.2 ?_⟩
    · show (0#32 : BitVec 32).toInt ≤ (rIdx (F := F) a2 i).toInt
      rw [hix i, toInt_of_toNat_lt (h _) (by decide), show (0#32 : BitVec 32).toInt = 0 from by decide]; omega
    · show (rIdx (F := F) a2 i).toInt ≤ (4#32 : BitVec 32).toInt
      rw [hix i, toInt_of_toNat_lt (h _) (by decide), show (4#32 : BitVec 32).toInt = 4 from by decide]
      have := h (ix2 (i 0) (i 1)); omega
  unfold take2
  rw [select_apply, bcast_mask_apply, reduce_andi_of_forall _ (constantI S_ 1 1#1) _ _ (fun _ => rfl) hmask, select_one]
  refine (gather_rows_apply (by decide) _ a5 (rIdx (F := F) a2) b t f).trans ?_
  refine congrArg a5 (congrArg (fun r => ix2 r f) (Fin.ext ?_))
  show min (rIdx (F := F) a2 (ix3 b t ⟨0, Nat.one_pos⟩)).toInt.toNat (5 - 1) = min (a2 (ix2 b t)).toInt.toNat (5 - 1)
  rw [rIdx_apply a2 b t _ (h _)]

end Take2

/-! ## The per-row look-up at an index -/

section Take1

variable {F : FTy → Type} [FloatOps F]

/-- The index list's broadcast along a trailing axis of length one, read at an index. -/
theorem bcast_node_apply {β : Type} (g : S4096.Idx → β) (b : Fin 4096) (k : Fin 1) :
    broadcastInDim S4096x1 ![0] bcast_S4096_S4096x1_0 g (ix2 b k) = g (ix1 b) := by
  unfold broadcastInDim
  congr 1
  funext a
  refine Fin.ext ?_
  match a with
  | ⟨0, _⟩ => rfl

/-- The mask's broadcast along the features, read at an index. -/
theorem bcast_mask1_apply {β : Type} (g : S4096.Idx → β) (b : Fin 4096) (f : Fin 64) :
    broadcastInDim S4096x64 ![0] bcast_S4096_S4096x64_0 g (ix2 b f) = g (ix1 b) := by
  unfold broadcastInDim
  congr 1
  funext a
  refine Fin.ext ?_
  match a with
  | ⟨0, _⟩ => rfl

/-- A nonnegative index is not wrapped. -/
theorem nodeIdx_apply (a0 : (⟨S4096, .i32⟩ : BufTy).Contents (Elt F)) (b : Fin 4096) (k : Fin 1)
    (h : (a0 (ix1 b)).toNat < 100000) : nodeIdx (F := F) a0 (ix2 b k) = a0 (ix1 b) := by
  unfold nodeIdx
  rw [bcast_node_apply]
  have hc : IntOp.cmpi .slt (a0 (ix1 b)) 0#32 = 0#1 := eq_zero_of_ne_one fun h1 => by
    have h2 := IntOp.cmpi_slt.1 h1
    rw [toInt_of_toNat_lt h (by decide)] at h2
    have h3 : (0#32 : BitVec 32).toInt = 0 := by decide
    omega
  show Scalar.select (IntOp.cmpi .slt (a0 (ix1 b)) 0#32) _ (a0 (ix1 b)) = _
  rw [hc, select_zero]

/-- With every index a row of the table, the per-row look-up at `(b, f)` is the table at row `a0[b]`, feature `f`. -/
theorem take1_apply (a0 : (⟨S4096, .i32⟩ : BufTy).Contents (Elt F)) (a3 : (⟨S100000x64, .f32⟩ : BufTy).Contents (Elt F))
    (h : ∀ i, (a0 i).toNat < 100000) (b : Fin 4096) (f : Fin 64) :
    take1 (F := F) a0 a3 (ix2 b f) = a3 (ix2 (clampRow 100000 (by decide) (a0 (ix1 b))) f) := by
  have hix : ∀ i : S4096x1.Idx, nodeIdx (F := F) a0 i = a0 (ix1 (i 0)) := fun i => by
    rw [eq_ix2 i]; exact nodeIdx_apply a0 _ _ (h _)
  have hmask : ∀ i : S4096x1.Idx,
      andi (cmpi .sge (nodeIdx (F := F) a0) (broadcastInDim S4096x1 ![] bcast_S_S4096x1 (constantI S_ 32 0#32)))
        (cmpi .sle (nodeIdx (F := F) a0) (broadcastInDim S4096x1 ![0, 1] bcast_S1x1_S4096x1_0_1
          (broadcastInDim S1x1 ![1] bcast_S1_S1x1_1 (constantI S1 32 99999#32)))) i = 1#1 := fun i => by
    refine IntOp.andi_eq_one.2 ⟨IntOp.cmpi_sge.2 ?_, IntOp.cmpi_sle.2 ?_⟩
    · show (0#32 : BitVec 32).toInt ≤ (nodeIdx (F := F) a0 i).toInt
      rw [hix i, toInt_of_toNat_lt (h _) (by decide), show (0#32 : BitVec 32).toInt = 0 from by decide]; omega
    · show (nodeIdx (F := F) a0 i).toInt ≤ (99999#32 : BitVec 32).toInt
      rw [hix i, toInt_of_toNat_lt (h _) (by decide), show (99999#32 : BitVec 32).toInt = 99999 from by decide]
      have := h (ix1 (i 0)); omega
  unfold take1
  rw [select_apply, bcast_mask1_apply, reduce_andi_of_forall _ (constantI S_ 1 1#1) _ _ (fun _ => rfl) hmask, select_one]
  refine (gather_rows1_apply (by decide) _ a3 (nodeIdx (F := F) a0) b f).trans ?_
  refine congrArg a3 (congrArg (fun r => ix2 r f) (Fin.ext ?_))
  show min (nodeIdx (F := F) a0 (ix2 b ⟨0, Nat.one_pos⟩)).toInt.toNat (100000 - 1) = min (a0 (ix1 b)).toInt.toNat (100000 - 1)
  rw [nodeIdx_apply a0 b _ (h _)]

end Take1

end Cert.ReferenceIdeal.RefRun

end
-- ==== Proof.RefRead.lean ====
/-
  The reference program's staged term read at an index, at the ideal values: each contraction is the sum over the
  contracted axis of the operands' products, each broadcast reads its operand at the coordinates it keeps, the two
  arrays joined along the features are read piecewise, a dense layer is `max (∑ₖ xₖ · W[f, k] + bias[f]) 0`, the row
  maximum is the fold of `max` from minus infinity over the positions and the two row sums are sums over the
  positions from zero. Composed, and with the three look-ups read under the precondition's index ranges, the
  reference's result at `(b, f)` is the specification `G` there.
-/
import proofs.«217981_g19061064860210_cont_8to1_1320_37_alg».proof.Proof.RefTake
import Idealize.ShloMosaic.PureOps.Ideal.Laws
import Idealize.ShloMosaic.Lib.Pipeline.Value

noncomputable section

namespace Cert.ReferenceIdeal.RefRun

open Cert.ReferenceIdeal Cert.ReferenceIdeal.Gen Idealize.ShloMosaic Idealize.ShloMosaic.ValueIdx Cert.Proof.Spec
open scoped BigOperators

/-! ## The contractions at an index -/

/-- The contraction at an index: the sum over the contracted axis of the operands' products. -/
theorem dot128_apply (X : FVec Ideal S4096x50x128 .f32) (W : FVec Ideal S64x128 .f32) (b : Fin 4096) (t : Fin 50) (f : Fin 64) :
    Host.dotGeneral (F := Ideal) dot_S4096x50x128_S64x128_S4096x50x64_2_1_01_0_n_n none X W (ix3 b t f)
      = ∑ k : Fin 128, X (ix3 b t k) * W (ix2 f k) := by
  show FloatOps.dotGeneral dot_S4096x50x128_S64x128_S4096x50x64_2_1_01_0_n_n none .single X W (ix3 b t f) = _
  rw [Ideal.dotGeneral_apply, ← Equiv.sum_comp (contrEquiv1 dot_S4096x50x128_S64x128_S4096x50x64_2_1_01_0_n_n 128 rfl rfl).symm]
  refine Finset.sum_congr rfl fun k _ => ?_
  have hk := contrEquiv1_symm_val dot_S4096x50x128_S64x128_S4096x50x64_2_1_01_0_n_n 128 rfl rfl k
  congr 1
  · congr 1; funext a; refine Fin.ext ?_
    match a with
    | ⟨0, _⟩ => rfl
    | ⟨1, _⟩ => rfl
    | ⟨2, _⟩ => exact (DotDims.lhsIdx_val_of_single dot_S4096x50x128_S64x128_S4096x50x64_2_1_01_0_n_n rfl _ _).trans hk
  · congr 1; funext a; refine Fin.ext ?_
    match a with
    | ⟨0, _⟩ => rfl
    | ⟨1, _⟩ => exact (DotDims.rhsIdx_val_of_single dot_S4096x50x128_S64x128_S4096x50x64_2_1_01_0_n_n rfl _ _).trans hk

/-- The contraction at an index: the sum over the contracted axis of the operands' products. -/
theorem dot64_apply (X : FVec Ideal S4096x50x64 .f32) (W : FVec Ideal S64x64 .f32) (b : Fin 4096) (t : Fin 50) (f : Fin 64) :
    Host.dotGeneral (F := Ideal) dot_S4096x50x64_S64x64_S4096x50x64_2_1_01_0_n_n none X W (ix3 b t f)
      = ∑ k : Fin 64, X (ix3 b t k) * W (ix2 f k) := by
  show FloatOps.dotGeneral dot_S4096x50x64_S64x64_S4096x50x64_2_1_01_0_n_n none .single X W (ix3 b t f) = _
  rw [Ideal.dotGeneral_apply, ← Equiv.sum_comp (contrEquiv1 dot_S4096x50x64_S64x64_S4096x50x64_2_1_01_0_n_n 64 rfl rfl).symm]
  refine Finset.sum_congr rfl fun k _ => ?_
  have hk := contrEquiv1_symm_val dot_S4096x50x64_S64x64_S4096x50x64_2_1_01_0_n_n 64 rfl rfl k
  congr 1
  · congr 1; funext a; refine Fin.ext ?_
    match a with
    | ⟨0, _⟩ => rfl
    | ⟨1, _⟩ => rfl
    | ⟨2, _⟩ => exact (DotDims.lhsIdx_val_of_single dot_S4096x50x64_S64x64_S4096x50x64_2_1_01_0_n_n rfl _ _).trans hk
  · congr 1; funext a; refine Fin.ext ?_
    match a with
    | ⟨0, _⟩ => rfl
    | ⟨1, _⟩ => exact (DotDims.rhsIdx_val_of_single dot_S4096x50x64_S64x64_S4096x50x64_2_1_01_0_n_n rfl _ _).trans hk

/-- The contraction at an index: the sum over the contracted axis of the operands' products. -/
theorem dot1_apply (X : FVec Ideal S4096x50x64 .f32) (W : FVec Ideal S1x64 .f32) (b : Fin 4096) (t : Fin 50) (f : Fin 1) :
    Host.dotGeneral (F := Ideal) dot_S4096x50x64_S1x64_S4096x50x1_2_1_01_0_n_n none X W (ix3 b t f)
      = ∑ k : Fin 64, X (ix3 b t k) * W (ix2 f k) := by
  show FloatOps.dotGeneral dot_S4096x50x64_S1x64_S4096x50x1_2_1_01_0_n_n none .single X W (ix3 b t f) = _
  rw [Ideal.dotGeneral_apply, ← Equiv.sum_comp (contrEquiv1 dot_S4096x50x64_S1x64_S4096x50x1_2_1_01_0_n_n 64 rfl rfl).symm]
  refine Finset.sum_congr rfl fun k _ => ?_
  have hk := contrEquiv1_symm_val dot_S4096x50x64_S1x64_S4096x50x1_2_1_01_0_n_n 64 rfl rfl k
  congr 1
  · congr 1; funext a; refine Fin.ext ?_
    match a with
    | ⟨0, _⟩ => rfl
    | ⟨1, _⟩ => rfl
    | ⟨2, _⟩ => exact (DotDims.lhsIdx_val_of_single dot_S4096x50x64_S1x64_S4096x50x1_2_1_01_0_n_n rfl _ _).trans hk
  · congr 1; funext a; refine Fin.ext ?_
    match a with
    | ⟨0, _⟩ => rfl
    | ⟨1, _⟩ => exact (DotDims.rhsIdx_val_of_single dot_S4096x50x64_S1x64_S4096x50x1_2_1_01_0_n_n rfl _ _).trans hk

/-! ## Broadcasts, the join and the dense layers at an index -/

/-- A bias broadcast over the rows and positions, read at an index. -/
theorem bias_bcast_apply {β : Type} (g : S64.Idx → β) (b : Fin 4096) (t : Fin 50) (f : Fin 64) :
    broadcastInDim S4096x50x64 ![0, 1, 2] bcast_S1x1x64_S4096x50x64_0_1_2 (broadcastInDim S1x1x64 ![2] bcast_S64_S1x1x64_2 g) (ix3 b t f)
      = g (ix1 f) := by
  unfold broadcastInDim
  congr 1
  funext a
  refine Fin.ext ?_
  match a with
  | ⟨0, _⟩ => rfl

/-- The zero splat at an index, at the ideal values. -/
theorem zero_bcast_apply (j : S4096x50x64.Idx) :
    broadcastInDim S4096x50x64 ![] bcast_S_S4096x50x64 (constant (F := Ideal) S_ .f32 0x00000000#32) j = (0 : EReal) := by
  show Ideal.ofBits .f32 0x00000000#32 = 0
  exact Ideal.ofBits_zero_f32

/-- Two arrays joined along the features, read at an index. -/
theorem cat_apply (x y : FVec Ideal S4096x50x64 .f32) (b : Fin 4096) (t : Fin 50) (k : Fin 128) :
    concatenate S4096x50x128 2 [⟨S4096x50x64, x⟩, ⟨S4096x50x64, y⟩] concatenates_S4096x50x64_S4096x50x64_S4096x50x128_d2 (ix3 b t k)
      = cat (fun k => x (ix3 b t k)) (fun k => y (ix3 b t k)) k := by
  unfold cat
  split
  · next h =>
    refine concatenate_pair_apply_left 2 x y _ (ix3 b t k) rfl (ix3 b t ⟨k.val, h⟩) fun a => ?_
    match a with
    | ⟨0, _⟩ => rfl
    | ⟨1, _⟩ => rfl
    | ⟨2, _⟩ => rfl
  · next h =>
    refine concatenate_pair_apply_right 2 x y _ (ix3 b t k) rfl rfl (ix3 b t ⟨k.val - 64, by omega⟩) (fun a ha => ?_) ?_
    · match a with
      | ⟨0, _⟩ => rfl
      | ⟨1, _⟩ => rfl
      | ⟨2, _⟩ => exact absurd rfl ha
    · show k.val - 64 + 64 = k.val
      omega

/-- A dense layer over 128 features, read at an index. -/
theorem dense128_apply (X : FVec Ideal S4096x50x128 .f32) (W : FVec Ideal S64x128 .f32) (bias : FVec Ideal S64 .f32)
    (b : Fin 4096) (t : Fin 50) (f : Fin 64) :
    maximumf (addf (Host.dotGeneral (F := Ideal) dot_S4096x50x128_S64x128_S4096x50x64_2_1_01_0_n_n none X W)
        (broadcastInDim S4096x50x64 ![0, 1, 2] bcast_S1x1x64_S4096x50x64_0_1_2 (broadcastInDim S1x1x64 ![2] bcast_S64_S1x1x64_2 bias)))
      (broadcastInDim S4096x50x64 ![] bcast_S_S4096x50x64 (constant S_ .f32 0x00000000#32)) (ix3 b t f)
      = dense W bias (fun k => X (ix3 b t k)) f := by
  show max (Host.dotGeneral (F := Ideal) dot_S4096x50x128_S64x128_S4096x50x64_2_1_01_0_n_n none X W (ix3 b t f)
      + broadcastInDim S4096x50x64 ![0, 1, 2] bcast_S1x1x64_S4096x50x64_0_1_2 (broadcastInDim S1x1x64 ![2] bcast_S64_S1x1x64_2 bias) (ix3 b t f))
    (broadcastInDim S4096x50x64 ![] bcast_S_S4096x50x64 (constant (F := Ideal) S_ .f32 0x00000000#32) (ix3 b t f)) = _
  rw [dot128_apply, bias_bcast_apply, zero_bcast_apply]
  rfl

/-- A dense layer over 64 features, read at an index. -/
theorem dense64_apply (X : FVec Ideal S4096x50x64 .f32) (W : FVec Ideal S64x64 .f32) (bias : FVec Ideal S64 .f32)
    (b : Fin 4096) (t : Fin 50) (f : Fin 64) :
    maximumf (addf (Host.dotGeneral (F := Ideal) dot_S4096x50x64_S64x64_S4096x50x64_2_1_01_0_n_n none X W)
        (broadcastInDim S4096x50x64 ![0, 1, 2] bcast_S1x1x64_S4096x50x64_0_1_2 (broadcastInDim S1x1x64 ![2] bcast_S64_S1x1x64_2 bias)))
      (broadcastInDim S4096x50x64 ![] bcast_S_S4096x50x64 (constant S_ .f32 0x00000000#32)) (ix3 b t f)
      = dense W bias (fun k => X (ix3 b t k)) f := by
  show max (Host.dotGeneral (F := Ideal) dot_S4096x50x64_S64x64_S4096x50x64_2_1_01_0_n_n none X W (ix3 b t f)
      + broadcastInDim S4096x50x64 ![0, 1, 2] bcast_S1x1x64_S4096x50x64_0_1_2 (broadcastInDim S1x1x64 ![2] bcast_S64_S1x1x64_2 bias) (ix3 b t f))
    (broadcastInDim S4096x50x64 ![] bcast_S_S4096x50x64 (constant (F := Ideal) S_ .f32 0x00000000#32) (ix3 b t f)) = _
  rw [dot64_apply, bias_bcast_apply, zero_bcast_apply]
  rfl

/-- The first network at an index: two dense layers over the two look-ups joined along the features. -/
theorem hid_apply (a1 a2 : IVec S4096x50 32) (a4 : FVec Ideal S100000x64 .f32) (a5 : FVec Ideal S5x64 .f32)
    (a6 : FVec Ideal S64x128 .f32) (a7 : FVec Ideal S64 .f32) (a8 : FVec Ideal S64x64 .f32) (a9 : FVec Ideal S64 .f32)
    (b : Fin 4096) (t : Fin 50) (f : Fin 64) :
    hid (F := Ideal) a1 a2 a4 a5 a6 a7 a8 a9 (ix3 b t f)
      = dense a8 a9 (dense a6 a7 (cat (fun k => take0 (F := Ideal) a1 a4 (ix3 b t k)) (fun k => take2 (F := Ideal) a2 a5 (ix3 b t k)))) f := by
  unfold hid
  rw [dense64_apply]
  refine congrArg (fun x => dense a8 a9 x f) (funext fun k => ?_)
  rw [dense128_apply]
  refine congrArg (fun x => dense a6 a7 x k) (funext fun k' => ?_)
  exact cat_apply _ _ b t k'

/-- The scalar bias broadcast over rows and positions, read at an index. -/
theorem b15_bcast_apply {β : Type} (g : S1.Idx → β) (j : S4096x50x1.Idx) :
    broadcastInDim S4096x50x1 ![0, 1, 2] bcast_S1x1x1_S4096x50x1_0_1_2 (broadcastInDim S1x1x1 ![2] bcast_S1_S1x1x1_2 g) j
      = g (ix1 ⟨0, Nat.one_pos⟩) := by
  unfold broadcastInDim
  congr 1
  funext a
  refine Fin.ext ?_
  match a with
  | ⟨0, _⟩ => rfl

/-- The per-row look-up repeated along the positions, read at an index. -/
theorem row_bcast_apply {β : Type} (g : S4096x64.Idx → β) (b : Fin 4096) (t : Fin 50) (f : Fin 64) :
    broadcastInDim S4096x50x64 ![0, 1, 2] bcast_S4096x1x64_S4096x50x64_0_1_2
        (broadcastInDim S4096x1x64 ![0, 2] bcast_S4096x64_S4096x1x64_0_2 g) (ix3 b t f) = g (ix2 b f) := by
  unfold broadcastInDim
  congr 1
  funext a
  refine Fin.ext ?_
  match a with
  | ⟨0, _⟩ => rfl
  | ⟨1, _⟩ => rfl

/-- The score at a position: the second network over the first network's output joined with the per-row look-up, then
    its contraction with the score weights, bias added. -/
theorem score_apply (a0 : IVec S4096 32) (a1 a2 : IVec S4096x50 32) (a3 a4 : FVec Ideal S100000x64 .f32) (a5 : FVec Ideal S5x64 .f32)
    (a6 : FVec Ideal S64x128 .f32) (a7 : FVec Ideal S64 .f32) (a8 : FVec Ideal S64x64 .f32) (a9 : FVec Ideal S64 .f32)
    (a10 : FVec Ideal S64x128 .f32) (a11 : FVec Ideal S64 .f32) (a12 : FVec Ideal S64x64 .f32) (a13 : FVec Ideal S64 .f32)
    (a14 : FVec Ideal S1x64 .f32) (a15 : FVec Ideal S1 .f32) (b : Fin 4096) (t : Fin 50) (k0 : Fin 1) :
    score (F := Ideal) a0 a1 a2 a3 a4 a5 a6 a7 a8 a9 a10 a11 a12 a13 a14 a15 (ix3 b t k0)
      = (∑ k : Fin 64, dense a12 a13 (dense a10 a11 (cat (fun k => hid (F := Ideal) a1 a2 a4 a5 a6 a7 a8 a9 (ix3 b t k))
            (fun k => take1 (F := Ideal) a0 a3 (ix2 b k)))) k * a14 (ix2 k0 k))
          + a15 (ix1 ⟨0, Nat.one_pos⟩) := by
  unfold score
  rw [addf_apply, dot1_apply, b15_bcast_apply]
  refine congrArg (· + a15 (ix1 ⟨0, Nat.one_pos⟩)) (Finset.sum_congr rfl fun k _ => congrArg (· * a14 (ix2 k0 k)) ?_)
  rw [dense64_apply]
  refine congrArg (fun x => dense a12 a13 x k) (funext fun k1 => ?_)
  rw [dense128_apply]
  refine congrArg (fun x => dense a10 a11 x k1) (funext fun k2 => ?_)
  rw [cat_apply]
  refine congrArg (fun y => cat (fun k => hid (F := Ideal) a1 a2 a4 a5 a6 a7 a8 a9 (ix3 b t k)) y k2) (funext fun k3 => ?_)
  exact row_bcast_apply _ b t k3

/-! ## The softmax over the positions and the weighted sum -/

theorem host_exp_apply {s : Shape} (x : FVec Ideal s .f32) (i : s.Idx) : Host.exp x i = Ideal.exp (x i) := rfl
theorem host_divf_apply {s : Shape} (x y : FVec Ideal s .f32) (i : s.Idx) : Host.divf x y i = Ideal.div (x i) (y i) := rfl
theorem host_reduceAdd_eq {s t u : Shape} {axes : List (Fin s.rank)} (x : FVec Ideal s .f32) (init : u.Idx → Ideal .f32)
    (h : s.ReducesTo axes t) (hu : 0 < u.numel) (j : t.Idx) :
    Host.reduceAdd (F := Ideal) x init h hu j = Ideal.hostReduceAdd h x (init (Shape.Idx.first hu)) j := rfl

/-- A per-row quantity broadcast over the positions, read at an index. -/
theorem col_bcast_apply {β : Type} (g : S4096x1.Idx → β) (b : Fin 4096) (t : Fin 50) (k0 : Fin 1) :
    broadcastInDim S4096x50x1 ![0, 1, 2] bcast_S4096x1x1_S4096x50x1_0_1_2
        (broadcastInDim S4096x1x1 ![0, 2] bcast_S4096x1_S4096x1x1_0_2 g) (ix3 b t k0) = g (ix2 b ⟨0, Nat.one_pos⟩) := by
  unfold broadcastInDim
  congr 1
  funext a
  refine Fin.ext ?_
  match a with
  | ⟨0, _⟩ => rfl
  | ⟨1, _⟩ => rfl

/-- A per-position weight broadcast over the features, read at an index. -/
theorem w_bcast_apply {β : Type} (g : S4096x50x1.Idx → β) (b : Fin 4096) (t : Fin 50) (f : Fin 64) :
    broadcastInDim S4096x50x64 ![0, 1, 2] bcast_S4096x50x1_S4096x50x64_0_1_2 g (ix3 b t f) = g (ix3 b t ⟨0, Nat.one_pos⟩) := by
  unfold broadcastInDim
  congr 1
  funext a
  refine Fin.ext ?_
  match a with
  | ⟨0, _⟩ => rfl
  | ⟨1, _⟩ => rfl
  | ⟨2, _⟩ => rfl

/-- The maximum over the positions, from minus infinity. -/
theorem rowmax_apply (X : FVec Ideal S4096x50x1 .f32) (b : Fin 4096) (k0 : Fin 1) :
    Host.reduce (FloatOps.maximumf (F := Ideal) (φ := .f32)) X (constant (F := Ideal) S_ .f32 0xFF800000#32)
        reducesTo_S4096x50x1_S4096x1_d1 h_S_ (ix2 b k0)
      = (Finset.univ : Finset (Fin 50)).fold (FloatOps.maximumf (F := Ideal) (φ := .f32)) (Ideal.ofBits .f32 0xFF800000#32)
          (fun t => X (ix3 b t k0)) := by
  rw [Host.reduce_eq_fold_single (FloatOps.maximumf (F := Ideal) (φ := .f32)) X _ reducesTo_S4096x50x1_S4096x1_d1
    (by decide : S4096x50x1.Reduces [1] S4096x1) h_S_]
  congr 1
  funext t
  show X _ = X _
  congr 1
  funext a
  refine Fin.ext ?_
  match a with
  | ⟨0, _⟩ => rfl
  | ⟨1, _⟩ => rfl
  | ⟨2, _⟩ => rfl

/-- The sum over the positions of a per-position quantity, from zero. -/
theorem rowsum1_apply (X : FVec Ideal S4096x50x1 .f32) (b : Fin 4096) (k0 : Fin 1) :
    Host.reduceAdd (F := Ideal) X (constant (F := Ideal) S_ .f32 0x00000000#32) reducesTo_S4096x50x1_S4096x1_d1 h_S_ (ix2 b k0)
      = (0 : EReal) + ∑ t : Fin 50, X (ix3 b t k0) := by
  rw [host_reduceAdd_eq, Ideal.hostReduceAdd_single reducesTo_S4096x50x1_S4096x1_d1 (by decide : S4096x50x1.Reduces [1] S4096x1)]
  refine congrArg₂ (· + ·) Ideal.ofBits_zero_f32 (Finset.sum_congr rfl fun t _ => ?_)
  show X _ = X _
  congr 1
  funext a
  refine Fin.ext ?_
  match a with
  | ⟨0, _⟩ => rfl
  | ⟨1, _⟩ => rfl
  | ⟨2, _⟩ => rfl

/-- The sum over the positions of a per-position, per-feature quantity, from zero. -/
theorem rowsum64_apply (X : FVec Ideal S4096x50x64 .f32) (b : Fin 4096) (f : Fin 64) :
    Host.reduceAdd (F := Ideal) X (constant (F := Ideal) S_ .f32 0x00000000#32) reducesTo_S4096x50x64_S4096x64_d1 h_S_ (ix2 b f)
      = (0 : EReal) + ∑ t : Fin 50, X (ix3 b t f) := by
  rw [host_reduceAdd_eq, Ideal.hostReduceAdd_single reducesTo_S4096x50x64_S4096x64_d1 (by decide : S4096x50x64.Reduces [1] S4096x64)]
  refine congrArg₂ (· + ·) Ideal.ofBits_zero_f32 (Finset.sum_congr rfl fun t _ => ?_)
  show X _ = X _
  congr 1
  funext a
  refine Fin.ext ?_
  match a with
  | ⟨0, _⟩ => rfl
  | ⟨1, _⟩ => rfl
  | ⟨2, _⟩ => rfl

/-- The exponential of a score less its row's maximum over the positions. -/
theorem expo_apply (a0 : IVec S4096 32) (a1 a2 : IVec S4096x50 32) (a3 a4 : FVec Ideal S100000x64 .f32) (a5 : FVec Ideal S5x64 .f32)
    (a6 : FVec Ideal S64x128 .f32) (a7 : FVec Ideal S64 .f32) (a8 : FVec Ideal S64x64 .f32) (a9 : FVec Ideal S64 .f32)
    (a10 : FVec Ideal S64x128 .f32) (a11 : FVec Ideal S64 .f32) (a12 : FVec Ideal S64x64 .f32) (a13 : FVec Ideal S64 .f32)
    (a14 : FVec Ideal S1x64 .f32) (a15 : FVec Ideal S1 .f32) (b : Fin 4096) (t : Fin 50) (k0 : Fin 1) :
    expo (F := Ideal) a0 a1 a2 a3 a4 a5 a6 a7 a8 a9 a10 a11 a12 a13 a14 a15 (ix3 b t k0)
      = Ideal.exp (score (F := Ideal) a0 a1 a2 a3 a4 a5 a6 a7 a8 a9 a10 a11 a12 a13 a14 a15 (ix3 b t k0)
          - max (Ideal.ofBits .f32 0xFF800000#32)
              ((Finset.univ : Finset (Fin 50)).fold (FloatOps.maximumf (F := Ideal) (φ := .f32)) (Ideal.ofBits .f32 0xFF800000#32)
                (fun t' => score (F := Ideal) a0 a1 a2 a3 a4 a5 a6 a7 a8 a9 a10 a11 a12 a13 a14 a15 (ix3 b t' ⟨0, Nat.one_pos⟩)))) := by
  unfold expo
  rw [host_exp_apply, subf_apply, col_bcast_apply, maximumf_apply, rowmax_apply]
  rfl

/-- What @main returns at `(b, f)`: the first network's output weighted by the softmax of the scores over the fifty
    positions, summed over the positions. -/
theorem out_apply (a0 : IVec S4096 32) (a1 a2 : IVec S4096x50 32) (a3 a4 : FVec Ideal S100000x64 .f32) (a5 : FVec Ideal S5x64 .f32)
    (a6 : FVec Ideal S64x128 .f32) (a7 : FVec Ideal S64 .f32) (a8 : FVec Ideal S64x64 .f32) (a9 : FVec Ideal S64 .f32)
    (a10 : FVec Ideal S64x128 .f32) (a11 : FVec Ideal S64 .f32) (a12 : FVec Ideal S64x64 .f32) (a13 : FVec Ideal S64 .f32)
    (a14 : FVec Ideal S1x64 .f32) (a15 : FVec Ideal S1 .f32) (b : Fin 4096) (f : Fin 64) :
    out (F := Ideal) a0 a1 a2 a3 a4 a5 a6 a7 a8 a9 a10 a11 a12 a13 a14 a15 (ix2 b f)
      = (0 : EReal) + ∑ t : Fin 50, hid (F := Ideal) a1 a2 a4 a5 a6 a7 a8 a9 (ix3 b t f)
          * Ideal.div (expo (F := Ideal) a0 a1 a2 a3 a4 a5 a6 a7 a8 a9 a10 a11 a12 a13 a14 a15 (ix3 b t ⟨0, Nat.one_pos⟩))
              ((0 : EReal) + ∑ t' : Fin 50, expo (F := Ideal) a0 a1 a2 a3 a4 a5 a6 a7 a8 a9 a10 a11 a12 a13 a14 a15 (ix3 b t' ⟨0, Nat.one_pos⟩)) := by
  unfold out
  rw [rowsum64_apply]
  refine congrArg ((0 : EReal) + ·) (Finset.sum_congr rfl fun t _ => ?_)
  rw [mulf_apply, w_bcast_apply, host_divf_apply, col_bcast_apply, rowsum1_apply]

/-! ## The reference is the specification -/

theorem hid_eq (a1 a2 : IVec S4096x50 32) (a4 : FVec Ideal S100000x64 .f32) (a5 : FVec Ideal S5x64 .f32)
    (a6 : FVec Ideal S64x128 .f32) (a7 : FVec Ideal S64 .f32) (a8 : FVec Ideal S64x64 .f32) (a9 : FVec Ideal S64 .f32)
    (h1 : ∀ i, (a1 i).toNat < 100000) (h2 : ∀ i, (a2 i).toNat < 5) (b : Fin 4096) (t : Fin 50) (f : Fin 64) :
    hid (F := Ideal) a1 a2 a4 a5 a6 a7 a8 a9 (ix3 b t f) = hidS a1 a2 a4 a5 a6 a7 a8 a9 b t f := by
  rw [hid_apply, funext fun k => take0_apply (F := Ideal) a1 a4 h1 b t k, funext fun k => take2_apply (F := Ideal) a2 a5 h2 b t k]
  rfl

theorem score_eq (a0 : IVec S4096 32) (a1 a2 : IVec S4096x50 32) (a3 a4 : FVec Ideal S100000x64 .f32) (a5 : FVec Ideal S5x64 .f32)
    (a6 : FVec Ideal S64x128 .f32) (a7 : FVec Ideal S64 .f32) (a8 : FVec Ideal S64x64 .f32) (a9 : FVec Ideal S64 .f32)
    (a10 : FVec Ideal S64x128 .f32) (a11 : FVec Ideal S64 .f32) (a12 : FVec Ideal S64x64 .f32) (a13 : FVec Ideal S64 .f32)
    (a14 : FVec Ideal S1x64 .f32) (a15 : FVec Ideal S1 .f32) (h0 : ∀ i, (a0 i).toNat < 100000) (h1 : ∀ i, (a1 i).toNat < 100000) (h2 : ∀ i, (a2 i).toNat < 5) (b : Fin 4096) (t : Fin 50) (k0 : Fin 1) :
    score (F := Ideal) a0 a1 a2 a3 a4 a5 a6 a7 a8 a9 a10 a11 a12 a13 a14 a15 (ix3 b t k0) = scoreS a0 a1 a2 a3 a4 a5 a6 a7 a8 a9 a10 a11 a12 a13 a14 a15 b t := by
  rw [score_apply, funext fun k => hid_eq a1 a2 a4 a5 a6 a7 a8 a9 h1 h2 b t k, funext fun k => take1_apply (F := Ideal) a0 a3 h0 b k]
  obtain rfl : k0 = ⟨0, Nat.one_pos⟩ := Subsingleton.elim _ _
  rfl

theorem expo_eq (a0 : IVec S4096 32) (a1 a2 : IVec S4096x50 32) (a3 a4 : FVec Ideal S100000x64 .f32) (a5 : FVec Ideal S5x64 .f32)
    (a6 : FVec Ideal S64x128 .f32) (a7 : FVec Ideal S64 .f32) (a8 : FVec Ideal S64x64 .f32) (a9 : FVec Ideal S64 .f32)
    (a10 : FVec Ideal S64x128 .f32) (a11 : FVec Ideal S64 .f32) (a12 : FVec Ideal S64x64 .f32) (a13 : FVec Ideal S64 .f32)
    (a14 : FVec Ideal S1x64 .f32) (a15 : FVec Ideal S1 .f32) (h0 : ∀ i, (a0 i).toNat < 100000) (h1 : ∀ i, (a1 i).toNat < 100000) (h2 : ∀ i, (a2 i).toNat < 5) (b : Fin 4096) (t : Fin 50) (k0 : Fin 1) :
    expo (F := Ideal) a0 a1 a2 a3 a4 a5 a6 a7 a8 a9 a10 a11 a12 a13 a14 a15 (ix3 b t k0) = expoS a0 a1 a2 a3 a4 a5 a6 a7 a8 a9 a10 a11 a12 a13 a14 a15 b t := by
  rw [expo_apply, score_eq a0 a1 a2 a3 a4 a5 a6 a7 a8 a9 a10 a11 a12 a13 a14 a15 h0 h1 h2, funext fun t' => score_eq a0 a1 a2 a3 a4 a5 a6 a7 a8 a9 a10 a11 a12 a13 a14 a15 h0 h1 h2 b t' ⟨0, Nat.one_pos⟩]
  rfl

/-- Under the precondition's index ranges, the reference's result at `(b, f)` is the specification there. -/
theorem out_eq_G (a0 : IVec S4096 32) (a1 a2 : IVec S4096x50 32) (a3 a4 : FVec Ideal S100000x64 .f32) (a5 : FVec Ideal S5x64 .f32)
    (a6 : FVec Ideal S64x128 .f32) (a7 : FVec Ideal S64 .f32) (a8 : FVec Ideal S64x64 .f32) (a9 : FVec Ideal S64 .f32)
    (a10 : FVec Ideal S64x128 .f32) (a11 : FVec Ideal S64 .f32) (a12 : FVec Ideal S64x64 .f32) (a13 : FVec Ideal S64 .f32)
    (a14 : FVec Ideal S1x64 .f32) (a15 : FVec Ideal S1 .f32) (h0 : ∀ i, (a0 i).toNat < 100000) (h1 : ∀ i, (a1 i).toNat < 100000) (h2 : ∀ i, (a2 i).toNat < 5) (b : Fin 4096) (f : Fin 64) :
    out (F := Ideal) a0 a1 a2 a3 a4 a5 a6 a7 a8 a9 a10 a11 a12 a13 a14 a15 (ix2 b f) = G a0 a1 a2 a3 a4 a5 a6 a7 a8 a9 a10 a11 a12 a13 a14 a15 b f := by
  rw [out_apply]
  unfold G
  refine congrArg ((0 : EReal) + ·) (Finset.sum_congr rfl fun t _ => ?_)
  rw [hid_eq a1 a2 a4 a5 a6 a7 a8 a9 h1 h2 b t f, expo_eq a0 a1 a2 a3 a4 a5 a6 a7 a8 a9 a10 a11 a12 a13 a14 a15 h0 h1 h2 b t,
    funext fun t' => expo_eq a0 a1 a2 a3 a4 a5 a6 a7 a8 a9 a10 a11 a12 a13 a14 a15 h0 h1 h2 b t' ⟨0, Nat.one_pos⟩]

end Cert.ReferenceIdeal.RefRun

end
-- ==== Proof.RefValue.lean ====
/-
  The reference program's run with its result named: from any memory whose three index arrays lie in their ranges, every
  weakly fair execution of @main terminates, the result array is the specification `G` of the sixteen arguments' launch
  contents at every index, and the arguments end unchanged. The run gives each buffer the fold of the operations' results;
  at the result buffer that fold is the staged term, which read index by index is `G`.
-/
import proofs.«217981_g19061064860210_cont_8to1_1320_37_alg».proof.Proof.RefRunOut
import proofs.«217981_g19061064860210_cont_8to1_1320_37_alg».proof.Proof.RefRead

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx

/-- The reference's result on device `c`, as a function of the launch memory: the specification at every index. -/
def refOut (m : (ℓ : Loc nD τ sig) → Buf (Elt Ideal) ℓ) (c : Dev nD) : S4096x64.Idx → EReal := fun j =>
  Cert.Proof.Spec.G ((m ((c.tc : Thread nD τ).loc main_arg0)) : IVec S4096 32)
            ((m ((c.tc : Thread nD τ).loc main_arg1)) : IVec S4096x50 32)
            ((m ((c.tc : Thread nD τ).loc main_arg2)) : IVec S4096x50 32)
            ((m ((c.tc : Thread nD τ).loc main_arg3)) : FVec Ideal S100000x64 .f32)
            ((m ((c.tc : Thread nD τ).loc main_arg4)) : FVec Ideal S100000x64 .f32)
            ((m ((c.tc : Thread nD τ).loc main_arg5)) : FVec Ideal S5x64 .f32)
            ((m ((c.tc : Thread nD τ).loc main_arg6)) : FVec Ideal S64x128 .f32)
            ((m ((c.tc : Thread nD τ).loc main_arg7)) : FVec Ideal S64 .f32)
            ((m ((c.tc : Thread nD τ).loc main_arg8)) : FVec Ideal S64x64 .f32)
            ((m ((c.tc : Thread nD τ).loc main_arg9)) : FVec Ideal S64 .f32)
            ((m ((c.tc : Thread nD τ).loc main_arg10)) : FVec Ideal S64x128 .f32)
            ((m ((c.tc : Thread nD τ).loc main_arg11)) : FVec Ideal S64 .f32)
            ((m ((c.tc : Thread nD τ).loc main_arg12)) : FVec Ideal S64x64 .f32)
            ((m ((c.tc : Thread nD τ).loc main_arg13)) : FVec Ideal S64 .f32)
            ((m ((c.tc : Thread nD τ).loc main_arg14)) : FVec Ideal S1x64 .f32)
            ((m ((c.tc : Thread nD τ).loc main_arg15)) : FVec Ideal S1 .f32)
    (j 0) (j 1)

theorem ref_value (m : (ℓ : Loc nD τ sig) → Buf (Elt Ideal) ℓ) (ρ : Dev nD → PrngReg)
    (h0 : ∀ (c : Dev nD) i, BitVec.toNat (((m ((c.tc : Thread nD τ).loc main_arg0)) : IVec S4096 32) i) < 100000)
    (h1 : ∀ (c : Dev nD) i, BitVec.toNat (((m ((c.tc : Thread nD τ).loc main_arg1)) : IVec S4096x50 32) i) < 100000)
    (h2 : ∀ (c : Dev nD) i, BitVec.toNat (((m ((c.tc : Thread nD τ).loc main_arg2)) : IVec S4096x50 32) i) < 5) :
    θ_run (defs (F := Ideal)) (onTc (τ := τ) (main (F := Ideal))) ⟨m, fun _ => 0, ρ⟩ fun r => ∀ c : Dev nD,
      r.2.mem ((c.tc : Thread nD τ).loc main_v44) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run (defs (F := Ideal)) _ _).mono (fun _ h c =>
    ⟨(h c main_v44).trans ((out_eq (F := Ideal) (launchContents m c)).trans (funext fun j =>
        (congrArg (out (F := Ideal) (launchContents m c (main_arg0 : DevRef τ sig)) (launchContents m c (main_arg1 : DevRef τ sig)) (launchContents m c (main_arg2 : DevRef τ sig)) (launchContents m c (main_arg3 : DevRef τ sig)) (launchContents m c (main_arg4 : DevRef τ sig)) (launchContents m c (main_arg5 : DevRef τ sig)) (launchContents m c (main_arg6 : DevRef τ sig)) (launchContents m c (main_arg7 : DevRef τ sig)) (launchContents m c (main_arg8 : DevRef τ sig)) (launchContents m c (main_arg9 : DevRef τ sig)) (launchContents m c (main_arg10 : DevRef τ sig)) (launchContents m c (main_arg11 : DevRef τ sig)) (launchContents m c (main_arg12 : DevRef τ sig)) (launchContents m c (main_arg13 : DevRef τ sig)) (launchContents m c (main_arg14 : DevRef τ sig)) (launchContents m c (main_arg15 : DevRef τ sig))) (eq_ix2 j)).trans
          (out_eq_G _ _ _ _ _ _ _ _ _ _ _ _ _ _ _ _ (h0 c) (h1 c) (h2 c) (j 0) (j 1)))),
     (h c main_arg0).trans (arg0_eq _),
     (h c main_arg1).trans (arg1_eq _),
     (h c main_arg2).trans (arg2_eq _),
     (h c main_arg3).trans (arg3_eq _),
     (h c main_arg4).trans (arg4_eq _),
     (h c main_arg5).trans (arg5_eq _),
     (h c main_arg6).trans (arg6_eq _),
     (h c main_arg7).trans (arg7_eq _),
     (h c main_arg8).trans (arg8_eq _),
     (h c main_arg9).trans (arg9_eq _),
     (h c main_arg10).trans (arg10_eq _),
     (h c main_arg11).trans (arg11_eq _),
     (h c main_arg12).trans (arg12_eq _),
     (h c main_arg13).trans (arg13_eq _),
     (h c main_arg14).trans (arg14_eq _),
     (h c main_arg15).trans (arg15_eq _)⟩)
    (run_main (F := Ideal) m ρ)

end Cert.ReferenceIdeal.RefRun

end
-- ==== Proof.KPreArgs2.lean ====
/-
  The third index range the claim's precondition gives: every entry of the second index array (the small table's
  indices) has `0 ≤ x` and `x ≤ 4` read signed, hence `x < 5` read unsigned — the last conjunct of the input predicate.
-/
import proofs.«217981_g19061064860210_cont_8to1_1320_37_alg».proof.Proof.KPreArgs

noncomputable section

namespace Cert.Proof.KI

open Idealize.ShloMosaic Idealize.SL.Sem

/-- A 32-bit word whose signed reading lies in `0 … 4` reads the same unsigned. -/
theorem toNat_lt5_of_toInt {x : BitVec 32} (h0 : 0 ≤ x.toInt) (h1 : x.toInt ≤ 4) : x.toNat < 5 := by
  have := BitVec.toInt_eq_toNat_cond x
  split at this <;> omega

section Predicate

open Cert.Pre_input_domain

variable {F : FTy → Type} [FloatOps F] [hF : Cert.Pre_input_domain.Facts]

/-- The last part of the input predicate being all ones bounds the second index array. -/
theorem part4_arg2 (arg1 arg2 : IVec S4096x50 32) (v63 : IVec S_ 1) (v65 v67 : IVec S4096 1)
    (h : fn_part4 (F := F) arg1 arg2 v63 v65 v67 = fun _ => 1#1) : ∀ j, (arg2 j).toNat < 5 := by
  intro j
  have h0 : fn_part4 (F := F) arg1 arg2 v63 v65 v67 (fun a => a.elim0) = 1#1 := congrFun h _
  unfold fn_part4 at h0
  have h1 := (IntOp.andi_eq_one.1 h0).2
  have h3 := Host.reduce_andi_all _ _ _ _ _ h1 j
  have h4 := IntOp.andi_eq_one.1 h3
  have h5 := IntOp.cmpi_sge.1 h4.1
  have h6 := IntOp.cmpi_sle.1 h4.2
  exact toNat_lt5_of_toInt h5 h6

theorem fn_arg2 (a0 : IVec S4096 32) (a1 : IVec S4096x50 32) (a2 : IVec S4096x50 32) (a3 : FVec F S100000x64 .f32) (a4 : FVec F S100000x64 .f32) (a5 : FVec F S5x64 .f32) (a6 : FVec F S64x128 .f32) (a7 : FVec F S64 .f32) (a8 : FVec F S64x64 .f32) (a9 : FVec F S64 .f32) (a10 : FVec F S64x128 .f32) (a11 : FVec F S64 .f32) (a12 : FVec F S64x64 .f32) (a13 : FVec F S64 .f32) (a14 : FVec F S1x64 .f32) (a15 : FVec F S1 .f32)
    (h : fn (F := F) a0 a1 a2 a3 a4 a5 a6 a7 a8 a9 a10 a11 a12 a13 a14 a15 = fun _ => 1#1) : ∀ j, (a2 j).toNat < 5 :=
  part4_arg2 (F := F) a1 a2 _ _ _ h

end Predicate

section Claim

open Cert.KernelIdeal Idealize.ShloMosaic.TcCoe

/-- From the claim's precondition: every entry of the second index array, on every device, is below 5. -/
theorem pre_arg2_lt (m : (ℓ : Loc nD τ sig) → Buf (Elt Ideal) ℓ)
    (hpre : Cert.Pre_KernelIdeal (hPre_input_domain := Cert.Pre_input_domain.Gen.facts) m) (d : Dev nD) :
    ∀ j, BitVec.toNat ((m ((SparseCore.T (τ := τ) d).loc main_arg2) : (⟨S4096x50, .i32⟩ : BufTy).Contents (Elt Ideal)) j) < 5 :=
  fn_arg2 (F := Ideal) (hF := Cert.Pre_input_domain.Gen.facts) _ _ _ _ _ _ _ _ _ _ _ _ _ _ _ _ (hpre d)

end Claim

end Cert.Proof.KI

end
-- ==== Proof.RefHalf.lean ====
/-
  The reference's half of the value claim from the claim's own hypotheses: the kernel program's memory satisfies the
  input precondition and the reference's memory agrees with it on the sixteen arguments, so the reference's three index
  arrays lie in their ranges, and its run ends with the result at the specification of its own arguments and the
  arguments unchanged.
-/
import proofs.«217981_g19061064860210_cont_8to1_1320_37_alg».proof.Proof.RefValue
import proofs.«217981_g19061064860210_cont_8to1_1320_37_alg».proof.Proof.KPreArgs2

noncomputable section

namespace Cert.ReferenceIdeal.RefRun

open Idealize.ShloMosaic Idealize.ShloMosaic.TcCoe Idealize.SL.Sem

theorem ref_half (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (g' : Dev Cert.ReferenceIdeal.nD → PrngReg)
    (hpre : Cert.Pre_KernelIdeal (hPre_input_domain := Cert.Pre_input_domain.Gen.facts) m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v44) = refOut m' c
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)) :=
  ref_value m' g'
    (fun c i => by rw [(hagree c).1]; exact Cert.Proof.KI.pre_arg0_lt m hpre c i)
    (fun c i => by rw [(hagree c).2.1]; exact Cert.Proof.KI.pre_arg1_lt m hpre c i)
    (fun c i => by rw [(hagree c).2.2.1]; exact Cert.Proof.KI.pre_arg2_lt m hpre c i)

end Cert.ReferenceIdeal.RefRun

end
-- ==== Proof.LibERealFinite.lean ====
/-
  Finite extended reals.

  An extended real is *real* when it is the coercion of a real number, that is, neither +∞ nor -∞.
  The algebraic laws that fail at the infinities (distributivity, cancelling, moving a factor across
  a sum) hold for real extended reals, so a proof that needs them first shows that every value it
  handles is real.  This file has the coercion of a finite sum, the closure of the real extended
  reals under the arithmetic operations (sum, difference, product, finite sums and products, maximum,
  minimum, the rectifier max(x, 0), a quotient by a nonzero real, the exponential), and the facts
  about a maximum taken as a fold of max from -∞ over a nonempty finite set: it is attained, it bounds
  every entry, and it is real when every entry is.  It also has distributivity on real extended
  reals (x · (y + z) = x · y + x · z, x · Σ_i f i = Σ_i x · f i), and the softmax denominator:
  for real x_l over a nonempty finite index set, Σ_l exp(x_l - max_j x_j) is a real ≥ 1, hence not 0;
  and the way in: an x with |x| < +∞ (as the float comparison decides it) is real, as are integer
  conversions and contractions of reals.
-/
import Idealize.ShloMosaic.PureOps.Ideal

namespace Idealize.ShloMosaic.LibERealLaws

open scoped BigOperators

/-! ### The coercion of a finite sum -/

/-- The coercion ℝ → [-∞, +∞] commutes with finite sums:
    the extended real of Σ_{i ∈ s} f i is Σ_{i ∈ s} of the extended reals of the f i. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion ℝ → [-∞, +∞] commutes with finite products:
    the extended real of Π_{i ∈ s} f i is Π_{i ∈ s} of the extended reals of the f i. -/
theorem coe_finset_prod {ι : Type*} (s : Finset ι) (f : ι → ℝ) :
    ((∏ i ∈ s, f i : ℝ) : EReal) = ∏ i ∈ s, (f i : EReal) := by
  classical
  induction s using Finset.induction_on with
  | empty => simp
  | insert a s ha ih => rw [Finset.prod_insert ha, Finset.prod_insert ha, EReal.coe_mul, ih]

/-! ### Real extended reals -/

/-- IsReal x: the extended real x is the coercion of a real number (it is neither +∞ nor -∞). -/
def IsReal (x : EReal) : Prop := ∃ r : ℝ, x = (r : EReal)

/-- The coercion of a real number is real. -/
theorem isReal_coe (r : ℝ) : IsReal (r : EReal) := ⟨r, rfl⟩

/-- 0 is real. -/
theorem isReal_zero : IsReal 0 := ⟨0, rfl⟩

/-- 1 is real. -/
theorem isReal_one : IsReal 1 := ⟨1, rfl⟩

/-- An integer, read as a real and then as an extended real, is real. -/
theorem isReal_intCast (z : ℤ) : IsReal (((z : ℝ)) : EReal) := ⟨z, rfl⟩

/-- A natural number, read as a real and then as an extended real, is real. -/
theorem isReal_natCast (n : ℕ) : IsReal (((n : ℝ)) : EReal) := ⟨n, rfl⟩

namespace IsReal

variable {x y : EReal}

/-- A real extended real is not +∞. -/
theorem ne_top (hx : IsReal x) : x ≠ ⊤ := by
  obtain ⟨r, rfl⟩ := hx; exact EReal.coe_ne_top r

/-- A real extended real is not -∞. -/
theorem ne_bot (hx : IsReal x) : x ≠ ⊥ := by
  obtain ⟨r, rfl⟩ := hx; exact EReal.coe_ne_bot r

/-- A real extended real is the coercion of its real part: x = ↑(toReal x). -/
theorem coe_toReal (hx : IsReal x) : ((x.toReal : ℝ) : EReal) = x :=
  EReal.coe_toReal hx.ne_top hx.ne_bot

/-- The sum of two real extended reals is real. -/
theorem add (hx : IsReal x) (hy : IsReal y) : IsReal (x + y) := by
  obtain ⟨a, rfl⟩ := hx; obtain ⟨b, rfl⟩ := hy
  exact ⟨a + b, (EReal.coe_add a b).symm⟩

/-- The negative of a real extended real is real. -/
theorem neg (hx : IsReal x) : IsReal (-x) := by
  obtain ⟨a, rfl⟩ := hx
  exact ⟨-a, (EReal.coe_neg a).symm⟩

/-- The difference of two real extended reals is real. -/
theorem sub (hx : IsReal x) (hy : IsReal y) : IsReal (x - y) := by
  obtain ⟨a, rfl⟩ := hx; obtain ⟨b, rfl⟩ := hy
  exact ⟨a - b, (EReal.coe_sub a b).symm⟩

/-- The product of two real extended reals is real. -/
theorem mul (hx : IsReal x) (hy : IsReal y) : IsReal (x * y) := by
  obtain ⟨a, rfl⟩ := hx; obtain ⟨b, rfl⟩ := hy
  exact ⟨a * b, (EReal.coe_mul a b).symm⟩

/-- The maximum of two real extended reals is real. -/
theorem max (hx : IsReal x) (hy : IsReal y) : IsReal (max x y) := by
  rcases max_choice x y with h | h <;> rw [h] <;> assumption

/-- The minimum of two real extended reals is real. -/
theorem min (hx : IsReal x) (hy : IsReal y) : IsReal (min x y) := by
  rcases min_choice x y with h | h <;> rw [h] <;> assumption

/-- The rectifier max(x, 0) of a real extended real is real. -/
theorem relu (hx : IsReal x) : IsReal (Max.max x 0) := hx.max isReal_zero

/-- The rectifier of a real extended real is the coercion of the real rectifier:
    max(↑r, 0) = ↑(max(r, 0)). -/
theorem relu_coe (r : ℝ) : Max.max (r : EReal) 0 = ((Max.max r 0 : ℝ) : EReal) := by
  rw [← EReal.coe_zero]; exact (EReal.coe_strictMono.monotone.map_max).symm

/-- The absolute value max(x, -x) of a real extended real is real. -/
theorem abs (hx : IsReal x) : IsReal (Max.max x (-x)) := hx.max hx.neg

/-- A finite sum of real extended reals is real. -/
theorem sum {ι : Type*} {s : Finset ι} {f : ι → EReal} (hf : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (hf a (Finset.mem_insert_self a s)).add (ih fun i hi => hf i (Finset.mem_insert_of_mem hi))

/-- A sum over a whole finite index type of real extended reals is real. -/
theorem sum_univ {ι : Type*} [Fintype ι] {f : ι → EReal} (hf : ∀ i, IsReal (f i)) :
    IsReal (∑ i, f i) := sum fun i _ => hf i

/-- A finite product of real extended reals is real. -/
theorem prod {ι : Type*} {s : Finset ι} {f : ι → EReal} (hf : ∀ i ∈ s, IsReal (f i)) :
    IsReal (∏ i ∈ s, f i) := by
  classical
  induction s using Finset.induction_on with
  | empty => rw [Finset.prod_empty]; exact isReal_one
  | insert a s ha ih =>
    rw [Finset.prod_insert ha]
    exact (hf a (Finset.mem_insert_self a s)).mul (ih fun i hi => hf i (Finset.mem_insert_of_mem hi))

/-- A family of real extended reals is the coercion of a family of reals: if every f i is real
    there is g : ι → ℝ with f i = ↑(g i) for every i. -/
theorem exists_fun {ι : Type*} {f : ι → EReal} (hf : ∀ i, IsReal (f i)) :
    ∃ g : ι → ℝ, f = fun i => (g i : EReal) := by
  choose g hg using hf
  exact ⟨g, funext hg⟩

/-- The exponential of a real extended real (the exponential extended by exp(-∞) = 0,
    exp(+∞) = +∞) is the coercion of a positive real. -/
theorem exp_pos (hx : IsReal x) : ∃ r : ℝ, 0 < r ∧ Ideal.exp x = (r : EReal) := by
  obtain ⟨a, rfl⟩ := hx
  exact ⟨Real.exp a, Real.exp_pos a, Ideal.exp_coe a⟩

/-- The exponential of a real extended real is real. -/
theorem exp (hx : IsReal x) : IsReal (Ideal.exp x) := by
  obtain ⟨r, _, h⟩ := hx.exp_pos; exact ⟨r, h⟩

/-- The quotient of a real extended real by a nonzero real one is the real quotient:
    ↑a / ↑b = ↑(a / b) for b ≠ 0, division being the one that sends x / 0 to ±∞. -/
theorem div_coe (a : ℝ) {b : ℝ} (hb : b ≠ 0) :
    Ideal.div (a : EReal) (b : EReal) = ((a / b : ℝ) : EReal) := by
  rw [Ideal.div_coe hb, ← EReal.coe_mul, mul_one_div]

/-- The quotient of a real extended real by a nonzero real one is real. -/
theorem div (hx : IsReal x) (hy : IsReal y) (h0 : y ≠ 0) : IsReal (Ideal.div x y) := by
  obtain ⟨a, rfl⟩ := hx; obtain ⟨b, rfl⟩ := hy
  have hb : b ≠ 0 := fun h => h0 (by rw [h, EReal.coe_zero])
  exact ⟨a / b, div_coe a hb⟩

/-- Multiplication distributes over addition on real extended reals: x · (y + z) = x · y + x · z.
    (It fails at the infinities: -1 · (+∞ + -∞) = +∞ but -1 · +∞ + -1 · -∞ = -∞.) -/
theorem mul_add {z : EReal} (hx : IsReal x) (hy : IsReal y) (hz : IsReal z) :
    x * (y + z) = x * y + x * z := by
  obtain ⟨a, rfl⟩ := hx; obtain ⟨b, rfl⟩ := hy; obtain ⟨c, rfl⟩ := hz
  rw [← EReal.coe_add, ← EReal.coe_mul, ← EReal.coe_mul, ← EReal.coe_mul, ← EReal.coe_add, _root_.mul_add]

/-- Multiplication distributes over addition from the right on real extended reals:
    (x + y) · z = x · z + y · z. -/
theorem add_mul {z : EReal} (hx : IsReal x) (hy : IsReal y) (hz : IsReal z) :
    (x + y) * z = x * z + y * z := by
  rw [mul_comm, mul_add hz hx hy, mul_comm z x, mul_comm z y]

/-- A real factor moves into a finite sum of real extended reals: x · Σ_{i ∈ s} f i = Σ_{i ∈ s} x · f i. -/
theorem mul_sum {ι : Type*} {s : Finset ι} {f : ι → EReal} (hx : IsReal x)
    (hf : ∀ i ∈ s, IsReal (f i)) : x * ∑ i ∈ s, f i = ∑ i ∈ s, x * f i := by
  classical
  induction s using Finset.induction_on with
  | empty => rw [Finset.sum_empty, Finset.sum_empty, mul_zero]
  | insert a s ha ih =>
    have hs : ∀ i ∈ s, IsReal (f i) := fun i hi => hf i (Finset.mem_insert_of_mem hi)
    rw [Finset.sum_insert ha, Finset.sum_insert ha,
      mul_add hx (hf a (Finset.mem_insert_self a s)) (sum hs), ih hs]

/-- A real factor moves into a finite sum of real extended reals from the right:
    (Σ_{i ∈ s} f i) · x = Σ_{i ∈ s} f i · x. -/
theorem sum_mul {ι : Type*} {s : Finset ι} {f : ι → EReal} (hx : IsReal x)
    (hf : ∀ i ∈ s, IsReal (f i)) : (∑ i ∈ s, f i) * x = ∑ i ∈ s, f i * x := by
  rw [mul_comm, mul_sum hx hf]
  exact Finset.sum_congr rfl fun i _ => mul_comm _ _

end IsReal

/-- An extended real is real exactly when it is neither -∞ nor +∞. -/
theorem isReal_iff {x : EReal} : IsReal x ↔ x ≠ ⊥ ∧ x ≠ ⊤ :=
  ⟨fun h => ⟨h.ne_bot, h.ne_top⟩, fun h => ⟨x.toReal, (EReal.coe_toReal h.2 h.1).symm⟩⟩

/-! ### The maximum as a fold of max from -∞ -/

/-- The bit pattern 0xFF800000 of the 32-bit format denotes -∞, the value a maximum is folded from. -/
theorem ofBits_neg_inf_f32 : Ideal.ofBits .f32 0xFF800000#32 = ⊥ := by
  simp [Ideal.ofBits, Ideal.ieee]

/-- Every entry is below the maximum: f i ≤ max_{j ∈ s} f j (the fold of max from any start b). -/
theorem le_fold_max_of_mem {ι : Type*} {s : Finset ι} (b : EReal) (f : ι → EReal) {i : ι} (hi : i ∈ s) :
    f i ≤ s.fold Max.max b f :=
  (Finset.le_fold_max (f i)).mpr (Or.inr ⟨i, hi, le_rfl⟩)

/-- Over a nonempty finite set the maximum folded from -∞ is attained:
    max_{j ∈ s} f j = f i for some i ∈ s. -/
theorem exists_mem_fold_max_eq {ι : Type*} {s : Finset ι} (hs : s.Nonempty) (f : ι → EReal) :
    ∃ i ∈ s, s.fold Max.max ⊥ f = f i := by
  induction hs using Finset.Nonempty.cons_induction with
  | singleton a =>
    exact ⟨a, Finset.mem_singleton_self a, by rw [Finset.fold_singleton]; exact max_eq_left bot_le⟩
  | cons a s ha hs ih =>
    obtain ⟨i, hi, h⟩ := ih
    rw [Finset.fold_cons, h]
    rcases le_total (f a) (f i) with hle | hle
    · exact ⟨i, Finset.mem_cons.mpr (Or.inr hi), max_eq_right hle⟩
    · exact ⟨a, Finset.mem_cons_self a s, max_eq_left hle⟩

/-- Over a nonempty finite set the maximum, folded from -∞, of real extended reals is real. -/
theorem IsReal.fold_max {ι : Type*} {s : Finset ι} (hs : s.Nonempty) {f : ι → EReal}
    (hf : ∀ i ∈ s, IsReal (f i)) : IsReal (s.fold Max.max ⊥ f) := by
  obtain ⟨i, hi, h⟩ := exists_mem_fold_max_eq hs f
  rw [h]; exact hf i hi

/-- Over a nonempty finite index type the maximum, folded from -∞, of real extended reals is real. -/
theorem IsReal.fold_max_univ {ι : Type*} [Fintype ι] [Nonempty ι] {f : ι → EReal}
    (hf : ∀ i, IsReal (f i)) : IsReal ((Finset.univ : Finset ι).fold Max.max ⊥ f) :=
  IsReal.fold_max Finset.univ_nonempty fun i _ => hf i

/-- The bit pattern 0x0000 of the 16-bit brain format denotes 0, the value a rectifier compares with. -/
theorem ofBits_zero_bf16 : Ideal.ofBits .bf16 0x0000#16 = 0 := by
  simp [Ideal.ofBits, Ideal.ieee]

/-! ### Reality from the float finiteness test, and of integer conversions and contractions -/

/-- The bit pattern 0x7F800000 of the 32-bit format denotes +∞. -/
theorem ofBits_pos_inf_f32 : Ideal.ofBits .f32 0x7F800000#32 = ⊤ := by
  simp [Ideal.ofBits, Ideal.ieee]

/-- An extended real whose absolute value max(x, -x) is below +∞ is real. -/
theorem isReal_of_abs_lt_top {x : EReal} (h : Max.max x (-x) < ⊤) : IsReal x := by
  induction x using EReal.rec with
  | bot => rw [EReal.neg_bot, max_eq_right bot_le] at h; exact absurd h (lt_irrefl _)
  | top => rw [max_eq_left le_top] at h; exact absurd h (lt_irrefl _)
  | coe r => exact ⟨r, rfl⟩

/-- If the ordered less-than comparison of two extended reals answers true (the one-bit word 1),
    the first is below the second. -/
theorem lt_of_cmp_olt {a b : EReal} (h : Ideal.cmp .olt a b = 1#1) : a < b := by
  by_cases hlt : a < b
  · exact hlt
  · exfalso; simp [Ideal.cmp, hlt] at h

/-- The finiteness test |x| < +∞ as a float comparison: if the ordered less-than comparison of
    max(x, -x) with the value of the pattern 0x7F800000 (+∞) answers true, x is real. -/
theorem isReal_of_cmp_abs_lt_inf {x : EReal}
    (h : Ideal.cmp .olt (Max.max x (-x)) (Ideal.ofBits .f32 0x7F800000#32) = 1#1) : IsReal x := by
  rw [ofBits_pos_inf_f32] at h
  exact isReal_of_abs_lt_top (lt_of_cmp_olt h)

/-- A machine integer converted to a float, signed (its integer value read as a real), is real. -/
theorem isReal_sitofp {w : ℕ} (φ : FTy) (b : BitVec w) : IsReal (FloatOps.sitofp (F := Ideal) φ b) :=
  ⟨(b.toInt : ℝ), rfl⟩

/-- A machine integer converted to a float, unsigned (its natural value read as a real), is real. -/
theorem isReal_uitofp {w : ℕ} (φ : FTy) (b : BitVec w) : IsReal (FloatOps.uitofp (F := Ideal) φ b) :=
  ⟨(b.toNat : ℝ), rfl⟩

/-- A contraction Σ_k a_k · b_k of real extended reals over a finite index type is real. -/
theorem IsReal.dot {κ : Type*} [Fintype κ] {a b : κ → EReal} (ha : ∀ k, IsReal (a k))
    (hb : ∀ k, IsReal (b k)) : IsReal (∑ k, a k * b k) :=
  IsReal.sum_univ fun k => (ha k).mul (hb k)

/-- A contraction onto an accumulator, c + Σ_k a_k · b_k, of real extended reals is real. -/
theorem IsReal.add_dot {κ : Type*} [Fintype κ] {c : EReal} {a b : κ → EReal} (hc : IsReal c)
    (ha : ∀ k, IsReal (a k)) (hb : ∀ k, IsReal (b k)) : IsReal (c + ∑ k, a k * b k) :=
  hc.add (IsReal.dot ha hb)

/-! ### The softmax denominator -/

/-- The softmax denominator over a nonempty finite set.  For real x_l (l ∈ t) and m = max_{l ∈ t} x_l
    (folded from -∞), the sum Σ_{l ∈ t} exp(x_l - m) is the coercion of a real s ≥ 1: every term is a
    positive real and the term at an index where the maximum is attained is exp 0 = 1. -/
theorem exists_softmax_denominator_finset {ι : Type*} {t : Finset ι} (ht : t.Nonempty) {x : ι → EReal}
    (hx : ∀ l ∈ t, IsReal (x l)) :
    ∃ s : ℝ, 1 ≤ s ∧ ∑ l ∈ t, Ideal.exp (x l - t.fold Max.max ⊥ x) = (s : EReal) := by
  obtain ⟨i0, hi0, hm⟩ := exists_mem_fold_max_eq ht x
  rw [hm]
  refine ⟨∑ l ∈ t, Real.exp ((x l).toReal - (x i0).toReal), ?_, ?_⟩
  · calc (1 : ℝ) = Real.exp ((x i0).toReal - (x i0).toReal) := by rw [sub_self, Real.exp_zero]
      _ ≤ ∑ l ∈ t, Real.exp ((x l).toReal - (x i0).toReal) :=
        Finset.single_le_sum (f := fun l => Real.exp ((x l).toReal - (x i0).toReal))
          (fun l _ => (Real.exp_pos _).le) hi0
  · rw [coe_finset_sum]
    refine Finset.sum_congr rfl fun l hl => ?_
    obtain ⟨a, ha⟩ := hx l hl
    obtain ⟨b, hb⟩ := hx i0 hi0
    rw [ha, hb, ← EReal.coe_sub, Ideal.exp_coe]
    simp only [EReal.toReal_coe]

/-- The softmax denominator over a nonempty finite index type.  For real x_l and m = max_l x_l (folded
    from -∞), Σ_l exp(x_l - m) is the coercion of a real s ≥ 1; in particular it is real and not 0. -/
theorem exists_softmax_denominator {ι : Type*} [Fintype ι] [Nonempty ι] {x : ι → EReal}
    (hx : ∀ l, IsReal (x l)) :
    ∃ s : ℝ, 1 ≤ s ∧ ∑ l, Ideal.exp (x l - (Finset.univ : Finset ι).fold Max.max ⊥ x) = (s : EReal) :=
  exists_softmax_denominator_finset Finset.univ_nonempty fun l _ => hx l

/-- The softmax denominator is real: for real x_l over a nonempty finite index type,
    Σ_l exp(x_l - max_j x_j) is real. -/
theorem isReal_softmax_denominator {ι : Type*} [Fintype ι] [Nonempty ι] {x : ι → EReal}
    (hx : ∀ l, IsReal (x l)) :
    IsReal (∑ l, Ideal.exp (x l - (Finset.univ : Finset ι).fold Max.max ⊥ x)) := by
  obtain ⟨s, _, h⟩ := exists_softmax_denominator hx; exact ⟨s, h⟩

/-- The softmax denominator is not 0: for real x_l over a nonempty finite index type,
    Σ_l exp(x_l - max_j x_j) ≥ 1 > 0. -/
theorem softmax_denominator_ne_zero {ι : Type*} [Fintype ι] [Nonempty ι] {x : ι → EReal}
    (hx : ∀ l, IsReal (x l)) :
    ∑ l, Ideal.exp (x l - (Finset.univ : Finset ι).fold Max.max ⊥ x) ≠ 0 := by
  obtain ⟨s, hs, h⟩ := exists_softmax_denominator hx
  rw [h]
  exact EReal.coe_ne_zero.mpr (ne_of_gt (lt_of_lt_of_le one_pos hs))

end Idealize.ShloMosaic.LibERealLaws
-- ==== Proof.LibSoftmaxSum.lean ====
/-
  The softmax-weighted sum: dividing inside or outside the sum.

  With logits x_l (l in a finite index set), m = max_l x_l, e_l = exp(x_l - m) and s = Σ_l e_l, a
  softmax-weighted sum of values o_l can be computed as  Σ_l o_l · (e_l / s)  (normalise the weights,
  then contract) or as  (Σ_l o_l · e_l) / s  (contract, then normalise once).  On the reals the two
  agree because division by s distributes over the sum.  On the extended reals distributivity fails at
  the infinities, so the law is stated for values that are coercions of reals and a divisor that is a
  nonzero real: then every term is the coercion of a real product, the coercion commutes with the
  finite sum, and the real identity (Σ_l a_l) · (1/s) = Σ_l a_l · (1/s) closes it.  Division is the
  one of the ideal float operations: x / y = x · y⁻¹ for y ≠ 0 (and x / 0 = ±∞ by the sign of x).
-/
import Idealize.ShloMosaic.PureOps.Ideal

namespace Idealize.ShloMosaic.LibERealLaws

open scoped BigOperators

/-- The coercion ℝ → [-∞, +∞] commutes with finite sums: ↑(Σ_{i ∈ t} f i) = Σ_{i ∈ t} ↑(f i). -/
private theorem coe_sum_aux {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A real extended real is the coercion of its real part. -/
private theorem eq_coe_toReal_aux {x : EReal} (hx : ∃ r : ℝ, x = (r : EReal)) :
    x = ((x.toReal : ℝ) : EReal) := by
  obtain ⟨r, rfl⟩ := hx; rw [EReal.toReal_coe]

/-! ### Real values -/

/-- Softmax-weighted sum, plain form.  For real o_l, e_l and a real s ≠ 0,
      Σ_{l ∈ t} o_l · (e_l / s) = (Σ_{l ∈ t} o_l · e_l) / s
    as extended reals, with the division of the ideal float operations. -/
theorem sum_mul_div_eq_div_sum {ι : Type*} (t : Finset ι) (o e : ι → ℝ) {s : ℝ} (hs : s ≠ 0) :
    ∑ l ∈ t, (o l : EReal) * Ideal.div (e l : EReal) (s : EReal)
      = Ideal.div (∑ l ∈ t, (o l : EReal) * (e l : EReal)) (s : EReal) := by
  calc ∑ l ∈ t, (o l : EReal) * Ideal.div (e l : EReal) (s : EReal)
      = ∑ l ∈ t, ((o l * e l * (1 / s) : ℝ) : EReal) := Finset.sum_congr rfl fun l _ => by
        rw [Ideal.div_coe hs, ← EReal.coe_mul, ← EReal.coe_mul, mul_assoc]
    _ = (((∑ l ∈ t, o l * e l) * (1 / s) : ℝ) : EReal) := by rw [← coe_sum_aux, Finset.sum_mul]
    _ = Ideal.div (∑ l ∈ t, (o l : EReal) * (e l : EReal)) (s : EReal) := by
        rw [Ideal.div_coe hs, EReal.coe_mul, coe_sum_aux]
        simp only [EReal.coe_mul]

/-- The same with the normalised weight as the left factor:
      Σ_{l ∈ t} (e_l / s) · o_l = (Σ_{l ∈ t} o_l · e_l) / s   for real o_l, e_l and real s ≠ 0. -/
theorem sum_div_mul_eq_div_sum {ι : Type*} (t : Finset ι) (o e : ι → ℝ) {s : ℝ} (hs : s ≠ 0) :
    ∑ l ∈ t, Ideal.div (e l : EReal) (s : EReal) * (o l : EReal)
      = Ideal.div (∑ l ∈ t, (o l : EReal) * (e l : EReal)) (s : EReal) := by
  rw [← sum_mul_div_eq_div_sum t o e hs]
  exact Finset.sum_congr rfl fun l _ => mul_comm _ _

/-- Dividing each term of a sum of reals by a real s ≠ 0 is dividing the sum:
      Σ_{l ∈ t} (a_l / s) = (Σ_{l ∈ t} a_l) / s   as extended reals. -/
theorem sum_div_eq_div_sum {ι : Type*} (t : Finset ι) (a : ι → ℝ) {s : ℝ} (hs : s ≠ 0) :
    ∑ l ∈ t, Ideal.div (a l : EReal) (s : EReal) = Ideal.div (∑ l ∈ t, (a l : EReal)) (s : EReal) := by
  have h := sum_mul_div_eq_div_sum t (fun _ => (1 : ℝ)) a hs
  simpa only [EReal.coe_one, one_mul] using h

/-! ### Extended-real values known to be real -/

/-- Softmax-weighted sum for extended reals known to be real.  If every o_l and e_l (l ∈ t) is the
    coercion of a real, and s is the coercion of a real and s ≠ 0, then
      Σ_{l ∈ t} o_l · (e_l / s) = (Σ_{l ∈ t} o_l · e_l) / s. -/
theorem sum_mul_div_eq_div_sum_of_real {ι : Type*} (t : Finset ι) {o e : ι → EReal} {s : EReal}
    (ho : ∀ l ∈ t, ∃ r : ℝ, o l = (r : EReal)) (he : ∀ l ∈ t, ∃ r : ℝ, e l = (r : EReal))
    (hs : ∃ r : ℝ, s = (r : EReal)) (hs0 : s ≠ 0) :
    ∑ l ∈ t, o l * Ideal.div (e l) s = Ideal.div (∑ l ∈ t, o l * e l) s := by
  obtain ⟨r, rfl⟩ := hs
  have hr : r ≠ 0 := fun h => hs0 (by rw [h, EReal.coe_zero])
  have hcongr : ∀ l ∈ t, o l = ((o l).toReal : EReal) ∧ e l = ((e l).toReal : EReal) :=
    fun l hl => ⟨eq_coe_toReal_aux (ho l hl), eq_coe_toReal_aux (he l hl)⟩
  calc ∑ l ∈ t, o l * Ideal.div (e l) (r : EReal)
      = ∑ l ∈ t, ((o l).toReal : EReal) * Ideal.div ((e l).toReal : EReal) (r : EReal) :=
        Finset.sum_congr rfl fun l hl => by rw [← (hcongr l hl).1, ← (hcongr l hl).2]
    _ = Ideal.div (∑ l ∈ t, ((o l).toReal : EReal) * ((e l).toReal : EReal)) (r : EReal) :=
        sum_mul_div_eq_div_sum t _ _ hr
    _ = Ideal.div (∑ l ∈ t, o l * e l) (r : EReal) := by
        rw [Finset.sum_congr rfl fun l hl => by rw [← (hcongr l hl).1, ← (hcongr l hl).2]]

/-- The same with the normalised weight as the left factor:
      Σ_{l ∈ t} (e_l / s) · o_l = (Σ_{l ∈ t} o_l · e_l) / s   for real o_l, e_l and real s ≠ 0. -/
theorem sum_div_mul_eq_div_sum_of_real {ι : Type*} (t : Finset ι) {o e : ι → EReal} {s : EReal}
    (ho : ∀ l ∈ t, ∃ r : ℝ, o l = (r : EReal)) (he : ∀ l ∈ t, ∃ r : ℝ, e l = (r : EReal))
    (hs : ∃ r : ℝ, s = (r : EReal)) (hs0 : s ≠ 0) :
    ∑ l ∈ t, Ideal.div (e l) s * o l = Ideal.div (∑ l ∈ t, o l * e l) s := by
  rw [← sum_mul_div_eq_div_sum_of_real t ho he hs hs0]
  exact Finset.sum_congr rfl fun l _ => mul_comm _ _

/-- Softmax-weighted sum over a whole finite index type, for extended reals known to be real:
      Σ_l o_l · (e_l / s) = (Σ_l o_l · e_l) / s
    when every o_l, every e_l and s are coercions of reals and s ≠ 0. -/
theorem sum_univ_mul_div_eq_div_sum_of_real {ι : Type*} [Fintype ι] {o e : ι → EReal} {s : EReal}
    (ho : ∀ l, ∃ r : ℝ, o l = (r : EReal)) (he : ∀ l, ∃ r : ℝ, e l = (r : EReal))
    (hs : ∃ r : ℝ, s = (r : EReal)) (hs0 : s ≠ 0) :
    ∑ l, o l * Ideal.div (e l) s = Ideal.div (∑ l, o l * e l) s :=
  sum_mul_div_eq_div_sum_of_real Finset.univ (fun l _ => ho l) (fun l _ => he l) hs hs0

/-- The same over a whole finite index type with the normalised weight as the left factor:
      Σ_l (e_l / s) · o_l = (Σ_l o_l · e_l) / s. -/
theorem sum_univ_div_mul_eq_div_sum_of_real {ι : Type*} [Fintype ι] {o e : ι → EReal} {s : EReal}
    (ho : ∀ l, ∃ r : ℝ, o l = (r : EReal)) (he : ∀ l, ∃ r : ℝ, e l = (r : EReal))
    (hs : ∃ r : ℝ, s = (r : EReal)) (hs0 : s ≠ 0) :
    ∑ l, Ideal.div (e l) s * o l = Ideal.div (∑ l, o l * e l) s :=
  sum_div_mul_eq_div_sum_of_real Finset.univ (fun l _ => ho l) (fun l _ => he l) hs hs0

/-- The form a softmax takes when the weights sum to the divisor: if every o_l and e_l is the
    coercion of a real and the sum s = Σ_l e_l is not 0, then
      Σ_l o_l · (e_l / Σ_j e_j) = (Σ_l o_l · e_l) / Σ_j e_j. -/
theorem sum_univ_mul_div_sum_eq_of_real {ι : Type*} [Fintype ι] {o e : ι → EReal}
    (ho : ∀ l, ∃ r : ℝ, o l = (r : EReal)) (he : ∀ l, ∃ r : ℝ, e l = (r : EReal))
    (hs0 : ∑ j, e j ≠ 0) :
    ∑ l, o l * Ideal.div (e l) (∑ j, e j) = Ideal.div (∑ l, o l * e l) (∑ j, e j) := by
  refine sum_univ_mul_div_eq_div_sum_of_real ho he ?_ hs0
  refine ⟨∑ j, (e j).toReal, ?_⟩
  rw [coe_sum_aux]
  exact Finset.sum_congr rfl fun j _ => eq_coe_toReal_aux (he j)

end Idealize.ShloMosaic.LibERealLaws
-- ==== Proof.LibContract.lean ====
/-
  Contractions on the extended reals that need no finiteness.

  Addition on [-∞, +∞] is commutative and associative (with +∞ + -∞ = -∞ it is still an additive
  commutative monoid) and 0 · x = 0 for every extended real x, +∞ and -∞ included.  So re-indexing,
  splitting and re-associating finite sums, and contracting against a one-hot vector, hold for
  arbitrary extended reals.  (Distributivity does not: see the laws on real extended reals.)
  This file has: the contraction against a one-hot vector (the indicator written with 0 and 1 of the
  extended reals, as the coercion of an integer 0/1 or of a machine integer 0/1, or given abstractly by
  its two defining facts);
  the split of a sum over Fin (a + b), in particular Fin 128, into its low and high parts; and
  the re-association facts for sums of sums.
-/
import Idealize.ShloMosaic.PureOps.Ideal

namespace Idealize.ShloMosaic.LibERealLaws

open scoped BigOperators

/-! ### One-hot contraction -/

/-- Contraction against an abstract one-hot vector: if c r0 = 1 and c r = 0 for every r ≠ r0 then
    Σ_r c r · t r = t r0, for arbitrary extended reals t r (0 · x = 0 also at x = ±∞). -/
theorem sum_onehot_mul_of {ι : Type*} [Fintype ι] (c t : ι → EReal) (r0 : ι)
    (h1 : c r0 = 1) (h0 : ∀ r, r ≠ r0 → c r = 0) : ∑ r, c r * t r = t r0 := by
  classical
  rw [Finset.sum_eq_single r0 (fun r _ hr => by rw [h0 r hr, zero_mul])
    (fun h => absurd (Finset.mem_univ r0) h), h1, one_mul]

/-- The same with the one-hot vector as the right factor: Σ_r t r · c r = t r0. -/
theorem sum_mul_onehot_of {ι : Type*} [Fintype ι] (c t : ι → EReal) (r0 : ι)
    (h1 : c r0 = 1) (h0 : ∀ r, r ≠ r0 → c r = 0) : ∑ r, t r * c r = t r0 := by
  rw [← sum_onehot_mul_of c t r0 h1 h0]
  exact Finset.sum_congr rfl fun r _ => mul_comm _ _

/-- One-hot contraction: Σ_r [r = r0] · t r = t r0, the indicator being 1 or 0 of the extended
    reals; t is arbitrary. -/
theorem sum_onehot_mul {ι : Type*} [Fintype ι] [DecidableEq ι] (t : ι → EReal) (r0 : ι) :
    ∑ r, (if r = r0 then (1 : EReal) else 0) * t r = t r0 :=
  sum_onehot_mul_of (fun r => if r = r0 then (1 : EReal) else 0) t r0 (if_pos rfl) fun _ hr => if_neg hr

/-- One-hot contraction with the equation of the indicator turned round: Σ_r [r0 = r] · t r = t r0. -/
theorem sum_onehot_mul' {ι : Type*} [Fintype ι] [DecidableEq ι] (t : ι → EReal) (r0 : ι) :
    ∑ r, (if r0 = r then (1 : EReal) else 0) * t r = t r0 :=
  sum_onehot_mul_of (fun r => if r0 = r then (1 : EReal) else 0) t r0 (if_pos rfl)
    fun _ hr => if_neg (Ne.symm hr)

/-- One-hot contraction with the indicator on the right: Σ_r t r · [r = r0] = t r0. -/
theorem sum_mul_onehot {ι : Type*} [Fintype ι] [DecidableEq ι] (t : ι → EReal) (r0 : ι) :
    ∑ r, t r * (if r = r0 then (1 : EReal) else 0) = t r0 :=
  sum_mul_onehot_of (fun r => if r = r0 then (1 : EReal) else 0) t r0 (if_pos rfl) fun _ hr => if_neg hr

/-- One-hot contraction with the indicator an integer 0/1 read as a real and then as an extended
    real (what a conversion of an integer to a float gives): Σ_r ↑↑[r = r0] · t r = t r0. -/
theorem sum_onehot_int_mul {ι : Type*} [Fintype ι] [DecidableEq ι] (t : ι → EReal) (r0 : ι) :
    ∑ r, ((((if r = r0 then (1 : ℤ) else 0 : ℤ) : ℝ)) : EReal) * t r = t r0 :=
  sum_onehot_mul_of (fun r => ((((if r = r0 then (1 : ℤ) else 0 : ℤ) : ℝ)) : EReal)) t r0
    (by simp) fun r hr => by simp [hr]

/-- One-hot contraction with the indicator a vector of w-bit integers (w ≥ 2) whose entry is 1 at r0
    and 0 elsewhere, each entry read as a signed integer, then as a real, then as an extended real
    (a signed integer-to-float conversion): Σ_r ↑↑(toInt (b r)) · t r = t r0. -/
theorem sum_onehot_bitvec_mul {ι : Type*} [Fintype ι] {w : ℕ} (hw : 1 < w) (b : ι → BitVec w)
    (t : ι → EReal) (r0 : ι) (h1 : b r0 = 1#w) (h0 : ∀ r, r ≠ r0 → b r = 0#w) :
    ∑ r, ((((b r).toInt : ℝ)) : EReal) * t r = t r0 :=
  sum_onehot_mul_of (fun r => ((((b r).toInt : ℝ)) : EReal)) t r0
    (by simp only [h1, BitVec.toInt_one hw, Int.cast_one, EReal.coe_one])
    (fun r hr => by simp only [h0 r hr, BitVec.toInt_zero, Int.cast_zero, EReal.coe_zero])

/-- The same with the indicator on the right: Σ_r t r · ↑↑(toInt (b r)) = t r0. -/
theorem sum_mul_onehot_bitvec {ι : Type*} [Fintype ι] {w : ℕ} (hw : 1 < w) (b : ι → BitVec w)
    (t : ι → EReal) (r0 : ι) (h1 : b r0 = 1#w) (h0 : ∀ r, r ≠ r0 → b r = 0#w) :
    ∑ r, t r * ((((b r).toInt : ℝ)) : EReal) = t r0 := by
  rw [← sum_onehot_bitvec_mul hw b t r0 h1 h0]
  exact Finset.sum_congr rfl fun r _ => mul_comm _ _

/-- One-hot contraction over the finite index type Fin n: Σ_{r < n} [r = r0] · t r = t r0. -/
theorem sum_fin_onehot_mul {n : ℕ} (t : Fin n → EReal) (r0 : Fin n) :
    ∑ r : Fin n, (if r = r0 then (1 : EReal) else 0) * t r = t r0 :=
  sum_onehot_mul t r0

/-! ### Splitting a contraction -/

/-- A sum over Fin (a + b) is the sum over its first a indices plus the sum over its last b:
    Σ_{k < N} f k = Σ_{k < a} f k + Σ_{k < b} f (a + k) when a + b = N. -/
theorem sum_fin_split {N : ℕ} (a b : ℕ) (h : a + b = N) (f : Fin N → EReal) :
    ∑ k : Fin N, f k
      = ∑ k : Fin a, f ⟨k.val, by have := k.isLt; omega⟩
        + ∑ k : Fin b, f ⟨a + k.val, by have := k.isLt; omega⟩ := by
  subst h
  exact Fin.sum_univ_add f

/-- A contraction over 128 indices is the contraction over the low 64 plus the one over the high 64:
    Σ_{k < 128} f k = Σ_{k < 64} f k + Σ_{k < 64} f (64 + k). -/
theorem sum_fin128_split (f : Fin 128 → EReal) :
    ∑ k : Fin 128, f k
      = ∑ k : Fin 64, f ⟨k.val, by have := k.isLt; omega⟩
        + ∑ k : Fin 64, f ⟨64 + k.val, by have := k.isLt; omega⟩ :=
  sum_fin_split 64 64 rfl f

/-- The same split with the two halves named by the embeddings of Fin 64 into Fin (64 + 64):
    Σ_k f k = Σ_k f (castAdd k) + Σ_k f (natAdd k). -/
theorem sum_fin128_split_castAdd_natAdd (f : Fin (64 + 64) → EReal) :
    ∑ k : Fin (64 + 64), f k
      = ∑ k : Fin 64, f (Fin.castAdd 64 k) + ∑ k : Fin 64, f (Fin.natAdd 64 k) :=
  Fin.sum_univ_add f

/-- A contraction of products splits likewise: with g, h : Fin 128 → [-∞, +∞],
    Σ_{k < 128} g k · h k = Σ_{k < 64} g k · h k + Σ_{k < 64} g (64 + k) · h (64 + k). -/
theorem sum_mul_fin128_split (g h : Fin 128 → EReal) :
    ∑ k : Fin 128, g k * h k
      = ∑ k : Fin 64, g ⟨k.val, by have := k.isLt; omega⟩ * h ⟨k.val, by have := k.isLt; omega⟩
        + ∑ k : Fin 64, g ⟨64 + k.val, by have := k.isLt; omega⟩ * h ⟨64 + k.val, by have := k.isLt; omega⟩ :=
  sum_fin128_split fun k => g k * h k

/-! ### Re-association -/

/-- Addition of extended reals is associative, at the infinities too: (a + b) + c = a + (b + c). -/
theorem ereal_add_assoc (a b c : EReal) : a + b + c = a + (b + c) := add_assoc a b c

/-- Addition of extended reals is commutative: a + b = b + a. -/
theorem ereal_add_comm (a b : EReal) : a + b = b + a := add_comm a b

/-- Four summands regroup: (a + b) + (c + d) = (a + c) + (b + d). -/
theorem ereal_add_add_add_comm (a b c d : EReal) : a + b + (c + d) = a + c + (b + d) :=
  add_add_add_comm a b c d

/-- The sum of two finite sums over the same index set is the sum of the termwise sums:
    Σ_i f i + Σ_i g i = Σ_i (f i + g i), for arbitrary extended reals. -/
theorem sum_add_sum {ι : Type*} (s : Finset ι) (f g : ι → EReal) :
    ∑ i ∈ s, f i + ∑ i ∈ s, g i = ∑ i ∈ s, (f i + g i) :=
  Finset.sum_add_distrib.symm

/-- Two finite sums commute: Σ_i Σ_j f i j = Σ_j Σ_i f i j, for arbitrary extended reals. -/
theorem sum_sum_comm {ι κ : Type*} (s : Finset ι) (t : Finset κ) (f : ι → κ → EReal) :
    ∑ i ∈ s, ∑ j ∈ t, f i j = ∑ j ∈ t, ∑ i ∈ s, f i j :=
  Finset.sum_comm

/-- A finite sum is unchanged by re-indexing along a bijection σ: Σ_i f (σ i) = Σ_j f j. -/
theorem sum_reindex {ι κ : Type*} [Fintype ι] [Fintype κ] (σ : ι ≃ κ) (f : κ → EReal) :
    ∑ i, f (σ i) = ∑ j, f j :=
  Equiv.sum_comp σ f

end Idealize.ShloMosaic.LibERealLaws
-- ==== Proof.KSpec.lean ====
/-
  The kernel's arrangement of the computation equals the specification. The kernel contracts each embedding row with its
  half of a 128-column weight matrix ahead of time (a combined table whose low half serves the first network's first
  layer and whose high half, with its bias, the second network's first layer), picks the small table's contracted row
  by a one-hot contraction over eight rows (five and three of zeros), and divides the weighted sum of the first
  network's outputs once by the sum of the softmax weights. A contraction over two joined feature vectors splits into
  the two halves' contractions (addition re-associates at the infinities too, and `0 · x = 0`); moving the division out
  of the sum needs every term finite, which the finite tables, weights and biases give layer by layer, and a nonzero
  real denominator, which the softmax's is (at least 1).
-/
import proofs.«217981_g19061064860210_cont_8to1_1320_37_alg».proof.Proof.RefSpec
import proofs.«217981_g19061064860210_cont_8to1_1320_37_alg».proof.Proof.LibERealFinite
import proofs.«217981_g19061064860210_cont_8to1_1320_37_alg».proof.Proof.LibSoftmaxSum
import proofs.«217981_g19061064860210_cont_8to1_1320_37_alg».proof.Proof.LibContract

noncomputable section

open scoped BigOperators

namespace Cert.Proof.Spec

open Idealize.ShloMosaic Idealize.ShloMosaic.ValueIdx Idealize.ShloMosaic.LibERealLaws

/-! ## A contraction over joined features splits -/

/-- A contraction of two joined feature vectors with 128 weights is the contraction of the first with the low 64
    weights plus that of the second with the high 64. -/
theorem sum_cat_mul (x y : Fin 64 → EReal) (w : Fin 128 → EReal) :
    ∑ k : Fin 128, cat x y k * w k
      = (∑ k : Fin 64, x k * w ⟨k.val, by have := k.isLt; omega⟩)
        + ∑ k : Fin 64, y k * w ⟨64 + k.val, by have := k.isLt; omega⟩ := by
  rw [sum_mul_fin128_split]
  refine congrArg₂ (· + ·) (Finset.sum_congr rfl fun k _ => ?_) (Finset.sum_congr rfl fun k _ => ?_)
  · unfold cat
    rw [dif_pos (show (⟨k.val, by have := k.isLt; omega⟩ : Fin 128).val < 64 from k.isLt)]
  · unfold cat
    rw [dif_neg (show ¬ (⟨64 + k.val, by have := k.isLt; omega⟩ : Fin 128).val < 64 from by show ¬ 64 + k.val < 64; omega)]
    refine congrArg (fun i => y i * _) (Fin.ext ?_)
    show 64 + k.val - 64 = k.val
    omega

/-- A dense layer over joined features, split: the first half's contraction plus the second half's with the bias. -/
theorem dense_cat (W : (⟨2, ![64, 128]⟩ : Shape).Idx → EReal) (bias : (⟨1, ![64]⟩ : Shape).Idx → EReal) (x y : Fin 64 → EReal)
    (f : Fin 64) :
    dense W bias (cat x y) f
      = max ((∑ k : Fin 64, x k * W (ix2 f ⟨k.val, by have := k.isLt; omega⟩))
          + ((∑ k : Fin 64, y k * W (ix2 f ⟨64 + k.val, by have := k.isLt; omega⟩)) + bias (ix1 f))) 0 := by
  unfold dense
  rw [sum_cat_mul x y (fun k => W (ix2 f k)), add_assoc]

/-! ## Finiteness through the layers -/

theorem isReal_cat {x y : Fin 64 → EReal} (hx : ∀ k, IsReal (x k)) (hy : ∀ k, IsReal (y k)) (k : Fin 128) : IsReal (cat x y k) := by
  unfold cat
  split
  · exact hx _
  · exact hy _

theorem isReal_dense {n : ℕ} {W : (⟨2, ![64, n]⟩ : Shape).Idx → EReal} {bias : (⟨1, ![64]⟩ : Shape).Idx → EReal} {x : Fin n → EReal}
    (hW : ∀ i, IsReal (W i)) (hb : ∀ i, IsReal (bias i)) (hx : ∀ k, IsReal (x k)) (f : Fin 64) : IsReal (dense W bias x f) :=
  ((IsReal.dot hx fun k => hW _).add (hb _)).relu

/-! ## The row maximum, in the two spellings -/

/-- The maximum from minus infinity, spelt with the float maximum at the ideal values and the bit pattern of minus
    infinity, is the fold of `max` from `⊥`. -/
theorem max_fold_eq (s : Fin 50 → EReal) :
    max (Ideal.ofBits .f32 0xFF800000#32)
        ((Finset.univ : Finset (Fin 50)).fold (FloatOps.maximumf (F := Ideal) (φ := .f32)) (Ideal.ofBits .f32 0xFF800000#32) s)
      = (Finset.univ : Finset (Fin 50)).fold Max.max ⊥ s := by
  rw [ofBits_neg_inf_f32, max_eq_right bot_le]
  rfl

/-! ## The kernel's arrangement -/

section Arrangement

variable (n0 : (⟨1, ![4096]⟩ : Shape).Idx → BitVec 32) (n1 n2 : (⟨2, ![4096, 50]⟩ : Shape).Idx → BitVec 32)
  (A3 A4 : (⟨2, ![100000, 64]⟩ : Shape).Idx → EReal) (A5 : (⟨2, ![5, 64]⟩ : Shape).Idx → EReal)
  (W6 : (⟨2, ![64, 128]⟩ : Shape).Idx → EReal) (b7 : (⟨1, ![64]⟩ : Shape).Idx → EReal)
  (W8 : (⟨2, ![64, 64]⟩ : Shape).Idx → EReal) (b9 : (⟨1, ![64]⟩ : Shape).Idx → EReal)
  (W10 : (⟨2, ![64, 128]⟩ : Shape).Idx → EReal) (b11 : (⟨1, ![64]⟩ : Shape).Idx → EReal)
  (W12 : (⟨2, ![64, 64]⟩ : Shape).Idx → EReal) (b13 : (⟨1, ![64]⟩ : Shape).Idx → EReal)
  (w14 : (⟨2, ![1, 64]⟩ : Shape).Idx → EReal) (b15 : (⟨1, ![1]⟩ : Shape).Idx → EReal)

/-- The combined table's low half: an item row contracted with the low 64 columns of the first layer's weights. -/
def ctLo (n : Fin 100000) (j : Fin 64) : EReal :=
  ∑ k : Fin 64, A4 (ix2 n k) * W6 (ix2 j ⟨k.val, by have := k.isLt; omega⟩)

/-- The combined table's high half: a row of the per-row table contracted with the high 64 columns of the second
    network's first-layer weights, with that layer's bias. -/
def ctHi (n : Fin 100000) (j : Fin 64) : EReal :=
  (∑ k : Fin 64, A3 (ix2 n k) * W10 (ix2 j ⟨64 + k.val, by have := k.isLt; omega⟩)) + b11 (ix1 j)

/-- The five-row table padded with three zero rows. -/
def A5pad (r : Fin 8) (k : Fin 64) : EReal := if h : r.val < 5 then A5 (ix2 ⟨r.val, h⟩ k) else 0

/-- The small table's rows contracted with the high 64 columns of the first layer's weights, with that layer's bias. -/
def rt (r : Fin 8) (j : Fin 64) : EReal :=
  (∑ k : Fin 64, A5pad A5 r k * W6 (ix2 j ⟨64 + k.val, by have := k.isLt; omega⟩)) + b7 (ix1 j)

/-- The one-hot row of an index word among eight. -/
def onehot (x : BitVec 32) (r : Fin 8) : EReal := if r.val = x.toNat then 1 else 0

/-- The first layer, in the kernel's arrangement: the item row's half from the combined table, the small table's half
    by the one-hot contraction. -/
def xK (b : Fin 4096) (t : Fin 50) (j : Fin 64) : EReal :=
  max (ctLo A4 W6 (clampRow 100000 (by decide) (n1 (ix2 b t))) j
    + ∑ r : Fin 8, onehot (n2 (ix2 b t)) r * rt A5 W6 b7 r j) 0

/-- The first network's output. -/
def oK (b : Fin 4096) (t : Fin 50) : Fin 64 → EReal := dense W8 b9 (xK n1 n2 A4 A5 W6 b7 b t)

/-- The second network's first layer: the first network's output with the low 64 columns, the per-row half from the
    combined table. -/
def a1K (b : Fin 4096) (t : Fin 50) (j : Fin 64) : EReal :=
  max ((∑ k : Fin 64, oK n1 n2 A4 A5 W6 b7 W8 b9 b t k * W10 (ix2 j ⟨k.val, by have := k.isLt; omega⟩))
    + ctHi A3 W10 b11 (clampRow 100000 (by decide) (n0 (ix1 b))) j) 0

/-- The score. -/
def logitK (b : Fin 4096) (t : Fin 50) : EReal :=
  (∑ k : Fin 64, dense W12 b13 (a1K n0 n1 n2 A3 A4 A5 W6 b7 W8 b9 W10 b11 b t) k * w14 (ix2 ⟨0, Nat.one_pos⟩ k))
    + b15 (ix1 ⟨0, Nat.one_pos⟩)

/-- The exponential of a score less the row's maximum. -/
def eK (b : Fin 4096) (t : Fin 50) : EReal :=
  Ideal.exp (logitK n0 n1 n2 A3 A4 A5 W6 b7 W8 b9 W10 b11 W12 b13 w14 b15 b t
    - (Finset.univ : Finset (Fin 50)).fold Max.max ⊥ (fun t' => logitK n0 n1 n2 A3 A4 A5 W6 b7 W8 b9 W10 b11 W12 b13 w14 b15 b t'))

/-- The result in the kernel's arrangement: the weighted sum of the first network's outputs, divided once by the sum of
    the weights. -/
def GK (b : Fin 4096) (f : Fin 64) : EReal :=
  Ideal.div (∑ t : Fin 50, oK n1 n2 A4 A5 W6 b7 W8 b9 b t f * eK n0 n1 n2 A3 A4 A5 W6 b7 W8 b9 W10 b11 W12 b13 w14 b15 b t)
    (∑ t : Fin 50, eK n0 n1 n2 A3 A4 A5 W6 b7 W8 b9 W10 b11 W12 b13 w14 b15 b t)

/-! ## The layers agree -/

/-- The one-hot contraction picks the index's row. -/
theorem sum_onehot_rt (x : BitVec 32) (hx : x.toNat < 5) (j : Fin 64) :
    ∑ r : Fin 8, onehot x r * rt A5 W6 b7 r j
      = (∑ k : Fin 64, A5 (ix2 (clampRow 5 (by decide) x) k) * W6 (ix2 j ⟨64 + k.val, by have := k.isLt; omega⟩)) + b7 (ix1 j) := by
  have h8 : x.toNat < 8 := by omega
  rw [sum_onehot_mul_of (onehot x) (fun r => rt A5 W6 b7 r j) ⟨x.toNat, h8⟩ (if_pos rfl)
    (fun r hr => if_neg fun e => hr (Fin.ext e))]
  unfold rt
  refine congrArg (· + b7 (ix1 j)) (Finset.sum_congr rfl fun k _ => congrArg (· * _) ?_)
  unfold A5pad
  rw [dif_pos (show (⟨x.toNat, h8⟩ : Fin 8).val < 5 from hx)]
  refine congrArg (fun r => A5 (ix2 r k)) (Fin.ext ?_)
  exact (clampRow_val (by decide) hx (by decide)).symm

/-- The first layer agrees with the reference's dense layer over the two joined rows. -/
theorem xK_eq (h2 : ∀ i, (n2 i).toNat < 5) (b : Fin 4096) (t : Fin 50) (j : Fin 64) :
    xK n1 n2 A4 A5 W6 b7 b t j
      = dense W6 b7 (cat (fun k => A4 (ix2 (clampRow 100000 (by decide) (n1 (ix2 b t))) k))
          (fun k => A5 (ix2 (clampRow 5 (by decide) (n2 (ix2 b t))) k))) j := by
  rw [dense_cat]
  unfold xK ctLo
  rw [sum_onehot_rt A5 W6 b7 _ (h2 _)]

/-- So the first network's output is the specification's. -/
theorem oK_eq (h2 : ∀ i, (n2 i).toNat < 5) (b : Fin 4096) (t : Fin 50) :
    oK n1 n2 A4 A5 W6 b7 W8 b9 b t = hidS n1 n2 A4 A5 W6 b7 W8 b9 b t := by
  unfold oK hidS
  exact congrArg (dense W8 b9) (funext fun j => xK_eq n1 n2 A4 A5 W6 b7 h2 b t j)

/-- The score agrees. -/
theorem logitK_eq (h2 : ∀ i, (n2 i).toNat < 5) (b : Fin 4096) (t : Fin 50) :
    logitK n0 n1 n2 A3 A4 A5 W6 b7 W8 b9 W10 b11 W12 b13 w14 b15 b t
      = scoreS n0 n1 n2 A3 A4 A5 W6 b7 W8 b9 W10 b11 W12 b13 w14 b15 b t := by
  unfold logitK scoreS
  refine congrArg (· + b15 (ix1 ⟨0, Nat.one_pos⟩)) (Finset.sum_congr rfl fun k _ => congrArg (· * _) ?_)
  refine congrArg (fun x => dense W12 b13 x k) (funext fun j => ?_)
  rw [dense_cat]
  unfold a1K ctHi
  rw [oK_eq n1 n2 A4 A5 W6 b7 W8 b9 h2 b t]

end Arrangement

/-! ## The softmax step, under finiteness -/

section Final

variable (n0 : (⟨1, ![4096]⟩ : Shape).Idx → BitVec 32) (n1 n2 : (⟨2, ![4096, 50]⟩ : Shape).Idx → BitVec 32)
  (A3 A4 : (⟨2, ![100000, 64]⟩ : Shape).Idx → EReal) (A5 : (⟨2, ![5, 64]⟩ : Shape).Idx → EReal)
  (W6 : (⟨2, ![64, 128]⟩ : Shape).Idx → EReal) (b7 : (⟨1, ![64]⟩ : Shape).Idx → EReal)
  (W8 : (⟨2, ![64, 64]⟩ : Shape).Idx → EReal) (b9 : (⟨1, ![64]⟩ : Shape).Idx → EReal)
  (W10 : (⟨2, ![64, 128]⟩ : Shape).Idx → EReal) (b11 : (⟨1, ![64]⟩ : Shape).Idx → EReal)
  (W12 : (⟨2, ![64, 64]⟩ : Shape).Idx → EReal) (b13 : (⟨1, ![64]⟩ : Shape).Idx → EReal)
  (w14 : (⟨2, ![1, 64]⟩ : Shape).Idx → EReal) (b15 : (⟨1, ![1]⟩ : Shape).Idx → EReal)

/-- With finite tables, weights and biases the first network's outputs are finite. -/
theorem isReal_hidS (hA4 : ∀ i, IsReal (A4 i)) (hA5 : ∀ i, IsReal (A5 i)) (hW6 : ∀ i, IsReal (W6 i)) (hb7 : ∀ i, IsReal (b7 i))
    (hW8 : ∀ i, IsReal (W8 i)) (hb9 : ∀ i, IsReal (b9 i)) (b : Fin 4096) (t : Fin 50) (f : Fin 64) :
    IsReal (hidS n1 n2 A4 A5 W6 b7 W8 b9 b t f) :=
  isReal_dense hW8 hb9 (fun k => isReal_dense hW6 hb7 (isReal_cat (fun _ => hA4 _) (fun _ => hA5 _)) k) f

/-- And so are the scores. -/
theorem isReal_scoreS (hA3 : ∀ i, IsReal (A3 i)) (hA4 : ∀ i, IsReal (A4 i)) (hA5 : ∀ i, IsReal (A5 i))
    (hW6 : ∀ i, IsReal (W6 i)) (hb7 : ∀ i, IsReal (b7 i)) (hW8 : ∀ i, IsReal (W8 i)) (hb9 : ∀ i, IsReal (b9 i))
    (hW10 : ∀ i, IsReal (W10 i)) (hb11 : ∀ i, IsReal (b11 i)) (hW12 : ∀ i, IsReal (W12 i)) (hb13 : ∀ i, IsReal (b13 i))
    (hw14 : ∀ i, IsReal (w14 i)) (hb15 : ∀ i, IsReal (b15 i)) (b : Fin 4096) (t : Fin 50) :
    IsReal (scoreS n0 n1 n2 A3 A4 A5 W6 b7 W8 b9 W10 b11 W12 b13 w14 b15 b t) :=
  (IsReal.dot (fun k => isReal_dense hW12 hb13 (fun k' => isReal_dense hW10 hb11
    (isReal_cat (fun j => isReal_hidS n1 n2 A4 A5 W6 b7 W8 b9 hA4 hA5 hW6 hb7 hW8 hb9 b t j) (fun _ => hA3 _)) k') k)
    (fun _ => hw14 _)).add (hb15 _)

/-- The specification's weight with the row maximum spelt as the fold of `max` from `⊥`. -/
theorem expoS_eq (b : Fin 4096) (t : Fin 50) :
    expoS n0 n1 n2 A3 A4 A5 W6 b7 W8 b9 W10 b11 W12 b13 w14 b15 b t
      = Ideal.exp (scoreS n0 n1 n2 A3 A4 A5 W6 b7 W8 b9 W10 b11 W12 b13 w14 b15 b t
          - (Finset.univ : Finset (Fin 50)).fold Max.max ⊥ (fun t' => scoreS n0 n1 n2 A3 A4 A5 W6 b7 W8 b9 W10 b11 W12 b13 w14 b15 b t')) := by
  unfold expoS
  rw [max_fold_eq]

/-- The kernel's weight is the specification's. -/
theorem eK_eq (h2 : ∀ i, (n2 i).toNat < 5) (b : Fin 4096) (t : Fin 50) :
    eK n0 n1 n2 A3 A4 A5 W6 b7 W8 b9 W10 b11 W12 b13 w14 b15 b t = expoS n0 n1 n2 A3 A4 A5 W6 b7 W8 b9 W10 b11 W12 b13 w14 b15 b t := by
  rw [expoS_eq]
  unfold eK
  rw [logitK_eq n0 n1 n2 A3 A4 A5 W6 b7 W8 b9 W10 b11 W12 b13 w14 b15 h2 b t, funext fun t' => logitK_eq n0 n1 n2 A3 A4 A5 W6 b7 W8 b9 W10 b11 W12 b13 w14 b15 h2 b t']

/-- THE KERNEL'S ARRANGEMENT IS THE SPECIFICATION: with finite tables, weights and biases and the small table's indices
    in range, dividing the weighted sum once by the sum of the weights is summing with the normalised weights. -/
theorem GK_eq_G (hA3 : ∀ i, IsReal (A3 i)) (hA4 : ∀ i, IsReal (A4 i)) (hA5 : ∀ i, IsReal (A5 i))
    (hW6 : ∀ i, IsReal (W6 i)) (hb7 : ∀ i, IsReal (b7 i)) (hW8 : ∀ i, IsReal (W8 i)) (hb9 : ∀ i, IsReal (b9 i))
    (hW10 : ∀ i, IsReal (W10 i)) (hb11 : ∀ i, IsReal (b11 i)) (hW12 : ∀ i, IsReal (W12 i)) (hb13 : ∀ i, IsReal (b13 i))
    (hw14 : ∀ i, IsReal (w14 i)) (hb15 : ∀ i, IsReal (b15 i))
    (h2 : ∀ i, (n2 i).toNat < 5) (b : Fin 4096) (f : Fin 64) :
    GK n0 n1 n2 A3 A4 A5 W6 b7 W8 b9 W10 b11 W12 b13 w14 b15 b f = G n0 n1 n2 A3 A4 A5 W6 b7 W8 b9 W10 b11 W12 b13 w14 b15 b f := by
  haveI : Nonempty (Fin 50) := ⟨⟨0, by decide⟩⟩
  have hsc : ∀ t, IsReal (scoreS n0 n1 n2 A3 A4 A5 W6 b7 W8 b9 W10 b11 W12 b13 w14 b15 b t) := fun t =>
    isReal_scoreS n0 n1 n2 A3 A4 A5 W6 b7 W8 b9 W10 b11 W12 b13 w14 b15 hA3 hA4 hA5 hW6 hb7 hW8 hb9 hW10 hb11 hW12 hb13 hw14 hb15 b t
  have hmx : IsReal ((Finset.univ : Finset (Fin 50)).fold Max.max ⊥ (fun t' => scoreS n0 n1 n2 A3 A4 A5 W6 b7 W8 b9 W10 b11 W12 b13 w14 b15 b t')) :=
    IsReal.fold_max_univ hsc
  have he : ∀ t, IsReal (expoS n0 n1 n2 A3 A4 A5 W6 b7 W8 b9 W10 b11 W12 b13 w14 b15 b t) := fun t => by
    rw [expoS_eq]; exact ((hsc t).sub hmx).exp
  have hs0 : ∑ t : Fin 50, expoS n0 n1 n2 A3 A4 A5 W6 b7 W8 b9 W10 b11 W12 b13 w14 b15 b t ≠ 0 := by
    rw [funext fun t => expoS_eq n0 n1 n2 A3 A4 A5 W6 b7 W8 b9 W10 b11 W12 b13 w14 b15 b t]
    exact softmax_denominator_ne_zero hsc
  unfold GK G
  rw [zero_add, zero_add, funext fun t => eK_eq n0 n1 n2 A3 A4 A5 W6 b7 W8 b9 W10 b11 W12 b13 w14 b15 h2 b t]
  have hoK : (∑ t : Fin 50, oK n1 n2 A4 A5 W6 b7 W8 b9 b t f * expoS n0 n1 n2 A3 A4 A5 W6 b7 W8 b9 W10 b11 W12 b13 w14 b15 b t)
      = ∑ t : Fin 50, hidS n1 n2 A4 A5 W6 b7 W8 b9 b t f * expoS n0 n1 n2 A3 A4 A5 W6 b7 W8 b9 W10 b11 W12 b13 w14 b15 b t :=
    Finset.sum_congr rfl fun t _ => by rw [oK_eq n1 n2 A4 A5 W6 b7 W8 b9 h2 b t]
  rw [hoK]
  exact (sum_univ_mul_div_sum_eq_of_real
    (fun t => isReal_hidS n1 n2 A4 A5 W6 b7 W8 b9 hA4 hA5 hW6 hb7 hW8 hb9 b t f) he hs0).symm

end Final

end Cert.Proof.Spec

end
-- ==== Proof.KPreFinite.lean ====
/-
  The finiteness the claim's precondition gives: the input predicate's first thirteen conjuncts say, of each float
  argument array, that every entry's absolute value is below plus infinity — a reduction by `and` of the array of
  comparison bits — so every entry of every float argument is a real number.
-/
import proofs.«217981_g19061064860210_cont_8to1_1320_37_alg».proof.Proof.KPreArgs2
import proofs.«217981_g19061064860210_cont_8to1_1320_37_alg».proof.Proof.LibERealFinite

noncomputable section

namespace Cert.Proof.KI

open Idealize.ShloMosaic Idealize.SL.Sem Idealize.ShloMosaic.LibERealLaws

section Predicate

open Cert.Pre_input_domain

variable [hF : Cert.Pre_input_domain.Facts]

/-- The input predicate all ones at the ideal values makes every entry of the thirteen float arguments real. -/
theorem fn_real (a0 : IVec S4096 32) (a1 : IVec S4096x50 32) (a2 : IVec S4096x50 32) (a3 : FVec Ideal S100000x64 .f32) (a4 : FVec Ideal S100000x64 .f32) (a5 : FVec Ideal S5x64 .f32) (a6 : FVec Ideal S64x128 .f32) (a7 : FVec Ideal S64 .f32) (a8 : FVec Ideal S64x64 .f32) (a9 : FVec Ideal S64 .f32) (a10 : FVec Ideal S64x128 .f32) (a11 : FVec Ideal S64 .f32) (a12 : FVec Ideal S64x64 .f32) (a13 : FVec Ideal S64 .f32) (a14 : FVec Ideal S1x64 .f32) (a15 : FVec Ideal S1 .f32)
    (h : fn (F := Ideal) a0 a1 a2 a3 a4 a5 a6 a7 a8 a9 a10 a11 a12 a13 a14 a15 = fun _ => 1#1) :
    (∀ i, IsReal (a3 i)) ∧ (∀ i, IsReal (a4 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) ∧ (∀ i, IsReal (a12 i)) ∧ (∀ i, IsReal (a13 i)) ∧ (∀ i, IsReal (a14 i)) ∧ (∀ i, IsReal (a15 i)) := by
  have h0 : fn (F := Ideal) a0 a1 a2 a3 a4 a5 a6 a7 a8 a9 a10 a11 a12 a13 a14 a15 (fun a => a.elim0) = 1#1 := congrFun h _
  have e77 := (IntOp.andi_eq_one.1 h0).1
  have e70 := (IntOp.andi_eq_one.1 e77).1
  have e63 := (IntOp.andi_eq_one.1 e70).1
  have p63 := IntOp.andi_eq_one.1 e63
  have p58 := IntOp.andi_eq_one.1 p63.1
  have p53 := IntOp.andi_eq_one.1 p58.1
  have p48 := IntOp.andi_eq_one.1 p53.1
  have p43 := IntOp.andi_eq_one.1 p48.1
  have p38 := IntOp.andi_eq_one.1 p43.1
  have p33 := IntOp.andi_eq_one.1 p38.1
  have p28 := IntOp.andi_eq_one.1 p33.1
  have p23 := IntOp.andi_eq_one.1 p28.1
  have p18 := IntOp.andi_eq_one.1 p23.1
  have p13 := IntOp.andi_eq_one.1 p18.1
  have p8 := IntOp.andi_eq_one.1 p13.1
  exact ⟨fun i => isReal_of_cmp_abs_lt_inf (Host.reduce_andi_all _ _ _ _ _ p8.1 i),
    fun i => isReal_of_cmp_abs_lt_inf (Host.reduce_andi_all _ _ _ _ _ p8.2 i),
    fun i => isReal_of_cmp_abs_lt_inf (Host.reduce_andi_all _ _ _ _ _ p13.2 i),
    fun i => isReal_of_cmp_abs_lt_inf (Host.reduce_andi_all _ _ _ _ _ p18.2 i),
    fun i => isReal_of_cmp_abs_lt_inf (Host.reduce_andi_all _ _ _ _ _ p23.2 i),
    fun i => isReal_of_cmp_abs_lt_inf (Host.reduce_andi_all _ _ _ _ _ p28.2 i),
    fun i => isReal_of_cmp_abs_lt_inf (Host.reduce_andi_all _ _ _ _ _ p33.2 i),
    fun i => isReal_of_cmp_abs_lt_inf (Host.reduce_andi_all _ _ _ _ _ p38.2 i),
    fun i => isReal_of_cmp_abs_lt_inf (Host.reduce_andi_all _ _ _ _ _ p43.2 i),
    fun i => isReal_of_cmp_abs_lt_inf (Host.reduce_andi_all _ _ _ _ _ p48.2 i),
    fun i => isReal_of_cmp_abs_lt_inf (Host.reduce_andi_all _ _ _ _ _ p53.2 i),
    fun i => isReal_of_cmp_abs_lt_inf (Host.reduce_andi_all _ _ _ _ _ p58.2 i),
    fun i => isReal_of_cmp_abs_lt_inf (Host.reduce_andi_all _ _ _ _ _ p63.2 i)⟩

end Predicate

section Claim

open Cert.KernelIdeal Idealize.ShloMosaic.TcCoe

/-- From the claim's precondition: on every device every entry of every float argument is real. -/
theorem pre_real (m : (ℓ : Loc nD τ sig) → Buf (Elt Ideal) ℓ)
    (hpre : Cert.Pre_KernelIdeal (hPre_input_domain := Cert.Pre_input_domain.Gen.facts) m) (d : Dev nD) :
    (∀ i, IsReal ((m ((SparseCore.T (τ := τ) d).loc main_arg3) : FVec Ideal S100000x64 .f32) i))
    ∧ (∀ i, IsReal ((m ((SparseCore.T (τ := τ) d).loc main_arg4) : FVec Ideal S100000x64 .f32) i))
    ∧ (∀ i, IsReal ((m ((SparseCore.T (τ := τ) d).loc main_arg5) : FVec Ideal S5x64 .f32) i))
    ∧ (∀ i, IsReal ((m ((SparseCore.T (τ := τ) d).loc main_arg6) : FVec Ideal S64x128 .f32) i))
    ∧ (∀ i, IsReal ((m ((SparseCore.T (τ := τ) d).loc main_arg7) : FVec Ideal S64 .f32) i))
    ∧ (∀ i, IsReal ((m ((SparseCore.T (τ := τ) d).loc main_arg8) : FVec Ideal S64x64 .f32) i))
    ∧ (∀ i, IsReal ((m ((SparseCore.T (τ := τ) d).loc main_arg9) : FVec Ideal S64 .f32) i))
    ∧ (∀ i, IsReal ((m ((SparseCore.T (τ := τ) d).loc main_arg10) : FVec Ideal S64x128 .f32) i))
    ∧ (∀ i, IsReal ((m ((SparseCore.T (τ := τ) d).loc main_arg11) : FVec Ideal S64 .f32) i))
    ∧ (∀ i, IsReal ((m ((SparseCore.T (τ := τ) d).loc main_arg12) : FVec Ideal S64x64 .f32) i))
    ∧ (∀ i, IsReal ((m ((SparseCore.T (τ := τ) d).loc main_arg13) : FVec Ideal S64 .f32) i))
    ∧ (∀ i, IsReal ((m ((SparseCore.T (τ := τ) d).loc main_arg14) : FVec Ideal S1x64 .f32) i))
    ∧ (∀ i, IsReal ((m ((SparseCore.T (τ := τ) d).loc main_arg15) : FVec Ideal S1 .f32) i)) :=
  fn_real (hF := Cert.Pre_input_domain.Gen.facts) _ _ _ _ _ _ _ _ _ _ _ _ _ _ _ _ (hpre d)

end Claim

end Cert.Proof.KI

end
-- ==== Proof.KTarget.lean ====
/-
  The value both programs must end with, named from the kernel program's own memory: under the claim's hypotheses (the
  kernel program's memory satisfies the input precondition; the reference's memory agrees with it on the sixteen
  arguments) the reference's result on each device is the kernel's arrangement `GK` of the kernel program's
  arguments at every index — the reference is the specification `G` of its own arguments, those are the kernel
  program's, and under the precondition's finiteness and ranges `G` is `GK`.
-/
import proofs.«217981_g19061064860210_cont_8to1_1320_37_alg».proof.Proof.RefHalf
import proofs.«217981_g19061064860210_cont_8to1_1320_37_alg».proof.Proof.KSpec
import proofs.«217981_g19061064860210_cont_8to1_1320_37_alg».proof.Proof.KPreFinite

noncomputable section

namespace Cert.Proof.KI

open Idealize.ShloMosaic Idealize.ShloMosaic.TcCoe Idealize.SL.Sem Idealize.ShloMosaic.LibERealLaws

/-- The common value on device `c`, from the kernel program's memory, in the kernel's arrangement. -/
def target (m : (ℓ : Loc Cert.KernelIdeal.nD Cert.KernelIdeal.τ Cert.KernelIdeal.sig) → Buf (Elt Ideal) ℓ) (c : Dev Cert.KernelIdeal.nD) :
    (⟨2, ![4096, 64]⟩ : Shape).Idx → EReal := fun j =>
  Cert.Proof.Spec.GK ((m ((c.tc : Thread Cert.KernelIdeal.nD Cert.KernelIdeal.τ).loc Cert.KernelIdeal.main_arg0)) : IVec Cert.KernelIdeal.S4096 32)
    ((m ((c.tc : Thread Cert.KernelIdeal.nD Cert.KernelIdeal.τ).loc Cert.KernelIdeal.main_arg1)) : IVec Cert.KernelIdeal.S4096x50 32)
    ((m ((c.tc : Thread Cert.KernelIdeal.nD Cert.KernelIdeal.τ).loc Cert.KernelIdeal.main_arg2)) : IVec Cert.KernelIdeal.S4096x50 32)
    ((m ((c.tc : Thread Cert.KernelIdeal.nD Cert.KernelIdeal.τ).loc Cert.KernelIdeal.main_arg3)) : FVec Ideal Cert.KernelIdeal.S100000x64 .f32)
    ((m ((c.tc : Thread Cert.KernelIdeal.nD Cert.KernelIdeal.τ).loc Cert.KernelIdeal.main_arg4)) : FVec Ideal Cert.KernelIdeal.S100000x64 .f32)
    ((m ((c.tc : Thread Cert.KernelIdeal.nD Cert.KernelIdeal.τ).loc Cert.KernelIdeal.main_arg5)) : FVec Ideal Cert.KernelIdeal.S5x64 .f32)
    ((m ((c.tc : Thread Cert.KernelIdeal.nD Cert.KernelIdeal.τ).loc Cert.KernelIdeal.main_arg6)) : FVec Ideal Cert.KernelIdeal.S64x128 .f32)
    ((m ((c.tc : Thread Cert.KernelIdeal.nD Cert.KernelIdeal.τ).loc Cert.KernelIdeal.main_arg7)) : FVec Ideal Cert.KernelIdeal.S64 .f32)
    ((m ((c.tc : Thread Cert.KernelIdeal.nD Cert.KernelIdeal.τ).loc Cert.KernelIdeal.main_arg8)) : FVec Ideal Cert.KernelIdeal.S64x64 .f32)
    ((m ((c.tc : Thread Cert.KernelIdeal.nD Cert.KernelIdeal.τ).loc Cert.KernelIdeal.main_arg9)) : FVec Ideal Cert.KernelIdeal.S64 .f32)
    ((m ((c.tc : Thread Cert.KernelIdeal.nD Cert.KernelIdeal.τ).loc Cert.KernelIdeal.main_arg10)) : FVec Ideal Cert.KernelIdeal.S64x128 .f32)
    ((m ((c.tc : Thread Cert.KernelIdeal.nD Cert.KernelIdeal.τ).loc Cert.KernelIdeal.main_arg11)) : FVec Ideal Cert.KernelIdeal.S64 .f32)
    ((m ((c.tc : Thread Cert.KernelIdeal.nD Cert.KernelIdeal.τ).loc Cert.KernelIdeal.main_arg12)) : FVec Ideal Cert.KernelIdeal.S64x64 .f32)
    ((m ((c.tc : Thread Cert.KernelIdeal.nD Cert.KernelIdeal.τ).loc Cert.KernelIdeal.main_arg13)) : FVec Ideal Cert.KernelIdeal.S64 .f32)
    ((m ((c.tc : Thread Cert.KernelIdeal.nD Cert.KernelIdeal.τ).loc Cert.KernelIdeal.main_arg14)) : FVec Ideal Cert.KernelIdeal.S1x64 .f32)
    ((m ((c.tc : Thread Cert.KernelIdeal.nD Cert.KernelIdeal.τ).loc Cert.KernelIdeal.main_arg15)) : FVec Ideal Cert.KernelIdeal.S1 .f32)
    (j 0) (j 1)

theorem refOut_eq_target (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal (hPre_input_domain := Cert.Pre_input_domain.Gen.facts) m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (c : Dev Cert.ReferenceIdeal.nD) : Cert.ReferenceIdeal.RefRun.refOut m' c = target m c := by
  funext j
  unfold Cert.ReferenceIdeal.RefRun.refOut target
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]
  obtain ⟨r3, r4, r5, r6, r7, r8, r9, r10, r11, r12, r13, r14, r15⟩ := pre_real m hpre c
  exact (Cert.Proof.Spec.GK_eq_G _ _ _ _ _ _ _ _ _ _ _ _ _ _ _ _ r3 r4 r5 r6 r7 r8 r9 r10 r11 r12 r13 r14 r15
    (pre_arg2_lt m hpre c) (j 0) (j 1)).symm

end Cert.Proof.KI

end
-- ==== Proof.KAlgebraic.lean ====
/-
  The value conjunct reduced to the kernel program's run. The common value on each device is the kernel's arrangement
  of the kernel program's own arguments; the reference ends with it by its own run, the agreement of the two memories
  on the arguments and the identity of the specification with the kernel's arrangement under the precondition. What
  is left is the kernel program's run ending with that value and its arguments unchanged.
-/
import proofs.«217981_g19061064860210_cont_8to1_1320_37_alg».proof.Proof.KTarget
import proofs.«217981_g19061064860210_cont_8to1_1320_37_alg».proof.Proof.Gen.KernelIdeal

noncomputable section

namespace Cert.Proof.KI

open Idealize.ShloMosaic Idealize.ShloMosaic.TcCoe Idealize.SL.Sem

theorem algebraic_of_kernel
    (hk : ∀ (m : (ℓ : Loc Cert.KernelIdeal.nD Cert.KernelIdeal.τ Cert.KernelIdeal.sig) → Buf (Elt Ideal) ℓ) (g : Dev Cert.KernelIdeal.nD → PrngReg),
      Cert.Pre_KernelIdeal (hPre_input_domain := Cert.Pre_input_domain.Gen.facts) m →
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v63) = target m c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))) :
    Cert.algebraic_KernelIdeal_ReferenceIdeal (hKernelIdeal := Cert.KernelIdeal.Gen.facts) (hReferenceIdeal := Cert.ReferenceIdeal.Gen.facts)
      (hPre_input_domain := Cert.Pre_input_domain.Gen.facts) :=
  fun m g m' g' hpre hagree =>
    ⟨fun c => target m c, hk m g hpre,
      (θ_run (Cert.ReferenceIdeal.defs (F := Ideal)) _ _).mono
        (fun _ h c => ⟨((h c).1).trans (refOut_eq_target m m' hpre hagree c), (h c).2⟩)
        (Cert.ReferenceIdeal.RefRun.ref_half m m' g' hpre hagree)⟩

end Cert.Proof.KI

end
-- ==== Proof.LibRectReads.lean ====
/-
  Reading one rectangle of an array after writes through rectangles: a write through a disjoint rectangle is not seen, and
  the rectangle last written reads its payload. (General; the gather loop's value uses them chunk by chunk.)
-/
import Idealize.ShloMosaic.Lib.Writes

namespace Idealize.ShloMosaic.LibRectReads

open Idealize.ShloMosaic

variable {sig : RefSig} {κ : Kind} {sp : Space} {s : Shape} {e : EltTy} {Val : EltTy → Type}

/-- Rectangles with no common index address no common element of the buffer. -/
theorem slice_sets_disjoint (v : View sig κ sp s e) {r r' : Rect s} (h : Disjoint r.set r'.set) :
    Disjoint (v.slice r).set ((v.slice r').setOn Finset.univ) := by
  rw [View.setOn_univ, View.set_slice, View.set_slice]
  exact (Finset.disjoint_map v.emb).mpr h

/-- A write through a disjoint rectangle is not seen. -/
theorem read_write_disjoint (v : View sig κ sp s e) {r r' : Rect s} (h : Disjoint r.set r'.set)
    (f : v.ty.Contents Val) (w : r'.shape.Idx → Val e) :
    (v.slice r).read Val ((v.slice r').write Val f w Finset.univ) = (v.slice r).read Val f :=
  View.read_slice_write_slice_of_disjoint r r' f w Finset.univ (slice_sets_disjoint v h)

/-- The rectangle just written reads its payload. -/
theorem read_write_same (v : View sig κ sp s e) (r : Rect s) (f : v.ty.Contents Val) (w : r.shape.Idx → Val e) :
    (v.slice r).read Val ((v.slice r).write Val f w Finset.univ) = w :=
  View.read_write_univ (v := v.slice r) f w

end Idealize.ShloMosaic.LibRectReads
-- ==== Proof.ScVInv.lean ====
/-
  The gather loop's invariant carrying VALUES (first call). The spec is chunk by chunk: a finished chunk of the tile's rows of the
  result, read through its window, is the gather's payload for that chunk — the table's rows named by the chunk's 128
  fetched indices — in the spelling the indexed copy's rule gives it (`gatherPayload` over `rows`). Before trip `k` chunks
  `0 … 2k - 1` are finished and the first row buffer is about to receive chunk `2k`'s payload.
-/
import proofs.«217981_g19061064860210_cont_8to1_1320_37_alg».proof.Proof.ScTile
import proofs.«217981_g19061064860210_cont_8to1_1320_37_alg».proof.Proof.LibRectReads

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "ctW" => (Memref.whole Cert.KernelIdeal.main_v9_scv : Memref Cert.KernelIdeal.sig Kind.scVector Space.hbm Cert.KernelIdeal.S100000x128 EltTy.f32)
local notation "viW" => (Memref.whole Cert.KernelIdeal.main_v13_scv : Memref Cert.KernelIdeal.sig Kind.scVector Space.hbm Cert.KernelIdeal.S102400 EltTy.i32)
local notation "niW" => (Memref.whole Cert.KernelIdeal.main_v14_scv : Memref Cert.KernelIdeal.sig Kind.scVector Space.hbm Cert.KernelIdeal.S2048 EltTy.i32)
local notation "euW" => (Memref.whole Cert.KernelIdeal.main_v18_0_scv : Memref Cert.KernelIdeal.sig Kind.scVector Space.hbm Cert.KernelIdeal.S102400x128 EltTy.f32)
local notation "uvW" => (Memref.whole Cert.KernelIdeal.main_v18_1_scv : Memref Cert.KernelIdeal.sig Kind.scVector Space.hbm Cert.KernelIdeal.S2048x128 EltTy.f32)
local notation "s0W" => (Memref.whole Cert.KernelIdeal.cc1_scratch0 : Memref Cert.KernelIdeal.sig Kind.scVector Space.vmem Cert.KernelIdeal.S3200 EltTy.i32)
local notation "s1W" => (Memref.whole Cert.KernelIdeal.cc1_scratch1 : Memref Cert.KernelIdeal.sig Kind.scVector Space.vmem Cert.KernelIdeal.S64 EltTy.i32)
local notation "s2W" => (Memref.whole Cert.KernelIdeal.cc1_scratch2 : Memref Cert.KernelIdeal.sig Kind.scVector Space.vmem Cert.KernelIdeal.S128x128 EltTy.f32)
local notation "s3W" => (Memref.whole Cert.KernelIdeal.cc1_scratch3 : Memref Cert.KernelIdeal.sig Kind.scVector Space.vmem Cert.KernelIdeal.S128x128 EltTy.f32)
local notation "s4W" => (Memref.whole Cert.KernelIdeal.cc1_scratch4 : Memref Cert.KernelIdeal.sig Kind.scVector Space.vmem Cert.KernelIdeal.S64x128 EltTy.f32)

variable [FloatOps F]
variable (d : Dev nD) (L : grid1.Coords)

variable (O : CellTallies nD τ sig (HIx 2)) (W : Waits sig (HIx 2))
  (fct : Buf (Elt F) ((SparseCore.T (τ := τ) d).loc main_v9)) (q : PosShare TreeShare)
  (c0 : Buf (Elt F) ((thr d L).loc cc1_scratch0))
  (hc0 : ∀ (off : Fin 1 → ℕ) (h : ∀ a, off a + S128.size a ≤ S3200.size a) (x : S128.Idx),
      (View.read (Elt F) ((s0W).slice (Rect.unit (s := S3200) off S128.size h) (fun _ => rfl)).view c0 x).toNat < 100000)

omit [FloatOps F] in
theorem gEven_inb (j : ℕ) (hj : j ≤ 12) : ∀ a, (![256 * j] : Fin 1 → ℕ) a + S128.size a ≤ S3200.size a := by
  intro a; fin_cases a; show 256 * j + 128 ≤ 3200; omega
omit [FloatOps F] in
theorem gOdd_inb (j : ℕ) (hj : j + 1 ≤ 12) : ∀ a, (![256 * j + 128] : Fin 1 → ℕ) a + S128.size a ≤ S3200.size a := by
  intro a; fin_cases a; show 256 * j + 128 + 128 ≤ 3200; omega

/-- The payload of the gather whose list is window `off` of the fetched indices: row `r` of it is the table's row named by the
    window's `r`-th entry. -/
def Gpay (off : Fin 1 → ℕ) (hoff : ∀ a, off a + S128.size a ≤ S3200.size a) : S128x128.Idx → Elt F .f32 :=
  SparseCore.gatherPayload gathers_S100000x128_S128x128 (View.read (Elt F) (ctS).view fct)
    (SparseCore.rows (View.read (Elt F) ((s0W).slice (Rect.unit (s := S3200) off S128.size hoff) (fun _ => rfl)).view c0) rfl (hc0 off hoff))

/-- Chunks `0 … 2k - 1` of the tile's rows hold their payloads. -/
def chunksOK (k : ℕ) (fe : Buf (Elt F) ((SparseCore.T (τ := τ) d).loc main_v18_0)) : Prop :=
  ∀ (j : ℕ) (hj : j + 1 ≤ 12), j < k →
    View.read (Elt F) (euEven L j hj).view fe = Gpay d L fct c0 hc0 ![256 * j] (gEven_inb j (by omega))
    ∧ View.read (Elt F) (euOdd L j hj).view fe = Gpay d L fct c0 hc0 ![256 * j + 128] (gOdd_inb j hj)

/-- The first row buffer holds (or is about to receive) chunk `2k`'s payload. -/
def rowsOK (k : ℕ) (hk : k ≤ 12) (g2 : Buf (Elt F) ((thr d L).loc cc1_scratch2)) : Prop :=
  View.read (Elt F) (s2W).view g2 = Gpay d L fct c0 hc0 ![256 * k] (gEven_inb k hk)

omit [FloatOps F] in
/-- The payload does not depend on how the window's offsets are spelt. -/
theorem Gpay_congr {off off' : Fin 1 → ℕ} (e : off = off') (h : ∀ a, off a + S128.size a ≤ S3200.size a)
    (h' : ∀ a, off' a + S128.size a ≤ S3200.size a) : Gpay d L fct c0 hc0 off h = Gpay d L fct c0 hc0 off' h' := by
  subst e; rfl

omit [FloatOps F] in
/-- A buffer written whole reads the payload. -/
theorem read_writes_whole {κ : Kind} {sp : Space} {s : Shape} {e : EltTy} (v : View sig κ sp s e) (f : v.ty.Contents (Elt F))
    (w : s.Idx → Elt F e) : v.read (Elt F) (v.writes (Elt F) f [⟨Rect.whole s, w⟩]) = w := by
  rw [← View.write_univ_eq_writes_whole v f [] w, View.writes_nil]
  exact View.read_write_univ f w

omit [FloatOps F] in
/-- One trip's effect on the result's values: the first row buffer's chunk `2k` and the second's chunk `2k + 1` written to
    their windows. -/
theorem trip_chunks (k : ℕ) (hk : k + 1 ≤ 12)
    (off6 off9 : Fin 2 → ℕ) (h6 : ∀ a, off6 a + S128x128.size a ≤ S102400x128.size a) (h9 : ∀ a, off9 a + S128x128.size a ≤ S102400x128.size a)
    (e6 : off6 = ![6400 * (L 1).val + 3200 * (L 0).val + 256 * k, 0]) (e9 : off9 = ![6400 * (L 1).val + 3200 * (L 0).val + 256 * k + 128, 0])
    (off5 : Fin 1 → ℕ) (h5 : ∀ a, off5 a + S128.size a ≤ S3200.size a)
    (e5 : off5 = ![256 * k + 128])
    (fe : Buf (Elt F) ((SparseCore.T (τ := τ) d).loc main_v18_0)) (g2 : Buf (Elt F) ((thr d L).loc cc1_scratch2))
    (g3 : Buf (Elt F) ((thr d L).loc cc1_scratch3))
    (hOK : chunksOK d L fct c0 hc0 k fe) (hR : rowsOK d L fct c0 hc0 k (by omega) g2) :
    chunksOK d L fct c0 hc0 (k + 1)
      (View.write (Elt F) ((euW).slice (Rect.unit (s := S102400x128) off9 S128x128.size h9) (fun _ => rfl)).view
        (View.write (Elt F) ((euW).slice (Rect.unit (s := S102400x128) off6 S128x128.size h6) (fun _ => rfl)).view fe
          (ReadAs.same.apply (View.read (Elt F) (s2W).view g2)) Finset.univ)
        (ReadAs.same.apply (View.read (Elt F) (s3W).view
          ((s3W).view.writes (Elt F) g3 [⟨Rect.whole cc1_scratch3.ty.shape, Gpay d L fct c0 hc0 off5 h5⟩]))) Finset.univ) := by
  subst e6 e9 e5
  · intro j hj hjk
    -- the two windows written in this trip
    have d69 : Disjoint (Rect.unit (s := S102400x128) ![6400 * (L 1).val + 3200 * (L 0).val + 256 * k, 0] S128x128.size h6).set
        (Rect.unit (s := S102400x128) ![6400 * (L 1).val + 3200 * (L 0).val + 256 * k + 128, 0] S128x128.size h9).set :=
      Rect.unit_disjoint 0 (Or.inl (by show 6400 * (L 1).val + 3200 * (L 0).val + 256 * k + 128 ≤ 6400 * (L 1).val + 3200 * (L 0).val + 256 * k + 128; omega))
    rcases Nat.lt_or_ge j k with hlt | hge
    · -- an earlier chunk pair: neither write is seen
      obtain ⟨hE, hO⟩ := hOK j hj hlt
      have far : ∀ (r : Rect S102400x128)
          (hd6 : Disjoint r.set (Rect.unit (s := S102400x128) ![6400 * (L 1).val + 3200 * (L 0).val + 256 * k, 0] S128x128.size h6).set)
          (hd9 : Disjoint r.set (Rect.unit (s := S102400x128) ![6400 * (L 1).val + 3200 * (L 0).val + 256 * k + 128, 0] S128x128.size h9).set)
          (p6 p9 : S128x128.Idx → Elt F .f32),
          View.read (Elt F) ((euW).view.slice r)
            (View.write (Elt F) ((euW).view.slice (Rect.unit (s := S102400x128) ![6400 * (L 1).val + 3200 * (L 0).val + 256 * k + 128, 0] S128x128.size h9))
              (View.write (Elt F) ((euW).view.slice (Rect.unit (s := S102400x128) ![6400 * (L 1).val + 3200 * (L 0).val + 256 * k, 0] S128x128.size h6)) fe p6 Finset.univ)
              p9 Finset.univ)
            = View.read (Elt F) ((euW).view.slice r) fe :=
        fun r hd6 hd9 p6 p9 => (LibRectReads.read_write_disjoint (euW).view hd9 _ _).trans (LibRectReads.read_write_disjoint (euW).view hd6 _ _)
      refine ⟨?_, ?_⟩
      · refine Eq.trans ?_ hE
        exact far _ (Rect.unit_disjoint 0 (Or.inl (by show 6400 * (L 1).val + 3200 * (L 0).val + 256 * j + 128 ≤ 6400 * (L 1).val + 3200 * (L 0).val + 256 * k; omega)))
          (Rect.unit_disjoint 0 (Or.inl (by show 6400 * (L 1).val + 3200 * (L 0).val + 256 * j + 128 ≤ 6400 * (L 1).val + 3200 * (L 0).val + 256 * k + 128; omega))) _ _
      · refine Eq.trans ?_ hO
        exact far _ (Rect.unit_disjoint 0 (Or.inl (by show 6400 * (L 1).val + 3200 * (L 0).val + 256 * j + 128 + 128 ≤ 6400 * (L 1).val + 3200 * (L 0).val + 256 * k; omega)))
          (Rect.unit_disjoint 0 (Or.inl (by show 6400 * (L 1).val + 3200 * (L 0).val + 256 * j + 128 + 128 ≤ 6400 * (L 1).val + 3200 * (L 0).val + 256 * k + 128; omega))) _ _
    · -- this trip's pair
      have hjk' : j = k := by omega
      subst hjk'
      refine ⟨?_, ?_⟩
      · -- the even chunk: written first, not touched by the second write
        refine Eq.trans (LibRectReads.read_write_disjoint (euW).view d69 _ _) ?_
        refine Eq.trans (LibRectReads.read_write_same (euW).view _ fe _) ?_
        exact hR
      · -- the odd chunk: the second write's payload, the second row buffer just gathered
        refine Eq.trans (LibRectReads.read_write_same (euW).view _ _ _) ?_
        show View.read (Elt F) (s3W).view _ = _
        rw [read_writes_whole]

omit [FloatOps F] in
/-- One trip's effect on the values: the first row buffer's chunk `2k` and the second's chunk `2k + 1` written to their windows,
    the first row buffer refilled with chunk `2k + 2`. -/
theorem trip_value (k : ℕ) (hk : k + 1 ≤ 12)
    (off6 off9 : Fin 2 → ℕ) (h6 : ∀ a, off6 a + S128x128.size a ≤ S102400x128.size a) (h9 : ∀ a, off9 a + S128x128.size a ≤ S102400x128.size a)
    (e6 : off6 = ![6400 * (L 1).val + 3200 * (L 0).val + 256 * k, 0]) (e9 : off9 = ![6400 * (L 1).val + 3200 * (L 0).val + 256 * k + 128, 0])
    (off5 off8 : Fin 1 → ℕ) (h5 : ∀ a, off5 a + S128.size a ≤ S3200.size a) (h8 : ∀ a, off8 a + S128.size a ≤ S3200.size a)
    (e5 : off5 = ![256 * k + 128]) (e8 : off8 = ![256 * (k + 1)])
    (fe : Buf (Elt F) ((SparseCore.T (τ := τ) d).loc main_v18_0)) (g2 : Buf (Elt F) ((thr d L).loc cc1_scratch2))
    (g3 : Buf (Elt F) ((thr d L).loc cc1_scratch3))
    (hOK : chunksOK d L fct c0 hc0 k fe) (hR : rowsOK d L fct c0 hc0 k (by omega) g2) :
    chunksOK d L fct c0 hc0 (k + 1)
      (View.write (Elt F) ((euW).slice (Rect.unit (s := S102400x128) off9 S128x128.size h9) (fun _ => rfl)).view
        (View.write (Elt F) ((euW).slice (Rect.unit (s := S102400x128) off6 S128x128.size h6) (fun _ => rfl)).view fe
          (ReadAs.same.apply (View.read (Elt F) (s2W).view g2)) Finset.univ)
        (ReadAs.same.apply (View.read (Elt F) (s3W).view
          ((s3W).view.writes (Elt F) g3 [⟨Rect.whole cc1_scratch3.ty.shape, Gpay d L fct c0 hc0 off5 h5⟩]))) Finset.univ)
    ∧ rowsOK d L fct c0 hc0 (k + 1) (by omega)
        ((s2W).view.writes (Elt F) g2 [⟨Rect.whole cc1_scratch2.ty.shape, Gpay d L fct c0 hc0 off8 h8⟩]) := by
  subst e6 e9 e5 e8
  refine ⟨?_, ?_⟩
  · intro j hj hjk
    -- the two windows written in this trip
    have d69 : Disjoint (Rect.unit (s := S102400x128) ![6400 * (L 1).val + 3200 * (L 0).val + 256 * k, 0] S128x128.size h6).set
        (Rect.unit (s := S102400x128) ![6400 * (L 1).val + 3200 * (L 0).val + 256 * k + 128, 0] S128x128.size h9).set :=
      Rect.unit_disjoint 0 (Or.inl (by show 6400 * (L 1).val + 3200 * (L 0).val + 256 * k + 128 ≤ 6400 * (L 1).val + 3200 * (L 0).val + 256 * k + 128; omega))
    rcases Nat.lt_or_ge j k with hlt | hge
    · -- an earlier chunk pair: neither write is seen
      obtain ⟨hE, hO⟩ := hOK j hj hlt
      have far : ∀ (r : Rect S102400x128)
          (hd6 : Disjoint r.set (Rect.unit (s := S102400x128) ![6400 * (L 1).val + 3200 * (L 0).val + 256 * k, 0] S128x128.size h6).set)
          (hd9 : Disjoint r.set (Rect.unit (s := S102400x128) ![6400 * (L 1).val + 3200 * (L 0).val + 256 * k + 128, 0] S128x128.size h9).set)
          (p6 p9 : S128x128.Idx → Elt F .f32),
          View.read (Elt F) ((euW).view.slice r)
            (View.write (Elt F) ((euW).view.slice (Rect.unit (s := S102400x128) ![6400 * (L 1).val + 3200 * (L 0).val + 256 * k + 128, 0] S128x128.size h9))
              (View.write (Elt F) ((euW).view.slice (Rect.unit (s := S102400x128) ![6400 * (L 1).val + 3200 * (L 0).val + 256 * k, 0] S128x128.size h6)) fe p6 Finset.univ)
              p9 Finset.univ)
            = View.read (Elt F) ((euW).view.slice r) fe :=
        fun r hd6 hd9 p6 p9 => (LibRectReads.read_write_disjoint (euW).view hd9 _ _).trans (LibRectReads.read_write_disjoint (euW).view hd6 _ _)
      refine ⟨?_, ?_⟩
      · refine Eq.trans ?_ hE
        exact far _ (Rect.unit_disjoint 0 (Or.inl (by show 6400 * (L 1).val + 3200 * (L 0).val + 256 * j + 128 ≤ 6400 * (L 1).val + 3200 * (L 0).val + 256 * k; omega)))
          (Rect.unit_disjoint 0 (Or.inl (by show 6400 * (L 1).val + 3200 * (L 0).val + 256 * j + 128 ≤ 6400 * (L 1).val + 3200 * (L 0).val + 256 * k + 128; omega))) _ _
      · refine Eq.trans ?_ hO
        exact far _ (Rect.unit_disjoint 0 (Or.inl (by show 6400 * (L 1).val + 3200 * (L 0).val + 256 * j + 128 + 128 ≤ 6400 * (L 1).val + 3200 * (L 0).val + 256 * k; omega)))
          (Rect.unit_disjoint 0 (Or.inl (by show 6400 * (L 1).val + 3200 * (L 0).val + 256 * j + 128 + 128 ≤ 6400 * (L 1).val + 3200 * (L 0).val + 256 * k + 128; omega))) _ _
    · -- this trip's pair
      have hjk' : j = k := by omega
      subst hjk'
      refine ⟨?_, ?_⟩
      · -- the even chunk: written first, not touched by the second write
        refine Eq.trans (LibRectReads.read_write_disjoint (euW).view d69 _ _) ?_
        refine Eq.trans (LibRectReads.read_write_same (euW).view _ fe _) ?_
        exact hR
      · -- the odd chunk: the second write's payload, the second row buffer just gathered
        refine Eq.trans (LibRectReads.read_write_same (euW).view _ _ _) ?_
        show View.read (Elt F) (s3W).view _ = _
        rw [read_writes_whole]
  · show View.read (Elt F) (s2W).view _ = _
    rw [read_writes_whole]

/-! ## The invariant with values -/

omit [FloatOps F] in
/-- The in-flight gather's pieces do not depend on how its list window's offsets are spelt. -/
theorem gath0_respell (off off' : Fin 1 → ℕ) (h : ∀ a, off a + S128.size a ≤ S3200.size a) (h' : ∀ a, off' a + S128.size a ≤ S3200.size a)
    (e : off = off') (g2 : Buf (Elt F) ((thr d L).loc cc1_scratch2)) :
    gath0 d L fct q c0 off h g2 = gath0 d L fct q c0 off' h' g2 := by
  subst e; rfl

omit [FloatOps F] in
/-- The same with the pieces written out. -/
theorem gath0_respell' (off off' : Fin 1 → ℕ) (h : ∀ a, off a + S128.size a ≤ S3200.size a) (h' : ∀ a, off' a + S128.size a ≤ S3200.size a)
    (e : off = off') (g2 : Buf (Elt F) ((thr d L).loc cc1_scratch2)) :
    (iprop(Transfers.Flight countersEmb (thr d L) (SemLoc.dma cc1_scratch5.sem) (default : HIx 2) 524288
          iprop((((s2W).view.loc (thr d L) ↦[(s2W).view.set]{fullShare} g2)
            ∗ ((s0W).view.loc (thr d L) ↦[(s0Win off h).view.set]{fullShare} c0))
            ∗ ((ctW).view.loc (thr d L) ↦[(ctS).view.set]{Transfers.shareTok q 3 1} fct))
      ∗ ((s2W).view.loc (thr d L) ↦[Finset.univ \ (s2W).view.set]{fullShare} g2)
      ∗ ((s0W).view.loc (thr d L) ↦[Finset.univ \ (s0Win off h).view.set]{fullShare} c0)
      ∗ ((ctW).view.loc (thr d L) ↦[Finset.univ \ (ctS).view.set]{Transfers.shareTok q 3 1} fct)) : sProp 𝕄)
      = iprop(Transfers.Flight countersEmb (thr d L) (SemLoc.dma cc1_scratch5.sem) (default : HIx 2) 524288
          iprop((((s2W).view.loc (thr d L) ↦[(s2W).view.set]{fullShare} g2)
            ∗ ((s0W).view.loc (thr d L) ↦[(s0Win off' h').view.set]{fullShare} c0))
            ∗ ((ctW).view.loc (thr d L) ↦[(ctS).view.set]{Transfers.shareTok q 3 1} fct))
      ∗ ((s2W).view.loc (thr d L) ↦[Finset.univ \ (s2W).view.set]{fullShare} g2)
      ∗ ((s0W).view.loc (thr d L) ↦[Finset.univ \ (s0Win off' h').view.set]{fullShare} c0)
      ∗ ((ctW).view.loc (thr d L) ↦[Finset.univ \ (ctS).view.set]{Transfers.shareTok q 3 1} fct)) := by
  subst e; rfl

/-- Before the first trip, with values: chunk 0's payload on its way into the first row buffer. -/
def inv0V : sProp 𝕄 :=
  iprop(keep d L O W fct q ∗ ∃ g2 g3 fe, ⌜rowsOK d L fct c0 hc0 0 (by decide) g2 ∧ chunksOK d L fct c0 hc0 0 fe⌝
      ∗ gath0 d L fct q c0 ![256 * 0] (gEven_inb 0 (by decide)) g2
      ∗ semVal (thr d L, SemLoc.dma cc1_scratch7.sem) 0
      ∗ ((s3W).view.loc (thr d L) ↦{fullShare} g3) ∗ semVal (thr d L, SemLoc.dma cc1_scratch8.sem) 0
      ∗ ((euW).view.loc (thr d L) ↦[(euW).view.setOn (tileRect L).set]{fullShare} fe))

/-- Before trip `j + 1 < 12`, with values: chunks `0 … 2j + 1` finished, chunk `2j + 2`'s payload on its way. -/
def invMidV (j : ℕ) (hj : j + 1 < 12) : sProp 𝕄 :=
  iprop(keep d L O W fct q ∗ ∃ g2 g3 fe, ⌜rowsOK d L fct c0 hc0 (j + 1) (by omega) g2 ∧ chunksOK d L fct c0 hc0 (j + 1) fe⌝
      ∗ gath0 d L fct q c0 ![256 * (j + 1)] (gEven_inb (j + 1) (by omega)) g2
      ∗ semVal (thr d L, SemLoc.dma cc1_scratch7.sem) 0
      ∗ wout1 d L j (Nat.le_of_lt hj) fe g3
      ∗ ((euW).view.loc (thr d L) ↦[(euW).view.setOn (tileRect L).set \ (euOdd L j (Nat.le_of_lt hj)).view.set]{fullShare} fe))

set_option maxHeartbeats 1000000 in
/-- The first trip, with values. -/
theorem trip0V (hO : ∀ g, O g none = 0) (k : Fin k1_t1_loop.trips) (h0 : k.val = 0) :
    inv0V d L O W fct q c0 hc0
      ⊢ wp frame (wpE (defs₀ (F := F)) 𝒱₀ (thr d L) none) Set.univ
          (k1_t1_body L ctW (Memref.isWhole_whole _) viW (Memref.isWhole_whole _) niW (Memref.isWhole_whole _)
            euW (Memref.isWhole_whole _) uvW (Memref.isWhole_whole _)
            s0W (Memref.isWhole_whole _) s1W (Memref.isWhole_whole _) s2W (Memref.isWhole_whole _)
            s3W (Memref.isWhole_whole _) s4W (Memref.isWhole_whole _)
            cc1_scratch5 cc1_scratch6 cc1_scratch7 cc1_scratch8 cc1_scratch9 cc1_scoped0 cc1_scoped1 cc1_scoped2 k ⟨⟩)
          fun _ => invMidV d L O W fct q c0 hc0 0 (by decide) := by
  have h1 : ¬ k1_cond1 k = 1#1 := cond1_zero k h0
  have h2 : k1_cond2 k = 1#1 := cond2_lt k (by omega)
  have hk : (k : ℕ) < 12 := by omega
  unfold k1_t1_body
  unfold inv0V keep
  iintro ⟨⟨Hmw, Hct2, Hg1, %W', %hW', HO⟩, %g2, %g3, %fe, %hv, HG, Hw0, Hs3, Hw1, Heu⟩
  unfold gath0
  icases HG with ⟨Hg0, Hs2r, Hs0r, Hct1r⟩
  sl_exec
  sl_step
  try unfold invMidV keep
  isplitl [Hmw Hct2 Hg1 HO]
  · isplitl [Hmw]; · iexact Hmw
    isplitl [Hct2]; · iexact Hct2
    isplitl [Hg1]; · iexact Hg1
    iexists _; isplitr
    swap; · iexact HO
    ipureintro
    first
      | exact mem_ins (mem_ins (mem_ins (mem_ins hW')))
      | exact mem_ins (mem_ins (mem_ins hW'))
  iexists _; iexists _; iexists _
  isplitr
  swap
  · isplitl [Hg0 Hs2r Hs0r Hct1r]
    · ihave HG' := (Entails.of_eq (gath0_respell' d L fct q c0 (k1_off8 k) ![256 * (0 + 1)] (k1_off8_inb k h2) (gEven_inb (0 + 1) (by decide)) (by rw [k1_off8_eq, h0]) _)) $$ [Hg0 Hs2r Hs0r Hct1r]
      · isplitl [Hg0]; · iexact Hg0
        isplitl [Hs2r]; · iexact Hs2r
        isplitl [Hs0r]; · iexact Hs0r
        iexact Hct1r
      icases HG' with ⟨Hg0, Hs2r, Hs0r, Hct1r⟩
      try unfold gath0
      isplitl [Hg0]; · iexact Hg0
      isplitl [Hs2r]; · iexact Hs2r
      isplitl [Hs0r]; · iexact Hs0r
      iexact Hct1r
    isplitl [Hw0]; · iexact Hw0
    iapply (Entails.of_eq (odd_respell d L (k1_off9 L k) (k1_off9_inb L k) 0 _ (by rw [k1_off9_eq, h0]) _ _))
    isplitl [Hw1 Hs3]
    · isplitl [Hw1]; · iexact Hw1
      iexact Hs3
    iexact Heu
  ipureintro
  have tv := trip_value d L fct c0 hc0 0 (by decide) (k1_off6 L k) (k1_off9 L k) (k1_off6_inb L k) (k1_off9_inb L k)
    (by rw [k1_off6_eq, h0]) (by rw [k1_off9_eq, h0]) (k1_off5 k) (k1_off8 k) (k1_off5_inb k) (k1_off8_inb k h2) (by rw [k1_off5_eq, h0]) (by rw [k1_off8_eq, h0]) fe g2 g3 hv.2 hv.1
  exact ⟨tv.2, tv.1⟩

set_option maxHeartbeats 1000000 in
/-- A middle trip, with values. -/
theorem tripMidV (hO : ∀ g, O g none = 0) (k : Fin k1_t1_loop.trips) (j : ℕ) (hkj : k.val = j + 1) (hj : j + 1 < 11) :
    invMidV d L O W fct q c0 hc0 j (by omega)
      ⊢ wp frame (wpE (defs₀ (F := F)) 𝒱₀ (thr d L) none) Set.univ
          (k1_t1_body L ctW (Memref.isWhole_whole _) viW (Memref.isWhole_whole _) niW (Memref.isWhole_whole _)
            euW (Memref.isWhole_whole _) uvW (Memref.isWhole_whole _)
            s0W (Memref.isWhole_whole _) s1W (Memref.isWhole_whole _) s2W (Memref.isWhole_whole _)
            s3W (Memref.isWhole_whole _) s4W (Memref.isWhole_whole _)
            cc1_scratch5 cc1_scratch6 cc1_scratch7 cc1_scratch8 cc1_scratch9 cc1_scoped0 cc1_scoped1 cc1_scoped2 k ⟨⟩)
          fun _ => invMidV d L O W fct q c0 hc0 (j + 1) (by omega) := by
  have h1 : k1_cond1 k = 1#1 := cond1_pos k (by omega)
  have h2 : k1_cond2 k = 1#1 := cond2_lt k (by omega)
  have hk : (k : ℕ) < 12 := by omega
  unfold k1_t1_body
  unfold invMidV keep
  iintro ⟨⟨Hmw, Hct2, Hg1, %W', %hW', HO⟩, %g2, %g3, %fe, %hv, HG, Hw0, HWO, Heu⟩
  unfold gath0 wout1
  icases HG with ⟨Hg0, Hs2r, Hs0r, Hct1r⟩
  icases HWO with ⟨Hw1, Hs3⟩
  sl_exec
  sl_step
  try unfold invMidV keep
  isplitl [Hmw Hct2 Hg1 HO]
  · isplitl [Hmw]; · iexact Hmw
    isplitl [Hct2]; · iexact Hct2
    isplitl [Hg1]; · iexact Hg1
    iexists _; isplitr
    swap; · iexact HO
    ipureintro
    first
      | exact mem_ins (mem_ins (mem_ins (mem_ins hW')))
      | exact mem_ins (mem_ins (mem_ins hW'))
  iexists _; iexists _; iexists _
  isplitr
  swap
  · isplitl [Hg0 Hs2r Hs0r Hct1r]
    · ihave HG' := (Entails.of_eq (gath0_respell' d L fct q c0 (k1_off8 k) ![256 * (j + 1 + 1)] (k1_off8_inb k h2) (gEven_inb (j + 1 + 1) (by omega)) (by rw [k1_off8_eq, hkj, show 256 * (j + 1) + 256 = 256 * (j + 1 + 1) by omega]) _)) $$ [Hg0 Hs2r Hs0r Hct1r]
      · isplitl [Hg0]; · iexact Hg0
        isplitl [Hs2r]; · iexact Hs2r
        isplitl [Hs0r]; · iexact Hs0r
        iexact Hct1r
      icases HG' with ⟨Hg0, Hs2r, Hs0r, Hct1r⟩
      try unfold gath0
      isplitl [Hg0]; · iexact Hg0
      isplitl [Hs2r]; · iexact Hs2r
      isplitl [Hs0r]; · iexact Hs0r
      iexact Hct1r
    isplitl [Hw0]; · iexact Hw0
    iapply (Entails.of_eq (odd_respell d L (k1_off9 L k) (k1_off9_inb L k) (j + 1) _ (by rw [k1_off9_eq, hkj]) _ _))
    isplitl [Hw1 Hs3]
    · isplitl [Hw1]; · iexact Hw1
      iexact Hs3
    iexact Heu
  ipureintro
  have tv := trip_value d L fct c0 hc0 (j + 1) (by omega) (k1_off6 L k) (k1_off9 L k) (k1_off6_inb L k) (k1_off9_inb L k)
    (by rw [k1_off6_eq, hkj]) (by rw [k1_off9_eq, hkj]) (k1_off5 k) (k1_off8 k) (k1_off5_inb k) (k1_off8_inb k h2) (by rw [k1_off5_eq, hkj]) (by rw [k1_off8_eq, hkj, show 256 * (j + 1) + 256 = 256 * (j + 1 + 1) by omega]) fe g2 g3 hv.2 hv.1
  exact ⟨tv.2, tv.1⟩

omit [FloatOps F] in
/-- The even chunk just written reads the first row buffer's payload. -/
theorem even_value (k : ℕ) (hk : k + 1 ≤ 12) (off6 : Fin 2 → ℕ) (h6 : ∀ a, off6 a + S128x128.size a ≤ S102400x128.size a)
    (e6 : off6 = ![6400 * (L 1).val + 3200 * (L 0).val + 256 * k, 0])
    (fe : Buf (Elt F) ((SparseCore.T (τ := τ) d).loc main_v18_0)) (g2 : Buf (Elt F) ((thr d L).loc cc1_scratch2))
    (hR : rowsOK d L fct c0 hc0 k (by omega) g2) :
    View.read (Elt F) (euEven L k hk).view
      (View.write (Elt F) ((euW).slice (Rect.unit (s := S102400x128) off6 S128x128.size h6) (fun _ => rfl)).view fe
        (ReadAs.same.apply (View.read (Elt F) (s2W).view g2)) Finset.univ)
      = Gpay d L fct c0 hc0 ![256 * k] (gEven_inb k (by omega)) := by
  subst e6
  exact (LibRectReads.read_write_same (euW).view _ fe _).trans hR

/-- After the last trip, with values: all twenty-four chunks of the loop finished (chunk 22 as its window travels). -/
def invEndV : sProp 𝕄 :=
  iprop(keep d L O W fct q ∗ ∃ g2 g3 fe0 fe,
      ⌜chunksOK d L fct c0 hc0 12 fe
        ∧ View.read (Elt F) (euEven L 11 le12).view fe0 = Gpay d L fct c0 hc0 ![256 * 11] (gEven_inb 11 (by decide))⌝
      ∗ semVal (thr d L, SemLoc.dma cc1_scratch5.sem) 0 ∗ ((ctW).view.loc (thr d L) ↦{Transfers.shareTok q 3 1} fct)
      ∗ ((s0W).view.loc (thr d L) ↦{fullShare} c0)
      ∗ wout0 d L 11 le12 fe0 g2 ∗ wout1 d L 11 le12 fe g3
      ∗ ((euW).view.loc (thr d L) ↦[((euW).view.setOn (tileRect L).set \ (euEven L 11 le12).view.set) \ (euOdd L 11 le12).view.set]{fullShare} fe))

set_option maxHeartbeats 1000000 in
/-- The last trip, with values. -/
theorem tripLastV (hO : ∀ g, O g none = 0) (k : Fin k1_t1_loop.trips) (hk11 : k.val = 11) :
    invMidV d L O W fct q c0 hc0 10 (by decide)
      ⊢ wp frame (wpE (defs₀ (F := F)) 𝒱₀ (thr d L) none) Set.univ
          (k1_t1_body L ctW (Memref.isWhole_whole _) viW (Memref.isWhole_whole _) niW (Memref.isWhole_whole _)
            euW (Memref.isWhole_whole _) uvW (Memref.isWhole_whole _)
            s0W (Memref.isWhole_whole _) s1W (Memref.isWhole_whole _) s2W (Memref.isWhole_whole _)
            s3W (Memref.isWhole_whole _) s4W (Memref.isWhole_whole _)
            cc1_scratch5 cc1_scratch6 cc1_scratch7 cc1_scratch8 cc1_scratch9 cc1_scoped0 cc1_scoped1 cc1_scoped2 k ⟨⟩)
          fun _ => invEndV d L O W fct q c0 hc0 := by
  have h1 : k1_cond1 k = 1#1 := cond1_pos k (by omega)
  have h2 : ¬ k1_cond2 k = 1#1 := cond2_ge k (by omega)
  have hk : (k : ℕ) < 12 := by omega
  have hkj : (k : ℕ) = 10 + 1 := hk11
  unfold k1_t1_body
  unfold invMidV keep
  iintro ⟨⟨Hmw, Hct2, Hg1, %W', %hW', HO⟩, %g2, %g3, %fe, %hv, HG, Hw0, HWO, Heu⟩
  unfold gath0 wout1
  icases HG with ⟨Hg0, Hs2r, Hs0r, Hct1r⟩
  icases HWO with ⟨Hw1, Hs3⟩
  sl_exec
  sl_step
  unfold invEndV
  try unfold keep
  isplitl [Hmw Hct2 Hg1 HO]
  · isplitl [Hmw]; · iexact Hmw
    isplitl [Hct2]; · iexact Hct2
    isplitl [Hg1]; · iexact Hg1
    iexists _; isplitr
    swap; · iexact HO
    ipureintro
    first
      | exact mem_ins (mem_ins (mem_ins (mem_ins hW')))
      | exact mem_ins (mem_ins (mem_ins hW'))
  iexists _; iexists _; iexists _; iexists _
  isplitr
  swap
  · isplitl [Hg0]; · iexact Hg0
    isplitl [Hct1r]; · iexact Hct1r
    isplitl [Hs0r]; · iexact Hs0r
    iapply (Entails.of_eq (end_respell d L (k1_off6 L k) (k1_off9 L k) (k1_off6_inb L k) (k1_off9_inb L k)
      (by rw [k1_off6_eq, hk11]) (by rw [k1_off9_eq, hk11]) _ _ _ _))
    isplitl [Hw0 Hs2r]
    · isplitl [Hw0]; · iexact Hw0
      iexact Hs2r
    isplitl [Hw1 Hs3]
    · isplitl [Hw1]; · iexact Hw1
      iexact Hs3
    iexact Heu
  ipureintro
  exact ⟨trip_chunks d L fct c0 hc0 11 le12 (k1_off6 L k) (k1_off9 L k) (k1_off6_inb L k) (k1_off9_inb L k)
      (by rw [k1_off6_eq, hk11]) (by rw [k1_off9_eq, hk11]) (k1_off5 k) (k1_off5_inb k) (by rw [k1_off5_eq, hk11]) fe g2 g3 hv.2 hv.1,
    even_value d L fct c0 hc0 11 le12 (k1_off6 L k) (k1_off6_inb L k) (by rw [k1_off6_eq, hk11]) fe g2 hv.1⟩

end Cert.Proof.KI

end
-- ==== Proof.ScVFin.lean ====
/-
  The gather task's values after the loop: chunk 22's window, held apart since its copy was issued, pieced into the rest, which
  has meanwhile received chunk 24 — all twenty-five chunks of the tile's rows hold their payloads.
-/
import proofs.«217981_g19061064860210_cont_8to1_1320_37_alg».proof.Proof.ScVInv

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "ctW" => (Memref.whole Cert.KernelIdeal.main_v9_scv : Memref Cert.KernelIdeal.sig Kind.scVector Space.hbm Cert.KernelIdeal.S100000x128 EltTy.f32)
local notation "viW" => (Memref.whole Cert.KernelIdeal.main_v13_scv : Memref Cert.KernelIdeal.sig Kind.scVector Space.hbm Cert.KernelIdeal.S102400 EltTy.i32)
local notation "niW" => (Memref.whole Cert.KernelIdeal.main_v14_scv : Memref Cert.KernelIdeal.sig Kind.scVector Space.hbm Cert.KernelIdeal.S2048 EltTy.i32)
local notation "euW" => (Memref.whole Cert.KernelIdeal.main_v18_0_scv : Memref Cert.KernelIdeal.sig Kind.scVector Space.hbm Cert.KernelIdeal.S102400x128 EltTy.f32)
local notation "uvW" => (Memref.whole Cert.KernelIdeal.main_v18_1_scv : Memref Cert.KernelIdeal.sig Kind.scVector Space.hbm Cert.KernelIdeal.S2048x128 EltTy.f32)
local notation "s0W" => (Memref.whole Cert.KernelIdeal.cc1_scratch0 : Memref Cert.KernelIdeal.sig Kind.scVector Space.vmem Cert.KernelIdeal.S3200 EltTy.i32)
local notation "s1W" => (Memref.whole Cert.KernelIdeal.cc1_scratch1 : Memref Cert.KernelIdeal.sig Kind.scVector Space.vmem Cert.KernelIdeal.S64 EltTy.i32)
local notation "s2W" => (Memref.whole Cert.KernelIdeal.cc1_scratch2 : Memref Cert.KernelIdeal.sig Kind.scVector Space.vmem Cert.KernelIdeal.S128x128 EltTy.f32)
local notation "s3W" => (Memref.whole Cert.KernelIdeal.cc1_scratch3 : Memref Cert.KernelIdeal.sig Kind.scVector Space.vmem Cert.KernelIdeal.S128x128 EltTy.f32)
local notation "s4W" => (Memref.whole Cert.KernelIdeal.cc1_scratch4 : Memref Cert.KernelIdeal.sig Kind.scVector Space.vmem Cert.KernelIdeal.S64x128 EltTy.f32)

variable [FloatOps F]
variable (d : Dev nD) (L : grid1.Coords)

variable (O : CellTallies nD τ sig (HIx 2)) (W : Waits sig (HIx 2))
  (fct : Buf (Elt F) ((SparseCore.T (τ := τ) d).loc main_v9)) (q : PosShare TreeShare)
  (c0 : Buf (Elt F) ((thr d L).loc cc1_scratch0))
  (hc0 : ∀ (off : Fin 1 → ℕ) (h : ∀ a, off a + S128.size a ≤ S3200.size a) (x : S128.Idx),
      (View.read (Elt F) ((s0W).slice (Rect.unit (s := S3200) off S128.size h) (fun _ => rfl)).view c0 x).toNat < 100000)

/-! ## After the loop: the window held apart, and chunk 24 -/

omit [FloatOps F] in
theorem e24_inb (L : grid1.Coords) : ∀ a, (![6400 * (L 1).val + 3200 * (L 0).val + 3072, 0] : Fin 2 → ℕ) a + S128x128.size a ≤ S102400x128.size a := by
  have h0 := L0_lt L; have h1 := L1_lt L
  intro a; fin_cases a
  · show 6400 * (L 1).val + 3200 * (L 0).val + 3072 + 128 ≤ 102400; omega
  · show 0 + 128 ≤ 128; omega
/-- The window of the result that the last chunk, 24, is written to. -/
abbrev eu24 (L : grid1.Coords) : Memref sig .scVector .hbm S128x128 .f32 :=
  (euW).slice (Rect.unit (s := S102400x128) ![6400 * (L 1).val + 3200 * (L 0).val + 3072, 0] S128x128.size (e24_inb L)) (fun _ => rfl)

omit [FloatOps F] in
/-- Through a rectangle inside the set, contents pieced together read the inner piece; -/
theorem read_piecewise_in (r : Rect S102400x128) (I : Finset ((euW).view.ty.Idx))
    (g f : (euW).view.ty.Contents (Elt F)) (h : ((euW).view.slice r).set ⊆ I) :
    View.read (Elt F) ((euW).view.slice r) (I.piecewise g f) = View.read (Elt F) ((euW).view.slice r) g :=
  View.read_congr fun i hi => Finset.piecewise_eq_of_mem _ _ _ (h hi)
omit [FloatOps F] in
/-- through one disjoint from it, the outer. -/
theorem read_piecewise_out (r : Rect S102400x128) (I : Finset ((euW).view.ty.Idx))
    (g f : (euW).view.ty.Contents (Elt F)) (h : Disjoint ((euW).view.slice r).set I) :
    View.read (Elt F) ((euW).view.slice r) (I.piecewise g f) = View.read (Elt F) ((euW).view.slice r) f :=
  View.read_congr fun i hi => Finset.piecewise_eq_of_notMem _ _ _ (Finset.disjoint_left.mp h hi)

set_option maxHeartbeats 1000000 in
omit [FloatOps F] in
/-- The result's values when the task ends: the window of chunk 22, held apart since its copy was issued, pieced into the rest,
    which has meanwhile received chunk 24. All twenty-five chunks hold their payloads. -/
theorem final_value (off24 : Fin 2 → ℕ) (h24 : ∀ a, off24 a + S128x128.size a ≤ S102400x128.size a)
    (e24 : off24 = ![6400 * (L 1).val + 3200 * (L 0).val + 3072, 0])
    (off3 : Fin 1 → ℕ) (h3 : ∀ a, off3 a + S128.size a ≤ S3200.size a) (e3 : off3 = ![256 * 12])
    (fe0 fe : Buf (Elt F) ((SparseCore.T (τ := τ) d).loc main_v18_0)) (g2 : Buf (Elt F) ((thr d L).loc cc1_scratch2))
    (hOK : chunksOK d L fct c0 hc0 12 fe)
    (hE : View.read (Elt F) (euEven L 11 le12).view fe0 = Gpay d L fct c0 hc0 ![256 * 11] (gEven_inb 11 (by decide))) :
    chunksOK d L fct c0 hc0 12
      (((euEven L 11 le12).view.set).piecewise fe0
        (View.write (Elt F) ((euW).slice (Rect.unit (s := S102400x128) off24 S128x128.size h24) (fun _ => rfl)).view fe
          (ReadAs.same.apply (View.read (Elt F) (s2W).view
            ((s2W).view.writes (Elt F) g2 [⟨Rect.whole cc1_scratch2.ty.shape, Gpay d L fct c0 hc0 off3 h3⟩]))) Finset.univ))
    ∧ View.read (Elt F) (eu24 L).view
        (((euEven L 11 le12).view.set).piecewise fe0
          (View.write (Elt F) ((euW).slice (Rect.unit (s := S102400x128) off24 S128x128.size h24) (fun _ => rfl)).view fe
            (ReadAs.same.apply (View.read (Elt F) (s2W).view
              ((s2W).view.writes (Elt F) g2 [⟨Rect.whole cc1_scratch2.ty.shape, Gpay d L fct c0 hc0 off3 h3⟩]))) Finset.univ))
        = Gpay d L fct c0 hc0 ![256 * 12] (gEven_inb 12 (by decide)) := by
  subst e24 e3
  have dj24 : ∀ (x : ℕ) (hx : ∀ a, (![x, 0] : Fin 2 → ℕ) a + S128x128.size a ≤ S102400x128.size a),
      x + 128 ≤ 6400 * (L 1).val + 3200 * (L 0).val + 3072 →
      Disjoint (Rect.unit (s := S102400x128) ![x, 0] S128x128.size hx).set
        (Rect.unit (s := S102400x128) ![6400 * (L 1).val + 3200 * (L 0).val + 3072, 0] S128x128.size h24).set :=
    fun x hx h => Rect.unit_disjoint 0 (Or.inl (by show x + 128 ≤ 6400 * (L 1).val + 3200 * (L 0).val + 3072; exact h))
  have dj22 : ∀ (x : ℕ) (hx : ∀ a, (![x, 0] : Fin 2 → ℕ) a + S128x128.size a ≤ S102400x128.size a),
      (x + 128 ≤ 6400 * (L 1).val + 3200 * (L 0).val + 256 * 11 ∨ 6400 * (L 1).val + 3200 * (L 0).val + 256 * 11 + 128 ≤ x) →
      Disjoint ((euW).view.slice (Rect.unit (s := S102400x128) ![x, 0] S128x128.size hx)).set ((euEven L 11 le12).view.set) :=
    fun x hx h => LibRectReads.slice_sets_disjoint (euW).view (Rect.unit_disjoint 0 (by
      rcases h with h | h
      · exact Or.inl (by show x + 128 ≤ 6400 * (L 1).val + 3200 * (L 0).val + 256 * 11; exact h)
      · exact Or.inr (by show 6400 * (L 1).val + 3200 * (L 0).val + 256 * 11 + 128 ≤ x; exact h)))
  refine ⟨?_, ?_⟩
  · intro j hj hj12
    obtain ⟨hEj, hOj⟩ := hOK j hj hj12
    refine ⟨?_, ?_⟩
    · -- the even chunk 2j
      rcases Nat.lt_or_ge j 11 with hlt | hge
      · refine Eq.trans (read_piecewise_out _ _ _ _ (dj22 _ _ (Or.inl (by omega)))) ?_
        refine Eq.trans (LibRectReads.read_write_disjoint (euW).view (dj24 _ _ (by omega)) _ _) ?_
        exact hEj
      · have : j = 11 := by omega
        subst this
        refine Eq.trans (read_piecewise_in _ _ _ _ (Finset.Subset.refl _)) ?_
        exact hE
    · -- the odd chunk 2j + 1
      refine Eq.trans (read_piecewise_out _ _ _ _ (dj22 _ _ (by
        rcases Nat.lt_or_ge j 11 with hlt | hge
        · exact Or.inl (by omega)
        · exact Or.inr (by omega)))) ?_
      refine Eq.trans (LibRectReads.read_write_disjoint (euW).view (dj24 _ _ (by omega)) _ _) ?_
      exact hOj
  · -- chunk 24
    refine Eq.trans (read_piecewise_out _ _ _ _ (dj22 _ _ (Or.inr (by omega)))) ?_
    refine Eq.trans (LibRectReads.read_write_same (euW).view _ fe _) ?_
    show View.read (Elt F) (s2W).view _ = _
    rw [read_writes_whole]

end Cert.Proof.KI

end
-- ==== Proof.ScVTile.lean ====
/-
  The gather task run whole, with the result's VALUES (first call): from what the tile is handed to the same, its rows of the
  gathered-rows result holding, chunk by chunk, the table's rows named by the fetched indices. (The user rows' result is
  still stated at some contents.)
-/
import proofs.«217981_g19061064860210_cont_8to1_1320_37_alg».proof.Proof.ScVFin

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "ctW" => (Memref.whole Cert.KernelIdeal.main_v9_scv : Memref Cert.KernelIdeal.sig Kind.scVector Space.hbm Cert.KernelIdeal.S100000x128 EltTy.f32)
local notation "viW" => (Memref.whole Cert.KernelIdeal.main_v13_scv : Memref Cert.KernelIdeal.sig Kind.scVector Space.hbm Cert.KernelIdeal.S102400 EltTy.i32)
local notation "niW" => (Memref.whole Cert.KernelIdeal.main_v14_scv : Memref Cert.KernelIdeal.sig Kind.scVector Space.hbm Cert.KernelIdeal.S2048 EltTy.i32)
local notation "euW" => (Memref.whole Cert.KernelIdeal.main_v18_0_scv : Memref Cert.KernelIdeal.sig Kind.scVector Space.hbm Cert.KernelIdeal.S102400x128 EltTy.f32)
local notation "uvW" => (Memref.whole Cert.KernelIdeal.main_v18_1_scv : Memref Cert.KernelIdeal.sig Kind.scVector Space.hbm Cert.KernelIdeal.S2048x128 EltTy.f32)
local notation "s0W" => (Memref.whole Cert.KernelIdeal.cc1_scratch0 : Memref Cert.KernelIdeal.sig Kind.scVector Space.vmem Cert.KernelIdeal.S3200 EltTy.i32)
local notation "s1W" => (Memref.whole Cert.KernelIdeal.cc1_scratch1 : Memref Cert.KernelIdeal.sig Kind.scVector Space.vmem Cert.KernelIdeal.S64 EltTy.i32)
local notation "s2W" => (Memref.whole Cert.KernelIdeal.cc1_scratch2 : Memref Cert.KernelIdeal.sig Kind.scVector Space.vmem Cert.KernelIdeal.S128x128 EltTy.f32)
local notation "s3W" => (Memref.whole Cert.KernelIdeal.cc1_scratch3 : Memref Cert.KernelIdeal.sig Kind.scVector Space.vmem Cert.KernelIdeal.S128x128 EltTy.f32)
local notation "s4W" => (Memref.whole Cert.KernelIdeal.cc1_scratch4 : Memref Cert.KernelIdeal.sig Kind.scVector Space.vmem Cert.KernelIdeal.S64x128 EltTy.f32)

variable [FloatOps F]
variable (d : Dev nD) (L : grid1.Coords)

variable (O : CellTallies nD τ sig (HIx 2)) (W : Waits sig (HIx 2))
  (fct : Buf (Elt F) ((SparseCore.T (τ := τ) d).loc main_v9)) (q : PosShare TreeShare)

/-- The loop's invariant before trip `k`, with values. -/
def invV (c0 : Buf (Elt F) ((thr d L).loc cc1_scratch0))
    (hc0 : ∀ (off : Fin 1 → ℕ) (h : ∀ a, off a + S128.size a ≤ S3200.size a) (x : S128.Idx),
      (View.read (Elt F) ((s0W).slice (Rect.unit (s := S3200) off S128.size h) (fun _ => rfl)).view c0 x).toNat < 100000)
    (k : ℕ) (_ : PUnit) : sProp 𝕄 :=
  match k with
  | 0 => inv0V d L O W fct q c0 hc0
  | j + 1 => if hj : j + 1 < 12 then invMidV d L O W fct q c0 hc0 j hj else invEndV d L O W fct q c0 hc0

omit [FloatOps F] in
theorem invV_zero (c0 : Buf (Elt F) ((thr d L).loc cc1_scratch0)) (hc0) (acc : PUnit) :
    invV d L O W fct q c0 hc0 0 acc = inv0V d L O W fct q c0 hc0 := rfl
omit [FloatOps F] in
theorem invV_end (c0 : Buf (Elt F) ((thr d L).loc cc1_scratch0)) (hc0) (acc : PUnit) :
    invV d L O W fct q c0 hc0 (Scf.trips k1_t1_loop.lb k1_t1_loop.ub k1_t1_loop.st) acc = invEndV d L O W fct q c0 hc0 := by
  rw [show Scf.trips k1_t1_loop.lb k1_t1_loop.ub k1_t1_loop.st = 12 from trips_eq]; rfl

/-- The user rows' payload: the table's rows named by the tile's 64 fetched user indices. -/
def GpayU (fni : Buf (Elt F) ((SparseCore.T (τ := τ) d).loc main_v14)) (hni : ∀ j, (fni j).toNat < 100000)
    (f1 : Buf (Elt F) ((thr d L).loc cc1_scratch1)) : S64x128.Idx → Elt F .f32 :=
  SparseCore.gatherPayload gathers_S100000x128_S64x128 (View.read (Elt F) (ctS).view fct)
    (SparseCore.rows (View.read (Elt F) (s1W).view (View.write (Elt F) (s1W).view f1 (ReadAs.same.apply (View.read (Elt F) (niS L).view fni)) Finset.univ))
      rfl (hin_u_of d L fni hni f1))

omit [FloatOps F] in
/-- The user rows' window, just written from the user-row buffer just gathered, reads that gather's payload. -/
theorem uv_value (off11 : Fin 2 → ℕ) (h11 : ∀ a, off11 a + S64x128.size a ≤ S2048x128.size a)
    (e11 : off11 = ![128 * (L 1).val + 64 * (L 0).val, 0])
    (fuv : Buf (Elt F) ((SparseCore.T (τ := τ) d).loc main_v18_1)) (f4 : Buf (Elt F) ((thr d L).loc cc1_scratch4))
    (pay : S64x128.Idx → Elt F .f32) :
    View.read (Elt F) ((uvW).slice (uvRect L) (fun _ => rfl)).view
      (View.write (Elt F) ((uvW).slice (Rect.unit (s := S2048x128) off11 S64x128.size h11) (fun _ => rfl)).view fuv
        (ReadAs.same.apply (View.read (Elt F) (s4W).view ((s4W).view.writes (Elt F) f4 [⟨Rect.whole cc1_scratch4.ty.shape, pay⟩]))) Finset.univ)
      = pay := by
  subst e11
  refine Eq.trans (LibRectReads.read_write_same (uvW).view _ fuv _) ?_
  show View.read (Elt F) (s4W).view _ = _
  rw [read_writes_whole]

/-- What the tile holds when its task ends, with the gathered rows' values. -/
def tilePostV (fvi : Buf (Elt F) ((SparseCore.T (τ := τ) d).loc main_v13)) (fni : Buf (Elt F) ((SparseCore.T (τ := τ) d).loc main_v14))
    (qi : PosShare TreeShare) (f0 : Buf (Elt F) ((thr d L).loc cc1_scratch0)) (hvi : ∀ j, (fvi j).toNat < 100000)
    (f1 : Buf (Elt F) ((thr d L).loc cc1_scratch1)) (hni : ∀ j, (fni j).toNat < 100000) : sProp 𝕄 :=
  iprop(((ctW).view.loc (thr d L) ↦{Transfers.shareTok q 3 0} fct)
      ∗ ((ctW).view.loc (thr d L) ↦{Transfers.shareTok q 3 1} fct)
      ∗ ((ctW).view.loc (thr d L) ↦{Transfers.shareTok q 3 2} fct)
      ∗ ((viS L).view.loc (thr d L) ↦[(viS L).view.set]{qi} fvi)
      ∗ ((niS L).view.loc (thr d L) ↦[(niS L).view.set]{qi} fni)
      ∗ (∃ f, (s0W).view.loc (thr d L) ↦{fullShare} f) ∗ (∃ f, (s1W).view.loc (thr d L) ↦{fullShare} f)
      ∗ (∃ f, (s2W).view.loc (thr d L) ↦{fullShare} f) ∗ (∃ f, (s3W).view.loc (thr d L) ↦{fullShare} f)
      ∗ (∃ f, (s4W).view.loc (thr d L) ↦{fullShare} f)
      ∗ semVal (thr d L, SemLoc.dma cc1_scratch5.sem) 0 ∗ semVal (thr d L, SemLoc.dma cc1_scratch6.sem) 0
      ∗ semVal (thr d L, SemLoc.dma cc1_scratch7.sem) 0 ∗ semVal (thr d L, SemLoc.dma cc1_scratch8.sem) 0
      ∗ semVal (thr d L, SemLoc.dma cc1_scratch9.sem) 0
      ∗ semVal (thr d L, SemLoc.dma cc1_scoped0.sem) 0 ∗ semVal (thr d L, SemLoc.dma cc1_scoped1.sem) 0
      ∗ semVal (thr d L, SemLoc.dma cc1_scoped2.sem) 0
      ∗ (∃ f, ⌜chunksOK d L fct (fetched d L fvi f0) (hin_v_of d L fvi hvi f0) 12 f
            ∧ View.read (Elt F) (eu24 L).view f = Gpay d L fct (fetched d L fvi f0) (hin_v_of d L fvi hvi f0) ![256 * 12] (gEven_inb 12 (by decide))⌝
          ∗ (euW).view.loc (thr d L) ↦[(euW).view.setOn (tileRect L).set]{fullShare} f)
      ∗ (∃ f, ⌜View.read (Elt F) ((uvW).slice (uvRect L) (fun _ => rfl)).view f = GpayU d L fct fni hni f1⌝
          ∗ (uvW).view.loc (thr d L) ↦[(uvW).view.setOn (uvRect L).set]{fullShare} f)
      ∗ ∃ W', ⌜∀ p ∈ W', p ∈ W ∨ p.2 = none⌝ ∗ owes (thr d L) O W')

set_option maxHeartbeats 4000000 in
/-- The task, run, with the result's values: all twenty-five chunks of the tile's rows end at their payloads. -/
theorem tile_runV (hO : ∀ g, O g none = 0)
    (fvi : Buf (Elt F) ((SparseCore.T (τ := τ) d).loc main_v13)) (fni : Buf (Elt F) ((SparseCore.T (τ := τ) d).loc main_v14))
    (qi : PosShare TreeShare)
    (f0 : Buf (Elt F) ((thr d L).loc cc1_scratch0)) (f1 : Buf (Elt F) ((thr d L).loc cc1_scratch1))
    (f2 : Buf (Elt F) ((thr d L).loc cc1_scratch2)) (f3 : Buf (Elt F) ((thr d L).loc cc1_scratch3))
    (f4 : Buf (Elt F) ((thr d L).loc cc1_scratch4))
    (feu : Buf (Elt F) ((SparseCore.T (τ := τ) d).loc main_v18_0)) (fuv : Buf (Elt F) ((SparseCore.T (τ := τ) d).loc main_v18_1))
    (hvi : ∀ j, (fvi j).toNat < 100000) (hni : ∀ j, (fni j).toNat < 100000) :
    tilePre d L O W fct q fvi fni qi f0 f1 f2 f3 f4 feu fuv
      ⊢ wp frame (wpE (defs₀ (F := F)) 𝒱₀ (thr d L) none) Set.univ
          (cc1_k L ctW (Memref.isWhole_whole _) viW (Memref.isWhole_whole _) niW (Memref.isWhole_whole _)
            euW (Memref.isWhole_whole _) uvW (Memref.isWhole_whole _)
            s0W (Memref.isWhole_whole _) s1W (Memref.isWhole_whole _) s2W (Memref.isWhole_whole _)
            s3W (Memref.isWhole_whole _) s4W (Memref.isWhole_whole _)
            cc1_scratch5 cc1_scratch6 cc1_scratch7 cc1_scratch8 cc1_scratch9 cc1_scoped0 cc1_scoped1 cc1_scoped2)
          fun _ => tilePostV d L O W fct q fvi fni qi f0 hvi f1 hni := by
  simp only [cc1_k_eq_skeleton]; unfold cc1_k_skel
  simp only [k1_part1_eq_skeleton]; unfold k1_part1_skel
  unfold tilePre
  iintro ⟨Hmw, Hct0, Hct1, Hct2, Hvi, Hni, Hs0, Hs1, Hs2, Hs3, Hs4, Hg0, Hg1, Hw0, Hw1, Hsu, Hc0, Hc1, Hc2, Heu, Huv, HO⟩
  have hin_u := hin_u_of d L fni hni
  have hin_v := hin_v_of d L fvi hvi f0
  sl_exec
  sl_rw [bind_assoc]
  sl_for (invV d L O W fct q (fetched d L fvi f0) (hin_v_of d L fvi hvi f0))
    $$ [Hmw Hct2 Hg1 HO Hg0 Hs2 Hs0 Hct1 Hw0 Hs3 Hw1 Heu]
  case region =>
    intro k acc
    rcases Nat.eq_zero_or_pos k.val with h0 | hpos
    · rw [h0]
      exact trip0V d L O W fct q _ _ hO k h0
    · obtain ⟨j, hj⟩ := Nat.exists_eq_succ_of_ne_zero (Nat.pos_iff_ne_zero.mp hpos)
      have hk12 : (k : ℕ) < 12 := lt_of_lt_of_le k.isLt k1_t1_abs.2.1
      rw [hj]
      by_cases h11 : j + 1 < 11
      · have e1 : invV d L O W fct q (fetched d L fvi f0) (hin_v_of d L fvi hvi f0) (j + 1) acc
            = invMidV d L O W fct q _ _ j (by omega) := dif_pos (by omega)
        have e2 : invV d L O W fct q (fetched d L fvi f0) (hin_v_of d L fvi hvi f0) (j + 1 + 1)
            = fun _ => invMidV d L O W fct q _ _ (j + 1) (by omega) := funext fun _ => dif_pos (by omega)
        rw [e1, e2]
        exact tripMidV d L O W fct q _ _ hO k j hj h11
      · have hj10 : j = 10 := by omega
        subst hj10
        have e2 : invV d L O W fct q (fetched d L fvi f0) (hin_v_of d L fvi hvi f0) (10 + 1 + 1)
            = fun _ => invEndV d L O W fct q _ _ := rfl
        rw [e2]
        exact tripLastV d L O W fct q _ _ hO k hj
  · rw [invV_zero]
    unfold inv0V keep
    isplitl [Hmw Hct2 Hg1 HO]
    · isplitl [Hmw]; · iexact Hmw
      isplitl [Hct2]; · iexact Hct2
      isplitl [Hg1]; · iexact Hg1
      iexists _; isplitr
      swap; · iexact HO
      ipureintro; exact mem_ins (mem_ins (fun p hp => Or.inl hp))
    iexists _; iexists _; iexists _
    isplitr
    swap
    · isplitl [Hg0 Hs2 Hs0 Hct1]
      · unfold gath0
        isplitl [Hg0]; · iexact Hg0
        isplitl [Hs2]; · iexact Hs2
        isplitl [Hs0]; · iexact Hs0
        iexact Hct1
      isplitl [Hw0]; · iexact Hw0
      isplitl [Hs3]; · iexact Hs3
      isplitl [Hw1]; · iexact Hw1
      iexact Heu
    ipureintro
    refine ⟨?_, fun j _ h => absurd h (Nat.not_lt_zero j)⟩
    show View.read (Elt F) (s2W).view _ = _
    rw [read_writes_whole]
    rfl
  iintro %acc HI
  ihave HI' := (Entails.of_eq (invV_end d L O W fct q (fetched d L fvi f0) (hin_v_of d L fvi hvi f0) acc)) $$ HI
  unfold invEndV keep
  icases HI' with ⟨⟨Hmw, Hct2, Hg1, %W', %hW', HO⟩, %g2, %g3, %fe0, %fe, %hv, Hg0, Hct1, Hs0, HW0, HW1, Heu⟩
  unfold wout0 wout1
  icases HW0 with ⟨Hw0, Hs2⟩
  icases HW1 with ⟨Hw1, Hs3⟩
  sl_exec
  sl_step
  unfold tilePostV
  isplitl [Hct0]; · iexact Hct0
  isplitl [Hct1]; · iexact Hct1
  isplitl [Hct2]; · iexact Hct2
  isplitl [Hvi]; · iexact Hvi
  isplitl [Hni]; · iexact Hni
  isplitl [Hs0]; · iexists _; iexact Hs0
  isplitl [Hs1]; · iexists _; iexact Hs1
  isplitl [Hs2]; · iexists _; iexact Hs2
  isplitl [Hs3]; · iexists _; iexact Hs3
  isplitl [Hs4]; · iexists _; iexact Hs4
  isplitl [Hg0]; · iexact Hg0
  isplitl [Hg1]; · iexact Hg1
  isplitl [Hw0]; · iexact Hw0
  isplitl [Hw1]; · iexact Hw1
  isplitl [Hsu]; · iexact Hsu
  isplitl [Hc0]; · iexact Hc0
  isplitl [Hc1]; · iexact Hc1
  isplitl [Hc2]; · iexact Hc2
  isplitl [Hw0_dst Heu]
  · iexists _
    isplitr
    swap
    · iapply (pointsTo_join_subset (even11_sub L))
      isplitl [Hw0_dst]; · iexact Hw0_dst
      iexact Heu
    ipureintro
    exact final_value d L fct _ _ (k1_off10 L 3072#32) (k1_off10_inb L 2) (k1_off10_eq L 2) ![3072] inb_S3200_S128_3072 rfl fe0 fe g2 hv.1 hv.2
  isplitl [Huv]
  · iexists _
    isplitr
    swap; · iexact Huv
    ipureintro
    exact uv_value d L (k1_off11 L) (k1_off11_inb L) (k1_off11_eq L) fuv f4 _
  iexists _; isplitr
  swap; · iexact HO
  ipureintro
  exact mem_ins (mem_ins (mem_ins (mem_ins (mem_ins (mem_ins hW')))))

end Cert.Proof.KI

end
-- ==== Proof.KGatherIdx.lean ====
/-
  The item gather's payload on a vector subcore, read at an index. The indexed copy delivers, at row `r` of its
  destination, the table's row named by the `r`-th entry of its offset list, column by column; the list is a window of
  the 3200 indices the tile fetched, and the fetched indices are the flat index list from the tile's offset on. So the
  payload at `(r, j)` is the table at the row the list's entry `off + r` names, column `j`; and the fetched list at
  position `p` is the flat list at `6400 · s + 3200 · c + p` for the tile `(c, s)`.
-/
import proofs.«217981_g19061064860210_cont_8to1_1320_37_alg».proof.Proof.ScVInv
import proofs.«217981_g19061064860210_cont_8to1_1320_37_alg».proof.Proof.ScTile
import Idealize.ShloMosaic.Lib.ValueIdx

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open Idealize.SL.Sem
open Idealize.ShloMosaic.Rounds

variable {F : FTy → Type}

local notation "𝕄" => MT nD τ sig (HIx 2) (Elt F) ℕ UU ℕ

local notation "ctW" => (Memref.whole Cert.KernelIdeal.main_v9_scv : Memref Cert.KernelIdeal.sig Kind.scVector Space.hbm Cert.KernelIdeal.S100000x128 EltTy.f32)
local notation "viW" => (Memref.whole Cert.KernelIdeal.main_v13_scv : Memref Cert.KernelIdeal.sig Kind.scVector Space.hbm Cert.KernelIdeal.S102400 EltTy.i32)
local notation "s0W" => (Memref.whole Cert.KernelIdeal.cc1_scratch0 : Memref Cert.KernelIdeal.sig Kind.scVector Space.vmem Cert.KernelIdeal.S3200 EltTy.i32)

variable (d : Dev nD) (L : grid1.Coords)

/-- A position in a flat list of 128 entries is its one coordinate. -/
theorem rowMajor_symm_S128 (k : Fin S128.numel) :
    S128.rowMajor.symm k = ix1 (⟨k.val, (lt_of_lt_of_eq k.isLt (Shape.numel_rank1 _) : k.val < 128)⟩ : Fin 128) := by
  rw [Equiv.symm_apply_eq]
  refine Fin.ext ?_
  rw [Shape.rowMajor_val_one]

variable (fct : Buf (Elt F) ((SparseCore.T (τ := τ) d).loc main_v9))
  (c0 : Buf (Elt F) ((thr d L).loc cc1_scratch0))
  (hc0 : ∀ (off : Fin 1 → ℕ) (h : ∀ a, off a + S128.size a ≤ S3200.size a) (x : S128.Idx),
      (View.read (Elt F) ((s0W).slice (Rect.unit (s := S3200) off S128.size h) (fun _ => rfl)).view c0 x).toNat < 100000)

/-- The gather's payload at row `r`, column `j`: the table at the row the window's `r`-th entry names, column `j`. -/
theorem Gpay_apply (off : Fin 1 → ℕ) (hoff : ∀ a, off a + S128.size a ≤ S3200.size a) (r j : Fin 128)
    (h1 : off 0 + r.val < 3200) (h2 : ((c0 : S3200.Idx → BitVec 32) (ix1 ⟨off 0 + r.val, h1⟩)).toNat < 100000) :
    Gpay d L fct c0 hc0 off hoff (ix2 r j)
      = (fct : S100000x128.Idx → Elt F .f32) (ix2 ⟨((c0 : S3200.Idx → BitVec 32) (ix1 ⟨off 0 + r.val, h1⟩)).toNat, h2⟩ j) := by
  unfold Gpay SparseCore.gatherPayload
  rw [show ∀ y, View.read (Elt F) (ctS).view fct y = fct ((ctS).view.emb y) from fun y => (View.read_apply _ _).trans (cast_eq _ _)]
  refine congrArg fct ?_
  funext a
  refine Fin.ext ?_
  match a with
  | ⟨0, h0⟩ =>
    show 0 + 1 * ((gathers_S100000x128_S128x128.idx _ (ix2 r j)) ⟨0, h0⟩).val = _
    rw [Nat.zero_add, Nat.one_mul]
    refine (congrArg Fin.val (Shape.Gathers.idx_axis gathers_S100000x128_S128x128 _ (ix2 r j))).trans ?_
    show (View.read (Elt F) ((s0W).slice (Rect.unit (s := S3200) off S128.size hoff) (fun _ => rfl)).view c0
      (S128.rowMajor.symm _)).toNat = ((c0 : S3200.Idx → BitVec 32) (ix1 ⟨off 0 + r.val, h1⟩)).toNat
    rw [rowMajor_symm_S128]
    refine (congrArg BitVec.toNat ((View.read_apply _ _).trans (cast_eq _ _))).trans ?_
    refine congrArg (fun i => BitVec.toNat ((c0 : S3200.Idx → BitVec 32) i)) ?_
    funext a'
    refine Fin.ext ?_
    match a' with
    | ⟨0, _⟩ =>
      show off 0 + 1 * r.val = off 0 + r.val
      omega
  | ⟨1, h1'⟩ =>
    show 0 + 1 * _ = j.val
    rw [Nat.zero_add, Nat.one_mul]
    exact Shape.Gathers.idx_of_ne gathers_S100000x128_S128x128 _ (ix2 r j) ⟨1, h1'⟩ Nat.one_ne_zero

/-- The bound that makes a tile's position in the flat index list an index of it. -/
theorem tilePos_lt (p : Fin 3200) : 6400 * (L 1).val + 3200 * (L 0).val + p.val < 102400 := by
  have h0 := L0_lt L; have h1 := L1_lt L; have := p.isLt; omega

/-- What the fetch leaves in the item-index scratch, at a position: the flat index list at the tile's offset plus the
    position. -/
theorem fetched_apply (fvi : Buf (Elt F) ((SparseCore.T (τ := τ) d).loc main_v13)) (f0 : Buf (Elt F) ((thr d L).loc cc1_scratch0))
    (p : Fin 3200) :
    (fetched d L fvi f0 : S3200.Idx → BitVec 32) (ix1 p)
      = (fvi : S102400.Idx → BitVec 32) (ix1 ⟨6400 * (L 1).val + 3200 * (L 0).val + p.val, tilePos_lt L p⟩) := by
  have e : View.write (Elt F) (s0W).view f0 (ReadAs.same.apply (View.read (Elt F) (viS L).view fvi)) Finset.univ
      = ReadAs.same.apply (View.read (Elt F) (viS L).view fvi) := View.write_whole_univ _ _ _
  show View.write (Elt F) (s0W).view f0 (ReadAs.same.apply (View.read (Elt F) (viS L).view fvi)) Finset.univ (ix1 p) = _
  rw [e]
  show View.read (Elt F) (viS L).view fvi (ix1 p) = _
  refine ((View.read_apply _ _).trans (cast_eq _ _)).trans ?_
  refine congrArg (fvi : S102400.Idx → BitVec 32) ?_
  funext a
  refine Fin.ext ?_
  match a with
  | ⟨0, _⟩ =>
    show k1_off1 L 0 + 1 * p.val = 6400 * (L 1).val + 3200 * (L 0).val + p.val
    rw [k1_off1_eq L]
    show 6400 * (L 1).val + 3200 * (L 0).val + 1 * p.val = _
    omega

end Cert.Proof.KI

end
-- ==== Proof.KTileIdx.lean ====
/-
  The gather task's result in index form. The tile's 3200 rows of the gathered-rows result are 25 chunks of 128, each
  written from a row buffer holding the payload of the gather whose offset list is the matching window of the 3200
  fetched indices. Row `p` of the tile lies in chunk `p / 128` at row `p % 128`; reading the chunk's window at that row
  is reading the result at the tile's first row plus `p`; the payload there is the table's row named by the fetched
  list at `p`, which is the flat index list at the tile's offset plus `p`.
-/
import proofs.«217981_g19061064860210_cont_8to1_1320_37_alg».proof.Proof.KGatherIdx
import proofs.«217981_g19061064860210_cont_8to1_1320_37_alg».proof.Proof.ScVFin

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open Idealize.SL.Sem
open Idealize.ShloMosaic.Rounds

variable {F : FTy → Type}

local notation "𝕄" => MT nD τ sig (HIx 2) (Elt F) ℕ UU ℕ

local notation "ctW" => (Memref.whole Cert.KernelIdeal.main_v9_scv : Memref Cert.KernelIdeal.sig Kind.scVector Space.hbm Cert.KernelIdeal.S100000x128 EltTy.f32)
local notation "viW" => (Memref.whole Cert.KernelIdeal.main_v13_scv : Memref Cert.KernelIdeal.sig Kind.scVector Space.hbm Cert.KernelIdeal.S102400 EltTy.i32)
local notation "euW" => (Memref.whole Cert.KernelIdeal.main_v18_0_scv : Memref Cert.KernelIdeal.sig Kind.scVector Space.hbm Cert.KernelIdeal.S102400x128 EltTy.f32)
local notation "s0W" => (Memref.whole Cert.KernelIdeal.cc1_scratch0 : Memref Cert.KernelIdeal.sig Kind.scVector Space.vmem Cert.KernelIdeal.S3200 EltTy.i32)

variable (d : Dev nD) (L : grid1.Coords)

/-- An array read at two spellings of one row. -/
theorem at_congr {N M : ℕ} {β : Type} (g : (⟨2, ![N, M]⟩ : Shape).Idx → β) {n n' : ℕ} (h : n < N) (h' : n' < N) (e : n = n')
    (j : Fin M) : g (ix2 ⟨n, h⟩ j) = g (ix2 ⟨n', h'⟩ j) := by
  subst e; rfl

/-- A list read at two spellings of one position. -/
theorem at1_congr {N : ℕ} {β : Type} (g : (⟨1, ![N]⟩ : Shape).Idx → β) {n n' : ℕ} (h : n < N) (h' : n' < N) (e : n = n') :
    g (ix1 ⟨n, h⟩) = g (ix1 ⟨n', h'⟩) := by
  subst e; rfl

/-- A 128-row window of the gathered-rows result, read at an index: the result at the window's first row plus the
    row, same column. -/
theorem window_read (f : Buf (Elt F) ((SparseCore.T (τ := τ) d).loc main_v18_0)) (o0 : ℕ)
    (inb : ∀ a, (![o0, 0] : Fin 2 → ℕ) a + S128x128.size a ≤ S102400x128.size a) (r j : Fin 128) (h : o0 + r.val < 102400) :
    View.read (Elt F) ((euW).slice (Rect.unit (s := S102400x128) ![o0, 0] S128x128.size inb) (fun _ => rfl)).view f (ix2 r j)
      = (f : S102400x128.Idx → Elt F .f32) (ix2 ⟨o0 + r.val, h⟩ j) := by
  refine ((View.read_apply _ _).trans (cast_eq _ _)).trans ?_
  refine congrArg (f : S102400x128.Idx → Elt F .f32) ?_
  funext a
  refine Fin.ext ?_
  match a with
  | ⟨0, _⟩ =>
    show o0 + 1 * r.val = o0 + r.val
    omega
  | ⟨1, _⟩ =>
    show 0 + 1 * j.val = j.val
    omega

variable (fct : Buf (Elt F) ((SparseCore.T (τ := τ) d).loc main_v9))
  (fvi : Buf (Elt F) ((SparseCore.T (τ := τ) d).loc main_v13)) (hvi : ∀ j, (fvi j).toNat < 100000)
  (f0 : Buf (Elt F) ((thr d L).loc cc1_scratch0))

/-- One chunk: a window of the result that reads the gather's payload for the window `off` of the fetched list holds,
    at each of its rows, the table's row named by the flat index list at the tile's offset plus the row's position. -/
theorem chunk_value (f : Buf (Elt F) ((SparseCore.T (τ := τ) d).loc main_v18_0)) (off : ℕ)
    (hoff : ∀ a, (![off] : Fin 1 → ℕ) a + S128.size a ≤ S3200.size a) (o0 : ℕ)
    (inb : ∀ a, (![o0, 0] : Fin 2 → ℕ) a + S128x128.size a ≤ S102400x128.size a)
    (ho : o0 = 6400 * (L 1).val + 3200 * (L 0).val + off)
    (hW : View.read (Elt F) ((euW).slice (Rect.unit (s := S102400x128) ![o0, 0] S128x128.size inb) (fun _ => rfl)).view f
      = Gpay d L fct (fetched d L fvi f0) (hin_v_of d L fvi hvi f0) ![off] hoff)
    (p : Fin 3200) (r j : Fin 128) (hp : p.val = off + r.val) :
    (f : S102400x128.Idx → Elt F .f32) (ix2 ⟨6400 * (L 1).val + 3200 * (L 0).val + p.val, tilePos_lt L p⟩ j)
      = (fct : S100000x128.Idx → Elt F .f32)
          (ix2 ⟨((fvi : S102400.Idx → BitVec 32) (ix1 ⟨6400 * (L 1).val + 3200 * (L 0).val + p.val, tilePos_lt L p⟩)).toNat, hvi _⟩ j) := by
  have hp3 := p.isLt
  have h1 : (![off] : Fin 1 → ℕ) 0 + r.val < 3200 := by show off + r.val < 3200; omega
  have h2 : ((fetched d L fvi f0 : S3200.Idx → BitVec 32) (ix1 ⟨(![off] : Fin 1 → ℕ) 0 + r.val, h1⟩)).toNat < 100000 :=
    c0_lt d L fvi hvi f0 _
  have hb := tilePos_lt L p
  have e1 := congrFun hW (ix2 r j)
  rw [window_read d f o0 inb r j (by omega), Gpay_apply d L fct _ _ ![off] hoff r j h1 h2] at e1
  refine (at_congr (f : S102400x128.Idx → Elt F .f32) _ _ (by omega) j).trans (e1.trans ?_)
  refine at_congr (fct : S100000x128.Idx → Elt F .f32) _ _ (congrArg BitVec.toNat ?_) j
  refine (fetched_apply d L fvi f0 ⟨(![off] : Fin 1 → ℕ) 0 + r.val, h1⟩).trans ?_
  exact at1_congr (fvi : S102400.Idx → BitVec 32) _ _ (by show 6400 * (L 1).val + 3200 * (L 0).val + (off + r.val) = _; omega)

/-- ALL OF THE TILE'S ROWS: when the twelve pairs of chunks and the last chunk read their gathers' payloads, row `p` of the
    tile's block of the result is the table's row named by the flat index list at the tile's offset plus `p`. -/
theorem tile_rows_value (f : Buf (Elt F) ((SparseCore.T (τ := τ) d).loc main_v18_0))
    (hch : chunksOK d L fct (fetched d L fvi f0) (hin_v_of d L fvi hvi f0) 12 f)
    (h24 : View.read (Elt F) (eu24 L).view f
      = Gpay d L fct (fetched d L fvi f0) (hin_v_of d L fvi hvi f0) ![256 * 12] (gEven_inb 12 (by decide)))
    (p : Fin 3200) (j : Fin 128) :
    (f : S102400x128.Idx → Elt F .f32) (ix2 ⟨6400 * (L 1).val + 3200 * (L 0).val + p.val, tilePos_lt L p⟩ j)
      = (fct : S100000x128.Idx → Elt F .f32)
          (ix2 ⟨((fvi : S102400.Idx → BitVec 32) (ix1 ⟨6400 * (L 1).val + 3200 * (L 0).val + p.val, tilePos_lt L p⟩)).toNat, hvi _⟩ j) := by
  have hp3 := p.isLt
  by_cases h3 : p.val < 3072
  · have hk : p.val / 256 + 1 ≤ 12 := by omega
    obtain ⟨hE, hO⟩ := hch (p.val / 256) hk (by omega)
    by_cases hq : p.val % 256 < 128
    · exact chunk_value d L fct fvi hvi f0 f (256 * (p.val / 256)) (gEven_inb _ (by omega))
        (6400 * (L 1).val + 3200 * (L 0).val + 256 * (p.val / 256)) (evenOff_inb L _ hk) rfl hE p ⟨p.val % 256, hq⟩ j (by show p.val = 256 * (p.val / 256) + p.val % 256; omega)
    · exact chunk_value d L fct fvi hvi f0 f (256 * (p.val / 256) + 128) (gOdd_inb _ hk)
        (6400 * (L 1).val + 3200 * (L 0).val + 256 * (p.val / 256) + 128) (oddOff_inb L _ hk) (by omega) hO p ⟨p.val % 256 - 128, by omega⟩ j
        (by show p.val = 256 * (p.val / 256) + 128 + (p.val % 256 - 128); omega)
  · exact chunk_value d L fct fvi hvi f0 f (256 * 12) (gEven_inb 12 (by decide))
      (6400 * (L 1).val + 3200 * (L 0).val + 3072) (e24_inb L) (by omega) h24 p ⟨p.val - 3072, by omega⟩ j (by show p.val = 256 * 12 + (p.val - 3072); omega)

end Cert.Proof.KI

end
-- ==== Proof.KTileIdxU.lean ====
/-
  The per-row gather's result in index form. A tile's 64 rows of the per-row result are written from one row buffer
  holding the payload of the gather whose offset list is the tile's 64 fetched per-row indices, which are the per-row
  index list from the tile's offset on. So row `p` of the tile's window is the table's row named by the per-row index
  list at the tile's offset plus `p`.
-/
import proofs.«217981_g19061064860210_cont_8to1_1320_37_alg».proof.Proof.KTileIdx
import proofs.«217981_g19061064860210_cont_8to1_1320_37_alg».proof.Proof.ScVTile

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open Idealize.SL.Sem
open Idealize.ShloMosaic.Rounds

variable {F : FTy → Type}

local notation "𝕄" => MT nD τ sig (HIx 2) (Elt F) ℕ UU ℕ

local notation "ctW" => (Memref.whole Cert.KernelIdeal.main_v9_scv : Memref Cert.KernelIdeal.sig Kind.scVector Space.hbm Cert.KernelIdeal.S100000x128 EltTy.f32)
local notation "viW" => (Memref.whole Cert.KernelIdeal.main_v13_scv : Memref Cert.KernelIdeal.sig Kind.scVector Space.hbm Cert.KernelIdeal.S102400 EltTy.i32)
local notation "euW" => (Memref.whole Cert.KernelIdeal.main_v18_0_scv : Memref Cert.KernelIdeal.sig Kind.scVector Space.hbm Cert.KernelIdeal.S102400x128 EltTy.f32)
local notation "uvW" => (Memref.whole Cert.KernelIdeal.main_v18_1_scv : Memref Cert.KernelIdeal.sig Kind.scVector Space.hbm Cert.KernelIdeal.S2048x128 EltTy.f32)
local notation "niW" => (Memref.whole Cert.KernelIdeal.main_v14_scv : Memref Cert.KernelIdeal.sig Kind.scVector Space.hbm Cert.KernelIdeal.S2048 EltTy.i32)
local notation "s1W" => (Memref.whole Cert.KernelIdeal.cc1_scratch1 : Memref Cert.KernelIdeal.sig Kind.scVector Space.vmem Cert.KernelIdeal.S64 EltTy.i32)
local notation "s0W" => (Memref.whole Cert.KernelIdeal.cc1_scratch0 : Memref Cert.KernelIdeal.sig Kind.scVector Space.vmem Cert.KernelIdeal.S3200 EltTy.i32)

variable (d : Dev nD) (L : grid1.Coords)

/-- A position in a flat list of 64 entries is its one coordinate. -/
theorem rowMajor_symm_S64 (k : Fin S64.numel) :
    S64.rowMajor.symm k = ix1 (⟨k.val, (lt_of_lt_of_eq k.isLt (Shape.numel_rank1 _) : k.val < 64)⟩ : Fin 64) := by
  rw [Equiv.symm_apply_eq]
  refine Fin.ext ?_
  rw [Shape.rowMajor_val_one]

/-- The bound that makes a tile's position in the per-row index list an index of it. -/
theorem uvPos_lt (p : Fin 64) : 128 * (L 1).val + 64 * (L 0).val + p.val < 2048 := by
  have h0 := L0_lt L; have h1 := L1_lt L; have := p.isLt; omega

variable (fct : Buf (Elt F) ((SparseCore.T (τ := τ) d).loc main_v9))
  (fni : Buf (Elt F) ((SparseCore.T (τ := τ) d).loc main_v14)) (hni : ∀ j, (fni j).toNat < 100000)
  (f1 : Buf (Elt F) ((thr d L).loc cc1_scratch1))

/-- The per-row gather's payload at row `r`, column `j`: the table at the row named by the per-row index list at the tile's
    offset plus `r`, column `j`. -/
theorem GpayU_apply (r : Fin 64) (j : Fin 128) :
    GpayU d L fct fni hni f1 (ix2 r j)
      = (fct : S100000x128.Idx → Elt F .f32)
          (ix2 ⟨((fni : S2048.Idx → BitVec 32) (ix1 ⟨128 * (L 1).val + 64 * (L 0).val + r.val, uvPos_lt L r⟩)).toNat, hni _⟩ j) := by
  unfold GpayU SparseCore.gatherPayload
  rw [show ∀ y, View.read (Elt F) (ctS).view fct y = fct ((ctS).view.emb y) from fun y => (View.read_apply _ _).trans (cast_eq _ _)]
  refine congrArg fct ?_
  funext a
  refine Fin.ext ?_
  match a with
  | ⟨0, h0⟩ =>
    show 0 + 1 * ((gathers_S100000x128_S64x128.idx _ (ix2 r j)) ⟨0, h0⟩).val = _
    rw [Nat.zero_add, Nat.one_mul]
    refine (congrArg Fin.val (Shape.Gathers.idx_axis gathers_S100000x128_S64x128 _ (ix2 r j))).trans ?_
    show (View.read (Elt F) (s1W).view (View.write (Elt F) (s1W).view f1 (ReadAs.same.apply (View.read (Elt F) (niS L).view fni)) Finset.univ)
      (S64.rowMajor.symm _)).toNat = ((fni : S2048.Idx → BitVec 32) (ix1 ⟨128 * (L 1).val + 64 * (L 0).val + r.val, uvPos_lt L r⟩)).toNat
    have e : View.write (Elt F) (s1W).view f1 (ReadAs.same.apply (View.read (Elt F) (niS L).view fni)) Finset.univ
        = ReadAs.same.apply (View.read (Elt F) (niS L).view fni) := View.write_whole_univ _ _ _
    rw [rowMajor_symm_S64, e]
    refine (congrArg BitVec.toNat ((View.read_apply _ _).trans (cast_eq _ _))).trans ?_
    show (View.read (Elt F) (niS L).view fni _).toNat = _
    refine (congrArg BitVec.toNat ((View.read_apply _ _).trans (cast_eq _ _))).trans ?_
    refine congrArg (fun i => BitVec.toNat ((fni : S2048.Idx → BitVec 32) i)) ?_
    funext a'
    refine Fin.ext ?_
    match a' with
    | ⟨0, _⟩ =>
      show k1_off2 L 0 + 1 * r.val = 128 * (L 1).val + 64 * (L 0).val + r.val
      rw [k1_off2_eq L]
      show 128 * (L 1).val + 64 * (L 0).val + 1 * r.val = _
      omega
  | ⟨1, h1'⟩ =>
    show 0 + 1 * _ = j.val
    rw [Nat.zero_add, Nat.one_mul]
    exact Shape.Gathers.idx_of_ne gathers_S100000x128_S64x128 _ (ix2 r j) ⟨1, h1'⟩ Nat.one_ne_zero

/-- THE TILE'S PER-ROW RESULT: when the tile's window of the per-row result reads the gather's payload, its row `p` is the
    table's row named by the per-row index list at the tile's offset plus `p`. -/
theorem uv_rows_value (f : Buf (Elt F) ((SparseCore.T (τ := τ) d).loc main_v18_1))
    (hU : View.read (Elt F) ((uvW).slice (uvRect L) (fun _ => rfl)).view f = GpayU d L fct fni hni f1)
    (p : Fin 64) (j : Fin 128) :
    (f : S2048x128.Idx → Elt F .f32) (ix2 ⟨128 * (L 1).val + 64 * (L 0).val + p.val, uvPos_lt L p⟩ j)
      = (fct : S100000x128.Idx → Elt F .f32)
          (ix2 ⟨((fni : S2048.Idx → BitVec 32) (ix1 ⟨128 * (L 1).val + 64 * (L 0).val + p.val, uvPos_lt L p⟩)).toNat, hni _⟩ j) := by
  have e1 := congrFun hU (ix2 p j)
  rw [GpayU_apply d L fct fni hni f1 p j] at e1
  refine Eq.trans ?_ e1
  refine Eq.symm (((View.read_apply _ _).trans (cast_eq _ _)).trans ?_)
  refine congrArg (f : S2048x128.Idx → Elt F .f32) ?_
  funext a
  refine Fin.ext ?_
  match a with
  | ⟨0, _⟩ =>
    show 128 * (L 1).val + 64 * (L 0).val + 1 * p.val = 128 * (L 1).val + 64 * (L 0).val + p.val
    omega
  | ⟨1, _⟩ =>
    show 0 + 1 * j.val = j.val
    omega

end Cert.Proof.KI

end
-- ==== Proof.ScVObl.lean ====
/-
  The gather task from the launch's hand to the launch's hand, with VALUES: the table and the two index lists at fixed contents
  go in and come back; the tile's rows of the gathered-rows result come back holding, row by row, the table's row that the
  tile's index for that row names, and its rows of the user-rows result likewise.
-/
import proofs.«217981_g19061064860210_cont_8to1_1320_37_alg».proof.Proof.ScVTile
import proofs.«217981_g19061064860210_cont_8to1_1320_37_alg».proof.Proof.ScObl
import proofs.«217981_g19061064860210_cont_8to1_1320_37_alg».proof.Proof.KTileIdxU

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

local notation "ctW" => (Memref.whole Cert.KernelIdeal.main_v9_scv : Memref Cert.KernelIdeal.sig Kind.scVector Space.hbm Cert.KernelIdeal.S100000x128 EltTy.f32)
local notation "viW" => (Memref.whole Cert.KernelIdeal.main_v13_scv : Memref Cert.KernelIdeal.sig Kind.scVector Space.hbm Cert.KernelIdeal.S102400 EltTy.i32)
local notation "niW" => (Memref.whole Cert.KernelIdeal.main_v14_scv : Memref Cert.KernelIdeal.sig Kind.scVector Space.hbm Cert.KernelIdeal.S2048 EltTy.i32)
local notation "euW" => (Memref.whole Cert.KernelIdeal.main_v18_0_scv : Memref Cert.KernelIdeal.sig Kind.scVector Space.hbm Cert.KernelIdeal.S102400x128 EltTy.f32)
local notation "uvW" => (Memref.whole Cert.KernelIdeal.main_v18_1_scv : Memref Cert.KernelIdeal.sig Kind.scVector Space.hbm Cert.KernelIdeal.S2048x128 EltTy.f32)
local notation "s0W" => (Memref.whole Cert.KernelIdeal.cc1_scratch0 : Memref Cert.KernelIdeal.sig Kind.scVector Space.vmem Cert.KernelIdeal.S3200 EltTy.i32)
local notation "s1W" => (Memref.whole Cert.KernelIdeal.cc1_scratch1 : Memref Cert.KernelIdeal.sig Kind.scVector Space.vmem Cert.KernelIdeal.S64 EltTy.i32)
local notation "s2W" => (Memref.whole Cert.KernelIdeal.cc1_scratch2 : Memref Cert.KernelIdeal.sig Kind.scVector Space.vmem Cert.KernelIdeal.S128x128 EltTy.f32)
local notation "s3W" => (Memref.whole Cert.KernelIdeal.cc1_scratch3 : Memref Cert.KernelIdeal.sig Kind.scVector Space.vmem Cert.KernelIdeal.S128x128 EltTy.f32)
local notation "s4W" => (Memref.whole Cert.KernelIdeal.cc1_scratch4 : Memref Cert.KernelIdeal.sig Kind.scVector Space.vmem Cert.KernelIdeal.S64x128 EltTy.f32)

variable [FloatOps F]
variable (d : Dev nD) (L : grid1.Coords)

variable (fct : Buf (Elt F) ((SparseCore.T (τ := τ) d).loc main_v9)) (fvi : Buf (Elt F) ((SparseCore.T (τ := τ) d).loc main_v13))
  (fni : Buf (Elt F) ((SparseCore.T (τ := τ) d).loc main_v14))
  (hvi : ∀ j, (fvi j).toNat < 100000) (hni : ∀ j, (fni j).toNat < 100000)

/-- The tile's rows of the gathered-rows result hold the table's rows its indices name. -/
def rowsVal (f : Buf (Elt F) ((SparseCore.T (τ := τ) d).loc main_v18_0)) : Prop :=
  ∀ (p : Fin 3200) (j : Fin 128),
    (f : S102400x128.Idx → Elt F .f32) (ix2 ⟨6400 * (L 1).val + 3200 * (L 0).val + p.val, tilePos_lt L p⟩ j)
      = (fct : S100000x128.Idx → Elt F .f32)
          (ix2 ⟨((fvi : S102400.Idx → BitVec 32) (ix1 ⟨6400 * (L 1).val + 3200 * (L 0).val + p.val, tilePos_lt L p⟩)).toNat, hvi _⟩ j)

/-- The tile's rows of the user-rows result hold the table's rows its user indices name. -/
def urowsVal (f : Buf (Elt F) ((SparseCore.T (τ := τ) d).loc main_v18_1)) : Prop :=
  ∀ (p : Fin 64) (j : Fin 128),
    (f : S2048x128.Idx → Elt F .f32) (ix2 ⟨128 * (L 1).val + 64 * (L 0).val + p.val, uvPos_lt L p⟩ j)
      = (fct : S100000x128.Idx → Elt F .f32)
          (ix2 ⟨((fni : S2048.Idx → BitVec 32) (ix1 ⟨128 * (L 1).val + 64 * (L 0).val + p.val, uvPos_lt L p⟩)).toNat, hni _⟩ j)

/-- What the launch hands the tile, the read arrays' contents fixed. -/
def goResV (qT : PosShare TreeShare) : sProp 𝕄 :=
  iprop(ctPts d L qT fct ∗ viPts d L qT fvi ∗ niPts d L qT fni ∗ (∃ f, euPts d L f) ∗ (∃ f, uvPts d L f))

/-- What the tile hands back: the same, its gathered rows at their values. -/
def tdResV (qT : PosShare TreeShare) : sProp 𝕄 :=
  iprop(ctPts d L qT fct ∗ viPts d L qT fvi ∗ niPts d L qT fni ∗ (∃ f, ⌜rowsVal d L fct fvi hvi f⌝ ∗ euPts d L f)
      ∗ (∃ f, ⌜urowsVal d L fct fni hni f⌝ ∗ uvPts d L f))

set_option maxHeartbeats 1000000 in
/-- The task of tile `L`, from the launch's hand to the launch's hand, with the gathered rows' values. -/
theorem tile_task0V (hF : (K (F := F)).Facts) (O : CellTallies nD τ sig (HIx 2)) (W : Waits sig (HIx 2)) (hO : ∀ g, O g none = 0)
    (qT : PosShare TreeShare) :
    iprop(levAts (K (F := F)).L (K (F := F)).lev ∗ emp ∗ goResV d L fct fvi fni qT ∗ scopedBufs (thr d L) ∗ scopedSems0 (thr d L) ∗ owes (thr d L) O W)
      ⊢ wp frame (wpE (defs₀ (F := F)) 𝒱₀ (thr d L) none) Set.univ
          (cc1_k L ctW (Memref.isWhole_whole _) viW (Memref.isWhole_whole _) niW (Memref.isWhole_whole _)
            euW (Memref.isWhole_whole _) uvW (Memref.isWhole_whole _)
            s0W (Memref.isWhole_whole _) s1W (Memref.isWhole_whole _) s2W (Memref.isWhole_whole _)
            s3W (Memref.isWhole_whole _) s4W (Memref.isWhole_whole _)
            cc1_scratch5 cc1_scratch6 cc1_scratch7 cc1_scratch8 cc1_scratch9 cc1_scoped0 cc1_scoped1 cc1_scoped2)
          fun _ => iprop(tdResV d L fct fvi fni hvi hni qT ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V8, ownBufs_V5]
  unfold goResV tdResV ctPts viPts niPts euPts uvPts
  iintro ⟨#Hlv, -, ⟨Hct, Hvi, Hni, ⟨%feu, Heu⟩, ⟨%fuv, Huv⟩⟩,
    ⟨⟨⟨%f0, Hs0⟩, ⟨%f1, Hs1⟩, ⟨%f2, Hs2⟩, ⟨%f3, Hs3⟩, ⟨%f4, Hs4⟩⟩, Hbufs⟩,
    ⟨⟨Hg0, Hg1, Hw0, Hw1, Hsu, Hc0, Hc1, Hc2⟩, Hsems⟩, HO⟩
  ihave Hmw := (show levAts (K (F := F)).L (K (F := F)).lev ⊢ Transfers.MayWaits (thr d L) (none : HIx 2) O from
    (K (F := F)).mayWaits_none (thr := thr d L) hO) $$ Hlv
  ihave Ht := (Transfers.pointsTo_toks qT 3).1 $$ Hct
  icases Ht with ⟨Hdrop, Htoks⟩
  ihave Ht3 := (Entails.of_eq (bigSep_three _)) $$ Htoks
  icases Ht3 with ⟨Hct0, Hct1, Hct2⟩
  ihave Hv := (pointsTo_split_subset (q := qT) (f := fvi) (S := Finset.univ) (Finset.subset_univ (viS L).view.set)).1 $$ Hvi
  icases Hv with ⟨Hvi, Hvir⟩
  ihave Hn := (pointsTo_split_subset (q := qT) (f := fni) (S := Finset.univ) (Finset.subset_univ (niS L).view.set)).1 $$ Hni
  icases Hn with ⟨Hni, Hnir⟩
  iapply (wp_wand_r frame (wpE (defs₀ (F := F)) 𝒱₀ (thr d L) none) Set.univ (Q := fun _ => tilePostV d L O W fct qT fvi fni qT f0 hvi f1 hni))
  isplitl [Hmw Hct0 Hct1 Hct2 Hvi Hni Hs0 Hs1 Hs2 Hs3 Hs4 Hg0 Hg1 Hw0 Hw1 Hsu Hc0 Hc1 Hc2 Heu Huv HO]
  · iapply (tile_runV d L O W fct qT hO fvi fni qT f0 f1 f2 f3 f4 feu fuv hvi hni)
    unfold tilePre
    isplitl [Hmw]; · iexact Hmw
    isplitl [Hct0]; · iexact Hct0
    isplitl [Hct1]; · iexact Hct1
    isplitl [Hct2]; · iexact Hct2
    isplitl [Hvi]; · iexact Hvi
    isplitl [Hni]; · iexact Hni
    isplitl [Hs0]; · iexact Hs0
    isplitl [Hs1]; · iexact Hs1
    isplitl [Hs2]; · iexact Hs2
    isplitl [Hs3]; · iexact Hs3
    isplitl [Hs4]; · iexact Hs4
    isplitl [Hg0]; · iexact Hg0
    isplitl [Hg1]; · iexact Hg1
    isplitl [Hw0]; · iexact Hw0
    isplitl [Hw1]; · iexact Hw1
    isplitl [Hsu]; · iexact Hsu
    isplitl [Hc0]; · iexact Hc0
    isplitl [Hc1]; · iexact Hc1
    isplitl [Hc2]; · iexact Hc2
    isplitl [Heu]; · iexact Heu
    isplitl [Huv]; · iexact Huv
    iexact HO
  iintro %a Hpost
  unfold tilePostV
  icases Hpost with ⟨Hct0, Hct1, Hct2, Hvi, Hni, Hs0, Hs1, Hs2, Hs3, Hs4, Hg0, Hg1, Hw0, Hw1, Hsu, Hc0, Hc1, Hc2, ⟨%fe', %hfe, Heu⟩, ⟨%fu', %hfu, Huv⟩, HOW⟩
  ihave Htoks := (Entails.of_eq (bigSep_three
      (fun i : Fin 3 => ((ctW).view.loc (thr d L) ↦{Transfers.shareTok qT 3 i} fct : sProp 𝕄))).symm) $$ [Hct0 Hct1 Hct2]
  · isplitl [Hct0]; · iexact Hct0
    isplitl [Hct1]; · iexact Hct1
    iexact Hct2
  ihave Hct := (Transfers.pointsTo_toks qT 3).2 $$ [Hdrop Htoks]
  · isplitl [Hdrop]; · iexact Hdrop
    iexact Htoks
  ihave Hvi := (pointsTo_split_subset (q := qT) (f := fvi) (S := Finset.univ) (Finset.subset_univ (viS L).view.set)).2 $$ [Hvi Hvir]
  · isplitl [Hvi]; · iexact Hvi
    iexact Hvir
  ihave Hni := (pointsTo_split_subset (q := qT) (f := fni) (S := Finset.univ) (Finset.subset_univ (niS L).view.set)).2 $$ [Hni Hnir]
  · isplitl [Hni]; · iexact Hni
    iexact Hnir
  isplitl [Hct Hvi Hni Heu Huv]
  · isplitl [Hct]; · iexact Hct
    isplitl [Hvi]; · iexact Hvi
    isplitl [Hni]; · iexact Hni
    isplitl [Heu]
    · iexists fe'
      isplitr; · ipureintro; exact tile_rows_value d L fct fvi hvi f0 fe' hfe.1 hfe.2
      iexact Heu
    iexists fu'
    isplitr; · ipureintro; exact uv_rows_value d L fct fni hni f1 fu' hfu
    iexact Huv
  isplitl [Hs0 Hs1 Hs2 Hs3 Hs4 Hbufs]
  · isplitl [Hs0 Hs1 Hs2 Hs3 Hs4]
    · isplitl [Hs0]; · iexact Hs0
      isplitl [Hs1]; · iexact Hs1
      isplitl [Hs2]; · iexact Hs2
      isplitl [Hs3]; · iexact Hs3
      iexact Hs4
    iexact Hbufs
  isplitl [Hg0 Hg1 Hw0 Hw1 Hsu Hc0 Hc1 Hc2 Hsems]
  · isplitl [Hg0 Hg1 Hw0 Hw1 Hsu Hc0 Hc1 Hc2]
    · isplitl [Hg0]; · iexact Hg0
      isplitl [Hg1]; · iexact Hg1
      isplitl [Hw0]; · iexact Hw0
      isplitl [Hw1]; · iexact Hw1
      isplitl [Hsu]; · iexact Hsu
      isplitl [Hc0]; · iexact Hc0
      isplitl [Hc1]; · iexact Hc1
      iexact Hc2
    iexact Hsems
  iexact HOW

end Cert.Proof.KI

end
-- ==== Proof.Sc3VInv.lean ====
/-
  The gather loop's invariant carrying VALUES (second call). The spec is chunk by chunk: a finished chunk of the tile's rows of the
  result, read through its window, is the gather's payload for that chunk — the table's rows named by the chunk's 128
  fetched indices — in the spelling the indexed copy's rule gives it (`gatherPayload` over `rows`). Before trip `k` chunks
  `0 … 2k - 1` are finished and the first row buffer is about to receive chunk `2k`'s payload.
-/
import proofs.«217981_g19061064860210_cont_8to1_1320_37_alg».proof.Proof.Sc3Tile
import proofs.«217981_g19061064860210_cont_8to1_1320_37_alg».proof.Proof.LibRectReads

noncomputable section

namespace Cert.Proof.KI3

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "ctW" => (Memref.whole Cert.KernelIdeal.main_v9_scv : Memref Cert.KernelIdeal.sig Kind.scVector Space.hbm Cert.KernelIdeal.S100000x128 EltTy.f32)
local notation "viW" => (Memref.whole Cert.KernelIdeal.main_v39_scv : Memref Cert.KernelIdeal.sig Kind.scVector Space.hbm Cert.KernelIdeal.S102400 EltTy.i32)
local notation "niW" => (Memref.whole Cert.KernelIdeal.main_v40_scv : Memref Cert.KernelIdeal.sig Kind.scVector Space.hbm Cert.KernelIdeal.S2048 EltTy.i32)
local notation "euW" => (Memref.whole Cert.KernelIdeal.main_v44_0_scv : Memref Cert.KernelIdeal.sig Kind.scVector Space.hbm Cert.KernelIdeal.S102400x128 EltTy.f32)
local notation "uvW" => (Memref.whole Cert.KernelIdeal.main_v44_1_scv : Memref Cert.KernelIdeal.sig Kind.scVector Space.hbm Cert.KernelIdeal.S2048x128 EltTy.f32)
local notation "s0W" => (Memref.whole Cert.KernelIdeal.cc3_scratch0 : Memref Cert.KernelIdeal.sig Kind.scVector Space.vmem Cert.KernelIdeal.S3200 EltTy.i32)
local notation "s1W" => (Memref.whole Cert.KernelIdeal.cc3_scratch1 : Memref Cert.KernelIdeal.sig Kind.scVector Space.vmem Cert.KernelIdeal.S64 EltTy.i32)
local notation "s2W" => (Memref.whole Cert.KernelIdeal.cc3_scratch2 : Memref Cert.KernelIdeal.sig Kind.scVector Space.vmem Cert.KernelIdeal.S128x128 EltTy.f32)
local notation "s3W" => (Memref.whole Cert.KernelIdeal.cc3_scratch3 : Memref Cert.KernelIdeal.sig Kind.scVector Space.vmem Cert.KernelIdeal.S128x128 EltTy.f32)
local notation "s4W" => (Memref.whole Cert.KernelIdeal.cc3_scratch4 : Memref Cert.KernelIdeal.sig Kind.scVector Space.vmem Cert.KernelIdeal.S64x128 EltTy.f32)

variable [FloatOps F]
variable (d : Dev nD) (L : grid3.Coords)

variable (O : CellTallies nD τ sig (HIx 2)) (W : Waits sig (HIx 2))
  (fct : Buf (Elt F) ((SparseCore.T (τ := τ) d).loc main_v9)) (q : PosShare TreeShare)
  (c0 : Buf (Elt F) ((thr d L).loc cc3_scratch0))
  (hc0 : ∀ (off : Fin 1 → ℕ) (h : ∀ a, off a + S128.size a ≤ S3200.size a) (x : S128.Idx),
      (View.read (Elt F) ((s0W).slice (Rect.unit (s := S3200) off S128.size h) (fun _ => rfl)).view c0 x).toNat < 100000)

omit [FloatOps F] in
theorem gEven_inb (j : ℕ) (hj : j ≤ 12) : ∀ a, (![256 * j] : Fin 1 → ℕ) a + S128.size a ≤ S3200.size a := by
  intro a; fin_cases a; show 256 * j + 128 ≤ 3200; omega
omit [FloatOps F] in
theorem gOdd_inb (j : ℕ) (hj : j + 1 ≤ 12) : ∀ a, (![256 * j + 128] : Fin 1 → ℕ) a + S128.size a ≤ S3200.size a := by
  intro a; fin_cases a; show 256 * j + 128 + 128 ≤ 3200; omega

/-- The payload of the gather whose list is window `off` of the fetched indices: row `r` of it is the table's row named by the
    window's `r`-th entry. -/
def Gpay (off : Fin 1 → ℕ) (hoff : ∀ a, off a + S128.size a ≤ S3200.size a) : S128x128.Idx → Elt F .f32 :=
  SparseCore.gatherPayload gathers_S100000x128_S128x128 (View.read (Elt F) (ctS).view fct)
    (SparseCore.rows (View.read (Elt F) ((s0W).slice (Rect.unit (s := S3200) off S128.size hoff) (fun _ => rfl)).view c0) rfl (hc0 off hoff))

/-- Chunks `0 … 2k - 1` of the tile's rows hold their payloads. -/
def chunksOK (k : ℕ) (fe : Buf (Elt F) ((SparseCore.T (τ := τ) d).loc main_v44_0)) : Prop :=
  ∀ (j : ℕ) (hj : j + 1 ≤ 12), j < k →
    View.read (Elt F) (euEven L j hj).view fe = Gpay d L fct c0 hc0 ![256 * j] (gEven_inb j (by omega))
    ∧ View.read (Elt F) (euOdd L j hj).view fe = Gpay d L fct c0 hc0 ![256 * j + 128] (gOdd_inb j hj)

/-- The first row buffer holds (or is about to receive) chunk `2k`'s payload. -/
def rowsOK (k : ℕ) (hk : k ≤ 12) (g2 : Buf (Elt F) ((thr d L).loc cc3_scratch2)) : Prop :=
  View.read (Elt F) (s2W).view g2 = Gpay d L fct c0 hc0 ![256 * k] (gEven_inb k hk)

omit [FloatOps F] in
/-- The payload does not depend on how the window's offsets are spelt. -/
theorem Gpay_congr {off off' : Fin 1 → ℕ} (e : off = off') (h : ∀ a, off a + S128.size a ≤ S3200.size a)
    (h' : ∀ a, off' a + S128.size a ≤ S3200.size a) : Gpay d L fct c0 hc0 off h = Gpay d L fct c0 hc0 off' h' := by
  subst e; rfl

omit [FloatOps F] in
/-- A buffer written whole reads the payload. -/
theorem read_writes_whole {κ : Kind} {sp : Space} {s : Shape} {e : EltTy} (v : View sig κ sp s e) (f : v.ty.Contents (Elt F))
    (w : s.Idx → Elt F e) : v.read (Elt F) (v.writes (Elt F) f [⟨Rect.whole s, w⟩]) = w := by
  rw [← View.write_univ_eq_writes_whole v f [] w, View.writes_nil]
  exact View.read_write_univ f w

omit [FloatOps F] in
/-- One trip's effect on the result's values: the first row buffer's chunk `2k` and the second's chunk `2k + 1` written to
    their windows. -/
theorem trip_chunks (k : ℕ) (hk : k + 1 ≤ 12)
    (off6 off9 : Fin 2 → ℕ) (h6 : ∀ a, off6 a + S128x128.size a ≤ S102400x128.size a) (h9 : ∀ a, off9 a + S128x128.size a ≤ S102400x128.size a)
    (e6 : off6 = ![6400 * (L 1).val + 3200 * (L 0).val + 256 * k, 0]) (e9 : off9 = ![6400 * (L 1).val + 3200 * (L 0).val + 256 * k + 128, 0])
    (off5 : Fin 1 → ℕ) (h5 : ∀ a, off5 a + S128.size a ≤ S3200.size a)
    (e5 : off5 = ![256 * k + 128])
    (fe : Buf (Elt F) ((SparseCore.T (τ := τ) d).loc main_v44_0)) (g2 : Buf (Elt F) ((thr d L).loc cc3_scratch2))
    (g3 : Buf (Elt F) ((thr d L).loc cc3_scratch3))
    (hOK : chunksOK d L fct c0 hc0 k fe) (hR : rowsOK d L fct c0 hc0 k (by omega) g2) :
    chunksOK d L fct c0 hc0 (k + 1)
      (View.write (Elt F) ((euW).slice (Rect.unit (s := S102400x128) off9 S128x128.size h9) (fun _ => rfl)).view
        (View.write (Elt F) ((euW).slice (Rect.unit (s := S102400x128) off6 S128x128.size h6) (fun _ => rfl)).view fe
          (ReadAs.same.apply (View.read (Elt F) (s2W).view g2)) Finset.univ)
        (ReadAs.same.apply (View.read (Elt F) (s3W).view
          ((s3W).view.writes (Elt F) g3 [⟨Rect.whole cc3_scratch3.ty.shape, Gpay d L fct c0 hc0 off5 h5⟩]))) Finset.univ) := by
  subst e6 e9 e5
  · intro j hj hjk
    -- the two windows written in this trip
    have d69 : Disjoint (Rect.unit (s := S102400x128) ![6400 * (L 1).val + 3200 * (L 0).val + 256 * k, 0] S128x128.size h6).set
        (Rect.unit (s := S102400x128) ![6400 * (L 1).val + 3200 * (L 0).val + 256 * k + 128, 0] S128x128.size h9).set :=
      Rect.unit_disjoint 0 (Or.inl (by show 6400 * (L 1).val + 3200 * (L 0).val + 256 * k + 128 ≤ 6400 * (L 1).val + 3200 * (L 0).val + 256 * k + 128; omega))
    rcases Nat.lt_or_ge j k with hlt | hge
    · -- an earlier chunk pair: neither write is seen
      obtain ⟨hE, hO⟩ := hOK j hj hlt
      have far : ∀ (r : Rect S102400x128)
          (hd6 : Disjoint r.set (Rect.unit (s := S102400x128) ![6400 * (L 1).val + 3200 * (L 0).val + 256 * k, 0] S128x128.size h6).set)
          (hd9 : Disjoint r.set (Rect.unit (s := S102400x128) ![6400 * (L 1).val + 3200 * (L 0).val + 256 * k + 128, 0] S128x128.size h9).set)
          (p6 p9 : S128x128.Idx → Elt F .f32),
          View.read (Elt F) ((euW).view.slice r)
            (View.write (Elt F) ((euW).view.slice (Rect.unit (s := S102400x128) ![6400 * (L 1).val + 3200 * (L 0).val + 256 * k + 128, 0] S128x128.size h9))
              (View.write (Elt F) ((euW).view.slice (Rect.unit (s := S102400x128) ![6400 * (L 1).val + 3200 * (L 0).val + 256 * k, 0] S128x128.size h6)) fe p6 Finset.univ)
              p9 Finset.univ)
            = View.read (Elt F) ((euW).view.slice r) fe :=
        fun r hd6 hd9 p6 p9 => (LibRectReads.read_write_disjoint (euW).view hd9 _ _).trans (LibRectReads.read_write_disjoint (euW).view hd6 _ _)
      refine ⟨?_, ?_⟩
      · refine Eq.trans ?_ hE
        exact far _ (Rect.unit_disjoint 0 (Or.inl (by show 6400 * (L 1).val + 3200 * (L 0).val + 256 * j + 128 ≤ 6400 * (L 1).val + 3200 * (L 0).val + 256 * k; omega)))
          (Rect.unit_disjoint 0 (Or.inl (by show 6400 * (L 1).val + 3200 * (L 0).val + 256 * j + 128 ≤ 6400 * (L 1).val + 3200 * (L 0).val + 256 * k + 128; omega))) _ _
      · refine Eq.trans ?_ hO
        exact far _ (Rect.unit_disjoint 0 (Or.inl (by show 6400 * (L 1).val + 3200 * (L 0).val + 256 * j + 128 + 128 ≤ 6400 * (L 1).val + 3200 * (L 0).val + 256 * k; omega)))
          (Rect.unit_disjoint 0 (Or.inl (by show 6400 * (L 1).val + 3200 * (L 0).val + 256 * j + 128 + 128 ≤ 6400 * (L 1).val + 3200 * (L 0).val + 256 * k + 128; omega))) _ _
    · -- this trip's pair
      have hjk' : j = k := by omega
      subst hjk'
      refine ⟨?_, ?_⟩
      · -- the even chunk: written first, not touched by the second write
        refine Eq.trans (LibRectReads.read_write_disjoint (euW).view d69 _ _) ?_
        refine Eq.trans (LibRectReads.read_write_same (euW).view _ fe _) ?_
        exact hR
      · -- the odd chunk: the second write's payload, the second row buffer just gathered
        refine Eq.trans (LibRectReads.read_write_same (euW).view _ _ _) ?_
        show View.read (Elt F) (s3W).view _ = _
        rw [read_writes_whole]

omit [FloatOps F] in
/-- One trip's effect on the values: the first row buffer's chunk `2k` and the second's chunk `2k + 1` written to their windows,
    the first row buffer refilled with chunk `2k + 2`. -/
theorem trip_value (k : ℕ) (hk : k + 1 ≤ 12)
    (off6 off9 : Fin 2 → ℕ) (h6 : ∀ a, off6 a + S128x128.size a ≤ S102400x128.size a) (h9 : ∀ a, off9 a + S128x128.size a ≤ S102400x128.size a)
    (e6 : off6 = ![6400 * (L 1).val + 3200 * (L 0).val + 256 * k, 0]) (e9 : off9 = ![6400 * (L 1).val + 3200 * (L 0).val + 256 * k + 128, 0])
    (off5 off8 : Fin 1 → ℕ) (h5 : ∀ a, off5 a + S128.size a ≤ S3200.size a) (h8 : ∀ a, off8 a + S128.size a ≤ S3200.size a)
    (e5 : off5 = ![256 * k + 128]) (e8 : off8 = ![256 * (k + 1)])
    (fe : Buf (Elt F) ((SparseCore.T (τ := τ) d).loc main_v44_0)) (g2 : Buf (Elt F) ((thr d L).loc cc3_scratch2))
    (g3 : Buf (Elt F) ((thr d L).loc cc3_scratch3))
    (hOK : chunksOK d L fct c0 hc0 k fe) (hR : rowsOK d L fct c0 hc0 k (by omega) g2) :
    chunksOK d L fct c0 hc0 (k + 1)
      (View.write (Elt F) ((euW).slice (Rect.unit (s := S102400x128) off9 S128x128.size h9) (fun _ => rfl)).view
        (View.write (Elt F) ((euW).slice (Rect.unit (s := S102400x128) off6 S128x128.size h6) (fun _ => rfl)).view fe
          (ReadAs.same.apply (View.read (Elt F) (s2W).view g2)) Finset.univ)
        (ReadAs.same.apply (View.read (Elt F) (s3W).view
          ((s3W).view.writes (Elt F) g3 [⟨Rect.whole cc3_scratch3.ty.shape, Gpay d L fct c0 hc0 off5 h5⟩]))) Finset.univ)
    ∧ rowsOK d L fct c0 hc0 (k + 1) (by omega)
        ((s2W).view.writes (Elt F) g2 [⟨Rect.whole cc3_scratch2.ty.shape, Gpay d L fct c0 hc0 off8 h8⟩]) := by
  subst e6 e9 e5 e8
  refine ⟨?_, ?_⟩
  · intro j hj hjk
    -- the two windows written in this trip
    have d69 : Disjoint (Rect.unit (s := S102400x128) ![6400 * (L 1).val + 3200 * (L 0).val + 256 * k, 0] S128x128.size h6).set
        (Rect.unit (s := S102400x128) ![6400 * (L 1).val + 3200 * (L 0).val + 256 * k + 128, 0] S128x128.size h9).set :=
      Rect.unit_disjoint 0 (Or.inl (by show 6400 * (L 1).val + 3200 * (L 0).val + 256 * k + 128 ≤ 6400 * (L 1).val + 3200 * (L 0).val + 256 * k + 128; omega))
    rcases Nat.lt_or_ge j k with hlt | hge
    · -- an earlier chunk pair: neither write is seen
      obtain ⟨hE, hO⟩ := hOK j hj hlt
      have far : ∀ (r : Rect S102400x128)
          (hd6 : Disjoint r.set (Rect.unit (s := S102400x128) ![6400 * (L 1).val + 3200 * (L 0).val + 256 * k, 0] S128x128.size h6).set)
          (hd9 : Disjoint r.set (Rect.unit (s := S102400x128) ![6400 * (L 1).val + 3200 * (L 0).val + 256 * k + 128, 0] S128x128.size h9).set)
          (p6 p9 : S128x128.Idx → Elt F .f32),
          View.read (Elt F) ((euW).view.slice r)
            (View.write (Elt F) ((euW).view.slice (Rect.unit (s := S102400x128) ![6400 * (L 1).val + 3200 * (L 0).val + 256 * k + 128, 0] S128x128.size h9))
              (View.write (Elt F) ((euW).view.slice (Rect.unit (s := S102400x128) ![6400 * (L 1).val + 3200 * (L 0).val + 256 * k, 0] S128x128.size h6)) fe p6 Finset.univ)
              p9 Finset.univ)
            = View.read (Elt F) ((euW).view.slice r) fe :=
        fun r hd6 hd9 p6 p9 => (LibRectReads.read_write_disjoint (euW).view hd9 _ _).trans (LibRectReads.read_write_disjoint (euW).view hd6 _ _)
      refine ⟨?_, ?_⟩
      · refine Eq.trans ?_ hE
        exact far _ (Rect.unit_disjoint 0 (Or.inl (by show 6400 * (L 1).val + 3200 * (L 0).val + 256 * j + 128 ≤ 6400 * (L 1).val + 3200 * (L 0).val + 256 * k; omega)))
          (Rect.unit_disjoint 0 (Or.inl (by show 6400 * (L 1).val + 3200 * (L 0).val + 256 * j + 128 ≤ 6400 * (L 1).val + 3200 * (L 0).val + 256 * k + 128; omega))) _ _
      · refine Eq.trans ?_ hO
        exact far _ (Rect.unit_disjoint 0 (Or.inl (by show 6400 * (L 1).val + 3200 * (L 0).val + 256 * j + 128 + 128 ≤ 6400 * (L 1).val + 3200 * (L 0).val + 256 * k; omega)))
          (Rect.unit_disjoint 0 (Or.inl (by show 6400 * (L 1).val + 3200 * (L 0).val + 256 * j + 128 + 128 ≤ 6400 * (L 1).val + 3200 * (L 0).val + 256 * k + 128; omega))) _ _
    · -- this trip's pair
      have hjk' : j = k := by omega
      subst hjk'
      refine ⟨?_, ?_⟩
      · -- the even chunk: written first, not touched by the second write
        refine Eq.trans (LibRectReads.read_write_disjoint (euW).view d69 _ _) ?_
        refine Eq.trans (LibRectReads.read_write_same (euW).view _ fe _) ?_
        exact hR
      · -- the odd chunk: the second write's payload, the second row buffer just gathered
        refine Eq.trans (LibRectReads.read_write_same (euW).view _ _ _) ?_
        show View.read (Elt F) (s3W).view _ = _
        rw [read_writes_whole]
  · show View.read (Elt F) (s2W).view _ = _
    rw [read_writes_whole]

/-! ## The invariant with values -/

omit [FloatOps F] in
/-- The in-flight gather's pieces do not depend on how its list window's offsets are spelt. -/
theorem gath0_respell (off off' : Fin 1 → ℕ) (h : ∀ a, off a + S128.size a ≤ S3200.size a) (h' : ∀ a, off' a + S128.size a ≤ S3200.size a)
    (e : off = off') (g2 : Buf (Elt F) ((thr d L).loc cc3_scratch2)) :
    gath0 d L fct q c0 off h g2 = gath0 d L fct q c0 off' h' g2 := by
  subst e; rfl

omit [FloatOps F] in
/-- The same with the pieces written out. -/
theorem gath0_respell' (off off' : Fin 1 → ℕ) (h : ∀ a, off a + S128.size a ≤ S3200.size a) (h' : ∀ a, off' a + S128.size a ≤ S3200.size a)
    (e : off = off') (g2 : Buf (Elt F) ((thr d L).loc cc3_scratch2)) :
    (iprop(Transfers.Flight countersEmb (thr d L) (SemLoc.dma cc3_scratch5.sem) (default : HIx 2) 524288
          iprop((((s2W).view.loc (thr d L) ↦[(s2W).view.set]{fullShare} g2)
            ∗ ((s0W).view.loc (thr d L) ↦[(s0Win off h).view.set]{fullShare} c0))
            ∗ ((ctW).view.loc (thr d L) ↦[(ctS).view.set]{Transfers.shareTok q 3 1} fct))
      ∗ ((s2W).view.loc (thr d L) ↦[Finset.univ \ (s2W).view.set]{fullShare} g2)
      ∗ ((s0W).view.loc (thr d L) ↦[Finset.univ \ (s0Win off h).view.set]{fullShare} c0)
      ∗ ((ctW).view.loc (thr d L) ↦[Finset.univ \ (ctS).view.set]{Transfers.shareTok q 3 1} fct)) : sProp 𝕄)
      = iprop(Transfers.Flight countersEmb (thr d L) (SemLoc.dma cc3_scratch5.sem) (default : HIx 2) 524288
          iprop((((s2W).view.loc (thr d L) ↦[(s2W).view.set]{fullShare} g2)
            ∗ ((s0W).view.loc (thr d L) ↦[(s0Win off' h').view.set]{fullShare} c0))
            ∗ ((ctW).view.loc (thr d L) ↦[(ctS).view.set]{Transfers.shareTok q 3 1} fct))
      ∗ ((s2W).view.loc (thr d L) ↦[Finset.univ \ (s2W).view.set]{fullShare} g2)
      ∗ ((s0W).view.loc (thr d L) ↦[Finset.univ \ (s0Win off' h').view.set]{fullShare} c0)
      ∗ ((ctW).view.loc (thr d L) ↦[Finset.univ \ (ctS).view.set]{Transfers.shareTok q 3 1} fct)) := by
  subst e; rfl

/-- Before the first trip, with values: chunk 0's payload on its way into the first row buffer. -/
def inv0V : sProp 𝕄 :=
  iprop(keep d L O W fct q ∗ ∃ g2 g3 fe, ⌜rowsOK d L fct c0 hc0 0 (by decide) g2 ∧ chunksOK d L fct c0 hc0 0 fe⌝
      ∗ gath0 d L fct q c0 ![256 * 0] (gEven_inb 0 (by decide)) g2
      ∗ semVal (thr d L, SemLoc.dma cc3_scratch7.sem) 0
      ∗ ((s3W).view.loc (thr d L) ↦{fullShare} g3) ∗ semVal (thr d L, SemLoc.dma cc3_scratch8.sem) 0
      ∗ ((euW).view.loc (thr d L) ↦[(euW).view.setOn (tileRect L).set]{fullShare} fe))

/-- Before trip `j + 1 < 12`, with values: chunks `0 … 2j + 1` finished, chunk `2j + 2`'s payload on its way. -/
def invMidV (j : ℕ) (hj : j + 1 < 12) : sProp 𝕄 :=
  iprop(keep d L O W fct q ∗ ∃ g2 g3 fe, ⌜rowsOK d L fct c0 hc0 (j + 1) (by omega) g2 ∧ chunksOK d L fct c0 hc0 (j + 1) fe⌝
      ∗ gath0 d L fct q c0 ![256 * (j + 1)] (gEven_inb (j + 1) (by omega)) g2
      ∗ semVal (thr d L, SemLoc.dma cc3_scratch7.sem) 0
      ∗ wout1 d L j (Nat.le_of_lt hj) fe g3
      ∗ ((euW).view.loc (thr d L) ↦[(euW).view.setOn (tileRect L).set \ (euOdd L j (Nat.le_of_lt hj)).view.set]{fullShare} fe))

set_option maxHeartbeats 1000000 in
/-- The first trip, with values. -/
theorem trip0V (hO : ∀ g, O g none = 0) (k : Fin k3_t1_loop.trips) (h0 : k.val = 0) :
    inv0V d L O W fct q c0 hc0
      ⊢ wp frame (wpE (defs₀ (F := F)) 𝒱₀ (thr d L) none) Set.univ
          (k3_t1_body L ctW (Memref.isWhole_whole _) viW (Memref.isWhole_whole _) niW (Memref.isWhole_whole _)
            euW (Memref.isWhole_whole _) uvW (Memref.isWhole_whole _)
            s0W (Memref.isWhole_whole _) s1W (Memref.isWhole_whole _) s2W (Memref.isWhole_whole _)
            s3W (Memref.isWhole_whole _) s4W (Memref.isWhole_whole _)
            cc3_scratch5 cc3_scratch6 cc3_scratch7 cc3_scratch8 cc3_scratch9 cc3_scoped0 cc3_scoped1 cc3_scoped2 k ⟨⟩)
          fun _ => invMidV d L O W fct q c0 hc0 0 (by decide) := by
  have h1 : ¬ k3_cond1 k = 1#1 := cond1_zero k h0
  have h2 : k3_cond2 k = 1#1 := cond2_lt k (by omega)
  have hk : (k : ℕ) < 12 := by omega
  unfold k3_t1_body
  unfold inv0V keep
  iintro ⟨⟨Hmw, Hct2, Hg1, %W', %hW', HO⟩, %g2, %g3, %fe, %hv, HG, Hw0, Hs3, Hw1, Heu⟩
  unfold gath0
  icases HG with ⟨Hg0, Hs2r, Hs0r, Hct1r⟩
  sl_exec
  sl_step
  try unfold invMidV keep
  isplitl [Hmw Hct2 Hg1 HO]
  · isplitl [Hmw]; · iexact Hmw
    isplitl [Hct2]; · iexact Hct2
    isplitl [Hg1]; · iexact Hg1
    iexists _; isplitr
    swap; · iexact HO
    ipureintro
    first
      | exact mem_ins (mem_ins (mem_ins (mem_ins hW')))
      | exact mem_ins (mem_ins (mem_ins hW'))
  iexists _; iexists _; iexists _
  isplitr
  swap
  · isplitl [Hg0 Hs2r Hs0r Hct1r]
    · ihave HG' := (Entails.of_eq (gath0_respell' d L fct q c0 (k3_off8 k) ![256 * (0 + 1)] (k3_off8_inb k h2) (gEven_inb (0 + 1) (by decide)) (by rw [k3_off8_eq, h0]) _)) $$ [Hg0 Hs2r Hs0r Hct1r]
      · isplitl [Hg0]; · iexact Hg0
        isplitl [Hs2r]; · iexact Hs2r
        isplitl [Hs0r]; · iexact Hs0r
        iexact Hct1r
      icases HG' with ⟨Hg0, Hs2r, Hs0r, Hct1r⟩
      try unfold gath0
      isplitl [Hg0]; · iexact Hg0
      isplitl [Hs2r]; · iexact Hs2r
      isplitl [Hs0r]; · iexact Hs0r
      iexact Hct1r
    isplitl [Hw0]; · iexact Hw0
    iapply (Entails.of_eq (odd_respell d L (k3_off9 L k) (k3_off9_inb L k) 0 _ (by rw [k3_off9_eq, h0]) _ _))
    isplitl [Hw1 Hs3]
    · isplitl [Hw1]; · iexact Hw1
      iexact Hs3
    iexact Heu
  ipureintro
  have tv := trip_value d L fct c0 hc0 0 (by decide) (k3_off6 L k) (k3_off9 L k) (k3_off6_inb L k) (k3_off9_inb L k)
    (by rw [k3_off6_eq, h0]) (by rw [k3_off9_eq, h0]) (k3_off5 k) (k3_off8 k) (k3_off5_inb k) (k3_off8_inb k h2) (by rw [k3_off5_eq, h0]) (by rw [k3_off8_eq, h0]) fe g2 g3 hv.2 hv.1
  exact ⟨tv.2, tv.1⟩

set_option maxHeartbeats 1000000 in
/-- A middle trip, with values. -/
theorem tripMidV (hO : ∀ g, O g none = 0) (k : Fin k3_t1_loop.trips) (j : ℕ) (hkj : k.val = j + 1) (hj : j + 1 < 11) :
    invMidV d L O W fct q c0 hc0 j (by omega)
      ⊢ wp frame (wpE (defs₀ (F := F)) 𝒱₀ (thr d L) none) Set.univ
          (k3_t1_body L ctW (Memref.isWhole_whole _) viW (Memref.isWhole_whole _) niW (Memref.isWhole_whole _)
            euW (Memref.isWhole_whole _) uvW (Memref.isWhole_whole _)
            s0W (Memref.isWhole_whole _) s1W (Memref.isWhole_whole _) s2W (Memref.isWhole_whole _)
            s3W (Memref.isWhole_whole _) s4W (Memref.isWhole_whole _)
            cc3_scratch5 cc3_scratch6 cc3_scratch7 cc3_scratch8 cc3_scratch9 cc3_scoped0 cc3_scoped1 cc3_scoped2 k ⟨⟩)
          fun _ => invMidV d L O W fct q c0 hc0 (j + 1) (by omega) := by
  have h1 : k3_cond1 k = 1#1 := cond1_pos k (by omega)
  have h2 : k3_cond2 k = 1#1 := cond2_lt k (by omega)
  have hk : (k : ℕ) < 12 := by omega
  unfold k3_t1_body
  unfold invMidV keep
  iintro ⟨⟨Hmw, Hct2, Hg1, %W', %hW', HO⟩, %g2, %g3, %fe, %hv, HG, Hw0, HWO, Heu⟩
  unfold gath0 wout1
  icases HG with ⟨Hg0, Hs2r, Hs0r, Hct1r⟩
  icases HWO with ⟨Hw1, Hs3⟩
  sl_exec
  sl_step
  try unfold invMidV keep
  isplitl [Hmw Hct2 Hg1 HO]
  · isplitl [Hmw]; · iexact Hmw
    isplitl [Hct2]; · iexact Hct2
    isplitl [Hg1]; · iexact Hg1
    iexists _; isplitr
    swap; · iexact HO
    ipureintro
    first
      | exact mem_ins (mem_ins (mem_ins (mem_ins hW')))
      | exact mem_ins (mem_ins (mem_ins hW'))
  iexists _; iexists _; iexists _
  isplitr
  swap
  · isplitl [Hg0 Hs2r Hs0r Hct1r]
    · ihave HG' := (Entails.of_eq (gath0_respell' d L fct q c0 (k3_off8 k) ![256 * (j + 1 + 1)] (k3_off8_inb k h2) (gEven_inb (j + 1 + 1) (by omega)) (by rw [k3_off8_eq, hkj, show 256 * (j + 1) + 256 = 256 * (j + 1 + 1) by omega]) _)) $$ [Hg0 Hs2r Hs0r Hct1r]
      · isplitl [Hg0]; · iexact Hg0
        isplitl [Hs2r]; · iexact Hs2r
        isplitl [Hs0r]; · iexact Hs0r
        iexact Hct1r
      icases HG' with ⟨Hg0, Hs2r, Hs0r, Hct1r⟩
      try unfold gath0
      isplitl [Hg0]; · iexact Hg0
      isplitl [Hs2r]; · iexact Hs2r
      isplitl [Hs0r]; · iexact Hs0r
      iexact Hct1r
    isplitl [Hw0]; · iexact Hw0
    iapply (Entails.of_eq (odd_respell d L (k3_off9 L k) (k3_off9_inb L k) (j + 1) _ (by rw [k3_off9_eq, hkj]) _ _))
    isplitl [Hw1 Hs3]
    · isplitl [Hw1]; · iexact Hw1
      iexact Hs3
    iexact Heu
  ipureintro
  have tv := trip_value d L fct c0 hc0 (j + 1) (by omega) (k3_off6 L k) (k3_off9 L k) (k3_off6_inb L k) (k3_off9_inb L k)
    (by rw [k3_off6_eq, hkj]) (by rw [k3_off9_eq, hkj]) (k3_off5 k) (k3_off8 k) (k3_off5_inb k) (k3_off8_inb k h2) (by rw [k3_off5_eq, hkj]) (by rw [k3_off8_eq, hkj, show 256 * (j + 1) + 256 = 256 * (j + 1 + 1) by omega]) fe g2 g3 hv.2 hv.1
  exact ⟨tv.2, tv.1⟩

omit [FloatOps F] in
/-- The even chunk just written reads the first row buffer's payload. -/
theorem even_value (k : ℕ) (hk : k + 1 ≤ 12) (off6 : Fin 2 → ℕ) (h6 : ∀ a, off6 a + S128x128.size a ≤ S102400x128.size a)
    (e6 : off6 = ![6400 * (L 1).val + 3200 * (L 0).val + 256 * k, 0])
    (fe : Buf (Elt F) ((SparseCore.T (τ := τ) d).loc main_v44_0)) (g2 : Buf (Elt F) ((thr d L).loc cc3_scratch2))
    (hR : rowsOK d L fct c0 hc0 k (by omega) g2) :
    View.read (Elt F) (euEven L k hk).view
      (View.write (Elt F) ((euW).slice (Rect.unit (s := S102400x128) off6 S128x128.size h6) (fun _ => rfl)).view fe
        (ReadAs.same.apply (View.read (Elt F) (s2W).view g2)) Finset.univ)
      = Gpay d L fct c0 hc0 ![256 * k] (gEven_inb k (by omega)) := by
  subst e6
  exact (LibRectReads.read_write_same (euW).view _ fe _).trans hR

/-- After the last trip, with values: all twenty-four chunks of the loop finished (chunk 22 as its window travels). -/
def invEndV : sProp 𝕄 :=
  iprop(keep d L O W fct q ∗ ∃ g2 g3 fe0 fe,
      ⌜chunksOK d L fct c0 hc0 12 fe
        ∧ View.read (Elt F) (euEven L 11 le12).view fe0 = Gpay d L fct c0 hc0 ![256 * 11] (gEven_inb 11 (by decide))⌝
      ∗ semVal (thr d L, SemLoc.dma cc3_scratch5.sem) 0 ∗ ((ctW).view.loc (thr d L) ↦{Transfers.shareTok q 3 1} fct)
      ∗ ((s0W).view.loc (thr d L) ↦{fullShare} c0)
      ∗ wout0 d L 11 le12 fe0 g2 ∗ wout1 d L 11 le12 fe g3
      ∗ ((euW).view.loc (thr d L) ↦[((euW).view.setOn (tileRect L).set \ (euEven L 11 le12).view.set) \ (euOdd L 11 le12).view.set]{fullShare} fe))

set_option maxHeartbeats 1000000 in
/-- The last trip, with values. -/
theorem tripLastV (hO : ∀ g, O g none = 0) (k : Fin k3_t1_loop.trips) (hk11 : k.val = 11) :
    invMidV d L O W fct q c0 hc0 10 (by decide)
      ⊢ wp frame (wpE (defs₀ (F := F)) 𝒱₀ (thr d L) none) Set.univ
          (k3_t1_body L ctW (Memref.isWhole_whole _) viW (Memref.isWhole_whole _) niW (Memref.isWhole_whole _)
            euW (Memref.isWhole_whole _) uvW (Memref.isWhole_whole _)
            s0W (Memref.isWhole_whole _) s1W (Memref.isWhole_whole _) s2W (Memref.isWhole_whole _)
            s3W (Memref.isWhole_whole _) s4W (Memref.isWhole_whole _)
            cc3_scratch5 cc3_scratch6 cc3_scratch7 cc3_scratch8 cc3_scratch9 cc3_scoped0 cc3_scoped1 cc3_scoped2 k ⟨⟩)
          fun _ => invEndV d L O W fct q c0 hc0 := by
  have h1 : k3_cond1 k = 1#1 := cond1_pos k (by omega)
  have h2 : ¬ k3_cond2 k = 1#1 := cond2_ge k (by omega)
  have hk : (k : ℕ) < 12 := by omega
  have hkj : (k : ℕ) = 10 + 1 := hk11
  unfold k3_t1_body
  unfold invMidV keep
  iintro ⟨⟨Hmw, Hct2, Hg1, %W', %hW', HO⟩, %g2, %g3, %fe, %hv, HG, Hw0, HWO, Heu⟩
  unfold gath0 wout1
  icases HG with ⟨Hg0, Hs2r, Hs0r, Hct1r⟩
  icases HWO with ⟨Hw1, Hs3⟩
  sl_exec
  sl_step
  unfold invEndV
  try unfold keep
  isplitl [Hmw Hct2 Hg1 HO]
  · isplitl [Hmw]; · iexact Hmw
    isplitl [Hct2]; · iexact Hct2
    isplitl [Hg1]; · iexact Hg1
    iexists _; isplitr
    swap; · iexact HO
    ipureintro
    first
      | exact mem_ins (mem_ins (mem_ins (mem_ins hW')))
      | exact mem_ins (mem_ins (mem_ins hW'))
  iexists _; iexists _; iexists _; iexists _
  isplitr
  swap
  · isplitl [Hg0]; · iexact Hg0
    isplitl [Hct1r]; · iexact Hct1r
    isplitl [Hs0r]; · iexact Hs0r
    iapply (Entails.of_eq (end_respell d L (k3_off6 L k) (k3_off9 L k) (k3_off6_inb L k) (k3_off9_inb L k)
      (by rw [k3_off6_eq, hk11]) (by rw [k3_off9_eq, hk11]) _ _ _ _))
    isplitl [Hw0 Hs2r]
    · isplitl [Hw0]; · iexact Hw0
      iexact Hs2r
    isplitl [Hw1 Hs3]
    · isplitl [Hw1]; · iexact Hw1
      iexact Hs3
    iexact Heu
  ipureintro
  exact ⟨trip_chunks d L fct c0 hc0 11 le12 (k3_off6 L k) (k3_off9 L k) (k3_off6_inb L k) (k3_off9_inb L k)
      (by rw [k3_off6_eq, hk11]) (by rw [k3_off9_eq, hk11]) (k3_off5 k) (k3_off5_inb k) (by rw [k3_off5_eq, hk11]) fe g2 g3 hv.2 hv.1,
    even_value d L fct c0 hc0 11 le12 (k3_off6 L k) (k3_off6_inb L k) (by rw [k3_off6_eq, hk11]) fe g2 hv.1⟩

end Cert.Proof.KI3

end
-- ==== Proof.Sc3VFin.lean ====
/-
  The gather task's values after the loop: chunk 22's window, held apart since its copy was issued, pieced into the rest, which
  has meanwhile received chunk 24 — all twenty-five chunks of the tile's rows hold their payloads.
-/
import proofs.«217981_g19061064860210_cont_8to1_1320_37_alg».proof.Proof.Sc3VInv

noncomputable section

namespace Cert.Proof.KI3

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "ctW" => (Memref.whole Cert.KernelIdeal.main_v9_scv : Memref Cert.KernelIdeal.sig Kind.scVector Space.hbm Cert.KernelIdeal.S100000x128 EltTy.f32)
local notation "viW" => (Memref.whole Cert.KernelIdeal.main_v39_scv : Memref Cert.KernelIdeal.sig Kind.scVector Space.hbm Cert.KernelIdeal.S102400 EltTy.i32)
local notation "niW" => (Memref.whole Cert.KernelIdeal.main_v40_scv : Memref Cert.KernelIdeal.sig Kind.scVector Space.hbm Cert.KernelIdeal.S2048 EltTy.i32)
local notation "euW" => (Memref.whole Cert.KernelIdeal.main_v44_0_scv : Memref Cert.KernelIdeal.sig Kind.scVector Space.hbm Cert.KernelIdeal.S102400x128 EltTy.f32)
local notation "uvW" => (Memref.whole Cert.KernelIdeal.main_v44_1_scv : Memref Cert.KernelIdeal.sig Kind.scVector Space.hbm Cert.KernelIdeal.S2048x128 EltTy.f32)
local notation "s0W" => (Memref.whole Cert.KernelIdeal.cc3_scratch0 : Memref Cert.KernelIdeal.sig Kind.scVector Space.vmem Cert.KernelIdeal.S3200 EltTy.i32)
local notation "s1W" => (Memref.whole Cert.KernelIdeal.cc3_scratch1 : Memref Cert.KernelIdeal.sig Kind.scVector Space.vmem Cert.KernelIdeal.S64 EltTy.i32)
local notation "s2W" => (Memref.whole Cert.KernelIdeal.cc3_scratch2 : Memref Cert.KernelIdeal.sig Kind.scVector Space.vmem Cert.KernelIdeal.S128x128 EltTy.f32)
local notation "s3W" => (Memref.whole Cert.KernelIdeal.cc3_scratch3 : Memref Cert.KernelIdeal.sig Kind.scVector Space.vmem Cert.KernelIdeal.S128x128 EltTy.f32)
local notation "s4W" => (Memref.whole Cert.KernelIdeal.cc3_scratch4 : Memref Cert.KernelIdeal.sig Kind.scVector Space.vmem Cert.KernelIdeal.S64x128 EltTy.f32)

variable [FloatOps F]
variable (d : Dev nD) (L : grid3.Coords)

variable (O : CellTallies nD τ sig (HIx 2)) (W : Waits sig (HIx 2))
  (fct : Buf (Elt F) ((SparseCore.T (τ := τ) d).loc main_v9)) (q : PosShare TreeShare)
  (c0 : Buf (Elt F) ((thr d L).loc cc3_scratch0))
  (hc0 : ∀ (off : Fin 1 → ℕ) (h : ∀ a, off a + S128.size a ≤ S3200.size a) (x : S128.Idx),
      (View.read (Elt F) ((s0W).slice (Rect.unit (s := S3200) off S128.size h) (fun _ => rfl)).view c0 x).toNat < 100000)

/-! ## After the loop: the window held apart, and chunk 24 -/

omit [FloatOps F] in
theorem e24_inb (L : grid3.Coords) : ∀ a, (![6400 * (L 1).val + 3200 * (L 0).val + 3072, 0] : Fin 2 → ℕ) a + S128x128.size a ≤ S102400x128.size a := by
  have h0 := L0_lt L; have h1 := L1_lt L
  intro a; fin_cases a
  · show 6400 * (L 1).val + 3200 * (L 0).val + 3072 + 128 ≤ 102400; omega
  · show 0 + 128 ≤ 128; omega
/-- The window of the result that the last chunk, 24, is written to. -/
abbrev eu24 (L : grid3.Coords) : Memref sig .scVector .hbm S128x128 .f32 :=
  (euW).slice (Rect.unit (s := S102400x128) ![6400 * (L 1).val + 3200 * (L 0).val + 3072, 0] S128x128.size (e24_inb L)) (fun _ => rfl)

omit [FloatOps F] in
/-- Through a rectangle inside the set, contents pieced together read the inner piece; -/
theorem read_piecewise_in (r : Rect S102400x128) (I : Finset ((euW).view.ty.Idx))
    (g f : (euW).view.ty.Contents (Elt F)) (h : ((euW).view.slice r).set ⊆ I) :
    View.read (Elt F) ((euW).view.slice r) (I.piecewise g f) = View.read (Elt F) ((euW).view.slice r) g :=
  View.read_congr fun i hi => Finset.piecewise_eq_of_mem _ _ _ (h hi)
omit [FloatOps F] in
/-- through one disjoint from it, the outer. -/
theorem read_piecewise_out (r : Rect S102400x128) (I : Finset ((euW).view.ty.Idx))
    (g f : (euW).view.ty.Contents (Elt F)) (h : Disjoint ((euW).view.slice r).set I) :
    View.read (Elt F) ((euW).view.slice r) (I.piecewise g f) = View.read (Elt F) ((euW).view.slice r) f :=
  View.read_congr fun i hi => Finset.piecewise_eq_of_notMem _ _ _ (Finset.disjoint_left.mp h hi)

set_option maxHeartbeats 1000000 in
omit [FloatOps F] in
/-- The result's values when the task ends: the window of chunk 22, held apart since its copy was issued, pieced into the rest,
    which has meanwhile received chunk 24. All twenty-five chunks hold their payloads. -/
theorem final_value (off24 : Fin 2 → ℕ) (h24 : ∀ a, off24 a + S128x128.size a ≤ S102400x128.size a)
    (e24 : off24 = ![6400 * (L 1).val + 3200 * (L 0).val + 3072, 0])
    (off3 : Fin 1 → ℕ) (h3 : ∀ a, off3 a + S128.size a ≤ S3200.size a) (e3 : off3 = ![256 * 12])
    (fe0 fe : Buf (Elt F) ((SparseCore.T (τ := τ) d).loc main_v44_0)) (g2 : Buf (Elt F) ((thr d L).loc cc3_scratch2))
    (hOK : chunksOK d L fct c0 hc0 12 fe)
    (hE : View.read (Elt F) (euEven L 11 le12).view fe0 = Gpay d L fct c0 hc0 ![256 * 11] (gEven_inb 11 (by decide))) :
    chunksOK d L fct c0 hc0 12
      (((euEven L 11 le12).view.set).piecewise fe0
        (View.write (Elt F) ((euW).slice (Rect.unit (s := S102400x128) off24 S128x128.size h24) (fun _ => rfl)).view fe
          (ReadAs.same.apply (View.read (Elt F) (s2W).view
            ((s2W).view.writes (Elt F) g2 [⟨Rect.whole cc3_scratch2.ty.shape, Gpay d L fct c0 hc0 off3 h3⟩]))) Finset.univ))
    ∧ View.read (Elt F) (eu24 L).view
        (((euEven L 11 le12).view.set).piecewise fe0
          (View.write (Elt F) ((euW).slice (Rect.unit (s := S102400x128) off24 S128x128.size h24) (fun _ => rfl)).view fe
            (ReadAs.same.apply (View.read (Elt F) (s2W).view
              ((s2W).view.writes (Elt F) g2 [⟨Rect.whole cc3_scratch2.ty.shape, Gpay d L fct c0 hc0 off3 h3⟩]))) Finset.univ))
        = Gpay d L fct c0 hc0 ![256 * 12] (gEven_inb 12 (by decide)) := by
  subst e24 e3
  have dj24 : ∀ (x : ℕ) (hx : ∀ a, (![x, 0] : Fin 2 → ℕ) a + S128x128.size a ≤ S102400x128.size a),
      x + 128 ≤ 6400 * (L 1).val + 3200 * (L 0).val + 3072 →
      Disjoint (Rect.unit (s := S102400x128) ![x, 0] S128x128.size hx).set
        (Rect.unit (s := S102400x128) ![6400 * (L 1).val + 3200 * (L 0).val + 3072, 0] S128x128.size h24).set :=
    fun x hx h => Rect.unit_disjoint 0 (Or.inl (by show x + 128 ≤ 6400 * (L 1).val + 3200 * (L 0).val + 3072; exact h))
  have dj22 : ∀ (x : ℕ) (hx : ∀ a, (![x, 0] : Fin 2 → ℕ) a + S128x128.size a ≤ S102400x128.size a),
      (x + 128 ≤ 6400 * (L 1).val + 3200 * (L 0).val + 256 * 11 ∨ 6400 * (L 1).val + 3200 * (L 0).val + 256 * 11 + 128 ≤ x) →
      Disjoint ((euW).view.slice (Rect.unit (s := S102400x128) ![x, 0] S128x128.size hx)).set ((euEven L 11 le12).view.set) :=
    fun x hx h => LibRectReads.slice_sets_disjoint (euW).view (Rect.unit_disjoint 0 (by
      rcases h with h | h
      · exact Or.inl (by show x + 128 ≤ 6400 * (L 1).val + 3200 * (L 0).val + 256 * 11; exact h)
      · exact Or.inr (by show 6400 * (L 1).val + 3200 * (L 0).val + 256 * 11 + 128 ≤ x; exact h)))
  refine ⟨?_, ?_⟩
  · intro j hj hj12
    obtain ⟨hEj, hOj⟩ := hOK j hj hj12
    refine ⟨?_, ?_⟩
    · -- the even chunk 2j
      rcases Nat.lt_or_ge j 11 with hlt | hge
      · refine Eq.trans (read_piecewise_out _ _ _ _ (dj22 _ _ (Or.inl (by omega)))) ?_
        refine Eq.trans (LibRectReads.read_write_disjoint (euW).view (dj24 _ _ (by omega)) _ _) ?_
        exact hEj
      · have : j = 11 := by omega
        subst this
        refine Eq.trans (read_piecewise_in _ _ _ _ (Finset.Subset.refl _)) ?_
        exact hE
    · -- the odd chunk 2j + 1
      refine Eq.trans (read_piecewise_out _ _ _ _ (dj22 _ _ (by
        rcases Nat.lt_or_ge j 11 with hlt | hge
        · exact Or.inl (by omega)
        · exact Or.inr (by omega)))) ?_
      refine Eq.trans (LibRectReads.read_write_disjoint (euW).view (dj24 _ _ (by omega)) _ _) ?_
      exact hOj
  · -- chunk 24
    refine Eq.trans (read_piecewise_out _ _ _ _ (dj22 _ _ (Or.inr (by omega)))) ?_
    refine Eq.trans (LibRectReads.read_write_same (euW).view _ fe _) ?_
    show View.read (Elt F) (s2W).view _ = _
    rw [read_writes_whole]

end Cert.Proof.KI3

end
-- ==== Proof.Sc3VTile.lean ====
/-
  The gather task run whole, with the result's VALUES (second call): from what the tile is handed to the same, its rows of the
  gathered-rows result holding, chunk by chunk, the table's rows named by the fetched indices. (The user rows' result is
  still stated at some contents.)
-/
import proofs.«217981_g19061064860210_cont_8to1_1320_37_alg».proof.Proof.Sc3VFin

noncomputable section

namespace Cert.Proof.KI3

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "ctW" => (Memref.whole Cert.KernelIdeal.main_v9_scv : Memref Cert.KernelIdeal.sig Kind.scVector Space.hbm Cert.KernelIdeal.S100000x128 EltTy.f32)
local notation "viW" => (Memref.whole Cert.KernelIdeal.main_v39_scv : Memref Cert.KernelIdeal.sig Kind.scVector Space.hbm Cert.KernelIdeal.S102400 EltTy.i32)
local notation "niW" => (Memref.whole Cert.KernelIdeal.main_v40_scv : Memref Cert.KernelIdeal.sig Kind.scVector Space.hbm Cert.KernelIdeal.S2048 EltTy.i32)
local notation "euW" => (Memref.whole Cert.KernelIdeal.main_v44_0_scv : Memref Cert.KernelIdeal.sig Kind.scVector Space.hbm Cert.KernelIdeal.S102400x128 EltTy.f32)
local notation "uvW" => (Memref.whole Cert.KernelIdeal.main_v44_1_scv : Memref Cert.KernelIdeal.sig Kind.scVector Space.hbm Cert.KernelIdeal.S2048x128 EltTy.f32)
local notation "s0W" => (Memref.whole Cert.KernelIdeal.cc3_scratch0 : Memref Cert.KernelIdeal.sig Kind.scVector Space.vmem Cert.KernelIdeal.S3200 EltTy.i32)
local notation "s1W" => (Memref.whole Cert.KernelIdeal.cc3_scratch1 : Memref Cert.KernelIdeal.sig Kind.scVector Space.vmem Cert.KernelIdeal.S64 EltTy.i32)
local notation "s2W" => (Memref.whole Cert.KernelIdeal.cc3_scratch2 : Memref Cert.KernelIdeal.sig Kind.scVector Space.vmem Cert.KernelIdeal.S128x128 EltTy.f32)
local notation "s3W" => (Memref.whole Cert.KernelIdeal.cc3_scratch3 : Memref Cert.KernelIdeal.sig Kind.scVector Space.vmem Cert.KernelIdeal.S128x128 EltTy.f32)
local notation "s4W" => (Memref.whole Cert.KernelIdeal.cc3_scratch4 : Memref Cert.KernelIdeal.sig Kind.scVector Space.vmem Cert.KernelIdeal.S64x128 EltTy.f32)

variable [FloatOps F]
variable (d : Dev nD) (L : grid3.Coords)

variable (O : CellTallies nD τ sig (HIx 2)) (W : Waits sig (HIx 2))
  (fct : Buf (Elt F) ((SparseCore.T (τ := τ) d).loc main_v9)) (q : PosShare TreeShare)

/-- The loop's invariant before trip `k`, with values. -/
def invV (c0 : Buf (Elt F) ((thr d L).loc cc3_scratch0))
    (hc0 : ∀ (off : Fin 1 → ℕ) (h : ∀ a, off a + S128.size a ≤ S3200.size a) (x : S128.Idx),
      (View.read (Elt F) ((s0W).slice (Rect.unit (s := S3200) off S128.size h) (fun _ => rfl)).view c0 x).toNat < 100000)
    (k : ℕ) (_ : PUnit) : sProp 𝕄 :=
  match k with
  | 0 => inv0V d L O W fct q c0 hc0
  | j + 1 => if hj : j + 1 < 12 then invMidV d L O W fct q c0 hc0 j hj else invEndV d L O W fct q c0 hc0

omit [FloatOps F] in
theorem invV_zero (c0 : Buf (Elt F) ((thr d L).loc cc3_scratch0)) (hc0) (acc : PUnit) :
    invV d L O W fct q c0 hc0 0 acc = inv0V d L O W fct q c0 hc0 := rfl
omit [FloatOps F] in
theorem invV_end (c0 : Buf (Elt F) ((thr d L).loc cc3_scratch0)) (hc0) (acc : PUnit) :
    invV d L O W fct q c0 hc0 (Scf.trips k3_t1_loop.lb k3_t1_loop.ub k3_t1_loop.st) acc = invEndV d L O W fct q c0 hc0 := by
  rw [show Scf.trips k3_t1_loop.lb k3_t1_loop.ub k3_t1_loop.st = 12 from trips_eq]; rfl

/-- The user rows' payload: the table's rows named by the tile's 64 fetched user indices. -/
def GpayU (fni : Buf (Elt F) ((SparseCore.T (τ := τ) d).loc main_v40)) (hni : ∀ j, (fni j).toNat < 100000)
    (f1 : Buf (Elt F) ((thr d L).loc cc3_scratch1)) : S64x128.Idx → Elt F .f32 :=
  SparseCore.gatherPayload gathers_S100000x128_S64x128 (View.read (Elt F) (ctS).view fct)
    (SparseCore.rows (View.read (Elt F) (s1W).view (View.write (Elt F) (s1W).view f1 (ReadAs.same.apply (View.read (Elt F) (niS L).view fni)) Finset.univ))
      rfl (hin_u_of d L fni hni f1))

omit [FloatOps F] in
/-- The user rows' window, just written from the user-row buffer just gathered, reads that gather's payload. -/
theorem uv_value (off11 : Fin 2 → ℕ) (h11 : ∀ a, off11 a + S64x128.size a ≤ S2048x128.size a)
    (e11 : off11 = ![128 * (L 1).val + 64 * (L 0).val, 0])
    (fuv : Buf (Elt F) ((SparseCore.T (τ := τ) d).loc main_v44_1)) (f4 : Buf (Elt F) ((thr d L).loc cc3_scratch4))
    (pay : S64x128.Idx → Elt F .f32) :
    View.read (Elt F) ((uvW).slice (uvRect L) (fun _ => rfl)).view
      (View.write (Elt F) ((uvW).slice (Rect.unit (s := S2048x128) off11 S64x128.size h11) (fun _ => rfl)).view fuv
        (ReadAs.same.apply (View.read (Elt F) (s4W).view ((s4W).view.writes (Elt F) f4 [⟨Rect.whole cc3_scratch4.ty.shape, pay⟩]))) Finset.univ)
      = pay := by
  subst e11
  refine Eq.trans (LibRectReads.read_write_same (uvW).view _ fuv _) ?_
  show View.read (Elt F) (s4W).view _ = _
  rw [read_writes_whole]

/-- What the tile holds when its task ends, with the gathered rows' values. -/
def tilePostV (fvi : Buf (Elt F) ((SparseCore.T (τ := τ) d).loc main_v39)) (fni : Buf (Elt F) ((SparseCore.T (τ := τ) d).loc main_v40))
    (qi : PosShare TreeShare) (f0 : Buf (Elt F) ((thr d L).loc cc3_scratch0)) (hvi : ∀ j, (fvi j).toNat < 100000)
    (f1 : Buf (Elt F) ((thr d L).loc cc3_scratch1)) (hni : ∀ j, (fni j).toNat < 100000) : sProp 𝕄 :=
  iprop(((ctW).view.loc (thr d L) ↦{Transfers.shareTok q 3 0} fct)
      ∗ ((ctW).view.loc (thr d L) ↦{Transfers.shareTok q 3 1} fct)
      ∗ ((ctW).view.loc (thr d L) ↦{Transfers.shareTok q 3 2} fct)
      ∗ ((viS L).view.loc (thr d L) ↦[(viS L).view.set]{qi} fvi)
      ∗ ((niS L).view.loc (thr d L) ↦[(niS L).view.set]{qi} fni)
      ∗ (∃ f, (s0W).view.loc (thr d L) ↦{fullShare} f) ∗ (∃ f, (s1W).view.loc (thr d L) ↦{fullShare} f)
      ∗ (∃ f, (s2W).view.loc (thr d L) ↦{fullShare} f) ∗ (∃ f, (s3W).view.loc (thr d L) ↦{fullShare} f)
      ∗ (∃ f, (s4W).view.loc (thr d L) ↦{fullShare} f)
      ∗ semVal (thr d L, SemLoc.dma cc3_scratch5.sem) 0 ∗ semVal (thr d L, SemLoc.dma cc3_scratch6.sem) 0
      ∗ semVal (thr d L, SemLoc.dma cc3_scratch7.sem) 0 ∗ semVal (thr d L, SemLoc.dma cc3_scratch8.sem) 0
      ∗ semVal (thr d L, SemLoc.dma cc3_scratch9.sem) 0
      ∗ semVal (thr d L, SemLoc.dma cc3_scoped0.sem) 0 ∗ semVal (thr d L, SemLoc.dma cc3_scoped1.sem) 0
      ∗ semVal (thr d L, SemLoc.dma cc3_scoped2.sem) 0
      ∗ (∃ f, ⌜chunksOK d L fct (fetched d L fvi f0) (hin_v_of d L fvi hvi f0) 12 f
            ∧ View.read (Elt F) (eu24 L).view f = Gpay d L fct (fetched d L fvi f0) (hin_v_of d L fvi hvi f0) ![256 * 12] (gEven_inb 12 (by decide))⌝
          ∗ (euW).view.loc (thr d L) ↦[(euW).view.setOn (tileRect L).set]{fullShare} f)
      ∗ (∃ f, ⌜View.read (Elt F) ((uvW).slice (uvRect L) (fun _ => rfl)).view f = GpayU d L fct fni hni f1⌝
          ∗ (uvW).view.loc (thr d L) ↦[(uvW).view.setOn (uvRect L).set]{fullShare} f)
      ∗ ∃ W', ⌜∀ p ∈ W', p ∈ W ∨ p.2 = none⌝ ∗ owes (thr d L) O W')

set_option maxHeartbeats 4000000 in
/-- The task, run, with the result's values: all twenty-five chunks of the tile's rows end at their payloads. -/
theorem tile_runV (hO : ∀ g, O g none = 0)
    (fvi : Buf (Elt F) ((SparseCore.T (τ := τ) d).loc main_v39)) (fni : Buf (Elt F) ((SparseCore.T (τ := τ) d).loc main_v40))
    (qi : PosShare TreeShare)
    (f0 : Buf (Elt F) ((thr d L).loc cc3_scratch0)) (f1 : Buf (Elt F) ((thr d L).loc cc3_scratch1))
    (f2 : Buf (Elt F) ((thr d L).loc cc3_scratch2)) (f3 : Buf (Elt F) ((thr d L).loc cc3_scratch3))
    (f4 : Buf (Elt F) ((thr d L).loc cc3_scratch4))
    (feu : Buf (Elt F) ((SparseCore.T (τ := τ) d).loc main_v44_0)) (fuv : Buf (Elt F) ((SparseCore.T (τ := τ) d).loc main_v44_1))
    (hvi : ∀ j, (fvi j).toNat < 100000) (hni : ∀ j, (fni j).toNat < 100000) :
    tilePre d L O W fct q fvi fni qi f0 f1 f2 f3 f4 feu fuv
      ⊢ wp frame (wpE (defs₀ (F := F)) 𝒱₀ (thr d L) none) Set.univ
          (cc3_k L ctW (Memref.isWhole_whole _) viW (Memref.isWhole_whole _) niW (Memref.isWhole_whole _)
            euW (Memref.isWhole_whole _) uvW (Memref.isWhole_whole _)
            s0W (Memref.isWhole_whole _) s1W (Memref.isWhole_whole _) s2W (Memref.isWhole_whole _)
            s3W (Memref.isWhole_whole _) s4W (Memref.isWhole_whole _)
            cc3_scratch5 cc3_scratch6 cc3_scratch7 cc3_scratch8 cc3_scratch9 cc3_scoped0 cc3_scoped1 cc3_scoped2)
          fun _ => tilePostV d L O W fct q fvi fni qi f0 hvi f1 hni := by
  simp only [cc3_k_eq_skeleton]; unfold cc3_k_skel
  simp only [k3_part1_eq_skeleton]; unfold k3_part1_skel
  unfold tilePre
  iintro ⟨Hmw, Hct0, Hct1, Hct2, Hvi, Hni, Hs0, Hs1, Hs2, Hs3, Hs4, Hg0, Hg1, Hw0, Hw1, Hsu, Hc0, Hc1, Hc2, Heu, Huv, HO⟩
  have hin_u := hin_u_of d L fni hni
  have hin_v := hin_v_of d L fvi hvi f0
  sl_exec
  sl_rw [bind_assoc]
  sl_for (invV d L O W fct q (fetched d L fvi f0) (hin_v_of d L fvi hvi f0))
    $$ [Hmw Hct2 Hg1 HO Hg0 Hs2 Hs0 Hct1 Hw0 Hs3 Hw1 Heu]
  case region =>
    intro k acc
    rcases Nat.eq_zero_or_pos k.val with h0 | hpos
    · rw [h0]
      exact trip0V d L O W fct q _ _ hO k h0
    · obtain ⟨j, hj⟩ := Nat.exists_eq_succ_of_ne_zero (Nat.pos_iff_ne_zero.mp hpos)
      have hk12 : (k : ℕ) < 12 := lt_of_lt_of_le k.isLt k3_t1_abs.2.1
      rw [hj]
      by_cases h11 : j + 1 < 11
      · have e1 : invV d L O W fct q (fetched d L fvi f0) (hin_v_of d L fvi hvi f0) (j + 1) acc
            = invMidV d L O W fct q _ _ j (by omega) := dif_pos (by omega)
        have e2 : invV d L O W fct q (fetched d L fvi f0) (hin_v_of d L fvi hvi f0) (j + 1 + 1)
            = fun _ => invMidV d L O W fct q _ _ (j + 1) (by omega) := funext fun _ => dif_pos (by omega)
        rw [e1, e2]
        exact tripMidV d L O W fct q _ _ hO k j hj h11
      · have hj10 : j = 10 := by omega
        subst hj10
        have e2 : invV d L O W fct q (fetched d L fvi f0) (hin_v_of d L fvi hvi f0) (10 + 1 + 1)
            = fun _ => invEndV d L O W fct q _ _ := rfl
        rw [e2]
        exact tripLastV d L O W fct q _ _ hO k hj
  · rw [invV_zero]
    unfold inv0V keep
    isplitl [Hmw Hct2 Hg1 HO]
    · isplitl [Hmw]; · iexact Hmw
      isplitl [Hct2]; · iexact Hct2
      isplitl [Hg1]; · iexact Hg1
      iexists _; isplitr
      swap; · iexact HO
      ipureintro; exact mem_ins (mem_ins (fun p hp => Or.inl hp))
    iexists _; iexists _; iexists _
    isplitr
    swap
    · isplitl [Hg0 Hs2 Hs0 Hct1]
      · unfold gath0
        isplitl [Hg0]; · iexact Hg0
        isplitl [Hs2]; · iexact Hs2
        isplitl [Hs0]; · iexact Hs0
        iexact Hct1
      isplitl [Hw0]; · iexact Hw0
      isplitl [Hs3]; · iexact Hs3
      isplitl [Hw1]; · iexact Hw1
      iexact Heu
    ipureintro
    refine ⟨?_, fun j _ h => absurd h (Nat.not_lt_zero j)⟩
    show View.read (Elt F) (s2W).view _ = _
    rw [read_writes_whole]
    rfl
  iintro %acc HI
  ihave HI' := (Entails.of_eq (invV_end d L O W fct q (fetched d L fvi f0) (hin_v_of d L fvi hvi f0) acc)) $$ HI
  unfold invEndV keep
  icases HI' with ⟨⟨Hmw, Hct2, Hg1, %W', %hW', HO⟩, %g2, %g3, %fe0, %fe, %hv, Hg0, Hct1, Hs0, HW0, HW1, Heu⟩
  unfold wout0 wout1
  icases HW0 with ⟨Hw0, Hs2⟩
  icases HW1 with ⟨Hw1, Hs3⟩
  sl_exec
  sl_step
  unfold tilePostV
  isplitl [Hct0]; · iexact Hct0
  isplitl [Hct1]; · iexact Hct1
  isplitl [Hct2]; · iexact Hct2
  isplitl [Hvi]; · iexact Hvi
  isplitl [Hni]; · iexact Hni
  isplitl [Hs0]; · iexists _; iexact Hs0
  isplitl [Hs1]; · iexists _; iexact Hs1
  isplitl [Hs2]; · iexists _; iexact Hs2
  isplitl [Hs3]; · iexists _; iexact Hs3
  isplitl [Hs4]; · iexists _; iexact Hs4
  isplitl [Hg0]; · iexact Hg0
  isplitl [Hg1]; · iexact Hg1
  isplitl [Hw0]; · iexact Hw0
  isplitl [Hw1]; · iexact Hw1
  isplitl [Hsu]; · iexact Hsu
  isplitl [Hc0]; · iexact Hc0
  isplitl [Hc1]; · iexact Hc1
  isplitl [Hc2]; · iexact Hc2
  isplitl [Hw0_dst Heu]
  · iexists _
    isplitr
    swap
    · iapply (pointsTo_join_subset (even11_sub L))
      isplitl [Hw0_dst]; · iexact Hw0_dst
      iexact Heu
    ipureintro
    exact final_value d L fct _ _ (k3_off10 L 3072#32) (k3_off10_inb L 2) (k3_off10_eq L 2) ![3072] inb_S3200_S128_3072 rfl fe0 fe g2 hv.1 hv.2
  isplitl [Huv]
  · iexists _
    isplitr
    swap; · iexact Huv
    ipureintro
    exact uv_value d L (k3_off11 L) (k3_off11_inb L) (k3_off11_eq L) fuv f4 _
  iexists _; isplitr
  swap; · iexact HO
  ipureintro
  exact mem_ins (mem_ins (mem_ins (mem_ins (mem_ins (mem_ins hW')))))

end Cert.Proof.KI3

end
-- ==== Proof.K3GatherIdx.lean ====
/-
  The item gather's payload on a vector subcore, read at an index. The indexed copy delivers, at row `r` of its
  destination, the table's row named by the `r`-th entry of its offset list, column by column; the list is a window of
  the 3200 indices the tile fetched, and the fetched indices are the flat index list from the tile's offset on. So the
  payload at `(r, j)` is the table at the row the list's entry `off + r` names, column `j`; and the fetched list at
  position `p` is the flat list at `6400 · s + 3200 · c + p` for the tile `(c, s)`.
-/
import proofs.«217981_g19061064860210_cont_8to1_1320_37_alg».proof.Proof.Sc3VInv
import proofs.«217981_g19061064860210_cont_8to1_1320_37_alg».proof.Proof.Sc3Tile
import Idealize.ShloMosaic.Lib.ValueIdx

noncomputable section

namespace Cert.Proof.KI3

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open Idealize.SL.Sem
open Idealize.ShloMosaic.Rounds

variable {F : FTy → Type}

local notation "𝕄" => MT nD τ sig (HIx 2) (Elt F) ℕ UU ℕ

local notation "ctW" => (Memref.whole Cert.KernelIdeal.main_v9_scv : Memref Cert.KernelIdeal.sig Kind.scVector Space.hbm Cert.KernelIdeal.S100000x128 EltTy.f32)
local notation "viW" => (Memref.whole Cert.KernelIdeal.main_v39_scv : Memref Cert.KernelIdeal.sig Kind.scVector Space.hbm Cert.KernelIdeal.S102400 EltTy.i32)
local notation "s0W" => (Memref.whole Cert.KernelIdeal.cc3_scratch0 : Memref Cert.KernelIdeal.sig Kind.scVector Space.vmem Cert.KernelIdeal.S3200 EltTy.i32)

variable (d : Dev nD) (L : grid3.Coords)

/-- A position in a flat list of 128 entries is its one coordinate. -/
theorem rowMajor_symm_S128 (k : Fin S128.numel) :
    S128.rowMajor.symm k = ix1 (⟨k.val, (lt_of_lt_of_eq k.isLt (Shape.numel_rank1 _) : k.val < 128)⟩ : Fin 128) := by
  rw [Equiv.symm_apply_eq]
  refine Fin.ext ?_
  rw [Shape.rowMajor_val_one]

variable (fct : Buf (Elt F) ((SparseCore.T (τ := τ) d).loc main_v9))
  (c0 : Buf (Elt F) ((thr d L).loc cc3_scratch0))
  (hc0 : ∀ (off : Fin 1 → ℕ) (h : ∀ a, off a + S128.size a ≤ S3200.size a) (x : S128.Idx),
      (View.read (Elt F) ((s0W).slice (Rect.unit (s := S3200) off S128.size h) (fun _ => rfl)).view c0 x).toNat < 100000)

/-- The gather's payload at row `r`, column `j`: the table at the row the window's `r`-th entry names, column `j`. -/
theorem Gpay_apply (off : Fin 1 → ℕ) (hoff : ∀ a, off a + S128.size a ≤ S3200.size a) (r j : Fin 128)
    (h1 : off 0 + r.val < 3200) (h2 : ((c0 : S3200.Idx → BitVec 32) (ix1 ⟨off 0 + r.val, h1⟩)).toNat < 100000) :
    Gpay d L fct c0 hc0 off hoff (ix2 r j)
      = (fct : S100000x128.Idx → Elt F .f32) (ix2 ⟨((c0 : S3200.Idx → BitVec 32) (ix1 ⟨off 0 + r.val, h1⟩)).toNat, h2⟩ j) := by
  unfold Gpay SparseCore.gatherPayload
  rw [show ∀ y, View.read (Elt F) (ctS).view fct y = fct ((ctS).view.emb y) from fun y => (View.read_apply _ _).trans (cast_eq _ _)]
  refine congrArg fct ?_
  funext a
  refine Fin.ext ?_
  match a with
  | ⟨0, h0⟩ =>
    show 0 + 1 * ((gathers_S100000x128_S128x128.idx _ (ix2 r j)) ⟨0, h0⟩).val = _
    rw [Nat.zero_add, Nat.one_mul]
    refine (congrArg Fin.val (Shape.Gathers.idx_axis gathers_S100000x128_S128x128 _ (ix2 r j))).trans ?_
    show (View.read (Elt F) ((s0W).slice (Rect.unit (s := S3200) off S128.size hoff) (fun _ => rfl)).view c0
      (S128.rowMajor.symm _)).toNat = ((c0 : S3200.Idx → BitVec 32) (ix1 ⟨off 0 + r.val, h1⟩)).toNat
    rw [rowMajor_symm_S128]
    refine (congrArg BitVec.toNat ((View.read_apply _ _).trans (cast_eq _ _))).trans ?_
    refine congrArg (fun i => BitVec.toNat ((c0 : S3200.Idx → BitVec 32) i)) ?_
    funext a'
    refine Fin.ext ?_
    match a' with
    | ⟨0, _⟩ =>
      show off 0 + 1 * r.val = off 0 + r.val
      omega
  | ⟨1, h1'⟩ =>
    show 0 + 1 * _ = j.val
    rw [Nat.zero_add, Nat.one_mul]
    exact Shape.Gathers.idx_of_ne gathers_S100000x128_S128x128 _ (ix2 r j) ⟨1, h1'⟩ Nat.one_ne_zero

/-- The bound that makes a tile's position in the flat index list an index of it. -/
theorem tilePos_lt (p : Fin 3200) : 6400 * (L 1).val + 3200 * (L 0).val + p.val < 102400 := by
  have h0 := L0_lt L; have h1 := L1_lt L; have := p.isLt; omega

/-- What the fetch leaves in the item-index scratch, at a position: the flat index list at the tile's offset plus the
    position. -/
theorem fetched_apply (fvi : Buf (Elt F) ((SparseCore.T (τ := τ) d).loc main_v39)) (f0 : Buf (Elt F) ((thr d L).loc cc3_scratch0))
    (p : Fin 3200) :
    (fetched d L fvi f0 : S3200.Idx → BitVec 32) (ix1 p)
      = (fvi : S102400.Idx → BitVec 32) (ix1 ⟨6400 * (L 1).val + 3200 * (L 0).val + p.val, tilePos_lt L p⟩) := by
  have e : View.write (Elt F) (s0W).view f0 (ReadAs.same.apply (View.read (Elt F) (viS L).view fvi)) Finset.univ
      = ReadAs.same.apply (View.read (Elt F) (viS L).view fvi) := View.write_whole_univ _ _ _
  show View.write (Elt F) (s0W).view f0 (ReadAs.same.apply (View.read (Elt F) (viS L).view fvi)) Finset.univ (ix1 p) = _
  rw [e]
  show View.read (Elt F) (viS L).view fvi (ix1 p) = _
  refine ((View.read_apply _ _).trans (cast_eq _ _)).trans ?_
  refine congrArg (fvi : S102400.Idx → BitVec 32) ?_
  funext a
  refine Fin.ext ?_
  match a with
  | ⟨0, _⟩ =>
    show k3_off1 L 0 + 1 * p.val = 6400 * (L 1).val + 3200 * (L 0).val + p.val
    rw [k3_off1_eq L]
    show 6400 * (L 1).val + 3200 * (L 0).val + 1 * p.val = _
    omega

end Cert.Proof.KI3

end
-- ==== Proof.K3TileIdx.lean ====
/-
  The gather task's result in index form. The tile's 3200 rows of the gathered-rows result are 25 chunks of 128, each
  written from a row buffer holding the payload of the gather whose offset list is the matching window of the 3200
  fetched indices. Row `p` of the tile lies in chunk `p / 128` at row `p % 128`; reading the chunk's window at that row
  is reading the result at the tile's first row plus `p`; the payload there is the table's row named by the fetched
  list at `p`, which is the flat index list at the tile's offset plus `p`.
-/
import proofs.«217981_g19061064860210_cont_8to1_1320_37_alg».proof.Proof.K3GatherIdx
import proofs.«217981_g19061064860210_cont_8to1_1320_37_alg».proof.Proof.Sc3VFin

noncomputable section

namespace Cert.Proof.KI3

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open Idealize.SL.Sem
open Idealize.ShloMosaic.Rounds

variable {F : FTy → Type}

local notation "𝕄" => MT nD τ sig (HIx 2) (Elt F) ℕ UU ℕ

local notation "ctW" => (Memref.whole Cert.KernelIdeal.main_v9_scv : Memref Cert.KernelIdeal.sig Kind.scVector Space.hbm Cert.KernelIdeal.S100000x128 EltTy.f32)
local notation "viW" => (Memref.whole Cert.KernelIdeal.main_v39_scv : Memref Cert.KernelIdeal.sig Kind.scVector Space.hbm Cert.KernelIdeal.S102400 EltTy.i32)
local notation "euW" => (Memref.whole Cert.KernelIdeal.main_v44_0_scv : Memref Cert.KernelIdeal.sig Kind.scVector Space.hbm Cert.KernelIdeal.S102400x128 EltTy.f32)
local notation "s0W" => (Memref.whole Cert.KernelIdeal.cc3_scratch0 : Memref Cert.KernelIdeal.sig Kind.scVector Space.vmem Cert.KernelIdeal.S3200 EltTy.i32)

variable (d : Dev nD) (L : grid3.Coords)

/-- An array read at two spellings of one row. -/
theorem at_congr {N M : ℕ} {β : Type} (g : (⟨2, ![N, M]⟩ : Shape).Idx → β) {n n' : ℕ} (h : n < N) (h' : n' < N) (e : n = n')
    (j : Fin M) : g (ix2 ⟨n, h⟩ j) = g (ix2 ⟨n', h'⟩ j) := by
  subst e; rfl

/-- A list read at two spellings of one position. -/
theorem at1_congr {N : ℕ} {β : Type} (g : (⟨1, ![N]⟩ : Shape).Idx → β) {n n' : ℕ} (h : n < N) (h' : n' < N) (e : n = n') :
    g (ix1 ⟨n, h⟩) = g (ix1 ⟨n', h'⟩) := by
  subst e; rfl

/-- A 128-row window of the gathered-rows result, read at an index: the result at the window's first row plus the
    row, same column. -/
theorem window_read (f : Buf (Elt F) ((SparseCore.T (τ := τ) d).loc main_v44_0)) (o0 : ℕ)
    (inb : ∀ a, (![o0, 0] : Fin 2 → ℕ) a + S128x128.size a ≤ S102400x128.size a) (r j : Fin 128) (h : o0 + r.val < 102400) :
    View.read (Elt F) ((euW).slice (Rect.unit (s := S102400x128) ![o0, 0] S128x128.size inb) (fun _ => rfl)).view f (ix2 r j)
      = (f : S102400x128.Idx → Elt F .f32) (ix2 ⟨o0 + r.val, h⟩ j) := by
  refine ((View.read_apply _ _).trans (cast_eq _ _)).trans ?_
  refine congrArg (f : S102400x128.Idx → Elt F .f32) ?_
  funext a
  refine Fin.ext ?_
  match a with
  | ⟨0, _⟩ =>
    show o0 + 1 * r.val = o0 + r.val
    omega
  | ⟨1, _⟩ =>
    show 0 + 1 * j.val = j.val
    omega

variable (fct : Buf (Elt F) ((SparseCore.T (τ := τ) d).loc main_v9))
  (fvi : Buf (Elt F) ((SparseCore.T (τ := τ) d).loc main_v39)) (hvi : ∀ j, (fvi j).toNat < 100000)
  (f0 : Buf (Elt F) ((thr d L).loc cc3_scratch0))

/-- One chunk: a window of the result that reads the gather's payload for the window `off` of the fetched list holds,
    at each of its rows, the table's row named by the flat index list at the tile's offset plus the row's position. -/
theorem chunk_value (f : Buf (Elt F) ((SparseCore.T (τ := τ) d).loc main_v44_0)) (off : ℕ)
    (hoff : ∀ a, (![off] : Fin 1 → ℕ) a + S128.size a ≤ S3200.size a) (o0 : ℕ)
    (inb : ∀ a, (![o0, 0] : Fin 2 → ℕ) a + S128x128.size a ≤ S102400x128.size a)
    (ho : o0 = 6400 * (L 1).val + 3200 * (L 0).val + off)
    (hW : View.read (Elt F) ((euW).slice (Rect.unit (s := S102400x128) ![o0, 0] S128x128.size inb) (fun _ => rfl)).view f
      = Gpay d L fct (fetched d L fvi f0) (hin_v_of d L fvi hvi f0) ![off] hoff)
    (p : Fin 3200) (r j : Fin 128) (hp : p.val = off + r.val) :
    (f : S102400x128.Idx → Elt F .f32) (ix2 ⟨6400 * (L 1).val + 3200 * (L 0).val + p.val, tilePos_lt L p⟩ j)
      = (fct : S100000x128.Idx → Elt F .f32)
          (ix2 ⟨((fvi : S102400.Idx → BitVec 32) (ix1 ⟨6400 * (L 1).val + 3200 * (L 0).val + p.val, tilePos_lt L p⟩)).toNat, hvi _⟩ j) := by
  have hp3 := p.isLt
  have h1 : (![off] : Fin 1 → ℕ) 0 + r.val < 3200 := by show off + r.val < 3200; omega
  have h2 : ((fetched d L fvi f0 : S3200.Idx → BitVec 32) (ix1 ⟨(![off] : Fin 1 → ℕ) 0 + r.val, h1⟩)).toNat < 100000 :=
    c0_lt d L fvi hvi f0 _
  have hb := tilePos_lt L p
  have e1 := congrFun hW (ix2 r j)
  rw [window_read d f o0 inb r j (by omega), Gpay_apply d L fct _ _ ![off] hoff r j h1 h2] at e1
  refine (at_congr (f : S102400x128.Idx → Elt F .f32) _ _ (by omega) j).trans (e1.trans ?_)
  refine at_congr (fct : S100000x128.Idx → Elt F .f32) _ _ (congrArg BitVec.toNat ?_) j
  refine (fetched_apply d L fvi f0 ⟨(![off] : Fin 1 → ℕ) 0 + r.val, h1⟩).trans ?_
  exact at1_congr (fvi : S102400.Idx → BitVec 32) _ _ (by show 6400 * (L 1).val + 3200 * (L 0).val + (off + r.val) = _; omega)

/-- ALL OF THE TILE'S ROWS: when the twelve pairs of chunks and the last chunk read their gathers' payloads, row `p` of the
    tile's block of the result is the table's row named by the flat index list at the tile's offset plus `p`. -/
theorem tile_rows_value (f : Buf (Elt F) ((SparseCore.T (τ := τ) d).loc main_v44_0))
    (hch : chunksOK d L fct (fetched d L fvi f0) (hin_v_of d L fvi hvi f0) 12 f)
    (h24 : View.read (Elt F) (eu24 L).view f
      = Gpay d L fct (fetched d L fvi f0) (hin_v_of d L fvi hvi f0) ![256 * 12] (gEven_inb 12 (by decide)))
    (p : Fin 3200) (j : Fin 128) :
    (f : S102400x128.Idx → Elt F .f32) (ix2 ⟨6400 * (L 1).val + 3200 * (L 0).val + p.val, tilePos_lt L p⟩ j)
      = (fct : S100000x128.Idx → Elt F .f32)
          (ix2 ⟨((fvi : S102400.Idx → BitVec 32) (ix1 ⟨6400 * (L 1).val + 3200 * (L 0).val + p.val, tilePos_lt L p⟩)).toNat, hvi _⟩ j) := by
  have hp3 := p.isLt
  by_cases h3 : p.val < 3072
  · have hk : p.val / 256 + 1 ≤ 12 := by omega
    obtain ⟨hE, hO⟩ := hch (p.val / 256) hk (by omega)
    by_cases hq : p.val % 256 < 128
    · exact chunk_value d L fct fvi hvi f0 f (256 * (p.val / 256)) (gEven_inb _ (by omega))
        (6400 * (L 1).val + 3200 * (L 0).val + 256 * (p.val / 256)) (evenOff_inb L _ hk) rfl hE p ⟨p.val % 256, hq⟩ j (by show p.val = 256 * (p.val / 256) + p.val % 256; omega)
    · exact chunk_value d L fct fvi hvi f0 f (256 * (p.val / 256) + 128) (gOdd_inb _ hk)
        (6400 * (L 1).val + 3200 * (L 0).val + 256 * (p.val / 256) + 128) (oddOff_inb L _ hk) (by omega) hO p ⟨p.val % 256 - 128, by omega⟩ j
        (by show p.val = 256 * (p.val / 256) + 128 + (p.val % 256 - 128); omega)
  · exact chunk_value d L fct fvi hvi f0 f (256 * 12) (gEven_inb 12 (by decide))
      (6400 * (L 1).val + 3200 * (L 0).val + 3072) (e24_inb L) (by omega) h24 p ⟨p.val - 3072, by omega⟩ j (by show p.val = 256 * 12 + (p.val - 3072); omega)

end Cert.Proof.KI3

end
-- ==== Proof.K3TileIdxU.lean ====
/-
  The per-row gather's result in index form. A tile's 64 rows of the per-row result are written from one row buffer
  holding the payload of the gather whose offset list is the tile's 64 fetched per-row indices, which are the per-row
  index list from the tile's offset on. So row `p` of the tile's window is the table's row named by the per-row index
  list at the tile's offset plus `p`.
-/
import proofs.«217981_g19061064860210_cont_8to1_1320_37_alg».proof.Proof.K3TileIdx
import proofs.«217981_g19061064860210_cont_8to1_1320_37_alg».proof.Proof.Sc3VTile

noncomputable section

namespace Cert.Proof.KI3

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open Idealize.SL.Sem
open Idealize.ShloMosaic.Rounds

variable {F : FTy → Type}

local notation "𝕄" => MT nD τ sig (HIx 2) (Elt F) ℕ UU ℕ

local notation "ctW" => (Memref.whole Cert.KernelIdeal.main_v9_scv : Memref Cert.KernelIdeal.sig Kind.scVector Space.hbm Cert.KernelIdeal.S100000x128 EltTy.f32)
local notation "viW" => (Memref.whole Cert.KernelIdeal.main_v39_scv : Memref Cert.KernelIdeal.sig Kind.scVector Space.hbm Cert.KernelIdeal.S102400 EltTy.i32)
local notation "euW" => (Memref.whole Cert.KernelIdeal.main_v44_0_scv : Memref Cert.KernelIdeal.sig Kind.scVector Space.hbm Cert.KernelIdeal.S102400x128 EltTy.f32)
local notation "uvW" => (Memref.whole Cert.KernelIdeal.main_v44_1_scv : Memref Cert.KernelIdeal.sig Kind.scVector Space.hbm Cert.KernelIdeal.S2048x128 EltTy.f32)
local notation "niW" => (Memref.whole Cert.KernelIdeal.main_v40_scv : Memref Cert.KernelIdeal.sig Kind.scVector Space.hbm Cert.KernelIdeal.S2048 EltTy.i32)
local notation "s1W" => (Memref.whole Cert.KernelIdeal.cc3_scratch1 : Memref Cert.KernelIdeal.sig Kind.scVector Space.vmem Cert.KernelIdeal.S64 EltTy.i32)
local notation "s0W" => (Memref.whole Cert.KernelIdeal.cc3_scratch0 : Memref Cert.KernelIdeal.sig Kind.scVector Space.vmem Cert.KernelIdeal.S3200 EltTy.i32)

variable (d : Dev nD) (L : grid3.Coords)

/-- A position in a flat list of 64 entries is its one coordinate. -/
theorem rowMajor_symm_S64 (k : Fin S64.numel) :
    S64.rowMajor.symm k = ix1 (⟨k.val, (lt_of_lt_of_eq k.isLt (Shape.numel_rank1 _) : k.val < 64)⟩ : Fin 64) := by
  rw [Equiv.symm_apply_eq]
  refine Fin.ext ?_
  rw [Shape.rowMajor_val_one]

/-- The bound that makes a tile's position in the per-row index list an index of it. -/
theorem uvPos_lt (p : Fin 64) : 128 * (L 1).val + 64 * (L 0).val + p.val < 2048 := by
  have h0 := L0_lt L; have h1 := L1_lt L; have := p.isLt; omega

variable (fct : Buf (Elt F) ((SparseCore.T (τ := τ) d).loc main_v9))
  (fni : Buf (Elt F) ((SparseCore.T (τ := τ) d).loc main_v40)) (hni : ∀ j, (fni j).toNat < 100000)
  (f1 : Buf (Elt F) ((thr d L).loc cc3_scratch1))

/-- The per-row gather's payload at row `r`, column `j`: the table at the row named by the per-row index list at the tile's
    offset plus `r`, column `j`. -/
theorem GpayU_apply (r : Fin 64) (j : Fin 128) :
    GpayU d L fct fni hni f1 (ix2 r j)
      = (fct : S100000x128.Idx → Elt F .f32)
          (ix2 ⟨((fni : S2048.Idx → BitVec 32) (ix1 ⟨128 * (L 1).val + 64 * (L 0).val + r.val, uvPos_lt L r⟩)).toNat, hni _⟩ j) := by
  unfold GpayU SparseCore.gatherPayload
  rw [show ∀ y, View.read (Elt F) (ctS).view fct y = fct ((ctS).view.emb y) from fun y => (View.read_apply _ _).trans (cast_eq _ _)]
  refine congrArg fct ?_
  funext a
  refine Fin.ext ?_
  match a with
  | ⟨0, h0⟩ =>
    show 0 + 1 * ((gathers_S100000x128_S64x128.idx _ (ix2 r j)) ⟨0, h0⟩).val = _
    rw [Nat.zero_add, Nat.one_mul]
    refine (congrArg Fin.val (Shape.Gathers.idx_axis gathers_S100000x128_S64x128 _ (ix2 r j))).trans ?_
    show (View.read (Elt F) (s1W).view (View.write (Elt F) (s1W).view f1 (ReadAs.same.apply (View.read (Elt F) (niS L).view fni)) Finset.univ)
      (S64.rowMajor.symm _)).toNat = ((fni : S2048.Idx → BitVec 32) (ix1 ⟨128 * (L 1).val + 64 * (L 0).val + r.val, uvPos_lt L r⟩)).toNat
    have e : View.write (Elt F) (s1W).view f1 (ReadAs.same.apply (View.read (Elt F) (niS L).view fni)) Finset.univ
        = ReadAs.same.apply (View.read (Elt F) (niS L).view fni) := View.write_whole_univ _ _ _
    rw [rowMajor_symm_S64, e]
    refine (congrArg BitVec.toNat ((View.read_apply _ _).trans (cast_eq _ _))).trans ?_
    show (View.read (Elt F) (niS L).view fni _).toNat = _
    refine (congrArg BitVec.toNat ((View.read_apply _ _).trans (cast_eq _ _))).trans ?_
    refine congrArg (fun i => BitVec.toNat ((fni : S2048.Idx → BitVec 32) i)) ?_
    funext a'
    refine Fin.ext ?_
    match a' with
    | ⟨0, _⟩ =>
      show k3_off2 L 0 + 1 * r.val = 128 * (L 1).val + 64 * (L 0).val + r.val
      rw [k3_off2_eq L]
      show 128 * (L 1).val + 64 * (L 0).val + 1 * r.val = _
      omega
  | ⟨1, h1'⟩ =>
    show 0 + 1 * _ = j.val
    rw [Nat.zero_add, Nat.one_mul]
    exact Shape.Gathers.idx_of_ne gathers_S100000x128_S64x128 _ (ix2 r j) ⟨1, h1'⟩ Nat.one_ne_zero

/-- THE TILE'S PER-ROW RESULT: when the tile's window of the per-row result reads the gather's payload, its row `p` is the
    table's row named by the per-row index list at the tile's offset plus `p`. -/
theorem uv_rows_value (f : Buf (Elt F) ((SparseCore.T (τ := τ) d).loc main_v44_1))
    (hU : View.read (Elt F) ((uvW).slice (uvRect L) (fun _ => rfl)).view f = GpayU d L fct fni hni f1)
    (p : Fin 64) (j : Fin 128) :
    (f : S2048x128.Idx → Elt F .f32) (ix2 ⟨128 * (L 1).val + 64 * (L 0).val + p.val, uvPos_lt L p⟩ j)
      = (fct : S100000x128.Idx → Elt F .f32)
          (ix2 ⟨((fni : S2048.Idx → BitVec 32) (ix1 ⟨128 * (L 1).val + 64 * (L 0).val + p.val, uvPos_lt L p⟩)).toNat, hni _⟩ j) := by
  have e1 := congrFun hU (ix2 p j)
  rw [GpayU_apply d L fct fni hni f1 p j] at e1
  refine Eq.trans ?_ e1
  refine Eq.symm (((View.read_apply _ _).trans (cast_eq _ _)).trans ?_)
  refine congrArg (f : S2048x128.Idx → Elt F .f32) ?_
  funext a
  refine Fin.ext ?_
  match a with
  | ⟨0, _⟩ =>
    show 128 * (L 1).val + 64 * (L 0).val + 1 * p.val = 128 * (L 1).val + 64 * (L 0).val + p.val
    omega
  | ⟨1, _⟩ =>
    show 0 + 1 * j.val = j.val
    omega

end Cert.Proof.KI3

end
-- ==== Proof.Sc3VObl.lean ====
/-
  The gather task from the launch's hand to the launch's hand, with VALUES: the table and the two index lists at fixed contents
  go in and come back; the tile's rows of the gathered-rows result come back holding, row by row, the table's row that the
  tile's index for that row names, and its rows of the user-rows result likewise.
-/
import proofs.«217981_g19061064860210_cont_8to1_1320_37_alg».proof.Proof.Sc3VTile
import proofs.«217981_g19061064860210_cont_8to1_1320_37_alg».proof.Proof.Sc3Obl
import proofs.«217981_g19061064860210_cont_8to1_1320_37_alg».proof.Proof.K3TileIdxU

noncomputable section

namespace Cert.Proof.KI3

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

local notation "ctW" => (Memref.whole Cert.KernelIdeal.main_v9_scv : Memref Cert.KernelIdeal.sig Kind.scVector Space.hbm Cert.KernelIdeal.S100000x128 EltTy.f32)
local notation "viW" => (Memref.whole Cert.KernelIdeal.main_v39_scv : Memref Cert.KernelIdeal.sig Kind.scVector Space.hbm Cert.KernelIdeal.S102400 EltTy.i32)
local notation "niW" => (Memref.whole Cert.KernelIdeal.main_v40_scv : Memref Cert.KernelIdeal.sig Kind.scVector Space.hbm Cert.KernelIdeal.S2048 EltTy.i32)
local notation "euW" => (Memref.whole Cert.KernelIdeal.main_v44_0_scv : Memref Cert.KernelIdeal.sig Kind.scVector Space.hbm Cert.KernelIdeal.S102400x128 EltTy.f32)
local notation "uvW" => (Memref.whole Cert.KernelIdeal.main_v44_1_scv : Memref Cert.KernelIdeal.sig Kind.scVector Space.hbm Cert.KernelIdeal.S2048x128 EltTy.f32)
local notation "s0W" => (Memref.whole Cert.KernelIdeal.cc3_scratch0 : Memref Cert.KernelIdeal.sig Kind.scVector Space.vmem Cert.KernelIdeal.S3200 EltTy.i32)
local notation "s1W" => (Memref.whole Cert.KernelIdeal.cc3_scratch1 : Memref Cert.KernelIdeal.sig Kind.scVector Space.vmem Cert.KernelIdeal.S64 EltTy.i32)
local notation "s2W" => (Memref.whole Cert.KernelIdeal.cc3_scratch2 : Memref Cert.KernelIdeal.sig Kind.scVector Space.vmem Cert.KernelIdeal.S128x128 EltTy.f32)
local notation "s3W" => (Memref.whole Cert.KernelIdeal.cc3_scratch3 : Memref Cert.KernelIdeal.sig Kind.scVector Space.vmem Cert.KernelIdeal.S128x128 EltTy.f32)
local notation "s4W" => (Memref.whole Cert.KernelIdeal.cc3_scratch4 : Memref Cert.KernelIdeal.sig Kind.scVector Space.vmem Cert.KernelIdeal.S64x128 EltTy.f32)

variable [FloatOps F]
variable (d : Dev nD) (L : grid3.Coords)

variable (fct : Buf (Elt F) ((SparseCore.T (τ := τ) d).loc main_v9)) (fvi : Buf (Elt F) ((SparseCore.T (τ := τ) d).loc main_v39))
  (fni : Buf (Elt F) ((SparseCore.T (τ := τ) d).loc main_v40))
  (hvi : ∀ j, (fvi j).toNat < 100000) (hni : ∀ j, (fni j).toNat < 100000)

/-- The tile's rows of the gathered-rows result hold the table's rows its indices name. -/
def rowsVal (f : Buf (Elt F) ((SparseCore.T (τ := τ) d).loc main_v44_0)) : Prop :=
  ∀ (p : Fin 3200) (j : Fin 128),
    (f : S102400x128.Idx → Elt F .f32) (ix2 ⟨6400 * (L 1).val + 3200 * (L 0).val + p.val, tilePos_lt L p⟩ j)
      = (fct : S100000x128.Idx → Elt F .f32)
          (ix2 ⟨((fvi : S102400.Idx → BitVec 32) (ix1 ⟨6400 * (L 1).val + 3200 * (L 0).val + p.val, tilePos_lt L p⟩)).toNat, hvi _⟩ j)

/-- The tile's rows of the user-rows result hold the table's rows its user indices name. -/
def urowsVal (f : Buf (Elt F) ((SparseCore.T (τ := τ) d).loc main_v44_1)) : Prop :=
  ∀ (p : Fin 64) (j : Fin 128),
    (f : S2048x128.Idx → Elt F .f32) (ix2 ⟨128 * (L 1).val + 64 * (L 0).val + p.val, uvPos_lt L p⟩ j)
      = (fct : S100000x128.Idx → Elt F .f32)
          (ix2 ⟨((fni : S2048.Idx → BitVec 32) (ix1 ⟨128 * (L 1).val + 64 * (L 0).val + p.val, uvPos_lt L p⟩)).toNat, hni _⟩ j)

/-- What the launch hands the tile, the read arrays' contents fixed. -/
def goResV (qT : PosShare TreeShare) : sProp 𝕄 :=
  iprop(ctPts d L qT fct ∗ viPts d L qT fvi ∗ niPts d L qT fni ∗ (∃ f, euPts d L f) ∗ (∃ f, uvPts d L f))

/-- What the tile hands back: the same, its gathered rows at their values. -/
def tdResV (qT : PosShare TreeShare) : sProp 𝕄 :=
  iprop(ctPts d L qT fct ∗ viPts d L qT fvi ∗ niPts d L qT fni ∗ (∃ f, ⌜rowsVal d L fct fvi hvi f⌝ ∗ euPts d L f)
      ∗ (∃ f, ⌜urowsVal d L fct fni hni f⌝ ∗ uvPts d L f))

set_option maxHeartbeats 1000000 in
/-- The task of tile `L`, from the launch's hand to the launch's hand, with the gathered rows' values. -/
theorem tile_task0V (hF : (K (F := F)).Facts) (O : CellTallies nD τ sig (HIx 2)) (W : Waits sig (HIx 2)) (hO : ∀ g, O g none = 0)
    (qT : PosShare TreeShare) :
    iprop(levAts (K (F := F)).L (K (F := F)).lev ∗ emp ∗ goResV d L fct fvi fni qT ∗ scopedBufs (thr d L) ∗ scopedSems0 (thr d L) ∗ owes (thr d L) O W)
      ⊢ wp frame (wpE (defs₀ (F := F)) 𝒱₀ (thr d L) none) Set.univ
          (cc3_k L ctW (Memref.isWhole_whole _) viW (Memref.isWhole_whole _) niW (Memref.isWhole_whole _)
            euW (Memref.isWhole_whole _) uvW (Memref.isWhole_whole _)
            s0W (Memref.isWhole_whole _) s1W (Memref.isWhole_whole _) s2W (Memref.isWhole_whole _)
            s3W (Memref.isWhole_whole _) s4W (Memref.isWhole_whole _)
            cc3_scratch5 cc3_scratch6 cc3_scratch7 cc3_scratch8 cc3_scratch9 cc3_scoped0 cc3_scoped1 cc3_scoped2)
          fun _ => iprop(tdResV d L fct fvi fni hvi hni qT ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V8, ownBufs_V5]
  unfold goResV tdResV ctPts viPts niPts euPts uvPts
  iintro ⟨#Hlv, -, ⟨Hct, Hvi, Hni, ⟨%feu, Heu⟩, ⟨%fuv, Huv⟩⟩,
    ⟨⟨⟨%f0, Hs0⟩, ⟨%f1, Hs1⟩, ⟨%f2, Hs2⟩, ⟨%f3, Hs3⟩, ⟨%f4, Hs4⟩⟩, Hbufs⟩,
    ⟨⟨Hg0, Hg1, Hw0, Hw1, Hsu, Hc0, Hc1, Hc2⟩, Hsems⟩, HO⟩
  ihave Hmw := (show levAts (K (F := F)).L (K (F := F)).lev ⊢ Transfers.MayWaits (thr d L) (none : HIx 2) O from
    (K (F := F)).mayWaits_none (thr := thr d L) hO) $$ Hlv
  ihave Ht := (Transfers.pointsTo_toks qT 3).1 $$ Hct
  icases Ht with ⟨Hdrop, Htoks⟩
  ihave Ht3 := (Entails.of_eq (bigSep_three _)) $$ Htoks
  icases Ht3 with ⟨Hct0, Hct1, Hct2⟩
  ihave Hv := (pointsTo_split_subset (q := qT) (f := fvi) (S := Finset.univ) (Finset.subset_univ (viS L).view.set)).1 $$ Hvi
  icases Hv with ⟨Hvi, Hvir⟩
  ihave Hn := (pointsTo_split_subset (q := qT) (f := fni) (S := Finset.univ) (Finset.subset_univ (niS L).view.set)).1 $$ Hni
  icases Hn with ⟨Hni, Hnir⟩
  iapply (wp_wand_r frame (wpE (defs₀ (F := F)) 𝒱₀ (thr d L) none) Set.univ (Q := fun _ => tilePostV d L O W fct qT fvi fni qT f0 hvi f1 hni))
  isplitl [Hmw Hct0 Hct1 Hct2 Hvi Hni Hs0 Hs1 Hs2 Hs3 Hs4 Hg0 Hg1 Hw0 Hw1 Hsu Hc0 Hc1 Hc2 Heu Huv HO]
  · iapply (tile_runV d L O W fct qT hO fvi fni qT f0 f1 f2 f3 f4 feu fuv hvi hni)
    unfold tilePre
    isplitl [Hmw]; · iexact Hmw
    isplitl [Hct0]; · iexact Hct0
    isplitl [Hct1]; · iexact Hct1
    isplitl [Hct2]; · iexact Hct2
    isplitl [Hvi]; · iexact Hvi
    isplitl [Hni]; · iexact Hni
    isplitl [Hs0]; · iexact Hs0
    isplitl [Hs1]; · iexact Hs1
    isplitl [Hs2]; · iexact Hs2
    isplitl [Hs3]; · iexact Hs3
    isplitl [Hs4]; · iexact Hs4
    isplitl [Hg0]; · iexact Hg0
    isplitl [Hg1]; · iexact Hg1
    isplitl [Hw0]; · iexact Hw0
    isplitl [Hw1]; · iexact Hw1
    isplitl [Hsu]; · iexact Hsu
    isplitl [Hc0]; · iexact Hc0
    isplitl [Hc1]; · iexact Hc1
    isplitl [Hc2]; · iexact Hc2
    isplitl [Heu]; · iexact Heu
    isplitl [Huv]; · iexact Huv
    iexact HO
  iintro %a Hpost
  unfold tilePostV
  icases Hpost with ⟨Hct0, Hct1, Hct2, Hvi, Hni, Hs0, Hs1, Hs2, Hs3, Hs4, Hg0, Hg1, Hw0, Hw1, Hsu, Hc0, Hc1, Hc2, ⟨%fe', %hfe, Heu⟩, ⟨%fu', %hfu, Huv⟩, HOW⟩
  ihave Htoks := (Entails.of_eq (bigSep_three
      (fun i : Fin 3 => ((ctW).view.loc (thr d L) ↦{Transfers.shareTok qT 3 i} fct : sProp 𝕄))).symm) $$ [Hct0 Hct1 Hct2]
  · isplitl [Hct0]; · iexact Hct0
    isplitl [Hct1]; · iexact Hct1
    iexact Hct2
  ihave Hct := (Transfers.pointsTo_toks qT 3).2 $$ [Hdrop Htoks]
  · isplitl [Hdrop]; · iexact Hdrop
    iexact Htoks
  ihave Hvi := (pointsTo_split_subset (q := qT) (f := fvi) (S := Finset.univ) (Finset.subset_univ (viS L).view.set)).2 $$ [Hvi Hvir]
  · isplitl [Hvi]; · iexact Hvi
    iexact Hvir
  ihave Hni := (pointsTo_split_subset (q := qT) (f := fni) (S := Finset.univ) (Finset.subset_univ (niS L).view.set)).2 $$ [Hni Hnir]
  · isplitl [Hni]; · iexact Hni
    iexact Hnir
  isplitl [Hct Hvi Hni Heu Huv]
  · isplitl [Hct]; · iexact Hct
    isplitl [Hvi]; · iexact Hvi
    isplitl [Hni]; · iexact Hni
    isplitl [Heu]
    · iexists fe'
      isplitr; · ipureintro; exact tile_rows_value d L fct fvi hvi f0 fe' hfe.1 hfe.2
      iexact Heu
    iexists fu'
    isplitr; · ipureintro; exact uv_rows_value d L fct fni hni f1 fu' hfu
    iexact Huv
  isplitl [Hs0 Hs1 Hs2 Hs3 Hs4 Hbufs]
  · isplitl [Hs0 Hs1 Hs2 Hs3 Hs4]
    · isplitl [Hs0]; · iexact Hs0
      isplitl [Hs1]; · iexact Hs1
      isplitl [Hs2]; · iexact Hs2
      isplitl [Hs3]; · iexact Hs3
      iexact Hs4
    iexact Hbufs
  isplitl [Hg0 Hg1 Hw0 Hw1 Hsu Hc0 Hc1 Hc2 Hsems]
  · isplitl [Hg0 Hg1 Hw0 Hw1 Hsu Hc0 Hc1 Hc2]
    · isplitl [Hg0]; · iexact Hg0
      isplitl [Hg1]; · iexact Hg1
      isplitl [Hw0]; · iexact Hw0
      isplitl [Hw1]; · iexact Hw1
      isplitl [Hsu]; · iexact Hsu
      isplitl [Hc0]; · iexact Hc0
      isplitl [Hc1]; · iexact Hc1
      iexact Hc2
    iexact Hsems
  iexact HOW

end Cert.Proof.KI3

end
-- ==== Proof.ScVPay.lean ====
/-
  The handshakes' payloads carrying VALUES: the table and the two index lists of each gather call at contents fixed beforehand
  (per device), and a tile's results coming back with every row holding the table's row that its index names.
-/
import proofs.«217981_g19061064860210_cont_8to1_1320_37_alg».proof.Proof.ScVObl
import proofs.«217981_g19061064860210_cont_8to1_1320_37_alg».proof.Proof.Sc3VObl
import proofs.«217981_g19061064860210_cont_8to1_1320_37_alg».proof.Proof.ScPay

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

variable (ct0 : (d : Dev nD) → Buf (Elt F) ((SparseCore.T (τ := τ) d).loc main_v9))
  (vi0 : (d : Dev nD) → Buf (Elt F) ((SparseCore.T (τ := τ) d).loc main_v13))
  (ni0 : (d : Dev nD) → Buf (Elt F) ((SparseCore.T (τ := τ) d).loc main_v14))
  (hvi0 : ∀ d j, (vi0 d j).toNat < 100000) (hni0 : ∀ d j, (ni0 d j).toNat < 100000)
  (ct1 : (d : Dev nD) → Buf (Elt F) ((SparseCore.T (τ := τ) d).loc main_v9))
  (vi1 : (d : Dev nD) → Buf (Elt F) ((SparseCore.T (τ := τ) d).loc main_v39))
  (ni1 : (d : Dev nD) → Buf (Elt F) ((SparseCore.T (τ := τ) d).loc main_v40))
  (hvi1 : ∀ d j, (vi1 d j).toNat < 100000) (hni1 : ∀ d j, (ni1 d j).toNat < 100000)

/-- What a call hands tile `(c, i)`. -/
def tileGo (q : Fin 2) (d : Dev nD) (c : Fin 2) (i : Fin 16) : sProp 𝕄 :=
  match q with
  | 0 => goResV d (coordsV c i) (ct0 d) (vi0 d) (ni0 d) (qTile c.val i.val)
  | 1 => Cert.Proof.KI3.goResV d (coordsV c i) (ct1 d) (vi1 d) (ni1 d) (qTile c.val i.val)
/-- What it takes back. -/
def tileTd (q : Fin 2) (d : Dev nD) (c : Fin 2) (i : Fin 16) : sProp 𝕄 :=
  match q with
  | 0 => tdResV d (coordsV c i) (ct0 d) (vi0 d) (ni0 d) (hvi0 d) (hni0 d) (qTile c.val i.val)
  | 1 => Cert.Proof.KI3.tdResV d (coordsV c i) (ct1 d) (vi1 d) (ni1 d) (hvi1 d) (hni1 d) (qTile c.val i.val)

set_option synthInstance.maxHeartbeats 400000 in
omit [FloatOps F] in
instance tileGo_storable (q : Fin 2) (d : Dev nD) (c : Fin 2) (i : Fin 16) :
    BI.Storable (upEmb : UEmb _ 𝕄) (tileGo (F := F) ct0 vi0 ni0 ct1 vi1 ni1 q d c i) := by
  match q with
  | 0 => show BI.Storable _ (goResV d (coordsV c i) (ct0 d) (vi0 d) (ni0 d) (qTile c.val i.val)); unfold goResV; infer_instance
  | 1 => show BI.Storable _ (Cert.Proof.KI3.goResV d (coordsV c i) (ct1 d) (vi1 d) (ni1 d) (qTile c.val i.val)); unfold Cert.Proof.KI3.goResV; infer_instance
set_option synthInstance.maxHeartbeats 400000 in
omit [FloatOps F] in
instance tileTd_storable (q : Fin 2) (d : Dev nD) (c : Fin 2) (i : Fin 16) :
    BI.Storable (upEmb : UEmb _ 𝕄) (tileTd (F := F) ct0 vi0 ni0 hvi0 hni0 ct1 vi1 ni1 hvi1 hni1 q d c i) := by
  match q with
  | 0 => show BI.Storable _ (tdResV d (coordsV c i) (ct0 d) (vi0 d) (ni0 d) (hvi0 d) (hni0 d) (qTile c.val i.val)); unfold tdResV; infer_instance
  | 1 => show BI.Storable _ (Cert.Proof.KI3.tdResV d (coordsV c i) (ct1 d) (vi1 d) (ni1 d) (hvi1 d) (hni1 d) (qTile c.val i.val)); unfold Cert.Proof.KI3.tdResV; infer_instance

/-- The payloads with values. -/
def PV : (K (F := F)).Pay (nD := nD) (Val := Elt F) (Name := ℕ) (U := UU) where
  st := fun q d c => match q with
    | 0 => bigSep Finset.univ fun i : Fin 16 => tileGo ct0 vi0 ni0 ct1 vi1 ni1 0 d c i
    | 1 => bigSep Finset.univ fun i : Fin 16 => tileGo ct0 vi0 ni0 ct1 vi1 ni1 1 d c i
  dn := fun q d c => match q with
    | 0 => bigSep Finset.univ fun i : Fin 16 => tileTd ct0 vi0 ni0 hvi0 hni0 ct1 vi1 ni1 hvi1 hni1 0 d c i
    | 1 => bigSep Finset.univ fun i : Fin 16 => tileTd ct0 vi0 ni0 hvi0 hni0 ct1 vi1 ni1 hvi1 hni1 1 d c i
  go := fun q d c i => match q with
    | 0 => tileGo ct0 vi0 ni0 ct1 vi1 ni1 0 d c i
    | 1 => tileGo ct0 vi0 ni0 ct1 vi1 ni1 1 d c i
  td := fun q d c i => match q with
    | 0 => tileTd ct0 vi0 ni0 hvi0 hni0 ct1 vi1 ni1 hvi1 hni1 0 d c i
    | 1 => tileTd ct0 vi0 ni0 hvi0 hni0 ct1 vi1 ni1 hvi1 hni1 1 d c i
  x := fun _ _ => iprop(emp)

instance PV_storable : (PV (F := F) ct0 vi0 ni0 hvi0 hni0 ct1 vi1 ni1 hvi1 hni1).IsStorable where
  st q d c := match q with
    | 0 => (inferInstance : BI.Storable (upEmb : UEmb _ 𝕄) (bigSep Finset.univ fun i : Fin 16 => tileGo (F := F) ct0 vi0 ni0 ct1 vi1 ni1 0 d c i))
    | 1 => (inferInstance : BI.Storable (upEmb : UEmb _ 𝕄) (bigSep Finset.univ fun i : Fin 16 => tileGo (F := F) ct0 vi0 ni0 ct1 vi1 ni1 1 d c i))
  dn q d c := match q with
    | 0 => (inferInstance : BI.Storable (upEmb : UEmb _ 𝕄) (bigSep Finset.univ fun i : Fin 16 => tileTd (F := F) ct0 vi0 ni0 hvi0 hni0 ct1 vi1 ni1 hvi1 hni1 0 d c i))
    | 1 => (inferInstance : BI.Storable (upEmb : UEmb _ 𝕄) (bigSep Finset.univ fun i : Fin 16 => tileTd (F := F) ct0 vi0 ni0 hvi0 hni0 ct1 vi1 ni1 hvi1 hni1 1 d c i))
  go q d c i := match q with
    | 0 => (inferInstance : BI.Storable (upEmb : UEmb _ 𝕄) (tileGo (F := F) ct0 vi0 ni0 ct1 vi1 ni1 0 d c i))
    | 1 => (inferInstance : BI.Storable (upEmb : UEmb _ 𝕄) (tileGo (F := F) ct0 vi0 ni0 ct1 vi1 ni1 1 d c i))
  td q d c i := match q with
    | 0 => (inferInstance : BI.Storable (upEmb : UEmb _ 𝕄) (tileTd (F := F) ct0 vi0 ni0 hvi0 hni0 ct1 vi1 ni1 hvi1 hni1 0 d c i))
    | 1 => (inferInstance : BI.Storable (upEmb : UEmb _ 𝕄) (tileTd (F := F) ct0 vi0 ni0 hvi0 hni0 ct1 vi1 ni1 hvi1 hni1 1 d c i))

/-- `TileObl` at the first gather call, with values. -/
theorem tileObl0V : (K (F := F)).TileObl (D (F := F)) 𝒱 (PV (F := F) ct0 vi0 ni0 hvi0 hni0 ct1 vi1 ni1 hvi1 hni1) v₀ 0 := by
  intro d c i O W hO _ _
  simp only [show (PV (F := F) ct0 vi0 ni0 hvi0 hni0 ct1 vi1 ni1 hvi1 hni1).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector0]; simp only [SparseCore.onTile, hc, and_self, ↓reduceDIte]
  exact (tile_task0V d (coordsV ⟨_, hc.1⟩ ⟨_, hc.2⟩) (ct0 d) (vi0 d) (ni0 d) (hvi0 d) (hni0 d) (facts (F := F)) O W hO _).trans (wp_mono frame _ _ fun _ => obl_post)

/-- `TileObl` at the second gather call, with values. -/
theorem tileObl1V : (K (F := F)).TileObl (D (F := F)) 𝒱 (PV (F := F) ct0 vi0 ni0 hvi0 hni0 ct1 vi1 ni1 hvi1 hni1) v₀ 1 := by
  intro d c i O W hO _ _
  simp only [show (PV (F := F) ct0 vi0 ni0 hvi0 hni0 ct1 vi1 ni1 hvi1 hni1).ox = fun _ _ => 0 from rfl, add_zero]
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  have hc : ((K (F := F)).core 1 c).val < grid3.bound 0 ∧ ((K (F := F)).sub 1 i).val < grid3.bound 1 := ⟨c.isLt, i.isLt⟩
  rw [defs₀_vector1]; simp only [SparseCore.onTile, hc, and_self, ↓reduceDIte]
  exact (Cert.Proof.KI3.tile_task0V d (coordsV ⟨_, hc.1⟩ ⟨_, hc.2⟩) (ct1 d) (vi1 d) (ni1 d) (hvi1 d) (hni1 d) (facts (F := F)) O W hO _).trans (wp_mono frame _ _ fun _ => obl_post)

omit [FloatOps F] in
/-- A call's operands for a SparseCore are its tiles' operands, and its results theirs. -/
theorem vecSplitV (q : Fin 2) : (K (F := F)).VecSplit' (PV (F := F) ct0 vi0 ni0 hvi0 hni0 ct1 vi1 ni1 hvi1 hni1) q := by
  intro d c
  match q with
  | 0 =>
    show (bigSep Finset.univ fun i : Fin 16 => tileGo (F := F) ct0 vi0 ni0 ct1 vi1 ni1 0 d c i)
      ⊢ |={Set.univ}=> iprop((bigSep Finset.univ fun i : Fin 16 => tileGo (F := F) ct0 vi0 ni0 ct1 vi1 ni1 0 d c i)
        ∗ ((bigSep Finset.univ fun i : Fin 16 => tileTd (F := F) ct0 vi0 ni0 hvi0 hni0 ct1 vi1 ni1 hvi1 hni1 0 d c i)
          -∗ (bigSep Finset.univ fun i : Fin 16 => tileTd (F := F) ct0 vi0 ni0 hvi0 hni0 ct1 vi1 ni1 hvi1 hni1 0 d c i)))
    iintro H; imodintro
    isplitl [H]; · iexact H
    iintro H'; iexact H'
  | 1 =>
    show (bigSep Finset.univ fun i : Fin 16 => tileGo (F := F) ct0 vi0 ni0 ct1 vi1 ni1 1 d c i)
      ⊢ |={Set.univ}=> iprop((bigSep Finset.univ fun i : Fin 16 => tileGo (F := F) ct0 vi0 ni0 ct1 vi1 ni1 1 d c i)
        ∗ ((bigSep Finset.univ fun i : Fin 16 => tileTd (F := F) ct0 vi0 ni0 hvi0 hni0 ct1 vi1 ni1 hvi1 hni1 1 d c i)
          -∗ (bigSep Finset.univ fun i : Fin 16 => tileTd (F := F) ct0 vi0 ni0 hvi0 hni0 ct1 vi1 ni1 hvi1 hni1 1 d c i)))
    iintro H; imodintro
    isplitl [H]; · iexact H
    iintro H'; iexact H'

end Cert.Proof.KI

end
-- ==== Proof.ScGiveV.lean ====
/-
  What the TensorCore hands the two SparseCores at a gather call and what it takes back, with the values: the read
  arrays' contents are fixed throughout, so the tokens come back at the contents they left with; each tile returns its
  rows of the two results at contents that hold, row by row, the table's rows its indices name; and the thirty-two
  blocks, joined, are the whole result holding at every row the table's row the index list names there — every row
  lies in exactly one tile's block.
-/
import proofs.«217981_g19061064860210_cont_8to1_1320_37_alg».proof.Proof.ScVObl
import proofs.«217981_g19061064860210_cont_8to1_1320_37_alg».proof.Proof.ScGive
import proofs.«217981_g19061064860210_cont_8to1_1320_37_alg».proof.Proof.KDeal

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

variable [FloatOps F]

/-- The array whole, from the remainder and the tiles' tokens back at the contents they left with. -/
theorem toks_join_tiles (ℓ : Loc nD τ sig) (f : Buf (Elt F) ℓ) :
    iprop((ℓ ↦{Transfers.shareDrop fullShare 32} f) ∗ bigSep Finset.univ fun ci : Fin 2 × Fin 16 => ℓ ↦{qTile ci.1.val ci.2.val} f)
      ⊢ (ℓ ↦{fullShare} f : sProp 𝕄) :=
  (sep_mono (.refl _)
    (Entails.of_eq (bigSep_workers fun n => (ℓ ↦{Transfers.shareTokN fullShare n} f : sProp 𝕄)).symm)).trans
    (Transfers.pointsTo_toks (ℓ := ℓ) (S := Finset.univ) (f := f) fullShare 32).2

/-- One tile's hand, the read arrays' contents fixed. -/
theorem tile_give0V (d : Dev nD) (fct : Buf (Elt F) ((SparseCore.T (τ := τ) d).loc main_v9)) (fvi : Buf (Elt F) ((SparseCore.T (τ := τ) d).loc main_v13)) (fni : Buf (Elt F) ((SparseCore.T (τ := τ) d).loc main_v14))
    (feu : Buf (Elt F) ((SparseCore.T (τ := τ) d).loc main_v18_0)) (fuv : Buf (Elt F) ((SparseCore.T (τ := τ) d).loc main_v18_1)) (c : Fin 2) (i : Fin 16) :
    iprop(((SparseCore.T (τ := τ) d).loc main_v9 ↦{qTile c.val i.val} fct) ∗ ((SparseCore.T (τ := τ) d).loc main_v13 ↦{qTile c.val i.val} fvi) ∗ ((SparseCore.T (τ := τ) d).loc main_v14 ↦{qTile c.val i.val} fni)
        ∗ ((SparseCore.T (τ := τ) d).loc main_v18_0 ↦[((Memref.whole Cert.KernelIdeal.main_v18_0_scv : Memref Cert.KernelIdeal.sig Kind.scVector Space.hbm Cert.KernelIdeal.S102400x128 EltTy.f32)).view.setOn (tileRect (coordsV' c i)).set]{fullShare} feu)
        ∗ ((SparseCore.T (τ := τ) d).loc main_v18_1 ↦[((Memref.whole Cert.KernelIdeal.main_v18_1_scv : Memref Cert.KernelIdeal.sig Kind.scVector Space.hbm Cert.KernelIdeal.S2048x128 EltTy.f32)).view.setOn (uvRect (coordsV' c i)).set]{fullShare} fuv))
      ⊢ (goResV d (coordsV c i) fct fvi fni (qTile c.val i.val) : sProp 𝕄) := by
  unfold goResV ctPts viPts niPts euPts uvPts
  iintro ⟨H9, H13, H14, He, Hu⟩
  isplitl [H9]; · iexact H9
  isplitl [H13]; · iexact H13
  isplitl [H14]; · iexact H14
  isplitl [He]
  · iexists feu; iexact He
  iexists fuv; iexact Hu

/-- One tile's return, with its rows' values. -/
theorem tile_take0V (d : Dev nD) (fct : Buf (Elt F) ((SparseCore.T (τ := τ) d).loc main_v9)) (fvi : Buf (Elt F) ((SparseCore.T (τ := τ) d).loc main_v13)) (fni : Buf (Elt F) ((SparseCore.T (τ := τ) d).loc main_v14)) (hvi : ∀ j, (fvi j).toNat < 100000) (hni : ∀ j, (fni j).toNat < 100000)
    (c : Fin 2) (i : Fin 16) :
    (tdResV d (coordsV c i) fct fvi fni hvi hni (qTile c.val i.val) : sProp 𝕄)
      ⊢ iprop(((SparseCore.T (τ := τ) d).loc main_v9 ↦{qTile c.val i.val} fct) ∗ ((SparseCore.T (τ := τ) d).loc main_v13 ↦{qTile c.val i.val} fvi) ∗ ((SparseCore.T (τ := τ) d).loc main_v14 ↦{qTile c.val i.val} fni)
          ∗ (∃ f, ⌜rowsVal d (coordsV c i) fct fvi hvi f⌝ ∗ (SparseCore.T (τ := τ) d).loc main_v18_0 ↦[((Memref.whole Cert.KernelIdeal.main_v18_0_scv : Memref Cert.KernelIdeal.sig Kind.scVector Space.hbm Cert.KernelIdeal.S102400x128 EltTy.f32)).view.setOn (tileRect (coordsV' c i)).set]{fullShare} f)
          ∗ (∃ f, ⌜urowsVal d (coordsV c i) fct fni hni f⌝ ∗ (SparseCore.T (τ := τ) d).loc main_v18_1 ↦[((Memref.whole Cert.KernelIdeal.main_v18_1_scv : Memref Cert.KernelIdeal.sig Kind.scVector Space.hbm Cert.KernelIdeal.S2048x128 EltTy.f32)).view.setOn (uvRect (coordsV' c i)).set]{fullShare} f)) := by
  unfold tdResV ctPts viPts niPts euPts uvPts
  iintro ⟨H9, H13, H14, ⟨%feu, %hr, He⟩, ⟨%fuv, %hu, Hu⟩⟩
  isplitl [H9]; · iexact H9
  isplitl [H13]; · iexact H13
  isplitl [H14]; · iexact H14
  isplitl [He]
  · iexists feu; isplitr
    · ipureintro; exact hr
    · iexact He
  iexists fuv; isplitr
  · ipureintro; exact hu
  · iexact Hu

/-- Before the call: the five arrays whole give every tile its hand and leave the three remainders. -/
theorem st_give0V (d : Dev nD) (fct : Buf (Elt F) ((SparseCore.T (τ := τ) d).loc main_v9)) (fvi : Buf (Elt F) ((SparseCore.T (τ := τ) d).loc main_v13)) (fni : Buf (Elt F) ((SparseCore.T (τ := τ) d).loc main_v14))
    (feu : Buf (Elt F) ((SparseCore.T (τ := τ) d).loc main_v18_0)) (fuv : Buf (Elt F) ((SparseCore.T (τ := τ) d).loc main_v18_1)) :
    iprop(((SparseCore.T (τ := τ) d).loc main_v9 ↦{fullShare} fct) ∗ ((SparseCore.T (τ := τ) d).loc main_v13 ↦{fullShare} fvi) ∗ ((SparseCore.T (τ := τ) d).loc main_v14 ↦{fullShare} fni)
        ∗ ((SparseCore.T (τ := τ) d).loc main_v18_0 ↦{fullShare} feu) ∗ ((SparseCore.T (τ := τ) d).loc main_v18_1 ↦{fullShare} fuv))
      ⊢ (iprop((bigSep Finset.univ fun c : Fin 2 => bigSep Finset.univ fun i : Fin 16 =>
            goResV d (coordsV c i) fct fvi fni (qTile c.val i.val))
          ∗ ((SparseCore.T (τ := τ) d).loc main_v9 ↦{Transfers.shareDrop fullShare 32} fct) ∗ ((SparseCore.T (τ := τ) d).loc main_v13 ↦{Transfers.shareDrop fullShare 32} fvi) ∗ ((SparseCore.T (τ := τ) d).loc main_v14 ↦{Transfers.shareDrop fullShare 32} fni)) : sProp 𝕄) := by
  have merge : iprop((bigSep Finset.univ fun ci : Fin 2 × Fin 16 => (SparseCore.T (τ := τ) d).loc main_v9 ↦{qTile ci.1.val ci.2.val} fct)
        ∗ (bigSep Finset.univ fun ci : Fin 2 × Fin 16 => (SparseCore.T (τ := τ) d).loc main_v13 ↦{qTile ci.1.val ci.2.val} fvi)
        ∗ (bigSep Finset.univ fun ci : Fin 2 × Fin 16 => (SparseCore.T (τ := τ) d).loc main_v14 ↦{qTile ci.1.val ci.2.val} fni)
        ∗ (bigSep Finset.univ fun ci : Fin 2 × Fin 16 => (SparseCore.T (τ := τ) d).loc main_v18_0 ↦[((Memref.whole Cert.KernelIdeal.main_v18_0_scv : Memref Cert.KernelIdeal.sig Kind.scVector Space.hbm Cert.KernelIdeal.S102400x128 EltTy.f32)).view.setOn (tileRect (coordsV' ci.1 ci.2)).set]{fullShare} feu)
        ∗ (bigSep Finset.univ fun ci : Fin 2 × Fin 16 => (SparseCore.T (τ := τ) d).loc main_v18_1 ↦[((Memref.whole Cert.KernelIdeal.main_v18_1_scv : Memref Cert.KernelIdeal.sig Kind.scVector Space.hbm Cert.KernelIdeal.S2048x128 EltTy.f32)).view.setOn (uvRect (coordsV' ci.1 ci.2)).set]{fullShare} fuv))
      ⊢ (bigSep Finset.univ fun ci : Fin 2 × Fin 16 => goResV d (coordsV ci.1 ci.2) fct fvi fni (qTile ci.1.val ci.2.val) : sProp 𝕄) := by
    rw [← bigSep_sep', ← bigSep_sep', ← bigSep_sep', ← bigSep_sep']
    exact bigSep_mono fun ci _ => tile_give0V d fct fvi fni feu fuv ci.1 ci.2
  have tiles : (bigSep Finset.univ fun ci : Fin 2 × Fin 16 => goResV d (coordsV ci.1 ci.2) fct fvi fni (qTile ci.1.val ci.2.val) : sProp 𝕄)
      = bigSep Finset.univ fun c : Fin 2 => bigSep Finset.univ fun i : Fin 16 => goResV d (coordsV c i) fct fvi fni (qTile c.val i.val) :=
    bigSep_tiles (fun ci : Fin 2 × Fin 16 => goResV d (coordsV ci.1 ci.2) fct fvi fni (qTile ci.1.val ci.2.val))
  rw [← tiles, eu_deal d feu, uv_deal d fuv]
  iintro ⟨H9, H13, H14, He, Hu⟩
  ihave H9' := (toks_deal_tiles ((SparseCore.T (τ := τ) d).loc main_v9) fct) $$ H9
  icases H9' with ⟨H9d, H9t⟩
  ihave H13' := (toks_deal_tiles ((SparseCore.T (τ := τ) d).loc main_v13) fvi) $$ H13
  icases H13' with ⟨H13d, H13t⟩
  ihave H14' := (toks_deal_tiles ((SparseCore.T (τ := τ) d).loc main_v14) fni) $$ H14
  icases H14' with ⟨H14d, H14t⟩
  isplitl [H9t H13t H14t He Hu]
  · iapply merge
    isplitl [H9t]; · iexact H9t
    isplitl [H13t]; · iexact H13t
    isplitl [H14t]; · iexact H14t
    isplitl [He]; · iexact He
    iexact Hu
  isplitl [H9d]; · iexact H9d
  isplitl [H13d]; · iexact H13d
  iexact H14d

/-- A row of the gathered-rows result lies in the block of the tile its number divided by 3200 names. -/
theorem row_mem_tile (n : Fin 102400) (j : Fin 128) :
    (ix2 n j : S102400x128.Idx) ∈ (tileRect (coordsV' (⟨n.val / 3200 % 2, Nat.mod_lt _ (by decide)⟩ : Fin 2)
      (⟨n.val / 3200 / 2, by have := n.isLt; omega⟩ : Fin 16))).set := by
  have hn := n.isLt
  refine Rect.mem_set_unit.mpr fun a => ?_
  match a with
  | ⟨0, _⟩ =>
    show 6400 * (n.val / 3200 / 2) + 3200 * (n.val / 3200 % 2) ≤ n.val
      ∧ n.val < 6400 * (n.val / 3200 / 2) + 3200 * (n.val / 3200 % 2) + 3200
    omega
  | ⟨1, _⟩ =>
    show 0 ≤ j.val ∧ j.val < 0 + 128
    have := j.isLt; omega

/-- A row of the per-row result lies in the block of the tile its number divided by 64 names. -/
theorem urow_mem_tile (n : Fin 2048) (j : Fin 128) :
    (ix2 n j : S2048x128.Idx) ∈ (uvRect (coordsV' (⟨n.val / 64 % 2, Nat.mod_lt _ (by decide)⟩ : Fin 2)
      (⟨n.val / 64 / 2, by have := n.isLt; omega⟩ : Fin 16))).set := by
  have hn := n.isLt
  refine Rect.mem_set_unit.mpr fun a => ?_
  match a with
  | ⟨0, _⟩ =>
    show 128 * (n.val / 64 / 2) + 64 * (n.val / 64 % 2) ≤ n.val
      ∧ n.val < 128 * (n.val / 64 / 2) + 64 * (n.val / 64 % 2) + 64
    omega
  | ⟨1, _⟩ =>
    show 0 ≤ j.val ∧ j.val < 0 + 128
    have := j.isLt; omega

/-- The thirty-two blocks of the gathered-rows result, each at contents holding its tile's rows' values, join to the whole
    result at contents holding every row's value. -/
theorem eu_joinV (d : Dev nD) (fct : Buf (Elt F) ((SparseCore.T (τ := τ) d).loc main_v9)) (fvi : Buf (Elt F) ((SparseCore.T (τ := τ) d).loc main_v13)) (fni : Buf (Elt F) ((SparseCore.T (τ := τ) d).loc main_v14)) (hvi : ∀ j, (fvi j).toNat < 100000) :
    (bigSep Finset.univ fun ci : Fin 2 × Fin 16 =>
        iprop(∃ f, ⌜rowsVal d (coordsV ci.1 ci.2) fct fvi hvi f⌝ ∗ (SparseCore.T (τ := τ) d).loc main_v18_0 ↦[((Memref.whole Cert.KernelIdeal.main_v18_0_scv : Memref Cert.KernelIdeal.sig Kind.scVector Space.hbm Cert.KernelIdeal.S102400x128 EltTy.f32)).view.setOn (tileRect (coordsV' ci.1 ci.2)).set]{fullShare} f))
      ⊢ (iprop(∃ f, ⌜(∀ (n : Fin 102400) (j : Fin 128), (f : S102400x128.Idx → Elt F .f32) (ix2 n j)
            = (fct : S100000x128.Idx → Elt F .f32) (ix2 ⟨((fvi : S102400.Idx → BitVec 32) (ix1 n)).toNat, hvi _⟩ j))⌝ ∗ (SparseCore.T (τ := τ) d).loc main_v18_0 ↦{fullShare} f) : sProp 𝕄) := by
  refine (bigSep_exists_pi Finset.univ (fun (ci : Fin 2 × Fin 16) (f : Buf (Elt F) ((SparseCore.T (τ := τ) d).loc main_v18_0)) =>
    (iprop(⌜rowsVal d (coordsV ci.1 ci.2) fct fvi hvi f⌝ ∗ (SparseCore.T (τ := τ) d).loc main_v18_0 ↦[((Memref.whole Cert.KernelIdeal.main_v18_0_scv : Memref Cert.KernelIdeal.sig Kind.scVector Space.hbm Cert.KernelIdeal.S102400x128 EltTy.f32)).view.setOn (tileRect (coordsV' ci.1 ci.2)).set]{fullShare} f) : sProp 𝕄))).trans ?_
  iintro ⟨%fs, H⟩
  ihave H1 := (bigSep_pure_sep Finset.univ (fun ci : Fin 2 × Fin 16 => rowsVal d (coordsV ci.1 ci.2) fct fvi hvi (fs ci))
    (fun ci : Fin 2 × Fin 16 => ((SparseCore.T (τ := τ) d).loc main_v18_0 ↦[((Memref.whole Cert.KernelIdeal.main_v18_0_scv : Memref Cert.KernelIdeal.sig Kind.scVector Space.hbm Cert.KernelIdeal.S102400x128 EltTy.f32)).view.setOn (tileRect (coordsV' ci.1 ci.2)).set]{fullShare} fs ci : sProp 𝕄))) $$ H
  icases H1 with ⟨%hv, H2⟩
  ihave H' := (pointsTo_biUnion_join Finset.univ (fun ci : Fin 2 × Fin 16 => ((Memref.whole Cert.KernelIdeal.main_v18_0_scv : Memref Cert.KernelIdeal.sig Kind.scVector Space.hbm Cert.KernelIdeal.S102400x128 EltTy.f32)).view.setOn (tileRect (coordsV' ci.1 ci.2)).set) fs (fs (0, 0)) eu_disjoint) $$ H2
  icases H' with ⟨%g, %hg, Hg⟩
  rw [eu_cover]
  iexists g
  isplitr
  · ipureintro
    intro n j
    have hn := n.isLt
    -- the tile whose block holds row n, and the row's position in it
    have hmem := row_mem_tile n j
    have hgn := hg (⟨n.val / 3200 % 2, Nat.mod_lt _ (by decide)⟩, ⟨n.val / 3200 / 2, by omega⟩) (Finset.mem_univ _) (ix2 n j)
      (by rw [eu_setOn]; exact hmem)
    have hrow := hv (⟨n.val / 3200 % 2, Nat.mod_lt _ (by decide)⟩, ⟨n.val / 3200 / 2, by omega⟩) (Finset.mem_univ _)
      ⟨n.val % 3200, Nat.mod_lt _ (by decide)⟩ j
    refine hgn.trans ?_
    refine (at_congr _ _ _ (by show n.val = 6400 * (n.val / 3200 / 2) + 3200 * (n.val / 3200 % 2) + n.val % 3200; omega) j).trans (hrow.trans ?_)
    refine at_congr (fct : S100000x128.Idx → Elt F .f32) _ _ (congrArg BitVec.toNat ?_) j
    exact at1_congr (fvi : S102400.Idx → BitVec 32) _ _ (by show 6400 * (n.val / 3200 / 2) + 3200 * (n.val / 3200 % 2) + n.val % 3200 = n.val; omega)
  · iexact Hg

/-- The same for the per-row result. -/
theorem uv_joinV (d : Dev nD) (fct : Buf (Elt F) ((SparseCore.T (τ := τ) d).loc main_v9)) (fvi : Buf (Elt F) ((SparseCore.T (τ := τ) d).loc main_v13)) (fni : Buf (Elt F) ((SparseCore.T (τ := τ) d).loc main_v14)) (hni : ∀ j, (fni j).toNat < 100000) :
    (bigSep Finset.univ fun ci : Fin 2 × Fin 16 =>
        iprop(∃ f, ⌜urowsVal d (coordsV ci.1 ci.2) fct fni hni f⌝ ∗ (SparseCore.T (τ := τ) d).loc main_v18_1 ↦[((Memref.whole Cert.KernelIdeal.main_v18_1_scv : Memref Cert.KernelIdeal.sig Kind.scVector Space.hbm Cert.KernelIdeal.S2048x128 EltTy.f32)).view.setOn (uvRect (coordsV' ci.1 ci.2)).set]{fullShare} f))
      ⊢ (iprop(∃ f, ⌜(∀ (n : Fin 2048) (j : Fin 128), (f : S2048x128.Idx → Elt F .f32) (ix2 n j)
            = (fct : S100000x128.Idx → Elt F .f32) (ix2 ⟨((fni : S2048.Idx → BitVec 32) (ix1 n)).toNat, hni _⟩ j))⌝ ∗ (SparseCore.T (τ := τ) d).loc main_v18_1 ↦{fullShare} f) : sProp 𝕄) := by
  refine (bigSep_exists_pi Finset.univ (fun (ci : Fin 2 × Fin 16) (f : Buf (Elt F) ((SparseCore.T (τ := τ) d).loc main_v18_1)) =>
    (iprop(⌜urowsVal d (coordsV ci.1 ci.2) fct fni hni f⌝ ∗ (SparseCore.T (τ := τ) d).loc main_v18_1 ↦[((Memref.whole Cert.KernelIdeal.main_v18_1_scv : Memref Cert.KernelIdeal.sig Kind.scVector Space.hbm Cert.KernelIdeal.S2048x128 EltTy.f32)).view.setOn (uvRect (coordsV' ci.1 ci.2)).set]{fullShare} f) : sProp 𝕄))).trans ?_
  iintro ⟨%fs, H⟩
  ihave H1 := (bigSep_pure_sep Finset.univ (fun ci : Fin 2 × Fin 16 => urowsVal d (coordsV ci.1 ci.2) fct fni hni (fs ci))
    (fun ci : Fin 2 × Fin 16 => ((SparseCore.T (τ := τ) d).loc main_v18_1 ↦[((Memref.whole Cert.KernelIdeal.main_v18_1_scv : Memref Cert.KernelIdeal.sig Kind.scVector Space.hbm Cert.KernelIdeal.S2048x128 EltTy.f32)).view.setOn (uvRect (coordsV' ci.1 ci.2)).set]{fullShare} fs ci : sProp 𝕄))) $$ H
  icases H1 with ⟨%hv, H2⟩
  ihave H' := (pointsTo_biUnion_join Finset.univ (fun ci : Fin 2 × Fin 16 => ((Memref.whole Cert.KernelIdeal.main_v18_1_scv : Memref Cert.KernelIdeal.sig Kind.scVector Space.hbm Cert.KernelIdeal.S2048x128 EltTy.f32)).view.setOn (uvRect (coordsV' ci.1 ci.2)).set) fs (fs (0, 0)) uv_disjoint) $$ H2
  icases H' with ⟨%g, %hg, Hg⟩
  rw [uv_cover]
  iexists g
  isplitr
  · ipureintro
    intro n j
    have hn := n.isLt
    have hmem := urow_mem_tile n j
    have hgn := hg (⟨n.val / 64 % 2, Nat.mod_lt _ (by decide)⟩, ⟨n.val / 64 / 2, by omega⟩) (Finset.mem_univ _) (ix2 n j)
      (by rw [uv_setOn]; exact hmem)
    have hrow := hv (⟨n.val / 64 % 2, Nat.mod_lt _ (by decide)⟩, ⟨n.val / 64 / 2, by omega⟩) (Finset.mem_univ _)
      ⟨n.val % 64, Nat.mod_lt _ (by decide)⟩ j
    refine hgn.trans ?_
    refine (at_congr _ _ _ (by show n.val = 128 * (n.val / 64 / 2) + 64 * (n.val / 64 % 2) + n.val % 64; omega) j).trans (hrow.trans ?_)
    refine at_congr (fct : S100000x128.Idx → Elt F .f32) _ _ (congrArg BitVec.toNat ?_) j
    exact at1_congr (fni : S2048.Idx → BitVec 32) _ _ (by show 128 * (n.val / 64 / 2) + 64 * (n.val / 64 % 2) + n.val % 64 = n.val; omega)
  · iexact Hg

/-- After the call: the tiles' returns and the three remainders give the three read arrays whole at their contents and the
    two results whole at contents holding, at every row, the table's row the index list names there. -/
theorem dn_take0V (d : Dev nD) (fct : Buf (Elt F) ((SparseCore.T (τ := τ) d).loc main_v9)) (fvi : Buf (Elt F) ((SparseCore.T (τ := τ) d).loc main_v13)) (fni : Buf (Elt F) ((SparseCore.T (τ := τ) d).loc main_v14)) (hvi : ∀ j, (fvi j).toNat < 100000) (hni : ∀ j, (fni j).toNat < 100000) :
    iprop((bigSep Finset.univ fun c : Fin 2 => bigSep Finset.univ fun i : Fin 16 =>
          tdResV d (coordsV c i) fct fvi fni hvi hni (qTile c.val i.val))
        ∗ ((SparseCore.T (τ := τ) d).loc main_v9 ↦{Transfers.shareDrop fullShare 32} fct) ∗ ((SparseCore.T (τ := τ) d).loc main_v13 ↦{Transfers.shareDrop fullShare 32} fvi) ∗ ((SparseCore.T (τ := τ) d).loc main_v14 ↦{Transfers.shareDrop fullShare 32} fni))
      ⊢ (iprop(((SparseCore.T (τ := τ) d).loc main_v9 ↦{fullShare} fct) ∗ ((SparseCore.T (τ := τ) d).loc main_v13 ↦{fullShare} fvi) ∗ ((SparseCore.T (τ := τ) d).loc main_v14 ↦{fullShare} fni)
          ∗ (∃ f, ⌜(∀ (n : Fin 102400) (j : Fin 128), (f : S102400x128.Idx → Elt F .f32) (ix2 n j)
            = (fct : S100000x128.Idx → Elt F .f32) (ix2 ⟨((fvi : S102400.Idx → BitVec 32) (ix1 n)).toNat, hvi _⟩ j))⌝ ∗ (SparseCore.T (τ := τ) d).loc main_v18_0 ↦{fullShare} f)
          ∗ (∃ f, ⌜(∀ (n : Fin 2048) (j : Fin 128), (f : S2048x128.Idx → Elt F .f32) (ix2 n j)
            = (fct : S100000x128.Idx → Elt F .f32) (ix2 ⟨((fni : S2048.Idx → BitVec 32) (ix1 n)).toNat, hni _⟩ j))⌝ ∗ (SparseCore.T (τ := τ) d).loc main_v18_1 ↦{fullShare} f)) : sProp 𝕄) := by
  have split : (bigSep Finset.univ fun ci : Fin 2 × Fin 16 => tdResV d (coordsV ci.1 ci.2) fct fvi fni hvi hni (qTile ci.1.val ci.2.val) : sProp 𝕄)
      ⊢ iprop((bigSep Finset.univ fun ci : Fin 2 × Fin 16 => (SparseCore.T (τ := τ) d).loc main_v9 ↦{qTile ci.1.val ci.2.val} fct)
        ∗ (bigSep Finset.univ fun ci : Fin 2 × Fin 16 => (SparseCore.T (τ := τ) d).loc main_v13 ↦{qTile ci.1.val ci.2.val} fvi)
        ∗ (bigSep Finset.univ fun ci : Fin 2 × Fin 16 => (SparseCore.T (τ := τ) d).loc main_v14 ↦{qTile ci.1.val ci.2.val} fni)
        ∗ (bigSep Finset.univ fun ci : Fin 2 × Fin 16 =>
            iprop(∃ f, ⌜rowsVal d (coordsV ci.1 ci.2) fct fvi hvi f⌝ ∗ (SparseCore.T (τ := τ) d).loc main_v18_0 ↦[((Memref.whole Cert.KernelIdeal.main_v18_0_scv : Memref Cert.KernelIdeal.sig Kind.scVector Space.hbm Cert.KernelIdeal.S102400x128 EltTy.f32)).view.setOn (tileRect (coordsV' ci.1 ci.2)).set]{fullShare} f))
        ∗ (bigSep Finset.univ fun ci : Fin 2 × Fin 16 =>
            iprop(∃ f, ⌜urowsVal d (coordsV ci.1 ci.2) fct fni hni f⌝ ∗ (SparseCore.T (τ := τ) d).loc main_v18_1 ↦[((Memref.whole Cert.KernelIdeal.main_v18_1_scv : Memref Cert.KernelIdeal.sig Kind.scVector Space.hbm Cert.KernelIdeal.S2048x128 EltTy.f32)).view.setOn (uvRect (coordsV' ci.1 ci.2)).set]{fullShare} f))) := by
    rw [← bigSep_sep', ← bigSep_sep', ← bigSep_sep', ← bigSep_sep']
    exact bigSep_mono fun ci _ => tile_take0V d fct fvi fni hvi hni ci.1 ci.2
  have tiles : (bigSep Finset.univ fun ci : Fin 2 × Fin 16 => tdResV d (coordsV ci.1 ci.2) fct fvi fni hvi hni (qTile ci.1.val ci.2.val) : sProp 𝕄)
      = bigSep Finset.univ fun c : Fin 2 => bigSep Finset.univ fun i : Fin 16 => tdResV d (coordsV c i) fct fvi fni hvi hni (qTile c.val i.val) :=
    bigSep_tiles (fun ci : Fin 2 × Fin 16 => tdResV d (coordsV ci.1 ci.2) fct fvi fni hvi hni (qTile ci.1.val ci.2.val))
  rw [← tiles]
  iintro ⟨Ht, H9d, H13d, H14d⟩
  ihave Hs := split $$ Ht
  icases Hs with ⟨H9t, H13t, H14t, He, Hu⟩
  isplitl [H9d H9t]
  · iapply (toks_join_tiles ((SparseCore.T (τ := τ) d).loc main_v9) fct)
    isplitl [H9d]; · iexact H9d
    iexact H9t
  isplitl [H13d H13t]
  · iapply (toks_join_tiles ((SparseCore.T (τ := τ) d).loc main_v13) fvi)
    isplitl [H13d]; · iexact H13d
    iexact H13t
  isplitl [H14d H14t]
  · iapply (toks_join_tiles ((SparseCore.T (τ := τ) d).loc main_v14) fni)
    isplitl [H14d]; · iexact H14d
    iexact H14t
  isplitl [He]
  · iapply (eu_joinV d fct fvi fni hvi); iexact He
  iapply (uv_joinV d fct fvi fni hni); iexact Hu

end Cert.Proof.KI

end
-- ==== Proof.ScVCall.lean ====
/-
  @main's step over the first gather call, with VALUES: the two results come back as the functions the gather defines — row
  `n` of the gathered rows is the table's row named by entry `n` of the index list — and the TensorCore holds everything again at
  the valuation so updated. The call's payloads carry the contents of the table and the lists (ScVPay); they are the
  valuation's own (`hct`, `hvi`, `hni`).
-/
import proofs.«217981_g19061064860210_cont_8to1_1320_37_alg».proof.Proof.ScVPay
import proofs.«217981_g19061064860210_cont_8to1_1320_37_alg».proof.Proof.ScGiveV
import proofs.«217981_g19061064860210_cont_8to1_1320_37_alg».proof.Proof.ScCall

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

open Idealize.ShloMosaic.StableHlo (held)
open Idealize.ShloMosaic.TcCoe
open Idealize.ShloMosaic.ValueIdx

variable (ct0 : (d : Dev nD) → Buf (Elt F) ((SparseCore.T (τ := τ) d).loc main_v9))
  (vi0 : (d : Dev nD) → Buf (Elt F) ((SparseCore.T (τ := τ) d).loc main_v13))
  (ni0 : (d : Dev nD) → Buf (Elt F) ((SparseCore.T (τ := τ) d).loc main_v14))
  (hvi0 : ∀ d j, (vi0 d j).toNat < 100000) (hni0 : ∀ d j, (ni0 d j).toNat < 100000)
  (ct1 : (d : Dev nD) → Buf (Elt F) ((SparseCore.T (τ := τ) d).loc main_v9))
  (vi1 : (d : Dev nD) → Buf (Elt F) ((SparseCore.T (τ := τ) d).loc main_v39))
  (ni1 : (d : Dev nD) → Buf (Elt F) ((SparseCore.T (τ := τ) d).loc main_v40))
  (hvi1 : ∀ d j, (vi1 d j).toNat < 100000) (hni1 : ∀ d j, (ni1 d j).toNat < 100000)

/-- The gathered rows: row `n` is the table's row that entry `n` of the list names. -/
def euFun (d : Dev nD) : (main_v18_0 : DevRef τ sig).ty.Contents (Elt F) :=
  fun x => (ct0 d : S100000x128.Idx → Elt F .f32) (ix2 ⟨((vi0 d : S102400.Idx → BitVec 32) (ix1 (x 0))).toNat, hvi0 d _⟩ (x 1))
/-- The user rows likewise. -/
def uvFun (d : Dev nD) : (main_v18_1 : DevRef τ sig).ty.Contents (Elt F) :=
  fun x => (ct0 d : S100000x128.Idx → Elt F .f32) (ix2 ⟨((ni0 d : S2048.Idx → BitVec 32) (ix1 (x 0))).toNat, hni0 d _⟩ (x 1))

/-- The step over the first gather call, with values. -/
theorem call0_stepV (κ : GSem nD τ sig → ℕ) (d : Dev nD) (V : Valuation τ sig (Elt F))
    (hct : V (main_v9 : DevRef τ sig) = ct0 d) (hvi : V (main_v13 : DevRef τ sig) = vi0 d) (hni : V (main_v14 : DevRef τ sig) = ni0 d)
    {Φ : PUnit → sProp 𝕄} :
    iprop((K (F := F)).ctx EH (PV (F := F) ct0 vi0 ni0 hvi0 hni0 ct1 vi1 ni1 hvi1 hni1) κ ∗ (K (F := F)).tcSt EH d 0
        ∗ held (SparseCore.T d) (Pipeline.ucRefs τ sig) V
        ∗ (((K (F := F)).tcSt EH d 1 ∗ held (SparseCore.T d) (Pipeline.ucRefs τ sig)
              (afterCall0 V (euFun ct0 vi0 hvi0 d) (uvFun ct0 ni0 hni0 d))) -∗ Φ ⟨⟩))
      ⊢ wp frame (wpE ((K (F := F)).defs (D (F := F))) 𝒱 (SparseCore.T d) none) Set.univ ((K (F := F)).run d 0) Φ := by
  rw [StableHlo.held_sub_split (SparseCore.T d) refs0_sub V, held_refs0, hct, hvi, hni]
  iintro ⟨#Hctx, Hst, ⟨⟨H9, H13, H14, He, Hu⟩, Hrest⟩, Hk⟩
  ihave Hg := (st_give0V d (ct0 d) (vi0 d) (ni0 d) _ _) $$ [H9 H13 H14 He Hu]
  · isplitl [H9]; · iexact H9
    isplitl [H13]; · iexact H13
    isplitl [H14]; · iexact H14
    isplitl [He]; · iexact He
    iexact Hu
  icases Hg with ⟨Hst0, H9d, H13d, H14d⟩
  iapply ((K (F := F)).wp_run (D (F := F)) 𝒱 (EH := EH) (P := PV (F := F) ct0 vi0 ni0 hvi0 hni0 ct1 vi1 ni1 hvi1 hni1) κ d 0) $$ [Hst Hst0 H9d H13d H14d Hrest Hk]
  isplitr; · iexact Hctx
  isplitl [Hst]; · iexact Hst
  isplitl [Hst0]; · iexact Hst0
  iintro ⟨Hst, Hdn⟩
  ihave Ht := (dn_take0V d (ct0 d) (vi0 d) (ni0 d) (hvi0 d) (hni0 d)) $$ [Hdn H9d H13d H14d]
  · isplitl [Hdn]; · iexact Hdn
    isplitl [H9d]; · iexact H9d
    isplitl [H13d]; · iexact H13d
    iexact H14d
  icases Ht with ⟨H9, H13, H14, ⟨%feu, %hfe, He⟩, ⟨%fuv, %hfu, Hu⟩⟩
  have e1 : feu = euFun ct0 vi0 hvi0 d := funext fun x => by
    have := hfe (x 0) (x 1)
    rw [show (ix2 (x 0) (x 1) : S102400x128.Idx) = x from funext fun a => by fin_cases a <;> rfl] at this
    exact this
  have e2 : fuv = uvFun ct0 ni0 hni0 d := funext fun x => by
    have := hfu (x 0) (x 1)
    rw [show (ix2 (x 0) (x 1) : S2048x128.Idx) = x from funext fun a => by fin_cases a <;> rfl] at this
    exact this
  subst e1 e2
  iapply Hk
  isplitl [Hst]; · iexact Hst
  rw [StableHlo.held_sub_split (SparseCore.T d) refs0_sub (afterCall0 V _ _), held_refs0,
    afterCall0_of_ne V _ _ (main_v9 : DevRef τ sig) (by decide) (by decide),
    afterCall0_of_ne V _ _ (main_v13 : DevRef τ sig) (by decide) (by decide),
    afterCall0_of_ne V _ _ (main_v14 : DevRef τ sig) (by decide) (by decide), afterCall0_eu, afterCall0_uv,
    StableHlo.held_congr (SparseCore.T d) (V := afterCall0 V _ _) (V' := V) (S := Pipeline.ucRefs τ sig \ refs0) (fun b hb =>
      afterCall0_of_ne V _ _ b
        (fun e => (Finset.mem_sdiff.mp hb).2 (e ▸ by decide)) (fun e => (Finset.mem_sdiff.mp hb).2 (e ▸ by decide))),
    hct, hvi, hni]
  isplitl [H9 H13 H14 He Hu]
  · isplitl [H9]; · iexact H9
    isplitl [H13]; · iexact H13
    isplitl [H14]; · iexact H14
    isplitl [He]; · iexact He
    iexact Hu
  iexact Hrest

end Cert.Proof.KI

end
-- ==== Proof.Sc3GiveV.lean ====
/-
  What the TensorCore hands the two SparseCores at a gather call and what it takes back, with the values: the read
  arrays' contents are fixed throughout, so the tokens come back at the contents they left with; each tile returns its
  rows of the two results at contents that hold, row by row, the table's rows its indices name; and the thirty-two
  blocks, joined, are the whole result holding at every row the table's row the index list names there — every row
  lies in exactly one tile's block.
-/
import proofs.«217981_g19061064860210_cont_8to1_1320_37_alg».proof.Proof.Sc3VObl
import proofs.«217981_g19061064860210_cont_8to1_1320_37_alg».proof.Proof.ScGive
import proofs.«217981_g19061064860210_cont_8to1_1320_37_alg».proof.Proof.KDeal3

noncomputable section

namespace Cert.Proof.KI3

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

variable [FloatOps F]
open Cert.Proof.KI (qTile coordsV toks_deal_tiles bigSep_workers)

/-- The array whole, from the remainder and the tiles' tokens back at the contents they left with. -/
theorem toks_join_tiles (ℓ : Loc nD τ sig) (f : Buf (Elt F) ℓ) :
    iprop((ℓ ↦{Transfers.shareDrop fullShare 32} f) ∗ bigSep Finset.univ fun ci : Fin 2 × Fin 16 => ℓ ↦{qTile ci.1.val ci.2.val} f)
      ⊢ (ℓ ↦{fullShare} f : sProp 𝕄) :=
  (sep_mono (.refl _)
    (Entails.of_eq (bigSep_workers fun n => (ℓ ↦{Transfers.shareTokN fullShare n} f : sProp 𝕄)).symm)).trans
    (Transfers.pointsTo_toks (ℓ := ℓ) (S := Finset.univ) (f := f) fullShare 32).2

/-- One tile's hand, the read arrays' contents fixed. -/
theorem tile_give1V (d : Dev nD) (fct : Buf (Elt F) ((SparseCore.T (τ := τ) d).loc main_v9)) (fvi : Buf (Elt F) ((SparseCore.T (τ := τ) d).loc main_v39)) (fni : Buf (Elt F) ((SparseCore.T (τ := τ) d).loc main_v40))
    (feu : Buf (Elt F) ((SparseCore.T (τ := τ) d).loc main_v44_0)) (fuv : Buf (Elt F) ((SparseCore.T (τ := τ) d).loc main_v44_1)) (c : Fin 2) (i : Fin 16) :
    iprop(((SparseCore.T (τ := τ) d).loc main_v9 ↦{qTile c.val i.val} fct) ∗ ((SparseCore.T (τ := τ) d).loc main_v39 ↦{qTile c.val i.val} fvi) ∗ ((SparseCore.T (τ := τ) d).loc main_v40 ↦{qTile c.val i.val} fni)
        ∗ ((SparseCore.T (τ := τ) d).loc main_v44_0 ↦[((Memref.whole Cert.KernelIdeal.main_v44_0_scv : Memref Cert.KernelIdeal.sig Kind.scVector Space.hbm Cert.KernelIdeal.S102400x128 EltTy.f32)).view.setOn (tileRect (coordsV' c i)).set]{fullShare} feu)
        ∗ ((SparseCore.T (τ := τ) d).loc main_v44_1 ↦[((Memref.whole Cert.KernelIdeal.main_v44_1_scv : Memref Cert.KernelIdeal.sig Kind.scVector Space.hbm Cert.KernelIdeal.S2048x128 EltTy.f32)).view.setOn (uvRect (coordsV' c i)).set]{fullShare} fuv))
      ⊢ (goResV d (coordsV c i) fct fvi fni (qTile c.val i.val) : sProp 𝕄) := by
  unfold goResV ctPts viPts niPts euPts uvPts
  iintro ⟨H9, H13, H14, He, Hu⟩
  isplitl [H9]; · iexact H9
  isplitl [H13]; · iexact H13
  isplitl [H14]; · iexact H14
  isplitl [He]
  · iexists feu; iexact He
  iexists fuv; iexact Hu

/-- One tile's return, with its rows' values. -/
theorem tile_take1V (d : Dev nD) (fct : Buf (Elt F) ((SparseCore.T (τ := τ) d).loc main_v9)) (fvi : Buf (Elt F) ((SparseCore.T (τ := τ) d).loc main_v39)) (fni : Buf (Elt F) ((SparseCore.T (τ := τ) d).loc main_v40)) (hvi : ∀ j, (fvi j).toNat < 100000) (hni : ∀ j, (fni j).toNat < 100000)
    (c : Fin 2) (i : Fin 16) :
    (tdResV d (coordsV c i) fct fvi fni hvi hni (qTile c.val i.val) : sProp 𝕄)
      ⊢ iprop(((SparseCore.T (τ := τ) d).loc main_v9 ↦{qTile c.val i.val} fct) ∗ ((SparseCore.T (τ := τ) d).loc main_v39 ↦{qTile c.val i.val} fvi) ∗ ((SparseCore.T (τ := τ) d).loc main_v40 ↦{qTile c.val i.val} fni)
          ∗ (∃ f, ⌜rowsVal d (coordsV c i) fct fvi hvi f⌝ ∗ (SparseCore.T (τ := τ) d).loc main_v44_0 ↦[((Memref.whole Cert.KernelIdeal.main_v44_0_scv : Memref Cert.KernelIdeal.sig Kind.scVector Space.hbm Cert.KernelIdeal.S102400x128 EltTy.f32)).view.setOn (tileRect (coordsV' c i)).set]{fullShare} f)
          ∗ (∃ f, ⌜urowsVal d (coordsV c i) fct fni hni f⌝ ∗ (SparseCore.T (τ := τ) d).loc main_v44_1 ↦[((Memref.whole Cert.KernelIdeal.main_v44_1_scv : Memref Cert.KernelIdeal.sig Kind.scVector Space.hbm Cert.KernelIdeal.S2048x128 EltTy.f32)).view.setOn (uvRect (coordsV' c i)).set]{fullShare} f)) := by
  unfold tdResV ctPts viPts niPts euPts uvPts
  iintro ⟨H9, H13, H14, ⟨%feu, %hr, He⟩, ⟨%fuv, %hu, Hu⟩⟩
  isplitl [H9]; · iexact H9
  isplitl [H13]; · iexact H13
  isplitl [H14]; · iexact H14
  isplitl [He]
  · iexists feu; isplitr
    · ipureintro; exact hr
    · iexact He
  iexists fuv; isplitr
  · ipureintro; exact hu
  · iexact Hu

/-- Before the call: the five arrays whole give every tile its hand and leave the three remainders. -/
theorem st_give1V (d : Dev nD) (fct : Buf (Elt F) ((SparseCore.T (τ := τ) d).loc main_v9)) (fvi : Buf (Elt F) ((SparseCore.T (τ := τ) d).loc main_v39)) (fni : Buf (Elt F) ((SparseCore.T (τ := τ) d).loc main_v40))
    (feu : Buf (Elt F) ((SparseCore.T (τ := τ) d).loc main_v44_0)) (fuv : Buf (Elt F) ((SparseCore.T (τ := τ) d).loc main_v44_1)) :
    iprop(((SparseCore.T (τ := τ) d).loc main_v9 ↦{fullShare} fct) ∗ ((SparseCore.T (τ := τ) d).loc main_v39 ↦{fullShare} fvi) ∗ ((SparseCore.T (τ := τ) d).loc main_v40 ↦{fullShare} fni)
        ∗ ((SparseCore.T (τ := τ) d).loc main_v44_0 ↦{fullShare} feu) ∗ ((SparseCore.T (τ := τ) d).loc main_v44_1 ↦{fullShare} fuv))
      ⊢ (iprop((bigSep Finset.univ fun c : Fin 2 => bigSep Finset.univ fun i : Fin 16 =>
            goResV d (coordsV c i) fct fvi fni (qTile c.val i.val))
          ∗ ((SparseCore.T (τ := τ) d).loc main_v9 ↦{Transfers.shareDrop fullShare 32} fct) ∗ ((SparseCore.T (τ := τ) d).loc main_v39 ↦{Transfers.shareDrop fullShare 32} fvi) ∗ ((SparseCore.T (τ := τ) d).loc main_v40 ↦{Transfers.shareDrop fullShare 32} fni)) : sProp 𝕄) := by
  have merge : iprop((bigSep Finset.univ fun ci : Fin 2 × Fin 16 => (SparseCore.T (τ := τ) d).loc main_v9 ↦{qTile ci.1.val ci.2.val} fct)
        ∗ (bigSep Finset.univ fun ci : Fin 2 × Fin 16 => (SparseCore.T (τ := τ) d).loc main_v39 ↦{qTile ci.1.val ci.2.val} fvi)
        ∗ (bigSep Finset.univ fun ci : Fin 2 × Fin 16 => (SparseCore.T (τ := τ) d).loc main_v40 ↦{qTile ci.1.val ci.2.val} fni)
        ∗ (bigSep Finset.univ fun ci : Fin 2 × Fin 16 => (SparseCore.T (τ := τ) d).loc main_v44_0 ↦[((Memref.whole Cert.KernelIdeal.main_v44_0_scv : Memref Cert.KernelIdeal.sig Kind.scVector Space.hbm Cert.KernelIdeal.S102400x128 EltTy.f32)).view.setOn (tileRect (coordsV' ci.1 ci.2)).set]{fullShare} feu)
        ∗ (bigSep Finset.univ fun ci : Fin 2 × Fin 16 => (SparseCore.T (τ := τ) d).loc main_v44_1 ↦[((Memref.whole Cert.KernelIdeal.main_v44_1_scv : Memref Cert.KernelIdeal.sig Kind.scVector Space.hbm Cert.KernelIdeal.S2048x128 EltTy.f32)).view.setOn (uvRect (coordsV' ci.1 ci.2)).set]{fullShare} fuv))
      ⊢ (bigSep Finset.univ fun ci : Fin 2 × Fin 16 => goResV d (coordsV ci.1 ci.2) fct fvi fni (qTile ci.1.val ci.2.val) : sProp 𝕄) := by
    rw [← bigSep_sep', ← bigSep_sep', ← bigSep_sep', ← bigSep_sep']
    exact bigSep_mono fun ci _ => tile_give1V d fct fvi fni feu fuv ci.1 ci.2
  have tiles : (bigSep Finset.univ fun ci : Fin 2 × Fin 16 => goResV d (coordsV ci.1 ci.2) fct fvi fni (qTile ci.1.val ci.2.val) : sProp 𝕄)
      = bigSep Finset.univ fun c : Fin 2 => bigSep Finset.univ fun i : Fin 16 => goResV d (coordsV c i) fct fvi fni (qTile c.val i.val) :=
    bigSep_tiles (fun ci : Fin 2 × Fin 16 => goResV d (coordsV ci.1 ci.2) fct fvi fni (qTile ci.1.val ci.2.val))
  rw [← tiles, eu_deal d feu, uv_deal d fuv]
  iintro ⟨H9, H13, H14, He, Hu⟩
  ihave H9' := (toks_deal_tiles ((SparseCore.T (τ := τ) d).loc main_v9) fct) $$ H9
  icases H9' with ⟨H9d, H9t⟩
  ihave H13' := (toks_deal_tiles ((SparseCore.T (τ := τ) d).loc main_v39) fvi) $$ H13
  icases H13' with ⟨H13d, H13t⟩
  ihave H14' := (toks_deal_tiles ((SparseCore.T (τ := τ) d).loc main_v40) fni) $$ H14
  icases H14' with ⟨H14d, H14t⟩
  isplitl [H9t H13t H14t He Hu]
  · iapply merge
    isplitl [H9t]; · iexact H9t
    isplitl [H13t]; · iexact H13t
    isplitl [H14t]; · iexact H14t
    isplitl [He]; · iexact He
    iexact Hu
  isplitl [H9d]; · iexact H9d
  isplitl [H13d]; · iexact H13d
  iexact H14d

/-- A row of the gathered-rows result lies in the block of the tile its number divided by 3200 names. -/
theorem row_mem_tile (n : Fin 102400) (j : Fin 128) :
    (ix2 n j : S102400x128.Idx) ∈ (tileRect (coordsV' (⟨n.val / 3200 % 2, Nat.mod_lt _ (by decide)⟩ : Fin 2)
      (⟨n.val / 3200 / 2, by have := n.isLt; omega⟩ : Fin 16))).set := by
  have hn := n.isLt
  refine Rect.mem_set_unit.mpr fun a => ?_
  match a with
  | ⟨0, _⟩ =>
    show 6400 * (n.val / 3200 / 2) + 3200 * (n.val / 3200 % 2) ≤ n.val
      ∧ n.val < 6400 * (n.val / 3200 / 2) + 3200 * (n.val / 3200 % 2) + 3200
    omega
  | ⟨1, _⟩ =>
    show 0 ≤ j.val ∧ j.val < 0 + 128
    have := j.isLt; omega

/-- A row of the per-row result lies in the block of the tile its number divided by 64 names. -/
theorem urow_mem_tile (n : Fin 2048) (j : Fin 128) :
    (ix2 n j : S2048x128.Idx) ∈ (uvRect (coordsV' (⟨n.val / 64 % 2, Nat.mod_lt _ (by decide)⟩ : Fin 2)
      (⟨n.val / 64 / 2, by have := n.isLt; omega⟩ : Fin 16))).set := by
  have hn := n.isLt
  refine Rect.mem_set_unit.mpr fun a => ?_
  match a with
  | ⟨0, _⟩ =>
    show 128 * (n.val / 64 / 2) + 64 * (n.val / 64 % 2) ≤ n.val
      ∧ n.val < 128 * (n.val / 64 / 2) + 64 * (n.val / 64 % 2) + 64
    omega
  | ⟨1, _⟩ =>
    show 0 ≤ j.val ∧ j.val < 0 + 128
    have := j.isLt; omega

/-- The thirty-two blocks of the gathered-rows result, each at contents holding its tile's rows' values, join to the whole
    result at contents holding every row's value. -/
theorem eu_joinV (d : Dev nD) (fct : Buf (Elt F) ((SparseCore.T (τ := τ) d).loc main_v9)) (fvi : Buf (Elt F) ((SparseCore.T (τ := τ) d).loc main_v39)) (fni : Buf (Elt F) ((SparseCore.T (τ := τ) d).loc main_v40)) (hvi : ∀ j, (fvi j).toNat < 100000) :
    (bigSep Finset.univ fun ci : Fin 2 × Fin 16 =>
        iprop(∃ f, ⌜rowsVal d (coordsV ci.1 ci.2) fct fvi hvi f⌝ ∗ (SparseCore.T (τ := τ) d).loc main_v44_0 ↦[((Memref.whole Cert.KernelIdeal.main_v44_0_scv : Memref Cert.KernelIdeal.sig Kind.scVector Space.hbm Cert.KernelIdeal.S102400x128 EltTy.f32)).view.setOn (tileRect (coordsV' ci.1 ci.2)).set]{fullShare} f))
      ⊢ (iprop(∃ f, ⌜(∀ (n : Fin 102400) (j : Fin 128), (f : S102400x128.Idx → Elt F .f32) (ix2 n j)
            = (fct : S100000x128.Idx → Elt F .f32) (ix2 ⟨((fvi : S102400.Idx → BitVec 32) (ix1 n)).toNat, hvi _⟩ j))⌝ ∗ (SparseCore.T (τ := τ) d).loc main_v44_0 ↦{fullShare} f) : sProp 𝕄) := by
  refine (bigSep_exists_pi Finset.univ (fun (ci : Fin 2 × Fin 16) (f : Buf (Elt F) ((SparseCore.T (τ := τ) d).loc main_v44_0)) =>
    (iprop(⌜rowsVal d (coordsV ci.1 ci.2) fct fvi hvi f⌝ ∗ (SparseCore.T (τ := τ) d).loc main_v44_0 ↦[((Memref.whole Cert.KernelIdeal.main_v44_0_scv : Memref Cert.KernelIdeal.sig Kind.scVector Space.hbm Cert.KernelIdeal.S102400x128 EltTy.f32)).view.setOn (tileRect (coordsV' ci.1 ci.2)).set]{fullShare} f) : sProp 𝕄))).trans ?_
  iintro ⟨%fs, H⟩
  ihave H1 := (bigSep_pure_sep Finset.univ (fun ci : Fin 2 × Fin 16 => rowsVal d (coordsV ci.1 ci.2) fct fvi hvi (fs ci))
    (fun ci : Fin 2 × Fin 16 => ((SparseCore.T (τ := τ) d).loc main_v44_0 ↦[((Memref.whole Cert.KernelIdeal.main_v44_0_scv : Memref Cert.KernelIdeal.sig Kind.scVector Space.hbm Cert.KernelIdeal.S102400x128 EltTy.f32)).view.setOn (tileRect (coordsV' ci.1 ci.2)).set]{fullShare} fs ci : sProp 𝕄))) $$ H
  icases H1 with ⟨%hv, H2⟩
  ihave H' := (pointsTo_biUnion_join Finset.univ (fun ci : Fin 2 × Fin 16 => ((Memref.whole Cert.KernelIdeal.main_v44_0_scv : Memref Cert.KernelIdeal.sig Kind.scVector Space.hbm Cert.KernelIdeal.S102400x128 EltTy.f32)).view.setOn (tileRect (coordsV' ci.1 ci.2)).set) fs (fs (0, 0)) eu_disjoint) $$ H2
  icases H' with ⟨%g, %hg, Hg⟩
  rw [eu_cover]
  iexists g
  isplitr
  · ipureintro
    intro n j
    have hn := n.isLt
    -- the tile whose block holds row n, and the row's position in it
    have hmem := row_mem_tile n j
    have hgn := hg (⟨n.val / 3200 % 2, Nat.mod_lt _ (by decide)⟩, ⟨n.val / 3200 / 2, by omega⟩) (Finset.mem_univ _) (ix2 n j)
      (by rw [eu_setOn]; exact hmem)
    have hrow := hv (⟨n.val / 3200 % 2, Nat.mod_lt _ (by decide)⟩, ⟨n.val / 3200 / 2, by omega⟩) (Finset.mem_univ _)
      ⟨n.val % 3200, Nat.mod_lt _ (by decide)⟩ j
    refine hgn.trans ?_
    refine (at_congr _ _ _ (by show n.val = 6400 * (n.val / 3200 / 2) + 3200 * (n.val / 3200 % 2) + n.val % 3200; omega) j).trans (hrow.trans ?_)
    refine at_congr (fct : S100000x128.Idx → Elt F .f32) _ _ (congrArg BitVec.toNat ?_) j
    exact at1_congr (fvi : S102400.Idx → BitVec 32) _ _ (by show 6400 * (n.val / 3200 / 2) + 3200 * (n.val / 3200 % 2) + n.val % 3200 = n.val; omega)
  · iexact Hg

/-- The same for the per-row result. -/
theorem uv_joinV (d : Dev nD) (fct : Buf (Elt F) ((SparseCore.T (τ := τ) d).loc main_v9)) (fvi : Buf (Elt F) ((SparseCore.T (τ := τ) d).loc main_v39)) (fni : Buf (Elt F) ((SparseCore.T (τ := τ) d).loc main_v40)) (hni : ∀ j, (fni j).toNat < 100000) :
    (bigSep Finset.univ fun ci : Fin 2 × Fin 16 =>
        iprop(∃ f, ⌜urowsVal d (coordsV ci.1 ci.2) fct fni hni f⌝ ∗ (SparseCore.T (τ := τ) d).loc main_v44_1 ↦[((Memref.whole Cert.KernelIdeal.main_v44_1_scv : Memref Cert.KernelIdeal.sig Kind.scVector Space.hbm Cert.KernelIdeal.S2048x128 EltTy.f32)).view.setOn (uvRect (coordsV' ci.1 ci.2)).set]{fullShare} f))
      ⊢ (iprop(∃ f, ⌜(∀ (n : Fin 2048) (j : Fin 128), (f : S2048x128.Idx → Elt F .f32) (ix2 n j)
            = (fct : S100000x128.Idx → Elt F .f32) (ix2 ⟨((fni : S2048.Idx → BitVec 32) (ix1 n)).toNat, hni _⟩ j))⌝ ∗ (SparseCore.T (τ := τ) d).loc main_v44_1 ↦{fullShare} f) : sProp 𝕄) := by
  refine (bigSep_exists_pi Finset.univ (fun (ci : Fin 2 × Fin 16) (f : Buf (Elt F) ((SparseCore.T (τ := τ) d).loc main_v44_1)) =>
    (iprop(⌜urowsVal d (coordsV ci.1 ci.2) fct fni hni f⌝ ∗ (SparseCore.T (τ := τ) d).loc main_v44_1 ↦[((Memref.whole Cert.KernelIdeal.main_v44_1_scv : Memref Cert.KernelIdeal.sig Kind.scVector Space.hbm Cert.KernelIdeal.S2048x128 EltTy.f32)).view.setOn (uvRect (coordsV' ci.1 ci.2)).set]{fullShare} f) : sProp 𝕄))).trans ?_
  iintro ⟨%fs, H⟩
  ihave H1 := (bigSep_pure_sep Finset.univ (fun ci : Fin 2 × Fin 16 => urowsVal d (coordsV ci.1 ci.2) fct fni hni (fs ci))
    (fun ci : Fin 2 × Fin 16 => ((SparseCore.T (τ := τ) d).loc main_v44_1 ↦[((Memref.whole Cert.KernelIdeal.main_v44_1_scv : Memref Cert.KernelIdeal.sig Kind.scVector Space.hbm Cert.KernelIdeal.S2048x128 EltTy.f32)).view.setOn (uvRect (coordsV' ci.1 ci.2)).set]{fullShare} fs ci : sProp 𝕄))) $$ H
  icases H1 with ⟨%hv, H2⟩
  ihave H' := (pointsTo_biUnion_join Finset.univ (fun ci : Fin 2 × Fin 16 => ((Memref.whole Cert.KernelIdeal.main_v44_1_scv : Memref Cert.KernelIdeal.sig Kind.scVector Space.hbm Cert.KernelIdeal.S2048x128 EltTy.f32)).view.setOn (uvRect (coordsV' ci.1 ci.2)).set) fs (fs (0, 0)) uv_disjoint) $$ H2
  icases H' with ⟨%g, %hg, Hg⟩
  rw [uv_cover]
  iexists g
  isplitr
  · ipureintro
    intro n j
    have hn := n.isLt
    have hmem := urow_mem_tile n j
    have hgn := hg (⟨n.val / 64 % 2, Nat.mod_lt _ (by decide)⟩, ⟨n.val / 64 / 2, by omega⟩) (Finset.mem_univ _) (ix2 n j)
      (by rw [uv_setOn]; exact hmem)
    have hrow := hv (⟨n.val / 64 % 2, Nat.mod_lt _ (by decide)⟩, ⟨n.val / 64 / 2, by omega⟩) (Finset.mem_univ _)
      ⟨n.val % 64, Nat.mod_lt _ (by decide)⟩ j
    refine hgn.trans ?_
    refine (at_congr _ _ _ (by show n.val = 128 * (n.val / 64 / 2) + 64 * (n.val / 64 % 2) + n.val % 64; omega) j).trans (hrow.trans ?_)
    refine at_congr (fct : S100000x128.Idx → Elt F .f32) _ _ (congrArg BitVec.toNat ?_) j
    exact at1_congr (fni : S2048.Idx → BitVec 32) _ _ (by show 128 * (n.val / 64 / 2) + 64 * (n.val / 64 % 2) + n.val % 64 = n.val; omega)
  · iexact Hg

/-- After the call: the tiles' returns and the three remainders give the three read arrays whole at their contents and the
    two results whole at contents holding, at every row, the table's row the index list names there. -/
theorem dn_take1V (d : Dev nD) (fct : Buf (Elt F) ((SparseCore.T (τ := τ) d).loc main_v9)) (fvi : Buf (Elt F) ((SparseCore.T (τ := τ) d).loc main_v39)) (fni : Buf (Elt F) ((SparseCore.T (τ := τ) d).loc main_v40)) (hvi : ∀ j, (fvi j).toNat < 100000) (hni : ∀ j, (fni j).toNat < 100000) :
    iprop((bigSep Finset.univ fun c : Fin 2 => bigSep Finset.univ fun i : Fin 16 =>
          tdResV d (coordsV c i) fct fvi fni hvi hni (qTile c.val i.val))
        ∗ ((SparseCore.T (τ := τ) d).loc main_v9 ↦{Transfers.shareDrop fullShare 32} fct) ∗ ((SparseCore.T (τ := τ) d).loc main_v39 ↦{Transfers.shareDrop fullShare 32} fvi) ∗ ((SparseCore.T (τ := τ) d).loc main_v40 ↦{Transfers.shareDrop fullShare 32} fni))
      ⊢ (iprop(((SparseCore.T (τ := τ) d).loc main_v9 ↦{fullShare} fct) ∗ ((SparseCore.T (τ := τ) d).loc main_v39 ↦{fullShare} fvi) ∗ ((SparseCore.T (τ := τ) d).loc main_v40 ↦{fullShare} fni)
          ∗ (∃ f, ⌜(∀ (n : Fin 102400) (j : Fin 128), (f : S102400x128.Idx → Elt F .f32) (ix2 n j)
            = (fct : S100000x128.Idx → Elt F .f32) (ix2 ⟨((fvi : S102400.Idx → BitVec 32) (ix1 n)).toNat, hvi _⟩ j))⌝ ∗ (SparseCore.T (τ := τ) d).loc main_v44_0 ↦{fullShare} f)
          ∗ (∃ f, ⌜(∀ (n : Fin 2048) (j : Fin 128), (f : S2048x128.Idx → Elt F .f32) (ix2 n j)
            = (fct : S100000x128.Idx → Elt F .f32) (ix2 ⟨((fni : S2048.Idx → BitVec 32) (ix1 n)).toNat, hni _⟩ j))⌝ ∗ (SparseCore.T (τ := τ) d).loc main_v44_1 ↦{fullShare} f)) : sProp 𝕄) := by
  have split : (bigSep Finset.univ fun ci : Fin 2 × Fin 16 => tdResV d (coordsV ci.1 ci.2) fct fvi fni hvi hni (qTile ci.1.val ci.2.val) : sProp 𝕄)
      ⊢ iprop((bigSep Finset.univ fun ci : Fin 2 × Fin 16 => (SparseCore.T (τ := τ) d).loc main_v9 ↦{qTile ci.1.val ci.2.val} fct)
        ∗ (bigSep Finset.univ fun ci : Fin 2 × Fin 16 => (SparseCore.T (τ := τ) d).loc main_v39 ↦{qTile ci.1.val ci.2.val} fvi)
        ∗ (bigSep Finset.univ fun ci : Fin 2 × Fin 16 => (SparseCore.T (τ := τ) d).loc main_v40 ↦{qTile ci.1.val ci.2.val} fni)
        ∗ (bigSep Finset.univ fun ci : Fin 2 × Fin 16 =>
            iprop(∃ f, ⌜rowsVal d (coordsV ci.1 ci.2) fct fvi hvi f⌝ ∗ (SparseCore.T (τ := τ) d).loc main_v44_0 ↦[((Memref.whole Cert.KernelIdeal.main_v44_0_scv : Memref Cert.KernelIdeal.sig Kind.scVector Space.hbm Cert.KernelIdeal.S102400x128 EltTy.f32)).view.setOn (tileRect (coordsV' ci.1 ci.2)).set]{fullShare} f))
        ∗ (bigSep Finset.univ fun ci : Fin 2 × Fin 16 =>
            iprop(∃ f, ⌜urowsVal d (coordsV ci.1 ci.2) fct fni hni f⌝ ∗ (SparseCore.T (τ := τ) d).loc main_v44_1 ↦[((Memref.whole Cert.KernelIdeal.main_v44_1_scv : Memref Cert.KernelIdeal.sig Kind.scVector Space.hbm Cert.KernelIdeal.S2048x128 EltTy.f32)).view.setOn (uvRect (coordsV' ci.1 ci.2)).set]{fullShare} f))) := by
    rw [← bigSep_sep', ← bigSep_sep', ← bigSep_sep', ← bigSep_sep']
    exact bigSep_mono fun ci _ => tile_take1V d fct fvi fni hvi hni ci.1 ci.2
  have tiles : (bigSep Finset.univ fun ci : Fin 2 × Fin 16 => tdResV d (coordsV ci.1 ci.2) fct fvi fni hvi hni (qTile ci.1.val ci.2.val) : sProp 𝕄)
      = bigSep Finset.univ fun c : Fin 2 => bigSep Finset.univ fun i : Fin 16 => tdResV d (coordsV c i) fct fvi fni hvi hni (qTile c.val i.val) :=
    bigSep_tiles (fun ci : Fin 2 × Fin 16 => tdResV d (coordsV ci.1 ci.2) fct fvi fni hvi hni (qTile ci.1.val ci.2.val))
  rw [← tiles]
  iintro ⟨Ht, H9d, H13d, H14d⟩
  ihave Hs := split $$ Ht
  icases Hs with ⟨H9t, H13t, H14t, He, Hu⟩
  isplitl [H9d H9t]
  · iapply (toks_join_tiles ((SparseCore.T (τ := τ) d).loc main_v9) fct)
    isplitl [H9d]; · iexact H9d
    iexact H9t
  isplitl [H13d H13t]
  · iapply (toks_join_tiles ((SparseCore.T (τ := τ) d).loc main_v39) fvi)
    isplitl [H13d]; · iexact H13d
    iexact H13t
  isplitl [H14d H14t]
  · iapply (toks_join_tiles ((SparseCore.T (τ := τ) d).loc main_v40) fni)
    isplitl [H14d]; · iexact H14d
    iexact H14t
  isplitl [He]
  · iapply (eu_joinV d fct fvi fni hvi); iexact He
  iapply (uv_joinV d fct fvi fni hni); iexact Hu

end Cert.Proof.KI3

end
-- ==== Proof.ScVCall1.lean ====
/-
  @main's step over the second gather call, with VALUES: the two results come back as the functions the gather defines — row
  `n` of the gathered rows is the table's row named by entry `n` of the index list — and the TensorCore holds everything again at
  the valuation so updated. The call's payloads carry the contents of the table and the lists (ScVPay); they are the
  valuation's own (`hct`, `hvi`, `hni`).
-/
import proofs.«217981_g19061064860210_cont_8to1_1320_37_alg».proof.Proof.ScVPay
import proofs.«217981_g19061064860210_cont_8to1_1320_37_alg».proof.Proof.Sc3GiveV
import proofs.«217981_g19061064860210_cont_8to1_1320_37_alg».proof.Proof.ScCall1

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

open Idealize.ShloMosaic.StableHlo (held)
open Idealize.ShloMosaic.TcCoe
open Idealize.ShloMosaic.ValueIdx

variable (ct0 : (d : Dev nD) → Buf (Elt F) ((SparseCore.T (τ := τ) d).loc main_v9))
  (vi0 : (d : Dev nD) → Buf (Elt F) ((SparseCore.T (τ := τ) d).loc main_v13))
  (ni0 : (d : Dev nD) → Buf (Elt F) ((SparseCore.T (τ := τ) d).loc main_v14))
  (hvi0 : ∀ d j, (vi0 d j).toNat < 100000) (hni0 : ∀ d j, (ni0 d j).toNat < 100000)
  (ct1 : (d : Dev nD) → Buf (Elt F) ((SparseCore.T (τ := τ) d).loc main_v9))
  (vi1 : (d : Dev nD) → Buf (Elt F) ((SparseCore.T (τ := τ) d).loc main_v39))
  (ni1 : (d : Dev nD) → Buf (Elt F) ((SparseCore.T (τ := τ) d).loc main_v40))
  (hvi1 : ∀ d j, (vi1 d j).toNat < 100000) (hni1 : ∀ d j, (ni1 d j).toNat < 100000)

/-- The gathered rows: row `n` is the table's row that entry `n` of the list names. -/
def euFun1 (d : Dev nD) : (main_v44_0 : DevRef τ sig).ty.Contents (Elt F) :=
  fun x => (ct1 d : S100000x128.Idx → Elt F .f32) (ix2 ⟨((vi1 d : S102400.Idx → BitVec 32) (ix1 (x 0))).toNat, hvi1 d _⟩ (x 1))
/-- The user rows likewise. -/
def uvFun1 (d : Dev nD) : (main_v44_1 : DevRef τ sig).ty.Contents (Elt F) :=
  fun x => (ct1 d : S100000x128.Idx → Elt F .f32) (ix2 ⟨((ni1 d : S2048.Idx → BitVec 32) (ix1 (x 0))).toNat, hni1 d _⟩ (x 1))

/-- The step over the second gather call, with values. -/
theorem call1_stepV (κ : GSem nD τ sig → ℕ) (d : Dev nD) (V : Valuation τ sig (Elt F))
    (hct : V (main_v9 : DevRef τ sig) = ct1 d) (hvi : V (main_v39 : DevRef τ sig) = vi1 d) (hni : V (main_v40 : DevRef τ sig) = ni1 d)
    {Φ : PUnit → sProp 𝕄} :
    iprop((K (F := F)).ctx EH (PV (F := F) ct0 vi0 ni0 hvi0 hni0 ct1 vi1 ni1 hvi1 hni1) κ ∗ (K (F := F)).tcSt EH d 1
        ∗ held (SparseCore.T d) (Pipeline.ucRefs τ sig) V
        ∗ (((K (F := F)).tcSt EH d 2 ∗ held (SparseCore.T d) (Pipeline.ucRefs τ sig)
              (afterCall1 V (euFun1 ct1 vi1 hvi1 d) (uvFun1 ct1 ni1 hni1 d))) -∗ Φ ⟨⟩))
      ⊢ wp frame (wpE ((K (F := F)).defs (D (F := F))) 𝒱 (SparseCore.T d) none) Set.univ ((K (F := F)).run d 1) Φ := by
  rw [StableHlo.held_sub_split (SparseCore.T d) refs1_sub V, held_refs1, hct, hvi, hni]
  iintro ⟨#Hctx, Hst, ⟨⟨H9, H13, H14, He, Hu⟩, Hrest⟩, Hk⟩
  ihave Hg := (Cert.Proof.KI3.st_give1V d (ct1 d) (vi1 d) (ni1 d) _ _) $$ [H9 H13 H14 He Hu]
  · isplitl [H9]; · iexact H9
    isplitl [H13]; · iexact H13
    isplitl [H14]; · iexact H14
    isplitl [He]; · iexact He
    iexact Hu
  icases Hg with ⟨Hst0, H9d, H13d, H14d⟩
  iapply ((K (F := F)).wp_run (D (F := F)) 𝒱 (EH := EH) (P := PV (F := F) ct0 vi0 ni0 hvi0 hni0 ct1 vi1 ni1 hvi1 hni1) κ d 1) $$ [Hst Hst0 H9d H13d H14d Hrest Hk]
  isplitr; · iexact Hctx
  isplitl [Hst]; · iexact Hst
  isplitl [Hst0]; · iexact Hst0
  iintro ⟨Hst, Hdn⟩
  ihave Ht := (Cert.Proof.KI3.dn_take1V d (ct1 d) (vi1 d) (ni1 d) (hvi1 d) (hni1 d)) $$ [Hdn H9d H13d H14d]
  · isplitl [Hdn]; · iexact Hdn
    isplitl [H9d]; · iexact H9d
    isplitl [H13d]; · iexact H13d
    iexact H14d
  icases Ht with ⟨H9, H13, H14, ⟨%feu, %hfe, He⟩, ⟨%fuv, %hfu, Hu⟩⟩
  have e1 : feu = euFun1 ct1 vi1 hvi1 d := funext fun x => by
    have := hfe (x 0) (x 1)
    rw [show (ix2 (x 0) (x 1) : S102400x128.Idx) = x from funext fun a => by fin_cases a <;> rfl] at this
    exact this
  have e2 : fuv = uvFun1 ct1 ni1 hni1 d := funext fun x => by
    have := hfu (x 0) (x 1)
    rw [show (ix2 (x 0) (x 1) : S2048x128.Idx) = x from funext fun a => by fin_cases a <;> rfl] at this
    exact this
  subst e1 e2
  iapply Hk
  isplitl [Hst]; · iexact Hst
  rw [StableHlo.held_sub_split (SparseCore.T d) refs1_sub (afterCall1 V _ _), held_refs1,
    afterCall1_of_ne V _ _ (main_v9 : DevRef τ sig) (by decide) (by decide),
    afterCall1_of_ne V _ _ (main_v39 : DevRef τ sig) (by decide) (by decide),
    afterCall1_of_ne V _ _ (main_v40 : DevRef τ sig) (by decide) (by decide), afterCall1_eu, afterCall1_uv,
    StableHlo.held_congr (SparseCore.T d) (V := afterCall1 V _ _) (V' := V) (S := Pipeline.ucRefs τ sig \ refs1) (fun b hb =>
      afterCall1_of_ne V _ _ b
        (fun e => (Finset.mem_sdiff.mp hb).2 (e ▸ by decide)) (fun e => (Finset.mem_sdiff.mp hb).2 (e ▸ by decide))),
    hct, hvi, hni]
  isplitl [H9 H13 H14 He Hu]
  · isplitl [H9]; · iexact H9
    isplitl [H13]; · iexact H13
    isplitl [H14]; · iexact H14
    isplitl [He]; · iexact He
    iexact Hu
  iexact Hrest

end Cert.Proof.KI

end
-- ==== Proof.ScVMain.lean ====
/-
  @main of the kernel program on the TensorCore WITH VALUES: the walk of ScMain, the regions' exit valuations computed (`RegStep`)
  and the gather calls' results the gather functions (ScVCall), so that the arrays held at the end are at ONE definite valuation
  `Wfin`, a function of the launch memory: the claim's result array `main_v63` ends at `Wfin d main_v63`.
-/
import proofs.«217981_g19061064860210_cont_8to1_1320_37_alg».proof.Proof.ScVCall
import proofs.«217981_g19061064860210_cont_8to1_1320_37_alg».proof.Proof.ScVCall1
import proofs.«217981_g19061064860210_cont_8to1_1320_37_alg».proof.Proof.ScMain
import proofs.«217981_g19061064860210_cont_8to1_1320_37_alg».proof.Proof.KMainArgs

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

open Idealize.ShloMosaic.StableHlo (held after seq)
open Idealize.ShloMosaic.TcCoe
open Idealize.ShloMosaic.ValueIdx
open Cert.KernelIdeal.MainSegs

variable (m : (ℓ : Loc nD τ sig) → Buf (Elt F) ℓ) (ρ : Dev nD → PrngReg)
  (e0 e1 e2 : Dev nD → Valuation τ sig (Elt F) → Valuation τ sig (Elt F))
  (he0 : ∀ d V (k : Fin 16), e0 d V ((argRef k : Ref sig .tc) : DevRef τ sig) = V ((argRef k : Ref sig .tc) : DevRef τ sig))
  (he1 : ∀ d V (k : Fin 16), e1 d V ((argRef k : Ref sig .tc) : DevRef τ sig) = V ((argRef k : Ref sig .tc) : DevRef τ sig))
  (he2 : ∀ d V (k : Fin 16), e2 d V ((argRef k : Ref sig .tc) : DevRef τ sig) = V ((argRef k : Ref sig .tc) : DevRef τ sig))
  (hA1 : ∀ d j, BitVec.toNat ((m (d, (main_arg1 : DevRef τ sig)) : (⟨S4096x50, .i32⟩ : BufTy).Contents (Elt F)) j) < 100000)
  (hA0 : ∀ d j, BitVec.toNat ((m (d, (main_arg0 : DevRef τ sig)) : (⟨S4096, .i32⟩ : BufTy).Contents (Elt F)) j) < 100000)

/-- The launch valuation, and the valuation the first gather call meets. -/
def W0 (d : Dev nD) : Valuation τ sig (Elt F) := fun b => m (d, b)
def Wc0 (d : Dev nD) : Valuation τ sig (Elt F) := after (ops1 (F := F)) (e0 d (after (ops0 (F := F)) (W0 m d)))

include he0 in
theorem Wc0_args (d : Dev nD) (k : Fin 16) : Wc0 m e0 d ((argRef k : Ref sig .tc) : DevRef τ sig) = m (d, ((argRef k : Ref sig .tc) : DevRef τ sig)) :=
  (ops1_args _ k).trans ((he0 d _ k).trans (ops0_args (W0 m d) k))

def ct0 (d : Dev nD) : Buf (Elt F) ((SparseCore.T (τ := τ) d).loc main_v9) := Wc0 m e0 d (main_v9 : DevRef τ sig)
def vi0 (d : Dev nD) : Buf (Elt F) ((SparseCore.T (τ := τ) d).loc main_v13) := Wc0 m e0 d (main_v13 : DevRef τ sig)
def ni0 (d : Dev nD) : Buf (Elt F) ((SparseCore.T (τ := τ) d).loc main_v14) := Wc0 m e0 d (main_v14 : DevRef τ sig)

include he0 hA1 in
theorem hvi0 (d : Dev nD) : ∀ j, (vi0 m e0 d j).toNat < 100000 :=
  v13_lt _ (fun j => by
    rw [show e0 d (after (ops0 (F := F)) (W0 m d)) (main_arg1 : DevRef τ sig) = m (d, (main_arg1 : DevRef τ sig)) from (he0 d _ 1).trans (ops0_args (W0 m d) 1)]
    exact hA1 d j)
include he0 hA0 in
theorem hni0 (d : Dev nD) : ∀ j, (ni0 m e0 d j).toNat < 100000 :=
  v14_lt _ (fun j => by
    rw [show e0 d (after (ops0 (F := F)) (W0 m d)) (main_arg0 : DevRef τ sig) = m (d, (main_arg0 : DevRef τ sig)) from (he0 d _ 0).trans (ops0_args (W0 m d) 0)]
    exact hA0 d j)

/-- After the first call: the two results are the gather functions. -/
def Wa0 (d : Dev nD) : Valuation τ sig (Elt F) :=
  afterCall0 (Wc0 m e0 d) (euFun (ct0 m e0) (vi0 m e0) (hvi0 m e0 he0 hA1) d) (uvFun (ct0 m e0) (ni0 m e0) (hni0 m e0 he0 hA0) d)
/-- The valuation the second gather call meets. -/
def Wc1 (d : Dev nD) : Valuation τ sig (Elt F) :=
  after (ops3 (F := F)) (e1 d (after (ops2 (F := F)) (Wa0 m e0 he0 hA1 hA0 d)))

include he1 in
theorem Wc1_args (d : Dev nD) (k : Fin 16) : Wc1 m e0 e1 he0 hA1 hA0 d ((argRef k : Ref sig .tc) : DevRef τ sig) = m (d, ((argRef k : Ref sig .tc) : DevRef τ sig)) :=
  (ops3_args _ k).trans ((he1 d _ k).trans ((ops2_args _ k).trans ((afterCall0_args _ _ _ k).trans (Wc0_args m e0 he0 d k))))

def ct1 (d : Dev nD) : Buf (Elt F) ((SparseCore.T (τ := τ) d).loc main_v9) := Wc1 m e0 e1 he0 hA1 hA0 d (main_v9 : DevRef τ sig)
def vi1 (d : Dev nD) : Buf (Elt F) ((SparseCore.T (τ := τ) d).loc main_v39) := Wc1 m e0 e1 he0 hA1 hA0 d (main_v39 : DevRef τ sig)
def ni1 (d : Dev nD) : Buf (Elt F) ((SparseCore.T (τ := τ) d).loc main_v40) := Wc1 m e0 e1 he0 hA1 hA0 d (main_v40 : DevRef τ sig)

include he1 in
theorem hvi1 (d : Dev nD) : ∀ j, (vi1 m e0 e1 he0 hA1 hA0 d j).toNat < 100000 :=
  v39_lt _ (fun j => by
    rw [show e1 d (after (ops2 (F := F)) (Wa0 m e0 he0 hA1 hA0 d)) (main_arg1 : DevRef τ sig) = m (d, (main_arg1 : DevRef τ sig)) from
      (he1 d _ 1).trans ((ops2_args _ 1).trans ((afterCall0_args _ _ _ 1).trans (Wc0_args m e0 he0 d 1)))]
    exact hA1 d j)
include he1 in
theorem hni1 (d : Dev nD) : ∀ j, (ni1 m e0 e1 he0 hA1 hA0 d j).toNat < 100000 :=
  v40_lt _ (fun j => by
    rw [show e1 d (after (ops2 (F := F)) (Wa0 m e0 he0 hA1 hA0 d)) (main_arg0 : DevRef τ sig) = m (d, (main_arg0 : DevRef τ sig)) from
      (he1 d _ 0).trans ((ops2_args _ 0).trans ((afterCall0_args _ _ _ 0).trans (Wc0_args m e0 he0 d 0)))]
    exact hA0 d j)

/-- After the second call, and at @main's end. -/
def Wa1 (d : Dev nD) : Valuation τ sig (Elt F) :=
  afterCall1 (Wc1 m e0 e1 he0 hA1 hA0 d)
    (euFun1 (ct1 m e0 e1 he0 hA1 hA0) (vi1 m e0 e1 he0 hA1 hA0) (hvi1 m e0 e1 he0 he1 hA1 hA0) d)
    (uvFun1 (ct1 m e0 e1 he0 hA1 hA0) (ni1 m e0 e1 he0 hA1 hA0) (hni1 m e0 e1 he0 he1 hA1 hA0) d)
def Wfin (d : Dev nD) : Valuation τ sig (Elt F) :=
  after (ops5 (F := F)) (e2 d (after (ops4 (F := F)) (Wa1 m e0 e1 he0 he1 hA1 hA0 d)))

include he2 in
theorem Wfin_args (d : Dev nD) (k : Fin 16) : Wfin m e0 e1 e2 he0 he1 hA1 hA0 d ((argRef k : Ref sig .tc) : DevRef τ sig) = m (d, ((argRef k : Ref sig .tc) : DevRef τ sig)) :=
  (ops5_args _ k).trans ((he2 d _ k).trans ((ops4_args _ k).trans ((afterCall1_args _ _ _ k).trans (Wc1_args m e0 e1 he0 he1 hA1 hA0 d k))))

/-- The value payloads of this run. -/
abbrev PVm : (K (F := F)).Pay (nD := nD) (Val := Elt F) (Name := ℕ) (U := UU) :=
  PV (F := F) (ct0 m e0) (vi0 m e0) (ni0 m e0) (hvi0 m e0 he0 hA1) (hni0 m e0 he0 hA0)
    (ct1 m e0 e1 he0 hA1 hA0) (vi1 m e0 e1 he0 hA1 hA0) (ni1 m e0 e1 he0 hA1 hA0) (hvi1 m e0 e1 he0 he1 hA1 hA0) (hni1 m e0 e1 he0 he1 hA1 hA0)

/-- What @main leaves the claim, with the result: the arguments at their launch contents and the result array at the final valuation's. -/
def FINV (d : Dev nD) : sProp 𝕄 :=
  iprop(FIN m d ∗ ((SparseCore.T d).loc main_v63 ↦{fullShare} Wfin m e0 e1 e2 he0 he1 hA1 hA0 d (main_v63 : DevRef τ sig)))

theorem argSet_sub' : Finset.univ.map argEmb ⊆ Pipeline.ucRefs τ sig \ {(main_v63 : DevRef τ sig)} := by decide

omit [FloatOps F] in
theorem finV_of_held (d : Dev nD) (V : Valuation τ sig (Elt F)) (hV : ∀ k : Fin 16, V ((argRef k : Ref sig .tc) : DevRef τ sig) = m (d, ((argRef k : Ref sig .tc) : DevRef τ sig))) :
    (held (SparseCore.T d) (Pipeline.ucRefs τ sig) V : sProp 𝕄)
      ⊢ iprop(FIN m d ∗ ((SparseCore.T d).loc main_v63 ↦{fullShare} V (main_v63 : DevRef τ sig))) := by
  rw [StableHlo.held_sub_split (SparseCore.T d) (show ({(main_v63 : DevRef τ sig)} : Finset (DevRef τ sig)) ⊆ Pipeline.ucRefs τ sig by decide) V,
    StableHlo.held_sub_split (SparseCore.T d) argSet_sub' V]
  have e : (held (SparseCore.T d) (Finset.univ.map argEmb) V : sProp 𝕄) = FIN m d := by
    unfold held FIN
    rw [BI.bigSep_map]
    exact bigSep_congr fun k _ => by rw [show V (argEmb k) = m (d, argEmb k) from hV k]; rfl
  have e63 : (held (SparseCore.T d) ({(main_v63 : DevRef τ sig)} : Finset (DevRef τ sig)) V : sProp 𝕄)
      = ((SparseCore.T d).loc main_v63 ↦{fullShare} V (main_v63 : DevRef τ sig)) := by
    unfold held; rw [bigSep_singleton]
  rw [e, e63]
  iintro ⟨H63, Hargs, -⟩
  isplitl [Hargs]; · iexact Hargs
  iexact H63

include he2 in
set_option maxHeartbeats 2000000 in
/-- @main's proof with values, from its three regions' steps. -/
theorem hmainV (G0 G1 G2 : Dev nD → sProp 𝕄)
    (hreg0 : RegStep (F := F) 0 0 G0 e0) (hreg1 : RegStep (F := F) 1 1 G1 e1) (hreg2 : RegStep (F := F) 2 2 G2 e2)
    (κ : GSem nD τ sig → ℕ) (d : Dev nD) :
    iprop((K (F := F)).ctx EH (PVm m e0 e1 he0 he1 hA1 hA0) κ ∗ (K (F := F)).tcSt EH d 0 ∗ (K (F := F)).tcRes m ρ d
        ∗ iprop(G0 d ∗ G1 d ∗ G2 d))
      ⊢ wp frame (wpE ((K (F := F)).defs (D (F := F))) 𝒱 (SparseCore.T d) none) Set.univ (main d)
          fun _ => iprop((K (F := F)).tcSt EH d 2 ∗ FINV m e0 e1 e2 he0 he1 hA1 hA0 d) := by
  unfold SparseCore.Cfg.tcRes
  rw [show unscopedBufs d (fun b => m ((SparseCore.T d).loc b)) = held (SparseCore.T d) (Pipeline.ucRefs τ sig) (fun b => m (d, b)) from
      Pipeline.unscopedBufs_held (Ix := HIx 2) (Name := ℕ) (U := UU) (Lvl := ℕ) d (fun b => m (d, b))]
  rw [main_eq]
  iintro ⟨#Hctx, Hst, ⟨Hb, Hheld, -, Hprng⟩, HG0, HG1, HG2⟩
  ihave Hlev := ((K (F := F)).ctx_levAts κ) $$ Hctx
  ihave Hprng := (show (prngReg d (ρ d) : sProp 𝕄) ⊢ iprop(∃ r, prngReg d r) from by iintro H; iexists _; iexact H) $$ Hprng
  iapply (StableHlo.wp_seq 𝒱 none Set.univ d (Pipeline.ucRefs τ sig) _ (ops0 (F := F)) ops0_sub ops0_fresh _) $$ [Hb Hheld]
  · isplitl [Hb]; · iexact Hb
    iexact Hheld
  iintro ⟨Hb, Hheld⟩
  ihave Ho := (tcSt_open d 0) $$ Hst
  icases Ho with ⟨%Rs0, %hcl0, HC, HR⟩
  irw [wp_bind]
  iapply (wp_wand_r frame (wpE ((K (F := F)).defs (D (F := F))) 𝒱 (SparseCore.T d) none) Set.univ)
  isplitl [Hb Hheld Hprng HC HG0]
  · iapply (hreg0 d _)
    isplitl [Hb]; · iexact Hb
    isplitl [Hheld Hprng HC]
    · isplitl [Hheld]; · iexact Hheld
      isplitl [Hprng]; · iexact Hprng
      iexact HC
    isplitr; · iexact Hlev
    iexact HG0
  iintro %_a0 ⟨Hb, Hheld, Hprng, HC⟩
  ihave Hst := hcl0 $$ [HC HR]
  · isplitl [HC]; · iexact HC
    iexact HR
  iapply (StableHlo.wp_seq 𝒱 none Set.univ d (Pipeline.ucRefs τ sig) _ (ops1 (F := F)) ops1_sub ops1_fresh _) $$ [Hb Hheld]
  · isplitl [Hb]; · iexact Hb
    iexact Hheld
  iintro ⟨Hb, Hheld⟩
  irw [wp_bind]
  iapply (call0_stepV (ct0 m e0) (vi0 m e0) (ni0 m e0) (hvi0 m e0 he0 hA1) (hni0 m e0 he0 hA0) (ct1 m e0 e1 he0 hA1 hA0) (vi1 m e0 e1 he0 hA1 hA0) (ni1 m e0 e1 he0 hA1 hA0) (hvi1 m e0 e1 he0 he1 hA1 hA0) (hni1 m e0 e1 he0 he1 hA1 hA0) κ d (Wc0 m e0 d) rfl rfl rfl) $$ [Hst Hheld Hb Hprng HG1 HG2]
  isplitr; · iexact Hctx
  isplitl [Hst]; · iexact Hst
  isplitl [Hheld]; · iexact Hheld
  iintro ⟨Hst, Hheld⟩
  iapply (StableHlo.wp_seq 𝒱 none Set.univ d (Pipeline.ucRefs τ sig) _ (ops2 (F := F)) ops2_sub ops2_fresh _) $$ [Hb Hheld]
  · isplitl [Hb]; · iexact Hb
    iexact Hheld
  iintro ⟨Hb, Hheld⟩
  ihave Ho := (tcSt_open d 1) $$ Hst
  icases Ho with ⟨%Rs1, %hcl1, HC, HR⟩
  irw [wp_bind]
  iapply (wp_wand_r frame (wpE ((K (F := F)).defs (D (F := F))) 𝒱 (SparseCore.T d) none) Set.univ)
  isplitl [Hb Hheld Hprng HC HG1]
  · iapply (hreg1 d _)
    isplitl [Hb]; · iexact Hb
    isplitl [Hheld Hprng HC]
    · isplitl [Hheld]; · iexact Hheld
      isplitl [Hprng]; · iexact Hprng
      iexact HC
    isplitr; · iexact Hlev
    iexact HG1
  iintro %_a1 ⟨Hb, Hheld, Hprng, HC⟩
  ihave Hst := hcl1 $$ [HC HR]
  · isplitl [HC]; · iexact HC
    iexact HR
  iapply (StableHlo.wp_seq 𝒱 none Set.univ d (Pipeline.ucRefs τ sig) _ (ops3 (F := F)) ops3_sub ops3_fresh _) $$ [Hb Hheld]
  · isplitl [Hb]; · iexact Hb
    iexact Hheld
  iintro ⟨Hb, Hheld⟩
  irw [wp_bind]
  iapply (call1_stepV (ct0 m e0) (vi0 m e0) (ni0 m e0) (hvi0 m e0 he0 hA1) (hni0 m e0 he0 hA0) (ct1 m e0 e1 he0 hA1 hA0) (vi1 m e0 e1 he0 hA1 hA0) (ni1 m e0 e1 he0 hA1 hA0) (hvi1 m e0 e1 he0 he1 hA1 hA0) (hni1 m e0 e1 he0 he1 hA1 hA0) κ d (Wc1 m e0 e1 he0 hA1 hA0 d) rfl rfl rfl) $$ [Hst Hheld Hb Hprng HG2]
  isplitr; · iexact Hctx
  isplitl [Hst]; · iexact Hst
  isplitl [Hheld]; · iexact Hheld
  iintro ⟨Hst, Hheld⟩
  iapply (StableHlo.wp_seq 𝒱 none Set.univ d (Pipeline.ucRefs τ sig) _ (ops4 (F := F)) ops4_sub ops4_fresh _) $$ [Hb Hheld]
  · isplitl [Hb]; · iexact Hb
    iexact Hheld
  iintro ⟨Hb, Hheld⟩
  ihave Ho := (tcSt_open d 2) $$ Hst
  icases Ho with ⟨%Rs2, %hcl2, HC, HR⟩
  irw [wp_bind]
  iapply (wp_wand_r frame (wpE ((K (F := F)).defs (D (F := F))) 𝒱 (SparseCore.T d) none) Set.univ)
  isplitl [Hb Hheld Hprng HC HG2]
  · iapply (hreg2 d _)
    isplitl [Hb]; · iexact Hb
    isplitl [Hheld Hprng HC]
    · isplitl [Hheld]; · iexact Hheld
      isplitl [Hprng]; · iexact Hprng
      iexact HC
    isplitr; · iexact Hlev
    iexact HG2
  iintro %_a2 ⟨Hb, Hheld, Hprng, HC⟩
  ihave Hst := hcl2 $$ [HC HR]
  · isplitl [HC]; · iexact HC
    iexact HR
  irw [← bind_pure (seq (ops5 (F := F)))]
  iapply (StableHlo.wp_seq 𝒱 none Set.univ d (Pipeline.ucRefs τ sig) _ (ops5 (F := F)) ops5_sub ops5_fresh _) $$ [Hb Hheld]
  · isplitl [Hb]; · iexact Hb
    iexact Hheld
  iintro ⟨Hb, Hheld⟩
  irw [wp_pure]
  imodintro
  isplitl [Hst]; · iexact Hst
  unfold FINV
  iapply (finV_of_held m d _ (Wfin_args m e0 e1 e2 he0 he1 he2 hA1 hA0 d))
  iexact Hheld

end Cert.Proof.KI

end
-- ==== Proof.ScVFund.lean ====
/-
  The launch element for the payloads with values: the same ghost state splits in the same way — the handshakes'
  component, each device's three regions' entry resources — and the payloads with values, like the plain ones, pay
  nothing per thread.
-/
import proofs.«217981_g19061064860210_cont_8to1_1320_37_alg».proof.Proof.ScFund
import proofs.«217981_g19061064860210_cont_8to1_1320_37_alg».proof.Proof.ScVPay

noncomputable section

namespace Cert.Proof.KI

open Cert.KernelIdeal Cert.KernelIdeal.Gen Cert.KernelIdeal.Tc
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (ct0 : (d : Dev nD) → Buf (Elt F) ((SparseCore.T (τ := τ) d).loc main_v9))
  (vi0 : (d : Dev nD) → Buf (Elt F) ((SparseCore.T (τ := τ) d).loc main_v13))
  (ni0 : (d : Dev nD) → Buf (Elt F) ((SparseCore.T (τ := τ) d).loc main_v14))
  (hvi0 : ∀ d j, (vi0 d j).toNat < 100000) (hni0 : ∀ d j, (ni0 d j).toNat < 100000)
  (ct1 : (d : Dev nD) → Buf (Elt F) ((SparseCore.T (τ := τ) d).loc main_v9))
  (vi1 : (d : Dev nD) → Buf (Elt F) ((SparseCore.T (τ := τ) d).loc main_v39))
  (ni1 : (d : Dev nD) → Buf (Elt F) ((SparseCore.T (τ := τ) d).loc main_v40))
  (hvi1 : ∀ d j, (vi1 d j).toNat < 100000) (hni1 : ∀ d j, (ni1 d j).toNat < 100000)

theorem launchOblV :
    iprop(ownU (u₀ (F := F)) ∗ (PV (F := F) ct0 vi0 ni0 hvi0 hni0 ct1 vi1 ni1 hvi1 hni1).oxCred ∗ (K (F := F)).freeSems0)
      ⊢ |={Set.univ}=> (iprop(BI.own (EH (initOf (K (F := F)).hsCells (K (F := F)).hsToks))
          ∗ bigSep Finset.univ (fun d : Dev nD => iprop(Gp (F := F) 0 d ∗ Gp (F := F) 1 d ∗ Gp (F := F) 2 d))
          ∗ bigSep Finset.univ fun thr : Thread nD τ => bigSep Finset.univ fun q : Fin 2 =>
              (PV (F := F) ct0 vi0 ni0 hvi0 hni0 ct1 vi1 ni1 hvi1 hni1).x q thr) : sProp 𝕄) := by
  unfold u₀
  iintro ⟨Hu, -, -⟩
  imod (fund_pipes (F := F) (initOf (K (F := F)).hsCells (K (F := F)).hsToks) 1) $$ Hu with ⟨HH, -, Hg, Ht⟩
  imodintro
  isplitl [HH]; · iexact HH
  isplitl [Hg Ht]
  · rw [Gp_regroup]
    isplitl [Hg]; · iexact Hg
    iexact Ht
  unfold PV; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

end Cert.Proof.KI

end
-- ==== Proof.TcLocal0.lean ====
/-
  The payload of TensorCore pallas call 0 is local, at the extended reals.

  The payload places side by side the two 8192 × 64 products  Tᵀ · W  of a 64 × 8192 table block T
  (read transposed) with a 64 × 64 weight half W, the second with a bias row added.  Entry (r, n) of
  such a product is  Σ_k T(k, r) · W(k, n):  it reads column r of the table block and nothing else of
  it.  So two table blocks that agree on column r give the same output row r; in particular the
  output rows inside the array do not depend on how the table blocks are filled out past the array's
  end, because the output window and the table windows are cut at the same place (block index times
  8192 against 100000).
-/
import proofs.«217981_g19061064860210_cont_8to1_1320_37_alg».proof.Proof.TcDat0
import Idealize.ShloMosaic.PureOps.Ideal.Laws
import Idealize.ShloMosaic.Lib.ValueIdx
import Idealize.ShloMosaic.Lib.Pipeline.Value

set_option maxRecDepth 16384

noncomputable section

namespace Cert.KernelIdeal.Tc

open Cert.KernelIdeal Cert.KernelIdeal.Gen
open Idealize.ShloMosaic Idealize.ShloMosaic.TcCoe Idealize.ShloMosaic.ValueIdx
open Idealize.ShloMosaic.Pipeline (Window)

/-- One product's entry reads one column of the table block: if two 64 × 8192 blocks agree on column r then
    the products Tᵀ · W onto a zero accumulator agree at every entry (r, n). -/
theorem matmul_col_congr (v v' : FVec Ideal S64x8192 .bf16) (w : FVec Ideal S64x64 .bf16) (acc : FVec Ideal S8192x64 .f32)
    (i : S8192x64.Idx) (h : ∀ x : S64x8192.Idx, (x 1).val = (i 0).val → v x = v' x) :
    matmul dot_S64x8192_S64x64_S8192x64_0_0_1_1_n_n none v w acc i
      = matmul dot_S64x8192_S64x64_S8192x64_0_0_1_1_n_n none v' w acc i := by
  show FloatOps.matmul _ none v w acc i = FloatOps.matmul _ none v' w acc i
  rw [Ideal.matmul_apply, Ideal.matmul_apply]
  refine congrArg (acc i + ·) (Finset.sum_congr rfl fun k _ => ?_)
  rw [h _ rfl]

/-- The payload's entry (r, j) reads the two table blocks only through their column r: table blocks that
    agree on column r give the same payload at every entry of row r. -/
theorem k0_pay1_col_congr (v0 v0' v6 v6' : Vec Ideal S64x8192 .f32) (v3 v9 : Vec Ideal S64x64 .bf16)
    (v12 : Vec Ideal S1x64 .f32) (J : S8192x128.Idx)
    (h0 : ∀ x : S64x8192.Idx, (x 1).val = (J 0).val → v0 x = v0' x)
    (h6 : ∀ x : S64x8192.Idx, (x 1).val = (J 0).val → v6 x = v6' x) :
    k0_pay1 v0 v3 v6 v9 v12 J = k0_pay1 v0' v3 v6' v9 v12 J := by
  unfold k0_pay1
  by_cases hc : (J 1).val < 64
  · -- the left half: the first product at (r, j)
    rw [concatenate_pair_apply_left (s₁ := S8192x64) (s₂ := S8192x64) (1 : Fin 2) _ _ _ J rfl (ix2 (J 0) (⟨(J 1).val, hc⟩ : Fin 64) : S8192x64.Idx)
        (fun b => by match b with | ⟨0, _⟩ => rfl | ⟨1, _⟩ => rfl),
      concatenate_pair_apply_left (s₁ := S8192x64) (s₂ := S8192x64) (1 : Fin 2) _ _ _ J rfl (ix2 (J 0) (⟨(J 1).val, hc⟩ : Fin 64) : S8192x64.Idx)
        (fun b => by match b with | ⟨0, _⟩ => rfl | ⟨1, _⟩ => rfl)]
    exact matmul_col_congr _ _ _ _ _ fun x hx => by
      show shapeCast S64x8192 v0 shapeCasts_S64x8192_S64x8192 x = shapeCast S64x8192 v0' shapeCasts_S64x8192_S64x8192 x
      rw [shapeCast_self, shapeCast_self]; exact h0 x hx
  · -- the right half: the second product plus the bias at (r, j - 64)
    have hJ : (J 1).val < 128 := (J 1).isLt
    rw [concatenate_pair_apply_right (s₁ := S8192x64) (s₂ := S8192x64) (1 : Fin 2) _ _ _ J rfl rfl (ix2 (J 0) (⟨(J 1).val - 64, by omega⟩ : Fin 64) : S8192x64.Idx)
        (fun b hb => by match b with | ⟨0, _⟩ => rfl | ⟨1, _⟩ => exact absurd rfl hb)
        (by show (J 1).val - 64 + 64 = (J 1).val; omega),
      concatenate_pair_apply_right (s₁ := S8192x64) (s₂ := S8192x64) (1 : Fin 2) _ _ _ J rfl rfl (ix2 (J 0) (⟨(J 1).val - 64, by omega⟩ : Fin 64) : S8192x64.Idx)
        (fun b hb => by match b with | ⟨0, _⟩ => rfl | ⟨1, _⟩ => exact absurd rfl hb)
        (by show (J 1).val - 64 + 64 = (J 1).val; omega)]
    refine congrArg (· + _) ?_
    exact matmul_col_congr _ _ _ _ _ fun x hx => by
      show shapeCast S64x8192 v6 shapeCasts_S64x8192_S64x8192 x = shapeCast S64x8192 v6' shapeCasts_S64x8192_S64x8192 x
      rw [shapeCast_self, shapeCast_self]; exact h6 x hx

/-- The table windows are whole on their row axis (64 rows) and are cut on their column axis exactly where
    the output window is cut on its row axis: all three are blocks of 8192 along an axis of extent 100000,
    at the same block index. -/
theorem xsize0_facts : ∀ i : grid0.Coords,
    win0_0.xsize i 0 = 64 ∧ win0_1.xsize i 0 = 64 ∧ win0_5.xsize i 0 = win0_0.xsize i 1 ∧ win0_5.xsize i 0 = win0_1.xsize i 1 := by
  decide +kernel

/-- The payload of pallas call 0 is local at the extended reals: the output block cut at the array's end does
    not depend on how the two table blocks are filled out past their arrays' end. -/
theorem payLocal0_ideal : PayLocal0 Ideal := by
  intro i b0 b1 d0 d0' d1 d1' x2 x3 x4
  funext j
  have hz : (![0, 0] : Fin 2 → Nat) = fun _ => 0 := funext fun a => by fin_cases a <;> rfl
  obtain ⟨e00, e10, e5, e5'⟩ := xsize0_facts i
  show out0_5 (F := Ideal) (win0_0.fill i d0 b0) (win0_1.fill i d1 b1) x2 x3 x4 (win0_5.xinj i j)
    = out0_5 (F := Ideal) (win0_0.fill i d0' b0) (win0_1.fill i d1' b1) x2 x3 x4 (win0_5.xinj i j)
  unfold out0_5
  rw [View.canon_unit_zero hz, View.canon_unit_zero hz]
  simp only [View.ld_unit_zero (S := S64x8192) hz, View.ld_unit_zero (S := S64x64) hz, View.ld_unit_zero (S := S1x64) hz]
  have hj : (win0_5.xinj i j 0).val < win0_5.xsize i 0 := (j 0).isLt
  refine k0_pay1_col_congr _ _ _ _ _ _ _ _ (fun x hx => ?_) (fun x hx => ?_)
  · have hm : win0_0.moved i x = true := (win0_0.moved_iff i x).mpr fun a => by
      match a with
      | ⟨0, _⟩ => have := (x 0).isLt; show (x 0).val < win0_0.xsize i 0; rw [e00]; exact this
      | ⟨1, _⟩ => show (x 1).val < win0_0.xsize i 1; rw [hx, ← e5]; exact hj
    unfold Window.fill; rw [dif_pos hm, dif_pos hm]
  · have hm : win0_1.moved i x = true := (win0_1.moved_iff i x).mpr fun a => by
      match a with
      | ⟨0, _⟩ => have := (x 0).isLt; show (x 0).val < win0_1.xsize i 0; rw [e10]; exact this
      | ⟨1, _⟩ => show (x 1).val < win0_1.xsize i 1; rw [hx, ← e5']; exact hj
    unfold Window.fill; rw [dif_pos hm, dif_pos hm]

end Cert.KernelIdeal.Tc

end
-- ==== Proof.ScVLaunch.lean ====
/-
  The launch with VALUES: the launch theorem at the value payloads (ScVPay) and @main's walk with values (ScVMain) gives the
  kernel program's run ending with the arguments unchanged and the result array at the final valuation `Wfin`. At the extended
  reals (all three regions' exit valuations computed) this reduces the value claim to ONE PURE equation:
  `Wfin … c main_v63 = target m c`.
-/
import proofs.«217981_g19061064860210_cont_8to1_1320_37_alg».proof.Proof.ScVMain
import proofs.«217981_g19061064860210_cont_8to1_1320_37_alg».proof.Proof.ScVFund
import proofs.«217981_g19061064860210_cont_8to1_1320_37_alg».proof.Proof.TcStep
import proofs.«217981_g19061064860210_cont_8to1_1320_37_alg».proof.Proof.TcLocal0
import proofs.«217981_g19061064860210_cont_8to1_1320_37_alg».proof.Proof.KAlgebraic

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

open Idealize.ShloMosaic.TcCoe

variable (m : (ℓ : Loc nD τ sig) → Buf (Elt F) ℓ) (ρ : Dev nD → PrngReg)
  (e0 e1 e2 : Dev nD → Valuation τ sig (Elt F) → Valuation τ sig (Elt F))
  (he0 : ∀ d V (k : Fin 16), e0 d V ((argRef k : Ref sig .tc) : DevRef τ sig) = V ((argRef k : Ref sig .tc) : DevRef τ sig))
  (he1 : ∀ d V (k : Fin 16), e1 d V ((argRef k : Ref sig .tc) : DevRef τ sig) = V ((argRef k : Ref sig .tc) : DevRef τ sig))
  (he2 : ∀ d V (k : Fin 16), e2 d V ((argRef k : Ref sig .tc) : DevRef τ sig) = V ((argRef k : Ref sig .tc) : DevRef τ sig))
  (hA1 : ∀ d j, BitVec.toNat ((m (d, (main_arg1 : DevRef τ sig)) : (⟨S4096x50, .i32⟩ : BufTy).Contents (Elt F)) j) < 100000)
  (hA0 : ∀ d j, BitVec.toNat ((m (d, (main_arg0 : DevRef τ sig)) : (⟨S4096, .i32⟩ : BufTy).Contents (Elt F)) j) < 100000)

/-- What the final memory is read for: the arguments, and the result array at the final valuation. -/
def fqV (d : Dev nD) (s' : Phys nD τ sig (Elt F)) : Prop :=
  fq m d s' ∧ s'.mem.mem ((SparseCore.T d).loc main_v63) = Wfin m e0 e1 e2 he0 he1 hA1 hA0 d (main_v63 : DevRef τ sig)

theorem hfinV (d : Dev nD) (s' : Phys nD τ sig (Elt F)) :
    iprop(FINV m e0 e1 e2 he0 he1 hA1 hA0 d ∗ SI s') ⊢ (⌜fqV m e0 e1 e2 he0 he1 hA1 hA0 d s'⌝ : sProp 𝕄) := by
  unfold FINV
  refine pure_elim (fq m d s') ?_ (fun hA => ?_)
  · iintro ⟨⟨HF, -⟩, HSI⟩
    iapply (hfin m d s')
    isplitl [HF]; · iexact HF
    iexact HSI
  · iintro ⟨⟨-, H63⟩, HSI⟩
    ihave H := (SI_pointsTo_agree (st := s') (ℓ := (SparseCore.T d).loc main_v63) (I := Finset.univ) (q := fullShare)
      (f := Wfin m e0 e1 e2 he0 he1 hA1 hA0 d (main_v63 : DevRef τ sig))) $$ [HSI H63]
    · isplitl [HSI] <;> iassumption
    icases H with %hx
    ipureintro; exact ⟨hA, funext fun i => hx i (Finset.mem_univ i)⟩

/-- The run's claim with the result. -/
def QCV : PUnit × MemSt nD τ sig (Elt F) → Prop :=
  fun r => ∀ c : Dev nD, (∀ k : Fin 16, r.2.mem ((SparseCore.T c).loc (argRef k)) = m ((SparseCore.T c).loc (argRef k)))
    ∧ r.2.mem ((SparseCore.T c).loc main_v63) = Wfin m e0 e1 e2 he0 he1 hA1 hA0 c (main_v63 : DevRef τ sig)

include he2 in
/-- The program's run with the result's value. -/
theorem run_mainV [∀ e, Nonempty (Elt F e)]
    (hreg0 : RegStep (F := F) 0 0 (Gp 0) e0) (hreg1 : RegStep (F := F) 1 1 (Gp 1) e1) (hreg2 : RegStep (F := F) 2 2 (Gp 2) e2) :
    θ_run (Cert.KernelIdeal.defs (F := F)) (Cert.KernelIdeal.threads (F := F)) ⟨m, fun _ => 0, ρ⟩ (QCV m e0 e1 e2 he0 he1 hA1 hA0) :=
  SparseCore.Cfg.θ_run_sc (K := K (F := F)) (D := D (F := F)) (𝒱 := 𝒱) (EH := EH) (P := PVm m e0 e1 he0 he1 hA1 hA0) facts v₀
    (fun q hq => match q with | 0 => nomatch hq | 1 => nomatch hq)
    (fun q _ => match q with
      | 0 => tileObl0V _ _ _ _ _ _ _ _ _ _
      | 1 => tileObl1V _ _ _ _ _ _ _ _ _ _)
    (fun q _ => SparseCore.Cfg.VecSplit.of_plain (vecSplitV _ _ _ _ _ _ _ _ _ _ q))
    m ρ main (fun d => iprop(Gp 0 d ∗ Gp 1 d ∗ Gp 2 d)) (FINV m e0 e1 e2 he0 he1 hA1 hA0) u₀ (launchOblV _ _ _ _ _ _ _ _ _ _)
    (hmainV m ρ e0 e1 e2 he0 he1 he2 hA1 hA0 (Gp 0) (Gp 1) (Gp 2) hreg0 hreg1 hreg2)
    (fqV m e0 e1 e2 he0 he1 hA1 hA0) (hfinV m e0 e1 e2 he0 he1 hA1 hA0) (QCV m e0 e1 e2 he0 he1 hA1 hA0) (fun _ h => h)

end Cert.Proof.KI

end
-- ==== Proof.ScVFrame.lean ====
/-
  The value claim reduced to one pure equation. At the extended reals the kernel program's run ends with its result array at
  `WfinI m hpre c main_v63` — the final valuation of @main's walk with values (ScVMain, ScVLaunch), a function of the launch memory —
  so `algebraic_KernelIdeal_ReferenceIdeal` follows (KAlgebraic) from `WfinI m hpre c main_v63 = target m c`.
-/
import proofs.«217981_g19061064860210_cont_8to1_1320_37_alg».proof.Proof.ScVLaunch
import proofs.«217981_g19061064860210_cont_8to1_1320_37_alg».proof.Proof.KMainArgs

noncomputable section

namespace Cert.Proof.KI

open Cert.KernelIdeal
open Idealize.ShloMosaic
open Idealize.ShloMosaic.TcCoe
open Idealize.SL.Sem

/-- The final valuation of @main on device `d` at the extended reals, from an admitted launch memory. -/
def WfinI (m : (ℓ : Loc nD τ sig) → Buf (Elt Ideal) ℓ) (hpre : Cert.Pre_KernelIdeal (hPre_input_domain := Cert.Pre_input_domain.Gen.facts) m)
    (d : Dev nD) : Valuation τ sig (Elt Ideal) :=
  Wfin (F := Ideal) m e0 e1 e2 (fun d V k => e0_args d V k) (fun d V k => e1_args d V k)
    (fun d => pre_arg1_lt m hpre d) (fun d => pre_arg0_lt m hpre d) d

/-- The kernel program's run at the extended reals ends with its result at the final valuation and its arguments unchanged. -/
theorem kernel_value (m : (ℓ : Loc nD τ sig) → Buf (Elt Ideal) ℓ) (g : Dev nD → PrngReg)
    (hpre : Cert.Pre_KernelIdeal (hPre_input_domain := Cert.Pre_input_domain.Gen.facts) m) :
    θ_run (Cert.KernelIdeal.defs (F := Ideal)) (Cert.KernelIdeal.threads (F := Ideal)) ⟨m, fun _ => 0, g⟩ (fun r => ∀ c : Dev nD,
      r.2.mem ((c.tc : Thread nD τ).loc main_v63) = WfinI m hpre c (main_v63 : DevRef τ sig)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run Cert.KernelIdeal.defs _ _).mono
    (fun _ h c => ⟨(h c).2, (h c).1 0, (h c).1 1, (h c).1 2, (h c).1 3, (h c).1 4, (h c).1 5, (h c).1 6, (h c).1 7, (h c).1 8,
      (h c).1 9, (h c).1 10, (h c).1 11, (h c).1 12, (h c).1 13, (h c).1 14, (h c).1 15⟩)
    (run_mainV (F := Ideal) m g e0 e1 e2 (fun d V k => e0_args d V k) (fun d V k => e1_args d V k) (fun d V k => e2_args d V k)
      (fun d => pre_arg1_lt m hpre d) (fun d => pre_arg0_lt m hpre d)
      (regStep0 Cert.KernelIdeal.Tc.payLocal0_ideal) regStep1 regStep2)

/-- The value claim from the one pure equation: the final valuation's result array is the target. -/
theorem algebraic_of_pure
    (hpure : ∀ (m : (ℓ : Loc nD τ sig) → Buf (Elt Ideal) ℓ) (hpre : Cert.Pre_KernelIdeal (hPre_input_domain := Cert.Pre_input_domain.Gen.facts) m)
      (c : Dev nD), WfinI m hpre c (main_v63 : DevRef τ sig) = target m c) :
    Cert.algebraic_KernelIdeal_ReferenceIdeal (hKernelIdeal := Cert.KernelIdeal.Gen.facts) (hReferenceIdeal := Cert.ReferenceIdeal.Gen.facts)
      (hPre_input_domain := Cert.Pre_input_domain.Gen.facts) :=
  algebraic_of_kernel fun m g hpre =>
    (θ_run Cert.KernelIdeal.defs _ _).mono (fun _ h c => by rw [← hpure m hpre c]; exact h c) (kernel_value m g hpre)

end Cert.Proof.KI

end
-- ==== Proof.KWinIdx.lean ====
/-
  The arrays the two moving regions read, at an index, through @main's host stretches: the flat item-index list is the
  first index array's half of the rows transposed and flattened (position `2048 · l + n` is row `n`, position `l`); the
  per-row list is the per-row index array's half; and the gathered rows reshaped to `[50, 2048, 128]` read the
  SparseCore call's result at row `2048 · l + n`. The second half of the batch is the same at rows `2048 + n`.
-/
import proofs.«217981_g19061064860210_cont_8to1_1320_37_alg».proof.Proof.KMainSegs
import Idealize.ShloMosaic.Lib.ValueIdx
import Idealize.ShloMosaic.Lib.Pipeline.Value

noncomputable section

namespace Cert.KernelIdeal.MainSegs

open Cert.KernelIdeal Cert.KernelIdeal.Gen Idealize.ShloMosaic Idealize.ShloMosaic.TcCoe Idealize.SL.Sem Idealize.ShloMosaic.StableHlo
open Idealize.ShloMosaic.ValueIdx

variable {F : FTy → Type} [FloatOps F]

/-! ## The first half of the batch -/

/-- The flat item-index list at position `2048 · l + n` is the first index array at row `n`, position `l`. -/
theorem v13_apply (V : Valuation τ sig (Elt F)) (l : Fin 50) (n : Fin 2048) :
    (after ops1 V (main_v13 : DevRef τ sig) : (⟨S102400, .i32⟩ : BufTy).Contents (Elt F)) (ix1 (⟨2048 * l.val + n.val, by have := l.isLt; have := n.isLt; omega⟩ : Fin 102400))
      = (V (main_arg1 : DevRef τ sig) : (⟨S4096x50, .i32⟩ : BufTy).Contents (Elt F)) (ix2 (⟨n.val, by have := n.isLt; omega⟩ : Fin 4096) l) := by
  rw [v13_eq]
  refine (shapeCast_apply _ _ (ix1 (⟨2048 * l.val + n.val, by have := l.isLt; have := n.isLt; omega⟩ : Fin 102400)) (ix2 l n) ?_).trans ?_
  · rw [Shape.rowMajor_val_two, Shape.rowMajor_val_one]
    show l.val * 2048 + n.val = 2048 * l.val + n.val
    omega
  refine (transpose_apply [1, 0] _ _ (ix2 l n) (ix2 n l) fun b => ?_).trans ?_
  · match b with
    | ⟨0, _⟩ => rfl
    | ⟨1, _⟩ => rfl
  refine extractStridedSlice_apply ![0, 0] _ _ (ix2 n l) (ix2 (⟨n.val, by have := n.isLt; omega⟩ : Fin 4096) l) fun a => ?_
  match a with
  | ⟨0, _⟩ => show n.val = 0 + n.val; omega
  | ⟨1, _⟩ => show l.val = 0 + l.val; omega

/-- The per-row index list at position `n` is the per-row index array at `n`. -/
theorem v14_apply (V : Valuation τ sig (Elt F)) (n : Fin 2048) :
    (after ops1 V (main_v14 : DevRef τ sig) : (⟨S2048, .i32⟩ : BufTy).Contents (Elt F)) (ix1 n)
      = (V (main_arg0 : DevRef τ sig) : (⟨S4096, .i32⟩ : BufTy).Contents (Elt F)) (ix1 (⟨n.val, by have := n.isLt; omega⟩ : Fin 4096)) := by
  rw [v14_eq]
  refine extractStridedSlice_apply ![0] _ _ (ix1 n) (ix1 (⟨n.val, by have := n.isLt; omega⟩ : Fin 4096)) fun a => ?_
  match a with
  | ⟨0, _⟩ => show n.val = 0 + n.val; omega

/-- The gathered rows as the region sees them: position `(l, n)`, column `k`, is the call's result at row `2048 · l + n`. -/
theorem v19_apply (V : Valuation τ sig (Elt F)) (l : Fin 50) (n : Fin 2048) (k : Fin 128) :
    (after ops2 V (main_v19 : DevRef τ sig) : (⟨S50x2048x128, .f32⟩ : BufTy).Contents (Elt F)) (ix3 l n k)
      = (V (main_v18_0 : DevRef τ sig) : (⟨S102400x128, .f32⟩ : BufTy).Contents (Elt F)) (ix2 (⟨2048 * l.val + n.val, by have := l.isLt; have := n.isLt; omega⟩ : Fin 102400) k) := by
  have e : (after ops2 V (main_v19 : DevRef τ sig) : (⟨S50x2048x128, .f32⟩ : BufTy).Contents (Elt F))
      = shapeCast S50x2048x128 (V (main_v18_0 : DevRef τ sig) : (⟨S102400x128, .f32⟩ : BufTy).Contents (Elt F)) shapeCasts_S102400x128_S50x2048x128 := by
    after_results_simp
    rfl
  rw [e]
  refine shapeCast_apply _ _ (ix3 l n k) (ix2 (⟨2048 * l.val + n.val, by have := l.isLt; have := n.isLt; omega⟩ : Fin 102400) k) ?_
  rw [Shape.rowMajor_val_two, Shape.rowMajor_val_three]
  show (2048 * l.val + n.val) * 128 + k.val = (l.val * 2048 + n.val) * 128 + k.val
  have : 2048 * l.val = l.val * 2048 := Nat.mul_comm _ _
  rw [this]

/-! ## The second half of the batch -/

/-- The flat item-index list at position `2048 · l + n` is the first index array at row `2048 + n`, position `l`. -/
theorem v39_apply (V : Valuation τ sig (Elt F)) (l : Fin 50) (n : Fin 2048) :
    (after ops3 V (main_v39 : DevRef τ sig) : (⟨S102400, .i32⟩ : BufTy).Contents (Elt F)) (ix1 (⟨2048 * l.val + n.val, by have := l.isLt; have := n.isLt; omega⟩ : Fin 102400))
      = (V (main_arg1 : DevRef τ sig) : (⟨S4096x50, .i32⟩ : BufTy).Contents (Elt F)) (ix2 (⟨2048 + n.val, by have := n.isLt; omega⟩ : Fin 4096) l) := by
  rw [v39_eq]
  refine (shapeCast_apply _ _ (ix1 (⟨2048 * l.val + n.val, by have := l.isLt; have := n.isLt; omega⟩ : Fin 102400)) (ix2 l n) ?_).trans ?_
  · rw [Shape.rowMajor_val_two, Shape.rowMajor_val_one]
    show l.val * 2048 + n.val = 2048 * l.val + n.val
    omega
  refine (transpose_apply [1, 0] _ _ (ix2 l n) (ix2 n l) fun b => ?_).trans ?_
  · match b with
    | ⟨0, _⟩ => rfl
    | ⟨1, _⟩ => rfl
  refine extractStridedSlice_apply ![2048, 0] _ _ (ix2 n l) (ix2 (⟨2048 + n.val, by have := n.isLt; omega⟩ : Fin 4096) l) fun a => ?_
  match a with
  | ⟨0, _⟩ => rfl
  | ⟨1, _⟩ => show l.val = 0 + l.val; omega

/-- The per-row index list at position `n` is the per-row index array at `2048 + n`. -/
theorem v40_apply (V : Valuation τ sig (Elt F)) (n : Fin 2048) :
    (after ops3 V (main_v40 : DevRef τ sig) : (⟨S2048, .i32⟩ : BufTy).Contents (Elt F)) (ix1 n)
      = (V (main_arg0 : DevRef τ sig) : (⟨S4096, .i32⟩ : BufTy).Contents (Elt F)) (ix1 (⟨2048 + n.val, by have := n.isLt; omega⟩ : Fin 4096)) := by
  rw [v40_eq]
  refine extractStridedSlice_apply ![2048] _ _ (ix1 n) (ix1 (⟨2048 + n.val, by have := n.isLt; omega⟩ : Fin 4096)) fun a => ?_
  match a with
  | ⟨0, _⟩ => rfl

/-- The gathered rows as the region sees them: position `(l, n)`, column `k`, is the call's result at row `2048 · l + n`. -/
theorem v45_apply (V : Valuation τ sig (Elt F)) (l : Fin 50) (n : Fin 2048) (k : Fin 128) :
    (after ops4 V (main_v45 : DevRef τ sig) : (⟨S50x2048x128, .f32⟩ : BufTy).Contents (Elt F)) (ix3 l n k)
      = (V (main_v44_0 : DevRef τ sig) : (⟨S102400x128, .f32⟩ : BufTy).Contents (Elt F)) (ix2 (⟨2048 * l.val + n.val, by have := l.isLt; have := n.isLt; omega⟩ : Fin 102400) k) := by
  have e : (after ops4 V (main_v45 : DevRef τ sig) : (⟨S50x2048x128, .f32⟩ : BufTy).Contents (Elt F))
      = shapeCast S50x2048x128 (V (main_v44_0 : DevRef τ sig) : (⟨S102400x128, .f32⟩ : BufTy).Contents (Elt F)) shapeCasts_S102400x128_S50x2048x128 := by
    after_results_simp
    rfl
  rw [e]
  refine shapeCast_apply _ _ (ix3 l n k) (ix2 (⟨2048 * l.val + n.val, by have := l.isLt; have := n.isLt; omega⟩ : Fin 102400) k) ?_
  rw [Shape.rowMajor_val_two, Shape.rowMajor_val_three]
  show (2048 * l.val + n.val) * 128 + k.val = (l.val * 2048 + n.val) * 128 + k.val
  have : 2048 * l.val = l.val * 2048 := Nat.mul_comm _ _
  rw [this]

end Cert.KernelIdeal.MainSegs

end
-- ==== Proof.KPure.lean ====
/-
  The arrays the second and third TensorCore regions find, at an index, in terms of the launch memory: through @main's
  walk the gathered rows are the gather function of the table the first region left and the flat index list, which is
  the first index array's half transposed and flattened; reshaped to `[50, 2048, 128]`, position `(l, N)`, column `k` is
  the table's row named by the first index array at row `N` (second half: `2048 + N`), position `l`. The per-row
  gathered rows are the table's rows named by the per-row index array.
-/
import proofs.«217981_g19061064860210_cont_8to1_1320_37_alg».proof.Proof.ScVMain
import proofs.«217981_g19061064860210_cont_8to1_1320_37_alg».proof.Proof.KWinIdx
import proofs.«217981_g19061064860210_cont_8to1_1320_37_alg».proof.Proof.KTileIdx

noncomputable section

namespace Cert.Proof.KI

open Cert.KernelIdeal Cert.KernelIdeal.Gen
open Idealize.ShloMosaic
open Idealize.SL.Sem
open Idealize.ShloMosaic.StableHlo (held after seq)
open Idealize.ShloMosaic.TcCoe
open Idealize.ShloMosaic.ValueIdx
open Cert.KernelIdeal.MainSegs

variable {F : FTy → Type} [FloatOps F]

/-- The line after the first SparseCore call does not write the per-row gathered rows. -/
theorem ops2_v18_1 (V : Valuation τ sig (Elt F)) : after ops2 V (main_v18_1 : DevRef τ sig) = V (main_v18_1 : DevRef τ sig) :=
  StableHlo.after_of_writes_sub ops2 V ops2_writes (by decide)

/-- The line after the second SparseCore call does not write that call's per-row gathered rows. -/
theorem ops4_v44_1 (V : Valuation τ sig (Elt F)) : after ops4 V (main_v44_1 : DevRef τ sig) = V (main_v44_1 : DevRef τ sig) :=
  StableHlo.after_of_writes_sub ops4 V ops4_writes (by decide)

variable (m : (ℓ : Loc nD τ sig) → Buf (Elt F) ℓ)
  (e0 e1 e2 : Dev nD → Valuation τ sig (Elt F) → Valuation τ sig (Elt F))
  (he0 : ∀ d V (k : Fin 16), e0 d V ((argRef k : Ref sig .tc) : DevRef τ sig) = V ((argRef k : Ref sig .tc) : DevRef τ sig))
  (he1 : ∀ d V (k : Fin 16), e1 d V ((argRef k : Ref sig .tc) : DevRef τ sig) = V ((argRef k : Ref sig .tc) : DevRef τ sig))
  (hA1 : ∀ d j, BitVec.toNat ((m (d, (main_arg1 : DevRef τ sig)) : (⟨S4096x50, .i32⟩ : BufTy).Contents (Elt F)) j) < 100000)
  (hA0 : ∀ d j, BitVec.toNat ((m (d, (main_arg0 : DevRef τ sig)) : (⟨S4096, .i32⟩ : BufTy).Contents (Elt F)) j) < 100000)

include he0 in
/-- The flat index list the first call meets, at position `2048 · l + N`: the first index array at row `N`, position `l`. -/
theorem vi0_apply (d : Dev nD) (l : Fin 50) (N : Fin 2048) :
    (vi0 m e0 d : S102400.Idx → BitVec 32) (ix1 (⟨2048 * l.val + N.val, by have := l.isLt; have := N.isLt; omega⟩ : Fin 102400))
      = (m (d, (main_arg1 : DevRef τ sig)) : (⟨S4096x50, .i32⟩ : BufTy).Contents (Elt F)) (ix2 (⟨N.val, by have := N.isLt; omega⟩ : Fin 4096) l) := by
  unfold vi0 Wc0
  refine (v13_apply _ l N).trans ?_
  rw [show e0 d (after (ops0 (F := F)) (W0 m d)) (main_arg1 : DevRef τ sig) = m (d, (main_arg1 : DevRef τ sig)) from
    (he0 d _ 1).trans (ops0_args (W0 m d) 1)]

include he0 in
/-- The per-row index list the first call meets, at position `N`: the per-row index array at `N`. -/
theorem ni0_apply (d : Dev nD) (N : Fin 2048) :
    (ni0 m e0 d : S2048.Idx → BitVec 32) (ix1 N)
      = (m (d, (main_arg0 : DevRef τ sig)) : (⟨S4096, .i32⟩ : BufTy).Contents (Elt F)) (ix1 (⟨N.val, by have := N.isLt; omega⟩ : Fin 4096)) := by
  unfold ni0 Wc0
  refine (v14_apply _ N).trans ?_
  rw [show e0 d (after (ops0 (F := F)) (W0 m d)) (main_arg0 : DevRef τ sig) = m (d, (main_arg0 : DevRef τ sig)) from
    (he0 d _ 0).trans (ops0_args (W0 m d) 0)]

include he0 hA1 hA0 in
/-- THE SECOND REGION'S GATHERED ROWS at `(l, N, k)`: the table the first region left, at the row the first index array
    names at row `N`, position `l`, column `k`. -/
theorem win19_apply (d : Dev nD) (l : Fin 50) (N : Fin 2048) (k : Fin 128) :
    (after ops2 (Wa0 m e0 he0 hA1 hA0 d) (main_v19 : DevRef τ sig) : (⟨S50x2048x128, .f32⟩ : BufTy).Contents (Elt F)) (ix3 l N k)
      = (ct0 m e0 d : S100000x128.Idx → Elt F .f32)
          (ix2 ⟨((m (d, (main_arg1 : DevRef τ sig)) : (⟨S4096x50, .i32⟩ : BufTy).Contents (Elt F))
            (ix2 (⟨N.val, by have := N.isLt; omega⟩ : Fin 4096) l)).toNat, hA1 d _⟩ k) := by
  refine (v19_apply _ l N k).trans ?_
  unfold Wa0
  rw [afterCall0_eu]
  show (ct0 m e0 d : S100000x128.Idx → Elt F .f32) (ix2 ⟨((vi0 m e0 d : S102400.Idx → BitVec 32) (ix1 _)).toNat, _⟩ k) = _
  exact at_congr (ct0 m e0 d : S100000x128.Idx → Elt F .f32) _ _ (congrArg BitVec.toNat (vi0_apply m e0 he0 d l N)) k

include he0 hA1 hA0 in
/-- THE SECOND REGION'S PER-ROW GATHERED ROWS at `(N, k)`: the table at the row the per-row index array names at `N`. -/
theorem win18_1_apply (d : Dev nD) (N : Fin 2048) (k : Fin 128) :
    (after ops2 (Wa0 m e0 he0 hA1 hA0 d) (main_v18_1 : DevRef τ sig) : (⟨S2048x128, .f32⟩ : BufTy).Contents (Elt F)) (ix2 N k)
      = (ct0 m e0 d : S100000x128.Idx → Elt F .f32)
          (ix2 ⟨((m (d, (main_arg0 : DevRef τ sig)) : (⟨S4096, .i32⟩ : BufTy).Contents (Elt F))
            (ix1 (⟨N.val, by have := N.isLt; omega⟩ : Fin 4096))).toNat, hA0 d _⟩ k) := by
  rw [ops2_v18_1]
  unfold Wa0
  rw [afterCall0_uv]
  show (ct0 m e0 d : S100000x128.Idx → Elt F .f32) (ix2 ⟨((ni0 m e0 d : S2048.Idx → BitVec 32) (ix1 _)).toNat, _⟩ k) = _
  exact at_congr (ct0 m e0 d : S100000x128.Idx → Elt F .f32) _ _ (congrArg BitVec.toNat (ni0_apply m e0 he0 d N)) k

include he0 he1 in
/-- The flat index list the second call meets, at position `2048 · l + N`: the first index array at row `2048 + N`. -/
theorem vi1_apply (d : Dev nD) (l : Fin 50) (N : Fin 2048) :
    (vi1 m e0 e1 he0 hA1 hA0 d : S102400.Idx → BitVec 32) (ix1 (⟨2048 * l.val + N.val, by have := l.isLt; have := N.isLt; omega⟩ : Fin 102400))
      = (m (d, (main_arg1 : DevRef τ sig)) : (⟨S4096x50, .i32⟩ : BufTy).Contents (Elt F)) (ix2 (⟨2048 + N.val, by have := N.isLt; omega⟩ : Fin 4096) l) := by
  unfold vi1 Wc1
  refine (v39_apply _ l N).trans ?_
  rw [show e1 d (after (ops2 (F := F)) (Wa0 m e0 he0 hA1 hA0 d)) (main_arg1 : DevRef τ sig) = m (d, (main_arg1 : DevRef τ sig)) from
    (he1 d _ 1).trans ((ops2_args _ 1).trans ((afterCall0_args _ _ _ 1).trans (Wc0_args m e0 he0 d 1)))]

include he0 he1 in
/-- The per-row index list the second call meets, at position `N`: the per-row index array at `2048 + N`. -/
theorem ni1_apply (d : Dev nD) (N : Fin 2048) :
    (ni1 m e0 e1 he0 hA1 hA0 d : S2048.Idx → BitVec 32) (ix1 N)
      = (m (d, (main_arg0 : DevRef τ sig)) : (⟨S4096, .i32⟩ : BufTy).Contents (Elt F)) (ix1 (⟨2048 + N.val, by have := N.isLt; omega⟩ : Fin 4096)) := by
  unfold ni1 Wc1
  refine (v40_apply _ N).trans ?_
  rw [show e1 d (after (ops2 (F := F)) (Wa0 m e0 he0 hA1 hA0 d)) (main_arg0 : DevRef τ sig) = m (d, (main_arg0 : DevRef τ sig)) from
    (he1 d _ 0).trans ((ops2_args _ 0).trans ((afterCall0_args _ _ _ 0).trans (Wc0_args m e0 he0 d 0)))]

include he0 he1 hA1 hA0 in
/-- THE THIRD REGION'S GATHERED ROWS at `(l, N, k)`: the table the second call met, at the row the first index array names
    at row `2048 + N`, position `l`, column `k`. -/
theorem win45_apply (d : Dev nD) (l : Fin 50) (N : Fin 2048) (k : Fin 128) :
    (after ops4 (Wa1 m e0 e1 he0 he1 hA1 hA0 d) (main_v45 : DevRef τ sig) : (⟨S50x2048x128, .f32⟩ : BufTy).Contents (Elt F)) (ix3 l N k)
      = (ct1 m e0 e1 he0 hA1 hA0 d : S100000x128.Idx → Elt F .f32)
          (ix2 ⟨((m (d, (main_arg1 : DevRef τ sig)) : (⟨S4096x50, .i32⟩ : BufTy).Contents (Elt F))
            (ix2 (⟨2048 + N.val, by have := N.isLt; omega⟩ : Fin 4096) l)).toNat, hA1 d _⟩ k) := by
  refine (v45_apply _ l N k).trans ?_
  unfold Wa1
  rw [afterCall1_eu]
  show (ct1 m e0 e1 he0 hA1 hA0 d : S100000x128.Idx → Elt F .f32)
    (ix2 ⟨((vi1 m e0 e1 he0 hA1 hA0 d : S102400.Idx → BitVec 32) (ix1 _)).toNat, _⟩ k) = _
  exact at_congr (ct1 m e0 e1 he0 hA1 hA0 d : S100000x128.Idx → Elt F .f32) _ _
    (congrArg BitVec.toNat (vi1_apply m e0 e1 he0 he1 hA1 hA0 d l N)) k

include he0 he1 hA1 hA0 in
/-- THE THIRD REGION'S PER-ROW GATHERED ROWS at `(N, k)`: the table at the row the per-row index array names at `2048 + N`. -/
theorem win44_1_apply (d : Dev nD) (N : Fin 2048) (k : Fin 128) :
    (after ops4 (Wa1 m e0 e1 he0 he1 hA1 hA0 d) (main_v44_1 : DevRef τ sig) : (⟨S2048x128, .f32⟩ : BufTy).Contents (Elt F)) (ix2 N k)
      = (ct1 m e0 e1 he0 hA1 hA0 d : S100000x128.Idx → Elt F .f32)
          (ix2 ⟨((m (d, (main_arg0 : DevRef τ sig)) : (⟨S4096, .i32⟩ : BufTy).Contents (Elt F))
            (ix1 (⟨2048 + N.val, by have := N.isLt; omega⟩ : Fin 4096))).toNat, hA0 d _⟩ k) := by
  rw [ops4_v44_1]
  unfold Wa1
  rw [afterCall1_uv]
  show (ct1 m e0 e1 he0 hA1 hA0 d : S100000x128.Idx → Elt F .f32)
    (ix2 ⟨((ni1 m e0 e1 he0 hA1 hA0 d : S2048.Idx → BitVec 32) (ix1 _)).toNat, _⟩ k) = _
  exact at_congr (ct1 m e0 e1 he0 hA1 hA0 d : S100000x128.Idx → Elt F .f32) _ _
    (congrArg BitVec.toNat (ni1_apply m e0 e1 he0 he1 hA1 hA0 d N)) k

end Cert.Proof.KI

end
-- ==== Proof.KPureHA.lean ====
/-
  The index equations the second and third regions' value lemmas ask of their two gathered-rows arrays, from @main's
  walk: when the table the first region left is the combined table (its low half an item row contracted with the first
  layer's low columns, its high half a per-row table row contracted with the second network's high columns, with
  bias), the gathered rows at `(l, N)` are the combined table's low half at the row the first index array names, and
  the per-row gathered rows the high half at the row the per-row index array names.
-/
import proofs.«217981_g19061064860210_cont_8to1_1320_37_alg».proof.Proof.KPure
import proofs.«217981_g19061064860210_cont_8to1_1320_37_alg».proof.Proof.KSpec

noncomputable section

namespace Cert.Proof.KI

open Cert.KernelIdeal Cert.KernelIdeal.Gen Cert.Proof.Spec
open Idealize.ShloMosaic
open Idealize.SL.Sem
open Idealize.ShloMosaic.StableHlo (held after seq)
open Idealize.ShloMosaic.TcCoe
open Idealize.ShloMosaic.ValueIdx
open Cert.KernelIdeal.MainSegs

variable (m : (ℓ : Loc nD τ sig) → Buf (Elt Ideal) ℓ)
  (e0 e1 : Dev nD → Valuation τ sig (Elt Ideal) → Valuation τ sig (Elt Ideal))
  (he0 : ∀ d V (k : Fin 16), e0 d V ((argRef k : Ref sig .tc) : DevRef τ sig) = V ((argRef k : Ref sig .tc) : DevRef τ sig))
  (he1 : ∀ d V (k : Fin 16), e1 d V ((argRef k : Ref sig .tc) : DevRef τ sig) = V ((argRef k : Ref sig .tc) : DevRef τ sig))
  (hA1 : ∀ d j, BitVec.toNat ((m (d, (main_arg1 : DevRef τ sig)) : (⟨S4096x50, .i32⟩ : BufTy).Contents (Elt Ideal)) j) < 100000)
  (hA0 : ∀ d j, BitVec.toNat ((m (d, (main_arg0 : DevRef τ sig)) : (⟨S4096, .i32⟩ : BufTy).Contents (Elt Ideal)) j) < 100000)
  (A3 A4 : (⟨2, ![100000, 64]⟩ : Shape).Idx → EReal)
  (W6 : (⟨2, ![64, 128]⟩ : Shape).Idx → EReal) (W10 : (⟨2, ![64, 128]⟩ : Shape).Idx → EReal) (b11 : (⟨1, ![64]⟩ : Shape).Idx → EReal)

/-- A row named by a word in range is the clamped row. -/
theorem row_eq_clampRow {x : BitVec 32} (h : x.toNat < 100000) : (⟨x.toNat, h⟩ : Fin 100000) = clampRow 100000 (by decide) x :=
  Fin.ext (clampRow_val (by decide) h (by decide)).symm

include he0 hA1 hA0 in
/-- The second region's first index equation: rows `0 … 2047` of the batch. -/
theorem HA0_first (d : Dev nD)
    (Hlo : ∀ (R : Fin 100000) (j : Fin 64),
      (ct0 m e0 d : S100000x128.Idx → EReal) (ix2 R (⟨j.val, by have := j.isLt; omega⟩ : Fin 128)) = ctLo A4 W6 R j)
    (l : Fin 50) (N : Fin 2048) (k : Fin 64) :
    (after ops2 (Wa0 m e0 he0 hA1 hA0 d) (main_v19 : DevRef τ sig) : S50x2048x128.Idx → EReal) (ix3 l N (⟨k.val, by have := k.isLt; omega⟩ : Fin 128))
      = ctLo A4 W6 (clampRow 100000 (by decide)
          ((m (d, (main_arg1 : DevRef τ sig)) : (⟨2, ![4096, 50]⟩ : Shape).Idx → BitVec 32) (ix2 (⟨N.val, by have := N.isLt; omega⟩ : Fin 4096) l))) k := by
  refine (win19_apply m e0 he0 hA1 hA0 d l N _).trans ?_
  rw [Hlo, row_eq_clampRow]

include he0 hA1 hA0 in
/-- The second region's second index equation. -/
theorem HA1_first (d : Dev nD)
    (Hhi : ∀ (R : Fin 100000) (j : Fin 64),
      (ct0 m e0 d : S100000x128.Idx → EReal) (ix2 R (⟨64 + j.val, by have := j.isLt; omega⟩ : Fin 128)) = ctHi A3 W10 b11 R j)
    (N : Fin 2048) (k : Fin 64) :
    (after ops2 (Wa0 m e0 he0 hA1 hA0 d) (main_v18_1 : DevRef τ sig) : S2048x128.Idx → EReal) (ix2 N (⟨64 + k.val, by have := k.isLt; omega⟩ : Fin 128))
      = ctHi A3 W10 b11 (clampRow 100000 (by decide)
          ((m (d, (main_arg0 : DevRef τ sig)) : (⟨1, ![4096]⟩ : Shape).Idx → BitVec 32) (ix1 (⟨N.val, by have := N.isLt; omega⟩ : Fin 4096)))) k := by
  refine (win18_1_apply m e0 he0 hA1 hA0 d N _).trans ?_
  rw [Hhi, row_eq_clampRow]

include he0 he1 hA1 hA0 in
/-- The third region's first index equation: rows `2048 … 4095` of the batch. -/
theorem HA0_second (d : Dev nD)
    (Hlo : ∀ (R : Fin 100000) (j : Fin 64),
      (ct1 m e0 e1 he0 hA1 hA0 d : S100000x128.Idx → EReal) (ix2 R (⟨j.val, by have := j.isLt; omega⟩ : Fin 128)) = ctLo A4 W6 R j)
    (l : Fin 50) (N : Fin 2048) (k : Fin 64) :
    (after ops4 (Wa1 m e0 e1 he0 he1 hA1 hA0 d) (main_v45 : DevRef τ sig) : S50x2048x128.Idx → EReal) (ix3 l N (⟨k.val, by have := k.isLt; omega⟩ : Fin 128))
      = ctLo A4 W6 (clampRow 100000 (by decide)
          ((m (d, (main_arg1 : DevRef τ sig)) : (⟨2, ![4096, 50]⟩ : Shape).Idx → BitVec 32) (ix2 (⟨2048 + N.val, by have := N.isLt; omega⟩ : Fin 4096) l))) k := by
  refine (win45_apply m e0 e1 he0 he1 hA1 hA0 d l N _).trans ?_
  rw [Hlo, row_eq_clampRow]

include he0 he1 hA1 hA0 in
/-- The third region's second index equation. -/
theorem HA1_second (d : Dev nD)
    (Hhi : ∀ (R : Fin 100000) (j : Fin 64),
      (ct1 m e0 e1 he0 hA1 hA0 d : S100000x128.Idx → EReal) (ix2 R (⟨64 + j.val, by have := j.isLt; omega⟩ : Fin 128)) = ctHi A3 W10 b11 R j)
    (N : Fin 2048) (k : Fin 64) :
    (after ops4 (Wa1 m e0 e1 he0 he1 hA1 hA0 d) (main_v44_1 : DevRef τ sig) : S2048x128.Idx → EReal) (ix2 N (⟨64 + k.val, by have := k.isLt; omega⟩ : Fin 128))
      = ctHi A3 W10 b11 (clampRow 100000 (by decide)
          ((m (d, (main_arg0 : DevRef τ sig)) : (⟨1, ![4096]⟩ : Shape).Idx → BitVec 32) (ix1 (⟨2048 + N.val, by have := N.isLt; omega⟩ : Fin 4096)))) k := by
  refine (win44_1_apply m e0 e1 he0 he1 hA1 hA0 d N _).trans ?_
  rw [Hhi, row_eq_clampRow]

end Cert.Proof.KI

end
-- ==== Proof.TcVal0.lean ====
/-
  The output of TensorCore pallas call 0 in closed form, at the extended reals.

  The body multiplies a 64 × 8192 block T of each transposed embedding table, read transposed, by a
  64 × 64 weight half W, adds a 1 × 64 bias row to the second product, and stores the two 8192 × 64
  results side by side.  So entry (r, j) of what the body stores is
      Σ_k T_a(k, r) · W_a(k, j)                          for j < 64,
      Σ_k T_b(k, r) · W_b(k, j - 64)  +  bias(0, j - 64)  for j ≥ 64:
  the accumulator is the zero word, the format changes are the identity at the extended reals, and a
  contraction read at an index is the sum over the contracted coordinate.
-/
import proofs.«217981_g19061064860210_cont_8to1_1320_37_alg».proof.Proof.TcLocal0
import proofs.«217981_g19061064860210_cont_8to1_1320_37_alg».proof.Proof.TcReg0

set_option maxRecDepth 16384

noncomputable section

namespace Cert.KernelIdeal.Tc

open Cert.KernelIdeal Cert.KernelIdeal.Gen
open Idealize.ShloMosaic Idealize.ShloMosaic.TcCoe Idealize.ShloMosaic.ValueIdx
open Idealize.ShloMosaic.Pipeline (Window Dat)

/-- One product read at an index: the 64 × 8192 block read transposed times the 64 × 64 weights, onto the zero
    accumulator, at (r, n) is Σ_k T(k, r) · W(k, n). -/
theorem matmulT_apply (v : FVec Ideal S64x8192 .bf16) (w : FVec Ideal S64x64 .bf16) (r : Fin 8192) (n : Fin 64) :
    matmul dot_S64x8192_S64x64_S8192x64_0_0_1_1_n_n none v w (constant S8192x64 .f32 0x00000000#32) (ix2 r n)
      = ∑ k : Fin 64, v (ix2 k r) * w (ix2 k n) := by
  show FloatOps.matmul _ none v w (constant S8192x64 .f32 0x00000000#32) (ix2 r n) = _
  rw [Ideal.matmul_constant_zero_apply,
    ← Equiv.sum_comp (contrEquiv1 dot_S64x8192_S64x64_S8192x64_0_0_1_1_n_n 64 rfl rfl).symm]
  refine Finset.sum_congr rfl fun c _ => ?_
  have c2 := contrEquiv1_symm_val dot_S64x8192_S64x64_S8192x64_0_0_1_1_n_n 64 rfl rfl c
  have l2 : dot_S64x8192_S64x64_S8192x64_0_0_1_1_n_n.lhsIdx (ix2 r n)
      ((contrEquiv1 dot_S64x8192_S64x64_S8192x64_0_0_1_1_n_n 64 rfl rfl).symm c) = ix2 c r := by
    funext ax; apply Fin.ext
    match ax with
    | ⟨0, _⟩ => exact (DotDims.lhsIdx_val_of_single _ (cl := (0 : Fin 2)) rfl _ _).trans c2
    | ⟨1, _⟩ => rfl
  have r2 : dot_S64x8192_S64x64_S8192x64_0_0_1_1_n_n.rhsIdx (ix2 r n)
      ((contrEquiv1 dot_S64x8192_S64x64_S8192x64_0_0_1_1_n_n 64 rfl rfl).symm c) = ix2 c n := by
    funext ax; apply Fin.ext
    match ax with
    | ⟨0, _⟩ => exact (DotDims.rhsIdx_val_of_single _ (cr := (0 : Fin 2)) rfl _ _).trans c2
    | ⟨1, _⟩ => rfl
  rw [l2, r2]

/-- The payload's left half at an index: entry (r, n), n < 64, is the first product's. -/
theorem k0_pay1_left (v0 v6 : Vec Ideal S64x8192 .f32) (v3 v9 : Vec Ideal S64x64 .bf16) (v12 : Vec Ideal S1x64 .f32)
    (r : Fin 8192) (n : Fin 64) :
    k0_pay1 v0 v3 v6 v9 v12 (ix2 r (⟨n.val, by have := n.isLt; omega⟩ : Fin 128) : S8192x128.Idx)
      = ∑ k : Fin 64, v0 (ix2 k r) * v3 (ix2 k n) := by
  unfold k0_pay1
  rw [concatenate_pair_apply_left (t := S8192x128) (s₁ := S8192x64) (s₂ := S8192x64) (1 : Fin 2) _ _ _
    (ix2 r (⟨n.val, by have := n.isLt; omega⟩ : Fin 128) : S8192x128.Idx) rfl (ix2 r n : S8192x64.Idx)
    (fun b => by match b with | ⟨0, _⟩ => rfl | ⟨1, _⟩ => rfl)]
  rw [matmulT_apply]
  refine Finset.sum_congr rfl fun k _ => ?_
  show shapeCast S64x8192 v0 shapeCasts_S64x8192_S64x8192 (ix2 k r) * shapeCast S64x64 v3 shapeCasts_S64x64_S64x64 (ix2 k n) = _
  rw [shapeCast_self, shapeCast_self]

/-- The payload's right half at an index: entry (r, 64 + n) is the second product's plus the bias. -/
theorem k0_pay1_right (v0 v6 : Vec Ideal S64x8192 .f32) (v3 v9 : Vec Ideal S64x64 .bf16) (v12 : Vec Ideal S1x64 .f32)
    (r : Fin 8192) (n : Fin 64) :
    k0_pay1 v0 v3 v6 v9 v12 (ix2 r (⟨64 + n.val, by have := n.isLt; omega⟩ : Fin 128) : S8192x128.Idx)
      = (∑ k : Fin 64, v6 (ix2 k r) * v9 (ix2 k n)) + v12 (ix2 (0 : Fin 1) n) := by
  unfold k0_pay1
  rw [concatenate_pair_apply_right (t := S8192x128) (s₁ := S8192x64) (s₂ := S8192x64) (1 : Fin 2) _ _ _
    (ix2 r (⟨64 + n.val, by have := n.isLt; omega⟩ : Fin 128) : S8192x128.Idx) rfl rfl (ix2 r n : S8192x64.Idx)
    (fun b hb => by match b with | ⟨0, _⟩ => rfl | ⟨1, _⟩ => exact absurd rfl hb)
    (by show n.val + 64 = 64 + n.val; omega)]
  show matmul dot_S64x8192_S64x64_S8192x64_0_0_1_1_n_n none _ _ _ (ix2 r n) + broadcastTo S8192x64 _ broadcasts_S1x64_S8192x64 (ix2 r n) = _
  rw [matmulT_apply, broadcastTo_apply _ broadcasts_S1x64_S8192x64 (ix2 r n) (ix2 (0 : Fin 1) n : S1x64.Idx)
    (fun a => by match a with | ⟨0, _⟩ => rfl | ⟨1, _⟩ => rfl)]
  simp only [shapeCast_self]
  rfl

/-! ## From the blocks to the array -/

/-- The windows' block indices and cuts at point t: the tables' blocks are (0, t), the output's (t, 0), the small
    windows' (0, 0); the tables are cut on their column axis, and the output on its row axis, to
    min(8192, 100000 - 8192 t); every other axis is whole. -/
theorem idx_facts0 : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_5.xsize (grid0.coords t) (0 : Fin 2) = min 8192 (100000 - 8192 * t.val)
    ∧ win0_5.xsize (grid0.coords t) (1 : Fin 2) = 128 :=
  (by decide +kernel : ∀ t : Fin grid0.N, _)

/-- What the output array of pallas call 0 ends holding, index by index, from the five input arrays (a0, a1 the
    transposed tables, a2, a3 the weight halves, a4 the bias row):
    at (R, j), j < 64:  Σ_k a0(k, R) · a2(k, j);  at (R, 64 + j):  Σ_k a1(k, R) · a3(k, j) + a4(0, j). -/
def G0_5 (a0 a1 : S64x100000.Idx → EReal) (a2 a3 : S64x64.Idx → EReal) (a4 : S1x64.Idx → EReal) : S100000x128.Idx → EReal := fun i =>
  if h : (i 1).val < 64 then
    ∑ k : Fin 64, a0 (ix2 k (i 0)) * a2 (ix2 k (⟨(i 1).val, h⟩ : Fin 64))
  else
    (∑ k : Fin 64, a1 (ix2 k (i 0)) * a3 (ix2 k (⟨(i 1).val - 64, by have : (i 1).val < 128 := (i 1).isLt; omega⟩ : Fin 64)))
      + a4 (ix2 (0 : Fin 1) (⟨(i 1).val - 64, by have : (i 1).val < 128 := (i 1).isLt; omega⟩ : Fin 64))

/-- G at an index of the left half, by coordinates. -/
theorem G0_5_left (a0 a1 : S64x100000.Idx → EReal) (a2 a3 : S64x64.Idx → EReal) (a4 : S1x64.Idx → EReal)
    (R : Fin 100000) (n : Fin 64) (i : S100000x128.Idx) (h0 : i 0 = R) (h1 : (i 1).val = n.val) :
    G0_5 a0 a1 a2 a3 a4 i = ∑ k : Fin 64, a0 (ix2 k R) * a2 (ix2 k n) := by
  have hlt : (i 1).val < 64 := by rw [h1]; exact n.isLt
  have e : (⟨(i 1).val, hlt⟩ : Fin 64) = n := Fin.ext h1
  unfold G0_5; rw [dif_pos hlt, e, h0]

/-- G at an index of the right half, by coordinates. -/
theorem G0_5_right (a0 a1 : S64x100000.Idx → EReal) (a2 a3 : S64x64.Idx → EReal) (a4 : S1x64.Idx → EReal)
    (R : Fin 100000) (n : Fin 64) (i : S100000x128.Idx) (h0 : i 0 = R) (h1 : (i 1).val = 64 + n.val) :
    G0_5 a0 a1 a2 a3 a4 i = (∑ k : Fin 64, a1 (ix2 k R) * a3 (ix2 k n)) + a4 (ix2 (0 : Fin 1) n) := by
  have hge : ¬ (i 1).val < 64 := by rw [h1]; omega
  have e : ∀ h, (⟨(i 1).val - 64, h⟩ : Fin 64) = n := fun h => Fin.ext (by show (i 1).val - 64 = n.val; omega)
  unfold G0_5; rw [dif_neg hge, e, h0]

variable {Ix : Type} [DecidableEq Ix] {Name : Type} [DecidableEq Name] {U : Type} [Idealize.SL.RA.URA U] {Lvl : Type} [Preorder Lvl]
variable (c : Dev nD) (A : (w : Fin cfg0.W) → Buf (Elt Ideal) ((cfg0.win w).arr.view.loc (c.tc : Thread nD τ)))

/-- G of the five input arrays as the region finds them. -/
abbrev GA0 : S100000x128.Idx → EReal := G0_5 (A 0) (A 1) (A 2) (A 3) (A 4)

/-- A table block filled out with the zero word, read inside the array: column r of block t is column 8192 t + r. -/
theorem blkz0_0_read (t : Fin cfg0.N) (k : Fin 64) (r : Fin 8192) (R : Fin 100000) (hR : R.val = 8192 * t.val + r.val) :
    blkz0_0 c A t (ix2 k r) = (A 0 : S64x100000.Idx → EReal) (ix2 k R) := by
  obtain ⟨i00, i01, -, -, -, -, -, -, -, -, -, -, x50, -⟩ := idx_facts0 t
  obtain ⟨e00, -, e5, -⟩ := xsize0_facts (grid0.coords t)
  have hm : win0_0.moved (grid0.coords t) (ix2 k r) = true := (win0_0.moved_iff _ _).mpr fun a => by
    match a with
    | ⟨0, _⟩ => show k.val < win0_0.xsize (grid0.coords t) 0; rw [e00]; exact k.isLt
    | ⟨1, _⟩ => show r.val < win0_0.xsize (grid0.coords t) 1; rw [← e5, x50]; have := R.isLt; omega
  unfold blkz0_0 Window.fill; rw [dif_pos hm]
  show (A 0 : S64x100000.Idx → EReal) (((cfg0.win 0).blk t).view.emb _) = _
  refine congrArg (A 0 : S64x100000.Idx → EReal) (funext fun a => Fin.ext ?_)
  match a with
  | ⟨0, _⟩ => show win0_0.index t (0 : Fin 2) * 64 + 1 * k.val = k.val; rw [i00]; omega
  | ⟨1, _⟩ => show win0_0.index t (1 : Fin 2) * 8192 + 1 * r.val = R.val; rw [i01]; omega

theorem blkz0_1_read (t : Fin cfg0.N) (k : Fin 64) (r : Fin 8192) (R : Fin 100000) (hR : R.val = 8192 * t.val + r.val) :
    blkz0_1 c A t (ix2 k r) = (A 1 : S64x100000.Idx → EReal) (ix2 k R) := by
  obtain ⟨-, -, i10, i11, -, -, -, -, -, -, -, -, x50, -⟩ := idx_facts0 t
  obtain ⟨-, e10, -, e5'⟩ := xsize0_facts (grid0.coords t)
  have hm : win0_1.moved (grid0.coords t) (ix2 k r) = true := (win0_1.moved_iff _ _).mpr fun a => by
    match a with
    | ⟨0, _⟩ => show k.val < win0_1.xsize (grid0.coords t) 0; rw [e10]; exact k.isLt
    | ⟨1, _⟩ => show r.val < win0_1.xsize (grid0.coords t) 1; rw [← e5', x50]; have := R.isLt; omega
  unfold blkz0_1 Window.fill; rw [dif_pos hm]
  show (A 1 : S64x100000.Idx → EReal) (((cfg0.win 1).blk t).view.emb _) = _
  refine congrArg (A 1 : S64x100000.Idx → EReal) (funext fun a => Fin.ext ?_)
  match a with
  | ⟨0, _⟩ => show win0_1.index t (0 : Fin 2) * 64 + 1 * k.val = k.val; rw [i10]; omega
  | ⟨1, _⟩ => show win0_1.index t (1 : Fin 2) * 8192 + 1 * r.val = R.val; rw [i11]; omega

/-- The small windows' blocks are their whole arrays. -/
theorem iblk0_2_read (t : Fin cfg0.N) (k n : Fin 64) : iblk0 c A 2 t (ix2 k n) = (A 2 : S64x64.Idx → EReal) (ix2 k n) := by
  obtain ⟨-, -, -, -, i20, i21, -, -, -, -, -, -, -, -⟩ := idx_facts0 t
  show (A 2 : S64x64.Idx → EReal) (((cfg0.win 2).blk t).view.emb _) = _
  refine congrArg (A 2 : S64x64.Idx → EReal) (funext fun a => Fin.ext ?_)
  match a with
  | ⟨0, _⟩ => show win0_2.index t (0 : Fin 2) * 64 + 1 * k.val = k.val; rw [i20]; omega
  | ⟨1, _⟩ => show win0_2.index t (1 : Fin 2) * 64 + 1 * n.val = n.val; rw [i21]; omega
theorem iblk0_3_read (t : Fin cfg0.N) (k n : Fin 64) : iblk0 c A 3 t (ix2 k n) = (A 3 : S64x64.Idx → EReal) (ix2 k n) := by
  obtain ⟨-, -, -, -, -, -, i30, i31, -, -, -, -, -, -⟩ := idx_facts0 t
  show (A 3 : S64x64.Idx → EReal) (((cfg0.win 3).blk t).view.emb _) = _
  refine congrArg (A 3 : S64x64.Idx → EReal) (funext fun a => Fin.ext ?_)
  match a with
  | ⟨0, _⟩ => show win0_3.index t (0 : Fin 2) * 64 + 1 * k.val = k.val; rw [i30]; omega
  | ⟨1, _⟩ => show win0_3.index t (1 : Fin 2) * 64 + 1 * n.val = n.val; rw [i31]; omega
theorem iblk0_4_read (t : Fin cfg0.N) (n : Fin 64) : iblk0 c A 4 t (ix2 (0 : Fin 1) n) = (A 4 : S1x64.Idx → EReal) (ix2 (0 : Fin 1) n) := by
  obtain ⟨-, -, -, -, -, -, -, -, i40, i41, -, -, -, -⟩ := idx_facts0 t
  show (A 4 : S1x64.Idx → EReal) (((cfg0.win 4).blk t).view.emb _) = _
  refine congrArg (A 4 : S1x64.Idx → EReal) (funext fun a => Fin.ext ?_)
  match a with
  | ⟨0, _⟩ => show win0_4.index t (0 : Fin 2) * 1 + 1 * 0 = 0; rw [i40]
  | ⟨1, _⟩ => show win0_4.index t (1 : Fin 2) * 64 + 1 * n.val = n.val; rw [i41]; omega

local notation "𝕄" => MT nD τ sig Ix (Elt Ideal) Name U Lvl

set_option maxHeartbeats 2000000 in
/-- What point t writes back is block t of G, on the rows inside the array. -/
theorem flushed0_5_eq (Φ₀ : Idealize.SL.BI.sProp 𝕄) (O : CellTallies nD τ sig Ix) (B : Set (SemLoc sig × Ix)) (t : Fin cfg0.N) :
    (dats0 (F := Ideal) (Ix := Ix) (Name := Name) (U := U) (Lvl := Lvl) c A Φ₀ O B).flushed 5 t = ((cfg0.win 5).blk t).view.read (Elt Ideal) (GA0 c A) := by
  show (cfg0.win 5).cut (grid0.coords t) ((dats0 (F := Ideal) (Ix := Ix) (Name := Name) (U := U) (Lvl := Lvl) c A Φ₀ O B).after 5 t) = _
  rw [after0_5]
  obtain ⟨-, -, -, -, -, -, -, -, -, -, i50, i51, x50, x51⟩ := idx_facts0 t
  have hz : (![0, 0] : Fin 2 → Nat) = fun _ => 0 := funext fun a => by fin_cases a <;> rfl
  funext j
  have hj0 : (j 0).val < min 8192 (100000 - 8192 * t.val) := by
    have h : (j 0).val < win0_5.xsize (grid0.coords t) (0 : Fin 2) := (j 0).isLt
    rw [x50] at h; exact h
  have hj1 : (j 1).val < 128 := by
    have h : (j 1).val < win0_5.xsize (grid0.coords t) (1 : Fin 2) := (j 1).isLt
    rw [x51] at h; exact h
  have ht : t.val < 13 := lt_of_lt_of_eq t.isLt N_0
  let r : Fin 8192 := ⟨(j 0).val, by omega⟩
  let R : Fin 100000 := ⟨8192 * t.val + (j 0).val, by omega⟩
  have hE0 : (((cfg0.win 5).blk t).view.emb j) 0 = R :=
    Fin.ext (by show win0_5.index t (0 : Fin 2) * 8192 + 1 * (j 0).val = 8192 * t.val + (j 0).val; rw [i50]; omega)
  have hE1 : ((((cfg0.win 5).blk t).view.emb j) 1).val = (j 1).val := by
    show win0_5.index t (1 : Fin 2) * 128 + 1 * (j 1).val = _; rw [i51]; omega
  show out0_5 (F := Ideal) (blkz0_0 c A t) (blkz0_1 c A t) (iblk0 c A 2 t) (iblk0 c A 3 t) (iblk0 c A 4 t) (win0_5.xinj (grid0.coords t) j)
    = G0_5 (A 0) (A 1) (A 2) (A 3) (A 4) (((cfg0.win 5).blk t).view.emb j)
  unfold out0_5
  rw [View.canon_unit_zero hz]
  simp only [View.ld_unit_zero (S := S64x8192) hz, View.ld_unit_zero (S := S64x64) hz, View.ld_unit_zero (S := S1x64) hz]
  by_cases hc : (j 1).val < 64
  · let n : Fin 64 := ⟨(j 1).val, hc⟩
    have eJ : win0_5.xinj (grid0.coords t) j = (ix2 r (⟨n.val, by omega⟩ : Fin 128) : S8192x128.Idx) :=
      funext fun a => by match a with | ⟨0, _⟩ => rfl | ⟨1, _⟩ => rfl
    rw [eJ, k0_pay1_left, G0_5_left _ _ _ _ _ R n _ hE0 hE1]
    refine Finset.sum_congr rfl fun k _ => ?_
    rw [blkz0_0_read c A t k r R rfl, iblk0_2_read c A t k n]
  · let n : Fin 64 := ⟨(j 1).val - 64, by omega⟩
    have eJ : win0_5.xinj (grid0.coords t) j = (ix2 r (⟨64 + n.val, by omega⟩ : Fin 128) : S8192x128.Idx) :=
      funext fun a => by
        match a with
        | ⟨0, _⟩ => rfl
        | ⟨1, _⟩ => exact Fin.ext (by show (j 1).val = 64 + ((j 1).val - 64); omega)
    rw [eJ, k0_pay1_right, G0_5_right _ _ _ _ _ R n _ hE0 (by rw [hE1]; show (j 1).val = 64 + ((j 1).val - 64); omega),
      iblk0_4_read c A t n]
    refine congrArg (fun x : EReal => x + (A 4 : S1x64.Idx → EReal) (ix2 (0 : Fin 1) n)) (Finset.sum_congr rfl fun k _ => ?_)
    rw [blkz0_1_read c A t k r R rfl, iblk0_3_read c A t k n]

/-- An index of the output array is in point t's block iff each coordinate is in the block's range on its axis,
    the range cut at the array's end. -/
theorem mem_blk0_5 (t : Fin cfg0.N) (i : S100000x128.Idx) :
    i ∈ ((cfg0.win 5).blk t).view.set ↔ ∀ a : Fin 2, win0_5.index t a * S8192x128.size a ≤ (i a).val
      ∧ (i a).val < win0_5.index t a * S8192x128.size a + win0_5.xsize (grid0.coords t) a := by
  show i ∈ ((View.whole main_v9).slice (win0_5.rect t)).set ↔ _
  rw [View.set_slice_whole, Rect.mem_set_unit]
  exact Iff.rfl

/-- The thirteen blocks, the last cut at row 100000, tile the output array: row R is in the block of point R / 8192. -/
theorem cover0_5_arr (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  let t : Fin cfg0.N := ⟨(i 0).val / 8192, by show (i 0).val / 8192 < grid0.N; rw [N_0]; omega⟩
  refine ⟨t, flush0_5 t, ?_⟩
  rw [mem_blk0_5]
  obtain ⟨-, -, -, -, -, -, -, -, -, -, i50, i51, x50, x51⟩ := idx_facts0 t
  intro a
  match a with
  | ⟨0, _⟩ =>
    show win0_5.index t (0 : Fin 2) * 8192 ≤ (i 0).val ∧ (i 0).val < win0_5.index t (0 : Fin 2) * 8192 + win0_5.xsize (grid0.coords t) (0 : Fin 2)
    rw [i50, x50]; show (i 0).val / 8192 * 8192 ≤ _ ∧ _ < (i 0).val / 8192 * 8192 + min 8192 (100000 - 8192 * ((i 0).val / 8192)); omega
  | ⟨1, _⟩ =>
    show win0_5.index t (1 : Fin 2) * 128 ≤ (i 1).val ∧ (i 1).val < win0_5.index t (1 : Fin 2) * 128 + win0_5.xsize (grid0.coords t) (1 : Fin 2)
    rw [i51, x51]; omega

/-- The output array of pallas call 0 after the region is G of the five input arrays as the region found them:
    at (R, j), j < 64, Σ_k A0(k, R) · A2(k, j); at (R, 64 + j), Σ_k A1(k, R) · A3(k, j) + A4(0, j). -/
theorem final0_5 (Φ₀ : Idealize.SL.BI.sProp 𝕄) (O : CellTallies nD τ sig Ix) (B : Set (SemLoc sig × Ix)) :
    (dats0 (F := Ideal) (Ix := Ix) (Name := Name) (U := U) (Lvl := Lvl) c A Φ₀ O B).arrAt 5 cfg0.N = GA0 c A :=
  (dats0 (F := Ideal) (Ix := Ix) (Name := Name) (U := U) (Lvl := Lvl) c A Φ₀ O B).arrAt_eq_of_cover 5 (GA0 c A) (fun t _ => flushed0_5_eq c A Φ₀ O B t) cover0_5_arr

/-- The same, of the buffers after the region: the region's exit valuation at the output array. -/
theorem exitW0_out (W0 : Dev nD → Valuation τ sig (Elt Ideal)) (O0 : Dev nD → CellTallies nD τ sig Ix)
    (B0 : Dev nD → Set (SemLoc sig × Ix)) (c : Dev nD) :
    exitW0 Name U Lvl W0 O0 B0 c (Proc.devRef .tc (Pipeline.arrRef spec0 5))
      = GA0 c (fun w => valTc W0 c (Pipeline.arrRef spec0 w)) :=
  (exitW0_arr W0 O0 B0 c 5).trans (final0_5 c _ _ _ _)

end Cert.KernelIdeal.Tc

end
-- ==== Proof.TcSpecLink0.lean ====
/-
  The output of TensorCore pallas call 0 is the specification's combined table.

  Pallas call 0 is fed the two embedding tables transposed, the low half of the first network's
  first-layer weights and the high half of the second network's, both transposed, and the second
  network's first-layer bias as a row.  Its output row R is then the combined table's row R: columns
  0 … 63 the item row contracted with the low 64 weight columns, columns 64 … 127 the per-row table's
  row contracted with the high 64 weight columns, plus the bias.
-/
import proofs.«217981_g19061064860210_cont_8to1_1320_37_alg».proof.Proof.TcVal0
import proofs.«217981_g19061064860210_cont_8to1_1320_37_alg».proof.Proof.KSpec

set_option maxRecDepth 16384

noncomputable section

namespace Cert.KernelIdeal.Tc

open Cert.KernelIdeal Cert.KernelIdeal.Gen Cert.Proof.Spec
open Idealize.ShloMosaic Idealize.ShloMosaic.TcCoe Idealize.ShloMosaic.ValueIdx

variable (A3 A4 : (⟨2, ![100000, 64]⟩ : Shape).Idx → EReal)
  (W6 : (⟨2, ![64, 128]⟩ : Shape).Idx → EReal) (W10 : (⟨2, ![64, 128]⟩ : Shape).Idx → EReal) (b11 : (⟨1, ![64]⟩ : Shape).Idx → EReal)
  (a0 a1 : S64x100000.Idx → EReal) (a2 a3 : S64x64.Idx → EReal) (a4 : S1x64.Idx → EReal)

/-- The left half of the output row is the combined table's low half. -/
theorem G0_5_ctLo (h0 : ∀ (k : Fin 64) (R : Fin 100000), a0 (ix2 k R) = A4 (ix2 R k))
    (h2 : ∀ k j : Fin 64, a2 (ix2 k j) = W6 (ix2 j (⟨k.val, by have := k.isLt; omega⟩ : Fin 128)))
    (R : Fin 100000) (j : Fin 64) :
    G0_5 a0 a1 a2 a3 a4 (ix2 R (⟨j.val, by have := j.isLt; omega⟩ : Fin 128) : S100000x128.Idx) = ctLo A4 W6 R j := by
  rw [G0_5_left a0 a1 a2 a3 a4 R j _ rfl rfl]
  unfold ctLo
  exact Finset.sum_congr rfl fun k _ => by rw [h0, h2]

/-- The right half of the output row is the combined table's high half. -/
theorem G0_5_ctHi (h1 : ∀ (k : Fin 64) (R : Fin 100000), a1 (ix2 k R) = A3 (ix2 R k))
    (h3 : ∀ k j : Fin 64, a3 (ix2 k j) = W10 (ix2 j (⟨64 + k.val, by have := k.isLt; omega⟩ : Fin 128)))
    (h4 : ∀ j : Fin 64, a4 (ix2 (0 : Fin 1) j) = b11 (ix1 j))
    (R : Fin 100000) (j : Fin 64) :
    G0_5 a0 a1 a2 a3 a4 (ix2 R (⟨64 + j.val, by have := j.isLt; omega⟩ : Fin 128) : S100000x128.Idx) = ctHi A3 W10 b11 R j := by
  rw [G0_5_right a0 a1 a2 a3 a4 R j _ rfl rfl]
  unfold ctHi
  rw [h4]
  exact congrArg (fun x : EReal => x + b11 (ix1 j)) (Finset.sum_congr rfl fun k _ => by rw [h1, h3])

variable {Ix : Type} [DecidableEq Ix] {Name : Type} [DecidableEq Name] {U : Type} [Idealize.SL.RA.URA U] {Lvl : Type} [Preorder Lvl]

/-- The same of the buffers after the region: the exit valuation at the output array is the combined table, given the
    index equations of the entry valuation's five input arrays A w := valTc W0 c (arrRef spec0 w). -/
theorem exitW0_spec (W0 : Dev nD → Valuation τ sig (Elt Ideal)) (O0 : Dev nD → CellTallies nD τ sig Ix)
    (B0 : Dev nD → Set (SemLoc sig × Ix)) (c : Dev nD)
    (h0 : ∀ (k : Fin 64) (R : Fin 100000), (valTc W0 c (Pipeline.arrRef spec0 0) : S64x100000.Idx → EReal) (ix2 k R) = A4 (ix2 R k))
    (h1 : ∀ (k : Fin 64) (R : Fin 100000), (valTc W0 c (Pipeline.arrRef spec0 1) : S64x100000.Idx → EReal) (ix2 k R) = A3 (ix2 R k))
    (h2 : ∀ k j : Fin 64, (valTc W0 c (Pipeline.arrRef spec0 2) : S64x64.Idx → EReal) (ix2 k j) = W6 (ix2 j (⟨k.val, by have := k.isLt; omega⟩ : Fin 128)))
    (h3 : ∀ k j : Fin 64, (valTc W0 c (Pipeline.arrRef spec0 3) : S64x64.Idx → EReal) (ix2 k j) = W10 (ix2 j (⟨64 + k.val, by have := k.isLt; omega⟩ : Fin 128)))
    (h4 : ∀ j : Fin 64, (valTc W0 c (Pipeline.arrRef spec0 4) : S1x64.Idx → EReal) (ix2 (0 : Fin 1) j) = b11 (ix1 j))
    (R : Fin 100000) (j : Fin 64) :
    (exitW0 Name U Lvl W0 O0 B0 c (Proc.devRef .tc (Pipeline.arrRef spec0 5)) : S100000x128.Idx → EReal)
        (ix2 R (⟨j.val, by have := j.isLt; omega⟩ : Fin 128)) = ctLo A4 W6 R j
    ∧ (exitW0 Name U Lvl W0 O0 B0 c (Proc.devRef .tc (Pipeline.arrRef spec0 5)) : S100000x128.Idx → EReal)
        (ix2 R (⟨64 + j.val, by have := j.isLt; omega⟩ : Fin 128)) = ctHi A3 W10 b11 R j := by
  rw [exitW0_out W0 O0 B0 c]
  exact ⟨G0_5_ctLo A4 W6 _ _ _ _ _ h0 h2 R j, G0_5_ctHi A3 W10 b11 _ _ _ _ _ h1 h3 h4 R j⟩

end Cert.KernelIdeal.Tc

end
-- ==== Proof.TcFinal2.lean ====
/-
  The output array of TensorCore pallas call 2 after its region, in closed form.

  The output is a 2048 × 64 array written back in sixteen 128 × 64 row blocks, one per grid point, and
  the blocks tile it.  Point t writes back the payload of the thirteen input blocks at t, so after the
  region entry (n, d) of the array is the payload of the input blocks at point n / 128, read at
  (n mod 128, d): one function G of the arrays as the region finds them, index by index.  The input
  arrays are as the region found them.
-/
import proofs.«217981_g19061064860210_cont_8to1_1320_37_alg».proof.Proof.TcDat2
import Idealize.ShloMosaic.Lib.Pipeline.Value
import Idealize.ShloMosaic.Lib.ValueIdx

set_option maxRecDepth 16384

noncomputable section

namespace Cert.KernelIdeal.Tc

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The output window's block index at point t is (t, 0): row block t, the one column block. -/
theorem idx_facts2_13 : ∀ t : Fin cfg2.N, win2_13.index t (0 : Fin 2) = t.val ∧ win2_13.index t (1 : Fin 2) = 0 :=
  (by decide +kernel : ∀ t : Fin grid2.N, _)

/-- The grid point whose block holds row n of the output array: n / 128. -/
def tOf2 (i : S2048x64.Idx) : Fin cfg2.N := ⟨(i 0).val / 128, by have h : (i 0).val < 2048 := (i 0).isLt; show (i 0).val / 128 < grid2.N; rw [N_2]; omega⟩

/-- What the output array ends holding: at (n, d) the payload of the thirteen input blocks at point n / 128, read
    at (n mod 128, d). -/
def G2_13 (c : Dev nD) (A : (w : Fin cfg2.W) → Buf (Elt F) ((cfg2.win w).arr.view.loc (c.tc : Thread nD τ))) : S2048x64.Idx → Elt F .f32 := fun i =>
  out2_13 (iblk2 c A 0 (tOf2 i)) (iblk2 c A 1 (tOf2 i)) (iblk2 c A 2 (tOf2 i)) (iblk2 c A 3 (tOf2 i)) (iblk2 c A 4 (tOf2 i)) (iblk2 c A 5 (tOf2 i)) (iblk2 c A 6 (tOf2 i)) (iblk2 c A 7 (tOf2 i)) (iblk2 c A 8 (tOf2 i)) (iblk2 c A 9 (tOf2 i)) (iblk2 c A 10 (tOf2 i)) (iblk2 c A 11 (tOf2 i)) (iblk2 c A 12 (tOf2 i))
    (ix2 (⟨(i 0).val % 128, Nat.mod_lt _ (by decide)⟩ : Fin 128) (i 1))

variable (c : Dev nD) (A : (w : Fin cfg2.W) → Buf (Elt F) ((cfg2.win w).arr.view.loc (c.tc : Thread nD τ)))

/-- What point t writes back is block t of G. -/
theorem flushed2_13_eq (Φ₀ : sProp 𝕄) (O : CellTallies nD τ sig Ix) (B : Set (SemLoc sig × Ix)) (t : Fin cfg2.N) :
    (dats2 (F := F) (Ix := Ix) (Name := Name) (U := U) (Lvl := Lvl) c A Φ₀ O B).flushed 13 t = ((cfg2.win 13).blk t).view.read (Elt F) (G2_13 c A) := by
  show (cfg2.win 13).cut (grid2.coords t) ((dats2 (F := F) (Ix := Ix) (Name := Name) (U := U) (Lvl := Lvl) c A Φ₀ O B).after 13 t) = _
  rw [after2_13]
  obtain ⟨e0, e1⟩ := idx_facts2_13 t
  funext j
  have hj0 : (j 0).val < 128 := (j 0).isLt
  have hj1 : (j 1).val < 64 := (j 1).isLt
  have h0 : ((((cfg2.win 13).blk t).view.emb j) 0).val = t.val * 128 + (j 0).val := by
    show win2_13.index t (0 : Fin 2) * 128 + 1 * (j 0).val = _; rw [e0]; omega
  have h1 : ((((cfg2.win 13).blk t).view.emb j) 1).val = (j 1).val := by
    show win2_13.index t (1 : Fin 2) * 64 + 1 * (j 1).val = _; rw [e1]; omega
  have et : tOf2 (((cfg2.win 13).blk t).view.emb j) = t := Fin.ext (by show _ / 128 = t.val; rw [h0]; omega)
  show out2_13 (iblk2 c A 0 t) (iblk2 c A 1 t) (iblk2 c A 2 t) (iblk2 c A 3 t) (iblk2 c A 4 t) (iblk2 c A 5 t) (iblk2 c A 6 t) (iblk2 c A 7 t) (iblk2 c A 8 t) (iblk2 c A 9 t) (iblk2 c A 10 t) (iblk2 c A 11 t) (iblk2 c A 12 t) j = G2_13 c A (((cfg2.win 13).blk t).view.emb j)
  unfold G2_13
  rw [et]
  congr 1
  funext a
  match a with
  | ⟨0, _⟩ => exact Fin.ext (by show (j 0).val = _ % 128; rw [h0]; omega)
  | ⟨1, _⟩ => exact Fin.ext h1.symm

/-- An index of the output array is in point t's block iff each coordinate is in the block's range on its axis. -/
theorem mem_blk2_13 (t : Fin cfg2.N) (i : S2048x64.Idx) :
    i ∈ ((cfg2.win 13).blk t).view.set ↔ ∀ a : Fin 2, win2_13.index t a * S128x64.size a ≤ (i a).val ∧ (i a).val < win2_13.index t a * S128x64.size a + S128x64.size a := by
  show i ∈ ((View.whole main_v36).slice (win2_13.rect t)).set ↔ _
  rw [View.set_slice_whole, Rect.mem_set_unit]
  exact Iff.rfl

/-- The sixteen blocks tile the output array: row n is in the block of point n / 128. -/
theorem cover2_13_arr (i : S2048x64.Idx) :
    ∃ t : Fin cfg2.N, (cfg2.win 13).flush t = true ∧ i ∈ ((cfg2.win 13).blk t).view.set := by
  refine ⟨tOf2 i, flush2_13 _, ?_⟩
  rw [mem_blk2_13]
  obtain ⟨e0, e1⟩ := idx_facts2_13 (tOf2 i)
  have hi1 : (i 1).val < 64 := (i 1).isLt
  intro a
  match a with
  | ⟨0, _⟩ => show win2_13.index (tOf2 i) (0 : Fin 2) * 128 ≤ (i 0).val ∧ (i 0).val < win2_13.index (tOf2 i) (0 : Fin 2) * 128 + 128; rw [e0]; show (i 0).val / 128 * 128 ≤ _ ∧ _ < (i 0).val / 128 * 128 + 128; omega
  | ⟨1, _⟩ => show win2_13.index (tOf2 i) (1 : Fin 2) * 64 ≤ (i 1).val ∧ (i 1).val < win2_13.index (tOf2 i) (1 : Fin 2) * 64 + 64; rw [e1]; omega

/-- The output array after the region is G of the arrays as the region found them. -/
theorem final2_13 (Φ₀ : sProp 𝕄) (O : CellTallies nD τ sig Ix) (B : Set (SemLoc sig × Ix)) : (dats2 (F := F) (Ix := Ix) (Name := Name) (U := U) (Lvl := Lvl) c A Φ₀ O B).arrAt 13 cfg2.N = G2_13 c A :=
  (dats2 (F := F) (Ix := Ix) (Name := Name) (U := U) (Lvl := Lvl) c A Φ₀ O B).arrAt_eq_of_cover 13 (G2_13 c A) (fun t _ => flushed2_13_eq c A Φ₀ O B t) (cover2_13_arr)

end Cert.KernelIdeal.Tc

end
-- ==== Proof.TcVal2.lean ====
/-
  The output of TensorCore pallas calls 2 and 4 at an index, at the extended reals, in the body's own
  arrangement.

  The body ends by dividing, for each of its 128 rows n and 64 columns d, the sum over the 50 history
  slots l of  o(l, n, d) · e(l, n)  by the row's denominator  s(n):  e is the exponential of the
  shifted scores, s its sum over the slots, o the rectified features.  Read at an index that is
      out(n, d) = ( Σ_l o(l, n, d) · e(l, n) ) / s(n),      s(n) = Σ_l e(l, n),
  the division the extended reals' (total) one.
-/
import proofs.«217981_g19061064860210_cont_8to1_1320_37_alg».proof.Proof.TcFinal2
import proofs.«217981_g19061064860210_cont_8to1_1320_37_alg».proof.Proof.TcReg2
import Idealize.ShloMosaic.PureOps.Ideal.Laws
import Idealize.ShloMosaic.Lib.ValueIdx
import Idealize.ShloMosaic.Lib.Pipeline.Value

set_option maxRecDepth 16384

noncomputable section

namespace Cert.KernelIdeal.Tc

open Cert.KernelIdeal Cert.KernelIdeal.Gen
open Idealize.ShloMosaic Idealize.ShloMosaic.TcCoe Idealize.ShloMosaic.ValueIdx

/-- The slot axis put back: the index of the 50 × 128 × 64 source a sum over slots reads at slot l. -/
theorem lift_slot_64 (n : Fin 128) (d : Fin 64) (l : Fin 50) :
    reduces_S50x128x64_S128x64.lift (ix2 n d : S128x64.Idx) l = (ix3 l n d : S50x128x64.Idx) := by
  funext ax
  match ax with
  | ⟨0, _⟩ => rfl
  | ⟨1, _⟩ => rfl
  | ⟨2, _⟩ => rfl

/-- The final division of pallas call 2 at an index: (Σ_l o(l, n, d) · e(l, n)) / s(n). -/
theorem k2_pay1_apply (v75 : FVec Ideal S50x128x1 .f32) (v76 : FVec Ideal S128x1 .f32) (v78 : FVec Ideal S50x128x64 .f32)
    (n : Fin 128) (d : Fin 64) :
    k2_pay1 v75 v76 v78 (ix2 n d : S128x64.Idx)
      = Ideal.div (∑ l : Fin 50, v78 (ix3 l n d) * v75 (ix3 l n (0 : Fin 1))) (v76 (ix2 n (0 : Fin 1))) := by
  unfold k2_pay1
  show Ideal.div (multiReduction .add [0] S128x64 (mulf v78 (broadcastTo S50x128x64 v75 broadcasts_S50x128x1_S50x128x64))
      0x00000000#32 reduces_S50x128x64_S128x64 (.inl rfl) rfl (ix2 n d))
    (broadcastTo S128x64 v76 broadcasts_S128x1_S128x64 (ix2 n d)) = _
  refine (congrArg₂ Ideal.div
    (Ideal.multiReduction_add_single (mulf v78 (broadcastTo S50x128x64 v75 broadcasts_S50x128x1_S50x128x64)) 0x00000000#32
      reduces_S50x128x64_S128x64 (.inl rfl) rfl (ix2 n d))
    (broadcastTo_apply v76 broadcasts_S128x1_S128x64 (ix2 n d) (ix2 n (0 : Fin 1) : S128x1.Idx)
      (fun a => by match a with | ⟨0, _⟩ => rfl | ⟨1, _⟩ => rfl))).trans ?_
  refine congrArg (fun x : EReal => Ideal.div x (v76 (ix2 n (0 : Fin 1)))) (Finset.sum_congr rfl fun l _ => ?_)
  refine (congrArg (mulf v78 (broadcastTo S50x128x64 v75 broadcasts_S50x128x1_S50x128x64)) (lift_slot_64 n d l)).trans ?_
  exact congrArg (fun x : EReal => v78 (ix3 (l : Fin 50) n d) * x)
    (broadcastTo_apply v75 broadcasts_S50x128x1_S50x128x64 (ix3 (l : Fin 50) n d) (ix3 (l : Fin 50) n (0 : Fin 1) : S50x128x1.Idx)
      (fun a => by match a with | ⟨0, _⟩ => rfl | ⟨1, _⟩ => rfl | ⟨2, _⟩ => rfl))

/-- The slot axis put back, for a 50 × 128 × 1 source. -/
theorem lift_slot_1 (n : Fin 128) (l : Fin 50) :
    reduces_S50x128x1_S128x1.lift (ix2 n (0 : Fin 1) : S128x1.Idx) l = (ix3 l n (0 : Fin 1) : S50x128x1.Idx) := by
  funext ax
  match ax with
  | ⟨0, _⟩ => rfl
  | ⟨1, _⟩ => rfl
  | ⟨2, _⟩ => rfl

/-- The denominator at a row is the sum of the exponentials over the 50 slots. -/
theorem k2_pay5_apply (v33 : FVec Ideal S6400x64 .bf16) (v35 : FVec Ideal S128x128 .f32) (v42 v49 : Vec Ideal S64x64 .bf16)
    (v53 v59 : Vec Ideal S1x64 .bf16) (v66 : Vec Ideal S1x1 .f32) (n : Fin 128) :
    k2_pay5 v33 v35 v42 v49 v53 v59 v66 (ix2 n (0 : Fin 1) : S128x1.Idx)
      = ∑ l : Fin 50, k2_pay4 v33 v35 v42 v49 v53 v59 v66 (ix3 l n (0 : Fin 1)) := by
  unfold k2_pay5
  exact (Ideal.multiReduction_add_single (k2_pay4 v33 v35 v42 v49 v53 v59 v66) 0x00000000#32 reduces_S50x128x1_S128x1 (.inl rfl) rfl
    (ix2 n (0 : Fin 1))).trans (Finset.sum_congr rfl fun l _ => congrArg (k2_pay4 v33 v35 v42 v49 v53 v59 v66) (lift_slot_1 n l))

/-- The rectified features the body weights: o, a 50 × 128 × 64 block, from the seven blocks it is computed from. -/
def feat2 (x0 : Vec Ideal S50x128x128 .f32) (x2 : Vec Ideal S50x128x8 .i8) (x3 : Vec Ideal S8x64 .f32) (x4 : Vec Ideal S64x64 .f32)
    (x5 : Vec Ideal S1x64 .f32) (x6 : Vec Ideal S64x64 .bf16) (x7 : Vec Ideal S1x64 .bf16) : FVec Ideal S50x128x64 .f32 :=
  k2_pay6 (k2_pay2 x0 x3 x4 x5 x2 x6 x7)

/-- The exponentials of the shifted scores: e, a 50 × 128 × 1 block, from the thirteen input blocks. -/
def expo2 (x0 : Vec Ideal S50x128x128 .f32) (x1 : Vec Ideal S128x128 .f32) (x2 : Vec Ideal S50x128x8 .i8) (x3 : Vec Ideal S8x64 .f32)
    (x4 : Vec Ideal S64x64 .f32) (x5 : Vec Ideal S1x64 .f32) (x6 : Vec Ideal S64x64 .bf16) (x7 : Vec Ideal S1x64 .bf16)
    (x8 x9 : Vec Ideal S64x64 .bf16) (x10 x11 : Vec Ideal S1x64 .bf16) (x12 : Vec Ideal S1x1 .f32) : FVec Ideal S50x128x1 .f32 :=
  k2_pay4 (k2_pay2 x0 x3 x4 x5 x2 x6 x7) (k2_pay3 x1) x8 x9 x10 x11 x12

/-- What the body leaves in the output buffer, at an index: the softmax-weighted sum over the 50 slots of the
    rectified features, in the body's own arrangement  (Σ_l o·e) / (Σ_l e). -/
theorem out2_13_apply (x0 : Vec Ideal S50x128x128 .f32) (x1 : Vec Ideal S128x128 .f32) (x2 : Vec Ideal S50x128x8 .i8)
    (x3 : Vec Ideal S8x64 .f32) (x4 : Vec Ideal S64x64 .f32) (x5 : Vec Ideal S1x64 .f32) (x6 : Vec Ideal S64x64 .bf16)
    (x7 : Vec Ideal S1x64 .bf16) (x8 x9 : Vec Ideal S64x64 .bf16) (x10 x11 : Vec Ideal S1x64 .bf16) (x12 : Vec Ideal S1x1 .f32)
    (n : Fin 128) (d : Fin 64) :
    out2_13 x0 x1 x2 x3 x4 x5 x6 x7 x8 x9 x10 x11 x12 (ix2 n d : S128x64.Idx)
      = Ideal.div (∑ l : Fin 50, feat2 x0 x2 x3 x4 x5 x6 x7 (ix3 l n d) * expo2 x0 x1 x2 x3 x4 x5 x6 x7 x8 x9 x10 x11 x12 (ix3 l n (0 : Fin 1)))
          (∑ l : Fin 50, expo2 x0 x1 x2 x3 x4 x5 x6 x7 x8 x9 x10 x11 x12 (ix3 l n (0 : Fin 1))) := by
  have hz2 : (![0, 0] : Fin 2 → Nat) = fun _ => 0 := funext fun a => by fin_cases a <;> rfl
  have hz3 : (![0, 0, 0] : Fin 3 → Nat) = fun _ => 0 := funext fun a => by fin_cases a <;> rfl
  unfold out2_13
  rw [View.canon_unit_zero hz2]
  simp only [View.ld_unit_zero (S := S50x128x128) hz3, View.ld_unit_zero (S := S50x128x8) hz3, View.ld_unit_zero (S := S128x128) hz2,
    View.ld_unit_zero (S := S8x64) hz2, View.ld_unit_zero (S := S64x64) hz2, View.ld_unit_zero (S := S1x64) hz2,
    View.ld_unit_zero (S := S1x1) hz2]
  rw [k2_pay1_apply, k2_pay5_apply]
  rfl

/-! ## The output array after the region -/

variable {Ix : Type} [DecidableEq Ix] {Name : Type} [DecidableEq Name] {U : Type} [Idealize.SL.RA.URA U] {Lvl : Type} [Preorder Lvl]

/-- The output array of pallas call 2 after its region, at (b, d): with t = b / 128 the grid point whose block holds
    row b and n = b mod 128 the row inside it, the softmax-weighted sum  (Σ_l o·e) / (Σ_l e)  of the rectified
    features computed from the thirteen input blocks at point t. -/
theorem G2_13_apply (c : Dev nD) (A : (w : Fin cfg2.W) → Buf (Elt Ideal) ((cfg2.win w).arr.view.loc (c.tc : Thread nD τ)))
    (i : S2048x64.Idx) :
    G2_13 c A i
      = Ideal.div
          (∑ l : Fin 50, feat2 (iblk2 c A 0 (tOf2 i)) (iblk2 c A 2 (tOf2 i)) (iblk2 c A 3 (tOf2 i)) (iblk2 c A 4 (tOf2 i))
                (iblk2 c A 5 (tOf2 i)) (iblk2 c A 6 (tOf2 i)) (iblk2 c A 7 (tOf2 i))
                (ix3 l (⟨(i 0).val % 128, Nat.mod_lt _ (by decide)⟩ : Fin 128) (i 1))
              * expo2 (iblk2 c A 0 (tOf2 i)) (iblk2 c A 1 (tOf2 i)) (iblk2 c A 2 (tOf2 i)) (iblk2 c A 3 (tOf2 i)) (iblk2 c A 4 (tOf2 i)) (iblk2 c A 5 (tOf2 i)) (iblk2 c A 6 (tOf2 i)) (iblk2 c A 7 (tOf2 i)) (iblk2 c A 8 (tOf2 i)) (iblk2 c A 9 (tOf2 i)) (iblk2 c A 10 (tOf2 i)) (iblk2 c A 11 (tOf2 i)) (iblk2 c A 12 (tOf2 i)) (ix3 l (⟨(i 0).val % 128, Nat.mod_lt _ (by decide)⟩ : Fin 128) (0 : Fin 1)))
          (∑ l : Fin 50, expo2 (iblk2 c A 0 (tOf2 i)) (iblk2 c A 1 (tOf2 i)) (iblk2 c A 2 (tOf2 i)) (iblk2 c A 3 (tOf2 i)) (iblk2 c A 4 (tOf2 i)) (iblk2 c A 5 (tOf2 i)) (iblk2 c A 6 (tOf2 i)) (iblk2 c A 7 (tOf2 i)) (iblk2 c A 8 (tOf2 i)) (iblk2 c A 9 (tOf2 i)) (iblk2 c A 10 (tOf2 i)) (iblk2 c A 11 (tOf2 i)) (iblk2 c A 12 (tOf2 i)) (ix3 l (⟨(i 0).val % 128, Nat.mod_lt _ (by decide)⟩ : Fin 128) (0 : Fin 1))) := by
  unfold G2_13
  exact out2_13_apply _ _ _ _ _ _ _ _ _ _ _ _ _ _ _

/-- The same, of the buffers after the region: the region's exit valuation at the output array is G of the arrays
    as the region found them. -/
theorem exitW2_out (W2 : Dev nD → Valuation τ sig (Elt Ideal)) (O2 : Dev nD → CellTallies nD τ sig Ix)
    (B2 : Dev nD → Set (SemLoc sig × Ix)) (c : Dev nD) :
    exitW2 Name U Lvl W2 O2 B2 c (Proc.devRef .tc (Pipeline.arrRef spec2 13))
      = G2_13 c (fun w => valTc W2 c (Pipeline.arrRef spec2 w)) :=
  (exitW2_arr W2 O2 B2 c 13).trans (final2_13 c _ _ _ _)

end Cert.KernelIdeal.Tc

end
-- ==== Proof.TcVal2b.lean ====
/-
  Building blocks for reading the attention body's payloads at an index, at the extended reals.

  The body's matrix products are plain ones — rows of the left operand against columns of the right,
  onto a zero accumulator —, so entry (a, b) is  Σ_c A(a, c) · B(c, b).  Its [50, 128, ·] values and
  their [6400, ·] flattenings are the same data in row-major order: entry (l, n, d) of the one is
  entry (128 l + n, d) of the other.
-/
import proofs.«217981_g19061064860210_cont_8to1_1320_37_alg».proof.Proof.TcVal2

set_option maxRecDepth 16384

noncomputable section

namespace Cert.KernelIdeal.Tc

open Cert.KernelIdeal Cert.KernelIdeal.Gen
open Idealize.ShloMosaic Idealize.ShloMosaic.TcCoe Idealize.ShloMosaic.ValueIdx

/-- The plain product S6400x64 · S64x64 onto the zero accumulator, at an index: Σ_c A(a, c) · B(c, b). -/
theorem matmul_6400x64_64x64_apply {φ₁ φ₂ : FTy} (A : FVec Ideal S6400x64 φ₁) (B : FVec Ideal S64x64 φ₂) (a : Fin 6400) (b : Fin 64) :
    matmul dot_S6400x64_S64x64_S6400x64_1_0_0_1_n_n none A B (constant S6400x64 .f32 0x00000000#32) (ix2 a b)
      = ∑ c : Fin 64, A (ix2 a c) * B (ix2 c b) := by
  show FloatOps.matmul _ none A B (constant S6400x64 .f32 0x00000000#32) (ix2 a b) = _
  rw [Ideal.matmul_constant_zero_apply, ← Equiv.sum_comp (contrEquiv1 dot_S6400x64_S64x64_S6400x64_1_0_0_1_n_n 64 rfl rfl).symm]
  refine Finset.sum_congr rfl fun c _ => ?_
  have c2 := contrEquiv1_symm_val dot_S6400x64_S64x64_S6400x64_1_0_0_1_n_n 64 rfl rfl c
  have l2 : dot_S6400x64_S64x64_S6400x64_1_0_0_1_n_n.lhsIdx (ix2 a b) ((contrEquiv1 dot_S6400x64_S64x64_S6400x64_1_0_0_1_n_n 64 rfl rfl).symm c) = ix2 a c := by
    funext ax; apply Fin.ext
    match ax with
    | ⟨0, _⟩ => rfl
    | ⟨1, _⟩ => exact (DotDims.lhsIdx_val_of_single _ (cl := (1 : Fin 2)) rfl _ _).trans c2
  have r2 : dot_S6400x64_S64x64_S6400x64_1_0_0_1_n_n.rhsIdx (ix2 a b) ((contrEquiv1 dot_S6400x64_S64x64_S6400x64_1_0_0_1_n_n 64 rfl rfl).symm c) = ix2 c b := by
    funext ax; apply Fin.ext
    match ax with
    | ⟨0, _⟩ => exact (DotDims.rhsIdx_val_of_single _ (cr := (0 : Fin 2)) rfl _ _).trans c2
    | ⟨1, _⟩ => rfl
  rw [l2, r2]

/-- The plain product S6400x8 · S8x64 onto the zero accumulator, at an index: Σ_c A(a, c) · B(c, b). -/
theorem matmul_6400x8_8x64_apply {φ₁ φ₂ : FTy} (A : FVec Ideal S6400x8 φ₁) (B : FVec Ideal S8x64 φ₂) (a : Fin 6400) (b : Fin 64) :
    matmul dot_S6400x8_S8x64_S6400x64_1_0_0_1_n_n none A B (constant S6400x64 .f32 0x00000000#32) (ix2 a b)
      = ∑ c : Fin 8, A (ix2 a c) * B (ix2 c b) := by
  show FloatOps.matmul _ none A B (constant S6400x64 .f32 0x00000000#32) (ix2 a b) = _
  rw [Ideal.matmul_constant_zero_apply, ← Equiv.sum_comp (contrEquiv1 dot_S6400x8_S8x64_S6400x64_1_0_0_1_n_n 8 rfl rfl).symm]
  refine Finset.sum_congr rfl fun c _ => ?_
  have c2 := contrEquiv1_symm_val dot_S6400x8_S8x64_S6400x64_1_0_0_1_n_n 8 rfl rfl c
  have l2 : dot_S6400x8_S8x64_S6400x64_1_0_0_1_n_n.lhsIdx (ix2 a b) ((contrEquiv1 dot_S6400x8_S8x64_S6400x64_1_0_0_1_n_n 8 rfl rfl).symm c) = ix2 a c := by
    funext ax; apply Fin.ext
    match ax with
    | ⟨0, _⟩ => rfl
    | ⟨1, _⟩ => exact (DotDims.lhsIdx_val_of_single _ (cl := (1 : Fin 2)) rfl _ _).trans c2
  have r2 : dot_S6400x8_S8x64_S6400x64_1_0_0_1_n_n.rhsIdx (ix2 a b) ((contrEquiv1 dot_S6400x8_S8x64_S6400x64_1_0_0_1_n_n 8 rfl rfl).symm c) = ix2 c b := by
    funext ax; apply Fin.ext
    match ax with
    | ⟨0, _⟩ => exact (DotDims.rhsIdx_val_of_single _ (cr := (0 : Fin 2)) rfl _ _).trans c2
    | ⟨1, _⟩ => rfl
  rw [l2, r2]

/-- The plain product S8x64 · S64x64 onto the zero accumulator, at an index: Σ_c A(a, c) · B(c, b). -/
theorem matmul_8x64_64x64_apply {φ₁ φ₂ : FTy} (A : FVec Ideal S8x64 φ₁) (B : FVec Ideal S64x64 φ₂) (a : Fin 8) (b : Fin 64) :
    matmul dot_S8x64_S64x64_S8x64_1_0_0_1_n_n none A B (constant S8x64 .f32 0x00000000#32) (ix2 a b)
      = ∑ c : Fin 64, A (ix2 a c) * B (ix2 c b) := by
  show FloatOps.matmul _ none A B (constant S8x64 .f32 0x00000000#32) (ix2 a b) = _
  rw [Ideal.matmul_constant_zero_apply, ← Equiv.sum_comp (contrEquiv1 dot_S8x64_S64x64_S8x64_1_0_0_1_n_n 64 rfl rfl).symm]
  refine Finset.sum_congr rfl fun c _ => ?_
  have c2 := contrEquiv1_symm_val dot_S8x64_S64x64_S8x64_1_0_0_1_n_n 64 rfl rfl c
  have l2 : dot_S8x64_S64x64_S8x64_1_0_0_1_n_n.lhsIdx (ix2 a b) ((contrEquiv1 dot_S8x64_S64x64_S8x64_1_0_0_1_n_n 64 rfl rfl).symm c) = ix2 a c := by
    funext ax; apply Fin.ext
    match ax with
    | ⟨0, _⟩ => rfl
    | ⟨1, _⟩ => exact (DotDims.lhsIdx_val_of_single _ (cl := (1 : Fin 2)) rfl _ _).trans c2
  have r2 : dot_S8x64_S64x64_S8x64_1_0_0_1_n_n.rhsIdx (ix2 a b) ((contrEquiv1 dot_S8x64_S64x64_S8x64_1_0_0_1_n_n 64 rfl rfl).symm c) = ix2 c b := by
    funext ax; apply Fin.ext
    match ax with
    | ⟨0, _⟩ => exact (DotDims.rhsIdx_val_of_single _ (cr := (0 : Fin 2)) rfl _ _).trans c2
    | ⟨1, _⟩ => rfl
  rw [l2, r2]

/-- The row of the flattening that holds slot l, row n: 128 l + n. -/
def flat (l : Fin 50) (n : Fin 128) : Fin 6400 := ⟨128 * l.val + n.val, by have := l.isLt; have := n.isLt; omega⟩

/-- A [6400, 64] value read as [50, 128, 64]: entry (l, n, d) is entry (128 l + n, d). -/
theorem shapeCast_50x128x64_apply {α : Type} (v : S6400x64.Idx → α) (l : Fin 50) (n : Fin 128) (d : Fin 64) :
    shapeCast S50x128x64 v shapeCasts_S6400x64_S50x128x64 (ix3 l n d) = v (ix2 (flat l n) d) :=
  shapeCast_apply v shapeCasts_S6400x64_S50x128x64 (ix3 l n d) (ix2 (flat l n) d) (by
    rw [Shape.rowMajor_val_two, Shape.rowMajor_val_three]
    show (128 * l.val + n.val) * 64 + d.val = (l.val * 128 + n.val) * 64 + d.val; omega)

/-- A [50, 128, 64] value read as [6400, 64]: entry (128 l + n, d) is entry (l, n, d). -/
theorem shapeCast_6400x64_apply {α : Type} (v : S50x128x64.Idx → α) (l : Fin 50) (n : Fin 128) (d : Fin 64) :
    shapeCast S6400x64 v shapeCasts_S50x128x64_S6400x64 (ix2 (flat l n) d) = v (ix3 l n d) :=
  shapeCast_apply v shapeCasts_S50x128x64_S6400x64 (ix2 (flat l n) d) (ix3 l n d) (by
    rw [Shape.rowMajor_val_two, Shape.rowMajor_val_three]
    show (l.val * 128 + n.val) * 64 + d.val = (128 * l.val + n.val) * 64 + d.val; omega)

/-- A [50, 128, 8] value read as [6400, 8]: entry (128 l + n, c) is entry (l, n, c). -/
theorem shapeCast_6400x8_apply {α : Type} (v : S50x128x8.Idx → α) (l : Fin 50) (n : Fin 128) (c : Fin 8) :
    shapeCast S6400x8 v shapeCasts_S50x128x8_S6400x8 (ix2 (flat l n) c) = v (ix3 l n c) :=
  shapeCast_apply v shapeCasts_S50x128x8_S6400x8 (ix2 (flat l n) c) (ix3 l n c) (by
    rw [Shape.rowMajor_val_two, Shape.rowMajor_val_three]
    show (l.val * 128 + n.val) * 8 + c.val = (128 * l.val + n.val) * 8 + c.val; omega)

/-- The features the body weights are the rectified hidden values, slot by slot: o(l, n, d) is entry (128 l + n, d)
    of the [6400, 64] value the first half of the body computes. -/
theorem k2_pay6_apply (v33 : FVec Ideal S6400x64 .bf16) (l : Fin 50) (n : Fin 128) (d : Fin 64) :
    k2_pay6 v33 (ix3 l n d) = v33 (ix2 (flat l n) d) := by
  unfold k2_pay6
  exact shapeCast_50x128x64_apply v33 l n d

/-- The rating term: the 8 × 64 table the one-hot rating selects a row of,  R(c, k) = Σ_m P(c, m) · W(m, k) + b(0, k). -/
def ratingTab (x3 : Vec Ideal S8x64 .f32) (x4 : Vec Ideal S64x64 .f32) (x5 : Vec Ideal S1x64 .f32) (c : Fin 8) (k : Fin 64) : EReal :=
  (∑ m : Fin 64, x3 (ix2 c m) * x4 (ix2 m k)) + x5 (ix2 (0 : Fin 1) k)

/-- The first hidden layer at slot l, row n, unit k: the gathered feature plus the selected rating row, rectified
    (the maximum with the zero word's value). -/
def hid1 (x0 : Vec Ideal S50x128x128 .f32) (x2 : Vec Ideal S50x128x8 .i8) (x3 : Vec Ideal S8x64 .f32) (x4 : Vec Ideal S64x64 .f32)
    (x5 : Vec Ideal S1x64 .f32) (l : Fin 50) (n : Fin 128) (k : Fin 64) : EReal :=
  max (x0 (ix3 l n (⟨k.val, by have := k.isLt; omega⟩ : Fin 128))
        + ∑ c : Fin 8, (FloatOps.sitofp (F := Ideal) .bf16 (x2 (ix3 l n c)) : EReal) * ratingTab x3 x4 x5 c k)
    (Scalar.ofBits .bf16 0x0000#16 : Ideal .bf16)

/-- The second hidden layer at slot l, row n, unit d:  Σ_k h1(l, n, k) · W(k, d) + b(0, d), rectified. -/
def hid2 (x0 : Vec Ideal S50x128x128 .f32) (x2 : Vec Ideal S50x128x8 .i8) (x3 : Vec Ideal S8x64 .f32) (x4 : Vec Ideal S64x64 .f32)
    (x5 : Vec Ideal S1x64 .f32) (x6 : Vec Ideal S64x64 .bf16) (x7 : Vec Ideal S1x64 .bf16) (l : Fin 50) (n : Fin 128) (d : Fin 64) : EReal :=
  max ((∑ k : Fin 64, hid1 x0 x2 x3 x4 x5 l n k * x6 (ix2 k d)) + x7 (ix2 (0 : Fin 1) d))
    (Scalar.ofBits .bf16 0x0000#16 : Ideal .bf16)

/-- The first half of the body at an index: entry (128 l + n, d) of its [6400, 64] result is the second hidden layer. -/
theorem k2_pay2_apply (x0 : Vec Ideal S50x128x128 .f32) (x2 : Vec Ideal S50x128x8 .i8) (x3 : Vec Ideal S8x64 .f32)
    (x4 : Vec Ideal S64x64 .f32) (x5 : Vec Ideal S1x64 .f32) (x6 : Vec Ideal S64x64 .bf16) (x7 : Vec Ideal S1x64 .bf16)
    (l : Fin 50) (n : Fin 128) (d : Fin 64) :
    k2_pay2 x0 x3 x4 x5 x2 x6 x7 (ix2 (flat l n) d) = hid2 x0 x2 x3 x4 x5 x6 x7 l n d := by
  unfold k2_pay2 hid2
  simp only [shapeCast_self]
  show max ((matmul (F := Ideal) (φ₁ := .bf16) (φ₂ := .bf16) dot_S6400x64_S64x64_S6400x64_1_0_0_1_n_n none _ x6 _ (ix2 (flat l n) d) : EReal)
      + (broadcastTo S6400x64 x7 broadcasts_S1x64_S6400x64 (ix2 (flat l n) d) : EReal)) _ = _
  rw [matmul_6400x64_64x64_apply, broadcastTo_apply x7 broadcasts_S1x64_S6400x64 (ix2 (flat l n) d) (ix2 (0 : Fin 1) d : S1x64.Idx)
    (fun a => by match a with | ⟨0, _⟩ => rfl | ⟨1, _⟩ => rfl)]
  refine congrArg (fun x : EReal => max (x + x7 (ix2 (0 : Fin 1) d)) (Scalar.ofBits .bf16 0x0000#16 : Ideal .bf16))
    (Finset.sum_congr rfl fun k _ => congrArg (fun x : EReal => x * x6 (ix2 k d)) ?_)
  -- the first hidden layer at (128 l + n, k)
  unfold hid1
  show max ((shapeCast S6400x64 (extractStridedSlice S50x128x64 ![0, 0, 0] x0 slices_S50x128x128_o0_0_0_S50x128x64) shapeCasts_S50x128x64_S6400x64 (ix2 (flat l n) k) : EReal)
      + (matmul (F := Ideal) (φ₁ := .bf16) (φ₂ := .bf16) dot_S6400x8_S8x64_S6400x64_1_0_0_1_n_n none _ _ _ (ix2 (flat l n) k) : EReal)) _ = _
  rw [shapeCast_6400x64_apply, matmul_6400x8_8x64_apply,
    extractStridedSlice_apply ![0, 0, 0] x0 slices_S50x128x128_o0_0_0_S50x128x64 (ix3 l n k)
      (ix3 l n (⟨k.val, by have := k.isLt; omega⟩ : Fin 128) : S50x128x128.Idx)
      (fun a => by match a with | ⟨0, _⟩ => exact (Nat.zero_add _).symm | ⟨1, _⟩ => exact (Nat.zero_add _).symm | ⟨2, _⟩ => exact (Nat.zero_add _).symm)]
  refine congrArg (fun x : EReal => max (x0 (ix3 l n (⟨k.val, by have := k.isLt; omega⟩ : Fin 128)) + x) (Scalar.ofBits .bf16 0x0000#16 : Ideal .bf16))
    (Finset.sum_congr rfl fun c _ => ?_)
  show (FloatOps.sitofp (F := Ideal) .bf16 (shapeCast S6400x8 x2 shapeCasts_S50x128x8_S6400x8 (ix2 (flat l n) c)) : EReal)
      * ((matmul (F := Ideal) (φ₁ := .f32) (φ₂ := .f32) dot_S8x64_S64x64_S8x64_1_0_0_1_n_n none x3 x4 _ (ix2 c k) : EReal) + (broadcastTo S8x64 x5 broadcasts_S1x64_S8x64 (ix2 c k) : EReal)) = _
  rw [shapeCast_6400x8_apply, matmul_8x64_64x64_apply, broadcastTo_apply x5 broadcasts_S1x64_S8x64 (ix2 c k) (ix2 (0 : Fin 1) k : S1x64.Idx)
    (fun a => by match a with | ⟨0, _⟩ => rfl | ⟨1, _⟩ => rfl)]
  rfl

end Cert.KernelIdeal.Tc

end
-- ==== Proof.TcVal2c.lean ====
/-
  The attention scores of the body at an index, at the extended reals: more building blocks.

  The score of history slot l for row n is a two-layer rectified network of the slot's features and
  the row's own, reduced to one number by a weight row and a bias; the exponentials are taken of the
  scores shifted by the row's maximum over the 50 slots.  This file reads the shape changes and the
  two reductions involved at an index.
-/
import proofs.«217981_g19061064860210_cont_8to1_1320_37_alg».proof.Proof.TcVal2b

set_option maxRecDepth 16384

noncomputable section

namespace Cert.KernelIdeal.Tc

open Cert.KernelIdeal Cert.KernelIdeal.Gen
open Idealize.ShloMosaic Idealize.ShloMosaic.TcCoe Idealize.ShloMosaic.ValueIdx

/-- The features at an index: o(l, n, d) is the second hidden layer. -/
theorem feat2_apply (x0 : Vec Ideal S50x128x128 .f32) (x2 : Vec Ideal S50x128x8 .i8) (x3 : Vec Ideal S8x64 .f32)
    (x4 : Vec Ideal S64x64 .f32) (x5 : Vec Ideal S1x64 .f32) (x6 : Vec Ideal S64x64 .bf16) (x7 : Vec Ideal S1x64 .bf16)
    (l : Fin 50) (n : Fin 128) (d : Fin 64) :
    feat2 x0 x2 x3 x4 x5 x6 x7 (ix3 l n d) = hid2 x0 x2 x3 x4 x5 x6 x7 l n d := by
  unfold feat2
  rw [k2_pay6_apply, k2_pay2_apply]

/-- The unit axis put back, for a sum over the 64 units of a [6400, 64] value. -/
theorem lift_unit_6400 (i : Fin 6400) (d : Fin 64) :
    reduces_S6400x64_S6400.lift (ix1 i : S6400.Idx) d = (ix2 i d : S6400x64.Idx) := by
  funext ax
  match ax with
  | ⟨0, _⟩ => rfl
  | ⟨1, _⟩ => rfl

/-- A [6400] value read as [6400, 1]. -/
theorem shapeCast_6400x1_apply {α : Type} (v : S6400.Idx → α) (i : Fin 6400) :
    shapeCast S6400x1 v shapeCasts_S6400_S6400x1 (ix2 i (0 : Fin 1)) = v (ix1 i) :=
  shapeCast_apply v shapeCasts_S6400_S6400x1 (ix2 i (0 : Fin 1)) (ix1 i) (by
    rw [Shape.rowMajor_val_two, Shape.rowMajor_val_one]; show i.val = i.val * 1 + 0; omega)

/-- A [6400, 1] value read as [50, 128, 1]. -/
theorem shapeCast_50x128x1_apply {α : Type} (v : S6400x1.Idx → α) (l : Fin 50) (n : Fin 128) :
    shapeCast S50x128x1 v shapeCasts_S6400x1_S50x128x1 (ix3 l n (0 : Fin 1)) = v (ix2 (flat l n) (0 : Fin 1)) :=
  shapeCast_apply v shapeCasts_S6400x1_S50x128x1 (ix3 l n (0 : Fin 1)) (ix2 (flat l n) (0 : Fin 1)) (by
    rw [Shape.rowMajor_val_two, Shape.rowMajor_val_three]
    show (128 * l.val + n.val) * 1 + 0 = (l.val * 128 + n.val) * 1 + 0; omega)

/-- A [128, 64] value given a leading unit axis. -/
theorem shapeCast_1x128x64_apply {α : Type} (v : S128x64.Idx → α) (n : Fin 128) (d : Fin 64) :
    shapeCast S1x128x64 v shapeCasts_S128x64_S1x128x64 (ix3 (0 : Fin 1) n d) = v (ix2 n d) :=
  shapeCast_apply v shapeCasts_S128x64_S1x128x64 (ix3 (0 : Fin 1) n d) (ix2 n d) (by
    rw [Shape.rowMajor_val_two, Shape.rowMajor_val_three]; show n.val * 64 + d.val = (0 * 128 + n.val) * 64 + d.val; omega)

/-- A [128, 1] value given a leading unit axis. -/
theorem shapeCast_1x128x1_apply {α : Type} (v : S128x1.Idx → α) (n : Fin 128) :
    shapeCast S1x128x1 v shapeCasts_S128x1_S1x128x1 (ix3 (0 : Fin 1) n (0 : Fin 1)) = v (ix2 n (0 : Fin 1)) :=
  shapeCast_apply v shapeCasts_S128x1_S1x128x1 (ix3 (0 : Fin 1) n (0 : Fin 1)) (ix2 n (0 : Fin 1)) (by
    rw [Shape.rowMajor_val_two, Shape.rowMajor_val_three]; show n.val * 1 + 0 = (0 * 128 + n.val) * 1 + 0; omega)

/-- The row's own features, repeated for every slot and flattened: entry (128 l + n, d) is the row's entry (n, 64 + d). -/
theorem rowTerm_apply (v35 : FVec Ideal S128x128 .f32) (l : Fin 50) (n : Fin 128) (d : Fin 64) :
    shapeCast S6400x64
        (broadcastTo S50x128x64
          (shapeCast S1x128x64 (truncf .bf16 (extractStridedSlice S128x64 ![0, 64] v35 slices_S128x128_o0_64_S128x64) bitsLt_bf16_f32)
            shapeCasts_S128x64_S1x128x64)
          broadcasts_S1x128x64_S50x128x64)
        shapeCasts_S50x128x64_S6400x64 (ix2 (flat l n) d)
      = v35 (ix2 n (⟨64 + d.val, by have := d.isLt; omega⟩ : Fin 128)) := by
  rw [shapeCast_6400x64_apply, broadcastTo_apply _ broadcasts_S1x128x64_S50x128x64 (ix3 l n d) (ix3 (0 : Fin 1) n d : S1x128x64.Idx)
    (fun a => by match a with | ⟨0, _⟩ => rfl | ⟨1, _⟩ => rfl | ⟨2, _⟩ => rfl), shapeCast_1x128x64_apply]
  exact extractStridedSlice_apply ![0, 64] v35 slices_S128x128_o0_64_S128x64 (ix2 n d)
    (ix2 n (⟨64 + d.val, by have := d.isLt; omega⟩ : Fin 128) : S128x128.Idx)
    (fun a => by match a with | ⟨0, _⟩ => exact (Nat.zero_add _).symm | ⟨1, _⟩ => rfl)

/-- The first attention layer at slot l, row n, unit k:  Σ_j h(128 l + n, j) · W(j, k)  plus the row's own term, rectified. -/
def att1 (v33 : FVec Ideal S6400x64 .bf16) (v35 : FVec Ideal S128x128 .f32) (x8 : Vec Ideal S64x64 .bf16)
    (l : Fin 50) (n : Fin 128) (k : Fin 64) : EReal :=
  max ((∑ j : Fin 64, v33 (ix2 (flat l n) j) * x8 (ix2 j k)) + v35 (ix2 n (⟨64 + k.val, by have := k.isLt; omega⟩ : Fin 128)))
    (Scalar.ofBits .bf16 0x0000#16 : Ideal .bf16)

/-- The second attention layer:  Σ_k a1(l, n, k) · W(k, d) + b(0, d), rectified. -/
def att2 (v33 : FVec Ideal S6400x64 .bf16) (v35 : FVec Ideal S128x128 .f32) (x8 x9 : Vec Ideal S64x64 .bf16) (x10 : Vec Ideal S1x64 .bf16)
    (l : Fin 50) (n : Fin 128) (d : Fin 64) : EReal :=
  max ((∑ k : Fin 64, att1 v33 v35 x8 l n k * x9 (ix2 k d)) + x10 (ix2 (0 : Fin 1) d))
    (Scalar.ofBits .bf16 0x0000#16 : Ideal .bf16)

/-- The score of slot l for row n:  Σ_d a2(l, n, d) · w(0, d) + b. -/
def score2 (v33 : FVec Ideal S6400x64 .bf16) (v35 : FVec Ideal S128x128 .f32) (x8 x9 : Vec Ideal S64x64 .bf16)
    (x10 x11 : Vec Ideal S1x64 .bf16) (x12 : Vec Ideal S1x1 .f32) (l : Fin 50) (n : Fin 128) : EReal :=
  (∑ d : Fin 64, att2 v33 v35 x8 x9 x10 l n d * x11 (ix2 (0 : Fin 1) d)) + x12 (ix2 (0 : Fin 1) (0 : Fin 1))

/-- The scores before the shift by the row maximum, as the body computes them: its [6400, 1] value. -/
def scoreVec2 {F : FTy → Type} [FloatOps F] (v33 : FVec F S6400x64 .bf16) (v35 : FVec F S128x128 .f32) (v42 : Vec F S64x64 .bf16) (v49 : Vec F S64x64 .bf16)
    (v53 : Vec F S1x64 .bf16) (v59 : Vec F S1x64 .bf16) (v66 : Vec F S1x1 .f32) : FVec F S6400x1 .f32 :=
  have v36 : FVec F S128x64 .f32 := extractStridedSlice S128x64 ![0, 64] v35 slices_S128x128_o0_64_S128x64
  have v37 : FVec F S128x64 .bf16 := truncf .bf16 v36 bitsLt_bf16_f32
  have v38 : FVec F S1x128x64 .bf16 := shapeCast S1x128x64 v37 shapeCasts_S128x64_S1x128x64
  have v39 : FVec F S1x128x64 .bf16 := shapeCast S1x128x64 v38 shapeCasts_S1x128x64_S1x128x64
  have v40 : FVec F S50x128x64 .bf16 := broadcastTo S50x128x64 v39 broadcasts_S1x128x64_S50x128x64
  have v41 : FVec F S6400x64 .bf16 := shapeCast S6400x64 v40 shapeCasts_S50x128x64_S6400x64
  have v43 : FVec F S64x64 .bf16 := shapeCast S64x64 v42 shapeCasts_S64x64_S64x64
  have cst_23 : FVec F S6400x64 .f32 := constant S6400x64 .f32 0x00000000#32
  have v44 : FVec F S6400x64 .f32 := matmul dot_S6400x64_S64x64_S6400x64_1_0_0_1_n_n none v33 v43 cst_23
  have v45 : FVec F S6400x64 .bf16 := truncf .bf16 v44 bitsLt_bf16_f32
  have v46 : FVec F S6400x64 .bf16 := addf v45 v41
  have cst_24 : F .bf16 := Scalar.ofBits .bf16 0x0000#16
  have v47 : FVec F S6400x64 .bf16 := broadcast S6400x64 cst_24
  have v48 : FVec F S6400x64 .bf16 := maximumf v46 v47
  have v50 : FVec F S64x64 .bf16 := shapeCast S64x64 v49 shapeCasts_S64x64_S64x64
  have cst_27 : FVec F S6400x64 .f32 := constant S6400x64 .f32 0x00000000#32
  have v51 : FVec F S6400x64 .f32 := matmul dot_S6400x64_S64x64_S6400x64_1_0_0_1_n_n none v48 v50 cst_27
  have v52 : FVec F S6400x64 .bf16 := truncf .bf16 v51 bitsLt_bf16_f32
  have v54 : FVec F S1x64 .bf16 := shapeCast S1x64 v53 shapeCasts_S1x64_S1x64
  have v55 : FVec F S6400x64 .bf16 := broadcastTo S6400x64 v54 broadcasts_S1x64_S6400x64
  have v56 : FVec F S6400x64 .bf16 := addf v52 v55
  have cst_30 : F .bf16 := Scalar.ofBits .bf16 0x0000#16
  have v57 : FVec F S6400x64 .bf16 := broadcast S6400x64 cst_30
  have v58 : FVec F S6400x64 .bf16 := maximumf v56 v57
  have v60 : FVec F S1x64 .bf16 := shapeCast S1x64 v59 shapeCasts_S1x64_S1x64
  have v61 : FVec F S6400x64 .bf16 := broadcastTo S6400x64 v60 broadcasts_S1x64_S6400x64
  have v62 : FVec F S6400x64 .bf16 := mulf v58 v61
  have v63 : FVec F S6400x64 .f32 := extf .f32 v62 bitsLt_bf16_f32
  have v64 : FVec F S6400 .f32 := multiReduction .add [1] S6400 v63 0x00000000#32 reduces_S6400x64_S6400 (.inl rfl) rfl
  have v65 : FVec F S6400x1 .f32 := shapeCast S6400x1 v64 shapeCasts_S6400_S6400x1
  have v67 : FVec F S1x1 .f32 := shapeCast S1x1 v66 shapeCasts_S1x1_S1x1
  have v68 : FVec F S6400x1 .f32 := broadcastTo S6400x1 v67 broadcasts_S1x1_S6400x1
  have v69 : FVec F S6400x1 .f32 := addf v65 v68
  v69

/-- The exponentials are those of the scores, slot-major, shifted by the row's maximum over the slots. -/
theorem k2_pay4_eq {F : FTy → Type} [FloatOps F] (v33 : FVec F S6400x64 .bf16) (v35 : FVec F S128x128 .f32) (v42 v49 : Vec F S64x64 .bf16)
    (v53 v59 : Vec F S1x64 .bf16) (v66 : Vec F S1x1 .f32) :
    k2_pay4 v33 v35 v42 v49 v53 v59 v66
      = exp (subf (shapeCast S50x128x1 (scoreVec2 v33 v35 v42 v49 v53 v59 v66) shapeCasts_S6400x1_S50x128x1)
          (broadcastTo S50x128x1
            (shapeCast S1x128x1
              (multiReduction .maximumf [0] S128x1 (shapeCast S50x128x1 (scoreVec2 v33 v35 v42 v49 v53 v59 v66) shapeCasts_S6400x1_S50x128x1)
                0xFF800000#32 reduces_S50x128x1_S128x1 (.inl rfl) rfl)
              shapeCasts_S128x1_S1x128x1)
            broadcasts_S1x128x1_S50x128x1)) := rfl

/-- The second attention layer times the weight row, as the body computes it: its [6400, 64] value. -/
def prodVec2 {F : FTy → Type} [FloatOps F] (v33 : FVec F S6400x64 .bf16) (v35 : FVec F S128x128 .f32) (v42 : Vec F S64x64 .bf16) (v49 : Vec F S64x64 .bf16)
    (v53 : Vec F S1x64 .bf16) (v59 : Vec F S1x64 .bf16) : FVec F S6400x64 .bf16 :=
  have v36 : FVec F S128x64 .f32 := extractStridedSlice S128x64 ![0, 64] v35 slices_S128x128_o0_64_S128x64
  have v37 : FVec F S128x64 .bf16 := truncf .bf16 v36 bitsLt_bf16_f32
  have v38 : FVec F S1x128x64 .bf16 := shapeCast S1x128x64 v37 shapeCasts_S128x64_S1x128x64
  have v39 : FVec F S1x128x64 .bf16 := shapeCast S1x128x64 v38 shapeCasts_S1x128x64_S1x128x64
  have v40 : FVec F S50x128x64 .bf16 := broadcastTo S50x128x64 v39 broadcasts_S1x128x64_S50x128x64
  have v41 : FVec F S6400x64 .bf16 := shapeCast S6400x64 v40 shapeCasts_S50x128x64_S6400x64
  have v43 : FVec F S64x64 .bf16 := shapeCast S64x64 v42 shapeCasts_S64x64_S64x64
  have cst_23 : FVec F S6400x64 .f32 := constant S6400x64 .f32 0x00000000#32
  have v44 : FVec F S6400x64 .f32 := matmul dot_S6400x64_S64x64_S6400x64_1_0_0_1_n_n none v33 v43 cst_23
  have v45 : FVec F S6400x64 .bf16 := truncf .bf16 v44 bitsLt_bf16_f32
  have v46 : FVec F S6400x64 .bf16 := addf v45 v41
  have cst_24 : F .bf16 := Scalar.ofBits .bf16 0x0000#16
  have v47 : FVec F S6400x64 .bf16 := broadcast S6400x64 cst_24
  have v48 : FVec F S6400x64 .bf16 := maximumf v46 v47
  have v50 : FVec F S64x64 .bf16 := shapeCast S64x64 v49 shapeCasts_S64x64_S64x64
  have cst_27 : FVec F S6400x64 .f32 := constant S6400x64 .f32 0x00000000#32
  have v51 : FVec F S6400x64 .f32 := matmul dot_S6400x64_S64x64_S6400x64_1_0_0_1_n_n none v48 v50 cst_27
  have v52 : FVec F S6400x64 .bf16 := truncf .bf16 v51 bitsLt_bf16_f32
  have v54 : FVec F S1x64 .bf16 := shapeCast S1x64 v53 shapeCasts_S1x64_S1x64
  have v55 : FVec F S6400x64 .bf16 := broadcastTo S6400x64 v54 broadcasts_S1x64_S6400x64
  have v56 : FVec F S6400x64 .bf16 := addf v52 v55
  have cst_30 : F .bf16 := Scalar.ofBits .bf16 0x0000#16
  have v57 : FVec F S6400x64 .bf16 := broadcast S6400x64 cst_30
  have v58 : FVec F S6400x64 .bf16 := maximumf v56 v57
  have v60 : FVec F S1x64 .bf16 := shapeCast S1x64 v59 shapeCasts_S1x64_S1x64
  have v61 : FVec F S6400x64 .bf16 := broadcastTo S6400x64 v60 broadcasts_S1x64_S6400x64
  have v62 : FVec F S6400x64 .bf16 := mulf v58 v61
  v62

/-- The score vector is the sum over the 64 units of that product, plus the bias. -/
theorem scoreVec2_eq {F : FTy → Type} [FloatOps F] (v33 : FVec F S6400x64 .bf16) (v35 : FVec F S128x128 .f32) (v42 v49 : Vec F S64x64 .bf16)
    (v53 v59 : Vec F S1x64 .bf16) (v66 : Vec F S1x1 .f32) :
    scoreVec2 v33 v35 v42 v49 v53 v59 v66
      = addf (shapeCast S6400x1
            (multiReduction .add [1] S6400 (extf .f32 (prodVec2 v33 v35 v42 v49 v53 v59) bitsLt_bf16_f32) 0x00000000#32 reduces_S6400x64_S6400 (.inl rfl) rfl)
            shapeCasts_S6400_S6400x1)
          (broadcastTo S6400x1 (shapeCast S1x1 v66 shapeCasts_S1x1_S1x1) broadcasts_S1x1_S6400x1) := rfl

/-- That product at an index. -/
theorem prodVec2_apply (v33 : FVec Ideal S6400x64 .bf16) (v35 : FVec Ideal S128x128 .f32) (x8 x9 : Vec Ideal S64x64 .bf16)
    (x10 x11 : Vec Ideal S1x64 .bf16) (l : Fin 50) (n : Fin 128) (d : Fin 64) :
    prodVec2 v33 v35 x8 x9 x10 x11 (ix2 (flat l n) d) = att2 v33 v35 x8 x9 x10 l n d * x11 (ix2 (0 : Fin 1) d) := by
  unfold prodVec2
  simp only [shapeCast_self]
  show max ((matmul (F := Ideal) (φ₁ := .bf16) (φ₂ := .bf16) dot_S6400x64_S64x64_S6400x64_1_0_0_1_n_n none _ x9 _ (ix2 (flat l n) d) : EReal)
      + (broadcastTo S6400x64 x10 broadcasts_S1x64_S6400x64 (ix2 (flat l n) d) : EReal)) _
    * (broadcastTo S6400x64 x11 broadcasts_S1x64_S6400x64 (ix2 (flat l n) d) : EReal) = _
  rw [matmul_6400x64_64x64_apply,
    broadcastTo_apply x10 broadcasts_S1x64_S6400x64 (ix2 (flat l n) d) (ix2 (0 : Fin 1) d : S1x64.Idx)
      (fun a => by match a with | ⟨0, _⟩ => rfl | ⟨1, _⟩ => rfl),
    broadcastTo_apply x11 broadcasts_S1x64_S6400x64 (ix2 (flat l n) d) (ix2 (0 : Fin 1) d : S1x64.Idx)
      (fun a => by match a with | ⟨0, _⟩ => rfl | ⟨1, _⟩ => rfl)]
  unfold att2
  refine congrArg (fun x : EReal => max (x + x10 (ix2 (0 : Fin 1) d)) (Scalar.ofBits .bf16 0x0000#16 : Ideal .bf16) * x11 (ix2 (0 : Fin 1) d))
    (Finset.sum_congr rfl fun k _ => congrArg (fun x : EReal => x * x9 (ix2 k d)) ?_)
  unfold att1
  show max ((matmul (F := Ideal) (φ₁ := .bf16) (φ₂ := .bf16) dot_S6400x64_S64x64_S6400x64_1_0_0_1_n_n none v33 x8 _ (ix2 (flat l n) k) : EReal)
      + (shapeCast S6400x64 _ shapeCasts_S50x128x64_S6400x64 (ix2 (flat l n) k) : EReal)) _ = _
  rw [matmul_6400x64_64x64_apply, rowTerm_apply]
  rfl

/-- The body's score vector at an index is the score. -/
theorem scoreVec2_apply (v33 : FVec Ideal S6400x64 .bf16) (v35 : FVec Ideal S128x128 .f32) (x8 x9 : Vec Ideal S64x64 .bf16)
    (x10 x11 : Vec Ideal S1x64 .bf16) (x12 : Vec Ideal S1x1 .f32) (l : Fin 50) (n : Fin 128) :
    scoreVec2 v33 v35 x8 x9 x10 x11 x12 (ix2 (flat l n) (0 : Fin 1)) = score2 v33 v35 x8 x9 x10 x11 x12 l n := by
  rw [scoreVec2_eq]
  show (shapeCast S6400x1 _ shapeCasts_S6400_S6400x1 (ix2 (flat l n) (0 : Fin 1)) : EReal)
      + (broadcastTo S6400x1 (shapeCast S1x1 x12 shapeCasts_S1x1_S1x1) broadcasts_S1x1_S6400x1 (ix2 (flat l n) (0 : Fin 1)) : EReal) = _
  rw [shapeCast_6400x1_apply, broadcastTo_apply _ broadcasts_S1x1_S6400x1 (ix2 (flat l n) (0 : Fin 1)) (ix2 (0 : Fin 1) (0 : Fin 1) : S1x1.Idx)
    (fun a => by match a with | ⟨0, _⟩ => rfl | ⟨1, _⟩ => rfl), shapeCast_self]
  unfold score2
  refine congrArg (fun x : EReal => x + x12 (ix2 (0 : Fin 1) (0 : Fin 1)))
    ((Ideal.multiReduction_add_single _ 0x00000000#32 reduces_S6400x64_S6400 (.inl rfl) rfl (ix1 (flat l n))).trans
      (Finset.sum_congr rfl fun d _ => ?_))
  refine (congrArg (extf .f32 (prodVec2 v33 v35 x8 x9 x10 x11) bitsLt_bf16_f32) (lift_unit_6400 (flat l n) d)).trans ?_
  exact prodVec2_apply v33 v35 x8 x9 x10 x11 l n d

/-- The row's maximum of the scores over the 50 slots, from the lowest value. -/
def smax2 (v33 : FVec Ideal S6400x64 .bf16) (v35 : FVec Ideal S128x128 .f32) (x8 x9 : Vec Ideal S64x64 .bf16)
    (x10 x11 : Vec Ideal S1x64 .bf16) (x12 : Vec Ideal S1x1 .f32) (n : Fin 128) : EReal :=
  (Finset.univ : Finset (Fin 50)).fold max (FloatOps.ofBits (F := Ideal) .f32 0xFF800000#32) (fun l => score2 v33 v35 x8 x9 x10 x11 x12 l n)

set_option maxHeartbeats 1000000 in
/-- The exponentials at an index: e(l, n) = exp (score(l, n) − max_l' score(l', n)). -/
theorem k2_pay4_apply (v33 : FVec Ideal S6400x64 .bf16) (v35 : FVec Ideal S128x128 .f32) (x8 x9 : Vec Ideal S64x64 .bf16)
    (x10 x11 : Vec Ideal S1x64 .bf16) (x12 : Vec Ideal S1x1 .f32) (l : Fin 50) (n : Fin 128) :
    k2_pay4 v33 v35 x8 x9 x10 x11 x12 (ix3 l n (0 : Fin 1))
      = FloatOps.exp (F := Ideal) (φ := .f32) (score2 v33 v35 x8 x9 x10 x11 x12 l n - smax2 v33 v35 x8 x9 x10 x11 x12 n) := by
  rw [k2_pay4_eq]
  show FloatOps.exp (F := Ideal) (φ := .f32)
      ((shapeCast S50x128x1 (scoreVec2 v33 v35 x8 x9 x10 x11 x12) shapeCasts_S6400x1_S50x128x1 (ix3 l n (0 : Fin 1)) : EReal)
        - (broadcastTo S50x128x1 _ broadcasts_S1x128x1_S50x128x1 (ix3 l n (0 : Fin 1)) : EReal)) = _
  rw [shapeCast_50x128x1_apply, scoreVec2_apply,
    broadcastTo_apply _ broadcasts_S1x128x1_S50x128x1 (ix3 l n (0 : Fin 1)) (ix3 (0 : Fin 1) n (0 : Fin 1) : S1x128x1.Idx)
      (fun a => by match a with | ⟨0, _⟩ => rfl | ⟨1, _⟩ => rfl | ⟨2, _⟩ => rfl),
    shapeCast_1x128x1_apply]
  refine congrArg (fun x : EReal => FloatOps.exp (F := Ideal) (φ := .f32) (score2 v33 v35 x8 x9 x10 x11 x12 l n - x)) ?_
  refine (Ideal.multiReduction_maximumf_single (shapeCast S50x128x1 (scoreVec2 v33 v35 x8 x9 x10 x11 x12) shapeCasts_S6400x1_S50x128x1)
    0xFF800000#32 reduces_S50x128x1_S128x1 (.inl rfl) rfl (ix2 n (0 : Fin 1))).trans ?_
  unfold smax2
  refine congrArg (fun f : Fin 50 → EReal => (Finset.univ : Finset (Fin 50)).fold max (FloatOps.ofBits (F := Ideal) .f32 0xFF800000#32) f) (funext fun l' => ?_)
  show shapeCast S50x128x1 (scoreVec2 v33 v35 x8 x9 x10 x11 x12) shapeCasts_S6400x1_S50x128x1 (reduces_S50x128x1_S128x1.lift (ix2 n (0 : Fin 1)) l') = _
  exact (congrArg (shapeCast S50x128x1 (scoreVec2 v33 v35 x8 x9 x10 x11 x12) shapeCasts_S6400x1_S50x128x1) (lift_slot_1 n l')).trans
    ((shapeCast_50x128x1_apply _ l' n).trans (scoreVec2_apply v33 v35 x8 x9 x10 x11 x12 l' n))

/-- The exponentials of the thirteen input blocks at an index. -/
theorem expo2_apply (x0 : Vec Ideal S50x128x128 .f32) (x1 : Vec Ideal S128x128 .f32) (x2 : Vec Ideal S50x128x8 .i8) (x3 : Vec Ideal S8x64 .f32)
    (x4 : Vec Ideal S64x64 .f32) (x5 : Vec Ideal S1x64 .f32) (x6 : Vec Ideal S64x64 .bf16) (x7 : Vec Ideal S1x64 .bf16)
    (x8 x9 : Vec Ideal S64x64 .bf16) (x10 x11 : Vec Ideal S1x64 .bf16) (x12 : Vec Ideal S1x1 .f32) (l : Fin 50) (n : Fin 128) :
    expo2 x0 x1 x2 x3 x4 x5 x6 x7 x8 x9 x10 x11 x12 (ix3 l n (0 : Fin 1))
      = FloatOps.exp (F := Ideal) (φ := .f32)
          (score2 (k2_pay2 x0 x3 x4 x5 x2 x6 x7) (k2_pay3 x1) x8 x9 x10 x11 x12 l n
            - smax2 (k2_pay2 x0 x3 x4 x5 x2 x6 x7) (k2_pay3 x1) x8 x9 x10 x11 x12 n) := by
  unfold expo2
  exact k2_pay4_apply _ _ x8 x9 x10 x11 x12 l n

/-- The first attention layer, in terms of the second hidden layer and the row's own features. -/
theorem att1_hid (x0 : Vec Ideal S50x128x128 .f32) (x1 : Vec Ideal S128x128 .f32) (x2 : Vec Ideal S50x128x8 .i8) (x3 : Vec Ideal S8x64 .f32)
    (x4 : Vec Ideal S64x64 .f32) (x5 : Vec Ideal S1x64 .f32) (x6 : Vec Ideal S64x64 .bf16) (x7 : Vec Ideal S1x64 .bf16)
    (x8 : Vec Ideal S64x64 .bf16) (l : Fin 50) (n : Fin 128) (k : Fin 64) :
    att1 (k2_pay2 x0 x3 x4 x5 x2 x6 x7) (k2_pay3 x1) x8 l n k
      = max ((∑ j : Fin 64, hid2 x0 x2 x3 x4 x5 x6 x7 l n j * x8 (ix2 j k)) + x1 (ix2 n (⟨64 + k.val, by have := k.isLt; omega⟩ : Fin 128)))
          (Scalar.ofBits .bf16 0x0000#16 : Ideal .bf16) := by
  unfold att1 k2_pay3
  simp only [k2_pay2_apply, shapeCast_self]

/-- What the body leaves in the output buffer at an index, all the way down: the softmax-weighted sum over the 50
    slots of the second hidden layer, the weights the exponentials of the scores shifted by the row maximum. -/
theorem out2_13_closed (x0 : Vec Ideal S50x128x128 .f32) (x1 : Vec Ideal S128x128 .f32) (x2 : Vec Ideal S50x128x8 .i8)
    (x3 : Vec Ideal S8x64 .f32) (x4 : Vec Ideal S64x64 .f32) (x5 : Vec Ideal S1x64 .f32) (x6 : Vec Ideal S64x64 .bf16)
    (x7 : Vec Ideal S1x64 .bf16) (x8 x9 : Vec Ideal S64x64 .bf16) (x10 x11 : Vec Ideal S1x64 .bf16) (x12 : Vec Ideal S1x1 .f32)
    (n : Fin 128) (d : Fin 64) :
    out2_13 x0 x1 x2 x3 x4 x5 x6 x7 x8 x9 x10 x11 x12 (ix2 n d : S128x64.Idx)
      = Ideal.div
          (∑ l : Fin 50, hid2 x0 x2 x3 x4 x5 x6 x7 l n d
            * FloatOps.exp (F := Ideal) (φ := .f32)
                (score2 (k2_pay2 x0 x3 x4 x5 x2 x6 x7) (k2_pay3 x1) x8 x9 x10 x11 x12 l n
                  - smax2 (k2_pay2 x0 x3 x4 x5 x2 x6 x7) (k2_pay3 x1) x8 x9 x10 x11 x12 n))
          (∑ l : Fin 50, FloatOps.exp (F := Ideal) (φ := .f32)
                (score2 (k2_pay2 x0 x3 x4 x5 x2 x6 x7) (k2_pay3 x1) x8 x9 x10 x11 x12 l n
                  - smax2 (k2_pay2 x0 x3 x4 x5 x2 x6 x7) (k2_pay3 x1) x8 x9 x10 x11 x12 n)) := by
  rw [out2_13_apply]
  simp only [feat2_apply, expo2_apply]

end Cert.KernelIdeal.Tc

end
-- ==== Proof.TcVal2d.lean ====
/-
  The windows' blocks of TensorCore pallas call 2 read off the arrays.

  At grid point t the three moving windows hold rows 128 t … 128 t + 127 of their arrays — the
  gathered features [50, 2048, 128] and the one-hot ratings [50, 2048, 8] along their second axis,
  the rows' own features [2048, 128] along their first —, and the ten small windows hold their whole
  arrays.  Index facts only: the statements hold at every float instance.
-/
import proofs.«217981_g19061064860210_cont_8to1_1320_37_alg».proof.Proof.TcFinal2
import Idealize.ShloMosaic.Lib.ValueIdx

set_option maxRecDepth 16384

noncomputable section

namespace Cert.KernelIdeal.Tc

open Cert.KernelIdeal Cert.KernelIdeal.Gen
open Idealize.ShloMosaic Idealize.ShloMosaic.TcCoe Idealize.ShloMosaic.ValueIdx

/-- The block indices at point t: the three moving windows are at (0, t, 0), (t, 0), (0, t, 0); every small window at (0, 0). -/
theorem idx_facts2 : ∀ t : Fin cfg2.N,
    win2_0.index t (0 : Fin 3) = 0 ∧ win2_0.index t (1 : Fin 3) = t.val ∧ win2_0.index t (2 : Fin 3) = 0
    ∧ win2_1.index t (0 : Fin 2) = t.val ∧ win2_1.index t (1 : Fin 2) = 0
    ∧ win2_2.index t (0 : Fin 3) = 0 ∧ win2_2.index t (1 : Fin 3) = t.val ∧ win2_2.index t (2 : Fin 3) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = 0 ∧ win2_10.index t (1 : Fin 2) = 0
    ∧ win2_11.index t (0 : Fin 2) = 0 ∧ win2_11.index t (1 : Fin 2) = 0
    ∧ win2_12.index t (0 : Fin 2) = 0 ∧ win2_12.index t (1 : Fin 2) = 0 :=
  (by decide +kernel : ∀ t : Fin grid2.N, _)

variable {F : FTy → Type} (c : Dev nD) (A : (w : Fin cfg2.W) → Buf (Elt F) ((cfg2.win w).arr.view.loc (c.tc : Thread nD τ)))

/-- The gathered features' block at point t: rows 128 t … of the array's second axis. -/
theorem iblk2_0_read (t : Fin cfg2.N) (l : Fin 50) (n : Fin 128) (k : Fin 128) (N : Fin 2048) (hN : N.val = 128 * t.val + n.val) :
    iblk2 c A 0 t (ix3 l n k) = (A 0 : S50x2048x128.Idx → Elt F .f32) (ix3 l N k) := by
  obtain ⟨i0, i1, i2, -⟩ := idx_facts2 t
  show (A 0 : S50x2048x128.Idx → Elt F .f32) (((cfg2.win 0).blk t).view.emb _) = _
  refine congrArg (A 0 : S50x2048x128.Idx → Elt F .f32) (funext fun a => Fin.ext ?_)
  match a with
  | ⟨0, _⟩ => show win2_0.index t (0 : Fin 3) * 50 + 1 * l.val = l.val; rw [i0]; omega
  | ⟨1, _⟩ => show win2_0.index t (1 : Fin 3) * 128 + 1 * n.val = N.val; rw [i1]; omega
  | ⟨2, _⟩ => show win2_0.index t (2 : Fin 3) * 128 + 1 * k.val = k.val; rw [i2]; omega

/-- The rows' own features' block at point t: rows 128 t … of the array. -/
theorem iblk2_1_read (t : Fin cfg2.N) (n : Fin 128) (k : Fin 128) (N : Fin 2048) (hN : N.val = 128 * t.val + n.val) :
    iblk2 c A 1 t (ix2 n k) = (A 1 : S2048x128.Idx → Elt F .f32) (ix2 N k) := by
  obtain ⟨-, -, -, i0, i1, -⟩ := idx_facts2 t
  show (A 1 : S2048x128.Idx → Elt F .f32) (((cfg2.win 1).blk t).view.emb _) = _
  refine congrArg (A 1 : S2048x128.Idx → Elt F .f32) (funext fun a => Fin.ext ?_)
  match a with
  | ⟨0, _⟩ => show win2_1.index t (0 : Fin 2) * 128 + 1 * n.val = N.val; rw [i0]; omega
  | ⟨1, _⟩ => show win2_1.index t (1 : Fin 2) * 128 + 1 * k.val = k.val; rw [i1]; omega

/-- The one-hot ratings' block at point t: rows 128 t … of the array's second axis. -/
theorem iblk2_2_read (t : Fin cfg2.N) (l : Fin 50) (n : Fin 128) (k : Fin 8) (N : Fin 2048) (hN : N.val = 128 * t.val + n.val) :
    iblk2 c A 2 t (ix3 l n k) = (A 2 : S50x2048x8.Idx → Elt F .i8) (ix3 l N k) := by
  obtain ⟨-, -, -, -, -, i0, i1, i2, -⟩ := idx_facts2 t
  show (A 2 : S50x2048x8.Idx → Elt F .i8) (((cfg2.win 2).blk t).view.emb _) = _
  refine congrArg (A 2 : S50x2048x8.Idx → Elt F .i8) (funext fun a => Fin.ext ?_)
  match a with
  | ⟨0, _⟩ => show win2_2.index t (0 : Fin 3) * 50 + 1 * l.val = l.val; rw [i0]; omega
  | ⟨1, _⟩ => show win2_2.index t (1 : Fin 3) * 128 + 1 * n.val = N.val; rw [i1]; omega
  | ⟨2, _⟩ => show win2_2.index t (2 : Fin 3) * 8 + 1 * k.val = k.val; rw [i2]; omega

/-- Window 3 is its whole array at every point. -/
theorem iblk2_3_eq (t : Fin cfg2.N) : iblk2 c A 3 t = (A 3 : S8x64.Idx → Elt F .f32) := by
  obtain ⟨-, -, -, -, -, -, -, -, i0, i1, -, -, -, -, -, -, -, -, -, -, -, -, -, -, -, -, -, -⟩ := idx_facts2 t
  funext j
  show (A 3 : S8x64.Idx → Elt F .f32) (((cfg2.win 3).blk t).view.emb j) = _
  refine congrArg (A 3 : S8x64.Idx → Elt F .f32) (funext fun a => Fin.ext ?_)
  match a with
  | ⟨0, _⟩ => show win2_3.index t (0 : Fin 2) * 8 + 1 * (j 0).val = (j 0).val; rw [i0]; omega
  | ⟨1, _⟩ => show win2_3.index t (1 : Fin 2) * 64 + 1 * (j 1).val = (j 1).val; rw [i1]; omega
/-- Window 4 is its whole array at every point. -/
theorem iblk2_4_eq (t : Fin cfg2.N) : iblk2 c A 4 t = (A 4 : S64x64.Idx → Elt F .f32) := by
  obtain ⟨-, -, -, -, -, -, -, -, -, -, i0, i1, -, -, -, -, -, -, -, -, -, -, -, -, -, -, -, -⟩ := idx_facts2 t
  funext j
  show (A 4 : S64x64.Idx → Elt F .f32) (((cfg2.win 4).blk t).view.emb j) = _
  refine congrArg (A 4 : S64x64.Idx → Elt F .f32) (funext fun a => Fin.ext ?_)
  match a with
  | ⟨0, _⟩ => show win2_4.index t (0 : Fin 2) * 64 + 1 * (j 0).val = (j 0).val; rw [i0]; omega
  | ⟨1, _⟩ => show win2_4.index t (1 : Fin 2) * 64 + 1 * (j 1).val = (j 1).val; rw [i1]; omega
/-- Window 5 is its whole array at every point. -/
theorem iblk2_5_eq (t : Fin cfg2.N) : iblk2 c A 5 t = (A 5 : S1x64.Idx → Elt F .f32) := by
  obtain ⟨-, -, -, -, -, -, -, -, -, -, -, -, i0, i1, -, -, -, -, -, -, -, -, -, -, -, -, -, -⟩ := idx_facts2 t
  funext j
  show (A 5 : S1x64.Idx → Elt F .f32) (((cfg2.win 5).blk t).view.emb j) = _
  refine congrArg (A 5 : S1x64.Idx → Elt F .f32) (funext fun a => Fin.ext ?_)
  match a with
  | ⟨0, _⟩ => show win2_5.index t (0 : Fin 2) * 1 + 1 * (j 0).val = (j 0).val; rw [i0]; omega
  | ⟨1, _⟩ => show win2_5.index t (1 : Fin 2) * 64 + 1 * (j 1).val = (j 1).val; rw [i1]; omega
/-- Window 6 is its whole array at every point. -/
theorem iblk2_6_eq (t : Fin cfg2.N) : iblk2 c A 6 t = (A 6 : S64x64.Idx → Elt F .bf16) := by
  obtain ⟨-, -, -, -, -, -, -, -, -, -, -, -, -, -, i0, i1, -, -, -, -, -, -, -, -, -, -, -, -⟩ := idx_facts2 t
  funext j
  show (A 6 : S64x64.Idx → Elt F .bf16) (((cfg2.win 6).blk t).view.emb j) = _
  refine congrArg (A 6 : S64x64.Idx → Elt F .bf16) (funext fun a => Fin.ext ?_)
  match a with
  | ⟨0, _⟩ => show win2_6.index t (0 : Fin 2) * 64 + 1 * (j 0).val = (j 0).val; rw [i0]; omega
  | ⟨1, _⟩ => show win2_6.index t (1 : Fin 2) * 64 + 1 * (j 1).val = (j 1).val; rw [i1]; omega
/-- Window 7 is its whole array at every point. -/
theorem iblk2_7_eq (t : Fin cfg2.N) : iblk2 c A 7 t = (A 7 : S1x64.Idx → Elt F .bf16) := by
  obtain ⟨-, -, -, -, -, -, -, -, -, -, -, -, -, -, -, -, i0, i1, -, -, -, -, -, -, -, -, -, -⟩ := idx_facts2 t
  funext j
  show (A 7 : S1x64.Idx → Elt F .bf16) (((cfg2.win 7).blk t).view.emb j) = _
  refine congrArg (A 7 : S1x64.Idx → Elt F .bf16) (funext fun a => Fin.ext ?_)
  match a with
  | ⟨0, _⟩ => show win2_7.index t (0 : Fin 2) * 1 + 1 * (j 0).val = (j 0).val; rw [i0]; omega
  | ⟨1, _⟩ => show win2_7.index t (1 : Fin 2) * 64 + 1 * (j 1).val = (j 1).val; rw [i1]; omega
/-- Window 8 is its whole array at every point. -/
theorem iblk2_8_eq (t : Fin cfg2.N) : iblk2 c A 8 t = (A 8 : S64x64.Idx → Elt F .bf16) := by
  obtain ⟨-, -, -, -, -, -, -, -, -, -, -, -, -, -, -, -, -, -, i0, i1, -, -, -, -, -, -, -, -⟩ := idx_facts2 t
  funext j
  show (A 8 : S64x64.Idx → Elt F .bf16) (((cfg2.win 8).blk t).view.emb j) = _
  refine congrArg (A 8 : S64x64.Idx → Elt F .bf16) (funext fun a => Fin.ext ?_)
  match a with
  | ⟨0, _⟩ => show win2_8.index t (0 : Fin 2) * 64 + 1 * (j 0).val = (j 0).val; rw [i0]; omega
  | ⟨1, _⟩ => show win2_8.index t (1 : Fin 2) * 64 + 1 * (j 1).val = (j 1).val; rw [i1]; omega
/-- Window 9 is its whole array at every point. -/
theorem iblk2_9_eq (t : Fin cfg2.N) : iblk2 c A 9 t = (A 9 : S64x64.Idx → Elt F .bf16) := by
  obtain ⟨-, -, -, -, -, -, -, -, -, -, -, -, -, -, -, -, -, -, -, -, i0, i1, -, -, -, -, -, -⟩ := idx_facts2 t
  funext j
  show (A 9 : S64x64.Idx → Elt F .bf16) (((cfg2.win 9).blk t).view.emb j) = _
  refine congrArg (A 9 : S64x64.Idx → Elt F .bf16) (funext fun a => Fin.ext ?_)
  match a with
  | ⟨0, _⟩ => show win2_9.index t (0 : Fin 2) * 64 + 1 * (j 0).val = (j 0).val; rw [i0]; omega
  | ⟨1, _⟩ => show win2_9.index t (1 : Fin 2) * 64 + 1 * (j 1).val = (j 1).val; rw [i1]; omega
/-- Window 10 is its whole array at every point. -/
theorem iblk2_10_eq (t : Fin cfg2.N) : iblk2 c A 10 t = (A 10 : S1x64.Idx → Elt F .bf16) := by
  obtain ⟨-, -, -, -, -, -, -, -, -, -, -, -, -, -, -, -, -, -, -, -, -, -, i0, i1, -, -, -, -⟩ := idx_facts2 t
  funext j
  show (A 10 : S1x64.Idx → Elt F .bf16) (((cfg2.win 10).blk t).view.emb j) = _
  refine congrArg (A 10 : S1x64.Idx → Elt F .bf16) (funext fun a => Fin.ext ?_)
  match a with
  | ⟨0, _⟩ => show win2_10.index t (0 : Fin 2) * 1 + 1 * (j 0).val = (j 0).val; rw [i0]; omega
  | ⟨1, _⟩ => show win2_10.index t (1 : Fin 2) * 64 + 1 * (j 1).val = (j 1).val; rw [i1]; omega
/-- Window 11 is its whole array at every point. -/
theorem iblk2_11_eq (t : Fin cfg2.N) : iblk2 c A 11 t = (A 11 : S1x64.Idx → Elt F .bf16) := by
  obtain ⟨-, -, -, -, -, -, -, -, -, -, -, -, -, -, -, -, -, -, -, -, -, -, -, -, i0, i1, -, -⟩ := idx_facts2 t
  funext j
  show (A 11 : S1x64.Idx → Elt F .bf16) (((cfg2.win 11).blk t).view.emb j) = _
  refine congrArg (A 11 : S1x64.Idx → Elt F .bf16) (funext fun a => Fin.ext ?_)
  match a with
  | ⟨0, _⟩ => show win2_11.index t (0 : Fin 2) * 1 + 1 * (j 0).val = (j 0).val; rw [i0]; omega
  | ⟨1, _⟩ => show win2_11.index t (1 : Fin 2) * 64 + 1 * (j 1).val = (j 1).val; rw [i1]; omega
/-- Window 12 is its whole array at every point. -/
theorem iblk2_12_eq (t : Fin cfg2.N) : iblk2 c A 12 t = (A 12 : S1x1.Idx → Elt F .f32) := by
  obtain ⟨-, -, -, -, -, -, -, -, -, -, -, -, -, -, -, -, -, -, -, -, -, -, -, -, -, -, i0, i1⟩ := idx_facts2 t
  funext j
  show (A 12 : S1x1.Idx → Elt F .f32) (((cfg2.win 12).blk t).view.emb j) = _
  refine congrArg (A 12 : S1x1.Idx → Elt F .f32) (funext fun a => Fin.ext ?_)
  match a with
  | ⟨0, _⟩ => show win2_12.index t (0 : Fin 2) * 1 + 1 * (j 0).val = (j 0).val; rw [i0]; omega
  | ⟨1, _⟩ => show win2_12.index t (1 : Fin 2) * 1 + 1 * (j 1).val = (j 1).val; rw [i1]; omega

end Cert.KernelIdeal.Tc

end
-- ==== Proof.TcVal2e.lean ====
/-
  The output array of TensorCore pallas call 2 after its region, all the way down, at the extended reals.

  Entry (b, d) of the 2048 × 64 output, with t = b / 128 and n = b mod 128: the sum over the 50 history
  slots l of the second hidden layer h2(l, n, d) weighted by the exponential of the slot's score shifted by
  the row's maximum, divided by the sum of those exponentials — the kernel's own arrangement —, the
  hidden layer and the scores computed from rows 128 t … of the three moving arrays and from the ten
  whole weight arrays.
-/
import proofs.«217981_g19061064860210_cont_8to1_1320_37_alg».proof.Proof.TcVal2c
import proofs.«217981_g19061064860210_cont_8to1_1320_37_alg».proof.Proof.TcVal2d

set_option maxRecDepth 16384

noncomputable section

namespace Cert.KernelIdeal.Tc

open Cert.KernelIdeal Cert.KernelIdeal.Gen
open Idealize.ShloMosaic Idealize.ShloMosaic.TcCoe Idealize.ShloMosaic.ValueIdx

/-- The attention output of one 128-row block at (n, d), from the thirteen input blocks: the softmax-weighted sum over
    the 50 slots of the second hidden layer, in the kernel's arrangement  (Σ_l h2 · e) / (Σ_l e),
    e(l, n) = exp (score(l, n) − max_l' score(l', n)). -/
def attnOut (x0 : Vec Ideal S50x128x128 .f32) (x1 : Vec Ideal S128x128 .f32) (x2 : Vec Ideal S50x128x8 .i8)
    (x3 : Vec Ideal S8x64 .f32) (x4 : Vec Ideal S64x64 .f32) (x5 : Vec Ideal S1x64 .f32) (x6 : Vec Ideal S64x64 .bf16)
    (x7 : Vec Ideal S1x64 .bf16) (x8 x9 : Vec Ideal S64x64 .bf16) (x10 x11 : Vec Ideal S1x64 .bf16) (x12 : Vec Ideal S1x1 .f32) (n : Fin 128) (d : Fin 64) : EReal :=
  Ideal.div
    (∑ l : Fin 50, hid2 x0 x2 x3 x4 x5 x6 x7 l n d
      * FloatOps.exp (F := Ideal) (φ := .f32) (score2 (k2_pay2 x0 x3 x4 x5 x2 x6 x7) (k2_pay3 x1) x8 x9 x10 x11 x12 l n - smax2 (k2_pay2 x0 x3 x4 x5 x2 x6 x7) (k2_pay3 x1) x8 x9 x10 x11 x12 n))
    (∑ l : Fin 50, FloatOps.exp (F := Ideal) (φ := .f32) (score2 (k2_pay2 x0 x3 x4 x5 x2 x6 x7) (k2_pay3 x1) x8 x9 x10 x11 x12 l n - smax2 (k2_pay2 x0 x3 x4 x5 x2 x6 x7) (k2_pay3 x1) x8 x9 x10 x11 x12 n))

/-- What the second call's body leaves in its output buffer is the attention output of its blocks. -/
theorem out2_13_attn (x0 : Vec Ideal S50x128x128 .f32) (x1 : Vec Ideal S128x128 .f32) (x2 : Vec Ideal S50x128x8 .i8)
    (x3 : Vec Ideal S8x64 .f32) (x4 : Vec Ideal S64x64 .f32) (x5 : Vec Ideal S1x64 .f32) (x6 : Vec Ideal S64x64 .bf16)
    (x7 : Vec Ideal S1x64 .bf16) (x8 x9 : Vec Ideal S64x64 .bf16) (x10 x11 : Vec Ideal S1x64 .bf16) (x12 : Vec Ideal S1x1 .f32) (n : Fin 128) (d : Fin 64) :
    out2_13 x0 x1 x2 x3 x4 x5 x6 x7 x8 x9 x10 x11 x12 (ix2 n d : S128x64.Idx) = attnOut x0 x1 x2 x3 x4 x5 x6 x7 x8 x9 x10 x11 x12 n d :=
  out2_13_closed x0 x1 x2 x3 x4 x5 x6 x7 x8 x9 x10 x11 x12 n d

set_option maxHeartbeats 4000000 in
/-- The output array after the region at (b, d): the attention output of the moving windows' blocks at point b / 128
    and the whole weight arrays, at row b mod 128. -/
theorem G2_13_closed (c : Dev nD) (A : (w : Fin cfg2.W) → Buf (Elt Ideal) ((cfg2.win w).arr.view.loc (c.tc : Thread nD τ)))
    (i : S2048x64.Idx) :
    G2_13 c A i
      = attnOut (iblk2 c A 0 (tOf2 i)) (iblk2 c A 1 (tOf2 i)) (iblk2 c A 2 (tOf2 i)) (A 3) (A 4) (A 5) (A 6) (A 7) (A 8) (A 9) (A 10) (A 11) (A 12) (⟨(i 0).val % 128, Nat.mod_lt _ (by decide)⟩ : Fin 128) (i 1) := by
  unfold G2_13
  refine (out2_13_attn _ _ _ _ _ _ _ _ _ _ _ _ _ _ _).trans ?_
  simp only [iblk2_3_eq, iblk2_4_eq, iblk2_5_eq, iblk2_6_eq, iblk2_7_eq, iblk2_8_eq, iblk2_9_eq, iblk2_10_eq, iblk2_11_eq, iblk2_12_eq]

end Cert.KernelIdeal.Tc

end
-- ==== Proof.TcSpecLink.lean ====
/-
  The body's payloads are the specification's kernel arrangement, block by block.

  The specification's kernel arrangement is written over the program's arguments: the two embedding
  tables, the small rating table, the index arrays and the six dense layers' weights and biases.  The
  body computes from thirteen blocks.  If the blocks hold what the program feeds them — the gathered
  rows of the combined table, the one-hot ratings, the padded rating table, and the weight slices,
  transposed where the body multiplies from the right — then layer by layer the body's values are
  the specification's: the first network's two layers, the second network's two layers, the score,
  and the softmax-weighted sum, for the batch row each block row stands for.
-/
import proofs.«217981_g19061064860210_cont_8to1_1320_37_alg».proof.Proof.TcVal2e
import proofs.«217981_g19061064860210_cont_8to1_1320_37_alg».proof.Proof.KSpec

set_option maxRecDepth 16384

noncomputable section

namespace Cert.KernelIdeal.Tc

open Cert.KernelIdeal Cert.KernelIdeal.Gen Cert.Proof.Spec
open Idealize.ShloMosaic Idealize.ShloMosaic.TcCoe Idealize.ShloMosaic.ValueIdx Idealize.ShloMosaic.LibERealLaws

variable (n0 : (⟨1, ![4096]⟩ : Shape).Idx → BitVec 32) (n1 n2 : (⟨2, ![4096, 50]⟩ : Shape).Idx → BitVec 32)
  (A3 A4 : (⟨2, ![100000, 64]⟩ : Shape).Idx → EReal) (A5 : (⟨2, ![5, 64]⟩ : Shape).Idx → EReal)
  (W6 : (⟨2, ![64, 128]⟩ : Shape).Idx → EReal) (b7 : (⟨1, ![64]⟩ : Shape).Idx → EReal)
  (W8 : (⟨2, ![64, 64]⟩ : Shape).Idx → EReal) (b9 : (⟨1, ![64]⟩ : Shape).Idx → EReal)
  (W10 : (⟨2, ![64, 128]⟩ : Shape).Idx → EReal) (b11 : (⟨1, ![64]⟩ : Shape).Idx → EReal)
  (W12 : (⟨2, ![64, 64]⟩ : Shape).Idx → EReal) (b13 : (⟨1, ![64]⟩ : Shape).Idx → EReal)
  (w14 : (⟨2, ![1, 64]⟩ : Shape).Idx → EReal) (b15 : (⟨1, ![1]⟩ : Shape).Idx → EReal)

variable (x0 : Vec Ideal S50x128x128 .f32) (x1 : Vec Ideal S128x128 .f32) (x2 : Vec Ideal S50x128x8 .i8)
    (x3 : Vec Ideal S8x64 .f32) (x4 : Vec Ideal S64x64 .f32) (x5 : Vec Ideal S1x64 .f32) (x6 : Vec Ideal S64x64 .bf16)
    (x7 : Vec Ideal S1x64 .bf16) (x8 x9 : Vec Ideal S64x64 .bf16) (x10 x11 : Vec Ideal S1x64 .bf16) (x12 : Vec Ideal S1x1 .f32)
  (bOf : Fin 128 → Fin 4096)

/-- The zero word's value is zero. -/
theorem zword_eq : (Scalar.ofBits .bf16 0x0000#16 : Ideal .bf16) = (0 : EReal) := by
  show Ideal.ofBits .bf16 0x0000#16 = 0
  exact ofBits_zero_bf16

/-- The rating table the body builds is the specification's: the padded table against the high half of the first
    layer's weights (transposed in the block), plus that layer's bias. -/
theorem ratingTab_spec (hx3 : ∀ c m, x3 (ix2 c m) = A5pad A5 c m)
    (hx4 : ∀ (m k : Fin 64), x4 (ix2 m k) = W6 (ix2 k (⟨64 + m.val, by have := m.isLt; omega⟩ : Fin 128)))
    (hx5 : ∀ k : Fin 64, x5 (ix2 (0 : Fin 1) k) = b7 (ix1 k)) (c : Fin 8) (k : Fin 64) :
    ratingTab x3 x4 x5 c k = rt A5 W6 b7 c k := by
  unfold ratingTab rt
  rw [hx5]
  exact congrArg (fun x : EReal => x + b7 (ix1 k)) (Finset.sum_congr rfl fun m _ => by rw [hx3, hx4])

/-- The first layer. -/
theorem hid1_spec
    (hx0 : ∀ (l : Fin 50) (n : Fin 128) (k : Fin 64), x0 (ix3 l n (⟨k.val, by have := k.isLt; omega⟩ : Fin 128))
      = ctLo A4 W6 (clampRow 100000 (by decide) (n1 (ix2 (bOf n) l))) k)
    (hx2 : ∀ (l : Fin 50) (n : Fin 128) (c : Fin 8), (FloatOps.sitofp (F := Ideal) .bf16 (x2 (ix3 l n c)) : EReal) = onehot (n2 (ix2 (bOf n) l)) c)
    (hx3 : ∀ c m, x3 (ix2 c m) = A5pad A5 c m)
    (hx4 : ∀ (m k : Fin 64), x4 (ix2 m k) = W6 (ix2 k (⟨64 + m.val, by have := m.isLt; omega⟩ : Fin 128)))
    (hx5 : ∀ k : Fin 64, x5 (ix2 (0 : Fin 1) k) = b7 (ix1 k)) (l : Fin 50) (n : Fin 128) (k : Fin 64) :
    hid1 x0 x2 x3 x4 x5 l n k = xK n1 n2 A4 A5 W6 b7 (bOf n) l k := by
  unfold hid1 xK
  rw [zword_eq, hx0]
  refine congrArg (fun x : EReal => max (ctLo A4 W6 (clampRow 100000 (by decide) (n1 (ix2 (bOf n) l))) k + x) 0)
    (Finset.sum_congr rfl fun c _ => ?_)
  rw [hx2, ratingTab_spec A5 W6 b7 x3 x4 x5 hx3 hx4 hx5]

/-- The first network's output. -/
theorem hid2_spec
    (hx0 : ∀ (l : Fin 50) (n : Fin 128) (k : Fin 64), x0 (ix3 l n (⟨k.val, by have := k.isLt; omega⟩ : Fin 128))
      = ctLo A4 W6 (clampRow 100000 (by decide) (n1 (ix2 (bOf n) l))) k)
    (hx2 : ∀ (l : Fin 50) (n : Fin 128) (c : Fin 8), (FloatOps.sitofp (F := Ideal) .bf16 (x2 (ix3 l n c)) : EReal) = onehot (n2 (ix2 (bOf n) l)) c)
    (hx3 : ∀ c m, x3 (ix2 c m) = A5pad A5 c m)
    (hx4 : ∀ (m k : Fin 64), x4 (ix2 m k) = W6 (ix2 k (⟨64 + m.val, by have := m.isLt; omega⟩ : Fin 128)))
    (hx5 : ∀ k : Fin 64, x5 (ix2 (0 : Fin 1) k) = b7 (ix1 k))
    (hx6 : ∀ k d : Fin 64, x6 (ix2 k d) = W8 (ix2 d k))
    (hx7 : ∀ d : Fin 64, x7 (ix2 (0 : Fin 1) d) = b9 (ix1 d)) (l : Fin 50) (n : Fin 128) (d : Fin 64) :
    hid2 x0 x2 x3 x4 x5 x6 x7 l n d = oK n1 n2 A4 A5 W6 b7 W8 b9 (bOf n) l d := by
  unfold hid2 oK dense
  rw [zword_eq, hx7]
  refine congrArg (fun x : EReal => max (x + b9 (ix1 d)) 0) (Finset.sum_congr rfl fun k _ => ?_)
  rw [hid1_spec n1 n2 A4 A5 W6 b7 x0 x2 x3 x4 x5 bOf hx0 hx2 hx3 hx4 hx5, hx6]

/-- The second network's first layer. -/
theorem att1_spec
    (hx0 : ∀ (l : Fin 50) (n : Fin 128) (k : Fin 64), x0 (ix3 l n (⟨k.val, by have := k.isLt; omega⟩ : Fin 128))
      = ctLo A4 W6 (clampRow 100000 (by decide) (n1 (ix2 (bOf n) l))) k)
    (hx1 : ∀ (n : Fin 128) (k : Fin 64), x1 (ix2 n (⟨64 + k.val, by have := k.isLt; omega⟩ : Fin 128))
      = ctHi A3 W10 b11 (clampRow 100000 (by decide) (n0 (ix1 (bOf n)))) k)
    (hx2 : ∀ (l : Fin 50) (n : Fin 128) (c : Fin 8), (FloatOps.sitofp (F := Ideal) .bf16 (x2 (ix3 l n c)) : EReal) = onehot (n2 (ix2 (bOf n) l)) c)
    (hx3 : ∀ c m, x3 (ix2 c m) = A5pad A5 c m)
    (hx4 : ∀ (m k : Fin 64), x4 (ix2 m k) = W6 (ix2 k (⟨64 + m.val, by have := m.isLt; omega⟩ : Fin 128)))
    (hx5 : ∀ k : Fin 64, x5 (ix2 (0 : Fin 1) k) = b7 (ix1 k))
    (hx6 : ∀ k d : Fin 64, x6 (ix2 k d) = W8 (ix2 d k))
    (hx7 : ∀ d : Fin 64, x7 (ix2 (0 : Fin 1) d) = b9 (ix1 d))
    (hx8 : ∀ j k : Fin 64, x8 (ix2 j k) = W10 (ix2 k (⟨j.val, by have := j.isLt; omega⟩ : Fin 128))) (l : Fin 50) (n : Fin 128) (k : Fin 64) :
    att1 (k2_pay2 x0 x3 x4 x5 x2 x6 x7) (k2_pay3 x1) x8 l n k = a1K n0 n1 n2 A3 A4 A5 W6 b7 W8 b9 W10 b11 (bOf n) l k := by
  rw [att1_hid]
  unfold a1K
  rw [zword_eq, hx1]
  refine congrArg (fun x : EReal => max (x + ctHi A3 W10 b11 (clampRow 100000 (by decide) (n0 (ix1 (bOf n)))) k) 0)
    (Finset.sum_congr rfl fun j _ => ?_)
  rw [hid2_spec n1 n2 A4 A5 W6 b7 W8 b9 x0 x2 x3 x4 x5 x6 x7 bOf hx0 hx2 hx3 hx4 hx5 hx6 hx7, hx8]

/-- The second network's second layer. -/
theorem att2_spec
    (hx0 : ∀ (l : Fin 50) (n : Fin 128) (k : Fin 64), x0 (ix3 l n (⟨k.val, by have := k.isLt; omega⟩ : Fin 128))
      = ctLo A4 W6 (clampRow 100000 (by decide) (n1 (ix2 (bOf n) l))) k)
    (hx1 : ∀ (n : Fin 128) (k : Fin 64), x1 (ix2 n (⟨64 + k.val, by have := k.isLt; omega⟩ : Fin 128))
      = ctHi A3 W10 b11 (clampRow 100000 (by decide) (n0 (ix1 (bOf n)))) k)
    (hx2 : ∀ (l : Fin 50) (n : Fin 128) (c : Fin 8), (FloatOps.sitofp (F := Ideal) .bf16 (x2 (ix3 l n c)) : EReal) = onehot (n2 (ix2 (bOf n) l)) c)
    (hx3 : ∀ c m, x3 (ix2 c m) = A5pad A5 c m)
    (hx4 : ∀ (m k : Fin 64), x4 (ix2 m k) = W6 (ix2 k (⟨64 + m.val, by have := m.isLt; omega⟩ : Fin 128)))
    (hx5 : ∀ k : Fin 64, x5 (ix2 (0 : Fin 1) k) = b7 (ix1 k))
    (hx6 : ∀ k d : Fin 64, x6 (ix2 k d) = W8 (ix2 d k))
    (hx7 : ∀ d : Fin 64, x7 (ix2 (0 : Fin 1) d) = b9 (ix1 d))
    (hx8 : ∀ j k : Fin 64, x8 (ix2 j k) = W10 (ix2 k (⟨j.val, by have := j.isLt; omega⟩ : Fin 128)))
    (hx9 : ∀ k d : Fin 64, x9 (ix2 k d) = W12 (ix2 d k))
    (hx10 : ∀ d : Fin 64, x10 (ix2 (0 : Fin 1) d) = b13 (ix1 d)) (l : Fin 50) (n : Fin 128) (d : Fin 64) :
    att2 (k2_pay2 x0 x3 x4 x5 x2 x6 x7) (k2_pay3 x1) x8 x9 x10 l n d = dense W12 b13 (a1K n0 n1 n2 A3 A4 A5 W6 b7 W8 b9 W10 b11 (bOf n) l) d := by
  unfold att2 dense
  rw [zword_eq, hx10]
  refine congrArg (fun x : EReal => max (x + b13 (ix1 d)) 0) (Finset.sum_congr rfl fun k _ => ?_)
  rw [att1_spec n0 n1 n2 A3 A4 A5 W6 b7 W8 b9 W10 b11 x0 x1 x2 x3 x4 x5 x6 x7 x8 bOf hx0 hx1 hx2 hx3 hx4 hx5 hx6 hx7 hx8, hx9]

/-- The score. -/
theorem score2_spec
    (hx0 : ∀ (l : Fin 50) (n : Fin 128) (k : Fin 64), x0 (ix3 l n (⟨k.val, by have := k.isLt; omega⟩ : Fin 128))
      = ctLo A4 W6 (clampRow 100000 (by decide) (n1 (ix2 (bOf n) l))) k)
    (hx1 : ∀ (n : Fin 128) (k : Fin 64), x1 (ix2 n (⟨64 + k.val, by have := k.isLt; omega⟩ : Fin 128))
      = ctHi A3 W10 b11 (clampRow 100000 (by decide) (n0 (ix1 (bOf n)))) k)
    (hx2 : ∀ (l : Fin 50) (n : Fin 128) (c : Fin 8), (FloatOps.sitofp (F := Ideal) .bf16 (x2 (ix3 l n c)) : EReal) = onehot (n2 (ix2 (bOf n) l)) c)
    (hx3 : ∀ c m, x3 (ix2 c m) = A5pad A5 c m)
    (hx4 : ∀ (m k : Fin 64), x4 (ix2 m k) = W6 (ix2 k (⟨64 + m.val, by have := m.isLt; omega⟩ : Fin 128)))
    (hx5 : ∀ k : Fin 64, x5 (ix2 (0 : Fin 1) k) = b7 (ix1 k))
    (hx6 : ∀ k d : Fin 64, x6 (ix2 k d) = W8 (ix2 d k))
    (hx7 : ∀ d : Fin 64, x7 (ix2 (0 : Fin 1) d) = b9 (ix1 d))
    (hx8 : ∀ j k : Fin 64, x8 (ix2 j k) = W10 (ix2 k (⟨j.val, by have := j.isLt; omega⟩ : Fin 128)))
    (hx9 : ∀ k d : Fin 64, x9 (ix2 k d) = W12 (ix2 d k))
    (hx10 : ∀ d : Fin 64, x10 (ix2 (0 : Fin 1) d) = b13 (ix1 d))
    (hx11 : ∀ d : Fin 64, x11 (ix2 (0 : Fin 1) d) = w14 (ix2 (⟨0, Nat.one_pos⟩ : Fin 1) d))
    (hx12 : x12 (ix2 (0 : Fin 1) (0 : Fin 1)) = b15 (ix1 (⟨0, Nat.one_pos⟩ : Fin 1))) (l : Fin 50) (n : Fin 128) :
    score2 (k2_pay2 x0 x3 x4 x5 x2 x6 x7) (k2_pay3 x1) x8 x9 x10 x11 x12 l n
      = logitK n0 n1 n2 A3 A4 A5 W6 b7 W8 b9 W10 b11 W12 b13 w14 b15 (bOf n) l := by
  unfold score2 logitK
  rw [hx12]
  refine congrArg (fun x : EReal => x + b15 (ix1 (⟨0, Nat.one_pos⟩ : Fin 1))) (Finset.sum_congr rfl fun d _ => ?_)
  rw [att2_spec n0 n1 n2 A3 A4 A5 W6 b7 W8 b9 W10 b11 W12 b13 x0 x1 x2 x3 x4 x5 x6 x7 x8 x9 x10 bOf
    hx0 hx1 hx2 hx3 hx4 hx5 hx6 hx7 hx8 hx9 hx10, hx11]

/-- The softmax-weighted sum: the body's output for block row n is the specification's kernel arrangement for the
    batch row bOf n. -/
theorem attnOut_spec
    (hx0 : ∀ (l : Fin 50) (n : Fin 128) (k : Fin 64), x0 (ix3 l n (⟨k.val, by have := k.isLt; omega⟩ : Fin 128))
      = ctLo A4 W6 (clampRow 100000 (by decide) (n1 (ix2 (bOf n) l))) k)
    (hx1 : ∀ (n : Fin 128) (k : Fin 64), x1 (ix2 n (⟨64 + k.val, by have := k.isLt; omega⟩ : Fin 128))
      = ctHi A3 W10 b11 (clampRow 100000 (by decide) (n0 (ix1 (bOf n)))) k)
    (hx2 : ∀ (l : Fin 50) (n : Fin 128) (c : Fin 8), (FloatOps.sitofp (F := Ideal) .bf16 (x2 (ix3 l n c)) : EReal) = onehot (n2 (ix2 (bOf n) l)) c)
    (hx3 : ∀ c m, x3 (ix2 c m) = A5pad A5 c m)
    (hx4 : ∀ (m k : Fin 64), x4 (ix2 m k) = W6 (ix2 k (⟨64 + m.val, by have := m.isLt; omega⟩ : Fin 128)))
    (hx5 : ∀ k : Fin 64, x5 (ix2 (0 : Fin 1) k) = b7 (ix1 k))
    (hx6 : ∀ k d : Fin 64, x6 (ix2 k d) = W8 (ix2 d k))
    (hx7 : ∀ d : Fin 64, x7 (ix2 (0 : Fin 1) d) = b9 (ix1 d))
    (hx8 : ∀ j k : Fin 64, x8 (ix2 j k) = W10 (ix2 k (⟨j.val, by have := j.isLt; omega⟩ : Fin 128)))
    (hx9 : ∀ k d : Fin 64, x9 (ix2 k d) = W12 (ix2 d k))
    (hx10 : ∀ d : Fin 64, x10 (ix2 (0 : Fin 1) d) = b13 (ix1 d))
    (hx11 : ∀ d : Fin 64, x11 (ix2 (0 : Fin 1) d) = w14 (ix2 (⟨0, Nat.one_pos⟩ : Fin 1) d))
    (hx12 : x12 (ix2 (0 : Fin 1) (0 : Fin 1)) = b15 (ix1 (⟨0, Nat.one_pos⟩ : Fin 1))) (n : Fin 128) (d : Fin 64) :
    attnOut x0 x1 x2 x3 x4 x5 x6 x7 x8 x9 x10 x11 x12 n d
      = GK n0 n1 n2 A3 A4 A5 W6 b7 W8 b9 W10 b11 W12 b13 w14 b15 (bOf n) d := by
  have hS : ∀ l, score2 (k2_pay2 x0 x3 x4 x5 x2 x6 x7) (k2_pay3 x1) x8 x9 x10 x11 x12 l n
      = logitK n0 n1 n2 A3 A4 A5 W6 b7 W8 b9 W10 b11 W12 b13 w14 b15 (bOf n) l := fun l =>
    score2_spec n0 n1 n2 A3 A4 A5 W6 b7 W8 b9 W10 b11 W12 b13 w14 b15 x0 x1 x2 x3 x4 x5 x6 x7 x8 x9 x10 x11 x12 bOf
      hx0 hx1 hx2 hx3 hx4 hx5 hx6 hx7 hx8 hx9 hx10 hx11 hx12 l n
  have hM : smax2 (k2_pay2 x0 x3 x4 x5 x2 x6 x7) (k2_pay3 x1) x8 x9 x10 x11 x12 n
      = (Finset.univ : Finset (Fin 50)).fold Max.max ⊥ (fun t' => logitK n0 n1 n2 A3 A4 A5 W6 b7 W8 b9 W10 b11 W12 b13 w14 b15 (bOf n) t') := by
    unfold smax2
    rw [show FloatOps.ofBits (F := Ideal) .f32 0xFF800000#32 = (⊥ : EReal) from ofBits_neg_inf_f32]
    exact congrArg (fun f : Fin 50 → EReal => (Finset.univ : Finset (Fin 50)).fold Max.max ⊥ f) (funext hS)
  have hE : ∀ l, FloatOps.exp (F := Ideal) (φ := .f32) (score2 (k2_pay2 x0 x3 x4 x5 x2 x6 x7) (k2_pay3 x1) x8 x9 x10 x11 x12 l n - smax2 (k2_pay2 x0 x3 x4 x5 x2 x6 x7) (k2_pay3 x1) x8 x9 x10 x11 x12 n)
      = eK n0 n1 n2 A3 A4 A5 W6 b7 W8 b9 W10 b11 W12 b13 w14 b15 (bOf n) l := fun l => by
    unfold eK; rw [hS l, hM]; rfl
  unfold attnOut GK
  refine congrArg₂ Ideal.div (Finset.sum_congr rfl fun l _ => ?_) (Finset.sum_congr rfl fun l _ => hE l)
  rw [hE l, hid2_spec n1 n2 A4 A5 W6 b7 W8 b9 x0 x2 x3 x4 x5 x6 x7 bOf hx0 hx2 hx3 hx4 hx5 hx6 hx7]

end Cert.KernelIdeal.Tc

end
-- ==== Proof.TcSpecLink2.lean ====
/-
  The output array of TensorCore pallas call 2 is the specification's kernel arrangement, row by row.

  If, when the region is entered, the three moving arrays hold the gathered rows of the combined
  table and the one-hot ratings for the batch rows bRow 0 … bRow 2047, and the ten small arrays hold
  the weight slices as the program prepares them, then after the region row N of the 2048 × 64 output
  is the specification's kernel arrangement for batch row bRow N.
-/
import proofs.«217981_g19061064860210_cont_8to1_1320_37_alg».proof.Proof.TcSpecLink

set_option maxRecDepth 16384

noncomputable section

namespace Cert.KernelIdeal.Tc

open Cert.KernelIdeal Cert.KernelIdeal.Gen Cert.Proof.Spec
open Idealize.ShloMosaic Idealize.ShloMosaic.TcCoe Idealize.ShloMosaic.ValueIdx Idealize.ShloMosaic.LibERealLaws

variable (n0 : (⟨1, ![4096]⟩ : Shape).Idx → BitVec 32) (n1 n2 : (⟨2, ![4096, 50]⟩ : Shape).Idx → BitVec 32)
  (A3 A4 : (⟨2, ![100000, 64]⟩ : Shape).Idx → EReal) (A5 : (⟨2, ![5, 64]⟩ : Shape).Idx → EReal)
  (W6 : (⟨2, ![64, 128]⟩ : Shape).Idx → EReal) (b7 : (⟨1, ![64]⟩ : Shape).Idx → EReal)
  (W8 : (⟨2, ![64, 64]⟩ : Shape).Idx → EReal) (b9 : (⟨1, ![64]⟩ : Shape).Idx → EReal)
  (W10 : (⟨2, ![64, 128]⟩ : Shape).Idx → EReal) (b11 : (⟨1, ![64]⟩ : Shape).Idx → EReal)
  (W12 : (⟨2, ![64, 64]⟩ : Shape).Idx → EReal) (b13 : (⟨1, ![64]⟩ : Shape).Idx → EReal)
  (w14 : (⟨2, ![1, 64]⟩ : Shape).Idx → EReal) (b15 : (⟨1, ![1]⟩ : Shape).Idx → EReal)

set_option maxHeartbeats 4000000 in
/-- The output array after the region, from index equations on the arrays as the region finds them. -/
theorem G2_13_spec (c : Dev nD) (A : (w : Fin cfg2.W) → Buf (Elt Ideal) ((cfg2.win w).arr.view.loc (c.tc : Thread nD τ)))
    (bRow : Fin 2048 → Fin 4096)
    (HA0 : ∀ (l : Fin 50) (N : Fin 2048) (k : Fin 64), (A 0 : S50x2048x128.Idx → EReal) (ix3 l N (⟨k.val, by have := k.isLt; omega⟩ : Fin 128))
      = ctLo A4 W6 (clampRow 100000 (by decide) (n1 (ix2 (bRow N) l))) k)
    (HA1 : ∀ (N : Fin 2048) (k : Fin 64), (A 1 : S2048x128.Idx → EReal) (ix2 N (⟨64 + k.val, by have := k.isLt; omega⟩ : Fin 128))
      = ctHi A3 W10 b11 (clampRow 100000 (by decide) (n0 (ix1 (bRow N)))) k)
    (HA2 : ∀ (l : Fin 50) (N : Fin 2048) (r : Fin 8),
      (FloatOps.sitofp (F := Ideal) .bf16 ((A 2 : S50x2048x8.Idx → Elt Ideal .i8) (ix3 l N r)) : EReal) = onehot (n2 (ix2 (bRow N) l)) r)
    (HA3 : ∀ r m, (A 3 : S8x64.Idx → EReal) (ix2 r m) = A5pad A5 r m)
    (HA4 : ∀ (m k : Fin 64), (A 4 : S64x64.Idx → EReal) (ix2 m k) = W6 (ix2 k (⟨64 + m.val, by have := m.isLt; omega⟩ : Fin 128)))
    (HA5 : ∀ k : Fin 64, (A 5 : S1x64.Idx → EReal) (ix2 (0 : Fin 1) k) = b7 (ix1 k))
    (HA6 : ∀ k d : Fin 64, (A 6 : S64x64.Idx → EReal) (ix2 k d) = W8 (ix2 d k))
    (HA7 : ∀ d : Fin 64, (A 7 : S1x64.Idx → EReal) (ix2 (0 : Fin 1) d) = b9 (ix1 d))
    (HA8 : ∀ j k : Fin 64, (A 8 : S64x64.Idx → EReal) (ix2 j k) = W10 (ix2 k (⟨j.val, by have := j.isLt; omega⟩ : Fin 128)))
    (HA9 : ∀ k d : Fin 64, (A 9 : S64x64.Idx → EReal) (ix2 k d) = W12 (ix2 d k))
    (HA10 : ∀ d : Fin 64, (A 10 : S1x64.Idx → EReal) (ix2 (0 : Fin 1) d) = b13 (ix1 d))
    (HA11 : ∀ d : Fin 64, (A 11 : S1x64.Idx → EReal) (ix2 (0 : Fin 1) d) = w14 (ix2 (⟨0, Nat.one_pos⟩ : Fin 1) d))
    (HA12 : (A 12 : S1x1.Idx → EReal) (ix2 (0 : Fin 1) (0 : Fin 1)) = b15 (ix1 (⟨0, Nat.one_pos⟩ : Fin 1)))
    (i : S2048x64.Idx) :
    G2_13 c A i = GK n0 n1 n2 A3 A4 A5 W6 b7 W8 b9 W10 b11 W12 b13 w14 b15 (bRow (i 0)) (i 1) := by
  have hi0 : (i 0).val < 2048 := (i 0).isLt
  have ht : (tOf2 i).val = (i 0).val / 128 := rfl
  -- the batch row of block row n' at the point of row i 0
  let rowOf : Fin 128 → Fin 2048 := fun n' => ⟨128 * (tOf2 i).val + n'.val, by have := n'.isLt; rw [ht]; omega⟩
  have hrow : rowOf (⟨(i 0).val % 128, Nat.mod_lt _ (by decide)⟩ : Fin 128) = i 0 :=
    Fin.ext (by show 128 * (tOf2 i).val + (i 0).val % 128 = (i 0).val; rw [ht]; omega)
  refine (G2_13_closed c A i).trans ?_
  refine (attnOut_spec n0 n1 n2 A3 A4 A5 W6 b7 W8 b9 W10 b11 W12 b13 w14 b15
    (iblk2 c A 0 (tOf2 i)) (iblk2 c A 1 (tOf2 i)) (iblk2 c A 2 (tOf2 i)) (A 3) (A 4) (A 5) (A 6) (A 7) (A 8) (A 9) (A 10) (A 11) (A 12)
    (fun n' => bRow (rowOf n'))
    (fun l n' k => (iblk2_0_read c A (tOf2 i) l n' _ (rowOf n') rfl).trans (HA0 l (rowOf n') k))
    (fun n' k => (iblk2_1_read c A (tOf2 i) n' _ (rowOf n') rfl).trans (HA1 (rowOf n') k))
    (fun l n' r => (congrArg (fun w : Elt Ideal .i8 => (FloatOps.sitofp (F := Ideal) .bf16 w : EReal))
      (iblk2_2_read c A (tOf2 i) l n' r (rowOf n') rfl)).trans (HA2 l (rowOf n') r))
    HA3 HA4 HA5 HA6 HA7 HA8 HA9 HA10 HA11 HA12 _ (i 1)).trans ?_
  show GK n0 n1 n2 A3 A4 A5 W6 b7 W8 b9 W10 b11 W12 b13 w14 b15 (bRow (rowOf _)) (i 1) = _
  rw [hrow]

variable {Ix : Type} [DecidableEq Ix] {Name : Type} [DecidableEq Name] {U : Type} [Idealize.SL.RA.URA U] {Lvl : Type} [Preorder Lvl]

/-- The same of the buffers after the region: the exit valuation at the output array, entry (N, d), is the
    specification's kernel arrangement for batch row bRow N — given the index equations of G2_13_spec of the entry
    valuation's arrays A w := valTc W2 c (arrRef spec2 w). -/
theorem exitW2_spec (W2 : Dev nD → Valuation τ sig (Elt Ideal)) (O2 : Dev nD → CellTallies nD τ sig Ix)
    (B2 : Dev nD → Set (SemLoc sig × Ix)) (c : Dev nD) (bRow : Fin 2048 → Fin 4096)
    (hG : ∀ i : S2048x64.Idx, G2_13 c (fun w => valTc W2 c (Pipeline.arrRef spec2 w)) i
      = GK n0 n1 n2 A3 A4 A5 W6 b7 W8 b9 W10 b11 W12 b13 w14 b15 (bRow (i 0)) (i 1))
    (i : S2048x64.Idx) :
    (exitW2 Name U Lvl W2 O2 B2 c (Proc.devRef .tc (Pipeline.arrRef spec2 13)) : S2048x64.Idx → EReal) i
      = GK n0 n1 n2 A3 A4 A5 W6 b7 W8 b9 W10 b11 W12 b13 w14 b15 (bRow (i 0)) (i 1) :=
  (congrFun (exitW2_out W2 O2 B2 c) i).trans (hG i)

end Cert.KernelIdeal.Tc

end
-- ==== Proof.TcFinal4.lean ====
/-
  The output array of TensorCore pallas call 4 after its region, in closed form.

  The output is a 2048 × 64 array written back in sixteen 128 × 64 row blocks, one per grid point, and
  the blocks tile it.  Point t writes back the payload of the thirteen input blocks at t, so after the
  region entry (n, d) of the array is the payload of the input blocks at point n / 128, read at
  (n mod 128, d): one function G of the arrays as the region finds them, index by index.  The input
  arrays are as the region found them.
-/
import proofs.«217981_g19061064860210_cont_8to1_1320_37_alg».proof.Proof.TcDat4
import Idealize.ShloMosaic.Lib.Pipeline.Value
import Idealize.ShloMosaic.Lib.ValueIdx

set_option maxRecDepth 16384

noncomputable section

namespace Cert.KernelIdeal.Tc

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The output window's block index at point t is (t, 0): row block t, the one column block. -/
theorem idx_facts4_13 : ∀ t : Fin cfg4.N, win4_13.index t (0 : Fin 2) = t.val ∧ win4_13.index t (1 : Fin 2) = 0 :=
  (by decide +kernel : ∀ t : Fin grid4.N, _)

/-- The grid point whose block holds row n of the output array: n / 128. -/
def tOf4 (i : S2048x64.Idx) : Fin cfg4.N := ⟨(i 0).val / 128, by have h : (i 0).val < 2048 := (i 0).isLt; show (i 0).val / 128 < grid4.N; rw [N_4]; omega⟩

/-- What the output array ends holding: at (n, d) the payload of the thirteen input blocks at point n / 128, read
    at (n mod 128, d). -/
def G4_13 (c : Dev nD) (A : (w : Fin cfg4.W) → Buf (Elt F) ((cfg4.win w).arr.view.loc (c.tc : Thread nD τ))) : S2048x64.Idx → Elt F .f32 := fun i =>
  out4_13 (iblk4 c A 0 (tOf4 i)) (iblk4 c A 1 (tOf4 i)) (iblk4 c A 2 (tOf4 i)) (iblk4 c A 3 (tOf4 i)) (iblk4 c A 4 (tOf4 i)) (iblk4 c A 5 (tOf4 i)) (iblk4 c A 6 (tOf4 i)) (iblk4 c A 7 (tOf4 i)) (iblk4 c A 8 (tOf4 i)) (iblk4 c A 9 (tOf4 i)) (iblk4 c A 10 (tOf4 i)) (iblk4 c A 11 (tOf4 i)) (iblk4 c A 12 (tOf4 i))
    (ix2 (⟨(i 0).val % 128, Nat.mod_lt _ (by decide)⟩ : Fin 128) (i 1))

variable (c : Dev nD) (A : (w : Fin cfg4.W) → Buf (Elt F) ((cfg4.win w).arr.view.loc (c.tc : Thread nD τ)))

/-- What point t writes back is block t of G. -/
theorem flushed4_13_eq (Φ₀ : sProp 𝕄) (O : CellTallies nD τ sig Ix) (B : Set (SemLoc sig × Ix)) (t : Fin cfg4.N) :
    (dats4 (F := F) (Ix := Ix) (Name := Name) (U := U) (Lvl := Lvl) c A Φ₀ O B).flushed 13 t = ((cfg4.win 13).blk t).view.read (Elt F) (G4_13 c A) := by
  show (cfg4.win 13).cut (grid4.coords t) ((dats4 (F := F) (Ix := Ix) (Name := Name) (U := U) (Lvl := Lvl) c A Φ₀ O B).after 13 t) = _
  rw [after4_13]
  obtain ⟨e0, e1⟩ := idx_facts4_13 t
  funext j
  have hj0 : (j 0).val < 128 := (j 0).isLt
  have hj1 : (j 1).val < 64 := (j 1).isLt
  have h0 : ((((cfg4.win 13).blk t).view.emb j) 0).val = t.val * 128 + (j 0).val := by
    show win4_13.index t (0 : Fin 2) * 128 + 1 * (j 0).val = _; rw [e0]; omega
  have h1 : ((((cfg4.win 13).blk t).view.emb j) 1).val = (j 1).val := by
    show win4_13.index t (1 : Fin 2) * 64 + 1 * (j 1).val = _; rw [e1]; omega
  have et : tOf4 (((cfg4.win 13).blk t).view.emb j) = t := Fin.ext (by show _ / 128 = t.val; rw [h0]; omega)
  show out4_13 (iblk4 c A 0 t) (iblk4 c A 1 t) (iblk4 c A 2 t) (iblk4 c A 3 t) (iblk4 c A 4 t) (iblk4 c A 5 t) (iblk4 c A 6 t) (iblk4 c A 7 t) (iblk4 c A 8 t) (iblk4 c A 9 t) (iblk4 c A 10 t) (iblk4 c A 11 t) (iblk4 c A 12 t) j = G4_13 c A (((cfg4.win 13).blk t).view.emb j)
  unfold G4_13
  rw [et]
  congr 1
  funext a
  match a with
  | ⟨0, _⟩ => exact Fin.ext (by show (j 0).val = _ % 128; rw [h0]; omega)
  | ⟨1, _⟩ => exact Fin.ext h1.symm

/-- An index of the output array is in point t's block iff each coordinate is in the block's range on its axis. -/
theorem mem_blk4_13 (t : Fin cfg4.N) (i : S2048x64.Idx) :
    i ∈ ((cfg4.win 13).blk t).view.set ↔ ∀ a : Fin 2, win4_13.index t a * S128x64.size a ≤ (i a).val ∧ (i a).val < win4_13.index t a * S128x64.size a + S128x64.size a := by
  show i ∈ ((View.whole main_v62).slice (win4_13.rect t)).set ↔ _
  rw [View.set_slice_whole, Rect.mem_set_unit]
  exact Iff.rfl

/-- The sixteen blocks tile the output array: row n is in the block of point n / 128. -/
theorem cover4_13_arr (i : S2048x64.Idx) :
    ∃ t : Fin cfg4.N, (cfg4.win 13).flush t = true ∧ i ∈ ((cfg4.win 13).blk t).view.set := by
  refine ⟨tOf4 i, flush4_13 _, ?_⟩
  rw [mem_blk4_13]
  obtain ⟨e0, e1⟩ := idx_facts4_13 (tOf4 i)
  have hi1 : (i 1).val < 64 := (i 1).isLt
  intro a
  match a with
  | ⟨0, _⟩ => show win4_13.index (tOf4 i) (0 : Fin 2) * 128 ≤ (i 0).val ∧ (i 0).val < win4_13.index (tOf4 i) (0 : Fin 2) * 128 + 128; rw [e0]; show (i 0).val / 128 * 128 ≤ _ ∧ _ < (i 0).val / 128 * 128 + 128; omega
  | ⟨1, _⟩ => show win4_13.index (tOf4 i) (1 : Fin 2) * 64 ≤ (i 1).val ∧ (i 1).val < win4_13.index (tOf4 i) (1 : Fin 2) * 64 + 64; rw [e1]; omega

/-- The output array after the region is G of the arrays as the region found them. -/
theorem final4_13 (Φ₀ : sProp 𝕄) (O : CellTallies nD τ sig Ix) (B : Set (SemLoc sig × Ix)) : (dats4 (F := F) (Ix := Ix) (Name := Name) (U := U) (Lvl := Lvl) c A Φ₀ O B).arrAt 13 cfg4.N = G4_13 c A :=
  (dats4 (F := F) (Ix := Ix) (Name := Name) (U := U) (Lvl := Lvl) c A Φ₀ O B).arrAt_eq_of_cover 13 (G4_13 c A) (fun t _ => flushed4_13_eq c A Φ₀ O B t) (cover4_13_arr)

end Cert.KernelIdeal.Tc

end
-- ==== Proof.TcVal4.lean ====
/-
  The output of TensorCore pallas call 4 at an index, at the extended reals, in the body's own
  arrangement.

  The body ends by dividing, for each of its 128 rows n and 64 columns d, the sum over the 50 history
  slots l of  o(l, n, d) · e(l, n)  by the row's denominator  s(n):  e is the exponential of the
  shifted scores, s its sum over the slots, o the rectified features.  Read at an index that is
      out(n, d) = ( Σ_l o(l, n, d) · e(l, n) ) / s(n),      s(n) = Σ_l e(l, n),
  the division the extended reals' (total) one.
-/
import proofs.«217981_g19061064860210_cont_8to1_1320_37_alg».proof.Proof.TcVal2
import proofs.«217981_g19061064860210_cont_8to1_1320_37_alg».proof.Proof.TcFinal4
import proofs.«217981_g19061064860210_cont_8to1_1320_37_alg».proof.Proof.TcReg4
import Idealize.ShloMosaic.PureOps.Ideal.Laws
import Idealize.ShloMosaic.Lib.ValueIdx
import Idealize.ShloMosaic.Lib.Pipeline.Value

set_option maxRecDepth 16384

noncomputable section

namespace Cert.KernelIdeal.Tc

open Cert.KernelIdeal Cert.KernelIdeal.Gen
open Idealize.ShloMosaic Idealize.ShloMosaic.TcCoe Idealize.ShloMosaic.ValueIdx

/-- The final division of pallas call 4 at an index: (Σ_l o(l, n, d) · e(l, n)) / s(n). -/
theorem k4_pay1_apply (v75 : FVec Ideal S50x128x1 .f32) (v76 : FVec Ideal S128x1 .f32) (v78 : FVec Ideal S50x128x64 .f32)
    (n : Fin 128) (d : Fin 64) :
    k4_pay1 v75 v76 v78 (ix2 n d : S128x64.Idx)
      = Ideal.div (∑ l : Fin 50, v78 (ix3 l n d) * v75 (ix3 l n (0 : Fin 1))) (v76 (ix2 n (0 : Fin 1))) := by
  unfold k4_pay1
  show Ideal.div (multiReduction .add [0] S128x64 (mulf v78 (broadcastTo S50x128x64 v75 broadcasts_S50x128x1_S50x128x64))
      0x00000000#32 reduces_S50x128x64_S128x64 (.inl rfl) rfl (ix2 n d))
    (broadcastTo S128x64 v76 broadcasts_S128x1_S128x64 (ix2 n d)) = _
  refine (congrArg₂ Ideal.div
    (Ideal.multiReduction_add_single (mulf v78 (broadcastTo S50x128x64 v75 broadcasts_S50x128x1_S50x128x64)) 0x00000000#32
      reduces_S50x128x64_S128x64 (.inl rfl) rfl (ix2 n d))
    (broadcastTo_apply v76 broadcasts_S128x1_S128x64 (ix2 n d) (ix2 n (0 : Fin 1) : S128x1.Idx)
      (fun a => by match a with | ⟨0, _⟩ => rfl | ⟨1, _⟩ => rfl))).trans ?_
  refine congrArg (fun x : EReal => Ideal.div x (v76 (ix2 n (0 : Fin 1)))) (Finset.sum_congr rfl fun l _ => ?_)
  refine (congrArg (mulf v78 (broadcastTo S50x128x64 v75 broadcasts_S50x128x1_S50x128x64)) (lift_slot_64 n d l)).trans ?_
  exact congrArg (fun x : EReal => v78 (ix3 (l : Fin 50) n d) * x)
    (broadcastTo_apply v75 broadcasts_S50x128x1_S50x128x64 (ix3 (l : Fin 50) n d) (ix3 (l : Fin 50) n (0 : Fin 1) : S50x128x1.Idx)
      (fun a => by match a with | ⟨0, _⟩ => rfl | ⟨1, _⟩ => rfl | ⟨2, _⟩ => rfl))

/-- The denominator at a row is the sum of the exponentials over the 50 slots. -/
theorem k4_pay5_apply (v33 : FVec Ideal S6400x64 .bf16) (v35 : FVec Ideal S128x128 .f32) (v42 v49 : Vec Ideal S64x64 .bf16)
    (v53 v59 : Vec Ideal S1x64 .bf16) (v66 : Vec Ideal S1x1 .f32) (n : Fin 128) :
    k4_pay5 v33 v35 v42 v49 v53 v59 v66 (ix2 n (0 : Fin 1) : S128x1.Idx)
      = ∑ l : Fin 50, k4_pay4 v33 v35 v42 v49 v53 v59 v66 (ix3 l n (0 : Fin 1)) := by
  unfold k4_pay5
  exact (Ideal.multiReduction_add_single (k4_pay4 v33 v35 v42 v49 v53 v59 v66) 0x00000000#32 reduces_S50x128x1_S128x1 (.inl rfl) rfl
    (ix2 n (0 : Fin 1))).trans (Finset.sum_congr rfl fun l _ => congrArg (k4_pay4 v33 v35 v42 v49 v53 v59 v66) (lift_slot_1 n l))

/-- The rectified features the body weights: o, a 50 × 128 × 64 block, from the seven blocks it is computed from. -/
def feat4 (x0 : Vec Ideal S50x128x128 .f32) (x2 : Vec Ideal S50x128x8 .i8) (x3 : Vec Ideal S8x64 .f32) (x4 : Vec Ideal S64x64 .f32)
    (x5 : Vec Ideal S1x64 .f32) (x6 : Vec Ideal S64x64 .bf16) (x7 : Vec Ideal S1x64 .bf16) : FVec Ideal S50x128x64 .f32 :=
  k4_pay6 (k4_pay2 x0 x3 x4 x5 x2 x6 x7)

/-- The exponentials of the shifted scores: e, a 50 × 128 × 1 block, from the thirteen input blocks. -/
def expo4 (x0 : Vec Ideal S50x128x128 .f32) (x1 : Vec Ideal S128x128 .f32) (x2 : Vec Ideal S50x128x8 .i8) (x3 : Vec Ideal S8x64 .f32)
    (x4 : Vec Ideal S64x64 .f32) (x5 : Vec Ideal S1x64 .f32) (x6 : Vec Ideal S64x64 .bf16) (x7 : Vec Ideal S1x64 .bf16)
    (x8 x9 : Vec Ideal S64x64 .bf16) (x10 x11 : Vec Ideal S1x64 .bf16) (x12 : Vec Ideal S1x1 .f32) : FVec Ideal S50x128x1 .f32 :=
  k4_pay4 (k4_pay2 x0 x3 x4 x5 x2 x6 x7) (k4_pay3 x1) x8 x9 x10 x11 x12

/-- What the body leaves in the output buffer, at an index: the softmax-weighted sum over the 50 slots of the
    rectified features, in the body's own arrangement  (Σ_l o·e) / (Σ_l e). -/
theorem out4_13_apply (x0 : Vec Ideal S50x128x128 .f32) (x1 : Vec Ideal S128x128 .f32) (x2 : Vec Ideal S50x128x8 .i8)
    (x3 : Vec Ideal S8x64 .f32) (x4 : Vec Ideal S64x64 .f32) (x5 : Vec Ideal S1x64 .f32) (x6 : Vec Ideal S64x64 .bf16)
    (x7 : Vec Ideal S1x64 .bf16) (x8 x9 : Vec Ideal S64x64 .bf16) (x10 x11 : Vec Ideal S1x64 .bf16) (x12 : Vec Ideal S1x1 .f32)
    (n : Fin 128) (d : Fin 64) :
    out4_13 x0 x1 x2 x3 x4 x5 x6 x7 x8 x9 x10 x11 x12 (ix2 n d : S128x64.Idx)
      = Ideal.div (∑ l : Fin 50, feat4 x0 x2 x3 x4 x5 x6 x7 (ix3 l n d) * expo4 x0 x1 x2 x3 x4 x5 x6 x7 x8 x9 x10 x11 x12 (ix3 l n (0 : Fin 1)))
          (∑ l : Fin 50, expo4 x0 x1 x2 x3 x4 x5 x6 x7 x8 x9 x10 x11 x12 (ix3 l n (0 : Fin 1))) := by
  have hz2 : (![0, 0] : Fin 2 → Nat) = fun _ => 0 := funext fun a => by fin_cases a <;> rfl
  have hz3 : (![0, 0, 0] : Fin 3 → Nat) = fun _ => 0 := funext fun a => by fin_cases a <;> rfl
  unfold out4_13
  rw [View.canon_unit_zero hz2]
  simp only [View.ld_unit_zero (S := S50x128x128) hz3, View.ld_unit_zero (S := S50x128x8) hz3, View.ld_unit_zero (S := S128x128) hz2,
    View.ld_unit_zero (S := S8x64) hz2, View.ld_unit_zero (S := S64x64) hz2, View.ld_unit_zero (S := S1x64) hz2,
    View.ld_unit_zero (S := S1x1) hz2]
  rw [k4_pay1_apply, k4_pay5_apply]
  rfl

/-! ## The output array after the region -/

variable {Ix : Type} [DecidableEq Ix] {Name : Type} [DecidableEq Name] {U : Type} [Idealize.SL.RA.URA U] {Lvl : Type} [Preorder Lvl]

/-- The output array of pallas call 4 after its region, at (b, d): with t = b / 128 the grid point whose block holds
    row b and n = b mod 128 the row inside it, the softmax-weighted sum  (Σ_l o·e) / (Σ_l e)  of the rectified
    features computed from the thirteen input blocks at point t. -/
theorem G4_13_apply (c : Dev nD) (A : (w : Fin cfg4.W) → Buf (Elt Ideal) ((cfg4.win w).arr.view.loc (c.tc : Thread nD τ)))
    (i : S2048x64.Idx) :
    G4_13 c A i
      = Ideal.div
          (∑ l : Fin 50, feat4 (iblk4 c A 0 (tOf4 i)) (iblk4 c A 2 (tOf4 i)) (iblk4 c A 3 (tOf4 i)) (iblk4 c A 4 (tOf4 i))
                (iblk4 c A 5 (tOf4 i)) (iblk4 c A 6 (tOf4 i)) (iblk4 c A 7 (tOf4 i))
                (ix3 l (⟨(i 0).val % 128, Nat.mod_lt _ (by decide)⟩ : Fin 128) (i 1))
              * expo4 (iblk4 c A 0 (tOf4 i)) (iblk4 c A 1 (tOf4 i)) (iblk4 c A 2 (tOf4 i)) (iblk4 c A 3 (tOf4 i)) (iblk4 c A 4 (tOf4 i)) (iblk4 c A 5 (tOf4 i)) (iblk4 c A 6 (tOf4 i)) (iblk4 c A 7 (tOf4 i)) (iblk4 c A 8 (tOf4 i)) (iblk4 c A 9 (tOf4 i)) (iblk4 c A 10 (tOf4 i)) (iblk4 c A 11 (tOf4 i)) (iblk4 c A 12 (tOf4 i)) (ix3 l (⟨(i 0).val % 128, Nat.mod_lt _ (by decide)⟩ : Fin 128) (0 : Fin 1)))
          (∑ l : Fin 50, expo4 (iblk4 c A 0 (tOf4 i)) (iblk4 c A 1 (tOf4 i)) (iblk4 c A 2 (tOf4 i)) (iblk4 c A 3 (tOf4 i)) (iblk4 c A 4 (tOf4 i)) (iblk4 c A 5 (tOf4 i)) (iblk4 c A 6 (tOf4 i)) (iblk4 c A 7 (tOf4 i)) (iblk4 c A 8 (tOf4 i)) (iblk4 c A 9 (tOf4 i)) (iblk4 c A 10 (tOf4 i)) (iblk4 c A 11 (tOf4 i)) (iblk4 c A 12 (tOf4 i)) (ix3 l (⟨(i 0).val % 128, Nat.mod_lt _ (by decide)⟩ : Fin 128) (0 : Fin 1))) := by
  unfold G4_13
  exact out4_13_apply _ _ _ _ _ _ _ _ _ _ _ _ _ _ _

/-- The same, of the buffers after the region: the region's exit valuation at the output array is G of the arrays
    as the region found them. -/
theorem exitW4_out (W4 : Dev nD → Valuation τ sig (Elt Ideal)) (O4 : Dev nD → CellTallies nD τ sig Ix)
    (B4 : Dev nD → Set (SemLoc sig × Ix)) (c : Dev nD) :
    exitW4 Name U Lvl W4 O4 B4 c (Proc.devRef .tc (Pipeline.arrRef spec4 13))
      = G4_13 c (fun w => valTc W4 c (Pipeline.arrRef spec4 w)) :=
  (exitW4_arr W4 O4 B4 c 13).trans (final4_13 c _ _ _ _)

end Cert.KernelIdeal.Tc

end
-- ==== Proof.TcVal4b.lean ====
/-
  The third pallas call runs the same body as the second: its payloads are the same functions.

  The two bodies were lowered from one kernel; their payloads differ in name only.  So everything read
  of the second call's payloads at an index holds of the third's.
-/
import proofs.«217981_g19061064860210_cont_8to1_1320_37_alg».proof.Proof.TcVal2c
import proofs.«217981_g19061064860210_cont_8to1_1320_37_alg».proof.Proof.TcVal4

set_option maxRecDepth 65536

noncomputable section

namespace Cert.KernelIdeal.Tc

open Cert.KernelIdeal Cert.KernelIdeal.Gen
open Idealize.ShloMosaic Idealize.ShloMosaic.TcCoe Idealize.ShloMosaic.ValueIdx

variable {F : FTy → Type} [FloatOps F]

theorem k4_pay1_eq : @k4_pay1 F _ = @k2_pay1 F _ := rfl
theorem k4_pay2_eq : @k4_pay2 F _ = @k2_pay2 F _ := rfl
theorem k4_pay3_eq : @k4_pay3 F = @k2_pay3 F := rfl
theorem k4_pay4_eq : @k4_pay4 F _ = @k2_pay4 F _ := rfl
theorem k4_pay5_eq : @k4_pay5 F _ = @k2_pay5 F _ := rfl
theorem k4_pay6_eq : @k4_pay6 F _ = @k2_pay6 F _ := rfl

/-- What the third call's body leaves in its output buffer is what the second's does, of the same thirteen blocks. -/
theorem out4_13_eq : @out4_13 F _ = @out2_13 F _ := rfl

/-- So the third call's output at an index is the same softmax-weighted sum, of its own thirteen blocks. -/
theorem out4_13_closed (x0 : Vec Ideal S50x128x128 .f32) (x1 : Vec Ideal S128x128 .f32) (x2 : Vec Ideal S50x128x8 .i8)
    (x3 : Vec Ideal S8x64 .f32) (x4 : Vec Ideal S64x64 .f32) (x5 : Vec Ideal S1x64 .f32) (x6 : Vec Ideal S64x64 .bf16)
    (x7 : Vec Ideal S1x64 .bf16) (x8 x9 : Vec Ideal S64x64 .bf16) (x10 x11 : Vec Ideal S1x64 .bf16) (x12 : Vec Ideal S1x1 .f32)
    (n : Fin 128) (d : Fin 64) :
    out4_13 x0 x1 x2 x3 x4 x5 x6 x7 x8 x9 x10 x11 x12 (ix2 n d : S128x64.Idx)
      = Ideal.div
          (∑ l : Fin 50, hid2 x0 x2 x3 x4 x5 x6 x7 l n d
            * FloatOps.exp (F := Ideal) (φ := .f32)
                (score2 (k2_pay2 x0 x3 x4 x5 x2 x6 x7) (k2_pay3 x1) x8 x9 x10 x11 x12 l n
                  - smax2 (k2_pay2 x0 x3 x4 x5 x2 x6 x7) (k2_pay3 x1) x8 x9 x10 x11 x12 n))
          (∑ l : Fin 50, FloatOps.exp (F := Ideal) (φ := .f32)
                (score2 (k2_pay2 x0 x3 x4 x5 x2 x6 x7) (k2_pay3 x1) x8 x9 x10 x11 x12 l n
                  - smax2 (k2_pay2 x0 x3 x4 x5 x2 x6 x7) (k2_pay3 x1) x8 x9 x10 x11 x12 n)) := by
  rw [out4_13_eq]
  exact out2_13_closed x0 x1 x2 x3 x4 x5 x6 x7 x8 x9 x10 x11 x12 n d

end Cert.KernelIdeal.Tc

end
-- ==== Proof.TcVal4d.lean ====
/-
  The windows' blocks of TensorCore pallas call 4 read off the arrays.

  At grid point t the three moving windows hold rows 128 t … 128 t + 127 of their arrays — the
  gathered features [50, 2048, 128] and the one-hot ratings [50, 2048, 8] along their second axis,
  the rows' own features [2048, 128] along their first —, and the ten small windows hold their whole
  arrays.  Index facts only: the statements hold at every float instance.
-/
import proofs.«217981_g19061064860210_cont_8to1_1320_37_alg».proof.Proof.TcFinal4
import Idealize.ShloMosaic.Lib.ValueIdx

set_option maxRecDepth 16384

noncomputable section

namespace Cert.KernelIdeal.Tc

open Cert.KernelIdeal Cert.KernelIdeal.Gen
open Idealize.ShloMosaic Idealize.ShloMosaic.TcCoe Idealize.ShloMosaic.ValueIdx

/-- The block indices at point t: the three moving windows are at (0, t, 0), (t, 0), (0, t, 0); every small window at (0, 0). -/
theorem idx_facts4 : ∀ t : Fin cfg4.N,
    win4_0.index t (0 : Fin 3) = 0 ∧ win4_0.index t (1 : Fin 3) = t.val ∧ win4_0.index t (2 : Fin 3) = 0
    ∧ win4_1.index t (0 : Fin 2) = t.val ∧ win4_1.index t (1 : Fin 2) = 0
    ∧ win4_2.index t (0 : Fin 3) = 0 ∧ win4_2.index t (1 : Fin 3) = t.val ∧ win4_2.index t (2 : Fin 3) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0
    ∧ win4_9.index t (0 : Fin 2) = 0 ∧ win4_9.index t (1 : Fin 2) = 0
    ∧ win4_10.index t (0 : Fin 2) = 0 ∧ win4_10.index t (1 : Fin 2) = 0
    ∧ win4_11.index t (0 : Fin 2) = 0 ∧ win4_11.index t (1 : Fin 2) = 0
    ∧ win4_12.index t (0 : Fin 2) = 0 ∧ win4_12.index t (1 : Fin 2) = 0 :=
  (by decide +kernel : ∀ t : Fin grid4.N, _)

variable {F : FTy → Type} (c : Dev nD) (A : (w : Fin cfg4.W) → Buf (Elt F) ((cfg4.win w).arr.view.loc (c.tc : Thread nD τ)))

/-- The gathered features' block at point t: rows 128 t … of the array's second axis. -/
theorem iblk4_0_read (t : Fin cfg4.N) (l : Fin 50) (n : Fin 128) (k : Fin 128) (N : Fin 2048) (hN : N.val = 128 * t.val + n.val) :
    iblk4 c A 0 t (ix3 l n k) = (A 0 : S50x2048x128.Idx → Elt F .f32) (ix3 l N k) := by
  obtain ⟨i0, i1, i2, -⟩ := idx_facts4 t
  show (A 0 : S50x2048x128.Idx → Elt F .f32) (((cfg4.win 0).blk t).view.emb _) = _
  refine congrArg (A 0 : S50x2048x128.Idx → Elt F .f32) (funext fun a => Fin.ext ?_)
  match a with
  | ⟨0, _⟩ => show win4_0.index t (0 : Fin 3) * 50 + 1 * l.val = l.val; rw [i0]; omega
  | ⟨1, _⟩ => show win4_0.index t (1 : Fin 3) * 128 + 1 * n.val = N.val; rw [i1]; omega
  | ⟨2, _⟩ => show win4_0.index t (2 : Fin 3) * 128 + 1 * k.val = k.val; rw [i2]; omega

/-- The rows' own features' block at point t: rows 128 t … of the array. -/
theorem iblk4_1_read (t : Fin cfg4.N) (n : Fin 128) (k : Fin 128) (N : Fin 2048) (hN : N.val = 128 * t.val + n.val) :
    iblk4 c A 1 t (ix2 n k) = (A 1 : S2048x128.Idx → Elt F .f32) (ix2 N k) := by
  obtain ⟨-, -, -, i0, i1, -⟩ := idx_facts4 t
  show (A 1 : S2048x128.Idx → Elt F .f32) (((cfg4.win 1).blk t).view.emb _) = _
  refine congrArg (A 1 : S2048x128.Idx → Elt F .f32) (funext fun a => Fin.ext ?_)
  match a with
  | ⟨0, _⟩ => show win4_1.index t (0 : Fin 2) * 128 + 1 * n.val = N.val; rw [i0]; omega
  | ⟨1, _⟩ => show win4_1.index t (1 : Fin 2) * 128 + 1 * k.val = k.val; rw [i1]; omega

/-- The one-hot ratings' block at point t: rows 128 t … of the array's second axis. -/
theorem iblk4_2_read (t : Fin cfg4.N) (l : Fin 50) (n : Fin 128) (k : Fin 8) (N : Fin 2048) (hN : N.val = 128 * t.val + n.val) :
    iblk4 c A 2 t (ix3 l n k) = (A 2 : S50x2048x8.Idx → Elt F .i8) (ix3 l N k) := by
  obtain ⟨-, -, -, -, -, i0, i1, i2, -⟩ := idx_facts4 t
  show (A 2 : S50x2048x8.Idx → Elt F .i8) (((cfg4.win 2).blk t).view.emb _) = _
  refine congrArg (A 2 : S50x2048x8.Idx → Elt F .i8) (funext fun a => Fin.ext ?_)
  match a with
  | ⟨0, _⟩ => show win4_2.index t (0 : Fin 3) * 50 + 1 * l.val = l.val; rw [i0]; omega
  | ⟨1, _⟩ => show win4_2.index t (1 : Fin 3) * 128 + 1 * n.val = N.val; rw [i1]; omega
  | ⟨2, _⟩ => show win4_2.index t (2 : Fin 3) * 8 + 1 * k.val = k.val; rw [i2]; omega

/-- Window 3 is its whole array at every point. -/
theorem iblk4_3_eq (t : Fin cfg4.N) : iblk4 c A 3 t = (A 3 : S8x64.Idx → Elt F .f32) := by
  obtain ⟨-, -, -, -, -, -, -, -, i0, i1, -, -, -, -, -, -, -, -, -, -, -, -, -, -, -, -, -, -⟩ := idx_facts4 t
  funext j
  show (A 3 : S8x64.Idx → Elt F .f32) (((cfg4.win 3).blk t).view.emb j) = _
  refine congrArg (A 3 : S8x64.Idx → Elt F .f32) (funext fun a => Fin.ext ?_)
  match a with
  | ⟨0, _⟩ => show win4_3.index t (0 : Fin 2) * 8 + 1 * (j 0).val = (j 0).val; rw [i0]; omega
  | ⟨1, _⟩ => show win4_3.index t (1 : Fin 2) * 64 + 1 * (j 1).val = (j 1).val; rw [i1]; omega
/-- Window 4 is its whole array at every point. -/
theorem iblk4_4_eq (t : Fin cfg4.N) : iblk4 c A 4 t = (A 4 : S64x64.Idx → Elt F .f32) := by
  obtain ⟨-, -, -, -, -, -, -, -, -, -, i0, i1, -, -, -, -, -, -, -, -, -, -, -, -, -, -, -, -⟩ := idx_facts4 t
  funext j
  show (A 4 : S64x64.Idx → Elt F .f32) (((cfg4.win 4).blk t).view.emb j) = _
  refine congrArg (A 4 : S64x64.Idx → Elt F .f32) (funext fun a => Fin.ext ?_)
  match a with
  | ⟨0, _⟩ => show win4_4.index t (0 : Fin 2) * 64 + 1 * (j 0).val = (j 0).val; rw [i0]; omega
  | ⟨1, _⟩ => show win4_4.index t (1 : Fin 2) * 64 + 1 * (j 1).val = (j 1).val; rw [i1]; omega
/-- Window 5 is its whole array at every point. -/
theorem iblk4_5_eq (t : Fin cfg4.N) : iblk4 c A 5 t = (A 5 : S1x64.Idx → Elt F .f32) := by
  obtain ⟨-, -, -, -, -, -, -, -, -, -, -, -, i0, i1, -, -, -, -, -, -, -, -, -, -, -, -, -, -⟩ := idx_facts4 t
  funext j
  show (A 5 : S1x64.Idx → Elt F .f32) (((cfg4.win 5).blk t).view.emb j) = _
  refine congrArg (A 5 : S1x64.Idx → Elt F .f32) (funext fun a => Fin.ext ?_)
  match a with
  | ⟨0, _⟩ => show win4_5.index t (0 : Fin 2) * 1 + 1 * (j 0).val = (j 0).val; rw [i0]; omega
  | ⟨1, _⟩ => show win4_5.index t (1 : Fin 2) * 64 + 1 * (j 1).val = (j 1).val; rw [i1]; omega
/-- Window 6 is its whole array at every point. -/
theorem iblk4_6_eq (t : Fin cfg4.N) : iblk4 c A 6 t = (A 6 : S64x64.Idx → Elt F .bf16) := by
  obtain ⟨-, -, -, -, -, -, -, -, -, -, -, -, -, -, i0, i1, -, -, -, -, -, -, -, -, -, -, -, -⟩ := idx_facts4 t
  funext j
  show (A 6 : S64x64.Idx → Elt F .bf16) (((cfg4.win 6).blk t).view.emb j) = _
  refine congrArg (A 6 : S64x64.Idx → Elt F .bf16) (funext fun a => Fin.ext ?_)
  match a with
  | ⟨0, _⟩ => show win4_6.index t (0 : Fin 2) * 64 + 1 * (j 0).val = (j 0).val; rw [i0]; omega
  | ⟨1, _⟩ => show win4_6.index t (1 : Fin 2) * 64 + 1 * (j 1).val = (j 1).val; rw [i1]; omega
/-- Window 7 is its whole array at every point. -/
theorem iblk4_7_eq (t : Fin cfg4.N) : iblk4 c A 7 t = (A 7 : S1x64.Idx → Elt F .bf16) := by
  obtain ⟨-, -, -, -, -, -, -, -, -, -, -, -, -, -, -, -, i0, i1, -, -, -, -, -, -, -, -, -, -⟩ := idx_facts4 t
  funext j
  show (A 7 : S1x64.Idx → Elt F .bf16) (((cfg4.win 7).blk t).view.emb j) = _
  refine congrArg (A 7 : S1x64.Idx → Elt F .bf16) (funext fun a => Fin.ext ?_)
  match a with
  | ⟨0, _⟩ => show win4_7.index t (0 : Fin 2) * 1 + 1 * (j 0).val = (j 0).val; rw [i0]; omega
  | ⟨1, _⟩ => show win4_7.index t (1 : Fin 2) * 64 + 1 * (j 1).val = (j 1).val; rw [i1]; omega
/-- Window 8 is its whole array at every point. -/
theorem iblk4_8_eq (t : Fin cfg4.N) : iblk4 c A 8 t = (A 8 : S64x64.Idx → Elt F .bf16) := by
  obtain ⟨-, -, -, -, -, -, -, -, -, -, -, -, -, -, -, -, -, -, i0, i1, -, -, -, -, -, -, -, -⟩ := idx_facts4 t
  funext j
  show (A 8 : S64x64.Idx → Elt F .bf16) (((cfg4.win 8).blk t).view.emb j) = _
  refine congrArg (A 8 : S64x64.Idx → Elt F .bf16) (funext fun a => Fin.ext ?_)
  match a with
  | ⟨0, _⟩ => show win4_8.index t (0 : Fin 2) * 64 + 1 * (j 0).val = (j 0).val; rw [i0]; omega
  | ⟨1, _⟩ => show win4_8.index t (1 : Fin 2) * 64 + 1 * (j 1).val = (j 1).val; rw [i1]; omega
/-- Window 9 is its whole array at every point. -/
theorem iblk4_9_eq (t : Fin cfg4.N) : iblk4 c A 9 t = (A 9 : S64x64.Idx → Elt F .bf16) := by
  obtain ⟨-, -, -, -, -, -, -, -, -, -, -, -, -, -, -, -, -, -, -, -, i0, i1, -, -, -, -, -, -⟩ := idx_facts4 t
  funext j
  show (A 9 : S64x64.Idx → Elt F .bf16) (((cfg4.win 9).blk t).view.emb j) = _
  refine congrArg (A 9 : S64x64.Idx → Elt F .bf16) (funext fun a => Fin.ext ?_)
  match a with
  | ⟨0, _⟩ => show win4_9.index t (0 : Fin 2) * 64 + 1 * (j 0).val = (j 0).val; rw [i0]; omega
  | ⟨1, _⟩ => show win4_9.index t (1 : Fin 2) * 64 + 1 * (j 1).val = (j 1).val; rw [i1]; omega
/-- Window 10 is its whole array at every point. -/
theorem iblk4_10_eq (t : Fin cfg4.N) : iblk4 c A 10 t = (A 10 : S1x64.Idx → Elt F .bf16) := by
  obtain ⟨-, -, -, -, -, -, -, -, -, -, -, -, -, -, -, -, -, -, -, -, -, -, i0, i1, -, -, -, -⟩ := idx_facts4 t
  funext j
  show (A 10 : S1x64.Idx → Elt F .bf16) (((cfg4.win 10).blk t).view.emb j) = _
  refine congrArg (A 10 : S1x64.Idx → Elt F .bf16) (funext fun a => Fin.ext ?_)
  match a with
  | ⟨0, _⟩ => show win4_10.index t (0 : Fin 2) * 1 + 1 * (j 0).val = (j 0).val; rw [i0]; omega
  | ⟨1, _⟩ => show win4_10.index t (1 : Fin 2) * 64 + 1 * (j 1).val = (j 1).val; rw [i1]; omega
/-- Window 11 is its whole array at every point. -/
theorem iblk4_11_eq (t : Fin cfg4.N) : iblk4 c A 11 t = (A 11 : S1x64.Idx → Elt F .bf16) := by
  obtain ⟨-, -, -, -, -, -, -, -, -, -, -, -, -, -, -, -, -, -, -, -, -, -, -, -, i0, i1, -, -⟩ := idx_facts4 t
  funext j
  show (A 11 : S1x64.Idx → Elt F .bf16) (((cfg4.win 11).blk t).view.emb j) = _
  refine congrArg (A 11 : S1x64.Idx → Elt F .bf16) (funext fun a => Fin.ext ?_)
  match a with
  | ⟨0, _⟩ => show win4_11.index t (0 : Fin 2) * 1 + 1 * (j 0).val = (j 0).val; rw [i0]; omega
  | ⟨1, _⟩ => show win4_11.index t (1 : Fin 2) * 64 + 1 * (j 1).val = (j 1).val; rw [i1]; omega
/-- Window 12 is its whole array at every point. -/
theorem iblk4_12_eq (t : Fin cfg4.N) : iblk4 c A 12 t = (A 12 : S1x1.Idx → Elt F .f32) := by
  obtain ⟨-, -, -, -, -, -, -, -, -, -, -, -, -, -, -, -, -, -, -, -, -, -, -, -, -, -, i0, i1⟩ := idx_facts4 t
  funext j
  show (A 12 : S1x1.Idx → Elt F .f32) (((cfg4.win 12).blk t).view.emb j) = _
  refine congrArg (A 12 : S1x1.Idx → Elt F .f32) (funext fun a => Fin.ext ?_)
  match a with
  | ⟨0, _⟩ => show win4_12.index t (0 : Fin 2) * 1 + 1 * (j 0).val = (j 0).val; rw [i0]; omega
  | ⟨1, _⟩ => show win4_12.index t (1 : Fin 2) * 1 + 1 * (j 1).val = (j 1).val; rw [i1]; omega

end Cert.KernelIdeal.Tc

end
-- ==== Proof.TcVal4e.lean ====
/-
  The output array of TensorCore pallas call 4 after its region, all the way down, at the extended reals.

  Entry (b, d) of the 2048 × 64 output, with t = b / 128 and n = b mod 128: the sum over the 50 history
  slots l of the second hidden layer h2(l, n, d) weighted by the exponential of the slot's score shifted by
  the row's maximum, divided by the sum of those exponentials — the kernel's own arrangement —, the
  hidden layer and the scores computed from rows 128 t … of the three moving arrays and from the ten
  whole weight arrays.
-/
import proofs.«217981_g19061064860210_cont_8to1_1320_37_alg».proof.Proof.TcVal4b
import proofs.«217981_g19061064860210_cont_8to1_1320_37_alg».proof.Proof.TcVal4d
import proofs.«217981_g19061064860210_cont_8to1_1320_37_alg».proof.Proof.TcVal2e

set_option maxRecDepth 16384

noncomputable section

namespace Cert.KernelIdeal.Tc

open Cert.KernelIdeal Cert.KernelIdeal.Gen
open Idealize.ShloMosaic Idealize.ShloMosaic.TcCoe Idealize.ShloMosaic.ValueIdx

/-- What the third call's body leaves in its output buffer is the attention output of its blocks. -/
theorem out4_13_attn (x0 : Vec Ideal S50x128x128 .f32) (x1 : Vec Ideal S128x128 .f32) (x2 : Vec Ideal S50x128x8 .i8)
    (x3 : Vec Ideal S8x64 .f32) (x4 : Vec Ideal S64x64 .f32) (x5 : Vec Ideal S1x64 .f32) (x6 : Vec Ideal S64x64 .bf16)
    (x7 : Vec Ideal S1x64 .bf16) (x8 x9 : Vec Ideal S64x64 .bf16) (x10 x11 : Vec Ideal S1x64 .bf16) (x12 : Vec Ideal S1x1 .f32) (n : Fin 128) (d : Fin 64) :
    out4_13 x0 x1 x2 x3 x4 x5 x6 x7 x8 x9 x10 x11 x12 (ix2 n d : S128x64.Idx) = attnOut x0 x1 x2 x3 x4 x5 x6 x7 x8 x9 x10 x11 x12 n d :=
  out4_13_closed x0 x1 x2 x3 x4 x5 x6 x7 x8 x9 x10 x11 x12 n d

set_option maxHeartbeats 4000000 in
/-- The output array after the region at (b, d): the attention output of the moving windows' blocks at point b / 128
    and the whole weight arrays, at row b mod 128. -/
theorem G4_13_closed (c : Dev nD) (A : (w : Fin cfg4.W) → Buf (Elt Ideal) ((cfg4.win w).arr.view.loc (c.tc : Thread nD τ)))
    (i : S2048x64.Idx) :
    G4_13 c A i
      = attnOut (iblk4 c A 0 (tOf4 i)) (iblk4 c A 1 (tOf4 i)) (iblk4 c A 2 (tOf4 i)) (A 3) (A 4) (A 5) (A 6) (A 7) (A 8) (A 9) (A 10) (A 11) (A 12) (⟨(i 0).val % 128, Nat.mod_lt _ (by decide)⟩ : Fin 128) (i 1) := by
  unfold G4_13
  refine (out4_13_attn _ _ _ _ _ _ _ _ _ _ _ _ _ _ _).trans ?_
  simp only [iblk4_3_eq, iblk4_4_eq, iblk4_5_eq, iblk4_6_eq, iblk4_7_eq, iblk4_8_eq, iblk4_9_eq, iblk4_10_eq, iblk4_11_eq, iblk4_12_eq]

end Cert.KernelIdeal.Tc

end
-- ==== Proof.TcSpecLink4.lean ====
/-
  The output array of TensorCore pallas call 4 is the specification's kernel arrangement, row by row.

  If, when the region is entered, the three moving arrays hold the gathered rows of the combined
  table and the one-hot ratings for the batch rows bRow 0 … bRow 2047, and the ten small arrays hold
  the weight slices as the program prepares them, then after the region row N of the 2048 × 64 output
  is the specification's kernel arrangement for batch row bRow N.
-/
import proofs.«217981_g19061064860210_cont_8to1_1320_37_alg».proof.Proof.TcSpecLink
import proofs.«217981_g19061064860210_cont_8to1_1320_37_alg».proof.Proof.TcVal4e

set_option maxRecDepth 16384

noncomputable section

namespace Cert.KernelIdeal.Tc

open Cert.KernelIdeal Cert.KernelIdeal.Gen Cert.Proof.Spec
open Idealize.ShloMosaic Idealize.ShloMosaic.TcCoe Idealize.ShloMosaic.ValueIdx Idealize.ShloMosaic.LibERealLaws

variable (n0 : (⟨1, ![4096]⟩ : Shape).Idx → BitVec 32) (n1 n2 : (⟨2, ![4096, 50]⟩ : Shape).Idx → BitVec 32)
  (A3 A4 : (⟨2, ![100000, 64]⟩ : Shape).Idx → EReal) (A5 : (⟨2, ![5, 64]⟩ : Shape).Idx → EReal)
  (W6 : (⟨2, ![64, 128]⟩ : Shape).Idx → EReal) (b7 : (⟨1, ![64]⟩ : Shape).Idx → EReal)
  (W8 : (⟨2, ![64, 64]⟩ : Shape).Idx → EReal) (b9 : (⟨1, ![64]⟩ : Shape).Idx → EReal)
  (W10 : (⟨2, ![64, 128]⟩ : Shape).Idx → EReal) (b11 : (⟨1, ![64]⟩ : Shape).Idx → EReal)
  (W12 : (⟨2, ![64, 64]⟩ : Shape).Idx → EReal) (b13 : (⟨1, ![64]⟩ : Shape).Idx → EReal)
  (w14 : (⟨2, ![1, 64]⟩ : Shape).Idx → EReal) (b15 : (⟨1, ![1]⟩ : Shape).Idx → EReal)

set_option maxHeartbeats 4000000 in
/-- The output array after the region, from index equations on the arrays as the region finds them. -/
theorem G4_13_spec (c : Dev nD) (A : (w : Fin cfg4.W) → Buf (Elt Ideal) ((cfg4.win w).arr.view.loc (c.tc : Thread nD τ)))
    (bRow : Fin 2048 → Fin 4096)
    (HA0 : ∀ (l : Fin 50) (N : Fin 2048) (k : Fin 64), (A 0 : S50x2048x128.Idx → EReal) (ix3 l N (⟨k.val, by have := k.isLt; omega⟩ : Fin 128))
      = ctLo A4 W6 (clampRow 100000 (by decide) (n1 (ix2 (bRow N) l))) k)
    (HA1 : ∀ (N : Fin 2048) (k : Fin 64), (A 1 : S2048x128.Idx → EReal) (ix2 N (⟨64 + k.val, by have := k.isLt; omega⟩ : Fin 128))
      = ctHi A3 W10 b11 (clampRow 100000 (by decide) (n0 (ix1 (bRow N)))) k)
    (HA2 : ∀ (l : Fin 50) (N : Fin 2048) (r : Fin 8),
      (FloatOps.sitofp (F := Ideal) .bf16 ((A 2 : S50x2048x8.Idx → Elt Ideal .i8) (ix3 l N r)) : EReal) = onehot (n2 (ix2 (bRow N) l)) r)
    (HA3 : ∀ r m, (A 3 : S8x64.Idx → EReal) (ix2 r m) = A5pad A5 r m)
    (HA4 : ∀ (m k : Fin 64), (A 4 : S64x64.Idx → EReal) (ix2 m k) = W6 (ix2 k (⟨64 + m.val, by have := m.isLt; omega⟩ : Fin 128)))
    (HA5 : ∀ k : Fin 64, (A 5 : S1x64.Idx → EReal) (ix2 (0 : Fin 1) k) = b7 (ix1 k))
    (HA6 : ∀ k d : Fin 64, (A 6 : S64x64.Idx → EReal) (ix2 k d) = W8 (ix2 d k))
    (HA7 : ∀ d : Fin 64, (A 7 : S1x64.Idx → EReal) (ix2 (0 : Fin 1) d) = b9 (ix1 d))
    (HA8 : ∀ j k : Fin 64, (A 8 : S64x64.Idx → EReal) (ix2 j k) = W10 (ix2 k (⟨j.val, by have := j.isLt; omega⟩ : Fin 128)))
    (HA9 : ∀ k d : Fin 64, (A 9 : S64x64.Idx → EReal) (ix2 k d) = W12 (ix2 d k))
    (HA10 : ∀ d : Fin 64, (A 10 : S1x64.Idx → EReal) (ix2 (0 : Fin 1) d) = b13 (ix1 d))
    (HA11 : ∀ d : Fin 64, (A 11 : S1x64.Idx → EReal) (ix2 (0 : Fin 1) d) = w14 (ix2 (⟨0, Nat.one_pos⟩ : Fin 1) d))
    (HA12 : (A 12 : S1x1.Idx → EReal) (ix2 (0 : Fin 1) (0 : Fin 1)) = b15 (ix1 (⟨0, Nat.one_pos⟩ : Fin 1)))
    (i : S2048x64.Idx) :
    G4_13 c A i = GK n0 n1 n2 A3 A4 A5 W6 b7 W8 b9 W10 b11 W12 b13 w14 b15 (bRow (i 0)) (i 1) := by
  have hi0 : (i 0).val < 2048 := (i 0).isLt
  have ht : (tOf4 i).val = (i 0).val / 128 := rfl
  -- the batch row of block row n' at the point of row i 0
  let rowOf : Fin 128 → Fin 2048 := fun n' => ⟨128 * (tOf4 i).val + n'.val, by have := n'.isLt; rw [ht]; omega⟩
  have hrow : rowOf (⟨(i 0).val % 128, Nat.mod_lt _ (by decide)⟩ : Fin 128) = i 0 :=
    Fin.ext (by show 128 * (tOf4 i).val + (i 0).val % 128 = (i 0).val; rw [ht]; omega)
  refine (G4_13_closed c A i).trans ?_
  refine (attnOut_spec n0 n1 n2 A3 A4 A5 W6 b7 W8 b9 W10 b11 W12 b13 w14 b15
    (iblk4 c A 0 (tOf4 i)) (iblk4 c A 1 (tOf4 i)) (iblk4 c A 2 (tOf4 i)) (A 3) (A 4) (A 5) (A 6) (A 7) (A 8) (A 9) (A 10) (A 11) (A 12)
    (fun n' => bRow (rowOf n'))
    (fun l n' k => (iblk4_0_read c A (tOf4 i) l n' _ (rowOf n') rfl).trans (HA0 l (rowOf n') k))
    (fun n' k => (iblk4_1_read c A (tOf4 i) n' _ (rowOf n') rfl).trans (HA1 (rowOf n') k))
    (fun l n' r => (congrArg (fun w : Elt Ideal .i8 => (FloatOps.sitofp (F := Ideal) .bf16 w : EReal))
      (iblk4_2_read c A (tOf4 i) l n' r (rowOf n') rfl)).trans (HA2 l (rowOf n') r))
    HA3 HA4 HA5 HA6 HA7 HA8 HA9 HA10 HA11 HA12 _ (i 1)).trans ?_
  show GK n0 n1 n2 A3 A4 A5 W6 b7 W8 b9 W10 b11 W12 b13 w14 b15 (bRow (rowOf _)) (i 1) = _
  rw [hrow]

variable {Ix : Type} [DecidableEq Ix] {Name : Type} [DecidableEq Name] {U : Type} [Idealize.SL.RA.URA U] {Lvl : Type} [Preorder Lvl]

/-- The same of the buffers after the region: the exit valuation at the output array, entry (N, d), is the
    specification's kernel arrangement for batch row bRow N — given the index equations of G4_13_spec of the entry
    valuation's arrays A w := valTc W4 c (arrRef spec4 w). -/
theorem exitW4_spec (W4 : Dev nD → Valuation τ sig (Elt Ideal)) (O4 : Dev nD → CellTallies nD τ sig Ix)
    (B4 : Dev nD → Set (SemLoc sig × Ix)) (c : Dev nD) (bRow : Fin 2048 → Fin 4096)
    (hG : ∀ i : S2048x64.Idx, G4_13 c (fun w => valTc W4 c (Pipeline.arrRef spec4 w)) i
      = GK n0 n1 n2 A3 A4 A5 W6 b7 W8 b9 W10 b11 W12 b13 w14 b15 (bRow (i 0)) (i 1))
    (i : S2048x64.Idx) :
    (exitW4 Name U Lvl W4 O4 B4 c (Proc.devRef .tc (Pipeline.arrRef spec4 13)) : S2048x64.Idx → EReal) i
      = GK n0 n1 n2 A3 A4 A5 W6 b7 W8 b9 W10 b11 W12 b13 w14 b15 (bRow (i 0)) (i 1) :=
  (congrFun (exitW4_out W4 O4 B4 c) i).trans (hG i)

end Cert.KernelIdeal.Tc

end
-- ==== Proof.TcHostOps.lean ====
/-
  The operand preparations of @main at an index, at the extended reals.

  Before each attention call @main slices, transposes, reshapes and rounds the program's weight
  arguments into the blocks the body multiplies from the right, and pads the five-row rating table
  to eight rows.  Read at an index each is an entry of the argument it was made from: a transposed
  slice reads the argument with the coordinates swapped and the column offset added, a row vector
  reshaped to one row reads its entry, the padded table reads the table on its first five rows and
  the padding value below them; the rounding to the half format is the identity at the extended reals.
-/
import proofs.«217981_g19061064860210_cont_8to1_1320_37_alg».proof.Proof.Gen.KernelIdeal.Skeleton
import Idealize.ShloMosaic.Lib.ValueIdx
import Idealize.ShloMosaic.Lib.ValueLayout
import Idealize.ShloMosaic.Lib.KernelVsHost
import Idealize.ShloMosaic.Lib.Pipeline.Value

set_option maxRecDepth 16384

noncomputable section

namespace Cert.KernelIdeal.Tc

open Cert.KernelIdeal Cert.KernelIdeal.Gen
open Idealize.ShloMosaic Idealize.ShloMosaic.TcCoe Idealize.ShloMosaic.ValueIdx

/-- The high 64 columns of a 64 × 128 weight matrix, transposed: entry (m, k) is the matrix's (k, 64 + m). -/
theorem sliceHiT_apply (a : Vec Ideal S64x128 .f32) (m k : Fin 64) :
    transpose S64x64 [1, 0] (extractStridedSlice S64x64 ![0, 64] a slices_S64x128_S64x64_0_64) transposes_S64x64_S64x64_1_0 (ix2 m k)
      = a (ix2 k (⟨64 + m.val, by have := m.isLt; omega⟩ : Fin 128)) := by
  rw [transpose_ix2_apply]
  exact extractStridedSlice_apply ![0, 64] a slices_S64x128_S64x64_0_64 (ix2 k m)
    (ix2 k (⟨64 + m.val, by have := m.isLt; omega⟩ : Fin 128) : S64x128.Idx)
    (fun ax => by match ax with | ⟨0, _⟩ => exact (Nat.zero_add _).symm | ⟨1, _⟩ => rfl)

/-- The low 64 columns of a 64 × 128 weight matrix, transposed and rounded: entry (j, k) is the matrix's (k, j). -/
theorem sliceLoT_apply (a : Vec Ideal S64x128 .f32) (j k : Fin 64) :
    (truncf .bf16 (transpose S64x64 [1, 0] (extractStridedSlice S64x64 ![0, 0] a slices_S64x128_S64x64_0_0) transposes_S64x64_S64x64_1_0)
        bitsLt_bf16_f32 : FVec Ideal S64x64 .bf16) (ix2 j k)
      = a (ix2 k (⟨j.val, by have := j.isLt; omega⟩ : Fin 128)) := by
  show transpose S64x64 [1, 0] (extractStridedSlice S64x64 ![0, 0] a slices_S64x128_S64x64_0_0) transposes_S64x64_S64x64_1_0 (ix2 j k) = _
  rw [transpose_ix2_apply]
  exact extractStridedSlice_apply ![0, 0] a slices_S64x128_S64x64_0_0 (ix2 k j)
    (ix2 k (⟨j.val, by have := j.isLt; omega⟩ : Fin 128) : S64x128.Idx)
    (fun ax => by match ax with | ⟨0, _⟩ => exact (Nat.zero_add _).symm | ⟨1, _⟩ => exact (Nat.zero_add _).symm)

/-- A 64 × 64 weight matrix transposed and rounded: entry (k, d) is the matrix's (d, k). -/
theorem wT_apply (a : Vec Ideal S64x64 .f32) (k d : Fin 64) :
    (truncf .bf16 (transpose S64x64 [1, 0] a transposes_S64x64_S64x64_1_0) bitsLt_bf16_f32 : FVec Ideal S64x64 .bf16) (ix2 k d)
      = a (ix2 d k) := by
  show transpose S64x64 [1, 0] a transposes_S64x64_S64x64_1_0 (ix2 k d) = _
  exact transpose_ix2_apply a transposes_S64x64_S64x64_1_0 k d

/-- A 64-vector reshaped to one row: entry (0, k) is the vector's k. -/
theorem row_apply {α : Type} (a : S64.Idx → α) (k : Fin 64) :
    shapeCast S1x64 a shapeCasts_S64_S1x64 (ix2 (0 : Fin 1) k) = a (ix1 k) :=
  shapeCast_apply a shapeCasts_S64_S1x64 (ix2 (0 : Fin 1) k) (ix1 k) (by
    rw [Shape.rowMajor_val_two, Shape.rowMajor_val_one]; show k.val = 0 * 64 + k.val; omega)

/-- The same, rounded. -/
theorem rowR_apply (a : Vec Ideal S64 .f32) (k : Fin 64) :
    (truncf .bf16 (shapeCast S1x64 a shapeCasts_S64_S1x64) bitsLt_bf16_f32 : FVec Ideal S1x64 .bf16) (ix2 (0 : Fin 1) k) = a (ix1 k) :=
  row_apply a k

/-- A one-entry vector reshaped to 1 × 1. -/
theorem one_apply {α : Type} (a : S1.Idx → α) :
    shapeCast S1x1 a shapeCasts_S1_S1x1 (ix2 (0 : Fin 1) (0 : Fin 1)) = a (ix1 (0 : Fin 1)) :=
  shapeCast_apply a shapeCasts_S1_S1x1 (ix2 (0 : Fin 1) (0 : Fin 1)) (ix1 (0 : Fin 1)) (by
    rw [Shape.rowMajor_val_two, Shape.rowMajor_val_one]; rfl)

/-- The high 64 columns of a 64 × 128 weight matrix, transposed and rounded: entry (k, j) is the matrix's (j, 64 + k). -/
theorem sliceHiTR_apply (a : Vec Ideal S64x128 .f32) (k j : Fin 64) :
    (truncf .bf16 (transpose S64x64 [1, 0] (extractStridedSlice S64x64 ![0, 64] a slices_S64x128_S64x64_0_64) transposes_S64x64_S64x64_1_0)
        bitsLt_bf16_f32 : FVec Ideal S64x64 .bf16) (ix2 k j)
      = a (ix2 j (⟨64 + k.val, by have := k.isLt; omega⟩ : Fin 128)) :=
  sliceHiT_apply a k j

/-- A 100000 × 64 table transposed: entry (k, R) is the table's (R, k). -/
theorem tableT_apply {α : Type} (a : S100000x64.Idx → α) (k : Fin 64) (R : Fin 100000) :
    transpose S64x100000 [1, 0] a transposes_S100000x64_S64x100000_1_0 (ix2 k R) = a (ix2 R k) :=
  transpose_ix2_apply a transposes_S100000x64_S64x100000_1_0 k R

/-- The one-hot word of an index among eight, widened to eight bits and converted: 1 where the index is the
    position, 0 elsewhere. -/
theorem onehot_word_apply (x : BitVec 32) (r : Fin 8) :
    (FloatOps.sitofp (F := Ideal) .bf16 ((IntOp.cmpi .eq x (BitVec.ofNat 32 r.val)).setWidth 8) : EReal)
      = if r.val = x.toNat then 1 else 0 := by
  have hr : r.val < 2 ^ 32 := by have := r.isLt; omega
  by_cases h : r.val = x.toNat
  · have hx : x = BitVec.ofNat 32 r.val :=
      BitVec.eq_of_toNat_eq (by rw [BitVec.toNat_ofNat, Nat.mod_eq_of_lt hr]; exact h.symm)
    rw [if_pos h]
    have : IntOp.cmpi .eq x (BitVec.ofNat 32 r.val) = 1#1 := by
      show BitVec.ofBool (x == BitVec.ofNat 32 r.val) = 1#1
      rw [show (x == BitVec.ofNat 32 r.val) = true from beq_iff_eq.mpr hx]; rfl
    rw [this]
    show (((1#1 : BitVec 1).setWidth 8).toInt : ℝ) = (1 : EReal)
    norm_num
  · rw [if_neg h]
    have hne : x ≠ BitVec.ofNat 32 r.val := fun e => h (by rw [e, BitVec.toNat_ofNat, Nat.mod_eq_of_lt hr])
    have : IntOp.cmpi .eq x (BitVec.ofNat 32 r.val) = 0#1 := by
      show BitVec.ofBool (x == BitVec.ofNat 32 r.val) = 0#1
      rw [show (x == BitVec.ofNat 32 r.val) = false from beq_eq_false_iff_ne.mpr hne]; rfl
    rw [this]
    show (((0#1 : BitVec 1).setWidth 8).toInt : ℝ) = (0 : EReal)
    norm_num

/-- The five-row rating table padded to eight rows: the table on rows 0 … 4, the padding value on rows 5 … 7. -/
theorem pad5_apply (a5 : Vec Ideal S5x64 .f32) (v : Vec Ideal S_ .f32) (c : Fin 8) (m : Fin 64) :
    pad S8x64 ![0, 0] ![3, 0] ![0, 0] a5 v pads_S5x64_S8x64_030_000 h_S_ (ix2 c m)
      = if h : c.val < 5 then a5 (ix2 (⟨c.val, h⟩ : Fin 5) m) else v (Shape.Idx.first h_S_) := by
  by_cases h : c.val < 5
  · rw [dif_pos h]
    exact pad_apply_of_inside ![0, 0] ![3, 0] ![0, 0] a5 v pads_S5x64_S8x64_030_000 h_S_ (ix2 c m) (ix2 (⟨c.val, h⟩ : Fin 5) m : S5x64.Idx)
      (fun a => by
        match a with
        | ⟨0, _⟩ => show c.val = 0 + c.val * (0 + 1); omega
        | ⟨1, _⟩ => show m.val = 0 + m.val * (0 + 1); omega)
  · rw [dif_neg h]
    exact pad_apply_of_not_inside ![0, 0] ![3, 0] ![0, 0] a5 v pads_S5x64_S8x64_030_000 h_S_ (ix2 c m) (0 : Fin 2)
      (fun hh => h (by have h3 : (c.val - 0) / (0 + 1) < 5 := hh.2.2; omega))

/-- The two 2048-row results stacked: row i of the 4096-row result is row i of the first for i < 2048, row i − 2048 of
    the second otherwise. -/
theorem concat_rows_apply {α : Type} (a b : S2048x64.Idx → α) (i : Fin 4096) (d : Fin 64) :
    concatenate S4096x64 0 [⟨S2048x64, a⟩, ⟨S2048x64, b⟩] concatenates_S2048x64_S2048x64_S4096x64_d0 (ix2 i d : S4096x64.Idx)
      = if h : i.val < 2048 then a (ix2 (⟨i.val, h⟩ : Fin 2048) d) else b (ix2 (⟨i.val - 2048, by have := i.isLt; omega⟩ : Fin 2048) d) := by
  by_cases h : i.val < 2048
  · rw [dif_pos h]
    exact concatenate_pair_apply_left (t := S4096x64) (s₁ := S2048x64) (s₂ := S2048x64) (0 : Fin 2) a b
      concatenates_S2048x64_S2048x64_S4096x64_d0 (ix2 i d : S4096x64.Idx) rfl (ix2 (⟨i.val, h⟩ : Fin 2048) d : S2048x64.Idx)
      (fun ax => by match ax with | ⟨0, _⟩ => rfl | ⟨1, _⟩ => rfl)
  · rw [dif_neg h]
    exact concatenate_pair_apply_right (t := S4096x64) (s₁ := S2048x64) (s₂ := S2048x64) (0 : Fin 2) a b
      concatenates_S2048x64_S2048x64_S4096x64_d0 (ix2 i d : S4096x64.Idx) rfl rfl
      (ix2 (⟨i.val - 2048, by have := i.isLt; omega⟩ : Fin 2048) d : S2048x64.Idx)
      (fun ax hax => by match ax with | ⟨0, _⟩ => exact absurd rfl hax | ⟨1, _⟩ => rfl)
      (by show i.val - 2048 + 2048 = i.val; omega)

end Cert.KernelIdeal.Tc

end
-- ==== Proof.TcMainIdx.lean ====
/-
  @main's host stretches at an index: the final result, and the weight operands of the second call.

  After the last stretch the 4096 × 64 result is the two 2048-row outputs stacked.  After the stretch
  before the second TensorCore call, each weight operand of that call is an entry of the argument it
  was sliced, transposed, reshaped and rounded from (the rounding is the identity at the extended reals).
-/
import proofs.«217981_g19061064860210_cont_8to1_1320_37_alg».proof.Proof.KMainSegs
import proofs.«217981_g19061064860210_cont_8to1_1320_37_alg».proof.Proof.TcHostOps

set_option maxRecDepth 16384

noncomputable section

namespace Cert.KernelIdeal.Tc

open Cert.KernelIdeal Cert.KernelIdeal.Gen Cert.KernelIdeal.MainSegs
open Idealize.ShloMosaic Idealize.ShloMosaic.TcCoe Idealize.SL.Sem Idealize.ShloMosaic.StableHlo Idealize.ShloMosaic.ValueIdx

/-- The program's result after the last stretch: row i is row i of the first attention output for i < 2048, row
    i − 2048 of the second otherwise. -/
theorem v63_apply {F : FTy → Type} [FloatOps F] (V : Valuation τ sig (Elt F)) (i : Fin 4096) (f : Fin 64) :
    (after ops5 V (main_v63 : DevRef τ sig) : (⟨S4096x64, .f32⟩ : BufTy).Contents (Elt F)) (ix2 i f)
      = if h : i.val < 2048 then (V (main_v36 : DevRef τ sig) : (⟨S2048x64, .f32⟩ : BufTy).Contents (Elt F)) (ix2 (⟨i.val, h⟩ : Fin 2048) f)
        else (V (main_v62 : DevRef τ sig) : (⟨S2048x64, .f32⟩ : BufTy).Contents (Elt F)) (ix2 (⟨i.val - 2048, by have := i.isLt; omega⟩ : Fin 2048) f) := by
  have e : (after ops5 V (main_v63 : DevRef τ sig) : (⟨S4096x64, .f32⟩ : BufTy).Contents (Elt F))
      = concatenate S4096x64 0 [⟨S2048x64, (V (main_v36 : DevRef τ sig) : (⟨S2048x64, .f32⟩ : BufTy).Contents (Elt F))⟩,
          ⟨S2048x64, (V (main_v62 : DevRef τ sig) : (⟨S2048x64, .f32⟩ : BufTy).Contents (Elt F))⟩] concatenates_S2048x64_S2048x64_S4096x64_d0 := by
    after_results_simp <;> rfl
  rw [e]
  exact concat_rows_apply _ _ i f

/-- The first layer's high weight half as the second call's body takes it: entry (m, k) is the argument's (k, 64 + m). -/
theorem v21_apply (V : Valuation τ sig (Elt Ideal)) (m k : Fin 64) :
    (after ops2 V (main_v21 : DevRef τ sig) : (⟨S64x64, .f32⟩ : BufTy).Contents (Elt Ideal)) (ix2 m k)
      = (V (main_arg6 : DevRef τ sig) : (⟨S64x128, .f32⟩ : BufTy).Contents (Elt Ideal)) (ix2 k (⟨64 + m.val, by have := m.isLt; omega⟩ : Fin 128)) := by
  have e : (after ops2 V (main_v21 : DevRef τ sig) : (⟨S64x64, .f32⟩ : BufTy).Contents (Elt Ideal))
      = transpose S64x64 [1, 0] (extractStridedSlice S64x64 ![0, 64] (V (main_arg6 : DevRef τ sig) : (⟨S64x128, .f32⟩ : BufTy).Contents (Elt Ideal)) slices_S64x128_S64x64_0_64) transposes_S64x64_S64x64_1_0 := by
    after_results_simp <;> rfl
  rw [e]
  exact sliceHiT_apply _ m k

/-- The first layer's bias as a row. -/
theorem v22_apply (V : Valuation τ sig (Elt Ideal)) (k : Fin 64) :
    (after ops2 V (main_v22 : DevRef τ sig) : (⟨S1x64, .f32⟩ : BufTy).Contents (Elt Ideal)) (ix2 (0 : Fin 1) k)
      = (V (main_arg7 : DevRef τ sig) : (⟨S64, .f32⟩ : BufTy).Contents (Elt Ideal)) (ix1 k) := by
  have e : (after ops2 V (main_v22 : DevRef τ sig) : (⟨S1x64, .f32⟩ : BufTy).Contents (Elt Ideal))
      = shapeCast S1x64 (V (main_arg7 : DevRef τ sig) : (⟨S64, .f32⟩ : BufTy).Contents (Elt Ideal)) shapeCasts_S64_S1x64 := by
    after_results_simp <;> rfl
  rw [e]
  exact row_apply _ k

/-- The first network's second-layer weights, transposed. -/
theorem v24_apply (V : Valuation τ sig (Elt Ideal)) (k d : Fin 64) :
    (after ops2 V (main_v24 : DevRef τ sig) : (⟨S64x64, .bf16⟩ : BufTy).Contents (Elt Ideal)) (ix2 k d)
      = (V (main_arg8 : DevRef τ sig) : (⟨S64x64, .f32⟩ : BufTy).Contents (Elt Ideal)) (ix2 d k) := by
  have e : (after ops2 V (main_v24 : DevRef τ sig) : (⟨S64x64, .bf16⟩ : BufTy).Contents (Elt Ideal))
      = truncf (F := Ideal) .bf16 (transpose S64x64 [1, 0] (V (main_arg8 : DevRef τ sig) : (⟨S64x64, .f32⟩ : BufTy).Contents (Elt Ideal)) transposes_S64x64_S64x64_1_0) bitsLt_bf16_f32 := by
    after_results_simp <;> rfl
  rw [e]
  exact wT_apply _ k d

/-- The first network's second-layer bias as a row. -/
theorem v26_apply (V : Valuation τ sig (Elt Ideal)) (d : Fin 64) :
    (after ops2 V (main_v26 : DevRef τ sig) : (⟨S1x64, .bf16⟩ : BufTy).Contents (Elt Ideal)) (ix2 (0 : Fin 1) d)
      = (V (main_arg9 : DevRef τ sig) : (⟨S64, .f32⟩ : BufTy).Contents (Elt Ideal)) (ix1 d) := by
  have e : (after ops2 V (main_v26 : DevRef τ sig) : (⟨S1x64, .bf16⟩ : BufTy).Contents (Elt Ideal))
      = truncf (F := Ideal) .bf16 (shapeCast S1x64 (V (main_arg9 : DevRef τ sig) : (⟨S64, .f32⟩ : BufTy).Contents (Elt Ideal)) shapeCasts_S64_S1x64) bitsLt_bf16_f32 := by
    after_results_simp <;> rfl
  rw [e]
  exact rowR_apply _ d

/-- The second network's first-layer low weight half, transposed. -/
theorem v29_apply (V : Valuation τ sig (Elt Ideal)) (j k : Fin 64) :
    (after ops2 V (main_v29 : DevRef τ sig) : (⟨S64x64, .bf16⟩ : BufTy).Contents (Elt Ideal)) (ix2 j k)
      = (V (main_arg10 : DevRef τ sig) : (⟨S64x128, .f32⟩ : BufTy).Contents (Elt Ideal)) (ix2 k (⟨j.val, by have := j.isLt; omega⟩ : Fin 128)) := by
  have e : (after ops2 V (main_v29 : DevRef τ sig) : (⟨S64x64, .bf16⟩ : BufTy).Contents (Elt Ideal))
      = truncf (F := Ideal) .bf16 (transpose S64x64 [1, 0] (extractStridedSlice S64x64 ![0, 0] (V (main_arg10 : DevRef τ sig) : (⟨S64x128, .f32⟩ : BufTy).Contents (Elt Ideal)) slices_S64x128_S64x64_0_0) transposes_S64x64_S64x64_1_0) bitsLt_bf16_f32 := by
    after_results_simp <;> rfl
  rw [e]
  exact sliceLoT_apply _ j k

/-- The second network's second-layer weights, transposed. -/
theorem v31_apply (V : Valuation τ sig (Elt Ideal)) (k d : Fin 64) :
    (after ops2 V (main_v31 : DevRef τ sig) : (⟨S64x64, .bf16⟩ : BufTy).Contents (Elt Ideal)) (ix2 k d)
      = (V (main_arg12 : DevRef τ sig) : (⟨S64x64, .f32⟩ : BufTy).Contents (Elt Ideal)) (ix2 d k) := by
  have e : (after ops2 V (main_v31 : DevRef τ sig) : (⟨S64x64, .bf16⟩ : BufTy).Contents (Elt Ideal))
      = truncf (F := Ideal) .bf16 (transpose S64x64 [1, 0] (V (main_arg12 : DevRef τ sig) : (⟨S64x64, .f32⟩ : BufTy).Contents (Elt Ideal)) transposes_S64x64_S64x64_1_0) bitsLt_bf16_f32 := by
    after_results_simp <;> rfl
  rw [e]
  exact wT_apply _ k d

/-- The second network's second-layer bias as a row. -/
theorem v33_apply (V : Valuation τ sig (Elt Ideal)) (d : Fin 64) :
    (after ops2 V (main_v33 : DevRef τ sig) : (⟨S1x64, .bf16⟩ : BufTy).Contents (Elt Ideal)) (ix2 (0 : Fin 1) d)
      = (V (main_arg13 : DevRef τ sig) : (⟨S64, .f32⟩ : BufTy).Contents (Elt Ideal)) (ix1 d) := by
  have e : (after ops2 V (main_v33 : DevRef τ sig) : (⟨S1x64, .bf16⟩ : BufTy).Contents (Elt Ideal))
      = truncf (F := Ideal) .bf16 (shapeCast S1x64 (V (main_arg13 : DevRef τ sig) : (⟨S64, .f32⟩ : BufTy).Contents (Elt Ideal)) shapeCasts_S64_S1x64) bitsLt_bf16_f32 := by
    after_results_simp <;> rfl
  rw [e]
  exact rowR_apply _ d

/-- The score's weight row. -/
theorem v34_apply (V : Valuation τ sig (Elt Ideal)) (d : Fin 64) :
    (after ops2 V (main_v34 : DevRef τ sig) : (⟨S1x64, .bf16⟩ : BufTy).Contents (Elt Ideal)) (ix2 (0 : Fin 1) d)
      = (V (main_arg14 : DevRef τ sig) : (⟨S1x64, .f32⟩ : BufTy).Contents (Elt Ideal)) (ix2 (0 : Fin 1) d) := by
  have e : (after ops2 V (main_v34 : DevRef τ sig) : (⟨S1x64, .bf16⟩ : BufTy).Contents (Elt Ideal))
      = truncf (F := Ideal) .bf16 (V (main_arg14 : DevRef τ sig) : (⟨S1x64, .f32⟩ : BufTy).Contents (Elt Ideal)) bitsLt_bf16_f32 := by
    after_results_simp <;> rfl
  rw [e]
  exact rfl

/-- The score's bias. -/
theorem v35_apply (V : Valuation τ sig (Elt Ideal))  :
    (after ops2 V (main_v35 : DevRef τ sig) : (⟨S1x1, .f32⟩ : BufTy).Contents (Elt Ideal)) (ix2 (0 : Fin 1) (0 : Fin 1))
      = (V (main_arg15 : DevRef τ sig) : (⟨S1, .f32⟩ : BufTy).Contents (Elt Ideal)) (ix1 (0 : Fin 1)) := by
  have e : (after ops2 V (main_v35 : DevRef τ sig) : (⟨S1x1, .f32⟩ : BufTy).Contents (Elt Ideal))
      = shapeCast S1x1 (V (main_arg15 : DevRef τ sig) : (⟨S1, .f32⟩ : BufTy).Contents (Elt Ideal)) shapeCasts_S1_S1x1 := by
    after_results_simp <;> rfl
  rw [e]
  exact one_apply _

/-! ## The first call's operands -/

/-- The item table transposed, as the first call takes it. -/
theorem v0_apply (V : Valuation τ sig (Elt Ideal)) (k : Fin 64) (R : Fin 100000) :
    (after ops0 V (main_v0 : DevRef τ sig) : (⟨S64x100000, .f32⟩ : BufTy).Contents (Elt Ideal)) (ix2 k R)
      = (V (main_arg4 : DevRef τ sig) : (⟨S100000x64, .f32⟩ : BufTy).Contents (Elt Ideal)) (ix2 R k) := by
  have e : (after ops0 V (main_v0 : DevRef τ sig) : (⟨S64x100000, .f32⟩ : BufTy).Contents (Elt Ideal))
      = transpose S64x100000 [1, 0] (V (main_arg4 : DevRef τ sig) : (⟨S100000x64, .f32⟩ : BufTy).Contents (Elt Ideal)) transposes_S100000x64_S64x100000_1_0 := by
    after_results_simp <;> rfl
  rw [e]
  exact tableT_apply _ k R

/-- The per-row table transposed. -/
theorem v1_apply (V : Valuation τ sig (Elt Ideal)) (k : Fin 64) (R : Fin 100000) :
    (after ops0 V (main_v1 : DevRef τ sig) : (⟨S64x100000, .f32⟩ : BufTy).Contents (Elt Ideal)) (ix2 k R)
      = (V (main_arg3 : DevRef τ sig) : (⟨S100000x64, .f32⟩ : BufTy).Contents (Elt Ideal)) (ix2 R k) := by
  have e : (after ops0 V (main_v1 : DevRef τ sig) : (⟨S64x100000, .f32⟩ : BufTy).Contents (Elt Ideal))
      = transpose S64x100000 [1, 0] (V (main_arg3 : DevRef τ sig) : (⟨S100000x64, .f32⟩ : BufTy).Contents (Elt Ideal)) transposes_S100000x64_S64x100000_1_0 := by
    after_results_simp <;> rfl
  rw [e]
  exact tableT_apply _ k R

/-- The first layer's low weight half, transposed, as the first call takes it. -/
theorem v4_apply (V : Valuation τ sig (Elt Ideal)) (k j : Fin 64) :
    (after ops0 V (main_v4 : DevRef τ sig) : (⟨S64x64, .bf16⟩ : BufTy).Contents (Elt Ideal)) (ix2 k j)
      = (V (main_arg6 : DevRef τ sig) : (⟨S64x128, .f32⟩ : BufTy).Contents (Elt Ideal)) (ix2 j (⟨k.val, by have := k.isLt; omega⟩ : Fin 128)) := by
  have e : (after ops0 V (main_v4 : DevRef τ sig) : (⟨S64x64, .bf16⟩ : BufTy).Contents (Elt Ideal))
      = truncf (F := Ideal) .bf16 (transpose S64x64 [1, 0] (extractStridedSlice S64x64 ![0, 0] (V (main_arg6 : DevRef τ sig) : (⟨S64x128, .f32⟩ : BufTy).Contents (Elt Ideal)) slices_S64x128_S64x64_0_0) transposes_S64x64_S64x64_1_0) bitsLt_bf16_f32 := by
    after_results_simp <;> rfl
  rw [e]
  exact sliceLoT_apply _ k j

/-- The second network's first-layer high weight half, transposed. -/
theorem v7_apply (V : Valuation τ sig (Elt Ideal)) (k j : Fin 64) :
    (after ops0 V (main_v7 : DevRef τ sig) : (⟨S64x64, .bf16⟩ : BufTy).Contents (Elt Ideal)) (ix2 k j)
      = (V (main_arg10 : DevRef τ sig) : (⟨S64x128, .f32⟩ : BufTy).Contents (Elt Ideal)) (ix2 j (⟨64 + k.val, by have := k.isLt; omega⟩ : Fin 128)) := by
  have e : (after ops0 V (main_v7 : DevRef τ sig) : (⟨S64x64, .bf16⟩ : BufTy).Contents (Elt Ideal))
      = truncf (F := Ideal) .bf16 (transpose S64x64 [1, 0] (extractStridedSlice S64x64 ![0, 64] (V (main_arg10 : DevRef τ sig) : (⟨S64x128, .f32⟩ : BufTy).Contents (Elt Ideal)) slices_S64x128_S64x64_0_64) transposes_S64x64_S64x64_1_0) bitsLt_bf16_f32 := by
    after_results_simp <;> rfl
  rw [e]
  exact sliceHiTR_apply _ k j

/-- The second network's first-layer bias as a row. -/
theorem v8_apply (V : Valuation τ sig (Elt Ideal)) (j : Fin 64) :
    (after ops0 V (main_v8 : DevRef τ sig) : (⟨S1x64, .f32⟩ : BufTy).Contents (Elt Ideal)) (ix2 (0 : Fin 1) j)
      = (V (main_arg11 : DevRef τ sig) : (⟨S64, .f32⟩ : BufTy).Contents (Elt Ideal)) (ix1 j) := by
  have e : (after ops0 V (main_v8 : DevRef τ sig) : (⟨S1x64, .f32⟩ : BufTy).Contents (Elt Ideal))
      = shapeCast S1x64 (V (main_arg11 : DevRef τ sig) : (⟨S64, .f32⟩ : BufTy).Contents (Elt Ideal)) shapeCasts_S64_S1x64 := by
    after_results_simp <;> rfl
  rw [e]
  exact row_apply _ j

/-! ## The third call's weight operands -/

/-- The first layer's high weight half as the third call's body takes it: entry (m, k) is the argument's (k, 64 + m). -/
theorem v47_apply (V : Valuation τ sig (Elt Ideal)) (m k : Fin 64) :
    (after ops4 V (main_v47 : DevRef τ sig) : (⟨S64x64, .f32⟩ : BufTy).Contents (Elt Ideal)) (ix2 m k)
      = (V (main_arg6 : DevRef τ sig) : (⟨S64x128, .f32⟩ : BufTy).Contents (Elt Ideal)) (ix2 k (⟨64 + m.val, by have := m.isLt; omega⟩ : Fin 128)) := by
  have e : (after ops4 V (main_v47 : DevRef τ sig) : (⟨S64x64, .f32⟩ : BufTy).Contents (Elt Ideal))
      = transpose S64x64 [1, 0] (extractStridedSlice S64x64 ![0, 64] (V (main_arg6 : DevRef τ sig) : (⟨S64x128, .f32⟩ : BufTy).Contents (Elt Ideal)) slices_S64x128_S64x64_0_64) transposes_S64x64_S64x64_1_0 := by
    after_results_simp <;> rfl
  rw [e]
  exact sliceHiT_apply _ m k

/-- The first layer's bias as a row. -/
theorem v48_apply (V : Valuation τ sig (Elt Ideal)) (k : Fin 64) :
    (after ops4 V (main_v48 : DevRef τ sig) : (⟨S1x64, .f32⟩ : BufTy).Contents (Elt Ideal)) (ix2 (0 : Fin 1) k)
      = (V (main_arg7 : DevRef τ sig) : (⟨S64, .f32⟩ : BufTy).Contents (Elt Ideal)) (ix1 k) := by
  have e : (after ops4 V (main_v48 : DevRef τ sig) : (⟨S1x64, .f32⟩ : BufTy).Contents (Elt Ideal))
      = shapeCast S1x64 (V (main_arg7 : DevRef τ sig) : (⟨S64, .f32⟩ : BufTy).Contents (Elt Ideal)) shapeCasts_S64_S1x64 := by
    after_results_simp <;> rfl
  rw [e]
  exact row_apply _ k

/-- The first network's second-layer weights, transposed. -/
theorem v50_apply (V : Valuation τ sig (Elt Ideal)) (k d : Fin 64) :
    (after ops4 V (main_v50 : DevRef τ sig) : (⟨S64x64, .bf16⟩ : BufTy).Contents (Elt Ideal)) (ix2 k d)
      = (V (main_arg8 : DevRef τ sig) : (⟨S64x64, .f32⟩ : BufTy).Contents (Elt Ideal)) (ix2 d k) := by
  have e : (after ops4 V (main_v50 : DevRef τ sig) : (⟨S64x64, .bf16⟩ : BufTy).Contents (Elt Ideal))
      = truncf (F := Ideal) .bf16 (transpose S64x64 [1, 0] (V (main_arg8 : DevRef τ sig) : (⟨S64x64, .f32⟩ : BufTy).Contents (Elt Ideal)) transposes_S64x64_S64x64_1_0) bitsLt_bf16_f32 := by
    after_results_simp <;> rfl
  rw [e]
  exact wT_apply _ k d

/-- The first network's second-layer bias as a row. -/
theorem v52_apply (V : Valuation τ sig (Elt Ideal)) (d : Fin 64) :
    (after ops4 V (main_v52 : DevRef τ sig) : (⟨S1x64, .bf16⟩ : BufTy).Contents (Elt Ideal)) (ix2 (0 : Fin 1) d)
      = (V (main_arg9 : DevRef τ sig) : (⟨S64, .f32⟩ : BufTy).Contents (Elt Ideal)) (ix1 d) := by
  have e : (after ops4 V (main_v52 : DevRef τ sig) : (⟨S1x64, .bf16⟩ : BufTy).Contents (Elt Ideal))
      = truncf (F := Ideal) .bf16 (shapeCast S1x64 (V (main_arg9 : DevRef τ sig) : (⟨S64, .f32⟩ : BufTy).Contents (Elt Ideal)) shapeCasts_S64_S1x64) bitsLt_bf16_f32 := by
    after_results_simp <;> rfl
  rw [e]
  exact rowR_apply _ d

/-- The second network's first-layer low weight half, transposed. -/
theorem v55_apply (V : Valuation τ sig (Elt Ideal)) (j k : Fin 64) :
    (after ops4 V (main_v55 : DevRef τ sig) : (⟨S64x64, .bf16⟩ : BufTy).Contents (Elt Ideal)) (ix2 j k)
      = (V (main_arg10 : DevRef τ sig) : (⟨S64x128, .f32⟩ : BufTy).Contents (Elt Ideal)) (ix2 k (⟨j.val, by have := j.isLt; omega⟩ : Fin 128)) := by
  have e : (after ops4 V (main_v55 : DevRef τ sig) : (⟨S64x64, .bf16⟩ : BufTy).Contents (Elt Ideal))
      = truncf (F := Ideal) .bf16 (transpose S64x64 [1, 0] (extractStridedSlice S64x64 ![0, 0] (V (main_arg10 : DevRef τ sig) : (⟨S64x128, .f32⟩ : BufTy).Contents (Elt Ideal)) slices_S64x128_S64x64_0_0) transposes_S64x64_S64x64_1_0) bitsLt_bf16_f32 := by
    after_results_simp <;> rfl
  rw [e]
  exact sliceLoT_apply _ j k

/-- The second network's second-layer weights, transposed. -/
theorem v57_apply (V : Valuation τ sig (Elt Ideal)) (k d : Fin 64) :
    (after ops4 V (main_v57 : DevRef τ sig) : (⟨S64x64, .bf16⟩ : BufTy).Contents (Elt Ideal)) (ix2 k d)
      = (V (main_arg12 : DevRef τ sig) : (⟨S64x64, .f32⟩ : BufTy).Contents (Elt Ideal)) (ix2 d k) := by
  have e : (after ops4 V (main_v57 : DevRef τ sig) : (⟨S64x64, .bf16⟩ : BufTy).Contents (Elt Ideal))
      = truncf (F := Ideal) .bf16 (transpose S64x64 [1, 0] (V (main_arg12 : DevRef τ sig) : (⟨S64x64, .f32⟩ : BufTy).Contents (Elt Ideal)) transposes_S64x64_S64x64_1_0) bitsLt_bf16_f32 := by
    after_results_simp <;> rfl
  rw [e]
  exact wT_apply _ k d

/-- The second network's second-layer bias as a row. -/
theorem v59_apply (V : Valuation τ sig (Elt Ideal)) (d : Fin 64) :
    (after ops4 V (main_v59 : DevRef τ sig) : (⟨S1x64, .bf16⟩ : BufTy).Contents (Elt Ideal)) (ix2 (0 : Fin 1) d)
      = (V (main_arg13 : DevRef τ sig) : (⟨S64, .f32⟩ : BufTy).Contents (Elt Ideal)) (ix1 d) := by
  have e : (after ops4 V (main_v59 : DevRef τ sig) : (⟨S1x64, .bf16⟩ : BufTy).Contents (Elt Ideal))
      = truncf (F := Ideal) .bf16 (shapeCast S1x64 (V (main_arg13 : DevRef τ sig) : (⟨S64, .f32⟩ : BufTy).Contents (Elt Ideal)) shapeCasts_S64_S1x64) bitsLt_bf16_f32 := by
    after_results_simp <;> rfl
  rw [e]
  exact rowR_apply _ d

/-- The score's weight row. -/
theorem v60_apply (V : Valuation τ sig (Elt Ideal)) (d : Fin 64) :
    (after ops4 V (main_v60 : DevRef τ sig) : (⟨S1x64, .bf16⟩ : BufTy).Contents (Elt Ideal)) (ix2 (0 : Fin 1) d)
      = (V (main_arg14 : DevRef τ sig) : (⟨S1x64, .f32⟩ : BufTy).Contents (Elt Ideal)) (ix2 (0 : Fin 1) d) := by
  have e : (after ops4 V (main_v60 : DevRef τ sig) : (⟨S1x64, .bf16⟩ : BufTy).Contents (Elt Ideal))
      = truncf (F := Ideal) .bf16 (V (main_arg14 : DevRef τ sig) : (⟨S1x64, .f32⟩ : BufTy).Contents (Elt Ideal)) bitsLt_bf16_f32 := by
    after_results_simp <;> rfl
  rw [e]
  exact rfl

/-- The score's bias. -/
theorem v61_apply (V : Valuation τ sig (Elt Ideal))  :
    (after ops4 V (main_v61 : DevRef τ sig) : (⟨S1x1, .f32⟩ : BufTy).Contents (Elt Ideal)) (ix2 (0 : Fin 1) (0 : Fin 1))
      = (V (main_arg15 : DevRef τ sig) : (⟨S1, .f32⟩ : BufTy).Contents (Elt Ideal)) (ix1 (0 : Fin 1)) := by
  have e : (after ops4 V (main_v61 : DevRef τ sig) : (⟨S1x1, .f32⟩ : BufTy).Contents (Elt Ideal))
      = shapeCast S1x1 (V (main_arg15 : DevRef τ sig) : (⟨S1, .f32⟩ : BufTy).Contents (Elt Ideal)) shapeCasts_S1_S1x1 := by
    after_results_simp <;> rfl
  rw [e]
  exact one_apply _

/-! ## The padded rating table -/

/-- The rating table as the attention calls take it: the argument's five rows, then three rows of zeros. -/
theorem v10_apply (V : Valuation τ sig (Elt Ideal)) (r : Fin 8) (m : Fin 64) :
    (after ops1 V (main_v10 : DevRef τ sig) : (⟨S8x64, .f32⟩ : BufTy).Contents (Elt Ideal)) (ix2 r m)
      = if h : r.val < 5 then (V (main_arg5 : DevRef τ sig) : (⟨S5x64, .f32⟩ : BufTy).Contents (Elt Ideal)) (ix2 (⟨r.val, h⟩ : Fin 5) m) else (0 : EReal) := by
  have e : (after ops1 V (main_v10 : DevRef τ sig) : (⟨S8x64, .f32⟩ : BufTy).Contents (Elt Ideal))
      = pad S8x64 ![0, 0] ![3, 0] ![0, 0] (V (main_arg5 : DevRef τ sig) : (⟨S5x64, .f32⟩ : BufTy).Contents (Elt Ideal))
          (sitofp (F := Ideal) .f32 (constantI S_ 32 0#32)) pads_S5x64_S8x64_030_000 h_S_ := by
    after_results_simp <;> rfl
  rw [e, pad5_apply]
  by_cases h : r.val < 5
  · rw [dif_pos h, dif_pos h]
  · rw [dif_neg h, dif_neg h]
    show (((0#32 : BitVec 32).toInt : ℝ) : EReal) = 0
    norm_num

/-! ## The one-hot ratings -/

set_option maxHeartbeats 2000000 in
/-- The one-hot ratings as the second call takes them, converted by the body: 1 at the position of the rating of
    batch row N, slot l, 0 elsewhere. -/
theorem v17_apply (V : Valuation τ sig (Elt Ideal)) (l : Fin 50) (N : Fin 2048) (r : Fin 8) :
    (FloatOps.sitofp (F := Ideal) .bf16
        ((after ops1 V (main_v17 : DevRef τ sig) : (⟨S50x2048x8, .i8⟩ : BufTy).Contents (Elt Ideal)) (ix3 l N r)) : EReal)
      = if r.val = ((V (main_arg2 : DevRef τ sig) : (⟨S4096x50, .i32⟩ : BufTy).Contents (Elt Ideal))
          (ix2 (⟨N.val, by have := N.isLt; omega⟩ : Fin 4096) l)).toNat then 1 else 0 := by
  have e : (after ops1 V (main_v17 : DevRef τ sig) : (⟨S50x2048x8, .i8⟩ : BufTy).Contents (Elt Ideal))
      = extui 8 (cmpi .eq (broadcastInDim S50x2048x8 ![0, 1, 2] bcast_S50x2048x1_S50x2048x8_0_1_2 (broadcastInDim S50x2048x1 ![0, 1] bcast_S50x2048_S50x2048x1_0_1 (transpose S50x2048 [1, 0] (extractStridedSlice S2048x50 ![0, 0]
                (V (main_arg2 : DevRef τ sig) : (⟨S4096x50, .i32⟩ : BufTy).Contents (Elt Ideal)) slices_S4096x50_S2048x50_0_0) transposes_S2048x50_S50x2048_1_0))) (broadcastInDim S50x2048x8 ![0, 1, 2] bcast_S1x1x8_S50x2048x8_0_1_2 (iotaInDim S1x1x8 32 2))) natLt_1_8 := by
    after_results_simp <;> rfl
  rw [e]
  have h1 : (broadcastInDim S50x2048x8 ![0, 1, 2] bcast_S50x2048x1_S50x2048x8_0_1_2 (broadcastInDim S50x2048x1 ![0, 1] bcast_S50x2048_S50x2048x1_0_1 (transpose S50x2048 [1, 0] (extractStridedSlice S2048x50 ![0, 0]
                (V (main_arg2 : DevRef τ sig) : (⟨S4096x50, .i32⟩ : BufTy).Contents (Elt Ideal)) slices_S4096x50_S2048x50_0_0) transposes_S2048x50_S50x2048_1_0))) (ix3 l N r)
      = (V (main_arg2 : DevRef τ sig) : (⟨S4096x50, .i32⟩ : BufTy).Contents (Elt Ideal)) (ix2 (⟨N.val, by have := N.isLt; omega⟩ : Fin 4096) l) := by
    refine (broadcastInDim_apply ![0, 1, 2] bcast_S50x2048x1_S50x2048x8_0_1_2 _ (ix3 l N r) (ix3 l N (0 : Fin 1) : S50x2048x1.Idx)
      (fun a => by match a with | ⟨0, _⟩ => rfl | ⟨1, _⟩ => rfl | ⟨2, _⟩ => rfl)).trans ?_
    refine (broadcastInDim_apply ![0, 1] bcast_S50x2048_S50x2048x1_0_1 _ (ix3 l N (0 : Fin 1)) (ix2 l N : S50x2048.Idx)
      (fun a => by match a with | ⟨0, _⟩ => rfl | ⟨1, _⟩ => rfl)).trans ?_
    refine (transpose_ix2_apply _ transposes_S2048x50_S50x2048_1_0 l N).trans ?_
    exact extractStridedSlice_apply ![0, 0] _ slices_S4096x50_S2048x50_0_0 (ix2 N l) (ix2 (⟨N.val, by have := N.isLt; omega⟩ : Fin 4096) l)
      (fun a => by match a with | ⟨0, _⟩ => exact (Nat.zero_add _).symm | ⟨1, _⟩ => exact (Nat.zero_add _).symm)
  have h2 : (broadcastInDim S50x2048x8 ![0, 1, 2] bcast_S1x1x8_S50x2048x8_0_1_2 (iotaInDim S1x1x8 32 2)) (ix3 l N r) = BitVec.ofNat 32 r.val :=
    broadcastInDim_apply ![0, 1, 2] bcast_S1x1x8_S50x2048x8_0_1_2 _ (ix3 l N r) (ix3 (0 : Fin 1) (0 : Fin 1) r : S1x1x8.Idx)
      (fun a => by match a with | ⟨0, _⟩ => rfl | ⟨1, _⟩ => rfl | ⟨2, _⟩ => rfl)
  show (FloatOps.sitofp (F := Ideal) .bf16 ((IntOp.cmpi .eq ((broadcastInDim S50x2048x8 ![0, 1, 2] bcast_S50x2048x1_S50x2048x8_0_1_2 (broadcastInDim S50x2048x1 ![0, 1] bcast_S50x2048_S50x2048x1_0_1 (transpose S50x2048 [1, 0] (extractStridedSlice S2048x50 ![0, 0]
                (V (main_arg2 : DevRef τ sig) : (⟨S4096x50, .i32⟩ : BufTy).Contents (Elt Ideal)) slices_S4096x50_S2048x50_0_0) transposes_S2048x50_S50x2048_1_0))) (ix3 l N r)) ((broadcastInDim S50x2048x8 ![0, 1, 2] bcast_S1x1x8_S50x2048x8_0_1_2 (iotaInDim S1x1x8 32 2)) (ix3 l N r))).setWidth 8) : EReal) = _
  rw [h1, h2]
  exact onehot_word_apply _ r

set_option maxHeartbeats 2000000 in
/-- The one-hot ratings as the third call takes them, converted by the body: 1 at the position of the rating of
    batch row 2048 + N, slot l, 0 elsewhere. -/
theorem v43_apply (V : Valuation τ sig (Elt Ideal)) (l : Fin 50) (N : Fin 2048) (r : Fin 8) :
    (FloatOps.sitofp (F := Ideal) .bf16
        ((after ops3 V (main_v43 : DevRef τ sig) : (⟨S50x2048x8, .i8⟩ : BufTy).Contents (Elt Ideal)) (ix3 l N r)) : EReal)
      = if r.val = ((V (main_arg2 : DevRef τ sig) : (⟨S4096x50, .i32⟩ : BufTy).Contents (Elt Ideal))
          (ix2 (⟨2048 + N.val, by have := N.isLt; omega⟩ : Fin 4096) l)).toNat then 1 else 0 := by
  have e : (after ops3 V (main_v43 : DevRef τ sig) : (⟨S50x2048x8, .i8⟩ : BufTy).Contents (Elt Ideal))
      = extui 8 (cmpi .eq (broadcastInDim S50x2048x8 ![0, 1, 2] bcast_S50x2048x1_S50x2048x8_0_1_2 (broadcastInDim S50x2048x1 ![0, 1] bcast_S50x2048_S50x2048x1_0_1 (transpose S50x2048 [1, 0] (extractStridedSlice S2048x50 ![2048, 0]
                (V (main_arg2 : DevRef τ sig) : (⟨S4096x50, .i32⟩ : BufTy).Contents (Elt Ideal)) slices_S4096x50_S2048x50_2048_0) transposes_S2048x50_S50x2048_1_0))) (broadcastInDim S50x2048x8 ![0, 1, 2] bcast_S1x1x8_S50x2048x8_0_1_2 (iotaInDim S1x1x8 32 2))) natLt_1_8 := by
    after_results_simp <;> rfl
  rw [e]
  have h1 : (broadcastInDim S50x2048x8 ![0, 1, 2] bcast_S50x2048x1_S50x2048x8_0_1_2 (broadcastInDim S50x2048x1 ![0, 1] bcast_S50x2048_S50x2048x1_0_1 (transpose S50x2048 [1, 0] (extractStridedSlice S2048x50 ![2048, 0]
                (V (main_arg2 : DevRef τ sig) : (⟨S4096x50, .i32⟩ : BufTy).Contents (Elt Ideal)) slices_S4096x50_S2048x50_2048_0) transposes_S2048x50_S50x2048_1_0))) (ix3 l N r)
      = (V (main_arg2 : DevRef τ sig) : (⟨S4096x50, .i32⟩ : BufTy).Contents (Elt Ideal)) (ix2 (⟨2048 + N.val, by have := N.isLt; omega⟩ : Fin 4096) l) := by
    refine (broadcastInDim_apply ![0, 1, 2] bcast_S50x2048x1_S50x2048x8_0_1_2 _ (ix3 l N r) (ix3 l N (0 : Fin 1) : S50x2048x1.Idx)
      (fun a => by match a with | ⟨0, _⟩ => rfl | ⟨1, _⟩ => rfl | ⟨2, _⟩ => rfl)).trans ?_
    refine (broadcastInDim_apply ![0, 1] bcast_S50x2048_S50x2048x1_0_1 _ (ix3 l N (0 : Fin 1)) (ix2 l N : S50x2048.Idx)
      (fun a => by match a with | ⟨0, _⟩ => rfl | ⟨1, _⟩ => rfl)).trans ?_
    refine (transpose_ix2_apply _ transposes_S2048x50_S50x2048_1_0 l N).trans ?_
    exact extractStridedSlice_apply ![2048, 0] _ slices_S4096x50_S2048x50_2048_0 (ix2 N l) (ix2 (⟨2048 + N.val, by have := N.isLt; omega⟩ : Fin 4096) l)
      (fun a => by match a with | ⟨0, _⟩ => rfl | ⟨1, _⟩ => exact (Nat.zero_add _).symm)
  have h2 : (broadcastInDim S50x2048x8 ![0, 1, 2] bcast_S1x1x8_S50x2048x8_0_1_2 (iotaInDim S1x1x8 32 2)) (ix3 l N r) = BitVec.ofNat 32 r.val :=
    broadcastInDim_apply ![0, 1, 2] bcast_S1x1x8_S50x2048x8_0_1_2 _ (ix3 l N r) (ix3 (0 : Fin 1) (0 : Fin 1) r : S1x1x8.Idx)
      (fun a => by match a with | ⟨0, _⟩ => rfl | ⟨1, _⟩ => rfl | ⟨2, _⟩ => rfl)
  show (FloatOps.sitofp (F := Ideal) .bf16 ((IntOp.cmpi .eq ((broadcastInDim S50x2048x8 ![0, 1, 2] bcast_S50x2048x1_S50x2048x8_0_1_2 (broadcastInDim S50x2048x1 ![0, 1] bcast_S50x2048_S50x2048x1_0_1 (transpose S50x2048 [1, 0] (extractStridedSlice S2048x50 ![2048, 0]
                (V (main_arg2 : DevRef τ sig) : (⟨S4096x50, .i32⟩ : BufTy).Contents (Elt Ideal)) slices_S4096x50_S2048x50_2048_0) transposes_S2048x50_S50x2048_1_0))) (ix3 l N r)) ((broadcastInDim S50x2048x8 ![0, 1, 2] bcast_S1x1x8_S50x2048x8_0_1_2 (iotaInDim S1x1x8 32 2)) (ix3 l N r))).setWidth 8) : EReal) = _
  rw [h1, h2]
  exact onehot_word_apply _ r

end Cert.KernelIdeal.Tc

end
-- ==== Proof.TcMainIdx2.lean ====
/-
  The one-hot ratings at the arrays @main reaches, in the specification's words.

  The body converts the one-hot rating block it is handed; converted, the entry at position r of batch
  row N, slot l is the specification's one-hot of that row's rating word: 1 where r is the rating, 0
  elsewhere.  For the second call the rows are 0 … 2047 of the rating array, for the third 2048 … 4095.
-/
import proofs.«217981_g19061064860210_cont_8to1_1320_37_alg».proof.Proof.TcMainIdx
import proofs.«217981_g19061064860210_cont_8to1_1320_37_alg».proof.Proof.KSpec

noncomputable section

namespace Cert.KernelIdeal.Tc

open Cert.KernelIdeal Cert.KernelIdeal.Gen Cert.KernelIdeal.MainSegs
open Idealize.ShloMosaic Idealize.ShloMosaic.TcCoe Idealize.SL.Sem Idealize.ShloMosaic.StableHlo Idealize.ShloMosaic.ValueIdx

/-- The second call's one-hot block, converted, is the specification's one-hot of rows 0 … 2047 of the rating array. -/
theorem v17_onehot (V : Valuation τ sig (Elt Ideal)) (l : Fin 50) (N : Fin 2048) (r : Fin 8) :
    (FloatOps.sitofp (F := Ideal) .bf16
        ((after ops1 V (main_v17 : DevRef τ sig) : (⟨S50x2048x8, .i8⟩ : BufTy).Contents (Elt Ideal)) (ix3 l N r)) : EReal)
      = Cert.Proof.Spec.onehot ((V (main_arg2 : DevRef τ sig) : (⟨S4096x50, .i32⟩ : BufTy).Contents (Elt Ideal))
          (ix2 (⟨N.val, by have := N.isLt; omega⟩ : Fin 4096) l)) r :=
  v17_apply V l N r

/-- The third call's one-hot block, converted, is the specification's one-hot of rows 2048 … 4095 of the rating array. -/
theorem v43_onehot (V : Valuation τ sig (Elt Ideal)) (l : Fin 50) (N : Fin 2048) (r : Fin 8) :
    (FloatOps.sitofp (F := Ideal) .bf16
        ((after ops3 V (main_v43 : DevRef τ sig) : (⟨S50x2048x8, .i8⟩ : BufTy).Contents (Elt Ideal)) (ix3 l N r)) : EReal)
      = Cert.Proof.Spec.onehot ((V (main_arg2 : DevRef τ sig) : (⟨S4096x50, .i32⟩ : BufTy).Contents (Elt Ideal))
          (ix2 (⟨2048 + N.val, by have := N.isLt; omega⟩ : Fin 4096) l)) r :=
  v43_apply V l N r

end Cert.KernelIdeal.Tc

end
-- ==== Proof.TcKeep.lean ====
/-
  What the later stretches of @main leave alone.

  The combined table written by the first TensorCore call is read by both gather calls: nothing
  between them writes it — the first gather call writes only its two results, the host stretches
  write only the buffers they define, and the second TensorCore call changes only its own output.
  Likewise the second TensorCore call's output is still there when the final stretch stacks it on the
  third call's.
-/
import proofs.«217981_g19061064860210_cont_8to1_1320_37_alg».proof.Proof.ScVMain
import proofs.«217981_g19061064860210_cont_8to1_1320_37_alg».proof.Proof.TcStep

set_option maxRecDepth 16384

noncomputable section

namespace Cert.Proof.KI

open Cert.KernelIdeal Cert.KernelIdeal.Gen Cert.KernelIdeal.Tc Cert.KernelIdeal.MainSegs
open Idealize.ShloMosaic Idealize.ShloMosaic.TcCoe
open Idealize.ShloMosaic.SparseCore (S V T)
open Idealize.ShloMosaic.SparseCore.Cfg (HIx)
open Idealize.SL.Sem
open Idealize.ShloMosaic.StableHlo (held after seq)

variable {F : FTy → Type} [FloatOps F]

/-- The second TensorCore call leaves the combined table alone: it is no window's array of that call. -/
theorem e1_keep_v9 (d : Dev nD) (V : Valuation τ sig (Elt F)) :
    e1 (F := F) d V (main_v9 : DevRef τ sig) = V (main_v9 : DevRef τ sig) :=
  exitW2_of_ne (Name := ℕ) (U := UU) (Lvl := ℕ) (fun _ => V) (OtcAt (F := F) 1) (BelowAt (F := F) 1) d main_v9 (by decide)

/-- The third TensorCore call leaves the second call's output alone. -/
theorem e2_keep_v36 (d : Dev nD) (V : Valuation τ sig (Elt F)) :
    e2 (F := F) d V (main_v36 : DevRef τ sig) = V (main_v36 : DevRef τ sig) :=
  exitW4_of_ne (Name := ℕ) (U := UU) (Lvl := ℕ) (fun _ => V) (OtcAt (F := F) 2) (BelowAt (F := F) 2) d main_v36 (by decide)

theorem ops2_keep_v9 (V : Valuation τ sig (Elt F)) : after (ops2 (F := F)) V (main_v9 : DevRef τ sig) = V (main_v9 : DevRef τ sig) :=
  StableHlo.after_of_writes_sub ops2 V ops2_writes (by decide)
theorem ops3_keep_v9 (V : Valuation τ sig (Elt F)) : after (ops3 (F := F)) V (main_v9 : DevRef τ sig) = V (main_v9 : DevRef τ sig) :=
  StableHlo.after_of_writes_sub ops3 V ops3_writes (by decide)
theorem ops3_keep_v36 (V : Valuation τ sig (Elt F)) : after (ops3 (F := F)) V (main_v36 : DevRef τ sig) = V (main_v36 : DevRef τ sig) :=
  StableHlo.after_of_writes_sub ops3 V ops3_writes (by decide)
theorem ops4_keep_v36 (V : Valuation τ sig (Elt F)) : after (ops4 (F := F)) V (main_v36 : DevRef τ sig) = V (main_v36 : DevRef τ sig) :=
  StableHlo.after_of_writes_sub ops4 V ops4_writes (by decide)

variable (m : (ℓ : Loc nD τ sig) → Buf (Elt F) ℓ)
  (hA1 : ∀ d j, BitVec.toNat ((m (d, (main_arg1 : DevRef τ sig)) : (⟨S4096x50, .i32⟩ : BufTy).Contents (Elt F)) j) < 100000)
  (hA0 : ∀ d j, BitVec.toNat ((m (d, (main_arg0 : DevRef τ sig)) : (⟨S4096, .i32⟩ : BufTy).Contents (Elt F)) j) < 100000)

/-- THE TABLE IS THE SAME AT THE SECOND GATHER CALL: the valuation it meets holds at the combined table what the
    valuation the first gather call met holds there. -/
theorem table_same (d : Dev nD) :
    Wc1 m (e0 (F := F)) (e1 (F := F)) (fun d V k => e0_args d V k) hA1 hA0 d (main_v9 : DevRef τ sig)
      = Wc0 m (e0 (F := F)) d (main_v9 : DevRef τ sig) := by
  unfold Wc1 Wa0
  rw [ops3_keep_v9, e1_keep_v9, ops2_keep_v9]
  exact afterCall0_of_ne _ _ _ _ (by decide) (by decide)

/-- THE SECOND CALL'S OUTPUT SURVIVES TO THE LAST STRETCH: what the third TensorCore call's exit valuation holds at
    main_v36 is what the second call's exit valuation held there. -/
theorem v36_survives (d : Dev nD) :
    e2 (F := F) d (after (ops4 (F := F)) (Wa1 m (e0 (F := F)) (e1 (F := F)) (fun d V k => e0_args d V k) (fun d V k => e1_args d V k) hA1 hA0 d))
        (main_v36 : DevRef τ sig)
      = e1 (F := F) d (after (ops2 (F := F)) (Wa0 m (e0 (F := F)) (fun d V k => e0_args d V k) hA1 hA0 d)) (main_v36 : DevRef τ sig) := by
  rw [e2_keep_v36, ops4_keep_v36]
  unfold Wa1
  rw [afterCall1_of_ne _ _ _ _ (by decide) (by decide)]
  unfold Wc1
  rw [ops3_keep_v36]

end Cert.Proof.KI

end
-- ==== Proof.TcKeep2.lean ====
/-
  The padded rating table at the third TensorCore call's entry.

  The padded rating table is written once, before the first gather call, and only read afterwards:
  it is an input window's array of the second TensorCore call, which therefore leaves it as entered,
  and neither gather call nor any later host stretch writes it.  So at the third call's entry it still
  is the rating argument's five rows over three rows of zeros.
-/
import proofs.«217981_g19061064860210_cont_8to1_1320_37_alg».proof.Proof.TcKeep
import proofs.«217981_g19061064860210_cont_8to1_1320_37_alg».proof.Proof.TcMainIdx
import proofs.«217981_g19061064860210_cont_8to1_1320_37_alg».proof.Proof.KSpec

set_option maxRecDepth 16384

noncomputable section

namespace Cert.Proof.KI

open Cert.KernelIdeal Cert.KernelIdeal.Gen Cert.KernelIdeal.Tc Cert.KernelIdeal.MainSegs
open Idealize.ShloMosaic Idealize.ShloMosaic.TcCoe Idealize.ShloMosaic.ValueIdx
open Idealize.ShloMosaic.SparseCore (S V T)
open Idealize.ShloMosaic.SparseCore.Cfg (HIx)
open Idealize.SL.Sem
open Idealize.ShloMosaic.StableHlo (held after seq)

/-- An input window's array of the second TensorCore call is, at the call's exit, what it was at entry. -/
theorem e1_keep_in {F : FTy → Type} [FloatOps F] (d : Dev nD) (V : Valuation τ sig (Elt F)) (w : Fin cfg2.W) (hin : (cfg2.win w).isOut = false) :
    e1 (F := F) d V (Proc.devRef .tc (Pipeline.arrRef spec2 w)) = V (Proc.devRef .tc (Pipeline.arrRef spec2 w)) :=
  (exitW2_arr (Name := ℕ) (U := UU) (Lvl := ℕ) (fun _ => V) (OtcAt (F := F) 1) (BelowAt (F := F) 1) d w).trans
    ((Pipeline.Dat.arrAt_in _ w hin _).trans rfl)

/-- In particular the padded rating table (window 3). -/
theorem e1_keep_v10 {F : FTy → Type} [FloatOps F] (d : Dev nD) (V : Valuation τ sig (Elt F)) :
    e1 (F := F) d V (main_v10 : DevRef τ sig) = V (main_v10 : DevRef τ sig) :=
  e1_keep_in d V 3 rfl

variable (m : (ℓ : Loc nD τ sig) → Buf (Elt Ideal) ℓ)
  (hA1 : ∀ d j, BitVec.toNat ((m (d, (main_arg1 : DevRef τ sig)) : (⟨S4096x50, .i32⟩ : BufTy).Contents (Elt Ideal)) j) < 100000)
  (hA0 : ∀ d j, BitVec.toNat ((m (d, (main_arg0 : DevRef τ sig)) : (⟨S4096, .i32⟩ : BufTy).Contents (Elt Ideal)) j) < 100000)

/-- The padded rating table at the third call's entry is the specification's padded table of the rating argument. -/
theorem v10_third (d : Dev nD) (r : Fin 8) (m' : Fin 64) :
    ((after (ops4 (F := Ideal)) (Wa1 m (e0 (F := Ideal)) (e1 (F := Ideal)) (fun d V k => e0_args d V k) (fun d V k => e1_args d V k) hA1 hA0 d)
        (main_v10 : DevRef τ sig) : (⟨S8x64, .f32⟩ : BufTy).Contents (Elt Ideal)) : S8x64.Idx → EReal) (ix2 r m')
      = Cert.Proof.Spec.A5pad (m (d, (main_arg5 : DevRef τ sig))) r m' := by
  have h : after (ops4 (F := Ideal)) (Wa1 m (e0 (F := Ideal)) (e1 (F := Ideal)) (fun d V k => e0_args d V k) (fun d V k => e1_args d V k) hA1 hA0 d)
        (main_v10 : DevRef τ sig)
      = after (ops1 (F := Ideal)) (e0 (F := Ideal) d (after (ops0 (F := Ideal)) (W0 m d))) (main_v10 : DevRef τ sig) := by
    rw [StableHlo.after_of_writes_sub ops4 _ ops4_writes (r := main_v10) (by decide)]
    unfold Wa1
    rw [afterCall1_of_ne _ _ _ _ (by decide) (by decide)]
    unfold Wc1
    rw [StableHlo.after_of_writes_sub ops3 _ ops3_writes (r := main_v10) (by decide), e1_keep_v10,
      StableHlo.after_of_writes_sub ops2 _ ops2_writes (r := main_v10) (by decide)]
    unfold Wa0
    rw [afterCall0_of_ne _ _ _ _ (by decide) (by decide)]
    rfl
  rw [h, v10_apply]
  have h5 : e0 (F := Ideal) d (after (ops0 (F := Ideal)) (W0 m d)) (main_arg5 : DevRef τ sig) = m (d, (main_arg5 : DevRef τ sig)) :=
    (e0_args d _ 5).trans (ops0_args (W0 m d) 5)
  rw [h5]
  rfl

end Cert.Proof.KI

end
-- ==== Proof.KPureFin.lean ====
/-
  The index equations of the valuation the second TensorCore region enters with, from @main's walk and the launch
  memory: the table the calls meet is the combined table (the first region's output, which the line after it does not
  write); the gathered rows and the per-row gathered rows are the combined table's halves at the rows the index arrays
  name; the one-hot array, the padded five-row table and the nine weight operands are the arguments' entries.
-/
import proofs.«217981_g19061064860210_cont_8to1_1320_37_alg».proof.Proof.KPureHA
import proofs.«217981_g19061064860210_cont_8to1_1320_37_alg».proof.Proof.TcStep
import proofs.«217981_g19061064860210_cont_8to1_1320_37_alg».proof.Proof.TcSpecLink0
import proofs.«217981_g19061064860210_cont_8to1_1320_37_alg».proof.Proof.TcSpecLink2
import proofs.«217981_g19061064860210_cont_8to1_1320_37_alg».proof.Proof.TcSpecLink4
import proofs.«217981_g19061064860210_cont_8to1_1320_37_alg».proof.Proof.TcMainIdx
import proofs.«217981_g19061064860210_cont_8to1_1320_37_alg».proof.Proof.TcMainIdx2
import proofs.«217981_g19061064860210_cont_8to1_1320_37_alg».proof.Proof.TcKeep2

noncomputable section

namespace Cert.Proof.KI

open Cert.KernelIdeal Cert.KernelIdeal.Gen Cert.KernelIdeal.Tc Cert.Proof.Spec
open Idealize.ShloMosaic
open Idealize.SL.Sem
open Idealize.ShloMosaic.StableHlo (held after seq)
open Idealize.ShloMosaic.TcCoe
open Idealize.ShloMosaic.ValueIdx
open Cert.KernelIdeal.MainSegs
open Idealize.ShloMosaic.SparseCore.Cfg (HIx)

variable (m : (ℓ : Loc nD τ sig) → Buf (Elt Ideal) ℓ)

/-- The table the first call meets is the combined table: the first region's output, which the next line does not
    write. -/
theorem ct0_spec (d : Dev nD) (R : Fin 100000) (j : Fin 64) :
    (ct0 m (e0 (F := Ideal)) d : S100000x128.Idx → EReal) (ix2 R (⟨j.val, by have := j.isLt; omega⟩ : Fin 128))
        = ctLo (m (d, (main_arg4 : DevRef τ sig))) (m (d, (main_arg6 : DevRef τ sig))) R j
      ∧ (ct0 m (e0 (F := Ideal)) d : S100000x128.Idx → EReal) (ix2 R (⟨64 + j.val, by have := j.isLt; omega⟩ : Fin 128))
        = ctHi (m (d, (main_arg3 : DevRef τ sig))) (m (d, (main_arg10 : DevRef τ sig))) (m (d, (main_arg11 : DevRef τ sig))) R j := by
  have ek : ct0 m (e0 (F := Ideal)) d
      = exitW0 ℕ UU ℕ (fun _ => after (ops0 (F := Ideal)) (W0 m d)) (OtcAt (F := Ideal) 0) (BelowAt (F := Ideal) 0) d
          (Proc.devRef .tc (Pipeline.arrRef spec0 5)) := by
    unfold ct0 Wc0
    exact StableHlo.after_of_writes_sub ops1 _ ops1_writes (by decide)
  rw [ek]
  exact exitW0_spec (m (d, (main_arg3 : DevRef τ sig))) (m (d, (main_arg4 : DevRef τ sig))) (m (d, (main_arg6 : DevRef τ sig)))
    (m (d, (main_arg10 : DevRef τ sig))) (m (d, (main_arg11 : DevRef τ sig)))
    (fun _ => after (ops0 (F := Ideal)) (W0 m d)) _ _ d
    (fun k R => v0_apply (W0 m d) k R) (fun k R => v1_apply (W0 m d) k R) (fun k j => v4_apply (W0 m d) k j)
    (fun k j => v7_apply (W0 m d) k j) (fun j => v8_apply (W0 m d) j) R j

variable (hA1 : ∀ d j, BitVec.toNat ((m (d, (main_arg1 : DevRef τ sig)) : (⟨S4096x50, .i32⟩ : BufTy).Contents (Elt Ideal)) j) < 100000)
  (hA0 : ∀ d j, BitVec.toNat ((m (d, (main_arg0 : DevRef τ sig)) : (⟨S4096, .i32⟩ : BufTy).Contents (Elt Ideal)) j) < 100000)

/-- The valuation the second region enters with. -/
def Wr1 (d : Dev nD) : Valuation τ sig (Elt Ideal) :=
  after (ops2 (F := Ideal)) (Wa0 m (e0 (F := Ideal)) (fun d V k => e0_args d V k) hA1 hA0 d)

theorem Wr1_eq (d : Dev nD) : Wr1 m hA1 hA0 d = after (ops2 (F := Ideal)) (Wa0 m (e0 (F := Ideal)) (fun d V k => e0_args d V k) hA1 hA0 d) := rfl

/-- After the first call the arguments are the launch memory's. -/
theorem Wa0_arg (d : Dev nD) (k : Fin 16) :
    Wa0 m (e0 (F := Ideal)) (fun d V k => e0_args d V k) hA1 hA0 d ((argRef k : Ref sig .tc) : DevRef τ sig)
      = m (d, ((argRef k : Ref sig .tc) : DevRef τ sig)) :=
  (afterCall0_args _ _ _ k).trans (Wc0_args m (e0 (F := Ideal)) (fun d V k => e0_args d V k) d k)

/-- The second region's thirteen index equations, of the valuation it enters with. -/
theorem r1_HA0 (d : Dev nD) (l : Fin 50) (N : Fin 2048) (k : Fin 64) :
    (Wr1 m hA1 hA0 d (main_v19 : DevRef τ sig) : S50x2048x128.Idx → EReal) (ix3 l N (⟨k.val, by have := k.isLt; omega⟩ : Fin 128))
      = ctLo (m (d, (main_arg4 : DevRef τ sig))) (m (d, (main_arg6 : DevRef τ sig))) (clampRow 100000 (by decide)
          ((m (d, (main_arg1 : DevRef τ sig)) : (⟨2, ![4096, 50]⟩ : Shape).Idx → BitVec 32) (ix2 (⟨N.val, by have := N.isLt; omega⟩ : Fin 4096) l))) k := by
  rw [Wr1_eq]
  exact HA0_first m (e0 (F := Ideal)) (fun d V k => e0_args d V k) hA1 hA0 _ _ d (fun R j => (ct0_spec m d R j).1) l N k

theorem r1_HA1 (d : Dev nD) (N : Fin 2048) (k : Fin 64) :
    (Wr1 m hA1 hA0 d (main_v18_1 : DevRef τ sig) : S2048x128.Idx → EReal) (ix2 N (⟨64 + k.val, by have := k.isLt; omega⟩ : Fin 128))
      = ctHi (m (d, (main_arg3 : DevRef τ sig))) (m (d, (main_arg10 : DevRef τ sig))) (m (d, (main_arg11 : DevRef τ sig)))
          (clampRow 100000 (by decide)
            ((m (d, (main_arg0 : DevRef τ sig)) : (⟨1, ![4096]⟩ : Shape).Idx → BitVec 32) (ix1 (⟨N.val, by have := N.isLt; omega⟩ : Fin 4096)))) k := by
  rw [Wr1_eq]
  exact HA1_first m (e0 (F := Ideal)) (fun d V k => e0_args d V k) hA1 hA0 _ _ _ d (fun R j => (ct0_spec m d R j).2) N k

theorem r1_HA3 (d : Dev nD) (r : Fin 8) (m' : Fin 64) :
    (Wr1 m hA1 hA0 d (main_v10 : DevRef τ sig) : S8x64.Idx → EReal) (ix2 r m') = A5pad (m (d, (main_arg5 : DevRef τ sig))) r m' := by
  have e1 : Wr1 m hA1 hA0 d (main_v10 : DevRef τ sig)
      = after (ops1 (F := Ideal)) (e0 (F := Ideal) d (after (ops0 (F := Ideal)) (W0 m d))) (main_v10 : DevRef τ sig) := by
    rw [Wr1_eq, StableHlo.after_of_writes_sub ops2 _ ops2_writes (by decide)]
    unfold Wa0
    rw [afterCall0_of_ne _ _ _ _ (by decide) (by decide)]
    rfl
  rw [e1]
  refine (v10_apply _ r m').trans ?_
  unfold A5pad
  rw [show e0 (F := Ideal) d (after (ops0 (F := Ideal)) (W0 m d)) (main_arg5 : DevRef τ sig) = m (d, (main_arg5 : DevRef τ sig)) from
    (e0_args d _ 5).trans (ops0_args (W0 m d) 5)]

theorem r1_HA4 (d : Dev nD) (m' k : Fin 64) :
    (Wr1 m hA1 hA0 d (main_v21 : DevRef τ sig) : S64x64.Idx → EReal) (ix2 m' k)
      = (m (d, (main_arg6 : DevRef τ sig)) : (⟨2, ![64, 128]⟩ : Shape).Idx → EReal) (ix2 k (⟨64 + m'.val, by have := m'.isLt; omega⟩ : Fin 128)) := by
  rw [Wr1_eq]; exact (v21_apply _ m' k).trans (congrFun (Wa0_arg m hA1 hA0 d 6) _)
theorem r1_HA5 (d : Dev nD) (k : Fin 64) :
    (Wr1 m hA1 hA0 d (main_v22 : DevRef τ sig) : S1x64.Idx → EReal) (ix2 (0 : Fin 1) k)
      = (m (d, (main_arg7 : DevRef τ sig)) : (⟨1, ![64]⟩ : Shape).Idx → EReal) (ix1 k) := by
  rw [Wr1_eq]; exact (v22_apply _ k).trans (congrFun (Wa0_arg m hA1 hA0 d 7) _)
theorem r1_HA6 (d : Dev nD) (k d' : Fin 64) :
    (Wr1 m hA1 hA0 d (main_v24 : DevRef τ sig) : S64x64.Idx → EReal) (ix2 k d')
      = (m (d, (main_arg8 : DevRef τ sig)) : (⟨2, ![64, 64]⟩ : Shape).Idx → EReal) (ix2 d' k) := by
  rw [Wr1_eq]; exact (v24_apply _ k d').trans (congrFun (Wa0_arg m hA1 hA0 d 8) _)
theorem r1_HA7 (d : Dev nD) (d' : Fin 64) :
    (Wr1 m hA1 hA0 d (main_v26 : DevRef τ sig) : S1x64.Idx → EReal) (ix2 (0 : Fin 1) d')
      = (m (d, (main_arg9 : DevRef τ sig)) : (⟨1, ![64]⟩ : Shape).Idx → EReal) (ix1 d') := by
  rw [Wr1_eq]; exact (v26_apply _ d').trans (congrFun (Wa0_arg m hA1 hA0 d 9) _)
theorem r1_HA8 (d : Dev nD) (j k : Fin 64) :
    (Wr1 m hA1 hA0 d (main_v29 : DevRef τ sig) : S64x64.Idx → EReal) (ix2 j k)
      = (m (d, (main_arg10 : DevRef τ sig)) : (⟨2, ![64, 128]⟩ : Shape).Idx → EReal) (ix2 k (⟨j.val, by have := j.isLt; omega⟩ : Fin 128)) := by
  rw [Wr1_eq]; exact (v29_apply _ j k).trans (congrFun (Wa0_arg m hA1 hA0 d 10) _)
theorem r1_HA9 (d : Dev nD) (k d' : Fin 64) :
    (Wr1 m hA1 hA0 d (main_v31 : DevRef τ sig) : S64x64.Idx → EReal) (ix2 k d')
      = (m (d, (main_arg12 : DevRef τ sig)) : (⟨2, ![64, 64]⟩ : Shape).Idx → EReal) (ix2 d' k) := by
  rw [Wr1_eq]; exact (v31_apply _ k d').trans (congrFun (Wa0_arg m hA1 hA0 d 12) _)
theorem r1_HA10 (d : Dev nD) (d' : Fin 64) :
    (Wr1 m hA1 hA0 d (main_v33 : DevRef τ sig) : S1x64.Idx → EReal) (ix2 (0 : Fin 1) d')
      = (m (d, (main_arg13 : DevRef τ sig)) : (⟨1, ![64]⟩ : Shape).Idx → EReal) (ix1 d') := by
  rw [Wr1_eq]; exact (v33_apply _ d').trans (congrFun (Wa0_arg m hA1 hA0 d 13) _)
theorem r1_HA11 (d : Dev nD) (d' : Fin 64) :
    (Wr1 m hA1 hA0 d (main_v34 : DevRef τ sig) : S1x64.Idx → EReal) (ix2 (0 : Fin 1) d')
      = (m (d, (main_arg14 : DevRef τ sig)) : (⟨2, ![1, 64]⟩ : Shape).Idx → EReal) (ix2 (⟨0, Nat.one_pos⟩ : Fin 1) d') := by
  rw [Wr1_eq]; exact (v34_apply _ d').trans (congrFun (Wa0_arg m hA1 hA0 d 14) _)
theorem r1_HA12 (d : Dev nD) :
    (Wr1 m hA1 hA0 d (main_v35 : DevRef τ sig) : S1x1.Idx → EReal) (ix2 (0 : Fin 1) (0 : Fin 1))
      = (m (d, (main_arg15 : DevRef τ sig)) : (⟨1, ![1]⟩ : Shape).Idx → EReal) (ix1 (⟨0, Nat.one_pos⟩ : Fin 1)) := by
  rw [Wr1_eq]; exact (v35_apply _).trans (congrFun (Wa0_arg m hA1 hA0 d 15) _)

theorem r1_HA2 (d : Dev nD) (l : Fin 50) (N : Fin 2048) (r : Fin 8) :
    (FloatOps.sitofp (F := Ideal) .bf16 ((Wr1 m hA1 hA0 d (main_v17 : DevRef τ sig) : S50x2048x8.Idx → Elt Ideal .i8) (ix3 l N r)) : EReal)
      = onehot ((m (d, (main_arg2 : DevRef τ sig)) : (⟨2, ![4096, 50]⟩ : Shape).Idx → BitVec 32) (ix2 (⟨N.val, by have := N.isLt; omega⟩ : Fin 4096) l)) r := by
  have e1 : Wr1 m hA1 hA0 d (main_v17 : DevRef τ sig)
      = after (ops1 (F := Ideal)) (e0 (F := Ideal) d (after (ops0 (F := Ideal)) (W0 m d))) (main_v17 : DevRef τ sig) := by
    rw [Wr1_eq, StableHlo.after_of_writes_sub ops2 _ ops2_writes (by decide)]
    unfold Wa0
    rw [afterCall0_of_ne _ _ _ _ (by decide) (by decide)]
    rfl
  rw [e1]
  refine (v17_onehot _ l N r).trans ?_
  rw [show e0 (F := Ideal) d (after (ops0 (F := Ideal)) (W0 m d)) (main_arg2 : DevRef τ sig) = m (d, (main_arg2 : DevRef τ sig)) from
    (e0_args d _ 2).trans (ops0_args (W0 m d) 2)]

end Cert.Proof.KI

end
-- ==== Proof.KPureFin2.lean ====
/-
  The index equations of the valuation the third TensorCore region enters with (the second half of the batch: rows
  `2048 + N`), and the composition: if the second region's output is the kernel's arrangement for the first half of the
  batch and the third's for the second half, @main's result — the two outputs stacked — is the kernel's arrangement at
  every row.
-/
import proofs.«217981_g19061064860210_cont_8to1_1320_37_alg».proof.Proof.KPureFin

noncomputable section

namespace Cert.Proof.KI

open Cert.KernelIdeal Cert.KernelIdeal.Gen Cert.KernelIdeal.Tc Cert.Proof.Spec
open Idealize.ShloMosaic
open Idealize.SL.Sem
open Idealize.ShloMosaic.StableHlo (held after seq)
open Idealize.ShloMosaic.TcCoe
open Idealize.ShloMosaic.ValueIdx
open Cert.KernelIdeal.MainSegs
open Idealize.ShloMosaic.SparseCore.Cfg (HIx)

variable (m : (ℓ : Loc nD τ sig) → Buf (Elt Ideal) ℓ)
  (hA1 : ∀ d j, BitVec.toNat ((m (d, (main_arg1 : DevRef τ sig)) : (⟨S4096x50, .i32⟩ : BufTy).Contents (Elt Ideal)) j) < 100000)
  (hA0 : ∀ d j, BitVec.toNat ((m (d, (main_arg0 : DevRef τ sig)) : (⟨S4096, .i32⟩ : BufTy).Contents (Elt Ideal)) j) < 100000)

/-- The table the second call meets is the table the first call met: nothing in between writes it. -/
theorem ct1_eq_ct0 (d : Dev nD) :
    ct1 m (e0 (F := Ideal)) (e1 (F := Ideal)) (fun d V k => e0_args d V k) hA1 hA0 d = ct0 m (e0 (F := Ideal)) d := table_same m hA1 hA0 d

/-- The valuation the third region enters with. -/
def Wr2 (d : Dev nD) : Valuation τ sig (Elt Ideal) := after (ops4 (F := Ideal)) (Wa1 m (e0 (F := Ideal)) (e1 (F := Ideal)) (fun d V k => e0_args d V k) (fun d V k => e1_args d V k) hA1 hA0 d)

theorem Wr2_eq (d : Dev nD) : Wr2 m hA1 hA0 d = after (ops4 (F := Ideal)) (Wa1 m (e0 (F := Ideal)) (e1 (F := Ideal)) (fun d V k => e0_args d V k) (fun d V k => e1_args d V k) hA1 hA0 d) := rfl

/-- After the second call the arguments are the launch memory's. -/
theorem Wa1_arg (d : Dev nD) (k : Fin 16) :
    (Wa1 m (e0 (F := Ideal)) (e1 (F := Ideal)) (fun d V k => e0_args d V k) (fun d V k => e1_args d V k) hA1 hA0 d) ((argRef k : Ref sig .tc) : DevRef τ sig) = m (d, ((argRef k : Ref sig .tc) : DevRef τ sig)) :=
  (afterCall1_args _ _ _ k).trans (Wc1_args m (e0 (F := Ideal)) (e1 (F := Ideal)) (fun d V k => e0_args d V k) (fun d V k => e1_args d V k) hA1 hA0 d k)

theorem r2_HA0 (d : Dev nD) (l : Fin 50) (N : Fin 2048) (k : Fin 64) :
    (Wr2 m hA1 hA0 d (main_v45 : DevRef τ sig) : S50x2048x128.Idx → EReal) (ix3 l N (⟨k.val, by have := k.isLt; omega⟩ : Fin 128))
      = ctLo (m (d, (main_arg4 : DevRef τ sig))) (m (d, (main_arg6 : DevRef τ sig))) (clampRow 100000 (by decide)
          ((m (d, (main_arg1 : DevRef τ sig)) : (⟨2, ![4096, 50]⟩ : Shape).Idx → BitVec 32) (ix2 (⟨2048 + N.val, by have := N.isLt; omega⟩ : Fin 4096) l))) k := by
  rw [Wr2_eq]
  exact HA0_second m (e0 (F := Ideal)) (e1 (F := Ideal)) (fun d V k => e0_args d V k) (fun d V k => e1_args d V k) hA1 hA0 _ _ d (fun R j => by rw [ct1_eq_ct0]; exact (ct0_spec m d R j).1) l N k

theorem r2_HA1 (d : Dev nD) (N : Fin 2048) (k : Fin 64) :
    (Wr2 m hA1 hA0 d (main_v44_1 : DevRef τ sig) : S2048x128.Idx → EReal) (ix2 N (⟨64 + k.val, by have := k.isLt; omega⟩ : Fin 128))
      = ctHi (m (d, (main_arg3 : DevRef τ sig))) (m (d, (main_arg10 : DevRef τ sig))) (m (d, (main_arg11 : DevRef τ sig)))
          (clampRow 100000 (by decide)
            ((m (d, (main_arg0 : DevRef τ sig)) : (⟨1, ![4096]⟩ : Shape).Idx → BitVec 32) (ix1 (⟨2048 + N.val, by have := N.isLt; omega⟩ : Fin 4096)))) k := by
  rw [Wr2_eq]
  exact HA1_second m (e0 (F := Ideal)) (e1 (F := Ideal)) (fun d V k => e0_args d V k) (fun d V k => e1_args d V k) hA1 hA0 _ _ _ d (fun R j => by rw [ct1_eq_ct0]; exact (ct0_spec m d R j).2) N k

theorem r2_HA2 (d : Dev nD) (l : Fin 50) (N : Fin 2048) (r : Fin 8) :
    (FloatOps.sitofp (F := Ideal) .bf16 ((Wr2 m hA1 hA0 d (main_v43 : DevRef τ sig) : S50x2048x8.Idx → Elt Ideal .i8) (ix3 l N r)) : EReal)
      = onehot ((m (d, (main_arg2 : DevRef τ sig)) : (⟨2, ![4096, 50]⟩ : Shape).Idx → BitVec 32) (ix2 (⟨2048 + N.val, by have := N.isLt; omega⟩ : Fin 4096) l)) r := by
  have hw : Wr2 m hA1 hA0 d (main_v43 : DevRef τ sig)
      = after (ops3 (F := Ideal)) (e1 (F := Ideal) d (after (ops2 (F := Ideal)) (Wa0 m (e0 (F := Ideal)) (fun d V k => e0_args d V k) hA1 hA0 d))) (main_v43 : DevRef τ sig) := by
    rw [Wr2_eq, StableHlo.after_of_writes_sub ops4 _ ops4_writes (by decide)]
    unfold Wa1
    rw [afterCall1_of_ne _ _ _ _ (by decide) (by decide)]
    rfl
  rw [hw]
  refine (v43_onehot _ l N r).trans ?_
  rw [show e1 (F := Ideal) d (after (ops2 (F := Ideal)) (Wa0 m (e0 (F := Ideal)) (fun d V k => e0_args d V k) hA1 hA0 d)) (main_arg2 : DevRef τ sig) = m (d, (main_arg2 : DevRef τ sig)) from
    (e1_args d _ 2).trans ((ops2_args _ 2).trans (Wa0_arg m hA1 hA0 d 2))]

theorem r2_HA3 (d : Dev nD) (r : Fin 8) (m' : Fin 64) :
    (Wr2 m hA1 hA0 d (main_v10 : DevRef τ sig) : S8x64.Idx → EReal) (ix2 r m') = A5pad (m (d, (main_arg5 : DevRef τ sig))) r m' := by
  rw [Wr2_eq]; exact v10_third m hA1 hA0 d r m'

theorem r2_HA4 (d : Dev nD) (m' k : Fin 64) :
    (Wr2 m hA1 hA0 d (main_v47 : DevRef τ sig) : S64x64.Idx → EReal) (ix2 m' k)
      = (m (d, (main_arg6 : DevRef τ sig)) : (⟨2, ![64, 128]⟩ : Shape).Idx → EReal) (ix2 k (⟨64 + m'.val, by have := m'.isLt; omega⟩ : Fin 128)) := by
  rw [Wr2_eq]; exact (v47_apply _ m' k).trans (congrFun (Wa1_arg m hA1 hA0 d 6) _)
theorem r2_HA5 (d : Dev nD) (k : Fin 64) :
    (Wr2 m hA1 hA0 d (main_v48 : DevRef τ sig) : S1x64.Idx → EReal) (ix2 (0 : Fin 1) k)
      = (m (d, (main_arg7 : DevRef τ sig)) : (⟨1, ![64]⟩ : Shape).Idx → EReal) (ix1 k) := by
  rw [Wr2_eq]; exact (v48_apply _ k).trans (congrFun (Wa1_arg m hA1 hA0 d 7) _)
theorem r2_HA6 (d : Dev nD) (k d' : Fin 64) :
    (Wr2 m hA1 hA0 d (main_v50 : DevRef τ sig) : S64x64.Idx → EReal) (ix2 k d')
      = (m (d, (main_arg8 : DevRef τ sig)) : (⟨2, ![64, 64]⟩ : Shape).Idx → EReal) (ix2 d' k) := by
  rw [Wr2_eq]; exact (v50_apply _ k d').trans (congrFun (Wa1_arg m hA1 hA0 d 8) _)
theorem r2_HA7 (d : Dev nD) (d' : Fin 64) :
    (Wr2 m hA1 hA0 d (main_v52 : DevRef τ sig) : S1x64.Idx → EReal) (ix2 (0 : Fin 1) d')
      = (m (d, (main_arg9 : DevRef τ sig)) : (⟨1, ![64]⟩ : Shape).Idx → EReal) (ix1 d') := by
  rw [Wr2_eq]; exact (v52_apply _ d').trans (congrFun (Wa1_arg m hA1 hA0 d 9) _)
theorem r2_HA8 (d : Dev nD) (j k : Fin 64) :
    (Wr2 m hA1 hA0 d (main_v55 : DevRef τ sig) : S64x64.Idx → EReal) (ix2 j k)
      = (m (d, (main_arg10 : DevRef τ sig)) : (⟨2, ![64, 128]⟩ : Shape).Idx → EReal) (ix2 k (⟨j.val, by have := j.isLt; omega⟩ : Fin 128)) := by
  rw [Wr2_eq]; exact (v55_apply _ j k).trans (congrFun (Wa1_arg m hA1 hA0 d 10) _)
theorem r2_HA9 (d : Dev nD) (k d' : Fin 64) :
    (Wr2 m hA1 hA0 d (main_v57 : DevRef τ sig) : S64x64.Idx → EReal) (ix2 k d')
      = (m (d, (main_arg12 : DevRef τ sig)) : (⟨2, ![64, 64]⟩ : Shape).Idx → EReal) (ix2 d' k) := by
  rw [Wr2_eq]; exact (v57_apply _ k d').trans (congrFun (Wa1_arg m hA1 hA0 d 12) _)
theorem r2_HA10 (d : Dev nD) (d' : Fin 64) :
    (Wr2 m hA1 hA0 d (main_v59 : DevRef τ sig) : S1x64.Idx → EReal) (ix2 (0 : Fin 1) d')
      = (m (d, (main_arg13 : DevRef τ sig)) : (⟨1, ![64]⟩ : Shape).Idx → EReal) (ix1 d') := by
  rw [Wr2_eq]; exact (v59_apply _ d').trans (congrFun (Wa1_arg m hA1 hA0 d 13) _)
theorem r2_HA11 (d : Dev nD) (d' : Fin 64) :
    (Wr2 m hA1 hA0 d (main_v60 : DevRef τ sig) : S1x64.Idx → EReal) (ix2 (0 : Fin 1) d')
      = (m (d, (main_arg14 : DevRef τ sig)) : (⟨2, ![1, 64]⟩ : Shape).Idx → EReal) (ix2 (⟨0, Nat.one_pos⟩ : Fin 1) d') := by
  rw [Wr2_eq]; exact (v60_apply _ d').trans (congrFun (Wa1_arg m hA1 hA0 d 14) _)
theorem r2_HA12 (d : Dev nD) :
    (Wr2 m hA1 hA0 d (main_v61 : DevRef τ sig) : S1x1.Idx → EReal) (ix2 (0 : Fin 1) (0 : Fin 1))
      = (m (d, (main_arg15 : DevRef τ sig)) : (⟨1, ![1]⟩ : Shape).Idx → EReal) (ix1 (⟨0, Nat.one_pos⟩ : Fin 1)) := by
  rw [Wr2_eq]; exact (v61_apply _).trans (congrFun (Wa1_arg m hA1 hA0 d 15) _)

/-- THE PURE EQUATION FROM THE TWO HALVES: if the second region's output is the kernel's arrangement for batch rows
    `0 … 2047` and the third's for rows `2048 … 4095`, the program's result is the kernel's arrangement at every row. -/
theorem pure_of_halves
    (h1 : ∀ (d : Dev nD) (i : S2048x64.Idx),
      (e1 (F := Ideal) d (Wr1 m hA1 hA0 d) (main_v36 : DevRef τ sig) : S2048x64.Idx → EReal) i
        = GK (m (d, (main_arg0 : DevRef τ sig))) (m (d, (main_arg1 : DevRef τ sig))) (m (d, (main_arg2 : DevRef τ sig)))
      (m (d, (main_arg3 : DevRef τ sig))) (m (d, (main_arg4 : DevRef τ sig))) (m (d, (main_arg5 : DevRef τ sig)))
      (m (d, (main_arg6 : DevRef τ sig))) (m (d, (main_arg7 : DevRef τ sig))) (m (d, (main_arg8 : DevRef τ sig)))
      (m (d, (main_arg9 : DevRef τ sig))) (m (d, (main_arg10 : DevRef τ sig))) (m (d, (main_arg11 : DevRef τ sig)))
      (m (d, (main_arg12 : DevRef τ sig))) (m (d, (main_arg13 : DevRef τ sig))) (m (d, (main_arg14 : DevRef τ sig)))
      (m (d, (main_arg15 : DevRef τ sig)))
          (⟨(i 0).val, by have h : (i 0).val < 2048 := (i 0).isLt; omega⟩ : Fin 4096) (i 1))
    (h2 : ∀ (d : Dev nD) (i : S2048x64.Idx),
      (e2 (F := Ideal) d (Wr2 m hA1 hA0 d) (main_v62 : DevRef τ sig) : S2048x64.Idx → EReal) i
        = GK (m (d, (main_arg0 : DevRef τ sig))) (m (d, (main_arg1 : DevRef τ sig))) (m (d, (main_arg2 : DevRef τ sig)))
      (m (d, (main_arg3 : DevRef τ sig))) (m (d, (main_arg4 : DevRef τ sig))) (m (d, (main_arg5 : DevRef τ sig)))
      (m (d, (main_arg6 : DevRef τ sig))) (m (d, (main_arg7 : DevRef τ sig))) (m (d, (main_arg8 : DevRef τ sig)))
      (m (d, (main_arg9 : DevRef τ sig))) (m (d, (main_arg10 : DevRef τ sig))) (m (d, (main_arg11 : DevRef τ sig)))
      (m (d, (main_arg12 : DevRef τ sig))) (m (d, (main_arg13 : DevRef τ sig))) (m (d, (main_arg14 : DevRef τ sig)))
      (m (d, (main_arg15 : DevRef τ sig)))
          (⟨2048 + (i 0).val, by have h : (i 0).val < 2048 := (i 0).isLt; omega⟩ : Fin 4096) (i 1))
    (d : Dev nD) :
    (Wfin (F := Ideal) m (e0 (F := Ideal)) (e1 (F := Ideal)) (e2 (F := Ideal)) (fun d V k => e0_args d V k) (fun d V k => e1_args d V k) hA1 hA0 d (main_v63 : DevRef τ sig) : S4096x64.Idx → EReal)
      = fun j => GK (m (d, (main_arg0 : DevRef τ sig))) (m (d, (main_arg1 : DevRef τ sig))) (m (d, (main_arg2 : DevRef τ sig)))
      (m (d, (main_arg3 : DevRef τ sig))) (m (d, (main_arg4 : DevRef τ sig))) (m (d, (main_arg5 : DevRef τ sig)))
      (m (d, (main_arg6 : DevRef τ sig))) (m (d, (main_arg7 : DevRef τ sig))) (m (d, (main_arg8 : DevRef τ sig)))
      (m (d, (main_arg9 : DevRef τ sig))) (m (d, (main_arg10 : DevRef τ sig))) (m (d, (main_arg11 : DevRef τ sig)))
      (m (d, (main_arg12 : DevRef τ sig))) (m (d, (main_arg13 : DevRef τ sig))) (m (d, (main_arg14 : DevRef τ sig)))
      (m (d, (main_arg15 : DevRef τ sig)))
          (j 0) (j 1) := by
  funext j
  obtain ⟨a, b, rfl⟩ : ∃ (a : Fin 4096) (b : Fin 64), (j : S4096x64.Idx) = ix2 a b := ⟨j 0, j 1, eq_ix2 j⟩
  have ha := a.isLt
  show (after (ops5 (F := Ideal)) (e2 (F := Ideal) d (after (ops4 (F := Ideal)) (Wa1 m (e0 (F := Ideal)) (e1 (F := Ideal)) (fun d V k => e0_args d V k) (fun d V k => e1_args d V k) hA1 hA0 d)))
    (main_v63 : DevRef τ sig) : (⟨S4096x64, .f32⟩ : BufTy).Contents (Elt Ideal)) (ix2 a b) = GK (m (d, (main_arg0 : DevRef τ sig))) (m (d, (main_arg1 : DevRef τ sig))) (m (d, (main_arg2 : DevRef τ sig)))
      (m (d, (main_arg3 : DevRef τ sig))) (m (d, (main_arg4 : DevRef τ sig))) (m (d, (main_arg5 : DevRef τ sig)))
      (m (d, (main_arg6 : DevRef τ sig))) (m (d, (main_arg7 : DevRef τ sig))) (m (d, (main_arg8 : DevRef τ sig)))
      (m (d, (main_arg9 : DevRef τ sig))) (m (d, (main_arg10 : DevRef τ sig))) (m (d, (main_arg11 : DevRef τ sig)))
      (m (d, (main_arg12 : DevRef τ sig))) (m (d, (main_arg13 : DevRef τ sig))) (m (d, (main_arg14 : DevRef τ sig)))
      (m (d, (main_arg15 : DevRef τ sig)))
          a b
  refine (v63_apply _ a b).trans ?_
  split
  · next h =>
    rw [v36_survives m hA1 hA0 d]
    refine (h1 d (ix2 (⟨a.val, h⟩ : Fin 2048) b)).trans ?_
    exact congrArg (fun r : Fin 4096 => GK (m (d, (main_arg0 : DevRef τ sig))) (m (d, (main_arg1 : DevRef τ sig))) (m (d, (main_arg2 : DevRef τ sig)))
      (m (d, (main_arg3 : DevRef τ sig))) (m (d, (main_arg4 : DevRef τ sig))) (m (d, (main_arg5 : DevRef τ sig)))
      (m (d, (main_arg6 : DevRef τ sig))) (m (d, (main_arg7 : DevRef τ sig))) (m (d, (main_arg8 : DevRef τ sig)))
      (m (d, (main_arg9 : DevRef τ sig))) (m (d, (main_arg10 : DevRef τ sig))) (m (d, (main_arg11 : DevRef τ sig)))
      (m (d, (main_arg12 : DevRef τ sig))) (m (d, (main_arg13 : DevRef τ sig))) (m (d, (main_arg14 : DevRef τ sig)))
      (m (d, (main_arg15 : DevRef τ sig)))
          r b) (Fin.ext rfl)
  · next h =>
    refine (h2 d (ix2 (⟨a.val - 2048, by omega⟩ : Fin 2048) b)).trans ?_
    exact congrArg (fun r : Fin 4096 => GK (m (d, (main_arg0 : DevRef τ sig))) (m (d, (main_arg1 : DevRef τ sig))) (m (d, (main_arg2 : DevRef τ sig)))
      (m (d, (main_arg3 : DevRef τ sig))) (m (d, (main_arg4 : DevRef τ sig))) (m (d, (main_arg5 : DevRef τ sig)))
      (m (d, (main_arg6 : DevRef τ sig))) (m (d, (main_arg7 : DevRef τ sig))) (m (d, (main_arg8 : DevRef τ sig)))
      (m (d, (main_arg9 : DevRef τ sig))) (m (d, (main_arg10 : DevRef τ sig))) (m (d, (main_arg11 : DevRef τ sig)))
      (m (d, (main_arg12 : DevRef τ sig))) (m (d, (main_arg13 : DevRef τ sig))) (m (d, (main_arg14 : DevRef τ sig)))
      (m (d, (main_arg15 : DevRef τ sig)))
          r b) (Fin.ext (by show 2048 + (a.val - 2048) = a.val; omega))

end Cert.Proof.KI

end
-- ==== Proof.TcPlug.lean ====
/-
  The attention calls' regions on any entry valuation: the plug between @main's walk and the
  specification.

  @main's walk reaches each attention call with the TensorCore's buffers at some valuation.  Whatever
  that valuation is, if it satisfies the thirteen index equations of the call's operand arrays — the
  gathered table rows, the one-hot ratings, the padded rating table and the prepared weights —, the
  call's exit valuation holds the specification's kernel arrangement at the call's output array.  The
  valuation stays a variable here, so that nothing of the walk is unfolded.
-/
import proofs.«217981_g19061064860210_cont_8to1_1320_37_alg».proof.Proof.TcSpecLink2
import proofs.«217981_g19061064860210_cont_8to1_1320_37_alg».proof.Proof.TcSpecLink4
import proofs.«217981_g19061064860210_cont_8to1_1320_37_alg».proof.Proof.TcStep

set_option maxRecDepth 16384

noncomputable section

namespace Cert.Proof.KI

open Cert.KernelIdeal Cert.KernelIdeal.Gen Cert.KernelIdeal.Tc Cert.Proof.Spec
open Idealize.ShloMosaic Idealize.ShloMosaic.TcCoe Idealize.ShloMosaic.ValueIdx Idealize.ShloMosaic.LibERealLaws
open Idealize.ShloMosaic.SparseCore (S V T)
open Idealize.ShloMosaic.SparseCore.Cfg (HIx)
open Idealize.SL.Sem

variable (n0 : (⟨1, ![4096]⟩ : Shape).Idx → BitVec 32) (n1 n2 : (⟨2, ![4096, 50]⟩ : Shape).Idx → BitVec 32)
  (A3 A4 : (⟨2, ![100000, 64]⟩ : Shape).Idx → EReal) (A5 : (⟨2, ![5, 64]⟩ : Shape).Idx → EReal)
  (W6 : (⟨2, ![64, 128]⟩ : Shape).Idx → EReal) (b7 : (⟨1, ![64]⟩ : Shape).Idx → EReal)
  (W8 : (⟨2, ![64, 64]⟩ : Shape).Idx → EReal) (b9 : (⟨1, ![64]⟩ : Shape).Idx → EReal)
  (W10 : (⟨2, ![64, 128]⟩ : Shape).Idx → EReal) (b11 : (⟨1, ![64]⟩ : Shape).Idx → EReal)
  (W12 : (⟨2, ![64, 64]⟩ : Shape).Idx → EReal) (b13 : (⟨1, ![64]⟩ : Shape).Idx → EReal)
  (w14 : (⟨2, ![1, 64]⟩ : Shape).Idx → EReal) (b15 : (⟨1, ![1]⟩ : Shape).Idx → EReal)

set_option maxHeartbeats 4000000 in
/-- Pallas call 2's region on ANY entry valuation V of the TensorCore's buffers: if V holds, at the call's thirteen
    operand arrays, what the index equations say, then the exit valuation holds the specification's kernel arrangement
    at the call's output array. -/
theorem plug2 (V : Valuation τ sig (Elt Ideal)) (d : Dev nD) (bRow : Fin 2048 → Fin 4096)
    (H0 : ∀ (l : Fin 50) (N : Fin 2048) (k : Fin 64), (V (main_v19 : DevRef τ sig) : S50x2048x128.Idx → EReal) (ix3 l N (⟨k.val, by have := k.isLt; omega⟩ : Fin 128))
      = ctLo A4 W6 (clampRow 100000 (by decide) (n1 (ix2 (bRow N) l))) k)
    (H1 : ∀ (N : Fin 2048) (k : Fin 64), (V (main_v18_1 : DevRef τ sig) : S2048x128.Idx → EReal) (ix2 N (⟨64 + k.val, by have := k.isLt; omega⟩ : Fin 128))
      = ctHi A3 W10 b11 (clampRow 100000 (by decide) (n0 (ix1 (bRow N)))) k)
    (H2 : ∀ (l : Fin 50) (N : Fin 2048) (r : Fin 8),
      (FloatOps.sitofp (F := Ideal) .bf16 ((V (main_v17 : DevRef τ sig) : S50x2048x8.Idx → Elt Ideal .i8) (ix3 l N r)) : EReal) = onehot (n2 (ix2 (bRow N) l)) r)
    (H3 : ∀ (r : Fin 8) (m' : Fin 64), (V (main_v10 : DevRef τ sig) : S8x64.Idx → EReal) (ix2 r m') = A5pad A5 r m')
    (H4 : ∀ (m' k : Fin 64), (V (main_v21 : DevRef τ sig) : S64x64.Idx → EReal) (ix2 m' k) = W6 (ix2 k (⟨64 + m'.val, by have := m'.isLt; omega⟩ : Fin 128)))
    (H5 : ∀ k : Fin 64, (V (main_v22 : DevRef τ sig) : S1x64.Idx → EReal) (ix2 (0 : Fin 1) k) = b7 (ix1 k))
    (H6 : ∀ k f : Fin 64, (V (main_v24 : DevRef τ sig) : S64x64.Idx → EReal) (ix2 k f) = W8 (ix2 f k))
    (H7 : ∀ f : Fin 64, (V (main_v26 : DevRef τ sig) : S1x64.Idx → EReal) (ix2 (0 : Fin 1) f) = b9 (ix1 f))
    (H8 : ∀ j k : Fin 64, (V (main_v29 : DevRef τ sig) : S64x64.Idx → EReal) (ix2 j k) = W10 (ix2 k (⟨j.val, by have := j.isLt; omega⟩ : Fin 128)))
    (H9 : ∀ k f : Fin 64, (V (main_v31 : DevRef τ sig) : S64x64.Idx → EReal) (ix2 k f) = W12 (ix2 f k))
    (H10 : ∀ f : Fin 64, (V (main_v33 : DevRef τ sig) : S1x64.Idx → EReal) (ix2 (0 : Fin 1) f) = b13 (ix1 f))
    (H11 : ∀ f : Fin 64, (V (main_v34 : DevRef τ sig) : S1x64.Idx → EReal) (ix2 (0 : Fin 1) f) = w14 (ix2 (⟨0, Nat.one_pos⟩ : Fin 1) f))
    (H12 : (V (main_v35 : DevRef τ sig) : S1x1.Idx → EReal) (ix2 (0 : Fin 1) (0 : Fin 1)) = b15 (ix1 (⟨0, Nat.one_pos⟩ : Fin 1)))
    (i : S2048x64.Idx) :
    (e1 (F := Ideal) d V (main_v36 : DevRef τ sig) : S2048x64.Idx → EReal) i
      = GK n0 n1 n2 A3 A4 A5 W6 b7 W8 b9 W10 b11 W12 b13 w14 b15 (bRow (i 0)) (i 1) := by
  unfold e1
  exact exitW2_spec n0 n1 n2 A3 A4 A5 W6 b7 W8 b9 W10 b11 W12 b13 w14 b15 (Name := ℕ) (U := UU) (Lvl := ℕ) (fun _ => V) (OtcAt (F := Ideal) 1) (BelowAt (F := Ideal) 1) d bRow
    (fun i' => G2_13_spec n0 n1 n2 A3 A4 A5 W6 b7 W8 b9 W10 b11 W12 b13 w14 b15 d (fun w => valTc (fun _ => V) d (Pipeline.arrRef spec2 w)) bRow
      H0 H1 H2 H3 H4 H5 H6 H7 H8 H9 H10 H11 H12 i') i

set_option maxHeartbeats 4000000 in
/-- Pallas call 4's region on ANY entry valuation V of the TensorCore's buffers: if V holds, at the call's thirteen
    operand arrays, what the index equations say, then the exit valuation holds the specification's kernel arrangement
    at the call's output array. -/
theorem plug4 (V : Valuation τ sig (Elt Ideal)) (d : Dev nD) (bRow : Fin 2048 → Fin 4096)
    (H0 : ∀ (l : Fin 50) (N : Fin 2048) (k : Fin 64), (V (main_v45 : DevRef τ sig) : S50x2048x128.Idx → EReal) (ix3 l N (⟨k.val, by have := k.isLt; omega⟩ : Fin 128))
      = ctLo A4 W6 (clampRow 100000 (by decide) (n1 (ix2 (bRow N) l))) k)
    (H1 : ∀ (N : Fin 2048) (k : Fin 64), (V (main_v44_1 : DevRef τ sig) : S2048x128.Idx → EReal) (ix2 N (⟨64 + k.val, by have := k.isLt; omega⟩ : Fin 128))
      = ctHi A3 W10 b11 (clampRow 100000 (by decide) (n0 (ix1 (bRow N)))) k)
    (H2 : ∀ (l : Fin 50) (N : Fin 2048) (r : Fin 8),
      (FloatOps.sitofp (F := Ideal) .bf16 ((V (main_v43 : DevRef τ sig) : S50x2048x8.Idx → Elt Ideal .i8) (ix3 l N r)) : EReal) = onehot (n2 (ix2 (bRow N) l)) r)
    (H3 : ∀ (r : Fin 8) (m' : Fin 64), (V (main_v10 : DevRef τ sig) : S8x64.Idx → EReal) (ix2 r m') = A5pad A5 r m')
    (H4 : ∀ (m' k : Fin 64), (V (main_v47 : DevRef τ sig) : S64x64.Idx → EReal) (ix2 m' k) = W6 (ix2 k (⟨64 + m'.val, by have := m'.isLt; omega⟩ : Fin 128)))
    (H5 : ∀ k : Fin 64, (V (main_v48 : DevRef τ sig) : S1x64.Idx → EReal) (ix2 (0 : Fin 1) k) = b7 (ix1 k))
    (H6 : ∀ k f : Fin 64, (V (main_v50 : DevRef τ sig) : S64x64.Idx → EReal) (ix2 k f) = W8 (ix2 f k))
    (H7 : ∀ f : Fin 64, (V (main_v52 : DevRef τ sig) : S1x64.Idx → EReal) (ix2 (0 : Fin 1) f) = b9 (ix1 f))
    (H8 : ∀ j k : Fin 64, (V (main_v55 : DevRef τ sig) : S64x64.Idx → EReal) (ix2 j k) = W10 (ix2 k (⟨j.val, by have := j.isLt; omega⟩ : Fin 128)))
    (H9 : ∀ k f : Fin 64, (V (main_v57 : DevRef τ sig) : S64x64.Idx → EReal) (ix2 k f) = W12 (ix2 f k))
    (H10 : ∀ f : Fin 64, (V (main_v59 : DevRef τ sig) : S1x64.Idx → EReal) (ix2 (0 : Fin 1) f) = b13 (ix1 f))
    (H11 : ∀ f : Fin 64, (V (main_v60 : DevRef τ sig) : S1x64.Idx → EReal) (ix2 (0 : Fin 1) f) = w14 (ix2 (⟨0, Nat.one_pos⟩ : Fin 1) f))
    (H12 : (V (main_v61 : DevRef τ sig) : S1x1.Idx → EReal) (ix2 (0 : Fin 1) (0 : Fin 1)) = b15 (ix1 (⟨0, Nat.one_pos⟩ : Fin 1)))
    (i : S2048x64.Idx) :
    (e2 (F := Ideal) d V (main_v62 : DevRef τ sig) : S2048x64.Idx → EReal) i
      = GK n0 n1 n2 A3 A4 A5 W6 b7 W8 b9 W10 b11 W12 b13 w14 b15 (bRow (i 0)) (i 1) := by
  unfold e2
  exact exitW4_spec n0 n1 n2 A3 A4 A5 W6 b7 W8 b9 W10 b11 W12 b13 w14 b15 (Name := ℕ) (U := UU) (Lvl := ℕ) (fun _ => V) (OtcAt (F := Ideal) 2) (BelowAt (F := Ideal) 2) d bRow
    (fun i' => G4_13_spec n0 n1 n2 A3 A4 A5 W6 b7 W8 b9 W10 b11 W12 b13 w14 b15 d (fun w => valTc (fun _ => V) d (Pipeline.arrRef spec4 w)) bRow
      H0 H1 H2 H3 H4 H5 H6 H7 H8 H9 H10 H11 H12 i') i

end Cert.Proof.KI

end
-- ==== Proof.TcPlug2.lean ====
/-
  The second TensorCore call on the valuation @main reaches: rows 0 … 2047 of the result.

  @main reaches the second TensorCore call with the buffers at a definite valuation, a function of the
  launch memory, whose thirteen operand arrays satisfy the index equations.  So the call's output is
  the specification's kernel arrangement of the program's sixteen arguments, at batch rows 0 … 2047.
-/
import proofs.«217981_g19061064860210_cont_8to1_1320_37_alg».proof.Proof.TcPlug
import proofs.«217981_g19061064860210_cont_8to1_1320_37_alg».proof.Proof.KPureFin

set_option maxRecDepth 16384

noncomputable section

namespace Cert.Proof.KI

open Cert.KernelIdeal Cert.KernelIdeal.Gen Cert.KernelIdeal.Tc Cert.KernelIdeal.MainSegs Cert.Proof.Spec
open Idealize.ShloMosaic Idealize.ShloMosaic.TcCoe Idealize.ShloMosaic.ValueIdx
open Idealize.ShloMosaic.SparseCore (S V T)
open Idealize.SL.Sem
open Idealize.ShloMosaic.StableHlo (held after seq)

variable (m : (ℓ : Loc nD τ sig) → Buf (Elt Ideal) ℓ)
  (hA1 : ∀ d j, BitVec.toNat ((m (d, (main_arg1 : DevRef τ sig)) : (⟨S4096x50, .i32⟩ : BufTy).Contents (Elt Ideal)) j) < 100000)
  (hA0 : ∀ d j, BitVec.toNat ((m (d, (main_arg0 : DevRef τ sig)) : (⟨S4096, .i32⟩ : BufTy).Contents (Elt Ideal)) j) < 100000)

set_option maxHeartbeats 4000000 in
/-- The second TensorCore call's output on the valuation @main reaches: the kernel arrangement of the launch
    memory's sixteen arguments at batch row i 0 (< 2048). -/
theorem first_half (d : Dev nD) (i : S2048x64.Idx) :
    (e1 (F := Ideal) d (Wr1 m hA1 hA0 d) (main_v36 : DevRef τ sig) : S2048x64.Idx → EReal) i
      = GK (m (d, (main_arg0 : DevRef τ sig))) (m (d, (main_arg1 : DevRef τ sig))) (m (d, (main_arg2 : DevRef τ sig))) (m (d, (main_arg3 : DevRef τ sig))) (m (d, (main_arg4 : DevRef τ sig))) (m (d, (main_arg5 : DevRef τ sig))) (m (d, (main_arg6 : DevRef τ sig))) (m (d, (main_arg7 : DevRef τ sig))) (m (d, (main_arg8 : DevRef τ sig))) (m (d, (main_arg9 : DevRef τ sig))) (m (d, (main_arg10 : DevRef τ sig))) (m (d, (main_arg11 : DevRef τ sig))) (m (d, (main_arg12 : DevRef τ sig))) (m (d, (main_arg13 : DevRef τ sig))) (m (d, (main_arg14 : DevRef τ sig))) (m (d, (main_arg15 : DevRef τ sig)))
          (⟨(i 0).val, by have : (i 0).val < 2048 := (i 0).isLt; omega⟩ : Fin 4096) (i 1) :=
  plug2 (m (d, (main_arg0 : DevRef τ sig))) (m (d, (main_arg1 : DevRef τ sig))) (m (d, (main_arg2 : DevRef τ sig))) (m (d, (main_arg3 : DevRef τ sig))) (m (d, (main_arg4 : DevRef τ sig))) (m (d, (main_arg5 : DevRef τ sig))) (m (d, (main_arg6 : DevRef τ sig))) (m (d, (main_arg7 : DevRef τ sig))) (m (d, (main_arg8 : DevRef τ sig))) (m (d, (main_arg9 : DevRef τ sig))) (m (d, (main_arg10 : DevRef τ sig))) (m (d, (main_arg11 : DevRef τ sig))) (m (d, (main_arg12 : DevRef τ sig))) (m (d, (main_arg13 : DevRef τ sig))) (m (d, (main_arg14 : DevRef τ sig))) (m (d, (main_arg15 : DevRef τ sig)))
    (Wr1 m hA1 hA0 d) d (fun N => (⟨N.val, by have := N.isLt; omega⟩ : Fin 4096))
    (r1_HA0 m hA1 hA0 d) (r1_HA1 m hA1 hA0 d) (r1_HA2 m hA1 hA0 d) (r1_HA3 m hA1 hA0 d) (r1_HA4 m hA1 hA0 d) (r1_HA5 m hA1 hA0 d)
    (r1_HA6 m hA1 hA0 d) (r1_HA7 m hA1 hA0 d) (r1_HA8 m hA1 hA0 d) (r1_HA9 m hA1 hA0 d) (r1_HA10 m hA1 hA0 d) (r1_HA11 m hA1 hA0 d)
    (r1_HA12 m hA1 hA0 d) i

end Cert.Proof.KI

end
-- ==== Proof.KPureGoal.lean ====
/-
  The pure equation: the final valuation of @main's walk at its result buffer is the target — the kernel's
  arrangement of the launch memory's arguments at every index. The result is the two regions' outputs stacked; each
  region's output is the kernel's arrangement for its half of the batch, by the region's value lemma applied to the
  index equations of the valuation it enters with.
-/
import proofs.«217981_g19061064860210_cont_8to1_1320_37_alg».proof.Proof.KPureFin2
import proofs.«217981_g19061064860210_cont_8to1_1320_37_alg».proof.Proof.TcPlug2
import proofs.«217981_g19061064860210_cont_8to1_1320_37_alg».proof.Proof.ScVFrame

noncomputable section

namespace Cert.Proof.KI

open Cert.KernelIdeal Cert.KernelIdeal.Gen Cert.KernelIdeal.Tc Cert.Proof.Spec
open Idealize.ShloMosaic
open Idealize.SL.Sem
open Idealize.ShloMosaic.StableHlo (held after seq)
open Idealize.ShloMosaic.TcCoe
open Idealize.ShloMosaic.ValueIdx
open Cert.KernelIdeal.MainSegs

variable (m : (ℓ : Loc nD τ sig) → Buf (Elt Ideal) ℓ)
  (hA1 : ∀ d j, BitVec.toNat ((m (d, (main_arg1 : DevRef τ sig)) : (⟨S4096x50, .i32⟩ : BufTy).Contents (Elt Ideal)) j) < 100000)
  (hA0 : ∀ d j, BitVec.toNat ((m (d, (main_arg0 : DevRef τ sig)) : (⟨S4096, .i32⟩ : BufTy).Contents (Elt Ideal)) j) < 100000)

/-- THE SECOND HALF: the third region's output, row `N`, is the kernel's arrangement for batch row `2048 + N`. -/
theorem second_half (d : Dev nD) (i : S2048x64.Idx) :
    (e2 (F := Ideal) d (Wr2 m hA1 hA0 d) (main_v62 : DevRef τ sig) : S2048x64.Idx → EReal) i
      = GK (m (d, (main_arg0 : DevRef τ sig))) (m (d, (main_arg1 : DevRef τ sig))) (m (d, (main_arg2 : DevRef τ sig)))
      (m (d, (main_arg3 : DevRef τ sig))) (m (d, (main_arg4 : DevRef τ sig))) (m (d, (main_arg5 : DevRef τ sig)))
      (m (d, (main_arg6 : DevRef τ sig))) (m (d, (main_arg7 : DevRef τ sig))) (m (d, (main_arg8 : DevRef τ sig)))
      (m (d, (main_arg9 : DevRef τ sig))) (m (d, (main_arg10 : DevRef τ sig))) (m (d, (main_arg11 : DevRef τ sig)))
      (m (d, (main_arg12 : DevRef τ sig))) (m (d, (main_arg13 : DevRef τ sig))) (m (d, (main_arg14 : DevRef τ sig)))
      (m (d, (main_arg15 : DevRef τ sig)))
          (⟨2048 + (i 0).val, by have h : (i 0).val < 2048 := (i 0).isLt; omega⟩ : Fin 4096) (i 1) :=
  plug4 (m (d, (main_arg0 : DevRef τ sig))) (m (d, (main_arg1 : DevRef τ sig))) (m (d, (main_arg2 : DevRef τ sig))) (m (d, (main_arg3 : DevRef τ sig))) (m (d, (main_arg4 : DevRef τ sig))) (m (d, (main_arg5 : DevRef τ sig))) (m (d, (main_arg6 : DevRef τ sig))) (m (d, (main_arg7 : DevRef τ sig))) (m (d, (main_arg8 : DevRef τ sig))) (m (d, (main_arg9 : DevRef τ sig))) (m (d, (main_arg10 : DevRef τ sig))) (m (d, (main_arg11 : DevRef τ sig))) (m (d, (main_arg12 : DevRef τ sig))) (m (d, (main_arg13 : DevRef τ sig))) (m (d, (main_arg14 : DevRef τ sig))) (m (d, (main_arg15 : DevRef τ sig))) (Wr2 m hA1 hA0 d) d (fun N : Fin 2048 => (⟨2048 + N.val, by have := N.isLt; omega⟩ : Fin 4096))
    (r2_HA0 m hA1 hA0 d) (r2_HA1 m hA1 hA0 d) (r2_HA2 m hA1 hA0 d) (r2_HA3 m hA1 hA0 d) (r2_HA4 m hA1 hA0 d) (r2_HA5 m hA1 hA0 d)
    (r2_HA6 m hA1 hA0 d) (r2_HA7 m hA1 hA0 d) (r2_HA8 m hA1 hA0 d) (r2_HA9 m hA1 hA0 d) (r2_HA10 m hA1 hA0 d) (r2_HA11 m hA1 hA0 d)
    (r2_HA12 m hA1 hA0 d) i

/-- The result of @main's walk is the kernel's arrangement of the launch memory's arguments at every index. -/
theorem wfin_eq_GK (d : Dev nD) :
    (Wfin (F := Ideal) m (e0 (F := Ideal)) (e1 (F := Ideal)) (e2 (F := Ideal)) (fun d V k => e0_args d V k) (fun d V k => e1_args d V k) hA1 hA0 d (main_v63 : DevRef τ sig) : S4096x64.Idx → EReal)
      = fun j => GK (m (d, (main_arg0 : DevRef τ sig))) (m (d, (main_arg1 : DevRef τ sig))) (m (d, (main_arg2 : DevRef τ sig)))
      (m (d, (main_arg3 : DevRef τ sig))) (m (d, (main_arg4 : DevRef τ sig))) (m (d, (main_arg5 : DevRef τ sig)))
      (m (d, (main_arg6 : DevRef τ sig))) (m (d, (main_arg7 : DevRef τ sig))) (m (d, (main_arg8 : DevRef τ sig)))
      (m (d, (main_arg9 : DevRef τ sig))) (m (d, (main_arg10 : DevRef τ sig))) (m (d, (main_arg11 : DevRef τ sig)))
      (m (d, (main_arg12 : DevRef τ sig))) (m (d, (main_arg13 : DevRef τ sig))) (m (d, (main_arg14 : DevRef τ sig)))
      (m (d, (main_arg15 : DevRef τ sig)))
          (j 0) (j 1) :=
  pure_of_halves m hA1 hA0 (fun d i => first_half m hA1 hA0 d i) (fun d i => second_half m hA1 hA0 d i) d

/-- THE PURE EQUATION. -/
theorem pure_goal (m : (ℓ : Loc nD τ sig) → Buf (Elt Ideal) ℓ)
    (hpre : Cert.Pre_KernelIdeal (hPre_input_domain := Cert.Pre_input_domain.Gen.facts) m) (c : Dev nD) :
    WfinI m hpre c (main_v63 : DevRef τ sig) = target m c := by
  unfold WfinI target
  exact wfin_eq_GK m (fun d => pre_arg1_lt m hpre d) (fun d => pre_arg0_lt m hpre d) c

/-- The value conjunct. -/
theorem algebraic_KI : Cert.algebraic_KernelIdeal_ReferenceIdeal (hKernelIdeal := Cert.KernelIdeal.Gen.facts)
    (hReferenceIdeal := Cert.ReferenceIdeal.Gen.facts) (hPre_input_domain := Cert.Pre_input_domain.Gen.facts) :=
  algebraic_of_pure pure_goal

end Cert.Proof.KI

end
-- ==== Proof.lean ====
/- The proof of `Cert.Claim` (proofs.«217981_g19061064860210_cont_8to1_1320_37_alg».proof.Defs) — frame_Kernel ∧ frame_KernelIdeal ∧ frame_ReferenceIdeal ∧ preserves_Kernel_KernelIdeal ∧ algebraic_KernelIdeal_ReferenceIdeal —: hand-written, untrusted.
   The three frames: the kernel program at both float instances by the SparseCore launch theorem (Proof/ScFrame.lean, Proof/WScFrame.lean:
   the two gather calls' tasks, the three TensorCore regions' steps, @main's host stretches), the reference by its run as a straight line
   of host operations (Proof/RefRun.lean). The idealization rewrote no operation (the fourth conjunct is `True`). The value claim: the
   reference's run ends at the specification G (Proof/RefValue.lean), the kernel program's run ends with its result at the final valuation of
   @main's walk with values (Proof/ScVFrame.lean), that valuation's result is the kernel's arrangement GK of the arguments
   (Proof/KPureGoal.lean), and GK = G under the precondition (Proof/KSpec.lean). -/
import proofs.«217981_g19061064860210_cont_8to1_1320_37_alg».proof.Defs
import proofs.«217981_g19061064860210_cont_8to1_1320_37_alg».proof.Proof.ScFrame
import proofs.«217981_g19061064860210_cont_8to1_1320_37_alg».proof.Proof.WScFrame
import proofs.«217981_g19061064860210_cont_8to1_1320_37_alg».proof.Proof.RefRun
import proofs.«217981_g19061064860210_cont_8to1_1320_37_alg».proof.Proof.KAlgebraic
import proofs.«217981_g19061064860210_cont_8to1_1320_37_alg».proof.Proof.ScVFrame
import proofs.«217981_g19061064860210_cont_8to1_1320_37_alg».proof.Proof.KPureGoal
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_input_domain.Gen.facts, by
  refine ⟨Cert.Proof.KW.frame_kernel, Cert.Proof.KI.frame_kernelIdeal, Cert.ReferenceIdeal.RefRun.frame_ri, trivial,
    Cert.Proof.KI.algebraic_of_pure Cert.Proof.KI.pure_goal⟩⟩

end Cert.Proof

end
